-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x64 : Shape := ⟨2, ![1000000, 64]⟩
abbrev S16x64 : Shape := ⟨2, ![16, 64]⟩
abbrev S1000000 : Shape := ⟨1, ![1000000]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x64 .f32) (main_arg1 : FVec F S16x64 .f32) (main_arg2 : IVec S1000000 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg2 main_v9
  let main_c_3 : IVec S_ 32 := constantI S_ 32 15#32
  let main_v11 : IVec S1000000 32 := broadcastInDim S1000000 ![] bcast_S_S1000000 main_c_3
  let main_v12 : IVec S1000000 1 := cmpi .sle main_arg2 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_v15 : IVec S_ 1 := andi main_v8 main_v14
  main_v15
-- ==== Kernel.lean ====
abbrev S1000000x64 : Shape := ⟨2, ![1000000, 64]⟩
abbrev S16x64 : Shape := ⟨2, ![16, 64]⟩
abbrev S1000000 : Shape := ⟨1, ![1000000]⟩
abbrev S64000000 : Shape := ⟨1, ![64000000]⟩
abbrev S1024 : Shape := ⟨1, ![1024]⟩
abbrev S25600 : Shape := ⟨1, ![25600]⟩
abbrev S400 : Shape := ⟨1, ![400]⟩
abbrev S3 : Shape := ⟨1, ![3]⟩
abbrev S_ : Shape := ⟨0, ![]⟩
abbrev S1 : Shape := ⟨1, ![1]⟩
abbrev S16 : Shape := ⟨1, ![16]⟩

abbrev nBuf : Table → Nat
  | .hbm => 7
  | .local .scVector .vmem => 7
  | _ => 0

abbrev bufTy : (tb : Table) → Fin (nBuf tb) → BufTy
  | .hbm, ⟨0, _⟩ => ⟨S1000000x64, .f32⟩
  | .hbm, ⟨1, _⟩ => ⟨S16x64, .f32⟩
  | .hbm, ⟨2, _⟩ => ⟨S1000000, .i32⟩
  | .hbm, ⟨3, _⟩ => ⟨S64000000, .f32⟩
  | .hbm, ⟨4, _⟩ => ⟨S1024, .f32⟩
  | .hbm, ⟨5, _⟩ => ⟨S64000000, .f32⟩
  | .hbm, ⟨6, _⟩ => ⟨S1000000x64, .f32⟩
  | .local .scVector .vmem, ⟨0, _⟩ => ⟨S1024, .f32⟩
  | .local .scVector .vmem, ⟨1, _⟩ => ⟨S25600, .f32⟩
  | .local .scVector .vmem, ⟨2, _⟩ => ⟨S25600, .f32⟩
  | .local .scVector .vmem, ⟨3, _⟩ => ⟨S25600, .f32⟩
  | .local .scVector .vmem, ⟨4, _⟩ => ⟨S400, .i32⟩
  | .local .scVector .vmem, ⟨5, _⟩ => ⟨S400, .i32⟩
  | .local .scVector .vmem, ⟨6, _⟩ => ⟨S400, .i32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi v1 c0_i32_6
  let c25600_i32 : BitVec 32 := 25600#32
  let v23 : BitVec 32 := Scalar.muli v22 c25600_i32
  ![v23.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let v22 : BitVec 32 := Scalar.addi v1 c0_i32_6
  let c400_i32 : BitVec 32 := 400#32
  let v28 : BitVec 32 := Scalar.muli v22 c400_i32
  ![v28.toNat]
def k0_cond1 (i : grid0.Coords) : BitVec 1 :=
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c1_i32_9 : BitVec 32 := 1#32
  let v33 : BitVec 1 := Scalar.cmpi .sgt v21 c1_i32_9
  let v34 : BitVec 32 := Scalar.extui v33
  let c0_i32_10 : BitVec 32 := 0#32
  let v35 : BitVec 1 := Scalar.cmpi .ne v34 c0_i32_10
  v35

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_79 : BitVec 32 := 32#32
  let v130 : BitVec 32 := Scalar.addi v1 c32_i32_79
  let c25600_i32_80 : BitVec 32 := 25600#32
  let v131 : BitVec 32 := Scalar.muli v130 c25600_i32_80
  ![v131.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_79 : BitVec 32 := 32#32
  let v130 : BitVec 32 := Scalar.addi v1 c32_i32_79
  let c400_i32_82 : BitVec 32 := 400#32
  let v136 : BitVec 32 := Scalar.muli v130 c400_i32_82
  ![v136.toNat]
@[reducible] def k0_t1_loop : Scf.Loop 32 :=
  let c0_i32_18 : BitVec 32 := 0#32
  let c25_i32 : BitVec 32 := 25#32
  let v44 : BitVec 32 := Scalar.addi c0_i32_18 c25_i32
  let c1_i32_19 : BitVec 32 := 1#32
  ⟨c0_i32_18, v44, c1_i32_19⟩
def k0_off5 (k0_t1 : Fin k0_t1_loop.trips) : Fin 1 → Nat :=
  let c0_i32_18 : BitVec 32 := 0#32
  let c1_i32_19 : BitVec 32 := 1#32
  let arg16 : BitVec 32 := Scf.iv c0_i32_18 c1_i32_19 k0_t1
  let c16_i32 : BitVec 32 := 16#32
  let v130 : BitVec 32 := Scalar.muli arg16 c16_i32
  let v131 : Index := Scalar.indexCast v130
  ![v131.toNat]
def k0_off6 (k0_t1 : Fin k0_t1_loop.trips) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let c0_i32_80 : BitVec 32 := 0#32
  let v138 : BitVec 32 := Scalar.addi v134 c0_i32_80
  let c0_i32_81 : BitVec 32 := 0#32
  let v139 : BitVec 32 := Scalar.addi v138 c0_i32_81
  let v140 : Index := Scalar.indexCast v139
  ![v140.toNat]
def k0_off7 (v136 : BitVec 32) (c0_i32_82 : BitVec 32) : Fin 1 → Nat :=
  let c64_i32_79 : BitVec 32 := 64#32
  let v137 : BitVec 32 := Scalar.muli v136 c64_i32_79
  let v143 : BitVec 32 := Scalar.addi v137 c0_i32_82
  let v144 : Index := Scalar.indexCast v143
  ![v144.toNat]

def k0_chk1 (v136 : BitVec 32) : Prop :=
  (∀ (r : Fin 4), ∀ a, (k0_off7 v136 (BitVec.ofNat 32 (16 * r.val))) a + S16.size a ≤ S1024.size a)
instance k0_chk1.dec : ∀ (v136 : BitVec 32), Decidable (k0_chk1 v136) := fun v136 => decidable_of_iff' _ (Iff.of_eq (k0_chk1.eq_1 v136))
theorem k0_off7_inb : ∀ (v136 : BitVec 32) (k0_hw1 : k0_chk1 v136), ∀ (r : Fin 4), ∀ a, (k0_off7 v136 (BitVec.ofNat 32 (16 * r.val))) a + S16.size a ≤ S1024.size a := fun v136 k0_hw1 r => k0_hw1 r

def k0_off8 (k0_t1 : Fin k0_t1_loop.trips) (c0_i32_80 : BitVec 32) (c0_i32_81 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v138 : BitVec 32 := Scalar.addi v134 c0_i32_80
  let v139 : BitVec 32 := Scalar.addi v138 c0_i32_81
  let v148 : Index := Scalar.indexCast v139
  ![v148.toNat]
def k0_off8_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off9 (v192 : BitVec 32) (c0_i32_91 : BitVec 32) : Fin 1 → Nat :=
  let c64_i32_88 : BitVec 32 := 64#32
  let v193 : BitVec 32 := Scalar.muli v192 c64_i32_88
  let v199 : BitVec 32 := Scalar.addi v193 c0_i32_91
  let v200 : Index := Scalar.indexCast v199
  ![v200.toNat]

def k0_chk2 (v192 : BitVec 32) : Prop :=
  (∀ (r : Fin 4), ∀ a, (k0_off9 v192 (BitVec.ofNat 32 (16 * r.val))) a + S16.size a ≤ S1024.size a)
instance k0_chk2.dec : ∀ (v192 : BitVec 32), Decidable (k0_chk2 v192) := fun v192 => decidable_of_iff' _ (Iff.of_eq (k0_chk2.eq_1 v192))
theorem k0_off9_inb : ∀ (v192 : BitVec 32) (k0_hw2 : k0_chk2 v192), ∀ (r : Fin 4), ∀ a, (k0_off9 v192 (BitVec.ofNat 32 (16 * r.val))) a + S16.size a ≤ S1024.size a := fun v192 k0_hw2 r => k0_hw2 r

def k0_off10 (k0_t1 : Fin k0_t1_loop.trips) (c64_i32_89 : BitVec 32) (c0_i32_90 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v194 : BitVec 32 := Scalar.addi v134 c64_i32_89
  let v195 : BitVec 32 := Scalar.addi v194 c0_i32_90
  let v204 : Index := Scalar.indexCast v195
  ![v204.toNat]
def k0_off10_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off11 (v248 : BitVec 32) (c0_i32_100 : BitVec 32) : Fin 1 → Nat :=
  let c64_i32_98 : BitVec 32 := 64#32
  let v249 : BitVec 32 := Scalar.muli v248 c64_i32_98
  let v255 : BitVec 32 := Scalar.addi v249 c0_i32_100
  let v256 : Index := Scalar.indexCast v255
  ![v256.toNat]

def k0_chk3 (v248 : BitVec 32) : Prop :=
  (∀ (r : Fin 4), ∀ a, (k0_off11 v248 (BitVec.ofNat 32 (16 * r.val))) a + S16.size a ≤ S1024.size a)
instance k0_chk3.dec : ∀ (v248 : BitVec 32), Decidable (k0_chk3 v248) := fun v248 => decidable_of_iff' _ (Iff.of_eq (k0_chk3.eq_1 v248))
theorem k0_off11_inb : ∀ (v248 : BitVec 32) (k0_hw3 : k0_chk3 v248), ∀ (r : Fin 4), ∀ a, (k0_off11 v248 (BitVec.ofNat 32 (16 * r.val))) a + S16.size a ≤ S1024.size a := fun v248 k0_hw3 r => k0_hw3 r

def k0_off12 (k0_t1 : Fin k0_t1_loop.trips) (c128_i32 : BitVec 32) (c0_i32_99 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v250 : BitVec 32 := Scalar.addi v134 c128_i32
  let v251 : BitVec 32 := Scalar.addi v250 c0_i32_99
  let v260 : Index := Scalar.indexCast v251
  ![v260.toNat]
def k0_off12_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off13 (v304 : BitVec 32) (c0_i32_109 : BitVec 32) : Fin 1 → Nat :=
  let c64_i32_107 : BitVec 32 := 64#32
  let v305 : BitVec 32 := Scalar.muli v304 c64_i32_107
  let v311 : BitVec 32 := Scalar.addi v305 c0_i32_109
  let v312 : Index := Scalar.indexCast v311
  ![v312.toNat]

def k0_chk4 (v304 : BitVec 32) : Prop :=
  (∀ (r : Fin 4), ∀ a, (k0_off13 v304 (BitVec.ofNat 32 (16 * r.val))) a + S16.size a ≤ S1024.size a)
instance k0_chk4.dec : ∀ (v304 : BitVec 32), Decidable (k0_chk4 v304) := fun v304 => decidable_of_iff' _ (Iff.of_eq (k0_chk4.eq_1 v304))
theorem k0_off13_inb : ∀ (v304 : BitVec 32) (k0_hw4 : k0_chk4 v304), ∀ (r : Fin 4), ∀ a, (k0_off13 v304 (BitVec.ofNat 32 (16 * r.val))) a + S16.size a ≤ S1024.size a := fun v304 k0_hw4 r => k0_hw4 r

def k0_off14 (k0_t1 : Fin k0_t1_loop.trips) (c192_i32 : BitVec 32) (c0_i32_108 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v306 : BitVec 32 := Scalar.addi v134 c192_i32
  let v307 : BitVec 32 := Scalar.addi v306 c0_i32_108
  let v316 : Index := Scalar.indexCast v307
  ![v316.toNat]
def k0_off14_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off15 (v360 : BitVec 32) (c0_i32_118 : BitVec 32) : Fin 1 → Nat :=
  let c64_i32_116 : BitVec 32 := 64#32
  let v361 : BitVec 32 := Scalar.muli v360 c64_i32_116
  let v367 : BitVec 32 := Scalar.addi v361 c0_i32_118
  let v368 : Index := Scalar.indexCast v367
  ![v368.toNat]

def k0_chk5 (v360 : BitVec 32) : Prop :=
  (∀ (r : Fin 4), ∀ a, (k0_off15 v360 (BitVec.ofNat 32 (16 * r.val))) a + S16.size a ≤ S1024.size a)
instance k0_chk5.dec : ∀ (v360 : BitVec 32), Decidable (k0_chk5 v360) := fun v360 => decidable_of_iff' _ (Iff.of_eq (k0_chk5.eq_1 v360))
theorem k0_off15_inb : ∀ (v360 : BitVec 32) (k0_hw5 : k0_chk5 v360), ∀ (r : Fin 4), ∀ a, (k0_off15 v360 (BitVec.ofNat 32 (16 * r.val))) a + S16.size a ≤ S1024.size a := fun v360 k0_hw5 r => k0_hw5 r

def k0_off16 (k0_t1 : Fin k0_t1_loop.trips) (c256_i32 : BitVec 32) (c0_i32_117 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v362 : BitVec 32 := Scalar.addi v134 c256_i32
  let v363 : BitVec 32 := Scalar.addi v362 c0_i32_117
  let v372 : Index := Scalar.indexCast v363
  ![v372.toNat]
def k0_off16_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off17 (v416 : BitVec 32) (c0_i32_127 : BitVec 32) : Fin 1 → Nat :=
  let c64_i32_125 : BitVec 32 := 64#32
  let v417 : BitVec 32 := Scalar.muli v416 c64_i32_125
  let v423 : BitVec 32 := Scalar.addi v417 c0_i32_127
  let v424 : Index := Scalar.indexCast v423
  ![v424.toNat]

def k0_chk6 (v416 : BitVec 32) : Prop :=
  (∀ (r : Fin 4), ∀ a, (k0_off17 v416 (BitVec.ofNat 32 (16 * r.val))) a + S16.size a ≤ S1024.size a)
instance k0_chk6.dec : ∀ (v416 : BitVec 32), Decidable (k0_chk6 v416) := fun v416 => decidable_of_iff' _ (Iff.of_eq (k0_chk6.eq_1 v416))
theorem k0_off17_inb : ∀ (v416 : BitVec 32) (k0_hw6 : k0_chk6 v416), ∀ (r : Fin 4), ∀ a, (k0_off17 v416 (BitVec.ofNat 32 (16 * r.val))) a + S16.size a ≤ S1024.size a := fun v416 k0_hw6 r => k0_hw6 r

def k0_off18 (k0_t1 : Fin k0_t1_loop.trips) (c320_i32 : BitVec 32) (c0_i32_126 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v418 : BitVec 32 := Scalar.addi v134 c320_i32
  let v419 : BitVec 32 := Scalar.addi v418 c0_i32_126
  let v428 : Index := Scalar.indexCast v419
  ![v428.toNat]
def k0_off18_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off19 (v472 : BitVec 32) (c0_i32_136 : BitVec 32) : Fin 1 → Nat :=
  let c64_i32_134 : BitVec 32 := 64#32
  let v473 : BitVec 32 := Scalar.muli v472 c64_i32_134
  let v479 : BitVec 32 := Scalar.addi v473 c0_i32_136
  let v480 : Index := Scalar.indexCast v479
  ![v480.toNat]

def k0_chk7 (v472 : BitVec 32) : Prop :=
  (∀ (r : Fin 4), ∀ a, (k0_off19 v472 (BitVec.ofNat 32 (16 * r.val))) a + S16.size a ≤ S1024.size a)
instance k0_chk7.dec : ∀ (v472 : BitVec 32), Decidable (k0_chk7 v472) := fun v472 => decidable_of_iff' _ (Iff.of_eq (k0_chk7.eq_1 v472))
theorem k0_off19_inb : ∀ (v472 : BitVec 32) (k0_hw7 : k0_chk7 v472), ∀ (r : Fin 4), ∀ a, (k0_off19 v472 (BitVec.ofNat 32 (16 * r.val))) a + S16.size a ≤ S1024.size a := fun v472 k0_hw7 r => k0_hw7 r

def k0_off20 (k0_t1 : Fin k0_t1_loop.trips) (c384_i32 : BitVec 32) (c0_i32_135 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v474 : BitVec 32 := Scalar.addi v134 c384_i32
  let v475 : BitVec 32 := Scalar.addi v474 c0_i32_135
  let v484 : Index := Scalar.indexCast v475
  ![v484.toNat]
def k0_off20_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off21 (v528 : BitVec 32) (c0_i32_145 : BitVec 32) : Fin 1 → Nat :=
  let c64_i32_143 : BitVec 32 := 64#32
  let v529 : BitVec 32 := Scalar.muli v528 c64_i32_143
  let v535 : BitVec 32 := Scalar.addi v529 c0_i32_145
  let v536 : Index := Scalar.indexCast v535
  ![v536.toNat]

def k0_chk8 (v528 : BitVec 32) : Prop :=
  (∀ (r : Fin 4), ∀ a, (k0_off21 v528 (BitVec.ofNat 32 (16 * r.val))) a + S16.size a ≤ S1024.size a)
instance k0_chk8.dec : ∀ (v528 : BitVec 32), Decidable (k0_chk8 v528) := fun v528 => decidable_of_iff' _ (Iff.of_eq (k0_chk8.eq_1 v528))
theorem k0_off21_inb : ∀ (v528 : BitVec 32) (k0_hw8 : k0_chk8 v528), ∀ (r : Fin 4), ∀ a, (k0_off21 v528 (BitVec.ofNat 32 (16 * r.val))) a + S16.size a ≤ S1024.size a := fun v528 k0_hw8 r => k0_hw8 r

def k0_off22 (k0_t1 : Fin k0_t1_loop.trips) (c448_i32 : BitVec 32) (c0_i32_144 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v530 : BitVec 32 := Scalar.addi v134 c448_i32
  let v531 : BitVec 32 := Scalar.addi v530 c0_i32_144
  let v540 : Index := Scalar.indexCast v531
  ![v540.toNat]
def k0_off22_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off23 (v584 : BitVec 32) (c0_i32_154 : BitVec 32) : Fin 1 → Nat :=
  let c64_i32_152 : BitVec 32 := 64#32
  let v585 : BitVec 32 := Scalar.muli v584 c64_i32_152
  let v591 : BitVec 32 := Scalar.addi v585 c0_i32_154
  let v592 : Index := Scalar.indexCast v591
  ![v592.toNat]

def k0_chk9 (v584 : BitVec 32) : Prop :=
  (∀ (r : Fin 4), ∀ a, (k0_off23 v584 (BitVec.ofNat 32 (16 * r.val))) a + S16.size a ≤ S1024.size a)
instance k0_chk9.dec : ∀ (v584 : BitVec 32), Decidable (k0_chk9 v584) := fun v584 => decidable_of_iff' _ (Iff.of_eq (k0_chk9.eq_1 v584))
theorem k0_off23_inb : ∀ (v584 : BitVec 32) (k0_hw9 : k0_chk9 v584), ∀ (r : Fin 4), ∀ a, (k0_off23 v584 (BitVec.ofNat 32 (16 * r.val))) a + S16.size a ≤ S1024.size a := fun v584 k0_hw9 r => k0_hw9 r

def k0_off24 (k0_t1 : Fin k0_t1_loop.trips) (c512_i32 : BitVec 32) (c0_i32_153 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v586 : BitVec 32 := Scalar.addi v134 c512_i32
  let v587 : BitVec 32 := Scalar.addi v586 c0_i32_153
  let v596 : Index := Scalar.indexCast v587
  ![v596.toNat]
def k0_off24_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off25 (v640 : BitVec 32) (c0_i32_163 : BitVec 32) : Fin 1 → Nat :=
  let c64_i32_161 : BitVec 32 := 64#32
  let v641 : BitVec 32 := Scalar.muli v640 c64_i32_161
  let v647 : BitVec 32 := Scalar.addi v641 c0_i32_163
  let v648 : Index := Scalar.indexCast v647
  ![v648.toNat]

def k0_chk10 (v640 : BitVec 32) : Prop :=
  (∀ (r : Fin 4), ∀ a, (k0_off25 v640 (BitVec.ofNat 32 (16 * r.val))) a + S16.size a ≤ S1024.size a)
instance k0_chk10.dec : ∀ (v640 : BitVec 32), Decidable (k0_chk10 v640) := fun v640 => decidable_of_iff' _ (Iff.of_eq (k0_chk10.eq_1 v640))
theorem k0_off25_inb : ∀ (v640 : BitVec 32) (k0_hw10 : k0_chk10 v640), ∀ (r : Fin 4), ∀ a, (k0_off25 v640 (BitVec.ofNat 32 (16 * r.val))) a + S16.size a ≤ S1024.size a := fun v640 k0_hw10 r => k0_hw10 r

def k0_off26 (k0_t1 : Fin k0_t1_loop.trips) (c576_i32 : BitVec 32) (c0_i32_162 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v642 : BitVec 32 := Scalar.addi v134 c576_i32
  let v643 : BitVec 32 := Scalar.addi v642 c0_i32_162
  let v652 : Index := Scalar.indexCast v643
  ![v652.toNat]
def k0_off26_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off27 (v696 : BitVec 32) (c0_i32_172 : BitVec 32) : Fin 1 → Nat :=
  let c64_i32_170 : BitVec 32 := 64#32
  let v697 : BitVec 32 := Scalar.muli v696 c64_i32_170
  let v703 : BitVec 32 := Scalar.addi v697 c0_i32_172
  let v704 : Index := Scalar.indexCast v703
  ![v704.toNat]

def k0_chk11 (v696 : BitVec 32) : Prop :=
  (∀ (r : Fin 4), ∀ a, (k0_off27 v696 (BitVec.ofNat 32 (16 * r.val))) a + S16.size a ≤ S1024.size a)
instance k0_chk11.dec : ∀ (v696 : BitVec 32), Decidable (k0_chk11 v696) := fun v696 => decidable_of_iff' _ (Iff.of_eq (k0_chk11.eq_1 v696))
theorem k0_off27_inb : ∀ (v696 : BitVec 32) (k0_hw11 : k0_chk11 v696), ∀ (r : Fin 4), ∀ a, (k0_off27 v696 (BitVec.ofNat 32 (16 * r.val))) a + S16.size a ≤ S1024.size a := fun v696 k0_hw11 r => k0_hw11 r

def k0_off28 (k0_t1 : Fin k0_t1_loop.trips) (c640_i32 : BitVec 32) (c0_i32_171 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v698 : BitVec 32 := Scalar.addi v134 c640_i32
  let v699 : BitVec 32 := Scalar.addi v698 c0_i32_171
  let v708 : Index := Scalar.indexCast v699
  ![v708.toNat]
def k0_off28_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off29 (v752 : BitVec 32) (c0_i32_181 : BitVec 32) : Fin 1 → Nat :=
  let c64_i32_179 : BitVec 32 := 64#32
  let v753 : BitVec 32 := Scalar.muli v752 c64_i32_179
  let v759 : BitVec 32 := Scalar.addi v753 c0_i32_181
  let v760 : Index := Scalar.indexCast v759
  ![v760.toNat]

def k0_chk12 (v752 : BitVec 32) : Prop :=
  (∀ (r : Fin 4), ∀ a, (k0_off29 v752 (BitVec.ofNat 32 (16 * r.val))) a + S16.size a ≤ S1024.size a)
instance k0_chk12.dec : ∀ (v752 : BitVec 32), Decidable (k0_chk12 v752) := fun v752 => decidable_of_iff' _ (Iff.of_eq (k0_chk12.eq_1 v752))
theorem k0_off29_inb : ∀ (v752 : BitVec 32) (k0_hw12 : k0_chk12 v752), ∀ (r : Fin 4), ∀ a, (k0_off29 v752 (BitVec.ofNat 32 (16 * r.val))) a + S16.size a ≤ S1024.size a := fun v752 k0_hw12 r => k0_hw12 r

def k0_off30 (k0_t1 : Fin k0_t1_loop.trips) (c704_i32 : BitVec 32) (c0_i32_180 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v754 : BitVec 32 := Scalar.addi v134 c704_i32
  let v755 : BitVec 32 := Scalar.addi v754 c0_i32_180
  let v764 : Index := Scalar.indexCast v755
  ![v764.toNat]
def k0_off30_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off31 (v808 : BitVec 32) (c0_i32_190 : BitVec 32) : Fin 1 → Nat :=
  let c64_i32_188 : BitVec 32 := 64#32
  let v809 : BitVec 32 := Scalar.muli v808 c64_i32_188
  let v815 : BitVec 32 := Scalar.addi v809 c0_i32_190
  let v816 : Index := Scalar.indexCast v815
  ![v816.toNat]

def k0_chk13 (v808 : BitVec 32) : Prop :=
  (∀ (r : Fin 4), ∀ a, (k0_off31 v808 (BitVec.ofNat 32 (16 * r.val))) a + S16.size a ≤ S1024.size a)
instance k0_chk13.dec : ∀ (v808 : BitVec 32), Decidable (k0_chk13 v808) := fun v808 => decidable_of_iff' _ (Iff.of_eq (k0_chk13.eq_1 v808))
theorem k0_off31_inb : ∀ (v808 : BitVec 32) (k0_hw13 : k0_chk13 v808), ∀ (r : Fin 4), ∀ a, (k0_off31 v808 (BitVec.ofNat 32 (16 * r.val))) a + S16.size a ≤ S1024.size a := fun v808 k0_hw13 r => k0_hw13 r

def k0_off32 (k0_t1 : Fin k0_t1_loop.trips) (c768_i32 : BitVec 32) (c0_i32_189 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v810 : BitVec 32 := Scalar.addi v134 c768_i32
  let v811 : BitVec 32 := Scalar.addi v810 c0_i32_189
  let v820 : Index := Scalar.indexCast v811
  ![v820.toNat]
def k0_off32_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off33 (v864 : BitVec 32) (c0_i32_199 : BitVec 32) : Fin 1 → Nat :=
  let c64_i32_197 : BitVec 32 := 64#32
  let v865 : BitVec 32 := Scalar.muli v864 c64_i32_197
  let v871 : BitVec 32 := Scalar.addi v865 c0_i32_199
  let v872 : Index := Scalar.indexCast v871
  ![v872.toNat]

def k0_chk14 (v864 : BitVec 32) : Prop :=
  (∀ (r : Fin 4), ∀ a, (k0_off33 v864 (BitVec.ofNat 32 (16 * r.val))) a + S16.size a ≤ S1024.size a)
instance k0_chk14.dec : ∀ (v864 : BitVec 32), Decidable (k0_chk14 v864) := fun v864 => decidable_of_iff' _ (Iff.of_eq (k0_chk14.eq_1 v864))
theorem k0_off33_inb : ∀ (v864 : BitVec 32) (k0_hw14 : k0_chk14 v864), ∀ (r : Fin 4), ∀ a, (k0_off33 v864 (BitVec.ofNat 32 (16 * r.val))) a + S16.size a ≤ S1024.size a := fun v864 k0_hw14 r => k0_hw14 r

def k0_off34 (k0_t1 : Fin k0_t1_loop.trips) (c832_i32 : BitVec 32) (c0_i32_198 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v866 : BitVec 32 := Scalar.addi v134 c832_i32
  let v867 : BitVec 32 := Scalar.addi v866 c0_i32_198
  let v876 : Index := Scalar.indexCast v867
  ![v876.toNat]
def k0_off34_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off35 (v920 : BitVec 32) (c0_i32_208 : BitVec 32) : Fin 1 → Nat :=
  let c64_i32_206 : BitVec 32 := 64#32
  let v921 : BitVec 32 := Scalar.muli v920 c64_i32_206
  let v927 : BitVec 32 := Scalar.addi v921 c0_i32_208
  let v928 : Index := Scalar.indexCast v927
  ![v928.toNat]

def k0_chk15 (v920 : BitVec 32) : Prop :=
  (∀ (r : Fin 4), ∀ a, (k0_off35 v920 (BitVec.ofNat 32 (16 * r.val))) a + S16.size a ≤ S1024.size a)
instance k0_chk15.dec : ∀ (v920 : BitVec 32), Decidable (k0_chk15 v920) := fun v920 => decidable_of_iff' _ (Iff.of_eq (k0_chk15.eq_1 v920))
theorem k0_off35_inb : ∀ (v920 : BitVec 32) (k0_hw15 : k0_chk15 v920), ∀ (r : Fin 4), ∀ a, (k0_off35 v920 (BitVec.ofNat 32 (16 * r.val))) a + S16.size a ≤ S1024.size a := fun v920 k0_hw15 r => k0_hw15 r

def k0_off36 (k0_t1 : Fin k0_t1_loop.trips) (c896_i32 : BitVec 32) (c0_i32_207 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let v922 : BitVec 32 := Scalar.addi v134 c896_i32
  let v923 : BitVec 32 := Scalar.addi v922 c0_i32_207
  let v932 : Index := Scalar.indexCast v923
  ![v932.toNat]
def k0_off36_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off37 (v976 : BitVec 32) (c0_i32_217 : BitVec 32) : Fin 1 → Nat :=
  let c64_i32_215 : BitVec 32 := 64#32
  let v977 : BitVec 32 := Scalar.muli v976 c64_i32_215
  let v983 : BitVec 32 := Scalar.addi v977 c0_i32_217
  let v984 : Index := Scalar.indexCast v983
  ![v984.toNat]

def k0_chk16 (v976 : BitVec 32) : Prop :=
  (∀ (r : Fin 4), ∀ a, (k0_off37 v976 (BitVec.ofNat 32 (16 * r.val))) a + S16.size a ≤ S1024.size a)
instance k0_chk16.dec : ∀ (v976 : BitVec 32), Decidable (k0_chk16 v976) := fun v976 => decidable_of_iff' _ (Iff.of_eq (k0_chk16.eq_1 v976))
theorem k0_off37_inb : ∀ (v976 : BitVec 32) (k0_hw16 : k0_chk16 v976), ∀ (r : Fin 4), ∀ a, (k0_off37 v976 (BitVec.ofNat 32 (16 * r.val))) a + S16.size a ≤ S1024.size a := fun v976 k0_hw16 r => k0_hw16 r

def k0_off38 (k0_t1 : Fin k0_t1_loop.trips) (c0_i32_216 : BitVec 32) : Fin 1 → Nat :=
  let c0_i32_18 : BitVec 32 := 0#32
  let c1_i32_19 : BitVec 32 := 1#32
  let arg16 : BitVec 32 := Scf.iv c0_i32_18 c1_i32_19 k0_t1
  let c1024_i32 : BitVec 32 := 1024#32
  let v134 : BitVec 32 := Scalar.muli arg16 c1024_i32
  let c960_i32 : BitVec 32 := 960#32
  let v978 : BitVec 32 := Scalar.addi v134 c960_i32
  let v979 : BitVec 32 := Scalar.addi v978 c0_i32_216
  let v988 : Index := Scalar.indexCast v979
  ![v988.toNat]
def k0_cond2 (i : grid0.Coords) : BitVec 1 :=
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_24 : BitVec 32 := 2#32
  let v52 : BitVec 1 := Scalar.cmpi .sgt v21 c2_i32_24
  let v53 : BitVec 32 := Scalar.extui v52
  let c0_i32_25 : BitVec 32 := 0#32
  let v54 : BitVec 1 := Scalar.cmpi .ne v53 c0_i32_25
  v54

def k0_off39 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_79 : BitVec 32 := 64#32
  let v130 : BitVec 32 := Scalar.addi v1 c64_i32_79
  let c25600_i32_80 : BitVec 32 := 25600#32
  let v131 : BitVec 32 := Scalar.muli v130 c25600_i32_80
  ![v131.toNat]
def k0_off40 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_79 : BitVec 32 := 64#32
  let v130 : BitVec 32 := Scalar.addi v1 c64_i32_79
  let c400_i32_82 : BitVec 32 := 400#32
  let v136 : BitVec 32 := Scalar.muli v130 c400_i32_82
  ![v136.toNat]
@[reducible] def k0_t2_loop : Scf.Loop 32 :=
  let c0_i32_33 : BitVec 32 := 0#32
  let c25_i32_34 : BitVec 32 := 25#32
  let v63 : BitVec 32 := Scalar.addi c0_i32_33 c25_i32_34
  let c1_i32_35 : BitVec 32 := 1#32
  ⟨c0_i32_33, v63, c1_i32_35⟩
def k0_off41 (k0_t2 : Fin k0_t2_loop.trips) : Fin 1 → Nat :=
  let c0_i32_33 : BitVec 32 := 0#32
  let c1_i32_35 : BitVec 32 := 1#32
  let arg16 : BitVec 32 := Scf.iv c0_i32_33 c1_i32_35 k0_t2
  let c16_i32 : BitVec 32 := 16#32
  let v130 : BitVec 32 := Scalar.muli arg16 c16_i32
  let v131 : Index := Scalar.indexCast v130
  ![v131.toNat]
def k0_off42 (k0_t2 : Fin k0_t2_loop.trips) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let c0_i32_80 : BitVec 32 := 0#32
  let v138 : BitVec 32 := Scalar.addi v134 c0_i32_80
  let c0_i32_81 : BitVec 32 := 0#32
  let v139 : BitVec 32 := Scalar.addi v138 c0_i32_81
  let v140 : Index := Scalar.indexCast v139
  ![v140.toNat]
def k0_off43 (v136 : BitVec 32) (c0_i32_82 : BitVec 32) : Fin 1 → Nat :=
  let c64_i32_79 : BitVec 32 := 64#32
  let v137 : BitVec 32 := Scalar.muli v136 c64_i32_79
  let v143 : BitVec 32 := Scalar.addi v137 c0_i32_82
  let v144 : Index := Scalar.indexCast v143
  ![v144.toNat]

def k0_chk17 (v136 : BitVec 32) : Prop :=
  (∀ (r : Fin 4), ∀ a, (k0_off43 v136 (BitVec.ofNat 32 (16 * r.val))) a + S16.size a ≤ S1024.size a)
instance k0_chk17.dec : ∀ (v136 : BitVec 32), Decidable (k0_chk17 v136) := fun v136 => decidable_of_iff' _ (Iff.of_eq (k0_chk17.eq_1 v136))
theorem k0_off43_inb : ∀ (v136 : BitVec 32) (k0_hw17 : k0_chk17 v136), ∀ (r : Fin 4), ∀ a, (k0_off43 v136 (BitVec.ofNat 32 (16 * r.val))) a + S16.size a ≤ S1024.size a := fun v136 k0_hw17 r => k0_hw17 r

def k0_off44 (k0_t2 : Fin k0_t2_loop.trips) (c0_i32_80 : BitVec 32) (c0_i32_81 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v138 : BitVec 32 := Scalar.addi v134 c0_i32_80
  let v139 : BitVec 32 := Scalar.addi v138 c0_i32_81
  let v148 : Index := Scalar.indexCast v139
  ![v148.toNat]
def k0_off44_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off45 (v192 : BitVec 32) (c0_i32_91 : BitVec 32) : Fin 1 → Nat :=
  let c64_i32_88 : BitVec 32 := 64#32
  let v193 : BitVec 32 := Scalar.muli v192 c64_i32_88
  let v199 : BitVec 32 := Scalar.addi v193 c0_i32_91
  let v200 : Index := Scalar.indexCast v199
  ![v200.toNat]

def k0_chk18 (v192 : BitVec 32) : Prop :=
  (∀ (r : Fin 4), ∀ a, (k0_off45 v192 (BitVec.ofNat 32 (16 * r.val))) a + S16.size a ≤ S1024.size a)
instance k0_chk18.dec : ∀ (v192 : BitVec 32), Decidable (k0_chk18 v192) := fun v192 => decidable_of_iff' _ (Iff.of_eq (k0_chk18.eq_1 v192))
theorem k0_off45_inb : ∀ (v192 : BitVec 32) (k0_hw18 : k0_chk18 v192), ∀ (r : Fin 4), ∀ a, (k0_off45 v192 (BitVec.ofNat 32 (16 * r.val))) a + S16.size a ≤ S1024.size a := fun v192 k0_hw18 r => k0_hw18 r

def k0_off46 (k0_t2 : Fin k0_t2_loop.trips) (c64_i32_89 : BitVec 32) (c0_i32_90 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v194 : BitVec 32 := Scalar.addi v134 c64_i32_89
  let v195 : BitVec 32 := Scalar.addi v194 c0_i32_90
  let v204 : Index := Scalar.indexCast v195
  ![v204.toNat]
def k0_off46_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off47 (v248 : BitVec 32) (c0_i32_100 : BitVec 32) : Fin 1 → Nat :=
  let c64_i32_98 : BitVec 32 := 64#32
  let v249 : BitVec 32 := Scalar.muli v248 c64_i32_98
  let v255 : BitVec 32 := Scalar.addi v249 c0_i32_100
  let v256 : Index := Scalar.indexCast v255
  ![v256.toNat]

def k0_chk19 (v248 : BitVec 32) : Prop :=
  (∀ (r : Fin 4), ∀ a, (k0_off47 v248 (BitVec.ofNat 32 (16 * r.val))) a + S16.size a ≤ S1024.size a)
instance k0_chk19.dec : ∀ (v248 : BitVec 32), Decidable (k0_chk19 v248) := fun v248 => decidable_of_iff' _ (Iff.of_eq (k0_chk19.eq_1 v248))
theorem k0_off47_inb : ∀ (v248 : BitVec 32) (k0_hw19 : k0_chk19 v248), ∀ (r : Fin 4), ∀ a, (k0_off47 v248 (BitVec.ofNat 32 (16 * r.val))) a + S16.size a ≤ S1024.size a := fun v248 k0_hw19 r => k0_hw19 r

def k0_off48 (k0_t2 : Fin k0_t2_loop.trips) (c128_i32 : BitVec 32) (c0_i32_99 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v250 : BitVec 32 := Scalar.addi v134 c128_i32
  let v251 : BitVec 32 := Scalar.addi v250 c0_i32_99
  let v260 : Index := Scalar.indexCast v251
  ![v260.toNat]
def k0_off48_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off49 (v304 : BitVec 32) (c0_i32_109 : BitVec 32) : Fin 1 → Nat :=
  let c64_i32_107 : BitVec 32 := 64#32
  let v305 : BitVec 32 := Scalar.muli v304 c64_i32_107
  let v311 : BitVec 32 := Scalar.addi v305 c0_i32_109
  let v312 : Index := Scalar.indexCast v311
  ![v312.toNat]

def k0_chk20 (v304 : BitVec 32) : Prop :=
  (∀ (r : Fin 4), ∀ a, (k0_off49 v304 (BitVec.ofNat 32 (16 * r.val))) a + S16.size a ≤ S1024.size a)
instance k0_chk20.dec : ∀ (v304 : BitVec 32), Decidable (k0_chk20 v304) := fun v304 => decidable_of_iff' _ (Iff.of_eq (k0_chk20.eq_1 v304))
theorem k0_off49_inb : ∀ (v304 : BitVec 32) (k0_hw20 : k0_chk20 v304), ∀ (r : Fin 4), ∀ a, (k0_off49 v304 (BitVec.ofNat 32 (16 * r.val))) a + S16.size a ≤ S1024.size a := fun v304 k0_hw20 r => k0_hw20 r

def k0_off50 (k0_t2 : Fin k0_t2_loop.trips) (c192_i32 : BitVec 32) (c0_i32_108 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v306 : BitVec 32 := Scalar.addi v134 c192_i32
  let v307 : BitVec 32 := Scalar.addi v306 c0_i32_108
  let v316 : Index := Scalar.indexCast v307
  ![v316.toNat]
def k0_off50_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off51 (v360 : BitVec 32) (c0_i32_118 : BitVec 32) : Fin 1 → Nat :=
  let c64_i32_116 : BitVec 32 := 64#32
  let v361 : BitVec 32 := Scalar.muli v360 c64_i32_116
  let v367 : BitVec 32 := Scalar.addi v361 c0_i32_118
  let v368 : Index := Scalar.indexCast v367
  ![v368.toNat]

def k0_chk21 (v360 : BitVec 32) : Prop :=
  (∀ (r : Fin 4), ∀ a, (k0_off51 v360 (BitVec.ofNat 32 (16 * r.val))) a + S16.size a ≤ S1024.size a)
instance k0_chk21.dec : ∀ (v360 : BitVec 32), Decidable (k0_chk21 v360) := fun v360 => decidable_of_iff' _ (Iff.of_eq (k0_chk21.eq_1 v360))
theorem k0_off51_inb : ∀ (v360 : BitVec 32) (k0_hw21 : k0_chk21 v360), ∀ (r : Fin 4), ∀ a, (k0_off51 v360 (BitVec.ofNat 32 (16 * r.val))) a + S16.size a ≤ S1024.size a := fun v360 k0_hw21 r => k0_hw21 r

def k0_off52 (k0_t2 : Fin k0_t2_loop.trips) (c256_i32 : BitVec 32) (c0_i32_117 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v362 : BitVec 32 := Scalar.addi v134 c256_i32
  let v363 : BitVec 32 := Scalar.addi v362 c0_i32_117
  let v372 : Index := Scalar.indexCast v363
  ![v372.toNat]
def k0_off52_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off53 (v416 : BitVec 32) (c0_i32_127 : BitVec 32) : Fin 1 → Nat :=
  let c64_i32_125 : BitVec 32 := 64#32
  let v417 : BitVec 32 := Scalar.muli v416 c64_i32_125
  let v423 : BitVec 32 := Scalar.addi v417 c0_i32_127
  let v424 : Index := Scalar.indexCast v423
  ![v424.toNat]

def k0_chk22 (v416 : BitVec 32) : Prop :=
  (∀ (r : Fin 4), ∀ a, (k0_off53 v416 (BitVec.ofNat 32 (16 * r.val))) a + S16.size a ≤ S1024.size a)
instance k0_chk22.dec : ∀ (v416 : BitVec 32), Decidable (k0_chk22 v416) := fun v416 => decidable_of_iff' _ (Iff.of_eq (k0_chk22.eq_1 v416))
theorem k0_off53_inb : ∀ (v416 : BitVec 32) (k0_hw22 : k0_chk22 v416), ∀ (r : Fin 4), ∀ a, (k0_off53 v416 (BitVec.ofNat 32 (16 * r.val))) a + S16.size a ≤ S1024.size a := fun v416 k0_hw22 r => k0_hw22 r

def k0_off54 (k0_t2 : Fin k0_t2_loop.trips) (c320_i32 : BitVec 32) (c0_i32_126 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v418 : BitVec 32 := Scalar.addi v134 c320_i32
  let v419 : BitVec 32 := Scalar.addi v418 c0_i32_126
  let v428 : Index := Scalar.indexCast v419
  ![v428.toNat]
def k0_off54_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off55 (v472 : BitVec 32) (c0_i32_136 : BitVec 32) : Fin 1 → Nat :=
  let c64_i32_134 : BitVec 32 := 64#32
  let v473 : BitVec 32 := Scalar.muli v472 c64_i32_134
  let v479 : BitVec 32 := Scalar.addi v473 c0_i32_136
  let v480 : Index := Scalar.indexCast v479
  ![v480.toNat]

def k0_chk23 (v472 : BitVec 32) : Prop :=
  (∀ (r : Fin 4), ∀ a, (k0_off55 v472 (BitVec.ofNat 32 (16 * r.val))) a + S16.size a ≤ S1024.size a)
instance k0_chk23.dec : ∀ (v472 : BitVec 32), Decidable (k0_chk23 v472) := fun v472 => decidable_of_iff' _ (Iff.of_eq (k0_chk23.eq_1 v472))
theorem k0_off55_inb : ∀ (v472 : BitVec 32) (k0_hw23 : k0_chk23 v472), ∀ (r : Fin 4), ∀ a, (k0_off55 v472 (BitVec.ofNat 32 (16 * r.val))) a + S16.size a ≤ S1024.size a := fun v472 k0_hw23 r => k0_hw23 r

def k0_off56 (k0_t2 : Fin k0_t2_loop.trips) (c384_i32 : BitVec 32) (c0_i32_135 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v474 : BitVec 32 := Scalar.addi v134 c384_i32
  let v475 : BitVec 32 := Scalar.addi v474 c0_i32_135
  let v484 : Index := Scalar.indexCast v475
  ![v484.toNat]
def k0_off56_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off57 (v528 : BitVec 32) (c0_i32_145 : BitVec 32) : Fin 1 → Nat :=
  let c64_i32_143 : BitVec 32 := 64#32
  let v529 : BitVec 32 := Scalar.muli v528 c64_i32_143
  let v535 : BitVec 32 := Scalar.addi v529 c0_i32_145
  let v536 : Index := Scalar.indexCast v535
  ![v536.toNat]

def k0_chk24 (v528 : BitVec 32) : Prop :=
  (∀ (r : Fin 4), ∀ a, (k0_off57 v528 (BitVec.ofNat 32 (16 * r.val))) a + S16.size a ≤ S1024.size a)
instance k0_chk24.dec : ∀ (v528 : BitVec 32), Decidable (k0_chk24 v528) := fun v528 => decidable_of_iff' _ (Iff.of_eq (k0_chk24.eq_1 v528))
theorem k0_off57_inb : ∀ (v528 : BitVec 32) (k0_hw24 : k0_chk24 v528), ∀ (r : Fin 4), ∀ a, (k0_off57 v528 (BitVec.ofNat 32 (16 * r.val))) a + S16.size a ≤ S1024.size a := fun v528 k0_hw24 r => k0_hw24 r

def k0_off58 (k0_t2 : Fin k0_t2_loop.trips) (c448_i32 : BitVec 32) (c0_i32_144 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v530 : BitVec 32 := Scalar.addi v134 c448_i32
  let v531 : BitVec 32 := Scalar.addi v530 c0_i32_144
  let v540 : Index := Scalar.indexCast v531
  ![v540.toNat]
def k0_off58_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off59 (v584 : BitVec 32) (c0_i32_154 : BitVec 32) : Fin 1 → Nat :=
  let c64_i32_152 : BitVec 32 := 64#32
  let v585 : BitVec 32 := Scalar.muli v584 c64_i32_152
  let v591 : BitVec 32 := Scalar.addi v585 c0_i32_154
  let v592 : Index := Scalar.indexCast v591
  ![v592.toNat]

def k0_chk25 (v584 : BitVec 32) : Prop :=
  (∀ (r : Fin 4), ∀ a, (k0_off59 v584 (BitVec.ofNat 32 (16 * r.val))) a + S16.size a ≤ S1024.size a)
instance k0_chk25.dec : ∀ (v584 : BitVec 32), Decidable (k0_chk25 v584) := fun v584 => decidable_of_iff' _ (Iff.of_eq (k0_chk25.eq_1 v584))
theorem k0_off59_inb : ∀ (v584 : BitVec 32) (k0_hw25 : k0_chk25 v584), ∀ (r : Fin 4), ∀ a, (k0_off59 v584 (BitVec.ofNat 32 (16 * r.val))) a + S16.size a ≤ S1024.size a := fun v584 k0_hw25 r => k0_hw25 r

def k0_off60 (k0_t2 : Fin k0_t2_loop.trips) (c512_i32 : BitVec 32) (c0_i32_153 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v586 : BitVec 32 := Scalar.addi v134 c512_i32
  let v587 : BitVec 32 := Scalar.addi v586 c0_i32_153
  let v596 : Index := Scalar.indexCast v587
  ![v596.toNat]
def k0_off60_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off61 (v640 : BitVec 32) (c0_i32_163 : BitVec 32) : Fin 1 → Nat :=
  let c64_i32_161 : BitVec 32 := 64#32
  let v641 : BitVec 32 := Scalar.muli v640 c64_i32_161
  let v647 : BitVec 32 := Scalar.addi v641 c0_i32_163
  let v648 : Index := Scalar.indexCast v647
  ![v648.toNat]

def k0_chk26 (v640 : BitVec 32) : Prop :=
  (∀ (r : Fin 4), ∀ a, (k0_off61 v640 (BitVec.ofNat 32 (16 * r.val))) a + S16.size a ≤ S1024.size a)
instance k0_chk26.dec : ∀ (v640 : BitVec 32), Decidable (k0_chk26 v640) := fun v640 => decidable_of_iff' _ (Iff.of_eq (k0_chk26.eq_1 v640))
theorem k0_off61_inb : ∀ (v640 : BitVec 32) (k0_hw26 : k0_chk26 v640), ∀ (r : Fin 4), ∀ a, (k0_off61 v640 (BitVec.ofNat 32 (16 * r.val))) a + S16.size a ≤ S1024.size a := fun v640 k0_hw26 r => k0_hw26 r

def k0_off62 (k0_t2 : Fin k0_t2_loop.trips) (c576_i32 : BitVec 32) (c0_i32_162 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v642 : BitVec 32 := Scalar.addi v134 c576_i32
  let v643 : BitVec 32 := Scalar.addi v642 c0_i32_162
  let v652 : Index := Scalar.indexCast v643
  ![v652.toNat]
def k0_off62_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off63 (v696 : BitVec 32) (c0_i32_172 : BitVec 32) : Fin 1 → Nat :=
  let c64_i32_170 : BitVec 32 := 64#32
  let v697 : BitVec 32 := Scalar.muli v696 c64_i32_170
  let v703 : BitVec 32 := Scalar.addi v697 c0_i32_172
  let v704 : Index := Scalar.indexCast v703
  ![v704.toNat]

def k0_chk27 (v696 : BitVec 32) : Prop :=
  (∀ (r : Fin 4), ∀ a, (k0_off63 v696 (BitVec.ofNat 32 (16 * r.val))) a + S16.size a ≤ S1024.size a)
instance k0_chk27.dec : ∀ (v696 : BitVec 32), Decidable (k0_chk27 v696) := fun v696 => decidable_of_iff' _ (Iff.of_eq (k0_chk27.eq_1 v696))
theorem k0_off63_inb : ∀ (v696 : BitVec 32) (k0_hw27 : k0_chk27 v696), ∀ (r : Fin 4), ∀ a, (k0_off63 v696 (BitVec.ofNat 32 (16 * r.val))) a + S16.size a ≤ S1024.size a := fun v696 k0_hw27 r => k0_hw27 r

def k0_off64 (k0_t2 : Fin k0_t2_loop.trips) (c640_i32 : BitVec 32) (c0_i32_171 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v698 : BitVec 32 := Scalar.addi v134 c640_i32
  let v699 : BitVec 32 := Scalar.addi v698 c0_i32_171
  let v708 : Index := Scalar.indexCast v699
  ![v708.toNat]
def k0_off64_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off65 (v752 : BitVec 32) (c0_i32_181 : BitVec 32) : Fin 1 → Nat :=
  let c64_i32_179 : BitVec 32 := 64#32
  let v753 : BitVec 32 := Scalar.muli v752 c64_i32_179
  let v759 : BitVec 32 := Scalar.addi v753 c0_i32_181
  let v760 : Index := Scalar.indexCast v759
  ![v760.toNat]

def k0_chk28 (v752 : BitVec 32) : Prop :=
  (∀ (r : Fin 4), ∀ a, (k0_off65 v752 (BitVec.ofNat 32 (16 * r.val))) a + S16.size a ≤ S1024.size a)
instance k0_chk28.dec : ∀ (v752 : BitVec 32), Decidable (k0_chk28 v752) := fun v752 => decidable_of_iff' _ (Iff.of_eq (k0_chk28.eq_1 v752))
theorem k0_off65_inb : ∀ (v752 : BitVec 32) (k0_hw28 : k0_chk28 v752), ∀ (r : Fin 4), ∀ a, (k0_off65 v752 (BitVec.ofNat 32 (16 * r.val))) a + S16.size a ≤ S1024.size a := fun v752 k0_hw28 r => k0_hw28 r

def k0_off66 (k0_t2 : Fin k0_t2_loop.trips) (c704_i32 : BitVec 32) (c0_i32_180 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v754 : BitVec 32 := Scalar.addi v134 c704_i32
  let v755 : BitVec 32 := Scalar.addi v754 c0_i32_180
  let v764 : Index := Scalar.indexCast v755
  ![v764.toNat]
def k0_off66_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off67 (v808 : BitVec 32) (c0_i32_190 : BitVec 32) : Fin 1 → Nat :=
  let c64_i32_188 : BitVec 32 := 64#32
  let v809 : BitVec 32 := Scalar.muli v808 c64_i32_188
  let v815 : BitVec 32 := Scalar.addi v809 c0_i32_190
  let v816 : Index := Scalar.indexCast v815
  ![v816.toNat]

def k0_chk29 (v808 : BitVec 32) : Prop :=
  (∀ (r : Fin 4), ∀ a, (k0_off67 v808 (BitVec.ofNat 32 (16 * r.val))) a + S16.size a ≤ S1024.size a)
instance k0_chk29.dec : ∀ (v808 : BitVec 32), Decidable (k0_chk29 v808) := fun v808 => decidable_of_iff' _ (Iff.of_eq (k0_chk29.eq_1 v808))
theorem k0_off67_inb : ∀ (v808 : BitVec 32) (k0_hw29 : k0_chk29 v808), ∀ (r : Fin 4), ∀ a, (k0_off67 v808 (BitVec.ofNat 32 (16 * r.val))) a + S16.size a ≤ S1024.size a := fun v808 k0_hw29 r => k0_hw29 r

def k0_off68 (k0_t2 : Fin k0_t2_loop.trips) (c768_i32 : BitVec 32) (c0_i32_189 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v810 : BitVec 32 := Scalar.addi v134 c768_i32
  let v811 : BitVec 32 := Scalar.addi v810 c0_i32_189
  let v820 : Index := Scalar.indexCast v811
  ![v820.toNat]
def k0_off68_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off69 (v864 : BitVec 32) (c0_i32_199 : BitVec 32) : Fin 1 → Nat :=
  let c64_i32_197 : BitVec 32 := 64#32
  let v865 : BitVec 32 := Scalar.muli v864 c64_i32_197
  let v871 : BitVec 32 := Scalar.addi v865 c0_i32_199
  let v872 : Index := Scalar.indexCast v871
  ![v872.toNat]

def k0_chk30 (v864 : BitVec 32) : Prop :=
  (∀ (r : Fin 4), ∀ a, (k0_off69 v864 (BitVec.ofNat 32 (16 * r.val))) a + S16.size a ≤ S1024.size a)
instance k0_chk30.dec : ∀ (v864 : BitVec 32), Decidable (k0_chk30 v864) := fun v864 => decidable_of_iff' _ (Iff.of_eq (k0_chk30.eq_1 v864))
theorem k0_off69_inb : ∀ (v864 : BitVec 32) (k0_hw30 : k0_chk30 v864), ∀ (r : Fin 4), ∀ a, (k0_off69 v864 (BitVec.ofNat 32 (16 * r.val))) a + S16.size a ≤ S1024.size a := fun v864 k0_hw30 r => k0_hw30 r

def k0_off70 (k0_t2 : Fin k0_t2_loop.trips) (c832_i32 : BitVec 32) (c0_i32_198 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v866 : BitVec 32 := Scalar.addi v134 c832_i32
  let v867 : BitVec 32 := Scalar.addi v866 c0_i32_198
  let v876 : Index := Scalar.indexCast v867
  ![v876.toNat]
def k0_off70_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off71 (v920 : BitVec 32) (c0_i32_208 : BitVec 32) : Fin 1 → Nat :=
  let c64_i32_206 : BitVec 32 := 64#32
  let v921 : BitVec 32 := Scalar.muli v920 c64_i32_206
  let v927 : BitVec 32 := Scalar.addi v921 c0_i32_208
  let v928 : Index := Scalar.indexCast v927
  ![v928.toNat]

def k0_chk31 (v920 : BitVec 32) : Prop :=
  (∀ (r : Fin 4), ∀ a, (k0_off71 v920 (BitVec.ofNat 32 (16 * r.val))) a + S16.size a ≤ S1024.size a)
instance k0_chk31.dec : ∀ (v920 : BitVec 32), Decidable (k0_chk31 v920) := fun v920 => decidable_of_iff' _ (Iff.of_eq (k0_chk31.eq_1 v920))
theorem k0_off71_inb : ∀ (v920 : BitVec 32) (k0_hw31 : k0_chk31 v920), ∀ (r : Fin 4), ∀ a, (k0_off71 v920 (BitVec.ofNat 32 (16 * r.val))) a + S16.size a ≤ S1024.size a := fun v920 k0_hw31 r => k0_hw31 r

def k0_off72 (k0_t2 : Fin k0_t2_loop.trips) (c896_i32 : BitVec 32) (c0_i32_207 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let v922 : BitVec 32 := Scalar.addi v134 c896_i32
  let v923 : BitVec 32 := Scalar.addi v922 c0_i32_207
  let v932 : Index := Scalar.indexCast v923
  ![v932.toNat]
def k0_off72_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off73 (v976 : BitVec 32) (c0_i32_217 : BitVec 32) : Fin 1 → Nat :=
  let c64_i32_215 : BitVec 32 := 64#32
  let v977 : BitVec 32 := Scalar.muli v976 c64_i32_215
  let v983 : BitVec 32 := Scalar.addi v977 c0_i32_217
  let v984 : Index := Scalar.indexCast v983
  ![v984.toNat]

def k0_chk32 (v976 : BitVec 32) : Prop :=
  (∀ (r : Fin 4), ∀ a, (k0_off73 v976 (BitVec.ofNat 32 (16 * r.val))) a + S16.size a ≤ S1024.size a)
instance k0_chk32.dec : ∀ (v976 : BitVec 32), Decidable (k0_chk32 v976) := fun v976 => decidable_of_iff' _ (Iff.of_eq (k0_chk32.eq_1 v976))
theorem k0_off73_inb : ∀ (v976 : BitVec 32) (k0_hw32 : k0_chk32 v976), ∀ (r : Fin 4), ∀ a, (k0_off73 v976 (BitVec.ofNat 32 (16 * r.val))) a + S16.size a ≤ S1024.size a := fun v976 k0_hw32 r => k0_hw32 r

def k0_off74 (k0_t2 : Fin k0_t2_loop.trips) (c0_i32_216 : BitVec 32) : Fin 1 → Nat :=
  let c0_i32_33 : BitVec 32 := 0#32
  let c1_i32_35 : BitVec 32 := 1#32
  let arg16 : BitVec 32 := Scf.iv c0_i32_33 c1_i32_35 k0_t2
  let c1024_i32 : BitVec 32 := 1024#32
  let v134 : BitVec 32 := Scalar.muli arg16 c1024_i32
  let c960_i32 : BitVec 32 := 960#32
  let v978 : BitVec 32 := Scalar.addi v134 c960_i32
  let v979 : BitVec 32 := Scalar.addi v978 c0_i32_216
  let v988 : Index := Scalar.indexCast v979
  ![v988.toNat]
def k0_cond3 (i : grid0.Coords) : BitVec 1 :=
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c3_i32 : BitVec 32 := 3#32
  let v71 : BitVec 1 := Scalar.cmpi .sgt v21 c3_i32
  let v72 : BitVec 32 := Scalar.extui v71
  let c0_i32_40 : BitVec 32 := 0#32
  let v73 : BitVec 1 := Scalar.cmpi .ne v72 c0_i32_40
  v73

def k0_off75 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v134 : BitVec 32 := Scalar.addi v1 c96_i32
  let c25600_i32_82 : BitVec 32 := 25600#32
  let v135 : BitVec 32 := Scalar.muli v134 c25600_i32_82
  ![v135.toNat]
def k0_off76 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v134 : BitVec 32 := Scalar.addi v1 c96_i32
  let c400_i32_84 : BitVec 32 := 400#32
  let v140 : BitVec 32 := Scalar.muli v134 c400_i32_84
  ![v140.toNat]
@[reducible] def k0_t3_loop : Scf.Loop 32 :=
  let c0_i32_48 : BitVec 32 := 0#32
  let c25_i32_49 : BitVec 32 := 25#32
  let v82 : BitVec 32 := Scalar.addi c0_i32_48 c25_i32_49
  let c1_i32_50 : BitVec 32 := 1#32
  ⟨c0_i32_48, v82, c1_i32_50⟩
def k0_off77 (k0_t3 : Fin k0_t3_loop.trips) : Fin 1 → Nat :=
  let c0_i32_48 : BitVec 32 := 0#32
  let c1_i32_50 : BitVec 32 := 1#32
  let arg16 : BitVec 32 := Scf.iv c0_i32_48 c1_i32_50 k0_t3
  let c16_i32 : BitVec 32 := 16#32
  let v130 : BitVec 32 := Scalar.muli arg16 c16_i32
  let v131 : Index := Scalar.indexCast v130
  ![v131.toNat]
def k0_off78 (k0_t3 : Fin k0_t3_loop.trips) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let c0_i32_80 : BitVec 32 := 0#32
  let v138 : BitVec 32 := Scalar.addi v134 c0_i32_80
  let c0_i32_81 : BitVec 32 := 0#32
  let v139 : BitVec 32 := Scalar.addi v138 c0_i32_81
  let v140 : Index := Scalar.indexCast v139
  ![v140.toNat]
def k0_off79 (v136 : BitVec 32) (c0_i32_82 : BitVec 32) : Fin 1 → Nat :=
  let c64_i32_79 : BitVec 32 := 64#32
  let v137 : BitVec 32 := Scalar.muli v136 c64_i32_79
  let v143 : BitVec 32 := Scalar.addi v137 c0_i32_82
  let v144 : Index := Scalar.indexCast v143
  ![v144.toNat]

def k0_chk33 (v136 : BitVec 32) : Prop :=
  (∀ (r : Fin 4), ∀ a, (k0_off79 v136 (BitVec.ofNat 32 (16 * r.val))) a + S16.size a ≤ S1024.size a)
instance k0_chk33.dec : ∀ (v136 : BitVec 32), Decidable (k0_chk33 v136) := fun v136 => decidable_of_iff' _ (Iff.of_eq (k0_chk33.eq_1 v136))
theorem k0_off79_inb : ∀ (v136 : BitVec 32) (k0_hw33 : k0_chk33 v136), ∀ (r : Fin 4), ∀ a, (k0_off79 v136 (BitVec.ofNat 32 (16 * r.val))) a + S16.size a ≤ S1024.size a := fun v136 k0_hw33 r => k0_hw33 r

def k0_off80 (k0_t3 : Fin k0_t3_loop.trips) (c0_i32_80 : BitVec 32) (c0_i32_81 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v138 : BitVec 32 := Scalar.addi v134 c0_i32_80
  let v139 : BitVec 32 := Scalar.addi v138 c0_i32_81
  let v148 : Index := Scalar.indexCast v139
  ![v148.toNat]
def k0_off80_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off81 (v192 : BitVec 32) (c0_i32_91 : BitVec 32) : Fin 1 → Nat :=
  let c64_i32_88 : BitVec 32 := 64#32
  let v193 : BitVec 32 := Scalar.muli v192 c64_i32_88
  let v199 : BitVec 32 := Scalar.addi v193 c0_i32_91
  let v200 : Index := Scalar.indexCast v199
  ![v200.toNat]

def k0_chk34 (v192 : BitVec 32) : Prop :=
  (∀ (r : Fin 4), ∀ a, (k0_off81 v192 (BitVec.ofNat 32 (16 * r.val))) a + S16.size a ≤ S1024.size a)
instance k0_chk34.dec : ∀ (v192 : BitVec 32), Decidable (k0_chk34 v192) := fun v192 => decidable_of_iff' _ (Iff.of_eq (k0_chk34.eq_1 v192))
theorem k0_off81_inb : ∀ (v192 : BitVec 32) (k0_hw34 : k0_chk34 v192), ∀ (r : Fin 4), ∀ a, (k0_off81 v192 (BitVec.ofNat 32 (16 * r.val))) a + S16.size a ≤ S1024.size a := fun v192 k0_hw34 r => k0_hw34 r

def k0_off82 (k0_t3 : Fin k0_t3_loop.trips) (c64_i32_89 : BitVec 32) (c0_i32_90 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v194 : BitVec 32 := Scalar.addi v134 c64_i32_89
  let v195 : BitVec 32 := Scalar.addi v194 c0_i32_90
  let v204 : Index := Scalar.indexCast v195
  ![v204.toNat]
def k0_off82_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off83 (v248 : BitVec 32) (c0_i32_100 : BitVec 32) : Fin 1 → Nat :=
  let c64_i32_98 : BitVec 32 := 64#32
  let v249 : BitVec 32 := Scalar.muli v248 c64_i32_98
  let v255 : BitVec 32 := Scalar.addi v249 c0_i32_100
  let v256 : Index := Scalar.indexCast v255
  ![v256.toNat]

def k0_chk35 (v248 : BitVec 32) : Prop :=
  (∀ (r : Fin 4), ∀ a, (k0_off83 v248 (BitVec.ofNat 32 (16 * r.val))) a + S16.size a ≤ S1024.size a)
instance k0_chk35.dec : ∀ (v248 : BitVec 32), Decidable (k0_chk35 v248) := fun v248 => decidable_of_iff' _ (Iff.of_eq (k0_chk35.eq_1 v248))
theorem k0_off83_inb : ∀ (v248 : BitVec 32) (k0_hw35 : k0_chk35 v248), ∀ (r : Fin 4), ∀ a, (k0_off83 v248 (BitVec.ofNat 32 (16 * r.val))) a + S16.size a ≤ S1024.size a := fun v248 k0_hw35 r => k0_hw35 r

def k0_off84 (k0_t3 : Fin k0_t3_loop.trips) (c128_i32 : BitVec 32) (c0_i32_99 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v250 : BitVec 32 := Scalar.addi v134 c128_i32
  let v251 : BitVec 32 := Scalar.addi v250 c0_i32_99
  let v260 : Index := Scalar.indexCast v251
  ![v260.toNat]
def k0_off84_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off85 (v304 : BitVec 32) (c0_i32_109 : BitVec 32) : Fin 1 → Nat :=
  let c64_i32_107 : BitVec 32 := 64#32
  let v305 : BitVec 32 := Scalar.muli v304 c64_i32_107
  let v311 : BitVec 32 := Scalar.addi v305 c0_i32_109
  let v312 : Index := Scalar.indexCast v311
  ![v312.toNat]

def k0_chk36 (v304 : BitVec 32) : Prop :=
  (∀ (r : Fin 4), ∀ a, (k0_off85 v304 (BitVec.ofNat 32 (16 * r.val))) a + S16.size a ≤ S1024.size a)
instance k0_chk36.dec : ∀ (v304 : BitVec 32), Decidable (k0_chk36 v304) := fun v304 => decidable_of_iff' _ (Iff.of_eq (k0_chk36.eq_1 v304))
theorem k0_off85_inb : ∀ (v304 : BitVec 32) (k0_hw36 : k0_chk36 v304), ∀ (r : Fin 4), ∀ a, (k0_off85 v304 (BitVec.ofNat 32 (16 * r.val))) a + S16.size a ≤ S1024.size a := fun v304 k0_hw36 r => k0_hw36 r

def k0_off86 (k0_t3 : Fin k0_t3_loop.trips) (c192_i32 : BitVec 32) (c0_i32_108 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v306 : BitVec 32 := Scalar.addi v134 c192_i32
  let v307 : BitVec 32 := Scalar.addi v306 c0_i32_108
  let v316 : Index := Scalar.indexCast v307
  ![v316.toNat]
def k0_off86_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off87 (v360 : BitVec 32) (c0_i32_118 : BitVec 32) : Fin 1 → Nat :=
  let c64_i32_116 : BitVec 32 := 64#32
  let v361 : BitVec 32 := Scalar.muli v360 c64_i32_116
  let v367 : BitVec 32 := Scalar.addi v361 c0_i32_118
  let v368 : Index := Scalar.indexCast v367
  ![v368.toNat]

def k0_chk37 (v360 : BitVec 32) : Prop :=
  (∀ (r : Fin 4), ∀ a, (k0_off87 v360 (BitVec.ofNat 32 (16 * r.val))) a + S16.size a ≤ S1024.size a)
instance k0_chk37.dec : ∀ (v360 : BitVec 32), Decidable (k0_chk37 v360) := fun v360 => decidable_of_iff' _ (Iff.of_eq (k0_chk37.eq_1 v360))
theorem k0_off87_inb : ∀ (v360 : BitVec 32) (k0_hw37 : k0_chk37 v360), ∀ (r : Fin 4), ∀ a, (k0_off87 v360 (BitVec.ofNat 32 (16 * r.val))) a + S16.size a ≤ S1024.size a := fun v360 k0_hw37 r => k0_hw37 r

def k0_off88 (k0_t3 : Fin k0_t3_loop.trips) (c256_i32 : BitVec 32) (c0_i32_117 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v362 : BitVec 32 := Scalar.addi v134 c256_i32
  let v363 : BitVec 32 := Scalar.addi v362 c0_i32_117
  let v372 : Index := Scalar.indexCast v363
  ![v372.toNat]
def k0_off88_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off89 (v416 : BitVec 32) (c0_i32_127 : BitVec 32) : Fin 1 → Nat :=
  let c64_i32_125 : BitVec 32 := 64#32
  let v417 : BitVec 32 := Scalar.muli v416 c64_i32_125
  let v423 : BitVec 32 := Scalar.addi v417 c0_i32_127
  let v424 : Index := Scalar.indexCast v423
  ![v424.toNat]

def k0_chk38 (v416 : BitVec 32) : Prop :=
  (∀ (r : Fin 4), ∀ a, (k0_off89 v416 (BitVec.ofNat 32 (16 * r.val))) a + S16.size a ≤ S1024.size a)
instance k0_chk38.dec : ∀ (v416 : BitVec 32), Decidable (k0_chk38 v416) := fun v416 => decidable_of_iff' _ (Iff.of_eq (k0_chk38.eq_1 v416))
theorem k0_off89_inb : ∀ (v416 : BitVec 32) (k0_hw38 : k0_chk38 v416), ∀ (r : Fin 4), ∀ a, (k0_off89 v416 (BitVec.ofNat 32 (16 * r.val))) a + S16.size a ≤ S1024.size a := fun v416 k0_hw38 r => k0_hw38 r

def k0_off90 (k0_t3 : Fin k0_t3_loop.trips) (c320_i32 : BitVec 32) (c0_i32_126 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v418 : BitVec 32 := Scalar.addi v134 c320_i32
  let v419 : BitVec 32 := Scalar.addi v418 c0_i32_126
  let v428 : Index := Scalar.indexCast v419
  ![v428.toNat]
def k0_off90_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off91 (v472 : BitVec 32) (c0_i32_136 : BitVec 32) : Fin 1 → Nat :=
  let c64_i32_134 : BitVec 32 := 64#32
  let v473 : BitVec 32 := Scalar.muli v472 c64_i32_134
  let v479 : BitVec 32 := Scalar.addi v473 c0_i32_136
  let v480 : Index := Scalar.indexCast v479
  ![v480.toNat]

def k0_chk39 (v472 : BitVec 32) : Prop :=
  (∀ (r : Fin 4), ∀ a, (k0_off91 v472 (BitVec.ofNat 32 (16 * r.val))) a + S16.size a ≤ S1024.size a)
instance k0_chk39.dec : ∀ (v472 : BitVec 32), Decidable (k0_chk39 v472) := fun v472 => decidable_of_iff' _ (Iff.of_eq (k0_chk39.eq_1 v472))
theorem k0_off91_inb : ∀ (v472 : BitVec 32) (k0_hw39 : k0_chk39 v472), ∀ (r : Fin 4), ∀ a, (k0_off91 v472 (BitVec.ofNat 32 (16 * r.val))) a + S16.size a ≤ S1024.size a := fun v472 k0_hw39 r => k0_hw39 r

def k0_off92 (k0_t3 : Fin k0_t3_loop.trips) (c384_i32 : BitVec 32) (c0_i32_135 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v474 : BitVec 32 := Scalar.addi v134 c384_i32
  let v475 : BitVec 32 := Scalar.addi v474 c0_i32_135
  let v484 : Index := Scalar.indexCast v475
  ![v484.toNat]
def k0_off92_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off93 (v528 : BitVec 32) (c0_i32_145 : BitVec 32) : Fin 1 → Nat :=
  let c64_i32_143 : BitVec 32 := 64#32
  let v529 : BitVec 32 := Scalar.muli v528 c64_i32_143
  let v535 : BitVec 32 := Scalar.addi v529 c0_i32_145
  let v536 : Index := Scalar.indexCast v535
  ![v536.toNat]

def k0_chk40 (v528 : BitVec 32) : Prop :=
  (∀ (r : Fin 4), ∀ a, (k0_off93 v528 (BitVec.ofNat 32 (16 * r.val))) a + S16.size a ≤ S1024.size a)
instance k0_chk40.dec : ∀ (v528 : BitVec 32), Decidable (k0_chk40 v528) := fun v528 => decidable_of_iff' _ (Iff.of_eq (k0_chk40.eq_1 v528))
theorem k0_off93_inb : ∀ (v528 : BitVec 32) (k0_hw40 : k0_chk40 v528), ∀ (r : Fin 4), ∀ a, (k0_off93 v528 (BitVec.ofNat 32 (16 * r.val))) a + S16.size a ≤ S1024.size a := fun v528 k0_hw40 r => k0_hw40 r

def k0_off94 (k0_t3 : Fin k0_t3_loop.trips) (c448_i32 : BitVec 32) (c0_i32_144 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v530 : BitVec 32 := Scalar.addi v134 c448_i32
  let v531 : BitVec 32 := Scalar.addi v530 c0_i32_144
  let v540 : Index := Scalar.indexCast v531
  ![v540.toNat]
def k0_off94_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off95 (v584 : BitVec 32) (c0_i32_154 : BitVec 32) : Fin 1 → Nat :=
  let c64_i32_152 : BitVec 32 := 64#32
  let v585 : BitVec 32 := Scalar.muli v584 c64_i32_152
  let v591 : BitVec 32 := Scalar.addi v585 c0_i32_154
  let v592 : Index := Scalar.indexCast v591
  ![v592.toNat]

def k0_chk41 (v584 : BitVec 32) : Prop :=
  (∀ (r : Fin 4), ∀ a, (k0_off95 v584 (BitVec.ofNat 32 (16 * r.val))) a + S16.size a ≤ S1024.size a)
instance k0_chk41.dec : ∀ (v584 : BitVec 32), Decidable (k0_chk41 v584) := fun v584 => decidable_of_iff' _ (Iff.of_eq (k0_chk41.eq_1 v584))
theorem k0_off95_inb : ∀ (v584 : BitVec 32) (k0_hw41 : k0_chk41 v584), ∀ (r : Fin 4), ∀ a, (k0_off95 v584 (BitVec.ofNat 32 (16 * r.val))) a + S16.size a ≤ S1024.size a := fun v584 k0_hw41 r => k0_hw41 r

def k0_off96 (k0_t3 : Fin k0_t3_loop.trips) (c512_i32 : BitVec 32) (c0_i32_153 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v586 : BitVec 32 := Scalar.addi v134 c512_i32
  let v587 : BitVec 32 := Scalar.addi v586 c0_i32_153
  let v596 : Index := Scalar.indexCast v587
  ![v596.toNat]
def k0_off96_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off97 (v640 : BitVec 32) (c0_i32_163 : BitVec 32) : Fin 1 → Nat :=
  let c64_i32_161 : BitVec 32 := 64#32
  let v641 : BitVec 32 := Scalar.muli v640 c64_i32_161
  let v647 : BitVec 32 := Scalar.addi v641 c0_i32_163
  let v648 : Index := Scalar.indexCast v647
  ![v648.toNat]

def k0_chk42 (v640 : BitVec 32) : Prop :=
  (∀ (r : Fin 4), ∀ a, (k0_off97 v640 (BitVec.ofNat 32 (16 * r.val))) a + S16.size a ≤ S1024.size a)
instance k0_chk42.dec : ∀ (v640 : BitVec 32), Decidable (k0_chk42 v640) := fun v640 => decidable_of_iff' _ (Iff.of_eq (k0_chk42.eq_1 v640))
theorem k0_off97_inb : ∀ (v640 : BitVec 32) (k0_hw42 : k0_chk42 v640), ∀ (r : Fin 4), ∀ a, (k0_off97 v640 (BitVec.ofNat 32 (16 * r.val))) a + S16.size a ≤ S1024.size a := fun v640 k0_hw42 r => k0_hw42 r

def k0_off98 (k0_t3 : Fin k0_t3_loop.trips) (c576_i32 : BitVec 32) (c0_i32_162 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v642 : BitVec 32 := Scalar.addi v134 c576_i32
  let v643 : BitVec 32 := Scalar.addi v642 c0_i32_162
  let v652 : Index := Scalar.indexCast v643
  ![v652.toNat]
def k0_off98_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off99 (v696 : BitVec 32) (c0_i32_172 : BitVec 32) : Fin 1 → Nat :=
  let c64_i32_170 : BitVec 32 := 64#32
  let v697 : BitVec 32 := Scalar.muli v696 c64_i32_170
  let v703 : BitVec 32 := Scalar.addi v697 c0_i32_172
  let v704 : Index := Scalar.indexCast v703
  ![v704.toNat]

def k0_chk43 (v696 : BitVec 32) : Prop :=
  (∀ (r : Fin 4), ∀ a, (k0_off99 v696 (BitVec.ofNat 32 (16 * r.val))) a + S16.size a ≤ S1024.size a)
instance k0_chk43.dec : ∀ (v696 : BitVec 32), Decidable (k0_chk43 v696) := fun v696 => decidable_of_iff' _ (Iff.of_eq (k0_chk43.eq_1 v696))
theorem k0_off99_inb : ∀ (v696 : BitVec 32) (k0_hw43 : k0_chk43 v696), ∀ (r : Fin 4), ∀ a, (k0_off99 v696 (BitVec.ofNat 32 (16 * r.val))) a + S16.size a ≤ S1024.size a := fun v696 k0_hw43 r => k0_hw43 r

def k0_off100 (k0_t3 : Fin k0_t3_loop.trips) (c640_i32 : BitVec 32) (c0_i32_171 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v698 : BitVec 32 := Scalar.addi v134 c640_i32
  let v699 : BitVec 32 := Scalar.addi v698 c0_i32_171
  let v708 : Index := Scalar.indexCast v699
  ![v708.toNat]
def k0_off100_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off101 (v752 : BitVec 32) (c0_i32_181 : BitVec 32) : Fin 1 → Nat :=
  let c64_i32_179 : BitVec 32 := 64#32
  let v753 : BitVec 32 := Scalar.muli v752 c64_i32_179
  let v759 : BitVec 32 := Scalar.addi v753 c0_i32_181
  let v760 : Index := Scalar.indexCast v759
  ![v760.toNat]

def k0_chk44 (v752 : BitVec 32) : Prop :=
  (∀ (r : Fin 4), ∀ a, (k0_off101 v752 (BitVec.ofNat 32 (16 * r.val))) a + S16.size a ≤ S1024.size a)
instance k0_chk44.dec : ∀ (v752 : BitVec 32), Decidable (k0_chk44 v752) := fun v752 => decidable_of_iff' _ (Iff.of_eq (k0_chk44.eq_1 v752))
theorem k0_off101_inb : ∀ (v752 : BitVec 32) (k0_hw44 : k0_chk44 v752), ∀ (r : Fin 4), ∀ a, (k0_off101 v752 (BitVec.ofNat 32 (16 * r.val))) a + S16.size a ≤ S1024.size a := fun v752 k0_hw44 r => k0_hw44 r

def k0_off102 (k0_t3 : Fin k0_t3_loop.trips) (c704_i32 : BitVec 32) (c0_i32_180 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v754 : BitVec 32 := Scalar.addi v134 c704_i32
  let v755 : BitVec 32 := Scalar.addi v754 c0_i32_180
  let v764 : Index := Scalar.indexCast v755
  ![v764.toNat]
def k0_off102_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off103 (v808 : BitVec 32) (c0_i32_190 : BitVec 32) : Fin 1 → Nat :=
  let c64_i32_188 : BitVec 32 := 64#32
  let v809 : BitVec 32 := Scalar.muli v808 c64_i32_188
  let v815 : BitVec 32 := Scalar.addi v809 c0_i32_190
  let v816 : Index := Scalar.indexCast v815
  ![v816.toNat]

def k0_chk45 (v808 : BitVec 32) : Prop :=
  (∀ (r : Fin 4), ∀ a, (k0_off103 v808 (BitVec.ofNat 32 (16 * r.val))) a + S16.size a ≤ S1024.size a)
instance k0_chk45.dec : ∀ (v808 : BitVec 32), Decidable (k0_chk45 v808) := fun v808 => decidable_of_iff' _ (Iff.of_eq (k0_chk45.eq_1 v808))
theorem k0_off103_inb : ∀ (v808 : BitVec 32) (k0_hw45 : k0_chk45 v808), ∀ (r : Fin 4), ∀ a, (k0_off103 v808 (BitVec.ofNat 32 (16 * r.val))) a + S16.size a ≤ S1024.size a := fun v808 k0_hw45 r => k0_hw45 r

def k0_off104 (k0_t3 : Fin k0_t3_loop.trips) (c768_i32 : BitVec 32) (c0_i32_189 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v810 : BitVec 32 := Scalar.addi v134 c768_i32
  let v811 : BitVec 32 := Scalar.addi v810 c0_i32_189
  let v820 : Index := Scalar.indexCast v811
  ![v820.toNat]
def k0_off104_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off105 (v864 : BitVec 32) (c0_i32_199 : BitVec 32) : Fin 1 → Nat :=
  let c64_i32_197 : BitVec 32 := 64#32
  let v865 : BitVec 32 := Scalar.muli v864 c64_i32_197
  let v871 : BitVec 32 := Scalar.addi v865 c0_i32_199
  let v872 : Index := Scalar.indexCast v871
  ![v872.toNat]

def k0_chk46 (v864 : BitVec 32) : Prop :=
  (∀ (r : Fin 4), ∀ a, (k0_off105 v864 (BitVec.ofNat 32 (16 * r.val))) a + S16.size a ≤ S1024.size a)
instance k0_chk46.dec : ∀ (v864 : BitVec 32), Decidable (k0_chk46 v864) := fun v864 => decidable_of_iff' _ (Iff.of_eq (k0_chk46.eq_1 v864))
theorem k0_off105_inb : ∀ (v864 : BitVec 32) (k0_hw46 : k0_chk46 v864), ∀ (r : Fin 4), ∀ a, (k0_off105 v864 (BitVec.ofNat 32 (16 * r.val))) a + S16.size a ≤ S1024.size a := fun v864 k0_hw46 r => k0_hw46 r

def k0_off106 (k0_t3 : Fin k0_t3_loop.trips) (c832_i32 : BitVec 32) (c0_i32_198 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v866 : BitVec 32 := Scalar.addi v134 c832_i32
  let v867 : BitVec 32 := Scalar.addi v866 c0_i32_198
  let v876 : Index := Scalar.indexCast v867
  ![v876.toNat]
def k0_off106_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off107 (v920 : BitVec 32) (c0_i32_208 : BitVec 32) : Fin 1 → Nat :=
  let c64_i32_206 : BitVec 32 := 64#32
  let v921 : BitVec 32 := Scalar.muli v920 c64_i32_206
  let v927 : BitVec 32 := Scalar.addi v921 c0_i32_208
  let v928 : Index := Scalar.indexCast v927
  ![v928.toNat]

def k0_chk47 (v920 : BitVec 32) : Prop :=
  (∀ (r : Fin 4), ∀ a, (k0_off107 v920 (BitVec.ofNat 32 (16 * r.val))) a + S16.size a ≤ S1024.size a)
instance k0_chk47.dec : ∀ (v920 : BitVec 32), Decidable (k0_chk47 v920) := fun v920 => decidable_of_iff' _ (Iff.of_eq (k0_chk47.eq_1 v920))
theorem k0_off107_inb : ∀ (v920 : BitVec 32) (k0_hw47 : k0_chk47 v920), ∀ (r : Fin 4), ∀ a, (k0_off107 v920 (BitVec.ofNat 32 (16 * r.val))) a + S16.size a ≤ S1024.size a := fun v920 k0_hw47 r => k0_hw47 r

def k0_off108 (k0_t3 : Fin k0_t3_loop.trips) (c896_i32 : BitVec 32) (c0_i32_207 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let v922 : BitVec 32 := Scalar.addi v134 c896_i32
  let v923 : BitVec 32 := Scalar.addi v922 c0_i32_207
  let v932 : Index := Scalar.indexCast v923
  ![v932.toNat]
def k0_off108_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off109 (v976 : BitVec 32) (c0_i32_217 : BitVec 32) : Fin 1 → Nat :=
  let c64_i32_215 : BitVec 32 := 64#32
  let v977 : BitVec 32 := Scalar.muli v976 c64_i32_215
  let v983 : BitVec 32 := Scalar.addi v977 c0_i32_217
  let v984 : Index := Scalar.indexCast v983
  ![v984.toNat]

def k0_chk48 (v976 : BitVec 32) : Prop :=
  (∀ (r : Fin 4), ∀ a, (k0_off109 v976 (BitVec.ofNat 32 (16 * r.val))) a + S16.size a ≤ S1024.size a)
instance k0_chk48.dec : ∀ (v976 : BitVec 32), Decidable (k0_chk48 v976) := fun v976 => decidable_of_iff' _ (Iff.of_eq (k0_chk48.eq_1 v976))
theorem k0_off109_inb : ∀ (v976 : BitVec 32) (k0_hw48 : k0_chk48 v976), ∀ (r : Fin 4), ∀ a, (k0_off109 v976 (BitVec.ofNat 32 (16 * r.val))) a + S16.size a ≤ S1024.size a := fun v976 k0_hw48 r => k0_hw48 r

def k0_off110 (k0_t3 : Fin k0_t3_loop.trips) (c0_i32_216 : BitVec 32) : Fin 1 → Nat :=
  let c0_i32_48 : BitVec 32 := 0#32
  let c1_i32_50 : BitVec 32 := 1#32
  let arg16 : BitVec 32 := Scf.iv c0_i32_48 c1_i32_50 k0_t3
  let c1024_i32 : BitVec 32 := 1024#32
  let v134 : BitVec 32 := Scalar.muli arg16 c1024_i32
  let c960_i32 : BitVec 32 := 960#32
  let v978 : BitVec 32 := Scalar.addi v134 c960_i32
  let v979 : BitVec 32 := Scalar.addi v978 c0_i32_216
  let v988 : Index := Scalar.indexCast v979
  ![v988.toNat]
@[reducible] def k0_t4_loop (i : grid0.Coords) : Scf.Loop 32 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_65 : BitVec 32 := 1#32
  ⟨c1_i32_62, v112, c1_i32_65⟩
def k0_cond4 (i : grid0.Coords) (k0_t4 : Fin (k0_t4_loop i).trips) : BitVec 1 :=
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_80 : BitVec 32 := 1#32
  let v131 : BitVec 32 := Scalar.addi v130 c1_i32_80
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v132 : BitVec 1 := Scalar.cmpi .slt v131 v21
  let v133 : BitVec 32 := Scalar.extui v132
  let c0_i32_81 : BitVec 32 := 0#32
  let v134 : BitVec 1 := Scalar.cmpi .ne v133 c0_i32_81
  v134

def k0_off111 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_105 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_104 : BitVec 32 := 1#32
  let v164 : BitVec 32 := Scalar.addi v130 c1_i32_104
  let v165 : BitVec 32 := Scalar.muli c32_i32_105 v164
  let v166 : BitVec 32 := Scalar.addi v1 v165
  let c25600_i32_106 : BitVec 32 := 25600#32
  let v167 : BitVec 32 := Scalar.muli v166 c25600_i32_106
  ![v167.toNat]
def k0_off112 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_105 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_104 : BitVec 32 := 1#32
  let v164 : BitVec 32 := Scalar.addi v130 c1_i32_104
  let v165 : BitVec 32 := Scalar.muli c32_i32_105 v164
  let v166 : BitVec 32 := Scalar.addi v1 v165
  let c400_i32_108 : BitVec 32 := 400#32
  let v172 : BitVec 32 := Scalar.muli v166 c400_i32_108
  ![v172.toNat]
@[reducible] def k0_t5_loop : Scf.Loop 32 :=
  let c0_i32_89 : BitVec 32 := 0#32
  let c25_i32_90 : BitVec 32 := 25#32
  let v143 : BitVec 32 := Scalar.addi c0_i32_89 c25_i32_90
  let c1_i32_91 : BitVec 32 := 1#32
  ⟨c0_i32_89, v143, c1_i32_91⟩
def k0_off113 (k0_t5 : Fin k0_t5_loop.trips) : Fin 1 → Nat :=
  let c0_i32_89 : BitVec 32 := 0#32
  let c1_i32_91 : BitVec 32 := 1#32
  let arg18 : BitVec 32 := Scf.iv c0_i32_89 c1_i32_91 k0_t5
  let c16_i32 : BitVec 32 := 16#32
  let v160 : BitVec 32 := Scalar.muli arg18 c16_i32
  let v161 : Index := Scalar.indexCast v160
  ![v161.toNat]
def k0_off114 (k0_t5 : Fin k0_t5_loop.trips) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let c0_i32_102 : BitVec 32 := 0#32
  let v168 : BitVec 32 := Scalar.addi v164 c0_i32_102
  let c0_i32_103 : BitVec 32 := 0#32
  let v169 : BitVec 32 := Scalar.addi v168 c0_i32_103
  let v170 : Index := Scalar.indexCast v169
  ![v170.toNat]
def k0_off115 (v166 : BitVec 32) (c0_i32_104 : BitVec 32) : Fin 1 → Nat :=
  let c64_i32_101 : BitVec 32 := 64#32
  let v167 : BitVec 32 := Scalar.muli v166 c64_i32_101
  let v173 : BitVec 32 := Scalar.addi v167 c0_i32_104
  let v174 : Index := Scalar.indexCast v173
  ![v174.toNat]

def k0_chk49 (v166 : BitVec 32) : Prop :=
  (∀ (r : Fin 4), ∀ a, (k0_off115 v166 (BitVec.ofNat 32 (16 * r.val))) a + S16.size a ≤ S1024.size a)
instance k0_chk49.dec : ∀ (v166 : BitVec 32), Decidable (k0_chk49 v166) := fun v166 => decidable_of_iff' _ (Iff.of_eq (k0_chk49.eq_1 v166))
theorem k0_off115_inb : ∀ (v166 : BitVec 32) (k0_hw49 : k0_chk49 v166), ∀ (r : Fin 4), ∀ a, (k0_off115 v166 (BitVec.ofNat 32 (16 * r.val))) a + S16.size a ≤ S1024.size a := fun v166 k0_hw49 r => k0_hw49 r

def k0_off116 (k0_t5 : Fin k0_t5_loop.trips) (c0_i32_102 : BitVec 32) (c0_i32_103 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v168 : BitVec 32 := Scalar.addi v164 c0_i32_102
  let v169 : BitVec 32 := Scalar.addi v168 c0_i32_103
  let v178 : Index := Scalar.indexCast v169
  ![v178.toNat]
def k0_off116_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off117 (v222 : BitVec 32) (c0_i32_113 : BitVec 32) : Fin 1 → Nat :=
  let c64_i32_110 : BitVec 32 := 64#32
  let v223 : BitVec 32 := Scalar.muli v222 c64_i32_110
  let v229 : BitVec 32 := Scalar.addi v223 c0_i32_113
  let v230 : Index := Scalar.indexCast v229
  ![v230.toNat]

def k0_chk50 (v222 : BitVec 32) : Prop :=
  (∀ (r : Fin 4), ∀ a, (k0_off117 v222 (BitVec.ofNat 32 (16 * r.val))) a + S16.size a ≤ S1024.size a)
instance k0_chk50.dec : ∀ (v222 : BitVec 32), Decidable (k0_chk50 v222) := fun v222 => decidable_of_iff' _ (Iff.of_eq (k0_chk50.eq_1 v222))
theorem k0_off117_inb : ∀ (v222 : BitVec 32) (k0_hw50 : k0_chk50 v222), ∀ (r : Fin 4), ∀ a, (k0_off117 v222 (BitVec.ofNat 32 (16 * r.val))) a + S16.size a ≤ S1024.size a := fun v222 k0_hw50 r => k0_hw50 r

def k0_off118 (k0_t5 : Fin k0_t5_loop.trips) (c64_i32_111 : BitVec 32) (c0_i32_112 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v224 : BitVec 32 := Scalar.addi v164 c64_i32_111
  let v225 : BitVec 32 := Scalar.addi v224 c0_i32_112
  let v234 : Index := Scalar.indexCast v225
  ![v234.toNat]
def k0_off118_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off119 (v278 : BitVec 32) (c0_i32_122 : BitVec 32) : Fin 1 → Nat :=
  let c64_i32_120 : BitVec 32 := 64#32
  let v279 : BitVec 32 := Scalar.muli v278 c64_i32_120
  let v285 : BitVec 32 := Scalar.addi v279 c0_i32_122
  let v286 : Index := Scalar.indexCast v285
  ![v286.toNat]

def k0_chk51 (v278 : BitVec 32) : Prop :=
  (∀ (r : Fin 4), ∀ a, (k0_off119 v278 (BitVec.ofNat 32 (16 * r.val))) a + S16.size a ≤ S1024.size a)
instance k0_chk51.dec : ∀ (v278 : BitVec 32), Decidable (k0_chk51 v278) := fun v278 => decidable_of_iff' _ (Iff.of_eq (k0_chk51.eq_1 v278))
theorem k0_off119_inb : ∀ (v278 : BitVec 32) (k0_hw51 : k0_chk51 v278), ∀ (r : Fin 4), ∀ a, (k0_off119 v278 (BitVec.ofNat 32 (16 * r.val))) a + S16.size a ≤ S1024.size a := fun v278 k0_hw51 r => k0_hw51 r

def k0_off120 (k0_t5 : Fin k0_t5_loop.trips) (c128_i32 : BitVec 32) (c0_i32_121 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v280 : BitVec 32 := Scalar.addi v164 c128_i32
  let v281 : BitVec 32 := Scalar.addi v280 c0_i32_121
  let v290 : Index := Scalar.indexCast v281
  ![v290.toNat]
def k0_off120_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off121 (v334 : BitVec 32) (c0_i32_131 : BitVec 32) : Fin 1 → Nat :=
  let c64_i32_129 : BitVec 32 := 64#32
  let v335 : BitVec 32 := Scalar.muli v334 c64_i32_129
  let v341 : BitVec 32 := Scalar.addi v335 c0_i32_131
  let v342 : Index := Scalar.indexCast v341
  ![v342.toNat]

def k0_chk52 (v334 : BitVec 32) : Prop :=
  (∀ (r : Fin 4), ∀ a, (k0_off121 v334 (BitVec.ofNat 32 (16 * r.val))) a + S16.size a ≤ S1024.size a)
instance k0_chk52.dec : ∀ (v334 : BitVec 32), Decidable (k0_chk52 v334) := fun v334 => decidable_of_iff' _ (Iff.of_eq (k0_chk52.eq_1 v334))
theorem k0_off121_inb : ∀ (v334 : BitVec 32) (k0_hw52 : k0_chk52 v334), ∀ (r : Fin 4), ∀ a, (k0_off121 v334 (BitVec.ofNat 32 (16 * r.val))) a + S16.size a ≤ S1024.size a := fun v334 k0_hw52 r => k0_hw52 r

def k0_off122 (k0_t5 : Fin k0_t5_loop.trips) (c192_i32 : BitVec 32) (c0_i32_130 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v336 : BitVec 32 := Scalar.addi v164 c192_i32
  let v337 : BitVec 32 := Scalar.addi v336 c0_i32_130
  let v346 : Index := Scalar.indexCast v337
  ![v346.toNat]
def k0_off122_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off123 (v390 : BitVec 32) (c0_i32_140 : BitVec 32) : Fin 1 → Nat :=
  let c64_i32_138 : BitVec 32 := 64#32
  let v391 : BitVec 32 := Scalar.muli v390 c64_i32_138
  let v397 : BitVec 32 := Scalar.addi v391 c0_i32_140
  let v398 : Index := Scalar.indexCast v397
  ![v398.toNat]

def k0_chk53 (v390 : BitVec 32) : Prop :=
  (∀ (r : Fin 4), ∀ a, (k0_off123 v390 (BitVec.ofNat 32 (16 * r.val))) a + S16.size a ≤ S1024.size a)
instance k0_chk53.dec : ∀ (v390 : BitVec 32), Decidable (k0_chk53 v390) := fun v390 => decidable_of_iff' _ (Iff.of_eq (k0_chk53.eq_1 v390))
theorem k0_off123_inb : ∀ (v390 : BitVec 32) (k0_hw53 : k0_chk53 v390), ∀ (r : Fin 4), ∀ a, (k0_off123 v390 (BitVec.ofNat 32 (16 * r.val))) a + S16.size a ≤ S1024.size a := fun v390 k0_hw53 r => k0_hw53 r

def k0_off124 (k0_t5 : Fin k0_t5_loop.trips) (c256_i32 : BitVec 32) (c0_i32_139 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v392 : BitVec 32 := Scalar.addi v164 c256_i32
  let v393 : BitVec 32 := Scalar.addi v392 c0_i32_139
  let v402 : Index := Scalar.indexCast v393
  ![v402.toNat]
def k0_off124_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off125 (v446 : BitVec 32) (c0_i32_149 : BitVec 32) : Fin 1 → Nat :=
  let c64_i32_147 : BitVec 32 := 64#32
  let v447 : BitVec 32 := Scalar.muli v446 c64_i32_147
  let v453 : BitVec 32 := Scalar.addi v447 c0_i32_149
  let v454 : Index := Scalar.indexCast v453
  ![v454.toNat]

def k0_chk54 (v446 : BitVec 32) : Prop :=
  (∀ (r : Fin 4), ∀ a, (k0_off125 v446 (BitVec.ofNat 32 (16 * r.val))) a + S16.size a ≤ S1024.size a)
instance k0_chk54.dec : ∀ (v446 : BitVec 32), Decidable (k0_chk54 v446) := fun v446 => decidable_of_iff' _ (Iff.of_eq (k0_chk54.eq_1 v446))
theorem k0_off125_inb : ∀ (v446 : BitVec 32) (k0_hw54 : k0_chk54 v446), ∀ (r : Fin 4), ∀ a, (k0_off125 v446 (BitVec.ofNat 32 (16 * r.val))) a + S16.size a ≤ S1024.size a := fun v446 k0_hw54 r => k0_hw54 r

def k0_off126 (k0_t5 : Fin k0_t5_loop.trips) (c320_i32 : BitVec 32) (c0_i32_148 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v448 : BitVec 32 := Scalar.addi v164 c320_i32
  let v449 : BitVec 32 := Scalar.addi v448 c0_i32_148
  let v458 : Index := Scalar.indexCast v449
  ![v458.toNat]
def k0_off126_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off127 (v502 : BitVec 32) (c0_i32_158 : BitVec 32) : Fin 1 → Nat :=
  let c64_i32_156 : BitVec 32 := 64#32
  let v503 : BitVec 32 := Scalar.muli v502 c64_i32_156
  let v509 : BitVec 32 := Scalar.addi v503 c0_i32_158
  let v510 : Index := Scalar.indexCast v509
  ![v510.toNat]

def k0_chk55 (v502 : BitVec 32) : Prop :=
  (∀ (r : Fin 4), ∀ a, (k0_off127 v502 (BitVec.ofNat 32 (16 * r.val))) a + S16.size a ≤ S1024.size a)
instance k0_chk55.dec : ∀ (v502 : BitVec 32), Decidable (k0_chk55 v502) := fun v502 => decidable_of_iff' _ (Iff.of_eq (k0_chk55.eq_1 v502))
theorem k0_off127_inb : ∀ (v502 : BitVec 32) (k0_hw55 : k0_chk55 v502), ∀ (r : Fin 4), ∀ a, (k0_off127 v502 (BitVec.ofNat 32 (16 * r.val))) a + S16.size a ≤ S1024.size a := fun v502 k0_hw55 r => k0_hw55 r

def k0_off128 (k0_t5 : Fin k0_t5_loop.trips) (c384_i32 : BitVec 32) (c0_i32_157 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v504 : BitVec 32 := Scalar.addi v164 c384_i32
  let v505 : BitVec 32 := Scalar.addi v504 c0_i32_157
  let v514 : Index := Scalar.indexCast v505
  ![v514.toNat]
def k0_off128_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off129 (v558 : BitVec 32) (c0_i32_167 : BitVec 32) : Fin 1 → Nat :=
  let c64_i32_165 : BitVec 32 := 64#32
  let v559 : BitVec 32 := Scalar.muli v558 c64_i32_165
  let v565 : BitVec 32 := Scalar.addi v559 c0_i32_167
  let v566 : Index := Scalar.indexCast v565
  ![v566.toNat]

def k0_chk56 (v558 : BitVec 32) : Prop :=
  (∀ (r : Fin 4), ∀ a, (k0_off129 v558 (BitVec.ofNat 32 (16 * r.val))) a + S16.size a ≤ S1024.size a)
instance k0_chk56.dec : ∀ (v558 : BitVec 32), Decidable (k0_chk56 v558) := fun v558 => decidable_of_iff' _ (Iff.of_eq (k0_chk56.eq_1 v558))
theorem k0_off129_inb : ∀ (v558 : BitVec 32) (k0_hw56 : k0_chk56 v558), ∀ (r : Fin 4), ∀ a, (k0_off129 v558 (BitVec.ofNat 32 (16 * r.val))) a + S16.size a ≤ S1024.size a := fun v558 k0_hw56 r => k0_hw56 r

def k0_off130 (k0_t5 : Fin k0_t5_loop.trips) (c448_i32 : BitVec 32) (c0_i32_166 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v560 : BitVec 32 := Scalar.addi v164 c448_i32
  let v561 : BitVec 32 := Scalar.addi v560 c0_i32_166
  let v570 : Index := Scalar.indexCast v561
  ![v570.toNat]
def k0_off130_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off131 (v614 : BitVec 32) (c0_i32_176 : BitVec 32) : Fin 1 → Nat :=
  let c64_i32_174 : BitVec 32 := 64#32
  let v615 : BitVec 32 := Scalar.muli v614 c64_i32_174
  let v621 : BitVec 32 := Scalar.addi v615 c0_i32_176
  let v622 : Index := Scalar.indexCast v621
  ![v622.toNat]

def k0_chk57 (v614 : BitVec 32) : Prop :=
  (∀ (r : Fin 4), ∀ a, (k0_off131 v614 (BitVec.ofNat 32 (16 * r.val))) a + S16.size a ≤ S1024.size a)
instance k0_chk57.dec : ∀ (v614 : BitVec 32), Decidable (k0_chk57 v614) := fun v614 => decidable_of_iff' _ (Iff.of_eq (k0_chk57.eq_1 v614))
theorem k0_off131_inb : ∀ (v614 : BitVec 32) (k0_hw57 : k0_chk57 v614), ∀ (r : Fin 4), ∀ a, (k0_off131 v614 (BitVec.ofNat 32 (16 * r.val))) a + S16.size a ≤ S1024.size a := fun v614 k0_hw57 r => k0_hw57 r

def k0_off132 (k0_t5 : Fin k0_t5_loop.trips) (c512_i32 : BitVec 32) (c0_i32_175 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v616 : BitVec 32 := Scalar.addi v164 c512_i32
  let v617 : BitVec 32 := Scalar.addi v616 c0_i32_175
  let v626 : Index := Scalar.indexCast v617
  ![v626.toNat]
def k0_off132_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off133 (v670 : BitVec 32) (c0_i32_185 : BitVec 32) : Fin 1 → Nat :=
  let c64_i32_183 : BitVec 32 := 64#32
  let v671 : BitVec 32 := Scalar.muli v670 c64_i32_183
  let v677 : BitVec 32 := Scalar.addi v671 c0_i32_185
  let v678 : Index := Scalar.indexCast v677
  ![v678.toNat]

def k0_chk58 (v670 : BitVec 32) : Prop :=
  (∀ (r : Fin 4), ∀ a, (k0_off133 v670 (BitVec.ofNat 32 (16 * r.val))) a + S16.size a ≤ S1024.size a)
instance k0_chk58.dec : ∀ (v670 : BitVec 32), Decidable (k0_chk58 v670) := fun v670 => decidable_of_iff' _ (Iff.of_eq (k0_chk58.eq_1 v670))
theorem k0_off133_inb : ∀ (v670 : BitVec 32) (k0_hw58 : k0_chk58 v670), ∀ (r : Fin 4), ∀ a, (k0_off133 v670 (BitVec.ofNat 32 (16 * r.val))) a + S16.size a ≤ S1024.size a := fun v670 k0_hw58 r => k0_hw58 r

def k0_off134 (k0_t5 : Fin k0_t5_loop.trips) (c576_i32 : BitVec 32) (c0_i32_184 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v672 : BitVec 32 := Scalar.addi v164 c576_i32
  let v673 : BitVec 32 := Scalar.addi v672 c0_i32_184
  let v682 : Index := Scalar.indexCast v673
  ![v682.toNat]
def k0_off134_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off135 (v726 : BitVec 32) (c0_i32_194 : BitVec 32) : Fin 1 → Nat :=
  let c64_i32_192 : BitVec 32 := 64#32
  let v727 : BitVec 32 := Scalar.muli v726 c64_i32_192
  let v733 : BitVec 32 := Scalar.addi v727 c0_i32_194
  let v734 : Index := Scalar.indexCast v733
  ![v734.toNat]

def k0_chk59 (v726 : BitVec 32) : Prop :=
  (∀ (r : Fin 4), ∀ a, (k0_off135 v726 (BitVec.ofNat 32 (16 * r.val))) a + S16.size a ≤ S1024.size a)
instance k0_chk59.dec : ∀ (v726 : BitVec 32), Decidable (k0_chk59 v726) := fun v726 => decidable_of_iff' _ (Iff.of_eq (k0_chk59.eq_1 v726))
theorem k0_off135_inb : ∀ (v726 : BitVec 32) (k0_hw59 : k0_chk59 v726), ∀ (r : Fin 4), ∀ a, (k0_off135 v726 (BitVec.ofNat 32 (16 * r.val))) a + S16.size a ≤ S1024.size a := fun v726 k0_hw59 r => k0_hw59 r

def k0_off136 (k0_t5 : Fin k0_t5_loop.trips) (c640_i32 : BitVec 32) (c0_i32_193 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v728 : BitVec 32 := Scalar.addi v164 c640_i32
  let v729 : BitVec 32 := Scalar.addi v728 c0_i32_193
  let v738 : Index := Scalar.indexCast v729
  ![v738.toNat]
def k0_off136_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off137 (v782 : BitVec 32) (c0_i32_203 : BitVec 32) : Fin 1 → Nat :=
  let c64_i32_201 : BitVec 32 := 64#32
  let v783 : BitVec 32 := Scalar.muli v782 c64_i32_201
  let v789 : BitVec 32 := Scalar.addi v783 c0_i32_203
  let v790 : Index := Scalar.indexCast v789
  ![v790.toNat]

def k0_chk60 (v782 : BitVec 32) : Prop :=
  (∀ (r : Fin 4), ∀ a, (k0_off137 v782 (BitVec.ofNat 32 (16 * r.val))) a + S16.size a ≤ S1024.size a)
instance k0_chk60.dec : ∀ (v782 : BitVec 32), Decidable (k0_chk60 v782) := fun v782 => decidable_of_iff' _ (Iff.of_eq (k0_chk60.eq_1 v782))
theorem k0_off137_inb : ∀ (v782 : BitVec 32) (k0_hw60 : k0_chk60 v782), ∀ (r : Fin 4), ∀ a, (k0_off137 v782 (BitVec.ofNat 32 (16 * r.val))) a + S16.size a ≤ S1024.size a := fun v782 k0_hw60 r => k0_hw60 r

def k0_off138 (k0_t5 : Fin k0_t5_loop.trips) (c704_i32 : BitVec 32) (c0_i32_202 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v784 : BitVec 32 := Scalar.addi v164 c704_i32
  let v785 : BitVec 32 := Scalar.addi v784 c0_i32_202
  let v794 : Index := Scalar.indexCast v785
  ![v794.toNat]
def k0_off138_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off139 (v838 : BitVec 32) (c0_i32_212 : BitVec 32) : Fin 1 → Nat :=
  let c64_i32_210 : BitVec 32 := 64#32
  let v839 : BitVec 32 := Scalar.muli v838 c64_i32_210
  let v845 : BitVec 32 := Scalar.addi v839 c0_i32_212
  let v846 : Index := Scalar.indexCast v845
  ![v846.toNat]

def k0_chk61 (v838 : BitVec 32) : Prop :=
  (∀ (r : Fin 4), ∀ a, (k0_off139 v838 (BitVec.ofNat 32 (16 * r.val))) a + S16.size a ≤ S1024.size a)
instance k0_chk61.dec : ∀ (v838 : BitVec 32), Decidable (k0_chk61 v838) := fun v838 => decidable_of_iff' _ (Iff.of_eq (k0_chk61.eq_1 v838))
theorem k0_off139_inb : ∀ (v838 : BitVec 32) (k0_hw61 : k0_chk61 v838), ∀ (r : Fin 4), ∀ a, (k0_off139 v838 (BitVec.ofNat 32 (16 * r.val))) a + S16.size a ≤ S1024.size a := fun v838 k0_hw61 r => k0_hw61 r

def k0_off140 (k0_t5 : Fin k0_t5_loop.trips) (c768_i32 : BitVec 32) (c0_i32_211 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v840 : BitVec 32 := Scalar.addi v164 c768_i32
  let v841 : BitVec 32 := Scalar.addi v840 c0_i32_211
  let v850 : Index := Scalar.indexCast v841
  ![v850.toNat]
def k0_off140_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off141 (v894 : BitVec 32) (c0_i32_221 : BitVec 32) : Fin 1 → Nat :=
  let c64_i32_219 : BitVec 32 := 64#32
  let v895 : BitVec 32 := Scalar.muli v894 c64_i32_219
  let v901 : BitVec 32 := Scalar.addi v895 c0_i32_221
  let v902 : Index := Scalar.indexCast v901
  ![v902.toNat]

def k0_chk62 (v894 : BitVec 32) : Prop :=
  (∀ (r : Fin 4), ∀ a, (k0_off141 v894 (BitVec.ofNat 32 (16 * r.val))) a + S16.size a ≤ S1024.size a)
instance k0_chk62.dec : ∀ (v894 : BitVec 32), Decidable (k0_chk62 v894) := fun v894 => decidable_of_iff' _ (Iff.of_eq (k0_chk62.eq_1 v894))
theorem k0_off141_inb : ∀ (v894 : BitVec 32) (k0_hw62 : k0_chk62 v894), ∀ (r : Fin 4), ∀ a, (k0_off141 v894 (BitVec.ofNat 32 (16 * r.val))) a + S16.size a ≤ S1024.size a := fun v894 k0_hw62 r => k0_hw62 r

def k0_off142 (k0_t5 : Fin k0_t5_loop.trips) (c832_i32 : BitVec 32) (c0_i32_220 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v896 : BitVec 32 := Scalar.addi v164 c832_i32
  let v897 : BitVec 32 := Scalar.addi v896 c0_i32_220
  let v906 : Index := Scalar.indexCast v897
  ![v906.toNat]
def k0_off142_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off143 (v950 : BitVec 32) (c0_i32_230 : BitVec 32) : Fin 1 → Nat :=
  let c64_i32_228 : BitVec 32 := 64#32
  let v951 : BitVec 32 := Scalar.muli v950 c64_i32_228
  let v957 : BitVec 32 := Scalar.addi v951 c0_i32_230
  let v958 : Index := Scalar.indexCast v957
  ![v958.toNat]

def k0_chk63 (v950 : BitVec 32) : Prop :=
  (∀ (r : Fin 4), ∀ a, (k0_off143 v950 (BitVec.ofNat 32 (16 * r.val))) a + S16.size a ≤ S1024.size a)
instance k0_chk63.dec : ∀ (v950 : BitVec 32), Decidable (k0_chk63 v950) := fun v950 => decidable_of_iff' _ (Iff.of_eq (k0_chk63.eq_1 v950))
theorem k0_off143_inb : ∀ (v950 : BitVec 32) (k0_hw63 : k0_chk63 v950), ∀ (r : Fin 4), ∀ a, (k0_off143 v950 (BitVec.ofNat 32 (16 * r.val))) a + S16.size a ≤ S1024.size a := fun v950 k0_hw63 r => k0_hw63 r

def k0_off144 (k0_t5 : Fin k0_t5_loop.trips) (c896_i32 : BitVec 32) (c0_i32_229 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let v952 : BitVec 32 := Scalar.addi v164 c896_i32
  let v953 : BitVec 32 := Scalar.addi v952 c0_i32_229
  let v962 : Index := Scalar.indexCast v953
  ![v962.toNat]
def k0_off144_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off145 (v1006 : BitVec 32) (c0_i32_239 : BitVec 32) : Fin 1 → Nat :=
  let c64_i32_237 : BitVec 32 := 64#32
  let v1007 : BitVec 32 := Scalar.muli v1006 c64_i32_237
  let v1013 : BitVec 32 := Scalar.addi v1007 c0_i32_239
  let v1014 : Index := Scalar.indexCast v1013
  ![v1014.toNat]

def k0_chk64 (v1006 : BitVec 32) : Prop :=
  (∀ (r : Fin 4), ∀ a, (k0_off145 v1006 (BitVec.ofNat 32 (16 * r.val))) a + S16.size a ≤ S1024.size a)
instance k0_chk64.dec : ∀ (v1006 : BitVec 32), Decidable (k0_chk64 v1006) := fun v1006 => decidable_of_iff' _ (Iff.of_eq (k0_chk64.eq_1 v1006))
theorem k0_off145_inb : ∀ (v1006 : BitVec 32) (k0_hw64 : k0_chk64 v1006), ∀ (r : Fin 4), ∀ a, (k0_off145 v1006 (BitVec.ofNat 32 (16 * r.val))) a + S16.size a ≤ S1024.size a := fun v1006 k0_hw64 r => k0_hw64 r

def k0_off146 (k0_t5 : Fin k0_t5_loop.trips) (c0_i32_238 : BitVec 32) : Fin 1 → Nat :=
  let c0_i32_89 : BitVec 32 := 0#32
  let c1_i32_91 : BitVec 32 := 1#32
  let arg18 : BitVec 32 := Scf.iv c0_i32_89 c1_i32_91 k0_t5
  let c1024_i32 : BitVec 32 := 1024#32
  let v164 : BitVec 32 := Scalar.muli arg18 c1024_i32
  let c960_i32 : BitVec 32 := 960#32
  let v1008 : BitVec 32 := Scalar.addi v164 c960_i32
  let v1009 : BitVec 32 := Scalar.addi v1008 c0_i32_238
  let v1018 : Index := Scalar.indexCast v1009
  ![v1018.toNat]
def k0_off147 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_93 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let v145 : BitVec 32 := Scalar.muli c32_i32_93 v130
  let v146 : BitVec 32 := Scalar.addi v1 v145
  let c25600_i32_94 : BitVec 32 := 25600#32
  let v147 : BitVec 32 := Scalar.muli v146 c25600_i32_94
  ![v147.toNat]
def k0_cond5 (i : grid0.Coords) (k0_t4 : Fin (k0_t4_loop i).trips) : BitVec 1 :=
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_96 : BitVec 32 := 1#32
  let v152 : BitVec 32 := Scalar.addi v130 c1_i32_96
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v153 : BitVec 1 := Scalar.cmpi .slt v152 v21
  let v154 : BitVec 32 := Scalar.extui v153
  let c0_i32_97 : BitVec 32 := 0#32
  let v155 : BitVec 1 := Scalar.cmpi .ne v154 c0_i32_97
  v155

def k0_cond6 (i : grid0.Coords) (k0_t4 : Fin (k0_t4_loop i).trips) : BitVec 1 :=
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_101 : BitVec 32 := 1#32
  let v160 : BitVec 32 := Scalar.addi v130 c1_i32_101
  let c1_i32_102 : BitVec 32 := 1#32
  let v161 : BitVec 32 := Scalar.addi v160 c1_i32_102
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v162 : BitVec 1 := Scalar.cmpi .slt v161 v21
  let v163 : BitVec 32 := Scalar.extui v162
  let c0_i32_103 : BitVec 32 := 0#32
  let v164 : BitVec 1 := Scalar.cmpi .ne v163 c0_i32_103
  v164

def k0_off148 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_101 : BitVec 32 := 1#32
  let v160 : BitVec 32 := Scalar.addi v130 c1_i32_101
  let c1_i32_121 : BitVec 32 := 1#32
  let v186 : BitVec 32 := Scalar.addi v160 c1_i32_121
  let v187 : BitVec 32 := Scalar.muli c32_i32_122 v186
  let v188 : BitVec 32 := Scalar.addi v1 v187
  let c25600_i32_123 : BitVec 32 := 25600#32
  let v189 : BitVec 32 := Scalar.muli v188 c25600_i32_123
  ![v189.toNat]
def k0_off149 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_101 : BitVec 32 := 1#32
  let v160 : BitVec 32 := Scalar.addi v130 c1_i32_101
  let c1_i32_121 : BitVec 32 := 1#32
  let v186 : BitVec 32 := Scalar.addi v160 c1_i32_121
  let v187 : BitVec 32 := Scalar.muli c32_i32_122 v186
  let v188 : BitVec 32 := Scalar.addi v1 v187
  let c400_i32_125 : BitVec 32 := 400#32
  let v194 : BitVec 32 := Scalar.muli v188 c400_i32_125
  ![v194.toNat]
@[reducible] def k0_t6_loop : Scf.Loop 32 :=
  let c0_i32_111 : BitVec 32 := 0#32
  let c25_i32_112 : BitVec 32 := 25#32
  let v173 : BitVec 32 := Scalar.addi c0_i32_111 c25_i32_112
  let c1_i32_113 : BitVec 32 := 1#32
  ⟨c0_i32_111, v173, c1_i32_113⟩
def k0_off150 (k0_t6 : Fin k0_t6_loop.trips) : Fin 1 → Nat :=
  let c0_i32_111 : BitVec 32 := 0#32
  let c1_i32_113 : BitVec 32 := 1#32
  let arg18 : BitVec 32 := Scf.iv c0_i32_111 c1_i32_113 k0_t6
  let c16_i32 : BitVec 32 := 16#32
  let v182 : BitVec 32 := Scalar.muli arg18 c16_i32
  let v183 : Index := Scalar.indexCast v182
  ![v183.toNat]
def k0_off151 (k0_t6 : Fin k0_t6_loop.trips) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let c0_i32_119 : BitVec 32 := 0#32
  let v190 : BitVec 32 := Scalar.addi v186 c0_i32_119
  let c0_i32_120 : BitVec 32 := 0#32
  let v191 : BitVec 32 := Scalar.addi v190 c0_i32_120
  let v192 : Index := Scalar.indexCast v191
  ![v192.toNat]
def k0_off152 (v188 : BitVec 32) (c0_i32_121 : BitVec 32) : Fin 1 → Nat :=
  let c64_i32_118 : BitVec 32 := 64#32
  let v189 : BitVec 32 := Scalar.muli v188 c64_i32_118
  let v195 : BitVec 32 := Scalar.addi v189 c0_i32_121
  let v196 : Index := Scalar.indexCast v195
  ![v196.toNat]

def k0_chk65 (i : grid0.Coords) (k0_t4 : Fin (k0_t4_loop i).trips) (v188 : BitVec 32) : Prop :=
  (∀ (k0_h5 : k0_cond5 i k0_t4 = 1#1), ∀ (r : Fin 4), ∀ a, (k0_off152 v188 (BitVec.ofNat 32 (16 * r.val))) a + S16.size a ≤ S1024.size a)
instance k0_chk65.dec : ∀ (i : grid0.Coords) (k0_t4 : Fin (k0_t4_loop i).trips) (v188 : BitVec 32), Decidable (k0_chk65 i k0_t4 v188) := fun i k0_t4 v188 => decidable_of_iff' _ (Iff.of_eq (k0_chk65.eq_1 i k0_t4 v188))
theorem k0_off152_inb : ∀ (i : grid0.Coords) (k0_t4 : Fin (k0_t4_loop i).trips) (v188 : BitVec 32) (k0_hw65 : k0_chk65 i k0_t4 v188), ∀ (k0_h5 : k0_cond5 i k0_t4 = 1#1), ∀ (r : Fin 4), ∀ a, (k0_off152 v188 (BitVec.ofNat 32 (16 * r.val))) a + S16.size a ≤ S1024.size a := fun i k0_t4 v188 k0_hw65 k0_h5 r => k0_hw65 k0_h5 r

def k0_off153 (k0_t6 : Fin k0_t6_loop.trips) (c0_i32_119 : BitVec 32) (c0_i32_120 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v190 : BitVec 32 := Scalar.addi v186 c0_i32_119
  let v191 : BitVec 32 := Scalar.addi v190 c0_i32_120
  let v200 : Index := Scalar.indexCast v191
  ![v200.toNat]
def k0_off153_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off154 (v244 : BitVec 32) (c0_i32_130 : BitVec 32) : Fin 1 → Nat :=
  let c64_i32_127 : BitVec 32 := 64#32
  let v245 : BitVec 32 := Scalar.muli v244 c64_i32_127
  let v251 : BitVec 32 := Scalar.addi v245 c0_i32_130
  let v252 : Index := Scalar.indexCast v251
  ![v252.toNat]

def k0_chk66 (i : grid0.Coords) (k0_t4 : Fin (k0_t4_loop i).trips) (v244 : BitVec 32) : Prop :=
  (∀ (k0_h5 : k0_cond5 i k0_t4 = 1#1), ∀ (r : Fin 4), ∀ a, (k0_off154 v244 (BitVec.ofNat 32 (16 * r.val))) a + S16.size a ≤ S1024.size a)
instance k0_chk66.dec : ∀ (i : grid0.Coords) (k0_t4 : Fin (k0_t4_loop i).trips) (v244 : BitVec 32), Decidable (k0_chk66 i k0_t4 v244) := fun i k0_t4 v244 => decidable_of_iff' _ (Iff.of_eq (k0_chk66.eq_1 i k0_t4 v244))
theorem k0_off154_inb : ∀ (i : grid0.Coords) (k0_t4 : Fin (k0_t4_loop i).trips) (v244 : BitVec 32) (k0_hw66 : k0_chk66 i k0_t4 v244), ∀ (k0_h5 : k0_cond5 i k0_t4 = 1#1), ∀ (r : Fin 4), ∀ a, (k0_off154 v244 (BitVec.ofNat 32 (16 * r.val))) a + S16.size a ≤ S1024.size a := fun i k0_t4 v244 k0_hw66 k0_h5 r => k0_hw66 k0_h5 r

def k0_off155 (k0_t6 : Fin k0_t6_loop.trips) (c64_i32_128 : BitVec 32) (c0_i32_129 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v246 : BitVec 32 := Scalar.addi v186 c64_i32_128
  let v247 : BitVec 32 := Scalar.addi v246 c0_i32_129
  let v256 : Index := Scalar.indexCast v247
  ![v256.toNat]
def k0_off155_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off156 (v300 : BitVec 32) (c0_i32_139 : BitVec 32) : Fin 1 → Nat :=
  let c64_i32_137 : BitVec 32 := 64#32
  let v301 : BitVec 32 := Scalar.muli v300 c64_i32_137
  let v307 : BitVec 32 := Scalar.addi v301 c0_i32_139
  let v308 : Index := Scalar.indexCast v307
  ![v308.toNat]

def k0_chk67 (i : grid0.Coords) (k0_t4 : Fin (k0_t4_loop i).trips) (v300 : BitVec 32) : Prop :=
  (∀ (k0_h5 : k0_cond5 i k0_t4 = 1#1), ∀ (r : Fin 4), ∀ a, (k0_off156 v300 (BitVec.ofNat 32 (16 * r.val))) a + S16.size a ≤ S1024.size a)
instance k0_chk67.dec : ∀ (i : grid0.Coords) (k0_t4 : Fin (k0_t4_loop i).trips) (v300 : BitVec 32), Decidable (k0_chk67 i k0_t4 v300) := fun i k0_t4 v300 => decidable_of_iff' _ (Iff.of_eq (k0_chk67.eq_1 i k0_t4 v300))
theorem k0_off156_inb : ∀ (i : grid0.Coords) (k0_t4 : Fin (k0_t4_loop i).trips) (v300 : BitVec 32) (k0_hw67 : k0_chk67 i k0_t4 v300), ∀ (k0_h5 : k0_cond5 i k0_t4 = 1#1), ∀ (r : Fin 4), ∀ a, (k0_off156 v300 (BitVec.ofNat 32 (16 * r.val))) a + S16.size a ≤ S1024.size a := fun i k0_t4 v300 k0_hw67 k0_h5 r => k0_hw67 k0_h5 r

def k0_off157 (k0_t6 : Fin k0_t6_loop.trips) (c128_i32 : BitVec 32) (c0_i32_138 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v302 : BitVec 32 := Scalar.addi v186 c128_i32
  let v303 : BitVec 32 := Scalar.addi v302 c0_i32_138
  let v312 : Index := Scalar.indexCast v303
  ![v312.toNat]
def k0_off157_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off158 (v356 : BitVec 32) (c0_i32_148 : BitVec 32) : Fin 1 → Nat :=
  let c64_i32_146 : BitVec 32 := 64#32
  let v357 : BitVec 32 := Scalar.muli v356 c64_i32_146
  let v363 : BitVec 32 := Scalar.addi v357 c0_i32_148
  let v364 : Index := Scalar.indexCast v363
  ![v364.toNat]

def k0_chk68 (i : grid0.Coords) (k0_t4 : Fin (k0_t4_loop i).trips) (v356 : BitVec 32) : Prop :=
  (∀ (k0_h5 : k0_cond5 i k0_t4 = 1#1), ∀ (r : Fin 4), ∀ a, (k0_off158 v356 (BitVec.ofNat 32 (16 * r.val))) a + S16.size a ≤ S1024.size a)
instance k0_chk68.dec : ∀ (i : grid0.Coords) (k0_t4 : Fin (k0_t4_loop i).trips) (v356 : BitVec 32), Decidable (k0_chk68 i k0_t4 v356) := fun i k0_t4 v356 => decidable_of_iff' _ (Iff.of_eq (k0_chk68.eq_1 i k0_t4 v356))
theorem k0_off158_inb : ∀ (i : grid0.Coords) (k0_t4 : Fin (k0_t4_loop i).trips) (v356 : BitVec 32) (k0_hw68 : k0_chk68 i k0_t4 v356), ∀ (k0_h5 : k0_cond5 i k0_t4 = 1#1), ∀ (r : Fin 4), ∀ a, (k0_off158 v356 (BitVec.ofNat 32 (16 * r.val))) a + S16.size a ≤ S1024.size a := fun i k0_t4 v356 k0_hw68 k0_h5 r => k0_hw68 k0_h5 r

def k0_off159 (k0_t6 : Fin k0_t6_loop.trips) (c192_i32 : BitVec 32) (c0_i32_147 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v358 : BitVec 32 := Scalar.addi v186 c192_i32
  let v359 : BitVec 32 := Scalar.addi v358 c0_i32_147
  let v368 : Index := Scalar.indexCast v359
  ![v368.toNat]
def k0_off159_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off160 (v412 : BitVec 32) (c0_i32_157 : BitVec 32) : Fin 1 → Nat :=
  let c64_i32_155 : BitVec 32 := 64#32
  let v413 : BitVec 32 := Scalar.muli v412 c64_i32_155
  let v419 : BitVec 32 := Scalar.addi v413 c0_i32_157
  let v420 : Index := Scalar.indexCast v419
  ![v420.toNat]

def k0_chk69 (i : grid0.Coords) (k0_t4 : Fin (k0_t4_loop i).trips) (v412 : BitVec 32) : Prop :=
  (∀ (k0_h5 : k0_cond5 i k0_t4 = 1#1), ∀ (r : Fin 4), ∀ a, (k0_off160 v412 (BitVec.ofNat 32 (16 * r.val))) a + S16.size a ≤ S1024.size a)
instance k0_chk69.dec : ∀ (i : grid0.Coords) (k0_t4 : Fin (k0_t4_loop i).trips) (v412 : BitVec 32), Decidable (k0_chk69 i k0_t4 v412) := fun i k0_t4 v412 => decidable_of_iff' _ (Iff.of_eq (k0_chk69.eq_1 i k0_t4 v412))
theorem k0_off160_inb : ∀ (i : grid0.Coords) (k0_t4 : Fin (k0_t4_loop i).trips) (v412 : BitVec 32) (k0_hw69 : k0_chk69 i k0_t4 v412), ∀ (k0_h5 : k0_cond5 i k0_t4 = 1#1), ∀ (r : Fin 4), ∀ a, (k0_off160 v412 (BitVec.ofNat 32 (16 * r.val))) a + S16.size a ≤ S1024.size a := fun i k0_t4 v412 k0_hw69 k0_h5 r => k0_hw69 k0_h5 r

def k0_off161 (k0_t6 : Fin k0_t6_loop.trips) (c256_i32 : BitVec 32) (c0_i32_156 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v414 : BitVec 32 := Scalar.addi v186 c256_i32
  let v415 : BitVec 32 := Scalar.addi v414 c0_i32_156
  let v424 : Index := Scalar.indexCast v415
  ![v424.toNat]
def k0_off161_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off162 (v468 : BitVec 32) (c0_i32_166 : BitVec 32) : Fin 1 → Nat :=
  let c64_i32_164 : BitVec 32 := 64#32
  let v469 : BitVec 32 := Scalar.muli v468 c64_i32_164
  let v475 : BitVec 32 := Scalar.addi v469 c0_i32_166
  let v476 : Index := Scalar.indexCast v475
  ![v476.toNat]

def k0_chk70 (i : grid0.Coords) (k0_t4 : Fin (k0_t4_loop i).trips) (v468 : BitVec 32) : Prop :=
  (∀ (k0_h5 : k0_cond5 i k0_t4 = 1#1), ∀ (r : Fin 4), ∀ a, (k0_off162 v468 (BitVec.ofNat 32 (16 * r.val))) a + S16.size a ≤ S1024.size a)
instance k0_chk70.dec : ∀ (i : grid0.Coords) (k0_t4 : Fin (k0_t4_loop i).trips) (v468 : BitVec 32), Decidable (k0_chk70 i k0_t4 v468) := fun i k0_t4 v468 => decidable_of_iff' _ (Iff.of_eq (k0_chk70.eq_1 i k0_t4 v468))
theorem k0_off162_inb : ∀ (i : grid0.Coords) (k0_t4 : Fin (k0_t4_loop i).trips) (v468 : BitVec 32) (k0_hw70 : k0_chk70 i k0_t4 v468), ∀ (k0_h5 : k0_cond5 i k0_t4 = 1#1), ∀ (r : Fin 4), ∀ a, (k0_off162 v468 (BitVec.ofNat 32 (16 * r.val))) a + S16.size a ≤ S1024.size a := fun i k0_t4 v468 k0_hw70 k0_h5 r => k0_hw70 k0_h5 r

def k0_off163 (k0_t6 : Fin k0_t6_loop.trips) (c320_i32 : BitVec 32) (c0_i32_165 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v470 : BitVec 32 := Scalar.addi v186 c320_i32
  let v471 : BitVec 32 := Scalar.addi v470 c0_i32_165
  let v480 : Index := Scalar.indexCast v471
  ![v480.toNat]
def k0_off163_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off164 (v524 : BitVec 32) (c0_i32_175 : BitVec 32) : Fin 1 → Nat :=
  let c64_i32_173 : BitVec 32 := 64#32
  let v525 : BitVec 32 := Scalar.muli v524 c64_i32_173
  let v531 : BitVec 32 := Scalar.addi v525 c0_i32_175
  let v532 : Index := Scalar.indexCast v531
  ![v532.toNat]

def k0_chk71 (i : grid0.Coords) (k0_t4 : Fin (k0_t4_loop i).trips) (v524 : BitVec 32) : Prop :=
  (∀ (k0_h5 : k0_cond5 i k0_t4 = 1#1), ∀ (r : Fin 4), ∀ a, (k0_off164 v524 (BitVec.ofNat 32 (16 * r.val))) a + S16.size a ≤ S1024.size a)
instance k0_chk71.dec : ∀ (i : grid0.Coords) (k0_t4 : Fin (k0_t4_loop i).trips) (v524 : BitVec 32), Decidable (k0_chk71 i k0_t4 v524) := fun i k0_t4 v524 => decidable_of_iff' _ (Iff.of_eq (k0_chk71.eq_1 i k0_t4 v524))
theorem k0_off164_inb : ∀ (i : grid0.Coords) (k0_t4 : Fin (k0_t4_loop i).trips) (v524 : BitVec 32) (k0_hw71 : k0_chk71 i k0_t4 v524), ∀ (k0_h5 : k0_cond5 i k0_t4 = 1#1), ∀ (r : Fin 4), ∀ a, (k0_off164 v524 (BitVec.ofNat 32 (16 * r.val))) a + S16.size a ≤ S1024.size a := fun i k0_t4 v524 k0_hw71 k0_h5 r => k0_hw71 k0_h5 r

def k0_off165 (k0_t6 : Fin k0_t6_loop.trips) (c384_i32 : BitVec 32) (c0_i32_174 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v526 : BitVec 32 := Scalar.addi v186 c384_i32
  let v527 : BitVec 32 := Scalar.addi v526 c0_i32_174
  let v536 : Index := Scalar.indexCast v527
  ![v536.toNat]
def k0_off165_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off166 (v580 : BitVec 32) (c0_i32_184 : BitVec 32) : Fin 1 → Nat :=
  let c64_i32_182 : BitVec 32 := 64#32
  let v581 : BitVec 32 := Scalar.muli v580 c64_i32_182
  let v587 : BitVec 32 := Scalar.addi v581 c0_i32_184
  let v588 : Index := Scalar.indexCast v587
  ![v588.toNat]

def k0_chk72 (i : grid0.Coords) (k0_t4 : Fin (k0_t4_loop i).trips) (v580 : BitVec 32) : Prop :=
  (∀ (k0_h5 : k0_cond5 i k0_t4 = 1#1), ∀ (r : Fin 4), ∀ a, (k0_off166 v580 (BitVec.ofNat 32 (16 * r.val))) a + S16.size a ≤ S1024.size a)
instance k0_chk72.dec : ∀ (i : grid0.Coords) (k0_t4 : Fin (k0_t4_loop i).trips) (v580 : BitVec 32), Decidable (k0_chk72 i k0_t4 v580) := fun i k0_t4 v580 => decidable_of_iff' _ (Iff.of_eq (k0_chk72.eq_1 i k0_t4 v580))
theorem k0_off166_inb : ∀ (i : grid0.Coords) (k0_t4 : Fin (k0_t4_loop i).trips) (v580 : BitVec 32) (k0_hw72 : k0_chk72 i k0_t4 v580), ∀ (k0_h5 : k0_cond5 i k0_t4 = 1#1), ∀ (r : Fin 4), ∀ a, (k0_off166 v580 (BitVec.ofNat 32 (16 * r.val))) a + S16.size a ≤ S1024.size a := fun i k0_t4 v580 k0_hw72 k0_h5 r => k0_hw72 k0_h5 r

def k0_off167 (k0_t6 : Fin k0_t6_loop.trips) (c448_i32 : BitVec 32) (c0_i32_183 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v582 : BitVec 32 := Scalar.addi v186 c448_i32
  let v583 : BitVec 32 := Scalar.addi v582 c0_i32_183
  let v592 : Index := Scalar.indexCast v583
  ![v592.toNat]
def k0_off167_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off168 (v636 : BitVec 32) (c0_i32_193 : BitVec 32) : Fin 1 → Nat :=
  let c64_i32_191 : BitVec 32 := 64#32
  let v637 : BitVec 32 := Scalar.muli v636 c64_i32_191
  let v643 : BitVec 32 := Scalar.addi v637 c0_i32_193
  let v644 : Index := Scalar.indexCast v643
  ![v644.toNat]

def k0_chk73 (i : grid0.Coords) (k0_t4 : Fin (k0_t4_loop i).trips) (v636 : BitVec 32) : Prop :=
  (∀ (k0_h5 : k0_cond5 i k0_t4 = 1#1), ∀ (r : Fin 4), ∀ a, (k0_off168 v636 (BitVec.ofNat 32 (16 * r.val))) a + S16.size a ≤ S1024.size a)
instance k0_chk73.dec : ∀ (i : grid0.Coords) (k0_t4 : Fin (k0_t4_loop i).trips) (v636 : BitVec 32), Decidable (k0_chk73 i k0_t4 v636) := fun i k0_t4 v636 => decidable_of_iff' _ (Iff.of_eq (k0_chk73.eq_1 i k0_t4 v636))
theorem k0_off168_inb : ∀ (i : grid0.Coords) (k0_t4 : Fin (k0_t4_loop i).trips) (v636 : BitVec 32) (k0_hw73 : k0_chk73 i k0_t4 v636), ∀ (k0_h5 : k0_cond5 i k0_t4 = 1#1), ∀ (r : Fin 4), ∀ a, (k0_off168 v636 (BitVec.ofNat 32 (16 * r.val))) a + S16.size a ≤ S1024.size a := fun i k0_t4 v636 k0_hw73 k0_h5 r => k0_hw73 k0_h5 r

def k0_off169 (k0_t6 : Fin k0_t6_loop.trips) (c512_i32 : BitVec 32) (c0_i32_192 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v638 : BitVec 32 := Scalar.addi v186 c512_i32
  let v639 : BitVec 32 := Scalar.addi v638 c0_i32_192
  let v648 : Index := Scalar.indexCast v639
  ![v648.toNat]
def k0_off169_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off170 (v692 : BitVec 32) (c0_i32_202 : BitVec 32) : Fin 1 → Nat :=
  let c64_i32_200 : BitVec 32 := 64#32
  let v693 : BitVec 32 := Scalar.muli v692 c64_i32_200
  let v699 : BitVec 32 := Scalar.addi v693 c0_i32_202
  let v700 : Index := Scalar.indexCast v699
  ![v700.toNat]

def k0_chk74 (i : grid0.Coords) (k0_t4 : Fin (k0_t4_loop i).trips) (v692 : BitVec 32) : Prop :=
  (∀ (k0_h5 : k0_cond5 i k0_t4 = 1#1), ∀ (r : Fin 4), ∀ a, (k0_off170 v692 (BitVec.ofNat 32 (16 * r.val))) a + S16.size a ≤ S1024.size a)
instance k0_chk74.dec : ∀ (i : grid0.Coords) (k0_t4 : Fin (k0_t4_loop i).trips) (v692 : BitVec 32), Decidable (k0_chk74 i k0_t4 v692) := fun i k0_t4 v692 => decidable_of_iff' _ (Iff.of_eq (k0_chk74.eq_1 i k0_t4 v692))
theorem k0_off170_inb : ∀ (i : grid0.Coords) (k0_t4 : Fin (k0_t4_loop i).trips) (v692 : BitVec 32) (k0_hw74 : k0_chk74 i k0_t4 v692), ∀ (k0_h5 : k0_cond5 i k0_t4 = 1#1), ∀ (r : Fin 4), ∀ a, (k0_off170 v692 (BitVec.ofNat 32 (16 * r.val))) a + S16.size a ≤ S1024.size a := fun i k0_t4 v692 k0_hw74 k0_h5 r => k0_hw74 k0_h5 r

def k0_off171 (k0_t6 : Fin k0_t6_loop.trips) (c576_i32 : BitVec 32) (c0_i32_201 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v694 : BitVec 32 := Scalar.addi v186 c576_i32
  let v695 : BitVec 32 := Scalar.addi v694 c0_i32_201
  let v704 : Index := Scalar.indexCast v695
  ![v704.toNat]
def k0_off171_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off172 (v748 : BitVec 32) (c0_i32_211 : BitVec 32) : Fin 1 → Nat :=
  let c64_i32_209 : BitVec 32 := 64#32
  let v749 : BitVec 32 := Scalar.muli v748 c64_i32_209
  let v755 : BitVec 32 := Scalar.addi v749 c0_i32_211
  let v756 : Index := Scalar.indexCast v755
  ![v756.toNat]

def k0_chk75 (i : grid0.Coords) (k0_t4 : Fin (k0_t4_loop i).trips) (v748 : BitVec 32) : Prop :=
  (∀ (k0_h5 : k0_cond5 i k0_t4 = 1#1), ∀ (r : Fin 4), ∀ a, (k0_off172 v748 (BitVec.ofNat 32 (16 * r.val))) a + S16.size a ≤ S1024.size a)
instance k0_chk75.dec : ∀ (i : grid0.Coords) (k0_t4 : Fin (k0_t4_loop i).trips) (v748 : BitVec 32), Decidable (k0_chk75 i k0_t4 v748) := fun i k0_t4 v748 => decidable_of_iff' _ (Iff.of_eq (k0_chk75.eq_1 i k0_t4 v748))
theorem k0_off172_inb : ∀ (i : grid0.Coords) (k0_t4 : Fin (k0_t4_loop i).trips) (v748 : BitVec 32) (k0_hw75 : k0_chk75 i k0_t4 v748), ∀ (k0_h5 : k0_cond5 i k0_t4 = 1#1), ∀ (r : Fin 4), ∀ a, (k0_off172 v748 (BitVec.ofNat 32 (16 * r.val))) a + S16.size a ≤ S1024.size a := fun i k0_t4 v748 k0_hw75 k0_h5 r => k0_hw75 k0_h5 r

def k0_off173 (k0_t6 : Fin k0_t6_loop.trips) (c640_i32 : BitVec 32) (c0_i32_210 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v750 : BitVec 32 := Scalar.addi v186 c640_i32
  let v751 : BitVec 32 := Scalar.addi v750 c0_i32_210
  let v760 : Index := Scalar.indexCast v751
  ![v760.toNat]
def k0_off173_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off174 (v804 : BitVec 32) (c0_i32_220 : BitVec 32) : Fin 1 → Nat :=
  let c64_i32_218 : BitVec 32 := 64#32
  let v805 : BitVec 32 := Scalar.muli v804 c64_i32_218
  let v811 : BitVec 32 := Scalar.addi v805 c0_i32_220
  let v812 : Index := Scalar.indexCast v811
  ![v812.toNat]

def k0_chk76 (i : grid0.Coords) (k0_t4 : Fin (k0_t4_loop i).trips) (v804 : BitVec 32) : Prop :=
  (∀ (k0_h5 : k0_cond5 i k0_t4 = 1#1), ∀ (r : Fin 4), ∀ a, (k0_off174 v804 (BitVec.ofNat 32 (16 * r.val))) a + S16.size a ≤ S1024.size a)
instance k0_chk76.dec : ∀ (i : grid0.Coords) (k0_t4 : Fin (k0_t4_loop i).trips) (v804 : BitVec 32), Decidable (k0_chk76 i k0_t4 v804) := fun i k0_t4 v804 => decidable_of_iff' _ (Iff.of_eq (k0_chk76.eq_1 i k0_t4 v804))
theorem k0_off174_inb : ∀ (i : grid0.Coords) (k0_t4 : Fin (k0_t4_loop i).trips) (v804 : BitVec 32) (k0_hw76 : k0_chk76 i k0_t4 v804), ∀ (k0_h5 : k0_cond5 i k0_t4 = 1#1), ∀ (r : Fin 4), ∀ a, (k0_off174 v804 (BitVec.ofNat 32 (16 * r.val))) a + S16.size a ≤ S1024.size a := fun i k0_t4 v804 k0_hw76 k0_h5 r => k0_hw76 k0_h5 r

def k0_off175 (k0_t6 : Fin k0_t6_loop.trips) (c704_i32 : BitVec 32) (c0_i32_219 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v806 : BitVec 32 := Scalar.addi v186 c704_i32
  let v807 : BitVec 32 := Scalar.addi v806 c0_i32_219
  let v816 : Index := Scalar.indexCast v807
  ![v816.toNat]
def k0_off175_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off176 (v860 : BitVec 32) (c0_i32_229 : BitVec 32) : Fin 1 → Nat :=
  let c64_i32_227 : BitVec 32 := 64#32
  let v861 : BitVec 32 := Scalar.muli v860 c64_i32_227
  let v867 : BitVec 32 := Scalar.addi v861 c0_i32_229
  let v868 : Index := Scalar.indexCast v867
  ![v868.toNat]

def k0_chk77 (i : grid0.Coords) (k0_t4 : Fin (k0_t4_loop i).trips) (v860 : BitVec 32) : Prop :=
  (∀ (k0_h5 : k0_cond5 i k0_t4 = 1#1), ∀ (r : Fin 4), ∀ a, (k0_off176 v860 (BitVec.ofNat 32 (16 * r.val))) a + S16.size a ≤ S1024.size a)
instance k0_chk77.dec : ∀ (i : grid0.Coords) (k0_t4 : Fin (k0_t4_loop i).trips) (v860 : BitVec 32), Decidable (k0_chk77 i k0_t4 v860) := fun i k0_t4 v860 => decidable_of_iff' _ (Iff.of_eq (k0_chk77.eq_1 i k0_t4 v860))
theorem k0_off176_inb : ∀ (i : grid0.Coords) (k0_t4 : Fin (k0_t4_loop i).trips) (v860 : BitVec 32) (k0_hw77 : k0_chk77 i k0_t4 v860), ∀ (k0_h5 : k0_cond5 i k0_t4 = 1#1), ∀ (r : Fin 4), ∀ a, (k0_off176 v860 (BitVec.ofNat 32 (16 * r.val))) a + S16.size a ≤ S1024.size a := fun i k0_t4 v860 k0_hw77 k0_h5 r => k0_hw77 k0_h5 r

def k0_off177 (k0_t6 : Fin k0_t6_loop.trips) (c768_i32 : BitVec 32) (c0_i32_228 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v862 : BitVec 32 := Scalar.addi v186 c768_i32
  let v863 : BitVec 32 := Scalar.addi v862 c0_i32_228
  let v872 : Index := Scalar.indexCast v863
  ![v872.toNat]
def k0_off177_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off178 (v916 : BitVec 32) (c0_i32_238 : BitVec 32) : Fin 1 → Nat :=
  let c64_i32_236 : BitVec 32 := 64#32
  let v917 : BitVec 32 := Scalar.muli v916 c64_i32_236
  let v923 : BitVec 32 := Scalar.addi v917 c0_i32_238
  let v924 : Index := Scalar.indexCast v923
  ![v924.toNat]

def k0_chk78 (i : grid0.Coords) (k0_t4 : Fin (k0_t4_loop i).trips) (v916 : BitVec 32) : Prop :=
  (∀ (k0_h5 : k0_cond5 i k0_t4 = 1#1), ∀ (r : Fin 4), ∀ a, (k0_off178 v916 (BitVec.ofNat 32 (16 * r.val))) a + S16.size a ≤ S1024.size a)
instance k0_chk78.dec : ∀ (i : grid0.Coords) (k0_t4 : Fin (k0_t4_loop i).trips) (v916 : BitVec 32), Decidable (k0_chk78 i k0_t4 v916) := fun i k0_t4 v916 => decidable_of_iff' _ (Iff.of_eq (k0_chk78.eq_1 i k0_t4 v916))
theorem k0_off178_inb : ∀ (i : grid0.Coords) (k0_t4 : Fin (k0_t4_loop i).trips) (v916 : BitVec 32) (k0_hw78 : k0_chk78 i k0_t4 v916), ∀ (k0_h5 : k0_cond5 i k0_t4 = 1#1), ∀ (r : Fin 4), ∀ a, (k0_off178 v916 (BitVec.ofNat 32 (16 * r.val))) a + S16.size a ≤ S1024.size a := fun i k0_t4 v916 k0_hw78 k0_h5 r => k0_hw78 k0_h5 r

def k0_off179 (k0_t6 : Fin k0_t6_loop.trips) (c832_i32 : BitVec 32) (c0_i32_237 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v918 : BitVec 32 := Scalar.addi v186 c832_i32
  let v919 : BitVec 32 := Scalar.addi v918 c0_i32_237
  let v928 : Index := Scalar.indexCast v919
  ![v928.toNat]
def k0_off179_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off180 (v972 : BitVec 32) (c0_i32_247 : BitVec 32) : Fin 1 → Nat :=
  let c64_i32_245 : BitVec 32 := 64#32
  let v973 : BitVec 32 := Scalar.muli v972 c64_i32_245
  let v979 : BitVec 32 := Scalar.addi v973 c0_i32_247
  let v980 : Index := Scalar.indexCast v979
  ![v980.toNat]

def k0_chk79 (i : grid0.Coords) (k0_t4 : Fin (k0_t4_loop i).trips) (v972 : BitVec 32) : Prop :=
  (∀ (k0_h5 : k0_cond5 i k0_t4 = 1#1), ∀ (r : Fin 4), ∀ a, (k0_off180 v972 (BitVec.ofNat 32 (16 * r.val))) a + S16.size a ≤ S1024.size a)
instance k0_chk79.dec : ∀ (i : grid0.Coords) (k0_t4 : Fin (k0_t4_loop i).trips) (v972 : BitVec 32), Decidable (k0_chk79 i k0_t4 v972) := fun i k0_t4 v972 => decidable_of_iff' _ (Iff.of_eq (k0_chk79.eq_1 i k0_t4 v972))
theorem k0_off180_inb : ∀ (i : grid0.Coords) (k0_t4 : Fin (k0_t4_loop i).trips) (v972 : BitVec 32) (k0_hw79 : k0_chk79 i k0_t4 v972), ∀ (k0_h5 : k0_cond5 i k0_t4 = 1#1), ∀ (r : Fin 4), ∀ a, (k0_off180 v972 (BitVec.ofNat 32 (16 * r.val))) a + S16.size a ≤ S1024.size a := fun i k0_t4 v972 k0_hw79 k0_h5 r => k0_hw79 k0_h5 r

def k0_off181 (k0_t6 : Fin k0_t6_loop.trips) (c896_i32 : BitVec 32) (c0_i32_246 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let v974 : BitVec 32 := Scalar.addi v186 c896_i32
  let v975 : BitVec 32 := Scalar.addi v974 c0_i32_246
  let v984 : Index := Scalar.indexCast v975
  ![v984.toNat]
def k0_off181_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off182 (v1028 : BitVec 32) (c0_i32_256 : BitVec 32) : Fin 1 → Nat :=
  let c64_i32_254 : BitVec 32 := 64#32
  let v1029 : BitVec 32 := Scalar.muli v1028 c64_i32_254
  let v1035 : BitVec 32 := Scalar.addi v1029 c0_i32_256
  let v1036 : Index := Scalar.indexCast v1035
  ![v1036.toNat]

def k0_chk80 (i : grid0.Coords) (k0_t4 : Fin (k0_t4_loop i).trips) (v1028 : BitVec 32) : Prop :=
  (∀ (k0_h5 : k0_cond5 i k0_t4 = 1#1), ∀ (r : Fin 4), ∀ a, (k0_off182 v1028 (BitVec.ofNat 32 (16 * r.val))) a + S16.size a ≤ S1024.size a)
instance k0_chk80.dec : ∀ (i : grid0.Coords) (k0_t4 : Fin (k0_t4_loop i).trips) (v1028 : BitVec 32), Decidable (k0_chk80 i k0_t4 v1028) := fun i k0_t4 v1028 => decidable_of_iff' _ (Iff.of_eq (k0_chk80.eq_1 i k0_t4 v1028))
theorem k0_off182_inb : ∀ (i : grid0.Coords) (k0_t4 : Fin (k0_t4_loop i).trips) (v1028 : BitVec 32) (k0_hw80 : k0_chk80 i k0_t4 v1028), ∀ (k0_h5 : k0_cond5 i k0_t4 = 1#1), ∀ (r : Fin 4), ∀ a, (k0_off182 v1028 (BitVec.ofNat 32 (16 * r.val))) a + S16.size a ≤ S1024.size a := fun i k0_t4 v1028 k0_hw80 k0_h5 r => k0_hw80 k0_h5 r

def k0_off183 (k0_t6 : Fin k0_t6_loop.trips) (c0_i32_255 : BitVec 32) : Fin 1 → Nat :=
  let c0_i32_111 : BitVec 32 := 0#32
  let c1_i32_113 : BitVec 32 := 1#32
  let arg18 : BitVec 32 := Scf.iv c0_i32_111 c1_i32_113 k0_t6
  let c1024_i32 : BitVec 32 := 1024#32
  let v186 : BitVec 32 := Scalar.muli arg18 c1024_i32
  let c960_i32 : BitVec 32 := 960#32
  let v1030 : BitVec 32 := Scalar.addi v186 c960_i32
  let v1031 : BitVec 32 := Scalar.addi v1030 c0_i32_255
  let v1040 : Index := Scalar.indexCast v1031
  ![v1040.toNat]
def k0_off184 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_115 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c1_i32_101 : BitVec 32 := 1#32
  let v160 : BitVec 32 := Scalar.addi v130 c1_i32_101
  let v175 : BitVec 32 := Scalar.muli c32_i32_115 v160
  let v176 : BitVec 32 := Scalar.addi v1 v175
  let c25600_i32_116 : BitVec 32 := 25600#32
  let v177 : BitVec 32 := Scalar.muli v176 c25600_i32_116
  ![v177.toNat]
def k0_cond7 (i : grid0.Coords) (k0_t4 : Fin (k0_t4_loop i).trips) : BitVec 1 :=
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c2_i32_98 : BitVec 32 := 2#32
  let v156 : BitVec 32 := Scalar.addi v130 c2_i32_98
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v157 : BitVec 1 := Scalar.cmpi .slt v156 v21
  let v158 : BitVec 32 := Scalar.extui v157
  let c0_i32_99 : BitVec 32 := 0#32
  let v159 : BitVec 1 := Scalar.cmpi .ne v158 c0_i32_99
  v159

def k0_cond8 (i : grid0.Coords) (k0_t4 : Fin (k0_t4_loop i).trips) : BitVec 1 :=
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c2_i32_101 : BitVec 32 := 2#32
  let v160 : BitVec 32 := Scalar.addi v130 c2_i32_101
  let c1_i32_102 : BitVec 32 := 1#32
  let v161 : BitVec 32 := Scalar.addi v160 c1_i32_102
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v162 : BitVec 1 := Scalar.cmpi .slt v161 v21
  let v163 : BitVec 32 := Scalar.extui v162
  let c0_i32_103 : BitVec 32 := 0#32
  let v164 : BitVec 1 := Scalar.cmpi .ne v163 c0_i32_103
  v164

def k0_off185 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c2_i32_101 : BitVec 32 := 2#32
  let v160 : BitVec 32 := Scalar.addi v130 c2_i32_101
  let c1_i32_121 : BitVec 32 := 1#32
  let v186 : BitVec 32 := Scalar.addi v160 c1_i32_121
  let v187 : BitVec 32 := Scalar.muli c32_i32_122 v186
  let v188 : BitVec 32 := Scalar.addi v1 v187
  let c25600_i32_123 : BitVec 32 := 25600#32
  let v189 : BitVec 32 := Scalar.muli v188 c25600_i32_123
  ![v189.toNat]
def k0_off186 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c2_i32_101 : BitVec 32 := 2#32
  let v160 : BitVec 32 := Scalar.addi v130 c2_i32_101
  let c1_i32_121 : BitVec 32 := 1#32
  let v186 : BitVec 32 := Scalar.addi v160 c1_i32_121
  let v187 : BitVec 32 := Scalar.muli c32_i32_122 v186
  let v188 : BitVec 32 := Scalar.addi v1 v187
  let c400_i32_125 : BitVec 32 := 400#32
  let v194 : BitVec 32 := Scalar.muli v188 c400_i32_125
  ![v194.toNat]
@[reducible] def k0_t7_loop : Scf.Loop 32 :=
  let c0_i32_111 : BitVec 32 := 0#32
  let c25_i32_112 : BitVec 32 := 25#32
  let v173 : BitVec 32 := Scalar.addi c0_i32_111 c25_i32_112
  let c1_i32_113 : BitVec 32 := 1#32
  ⟨c0_i32_111, v173, c1_i32_113⟩
def k0_off187 (k0_t7 : Fin k0_t7_loop.trips) : Fin 1 → Nat :=
  let c0_i32_111 : BitVec 32 := 0#32
  let c1_i32_113 : BitVec 32 := 1#32
  let arg18 : BitVec 32 := Scf.iv c0_i32_111 c1_i32_113 k0_t7
  let c16_i32 : BitVec 32 := 16#32
  let v182 : BitVec 32 := Scalar.muli arg18 c16_i32
  let v183 : Index := Scalar.indexCast v182
  ![v183.toNat]
def k0_off188 (k0_t7 : Fin k0_t7_loop.trips) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let c0_i32_119 : BitVec 32 := 0#32
  let v190 : BitVec 32 := Scalar.addi v186 c0_i32_119
  let c0_i32_120 : BitVec 32 := 0#32
  let v191 : BitVec 32 := Scalar.addi v190 c0_i32_120
  let v192 : Index := Scalar.indexCast v191
  ![v192.toNat]
def k0_off189 (v188 : BitVec 32) (c0_i32_121 : BitVec 32) : Fin 1 → Nat :=
  let c64_i32_118 : BitVec 32 := 64#32
  let v189 : BitVec 32 := Scalar.muli v188 c64_i32_118
  let v195 : BitVec 32 := Scalar.addi v189 c0_i32_121
  let v196 : Index := Scalar.indexCast v195
  ![v196.toNat]

def k0_chk81 (i : grid0.Coords) (k0_t4 : Fin (k0_t4_loop i).trips) (v188 : BitVec 32) : Prop :=
  (∀ (k0_h7 : k0_cond7 i k0_t4 = 1#1), ∀ (r : Fin 4), ∀ a, (k0_off189 v188 (BitVec.ofNat 32 (16 * r.val))) a + S16.size a ≤ S1024.size a)
instance k0_chk81.dec : ∀ (i : grid0.Coords) (k0_t4 : Fin (k0_t4_loop i).trips) (v188 : BitVec 32), Decidable (k0_chk81 i k0_t4 v188) := fun i k0_t4 v188 => decidable_of_iff' _ (Iff.of_eq (k0_chk81.eq_1 i k0_t4 v188))
theorem k0_off189_inb : ∀ (i : grid0.Coords) (k0_t4 : Fin (k0_t4_loop i).trips) (v188 : BitVec 32) (k0_hw81 : k0_chk81 i k0_t4 v188), ∀ (k0_h7 : k0_cond7 i k0_t4 = 1#1), ∀ (r : Fin 4), ∀ a, (k0_off189 v188 (BitVec.ofNat 32 (16 * r.val))) a + S16.size a ≤ S1024.size a := fun i k0_t4 v188 k0_hw81 k0_h7 r => k0_hw81 k0_h7 r

def k0_off190 (k0_t7 : Fin k0_t7_loop.trips) (c0_i32_119 : BitVec 32) (c0_i32_120 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v190 : BitVec 32 := Scalar.addi v186 c0_i32_119
  let v191 : BitVec 32 := Scalar.addi v190 c0_i32_120
  let v200 : Index := Scalar.indexCast v191
  ![v200.toNat]
def k0_off190_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off191 (v244 : BitVec 32) (c0_i32_130 : BitVec 32) : Fin 1 → Nat :=
  let c64_i32_127 : BitVec 32 := 64#32
  let v245 : BitVec 32 := Scalar.muli v244 c64_i32_127
  let v251 : BitVec 32 := Scalar.addi v245 c0_i32_130
  let v252 : Index := Scalar.indexCast v251
  ![v252.toNat]

def k0_chk82 (i : grid0.Coords) (k0_t4 : Fin (k0_t4_loop i).trips) (v244 : BitVec 32) : Prop :=
  (∀ (k0_h7 : k0_cond7 i k0_t4 = 1#1), ∀ (r : Fin 4), ∀ a, (k0_off191 v244 (BitVec.ofNat 32 (16 * r.val))) a + S16.size a ≤ S1024.size a)
instance k0_chk82.dec : ∀ (i : grid0.Coords) (k0_t4 : Fin (k0_t4_loop i).trips) (v244 : BitVec 32), Decidable (k0_chk82 i k0_t4 v244) := fun i k0_t4 v244 => decidable_of_iff' _ (Iff.of_eq (k0_chk82.eq_1 i k0_t4 v244))
theorem k0_off191_inb : ∀ (i : grid0.Coords) (k0_t4 : Fin (k0_t4_loop i).trips) (v244 : BitVec 32) (k0_hw82 : k0_chk82 i k0_t4 v244), ∀ (k0_h7 : k0_cond7 i k0_t4 = 1#1), ∀ (r : Fin 4), ∀ a, (k0_off191 v244 (BitVec.ofNat 32 (16 * r.val))) a + S16.size a ≤ S1024.size a := fun i k0_t4 v244 k0_hw82 k0_h7 r => k0_hw82 k0_h7 r

def k0_off192 (k0_t7 : Fin k0_t7_loop.trips) (c64_i32_128 : BitVec 32) (c0_i32_129 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v246 : BitVec 32 := Scalar.addi v186 c64_i32_128
  let v247 : BitVec 32 := Scalar.addi v246 c0_i32_129
  let v256 : Index := Scalar.indexCast v247
  ![v256.toNat]
def k0_off192_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off193 (v300 : BitVec 32) (c0_i32_139 : BitVec 32) : Fin 1 → Nat :=
  let c64_i32_137 : BitVec 32 := 64#32
  let v301 : BitVec 32 := Scalar.muli v300 c64_i32_137
  let v307 : BitVec 32 := Scalar.addi v301 c0_i32_139
  let v308 : Index := Scalar.indexCast v307
  ![v308.toNat]

def k0_chk83 (i : grid0.Coords) (k0_t4 : Fin (k0_t4_loop i).trips) (v300 : BitVec 32) : Prop :=
  (∀ (k0_h7 : k0_cond7 i k0_t4 = 1#1), ∀ (r : Fin 4), ∀ a, (k0_off193 v300 (BitVec.ofNat 32 (16 * r.val))) a + S16.size a ≤ S1024.size a)
instance k0_chk83.dec : ∀ (i : grid0.Coords) (k0_t4 : Fin (k0_t4_loop i).trips) (v300 : BitVec 32), Decidable (k0_chk83 i k0_t4 v300) := fun i k0_t4 v300 => decidable_of_iff' _ (Iff.of_eq (k0_chk83.eq_1 i k0_t4 v300))
theorem k0_off193_inb : ∀ (i : grid0.Coords) (k0_t4 : Fin (k0_t4_loop i).trips) (v300 : BitVec 32) (k0_hw83 : k0_chk83 i k0_t4 v300), ∀ (k0_h7 : k0_cond7 i k0_t4 = 1#1), ∀ (r : Fin 4), ∀ a, (k0_off193 v300 (BitVec.ofNat 32 (16 * r.val))) a + S16.size a ≤ S1024.size a := fun i k0_t4 v300 k0_hw83 k0_h7 r => k0_hw83 k0_h7 r

def k0_off194 (k0_t7 : Fin k0_t7_loop.trips) (c128_i32 : BitVec 32) (c0_i32_138 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v302 : BitVec 32 := Scalar.addi v186 c128_i32
  let v303 : BitVec 32 := Scalar.addi v302 c0_i32_138
  let v312 : Index := Scalar.indexCast v303
  ![v312.toNat]
def k0_off194_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off195 (v356 : BitVec 32) (c0_i32_148 : BitVec 32) : Fin 1 → Nat :=
  let c64_i32_146 : BitVec 32 := 64#32
  let v357 : BitVec 32 := Scalar.muli v356 c64_i32_146
  let v363 : BitVec 32 := Scalar.addi v357 c0_i32_148
  let v364 : Index := Scalar.indexCast v363
  ![v364.toNat]

def k0_chk84 (i : grid0.Coords) (k0_t4 : Fin (k0_t4_loop i).trips) (v356 : BitVec 32) : Prop :=
  (∀ (k0_h7 : k0_cond7 i k0_t4 = 1#1), ∀ (r : Fin 4), ∀ a, (k0_off195 v356 (BitVec.ofNat 32 (16 * r.val))) a + S16.size a ≤ S1024.size a)
instance k0_chk84.dec : ∀ (i : grid0.Coords) (k0_t4 : Fin (k0_t4_loop i).trips) (v356 : BitVec 32), Decidable (k0_chk84 i k0_t4 v356) := fun i k0_t4 v356 => decidable_of_iff' _ (Iff.of_eq (k0_chk84.eq_1 i k0_t4 v356))
theorem k0_off195_inb : ∀ (i : grid0.Coords) (k0_t4 : Fin (k0_t4_loop i).trips) (v356 : BitVec 32) (k0_hw84 : k0_chk84 i k0_t4 v356), ∀ (k0_h7 : k0_cond7 i k0_t4 = 1#1), ∀ (r : Fin 4), ∀ a, (k0_off195 v356 (BitVec.ofNat 32 (16 * r.val))) a + S16.size a ≤ S1024.size a := fun i k0_t4 v356 k0_hw84 k0_h7 r => k0_hw84 k0_h7 r

def k0_off196 (k0_t7 : Fin k0_t7_loop.trips) (c192_i32 : BitVec 32) (c0_i32_147 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v358 : BitVec 32 := Scalar.addi v186 c192_i32
  let v359 : BitVec 32 := Scalar.addi v358 c0_i32_147
  let v368 : Index := Scalar.indexCast v359
  ![v368.toNat]
def k0_off196_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off197 (v412 : BitVec 32) (c0_i32_157 : BitVec 32) : Fin 1 → Nat :=
  let c64_i32_155 : BitVec 32 := 64#32
  let v413 : BitVec 32 := Scalar.muli v412 c64_i32_155
  let v419 : BitVec 32 := Scalar.addi v413 c0_i32_157
  let v420 : Index := Scalar.indexCast v419
  ![v420.toNat]

def k0_chk85 (i : grid0.Coords) (k0_t4 : Fin (k0_t4_loop i).trips) (v412 : BitVec 32) : Prop :=
  (∀ (k0_h7 : k0_cond7 i k0_t4 = 1#1), ∀ (r : Fin 4), ∀ a, (k0_off197 v412 (BitVec.ofNat 32 (16 * r.val))) a + S16.size a ≤ S1024.size a)
instance k0_chk85.dec : ∀ (i : grid0.Coords) (k0_t4 : Fin (k0_t4_loop i).trips) (v412 : BitVec 32), Decidable (k0_chk85 i k0_t4 v412) := fun i k0_t4 v412 => decidable_of_iff' _ (Iff.of_eq (k0_chk85.eq_1 i k0_t4 v412))
theorem k0_off197_inb : ∀ (i : grid0.Coords) (k0_t4 : Fin (k0_t4_loop i).trips) (v412 : BitVec 32) (k0_hw85 : k0_chk85 i k0_t4 v412), ∀ (k0_h7 : k0_cond7 i k0_t4 = 1#1), ∀ (r : Fin 4), ∀ a, (k0_off197 v412 (BitVec.ofNat 32 (16 * r.val))) a + S16.size a ≤ S1024.size a := fun i k0_t4 v412 k0_hw85 k0_h7 r => k0_hw85 k0_h7 r

def k0_off198 (k0_t7 : Fin k0_t7_loop.trips) (c256_i32 : BitVec 32) (c0_i32_156 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v414 : BitVec 32 := Scalar.addi v186 c256_i32
  let v415 : BitVec 32 := Scalar.addi v414 c0_i32_156
  let v424 : Index := Scalar.indexCast v415
  ![v424.toNat]
def k0_off198_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off199 (v468 : BitVec 32) (c0_i32_166 : BitVec 32) : Fin 1 → Nat :=
  let c64_i32_164 : BitVec 32 := 64#32
  let v469 : BitVec 32 := Scalar.muli v468 c64_i32_164
  let v475 : BitVec 32 := Scalar.addi v469 c0_i32_166
  let v476 : Index := Scalar.indexCast v475
  ![v476.toNat]

def k0_chk86 (i : grid0.Coords) (k0_t4 : Fin (k0_t4_loop i).trips) (v468 : BitVec 32) : Prop :=
  (∀ (k0_h7 : k0_cond7 i k0_t4 = 1#1), ∀ (r : Fin 4), ∀ a, (k0_off199 v468 (BitVec.ofNat 32 (16 * r.val))) a + S16.size a ≤ S1024.size a)
instance k0_chk86.dec : ∀ (i : grid0.Coords) (k0_t4 : Fin (k0_t4_loop i).trips) (v468 : BitVec 32), Decidable (k0_chk86 i k0_t4 v468) := fun i k0_t4 v468 => decidable_of_iff' _ (Iff.of_eq (k0_chk86.eq_1 i k0_t4 v468))
theorem k0_off199_inb : ∀ (i : grid0.Coords) (k0_t4 : Fin (k0_t4_loop i).trips) (v468 : BitVec 32) (k0_hw86 : k0_chk86 i k0_t4 v468), ∀ (k0_h7 : k0_cond7 i k0_t4 = 1#1), ∀ (r : Fin 4), ∀ a, (k0_off199 v468 (BitVec.ofNat 32 (16 * r.val))) a + S16.size a ≤ S1024.size a := fun i k0_t4 v468 k0_hw86 k0_h7 r => k0_hw86 k0_h7 r

def k0_off200 (k0_t7 : Fin k0_t7_loop.trips) (c320_i32 : BitVec 32) (c0_i32_165 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v470 : BitVec 32 := Scalar.addi v186 c320_i32
  let v471 : BitVec 32 := Scalar.addi v470 c0_i32_165
  let v480 : Index := Scalar.indexCast v471
  ![v480.toNat]
def k0_off200_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off201 (v524 : BitVec 32) (c0_i32_175 : BitVec 32) : Fin 1 → Nat :=
  let c64_i32_173 : BitVec 32 := 64#32
  let v525 : BitVec 32 := Scalar.muli v524 c64_i32_173
  let v531 : BitVec 32 := Scalar.addi v525 c0_i32_175
  let v532 : Index := Scalar.indexCast v531
  ![v532.toNat]

def k0_chk87 (i : grid0.Coords) (k0_t4 : Fin (k0_t4_loop i).trips) (v524 : BitVec 32) : Prop :=
  (∀ (k0_h7 : k0_cond7 i k0_t4 = 1#1), ∀ (r : Fin 4), ∀ a, (k0_off201 v524 (BitVec.ofNat 32 (16 * r.val))) a + S16.size a ≤ S1024.size a)
instance k0_chk87.dec : ∀ (i : grid0.Coords) (k0_t4 : Fin (k0_t4_loop i).trips) (v524 : BitVec 32), Decidable (k0_chk87 i k0_t4 v524) := fun i k0_t4 v524 => decidable_of_iff' _ (Iff.of_eq (k0_chk87.eq_1 i k0_t4 v524))
theorem k0_off201_inb : ∀ (i : grid0.Coords) (k0_t4 : Fin (k0_t4_loop i).trips) (v524 : BitVec 32) (k0_hw87 : k0_chk87 i k0_t4 v524), ∀ (k0_h7 : k0_cond7 i k0_t4 = 1#1), ∀ (r : Fin 4), ∀ a, (k0_off201 v524 (BitVec.ofNat 32 (16 * r.val))) a + S16.size a ≤ S1024.size a := fun i k0_t4 v524 k0_hw87 k0_h7 r => k0_hw87 k0_h7 r

def k0_off202 (k0_t7 : Fin k0_t7_loop.trips) (c384_i32 : BitVec 32) (c0_i32_174 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v526 : BitVec 32 := Scalar.addi v186 c384_i32
  let v527 : BitVec 32 := Scalar.addi v526 c0_i32_174
  let v536 : Index := Scalar.indexCast v527
  ![v536.toNat]
def k0_off202_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off203 (v580 : BitVec 32) (c0_i32_184 : BitVec 32) : Fin 1 → Nat :=
  let c64_i32_182 : BitVec 32 := 64#32
  let v581 : BitVec 32 := Scalar.muli v580 c64_i32_182
  let v587 : BitVec 32 := Scalar.addi v581 c0_i32_184
  let v588 : Index := Scalar.indexCast v587
  ![v588.toNat]

def k0_chk88 (i : grid0.Coords) (k0_t4 : Fin (k0_t4_loop i).trips) (v580 : BitVec 32) : Prop :=
  (∀ (k0_h7 : k0_cond7 i k0_t4 = 1#1), ∀ (r : Fin 4), ∀ a, (k0_off203 v580 (BitVec.ofNat 32 (16 * r.val))) a + S16.size a ≤ S1024.size a)
instance k0_chk88.dec : ∀ (i : grid0.Coords) (k0_t4 : Fin (k0_t4_loop i).trips) (v580 : BitVec 32), Decidable (k0_chk88 i k0_t4 v580) := fun i k0_t4 v580 => decidable_of_iff' _ (Iff.of_eq (k0_chk88.eq_1 i k0_t4 v580))
theorem k0_off203_inb : ∀ (i : grid0.Coords) (k0_t4 : Fin (k0_t4_loop i).trips) (v580 : BitVec 32) (k0_hw88 : k0_chk88 i k0_t4 v580), ∀ (k0_h7 : k0_cond7 i k0_t4 = 1#1), ∀ (r : Fin 4), ∀ a, (k0_off203 v580 (BitVec.ofNat 32 (16 * r.val))) a + S16.size a ≤ S1024.size a := fun i k0_t4 v580 k0_hw88 k0_h7 r => k0_hw88 k0_h7 r

def k0_off204 (k0_t7 : Fin k0_t7_loop.trips) (c448_i32 : BitVec 32) (c0_i32_183 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v582 : BitVec 32 := Scalar.addi v186 c448_i32
  let v583 : BitVec 32 := Scalar.addi v582 c0_i32_183
  let v592 : Index := Scalar.indexCast v583
  ![v592.toNat]
def k0_off204_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off205 (v636 : BitVec 32) (c0_i32_193 : BitVec 32) : Fin 1 → Nat :=
  let c64_i32_191 : BitVec 32 := 64#32
  let v637 : BitVec 32 := Scalar.muli v636 c64_i32_191
  let v643 : BitVec 32 := Scalar.addi v637 c0_i32_193
  let v644 : Index := Scalar.indexCast v643
  ![v644.toNat]

def k0_chk89 (i : grid0.Coords) (k0_t4 : Fin (k0_t4_loop i).trips) (v636 : BitVec 32) : Prop :=
  (∀ (k0_h7 : k0_cond7 i k0_t4 = 1#1), ∀ (r : Fin 4), ∀ a, (k0_off205 v636 (BitVec.ofNat 32 (16 * r.val))) a + S16.size a ≤ S1024.size a)
instance k0_chk89.dec : ∀ (i : grid0.Coords) (k0_t4 : Fin (k0_t4_loop i).trips) (v636 : BitVec 32), Decidable (k0_chk89 i k0_t4 v636) := fun i k0_t4 v636 => decidable_of_iff' _ (Iff.of_eq (k0_chk89.eq_1 i k0_t4 v636))
theorem k0_off205_inb : ∀ (i : grid0.Coords) (k0_t4 : Fin (k0_t4_loop i).trips) (v636 : BitVec 32) (k0_hw89 : k0_chk89 i k0_t4 v636), ∀ (k0_h7 : k0_cond7 i k0_t4 = 1#1), ∀ (r : Fin 4), ∀ a, (k0_off205 v636 (BitVec.ofNat 32 (16 * r.val))) a + S16.size a ≤ S1024.size a := fun i k0_t4 v636 k0_hw89 k0_h7 r => k0_hw89 k0_h7 r

def k0_off206 (k0_t7 : Fin k0_t7_loop.trips) (c512_i32 : BitVec 32) (c0_i32_192 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v638 : BitVec 32 := Scalar.addi v186 c512_i32
  let v639 : BitVec 32 := Scalar.addi v638 c0_i32_192
  let v648 : Index := Scalar.indexCast v639
  ![v648.toNat]
def k0_off206_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off207 (v692 : BitVec 32) (c0_i32_202 : BitVec 32) : Fin 1 → Nat :=
  let c64_i32_200 : BitVec 32 := 64#32
  let v693 : BitVec 32 := Scalar.muli v692 c64_i32_200
  let v699 : BitVec 32 := Scalar.addi v693 c0_i32_202
  let v700 : Index := Scalar.indexCast v699
  ![v700.toNat]

def k0_chk90 (i : grid0.Coords) (k0_t4 : Fin (k0_t4_loop i).trips) (v692 : BitVec 32) : Prop :=
  (∀ (k0_h7 : k0_cond7 i k0_t4 = 1#1), ∀ (r : Fin 4), ∀ a, (k0_off207 v692 (BitVec.ofNat 32 (16 * r.val))) a + S16.size a ≤ S1024.size a)
instance k0_chk90.dec : ∀ (i : grid0.Coords) (k0_t4 : Fin (k0_t4_loop i).trips) (v692 : BitVec 32), Decidable (k0_chk90 i k0_t4 v692) := fun i k0_t4 v692 => decidable_of_iff' _ (Iff.of_eq (k0_chk90.eq_1 i k0_t4 v692))
theorem k0_off207_inb : ∀ (i : grid0.Coords) (k0_t4 : Fin (k0_t4_loop i).trips) (v692 : BitVec 32) (k0_hw90 : k0_chk90 i k0_t4 v692), ∀ (k0_h7 : k0_cond7 i k0_t4 = 1#1), ∀ (r : Fin 4), ∀ a, (k0_off207 v692 (BitVec.ofNat 32 (16 * r.val))) a + S16.size a ≤ S1024.size a := fun i k0_t4 v692 k0_hw90 k0_h7 r => k0_hw90 k0_h7 r

def k0_off208 (k0_t7 : Fin k0_t7_loop.trips) (c576_i32 : BitVec 32) (c0_i32_201 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v694 : BitVec 32 := Scalar.addi v186 c576_i32
  let v695 : BitVec 32 := Scalar.addi v694 c0_i32_201
  let v704 : Index := Scalar.indexCast v695
  ![v704.toNat]
def k0_off208_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off209 (v748 : BitVec 32) (c0_i32_211 : BitVec 32) : Fin 1 → Nat :=
  let c64_i32_209 : BitVec 32 := 64#32
  let v749 : BitVec 32 := Scalar.muli v748 c64_i32_209
  let v755 : BitVec 32 := Scalar.addi v749 c0_i32_211
  let v756 : Index := Scalar.indexCast v755
  ![v756.toNat]

def k0_chk91 (i : grid0.Coords) (k0_t4 : Fin (k0_t4_loop i).trips) (v748 : BitVec 32) : Prop :=
  (∀ (k0_h7 : k0_cond7 i k0_t4 = 1#1), ∀ (r : Fin 4), ∀ a, (k0_off209 v748 (BitVec.ofNat 32 (16 * r.val))) a + S16.size a ≤ S1024.size a)
instance k0_chk91.dec : ∀ (i : grid0.Coords) (k0_t4 : Fin (k0_t4_loop i).trips) (v748 : BitVec 32), Decidable (k0_chk91 i k0_t4 v748) := fun i k0_t4 v748 => decidable_of_iff' _ (Iff.of_eq (k0_chk91.eq_1 i k0_t4 v748))
theorem k0_off209_inb : ∀ (i : grid0.Coords) (k0_t4 : Fin (k0_t4_loop i).trips) (v748 : BitVec 32) (k0_hw91 : k0_chk91 i k0_t4 v748), ∀ (k0_h7 : k0_cond7 i k0_t4 = 1#1), ∀ (r : Fin 4), ∀ a, (k0_off209 v748 (BitVec.ofNat 32 (16 * r.val))) a + S16.size a ≤ S1024.size a := fun i k0_t4 v748 k0_hw91 k0_h7 r => k0_hw91 k0_h7 r

def k0_off210 (k0_t7 : Fin k0_t7_loop.trips) (c640_i32 : BitVec 32) (c0_i32_210 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v750 : BitVec 32 := Scalar.addi v186 c640_i32
  let v751 : BitVec 32 := Scalar.addi v750 c0_i32_210
  let v760 : Index := Scalar.indexCast v751
  ![v760.toNat]
def k0_off210_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off211 (v804 : BitVec 32) (c0_i32_220 : BitVec 32) : Fin 1 → Nat :=
  let c64_i32_218 : BitVec 32 := 64#32
  let v805 : BitVec 32 := Scalar.muli v804 c64_i32_218
  let v811 : BitVec 32 := Scalar.addi v805 c0_i32_220
  let v812 : Index := Scalar.indexCast v811
  ![v812.toNat]

def k0_chk92 (i : grid0.Coords) (k0_t4 : Fin (k0_t4_loop i).trips) (v804 : BitVec 32) : Prop :=
  (∀ (k0_h7 : k0_cond7 i k0_t4 = 1#1), ∀ (r : Fin 4), ∀ a, (k0_off211 v804 (BitVec.ofNat 32 (16 * r.val))) a + S16.size a ≤ S1024.size a)
instance k0_chk92.dec : ∀ (i : grid0.Coords) (k0_t4 : Fin (k0_t4_loop i).trips) (v804 : BitVec 32), Decidable (k0_chk92 i k0_t4 v804) := fun i k0_t4 v804 => decidable_of_iff' _ (Iff.of_eq (k0_chk92.eq_1 i k0_t4 v804))
theorem k0_off211_inb : ∀ (i : grid0.Coords) (k0_t4 : Fin (k0_t4_loop i).trips) (v804 : BitVec 32) (k0_hw92 : k0_chk92 i k0_t4 v804), ∀ (k0_h7 : k0_cond7 i k0_t4 = 1#1), ∀ (r : Fin 4), ∀ a, (k0_off211 v804 (BitVec.ofNat 32 (16 * r.val))) a + S16.size a ≤ S1024.size a := fun i k0_t4 v804 k0_hw92 k0_h7 r => k0_hw92 k0_h7 r

def k0_off212 (k0_t7 : Fin k0_t7_loop.trips) (c704_i32 : BitVec 32) (c0_i32_219 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v806 : BitVec 32 := Scalar.addi v186 c704_i32
  let v807 : BitVec 32 := Scalar.addi v806 c0_i32_219
  let v816 : Index := Scalar.indexCast v807
  ![v816.toNat]
def k0_off212_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off213 (v860 : BitVec 32) (c0_i32_229 : BitVec 32) : Fin 1 → Nat :=
  let c64_i32_227 : BitVec 32 := 64#32
  let v861 : BitVec 32 := Scalar.muli v860 c64_i32_227
  let v867 : BitVec 32 := Scalar.addi v861 c0_i32_229
  let v868 : Index := Scalar.indexCast v867
  ![v868.toNat]

def k0_chk93 (i : grid0.Coords) (k0_t4 : Fin (k0_t4_loop i).trips) (v860 : BitVec 32) : Prop :=
  (∀ (k0_h7 : k0_cond7 i k0_t4 = 1#1), ∀ (r : Fin 4), ∀ a, (k0_off213 v860 (BitVec.ofNat 32 (16 * r.val))) a + S16.size a ≤ S1024.size a)
instance k0_chk93.dec : ∀ (i : grid0.Coords) (k0_t4 : Fin (k0_t4_loop i).trips) (v860 : BitVec 32), Decidable (k0_chk93 i k0_t4 v860) := fun i k0_t4 v860 => decidable_of_iff' _ (Iff.of_eq (k0_chk93.eq_1 i k0_t4 v860))
theorem k0_off213_inb : ∀ (i : grid0.Coords) (k0_t4 : Fin (k0_t4_loop i).trips) (v860 : BitVec 32) (k0_hw93 : k0_chk93 i k0_t4 v860), ∀ (k0_h7 : k0_cond7 i k0_t4 = 1#1), ∀ (r : Fin 4), ∀ a, (k0_off213 v860 (BitVec.ofNat 32 (16 * r.val))) a + S16.size a ≤ S1024.size a := fun i k0_t4 v860 k0_hw93 k0_h7 r => k0_hw93 k0_h7 r

def k0_off214 (k0_t7 : Fin k0_t7_loop.trips) (c768_i32 : BitVec 32) (c0_i32_228 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v862 : BitVec 32 := Scalar.addi v186 c768_i32
  let v863 : BitVec 32 := Scalar.addi v862 c0_i32_228
  let v872 : Index := Scalar.indexCast v863
  ![v872.toNat]
def k0_off214_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off215 (v916 : BitVec 32) (c0_i32_238 : BitVec 32) : Fin 1 → Nat :=
  let c64_i32_236 : BitVec 32 := 64#32
  let v917 : BitVec 32 := Scalar.muli v916 c64_i32_236
  let v923 : BitVec 32 := Scalar.addi v917 c0_i32_238
  let v924 : Index := Scalar.indexCast v923
  ![v924.toNat]

def k0_chk94 (i : grid0.Coords) (k0_t4 : Fin (k0_t4_loop i).trips) (v916 : BitVec 32) : Prop :=
  (∀ (k0_h7 : k0_cond7 i k0_t4 = 1#1), ∀ (r : Fin 4), ∀ a, (k0_off215 v916 (BitVec.ofNat 32 (16 * r.val))) a + S16.size a ≤ S1024.size a)
instance k0_chk94.dec : ∀ (i : grid0.Coords) (k0_t4 : Fin (k0_t4_loop i).trips) (v916 : BitVec 32), Decidable (k0_chk94 i k0_t4 v916) := fun i k0_t4 v916 => decidable_of_iff' _ (Iff.of_eq (k0_chk94.eq_1 i k0_t4 v916))
theorem k0_off215_inb : ∀ (i : grid0.Coords) (k0_t4 : Fin (k0_t4_loop i).trips) (v916 : BitVec 32) (k0_hw94 : k0_chk94 i k0_t4 v916), ∀ (k0_h7 : k0_cond7 i k0_t4 = 1#1), ∀ (r : Fin 4), ∀ a, (k0_off215 v916 (BitVec.ofNat 32 (16 * r.val))) a + S16.size a ≤ S1024.size a := fun i k0_t4 v916 k0_hw94 k0_h7 r => k0_hw94 k0_h7 r

def k0_off216 (k0_t7 : Fin k0_t7_loop.trips) (c832_i32 : BitVec 32) (c0_i32_237 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v918 : BitVec 32 := Scalar.addi v186 c832_i32
  let v919 : BitVec 32 := Scalar.addi v918 c0_i32_237
  let v928 : Index := Scalar.indexCast v919
  ![v928.toNat]
def k0_off216_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off217 (v972 : BitVec 32) (c0_i32_247 : BitVec 32) : Fin 1 → Nat :=
  let c64_i32_245 : BitVec 32 := 64#32
  let v973 : BitVec 32 := Scalar.muli v972 c64_i32_245
  let v979 : BitVec 32 := Scalar.addi v973 c0_i32_247
  let v980 : Index := Scalar.indexCast v979
  ![v980.toNat]

def k0_chk95 (i : grid0.Coords) (k0_t4 : Fin (k0_t4_loop i).trips) (v972 : BitVec 32) : Prop :=
  (∀ (k0_h7 : k0_cond7 i k0_t4 = 1#1), ∀ (r : Fin 4), ∀ a, (k0_off217 v972 (BitVec.ofNat 32 (16 * r.val))) a + S16.size a ≤ S1024.size a)
instance k0_chk95.dec : ∀ (i : grid0.Coords) (k0_t4 : Fin (k0_t4_loop i).trips) (v972 : BitVec 32), Decidable (k0_chk95 i k0_t4 v972) := fun i k0_t4 v972 => decidable_of_iff' _ (Iff.of_eq (k0_chk95.eq_1 i k0_t4 v972))
theorem k0_off217_inb : ∀ (i : grid0.Coords) (k0_t4 : Fin (k0_t4_loop i).trips) (v972 : BitVec 32) (k0_hw95 : k0_chk95 i k0_t4 v972), ∀ (k0_h7 : k0_cond7 i k0_t4 = 1#1), ∀ (r : Fin 4), ∀ a, (k0_off217 v972 (BitVec.ofNat 32 (16 * r.val))) a + S16.size a ≤ S1024.size a := fun i k0_t4 v972 k0_hw95 k0_h7 r => k0_hw95 k0_h7 r

def k0_off218 (k0_t7 : Fin k0_t7_loop.trips) (c896_i32 : BitVec 32) (c0_i32_246 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let v974 : BitVec 32 := Scalar.addi v186 c896_i32
  let v975 : BitVec 32 := Scalar.addi v974 c0_i32_246
  let v984 : Index := Scalar.indexCast v975
  ![v984.toNat]
def k0_off218_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off219 (v1028 : BitVec 32) (c0_i32_256 : BitVec 32) : Fin 1 → Nat :=
  let c64_i32_254 : BitVec 32 := 64#32
  let v1029 : BitVec 32 := Scalar.muli v1028 c64_i32_254
  let v1035 : BitVec 32 := Scalar.addi v1029 c0_i32_256
  let v1036 : Index := Scalar.indexCast v1035
  ![v1036.toNat]

def k0_chk96 (i : grid0.Coords) (k0_t4 : Fin (k0_t4_loop i).trips) (v1028 : BitVec 32) : Prop :=
  (∀ (k0_h7 : k0_cond7 i k0_t4 = 1#1), ∀ (r : Fin 4), ∀ a, (k0_off219 v1028 (BitVec.ofNat 32 (16 * r.val))) a + S16.size a ≤ S1024.size a)
instance k0_chk96.dec : ∀ (i : grid0.Coords) (k0_t4 : Fin (k0_t4_loop i).trips) (v1028 : BitVec 32), Decidable (k0_chk96 i k0_t4 v1028) := fun i k0_t4 v1028 => decidable_of_iff' _ (Iff.of_eq (k0_chk96.eq_1 i k0_t4 v1028))
theorem k0_off219_inb : ∀ (i : grid0.Coords) (k0_t4 : Fin (k0_t4_loop i).trips) (v1028 : BitVec 32) (k0_hw96 : k0_chk96 i k0_t4 v1028), ∀ (k0_h7 : k0_cond7 i k0_t4 = 1#1), ∀ (r : Fin 4), ∀ a, (k0_off219 v1028 (BitVec.ofNat 32 (16 * r.val))) a + S16.size a ≤ S1024.size a := fun i k0_t4 v1028 k0_hw96 k0_h7 r => k0_hw96 k0_h7 r

def k0_off220 (k0_t7 : Fin k0_t7_loop.trips) (c0_i32_255 : BitVec 32) : Fin 1 → Nat :=
  let c0_i32_111 : BitVec 32 := 0#32
  let c1_i32_113 : BitVec 32 := 1#32
  let arg18 : BitVec 32 := Scf.iv c0_i32_111 c1_i32_113 k0_t7
  let c1024_i32 : BitVec 32 := 1024#32
  let v186 : BitVec 32 := Scalar.muli arg18 c1024_i32
  let c960_i32 : BitVec 32 := 960#32
  let v1030 : BitVec 32 := Scalar.addi v186 c960_i32
  let v1031 : BitVec 32 := Scalar.addi v1030 c0_i32_255
  let v1040 : Index := Scalar.indexCast v1031
  ![v1040.toNat]
def k0_off221 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_115 : BitVec 32 := 32#32
  let c1_i32_62 : BitVec 32 := 1#32
  let c1_i32_65 : BitVec 32 := 1#32
  let arg16 : BitVec 32 := Scf.iv c1_i32_62 c1_i32_65 k0_t4
  let c3_i32_79 : BitVec 32 := 3#32
  let v130 : BitVec 32 := Scalar.muli arg16 c3_i32_79
  let c2_i32_101 : BitVec 32 := 2#32
  let v160 : BitVec 32 := Scalar.addi v130 c2_i32_101
  let v175 : BitVec 32 := Scalar.muli c32_i32_115 v160
  let v176 : BitVec 32 := Scalar.addi v1 v175
  let c25600_i32_116 : BitVec 32 := 25600#32
  let v177 : BitVec 32 := Scalar.muli v176 c25600_i32_116
  ![v177.toNat]
@[reducible] def k0_t8_loop (i : grid0.Coords) : Scf.Loop 32 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let v109 : BitVec 32 := Scalar.addi c1_i32_62 v108
  let c1_i32_66 : BitVec 32 := 1#32
  ⟨v112, v109, c1_i32_66⟩
def k0_cond9 (i : grid0.Coords) (k0_t8 : Fin (k0_t8_loop i).trips) : BitVec 1 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_80 : BitVec 32 := 1#32
  let v131 : BitVec 32 := Scalar.addi v130 c1_i32_80
  let v132 : BitVec 1 := Scalar.cmpi .slt v131 v21
  let v133 : BitVec 32 := Scalar.extui v132
  let c0_i32_81 : BitVec 32 := 0#32
  let v134 : BitVec 1 := Scalar.cmpi .ne v133 c0_i32_81
  v134

def k0_off222 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_105 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_104 : BitVec 32 := 1#32
  let v164 : BitVec 32 := Scalar.addi v130 c1_i32_104
  let v165 : BitVec 32 := Scalar.muli c32_i32_105 v164
  let v166 : BitVec 32 := Scalar.addi v1 v165
  let c25600_i32_106 : BitVec 32 := 25600#32
  let v167 : BitVec 32 := Scalar.muli v166 c25600_i32_106
  ![v167.toNat]
def k0_off223 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_105 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_104 : BitVec 32 := 1#32
  let v164 : BitVec 32 := Scalar.addi v130 c1_i32_104
  let v165 : BitVec 32 := Scalar.muli c32_i32_105 v164
  let v166 : BitVec 32 := Scalar.addi v1 v165
  let c400_i32_108 : BitVec 32 := 400#32
  let v172 : BitVec 32 := Scalar.muli v166 c400_i32_108
  ![v172.toNat]
@[reducible] def k0_t9_loop : Scf.Loop 32 :=
  let c0_i32_89 : BitVec 32 := 0#32
  let c25_i32_90 : BitVec 32 := 25#32
  let v143 : BitVec 32 := Scalar.addi c0_i32_89 c25_i32_90
  let c1_i32_91 : BitVec 32 := 1#32
  ⟨c0_i32_89, v143, c1_i32_91⟩
def k0_off224 (k0_t9 : Fin k0_t9_loop.trips) : Fin 1 → Nat :=
  let c0_i32_89 : BitVec 32 := 0#32
  let c1_i32_91 : BitVec 32 := 1#32
  let arg18 : BitVec 32 := Scf.iv c0_i32_89 c1_i32_91 k0_t9
  let c16_i32 : BitVec 32 := 16#32
  let v160 : BitVec 32 := Scalar.muli arg18 c16_i32
  let v161 : Index := Scalar.indexCast v160
  ![v161.toNat]
def k0_off225 (k0_t9 : Fin k0_t9_loop.trips) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let c0_i32_102 : BitVec 32 := 0#32
  let v168 : BitVec 32 := Scalar.addi v164 c0_i32_102
  let c0_i32_103 : BitVec 32 := 0#32
  let v169 : BitVec 32 := Scalar.addi v168 c0_i32_103
  let v170 : Index := Scalar.indexCast v169
  ![v170.toNat]
def k0_off226 (v166 : BitVec 32) (c0_i32_104 : BitVec 32) : Fin 1 → Nat :=
  let c64_i32_101 : BitVec 32 := 64#32
  let v167 : BitVec 32 := Scalar.muli v166 c64_i32_101
  let v173 : BitVec 32 := Scalar.addi v167 c0_i32_104
  let v174 : Index := Scalar.indexCast v173
  ![v174.toNat]

def k0_chk97 (v166 : BitVec 32) : Prop :=
  (∀ (r : Fin 4), ∀ a, (k0_off226 v166 (BitVec.ofNat 32 (16 * r.val))) a + S16.size a ≤ S1024.size a)
instance k0_chk97.dec : ∀ (v166 : BitVec 32), Decidable (k0_chk97 v166) := fun v166 => decidable_of_iff' _ (Iff.of_eq (k0_chk97.eq_1 v166))
theorem k0_off226_inb : ∀ (v166 : BitVec 32) (k0_hw97 : k0_chk97 v166), ∀ (r : Fin 4), ∀ a, (k0_off226 v166 (BitVec.ofNat 32 (16 * r.val))) a + S16.size a ≤ S1024.size a := fun v166 k0_hw97 r => k0_hw97 r

def k0_off227 (k0_t9 : Fin k0_t9_loop.trips) (c0_i32_102 : BitVec 32) (c0_i32_103 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v168 : BitVec 32 := Scalar.addi v164 c0_i32_102
  let v169 : BitVec 32 := Scalar.addi v168 c0_i32_103
  let v178 : Index := Scalar.indexCast v169
  ![v178.toNat]
def k0_off227_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off228 (v222 : BitVec 32) (c0_i32_113 : BitVec 32) : Fin 1 → Nat :=
  let c64_i32_110 : BitVec 32 := 64#32
  let v223 : BitVec 32 := Scalar.muli v222 c64_i32_110
  let v229 : BitVec 32 := Scalar.addi v223 c0_i32_113
  let v230 : Index := Scalar.indexCast v229
  ![v230.toNat]

def k0_chk98 (v222 : BitVec 32) : Prop :=
  (∀ (r : Fin 4), ∀ a, (k0_off228 v222 (BitVec.ofNat 32 (16 * r.val))) a + S16.size a ≤ S1024.size a)
instance k0_chk98.dec : ∀ (v222 : BitVec 32), Decidable (k0_chk98 v222) := fun v222 => decidable_of_iff' _ (Iff.of_eq (k0_chk98.eq_1 v222))
theorem k0_off228_inb : ∀ (v222 : BitVec 32) (k0_hw98 : k0_chk98 v222), ∀ (r : Fin 4), ∀ a, (k0_off228 v222 (BitVec.ofNat 32 (16 * r.val))) a + S16.size a ≤ S1024.size a := fun v222 k0_hw98 r => k0_hw98 r

def k0_off229 (k0_t9 : Fin k0_t9_loop.trips) (c64_i32_111 : BitVec 32) (c0_i32_112 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v224 : BitVec 32 := Scalar.addi v164 c64_i32_111
  let v225 : BitVec 32 := Scalar.addi v224 c0_i32_112
  let v234 : Index := Scalar.indexCast v225
  ![v234.toNat]
def k0_off229_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off230 (v278 : BitVec 32) (c0_i32_122 : BitVec 32) : Fin 1 → Nat :=
  let c64_i32_120 : BitVec 32 := 64#32
  let v279 : BitVec 32 := Scalar.muli v278 c64_i32_120
  let v285 : BitVec 32 := Scalar.addi v279 c0_i32_122
  let v286 : Index := Scalar.indexCast v285
  ![v286.toNat]

def k0_chk99 (v278 : BitVec 32) : Prop :=
  (∀ (r : Fin 4), ∀ a, (k0_off230 v278 (BitVec.ofNat 32 (16 * r.val))) a + S16.size a ≤ S1024.size a)
instance k0_chk99.dec : ∀ (v278 : BitVec 32), Decidable (k0_chk99 v278) := fun v278 => decidable_of_iff' _ (Iff.of_eq (k0_chk99.eq_1 v278))
theorem k0_off230_inb : ∀ (v278 : BitVec 32) (k0_hw99 : k0_chk99 v278), ∀ (r : Fin 4), ∀ a, (k0_off230 v278 (BitVec.ofNat 32 (16 * r.val))) a + S16.size a ≤ S1024.size a := fun v278 k0_hw99 r => k0_hw99 r

def k0_off231 (k0_t9 : Fin k0_t9_loop.trips) (c128_i32 : BitVec 32) (c0_i32_121 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v280 : BitVec 32 := Scalar.addi v164 c128_i32
  let v281 : BitVec 32 := Scalar.addi v280 c0_i32_121
  let v290 : Index := Scalar.indexCast v281
  ![v290.toNat]
def k0_off231_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off232 (v334 : BitVec 32) (c0_i32_131 : BitVec 32) : Fin 1 → Nat :=
  let c64_i32_129 : BitVec 32 := 64#32
  let v335 : BitVec 32 := Scalar.muli v334 c64_i32_129
  let v341 : BitVec 32 := Scalar.addi v335 c0_i32_131
  let v342 : Index := Scalar.indexCast v341
  ![v342.toNat]

def k0_chk100 (v334 : BitVec 32) : Prop :=
  (∀ (r : Fin 4), ∀ a, (k0_off232 v334 (BitVec.ofNat 32 (16 * r.val))) a + S16.size a ≤ S1024.size a)
instance k0_chk100.dec : ∀ (v334 : BitVec 32), Decidable (k0_chk100 v334) := fun v334 => decidable_of_iff' _ (Iff.of_eq (k0_chk100.eq_1 v334))
theorem k0_off232_inb : ∀ (v334 : BitVec 32) (k0_hw100 : k0_chk100 v334), ∀ (r : Fin 4), ∀ a, (k0_off232 v334 (BitVec.ofNat 32 (16 * r.val))) a + S16.size a ≤ S1024.size a := fun v334 k0_hw100 r => k0_hw100 r

def k0_off233 (k0_t9 : Fin k0_t9_loop.trips) (c192_i32 : BitVec 32) (c0_i32_130 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v336 : BitVec 32 := Scalar.addi v164 c192_i32
  let v337 : BitVec 32 := Scalar.addi v336 c0_i32_130
  let v346 : Index := Scalar.indexCast v337
  ![v346.toNat]
def k0_off233_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off234 (v390 : BitVec 32) (c0_i32_140 : BitVec 32) : Fin 1 → Nat :=
  let c64_i32_138 : BitVec 32 := 64#32
  let v391 : BitVec 32 := Scalar.muli v390 c64_i32_138
  let v397 : BitVec 32 := Scalar.addi v391 c0_i32_140
  let v398 : Index := Scalar.indexCast v397
  ![v398.toNat]

def k0_chk101 (v390 : BitVec 32) : Prop :=
  (∀ (r : Fin 4), ∀ a, (k0_off234 v390 (BitVec.ofNat 32 (16 * r.val))) a + S16.size a ≤ S1024.size a)
instance k0_chk101.dec : ∀ (v390 : BitVec 32), Decidable (k0_chk101 v390) := fun v390 => decidable_of_iff' _ (Iff.of_eq (k0_chk101.eq_1 v390))
theorem k0_off234_inb : ∀ (v390 : BitVec 32) (k0_hw101 : k0_chk101 v390), ∀ (r : Fin 4), ∀ a, (k0_off234 v390 (BitVec.ofNat 32 (16 * r.val))) a + S16.size a ≤ S1024.size a := fun v390 k0_hw101 r => k0_hw101 r

def k0_off235 (k0_t9 : Fin k0_t9_loop.trips) (c256_i32 : BitVec 32) (c0_i32_139 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v392 : BitVec 32 := Scalar.addi v164 c256_i32
  let v393 : BitVec 32 := Scalar.addi v392 c0_i32_139
  let v402 : Index := Scalar.indexCast v393
  ![v402.toNat]
def k0_off235_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off236 (v446 : BitVec 32) (c0_i32_149 : BitVec 32) : Fin 1 → Nat :=
  let c64_i32_147 : BitVec 32 := 64#32
  let v447 : BitVec 32 := Scalar.muli v446 c64_i32_147
  let v453 : BitVec 32 := Scalar.addi v447 c0_i32_149
  let v454 : Index := Scalar.indexCast v453
  ![v454.toNat]

def k0_chk102 (v446 : BitVec 32) : Prop :=
  (∀ (r : Fin 4), ∀ a, (k0_off236 v446 (BitVec.ofNat 32 (16 * r.val))) a + S16.size a ≤ S1024.size a)
instance k0_chk102.dec : ∀ (v446 : BitVec 32), Decidable (k0_chk102 v446) := fun v446 => decidable_of_iff' _ (Iff.of_eq (k0_chk102.eq_1 v446))
theorem k0_off236_inb : ∀ (v446 : BitVec 32) (k0_hw102 : k0_chk102 v446), ∀ (r : Fin 4), ∀ a, (k0_off236 v446 (BitVec.ofNat 32 (16 * r.val))) a + S16.size a ≤ S1024.size a := fun v446 k0_hw102 r => k0_hw102 r

def k0_off237 (k0_t9 : Fin k0_t9_loop.trips) (c320_i32 : BitVec 32) (c0_i32_148 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v448 : BitVec 32 := Scalar.addi v164 c320_i32
  let v449 : BitVec 32 := Scalar.addi v448 c0_i32_148
  let v458 : Index := Scalar.indexCast v449
  ![v458.toNat]
def k0_off237_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off238 (v502 : BitVec 32) (c0_i32_158 : BitVec 32) : Fin 1 → Nat :=
  let c64_i32_156 : BitVec 32 := 64#32
  let v503 : BitVec 32 := Scalar.muli v502 c64_i32_156
  let v509 : BitVec 32 := Scalar.addi v503 c0_i32_158
  let v510 : Index := Scalar.indexCast v509
  ![v510.toNat]

def k0_chk103 (v502 : BitVec 32) : Prop :=
  (∀ (r : Fin 4), ∀ a, (k0_off238 v502 (BitVec.ofNat 32 (16 * r.val))) a + S16.size a ≤ S1024.size a)
instance k0_chk103.dec : ∀ (v502 : BitVec 32), Decidable (k0_chk103 v502) := fun v502 => decidable_of_iff' _ (Iff.of_eq (k0_chk103.eq_1 v502))
theorem k0_off238_inb : ∀ (v502 : BitVec 32) (k0_hw103 : k0_chk103 v502), ∀ (r : Fin 4), ∀ a, (k0_off238 v502 (BitVec.ofNat 32 (16 * r.val))) a + S16.size a ≤ S1024.size a := fun v502 k0_hw103 r => k0_hw103 r

def k0_off239 (k0_t9 : Fin k0_t9_loop.trips) (c384_i32 : BitVec 32) (c0_i32_157 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v504 : BitVec 32 := Scalar.addi v164 c384_i32
  let v505 : BitVec 32 := Scalar.addi v504 c0_i32_157
  let v514 : Index := Scalar.indexCast v505
  ![v514.toNat]
def k0_off239_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off240 (v558 : BitVec 32) (c0_i32_167 : BitVec 32) : Fin 1 → Nat :=
  let c64_i32_165 : BitVec 32 := 64#32
  let v559 : BitVec 32 := Scalar.muli v558 c64_i32_165
  let v565 : BitVec 32 := Scalar.addi v559 c0_i32_167
  let v566 : Index := Scalar.indexCast v565
  ![v566.toNat]

def k0_chk104 (v558 : BitVec 32) : Prop :=
  (∀ (r : Fin 4), ∀ a, (k0_off240 v558 (BitVec.ofNat 32 (16 * r.val))) a + S16.size a ≤ S1024.size a)
instance k0_chk104.dec : ∀ (v558 : BitVec 32), Decidable (k0_chk104 v558) := fun v558 => decidable_of_iff' _ (Iff.of_eq (k0_chk104.eq_1 v558))
theorem k0_off240_inb : ∀ (v558 : BitVec 32) (k0_hw104 : k0_chk104 v558), ∀ (r : Fin 4), ∀ a, (k0_off240 v558 (BitVec.ofNat 32 (16 * r.val))) a + S16.size a ≤ S1024.size a := fun v558 k0_hw104 r => k0_hw104 r

def k0_off241 (k0_t9 : Fin k0_t9_loop.trips) (c448_i32 : BitVec 32) (c0_i32_166 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v560 : BitVec 32 := Scalar.addi v164 c448_i32
  let v561 : BitVec 32 := Scalar.addi v560 c0_i32_166
  let v570 : Index := Scalar.indexCast v561
  ![v570.toNat]
def k0_off241_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off242 (v614 : BitVec 32) (c0_i32_176 : BitVec 32) : Fin 1 → Nat :=
  let c64_i32_174 : BitVec 32 := 64#32
  let v615 : BitVec 32 := Scalar.muli v614 c64_i32_174
  let v621 : BitVec 32 := Scalar.addi v615 c0_i32_176
  let v622 : Index := Scalar.indexCast v621
  ![v622.toNat]

def k0_chk105 (v614 : BitVec 32) : Prop :=
  (∀ (r : Fin 4), ∀ a, (k0_off242 v614 (BitVec.ofNat 32 (16 * r.val))) a + S16.size a ≤ S1024.size a)
instance k0_chk105.dec : ∀ (v614 : BitVec 32), Decidable (k0_chk105 v614) := fun v614 => decidable_of_iff' _ (Iff.of_eq (k0_chk105.eq_1 v614))
theorem k0_off242_inb : ∀ (v614 : BitVec 32) (k0_hw105 : k0_chk105 v614), ∀ (r : Fin 4), ∀ a, (k0_off242 v614 (BitVec.ofNat 32 (16 * r.val))) a + S16.size a ≤ S1024.size a := fun v614 k0_hw105 r => k0_hw105 r

def k0_off243 (k0_t9 : Fin k0_t9_loop.trips) (c512_i32 : BitVec 32) (c0_i32_175 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v616 : BitVec 32 := Scalar.addi v164 c512_i32
  let v617 : BitVec 32 := Scalar.addi v616 c0_i32_175
  let v626 : Index := Scalar.indexCast v617
  ![v626.toNat]
def k0_off243_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off244 (v670 : BitVec 32) (c0_i32_185 : BitVec 32) : Fin 1 → Nat :=
  let c64_i32_183 : BitVec 32 := 64#32
  let v671 : BitVec 32 := Scalar.muli v670 c64_i32_183
  let v677 : BitVec 32 := Scalar.addi v671 c0_i32_185
  let v678 : Index := Scalar.indexCast v677
  ![v678.toNat]

def k0_chk106 (v670 : BitVec 32) : Prop :=
  (∀ (r : Fin 4), ∀ a, (k0_off244 v670 (BitVec.ofNat 32 (16 * r.val))) a + S16.size a ≤ S1024.size a)
instance k0_chk106.dec : ∀ (v670 : BitVec 32), Decidable (k0_chk106 v670) := fun v670 => decidable_of_iff' _ (Iff.of_eq (k0_chk106.eq_1 v670))
theorem k0_off244_inb : ∀ (v670 : BitVec 32) (k0_hw106 : k0_chk106 v670), ∀ (r : Fin 4), ∀ a, (k0_off244 v670 (BitVec.ofNat 32 (16 * r.val))) a + S16.size a ≤ S1024.size a := fun v670 k0_hw106 r => k0_hw106 r

def k0_off245 (k0_t9 : Fin k0_t9_loop.trips) (c576_i32 : BitVec 32) (c0_i32_184 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v672 : BitVec 32 := Scalar.addi v164 c576_i32
  let v673 : BitVec 32 := Scalar.addi v672 c0_i32_184
  let v682 : Index := Scalar.indexCast v673
  ![v682.toNat]
def k0_off245_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off246 (v726 : BitVec 32) (c0_i32_194 : BitVec 32) : Fin 1 → Nat :=
  let c64_i32_192 : BitVec 32 := 64#32
  let v727 : BitVec 32 := Scalar.muli v726 c64_i32_192
  let v733 : BitVec 32 := Scalar.addi v727 c0_i32_194
  let v734 : Index := Scalar.indexCast v733
  ![v734.toNat]

def k0_chk107 (v726 : BitVec 32) : Prop :=
  (∀ (r : Fin 4), ∀ a, (k0_off246 v726 (BitVec.ofNat 32 (16 * r.val))) a + S16.size a ≤ S1024.size a)
instance k0_chk107.dec : ∀ (v726 : BitVec 32), Decidable (k0_chk107 v726) := fun v726 => decidable_of_iff' _ (Iff.of_eq (k0_chk107.eq_1 v726))
theorem k0_off246_inb : ∀ (v726 : BitVec 32) (k0_hw107 : k0_chk107 v726), ∀ (r : Fin 4), ∀ a, (k0_off246 v726 (BitVec.ofNat 32 (16 * r.val))) a + S16.size a ≤ S1024.size a := fun v726 k0_hw107 r => k0_hw107 r

def k0_off247 (k0_t9 : Fin k0_t9_loop.trips) (c640_i32 : BitVec 32) (c0_i32_193 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v728 : BitVec 32 := Scalar.addi v164 c640_i32
  let v729 : BitVec 32 := Scalar.addi v728 c0_i32_193
  let v738 : Index := Scalar.indexCast v729
  ![v738.toNat]
def k0_off247_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off248 (v782 : BitVec 32) (c0_i32_203 : BitVec 32) : Fin 1 → Nat :=
  let c64_i32_201 : BitVec 32 := 64#32
  let v783 : BitVec 32 := Scalar.muli v782 c64_i32_201
  let v789 : BitVec 32 := Scalar.addi v783 c0_i32_203
  let v790 : Index := Scalar.indexCast v789
  ![v790.toNat]

def k0_chk108 (v782 : BitVec 32) : Prop :=
  (∀ (r : Fin 4), ∀ a, (k0_off248 v782 (BitVec.ofNat 32 (16 * r.val))) a + S16.size a ≤ S1024.size a)
instance k0_chk108.dec : ∀ (v782 : BitVec 32), Decidable (k0_chk108 v782) := fun v782 => decidable_of_iff' _ (Iff.of_eq (k0_chk108.eq_1 v782))
theorem k0_off248_inb : ∀ (v782 : BitVec 32) (k0_hw108 : k0_chk108 v782), ∀ (r : Fin 4), ∀ a, (k0_off248 v782 (BitVec.ofNat 32 (16 * r.val))) a + S16.size a ≤ S1024.size a := fun v782 k0_hw108 r => k0_hw108 r

def k0_off249 (k0_t9 : Fin k0_t9_loop.trips) (c704_i32 : BitVec 32) (c0_i32_202 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v784 : BitVec 32 := Scalar.addi v164 c704_i32
  let v785 : BitVec 32 := Scalar.addi v784 c0_i32_202
  let v794 : Index := Scalar.indexCast v785
  ![v794.toNat]
def k0_off249_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off250 (v838 : BitVec 32) (c0_i32_212 : BitVec 32) : Fin 1 → Nat :=
  let c64_i32_210 : BitVec 32 := 64#32
  let v839 : BitVec 32 := Scalar.muli v838 c64_i32_210
  let v845 : BitVec 32 := Scalar.addi v839 c0_i32_212
  let v846 : Index := Scalar.indexCast v845
  ![v846.toNat]

def k0_chk109 (v838 : BitVec 32) : Prop :=
  (∀ (r : Fin 4), ∀ a, (k0_off250 v838 (BitVec.ofNat 32 (16 * r.val))) a + S16.size a ≤ S1024.size a)
instance k0_chk109.dec : ∀ (v838 : BitVec 32), Decidable (k0_chk109 v838) := fun v838 => decidable_of_iff' _ (Iff.of_eq (k0_chk109.eq_1 v838))
theorem k0_off250_inb : ∀ (v838 : BitVec 32) (k0_hw109 : k0_chk109 v838), ∀ (r : Fin 4), ∀ a, (k0_off250 v838 (BitVec.ofNat 32 (16 * r.val))) a + S16.size a ≤ S1024.size a := fun v838 k0_hw109 r => k0_hw109 r

def k0_off251 (k0_t9 : Fin k0_t9_loop.trips) (c768_i32 : BitVec 32) (c0_i32_211 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v840 : BitVec 32 := Scalar.addi v164 c768_i32
  let v841 : BitVec 32 := Scalar.addi v840 c0_i32_211
  let v850 : Index := Scalar.indexCast v841
  ![v850.toNat]
def k0_off251_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off252 (v894 : BitVec 32) (c0_i32_221 : BitVec 32) : Fin 1 → Nat :=
  let c64_i32_219 : BitVec 32 := 64#32
  let v895 : BitVec 32 := Scalar.muli v894 c64_i32_219
  let v901 : BitVec 32 := Scalar.addi v895 c0_i32_221
  let v902 : Index := Scalar.indexCast v901
  ![v902.toNat]

def k0_chk110 (v894 : BitVec 32) : Prop :=
  (∀ (r : Fin 4), ∀ a, (k0_off252 v894 (BitVec.ofNat 32 (16 * r.val))) a + S16.size a ≤ S1024.size a)
instance k0_chk110.dec : ∀ (v894 : BitVec 32), Decidable (k0_chk110 v894) := fun v894 => decidable_of_iff' _ (Iff.of_eq (k0_chk110.eq_1 v894))
theorem k0_off252_inb : ∀ (v894 : BitVec 32) (k0_hw110 : k0_chk110 v894), ∀ (r : Fin 4), ∀ a, (k0_off252 v894 (BitVec.ofNat 32 (16 * r.val))) a + S16.size a ≤ S1024.size a := fun v894 k0_hw110 r => k0_hw110 r

def k0_off253 (k0_t9 : Fin k0_t9_loop.trips) (c832_i32 : BitVec 32) (c0_i32_220 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v896 : BitVec 32 := Scalar.addi v164 c832_i32
  let v897 : BitVec 32 := Scalar.addi v896 c0_i32_220
  let v906 : Index := Scalar.indexCast v897
  ![v906.toNat]
def k0_off253_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off254 (v950 : BitVec 32) (c0_i32_230 : BitVec 32) : Fin 1 → Nat :=
  let c64_i32_228 : BitVec 32 := 64#32
  let v951 : BitVec 32 := Scalar.muli v950 c64_i32_228
  let v957 : BitVec 32 := Scalar.addi v951 c0_i32_230
  let v958 : Index := Scalar.indexCast v957
  ![v958.toNat]

def k0_chk111 (v950 : BitVec 32) : Prop :=
  (∀ (r : Fin 4), ∀ a, (k0_off254 v950 (BitVec.ofNat 32 (16 * r.val))) a + S16.size a ≤ S1024.size a)
instance k0_chk111.dec : ∀ (v950 : BitVec 32), Decidable (k0_chk111 v950) := fun v950 => decidable_of_iff' _ (Iff.of_eq (k0_chk111.eq_1 v950))
theorem k0_off254_inb : ∀ (v950 : BitVec 32) (k0_hw111 : k0_chk111 v950), ∀ (r : Fin 4), ∀ a, (k0_off254 v950 (BitVec.ofNat 32 (16 * r.val))) a + S16.size a ≤ S1024.size a := fun v950 k0_hw111 r => k0_hw111 r

def k0_off255 (k0_t9 : Fin k0_t9_loop.trips) (c896_i32 : BitVec 32) (c0_i32_229 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let v952 : BitVec 32 := Scalar.addi v164 c896_i32
  let v953 : BitVec 32 := Scalar.addi v952 c0_i32_229
  let v962 : Index := Scalar.indexCast v953
  ![v962.toNat]
def k0_off255_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off256 (v1006 : BitVec 32) (c0_i32_239 : BitVec 32) : Fin 1 → Nat :=
  let c64_i32_237 : BitVec 32 := 64#32
  let v1007 : BitVec 32 := Scalar.muli v1006 c64_i32_237
  let v1013 : BitVec 32 := Scalar.addi v1007 c0_i32_239
  let v1014 : Index := Scalar.indexCast v1013
  ![v1014.toNat]

def k0_chk112 (v1006 : BitVec 32) : Prop :=
  (∀ (r : Fin 4), ∀ a, (k0_off256 v1006 (BitVec.ofNat 32 (16 * r.val))) a + S16.size a ≤ S1024.size a)
instance k0_chk112.dec : ∀ (v1006 : BitVec 32), Decidable (k0_chk112 v1006) := fun v1006 => decidable_of_iff' _ (Iff.of_eq (k0_chk112.eq_1 v1006))
theorem k0_off256_inb : ∀ (v1006 : BitVec 32) (k0_hw112 : k0_chk112 v1006), ∀ (r : Fin 4), ∀ a, (k0_off256 v1006 (BitVec.ofNat 32 (16 * r.val))) a + S16.size a ≤ S1024.size a := fun v1006 k0_hw112 r => k0_hw112 r

def k0_off257 (k0_t9 : Fin k0_t9_loop.trips) (c0_i32_238 : BitVec 32) : Fin 1 → Nat :=
  let c0_i32_89 : BitVec 32 := 0#32
  let c1_i32_91 : BitVec 32 := 1#32
  let arg18 : BitVec 32 := Scf.iv c0_i32_89 c1_i32_91 k0_t9
  let c1024_i32 : BitVec 32 := 1024#32
  let v164 : BitVec 32 := Scalar.muli arg18 c1024_i32
  let c960_i32 : BitVec 32 := 960#32
  let v1008 : BitVec 32 := Scalar.addi v164 c960_i32
  let v1009 : BitVec 32 := Scalar.addi v1008 c0_i32_238
  let v1018 : Index := Scalar.indexCast v1009
  ![v1018.toNat]
def k0_off258 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_93 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let v145 : BitVec 32 := Scalar.muli c32_i32_93 v130
  let v146 : BitVec 32 := Scalar.addi v1 v145
  let c25600_i32_94 : BitVec 32 := 25600#32
  let v147 : BitVec 32 := Scalar.muli v146 c25600_i32_94
  ![v147.toNat]
def k0_cond10 (i : grid0.Coords) (k0_t8 : Fin (k0_t8_loop i).trips) : BitVec 1 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_96 : BitVec 32 := 1#32
  let v152 : BitVec 32 := Scalar.addi v130 c1_i32_96
  let v153 : BitVec 1 := Scalar.cmpi .slt v152 v21
  let v154 : BitVec 32 := Scalar.extui v153
  let c0_i32_97 : BitVec 32 := 0#32
  let v155 : BitVec 1 := Scalar.cmpi .ne v154 c0_i32_97
  v155

def k0_cond11 (i : grid0.Coords) (k0_t8 : Fin (k0_t8_loop i).trips) : BitVec 1 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_101 : BitVec 32 := 1#32
  let v160 : BitVec 32 := Scalar.addi v130 c1_i32_101
  let c1_i32_102 : BitVec 32 := 1#32
  let v161 : BitVec 32 := Scalar.addi v160 c1_i32_102
  let v162 : BitVec 1 := Scalar.cmpi .slt v161 v21
  let v163 : BitVec 32 := Scalar.extui v162
  let c0_i32_103 : BitVec 32 := 0#32
  let v164 : BitVec 1 := Scalar.cmpi .ne v163 c0_i32_103
  v164

def k0_off259 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_101 : BitVec 32 := 1#32
  let v160 : BitVec 32 := Scalar.addi v130 c1_i32_101
  let c1_i32_121 : BitVec 32 := 1#32
  let v186 : BitVec 32 := Scalar.addi v160 c1_i32_121
  let v187 : BitVec 32 := Scalar.muli c32_i32_122 v186
  let v188 : BitVec 32 := Scalar.addi v1 v187
  let c25600_i32_123 : BitVec 32 := 25600#32
  let v189 : BitVec 32 := Scalar.muli v188 c25600_i32_123
  ![v189.toNat]
def k0_off260 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_101 : BitVec 32 := 1#32
  let v160 : BitVec 32 := Scalar.addi v130 c1_i32_101
  let c1_i32_121 : BitVec 32 := 1#32
  let v186 : BitVec 32 := Scalar.addi v160 c1_i32_121
  let v187 : BitVec 32 := Scalar.muli c32_i32_122 v186
  let v188 : BitVec 32 := Scalar.addi v1 v187
  let c400_i32_125 : BitVec 32 := 400#32
  let v194 : BitVec 32 := Scalar.muli v188 c400_i32_125
  ![v194.toNat]
@[reducible] def k0_t10_loop : Scf.Loop 32 :=
  let c0_i32_111 : BitVec 32 := 0#32
  let c25_i32_112 : BitVec 32 := 25#32
  let v173 : BitVec 32 := Scalar.addi c0_i32_111 c25_i32_112
  let c1_i32_113 : BitVec 32 := 1#32
  ⟨c0_i32_111, v173, c1_i32_113⟩
def k0_off261 (k0_t10 : Fin k0_t10_loop.trips) : Fin 1 → Nat :=
  let c0_i32_111 : BitVec 32 := 0#32
  let c1_i32_113 : BitVec 32 := 1#32
  let arg18 : BitVec 32 := Scf.iv c0_i32_111 c1_i32_113 k0_t10
  let c16_i32 : BitVec 32 := 16#32
  let v182 : BitVec 32 := Scalar.muli arg18 c16_i32
  let v183 : Index := Scalar.indexCast v182
  ![v183.toNat]
def k0_off262 (k0_t10 : Fin k0_t10_loop.trips) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let c0_i32_119 : BitVec 32 := 0#32
  let v190 : BitVec 32 := Scalar.addi v186 c0_i32_119
  let c0_i32_120 : BitVec 32 := 0#32
  let v191 : BitVec 32 := Scalar.addi v190 c0_i32_120
  let v192 : Index := Scalar.indexCast v191
  ![v192.toNat]
def k0_off263 (v188 : BitVec 32) (c0_i32_121 : BitVec 32) : Fin 1 → Nat :=
  let c64_i32_118 : BitVec 32 := 64#32
  let v189 : BitVec 32 := Scalar.muli v188 c64_i32_118
  let v195 : BitVec 32 := Scalar.addi v189 c0_i32_121
  let v196 : Index := Scalar.indexCast v195
  ![v196.toNat]

def k0_chk113 (i : grid0.Coords) (k0_t8 : Fin (k0_t8_loop i).trips) (v188 : BitVec 32) : Prop :=
  (∀ (k0_h10 : k0_cond10 i k0_t8 = 1#1), ∀ (r : Fin 4), ∀ a, (k0_off263 v188 (BitVec.ofNat 32 (16 * r.val))) a + S16.size a ≤ S1024.size a)
instance k0_chk113.dec : ∀ (i : grid0.Coords) (k0_t8 : Fin (k0_t8_loop i).trips) (v188 : BitVec 32), Decidable (k0_chk113 i k0_t8 v188) := fun i k0_t8 v188 => decidable_of_iff' _ (Iff.of_eq (k0_chk113.eq_1 i k0_t8 v188))
theorem k0_off263_inb : ∀ (i : grid0.Coords) (k0_t8 : Fin (k0_t8_loop i).trips) (v188 : BitVec 32) (k0_hw113 : k0_chk113 i k0_t8 v188), ∀ (k0_h10 : k0_cond10 i k0_t8 = 1#1), ∀ (r : Fin 4), ∀ a, (k0_off263 v188 (BitVec.ofNat 32 (16 * r.val))) a + S16.size a ≤ S1024.size a := fun i k0_t8 v188 k0_hw113 k0_h10 r => k0_hw113 k0_h10 r

def k0_off264 (k0_t10 : Fin k0_t10_loop.trips) (c0_i32_119 : BitVec 32) (c0_i32_120 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v190 : BitVec 32 := Scalar.addi v186 c0_i32_119
  let v191 : BitVec 32 := Scalar.addi v190 c0_i32_120
  let v200 : Index := Scalar.indexCast v191
  ![v200.toNat]
def k0_off264_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off265 (v244 : BitVec 32) (c0_i32_130 : BitVec 32) : Fin 1 → Nat :=
  let c64_i32_127 : BitVec 32 := 64#32
  let v245 : BitVec 32 := Scalar.muli v244 c64_i32_127
  let v251 : BitVec 32 := Scalar.addi v245 c0_i32_130
  let v252 : Index := Scalar.indexCast v251
  ![v252.toNat]

def k0_chk114 (i : grid0.Coords) (k0_t8 : Fin (k0_t8_loop i).trips) (v244 : BitVec 32) : Prop :=
  (∀ (k0_h10 : k0_cond10 i k0_t8 = 1#1), ∀ (r : Fin 4), ∀ a, (k0_off265 v244 (BitVec.ofNat 32 (16 * r.val))) a + S16.size a ≤ S1024.size a)
instance k0_chk114.dec : ∀ (i : grid0.Coords) (k0_t8 : Fin (k0_t8_loop i).trips) (v244 : BitVec 32), Decidable (k0_chk114 i k0_t8 v244) := fun i k0_t8 v244 => decidable_of_iff' _ (Iff.of_eq (k0_chk114.eq_1 i k0_t8 v244))
theorem k0_off265_inb : ∀ (i : grid0.Coords) (k0_t8 : Fin (k0_t8_loop i).trips) (v244 : BitVec 32) (k0_hw114 : k0_chk114 i k0_t8 v244), ∀ (k0_h10 : k0_cond10 i k0_t8 = 1#1), ∀ (r : Fin 4), ∀ a, (k0_off265 v244 (BitVec.ofNat 32 (16 * r.val))) a + S16.size a ≤ S1024.size a := fun i k0_t8 v244 k0_hw114 k0_h10 r => k0_hw114 k0_h10 r

def k0_off266 (k0_t10 : Fin k0_t10_loop.trips) (c64_i32_128 : BitVec 32) (c0_i32_129 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v246 : BitVec 32 := Scalar.addi v186 c64_i32_128
  let v247 : BitVec 32 := Scalar.addi v246 c0_i32_129
  let v256 : Index := Scalar.indexCast v247
  ![v256.toNat]
def k0_off266_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off267 (v300 : BitVec 32) (c0_i32_139 : BitVec 32) : Fin 1 → Nat :=
  let c64_i32_137 : BitVec 32 := 64#32
  let v301 : BitVec 32 := Scalar.muli v300 c64_i32_137
  let v307 : BitVec 32 := Scalar.addi v301 c0_i32_139
  let v308 : Index := Scalar.indexCast v307
  ![v308.toNat]

def k0_chk115 (i : grid0.Coords) (k0_t8 : Fin (k0_t8_loop i).trips) (v300 : BitVec 32) : Prop :=
  (∀ (k0_h10 : k0_cond10 i k0_t8 = 1#1), ∀ (r : Fin 4), ∀ a, (k0_off267 v300 (BitVec.ofNat 32 (16 * r.val))) a + S16.size a ≤ S1024.size a)
instance k0_chk115.dec : ∀ (i : grid0.Coords) (k0_t8 : Fin (k0_t8_loop i).trips) (v300 : BitVec 32), Decidable (k0_chk115 i k0_t8 v300) := fun i k0_t8 v300 => decidable_of_iff' _ (Iff.of_eq (k0_chk115.eq_1 i k0_t8 v300))
theorem k0_off267_inb : ∀ (i : grid0.Coords) (k0_t8 : Fin (k0_t8_loop i).trips) (v300 : BitVec 32) (k0_hw115 : k0_chk115 i k0_t8 v300), ∀ (k0_h10 : k0_cond10 i k0_t8 = 1#1), ∀ (r : Fin 4), ∀ a, (k0_off267 v300 (BitVec.ofNat 32 (16 * r.val))) a + S16.size a ≤ S1024.size a := fun i k0_t8 v300 k0_hw115 k0_h10 r => k0_hw115 k0_h10 r

def k0_off268 (k0_t10 : Fin k0_t10_loop.trips) (c128_i32 : BitVec 32) (c0_i32_138 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v302 : BitVec 32 := Scalar.addi v186 c128_i32
  let v303 : BitVec 32 := Scalar.addi v302 c0_i32_138
  let v312 : Index := Scalar.indexCast v303
  ![v312.toNat]
def k0_off268_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off269 (v356 : BitVec 32) (c0_i32_148 : BitVec 32) : Fin 1 → Nat :=
  let c64_i32_146 : BitVec 32 := 64#32
  let v357 : BitVec 32 := Scalar.muli v356 c64_i32_146
  let v363 : BitVec 32 := Scalar.addi v357 c0_i32_148
  let v364 : Index := Scalar.indexCast v363
  ![v364.toNat]

def k0_chk116 (i : grid0.Coords) (k0_t8 : Fin (k0_t8_loop i).trips) (v356 : BitVec 32) : Prop :=
  (∀ (k0_h10 : k0_cond10 i k0_t8 = 1#1), ∀ (r : Fin 4), ∀ a, (k0_off269 v356 (BitVec.ofNat 32 (16 * r.val))) a + S16.size a ≤ S1024.size a)
instance k0_chk116.dec : ∀ (i : grid0.Coords) (k0_t8 : Fin (k0_t8_loop i).trips) (v356 : BitVec 32), Decidable (k0_chk116 i k0_t8 v356) := fun i k0_t8 v356 => decidable_of_iff' _ (Iff.of_eq (k0_chk116.eq_1 i k0_t8 v356))
theorem k0_off269_inb : ∀ (i : grid0.Coords) (k0_t8 : Fin (k0_t8_loop i).trips) (v356 : BitVec 32) (k0_hw116 : k0_chk116 i k0_t8 v356), ∀ (k0_h10 : k0_cond10 i k0_t8 = 1#1), ∀ (r : Fin 4), ∀ a, (k0_off269 v356 (BitVec.ofNat 32 (16 * r.val))) a + S16.size a ≤ S1024.size a := fun i k0_t8 v356 k0_hw116 k0_h10 r => k0_hw116 k0_h10 r

def k0_off270 (k0_t10 : Fin k0_t10_loop.trips) (c192_i32 : BitVec 32) (c0_i32_147 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v358 : BitVec 32 := Scalar.addi v186 c192_i32
  let v359 : BitVec 32 := Scalar.addi v358 c0_i32_147
  let v368 : Index := Scalar.indexCast v359
  ![v368.toNat]
def k0_off270_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off271 (v412 : BitVec 32) (c0_i32_157 : BitVec 32) : Fin 1 → Nat :=
  let c64_i32_155 : BitVec 32 := 64#32
  let v413 : BitVec 32 := Scalar.muli v412 c64_i32_155
  let v419 : BitVec 32 := Scalar.addi v413 c0_i32_157
  let v420 : Index := Scalar.indexCast v419
  ![v420.toNat]

def k0_chk117 (i : grid0.Coords) (k0_t8 : Fin (k0_t8_loop i).trips) (v412 : BitVec 32) : Prop :=
  (∀ (k0_h10 : k0_cond10 i k0_t8 = 1#1), ∀ (r : Fin 4), ∀ a, (k0_off271 v412 (BitVec.ofNat 32 (16 * r.val))) a + S16.size a ≤ S1024.size a)
instance k0_chk117.dec : ∀ (i : grid0.Coords) (k0_t8 : Fin (k0_t8_loop i).trips) (v412 : BitVec 32), Decidable (k0_chk117 i k0_t8 v412) := fun i k0_t8 v412 => decidable_of_iff' _ (Iff.of_eq (k0_chk117.eq_1 i k0_t8 v412))
theorem k0_off271_inb : ∀ (i : grid0.Coords) (k0_t8 : Fin (k0_t8_loop i).trips) (v412 : BitVec 32) (k0_hw117 : k0_chk117 i k0_t8 v412), ∀ (k0_h10 : k0_cond10 i k0_t8 = 1#1), ∀ (r : Fin 4), ∀ a, (k0_off271 v412 (BitVec.ofNat 32 (16 * r.val))) a + S16.size a ≤ S1024.size a := fun i k0_t8 v412 k0_hw117 k0_h10 r => k0_hw117 k0_h10 r

def k0_off272 (k0_t10 : Fin k0_t10_loop.trips) (c256_i32 : BitVec 32) (c0_i32_156 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v414 : BitVec 32 := Scalar.addi v186 c256_i32
  let v415 : BitVec 32 := Scalar.addi v414 c0_i32_156
  let v424 : Index := Scalar.indexCast v415
  ![v424.toNat]
def k0_off272_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off273 (v468 : BitVec 32) (c0_i32_166 : BitVec 32) : Fin 1 → Nat :=
  let c64_i32_164 : BitVec 32 := 64#32
  let v469 : BitVec 32 := Scalar.muli v468 c64_i32_164
  let v475 : BitVec 32 := Scalar.addi v469 c0_i32_166
  let v476 : Index := Scalar.indexCast v475
  ![v476.toNat]

def k0_chk118 (i : grid0.Coords) (k0_t8 : Fin (k0_t8_loop i).trips) (v468 : BitVec 32) : Prop :=
  (∀ (k0_h10 : k0_cond10 i k0_t8 = 1#1), ∀ (r : Fin 4), ∀ a, (k0_off273 v468 (BitVec.ofNat 32 (16 * r.val))) a + S16.size a ≤ S1024.size a)
instance k0_chk118.dec : ∀ (i : grid0.Coords) (k0_t8 : Fin (k0_t8_loop i).trips) (v468 : BitVec 32), Decidable (k0_chk118 i k0_t8 v468) := fun i k0_t8 v468 => decidable_of_iff' _ (Iff.of_eq (k0_chk118.eq_1 i k0_t8 v468))
theorem k0_off273_inb : ∀ (i : grid0.Coords) (k0_t8 : Fin (k0_t8_loop i).trips) (v468 : BitVec 32) (k0_hw118 : k0_chk118 i k0_t8 v468), ∀ (k0_h10 : k0_cond10 i k0_t8 = 1#1), ∀ (r : Fin 4), ∀ a, (k0_off273 v468 (BitVec.ofNat 32 (16 * r.val))) a + S16.size a ≤ S1024.size a := fun i k0_t8 v468 k0_hw118 k0_h10 r => k0_hw118 k0_h10 r

def k0_off274 (k0_t10 : Fin k0_t10_loop.trips) (c320_i32 : BitVec 32) (c0_i32_165 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v470 : BitVec 32 := Scalar.addi v186 c320_i32
  let v471 : BitVec 32 := Scalar.addi v470 c0_i32_165
  let v480 : Index := Scalar.indexCast v471
  ![v480.toNat]
def k0_off274_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off275 (v524 : BitVec 32) (c0_i32_175 : BitVec 32) : Fin 1 → Nat :=
  let c64_i32_173 : BitVec 32 := 64#32
  let v525 : BitVec 32 := Scalar.muli v524 c64_i32_173
  let v531 : BitVec 32 := Scalar.addi v525 c0_i32_175
  let v532 : Index := Scalar.indexCast v531
  ![v532.toNat]

def k0_chk119 (i : grid0.Coords) (k0_t8 : Fin (k0_t8_loop i).trips) (v524 : BitVec 32) : Prop :=
  (∀ (k0_h10 : k0_cond10 i k0_t8 = 1#1), ∀ (r : Fin 4), ∀ a, (k0_off275 v524 (BitVec.ofNat 32 (16 * r.val))) a + S16.size a ≤ S1024.size a)
instance k0_chk119.dec : ∀ (i : grid0.Coords) (k0_t8 : Fin (k0_t8_loop i).trips) (v524 : BitVec 32), Decidable (k0_chk119 i k0_t8 v524) := fun i k0_t8 v524 => decidable_of_iff' _ (Iff.of_eq (k0_chk119.eq_1 i k0_t8 v524))
theorem k0_off275_inb : ∀ (i : grid0.Coords) (k0_t8 : Fin (k0_t8_loop i).trips) (v524 : BitVec 32) (k0_hw119 : k0_chk119 i k0_t8 v524), ∀ (k0_h10 : k0_cond10 i k0_t8 = 1#1), ∀ (r : Fin 4), ∀ a, (k0_off275 v524 (BitVec.ofNat 32 (16 * r.val))) a + S16.size a ≤ S1024.size a := fun i k0_t8 v524 k0_hw119 k0_h10 r => k0_hw119 k0_h10 r

def k0_off276 (k0_t10 : Fin k0_t10_loop.trips) (c384_i32 : BitVec 32) (c0_i32_174 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v526 : BitVec 32 := Scalar.addi v186 c384_i32
  let v527 : BitVec 32 := Scalar.addi v526 c0_i32_174
  let v536 : Index := Scalar.indexCast v527
  ![v536.toNat]
def k0_off276_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off277 (v580 : BitVec 32) (c0_i32_184 : BitVec 32) : Fin 1 → Nat :=
  let c64_i32_182 : BitVec 32 := 64#32
  let v581 : BitVec 32 := Scalar.muli v580 c64_i32_182
  let v587 : BitVec 32 := Scalar.addi v581 c0_i32_184
  let v588 : Index := Scalar.indexCast v587
  ![v588.toNat]

def k0_chk120 (i : grid0.Coords) (k0_t8 : Fin (k0_t8_loop i).trips) (v580 : BitVec 32) : Prop :=
  (∀ (k0_h10 : k0_cond10 i k0_t8 = 1#1), ∀ (r : Fin 4), ∀ a, (k0_off277 v580 (BitVec.ofNat 32 (16 * r.val))) a + S16.size a ≤ S1024.size a)
instance k0_chk120.dec : ∀ (i : grid0.Coords) (k0_t8 : Fin (k0_t8_loop i).trips) (v580 : BitVec 32), Decidable (k0_chk120 i k0_t8 v580) := fun i k0_t8 v580 => decidable_of_iff' _ (Iff.of_eq (k0_chk120.eq_1 i k0_t8 v580))
theorem k0_off277_inb : ∀ (i : grid0.Coords) (k0_t8 : Fin (k0_t8_loop i).trips) (v580 : BitVec 32) (k0_hw120 : k0_chk120 i k0_t8 v580), ∀ (k0_h10 : k0_cond10 i k0_t8 = 1#1), ∀ (r : Fin 4), ∀ a, (k0_off277 v580 (BitVec.ofNat 32 (16 * r.val))) a + S16.size a ≤ S1024.size a := fun i k0_t8 v580 k0_hw120 k0_h10 r => k0_hw120 k0_h10 r

def k0_off278 (k0_t10 : Fin k0_t10_loop.trips) (c448_i32 : BitVec 32) (c0_i32_183 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v582 : BitVec 32 := Scalar.addi v186 c448_i32
  let v583 : BitVec 32 := Scalar.addi v582 c0_i32_183
  let v592 : Index := Scalar.indexCast v583
  ![v592.toNat]
def k0_off278_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off279 (v636 : BitVec 32) (c0_i32_193 : BitVec 32) : Fin 1 → Nat :=
  let c64_i32_191 : BitVec 32 := 64#32
  let v637 : BitVec 32 := Scalar.muli v636 c64_i32_191
  let v643 : BitVec 32 := Scalar.addi v637 c0_i32_193
  let v644 : Index := Scalar.indexCast v643
  ![v644.toNat]

def k0_chk121 (i : grid0.Coords) (k0_t8 : Fin (k0_t8_loop i).trips) (v636 : BitVec 32) : Prop :=
  (∀ (k0_h10 : k0_cond10 i k0_t8 = 1#1), ∀ (r : Fin 4), ∀ a, (k0_off279 v636 (BitVec.ofNat 32 (16 * r.val))) a + S16.size a ≤ S1024.size a)
instance k0_chk121.dec : ∀ (i : grid0.Coords) (k0_t8 : Fin (k0_t8_loop i).trips) (v636 : BitVec 32), Decidable (k0_chk121 i k0_t8 v636) := fun i k0_t8 v636 => decidable_of_iff' _ (Iff.of_eq (k0_chk121.eq_1 i k0_t8 v636))
theorem k0_off279_inb : ∀ (i : grid0.Coords) (k0_t8 : Fin (k0_t8_loop i).trips) (v636 : BitVec 32) (k0_hw121 : k0_chk121 i k0_t8 v636), ∀ (k0_h10 : k0_cond10 i k0_t8 = 1#1), ∀ (r : Fin 4), ∀ a, (k0_off279 v636 (BitVec.ofNat 32 (16 * r.val))) a + S16.size a ≤ S1024.size a := fun i k0_t8 v636 k0_hw121 k0_h10 r => k0_hw121 k0_h10 r

def k0_off280 (k0_t10 : Fin k0_t10_loop.trips) (c512_i32 : BitVec 32) (c0_i32_192 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v638 : BitVec 32 := Scalar.addi v186 c512_i32
  let v639 : BitVec 32 := Scalar.addi v638 c0_i32_192
  let v648 : Index := Scalar.indexCast v639
  ![v648.toNat]
def k0_off280_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off281 (v692 : BitVec 32) (c0_i32_202 : BitVec 32) : Fin 1 → Nat :=
  let c64_i32_200 : BitVec 32 := 64#32
  let v693 : BitVec 32 := Scalar.muli v692 c64_i32_200
  let v699 : BitVec 32 := Scalar.addi v693 c0_i32_202
  let v700 : Index := Scalar.indexCast v699
  ![v700.toNat]

def k0_chk122 (i : grid0.Coords) (k0_t8 : Fin (k0_t8_loop i).trips) (v692 : BitVec 32) : Prop :=
  (∀ (k0_h10 : k0_cond10 i k0_t8 = 1#1), ∀ (r : Fin 4), ∀ a, (k0_off281 v692 (BitVec.ofNat 32 (16 * r.val))) a + S16.size a ≤ S1024.size a)
instance k0_chk122.dec : ∀ (i : grid0.Coords) (k0_t8 : Fin (k0_t8_loop i).trips) (v692 : BitVec 32), Decidable (k0_chk122 i k0_t8 v692) := fun i k0_t8 v692 => decidable_of_iff' _ (Iff.of_eq (k0_chk122.eq_1 i k0_t8 v692))
theorem k0_off281_inb : ∀ (i : grid0.Coords) (k0_t8 : Fin (k0_t8_loop i).trips) (v692 : BitVec 32) (k0_hw122 : k0_chk122 i k0_t8 v692), ∀ (k0_h10 : k0_cond10 i k0_t8 = 1#1), ∀ (r : Fin 4), ∀ a, (k0_off281 v692 (BitVec.ofNat 32 (16 * r.val))) a + S16.size a ≤ S1024.size a := fun i k0_t8 v692 k0_hw122 k0_h10 r => k0_hw122 k0_h10 r

def k0_off282 (k0_t10 : Fin k0_t10_loop.trips) (c576_i32 : BitVec 32) (c0_i32_201 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v694 : BitVec 32 := Scalar.addi v186 c576_i32
  let v695 : BitVec 32 := Scalar.addi v694 c0_i32_201
  let v704 : Index := Scalar.indexCast v695
  ![v704.toNat]
def k0_off282_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off283 (v748 : BitVec 32) (c0_i32_211 : BitVec 32) : Fin 1 → Nat :=
  let c64_i32_209 : BitVec 32 := 64#32
  let v749 : BitVec 32 := Scalar.muli v748 c64_i32_209
  let v755 : BitVec 32 := Scalar.addi v749 c0_i32_211
  let v756 : Index := Scalar.indexCast v755
  ![v756.toNat]

def k0_chk123 (i : grid0.Coords) (k0_t8 : Fin (k0_t8_loop i).trips) (v748 : BitVec 32) : Prop :=
  (∀ (k0_h10 : k0_cond10 i k0_t8 = 1#1), ∀ (r : Fin 4), ∀ a, (k0_off283 v748 (BitVec.ofNat 32 (16 * r.val))) a + S16.size a ≤ S1024.size a)
instance k0_chk123.dec : ∀ (i : grid0.Coords) (k0_t8 : Fin (k0_t8_loop i).trips) (v748 : BitVec 32), Decidable (k0_chk123 i k0_t8 v748) := fun i k0_t8 v748 => decidable_of_iff' _ (Iff.of_eq (k0_chk123.eq_1 i k0_t8 v748))
theorem k0_off283_inb : ∀ (i : grid0.Coords) (k0_t8 : Fin (k0_t8_loop i).trips) (v748 : BitVec 32) (k0_hw123 : k0_chk123 i k0_t8 v748), ∀ (k0_h10 : k0_cond10 i k0_t8 = 1#1), ∀ (r : Fin 4), ∀ a, (k0_off283 v748 (BitVec.ofNat 32 (16 * r.val))) a + S16.size a ≤ S1024.size a := fun i k0_t8 v748 k0_hw123 k0_h10 r => k0_hw123 k0_h10 r

def k0_off284 (k0_t10 : Fin k0_t10_loop.trips) (c640_i32 : BitVec 32) (c0_i32_210 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v750 : BitVec 32 := Scalar.addi v186 c640_i32
  let v751 : BitVec 32 := Scalar.addi v750 c0_i32_210
  let v760 : Index := Scalar.indexCast v751
  ![v760.toNat]
def k0_off284_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off285 (v804 : BitVec 32) (c0_i32_220 : BitVec 32) : Fin 1 → Nat :=
  let c64_i32_218 : BitVec 32 := 64#32
  let v805 : BitVec 32 := Scalar.muli v804 c64_i32_218
  let v811 : BitVec 32 := Scalar.addi v805 c0_i32_220
  let v812 : Index := Scalar.indexCast v811
  ![v812.toNat]

def k0_chk124 (i : grid0.Coords) (k0_t8 : Fin (k0_t8_loop i).trips) (v804 : BitVec 32) : Prop :=
  (∀ (k0_h10 : k0_cond10 i k0_t8 = 1#1), ∀ (r : Fin 4), ∀ a, (k0_off285 v804 (BitVec.ofNat 32 (16 * r.val))) a + S16.size a ≤ S1024.size a)
instance k0_chk124.dec : ∀ (i : grid0.Coords) (k0_t8 : Fin (k0_t8_loop i).trips) (v804 : BitVec 32), Decidable (k0_chk124 i k0_t8 v804) := fun i k0_t8 v804 => decidable_of_iff' _ (Iff.of_eq (k0_chk124.eq_1 i k0_t8 v804))
theorem k0_off285_inb : ∀ (i : grid0.Coords) (k0_t8 : Fin (k0_t8_loop i).trips) (v804 : BitVec 32) (k0_hw124 : k0_chk124 i k0_t8 v804), ∀ (k0_h10 : k0_cond10 i k0_t8 = 1#1), ∀ (r : Fin 4), ∀ a, (k0_off285 v804 (BitVec.ofNat 32 (16 * r.val))) a + S16.size a ≤ S1024.size a := fun i k0_t8 v804 k0_hw124 k0_h10 r => k0_hw124 k0_h10 r

def k0_off286 (k0_t10 : Fin k0_t10_loop.trips) (c704_i32 : BitVec 32) (c0_i32_219 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v806 : BitVec 32 := Scalar.addi v186 c704_i32
  let v807 : BitVec 32 := Scalar.addi v806 c0_i32_219
  let v816 : Index := Scalar.indexCast v807
  ![v816.toNat]
def k0_off286_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off287 (v860 : BitVec 32) (c0_i32_229 : BitVec 32) : Fin 1 → Nat :=
  let c64_i32_227 : BitVec 32 := 64#32
  let v861 : BitVec 32 := Scalar.muli v860 c64_i32_227
  let v867 : BitVec 32 := Scalar.addi v861 c0_i32_229
  let v868 : Index := Scalar.indexCast v867
  ![v868.toNat]

def k0_chk125 (i : grid0.Coords) (k0_t8 : Fin (k0_t8_loop i).trips) (v860 : BitVec 32) : Prop :=
  (∀ (k0_h10 : k0_cond10 i k0_t8 = 1#1), ∀ (r : Fin 4), ∀ a, (k0_off287 v860 (BitVec.ofNat 32 (16 * r.val))) a + S16.size a ≤ S1024.size a)
instance k0_chk125.dec : ∀ (i : grid0.Coords) (k0_t8 : Fin (k0_t8_loop i).trips) (v860 : BitVec 32), Decidable (k0_chk125 i k0_t8 v860) := fun i k0_t8 v860 => decidable_of_iff' _ (Iff.of_eq (k0_chk125.eq_1 i k0_t8 v860))
theorem k0_off287_inb : ∀ (i : grid0.Coords) (k0_t8 : Fin (k0_t8_loop i).trips) (v860 : BitVec 32) (k0_hw125 : k0_chk125 i k0_t8 v860), ∀ (k0_h10 : k0_cond10 i k0_t8 = 1#1), ∀ (r : Fin 4), ∀ a, (k0_off287 v860 (BitVec.ofNat 32 (16 * r.val))) a + S16.size a ≤ S1024.size a := fun i k0_t8 v860 k0_hw125 k0_h10 r => k0_hw125 k0_h10 r

def k0_off288 (k0_t10 : Fin k0_t10_loop.trips) (c768_i32 : BitVec 32) (c0_i32_228 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v862 : BitVec 32 := Scalar.addi v186 c768_i32
  let v863 : BitVec 32 := Scalar.addi v862 c0_i32_228
  let v872 : Index := Scalar.indexCast v863
  ![v872.toNat]
def k0_off288_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off289 (v916 : BitVec 32) (c0_i32_238 : BitVec 32) : Fin 1 → Nat :=
  let c64_i32_236 : BitVec 32 := 64#32
  let v917 : BitVec 32 := Scalar.muli v916 c64_i32_236
  let v923 : BitVec 32 := Scalar.addi v917 c0_i32_238
  let v924 : Index := Scalar.indexCast v923
  ![v924.toNat]

def k0_chk126 (i : grid0.Coords) (k0_t8 : Fin (k0_t8_loop i).trips) (v916 : BitVec 32) : Prop :=
  (∀ (k0_h10 : k0_cond10 i k0_t8 = 1#1), ∀ (r : Fin 4), ∀ a, (k0_off289 v916 (BitVec.ofNat 32 (16 * r.val))) a + S16.size a ≤ S1024.size a)
instance k0_chk126.dec : ∀ (i : grid0.Coords) (k0_t8 : Fin (k0_t8_loop i).trips) (v916 : BitVec 32), Decidable (k0_chk126 i k0_t8 v916) := fun i k0_t8 v916 => decidable_of_iff' _ (Iff.of_eq (k0_chk126.eq_1 i k0_t8 v916))
theorem k0_off289_inb : ∀ (i : grid0.Coords) (k0_t8 : Fin (k0_t8_loop i).trips) (v916 : BitVec 32) (k0_hw126 : k0_chk126 i k0_t8 v916), ∀ (k0_h10 : k0_cond10 i k0_t8 = 1#1), ∀ (r : Fin 4), ∀ a, (k0_off289 v916 (BitVec.ofNat 32 (16 * r.val))) a + S16.size a ≤ S1024.size a := fun i k0_t8 v916 k0_hw126 k0_h10 r => k0_hw126 k0_h10 r

def k0_off290 (k0_t10 : Fin k0_t10_loop.trips) (c832_i32 : BitVec 32) (c0_i32_237 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v918 : BitVec 32 := Scalar.addi v186 c832_i32
  let v919 : BitVec 32 := Scalar.addi v918 c0_i32_237
  let v928 : Index := Scalar.indexCast v919
  ![v928.toNat]
def k0_off290_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off291 (v972 : BitVec 32) (c0_i32_247 : BitVec 32) : Fin 1 → Nat :=
  let c64_i32_245 : BitVec 32 := 64#32
  let v973 : BitVec 32 := Scalar.muli v972 c64_i32_245
  let v979 : BitVec 32 := Scalar.addi v973 c0_i32_247
  let v980 : Index := Scalar.indexCast v979
  ![v980.toNat]

def k0_chk127 (i : grid0.Coords) (k0_t8 : Fin (k0_t8_loop i).trips) (v972 : BitVec 32) : Prop :=
  (∀ (k0_h10 : k0_cond10 i k0_t8 = 1#1), ∀ (r : Fin 4), ∀ a, (k0_off291 v972 (BitVec.ofNat 32 (16 * r.val))) a + S16.size a ≤ S1024.size a)
instance k0_chk127.dec : ∀ (i : grid0.Coords) (k0_t8 : Fin (k0_t8_loop i).trips) (v972 : BitVec 32), Decidable (k0_chk127 i k0_t8 v972) := fun i k0_t8 v972 => decidable_of_iff' _ (Iff.of_eq (k0_chk127.eq_1 i k0_t8 v972))
theorem k0_off291_inb : ∀ (i : grid0.Coords) (k0_t8 : Fin (k0_t8_loop i).trips) (v972 : BitVec 32) (k0_hw127 : k0_chk127 i k0_t8 v972), ∀ (k0_h10 : k0_cond10 i k0_t8 = 1#1), ∀ (r : Fin 4), ∀ a, (k0_off291 v972 (BitVec.ofNat 32 (16 * r.val))) a + S16.size a ≤ S1024.size a := fun i k0_t8 v972 k0_hw127 k0_h10 r => k0_hw127 k0_h10 r

def k0_off292 (k0_t10 : Fin k0_t10_loop.trips) (c896_i32 : BitVec 32) (c0_i32_246 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let v974 : BitVec 32 := Scalar.addi v186 c896_i32
  let v975 : BitVec 32 := Scalar.addi v974 c0_i32_246
  let v984 : Index := Scalar.indexCast v975
  ![v984.toNat]
def k0_off292_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off293 (v1028 : BitVec 32) (c0_i32_256 : BitVec 32) : Fin 1 → Nat :=
  let c64_i32_254 : BitVec 32 := 64#32
  let v1029 : BitVec 32 := Scalar.muli v1028 c64_i32_254
  let v1035 : BitVec 32 := Scalar.addi v1029 c0_i32_256
  let v1036 : Index := Scalar.indexCast v1035
  ![v1036.toNat]

def k0_chk128 (i : grid0.Coords) (k0_t8 : Fin (k0_t8_loop i).trips) (v1028 : BitVec 32) : Prop :=
  (∀ (k0_h10 : k0_cond10 i k0_t8 = 1#1), ∀ (r : Fin 4), ∀ a, (k0_off293 v1028 (BitVec.ofNat 32 (16 * r.val))) a + S16.size a ≤ S1024.size a)
instance k0_chk128.dec : ∀ (i : grid0.Coords) (k0_t8 : Fin (k0_t8_loop i).trips) (v1028 : BitVec 32), Decidable (k0_chk128 i k0_t8 v1028) := fun i k0_t8 v1028 => decidable_of_iff' _ (Iff.of_eq (k0_chk128.eq_1 i k0_t8 v1028))
theorem k0_off293_inb : ∀ (i : grid0.Coords) (k0_t8 : Fin (k0_t8_loop i).trips) (v1028 : BitVec 32) (k0_hw128 : k0_chk128 i k0_t8 v1028), ∀ (k0_h10 : k0_cond10 i k0_t8 = 1#1), ∀ (r : Fin 4), ∀ a, (k0_off293 v1028 (BitVec.ofNat 32 (16 * r.val))) a + S16.size a ≤ S1024.size a := fun i k0_t8 v1028 k0_hw128 k0_h10 r => k0_hw128 k0_h10 r

def k0_off294 (k0_t10 : Fin k0_t10_loop.trips) (c0_i32_255 : BitVec 32) : Fin 1 → Nat :=
  let c0_i32_111 : BitVec 32 := 0#32
  let c1_i32_113 : BitVec 32 := 1#32
  let arg18 : BitVec 32 := Scf.iv c0_i32_111 c1_i32_113 k0_t10
  let c1024_i32 : BitVec 32 := 1024#32
  let v186 : BitVec 32 := Scalar.muli arg18 c1024_i32
  let c960_i32 : BitVec 32 := 960#32
  let v1030 : BitVec 32 := Scalar.addi v186 c960_i32
  let v1031 : BitVec 32 := Scalar.addi v1030 c0_i32_255
  let v1040 : Index := Scalar.indexCast v1031
  ![v1040.toNat]
def k0_off295 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_115 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c1_i32_101 : BitVec 32 := 1#32
  let v160 : BitVec 32 := Scalar.addi v130 c1_i32_101
  let v175 : BitVec 32 := Scalar.muli c32_i32_115 v160
  let v176 : BitVec 32 := Scalar.addi v1 v175
  let c25600_i32_116 : BitVec 32 := 25600#32
  let v177 : BitVec 32 := Scalar.muli v176 c25600_i32_116
  ![v177.toNat]
def k0_cond12 (i : grid0.Coords) (k0_t8 : Fin (k0_t8_loop i).trips) : BitVec 1 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c2_i32_98 : BitVec 32 := 2#32
  let v156 : BitVec 32 := Scalar.addi v130 c2_i32_98
  let v157 : BitVec 1 := Scalar.cmpi .slt v156 v21
  let v158 : BitVec 32 := Scalar.extui v157
  let c0_i32_99 : BitVec 32 := 0#32
  let v159 : BitVec 1 := Scalar.cmpi .ne v158 c0_i32_99
  v159

def k0_cond13 (i : grid0.Coords) (k0_t8 : Fin (k0_t8_loop i).trips) : BitVec 1 :=
  let c1_i32_62 : BitVec 32 := 1#32
  let c2500_i32 : BitVec 32 := 2500#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c2_i32_101 : BitVec 32 := 2#32
  let v160 : BitVec 32 := Scalar.addi v130 c2_i32_101
  let c1_i32_102 : BitVec 32 := 1#32
  let v161 : BitVec 32 := Scalar.addi v160 c1_i32_102
  let v162 : BitVec 1 := Scalar.cmpi .slt v161 v21
  let v163 : BitVec 32 := Scalar.extui v162
  let c0_i32_103 : BitVec 32 := 0#32
  let v164 : BitVec 1 := Scalar.cmpi .ne v163 c0_i32_103
  v164

def k0_off296 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c2_i32_101 : BitVec 32 := 2#32
  let v160 : BitVec 32 := Scalar.addi v130 c2_i32_101
  let c1_i32_121 : BitVec 32 := 1#32
  let v186 : BitVec 32 := Scalar.addi v160 c1_i32_121
  let v187 : BitVec 32 := Scalar.muli c32_i32_122 v186
  let v188 : BitVec 32 := Scalar.addi v1 v187
  let c25600_i32_123 : BitVec 32 := 25600#32
  let v189 : BitVec 32 := Scalar.muli v188 c25600_i32_123
  ![v189.toNat]
def k0_off297 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_122 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c2_i32_101 : BitVec 32 := 2#32
  let v160 : BitVec 32 := Scalar.addi v130 c2_i32_101
  let c1_i32_121 : BitVec 32 := 1#32
  let v186 : BitVec 32 := Scalar.addi v160 c1_i32_121
  let v187 : BitVec 32 := Scalar.muli c32_i32_122 v186
  let v188 : BitVec 32 := Scalar.addi v1 v187
  let c400_i32_125 : BitVec 32 := 400#32
  let v194 : BitVec 32 := Scalar.muli v188 c400_i32_125
  ![v194.toNat]
@[reducible] def k0_t11_loop : Scf.Loop 32 :=
  let c0_i32_111 : BitVec 32 := 0#32
  let c25_i32_112 : BitVec 32 := 25#32
  let v173 : BitVec 32 := Scalar.addi c0_i32_111 c25_i32_112
  let c1_i32_113 : BitVec 32 := 1#32
  ⟨c0_i32_111, v173, c1_i32_113⟩
def k0_off298 (k0_t11 : Fin k0_t11_loop.trips) : Fin 1 → Nat :=
  let c0_i32_111 : BitVec 32 := 0#32
  let c1_i32_113 : BitVec 32 := 1#32
  let arg18 : BitVec 32 := Scf.iv c0_i32_111 c1_i32_113 k0_t11
  let c16_i32 : BitVec 32 := 16#32
  let v182 : BitVec 32 := Scalar.muli arg18 c16_i32
  let v183 : Index := Scalar.indexCast v182
  ![v183.toNat]
def k0_off299 (k0_t11 : Fin k0_t11_loop.trips) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let c0_i32_119 : BitVec 32 := 0#32
  let v190 : BitVec 32 := Scalar.addi v186 c0_i32_119
  let c0_i32_120 : BitVec 32 := 0#32
  let v191 : BitVec 32 := Scalar.addi v190 c0_i32_120
  let v192 : Index := Scalar.indexCast v191
  ![v192.toNat]
def k0_off300 (v188 : BitVec 32) (c0_i32_121 : BitVec 32) : Fin 1 → Nat :=
  let c64_i32_118 : BitVec 32 := 64#32
  let v189 : BitVec 32 := Scalar.muli v188 c64_i32_118
  let v195 : BitVec 32 := Scalar.addi v189 c0_i32_121
  let v196 : Index := Scalar.indexCast v195
  ![v196.toNat]

def k0_chk129 (i : grid0.Coords) (k0_t8 : Fin (k0_t8_loop i).trips) (v188 : BitVec 32) : Prop :=
  (∀ (k0_h12 : k0_cond12 i k0_t8 = 1#1), ∀ (r : Fin 4), ∀ a, (k0_off300 v188 (BitVec.ofNat 32 (16 * r.val))) a + S16.size a ≤ S1024.size a)
instance k0_chk129.dec : ∀ (i : grid0.Coords) (k0_t8 : Fin (k0_t8_loop i).trips) (v188 : BitVec 32), Decidable (k0_chk129 i k0_t8 v188) := fun i k0_t8 v188 => decidable_of_iff' _ (Iff.of_eq (k0_chk129.eq_1 i k0_t8 v188))
theorem k0_off300_inb : ∀ (i : grid0.Coords) (k0_t8 : Fin (k0_t8_loop i).trips) (v188 : BitVec 32) (k0_hw129 : k0_chk129 i k0_t8 v188), ∀ (k0_h12 : k0_cond12 i k0_t8 = 1#1), ∀ (r : Fin 4), ∀ a, (k0_off300 v188 (BitVec.ofNat 32 (16 * r.val))) a + S16.size a ≤ S1024.size a := fun i k0_t8 v188 k0_hw129 k0_h12 r => k0_hw129 k0_h12 r

def k0_off301 (k0_t11 : Fin k0_t11_loop.trips) (c0_i32_119 : BitVec 32) (c0_i32_120 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v190 : BitVec 32 := Scalar.addi v186 c0_i32_119
  let v191 : BitVec 32 := Scalar.addi v190 c0_i32_120
  let v200 : Index := Scalar.indexCast v191
  ![v200.toNat]
def k0_off301_at (r : Fin 5) : BitVec 32 × BitVec 32 :=
  if r.val < 2 then
    if r.val < 1 then
      (0#32, 0#32)
    else
      (0#32, 16#32)
  else
    if r.val < 3 then
      (0#32, 32#32)
    else
      if r.val < 4 then
        (0#32, 48#32)
      else
        (64#32, 0#32)
def k0_off302 (v244 : BitVec 32) (c0_i32_130 : BitVec 32) : Fin 1 → Nat :=
  let c64_i32_127 : BitVec 32 := 64#32
  let v245 : BitVec 32 := Scalar.muli v244 c64_i32_127
  let v251 : BitVec 32 := Scalar.addi v245 c0_i32_130
  let v252 : Index := Scalar.indexCast v251
  ![v252.toNat]

def k0_chk130 (i : grid0.Coords) (k0_t8 : Fin (k0_t8_loop i).trips) (v244 : BitVec 32) : Prop :=
  (∀ (k0_h12 : k0_cond12 i k0_t8 = 1#1), ∀ (r : Fin 4), ∀ a, (k0_off302 v244 (BitVec.ofNat 32 (16 * r.val))) a + S16.size a ≤ S1024.size a)
instance k0_chk130.dec : ∀ (i : grid0.Coords) (k0_t8 : Fin (k0_t8_loop i).trips) (v244 : BitVec 32), Decidable (k0_chk130 i k0_t8 v244) := fun i k0_t8 v244 => decidable_of_iff' _ (Iff.of_eq (k0_chk130.eq_1 i k0_t8 v244))
theorem k0_off302_inb : ∀ (i : grid0.Coords) (k0_t8 : Fin (k0_t8_loop i).trips) (v244 : BitVec 32) (k0_hw130 : k0_chk130 i k0_t8 v244), ∀ (k0_h12 : k0_cond12 i k0_t8 = 1#1), ∀ (r : Fin 4), ∀ a, (k0_off302 v244 (BitVec.ofNat 32 (16 * r.val))) a + S16.size a ≤ S1024.size a := fun i k0_t8 v244 k0_hw130 k0_h12 r => k0_hw130 k0_h12 r

def k0_off303 (k0_t11 : Fin k0_t11_loop.trips) (c64_i32_128 : BitVec 32) (c0_i32_129 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v246 : BitVec 32 := Scalar.addi v186 c64_i32_128
  let v247 : BitVec 32 := Scalar.addi v246 c0_i32_129
  let v256 : Index := Scalar.indexCast v247
  ![v256.toNat]
def k0_off303_at (r : Fin 5) : BitVec 32 × BitVec 32 :=
  if r.val < 2 then
    if r.val < 1 then
      (64#32, 0#32)
    else
      (64#32, 16#32)
  else
    if r.val < 3 then
      (64#32, 32#32)
    else
      if r.val < 4 then
        (64#32, 48#32)
      else
        (128#32, 0#32)
def k0_off304 (v300 : BitVec 32) (c0_i32_139 : BitVec 32) : Fin 1 → Nat :=
  let c64_i32_137 : BitVec 32 := 64#32
  let v301 : BitVec 32 := Scalar.muli v300 c64_i32_137
  let v307 : BitVec 32 := Scalar.addi v301 c0_i32_139
  let v308 : Index := Scalar.indexCast v307
  ![v308.toNat]

def k0_chk131 (i : grid0.Coords) (k0_t8 : Fin (k0_t8_loop i).trips) (v300 : BitVec 32) : Prop :=
  (∀ (k0_h12 : k0_cond12 i k0_t8 = 1#1), ∀ (r : Fin 4), ∀ a, (k0_off304 v300 (BitVec.ofNat 32 (16 * r.val))) a + S16.size a ≤ S1024.size a)
instance k0_chk131.dec : ∀ (i : grid0.Coords) (k0_t8 : Fin (k0_t8_loop i).trips) (v300 : BitVec 32), Decidable (k0_chk131 i k0_t8 v300) := fun i k0_t8 v300 => decidable_of_iff' _ (Iff.of_eq (k0_chk131.eq_1 i k0_t8 v300))
theorem k0_off304_inb : ∀ (i : grid0.Coords) (k0_t8 : Fin (k0_t8_loop i).trips) (v300 : BitVec 32) (k0_hw131 : k0_chk131 i k0_t8 v300), ∀ (k0_h12 : k0_cond12 i k0_t8 = 1#1), ∀ (r : Fin 4), ∀ a, (k0_off304 v300 (BitVec.ofNat 32 (16 * r.val))) a + S16.size a ≤ S1024.size a := fun i k0_t8 v300 k0_hw131 k0_h12 r => k0_hw131 k0_h12 r

def k0_off305 (k0_t11 : Fin k0_t11_loop.trips) (c128_i32 : BitVec 32) (c0_i32_138 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v302 : BitVec 32 := Scalar.addi v186 c128_i32
  let v303 : BitVec 32 := Scalar.addi v302 c0_i32_138
  let v312 : Index := Scalar.indexCast v303
  ![v312.toNat]
def k0_off305_at (r : Fin 5) : BitVec 32 × BitVec 32 :=
  if r.val < 2 then
    if r.val < 1 then
      (128#32, 0#32)
    else
      (128#32, 16#32)
  else
    if r.val < 3 then
      (128#32, 32#32)
    else
      if r.val < 4 then
        (128#32, 48#32)
      else
        (192#32, 0#32)
def k0_off306 (v356 : BitVec 32) (c0_i32_148 : BitVec 32) : Fin 1 → Nat :=
  let c64_i32_146 : BitVec 32 := 64#32
  let v357 : BitVec 32 := Scalar.muli v356 c64_i32_146
  let v363 : BitVec 32 := Scalar.addi v357 c0_i32_148
  let v364 : Index := Scalar.indexCast v363
  ![v364.toNat]

def k0_chk132 (i : grid0.Coords) (k0_t8 : Fin (k0_t8_loop i).trips) (v356 : BitVec 32) : Prop :=
  (∀ (k0_h12 : k0_cond12 i k0_t8 = 1#1), ∀ (r : Fin 4), ∀ a, (k0_off306 v356 (BitVec.ofNat 32 (16 * r.val))) a + S16.size a ≤ S1024.size a)
instance k0_chk132.dec : ∀ (i : grid0.Coords) (k0_t8 : Fin (k0_t8_loop i).trips) (v356 : BitVec 32), Decidable (k0_chk132 i k0_t8 v356) := fun i k0_t8 v356 => decidable_of_iff' _ (Iff.of_eq (k0_chk132.eq_1 i k0_t8 v356))
theorem k0_off306_inb : ∀ (i : grid0.Coords) (k0_t8 : Fin (k0_t8_loop i).trips) (v356 : BitVec 32) (k0_hw132 : k0_chk132 i k0_t8 v356), ∀ (k0_h12 : k0_cond12 i k0_t8 = 1#1), ∀ (r : Fin 4), ∀ a, (k0_off306 v356 (BitVec.ofNat 32 (16 * r.val))) a + S16.size a ≤ S1024.size a := fun i k0_t8 v356 k0_hw132 k0_h12 r => k0_hw132 k0_h12 r

def k0_off307 (k0_t11 : Fin k0_t11_loop.trips) (c192_i32 : BitVec 32) (c0_i32_147 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v358 : BitVec 32 := Scalar.addi v186 c192_i32
  let v359 : BitVec 32 := Scalar.addi v358 c0_i32_147
  let v368 : Index := Scalar.indexCast v359
  ![v368.toNat]
def k0_off307_at (r : Fin 5) : BitVec 32 × BitVec 32 :=
  if r.val < 2 then
    if r.val < 1 then
      (192#32, 0#32)
    else
      (192#32, 16#32)
  else
    if r.val < 3 then
      (192#32, 32#32)
    else
      if r.val < 4 then
        (192#32, 48#32)
      else
        (256#32, 0#32)
def k0_off308 (v412 : BitVec 32) (c0_i32_157 : BitVec 32) : Fin 1 → Nat :=
  let c64_i32_155 : BitVec 32 := 64#32
  let v413 : BitVec 32 := Scalar.muli v412 c64_i32_155
  let v419 : BitVec 32 := Scalar.addi v413 c0_i32_157
  let v420 : Index := Scalar.indexCast v419
  ![v420.toNat]

def k0_chk133 (i : grid0.Coords) (k0_t8 : Fin (k0_t8_loop i).trips) (v412 : BitVec 32) : Prop :=
  (∀ (k0_h12 : k0_cond12 i k0_t8 = 1#1), ∀ (r : Fin 4), ∀ a, (k0_off308 v412 (BitVec.ofNat 32 (16 * r.val))) a + S16.size a ≤ S1024.size a)
instance k0_chk133.dec : ∀ (i : grid0.Coords) (k0_t8 : Fin (k0_t8_loop i).trips) (v412 : BitVec 32), Decidable (k0_chk133 i k0_t8 v412) := fun i k0_t8 v412 => decidable_of_iff' _ (Iff.of_eq (k0_chk133.eq_1 i k0_t8 v412))
theorem k0_off308_inb : ∀ (i : grid0.Coords) (k0_t8 : Fin (k0_t8_loop i).trips) (v412 : BitVec 32) (k0_hw133 : k0_chk133 i k0_t8 v412), ∀ (k0_h12 : k0_cond12 i k0_t8 = 1#1), ∀ (r : Fin 4), ∀ a, (k0_off308 v412 (BitVec.ofNat 32 (16 * r.val))) a + S16.size a ≤ S1024.size a := fun i k0_t8 v412 k0_hw133 k0_h12 r => k0_hw133 k0_h12 r

def k0_off309 (k0_t11 : Fin k0_t11_loop.trips) (c256_i32 : BitVec 32) (c0_i32_156 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v414 : BitVec 32 := Scalar.addi v186 c256_i32
  let v415 : BitVec 32 := Scalar.addi v414 c0_i32_156
  let v424 : Index := Scalar.indexCast v415
  ![v424.toNat]
def k0_off309_at (r : Fin 5) : BitVec 32 × BitVec 32 :=
  if r.val < 2 then
    if r.val < 1 then
      (256#32, 0#32)
    else
      (256#32, 16#32)
  else
    if r.val < 3 then
      (256#32, 32#32)
    else
      if r.val < 4 then
        (256#32, 48#32)
      else
        (320#32, 0#32)
def k0_off310 (v468 : BitVec 32) (c0_i32_166 : BitVec 32) : Fin 1 → Nat :=
  let c64_i32_164 : BitVec 32 := 64#32
  let v469 : BitVec 32 := Scalar.muli v468 c64_i32_164
  let v475 : BitVec 32 := Scalar.addi v469 c0_i32_166
  let v476 : Index := Scalar.indexCast v475
  ![v476.toNat]

def k0_chk134 (i : grid0.Coords) (k0_t8 : Fin (k0_t8_loop i).trips) (v468 : BitVec 32) : Prop :=
  (∀ (k0_h12 : k0_cond12 i k0_t8 = 1#1), ∀ (r : Fin 4), ∀ a, (k0_off310 v468 (BitVec.ofNat 32 (16 * r.val))) a + S16.size a ≤ S1024.size a)
instance k0_chk134.dec : ∀ (i : grid0.Coords) (k0_t8 : Fin (k0_t8_loop i).trips) (v468 : BitVec 32), Decidable (k0_chk134 i k0_t8 v468) := fun i k0_t8 v468 => decidable_of_iff' _ (Iff.of_eq (k0_chk134.eq_1 i k0_t8 v468))
theorem k0_off310_inb : ∀ (i : grid0.Coords) (k0_t8 : Fin (k0_t8_loop i).trips) (v468 : BitVec 32) (k0_hw134 : k0_chk134 i k0_t8 v468), ∀ (k0_h12 : k0_cond12 i k0_t8 = 1#1), ∀ (r : Fin 4), ∀ a, (k0_off310 v468 (BitVec.ofNat 32 (16 * r.val))) a + S16.size a ≤ S1024.size a := fun i k0_t8 v468 k0_hw134 k0_h12 r => k0_hw134 k0_h12 r

def k0_off311 (k0_t11 : Fin k0_t11_loop.trips) (c320_i32 : BitVec 32) (c0_i32_165 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v470 : BitVec 32 := Scalar.addi v186 c320_i32
  let v471 : BitVec 32 := Scalar.addi v470 c0_i32_165
  let v480 : Index := Scalar.indexCast v471
  ![v480.toNat]
def k0_off311_at (r : Fin 5) : BitVec 32 × BitVec 32 :=
  if r.val < 2 then
    if r.val < 1 then
      (320#32, 0#32)
    else
      (320#32, 16#32)
  else
    if r.val < 3 then
      (320#32, 32#32)
    else
      if r.val < 4 then
        (320#32, 48#32)
      else
        (384#32, 0#32)
def k0_off312 (v524 : BitVec 32) (c0_i32_175 : BitVec 32) : Fin 1 → Nat :=
  let c64_i32_173 : BitVec 32 := 64#32
  let v525 : BitVec 32 := Scalar.muli v524 c64_i32_173
  let v531 : BitVec 32 := Scalar.addi v525 c0_i32_175
  let v532 : Index := Scalar.indexCast v531
  ![v532.toNat]

def k0_chk135 (i : grid0.Coords) (k0_t8 : Fin (k0_t8_loop i).trips) (v524 : BitVec 32) : Prop :=
  (∀ (k0_h12 : k0_cond12 i k0_t8 = 1#1), ∀ (r : Fin 4), ∀ a, (k0_off312 v524 (BitVec.ofNat 32 (16 * r.val))) a + S16.size a ≤ S1024.size a)
instance k0_chk135.dec : ∀ (i : grid0.Coords) (k0_t8 : Fin (k0_t8_loop i).trips) (v524 : BitVec 32), Decidable (k0_chk135 i k0_t8 v524) := fun i k0_t8 v524 => decidable_of_iff' _ (Iff.of_eq (k0_chk135.eq_1 i k0_t8 v524))
theorem k0_off312_inb : ∀ (i : grid0.Coords) (k0_t8 : Fin (k0_t8_loop i).trips) (v524 : BitVec 32) (k0_hw135 : k0_chk135 i k0_t8 v524), ∀ (k0_h12 : k0_cond12 i k0_t8 = 1#1), ∀ (r : Fin 4), ∀ a, (k0_off312 v524 (BitVec.ofNat 32 (16 * r.val))) a + S16.size a ≤ S1024.size a := fun i k0_t8 v524 k0_hw135 k0_h12 r => k0_hw135 k0_h12 r

def k0_off313 (k0_t11 : Fin k0_t11_loop.trips) (c384_i32 : BitVec 32) (c0_i32_174 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v526 : BitVec 32 := Scalar.addi v186 c384_i32
  let v527 : BitVec 32 := Scalar.addi v526 c0_i32_174
  let v536 : Index := Scalar.indexCast v527
  ![v536.toNat]
def k0_off313_at (r : Fin 5) : BitVec 32 × BitVec 32 :=
  if r.val < 2 then
    if r.val < 1 then
      (384#32, 0#32)
    else
      (384#32, 16#32)
  else
    if r.val < 3 then
      (384#32, 32#32)
    else
      if r.val < 4 then
        (384#32, 48#32)
      else
        (448#32, 0#32)
def k0_off314 (v580 : BitVec 32) (c0_i32_184 : BitVec 32) : Fin 1 → Nat :=
  let c64_i32_182 : BitVec 32 := 64#32
  let v581 : BitVec 32 := Scalar.muli v580 c64_i32_182
  let v587 : BitVec 32 := Scalar.addi v581 c0_i32_184
  let v588 : Index := Scalar.indexCast v587
  ![v588.toNat]

def k0_chk136 (i : grid0.Coords) (k0_t8 : Fin (k0_t8_loop i).trips) (v580 : BitVec 32) : Prop :=
  (∀ (k0_h12 : k0_cond12 i k0_t8 = 1#1), ∀ (r : Fin 4), ∀ a, (k0_off314 v580 (BitVec.ofNat 32 (16 * r.val))) a + S16.size a ≤ S1024.size a)
instance k0_chk136.dec : ∀ (i : grid0.Coords) (k0_t8 : Fin (k0_t8_loop i).trips) (v580 : BitVec 32), Decidable (k0_chk136 i k0_t8 v580) := fun i k0_t8 v580 => decidable_of_iff' _ (Iff.of_eq (k0_chk136.eq_1 i k0_t8 v580))
theorem k0_off314_inb : ∀ (i : grid0.Coords) (k0_t8 : Fin (k0_t8_loop i).trips) (v580 : BitVec 32) (k0_hw136 : k0_chk136 i k0_t8 v580), ∀ (k0_h12 : k0_cond12 i k0_t8 = 1#1), ∀ (r : Fin 4), ∀ a, (k0_off314 v580 (BitVec.ofNat 32 (16 * r.val))) a + S16.size a ≤ S1024.size a := fun i k0_t8 v580 k0_hw136 k0_h12 r => k0_hw136 k0_h12 r

def k0_off315 (k0_t11 : Fin k0_t11_loop.trips) (c448_i32 : BitVec 32) (c0_i32_183 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v582 : BitVec 32 := Scalar.addi v186 c448_i32
  let v583 : BitVec 32 := Scalar.addi v582 c0_i32_183
  let v592 : Index := Scalar.indexCast v583
  ![v592.toNat]
def k0_off315_at (r : Fin 5) : BitVec 32 × BitVec 32 :=
  if r.val < 2 then
    if r.val < 1 then
      (448#32, 0#32)
    else
      (448#32, 16#32)
  else
    if r.val < 3 then
      (448#32, 32#32)
    else
      if r.val < 4 then
        (448#32, 48#32)
      else
        (512#32, 0#32)
def k0_off316 (v636 : BitVec 32) (c0_i32_193 : BitVec 32) : Fin 1 → Nat :=
  let c64_i32_191 : BitVec 32 := 64#32
  let v637 : BitVec 32 := Scalar.muli v636 c64_i32_191
  let v643 : BitVec 32 := Scalar.addi v637 c0_i32_193
  let v644 : Index := Scalar.indexCast v643
  ![v644.toNat]

def k0_chk137 (i : grid0.Coords) (k0_t8 : Fin (k0_t8_loop i).trips) (v636 : BitVec 32) : Prop :=
  (∀ (k0_h12 : k0_cond12 i k0_t8 = 1#1), ∀ (r : Fin 4), ∀ a, (k0_off316 v636 (BitVec.ofNat 32 (16 * r.val))) a + S16.size a ≤ S1024.size a)
instance k0_chk137.dec : ∀ (i : grid0.Coords) (k0_t8 : Fin (k0_t8_loop i).trips) (v636 : BitVec 32), Decidable (k0_chk137 i k0_t8 v636) := fun i k0_t8 v636 => decidable_of_iff' _ (Iff.of_eq (k0_chk137.eq_1 i k0_t8 v636))
theorem k0_off316_inb : ∀ (i : grid0.Coords) (k0_t8 : Fin (k0_t8_loop i).trips) (v636 : BitVec 32) (k0_hw137 : k0_chk137 i k0_t8 v636), ∀ (k0_h12 : k0_cond12 i k0_t8 = 1#1), ∀ (r : Fin 4), ∀ a, (k0_off316 v636 (BitVec.ofNat 32 (16 * r.val))) a + S16.size a ≤ S1024.size a := fun i k0_t8 v636 k0_hw137 k0_h12 r => k0_hw137 k0_h12 r

def k0_off317 (k0_t11 : Fin k0_t11_loop.trips) (c512_i32 : BitVec 32) (c0_i32_192 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v638 : BitVec 32 := Scalar.addi v186 c512_i32
  let v639 : BitVec 32 := Scalar.addi v638 c0_i32_192
  let v648 : Index := Scalar.indexCast v639
  ![v648.toNat]
def k0_off317_at (r : Fin 5) : BitVec 32 × BitVec 32 :=
  if r.val < 2 then
    if r.val < 1 then
      (512#32, 0#32)
    else
      (512#32, 16#32)
  else
    if r.val < 3 then
      (512#32, 32#32)
    else
      if r.val < 4 then
        (512#32, 48#32)
      else
        (576#32, 0#32)
def k0_off318 (v692 : BitVec 32) (c0_i32_202 : BitVec 32) : Fin 1 → Nat :=
  let c64_i32_200 : BitVec 32 := 64#32
  let v693 : BitVec 32 := Scalar.muli v692 c64_i32_200
  let v699 : BitVec 32 := Scalar.addi v693 c0_i32_202
  let v700 : Index := Scalar.indexCast v699
  ![v700.toNat]

def k0_chk138 (i : grid0.Coords) (k0_t8 : Fin (k0_t8_loop i).trips) (v692 : BitVec 32) : Prop :=
  (∀ (k0_h12 : k0_cond12 i k0_t8 = 1#1), ∀ (r : Fin 4), ∀ a, (k0_off318 v692 (BitVec.ofNat 32 (16 * r.val))) a + S16.size a ≤ S1024.size a)
instance k0_chk138.dec : ∀ (i : grid0.Coords) (k0_t8 : Fin (k0_t8_loop i).trips) (v692 : BitVec 32), Decidable (k0_chk138 i k0_t8 v692) := fun i k0_t8 v692 => decidable_of_iff' _ (Iff.of_eq (k0_chk138.eq_1 i k0_t8 v692))
theorem k0_off318_inb : ∀ (i : grid0.Coords) (k0_t8 : Fin (k0_t8_loop i).trips) (v692 : BitVec 32) (k0_hw138 : k0_chk138 i k0_t8 v692), ∀ (k0_h12 : k0_cond12 i k0_t8 = 1#1), ∀ (r : Fin 4), ∀ a, (k0_off318 v692 (BitVec.ofNat 32 (16 * r.val))) a + S16.size a ≤ S1024.size a := fun i k0_t8 v692 k0_hw138 k0_h12 r => k0_hw138 k0_h12 r

def k0_off319 (k0_t11 : Fin k0_t11_loop.trips) (c576_i32 : BitVec 32) (c0_i32_201 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v694 : BitVec 32 := Scalar.addi v186 c576_i32
  let v695 : BitVec 32 := Scalar.addi v694 c0_i32_201
  let v704 : Index := Scalar.indexCast v695
  ![v704.toNat]
def k0_off319_at (r : Fin 5) : BitVec 32 × BitVec 32 :=
  if r.val < 2 then
    if r.val < 1 then
      (576#32, 0#32)
    else
      (576#32, 16#32)
  else
    if r.val < 3 then
      (576#32, 32#32)
    else
      if r.val < 4 then
        (576#32, 48#32)
      else
        (640#32, 0#32)
def k0_off320 (v748 : BitVec 32) (c0_i32_211 : BitVec 32) : Fin 1 → Nat :=
  let c64_i32_209 : BitVec 32 := 64#32
  let v749 : BitVec 32 := Scalar.muli v748 c64_i32_209
  let v755 : BitVec 32 := Scalar.addi v749 c0_i32_211
  let v756 : Index := Scalar.indexCast v755
  ![v756.toNat]

def k0_chk139 (i : grid0.Coords) (k0_t8 : Fin (k0_t8_loop i).trips) (v748 : BitVec 32) : Prop :=
  (∀ (k0_h12 : k0_cond12 i k0_t8 = 1#1), ∀ (r : Fin 4), ∀ a, (k0_off320 v748 (BitVec.ofNat 32 (16 * r.val))) a + S16.size a ≤ S1024.size a)
instance k0_chk139.dec : ∀ (i : grid0.Coords) (k0_t8 : Fin (k0_t8_loop i).trips) (v748 : BitVec 32), Decidable (k0_chk139 i k0_t8 v748) := fun i k0_t8 v748 => decidable_of_iff' _ (Iff.of_eq (k0_chk139.eq_1 i k0_t8 v748))
theorem k0_off320_inb : ∀ (i : grid0.Coords) (k0_t8 : Fin (k0_t8_loop i).trips) (v748 : BitVec 32) (k0_hw139 : k0_chk139 i k0_t8 v748), ∀ (k0_h12 : k0_cond12 i k0_t8 = 1#1), ∀ (r : Fin 4), ∀ a, (k0_off320 v748 (BitVec.ofNat 32 (16 * r.val))) a + S16.size a ≤ S1024.size a := fun i k0_t8 v748 k0_hw139 k0_h12 r => k0_hw139 k0_h12 r

def k0_off321 (k0_t11 : Fin k0_t11_loop.trips) (c640_i32 : BitVec 32) (c0_i32_210 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v750 : BitVec 32 := Scalar.addi v186 c640_i32
  let v751 : BitVec 32 := Scalar.addi v750 c0_i32_210
  let v760 : Index := Scalar.indexCast v751
  ![v760.toNat]
def k0_off321_at (r : Fin 5) : BitVec 32 × BitVec 32 :=
  if r.val < 2 then
    if r.val < 1 then
      (640#32, 0#32)
    else
      (640#32, 16#32)
  else
    if r.val < 3 then
      (640#32, 32#32)
    else
      if r.val < 4 then
        (640#32, 48#32)
      else
        (704#32, 0#32)
def k0_off322 (v804 : BitVec 32) (c0_i32_220 : BitVec 32) : Fin 1 → Nat :=
  let c64_i32_218 : BitVec 32 := 64#32
  let v805 : BitVec 32 := Scalar.muli v804 c64_i32_218
  let v811 : BitVec 32 := Scalar.addi v805 c0_i32_220
  let v812 : Index := Scalar.indexCast v811
  ![v812.toNat]

def k0_chk140 (i : grid0.Coords) (k0_t8 : Fin (k0_t8_loop i).trips) (v804 : BitVec 32) : Prop :=
  (∀ (k0_h12 : k0_cond12 i k0_t8 = 1#1), ∀ (r : Fin 4), ∀ a, (k0_off322 v804 (BitVec.ofNat 32 (16 * r.val))) a + S16.size a ≤ S1024.size a)
instance k0_chk140.dec : ∀ (i : grid0.Coords) (k0_t8 : Fin (k0_t8_loop i).trips) (v804 : BitVec 32), Decidable (k0_chk140 i k0_t8 v804) := fun i k0_t8 v804 => decidable_of_iff' _ (Iff.of_eq (k0_chk140.eq_1 i k0_t8 v804))
theorem k0_off322_inb : ∀ (i : grid0.Coords) (k0_t8 : Fin (k0_t8_loop i).trips) (v804 : BitVec 32) (k0_hw140 : k0_chk140 i k0_t8 v804), ∀ (k0_h12 : k0_cond12 i k0_t8 = 1#1), ∀ (r : Fin 4), ∀ a, (k0_off322 v804 (BitVec.ofNat 32 (16 * r.val))) a + S16.size a ≤ S1024.size a := fun i k0_t8 v804 k0_hw140 k0_h12 r => k0_hw140 k0_h12 r

def k0_off323 (k0_t11 : Fin k0_t11_loop.trips) (c704_i32 : BitVec 32) (c0_i32_219 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v806 : BitVec 32 := Scalar.addi v186 c704_i32
  let v807 : BitVec 32 := Scalar.addi v806 c0_i32_219
  let v816 : Index := Scalar.indexCast v807
  ![v816.toNat]
def k0_off323_at (r : Fin 5) : BitVec 32 × BitVec 32 :=
  if r.val < 2 then
    if r.val < 1 then
      (704#32, 0#32)
    else
      (704#32, 16#32)
  else
    if r.val < 3 then
      (704#32, 32#32)
    else
      if r.val < 4 then
        (704#32, 48#32)
      else
        (768#32, 0#32)
def k0_off324 (v860 : BitVec 32) (c0_i32_229 : BitVec 32) : Fin 1 → Nat :=
  let c64_i32_227 : BitVec 32 := 64#32
  let v861 : BitVec 32 := Scalar.muli v860 c64_i32_227
  let v867 : BitVec 32 := Scalar.addi v861 c0_i32_229
  let v868 : Index := Scalar.indexCast v867
  ![v868.toNat]

def k0_chk141 (i : grid0.Coords) (k0_t8 : Fin (k0_t8_loop i).trips) (v860 : BitVec 32) : Prop :=
  (∀ (k0_h12 : k0_cond12 i k0_t8 = 1#1), ∀ (r : Fin 4), ∀ a, (k0_off324 v860 (BitVec.ofNat 32 (16 * r.val))) a + S16.size a ≤ S1024.size a)
instance k0_chk141.dec : ∀ (i : grid0.Coords) (k0_t8 : Fin (k0_t8_loop i).trips) (v860 : BitVec 32), Decidable (k0_chk141 i k0_t8 v860) := fun i k0_t8 v860 => decidable_of_iff' _ (Iff.of_eq (k0_chk141.eq_1 i k0_t8 v860))
theorem k0_off324_inb : ∀ (i : grid0.Coords) (k0_t8 : Fin (k0_t8_loop i).trips) (v860 : BitVec 32) (k0_hw141 : k0_chk141 i k0_t8 v860), ∀ (k0_h12 : k0_cond12 i k0_t8 = 1#1), ∀ (r : Fin 4), ∀ a, (k0_off324 v860 (BitVec.ofNat 32 (16 * r.val))) a + S16.size a ≤ S1024.size a := fun i k0_t8 v860 k0_hw141 k0_h12 r => k0_hw141 k0_h12 r

def k0_off325 (k0_t11 : Fin k0_t11_loop.trips) (c768_i32 : BitVec 32) (c0_i32_228 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v862 : BitVec 32 := Scalar.addi v186 c768_i32
  let v863 : BitVec 32 := Scalar.addi v862 c0_i32_228
  let v872 : Index := Scalar.indexCast v863
  ![v872.toNat]
def k0_off325_at (r : Fin 5) : BitVec 32 × BitVec 32 :=
  if r.val < 2 then
    if r.val < 1 then
      (768#32, 0#32)
    else
      (768#32, 16#32)
  else
    if r.val < 3 then
      (768#32, 32#32)
    else
      if r.val < 4 then
        (768#32, 48#32)
      else
        (832#32, 0#32)
def k0_off326 (v916 : BitVec 32) (c0_i32_238 : BitVec 32) : Fin 1 → Nat :=
  let c64_i32_236 : BitVec 32 := 64#32
  let v917 : BitVec 32 := Scalar.muli v916 c64_i32_236
  let v923 : BitVec 32 := Scalar.addi v917 c0_i32_238
  let v924 : Index := Scalar.indexCast v923
  ![v924.toNat]

def k0_chk142 (i : grid0.Coords) (k0_t8 : Fin (k0_t8_loop i).trips) (v916 : BitVec 32) : Prop :=
  (∀ (k0_h12 : k0_cond12 i k0_t8 = 1#1), ∀ (r : Fin 4), ∀ a, (k0_off326 v916 (BitVec.ofNat 32 (16 * r.val))) a + S16.size a ≤ S1024.size a)
instance k0_chk142.dec : ∀ (i : grid0.Coords) (k0_t8 : Fin (k0_t8_loop i).trips) (v916 : BitVec 32), Decidable (k0_chk142 i k0_t8 v916) := fun i k0_t8 v916 => decidable_of_iff' _ (Iff.of_eq (k0_chk142.eq_1 i k0_t8 v916))
theorem k0_off326_inb : ∀ (i : grid0.Coords) (k0_t8 : Fin (k0_t8_loop i).trips) (v916 : BitVec 32) (k0_hw142 : k0_chk142 i k0_t8 v916), ∀ (k0_h12 : k0_cond12 i k0_t8 = 1#1), ∀ (r : Fin 4), ∀ a, (k0_off326 v916 (BitVec.ofNat 32 (16 * r.val))) a + S16.size a ≤ S1024.size a := fun i k0_t8 v916 k0_hw142 k0_h12 r => k0_hw142 k0_h12 r

def k0_off327 (k0_t11 : Fin k0_t11_loop.trips) (c832_i32 : BitVec 32) (c0_i32_237 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v918 : BitVec 32 := Scalar.addi v186 c832_i32
  let v919 : BitVec 32 := Scalar.addi v918 c0_i32_237
  let v928 : Index := Scalar.indexCast v919
  ![v928.toNat]
def k0_off327_at (r : Fin 5) : BitVec 32 × BitVec 32 :=
  if r.val < 2 then
    if r.val < 1 then
      (832#32, 0#32)
    else
      (832#32, 16#32)
  else
    if r.val < 3 then
      (832#32, 32#32)
    else
      if r.val < 4 then
        (832#32, 48#32)
      else
        (896#32, 0#32)
def k0_off328 (v972 : BitVec 32) (c0_i32_247 : BitVec 32) : Fin 1 → Nat :=
  let c64_i32_245 : BitVec 32 := 64#32
  let v973 : BitVec 32 := Scalar.muli v972 c64_i32_245
  let v979 : BitVec 32 := Scalar.addi v973 c0_i32_247
  let v980 : Index := Scalar.indexCast v979
  ![v980.toNat]

def k0_chk143 (i : grid0.Coords) (k0_t8 : Fin (k0_t8_loop i).trips) (v972 : BitVec 32) : Prop :=
  (∀ (k0_h12 : k0_cond12 i k0_t8 = 1#1), ∀ (r : Fin 4), ∀ a, (k0_off328 v972 (BitVec.ofNat 32 (16 * r.val))) a + S16.size a ≤ S1024.size a)
instance k0_chk143.dec : ∀ (i : grid0.Coords) (k0_t8 : Fin (k0_t8_loop i).trips) (v972 : BitVec 32), Decidable (k0_chk143 i k0_t8 v972) := fun i k0_t8 v972 => decidable_of_iff' _ (Iff.of_eq (k0_chk143.eq_1 i k0_t8 v972))
theorem k0_off328_inb : ∀ (i : grid0.Coords) (k0_t8 : Fin (k0_t8_loop i).trips) (v972 : BitVec 32) (k0_hw143 : k0_chk143 i k0_t8 v972), ∀ (k0_h12 : k0_cond12 i k0_t8 = 1#1), ∀ (r : Fin 4), ∀ a, (k0_off328 v972 (BitVec.ofNat 32 (16 * r.val))) a + S16.size a ≤ S1024.size a := fun i k0_t8 v972 k0_hw143 k0_h12 r => k0_hw143 k0_h12 r

def k0_off329 (k0_t11 : Fin k0_t11_loop.trips) (c896_i32 : BitVec 32) (c0_i32_246 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let v974 : BitVec 32 := Scalar.addi v186 c896_i32
  let v975 : BitVec 32 := Scalar.addi v974 c0_i32_246
  let v984 : Index := Scalar.indexCast v975
  ![v984.toNat]
def k0_off329_at (r : Fin 5) : BitVec 32 × BitVec 32 :=
  if r.val < 2 then
    if r.val < 1 then
      (896#32, 0#32)
    else
      (896#32, 16#32)
  else
    if r.val < 3 then
      (896#32, 32#32)
    else
      if r.val < 4 then
        (896#32, 48#32)
      else
        (960#32, 0#32)
def k0_off330 (v1028 : BitVec 32) (c0_i32_256 : BitVec 32) : Fin 1 → Nat :=
  let c64_i32_254 : BitVec 32 := 64#32
  let v1029 : BitVec 32 := Scalar.muli v1028 c64_i32_254
  let v1035 : BitVec 32 := Scalar.addi v1029 c0_i32_256
  let v1036 : Index := Scalar.indexCast v1035
  ![v1036.toNat]

def k0_chk144 (i : grid0.Coords) (k0_t8 : Fin (k0_t8_loop i).trips) (v1028 : BitVec 32) : Prop :=
  (∀ (k0_h12 : k0_cond12 i k0_t8 = 1#1), ∀ (r : Fin 4), ∀ a, (k0_off330 v1028 (BitVec.ofNat 32 (16 * r.val))) a + S16.size a ≤ S1024.size a)
instance k0_chk144.dec : ∀ (i : grid0.Coords) (k0_t8 : Fin (k0_t8_loop i).trips) (v1028 : BitVec 32), Decidable (k0_chk144 i k0_t8 v1028) := fun i k0_t8 v1028 => decidable_of_iff' _ (Iff.of_eq (k0_chk144.eq_1 i k0_t8 v1028))
theorem k0_off330_inb : ∀ (i : grid0.Coords) (k0_t8 : Fin (k0_t8_loop i).trips) (v1028 : BitVec 32) (k0_hw144 : k0_chk144 i k0_t8 v1028), ∀ (k0_h12 : k0_cond12 i k0_t8 = 1#1), ∀ (r : Fin 4), ∀ a, (k0_off330 v1028 (BitVec.ofNat 32 (16 * r.val))) a + S16.size a ≤ S1024.size a := fun i k0_t8 v1028 k0_hw144 k0_h12 r => k0_hw144 k0_h12 r

def k0_off331 (k0_t11 : Fin k0_t11_loop.trips) (c0_i32_255 : BitVec 32) : Fin 1 → Nat :=
  let c0_i32_111 : BitVec 32 := 0#32
  let c1_i32_113 : BitVec 32 := 1#32
  let arg18 : BitVec 32 := Scf.iv c0_i32_111 c1_i32_113 k0_t11
  let c1024_i32 : BitVec 32 := 1024#32
  let v186 : BitVec 32 := Scalar.muli arg18 c1024_i32
  let c960_i32 : BitVec 32 := 960#32
  let v1030 : BitVec 32 := Scalar.addi v186 c960_i32
  let v1031 : BitVec 32 := Scalar.addi v1030 c0_i32_255
  let v1040 : Index := Scalar.indexCast v1031
  ![v1040.toNat]
def k0_off332 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_115 : BitVec 32 := 32#32
  let c1_i32_62 : BitVec 32 := 1#32
  let c2500_i32 : BitVec 32 := 2500#32
  let v2 : BitVec 32 := Scalar.subi c2500_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c2_i32_54 : BitVec 32 := 2#32
  let v90 : BitVec 32 := Scalar.addi v21 c2_i32_54
  let c0_i32_56 : BitVec 32 := 0#32
  let v92 : BitVec 1 := Scalar.cmpi .sgt v90 c0_i32_56
  let v93 : BitVec 32 := Scalar.extui v92
  let c0_i32_57 : BitVec 32 := 0#32
  let v94 : BitVec 1 := Scalar.cmpi .slt v90 c0_i32_57
  let v95 : BitVec 32 := Scalar.extui v94
  let v96 : BitVec 32 := Scalar.subi v93 v95
  let c3_i32_55 : BitVec 32 := 3#32
  let c0_i32_58 : BitVec 32 := 0#32
  let v97 : BitVec 1 := Scalar.cmpi .sgt c3_i32_55 c0_i32_58
  let v98 : BitVec 32 := Scalar.extui v97
  let c0_i32_59 : BitVec 32 := 0#32
  let v99 : BitVec 1 := Scalar.cmpi .slt c3_i32_55 c0_i32_59
  let v100 : BitVec 32 := Scalar.extui v99
  let v101 : BitVec 32 := Scalar.subi v98 v100
  let v102 : BitVec 1 := Scalar.cmpi .ne v96 v101
  let v103 : BitVec 32 := Scalar.remsi v90 c3_i32_55
  let c0_i32_60 : BitVec 32 := 0#32
  let v104 : BitVec 1 := Scalar.cmpi .ne v103 c0_i32_60
  let v105 : BitVec 1 := Scalar.andi v102 v104
  let v91 : BitVec 32 := Scalar.divsi v90 c3_i32_55
  let c1_i32_61 : BitVec 32 := 1#32
  let v106 : BitVec 32 := Scalar.subi v91 c1_i32_61
  let v107 : BitVec 32 := Scalar.select v105 v106 v91
  let v108 : BitVec 32 := Scalar.subi v107 c1_i32_62
  let c1_i32_64 : BitVec 32 := 1#32
  let v110 : BitVec 32 := Scalar.divsi v108 c1_i32_64
  let v111 : BitVec 32 := Scalar.muli v110 c1_i32_64
  let v112 : BitVec 32 := Scalar.addi c1_i32_62 v111
  let c1_i32_66 : BitVec 32 := 1#32
  let arg16 : BitVec 32 := Scf.iv v112 c1_i32_66 k0_t8
  let c3_i32_79 : BitVec 32 := 3#32
  let v130 : BitVec 32 := Scalar.muli arg16 c3_i32_79
  let c2_i32_101 : BitVec 32 := 2#32
  let v160 : BitVec 32 := Scalar.addi v130 c2_i32_101
  let v175 : BitVec 32 := Scalar.muli c32_i32_115 v160
  let v176 : BitVec 32 := Scalar.addi v1 v175
  let c25600_i32_116 : BitVec 32 := 25600#32
  let v177 : BitVec 32 := Scalar.muli v176 c25600_i32_116
  ![v177.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S64000000 : S1000000x64.ShapeCasts S64000000
  shapeCasts_S16x64_S1024 : S16x64.ShapeCasts S1024
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S64000000_S25600_0 : ∀ a, (![0] : Fin 1 → Nat) a + S25600.size a ≤ S64000000.size a
  inb_S1000000_S400_0 : ∀ a, (![0] : Fin 1 → Nat) a + S400.size a ≤ S1000000.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S3_S1_2 : ∀ a, (![2] : Fin 1 → Nat) a + S1.size a ≤ S3.size a
  shapeCasts_S64000000_S1000000x64 : S64000000.ShapeCasts S1000000x64
  hcc0_scratch7 : 0 + S3.numel ≤ 10
  hcc0_scratch8 : 3 + S3.numel ≤ 10
  hcc0_scratch9 : 6 + S3.numel ≤ 10
  hcc0_scoped0 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (32 * r.val))) a + S25600.size a ≤ S64000000.size a
  k0_off2_inb : ∀ i : grid0.Coords, ∀ a, (k0_off2 i) a + S400.size a ≤ S1000000.size a
  k0_off3_inb : ∀ i : grid0.Coords, ∀ (k0_h1 : k0_cond1 i = 1#1), ∀ a, (k0_off3 i) a + S25600.size a ≤ S64000000.size a
  k0_off4_inb : ∀ i : grid0.Coords, ∀ (k0_h1 : k0_cond1 i = 1#1), ∀ a, (k0_off4 i) a + S400.size a ≤ S1000000.size a
  k0_t1_ok : k0_t1_loop.OK
  k0_off5_inb : ∀ k0_t1 : Fin k0_t1_loop.trips, ∀ a, (k0_off5 k0_t1) a + S16.size a ≤ S400.size a
  k0_off6_inb : ∀ k0_t1 : Fin k0_t1_loop.trips, ∀ a, (k0_off6 k0_t1) a + S16.size a ≤ S25600.size a
  k0_off8_inb : ∀ k0_t1 : Fin k0_t1_loop.trips, ∀ (r : Fin 5), ∀ a, (k0_off8 k0_t1 (k0_off8_at r).1 (k0_off8_at r).2) a + S16.size a ≤ S25600.size a
  k0_off10_inb : ∀ k0_t1 : Fin k0_t1_loop.trips, ∀ (r : Fin 5), ∀ a, (k0_off10 k0_t1 (k0_off10_at r).1 (k0_off10_at r).2) a + S16.size a ≤ S25600.size a
  k0_off12_inb : ∀ k0_t1 : Fin k0_t1_loop.trips, ∀ (r : Fin 5), ∀ a, (k0_off12 k0_t1 (k0_off12_at r).1 (k0_off12_at r).2) a + S16.size a ≤ S25600.size a
  k0_off14_inb : ∀ k0_t1 : Fin k0_t1_loop.trips, ∀ (r : Fin 5), ∀ a, (k0_off14 k0_t1 (k0_off14_at r).1 (k0_off14_at r).2) a + S16.size a ≤ S25600.size a
  k0_off16_inb : ∀ k0_t1 : Fin k0_t1_loop.trips, ∀ (r : Fin 5), ∀ a, (k0_off16 k0_t1 (k0_off16_at r).1 (k0_off16_at r).2) a + S16.size a ≤ S25600.size a
  k0_off18_inb : ∀ k0_t1 : Fin k0_t1_loop.trips, ∀ (r : Fin 5), ∀ a, (k0_off18 k0_t1 (k0_off18_at r).1 (k0_off18_at r).2) a + S16.size a ≤ S25600.size a
  k0_off20_inb : ∀ k0_t1 : Fin k0_t1_loop.trips, ∀ (r : Fin 5), ∀ a, (k0_off20 k0_t1 (k0_off20_at r).1 (k0_off20_at r).2) a + S16.size a ≤ S25600.size a
  k0_off22_inb : ∀ k0_t1 : Fin k0_t1_loop.trips, ∀ (r : Fin 5), ∀ a, (k0_off22 k0_t1 (k0_off22_at r).1 (k0_off22_at r).2) a + S16.size a ≤ S25600.size a
  k0_off24_inb : ∀ k0_t1 : Fin k0_t1_loop.trips, ∀ (r : Fin 5), ∀ a, (k0_off24 k0_t1 (k0_off24_at r).1 (k0_off24_at r).2) a + S16.size a ≤ S25600.size a
  k0_off26_inb : ∀ k0_t1 : Fin k0_t1_loop.trips, ∀ (r : Fin 5), ∀ a, (k0_off26 k0_t1 (k0_off26_at r).1 (k0_off26_at r).2) a + S16.size a ≤ S25600.size a
  k0_off28_inb : ∀ k0_t1 : Fin k0_t1_loop.trips, ∀ (r : Fin 5), ∀ a, (k0_off28 k0_t1 (k0_off28_at r).1 (k0_off28_at r).2) a + S16.size a ≤ S25600.size a
  k0_off30_inb : ∀ k0_t1 : Fin k0_t1_loop.trips, ∀ (r : Fin 5), ∀ a, (k0_off30 k0_t1 (k0_off30_at r).1 (k0_off30_at r).2) a + S16.size a ≤ S25600.size a
  k0_off32_inb : ∀ k0_t1 : Fin k0_t1_loop.trips, ∀ (r : Fin 5), ∀ a, (k0_off32 k0_t1 (k0_off32_at r).1 (k0_off32_at r).2) a + S16.size a ≤ S25600.size a
  k0_off34_inb : ∀ k0_t1 : Fin k0_t1_loop.trips, ∀ (r : Fin 5), ∀ a, (k0_off34 k0_t1 (k0_off34_at r).1 (k0_off34_at r).2) a + S16.size a ≤ S25600.size a
  k0_off36_inb : ∀ k0_t1 : Fin k0_t1_loop.trips, ∀ (r : Fin 5), ∀ a, (k0_off36 k0_t1 (k0_off36_at r).1 (k0_off36_at r).2) a + S16.size a ≤ S25600.size a
  k0_off38_inb : ∀ k0_t1 : Fin k0_t1_loop.trips, ∀ (r : Fin 4), ∀ a, (k0_off38 k0_t1 (BitVec.ofNat 32 (16 * r.val))) a + S16.size a ≤ S25600.size a
  k0_off39_inb : ∀ i : grid0.Coords, ∀ (k0_h2 : k0_cond2 i = 1#1), ∀ a, (k0_off39 i) a + S25600.size a ≤ S64000000.size a
  k0_off40_inb : ∀ i : grid0.Coords, ∀ (k0_h2 : k0_cond2 i = 1#1), ∀ a, (k0_off40 i) a + S400.size a ≤ S1000000.size a
  k0_t2_ok : k0_t2_loop.OK
  k0_off41_inb : ∀ k0_t2 : Fin k0_t2_loop.trips, ∀ a, (k0_off41 k0_t2) a + S16.size a ≤ S400.size a
  k0_off42_inb : ∀ k0_t2 : Fin k0_t2_loop.trips, ∀ a, (k0_off42 k0_t2) a + S16.size a ≤ S25600.size a
  k0_off44_inb : ∀ k0_t2 : Fin k0_t2_loop.trips, ∀ (r : Fin 5), ∀ a, (k0_off44 k0_t2 (k0_off44_at r).1 (k0_off44_at r).2) a + S16.size a ≤ S25600.size a
  k0_off46_inb : ∀ k0_t2 : Fin k0_t2_loop.trips, ∀ (r : Fin 5), ∀ a, (k0_off46 k0_t2 (k0_off46_at r).1 (k0_off46_at r).2) a + S16.size a ≤ S25600.size a
  k0_off48_inb : ∀ k0_t2 : Fin k0_t2_loop.trips, ∀ (r : Fin 5), ∀ a, (k0_off48 k0_t2 (k0_off48_at r).1 (k0_off48_at r).2) a + S16.size a ≤ S25600.size a
  k0_off50_inb : ∀ k0_t2 : Fin k0_t2_loop.trips, ∀ (r : Fin 5), ∀ a, (k0_off50 k0_t2 (k0_off50_at r).1 (k0_off50_at r).2) a + S16.size a ≤ S25600.size a
  k0_off52_inb : ∀ k0_t2 : Fin k0_t2_loop.trips, ∀ (r : Fin 5), ∀ a, (k0_off52 k0_t2 (k0_off52_at r).1 (k0_off52_at r).2) a + S16.size a ≤ S25600.size a
  k0_off54_inb : ∀ k0_t2 : Fin k0_t2_loop.trips, ∀ (r : Fin 5), ∀ a, (k0_off54 k0_t2 (k0_off54_at r).1 (k0_off54_at r).2) a + S16.size a ≤ S25600.size a
  k0_off56_inb : ∀ k0_t2 : Fin k0_t2_loop.trips, ∀ (r : Fin 5), ∀ a, (k0_off56 k0_t2 (k0_off56_at r).1 (k0_off56_at r).2) a + S16.size a ≤ S25600.size a
  k0_off58_inb : ∀ k0_t2 : Fin k0_t2_loop.trips, ∀ (r : Fin 5), ∀ a, (k0_off58 k0_t2 (k0_off58_at r).1 (k0_off58_at r).2) a + S16.size a ≤ S25600.size a
  k0_off60_inb : ∀ k0_t2 : Fin k0_t2_loop.trips, ∀ (r : Fin 5), ∀ a, (k0_off60 k0_t2 (k0_off60_at r).1 (k0_off60_at r).2) a + S16.size a ≤ S25600.size a
  k0_off62_inb : ∀ k0_t2 : Fin k0_t2_loop.trips, ∀ (r : Fin 5), ∀ a, (k0_off62 k0_t2 (k0_off62_at r).1 (k0_off62_at r).2) a + S16.size a ≤ S25600.size a
  k0_off64_inb : ∀ k0_t2 : Fin k0_t2_loop.trips, ∀ (r : Fin 5), ∀ a, (k0_off64 k0_t2 (k0_off64_at r).1 (k0_off64_at r).2) a + S16.size a ≤ S25600.size a
  k0_off66_inb : ∀ k0_t2 : Fin k0_t2_loop.trips, ∀ (r : Fin 5), ∀ a, (k0_off66 k0_t2 (k0_off66_at r).1 (k0_off66_at r).2) a + S16.size a ≤ S25600.size a
  k0_off68_inb : ∀ k0_t2 : Fin k0_t2_loop.trips, ∀ (r : Fin 5), ∀ a, (k0_off68 k0_t2 (k0_off68_at r).1 (k0_off68_at r).2) a + S16.size a ≤ S25600.size a
  k0_off70_inb : ∀ k0_t2 : Fin k0_t2_loop.trips, ∀ (r : Fin 5), ∀ a, (k0_off70 k0_t2 (k0_off70_at r).1 (k0_off70_at r).2) a + S16.size a ≤ S25600.size a
  k0_off72_inb : ∀ k0_t2 : Fin k0_t2_loop.trips, ∀ (r : Fin 5), ∀ a, (k0_off72 k0_t2 (k0_off72_at r).1 (k0_off72_at r).2) a + S16.size a ≤ S25600.size a
  k0_off74_inb : ∀ k0_t2 : Fin k0_t2_loop.trips, ∀ (r : Fin 4), ∀ a, (k0_off74 k0_t2 (BitVec.ofNat 32 (16 * r.val))) a + S16.size a ≤ S25600.size a
  k0_off75_inb : ∀ i : grid0.Coords, ∀ (k0_h3 : k0_cond3 i = 1#1), ∀ a, (k0_off75 i) a + S25600.size a ≤ S64000000.size a
  k0_off76_inb : ∀ i : grid0.Coords, ∀ (k0_h3 : k0_cond3 i = 1#1), ∀ a, (k0_off76 i) a + S400.size a ≤ S1000000.size a
  k0_t3_ok : k0_t3_loop.OK
  k0_off77_inb : ∀ k0_t3 : Fin k0_t3_loop.trips, ∀ a, (k0_off77 k0_t3) a + S16.size a ≤ S400.size a
  k0_off78_inb : ∀ k0_t3 : Fin k0_t3_loop.trips, ∀ a, (k0_off78 k0_t3) a + S16.size a ≤ S25600.size a
  k0_off80_inb : ∀ k0_t3 : Fin k0_t3_loop.trips, ∀ (r : Fin 5), ∀ a, (k0_off80 k0_t3 (k0_off80_at r).1 (k0_off80_at r).2) a + S16.size a ≤ S25600.size a
  k0_off82_inb : ∀ k0_t3 : Fin k0_t3_loop.trips, ∀ (r : Fin 5), ∀ a, (k0_off82 k0_t3 (k0_off82_at r).1 (k0_off82_at r).2) a + S16.size a ≤ S25600.size a
  k0_off84_inb : ∀ k0_t3 : Fin k0_t3_loop.trips, ∀ (r : Fin 5), ∀ a, (k0_off84 k0_t3 (k0_off84_at r).1 (k0_off84_at r).2) a + S16.size a ≤ S25600.size a
  k0_off86_inb : ∀ k0_t3 : Fin k0_t3_loop.trips, ∀ (r : Fin 5), ∀ a, (k0_off86 k0_t3 (k0_off86_at r).1 (k0_off86_at r).2) a + S16.size a ≤ S25600.size a
  k0_off88_inb : ∀ k0_t3 : Fin k0_t3_loop.trips, ∀ (r : Fin 5), ∀ a, (k0_off88 k0_t3 (k0_off88_at r).1 (k0_off88_at r).2) a + S16.size a ≤ S25600.size a
  k0_off90_inb : ∀ k0_t3 : Fin k0_t3_loop.trips, ∀ (r : Fin 5), ∀ a, (k0_off90 k0_t3 (k0_off90_at r).1 (k0_off90_at r).2) a + S16.size a ≤ S25600.size a
  k0_off92_inb : ∀ k0_t3 : Fin k0_t3_loop.trips, ∀ (r : Fin 5), ∀ a, (k0_off92 k0_t3 (k0_off92_at r).1 (k0_off92_at r).2) a + S16.size a ≤ S25600.size a
  k0_off94_inb : ∀ k0_t3 : Fin k0_t3_loop.trips, ∀ (r : Fin 5), ∀ a, (k0_off94 k0_t3 (k0_off94_at r).1 (k0_off94_at r).2) a + S16.size a ≤ S25600.size a
  k0_off96_inb : ∀ k0_t3 : Fin k0_t3_loop.trips, ∀ (r : Fin 5), ∀ a, (k0_off96 k0_t3 (k0_off96_at r).1 (k0_off96_at r).2) a + S16.size a ≤ S25600.size a
  k0_off98_inb : ∀ k0_t3 : Fin k0_t3_loop.trips, ∀ (r : Fin 5), ∀ a, (k0_off98 k0_t3 (k0_off98_at r).1 (k0_off98_at r).2) a + S16.size a ≤ S25600.size a
  k0_off100_inb : ∀ k0_t3 : Fin k0_t3_loop.trips, ∀ (r : Fin 5), ∀ a, (k0_off100 k0_t3 (k0_off100_at r).1 (k0_off100_at r).2) a + S16.size a ≤ S25600.size a
  k0_off102_inb : ∀ k0_t3 : Fin k0_t3_loop.trips, ∀ (r : Fin 5), ∀ a, (k0_off102 k0_t3 (k0_off102_at r).1 (k0_off102_at r).2) a + S16.size a ≤ S25600.size a
  k0_off104_inb : ∀ k0_t3 : Fin k0_t3_loop.trips, ∀ (r : Fin 5), ∀ a, (k0_off104 k0_t3 (k0_off104_at r).1 (k0_off104_at r).2) a + S16.size a ≤ S25600.size a
  k0_off106_inb : ∀ k0_t3 : Fin k0_t3_loop.trips, ∀ (r : Fin 5), ∀ a, (k0_off106 k0_t3 (k0_off106_at r).1 (k0_off106_at r).2) a + S16.size a ≤ S25600.size a
  k0_off108_inb : ∀ k0_t3 : Fin k0_t3_loop.trips, ∀ (r : Fin 5), ∀ a, (k0_off108 k0_t3 (k0_off108_at r).1 (k0_off108_at r).2) a + S16.size a ≤ S25600.size a
  k0_off110_inb : ∀ k0_t3 : Fin k0_t3_loop.trips, ∀ (r : Fin 4), ∀ a, (k0_off110 k0_t3 (BitVec.ofNat 32 (16 * r.val))) a + S16.size a ≤ S25600.size a
  k0_t4_ok : ∀ i : grid0.Coords, (k0_t4_loop i).OK
  k0_off111_inb : ∀ (i : grid0.Coords) (k0_t4 : Fin (k0_t4_loop i).trips), ∀ (k0_h4 : k0_cond4 i k0_t4 = 1#1), ∀ a, (k0_off111 i k0_t4) a + S25600.size a ≤ S64000000.size a
  k0_off112_inb : ∀ (i : grid0.Coords) (k0_t4 : Fin (k0_t4_loop i).trips), ∀ (k0_h4 : k0_cond4 i k0_t4 = 1#1), ∀ a, (k0_off112 i k0_t4) a + S400.size a ≤ S1000000.size a
  k0_t5_ok : k0_t5_loop.OK
  k0_off113_inb : ∀ k0_t5 : Fin k0_t5_loop.trips, ∀ a, (k0_off113 k0_t5) a + S16.size a ≤ S400.size a
  k0_off114_inb : ∀ k0_t5 : Fin k0_t5_loop.trips, ∀ a, (k0_off114 k0_t5) a + S16.size a ≤ S25600.size a
  k0_off116_inb : ∀ k0_t5 : Fin k0_t5_loop.trips, ∀ (r : Fin 5), ∀ a, (k0_off116 k0_t5 (k0_off116_at r).1 (k0_off116_at r).2) a + S16.size a ≤ S25600.size a
  k0_off118_inb : ∀ k0_t5 : Fin k0_t5_loop.trips, ∀ (r : Fin 5), ∀ a, (k0_off118 k0_t5 (k0_off118_at r).1 (k0_off118_at r).2) a + S16.size a ≤ S25600.size a
  k0_off120_inb : ∀ k0_t5 : Fin k0_t5_loop.trips, ∀ (r : Fin 5), ∀ a, (k0_off120 k0_t5 (k0_off120_at r).1 (k0_off120_at r).2) a + S16.size a ≤ S25600.size a
  k0_off122_inb : ∀ k0_t5 : Fin k0_t5_loop.trips, ∀ (r : Fin 5), ∀ a, (k0_off122 k0_t5 (k0_off122_at r).1 (k0_off122_at r).2) a + S16.size a ≤ S25600.size a
  k0_off124_inb : ∀ k0_t5 : Fin k0_t5_loop.trips, ∀ (r : Fin 5), ∀ a, (k0_off124 k0_t5 (k0_off124_at r).1 (k0_off124_at r).2) a + S16.size a ≤ S25600.size a
  k0_off126_inb : ∀ k0_t5 : Fin k0_t5_loop.trips, ∀ (r : Fin 5), ∀ a, (k0_off126 k0_t5 (k0_off126_at r).1 (k0_off126_at r).2) a + S16.size a ≤ S25600.size a
  k0_off128_inb : ∀ k0_t5 : Fin k0_t5_loop.trips, ∀ (r : Fin 5), ∀ a, (k0_off128 k0_t5 (k0_off128_at r).1 (k0_off128_at r).2) a + S16.size a ≤ S25600.size a
  k0_off130_inb : ∀ k0_t5 : Fin k0_t5_loop.trips, ∀ (r : Fin 5), ∀ a, (k0_off130 k0_t5 (k0_off130_at r).1 (k0_off130_at r).2) a + S16.size a ≤ S25600.size a
  k0_off132_inb : ∀ k0_t5 : Fin k0_t5_loop.trips, ∀ (r : Fin 5), ∀ a, (k0_off132 k0_t5 (k0_off132_at r).1 (k0_off132_at r).2) a + S16.size a ≤ S25600.size a
  k0_off134_inb : ∀ k0_t5 : Fin k0_t5_loop.trips, ∀ (r : Fin 5), ∀ a, (k0_off134 k0_t5 (k0_off134_at r).1 (k0_off134_at r).2) a + S16.size a ≤ S25600.size a
  k0_off136_inb : ∀ k0_t5 : Fin k0_t5_loop.trips, ∀ (r : Fin 5), ∀ a, (k0_off136 k0_t5 (k0_off136_at r).1 (k0_off136_at r).2) a + S16.size a ≤ S25600.size a
  k0_off138_inb : ∀ k0_t5 : Fin k0_t5_loop.trips, ∀ (r : Fin 5), ∀ a, (k0_off138 k0_t5 (k0_off138_at r).1 (k0_off138_at r).2) a + S16.size a ≤ S25600.size a
  k0_off140_inb : ∀ k0_t5 : Fin k0_t5_loop.trips, ∀ (r : Fin 5), ∀ a, (k0_off140 k0_t5 (k0_off140_at r).1 (k0_off140_at r).2) a + S16.size a ≤ S25600.size a
  k0_off142_inb : ∀ k0_t5 : Fin k0_t5_loop.trips, ∀ (r : Fin 5), ∀ a, (k0_off142 k0_t5 (k0_off142_at r).1 (k0_off142_at r).2) a + S16.size a ≤ S25600.size a
  k0_off144_inb : ∀ k0_t5 : Fin k0_t5_loop.trips, ∀ (r : Fin 5), ∀ a, (k0_off144 k0_t5 (k0_off144_at r).1 (k0_off144_at r).2) a + S16.size a ≤ S25600.size a
  k0_off146_inb : ∀ k0_t5 : Fin k0_t5_loop.trips, ∀ (r : Fin 4), ∀ a, (k0_off146 k0_t5 (BitVec.ofNat 32 (16 * r.val))) a + S16.size a ≤ S25600.size a
  k0_off147_inb : ∀ (i : grid0.Coords) (k0_t4 : Fin (k0_t4_loop i).trips), ∀ a, (k0_off147 i k0_t4) a + S25600.size a ≤ S64000000.size a
  k0_off148_inb : ∀ (i : grid0.Coords) (k0_t4 : Fin (k0_t4_loop i).trips), ∀ (k0_h5 : k0_cond5 i k0_t4 = 1#1), ∀ (k0_h6 : k0_cond6 i k0_t4 = 1#1), ∀ a, (k0_off148 i k0_t4) a + S25600.size a ≤ S64000000.size a
  k0_off149_inb : ∀ (i : grid0.Coords) (k0_t4 : Fin (k0_t4_loop i).trips), ∀ (k0_h5 : k0_cond5 i k0_t4 = 1#1), ∀ (k0_h6 : k0_cond6 i k0_t4 = 1#1), ∀ a, (k0_off149 i k0_t4) a + S400.size a ≤ S1000000.size a
  k0_t6_ok : ∀ (i : grid0.Coords) (k0_t4 : Fin (k0_t4_loop i).trips), ∀ (k0_h5 : k0_cond5 i k0_t4 = 1#1), k0_t6_loop.OK
  k0_off150_inb : ∀ (i : grid0.Coords) (k0_t4 : Fin (k0_t4_loop i).trips) (k0_t6 : Fin k0_t6_loop.trips), ∀ (k0_h5 : k0_cond5 i k0_t4 = 1#1), ∀ a, (k0_off150 k0_t6) a + S16.size a ≤ S400.size a
  k0_off151_inb : ∀ (i : grid0.Coords) (k0_t4 : Fin (k0_t4_loop i).trips) (k0_t6 : Fin k0_t6_loop.trips), ∀ (k0_h5 : k0_cond5 i k0_t4 = 1#1), ∀ a, (k0_off151 k0_t6) a + S16.size a ≤ S25600.size a
  k0_off153_inb : ∀ (i : grid0.Coords) (k0_t4 : Fin (k0_t4_loop i).trips) (k0_t6 : Fin k0_t6_loop.trips), ∀ (k0_h5 : k0_cond5 i k0_t4 = 1#1), ∀ (r : Fin 5), ∀ a, (k0_off153 k0_t6 (k0_off153_at r).1 (k0_off153_at r).2) a + S16.size a ≤ S25600.size a
  k0_off155_inb : ∀ (i : grid0.Coords) (k0_t4 : Fin (k0_t4_loop i).trips) (k0_t6 : Fin k0_t6_loop.trips), ∀ (k0_h5 : k0_cond5 i k0_t4 = 1#1), ∀ (r : Fin 5), ∀ a, (k0_off155 k0_t6 (k0_off155_at r).1 (k0_off155_at r).2) a + S16.size a ≤ S25600.size a
  k0_off157_inb : ∀ (i : grid0.Coords) (k0_t4 : Fin (k0_t4_loop i).trips) (k0_t6 : Fin k0_t6_loop.trips), ∀ (k0_h5 : k0_cond5 i k0_t4 = 1#1), ∀ (r : Fin 5), ∀ a, (k0_off157 k0_t6 (k0_off157_at r).1 (k0_off157_at r).2) a + S16.size a ≤ S25600.size a
  k0_off159_inb : ∀ (i : grid0.Coords) (k0_t4 : Fin (k0_t4_loop i).trips) (k0_t6 : Fin k0_t6_loop.trips), ∀ (k0_h5 : k0_cond5 i k0_t4 = 1#1), ∀ (r : Fin 5), ∀ a, (k0_off159 k0_t6 (k0_off159_at r).1 (k0_off159_at r).2) a + S16.size a ≤ S25600.size a
  k0_off161_inb : ∀ (i : grid0.Coords) (k0_t4 : Fin (k0_t4_loop i).trips) (k0_t6 : Fin k0_t6_loop.trips), ∀ (k0_h5 : k0_cond5 i k0_t4 = 1#1), ∀ (r : Fin 5), ∀ a, (k0_off161 k0_t6 (k0_off161_at r).1 (k0_off161_at r).2) a + S16.size a ≤ S25600.size a
  k0_off163_inb : ∀ (i : grid0.Coords) (k0_t4 : Fin (k0_t4_loop i).trips) (k0_t6 : Fin k0_t6_loop.trips), ∀ (k0_h5 : k0_cond5 i k0_t4 = 1#1), ∀ (r : Fin 5), ∀ a, (k0_off163 k0_t6 (k0_off163_at r).1 (k0_off163_at r).2) a + S16.size a ≤ S25600.size a
  k0_off165_inb : ∀ (i : grid0.Coords) (k0_t4 : Fin (k0_t4_loop i).trips) (k0_t6 : Fin k0_t6_loop.trips), ∀ (k0_h5 : k0_cond5 i k0_t4 = 1#1), ∀ (r : Fin 5), ∀ a, (k0_off165 k0_t6 (k0_off165_at r).1 (k0_off165_at r).2) a + S16.size a ≤ S25600.size a
  k0_off167_inb : ∀ (i : grid0.Coords) (k0_t4 : Fin (k0_t4_loop i).trips) (k0_t6 : Fin k0_t6_loop.trips), ∀ (k0_h5 : k0_cond5 i k0_t4 = 1#1), ∀ (r : Fin 5), ∀ a, (k0_off167 k0_t6 (k0_off167_at r).1 (k0_off167_at r).2) a + S16.size a ≤ S25600.size a
  k0_off169_inb : ∀ (i : grid0.Coords) (k0_t4 : Fin (k0_t4_loop i).trips) (k0_t6 : Fin k0_t6_loop.trips), ∀ (k0_h5 : k0_cond5 i k0_t4 = 1#1), ∀ (r : Fin 5), ∀ a, (k0_off169 k0_t6 (k0_off169_at r).1 (k0_off169_at r).2) a + S16.size a ≤ S25600.size a
  k0_off171_inb : ∀ (i : grid0.Coords) (k0_t4 : Fin (k0_t4_loop i).trips) (k0_t6 : Fin k0_t6_loop.trips), ∀ (k0_h5 : k0_cond5 i k0_t4 = 1#1), ∀ (r : Fin 5), ∀ a, (k0_off171 k0_t6 (k0_off171_at r).1 (k0_off171_at r).2) a + S16.size a ≤ S25600.size a
  k0_off173_inb : ∀ (i : grid0.Coords) (k0_t4 : Fin (k0_t4_loop i).trips) (k0_t6 : Fin k0_t6_loop.trips), ∀ (k0_h5 : k0_cond5 i k0_t4 = 1#1), ∀ (r : Fin 5), ∀ a, (k0_off173 k0_t6 (k0_off173_at r).1 (k0_off173_at r).2) a + S16.size a ≤ S25600.size a
  k0_off175_inb : ∀ (i : grid0.Coords) (k0_t4 : Fin (k0_t4_loop i).trips) (k0_t6 : Fin k0_t6_loop.trips), ∀ (k0_h5 : k0_cond5 i k0_t4 = 1#1), ∀ (r : Fin 5), ∀ a, (k0_off175 k0_t6 (k0_off175_at r).1 (k0_off175_at r).2) a + S16.size a ≤ S25600.size a
  k0_off177_inb : ∀ (i : grid0.Coords) (k0_t4 : Fin (k0_t4_loop i).trips) (k0_t6 : Fin k0_t6_loop.trips), ∀ (k0_h5 : k0_cond5 i k0_t4 = 1#1), ∀ (r : Fin 5), ∀ a, (k0_off177 k0_t6 (k0_off177_at r).1 (k0_off177_at r).2) a + S16.size a ≤ S25600.size a
  k0_off179_inb : ∀ (i : grid0.Coords) (k0_t4 : Fin (k0_t4_loop i).trips) (k0_t6 : Fin k0_t6_loop.trips), ∀ (k0_h5 : k0_cond5 i k0_t4 = 1#1), ∀ (r : Fin 5), ∀ a, (k0_off179 k0_t6 (k0_off179_at r).1 (k0_off179_at r).2) a + S16.size a ≤ S25600.size a
  k0_off181_inb : ∀ (i : grid0.Coords) (k0_t4 : Fin (k0_t4_loop i).trips) (k0_t6 : Fin k0_t6_loop.trips), ∀ (k0_h5 : k0_cond5 i k0_t4 = 1#1), ∀ (r : Fin 5), ∀ a, (k0_off181 k0_t6 (k0_off181_at r).1 (k0_off181_at r).2) a + S16.size a ≤ S25600.size a
  k0_off183_inb : ∀ (i : grid0.Coords) (k0_t4 : Fin (k0_t4_loop i).trips) (k0_t6 : Fin k0_t6_loop.trips), ∀ (k0_h5 : k0_cond5 i k0_t4 = 1#1), ∀ (r : Fin 4), ∀ a, (k0_off183 k0_t6 (BitVec.ofNat 32 (16 * r.val))) a + S16.size a ≤ S25600.size a
  k0_off184_inb : ∀ (i : grid0.Coords) (k0_t4 : Fin (k0_t4_loop i).trips), ∀ (k0_h5 : k0_cond5 i k0_t4 = 1#1), ∀ a, (k0_off184 i k0_t4) a + S25600.size a ≤ S64000000.size a
  k0_off185_inb : ∀ (i : grid0.Coords) (k0_t4 : Fin (k0_t4_loop i).trips), ∀ (k0_h7 : k0_cond7 i k0_t4 = 1#1), ∀ (k0_h8 : k0_cond8 i k0_t4 = 1#1), ∀ a, (k0_off185 i k0_t4) a + S25600.size a ≤ S64000000.size a
  k0_off186_inb : ∀ (i : grid0.Coords) (k0_t4 : Fin (k0_t4_loop i).trips), ∀ (k0_h7 : k0_cond7 i k0_t4 = 1#1), ∀ (k0_h8 : k0_cond8 i k0_t4 = 1#1), ∀ a, (k0_off186 i k0_t4) a + S400.size a ≤ S1000000.size a
  k0_t7_ok : ∀ (i : grid0.Coords) (k0_t4 : Fin (k0_t4_loop i).trips), ∀ (k0_h7 : k0_cond7 i k0_t4 = 1#1), k0_t7_loop.OK
  k0_off187_inb : ∀ (i : grid0.Coords) (k0_t4 : Fin (k0_t4_loop i).trips) (k0_t7 : Fin k0_t7_loop.trips), ∀ (k0_h7 : k0_cond7 i k0_t4 = 1#1), ∀ a, (k0_off187 k0_t7) a + S16.size a ≤ S400.size a
  k0_off188_inb : ∀ (i : grid0.Coords) (k0_t4 : Fin (k0_t4_loop i).trips) (k0_t7 : Fin k0_t7_loop.trips), ∀ (k0_h7 : k0_cond7 i k0_t4 = 1#1), ∀ a, (k0_off188 k0_t7) a + S16.size a ≤ S25600.size a
  k0_off190_inb : ∀ (i : grid0.Coords) (k0_t4 : Fin (k0_t4_loop i).trips) (k0_t7 : Fin k0_t7_loop.trips), ∀ (k0_h7 : k0_cond7 i k0_t4 = 1#1), ∀ (r : Fin 5), ∀ a, (k0_off190 k0_t7 (k0_off190_at r).1 (k0_off190_at r).2) a + S16.size a ≤ S25600.size a
  k0_off192_inb : ∀ (i : grid0.Coords) (k0_t4 : Fin (k0_t4_loop i).trips) (k0_t7 : Fin k0_t7_loop.trips), ∀ (k0_h7 : k0_cond7 i k0_t4 = 1#1), ∀ (r : Fin 5), ∀ a, (k0_off192 k0_t7 (k0_off192_at r).1 (k0_off192_at r).2) a + S16.size a ≤ S25600.size a
  k0_off194_inb : ∀ (i : grid0.Coords) (k0_t4 : Fin (k0_t4_loop i).trips) (k0_t7 : Fin k0_t7_loop.trips), ∀ (k0_h7 : k0_cond7 i k0_t4 = 1#1), ∀ (r : Fin 5), ∀ a, (k0_off194 k0_t7 (k0_off194_at r).1 (k0_off194_at r).2) a + S16.size a ≤ S25600.size a
  k0_off196_inb : ∀ (i : grid0.Coords) (k0_t4 : Fin (k0_t4_loop i).trips) (k0_t7 : Fin k0_t7_loop.trips), ∀ (k0_h7 : k0_cond7 i k0_t4 = 1#1), ∀ (r : Fin 5), ∀ a, (k0_off196 k0_t7 (k0_off196_at r).1 (k0_off196_at r).2) a + S16.size a ≤ S25600.size a
  k0_off198_inb : ∀ (i : grid0.Coords) (k0_t4 : Fin (k0_t4_loop i).trips) (k0_t7 : Fin k0_t7_loop.trips), ∀ (k0_h7 : k0_cond7 i k0_t4 = 1#1), ∀ (r : Fin 5), ∀ a, (k0_off198 k0_t7 (k0_off198_at r).1 (k0_off198_at r).2) a + S16.size a ≤ S25600.size a
  k0_off200_inb : ∀ (i : grid0.Coords) (k0_t4 : Fin (k0_t4_loop i).trips) (k0_t7 : Fin k0_t7_loop.trips), ∀ (k0_h7 : k0_cond7 i k0_t4 = 1#1), ∀ (r : Fin 5), ∀ a, (k0_off200 k0_t7 (k0_off200_at r).1 (k0_off200_at r).2) a + S16.size a ≤ S25600.size a
  k0_off202_inb : ∀ (i : grid0.Coords) (k0_t4 : Fin (k0_t4_loop i).trips) (k0_t7 : Fin k0_t7_loop.trips), ∀ (k0_h7 : k0_cond7 i k0_t4 = 1#1), ∀ (r : Fin 5), ∀ a, (k0_off202 k0_t7 (k0_off202_at r).1 (k0_off202_at r).2) a + S16.size a ≤ S25600.size a
  k0_off204_inb : ∀ (i : grid0.Coords) (k0_t4 : Fin (k0_t4_loop i).trips) (k0_t7 : Fin k0_t7_loop.trips), ∀ (k0_h7 : k0_cond7 i k0_t4 = 1#1), ∀ (r : Fin 5), ∀ a, (k0_off204 k0_t7 (k0_off204_at r).1 (k0_off204_at r).2) a + S16.size a ≤ S25600.size a
  k0_off206_inb : ∀ (i : grid0.Coords) (k0_t4 : Fin (k0_t4_loop i).trips) (k0_t7 : Fin k0_t7_loop.trips), ∀ (k0_h7 : k0_cond7 i k0_t4 = 1#1), ∀ (r : Fin 5), ∀ a, (k0_off206 k0_t7 (k0_off206_at r).1 (k0_off206_at r).2) a + S16.size a ≤ S25600.size a
  k0_off208_inb : ∀ (i : grid0.Coords) (k0_t4 : Fin (k0_t4_loop i).trips) (k0_t7 : Fin k0_t7_loop.trips), ∀ (k0_h7 : k0_cond7 i k0_t4 = 1#1), ∀ (r : Fin 5), ∀ a, (k0_off208 k0_t7 (k0_off208_at r).1 (k0_off208_at r).2) a + S16.size a ≤ S25600.size a
  k0_off210_inb : ∀ (i : grid0.Coords) (k0_t4 : Fin (k0_t4_loop i).trips) (k0_t7 : Fin k0_t7_loop.trips), ∀ (k0_h7 : k0_cond7 i k0_t4 = 1#1), ∀ (r : Fin 5), ∀ a, (k0_off210 k0_t7 (k0_off210_at r).1 (k0_off210_at r).2) a + S16.size a ≤ S25600.size a
  k0_off212_inb : ∀ (i : grid0.Coords) (k0_t4 : Fin (k0_t4_loop i).trips) (k0_t7 : Fin k0_t7_loop.trips), ∀ (k0_h7 : k0_cond7 i k0_t4 = 1#1), ∀ (r : Fin 5), ∀ a, (k0_off212 k0_t7 (k0_off212_at r).1 (k0_off212_at r).2) a + S16.size a ≤ S25600.size a
  k0_off214_inb : ∀ (i : grid0.Coords) (k0_t4 : Fin (k0_t4_loop i).trips) (k0_t7 : Fin k0_t7_loop.trips), ∀ (k0_h7 : k0_cond7 i k0_t4 = 1#1), ∀ (r : Fin 5), ∀ a, (k0_off214 k0_t7 (k0_off214_at r).1 (k0_off214_at r).2) a + S16.size a ≤ S25600.size a
  k0_off216_inb : ∀ (i : grid0.Coords) (k0_t4 : Fin (k0_t4_loop i).trips) (k0_t7 : Fin k0_t7_loop.trips), ∀ (k0_h7 : k0_cond7 i k0_t4 = 1#1), ∀ (r : Fin 5), ∀ a, (k0_off216 k0_t7 (k0_off216_at r).1 (k0_off216_at r).2) a + S16.size a ≤ S25600.size a
  k0_off218_inb : ∀ (i : grid0.Coords) (k0_t4 : Fin (k0_t4_loop i).trips) (k0_t7 : Fin k0_t7_loop.trips), ∀ (k0_h7 : k0_cond7 i k0_t4 = 1#1), ∀ (r : Fin 5), ∀ a, (k0_off218 k0_t7 (k0_off218_at r).1 (k0_off218_at r).2) a + S16.size a ≤ S25600.size a
  k0_off220_inb : ∀ (i : grid0.Coords) (k0_t4 : Fin (k0_t4_loop i).trips) (k0_t7 : Fin k0_t7_loop.trips), ∀ (k0_h7 : k0_cond7 i k0_t4 = 1#1), ∀ (r : Fin 4), ∀ a, (k0_off220 k0_t7 (BitVec.ofNat 32 (16 * r.val))) a + S16.size a ≤ S25600.size a
  k0_off221_inb : ∀ (i : grid0.Coords) (k0_t4 : Fin (k0_t4_loop i).trips), ∀ (k0_h7 : k0_cond7 i k0_t4 = 1#1), ∀ a, (k0_off221 i k0_t4) a + S25600.size a ≤ S64000000.size a
  k0_t8_ok : ∀ i : grid0.Coords, (k0_t8_loop i).OK
  k0_off222_inb : ∀ (i : grid0.Coords) (k0_t8 : Fin (k0_t8_loop i).trips), ∀ (k0_h9 : k0_cond9 i k0_t8 = 1#1), ∀ a, (k0_off222 i k0_t8) a + S25600.size a ≤ S64000000.size a
  k0_off223_inb : ∀ (i : grid0.Coords) (k0_t8 : Fin (k0_t8_loop i).trips), ∀ (k0_h9 : k0_cond9 i k0_t8 = 1#1), ∀ a, (k0_off223 i k0_t8) a + S400.size a ≤ S1000000.size a
  k0_t9_ok : k0_t9_loop.OK
  k0_off224_inb : ∀ k0_t9 : Fin k0_t9_loop.trips, ∀ a, (k0_off224 k0_t9) a + S16.size a ≤ S400.size a
  k0_off225_inb : ∀ k0_t9 : Fin k0_t9_loop.trips, ∀ a, (k0_off225 k0_t9) a + S16.size a ≤ S25600.size a
  k0_off227_inb : ∀ k0_t9 : Fin k0_t9_loop.trips, ∀ (r : Fin 5), ∀ a, (k0_off227 k0_t9 (k0_off227_at r).1 (k0_off227_at r).2) a + S16.size a ≤ S25600.size a
  k0_off229_inb : ∀ k0_t9 : Fin k0_t9_loop.trips, ∀ (r : Fin 5), ∀ a, (k0_off229 k0_t9 (k0_off229_at r).1 (k0_off229_at r).2) a + S16.size a ≤ S25600.size a
  k0_off231_inb : ∀ k0_t9 : Fin k0_t9_loop.trips, ∀ (r : Fin 5), ∀ a, (k0_off231 k0_t9 (k0_off231_at r).1 (k0_off231_at r).2) a + S16.size a ≤ S25600.size a
  k0_off233_inb : ∀ k0_t9 : Fin k0_t9_loop.trips, ∀ (r : Fin 5), ∀ a, (k0_off233 k0_t9 (k0_off233_at r).1 (k0_off233_at r).2) a + S16.size a ≤ S25600.size a
  k0_off235_inb : ∀ k0_t9 : Fin k0_t9_loop.trips, ∀ (r : Fin 5), ∀ a, (k0_off235 k0_t9 (k0_off235_at r).1 (k0_off235_at r).2) a + S16.size a ≤ S25600.size a
  k0_off237_inb : ∀ k0_t9 : Fin k0_t9_loop.trips, ∀ (r : Fin 5), ∀ a, (k0_off237 k0_t9 (k0_off237_at r).1 (k0_off237_at r).2) a + S16.size a ≤ S25600.size a
  k0_off239_inb : ∀ k0_t9 : Fin k0_t9_loop.trips, ∀ (r : Fin 5), ∀ a, (k0_off239 k0_t9 (k0_off239_at r).1 (k0_off239_at r).2) a + S16.size a ≤ S25600.size a
  k0_off241_inb : ∀ k0_t9 : Fin k0_t9_loop.trips, ∀ (r : Fin 5), ∀ a, (k0_off241 k0_t9 (k0_off241_at r).1 (k0_off241_at r).2) a + S16.size a ≤ S25600.size a
  k0_off243_inb : ∀ k0_t9 : Fin k0_t9_loop.trips, ∀ (r : Fin 5), ∀ a, (k0_off243 k0_t9 (k0_off243_at r).1 (k0_off243_at r).2) a + S16.size a ≤ S25600.size a
  k0_off245_inb : ∀ k0_t9 : Fin k0_t9_loop.trips, ∀ (r : Fin 5), ∀ a, (k0_off245 k0_t9 (k0_off245_at r).1 (k0_off245_at r).2) a + S16.size a ≤ S25600.size a
  k0_off247_inb : ∀ k0_t9 : Fin k0_t9_loop.trips, ∀ (r : Fin 5), ∀ a, (k0_off247 k0_t9 (k0_off247_at r).1 (k0_off247_at r).2) a + S16.size a ≤ S25600.size a
  k0_off249_inb : ∀ k0_t9 : Fin k0_t9_loop.trips, ∀ (r : Fin 5), ∀ a, (k0_off249 k0_t9 (k0_off249_at r).1 (k0_off249_at r).2) a + S16.size a ≤ S25600.size a
  k0_off251_inb : ∀ k0_t9 : Fin k0_t9_loop.trips, ∀ (r : Fin 5), ∀ a, (k0_off251 k0_t9 (k0_off251_at r).1 (k0_off251_at r).2) a + S16.size a ≤ S25600.size a
  k0_off253_inb : ∀ k0_t9 : Fin k0_t9_loop.trips, ∀ (r : Fin 5), ∀ a, (k0_off253 k0_t9 (k0_off253_at r).1 (k0_off253_at r).2) a + S16.size a ≤ S25600.size a
  k0_off255_inb : ∀ k0_t9 : Fin k0_t9_loop.trips, ∀ (r : Fin 5), ∀ a, (k0_off255 k0_t9 (k0_off255_at r).1 (k0_off255_at r).2) a + S16.size a ≤ S25600.size a
  k0_off257_inb : ∀ k0_t9 : Fin k0_t9_loop.trips, ∀ (r : Fin 4), ∀ a, (k0_off257 k0_t9 (BitVec.ofNat 32 (16 * r.val))) a + S16.size a ≤ S25600.size a
  k0_off258_inb : ∀ (i : grid0.Coords) (k0_t8 : Fin (k0_t8_loop i).trips), ∀ a, (k0_off258 i k0_t8) a + S25600.size a ≤ S64000000.size a
  k0_off259_inb : ∀ (i : grid0.Coords) (k0_t8 : Fin (k0_t8_loop i).trips), ∀ (k0_h10 : k0_cond10 i k0_t8 = 1#1), ∀ (k0_h11 : k0_cond11 i k0_t8 = 1#1), ∀ a, (k0_off259 i k0_t8) a + S25600.size a ≤ S64000000.size a
  k0_off260_inb : ∀ (i : grid0.Coords) (k0_t8 : Fin (k0_t8_loop i).trips), ∀ (k0_h10 : k0_cond10 i k0_t8 = 1#1), ∀ (k0_h11 : k0_cond11 i k0_t8 = 1#1), ∀ a, (k0_off260 i k0_t8) a + S400.size a ≤ S1000000.size a
  k0_t10_ok : ∀ (i : grid0.Coords) (k0_t8 : Fin (k0_t8_loop i).trips), ∀ (k0_h10 : k0_cond10 i k0_t8 = 1#1), k0_t10_loop.OK
  k0_off261_inb : ∀ (i : grid0.Coords) (k0_t8 : Fin (k0_t8_loop i).trips) (k0_t10 : Fin k0_t10_loop.trips), ∀ (k0_h10 : k0_cond10 i k0_t8 = 1#1), ∀ a, (k0_off261 k0_t10) a + S16.size a ≤ S400.size a
  k0_off262_inb : ∀ (i : grid0.Coords) (k0_t8 : Fin (k0_t8_loop i).trips) (k0_t10 : Fin k0_t10_loop.trips), ∀ (k0_h10 : k0_cond10 i k0_t8 = 1#1), ∀ a, (k0_off262 k0_t10) a + S16.size a ≤ S25600.size a
  k0_off264_inb : ∀ (i : grid0.Coords) (k0_t8 : Fin (k0_t8_loop i).trips) (k0_t10 : Fin k0_t10_loop.trips), ∀ (k0_h10 : k0_cond10 i k0_t8 = 1#1), ∀ (r : Fin 5), ∀ a, (k0_off264 k0_t10 (k0_off264_at r).1 (k0_off264_at r).2) a + S16.size a ≤ S25600.size a
  k0_off266_inb : ∀ (i : grid0.Coords) (k0_t8 : Fin (k0_t8_loop i).trips) (k0_t10 : Fin k0_t10_loop.trips), ∀ (k0_h10 : k0_cond10 i k0_t8 = 1#1), ∀ (r : Fin 5), ∀ a, (k0_off266 k0_t10 (k0_off266_at r).1 (k0_off266_at r).2) a + S16.size a ≤ S25600.size a
  k0_off268_inb : ∀ (i : grid0.Coords) (k0_t8 : Fin (k0_t8_loop i).trips) (k0_t10 : Fin k0_t10_loop.trips), ∀ (k0_h10 : k0_cond10 i k0_t8 = 1#1), ∀ (r : Fin 5), ∀ a, (k0_off268 k0_t10 (k0_off268_at r).1 (k0_off268_at r).2) a + S16.size a ≤ S25600.size a
  k0_off270_inb : ∀ (i : grid0.Coords) (k0_t8 : Fin (k0_t8_loop i).trips) (k0_t10 : Fin k0_t10_loop.trips), ∀ (k0_h10 : k0_cond10 i k0_t8 = 1#1), ∀ (r : Fin 5), ∀ a, (k0_off270 k0_t10 (k0_off270_at r).1 (k0_off270_at r).2) a + S16.size a ≤ S25600.size a
  k0_off272_inb : ∀ (i : grid0.Coords) (k0_t8 : Fin (k0_t8_loop i).trips) (k0_t10 : Fin k0_t10_loop.trips), ∀ (k0_h10 : k0_cond10 i k0_t8 = 1#1), ∀ (r : Fin 5), ∀ a, (k0_off272 k0_t10 (k0_off272_at r).1 (k0_off272_at r).2) a + S16.size a ≤ S25600.size a
  k0_off274_inb : ∀ (i : grid0.Coords) (k0_t8 : Fin (k0_t8_loop i).trips) (k0_t10 : Fin k0_t10_loop.trips), ∀ (k0_h10 : k0_cond10 i k0_t8 = 1#1), ∀ (r : Fin 5), ∀ a, (k0_off274 k0_t10 (k0_off274_at r).1 (k0_off274_at r).2) a + S16.size a ≤ S25600.size a
  k0_off276_inb : ∀ (i : grid0.Coords) (k0_t8 : Fin (k0_t8_loop i).trips) (k0_t10 : Fin k0_t10_loop.trips), ∀ (k0_h10 : k0_cond10 i k0_t8 = 1#1), ∀ (r : Fin 5), ∀ a, (k0_off276 k0_t10 (k0_off276_at r).1 (k0_off276_at r).2) a + S16.size a ≤ S25600.size a
  k0_off278_inb : ∀ (i : grid0.Coords) (k0_t8 : Fin (k0_t8_loop i).trips) (k0_t10 : Fin k0_t10_loop.trips), ∀ (k0_h10 : k0_cond10 i k0_t8 = 1#1), ∀ (r : Fin 5), ∀ a, (k0_off278 k0_t10 (k0_off278_at r).1 (k0_off278_at r).2) a + S16.size a ≤ S25600.size a
  k0_off280_inb : ∀ (i : grid0.Coords) (k0_t8 : Fin (k0_t8_loop i).trips) (k0_t10 : Fin k0_t10_loop.trips), ∀ (k0_h10 : k0_cond10 i k0_t8 = 1#1), ∀ (r : Fin 5), ∀ a, (k0_off280 k0_t10 (k0_off280_at r).1 (k0_off280_at r).2) a + S16.size a ≤ S25600.size a
  k0_off282_inb : ∀ (i : grid0.Coords) (k0_t8 : Fin (k0_t8_loop i).trips) (k0_t10 : Fin k0_t10_loop.trips), ∀ (k0_h10 : k0_cond10 i k0_t8 = 1#1), ∀ (r : Fin 5), ∀ a, (k0_off282 k0_t10 (k0_off282_at r).1 (k0_off282_at r).2) a + S16.size a ≤ S25600.size a
  k0_off284_inb : ∀ (i : grid0.Coords) (k0_t8 : Fin (k0_t8_loop i).trips) (k0_t10 : Fin k0_t10_loop.trips), ∀ (k0_h10 : k0_cond10 i k0_t8 = 1#1), ∀ (r : Fin 5), ∀ a, (k0_off284 k0_t10 (k0_off284_at r).1 (k0_off284_at r).2) a + S16.size a ≤ S25600.size a
  k0_off286_inb : ∀ (i : grid0.Coords) (k0_t8 : Fin (k0_t8_loop i).trips) (k0_t10 : Fin k0_t10_loop.trips), ∀ (k0_h10 : k0_cond10 i k0_t8 = 1#1), ∀ (r : Fin 5), ∀ a, (k0_off286 k0_t10 (k0_off286_at r).1 (k0_off286_at r).2) a + S16.size a ≤ S25600.size a
  k0_off288_inb : ∀ (i : grid0.Coords) (k0_t8 : Fin (k0_t8_loop i).trips) (k0_t10 : Fin k0_t10_loop.trips), ∀ (k0_h10 : k0_cond10 i k0_t8 = 1#1), ∀ (r : Fin 5), ∀ a, (k0_off288 k0_t10 (k0_off288_at r).1 (k0_off288_at r).2) a + S16.size a ≤ S25600.size a
  k0_off290_inb : ∀ (i : grid0.Coords) (k0_t8 : Fin (k0_t8_loop i).trips) (k0_t10 : Fin k0_t10_loop.trips), ∀ (k0_h10 : k0_cond10 i k0_t8 = 1#1), ∀ (r : Fin 5), ∀ a, (k0_off290 k0_t10 (k0_off290_at r).1 (k0_off290_at r).2) a + S16.size a ≤ S25600.size a
  k0_off292_inb : ∀ (i : grid0.Coords) (k0_t8 : Fin (k0_t8_loop i).trips) (k0_t10 : Fin k0_t10_loop.trips), ∀ (k0_h10 : k0_cond10 i k0_t8 = 1#1), ∀ (r : Fin 5), ∀ a, (k0_off292 k0_t10 (k0_off292_at r).1 (k0_off292_at r).2) a + S16.size a ≤ S25600.size a
  k0_off294_inb : ∀ (i : grid0.Coords) (k0_t8 : Fin (k0_t8_loop i).trips) (k0_t10 : Fin k0_t10_loop.trips), ∀ (k0_h10 : k0_cond10 i k0_t8 = 1#1), ∀ (r : Fin 4), ∀ a, (k0_off294 k0_t10 (BitVec.ofNat 32 (16 * r.val))) a + S16.size a ≤ S25600.size a
  k0_off295_inb : ∀ (i : grid0.Coords) (k0_t8 : Fin (k0_t8_loop i).trips), ∀ (k0_h10 : k0_cond10 i k0_t8 = 1#1), ∀ a, (k0_off295 i k0_t8) a + S25600.size a ≤ S64000000.size a
  k0_off296_inb : ∀ (i : grid0.Coords) (k0_t8 : Fin (k0_t8_loop i).trips), ∀ (k0_h12 : k0_cond12 i k0_t8 = 1#1), ∀ (k0_h13 : k0_cond13 i k0_t8 = 1#1), ∀ a, (k0_off296 i k0_t8) a + S25600.size a ≤ S64000000.size a
  k0_off297_inb : ∀ (i : grid0.Coords) (k0_t8 : Fin (k0_t8_loop i).trips), ∀ (k0_h12 : k0_cond12 i k0_t8 = 1#1), ∀ (k0_h13 : k0_cond13 i k0_t8 = 1#1), ∀ a, (k0_off297 i k0_t8) a + S400.size a ≤ S1000000.size a
  k0_t11_ok : ∀ (i : grid0.Coords) (k0_t8 : Fin (k0_t8_loop i).trips), ∀ (k0_h12 : k0_cond12 i k0_t8 = 1#1), k0_t11_loop.OK
  k0_off298_inb : ∀ (i : grid0.Coords) (k0_t8 : Fin (k0_t8_loop i).trips) (k0_t11 : Fin k0_t11_loop.trips), ∀ (k0_h12 : k0_cond12 i k0_t8 = 1#1), ∀ a, (k0_off298 k0_t11) a + S16.size a ≤ S400.size a
  k0_off299_inb : ∀ (i : grid0.Coords) (k0_t8 : Fin (k0_t8_loop i).trips) (k0_t11 : Fin k0_t11_loop.trips), ∀ (k0_h12 : k0_cond12 i k0_t8 = 1#1), ∀ a, (k0_off299 k0_t11) a + S16.size a ≤ S25600.size a
  k0_off301_inb : ∀ (i : grid0.Coords) (k0_t8 : Fin (k0_t8_loop i).trips) (k0_t11 : Fin k0_t11_loop.trips), ∀ (k0_h12 : k0_cond12 i k0_t8 = 1#1), ∀ (r : Fin 5), ∀ a, (k0_off301 k0_t11 (k0_off301_at r).1 (k0_off301_at r).2) a + S16.size a ≤ S25600.size a
  k0_off303_inb : ∀ (i : grid0.Coords) (k0_t8 : Fin (k0_t8_loop i).trips) (k0_t11 : Fin k0_t11_loop.trips), ∀ (k0_h12 : k0_cond12 i k0_t8 = 1#1), ∀ (r : Fin 5), ∀ a, (k0_off303 k0_t11 (k0_off303_at r).1 (k0_off303_at r).2) a + S16.size a ≤ S25600.size a
  k0_off305_inb : ∀ (i : grid0.Coords) (k0_t8 : Fin (k0_t8_loop i).trips) (k0_t11 : Fin k0_t11_loop.trips), ∀ (k0_h12 : k0_cond12 i k0_t8 = 1#1), ∀ (r : Fin 5), ∀ a, (k0_off305 k0_t11 (k0_off305_at r).1 (k0_off305_at r).2) a + S16.size a ≤ S25600.size a
  k0_off307_inb : ∀ (i : grid0.Coords) (k0_t8 : Fin (k0_t8_loop i).trips) (k0_t11 : Fin k0_t11_loop.trips), ∀ (k0_h12 : k0_cond12 i k0_t8 = 1#1), ∀ (r : Fin 5), ∀ a, (k0_off307 k0_t11 (k0_off307_at r).1 (k0_off307_at r).2) a + S16.size a ≤ S25600.size a
  k0_off309_inb : ∀ (i : grid0.Coords) (k0_t8 : Fin (k0_t8_loop i).trips) (k0_t11 : Fin k0_t11_loop.trips), ∀ (k0_h12 : k0_cond12 i k0_t8 = 1#1), ∀ (r : Fin 5), ∀ a, (k0_off309 k0_t11 (k0_off309_at r).1 (k0_off309_at r).2) a + S16.size a ≤ S25600.size a
  k0_off311_inb : ∀ (i : grid0.Coords) (k0_t8 : Fin (k0_t8_loop i).trips) (k0_t11 : Fin k0_t11_loop.trips), ∀ (k0_h12 : k0_cond12 i k0_t8 = 1#1), ∀ (r : Fin 5), ∀ a, (k0_off311 k0_t11 (k0_off311_at r).1 (k0_off311_at r).2) a + S16.size a ≤ S25600.size a
  k0_off313_inb : ∀ (i : grid0.Coords) (k0_t8 : Fin (k0_t8_loop i).trips) (k0_t11 : Fin k0_t11_loop.trips), ∀ (k0_h12 : k0_cond12 i k0_t8 = 1#1), ∀ (r : Fin 5), ∀ a, (k0_off313 k0_t11 (k0_off313_at r).1 (k0_off313_at r).2) a + S16.size a ≤ S25600.size a
  k0_off315_inb : ∀ (i : grid0.Coords) (k0_t8 : Fin (k0_t8_loop i).trips) (k0_t11 : Fin k0_t11_loop.trips), ∀ (k0_h12 : k0_cond12 i k0_t8 = 1#1), ∀ (r : Fin 5), ∀ a, (k0_off315 k0_t11 (k0_off315_at r).1 (k0_off315_at r).2) a + S16.size a ≤ S25600.size a
  k0_off317_inb : ∀ (i : grid0.Coords) (k0_t8 : Fin (k0_t8_loop i).trips) (k0_t11 : Fin k0_t11_loop.trips), ∀ (k0_h12 : k0_cond12 i k0_t8 = 1#1), ∀ (r : Fin 5), ∀ a, (k0_off317 k0_t11 (k0_off317_at r).1 (k0_off317_at r).2) a + S16.size a ≤ S25600.size a
  k0_off319_inb : ∀ (i : grid0.Coords) (k0_t8 : Fin (k0_t8_loop i).trips) (k0_t11 : Fin k0_t11_loop.trips), ∀ (k0_h12 : k0_cond12 i k0_t8 = 1#1), ∀ (r : Fin 5), ∀ a, (k0_off319 k0_t11 (k0_off319_at r).1 (k0_off319_at r).2) a + S16.size a ≤ S25600.size a
  k0_off321_inb : ∀ (i : grid0.Coords) (k0_t8 : Fin (k0_t8_loop i).trips) (k0_t11 : Fin k0_t11_loop.trips), ∀ (k0_h12 : k0_cond12 i k0_t8 = 1#1), ∀ (r : Fin 5), ∀ a, (k0_off321 k0_t11 (k0_off321_at r).1 (k0_off321_at r).2) a + S16.size a ≤ S25600.size a
  k0_off323_inb : ∀ (i : grid0.Coords) (k0_t8 : Fin (k0_t8_loop i).trips) (k0_t11 : Fin k0_t11_loop.trips), ∀ (k0_h12 : k0_cond12 i k0_t8 = 1#1), ∀ (r : Fin 5), ∀ a, (k0_off323 k0_t11 (k0_off323_at r).1 (k0_off323_at r).2) a + S16.size a ≤ S25600.size a
  k0_off325_inb : ∀ (i : grid0.Coords) (k0_t8 : Fin (k0_t8_loop i).trips) (k0_t11 : Fin k0_t11_loop.trips), ∀ (k0_h12 : k0_cond12 i k0_t8 = 1#1), ∀ (r : Fin 5), ∀ a, (k0_off325 k0_t11 (k0_off325_at r).1 (k0_off325_at r).2) a + S16.size a ≤ S25600.size a
  k0_off327_inb : ∀ (i : grid0.Coords) (k0_t8 : Fin (k0_t8_loop i).trips) (k0_t11 : Fin k0_t11_loop.trips), ∀ (k0_h12 : k0_cond12 i k0_t8 = 1#1), ∀ (r : Fin 5), ∀ a, (k0_off327 k0_t11 (k0_off327_at r).1 (k0_off327_at r).2) a + S16.size a ≤ S25600.size a
  k0_off329_inb : ∀ (i : grid0.Coords) (k0_t8 : Fin (k0_t8_loop i).trips) (k0_t11 : Fin k0_t11_loop.trips), ∀ (k0_h12 : k0_cond12 i k0_t8 = 1#1), ∀ (r : Fin 5), ∀ a, (k0_off329 k0_t11 (k0_off329_at r).1 (k0_off329_at r).2) a + S16.size a ≤ S25600.size a
  k0_off331_inb : ∀ (i : grid0.Coords) (k0_t8 : Fin (k0_t8_loop i).trips) (k0_t11 : Fin k0_t11_loop.trips), ∀ (k0_h12 : k0_cond12 i k0_t8 = 1#1), ∀ (r : Fin 4), ∀ a, (k0_off331 k0_t11 (BitVec.ofNat 32 (16 * r.val))) a + S16.size a ≤ S25600.size a
  k0_off332_inb : ∀ (i : grid0.Coords) (k0_t8 : Fin (k0_t8_loop i).trips), ∀ (k0_h12 : k0_cond12 i k0_t8 = 1#1), ∀ a, (k0_off332 i k0_t8) a + S25600.size a ≤ S64000000.size a

variable [Facts₀]

abbrev cc0_scratch7 : DmaSems sig S3 := SemArray.consecutive 0 S3 hcc0_scratch7
abbrev cc0_scratch8 : DmaSems sig S3 := SemArray.consecutive 3 S3 hcc0_scratch8
abbrev cc0_scratch9 : DmaSems sig S3 := SemArray.consecutive 6 S3 hcc0_scratch9
abbrev cc0_scoped0 : DmaSems sig S_ := SemArray.consecutive 9 S_ hcc0_scoped0

class Facts : Prop extends Facts₀ where

variable [Facts]
-- ==== ReferenceIdeal.lean ====
abbrev S1000000x64 : Shape := ⟨2, ![1000000, 64]⟩
abbrev S16x64 : Shape := ⟨2, ![16, 64]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16x64, .f32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1, .i32⟩
  | .hbm, ⟨12, _⟩ => ⟨S_, .i32⟩
  | .hbm, ⟨13, _⟩ => ⟨S1000000x1, .i32⟩
  | .hbm, ⟨14, _⟩ => ⟨S1000000x1, .i1⟩
  | .hbm, ⟨15, _⟩ => ⟨S1x1, .i32⟩
  | .hbm, ⟨16, _⟩ => ⟨S1000000x1, .i32⟩
  | .hbm, ⟨17, _⟩ => ⟨S1000000x1, .i1⟩
  | .hbm, ⟨18, _⟩ => ⟨S1000000x1, .i1⟩
  | .hbm, ⟨19, _⟩ => ⟨S_, .i1⟩
  | .hbm, ⟨20, _⟩ => ⟨S1000000, .i1⟩
  | .hbm, ⟨21, _⟩ => ⟨S1000000x64, .f32⟩
  | .hbm, ⟨22, _⟩ => ⟨S1000000x64, .i1⟩
  | .hbm, ⟨23, _⟩ => ⟨S_, .f32⟩
  | .hbm, ⟨24, _⟩ => ⟨S1000000x64, .f32⟩
  | .hbm, ⟨25, _⟩ => ⟨S1000000x64, .f32⟩
  | .hbm, ⟨26, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  gather_S16x64_S1000000x1_S1000000x64_1_0_n_n_0_1_164_wf : GatherDims.WF S16x64 S1000000x1 S1000000x64 [1] [0] [] [0] [] 1 ![1, 64]

variable [Facts₀]

def gather_S16x64_S1000000x1_S1000000x64_1_0_n_n_0_1_164 : GatherDims S16x64 S1000000x1 S1000000x64 where
  offsetDims := [1]
  collapsedSliceDims := [0]
  operandBatchingDims := []
  startIndicesBatchingDims := []
  startIndexMap := [0]
  indexVectorDim := 1
  sliceSizes := ![1, 64]
  wf := gather_S16x64_S1000000x1_S1000000x64_1_0_n_n_0_1_164_wf

class Facts : Prop extends Facts₀ where

variable [Facts]
-- ==== Proof.Spec.lean ====
/-
  The specification, stated once over literal shapes and importing no program: each sparse row of the result is that
  feature row plus the row of the sixteen-row table its batch index names, entry by entry. Both programs are
  compared with this one function of the three argument arrays.
-/
import Idealize.ShloMosaic.PureOps
import Idealize.ShloMosaic.Lib.ValueIdx

noncomputable section

namespace Cert.Spec

open Idealize.ShloMosaic Idealize.ShloMosaic.ValueIdx

abbrev SNC : Shape := ⟨2, ![1000000, 64]⟩
abbrev SBC : Shape := ⟨2, ![16, 64]⟩
abbrev SN : Shape := ⟨1, ![1000000]⟩

/-- The table row an index word names: its unsigned value, capped at the last row (the cap is never met where
    the indices are in range). -/
def rowOf (w : BitVec 32) : Fin 16 := ⟨min w.toNat 15, by omega⟩

theorem rowOf_val {w : BitVec 32} (h : w.toNat < 16) : (rowOf w).val = w.toNat := by
  show min w.toNat 15 = w.toNat
  omega

/-- Every batch index names a row of the table. -/
def IdxOK (idx : IVec SN 32) : Prop := ∀ j, (idx j).toNat < 16

variable {F : FTy → Type} [FloatOps F]

/-- The result as one function of the arguments: entry (r, c) is feat (r, c) + glob (idx r, c). -/
def G (feat : FVec F SNC .f32) (glob : FVec F SBC .f32) (idx : IVec SN 32) : FVec F SNC .f32 :=
  fun i => FloatOps.addf (feat i) (glob (ix2 (rowOf (idx (ix1 (i 0)))) (i 1)))

end Cert.Spec

end
-- ==== Proof.PreIdx.lean ====
/-
  The index range, read back from the input-domain predicate. The predicate is the conjunction of three
  all-reductions; the third says that every batch index, read as a signed word, lies between 0 and 15. A signed
  word in that range has an unsigned value below 16, which is what the specification asks of the indices.
-/
import proofs.«216121_g54726473285929_cont_9to1_m_355_3_alg».proof.Pre_input_domain
import proofs.«216121_g54726473285929_cont_9to1_m_355_3_alg».proof.Proof.Gen.Pre_input_domain
import proofs.«216121_g54726473285929_cont_9to1_m_355_3_alg».proof.Proof.Spec
import Idealize.ShloMosaic.Lib.ReduceAll

noncomputable section

namespace Cert.Proof.PreIdx

open Idealize.ShloMosaic

/-- The rank-zero shape has one index. -/
instance subsingleton_S_ : Subsingleton Cert.Pre_input_domain.S_.Idx := ⟨fun _ _ => funext fun d => d.elim0⟩

/-- A 32-bit word whose signed value lies between those of the words 0 and 15 has an unsigned value below 16. -/
theorem toNat_lt_of_signed_range (v : BitVec 32) (h0 : (0#32).toInt ≤ v.toInt) (h1 : v.toInt ≤ (15#32).toInt) :
    v.toNat < 16 := by
  simp only [BitVec.toInt_eq_toNat_cond, BitVec.toNat_ofNat, Nat.reducePow, Nat.reduceMod] at h0 h1
  omega

variable {F : FTy → Type} [FloatOps F] [Cert.Pre_input_domain.Facts]

/-- Where the input-domain predicate holds, every batch index names a row of the sixteen-row table. -/
theorem idxOK_of_pre (a0 : FVec F Cert.Pre_input_domain.S1000000x64 .f32) (a1 : FVec F Cert.Pre_input_domain.S16x64 .f32)
    (a2 : IVec Cert.Pre_input_domain.S1000000 32)
    (h : Cert.Pre_input_domain.fn (F := F) a0 a1 a2 = (fun _ => 1#1)) : Cert.Spec.IdxOK a2 := by
  intro j
  have e := congrFun h (fun d => d.elim0)
  dsimp only [Cert.Pre_input_domain.fn] at e
  -- the outer conjunction: its second operand is the all-reduction over the indices
  have e3 := (IntOp.andi_eq_one.1 e).2
  -- every element of the reduced array is the true bit
  have ej := Host.reduce_andi_all _ _ _ _ _ e3 j
  -- the element is the conjunction of the two signed comparisons
  obtain ⟨hge, hle⟩ := IntOp.andi_eq_one.1 ej
  exact toNat_lt_of_signed_range (a2 j) (IntOp.cmpi_sge.1 hge) (IntOp.cmpi_sle.1 hle)

end Cert.Proof.PreIdx

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.LibTypedRef.lean ====
/-
  Typed references: contents moved to a typed reference's buffer and back are unchanged.

  An operation of a module-local function (a relu, a log_softmax, … that the program calls) is written over typed
  references: each operand is read from its buffer at the value's own type and each result is stored at the buffer's
  type, two transports along the same equation of types. Read after a fold of such operations, every intermediate value
  therefore appears wrapped as "stored, then read": the wrapping is the identity, whatever the reference. (After
  rewriting with `ofBuf_toBuf` only the line's own ends keep a transport — the first operand read and the last result
  stored — and each of those is the identity by computation at the literal reference.)
-/
import Idealize.ShloMosaic.Lib.StableHlo

namespace Cert.LibTypedRef

open Idealize.ShloMosaic Idealize.ShloMosaic.StableHlo

variable {sig : RefSig} {Val : EltTy → Type} {T : BufTy}

/-- A value stored at a typed reference's buffer and read back is the value. -/
theorem ofBuf_toBuf (x : TRef sig T) (v : T.Contents Val) : x.ofBuf (x.toBuf v) = v := by
  obtain ⟨r, rfl, h2, h3⟩ := x
  rfl

/-- Buffer contents read at the value's type and stored back are the contents. -/
theorem toBuf_ofBuf (x : TRef sig T) (v : x.ref.ty.Contents Val) : x.toBuf (x.ofBuf v) = v := by
  obtain ⟨r, rfl, h2, h3⟩ := x
  rfl

end Cert.LibTypedRef
-- ==== Proof.RefRun.lean ====
/-
  The reference program's run.

  The program calls a row-lookup function (which itself calls a select) and then adds: unfolded at the calls it is a
  straight line of twenty-four operations. Every execution terminates with each buffer at the fold of those operations
  over the initial contents; at the result buffer that fold is one term of the three argument arrays. Read at an entry
  (r, c), with every index below sixteen: the sign wrap (an index below zero has sixteen added) leaves the index as it
  is, the range test 0 ≤ index ≤ 15 holds at every row so the select keeps the gathered value and never the fill
  constant, and the gather reads the table row the index names. The term is then the feature entry plus that table
  entry: the specification's function.
-/
import proofs.«216121_g54726473285929_cont_9to1_m_355_3_alg».proof.ReferenceIdeal
import proofs.«216121_g54726473285929_cont_9to1_m_355_3_alg».proof.Proof.Gen.ReferenceIdeal
import proofs.«216121_g54726473285929_cont_9to1_m_355_3_alg».proof.Proof.Spec
import proofs.«216121_g54726473285929_cont_9to1_m_355_3_alg».proof.Proof.LibEdgeIndex
import proofs.«216121_g54726473285929_cont_9to1_m_355_3_alg».proof.Proof.LibTypedRef
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal
import Idealize.ShloMosaic.PureOps.Reduce

noncomputable section

namespace Cert.ReferenceIdeal.RefValue

open Cert.ReferenceIdeal Idealize.ShloMosaic Idealize.ShloMosaic.TcCoe Idealize.SL.Sem Idealize.ShloMosaic.StableHlo
open Idealize.ShloMosaic.ValueIdx

variable [Cert.ReferenceIdeal.Facts]
open Facts₀ Facts

variable {F : FTy → Type} [FloatOps F]

/-! ## The program as a list of operations -/

/-- The twenty-four operations of the program in order: the twenty-three of the row lookup (the one select of the
    sign wrap listed in its place among them), then the final addition. -/
abbrev ops : List (HloOp τ sig (Elt F)) :=
  [ TRef.nullary main_call0.c (constantI S_ 32 0#32),
    TRef.unary main_call0.c main_call0.v0 (broadcastInDim S1000000 ![] bcast_S_S1000000),
    TRef.binary (.of main_arg2) main_call0.v0 main_call0.v1 (cmpi .slt),
    TRef.nullary main_call0.c_0 (constantI S_ 32 16#32),
    TRef.unary main_call0.c_0 main_call0.v2 (broadcastInDim S1000000 ![] bcast_S_S1000000),
    TRef.binary (.of main_arg2) main_call0.v2 main_call0.v3 addi,
    TRef.ternary main_call0.v1 main_call0.v3 (.of main_arg2) main_call0.call0.v0 select,
    TRef.unary main_call0.call0.v0 main_call0.v5 (broadcastInDim S1000000x1 ![0] bcast_S1000000_S1000000x1_0),
    TRef.nullary main_call0.c_1 (constantI S1 32 15#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg1) main_call0.v5 main_call0.v13 (fun x i => Host.gather gather_S16x64_S1000000x1_S1000000x64_1_0_n_n_0_1_164 x i),
    TRef.unary main_call0.v12 main_call0.v14 (broadcastInDim S1000000x64 ![0] bcast_S1000000_S1000000x64_0),
    TRef.nullary main_call0.cst (constant S_ .f32 0x7FC00000#32),
    TRef.unary main_call0.cst main_call0.v15 (broadcastInDim S1000000x64 ![] bcast_S_S1000000x64),
    TRef.ternary main_call0.v14 main_call0.v13 main_call0.v15 main_call0.v16 select,
    binary main_arg0 main_v0 main_v1 (addf : (⟨S1000000x64, .f32⟩ : BufTy).Contents (Elt F) → (⟨S1000000x64, .f32⟩ : BufTy).Contents (Elt F) → (⟨S1000000x64, .f32⟩ : BufTy).Contents (Elt F)) ]

set_option maxRecDepth 1024 in
/-- The program is that straight line: the two called functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

/-- Every execution terminates with each buffer at the fold of the operations over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the arguments -/

/-- The index after the sign wrap: an index below zero has sixteen added. -/
def wrapIdx (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 16#32))) idx

/-- The wrapped indices as a column. -/
def col (idx : IVec S1000000 32) : IVec S1000000x1 32 :=
  broadcastInDim S1000000x1 ![0] bcast_S1000000_S1000000x1_0 (wrapIdx idx)

/-- Entry by entry of the column: is the wrapped index between 0 and 15, both read as signed numbers. -/
def inb (idx : IVec S1000000 32) : IVec S1000000x1 1 :=
  andi (cmpi .sge (col idx) (broadcastInDim S1000000x1 ![] bcast_S_S1000000x1 (constantI S_ 32 0#32)))
    (cmpi .sle (col idx) (broadcastInDim S1000000x1 ![0, 1] bcast_S1x1_S1000000x1_0_1
      (broadcastInDim S1x1 ![1] bcast_S1_S1x1_1 (constantI S1 32 15#32))))

/-- Per row: the conjunction of the column's one entry with the constant one. -/
def mask (idx : IVec S1000000 32) : IVec S1000000 1 :=
  Host.reduce IntOp.andi (inb idx) (constantI S_ 1 1#1) reducesTo_S1000000x1_S1000000_d1 h_S_

/-- The looked-up rows: where the mask holds the gathered table row, elsewhere the fill constant. -/
def took (glob : FVec F S16x64 .f32) (idx : IVec S1000000 32) : FVec F S1000000x64 .f32 :=
  select (broadcastInDim S1000000x64 ![0] bcast_S1000000_S1000000x64_0 (mask idx))
    (Host.gather gather_S16x64_S1000000x1_S1000000x64_1_0_n_n_0_1_164 glob (col idx))
    (broadcastInDim S1000000x64 ![] bcast_S_S1000000x64 (constant S_ .f32 0x7FC00000#32))

/-- The result: the features plus the looked-up rows. -/
def out (feat : FVec F S1000000x64 .f32) (glob : FVec F S16x64 .f32) (idx : IVec S1000000 32) : FVec F S1000000x64 .f32 :=
  addf feat (took glob idx)

attribute [local irreducible] Host.reduce Host.gather in
set_option maxRecDepth 8192 in
/-- The fold of the operations at the result buffer is that term of the three arguments: each operation's result
    rewritten at its own buffer, every intermediate value then stands stored at its typed buffer and read back, which
    is the value; what is left differs only by the transports at the argument buffers, the identity by computation. -/
theorem out_eq (V : Valuation τ sig (Elt F)) :
    after ops V (main_v1 : DevRef τ sig)
      = out (V (main_arg0 : DevRef τ sig)) (V (main_arg1 : DevRef τ sig)) (V (main_arg2 : DevRef τ sig)) := by
  after_results
  simp only [Cert.LibTypedRef.ofBuf_toBuf]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## Reading the term at an index, the indices in range -/

theorem toInt_of_lt {w : BitVec 32} (h : w.toNat < 16) : w.toInt = (w.toNat : Int) := by
  rw [BitVec.toInt_eq_toNat_cond]
  split <;> omega

/-- A word below sixteen is not negative as a signed number. -/
theorem slt_zero_of_lt {w : BitVec 32} (h : w.toNat < 16) : IntOp.cmpi .slt w 0#32 = 0#1 := by
  have hb : w.slt 0#32 = false := by
    rw [BitVec.slt_eq_decide, toInt_of_lt h]
    exact decide_eq_false (by simp)
  show BitVec.ofBool (w.slt 0#32) = 0#1
  rw [hb]; rfl

/-- A word below sixteen is at least zero as a signed number. -/
theorem sge_zero_of_lt {w : BitVec 32} (h : w.toNat < 16) : IntOp.cmpi .sge w 0#32 = 1#1 := by
  have hb : (0#32 : BitVec 32).sle w = true := by
    rw [BitVec.sle_eq_decide, toInt_of_lt h]
    exact decide_eq_true (by simp)
  show BitVec.ofBool ((0#32 : BitVec 32).sle w) = 1#1
  rw [hb]; rfl

/-- A word below sixteen is at most fifteen as a signed number. -/
theorem sle_fifteen_of_lt {w : BitVec 32} (h : w.toNat < 16) : IntOp.cmpi .sle w 15#32 = 1#1 := by
  have e15 : (15#32 : BitVec 32).toInt = 15 := by decide
  have hb : w.sle 15#32 = true := by
    rw [BitVec.sle_eq_decide, toInt_of_lt h, e15]
    exact decide_eq_true (by omega)
  show BitVec.ofBool (w.sle 15#32) = 1#1
  rw [hb]; rfl

/-- The sign wrap leaves an index below sixteen as it is. -/
theorem wrapIdx_apply (idx : IVec S1000000 32) (j : S1000000.Idx) (h : (idx j).toNat < 16) : wrapIdx idx j = idx j := by
  show Scalar.select (IntOp.cmpi .slt (idx j) 0#32) _ (idx j) = idx j
  rw [slt_zero_of_lt h, select_zero]

/-- The column at row e is the wrapped index at e. -/
theorem col_apply (idx : IVec S1000000 32) (j : S1000000x1.Idx) : col idx j = wrapIdx idx (ix1 (j 0)) :=
  broadcastInDim_apply _ _ _ _ (ix1 (j 0)) (fun a => by match a with | ⟨0, _⟩ => rfl)

theorem col_eq (idx : IVec S1000000 32) (j : S1000000x1.Idx) (h : (idx (ix1 (j 0))).toNat < 16) :
    col idx j = idx (ix1 (j 0)) := by
  rw [col_apply, wrapIdx_apply _ _ h]

/-- Where the index is below sixteen the range test holds. -/
theorem inb_apply (idx : IVec S1000000 32) (j : S1000000x1.Idx) (h : (idx (ix1 (j 0))).toNat < 16) : inb idx j = 1#1 := by
  show IntOp.andi (IntOp.cmpi .sge (col idx j) 0#32) (IntOp.cmpi .sle (col idx j) 15#32) = 1#1
  rw [col_eq idx j h, sge_zero_of_lt h, sle_fifteen_of_lt h]
  decide

/-- A conjunction of ones, from one, is one. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi (1#1 : BitVec 1) 1#1 = 1#1 := by decide
    rw [List.foldl_cons, hx a, e]
    exact foldl_andi_ones x hx l

/-- With every index below sixteen the mask holds at every row. -/
theorem mask_apply (idx : IVec S1000000 32) (hidx : ∀ j, (idx j).toNat < 16) (j : S1000000.Idx) : mask idx j = 1#1 := by
  unfold mask
  rw [Host.reduce_eq_foldl]
  exact foldl_andi_ones _ (fun i => inb_apply idx i (hidx _)) _

/-- The looked-up entry (e, k) is the table's entry in the row the e-th index names, at k. -/
theorem took_apply (glob : FVec F S16x64 .f32) (idx : IVec S1000000 32) (hidx : ∀ j, (idx j).toNat < 16)
    (e : Fin 1000000) (k : Fin 64) :
    took glob idx (ix2 e k) = glob (ix2 (Cert.Spec.rowOf (idx (ix1 e))) k) := by
  have hm : broadcastInDim S1000000x64 ![0] bcast_S1000000_S1000000x64_0 (mask idx) (ix2 e k) = 1#1 :=
    mask_apply idx hidx _
  have hg := Idealize.ShloMosaic.EdgeIndex.gather_row_apply (N := 16) (M := 1000000) (D := 64) (by decide)
    gather_S16x64_S1000000x1_S1000000x64_1_0_n_n_0_1_164_wf glob (col idx) e k
  have hc : col idx (ix2 e 0) = idx (ix1 e) := col_eq idx (ix2 e 0) (hidx _)
  unfold took
  rw [select_apply, hm, select_one]
  refine hg.trans (congrArg (fun r : Fin 16 => glob (ix2 r k)) (Fin.ext ?_))
  show min (col idx (ix2 e 0)).toInt.toNat (16 - 1) = min (idx (ix1 e)).toNat 15
  rw [hc, toInt_of_lt (hidx _)]
  omega

/-- With every index below sixteen, the term is the specification's function of the arguments. -/
theorem out_eq_G (feat : FVec F S1000000x64 .f32) (glob : FVec F S16x64 .f32) (idx : IVec S1000000 32)
    (hidx : Cert.Spec.IdxOK idx) : out feat glob idx = Cert.Spec.G feat glob idx := by
  funext i
  have h : took glob idx i = glob (ix2 (Cert.Spec.rowOf (idx (ix1 (i 0)))) (i 1)) :=
    (congrArg (took glob idx) (eq_ix2 i)).trans (took_apply glob idx hidx (i 0) (i 1))
  show FloatOps.addf (feat i) (took glob idx i) = FloatOps.addf (feat i) (glob (ix2 (Cert.Spec.rowOf (idx (ix1 (i 0)))) (i 1)))
  rw [h]

/-! ## The run -/

/-- From any memory whose indices are all below sixteen, every execution terminates with the result buffer at the
    specification's function of the argument arrays, and the arguments as they were. -/
theorem run (m : (ℓ : Loc nD τ sig) → Buf (Elt Ideal) ℓ) (g : Dev nD → PrngReg)
    (hidx : ∀ c : Dev nD, Cert.Spec.IdxOK (m ((c.tc : Thread nD τ).loc main_arg2))) :
    θ_run (defs (F := Ideal)) (onTc (τ := τ) (main (F := Ideal))) ⟨m, fun _ => 0, g⟩ (fun r => ∀ c : Dev nD,
      r.2.mem ((c.tc : Thread nD τ).loc main_v1) = Cert.Spec.G (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v1).trans ((out_eq _).trans (out_eq_G _ _ _ (hidx c))),
        (h c main_arg0).trans (arg0_eq _), (h c main_arg1).trans (arg1_eq _), (h c main_arg2).trans (arg2_eq _)⟩)
    (run_main m g)

end Cert.ReferenceIdeal.RefValue

end
-- ==== Proof.KCommon.lean ====
/-
  The vocabulary shared by the kernel's proof modules: the program as the launch theorem reads it, the resource
  algebra (the handshakes' rounds beside the transfers' counters), a tile's thread, the four arrays in device
  memory as the tiles address them, a tile's seven scratch buffers and ten DMA semaphores, and how a tile's own
  buffers and semaphores are singled out of what it owns.
-/
import proofs.«216121_g54726473285929_cont_9to1_m_355_3_alg».proof.Kernel
import proofs.«216121_g54726473285929_cont_9to1_m_355_3_alg».proof.Proof.Gen.Kernel
import proofs.«216121_g54726473285929_cont_9to1_m_355_3_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## Locations and memrefs -/

/-- The flat feature array, the flat table, the batch indices and the flat result, as locations of device `d`. -/
abbrev fLoc (d : Dev nD) : Loc nD τ sig := (SparseCore.T d).loc main_v0
abbrev gLoc (d : Dev nD) : Loc nD τ sig := (SparseCore.T d).loc main_v1
abbrev iLoc (d : Dev nD) : Loc nD τ sig := (SparseCore.T d).loc main_arg2
abbrev oLoc (d : Dev nD) : Loc nD τ sig := (SparseCore.T d).loc main_v2

abbrev featV : Memref sig .scVector .hbm S64000000 .f32 := Memref.whole main_v0_scv
abbrev globV : Memref sig .scVector .hbm S1024 .f32 := Memref.whole main_v1_scv
abbrev idxV : Memref sig .scVector .hbm S1000000 .i32 := Memref.whole main_arg2_scv
abbrev outV : Memref sig .scVector .hbm S64000000 .f32 := Memref.whole main_v2_scv
/-- A tile's scratch: its copy of the table, three row buffers, three index buffers. -/
abbrev tabS : Memref sig .scVector .vmem S1024 .f32 := Memref.whole cc0_scratch0
abbrev bufS0 : Memref sig .scVector .vmem S25600 .f32 := Memref.whole cc0_scratch1
abbrev bufS1 : Memref sig .scVector .vmem S25600 .f32 := Memref.whole cc0_scratch2
abbrev bufS2 : Memref sig .scVector .vmem S25600 .f32 := Memref.whole cc0_scratch3
abbrev ixS0 : Memref sig .scVector .vmem S400 .i32 := Memref.whole cc0_scratch4
abbrev ixS1 : Memref sig .scVector .vmem S400 .i32 := Memref.whole cc0_scratch5
abbrev ixS2 : Memref sig .scVector .vmem S400 .i32 := Memref.whole cc0_scratch6

/-- The tile at grid coordinates `L`: its SparseCore, its subcore, its thread. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The tile's `k`-th DMA semaphore: 0–2 complete the row fetches, 3–5 the index fetches, 6–8 the write-backs,
    9 the table's copy. -/
abbrev cell (d : Dev nD) (L : grid0.Coords) (k : Fin 10) : GSem nD τ sig := (thrV d L, .dma (Fin.cast (by decide) k))

end Cert.Kernel.Hand

end
-- ==== Proof.KOwn.lean ====
/-
  A tile's own semaphores and buffers, singled out: of the cells a tile owns, its ten DMA semaphores at zero and the
  rest; of the buffers it owns, its seven scratch buffers (each at some contents) and the rest.
-/
import proofs.«216121_g54726473285929_cont_9to1_m_355_3_alg».proof.Proof.KCommon

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile's DMA semaphore number `k`. -/
abbrev dcell (d : Dev nD) (L : grid0.Coords) (k : DmaSem sig) : GSem nD τ sig := (thrV d L, .dma k)

def dcells (d : Dev nD) (L : grid0.Coords) : Finset (GSem nD τ sig) := Finset.univ.image (dcell d L)

theorem dcells_sub (d : Dev nD) (L : grid0.Coords) : dcells d L ⊆ ownCells (thrV d L) := by
  intro g hg
  obtain ⟨k, -, rfl⟩ := Finset.mem_image.mp hg
  refine mem_ownCells.mpr ⟨rfl, ?_⟩
  exact (by decide : ∀ k : DmaSem sig, (SemLoc.dma k : SemLoc sig).isScoped .scVector = true) k

theorem dcell_inj (d : Dev nD) (L : grid0.Coords) : Set.InjOn (dcell d L) ((Finset.univ : Finset (DmaSem sig)) : Set _) := by
  intro a _ b _ e
  exact SemLoc.dma.inj (Prod.mk.inj e).2

/-- The tile's ten DMA semaphores at zero, and its other cells at zero. -/
theorem ownSems0_V (d : Dev nD) (L : grid0.Coords) :
    (ownSems0 (thrV d L) : sProp 𝕄)
      = iprop((semVal (dcell d L ⟨0, by decide⟩) 0 ∗ semVal (dcell d L ⟨1, by decide⟩) 0 ∗ semVal (dcell d L ⟨2, by decide⟩) 0
          ∗ semVal (dcell d L ⟨3, by decide⟩) 0 ∗ semVal (dcell d L ⟨4, by decide⟩) 0 ∗ semVal (dcell d L ⟨5, by decide⟩) 0
          ∗ semVal (dcell d L ⟨6, by decide⟩) 0 ∗ semVal (dcell d L ⟨7, by decide⟩) 0 ∗ semVal (dcell d L ⟨8, by decide⟩) 0
          ∗ semVal (dcell d L ⟨9, by decide⟩) 0)
          ∗ bigSep (ownCells (thrV d L) \ dcells d L) fun g => semVal g 0) := by
  unfold SparseCore.Cfg.ownSems0
  rw [SparseCore.bigSep_sdiff_split' (dcells_sub d L)]
  unfold dcells
  rw [SparseCore.bigSep_image_of_injOn (dcell_inj d L) (fun g => (semVal g 0 : sProp 𝕄)),
    show (Finset.univ : Finset (DmaSem sig)) = {⟨0, by decide⟩, ⟨1, by decide⟩, ⟨2, by decide⟩, ⟨3, by decide⟩, ⟨4, by decide⟩,
      ⟨5, by decide⟩, ⟨6, by decide⟩, ⟨7, by decide⟩, ⟨8, by decide⟩, ⟨9, by decide⟩} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tile's scratch buffer behind a scratch reference. -/
abbrev sref (L : grid0.Coords) (r : Ref sig .scVector) : DevRef τ sig := (Proc.scVector (cV L) (jV L)).devRef r

def srefs (L : grid0.Coords) : Finset (DevRef τ sig) :=
  ({cc0_scratch0, cc0_scratch1, cc0_scratch2, cc0_scratch3, cc0_scratch4, cc0_scratch5, cc0_scratch6} : Finset (Ref sig .scVector)).image (sref L)

theorem srefs_sub (L : grid0.Coords) : srefs L ⊆ ownRefs (τ := τ) (.scVector (cV L) (jV L)) := by
  intro b hb
  obtain ⟨r, hr, rfl⟩ := Finset.mem_image.mp hb
  simp only [Finset.mem_insert, Finset.mem_singleton] at hr
  rcases hr with rfl | rfl | rfl | rfl | rfl | rfl | rfl <;>
    exact SparseCore.Cfg.mem_ownRefs_of_owner (p := Proc.scVector (cV L) (jV L)) rfl

theorem sref_inj (L : grid0.Coords) (s : Finset (Ref sig .scVector)) : Set.InjOn (sref L) (s : Set _) :=
  fun _ _ _ _ e => Proc.devRef_injective _ e

/-- The tile's seven scratch buffers, each whole at some contents, and its other buffers. -/
theorem ownBufs_V (d : Dev nD) (L : grid0.Coords) :
    (ownBufs (thrV d L) : sProp 𝕄)
      = iprop(((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ (∃ f, (thrV d L).loc cc0_scratch6 ↦{fullShare} f))
          ∗ bigSep (ownRefs (τ := τ) (.scVector (cV L) (jV L)) \ srefs L) fun b => iprop(∃ f, ((d, b) : Loc nD τ sig) ↦{fullShare} f)) := by
  unfold SparseCore.Cfg.ownBufs
  rw [show (thrV d L).2 = Proc.scVector (cV L) (jV L) from rfl, SparseCore.bigSep_sdiff_split' (srefs_sub L)]
  unfold srefs
  rw [SparseCore.bigSep_image_of_injOn (sref_inj L _) (fun b => (iprop(∃ f, ((d, b) : Loc nD τ sig) ↦{fullShare} f) : sProp 𝕄)),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cert.Kernel.Hand

end
-- ==== Proof.FlatSpec.lean ====
/-
  The specification on flat arrays. The host reshapes the feature array [1000000, 64] to [64000000] and the table
  [16, 64] to [1024] before the kernel, and the kernel's flat result [64000000] back to [1000000, 64] after it; a
  reshape keeps row-major positions. So flat position n of the result is feature n plus table entry
  (row named by index n / 64) * 64 + n % 64, and reshaping that flat array back gives the specification's G.
-/
import proofs.«216121_g54726473285929_cont_9to1_m_355_3_alg».proof.Proof.Spec
import Idealize.ShloMosaic.PureOps
import Idealize.ShloMosaic.Lib.ValueIdx
import Idealize.ShloMosaic.Lib.Pipeline.Value

noncomputable section

namespace Cert.Proof.FlatSpec

open Idealize.ShloMosaic Idealize.ShloMosaic.ValueIdx
open Cert.Spec (SNC SBC SN rowOf G)

/-- The flat feature array's shape: 1000000 rows of 64. -/
abbrev SF : Shape := ⟨1, ![64000000]⟩
/-- The flat table's shape: 16 rows of 64. -/
abbrev ST : Shape := ⟨1, ![1024]⟩

/-- The row of a flat feature position. -/
theorem row_lt (n : Nat) (h : n < 64000000) : n / 64 < 1000000 := by omega

/-- A table row and a column give a flat table position. -/
theorem tab_lt (r : Fin 16) (n : Nat) : r.val * 64 + n % 64 < 1024 := by
  have := r.isLt
  omega

/-- A table row and a column below 64 give a flat table position. -/
theorem tab_lt' (r : Fin 16) (c : Nat) (hc : c < 64) : r.val * 64 + c < 1024 := by
  have := r.isLt
  omega

variable {F : FTy → Type} [FloatOps F]

/-- The result on flat arrays: position n is feature n plus the table entry at (row named by index n / 64, column n % 64). -/
def Gflat (ff : FVec F SF .f32) (gf : FVec F ST .f32) (idx : IVec SN 32) : FVec F SF .f32 :=
  fun j => FloatOps.addf (ff j)
    (gf (ix1 ⟨(rowOf (idx (ix1 ⟨(j 0).val / 64, row_lt _ (j 0).isLt⟩))).val * 64 + (j 0).val % 64, tab_lt _ _⟩))

/-- `Gflat` at a flat position given as a number. -/
theorem Gflat_at (ff : FVec F SF .f32) (gf : FVec F ST .f32) (idx : IVec SN 32) (n : Nat) (hn : n < 64000000) :
    Gflat ff gf idx (ix1 ⟨n, hn⟩)
      = FloatOps.addf (ff (ix1 ⟨n, hn⟩))
          (gf (ix1 ⟨(rowOf (idx (ix1 ⟨n / 64, row_lt n hn⟩))).val * 64 + n % 64, tab_lt _ _⟩)) := rfl

/-- `Gflat` at a flat position whose row and column are known. -/
theorem Gflat_at_rc (ff : FVec F SF .f32) (gf : FVec F ST .f32) (idx : IVec SN 32) (n : Nat) (hn : n < 64000000)
    (r : Fin 1000000) (c : Fin 64) (hr : n / 64 = r.val) (hc : n % 64 = c.val) :
    Gflat ff gf idx (ix1 ⟨n, hn⟩)
      = FloatOps.addf (ff (ix1 ⟨n, hn⟩)) (gf (ix1 ⟨(rowOf (idx (ix1 r))).val * 64 + c.val, tab_lt' _ _ c.isLt⟩)) := by
  obtain ⟨r, hr'⟩ := r
  obtain ⟨c, hc'⟩ := c
  simp only at hr hc
  subst hr
  subst hc
  rfl

/-- Reshaping the flat result of the reshaped arguments back to rows gives the specification. -/
theorem unflatten (feat : FVec F SNC .f32) (glob : FVec F SBC .f32) (idx : IVec SN 32)
    (h1 : SNC.ShapeCasts SF) (h2 : SBC.ShapeCasts ST) (h3 : SF.ShapeCasts SNC) :
    shapeCast SNC (Gflat (shapeCast SF feat h1) (shapeCast ST glob h2) idx) h3 = G feat glob idx := by
  funext i
  have hi0 : (i 0).val < 1000000 := (i 0).isLt
  have hi1 : (i 1).val < 64 := (i 1).isLt
  have hn : (i 0).val * 64 + (i 1).val < 64000000 := by omega
  -- the outer reshape at (r, c) reads flat position r * 64 + c
  rw [shapeCast_apply _ h3 i (ix1 ⟨(i 0).val * 64 + (i 1).val, hn⟩)
    (by rw [Shape.rowMajor_val_one, Shape.rowMajor_val_two]; rfl)]
  -- that position has row r and column c
  rw [Gflat_at_rc _ _ idx _ hn (i 0) (i 1) (by omega) (by omega)]
  -- the flat feature there is feat (r, c)
  rw [shapeCast_apply feat h1 (ix1 ⟨(i 0).val * 64 + (i 1).val, hn⟩) i
    (by rw [Shape.rowMajor_val_one, Shape.rowMajor_val_two]; rfl)]
  -- the flat table entry is glob (row, c)
  rw [shapeCast_apply glob h2 (ix1 ⟨(rowOf (idx (ix1 (i 0)))).val * 64 + (i 1).val, tab_lt' _ _ hi1⟩)
    (ix2 (rowOf (idx (ix1 (i 0)))) (i 1))
    (by rw [Shape.rowMajor_val_one, Shape.rowMajor_val_two]; rfl)]
  rfl

/-- The flat result read by chunks of 25600 = 400 rows: position g * 25600 + p lies in row g * 400 + p / 64, column p % 64. -/
theorem Gflat_chunk (ff : FVec F SF .f32) (gf : FVec F ST .f32) (idx : IVec SN 32) (g p : Nat)
    (hg : g < 2500) (hp : p < 25600) :
    Gflat ff gf idx (ix1 ⟨g * 25600 + p, by omega⟩)
      = FloatOps.addf (ff (ix1 ⟨g * 25600 + p, by omega⟩))
          (gf (ix1 ⟨(rowOf (idx (ix1 ⟨g * 400 + p / 64, by omega⟩))).val * 64 + p % 64, tab_lt _ _⟩)) :=
  Gflat_at_rc ff gf idx (g * 25600 + p) (by omega) ⟨g * 400 + p / 64, by omega⟩ ⟨p % 64, Nat.mod_lt _ (by omega)⟩
    (by show (g * 25600 + p) / 64 = g * 400 + p / 64; omega) (by show (g * 25600 + p) % 64 = p % 64; omega)

end Cert.Proof.FlatSpec

end
-- ==== Proof.Deal.lean ====
/-
  Dealing the flat result array out to the thirty-two workers. The array of 64000000 words is cut into 2500 chunks of
  25600 consecutive positions; worker 2 * i + c (core c of two, tile i of sixteen) takes the chunks numbered
  2 * i + c + 32 * t, t = 0 .. 80, that are below 2500 (turns 79 and 80 name none). Distinct triples (c, i, t) name distinct chunks and every chunk
  below 2500 is named, so the sets are pairwise disjoint and cover the array; a points-to of the whole array is then
  the iterated separating conjunction of the points-to's of the sets. The second half splits a points-to into a
  remainder and one read share per worker.
-/
import Idealize.ShloMosaic.Rules.PointsTo
import Idealize.ShloMosaic.Lib.Transfers
import Idealize.SL.BI.BigOp

noncomputable section

namespace Cert.Proof.Deal

open Idealize.ShloMosaic
open Idealize.SL
open Idealize.SL.RA Idealize.SL.Sem
open Idealize.SL.BI (sProp bigSep bigSep_univ_prod bigSep_univ_equiv)
open scoped Idealize.SL.BI
open Idealize.SL.BI.BIBase Idealize.SL.BI.Laws

/-! ## Geometry -/

/-- The flat array's shape. -/
abbrev SF : Shape := ⟨1, ![64000000]⟩

/-- 64000000 = 2500 * 25600. -/
theorem hdiv : 2500 ∣ SF.size 0 := ⟨25600, rfl⟩

/-- Chunk g: the positions from 25600 * g up to 25600 * (g + 1). -/
abbrev chunk (g : Fin 2500) : Rect SF := Rect.part (s := SF) (a₀ := 0) hdiv g

/-- The positions of the chunk that (core c, tile i, turn t) names, none if its number is not below 2500. -/
def tset (x : Fin 2 × Fin 16 × Fin 81) : Finset SF.Idx :=
  if h : 2 * x.2.1.val + x.1.val + 32 * x.2.2.val < 2500 then (chunk ⟨_, h⟩).set else ∅

/-- A triple whose chunk number is not below 2500 names no position. -/
theorem tset_empty (x : Fin 2 × Fin 16 × Fin 81) (h : 2500 ≤ 2 * x.2.1.val + x.1.val + 32 * x.2.2.val) : tset x = ∅ :=
  dif_neg (Nat.not_lt.mpr h)

/-- A triple whose chunk number is below 2500 names that chunk's positions. -/
theorem tset_chunk (x : Fin 2 × Fin 16 × Fin 81) (h : 2 * x.2.1.val + x.1.val + 32 * x.2.2.val < 2500) :
    tset x = (chunk ⟨_, h⟩).set :=
  dif_pos h

/-- Distinct triples name disjoint sets: the chunk number 2 * i + c + 32 * t determines c, i and t. -/
theorem tset_disjoint : ∀ x ∈ (Finset.univ : Finset (Fin 2 × Fin 16 × Fin 81)),
    ∀ y ∈ (Finset.univ : Finset (Fin 2 × Fin 16 × Fin 81)), x ≠ y → Disjoint (tset x) (tset y) := by
  rintro ⟨c, i, t⟩ - ⟨c', i', t'⟩ - hxy
  unfold tset
  dsimp only
  split_ifs with hx hy
  · refine Rect.part_disjoint hdiv fun e => hxy ?_
    have e' : 2 * i.val + c.val + 32 * t.val = 2 * i'.val + c'.val + 32 * t'.val := congrArg Fin.val e
    have h1 : c = c' := Fin.ext (by omega)
    have h2 : i = i' := Fin.ext (by omega)
    have h3 : t = t' := Fin.ext (by omega)
    rw [h1, h2, h3]
  · exact Finset.disjoint_empty_right _
  · exact Finset.disjoint_empty_left _
  · exact Finset.disjoint_empty_left _

/-- Every position lies in a named set: chunk g is named by c = g % 2, i = g % 32 / 2, t = g / 32. -/
theorem tset_cover : (Finset.univ : Finset (Fin 2 × Fin 16 × Fin 81)).biUnion tset = Finset.univ := by
  ext p
  simp only [Finset.mem_biUnion, Finset.mem_univ, true_and, iff_true]
  obtain ⟨g, hg⟩ := Rect.exists_mem_part hdiv p
  have hg' := g.isLt
  have hlt : 2 * (g.val % 32 / 2) + g.val % 2 + 32 * (g.val / 32) < 2500 := by omega
  have e : (⟨2 * (g.val % 32 / 2) + g.val % 2 + 32 * (g.val / 32), hlt⟩ : Fin 2500) = g := Fin.ext (by
    show 2 * (g.val % 32 / 2) + g.val % 2 + 32 * (g.val / 32) = g.val
    omega)
  refine ⟨(⟨g.val % 2, by omega⟩, ⟨g.val % 32 / 2, by omega⟩, ⟨g.val / 32, by omega⟩), ?_⟩
  show p ∈ (if h : 2 * (g.val % 32 / 2) + g.val % 2 + 32 * (g.val / 32) < 2500 then (chunk ⟨_, h⟩).set else ∅)
  rw [dif_pos hlt, e]
  exact hg

/-- Chunk g as the unit-stride rectangle of 25600 positions from 25600 * g. -/
theorem chunk_eq_unit (g : Fin 2500)
    (h : ∀ a, (![25600 * g.val] : Fin SF.rank → Nat) a + (⟨1, ![25600]⟩ : Shape).size a ≤ SF.size a) :
    chunk g = Rect.unit (s := SF) ![25600 * g.val] (⟨1, ![25600]⟩ : Shape).size h := by
  unfold chunk Rect.part Rect.block
  congr 1 <;> funext a
  · match a with
    | 0 => simp [Shape.partIx, Shape.partSize, Nat.mul_comm]
  · match a with
    | 0 => simp [Shape.partSize]

/-! ## Separation logic -/

section Sep

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {f : Buf Val ℓ}

/-- A points-to of the whole buffer, dealt out along a pairwise disjoint cover indexed by (core, tile, turn). -/
theorem deal_out {q : PosShare TreeShare} (K' : Fin 2 × Fin 16 × Fin 81 → Finset (Idx ℓ))
    (hd : ∀ x ∈ (Finset.univ : Finset (Fin 2 × Fin 16 × Fin 81)),
      ∀ y ∈ (Finset.univ : Finset (Fin 2 × Fin 16 × Fin 81)), x ≠ y → Disjoint (K' x) (K' y))
    (hc : (Finset.univ : Finset (Fin 2 × Fin 16 × Fin 81)).biUnion K' = Finset.univ) :
    (ℓ ↦{q} f : sProp 𝕄)
      = bigSep Finset.univ fun c : Fin 2 => bigSep Finset.univ fun i : Fin 16 => bigSep Finset.univ fun t : Fin 81 =>
          ℓ ↦[K' (c, i, t)]{q} f := by
  have e : (ℓ ↦{q} f : sProp 𝕄) = (ℓ ↦[(Finset.univ : Finset (Fin 2 × Fin 16 × Fin 81)).biUnion K']{q} f) := by rw [hc]
  rw [e, pointsTo_biUnion _ _ hd, bigSep_univ_prod]
  refine congrArg (bigSep Finset.univ) (funext fun c => ?_)
  exact bigSep_univ_prod (fun b : Fin 16 × Fin 81 => (ℓ ↦[K' (c, b)]{q} f : sProp 𝕄))

/-- Worker numbers: (core c, tile i) is worker 2 * i + c, and every number below 32 is one. -/
def workerEquiv : Fin 2 × Fin 16 ≃ Fin 32 where
  toFun x := ⟨2 * x.2.val + x.1.val, by omega⟩
  invFun k := (⟨k.val % 2, by omega⟩, ⟨k.val / 2, by omega⟩)
  left_inv x := by
    obtain ⟨c, i⟩ := x
    exact Prod.ext (Fin.ext (by show (2 * i.val + c.val) % 2 = c.val; omega))
      (Fin.ext (by show (2 * i.val + c.val) / 2 = i.val; omega))
  right_inv k := Fin.ext (by show 2 * (k.val / 2) + k.val % 2 = k.val; omega)

/-- A points-to split into a remainder and one read share per worker. -/
theorem deal_toks (S : Finset (Idx ℓ)) (q : PosShare TreeShare) :
    (ℓ ↦[S]{q} f : sProp 𝕄) ⊣⊢ iprop((ℓ ↦[S]{Transfers.shareDrop q 32} f) ∗
      bigSep Finset.univ fun c : Fin 2 => bigSep Finset.univ fun i : Fin 16 =>
        ℓ ↦[S]{Transfers.shareTok q 32 ⟨2 * i.val + c.val, by omega⟩} f) := by
  have h := Transfers.pointsTo_toks (Ix := Ix) (Name := Name) (U := U) (Lvl := Lvl) (ℓ := ℓ) (S := S) (f := f) q 32
  rw [bigSep_univ_equiv workerEquiv, bigSep_univ_prod] at h
  exact h

end Sep

end Cert.Proof.Deal

end
-- ==== Proof.KOff.lean ====
/-
  Closed forms of the row buffers' offset chains: within trip k of a compute loop, the block of sixteen lanes at
  row r, lane group q, starts at 1024 k + 64 r + 16 q. One equation per chain and pair of constants it is served
  at, decided over the loop's trips, and registered as instances so that two blocks' positions are compared by value.
-/
import proofs.«216121_g54726473285929_cont_9to1_m_355_3_alg».proof.Kernel
import proofs.«216121_g54726473285929_cont_9to1_m_355_3_alg».proof.Proof.Gen.Kernel
import Idealize.ShloMosaic.Lib.Decide
import Idealize.ShloMosaic.Lib.Exec

set_option Elab.async false

namespace Cert.Kernel.Hand

open Cert.Kernel Cert.Kernel.Gen

open Idealize.ShloMosaic

theorem k0_off8_cf0 : ∀ k : Fin k0_t1_loop.trips, k0_off8 k 0#32 0#32 = ![1024 * k.val + 0] := by decide +kernel
instance closedOff_k0_off8_0 (k : Fin k0_t1_loop.trips) : ClosedOff (k0_off8 k 0#32 0#32) := ⟨![1024 * k.val + 0], k0_off8_cf0 k⟩
theorem k0_off8_cf1 : ∀ k : Fin k0_t1_loop.trips, k0_off8 k 0#32 16#32 = ![1024 * k.val + 16] := by decide +kernel
instance closedOff_k0_off8_1 (k : Fin k0_t1_loop.trips) : ClosedOff (k0_off8 k 0#32 16#32) := ⟨![1024 * k.val + 16], k0_off8_cf1 k⟩
theorem k0_off8_cf2 : ∀ k : Fin k0_t1_loop.trips, k0_off8 k 0#32 32#32 = ![1024 * k.val + 32] := by decide +kernel
instance closedOff_k0_off8_2 (k : Fin k0_t1_loop.trips) : ClosedOff (k0_off8 k 0#32 32#32) := ⟨![1024 * k.val + 32], k0_off8_cf2 k⟩
theorem k0_off8_cf3 : ∀ k : Fin k0_t1_loop.trips, k0_off8 k 0#32 48#32 = ![1024 * k.val + 48] := by decide +kernel
instance closedOff_k0_off8_3 (k : Fin k0_t1_loop.trips) : ClosedOff (k0_off8 k 0#32 48#32) := ⟨![1024 * k.val + 48], k0_off8_cf3 k⟩
theorem k0_off8_cf4 : ∀ k : Fin k0_t1_loop.trips, k0_off8 k 64#32 0#32 = ![1024 * k.val + 64] := by decide +kernel
instance closedOff_k0_off8_4 (k : Fin k0_t1_loop.trips) : ClosedOff (k0_off8 k 64#32 0#32) := ⟨![1024 * k.val + 64], k0_off8_cf4 k⟩
theorem k0_off10_cf0 : ∀ k : Fin k0_t1_loop.trips, k0_off10 k 64#32 0#32 = ![1024 * k.val + 64] := by decide +kernel
instance closedOff_k0_off10_0 (k : Fin k0_t1_loop.trips) : ClosedOff (k0_off10 k 64#32 0#32) := ⟨![1024 * k.val + 64], k0_off10_cf0 k⟩
theorem k0_off10_cf1 : ∀ k : Fin k0_t1_loop.trips, k0_off10 k 64#32 16#32 = ![1024 * k.val + 80] := by decide +kernel
instance closedOff_k0_off10_1 (k : Fin k0_t1_loop.trips) : ClosedOff (k0_off10 k 64#32 16#32) := ⟨![1024 * k.val + 80], k0_off10_cf1 k⟩
theorem k0_off10_cf2 : ∀ k : Fin k0_t1_loop.trips, k0_off10 k 64#32 32#32 = ![1024 * k.val + 96] := by decide +kernel
instance closedOff_k0_off10_2 (k : Fin k0_t1_loop.trips) : ClosedOff (k0_off10 k 64#32 32#32) := ⟨![1024 * k.val + 96], k0_off10_cf2 k⟩
theorem k0_off10_cf3 : ∀ k : Fin k0_t1_loop.trips, k0_off10 k 64#32 48#32 = ![1024 * k.val + 112] := by decide +kernel
instance closedOff_k0_off10_3 (k : Fin k0_t1_loop.trips) : ClosedOff (k0_off10 k 64#32 48#32) := ⟨![1024 * k.val + 112], k0_off10_cf3 k⟩
theorem k0_off10_cf4 : ∀ k : Fin k0_t1_loop.trips, k0_off10 k 128#32 0#32 = ![1024 * k.val + 128] := by decide +kernel
instance closedOff_k0_off10_4 (k : Fin k0_t1_loop.trips) : ClosedOff (k0_off10 k 128#32 0#32) := ⟨![1024 * k.val + 128], k0_off10_cf4 k⟩
theorem k0_off12_cf0 : ∀ k : Fin k0_t1_loop.trips, k0_off12 k 128#32 0#32 = ![1024 * k.val + 128] := by decide +kernel
instance closedOff_k0_off12_0 (k : Fin k0_t1_loop.trips) : ClosedOff (k0_off12 k 128#32 0#32) := ⟨![1024 * k.val + 128], k0_off12_cf0 k⟩
theorem k0_off12_cf1 : ∀ k : Fin k0_t1_loop.trips, k0_off12 k 128#32 16#32 = ![1024 * k.val + 144] := by decide +kernel
instance closedOff_k0_off12_1 (k : Fin k0_t1_loop.trips) : ClosedOff (k0_off12 k 128#32 16#32) := ⟨![1024 * k.val + 144], k0_off12_cf1 k⟩
theorem k0_off12_cf2 : ∀ k : Fin k0_t1_loop.trips, k0_off12 k 128#32 32#32 = ![1024 * k.val + 160] := by decide +kernel
instance closedOff_k0_off12_2 (k : Fin k0_t1_loop.trips) : ClosedOff (k0_off12 k 128#32 32#32) := ⟨![1024 * k.val + 160], k0_off12_cf2 k⟩
theorem k0_off12_cf3 : ∀ k : Fin k0_t1_loop.trips, k0_off12 k 128#32 48#32 = ![1024 * k.val + 176] := by decide +kernel
instance closedOff_k0_off12_3 (k : Fin k0_t1_loop.trips) : ClosedOff (k0_off12 k 128#32 48#32) := ⟨![1024 * k.val + 176], k0_off12_cf3 k⟩
theorem k0_off12_cf4 : ∀ k : Fin k0_t1_loop.trips, k0_off12 k 192#32 0#32 = ![1024 * k.val + 192] := by decide +kernel
instance closedOff_k0_off12_4 (k : Fin k0_t1_loop.trips) : ClosedOff (k0_off12 k 192#32 0#32) := ⟨![1024 * k.val + 192], k0_off12_cf4 k⟩
theorem k0_off14_cf0 : ∀ k : Fin k0_t1_loop.trips, k0_off14 k 192#32 0#32 = ![1024 * k.val + 192] := by decide +kernel
instance closedOff_k0_off14_0 (k : Fin k0_t1_loop.trips) : ClosedOff (k0_off14 k 192#32 0#32) := ⟨![1024 * k.val + 192], k0_off14_cf0 k⟩
theorem k0_off14_cf1 : ∀ k : Fin k0_t1_loop.trips, k0_off14 k 192#32 16#32 = ![1024 * k.val + 208] := by decide +kernel
instance closedOff_k0_off14_1 (k : Fin k0_t1_loop.trips) : ClosedOff (k0_off14 k 192#32 16#32) := ⟨![1024 * k.val + 208], k0_off14_cf1 k⟩
theorem k0_off14_cf2 : ∀ k : Fin k0_t1_loop.trips, k0_off14 k 192#32 32#32 = ![1024 * k.val + 224] := by decide +kernel
instance closedOff_k0_off14_2 (k : Fin k0_t1_loop.trips) : ClosedOff (k0_off14 k 192#32 32#32) := ⟨![1024 * k.val + 224], k0_off14_cf2 k⟩
theorem k0_off14_cf3 : ∀ k : Fin k0_t1_loop.trips, k0_off14 k 192#32 48#32 = ![1024 * k.val + 240] := by decide +kernel
instance closedOff_k0_off14_3 (k : Fin k0_t1_loop.trips) : ClosedOff (k0_off14 k 192#32 48#32) := ⟨![1024 * k.val + 240], k0_off14_cf3 k⟩
theorem k0_off14_cf4 : ∀ k : Fin k0_t1_loop.trips, k0_off14 k 256#32 0#32 = ![1024 * k.val + 256] := by decide +kernel
instance closedOff_k0_off14_4 (k : Fin k0_t1_loop.trips) : ClosedOff (k0_off14 k 256#32 0#32) := ⟨![1024 * k.val + 256], k0_off14_cf4 k⟩
theorem k0_off16_cf0 : ∀ k : Fin k0_t1_loop.trips, k0_off16 k 256#32 0#32 = ![1024 * k.val + 256] := by decide +kernel
instance closedOff_k0_off16_0 (k : Fin k0_t1_loop.trips) : ClosedOff (k0_off16 k 256#32 0#32) := ⟨![1024 * k.val + 256], k0_off16_cf0 k⟩
theorem k0_off16_cf1 : ∀ k : Fin k0_t1_loop.trips, k0_off16 k 256#32 16#32 = ![1024 * k.val + 272] := by decide +kernel
instance closedOff_k0_off16_1 (k : Fin k0_t1_loop.trips) : ClosedOff (k0_off16 k 256#32 16#32) := ⟨![1024 * k.val + 272], k0_off16_cf1 k⟩
theorem k0_off16_cf2 : ∀ k : Fin k0_t1_loop.trips, k0_off16 k 256#32 32#32 = ![1024 * k.val + 288] := by decide +kernel
instance closedOff_k0_off16_2 (k : Fin k0_t1_loop.trips) : ClosedOff (k0_off16 k 256#32 32#32) := ⟨![1024 * k.val + 288], k0_off16_cf2 k⟩
theorem k0_off16_cf3 : ∀ k : Fin k0_t1_loop.trips, k0_off16 k 256#32 48#32 = ![1024 * k.val + 304] := by decide +kernel
instance closedOff_k0_off16_3 (k : Fin k0_t1_loop.trips) : ClosedOff (k0_off16 k 256#32 48#32) := ⟨![1024 * k.val + 304], k0_off16_cf3 k⟩
theorem k0_off16_cf4 : ∀ k : Fin k0_t1_loop.trips, k0_off16 k 320#32 0#32 = ![1024 * k.val + 320] := by decide +kernel
instance closedOff_k0_off16_4 (k : Fin k0_t1_loop.trips) : ClosedOff (k0_off16 k 320#32 0#32) := ⟨![1024 * k.val + 320], k0_off16_cf4 k⟩
theorem k0_off18_cf0 : ∀ k : Fin k0_t1_loop.trips, k0_off18 k 320#32 0#32 = ![1024 * k.val + 320] := by decide +kernel
instance closedOff_k0_off18_0 (k : Fin k0_t1_loop.trips) : ClosedOff (k0_off18 k 320#32 0#32) := ⟨![1024 * k.val + 320], k0_off18_cf0 k⟩
theorem k0_off18_cf1 : ∀ k : Fin k0_t1_loop.trips, k0_off18 k 320#32 16#32 = ![1024 * k.val + 336] := by decide +kernel
instance closedOff_k0_off18_1 (k : Fin k0_t1_loop.trips) : ClosedOff (k0_off18 k 320#32 16#32) := ⟨![1024 * k.val + 336], k0_off18_cf1 k⟩
theorem k0_off18_cf2 : ∀ k : Fin k0_t1_loop.trips, k0_off18 k 320#32 32#32 = ![1024 * k.val + 352] := by decide +kernel
instance closedOff_k0_off18_2 (k : Fin k0_t1_loop.trips) : ClosedOff (k0_off18 k 320#32 32#32) := ⟨![1024 * k.val + 352], k0_off18_cf2 k⟩
theorem k0_off18_cf3 : ∀ k : Fin k0_t1_loop.trips, k0_off18 k 320#32 48#32 = ![1024 * k.val + 368] := by decide +kernel
instance closedOff_k0_off18_3 (k : Fin k0_t1_loop.trips) : ClosedOff (k0_off18 k 320#32 48#32) := ⟨![1024 * k.val + 368], k0_off18_cf3 k⟩
theorem k0_off18_cf4 : ∀ k : Fin k0_t1_loop.trips, k0_off18 k 384#32 0#32 = ![1024 * k.val + 384] := by decide +kernel
instance closedOff_k0_off18_4 (k : Fin k0_t1_loop.trips) : ClosedOff (k0_off18 k 384#32 0#32) := ⟨![1024 * k.val + 384], k0_off18_cf4 k⟩
theorem k0_off20_cf0 : ∀ k : Fin k0_t1_loop.trips, k0_off20 k 384#32 0#32 = ![1024 * k.val + 384] := by decide +kernel
instance closedOff_k0_off20_0 (k : Fin k0_t1_loop.trips) : ClosedOff (k0_off20 k 384#32 0#32) := ⟨![1024 * k.val + 384], k0_off20_cf0 k⟩
theorem k0_off20_cf1 : ∀ k : Fin k0_t1_loop.trips, k0_off20 k 384#32 16#32 = ![1024 * k.val + 400] := by decide +kernel
instance closedOff_k0_off20_1 (k : Fin k0_t1_loop.trips) : ClosedOff (k0_off20 k 384#32 16#32) := ⟨![1024 * k.val + 400], k0_off20_cf1 k⟩
theorem k0_off20_cf2 : ∀ k : Fin k0_t1_loop.trips, k0_off20 k 384#32 32#32 = ![1024 * k.val + 416] := by decide +kernel
instance closedOff_k0_off20_2 (k : Fin k0_t1_loop.trips) : ClosedOff (k0_off20 k 384#32 32#32) := ⟨![1024 * k.val + 416], k0_off20_cf2 k⟩
theorem k0_off20_cf3 : ∀ k : Fin k0_t1_loop.trips, k0_off20 k 384#32 48#32 = ![1024 * k.val + 432] := by decide +kernel
instance closedOff_k0_off20_3 (k : Fin k0_t1_loop.trips) : ClosedOff (k0_off20 k 384#32 48#32) := ⟨![1024 * k.val + 432], k0_off20_cf3 k⟩
theorem k0_off20_cf4 : ∀ k : Fin k0_t1_loop.trips, k0_off20 k 448#32 0#32 = ![1024 * k.val + 448] := by decide +kernel
instance closedOff_k0_off20_4 (k : Fin k0_t1_loop.trips) : ClosedOff (k0_off20 k 448#32 0#32) := ⟨![1024 * k.val + 448], k0_off20_cf4 k⟩
theorem k0_off22_cf0 : ∀ k : Fin k0_t1_loop.trips, k0_off22 k 448#32 0#32 = ![1024 * k.val + 448] := by decide +kernel
instance closedOff_k0_off22_0 (k : Fin k0_t1_loop.trips) : ClosedOff (k0_off22 k 448#32 0#32) := ⟨![1024 * k.val + 448], k0_off22_cf0 k⟩
theorem k0_off22_cf1 : ∀ k : Fin k0_t1_loop.trips, k0_off22 k 448#32 16#32 = ![1024 * k.val + 464] := by decide +kernel
instance closedOff_k0_off22_1 (k : Fin k0_t1_loop.trips) : ClosedOff (k0_off22 k 448#32 16#32) := ⟨![1024 * k.val + 464], k0_off22_cf1 k⟩
theorem k0_off22_cf2 : ∀ k : Fin k0_t1_loop.trips, k0_off22 k 448#32 32#32 = ![1024 * k.val + 480] := by decide +kernel
instance closedOff_k0_off22_2 (k : Fin k0_t1_loop.trips) : ClosedOff (k0_off22 k 448#32 32#32) := ⟨![1024 * k.val + 480], k0_off22_cf2 k⟩
theorem k0_off22_cf3 : ∀ k : Fin k0_t1_loop.trips, k0_off22 k 448#32 48#32 = ![1024 * k.val + 496] := by decide +kernel
instance closedOff_k0_off22_3 (k : Fin k0_t1_loop.trips) : ClosedOff (k0_off22 k 448#32 48#32) := ⟨![1024 * k.val + 496], k0_off22_cf3 k⟩
theorem k0_off22_cf4 : ∀ k : Fin k0_t1_loop.trips, k0_off22 k 512#32 0#32 = ![1024 * k.val + 512] := by decide +kernel
instance closedOff_k0_off22_4 (k : Fin k0_t1_loop.trips) : ClosedOff (k0_off22 k 512#32 0#32) := ⟨![1024 * k.val + 512], k0_off22_cf4 k⟩
theorem k0_off24_cf0 : ∀ k : Fin k0_t1_loop.trips, k0_off24 k 512#32 0#32 = ![1024 * k.val + 512] := by decide +kernel
instance closedOff_k0_off24_0 (k : Fin k0_t1_loop.trips) : ClosedOff (k0_off24 k 512#32 0#32) := ⟨![1024 * k.val + 512], k0_off24_cf0 k⟩
theorem k0_off24_cf1 : ∀ k : Fin k0_t1_loop.trips, k0_off24 k 512#32 16#32 = ![1024 * k.val + 528] := by decide +kernel
instance closedOff_k0_off24_1 (k : Fin k0_t1_loop.trips) : ClosedOff (k0_off24 k 512#32 16#32) := ⟨![1024 * k.val + 528], k0_off24_cf1 k⟩
theorem k0_off24_cf2 : ∀ k : Fin k0_t1_loop.trips, k0_off24 k 512#32 32#32 = ![1024 * k.val + 544] := by decide +kernel
instance closedOff_k0_off24_2 (k : Fin k0_t1_loop.trips) : ClosedOff (k0_off24 k 512#32 32#32) := ⟨![1024 * k.val + 544], k0_off24_cf2 k⟩
theorem k0_off24_cf3 : ∀ k : Fin k0_t1_loop.trips, k0_off24 k 512#32 48#32 = ![1024 * k.val + 560] := by decide +kernel
instance closedOff_k0_off24_3 (k : Fin k0_t1_loop.trips) : ClosedOff (k0_off24 k 512#32 48#32) := ⟨![1024 * k.val + 560], k0_off24_cf3 k⟩
theorem k0_off24_cf4 : ∀ k : Fin k0_t1_loop.trips, k0_off24 k 576#32 0#32 = ![1024 * k.val + 576] := by decide +kernel
instance closedOff_k0_off24_4 (k : Fin k0_t1_loop.trips) : ClosedOff (k0_off24 k 576#32 0#32) := ⟨![1024 * k.val + 576], k0_off24_cf4 k⟩
theorem k0_off26_cf0 : ∀ k : Fin k0_t1_loop.trips, k0_off26 k 576#32 0#32 = ![1024 * k.val + 576] := by decide +kernel
instance closedOff_k0_off26_0 (k : Fin k0_t1_loop.trips) : ClosedOff (k0_off26 k 576#32 0#32) := ⟨![1024 * k.val + 576], k0_off26_cf0 k⟩
theorem k0_off26_cf1 : ∀ k : Fin k0_t1_loop.trips, k0_off26 k 576#32 16#32 = ![1024 * k.val + 592] := by decide +kernel
instance closedOff_k0_off26_1 (k : Fin k0_t1_loop.trips) : ClosedOff (k0_off26 k 576#32 16#32) := ⟨![1024 * k.val + 592], k0_off26_cf1 k⟩
theorem k0_off26_cf2 : ∀ k : Fin k0_t1_loop.trips, k0_off26 k 576#32 32#32 = ![1024 * k.val + 608] := by decide +kernel
instance closedOff_k0_off26_2 (k : Fin k0_t1_loop.trips) : ClosedOff (k0_off26 k 576#32 32#32) := ⟨![1024 * k.val + 608], k0_off26_cf2 k⟩
theorem k0_off26_cf3 : ∀ k : Fin k0_t1_loop.trips, k0_off26 k 576#32 48#32 = ![1024 * k.val + 624] := by decide +kernel
instance closedOff_k0_off26_3 (k : Fin k0_t1_loop.trips) : ClosedOff (k0_off26 k 576#32 48#32) := ⟨![1024 * k.val + 624], k0_off26_cf3 k⟩
theorem k0_off26_cf4 : ∀ k : Fin k0_t1_loop.trips, k0_off26 k 640#32 0#32 = ![1024 * k.val + 640] := by decide +kernel
instance closedOff_k0_off26_4 (k : Fin k0_t1_loop.trips) : ClosedOff (k0_off26 k 640#32 0#32) := ⟨![1024 * k.val + 640], k0_off26_cf4 k⟩
theorem k0_off28_cf0 : ∀ k : Fin k0_t1_loop.trips, k0_off28 k 640#32 0#32 = ![1024 * k.val + 640] := by decide +kernel
instance closedOff_k0_off28_0 (k : Fin k0_t1_loop.trips) : ClosedOff (k0_off28 k 640#32 0#32) := ⟨![1024 * k.val + 640], k0_off28_cf0 k⟩
theorem k0_off28_cf1 : ∀ k : Fin k0_t1_loop.trips, k0_off28 k 640#32 16#32 = ![1024 * k.val + 656] := by decide +kernel
instance closedOff_k0_off28_1 (k : Fin k0_t1_loop.trips) : ClosedOff (k0_off28 k 640#32 16#32) := ⟨![1024 * k.val + 656], k0_off28_cf1 k⟩
theorem k0_off28_cf2 : ∀ k : Fin k0_t1_loop.trips, k0_off28 k 640#32 32#32 = ![1024 * k.val + 672] := by decide +kernel
instance closedOff_k0_off28_2 (k : Fin k0_t1_loop.trips) : ClosedOff (k0_off28 k 640#32 32#32) := ⟨![1024 * k.val + 672], k0_off28_cf2 k⟩
theorem k0_off28_cf3 : ∀ k : Fin k0_t1_loop.trips, k0_off28 k 640#32 48#32 = ![1024 * k.val + 688] := by decide +kernel
instance closedOff_k0_off28_3 (k : Fin k0_t1_loop.trips) : ClosedOff (k0_off28 k 640#32 48#32) := ⟨![1024 * k.val + 688], k0_off28_cf3 k⟩
theorem k0_off28_cf4 : ∀ k : Fin k0_t1_loop.trips, k0_off28 k 704#32 0#32 = ![1024 * k.val + 704] := by decide +kernel
instance closedOff_k0_off28_4 (k : Fin k0_t1_loop.trips) : ClosedOff (k0_off28 k 704#32 0#32) := ⟨![1024 * k.val + 704], k0_off28_cf4 k⟩
theorem k0_off30_cf0 : ∀ k : Fin k0_t1_loop.trips, k0_off30 k 704#32 0#32 = ![1024 * k.val + 704] := by decide +kernel
instance closedOff_k0_off30_0 (k : Fin k0_t1_loop.trips) : ClosedOff (k0_off30 k 704#32 0#32) := ⟨![1024 * k.val + 704], k0_off30_cf0 k⟩
theorem k0_off30_cf1 : ∀ k : Fin k0_t1_loop.trips, k0_off30 k 704#32 16#32 = ![1024 * k.val + 720] := by decide +kernel
instance closedOff_k0_off30_1 (k : Fin k0_t1_loop.trips) : ClosedOff (k0_off30 k 704#32 16#32) := ⟨![1024 * k.val + 720], k0_off30_cf1 k⟩
theorem k0_off30_cf2 : ∀ k : Fin k0_t1_loop.trips, k0_off30 k 704#32 32#32 = ![1024 * k.val + 736] := by decide +kernel
instance closedOff_k0_off30_2 (k : Fin k0_t1_loop.trips) : ClosedOff (k0_off30 k 704#32 32#32) := ⟨![1024 * k.val + 736], k0_off30_cf2 k⟩
theorem k0_off30_cf3 : ∀ k : Fin k0_t1_loop.trips, k0_off30 k 704#32 48#32 = ![1024 * k.val + 752] := by decide +kernel
instance closedOff_k0_off30_3 (k : Fin k0_t1_loop.trips) : ClosedOff (k0_off30 k 704#32 48#32) := ⟨![1024 * k.val + 752], k0_off30_cf3 k⟩
theorem k0_off30_cf4 : ∀ k : Fin k0_t1_loop.trips, k0_off30 k 768#32 0#32 = ![1024 * k.val + 768] := by decide +kernel
instance closedOff_k0_off30_4 (k : Fin k0_t1_loop.trips) : ClosedOff (k0_off30 k 768#32 0#32) := ⟨![1024 * k.val + 768], k0_off30_cf4 k⟩
theorem k0_off32_cf0 : ∀ k : Fin k0_t1_loop.trips, k0_off32 k 768#32 0#32 = ![1024 * k.val + 768] := by decide +kernel
instance closedOff_k0_off32_0 (k : Fin k0_t1_loop.trips) : ClosedOff (k0_off32 k 768#32 0#32) := ⟨![1024 * k.val + 768], k0_off32_cf0 k⟩
theorem k0_off32_cf1 : ∀ k : Fin k0_t1_loop.trips, k0_off32 k 768#32 16#32 = ![1024 * k.val + 784] := by decide +kernel
instance closedOff_k0_off32_1 (k : Fin k0_t1_loop.trips) : ClosedOff (k0_off32 k 768#32 16#32) := ⟨![1024 * k.val + 784], k0_off32_cf1 k⟩
theorem k0_off32_cf2 : ∀ k : Fin k0_t1_loop.trips, k0_off32 k 768#32 32#32 = ![1024 * k.val + 800] := by decide +kernel
instance closedOff_k0_off32_2 (k : Fin k0_t1_loop.trips) : ClosedOff (k0_off32 k 768#32 32#32) := ⟨![1024 * k.val + 800], k0_off32_cf2 k⟩
theorem k0_off32_cf3 : ∀ k : Fin k0_t1_loop.trips, k0_off32 k 768#32 48#32 = ![1024 * k.val + 816] := by decide +kernel
instance closedOff_k0_off32_3 (k : Fin k0_t1_loop.trips) : ClosedOff (k0_off32 k 768#32 48#32) := ⟨![1024 * k.val + 816], k0_off32_cf3 k⟩
theorem k0_off32_cf4 : ∀ k : Fin k0_t1_loop.trips, k0_off32 k 832#32 0#32 = ![1024 * k.val + 832] := by decide +kernel
instance closedOff_k0_off32_4 (k : Fin k0_t1_loop.trips) : ClosedOff (k0_off32 k 832#32 0#32) := ⟨![1024 * k.val + 832], k0_off32_cf4 k⟩
theorem k0_off34_cf0 : ∀ k : Fin k0_t1_loop.trips, k0_off34 k 832#32 0#32 = ![1024 * k.val + 832] := by decide +kernel
instance closedOff_k0_off34_0 (k : Fin k0_t1_loop.trips) : ClosedOff (k0_off34 k 832#32 0#32) := ⟨![1024 * k.val + 832], k0_off34_cf0 k⟩
theorem k0_off34_cf1 : ∀ k : Fin k0_t1_loop.trips, k0_off34 k 832#32 16#32 = ![1024 * k.val + 848] := by decide +kernel
instance closedOff_k0_off34_1 (k : Fin k0_t1_loop.trips) : ClosedOff (k0_off34 k 832#32 16#32) := ⟨![1024 * k.val + 848], k0_off34_cf1 k⟩
theorem k0_off34_cf2 : ∀ k : Fin k0_t1_loop.trips, k0_off34 k 832#32 32#32 = ![1024 * k.val + 864] := by decide +kernel
instance closedOff_k0_off34_2 (k : Fin k0_t1_loop.trips) : ClosedOff (k0_off34 k 832#32 32#32) := ⟨![1024 * k.val + 864], k0_off34_cf2 k⟩
theorem k0_off34_cf3 : ∀ k : Fin k0_t1_loop.trips, k0_off34 k 832#32 48#32 = ![1024 * k.val + 880] := by decide +kernel
instance closedOff_k0_off34_3 (k : Fin k0_t1_loop.trips) : ClosedOff (k0_off34 k 832#32 48#32) := ⟨![1024 * k.val + 880], k0_off34_cf3 k⟩
theorem k0_off34_cf4 : ∀ k : Fin k0_t1_loop.trips, k0_off34 k 896#32 0#32 = ![1024 * k.val + 896] := by decide +kernel
instance closedOff_k0_off34_4 (k : Fin k0_t1_loop.trips) : ClosedOff (k0_off34 k 896#32 0#32) := ⟨![1024 * k.val + 896], k0_off34_cf4 k⟩
theorem k0_off36_cf0 : ∀ k : Fin k0_t1_loop.trips, k0_off36 k 896#32 0#32 = ![1024 * k.val + 896] := by decide +kernel
instance closedOff_k0_off36_0 (k : Fin k0_t1_loop.trips) : ClosedOff (k0_off36 k 896#32 0#32) := ⟨![1024 * k.val + 896], k0_off36_cf0 k⟩
theorem k0_off36_cf1 : ∀ k : Fin k0_t1_loop.trips, k0_off36 k 896#32 16#32 = ![1024 * k.val + 912] := by decide +kernel
instance closedOff_k0_off36_1 (k : Fin k0_t1_loop.trips) : ClosedOff (k0_off36 k 896#32 16#32) := ⟨![1024 * k.val + 912], k0_off36_cf1 k⟩
theorem k0_off36_cf2 : ∀ k : Fin k0_t1_loop.trips, k0_off36 k 896#32 32#32 = ![1024 * k.val + 928] := by decide +kernel
instance closedOff_k0_off36_2 (k : Fin k0_t1_loop.trips) : ClosedOff (k0_off36 k 896#32 32#32) := ⟨![1024 * k.val + 928], k0_off36_cf2 k⟩
theorem k0_off36_cf3 : ∀ k : Fin k0_t1_loop.trips, k0_off36 k 896#32 48#32 = ![1024 * k.val + 944] := by decide +kernel
instance closedOff_k0_off36_3 (k : Fin k0_t1_loop.trips) : ClosedOff (k0_off36 k 896#32 48#32) := ⟨![1024 * k.val + 944], k0_off36_cf3 k⟩
theorem k0_off36_cf4 : ∀ k : Fin k0_t1_loop.trips, k0_off36 k 960#32 0#32 = ![1024 * k.val + 960] := by decide +kernel
instance closedOff_k0_off36_4 (k : Fin k0_t1_loop.trips) : ClosedOff (k0_off36 k 960#32 0#32) := ⟨![1024 * k.val + 960], k0_off36_cf4 k⟩
theorem k0_off44_cf0 : ∀ k : Fin k0_t2_loop.trips, k0_off44 k 0#32 0#32 = ![1024 * k.val + 0] := by decide +kernel
instance closedOff_k0_off44_0 (k : Fin k0_t2_loop.trips) : ClosedOff (k0_off44 k 0#32 0#32) := ⟨![1024 * k.val + 0], k0_off44_cf0 k⟩
theorem k0_off44_cf1 : ∀ k : Fin k0_t2_loop.trips, k0_off44 k 0#32 16#32 = ![1024 * k.val + 16] := by decide +kernel
instance closedOff_k0_off44_1 (k : Fin k0_t2_loop.trips) : ClosedOff (k0_off44 k 0#32 16#32) := ⟨![1024 * k.val + 16], k0_off44_cf1 k⟩
theorem k0_off44_cf2 : ∀ k : Fin k0_t2_loop.trips, k0_off44 k 0#32 32#32 = ![1024 * k.val + 32] := by decide +kernel
instance closedOff_k0_off44_2 (k : Fin k0_t2_loop.trips) : ClosedOff (k0_off44 k 0#32 32#32) := ⟨![1024 * k.val + 32], k0_off44_cf2 k⟩
theorem k0_off44_cf3 : ∀ k : Fin k0_t2_loop.trips, k0_off44 k 0#32 48#32 = ![1024 * k.val + 48] := by decide +kernel
instance closedOff_k0_off44_3 (k : Fin k0_t2_loop.trips) : ClosedOff (k0_off44 k 0#32 48#32) := ⟨![1024 * k.val + 48], k0_off44_cf3 k⟩
theorem k0_off44_cf4 : ∀ k : Fin k0_t2_loop.trips, k0_off44 k 64#32 0#32 = ![1024 * k.val + 64] := by decide +kernel
instance closedOff_k0_off44_4 (k : Fin k0_t2_loop.trips) : ClosedOff (k0_off44 k 64#32 0#32) := ⟨![1024 * k.val + 64], k0_off44_cf4 k⟩
theorem k0_off46_cf0 : ∀ k : Fin k0_t2_loop.trips, k0_off46 k 64#32 0#32 = ![1024 * k.val + 64] := by decide +kernel
instance closedOff_k0_off46_0 (k : Fin k0_t2_loop.trips) : ClosedOff (k0_off46 k 64#32 0#32) := ⟨![1024 * k.val + 64], k0_off46_cf0 k⟩
theorem k0_off46_cf1 : ∀ k : Fin k0_t2_loop.trips, k0_off46 k 64#32 16#32 = ![1024 * k.val + 80] := by decide +kernel
instance closedOff_k0_off46_1 (k : Fin k0_t2_loop.trips) : ClosedOff (k0_off46 k 64#32 16#32) := ⟨![1024 * k.val + 80], k0_off46_cf1 k⟩
theorem k0_off46_cf2 : ∀ k : Fin k0_t2_loop.trips, k0_off46 k 64#32 32#32 = ![1024 * k.val + 96] := by decide +kernel
instance closedOff_k0_off46_2 (k : Fin k0_t2_loop.trips) : ClosedOff (k0_off46 k 64#32 32#32) := ⟨![1024 * k.val + 96], k0_off46_cf2 k⟩
theorem k0_off46_cf3 : ∀ k : Fin k0_t2_loop.trips, k0_off46 k 64#32 48#32 = ![1024 * k.val + 112] := by decide +kernel
instance closedOff_k0_off46_3 (k : Fin k0_t2_loop.trips) : ClosedOff (k0_off46 k 64#32 48#32) := ⟨![1024 * k.val + 112], k0_off46_cf3 k⟩
theorem k0_off46_cf4 : ∀ k : Fin k0_t2_loop.trips, k0_off46 k 128#32 0#32 = ![1024 * k.val + 128] := by decide +kernel
instance closedOff_k0_off46_4 (k : Fin k0_t2_loop.trips) : ClosedOff (k0_off46 k 128#32 0#32) := ⟨![1024 * k.val + 128], k0_off46_cf4 k⟩
theorem k0_off48_cf0 : ∀ k : Fin k0_t2_loop.trips, k0_off48 k 128#32 0#32 = ![1024 * k.val + 128] := by decide +kernel
instance closedOff_k0_off48_0 (k : Fin k0_t2_loop.trips) : ClosedOff (k0_off48 k 128#32 0#32) := ⟨![1024 * k.val + 128], k0_off48_cf0 k⟩
theorem k0_off48_cf1 : ∀ k : Fin k0_t2_loop.trips, k0_off48 k 128#32 16#32 = ![1024 * k.val + 144] := by decide +kernel
instance closedOff_k0_off48_1 (k : Fin k0_t2_loop.trips) : ClosedOff (k0_off48 k 128#32 16#32) := ⟨![1024 * k.val + 144], k0_off48_cf1 k⟩
theorem k0_off48_cf2 : ∀ k : Fin k0_t2_loop.trips, k0_off48 k 128#32 32#32 = ![1024 * k.val + 160] := by decide +kernel
instance closedOff_k0_off48_2 (k : Fin k0_t2_loop.trips) : ClosedOff (k0_off48 k 128#32 32#32) := ⟨![1024 * k.val + 160], k0_off48_cf2 k⟩
theorem k0_off48_cf3 : ∀ k : Fin k0_t2_loop.trips, k0_off48 k 128#32 48#32 = ![1024 * k.val + 176] := by decide +kernel
instance closedOff_k0_off48_3 (k : Fin k0_t2_loop.trips) : ClosedOff (k0_off48 k 128#32 48#32) := ⟨![1024 * k.val + 176], k0_off48_cf3 k⟩
theorem k0_off48_cf4 : ∀ k : Fin k0_t2_loop.trips, k0_off48 k 192#32 0#32 = ![1024 * k.val + 192] := by decide +kernel
instance closedOff_k0_off48_4 (k : Fin k0_t2_loop.trips) : ClosedOff (k0_off48 k 192#32 0#32) := ⟨![1024 * k.val + 192], k0_off48_cf4 k⟩
theorem k0_off50_cf0 : ∀ k : Fin k0_t2_loop.trips, k0_off50 k 192#32 0#32 = ![1024 * k.val + 192] := by decide +kernel
instance closedOff_k0_off50_0 (k : Fin k0_t2_loop.trips) : ClosedOff (k0_off50 k 192#32 0#32) := ⟨![1024 * k.val + 192], k0_off50_cf0 k⟩
theorem k0_off50_cf1 : ∀ k : Fin k0_t2_loop.trips, k0_off50 k 192#32 16#32 = ![1024 * k.val + 208] := by decide +kernel
instance closedOff_k0_off50_1 (k : Fin k0_t2_loop.trips) : ClosedOff (k0_off50 k 192#32 16#32) := ⟨![1024 * k.val + 208], k0_off50_cf1 k⟩
theorem k0_off50_cf2 : ∀ k : Fin k0_t2_loop.trips, k0_off50 k 192#32 32#32 = ![1024 * k.val + 224] := by decide +kernel
instance closedOff_k0_off50_2 (k : Fin k0_t2_loop.trips) : ClosedOff (k0_off50 k 192#32 32#32) := ⟨![1024 * k.val + 224], k0_off50_cf2 k⟩
theorem k0_off50_cf3 : ∀ k : Fin k0_t2_loop.trips, k0_off50 k 192#32 48#32 = ![1024 * k.val + 240] := by decide +kernel
instance closedOff_k0_off50_3 (k : Fin k0_t2_loop.trips) : ClosedOff (k0_off50 k 192#32 48#32) := ⟨![1024 * k.val + 240], k0_off50_cf3 k⟩
theorem k0_off50_cf4 : ∀ k : Fin k0_t2_loop.trips, k0_off50 k 256#32 0#32 = ![1024 * k.val + 256] := by decide +kernel
instance closedOff_k0_off50_4 (k : Fin k0_t2_loop.trips) : ClosedOff (k0_off50 k 256#32 0#32) := ⟨![1024 * k.val + 256], k0_off50_cf4 k⟩
theorem k0_off52_cf0 : ∀ k : Fin k0_t2_loop.trips, k0_off52 k 256#32 0#32 = ![1024 * k.val + 256] := by decide +kernel
instance closedOff_k0_off52_0 (k : Fin k0_t2_loop.trips) : ClosedOff (k0_off52 k 256#32 0#32) := ⟨![1024 * k.val + 256], k0_off52_cf0 k⟩
theorem k0_off52_cf1 : ∀ k : Fin k0_t2_loop.trips, k0_off52 k 256#32 16#32 = ![1024 * k.val + 272] := by decide +kernel
instance closedOff_k0_off52_1 (k : Fin k0_t2_loop.trips) : ClosedOff (k0_off52 k 256#32 16#32) := ⟨![1024 * k.val + 272], k0_off52_cf1 k⟩
theorem k0_off52_cf2 : ∀ k : Fin k0_t2_loop.trips, k0_off52 k 256#32 32#32 = ![1024 * k.val + 288] := by decide +kernel
instance closedOff_k0_off52_2 (k : Fin k0_t2_loop.trips) : ClosedOff (k0_off52 k 256#32 32#32) := ⟨![1024 * k.val + 288], k0_off52_cf2 k⟩
theorem k0_off52_cf3 : ∀ k : Fin k0_t2_loop.trips, k0_off52 k 256#32 48#32 = ![1024 * k.val + 304] := by decide +kernel
instance closedOff_k0_off52_3 (k : Fin k0_t2_loop.trips) : ClosedOff (k0_off52 k 256#32 48#32) := ⟨![1024 * k.val + 304], k0_off52_cf3 k⟩
theorem k0_off52_cf4 : ∀ k : Fin k0_t2_loop.trips, k0_off52 k 320#32 0#32 = ![1024 * k.val + 320] := by decide +kernel
instance closedOff_k0_off52_4 (k : Fin k0_t2_loop.trips) : ClosedOff (k0_off52 k 320#32 0#32) := ⟨![1024 * k.val + 320], k0_off52_cf4 k⟩
theorem k0_off54_cf0 : ∀ k : Fin k0_t2_loop.trips, k0_off54 k 320#32 0#32 = ![1024 * k.val + 320] := by decide +kernel
instance closedOff_k0_off54_0 (k : Fin k0_t2_loop.trips) : ClosedOff (k0_off54 k 320#32 0#32) := ⟨![1024 * k.val + 320], k0_off54_cf0 k⟩
theorem k0_off54_cf1 : ∀ k : Fin k0_t2_loop.trips, k0_off54 k 320#32 16#32 = ![1024 * k.val + 336] := by decide +kernel
instance closedOff_k0_off54_1 (k : Fin k0_t2_loop.trips) : ClosedOff (k0_off54 k 320#32 16#32) := ⟨![1024 * k.val + 336], k0_off54_cf1 k⟩
theorem k0_off54_cf2 : ∀ k : Fin k0_t2_loop.trips, k0_off54 k 320#32 32#32 = ![1024 * k.val + 352] := by decide +kernel
instance closedOff_k0_off54_2 (k : Fin k0_t2_loop.trips) : ClosedOff (k0_off54 k 320#32 32#32) := ⟨![1024 * k.val + 352], k0_off54_cf2 k⟩
theorem k0_off54_cf3 : ∀ k : Fin k0_t2_loop.trips, k0_off54 k 320#32 48#32 = ![1024 * k.val + 368] := by decide +kernel
instance closedOff_k0_off54_3 (k : Fin k0_t2_loop.trips) : ClosedOff (k0_off54 k 320#32 48#32) := ⟨![1024 * k.val + 368], k0_off54_cf3 k⟩
theorem k0_off54_cf4 : ∀ k : Fin k0_t2_loop.trips, k0_off54 k 384#32 0#32 = ![1024 * k.val + 384] := by decide +kernel
instance closedOff_k0_off54_4 (k : Fin k0_t2_loop.trips) : ClosedOff (k0_off54 k 384#32 0#32) := ⟨![1024 * k.val + 384], k0_off54_cf4 k⟩
theorem k0_off56_cf0 : ∀ k : Fin k0_t2_loop.trips, k0_off56 k 384#32 0#32 = ![1024 * k.val + 384] := by decide +kernel
instance closedOff_k0_off56_0 (k : Fin k0_t2_loop.trips) : ClosedOff (k0_off56 k 384#32 0#32) := ⟨![1024 * k.val + 384], k0_off56_cf0 k⟩
theorem k0_off56_cf1 : ∀ k : Fin k0_t2_loop.trips, k0_off56 k 384#32 16#32 = ![1024 * k.val + 400] := by decide +kernel
instance closedOff_k0_off56_1 (k : Fin k0_t2_loop.trips) : ClosedOff (k0_off56 k 384#32 16#32) := ⟨![1024 * k.val + 400], k0_off56_cf1 k⟩
theorem k0_off56_cf2 : ∀ k : Fin k0_t2_loop.trips, k0_off56 k 384#32 32#32 = ![1024 * k.val + 416] := by decide +kernel
instance closedOff_k0_off56_2 (k : Fin k0_t2_loop.trips) : ClosedOff (k0_off56 k 384#32 32#32) := ⟨![1024 * k.val + 416], k0_off56_cf2 k⟩
theorem k0_off56_cf3 : ∀ k : Fin k0_t2_loop.trips, k0_off56 k 384#32 48#32 = ![1024 * k.val + 432] := by decide +kernel
instance closedOff_k0_off56_3 (k : Fin k0_t2_loop.trips) : ClosedOff (k0_off56 k 384#32 48#32) := ⟨![1024 * k.val + 432], k0_off56_cf3 k⟩
theorem k0_off56_cf4 : ∀ k : Fin k0_t2_loop.trips, k0_off56 k 448#32 0#32 = ![1024 * k.val + 448] := by decide +kernel
instance closedOff_k0_off56_4 (k : Fin k0_t2_loop.trips) : ClosedOff (k0_off56 k 448#32 0#32) := ⟨![1024 * k.val + 448], k0_off56_cf4 k⟩
theorem k0_off58_cf0 : ∀ k : Fin k0_t2_loop.trips, k0_off58 k 448#32 0#32 = ![1024 * k.val + 448] := by decide +kernel
instance closedOff_k0_off58_0 (k : Fin k0_t2_loop.trips) : ClosedOff (k0_off58 k 448#32 0#32) := ⟨![1024 * k.val + 448], k0_off58_cf0 k⟩
theorem k0_off58_cf1 : ∀ k : Fin k0_t2_loop.trips, k0_off58 k 448#32 16#32 = ![1024 * k.val + 464] := by decide +kernel
instance closedOff_k0_off58_1 (k : Fin k0_t2_loop.trips) : ClosedOff (k0_off58 k 448#32 16#32) := ⟨![1024 * k.val + 464], k0_off58_cf1 k⟩
theorem k0_off58_cf2 : ∀ k : Fin k0_t2_loop.trips, k0_off58 k 448#32 32#32 = ![1024 * k.val + 480] := by decide +kernel
instance closedOff_k0_off58_2 (k : Fin k0_t2_loop.trips) : ClosedOff (k0_off58 k 448#32 32#32) := ⟨![1024 * k.val + 480], k0_off58_cf2 k⟩
theorem k0_off58_cf3 : ∀ k : Fin k0_t2_loop.trips, k0_off58 k 448#32 48#32 = ![1024 * k.val + 496] := by decide +kernel
instance closedOff_k0_off58_3 (k : Fin k0_t2_loop.trips) : ClosedOff (k0_off58 k 448#32 48#32) := ⟨![1024 * k.val + 496], k0_off58_cf3 k⟩
theorem k0_off58_cf4 : ∀ k : Fin k0_t2_loop.trips, k0_off58 k 512#32 0#32 = ![1024 * k.val + 512] := by decide +kernel
instance closedOff_k0_off58_4 (k : Fin k0_t2_loop.trips) : ClosedOff (k0_off58 k 512#32 0#32) := ⟨![1024 * k.val + 512], k0_off58_cf4 k⟩
theorem k0_off60_cf0 : ∀ k : Fin k0_t2_loop.trips, k0_off60 k 512#32 0#32 = ![1024 * k.val + 512] := by decide +kernel
instance closedOff_k0_off60_0 (k : Fin k0_t2_loop.trips) : ClosedOff (k0_off60 k 512#32 0#32) := ⟨![1024 * k.val + 512], k0_off60_cf0 k⟩
theorem k0_off60_cf1 : ∀ k : Fin k0_t2_loop.trips, k0_off60 k 512#32 16#32 = ![1024 * k.val + 528] := by decide +kernel
instance closedOff_k0_off60_1 (k : Fin k0_t2_loop.trips) : ClosedOff (k0_off60 k 512#32 16#32) := ⟨![1024 * k.val + 528], k0_off60_cf1 k⟩
theorem k0_off60_cf2 : ∀ k : Fin k0_t2_loop.trips, k0_off60 k 512#32 32#32 = ![1024 * k.val + 544] := by decide +kernel
instance closedOff_k0_off60_2 (k : Fin k0_t2_loop.trips) : ClosedOff (k0_off60 k 512#32 32#32) := ⟨![1024 * k.val + 544], k0_off60_cf2 k⟩
theorem k0_off60_cf3 : ∀ k : Fin k0_t2_loop.trips, k0_off60 k 512#32 48#32 = ![1024 * k.val + 560] := by decide +kernel
instance closedOff_k0_off60_3 (k : Fin k0_t2_loop.trips) : ClosedOff (k0_off60 k 512#32 48#32) := ⟨![1024 * k.val + 560], k0_off60_cf3 k⟩
theorem k0_off60_cf4 : ∀ k : Fin k0_t2_loop.trips, k0_off60 k 576#32 0#32 = ![1024 * k.val + 576] := by decide +kernel
instance closedOff_k0_off60_4 (k : Fin k0_t2_loop.trips) : ClosedOff (k0_off60 k 576#32 0#32) := ⟨![1024 * k.val + 576], k0_off60_cf4 k⟩
theorem k0_off62_cf0 : ∀ k : Fin k0_t2_loop.trips, k0_off62 k 576#32 0#32 = ![1024 * k.val + 576] := by decide +kernel
instance closedOff_k0_off62_0 (k : Fin k0_t2_loop.trips) : ClosedOff (k0_off62 k 576#32 0#32) := ⟨![1024 * k.val + 576], k0_off62_cf0 k⟩
theorem k0_off62_cf1 : ∀ k : Fin k0_t2_loop.trips, k0_off62 k 576#32 16#32 = ![1024 * k.val + 592] := by decide +kernel
instance closedOff_k0_off62_1 (k : Fin k0_t2_loop.trips) : ClosedOff (k0_off62 k 576#32 16#32) := ⟨![1024 * k.val + 592], k0_off62_cf1 k⟩
theorem k0_off62_cf2 : ∀ k : Fin k0_t2_loop.trips, k0_off62 k 576#32 32#32 = ![1024 * k.val + 608] := by decide +kernel
instance closedOff_k0_off62_2 (k : Fin k0_t2_loop.trips) : ClosedOff (k0_off62 k 576#32 32#32) := ⟨![1024 * k.val + 608], k0_off62_cf2 k⟩
theorem k0_off62_cf3 : ∀ k : Fin k0_t2_loop.trips, k0_off62 k 576#32 48#32 = ![1024 * k.val + 624] := by decide +kernel
instance closedOff_k0_off62_3 (k : Fin k0_t2_loop.trips) : ClosedOff (k0_off62 k 576#32 48#32) := ⟨![1024 * k.val + 624], k0_off62_cf3 k⟩
theorem k0_off62_cf4 : ∀ k : Fin k0_t2_loop.trips, k0_off62 k 640#32 0#32 = ![1024 * k.val + 640] := by decide +kernel
instance closedOff_k0_off62_4 (k : Fin k0_t2_loop.trips) : ClosedOff (k0_off62 k 640#32 0#32) := ⟨![1024 * k.val + 640], k0_off62_cf4 k⟩
theorem k0_off64_cf0 : ∀ k : Fin k0_t2_loop.trips, k0_off64 k 640#32 0#32 = ![1024 * k.val + 640] := by decide +kernel
instance closedOff_k0_off64_0 (k : Fin k0_t2_loop.trips) : ClosedOff (k0_off64 k 640#32 0#32) := ⟨![1024 * k.val + 640], k0_off64_cf0 k⟩
theorem k0_off64_cf1 : ∀ k : Fin k0_t2_loop.trips, k0_off64 k 640#32 16#32 = ![1024 * k.val + 656] := by decide +kernel
instance closedOff_k0_off64_1 (k : Fin k0_t2_loop.trips) : ClosedOff (k0_off64 k 640#32 16#32) := ⟨![1024 * k.val + 656], k0_off64_cf1 k⟩
theorem k0_off64_cf2 : ∀ k : Fin k0_t2_loop.trips, k0_off64 k 640#32 32#32 = ![1024 * k.val + 672] := by decide +kernel
instance closedOff_k0_off64_2 (k : Fin k0_t2_loop.trips) : ClosedOff (k0_off64 k 640#32 32#32) := ⟨![1024 * k.val + 672], k0_off64_cf2 k⟩
theorem k0_off64_cf3 : ∀ k : Fin k0_t2_loop.trips, k0_off64 k 640#32 48#32 = ![1024 * k.val + 688] := by decide +kernel
instance closedOff_k0_off64_3 (k : Fin k0_t2_loop.trips) : ClosedOff (k0_off64 k 640#32 48#32) := ⟨![1024 * k.val + 688], k0_off64_cf3 k⟩
theorem k0_off64_cf4 : ∀ k : Fin k0_t2_loop.trips, k0_off64 k 704#32 0#32 = ![1024 * k.val + 704] := by decide +kernel
instance closedOff_k0_off64_4 (k : Fin k0_t2_loop.trips) : ClosedOff (k0_off64 k 704#32 0#32) := ⟨![1024 * k.val + 704], k0_off64_cf4 k⟩
theorem k0_off66_cf0 : ∀ k : Fin k0_t2_loop.trips, k0_off66 k 704#32 0#32 = ![1024 * k.val + 704] := by decide +kernel
instance closedOff_k0_off66_0 (k : Fin k0_t2_loop.trips) : ClosedOff (k0_off66 k 704#32 0#32) := ⟨![1024 * k.val + 704], k0_off66_cf0 k⟩
theorem k0_off66_cf1 : ∀ k : Fin k0_t2_loop.trips, k0_off66 k 704#32 16#32 = ![1024 * k.val + 720] := by decide +kernel
instance closedOff_k0_off66_1 (k : Fin k0_t2_loop.trips) : ClosedOff (k0_off66 k 704#32 16#32) := ⟨![1024 * k.val + 720], k0_off66_cf1 k⟩
theorem k0_off66_cf2 : ∀ k : Fin k0_t2_loop.trips, k0_off66 k 704#32 32#32 = ![1024 * k.val + 736] := by decide +kernel
instance closedOff_k0_off66_2 (k : Fin k0_t2_loop.trips) : ClosedOff (k0_off66 k 704#32 32#32) := ⟨![1024 * k.val + 736], k0_off66_cf2 k⟩
theorem k0_off66_cf3 : ∀ k : Fin k0_t2_loop.trips, k0_off66 k 704#32 48#32 = ![1024 * k.val + 752] := by decide +kernel
instance closedOff_k0_off66_3 (k : Fin k0_t2_loop.trips) : ClosedOff (k0_off66 k 704#32 48#32) := ⟨![1024 * k.val + 752], k0_off66_cf3 k⟩
theorem k0_off66_cf4 : ∀ k : Fin k0_t2_loop.trips, k0_off66 k 768#32 0#32 = ![1024 * k.val + 768] := by decide +kernel
instance closedOff_k0_off66_4 (k : Fin k0_t2_loop.trips) : ClosedOff (k0_off66 k 768#32 0#32) := ⟨![1024 * k.val + 768], k0_off66_cf4 k⟩
theorem k0_off68_cf0 : ∀ k : Fin k0_t2_loop.trips, k0_off68 k 768#32 0#32 = ![1024 * k.val + 768] := by decide +kernel
instance closedOff_k0_off68_0 (k : Fin k0_t2_loop.trips) : ClosedOff (k0_off68 k 768#32 0#32) := ⟨![1024 * k.val + 768], k0_off68_cf0 k⟩
theorem k0_off68_cf1 : ∀ k : Fin k0_t2_loop.trips, k0_off68 k 768#32 16#32 = ![1024 * k.val + 784] := by decide +kernel
instance closedOff_k0_off68_1 (k : Fin k0_t2_loop.trips) : ClosedOff (k0_off68 k 768#32 16#32) := ⟨![1024 * k.val + 784], k0_off68_cf1 k⟩
theorem k0_off68_cf2 : ∀ k : Fin k0_t2_loop.trips, k0_off68 k 768#32 32#32 = ![1024 * k.val + 800] := by decide +kernel
instance closedOff_k0_off68_2 (k : Fin k0_t2_loop.trips) : ClosedOff (k0_off68 k 768#32 32#32) := ⟨![1024 * k.val + 800], k0_off68_cf2 k⟩
theorem k0_off68_cf3 : ∀ k : Fin k0_t2_loop.trips, k0_off68 k 768#32 48#32 = ![1024 * k.val + 816] := by decide +kernel
instance closedOff_k0_off68_3 (k : Fin k0_t2_loop.trips) : ClosedOff (k0_off68 k 768#32 48#32) := ⟨![1024 * k.val + 816], k0_off68_cf3 k⟩
theorem k0_off68_cf4 : ∀ k : Fin k0_t2_loop.trips, k0_off68 k 832#32 0#32 = ![1024 * k.val + 832] := by decide +kernel
instance closedOff_k0_off68_4 (k : Fin k0_t2_loop.trips) : ClosedOff (k0_off68 k 832#32 0#32) := ⟨![1024 * k.val + 832], k0_off68_cf4 k⟩
theorem k0_off70_cf0 : ∀ k : Fin k0_t2_loop.trips, k0_off70 k 832#32 0#32 = ![1024 * k.val + 832] := by decide +kernel
instance closedOff_k0_off70_0 (k : Fin k0_t2_loop.trips) : ClosedOff (k0_off70 k 832#32 0#32) := ⟨![1024 * k.val + 832], k0_off70_cf0 k⟩
theorem k0_off70_cf1 : ∀ k : Fin k0_t2_loop.trips, k0_off70 k 832#32 16#32 = ![1024 * k.val + 848] := by decide +kernel
instance closedOff_k0_off70_1 (k : Fin k0_t2_loop.trips) : ClosedOff (k0_off70 k 832#32 16#32) := ⟨![1024 * k.val + 848], k0_off70_cf1 k⟩
theorem k0_off70_cf2 : ∀ k : Fin k0_t2_loop.trips, k0_off70 k 832#32 32#32 = ![1024 * k.val + 864] := by decide +kernel
instance closedOff_k0_off70_2 (k : Fin k0_t2_loop.trips) : ClosedOff (k0_off70 k 832#32 32#32) := ⟨![1024 * k.val + 864], k0_off70_cf2 k⟩
theorem k0_off70_cf3 : ∀ k : Fin k0_t2_loop.trips, k0_off70 k 832#32 48#32 = ![1024 * k.val + 880] := by decide +kernel
instance closedOff_k0_off70_3 (k : Fin k0_t2_loop.trips) : ClosedOff (k0_off70 k 832#32 48#32) := ⟨![1024 * k.val + 880], k0_off70_cf3 k⟩
theorem k0_off70_cf4 : ∀ k : Fin k0_t2_loop.trips, k0_off70 k 896#32 0#32 = ![1024 * k.val + 896] := by decide +kernel
instance closedOff_k0_off70_4 (k : Fin k0_t2_loop.trips) : ClosedOff (k0_off70 k 896#32 0#32) := ⟨![1024 * k.val + 896], k0_off70_cf4 k⟩
theorem k0_off72_cf0 : ∀ k : Fin k0_t2_loop.trips, k0_off72 k 896#32 0#32 = ![1024 * k.val + 896] := by decide +kernel
instance closedOff_k0_off72_0 (k : Fin k0_t2_loop.trips) : ClosedOff (k0_off72 k 896#32 0#32) := ⟨![1024 * k.val + 896], k0_off72_cf0 k⟩
theorem k0_off72_cf1 : ∀ k : Fin k0_t2_loop.trips, k0_off72 k 896#32 16#32 = ![1024 * k.val + 912] := by decide +kernel
instance closedOff_k0_off72_1 (k : Fin k0_t2_loop.trips) : ClosedOff (k0_off72 k 896#32 16#32) := ⟨![1024 * k.val + 912], k0_off72_cf1 k⟩
theorem k0_off72_cf2 : ∀ k : Fin k0_t2_loop.trips, k0_off72 k 896#32 32#32 = ![1024 * k.val + 928] := by decide +kernel
instance closedOff_k0_off72_2 (k : Fin k0_t2_loop.trips) : ClosedOff (k0_off72 k 896#32 32#32) := ⟨![1024 * k.val + 928], k0_off72_cf2 k⟩
theorem k0_off72_cf3 : ∀ k : Fin k0_t2_loop.trips, k0_off72 k 896#32 48#32 = ![1024 * k.val + 944] := by decide +kernel
instance closedOff_k0_off72_3 (k : Fin k0_t2_loop.trips) : ClosedOff (k0_off72 k 896#32 48#32) := ⟨![1024 * k.val + 944], k0_off72_cf3 k⟩
theorem k0_off72_cf4 : ∀ k : Fin k0_t2_loop.trips, k0_off72 k 960#32 0#32 = ![1024 * k.val + 960] := by decide +kernel
instance closedOff_k0_off72_4 (k : Fin k0_t2_loop.trips) : ClosedOff (k0_off72 k 960#32 0#32) := ⟨![1024 * k.val + 960], k0_off72_cf4 k⟩
theorem k0_off80_cf0 : ∀ k : Fin k0_t3_loop.trips, k0_off80 k 0#32 0#32 = ![1024 * k.val + 0] := by decide +kernel
instance closedOff_k0_off80_0 (k : Fin k0_t3_loop.trips) : ClosedOff (k0_off80 k 0#32 0#32) := ⟨![1024 * k.val + 0], k0_off80_cf0 k⟩
theorem k0_off80_cf1 : ∀ k : Fin k0_t3_loop.trips, k0_off80 k 0#32 16#32 = ![1024 * k.val + 16] := by decide +kernel
instance closedOff_k0_off80_1 (k : Fin k0_t3_loop.trips) : ClosedOff (k0_off80 k 0#32 16#32) := ⟨![1024 * k.val + 16], k0_off80_cf1 k⟩
theorem k0_off80_cf2 : ∀ k : Fin k0_t3_loop.trips, k0_off80 k 0#32 32#32 = ![1024 * k.val + 32] := by decide +kernel
instance closedOff_k0_off80_2 (k : Fin k0_t3_loop.trips) : ClosedOff (k0_off80 k 0#32 32#32) := ⟨![1024 * k.val + 32], k0_off80_cf2 k⟩
theorem k0_off80_cf3 : ∀ k : Fin k0_t3_loop.trips, k0_off80 k 0#32 48#32 = ![1024 * k.val + 48] := by decide +kernel
instance closedOff_k0_off80_3 (k : Fin k0_t3_loop.trips) : ClosedOff (k0_off80 k 0#32 48#32) := ⟨![1024 * k.val + 48], k0_off80_cf3 k⟩
theorem k0_off80_cf4 : ∀ k : Fin k0_t3_loop.trips, k0_off80 k 64#32 0#32 = ![1024 * k.val + 64] := by decide +kernel
instance closedOff_k0_off80_4 (k : Fin k0_t3_loop.trips) : ClosedOff (k0_off80 k 64#32 0#32) := ⟨![1024 * k.val + 64], k0_off80_cf4 k⟩
theorem k0_off82_cf0 : ∀ k : Fin k0_t3_loop.trips, k0_off82 k 64#32 0#32 = ![1024 * k.val + 64] := by decide +kernel
instance closedOff_k0_off82_0 (k : Fin k0_t3_loop.trips) : ClosedOff (k0_off82 k 64#32 0#32) := ⟨![1024 * k.val + 64], k0_off82_cf0 k⟩
theorem k0_off82_cf1 : ∀ k : Fin k0_t3_loop.trips, k0_off82 k 64#32 16#32 = ![1024 * k.val + 80] := by decide +kernel
instance closedOff_k0_off82_1 (k : Fin k0_t3_loop.trips) : ClosedOff (k0_off82 k 64#32 16#32) := ⟨![1024 * k.val + 80], k0_off82_cf1 k⟩
theorem k0_off82_cf2 : ∀ k : Fin k0_t3_loop.trips, k0_off82 k 64#32 32#32 = ![1024 * k.val + 96] := by decide +kernel
instance closedOff_k0_off82_2 (k : Fin k0_t3_loop.trips) : ClosedOff (k0_off82 k 64#32 32#32) := ⟨![1024 * k.val + 96], k0_off82_cf2 k⟩
theorem k0_off82_cf3 : ∀ k : Fin k0_t3_loop.trips, k0_off82 k 64#32 48#32 = ![1024 * k.val + 112] := by decide +kernel
instance closedOff_k0_off82_3 (k : Fin k0_t3_loop.trips) : ClosedOff (k0_off82 k 64#32 48#32) := ⟨![1024 * k.val + 112], k0_off82_cf3 k⟩
theorem k0_off82_cf4 : ∀ k : Fin k0_t3_loop.trips, k0_off82 k 128#32 0#32 = ![1024 * k.val + 128] := by decide +kernel
instance closedOff_k0_off82_4 (k : Fin k0_t3_loop.trips) : ClosedOff (k0_off82 k 128#32 0#32) := ⟨![1024 * k.val + 128], k0_off82_cf4 k⟩
theorem k0_off84_cf0 : ∀ k : Fin k0_t3_loop.trips, k0_off84 k 128#32 0#32 = ![1024 * k.val + 128] := by decide +kernel
instance closedOff_k0_off84_0 (k : Fin k0_t3_loop.trips) : ClosedOff (k0_off84 k 128#32 0#32) := ⟨![1024 * k.val + 128], k0_off84_cf0 k⟩
theorem k0_off84_cf1 : ∀ k : Fin k0_t3_loop.trips, k0_off84 k 128#32 16#32 = ![1024 * k.val + 144] := by decide +kernel
instance closedOff_k0_off84_1 (k : Fin k0_t3_loop.trips) : ClosedOff (k0_off84 k 128#32 16#32) := ⟨![1024 * k.val + 144], k0_off84_cf1 k⟩
theorem k0_off84_cf2 : ∀ k : Fin k0_t3_loop.trips, k0_off84 k 128#32 32#32 = ![1024 * k.val + 160] := by decide +kernel
instance closedOff_k0_off84_2 (k : Fin k0_t3_loop.trips) : ClosedOff (k0_off84 k 128#32 32#32) := ⟨![1024 * k.val + 160], k0_off84_cf2 k⟩
theorem k0_off84_cf3 : ∀ k : Fin k0_t3_loop.trips, k0_off84 k 128#32 48#32 = ![1024 * k.val + 176] := by decide +kernel
instance closedOff_k0_off84_3 (k : Fin k0_t3_loop.trips) : ClosedOff (k0_off84 k 128#32 48#32) := ⟨![1024 * k.val + 176], k0_off84_cf3 k⟩
theorem k0_off84_cf4 : ∀ k : Fin k0_t3_loop.trips, k0_off84 k 192#32 0#32 = ![1024 * k.val + 192] := by decide +kernel
instance closedOff_k0_off84_4 (k : Fin k0_t3_loop.trips) : ClosedOff (k0_off84 k 192#32 0#32) := ⟨![1024 * k.val + 192], k0_off84_cf4 k⟩
theorem k0_off86_cf0 : ∀ k : Fin k0_t3_loop.trips, k0_off86 k 192#32 0#32 = ![1024 * k.val + 192] := by decide +kernel
instance closedOff_k0_off86_0 (k : Fin k0_t3_loop.trips) : ClosedOff (k0_off86 k 192#32 0#32) := ⟨![1024 * k.val + 192], k0_off86_cf0 k⟩
theorem k0_off86_cf1 : ∀ k : Fin k0_t3_loop.trips, k0_off86 k 192#32 16#32 = ![1024 * k.val + 208] := by decide +kernel
instance closedOff_k0_off86_1 (k : Fin k0_t3_loop.trips) : ClosedOff (k0_off86 k 192#32 16#32) := ⟨![1024 * k.val + 208], k0_off86_cf1 k⟩
theorem k0_off86_cf2 : ∀ k : Fin k0_t3_loop.trips, k0_off86 k 192#32 32#32 = ![1024 * k.val + 224] := by decide +kernel
instance closedOff_k0_off86_2 (k : Fin k0_t3_loop.trips) : ClosedOff (k0_off86 k 192#32 32#32) := ⟨![1024 * k.val + 224], k0_off86_cf2 k⟩
theorem k0_off86_cf3 : ∀ k : Fin k0_t3_loop.trips, k0_off86 k 192#32 48#32 = ![1024 * k.val + 240] := by decide +kernel
instance closedOff_k0_off86_3 (k : Fin k0_t3_loop.trips) : ClosedOff (k0_off86 k 192#32 48#32) := ⟨![1024 * k.val + 240], k0_off86_cf3 k⟩
theorem k0_off86_cf4 : ∀ k : Fin k0_t3_loop.trips, k0_off86 k 256#32 0#32 = ![1024 * k.val + 256] := by decide +kernel
instance closedOff_k0_off86_4 (k : Fin k0_t3_loop.trips) : ClosedOff (k0_off86 k 256#32 0#32) := ⟨![1024 * k.val + 256], k0_off86_cf4 k⟩
theorem k0_off88_cf0 : ∀ k : Fin k0_t3_loop.trips, k0_off88 k 256#32 0#32 = ![1024 * k.val + 256] := by decide +kernel
instance closedOff_k0_off88_0 (k : Fin k0_t3_loop.trips) : ClosedOff (k0_off88 k 256#32 0#32) := ⟨![1024 * k.val + 256], k0_off88_cf0 k⟩
theorem k0_off88_cf1 : ∀ k : Fin k0_t3_loop.trips, k0_off88 k 256#32 16#32 = ![1024 * k.val + 272] := by decide +kernel
instance closedOff_k0_off88_1 (k : Fin k0_t3_loop.trips) : ClosedOff (k0_off88 k 256#32 16#32) := ⟨![1024 * k.val + 272], k0_off88_cf1 k⟩
theorem k0_off88_cf2 : ∀ k : Fin k0_t3_loop.trips, k0_off88 k 256#32 32#32 = ![1024 * k.val + 288] := by decide +kernel
instance closedOff_k0_off88_2 (k : Fin k0_t3_loop.trips) : ClosedOff (k0_off88 k 256#32 32#32) := ⟨![1024 * k.val + 288], k0_off88_cf2 k⟩
theorem k0_off88_cf3 : ∀ k : Fin k0_t3_loop.trips, k0_off88 k 256#32 48#32 = ![1024 * k.val + 304] := by decide +kernel
instance closedOff_k0_off88_3 (k : Fin k0_t3_loop.trips) : ClosedOff (k0_off88 k 256#32 48#32) := ⟨![1024 * k.val + 304], k0_off88_cf3 k⟩
theorem k0_off88_cf4 : ∀ k : Fin k0_t3_loop.trips, k0_off88 k 320#32 0#32 = ![1024 * k.val + 320] := by decide +kernel
instance closedOff_k0_off88_4 (k : Fin k0_t3_loop.trips) : ClosedOff (k0_off88 k 320#32 0#32) := ⟨![1024 * k.val + 320], k0_off88_cf4 k⟩
theorem k0_off90_cf0 : ∀ k : Fin k0_t3_loop.trips, k0_off90 k 320#32 0#32 = ![1024 * k.val + 320] := by decide +kernel
instance closedOff_k0_off90_0 (k : Fin k0_t3_loop.trips) : ClosedOff (k0_off90 k 320#32 0#32) := ⟨![1024 * k.val + 320], k0_off90_cf0 k⟩
theorem k0_off90_cf1 : ∀ k : Fin k0_t3_loop.trips, k0_off90 k 320#32 16#32 = ![1024 * k.val + 336] := by decide +kernel
instance closedOff_k0_off90_1 (k : Fin k0_t3_loop.trips) : ClosedOff (k0_off90 k 320#32 16#32) := ⟨![1024 * k.val + 336], k0_off90_cf1 k⟩
theorem k0_off90_cf2 : ∀ k : Fin k0_t3_loop.trips, k0_off90 k 320#32 32#32 = ![1024 * k.val + 352] := by decide +kernel
instance closedOff_k0_off90_2 (k : Fin k0_t3_loop.trips) : ClosedOff (k0_off90 k 320#32 32#32) := ⟨![1024 * k.val + 352], k0_off90_cf2 k⟩
theorem k0_off90_cf3 : ∀ k : Fin k0_t3_loop.trips, k0_off90 k 320#32 48#32 = ![1024 * k.val + 368] := by decide +kernel
instance closedOff_k0_off90_3 (k : Fin k0_t3_loop.trips) : ClosedOff (k0_off90 k 320#32 48#32) := ⟨![1024 * k.val + 368], k0_off90_cf3 k⟩
theorem k0_off90_cf4 : ∀ k : Fin k0_t3_loop.trips, k0_off90 k 384#32 0#32 = ![1024 * k.val + 384] := by decide +kernel
instance closedOff_k0_off90_4 (k : Fin k0_t3_loop.trips) : ClosedOff (k0_off90 k 384#32 0#32) := ⟨![1024 * k.val + 384], k0_off90_cf4 k⟩
theorem k0_off92_cf0 : ∀ k : Fin k0_t3_loop.trips, k0_off92 k 384#32 0#32 = ![1024 * k.val + 384] := by decide +kernel
instance closedOff_k0_off92_0 (k : Fin k0_t3_loop.trips) : ClosedOff (k0_off92 k 384#32 0#32) := ⟨![1024 * k.val + 384], k0_off92_cf0 k⟩
theorem k0_off92_cf1 : ∀ k : Fin k0_t3_loop.trips, k0_off92 k 384#32 16#32 = ![1024 * k.val + 400] := by decide +kernel
instance closedOff_k0_off92_1 (k : Fin k0_t3_loop.trips) : ClosedOff (k0_off92 k 384#32 16#32) := ⟨![1024 * k.val + 400], k0_off92_cf1 k⟩
theorem k0_off92_cf2 : ∀ k : Fin k0_t3_loop.trips, k0_off92 k 384#32 32#32 = ![1024 * k.val + 416] := by decide +kernel
instance closedOff_k0_off92_2 (k : Fin k0_t3_loop.trips) : ClosedOff (k0_off92 k 384#32 32#32) := ⟨![1024 * k.val + 416], k0_off92_cf2 k⟩
theorem k0_off92_cf3 : ∀ k : Fin k0_t3_loop.trips, k0_off92 k 384#32 48#32 = ![1024 * k.val + 432] := by decide +kernel
instance closedOff_k0_off92_3 (k : Fin k0_t3_loop.trips) : ClosedOff (k0_off92 k 384#32 48#32) := ⟨![1024 * k.val + 432], k0_off92_cf3 k⟩
theorem k0_off92_cf4 : ∀ k : Fin k0_t3_loop.trips, k0_off92 k 448#32 0#32 = ![1024 * k.val + 448] := by decide +kernel
instance closedOff_k0_off92_4 (k : Fin k0_t3_loop.trips) : ClosedOff (k0_off92 k 448#32 0#32) := ⟨![1024 * k.val + 448], k0_off92_cf4 k⟩
theorem k0_off94_cf0 : ∀ k : Fin k0_t3_loop.trips, k0_off94 k 448#32 0#32 = ![1024 * k.val + 448] := by decide +kernel
instance closedOff_k0_off94_0 (k : Fin k0_t3_loop.trips) : ClosedOff (k0_off94 k 448#32 0#32) := ⟨![1024 * k.val + 448], k0_off94_cf0 k⟩
theorem k0_off94_cf1 : ∀ k : Fin k0_t3_loop.trips, k0_off94 k 448#32 16#32 = ![1024 * k.val + 464] := by decide +kernel
instance closedOff_k0_off94_1 (k : Fin k0_t3_loop.trips) : ClosedOff (k0_off94 k 448#32 16#32) := ⟨![1024 * k.val + 464], k0_off94_cf1 k⟩
theorem k0_off94_cf2 : ∀ k : Fin k0_t3_loop.trips, k0_off94 k 448#32 32#32 = ![1024 * k.val + 480] := by decide +kernel
instance closedOff_k0_off94_2 (k : Fin k0_t3_loop.trips) : ClosedOff (k0_off94 k 448#32 32#32) := ⟨![1024 * k.val + 480], k0_off94_cf2 k⟩
theorem k0_off94_cf3 : ∀ k : Fin k0_t3_loop.trips, k0_off94 k 448#32 48#32 = ![1024 * k.val + 496] := by decide +kernel
instance closedOff_k0_off94_3 (k : Fin k0_t3_loop.trips) : ClosedOff (k0_off94 k 448#32 48#32) := ⟨![1024 * k.val + 496], k0_off94_cf3 k⟩
theorem k0_off94_cf4 : ∀ k : Fin k0_t3_loop.trips, k0_off94 k 512#32 0#32 = ![1024 * k.val + 512] := by decide +kernel
instance closedOff_k0_off94_4 (k : Fin k0_t3_loop.trips) : ClosedOff (k0_off94 k 512#32 0#32) := ⟨![1024 * k.val + 512], k0_off94_cf4 k⟩
theorem k0_off96_cf0 : ∀ k : Fin k0_t3_loop.trips, k0_off96 k 512#32 0#32 = ![1024 * k.val + 512] := by decide +kernel
instance closedOff_k0_off96_0 (k : Fin k0_t3_loop.trips) : ClosedOff (k0_off96 k 512#32 0#32) := ⟨![1024 * k.val + 512], k0_off96_cf0 k⟩
theorem k0_off96_cf1 : ∀ k : Fin k0_t3_loop.trips, k0_off96 k 512#32 16#32 = ![1024 * k.val + 528] := by decide +kernel
instance closedOff_k0_off96_1 (k : Fin k0_t3_loop.trips) : ClosedOff (k0_off96 k 512#32 16#32) := ⟨![1024 * k.val + 528], k0_off96_cf1 k⟩
theorem k0_off96_cf2 : ∀ k : Fin k0_t3_loop.trips, k0_off96 k 512#32 32#32 = ![1024 * k.val + 544] := by decide +kernel
instance closedOff_k0_off96_2 (k : Fin k0_t3_loop.trips) : ClosedOff (k0_off96 k 512#32 32#32) := ⟨![1024 * k.val + 544], k0_off96_cf2 k⟩
theorem k0_off96_cf3 : ∀ k : Fin k0_t3_loop.trips, k0_off96 k 512#32 48#32 = ![1024 * k.val + 560] := by decide +kernel
instance closedOff_k0_off96_3 (k : Fin k0_t3_loop.trips) : ClosedOff (k0_off96 k 512#32 48#32) := ⟨![1024 * k.val + 560], k0_off96_cf3 k⟩
theorem k0_off96_cf4 : ∀ k : Fin k0_t3_loop.trips, k0_off96 k 576#32 0#32 = ![1024 * k.val + 576] := by decide +kernel
instance closedOff_k0_off96_4 (k : Fin k0_t3_loop.trips) : ClosedOff (k0_off96 k 576#32 0#32) := ⟨![1024 * k.val + 576], k0_off96_cf4 k⟩
theorem k0_off98_cf0 : ∀ k : Fin k0_t3_loop.trips, k0_off98 k 576#32 0#32 = ![1024 * k.val + 576] := by decide +kernel
instance closedOff_k0_off98_0 (k : Fin k0_t3_loop.trips) : ClosedOff (k0_off98 k 576#32 0#32) := ⟨![1024 * k.val + 576], k0_off98_cf0 k⟩
theorem k0_off98_cf1 : ∀ k : Fin k0_t3_loop.trips, k0_off98 k 576#32 16#32 = ![1024 * k.val + 592] := by decide +kernel
instance closedOff_k0_off98_1 (k : Fin k0_t3_loop.trips) : ClosedOff (k0_off98 k 576#32 16#32) := ⟨![1024 * k.val + 592], k0_off98_cf1 k⟩
theorem k0_off98_cf2 : ∀ k : Fin k0_t3_loop.trips, k0_off98 k 576#32 32#32 = ![1024 * k.val + 608] := by decide +kernel
instance closedOff_k0_off98_2 (k : Fin k0_t3_loop.trips) : ClosedOff (k0_off98 k 576#32 32#32) := ⟨![1024 * k.val + 608], k0_off98_cf2 k⟩
theorem k0_off98_cf3 : ∀ k : Fin k0_t3_loop.trips, k0_off98 k 576#32 48#32 = ![1024 * k.val + 624] := by decide +kernel
instance closedOff_k0_off98_3 (k : Fin k0_t3_loop.trips) : ClosedOff (k0_off98 k 576#32 48#32) := ⟨![1024 * k.val + 624], k0_off98_cf3 k⟩
theorem k0_off98_cf4 : ∀ k : Fin k0_t3_loop.trips, k0_off98 k 640#32 0#32 = ![1024 * k.val + 640] := by decide +kernel
instance closedOff_k0_off98_4 (k : Fin k0_t3_loop.trips) : ClosedOff (k0_off98 k 640#32 0#32) := ⟨![1024 * k.val + 640], k0_off98_cf4 k⟩
theorem k0_off100_cf0 : ∀ k : Fin k0_t3_loop.trips, k0_off100 k 640#32 0#32 = ![1024 * k.val + 640] := by decide +kernel
instance closedOff_k0_off100_0 (k : Fin k0_t3_loop.trips) : ClosedOff (k0_off100 k 640#32 0#32) := ⟨![1024 * k.val + 640], k0_off100_cf0 k⟩
theorem k0_off100_cf1 : ∀ k : Fin k0_t3_loop.trips, k0_off100 k 640#32 16#32 = ![1024 * k.val + 656] := by decide +kernel
instance closedOff_k0_off100_1 (k : Fin k0_t3_loop.trips) : ClosedOff (k0_off100 k 640#32 16#32) := ⟨![1024 * k.val + 656], k0_off100_cf1 k⟩
theorem k0_off100_cf2 : ∀ k : Fin k0_t3_loop.trips, k0_off100 k 640#32 32#32 = ![1024 * k.val + 672] := by decide +kernel
instance closedOff_k0_off100_2 (k : Fin k0_t3_loop.trips) : ClosedOff (k0_off100 k 640#32 32#32) := ⟨![1024 * k.val + 672], k0_off100_cf2 k⟩
theorem k0_off100_cf3 : ∀ k : Fin k0_t3_loop.trips, k0_off100 k 640#32 48#32 = ![1024 * k.val + 688] := by decide +kernel
instance closedOff_k0_off100_3 (k : Fin k0_t3_loop.trips) : ClosedOff (k0_off100 k 640#32 48#32) := ⟨![1024 * k.val + 688], k0_off100_cf3 k⟩
theorem k0_off100_cf4 : ∀ k : Fin k0_t3_loop.trips, k0_off100 k 704#32 0#32 = ![1024 * k.val + 704] := by decide +kernel
instance closedOff_k0_off100_4 (k : Fin k0_t3_loop.trips) : ClosedOff (k0_off100 k 704#32 0#32) := ⟨![1024 * k.val + 704], k0_off100_cf4 k⟩
theorem k0_off102_cf0 : ∀ k : Fin k0_t3_loop.trips, k0_off102 k 704#32 0#32 = ![1024 * k.val + 704] := by decide +kernel
instance closedOff_k0_off102_0 (k : Fin k0_t3_loop.trips) : ClosedOff (k0_off102 k 704#32 0#32) := ⟨![1024 * k.val + 704], k0_off102_cf0 k⟩
theorem k0_off102_cf1 : ∀ k : Fin k0_t3_loop.trips, k0_off102 k 704#32 16#32 = ![1024 * k.val + 720] := by decide +kernel
instance closedOff_k0_off102_1 (k : Fin k0_t3_loop.trips) : ClosedOff (k0_off102 k 704#32 16#32) := ⟨![1024 * k.val + 720], k0_off102_cf1 k⟩
theorem k0_off102_cf2 : ∀ k : Fin k0_t3_loop.trips, k0_off102 k 704#32 32#32 = ![1024 * k.val + 736] := by decide +kernel
instance closedOff_k0_off102_2 (k : Fin k0_t3_loop.trips) : ClosedOff (k0_off102 k 704#32 32#32) := ⟨![1024 * k.val + 736], k0_off102_cf2 k⟩
theorem k0_off102_cf3 : ∀ k : Fin k0_t3_loop.trips, k0_off102 k 704#32 48#32 = ![1024 * k.val + 752] := by decide +kernel
instance closedOff_k0_off102_3 (k : Fin k0_t3_loop.trips) : ClosedOff (k0_off102 k 704#32 48#32) := ⟨![1024 * k.val + 752], k0_off102_cf3 k⟩
theorem k0_off102_cf4 : ∀ k : Fin k0_t3_loop.trips, k0_off102 k 768#32 0#32 = ![1024 * k.val + 768] := by decide +kernel
instance closedOff_k0_off102_4 (k : Fin k0_t3_loop.trips) : ClosedOff (k0_off102 k 768#32 0#32) := ⟨![1024 * k.val + 768], k0_off102_cf4 k⟩
theorem k0_off104_cf0 : ∀ k : Fin k0_t3_loop.trips, k0_off104 k 768#32 0#32 = ![1024 * k.val + 768] := by decide +kernel
instance closedOff_k0_off104_0 (k : Fin k0_t3_loop.trips) : ClosedOff (k0_off104 k 768#32 0#32) := ⟨![1024 * k.val + 768], k0_off104_cf0 k⟩
theorem k0_off104_cf1 : ∀ k : Fin k0_t3_loop.trips, k0_off104 k 768#32 16#32 = ![1024 * k.val + 784] := by decide +kernel
instance closedOff_k0_off104_1 (k : Fin k0_t3_loop.trips) : ClosedOff (k0_off104 k 768#32 16#32) := ⟨![1024 * k.val + 784], k0_off104_cf1 k⟩
theorem k0_off104_cf2 : ∀ k : Fin k0_t3_loop.trips, k0_off104 k 768#32 32#32 = ![1024 * k.val + 800] := by decide +kernel
instance closedOff_k0_off104_2 (k : Fin k0_t3_loop.trips) : ClosedOff (k0_off104 k 768#32 32#32) := ⟨![1024 * k.val + 800], k0_off104_cf2 k⟩
theorem k0_off104_cf3 : ∀ k : Fin k0_t3_loop.trips, k0_off104 k 768#32 48#32 = ![1024 * k.val + 816] := by decide +kernel
instance closedOff_k0_off104_3 (k : Fin k0_t3_loop.trips) : ClosedOff (k0_off104 k 768#32 48#32) := ⟨![1024 * k.val + 816], k0_off104_cf3 k⟩
theorem k0_off104_cf4 : ∀ k : Fin k0_t3_loop.trips, k0_off104 k 832#32 0#32 = ![1024 * k.val + 832] := by decide +kernel
instance closedOff_k0_off104_4 (k : Fin k0_t3_loop.trips) : ClosedOff (k0_off104 k 832#32 0#32) := ⟨![1024 * k.val + 832], k0_off104_cf4 k⟩
theorem k0_off106_cf0 : ∀ k : Fin k0_t3_loop.trips, k0_off106 k 832#32 0#32 = ![1024 * k.val + 832] := by decide +kernel
instance closedOff_k0_off106_0 (k : Fin k0_t3_loop.trips) : ClosedOff (k0_off106 k 832#32 0#32) := ⟨![1024 * k.val + 832], k0_off106_cf0 k⟩
theorem k0_off106_cf1 : ∀ k : Fin k0_t3_loop.trips, k0_off106 k 832#32 16#32 = ![1024 * k.val + 848] := by decide +kernel
instance closedOff_k0_off106_1 (k : Fin k0_t3_loop.trips) : ClosedOff (k0_off106 k 832#32 16#32) := ⟨![1024 * k.val + 848], k0_off106_cf1 k⟩
theorem k0_off106_cf2 : ∀ k : Fin k0_t3_loop.trips, k0_off106 k 832#32 32#32 = ![1024 * k.val + 864] := by decide +kernel
instance closedOff_k0_off106_2 (k : Fin k0_t3_loop.trips) : ClosedOff (k0_off106 k 832#32 32#32) := ⟨![1024 * k.val + 864], k0_off106_cf2 k⟩
theorem k0_off106_cf3 : ∀ k : Fin k0_t3_loop.trips, k0_off106 k 832#32 48#32 = ![1024 * k.val + 880] := by decide +kernel
instance closedOff_k0_off106_3 (k : Fin k0_t3_loop.trips) : ClosedOff (k0_off106 k 832#32 48#32) := ⟨![1024 * k.val + 880], k0_off106_cf3 k⟩
theorem k0_off106_cf4 : ∀ k : Fin k0_t3_loop.trips, k0_off106 k 896#32 0#32 = ![1024 * k.val + 896] := by decide +kernel
instance closedOff_k0_off106_4 (k : Fin k0_t3_loop.trips) : ClosedOff (k0_off106 k 896#32 0#32) := ⟨![1024 * k.val + 896], k0_off106_cf4 k⟩
theorem k0_off108_cf0 : ∀ k : Fin k0_t3_loop.trips, k0_off108 k 896#32 0#32 = ![1024 * k.val + 896] := by decide +kernel
instance closedOff_k0_off108_0 (k : Fin k0_t3_loop.trips) : ClosedOff (k0_off108 k 896#32 0#32) := ⟨![1024 * k.val + 896], k0_off108_cf0 k⟩
theorem k0_off108_cf1 : ∀ k : Fin k0_t3_loop.trips, k0_off108 k 896#32 16#32 = ![1024 * k.val + 912] := by decide +kernel
instance closedOff_k0_off108_1 (k : Fin k0_t3_loop.trips) : ClosedOff (k0_off108 k 896#32 16#32) := ⟨![1024 * k.val + 912], k0_off108_cf1 k⟩
theorem k0_off108_cf2 : ∀ k : Fin k0_t3_loop.trips, k0_off108 k 896#32 32#32 = ![1024 * k.val + 928] := by decide +kernel
instance closedOff_k0_off108_2 (k : Fin k0_t3_loop.trips) : ClosedOff (k0_off108 k 896#32 32#32) := ⟨![1024 * k.val + 928], k0_off108_cf2 k⟩
theorem k0_off108_cf3 : ∀ k : Fin k0_t3_loop.trips, k0_off108 k 896#32 48#32 = ![1024 * k.val + 944] := by decide +kernel
instance closedOff_k0_off108_3 (k : Fin k0_t3_loop.trips) : ClosedOff (k0_off108 k 896#32 48#32) := ⟨![1024 * k.val + 944], k0_off108_cf3 k⟩
theorem k0_off108_cf4 : ∀ k : Fin k0_t3_loop.trips, k0_off108 k 960#32 0#32 = ![1024 * k.val + 960] := by decide +kernel
instance closedOff_k0_off108_4 (k : Fin k0_t3_loop.trips) : ClosedOff (k0_off108 k 960#32 0#32) := ⟨![1024 * k.val + 960], k0_off108_cf4 k⟩
theorem k0_off116_cf0 : ∀ k : Fin k0_t5_loop.trips, k0_off116 k 0#32 0#32 = ![1024 * k.val + 0] := by decide +kernel
instance closedOff_k0_off116_0 (k : Fin k0_t5_loop.trips) : ClosedOff (k0_off116 k 0#32 0#32) := ⟨![1024 * k.val + 0], k0_off116_cf0 k⟩
theorem k0_off116_cf1 : ∀ k : Fin k0_t5_loop.trips, k0_off116 k 0#32 16#32 = ![1024 * k.val + 16] := by decide +kernel
instance closedOff_k0_off116_1 (k : Fin k0_t5_loop.trips) : ClosedOff (k0_off116 k 0#32 16#32) := ⟨![1024 * k.val + 16], k0_off116_cf1 k⟩
theorem k0_off116_cf2 : ∀ k : Fin k0_t5_loop.trips, k0_off116 k 0#32 32#32 = ![1024 * k.val + 32] := by decide +kernel
instance closedOff_k0_off116_2 (k : Fin k0_t5_loop.trips) : ClosedOff (k0_off116 k 0#32 32#32) := ⟨![1024 * k.val + 32], k0_off116_cf2 k⟩
theorem k0_off116_cf3 : ∀ k : Fin k0_t5_loop.trips, k0_off116 k 0#32 48#32 = ![1024 * k.val + 48] := by decide +kernel
instance closedOff_k0_off116_3 (k : Fin k0_t5_loop.trips) : ClosedOff (k0_off116 k 0#32 48#32) := ⟨![1024 * k.val + 48], k0_off116_cf3 k⟩
theorem k0_off116_cf4 : ∀ k : Fin k0_t5_loop.trips, k0_off116 k 64#32 0#32 = ![1024 * k.val + 64] := by decide +kernel
instance closedOff_k0_off116_4 (k : Fin k0_t5_loop.trips) : ClosedOff (k0_off116 k 64#32 0#32) := ⟨![1024 * k.val + 64], k0_off116_cf4 k⟩
theorem k0_off118_cf0 : ∀ k : Fin k0_t5_loop.trips, k0_off118 k 64#32 0#32 = ![1024 * k.val + 64] := by decide +kernel
instance closedOff_k0_off118_0 (k : Fin k0_t5_loop.trips) : ClosedOff (k0_off118 k 64#32 0#32) := ⟨![1024 * k.val + 64], k0_off118_cf0 k⟩
theorem k0_off118_cf1 : ∀ k : Fin k0_t5_loop.trips, k0_off118 k 64#32 16#32 = ![1024 * k.val + 80] := by decide +kernel
instance closedOff_k0_off118_1 (k : Fin k0_t5_loop.trips) : ClosedOff (k0_off118 k 64#32 16#32) := ⟨![1024 * k.val + 80], k0_off118_cf1 k⟩
theorem k0_off118_cf2 : ∀ k : Fin k0_t5_loop.trips, k0_off118 k 64#32 32#32 = ![1024 * k.val + 96] := by decide +kernel
instance closedOff_k0_off118_2 (k : Fin k0_t5_loop.trips) : ClosedOff (k0_off118 k 64#32 32#32) := ⟨![1024 * k.val + 96], k0_off118_cf2 k⟩
theorem k0_off118_cf3 : ∀ k : Fin k0_t5_loop.trips, k0_off118 k 64#32 48#32 = ![1024 * k.val + 112] := by decide +kernel
instance closedOff_k0_off118_3 (k : Fin k0_t5_loop.trips) : ClosedOff (k0_off118 k 64#32 48#32) := ⟨![1024 * k.val + 112], k0_off118_cf3 k⟩
theorem k0_off118_cf4 : ∀ k : Fin k0_t5_loop.trips, k0_off118 k 128#32 0#32 = ![1024 * k.val + 128] := by decide +kernel
instance closedOff_k0_off118_4 (k : Fin k0_t5_loop.trips) : ClosedOff (k0_off118 k 128#32 0#32) := ⟨![1024 * k.val + 128], k0_off118_cf4 k⟩
theorem k0_off120_cf0 : ∀ k : Fin k0_t5_loop.trips, k0_off120 k 128#32 0#32 = ![1024 * k.val + 128] := by decide +kernel
instance closedOff_k0_off120_0 (k : Fin k0_t5_loop.trips) : ClosedOff (k0_off120 k 128#32 0#32) := ⟨![1024 * k.val + 128], k0_off120_cf0 k⟩
theorem k0_off120_cf1 : ∀ k : Fin k0_t5_loop.trips, k0_off120 k 128#32 16#32 = ![1024 * k.val + 144] := by decide +kernel
instance closedOff_k0_off120_1 (k : Fin k0_t5_loop.trips) : ClosedOff (k0_off120 k 128#32 16#32) := ⟨![1024 * k.val + 144], k0_off120_cf1 k⟩
theorem k0_off120_cf2 : ∀ k : Fin k0_t5_loop.trips, k0_off120 k 128#32 32#32 = ![1024 * k.val + 160] := by decide +kernel
instance closedOff_k0_off120_2 (k : Fin k0_t5_loop.trips) : ClosedOff (k0_off120 k 128#32 32#32) := ⟨![1024 * k.val + 160], k0_off120_cf2 k⟩
theorem k0_off120_cf3 : ∀ k : Fin k0_t5_loop.trips, k0_off120 k 128#32 48#32 = ![1024 * k.val + 176] := by decide +kernel
instance closedOff_k0_off120_3 (k : Fin k0_t5_loop.trips) : ClosedOff (k0_off120 k 128#32 48#32) := ⟨![1024 * k.val + 176], k0_off120_cf3 k⟩
theorem k0_off120_cf4 : ∀ k : Fin k0_t5_loop.trips, k0_off120 k 192#32 0#32 = ![1024 * k.val + 192] := by decide +kernel
instance closedOff_k0_off120_4 (k : Fin k0_t5_loop.trips) : ClosedOff (k0_off120 k 192#32 0#32) := ⟨![1024 * k.val + 192], k0_off120_cf4 k⟩
theorem k0_off122_cf0 : ∀ k : Fin k0_t5_loop.trips, k0_off122 k 192#32 0#32 = ![1024 * k.val + 192] := by decide +kernel
instance closedOff_k0_off122_0 (k : Fin k0_t5_loop.trips) : ClosedOff (k0_off122 k 192#32 0#32) := ⟨![1024 * k.val + 192], k0_off122_cf0 k⟩
theorem k0_off122_cf1 : ∀ k : Fin k0_t5_loop.trips, k0_off122 k 192#32 16#32 = ![1024 * k.val + 208] := by decide +kernel
instance closedOff_k0_off122_1 (k : Fin k0_t5_loop.trips) : ClosedOff (k0_off122 k 192#32 16#32) := ⟨![1024 * k.val + 208], k0_off122_cf1 k⟩
theorem k0_off122_cf2 : ∀ k : Fin k0_t5_loop.trips, k0_off122 k 192#32 32#32 = ![1024 * k.val + 224] := by decide +kernel
instance closedOff_k0_off122_2 (k : Fin k0_t5_loop.trips) : ClosedOff (k0_off122 k 192#32 32#32) := ⟨![1024 * k.val + 224], k0_off122_cf2 k⟩
theorem k0_off122_cf3 : ∀ k : Fin k0_t5_loop.trips, k0_off122 k 192#32 48#32 = ![1024 * k.val + 240] := by decide +kernel
instance closedOff_k0_off122_3 (k : Fin k0_t5_loop.trips) : ClosedOff (k0_off122 k 192#32 48#32) := ⟨![1024 * k.val + 240], k0_off122_cf3 k⟩
theorem k0_off122_cf4 : ∀ k : Fin k0_t5_loop.trips, k0_off122 k 256#32 0#32 = ![1024 * k.val + 256] := by decide +kernel
instance closedOff_k0_off122_4 (k : Fin k0_t5_loop.trips) : ClosedOff (k0_off122 k 256#32 0#32) := ⟨![1024 * k.val + 256], k0_off122_cf4 k⟩
theorem k0_off124_cf0 : ∀ k : Fin k0_t5_loop.trips, k0_off124 k 256#32 0#32 = ![1024 * k.val + 256] := by decide +kernel
instance closedOff_k0_off124_0 (k : Fin k0_t5_loop.trips) : ClosedOff (k0_off124 k 256#32 0#32) := ⟨![1024 * k.val + 256], k0_off124_cf0 k⟩
theorem k0_off124_cf1 : ∀ k : Fin k0_t5_loop.trips, k0_off124 k 256#32 16#32 = ![1024 * k.val + 272] := by decide +kernel
instance closedOff_k0_off124_1 (k : Fin k0_t5_loop.trips) : ClosedOff (k0_off124 k 256#32 16#32) := ⟨![1024 * k.val + 272], k0_off124_cf1 k⟩
theorem k0_off124_cf2 : ∀ k : Fin k0_t5_loop.trips, k0_off124 k 256#32 32#32 = ![1024 * k.val + 288] := by decide +kernel
instance closedOff_k0_off124_2 (k : Fin k0_t5_loop.trips) : ClosedOff (k0_off124 k 256#32 32#32) := ⟨![1024 * k.val + 288], k0_off124_cf2 k⟩
theorem k0_off124_cf3 : ∀ k : Fin k0_t5_loop.trips, k0_off124 k 256#32 48#32 = ![1024 * k.val + 304] := by decide +kernel
instance closedOff_k0_off124_3 (k : Fin k0_t5_loop.trips) : ClosedOff (k0_off124 k 256#32 48#32) := ⟨![1024 * k.val + 304], k0_off124_cf3 k⟩
theorem k0_off124_cf4 : ∀ k : Fin k0_t5_loop.trips, k0_off124 k 320#32 0#32 = ![1024 * k.val + 320] := by decide +kernel
instance closedOff_k0_off124_4 (k : Fin k0_t5_loop.trips) : ClosedOff (k0_off124 k 320#32 0#32) := ⟨![1024 * k.val + 320], k0_off124_cf4 k⟩
theorem k0_off126_cf0 : ∀ k : Fin k0_t5_loop.trips, k0_off126 k 320#32 0#32 = ![1024 * k.val + 320] := by decide +kernel
instance closedOff_k0_off126_0 (k : Fin k0_t5_loop.trips) : ClosedOff (k0_off126 k 320#32 0#32) := ⟨![1024 * k.val + 320], k0_off126_cf0 k⟩
theorem k0_off126_cf1 : ∀ k : Fin k0_t5_loop.trips, k0_off126 k 320#32 16#32 = ![1024 * k.val + 336] := by decide +kernel
instance closedOff_k0_off126_1 (k : Fin k0_t5_loop.trips) : ClosedOff (k0_off126 k 320#32 16#32) := ⟨![1024 * k.val + 336], k0_off126_cf1 k⟩
theorem k0_off126_cf2 : ∀ k : Fin k0_t5_loop.trips, k0_off126 k 320#32 32#32 = ![1024 * k.val + 352] := by decide +kernel
instance closedOff_k0_off126_2 (k : Fin k0_t5_loop.trips) : ClosedOff (k0_off126 k 320#32 32#32) := ⟨![1024 * k.val + 352], k0_off126_cf2 k⟩
theorem k0_off126_cf3 : ∀ k : Fin k0_t5_loop.trips, k0_off126 k 320#32 48#32 = ![1024 * k.val + 368] := by decide +kernel
instance closedOff_k0_off126_3 (k : Fin k0_t5_loop.trips) : ClosedOff (k0_off126 k 320#32 48#32) := ⟨![1024 * k.val + 368], k0_off126_cf3 k⟩
theorem k0_off126_cf4 : ∀ k : Fin k0_t5_loop.trips, k0_off126 k 384#32 0#32 = ![1024 * k.val + 384] := by decide +kernel
instance closedOff_k0_off126_4 (k : Fin k0_t5_loop.trips) : ClosedOff (k0_off126 k 384#32 0#32) := ⟨![1024 * k.val + 384], k0_off126_cf4 k⟩
theorem k0_off128_cf0 : ∀ k : Fin k0_t5_loop.trips, k0_off128 k 384#32 0#32 = ![1024 * k.val + 384] := by decide +kernel
instance closedOff_k0_off128_0 (k : Fin k0_t5_loop.trips) : ClosedOff (k0_off128 k 384#32 0#32) := ⟨![1024 * k.val + 384], k0_off128_cf0 k⟩
theorem k0_off128_cf1 : ∀ k : Fin k0_t5_loop.trips, k0_off128 k 384#32 16#32 = ![1024 * k.val + 400] := by decide +kernel
instance closedOff_k0_off128_1 (k : Fin k0_t5_loop.trips) : ClosedOff (k0_off128 k 384#32 16#32) := ⟨![1024 * k.val + 400], k0_off128_cf1 k⟩
theorem k0_off128_cf2 : ∀ k : Fin k0_t5_loop.trips, k0_off128 k 384#32 32#32 = ![1024 * k.val + 416] := by decide +kernel
instance closedOff_k0_off128_2 (k : Fin k0_t5_loop.trips) : ClosedOff (k0_off128 k 384#32 32#32) := ⟨![1024 * k.val + 416], k0_off128_cf2 k⟩
theorem k0_off128_cf3 : ∀ k : Fin k0_t5_loop.trips, k0_off128 k 384#32 48#32 = ![1024 * k.val + 432] := by decide +kernel
instance closedOff_k0_off128_3 (k : Fin k0_t5_loop.trips) : ClosedOff (k0_off128 k 384#32 48#32) := ⟨![1024 * k.val + 432], k0_off128_cf3 k⟩
theorem k0_off128_cf4 : ∀ k : Fin k0_t5_loop.trips, k0_off128 k 448#32 0#32 = ![1024 * k.val + 448] := by decide +kernel
instance closedOff_k0_off128_4 (k : Fin k0_t5_loop.trips) : ClosedOff (k0_off128 k 448#32 0#32) := ⟨![1024 * k.val + 448], k0_off128_cf4 k⟩
theorem k0_off130_cf0 : ∀ k : Fin k0_t5_loop.trips, k0_off130 k 448#32 0#32 = ![1024 * k.val + 448] := by decide +kernel
instance closedOff_k0_off130_0 (k : Fin k0_t5_loop.trips) : ClosedOff (k0_off130 k 448#32 0#32) := ⟨![1024 * k.val + 448], k0_off130_cf0 k⟩
theorem k0_off130_cf1 : ∀ k : Fin k0_t5_loop.trips, k0_off130 k 448#32 16#32 = ![1024 * k.val + 464] := by decide +kernel
instance closedOff_k0_off130_1 (k : Fin k0_t5_loop.trips) : ClosedOff (k0_off130 k 448#32 16#32) := ⟨![1024 * k.val + 464], k0_off130_cf1 k⟩
theorem k0_off130_cf2 : ∀ k : Fin k0_t5_loop.trips, k0_off130 k 448#32 32#32 = ![1024 * k.val + 480] := by decide +kernel
instance closedOff_k0_off130_2 (k : Fin k0_t5_loop.trips) : ClosedOff (k0_off130 k 448#32 32#32) := ⟨![1024 * k.val + 480], k0_off130_cf2 k⟩
theorem k0_off130_cf3 : ∀ k : Fin k0_t5_loop.trips, k0_off130 k 448#32 48#32 = ![1024 * k.val + 496] := by decide +kernel
instance closedOff_k0_off130_3 (k : Fin k0_t5_loop.trips) : ClosedOff (k0_off130 k 448#32 48#32) := ⟨![1024 * k.val + 496], k0_off130_cf3 k⟩
theorem k0_off130_cf4 : ∀ k : Fin k0_t5_loop.trips, k0_off130 k 512#32 0#32 = ![1024 * k.val + 512] := by decide +kernel
instance closedOff_k0_off130_4 (k : Fin k0_t5_loop.trips) : ClosedOff (k0_off130 k 512#32 0#32) := ⟨![1024 * k.val + 512], k0_off130_cf4 k⟩
theorem k0_off132_cf0 : ∀ k : Fin k0_t5_loop.trips, k0_off132 k 512#32 0#32 = ![1024 * k.val + 512] := by decide +kernel
instance closedOff_k0_off132_0 (k : Fin k0_t5_loop.trips) : ClosedOff (k0_off132 k 512#32 0#32) := ⟨![1024 * k.val + 512], k0_off132_cf0 k⟩
theorem k0_off132_cf1 : ∀ k : Fin k0_t5_loop.trips, k0_off132 k 512#32 16#32 = ![1024 * k.val + 528] := by decide +kernel
instance closedOff_k0_off132_1 (k : Fin k0_t5_loop.trips) : ClosedOff (k0_off132 k 512#32 16#32) := ⟨![1024 * k.val + 528], k0_off132_cf1 k⟩
theorem k0_off132_cf2 : ∀ k : Fin k0_t5_loop.trips, k0_off132 k 512#32 32#32 = ![1024 * k.val + 544] := by decide +kernel
instance closedOff_k0_off132_2 (k : Fin k0_t5_loop.trips) : ClosedOff (k0_off132 k 512#32 32#32) := ⟨![1024 * k.val + 544], k0_off132_cf2 k⟩
theorem k0_off132_cf3 : ∀ k : Fin k0_t5_loop.trips, k0_off132 k 512#32 48#32 = ![1024 * k.val + 560] := by decide +kernel
instance closedOff_k0_off132_3 (k : Fin k0_t5_loop.trips) : ClosedOff (k0_off132 k 512#32 48#32) := ⟨![1024 * k.val + 560], k0_off132_cf3 k⟩
theorem k0_off132_cf4 : ∀ k : Fin k0_t5_loop.trips, k0_off132 k 576#32 0#32 = ![1024 * k.val + 576] := by decide +kernel
instance closedOff_k0_off132_4 (k : Fin k0_t5_loop.trips) : ClosedOff (k0_off132 k 576#32 0#32) := ⟨![1024 * k.val + 576], k0_off132_cf4 k⟩
theorem k0_off134_cf0 : ∀ k : Fin k0_t5_loop.trips, k0_off134 k 576#32 0#32 = ![1024 * k.val + 576] := by decide +kernel
instance closedOff_k0_off134_0 (k : Fin k0_t5_loop.trips) : ClosedOff (k0_off134 k 576#32 0#32) := ⟨![1024 * k.val + 576], k0_off134_cf0 k⟩
theorem k0_off134_cf1 : ∀ k : Fin k0_t5_loop.trips, k0_off134 k 576#32 16#32 = ![1024 * k.val + 592] := by decide +kernel
instance closedOff_k0_off134_1 (k : Fin k0_t5_loop.trips) : ClosedOff (k0_off134 k 576#32 16#32) := ⟨![1024 * k.val + 592], k0_off134_cf1 k⟩
theorem k0_off134_cf2 : ∀ k : Fin k0_t5_loop.trips, k0_off134 k 576#32 32#32 = ![1024 * k.val + 608] := by decide +kernel
instance closedOff_k0_off134_2 (k : Fin k0_t5_loop.trips) : ClosedOff (k0_off134 k 576#32 32#32) := ⟨![1024 * k.val + 608], k0_off134_cf2 k⟩
theorem k0_off134_cf3 : ∀ k : Fin k0_t5_loop.trips, k0_off134 k 576#32 48#32 = ![1024 * k.val + 624] := by decide +kernel
instance closedOff_k0_off134_3 (k : Fin k0_t5_loop.trips) : ClosedOff (k0_off134 k 576#32 48#32) := ⟨![1024 * k.val + 624], k0_off134_cf3 k⟩
theorem k0_off134_cf4 : ∀ k : Fin k0_t5_loop.trips, k0_off134 k 640#32 0#32 = ![1024 * k.val + 640] := by decide +kernel
instance closedOff_k0_off134_4 (k : Fin k0_t5_loop.trips) : ClosedOff (k0_off134 k 640#32 0#32) := ⟨![1024 * k.val + 640], k0_off134_cf4 k⟩
theorem k0_off136_cf0 : ∀ k : Fin k0_t5_loop.trips, k0_off136 k 640#32 0#32 = ![1024 * k.val + 640] := by decide +kernel
instance closedOff_k0_off136_0 (k : Fin k0_t5_loop.trips) : ClosedOff (k0_off136 k 640#32 0#32) := ⟨![1024 * k.val + 640], k0_off136_cf0 k⟩
theorem k0_off136_cf1 : ∀ k : Fin k0_t5_loop.trips, k0_off136 k 640#32 16#32 = ![1024 * k.val + 656] := by decide +kernel
instance closedOff_k0_off136_1 (k : Fin k0_t5_loop.trips) : ClosedOff (k0_off136 k 640#32 16#32) := ⟨![1024 * k.val + 656], k0_off136_cf1 k⟩
theorem k0_off136_cf2 : ∀ k : Fin k0_t5_loop.trips, k0_off136 k 640#32 32#32 = ![1024 * k.val + 672] := by decide +kernel
instance closedOff_k0_off136_2 (k : Fin k0_t5_loop.trips) : ClosedOff (k0_off136 k 640#32 32#32) := ⟨![1024 * k.val + 672], k0_off136_cf2 k⟩
theorem k0_off136_cf3 : ∀ k : Fin k0_t5_loop.trips, k0_off136 k 640#32 48#32 = ![1024 * k.val + 688] := by decide +kernel
instance closedOff_k0_off136_3 (k : Fin k0_t5_loop.trips) : ClosedOff (k0_off136 k 640#32 48#32) := ⟨![1024 * k.val + 688], k0_off136_cf3 k⟩
theorem k0_off136_cf4 : ∀ k : Fin k0_t5_loop.trips, k0_off136 k 704#32 0#32 = ![1024 * k.val + 704] := by decide +kernel
instance closedOff_k0_off136_4 (k : Fin k0_t5_loop.trips) : ClosedOff (k0_off136 k 704#32 0#32) := ⟨![1024 * k.val + 704], k0_off136_cf4 k⟩
theorem k0_off138_cf0 : ∀ k : Fin k0_t5_loop.trips, k0_off138 k 704#32 0#32 = ![1024 * k.val + 704] := by decide +kernel
instance closedOff_k0_off138_0 (k : Fin k0_t5_loop.trips) : ClosedOff (k0_off138 k 704#32 0#32) := ⟨![1024 * k.val + 704], k0_off138_cf0 k⟩
theorem k0_off138_cf1 : ∀ k : Fin k0_t5_loop.trips, k0_off138 k 704#32 16#32 = ![1024 * k.val + 720] := by decide +kernel
instance closedOff_k0_off138_1 (k : Fin k0_t5_loop.trips) : ClosedOff (k0_off138 k 704#32 16#32) := ⟨![1024 * k.val + 720], k0_off138_cf1 k⟩
theorem k0_off138_cf2 : ∀ k : Fin k0_t5_loop.trips, k0_off138 k 704#32 32#32 = ![1024 * k.val + 736] := by decide +kernel
instance closedOff_k0_off138_2 (k : Fin k0_t5_loop.trips) : ClosedOff (k0_off138 k 704#32 32#32) := ⟨![1024 * k.val + 736], k0_off138_cf2 k⟩
theorem k0_off138_cf3 : ∀ k : Fin k0_t5_loop.trips, k0_off138 k 704#32 48#32 = ![1024 * k.val + 752] := by decide +kernel
instance closedOff_k0_off138_3 (k : Fin k0_t5_loop.trips) : ClosedOff (k0_off138 k 704#32 48#32) := ⟨![1024 * k.val + 752], k0_off138_cf3 k⟩
theorem k0_off138_cf4 : ∀ k : Fin k0_t5_loop.trips, k0_off138 k 768#32 0#32 = ![1024 * k.val + 768] := by decide +kernel
instance closedOff_k0_off138_4 (k : Fin k0_t5_loop.trips) : ClosedOff (k0_off138 k 768#32 0#32) := ⟨![1024 * k.val + 768], k0_off138_cf4 k⟩
theorem k0_off140_cf0 : ∀ k : Fin k0_t5_loop.trips, k0_off140 k 768#32 0#32 = ![1024 * k.val + 768] := by decide +kernel
instance closedOff_k0_off140_0 (k : Fin k0_t5_loop.trips) : ClosedOff (k0_off140 k 768#32 0#32) := ⟨![1024 * k.val + 768], k0_off140_cf0 k⟩
theorem k0_off140_cf1 : ∀ k : Fin k0_t5_loop.trips, k0_off140 k 768#32 16#32 = ![1024 * k.val + 784] := by decide +kernel
instance closedOff_k0_off140_1 (k : Fin k0_t5_loop.trips) : ClosedOff (k0_off140 k 768#32 16#32) := ⟨![1024 * k.val + 784], k0_off140_cf1 k⟩
theorem k0_off140_cf2 : ∀ k : Fin k0_t5_loop.trips, k0_off140 k 768#32 32#32 = ![1024 * k.val + 800] := by decide +kernel
instance closedOff_k0_off140_2 (k : Fin k0_t5_loop.trips) : ClosedOff (k0_off140 k 768#32 32#32) := ⟨![1024 * k.val + 800], k0_off140_cf2 k⟩
theorem k0_off140_cf3 : ∀ k : Fin k0_t5_loop.trips, k0_off140 k 768#32 48#32 = ![1024 * k.val + 816] := by decide +kernel
instance closedOff_k0_off140_3 (k : Fin k0_t5_loop.trips) : ClosedOff (k0_off140 k 768#32 48#32) := ⟨![1024 * k.val + 816], k0_off140_cf3 k⟩
theorem k0_off140_cf4 : ∀ k : Fin k0_t5_loop.trips, k0_off140 k 832#32 0#32 = ![1024 * k.val + 832] := by decide +kernel
instance closedOff_k0_off140_4 (k : Fin k0_t5_loop.trips) : ClosedOff (k0_off140 k 832#32 0#32) := ⟨![1024 * k.val + 832], k0_off140_cf4 k⟩
theorem k0_off142_cf0 : ∀ k : Fin k0_t5_loop.trips, k0_off142 k 832#32 0#32 = ![1024 * k.val + 832] := by decide +kernel
instance closedOff_k0_off142_0 (k : Fin k0_t5_loop.trips) : ClosedOff (k0_off142 k 832#32 0#32) := ⟨![1024 * k.val + 832], k0_off142_cf0 k⟩
theorem k0_off142_cf1 : ∀ k : Fin k0_t5_loop.trips, k0_off142 k 832#32 16#32 = ![1024 * k.val + 848] := by decide +kernel
instance closedOff_k0_off142_1 (k : Fin k0_t5_loop.trips) : ClosedOff (k0_off142 k 832#32 16#32) := ⟨![1024 * k.val + 848], k0_off142_cf1 k⟩
theorem k0_off142_cf2 : ∀ k : Fin k0_t5_loop.trips, k0_off142 k 832#32 32#32 = ![1024 * k.val + 864] := by decide +kernel
instance closedOff_k0_off142_2 (k : Fin k0_t5_loop.trips) : ClosedOff (k0_off142 k 832#32 32#32) := ⟨![1024 * k.val + 864], k0_off142_cf2 k⟩
theorem k0_off142_cf3 : ∀ k : Fin k0_t5_loop.trips, k0_off142 k 832#32 48#32 = ![1024 * k.val + 880] := by decide +kernel
instance closedOff_k0_off142_3 (k : Fin k0_t5_loop.trips) : ClosedOff (k0_off142 k 832#32 48#32) := ⟨![1024 * k.val + 880], k0_off142_cf3 k⟩
theorem k0_off142_cf4 : ∀ k : Fin k0_t5_loop.trips, k0_off142 k 896#32 0#32 = ![1024 * k.val + 896] := by decide +kernel
instance closedOff_k0_off142_4 (k : Fin k0_t5_loop.trips) : ClosedOff (k0_off142 k 896#32 0#32) := ⟨![1024 * k.val + 896], k0_off142_cf4 k⟩
theorem k0_off144_cf0 : ∀ k : Fin k0_t5_loop.trips, k0_off144 k 896#32 0#32 = ![1024 * k.val + 896] := by decide +kernel
instance closedOff_k0_off144_0 (k : Fin k0_t5_loop.trips) : ClosedOff (k0_off144 k 896#32 0#32) := ⟨![1024 * k.val + 896], k0_off144_cf0 k⟩
theorem k0_off144_cf1 : ∀ k : Fin k0_t5_loop.trips, k0_off144 k 896#32 16#32 = ![1024 * k.val + 912] := by decide +kernel
instance closedOff_k0_off144_1 (k : Fin k0_t5_loop.trips) : ClosedOff (k0_off144 k 896#32 16#32) := ⟨![1024 * k.val + 912], k0_off144_cf1 k⟩
theorem k0_off144_cf2 : ∀ k : Fin k0_t5_loop.trips, k0_off144 k 896#32 32#32 = ![1024 * k.val + 928] := by decide +kernel
instance closedOff_k0_off144_2 (k : Fin k0_t5_loop.trips) : ClosedOff (k0_off144 k 896#32 32#32) := ⟨![1024 * k.val + 928], k0_off144_cf2 k⟩
theorem k0_off144_cf3 : ∀ k : Fin k0_t5_loop.trips, k0_off144 k 896#32 48#32 = ![1024 * k.val + 944] := by decide +kernel
instance closedOff_k0_off144_3 (k : Fin k0_t5_loop.trips) : ClosedOff (k0_off144 k 896#32 48#32) := ⟨![1024 * k.val + 944], k0_off144_cf3 k⟩
theorem k0_off144_cf4 : ∀ k : Fin k0_t5_loop.trips, k0_off144 k 960#32 0#32 = ![1024 * k.val + 960] := by decide +kernel
instance closedOff_k0_off144_4 (k : Fin k0_t5_loop.trips) : ClosedOff (k0_off144 k 960#32 0#32) := ⟨![1024 * k.val + 960], k0_off144_cf4 k⟩
theorem k0_off153_cf0 : ∀ k : Fin k0_t6_loop.trips, k0_off153 k 0#32 0#32 = ![1024 * k.val + 0] := by decide +kernel
instance closedOff_k0_off153_0 (k : Fin k0_t6_loop.trips) : ClosedOff (k0_off153 k 0#32 0#32) := ⟨![1024 * k.val + 0], k0_off153_cf0 k⟩
theorem k0_off153_cf1 : ∀ k : Fin k0_t6_loop.trips, k0_off153 k 0#32 16#32 = ![1024 * k.val + 16] := by decide +kernel
instance closedOff_k0_off153_1 (k : Fin k0_t6_loop.trips) : ClosedOff (k0_off153 k 0#32 16#32) := ⟨![1024 * k.val + 16], k0_off153_cf1 k⟩
theorem k0_off153_cf2 : ∀ k : Fin k0_t6_loop.trips, k0_off153 k 0#32 32#32 = ![1024 * k.val + 32] := by decide +kernel
instance closedOff_k0_off153_2 (k : Fin k0_t6_loop.trips) : ClosedOff (k0_off153 k 0#32 32#32) := ⟨![1024 * k.val + 32], k0_off153_cf2 k⟩
theorem k0_off153_cf3 : ∀ k : Fin k0_t6_loop.trips, k0_off153 k 0#32 48#32 = ![1024 * k.val + 48] := by decide +kernel
instance closedOff_k0_off153_3 (k : Fin k0_t6_loop.trips) : ClosedOff (k0_off153 k 0#32 48#32) := ⟨![1024 * k.val + 48], k0_off153_cf3 k⟩
theorem k0_off153_cf4 : ∀ k : Fin k0_t6_loop.trips, k0_off153 k 64#32 0#32 = ![1024 * k.val + 64] := by decide +kernel
instance closedOff_k0_off153_4 (k : Fin k0_t6_loop.trips) : ClosedOff (k0_off153 k 64#32 0#32) := ⟨![1024 * k.val + 64], k0_off153_cf4 k⟩
theorem k0_off155_cf0 : ∀ k : Fin k0_t6_loop.trips, k0_off155 k 64#32 0#32 = ![1024 * k.val + 64] := by decide +kernel
instance closedOff_k0_off155_0 (k : Fin k0_t6_loop.trips) : ClosedOff (k0_off155 k 64#32 0#32) := ⟨![1024 * k.val + 64], k0_off155_cf0 k⟩
theorem k0_off155_cf1 : ∀ k : Fin k0_t6_loop.trips, k0_off155 k 64#32 16#32 = ![1024 * k.val + 80] := by decide +kernel
instance closedOff_k0_off155_1 (k : Fin k0_t6_loop.trips) : ClosedOff (k0_off155 k 64#32 16#32) := ⟨![1024 * k.val + 80], k0_off155_cf1 k⟩
theorem k0_off155_cf2 : ∀ k : Fin k0_t6_loop.trips, k0_off155 k 64#32 32#32 = ![1024 * k.val + 96] := by decide +kernel
instance closedOff_k0_off155_2 (k : Fin k0_t6_loop.trips) : ClosedOff (k0_off155 k 64#32 32#32) := ⟨![1024 * k.val + 96], k0_off155_cf2 k⟩
theorem k0_off155_cf3 : ∀ k : Fin k0_t6_loop.trips, k0_off155 k 64#32 48#32 = ![1024 * k.val + 112] := by decide +kernel
instance closedOff_k0_off155_3 (k : Fin k0_t6_loop.trips) : ClosedOff (k0_off155 k 64#32 48#32) := ⟨![1024 * k.val + 112], k0_off155_cf3 k⟩
theorem k0_off155_cf4 : ∀ k : Fin k0_t6_loop.trips, k0_off155 k 128#32 0#32 = ![1024 * k.val + 128] := by decide +kernel
instance closedOff_k0_off155_4 (k : Fin k0_t6_loop.trips) : ClosedOff (k0_off155 k 128#32 0#32) := ⟨![1024 * k.val + 128], k0_off155_cf4 k⟩
theorem k0_off157_cf0 : ∀ k : Fin k0_t6_loop.trips, k0_off157 k 128#32 0#32 = ![1024 * k.val + 128] := by decide +kernel
instance closedOff_k0_off157_0 (k : Fin k0_t6_loop.trips) : ClosedOff (k0_off157 k 128#32 0#32) := ⟨![1024 * k.val + 128], k0_off157_cf0 k⟩
theorem k0_off157_cf1 : ∀ k : Fin k0_t6_loop.trips, k0_off157 k 128#32 16#32 = ![1024 * k.val + 144] := by decide +kernel
instance closedOff_k0_off157_1 (k : Fin k0_t6_loop.trips) : ClosedOff (k0_off157 k 128#32 16#32) := ⟨![1024 * k.val + 144], k0_off157_cf1 k⟩
theorem k0_off157_cf2 : ∀ k : Fin k0_t6_loop.trips, k0_off157 k 128#32 32#32 = ![1024 * k.val + 160] := by decide +kernel
instance closedOff_k0_off157_2 (k : Fin k0_t6_loop.trips) : ClosedOff (k0_off157 k 128#32 32#32) := ⟨![1024 * k.val + 160], k0_off157_cf2 k⟩
theorem k0_off157_cf3 : ∀ k : Fin k0_t6_loop.trips, k0_off157 k 128#32 48#32 = ![1024 * k.val + 176] := by decide +kernel
instance closedOff_k0_off157_3 (k : Fin k0_t6_loop.trips) : ClosedOff (k0_off157 k 128#32 48#32) := ⟨![1024 * k.val + 176], k0_off157_cf3 k⟩
theorem k0_off157_cf4 : ∀ k : Fin k0_t6_loop.trips, k0_off157 k 192#32 0#32 = ![1024 * k.val + 192] := by decide +kernel
instance closedOff_k0_off157_4 (k : Fin k0_t6_loop.trips) : ClosedOff (k0_off157 k 192#32 0#32) := ⟨![1024 * k.val + 192], k0_off157_cf4 k⟩
theorem k0_off159_cf0 : ∀ k : Fin k0_t6_loop.trips, k0_off159 k 192#32 0#32 = ![1024 * k.val + 192] := by decide +kernel
instance closedOff_k0_off159_0 (k : Fin k0_t6_loop.trips) : ClosedOff (k0_off159 k 192#32 0#32) := ⟨![1024 * k.val + 192], k0_off159_cf0 k⟩
theorem k0_off159_cf1 : ∀ k : Fin k0_t6_loop.trips, k0_off159 k 192#32 16#32 = ![1024 * k.val + 208] := by decide +kernel
instance closedOff_k0_off159_1 (k : Fin k0_t6_loop.trips) : ClosedOff (k0_off159 k 192#32 16#32) := ⟨![1024 * k.val + 208], k0_off159_cf1 k⟩
theorem k0_off159_cf2 : ∀ k : Fin k0_t6_loop.trips, k0_off159 k 192#32 32#32 = ![1024 * k.val + 224] := by decide +kernel
instance closedOff_k0_off159_2 (k : Fin k0_t6_loop.trips) : ClosedOff (k0_off159 k 192#32 32#32) := ⟨![1024 * k.val + 224], k0_off159_cf2 k⟩
theorem k0_off159_cf3 : ∀ k : Fin k0_t6_loop.trips, k0_off159 k 192#32 48#32 = ![1024 * k.val + 240] := by decide +kernel
instance closedOff_k0_off159_3 (k : Fin k0_t6_loop.trips) : ClosedOff (k0_off159 k 192#32 48#32) := ⟨![1024 * k.val + 240], k0_off159_cf3 k⟩
theorem k0_off159_cf4 : ∀ k : Fin k0_t6_loop.trips, k0_off159 k 256#32 0#32 = ![1024 * k.val + 256] := by decide +kernel
instance closedOff_k0_off159_4 (k : Fin k0_t6_loop.trips) : ClosedOff (k0_off159 k 256#32 0#32) := ⟨![1024 * k.val + 256], k0_off159_cf4 k⟩
theorem k0_off161_cf0 : ∀ k : Fin k0_t6_loop.trips, k0_off161 k 256#32 0#32 = ![1024 * k.val + 256] := by decide +kernel
instance closedOff_k0_off161_0 (k : Fin k0_t6_loop.trips) : ClosedOff (k0_off161 k 256#32 0#32) := ⟨![1024 * k.val + 256], k0_off161_cf0 k⟩
theorem k0_off161_cf1 : ∀ k : Fin k0_t6_loop.trips, k0_off161 k 256#32 16#32 = ![1024 * k.val + 272] := by decide +kernel
instance closedOff_k0_off161_1 (k : Fin k0_t6_loop.trips) : ClosedOff (k0_off161 k 256#32 16#32) := ⟨![1024 * k.val + 272], k0_off161_cf1 k⟩
theorem k0_off161_cf2 : ∀ k : Fin k0_t6_loop.trips, k0_off161 k 256#32 32#32 = ![1024 * k.val + 288] := by decide +kernel
instance closedOff_k0_off161_2 (k : Fin k0_t6_loop.trips) : ClosedOff (k0_off161 k 256#32 32#32) := ⟨![1024 * k.val + 288], k0_off161_cf2 k⟩
theorem k0_off161_cf3 : ∀ k : Fin k0_t6_loop.trips, k0_off161 k 256#32 48#32 = ![1024 * k.val + 304] := by decide +kernel
instance closedOff_k0_off161_3 (k : Fin k0_t6_loop.trips) : ClosedOff (k0_off161 k 256#32 48#32) := ⟨![1024 * k.val + 304], k0_off161_cf3 k⟩
theorem k0_off161_cf4 : ∀ k : Fin k0_t6_loop.trips, k0_off161 k 320#32 0#32 = ![1024 * k.val + 320] := by decide +kernel
instance closedOff_k0_off161_4 (k : Fin k0_t6_loop.trips) : ClosedOff (k0_off161 k 320#32 0#32) := ⟨![1024 * k.val + 320], k0_off161_cf4 k⟩
theorem k0_off163_cf0 : ∀ k : Fin k0_t6_loop.trips, k0_off163 k 320#32 0#32 = ![1024 * k.val + 320] := by decide +kernel
instance closedOff_k0_off163_0 (k : Fin k0_t6_loop.trips) : ClosedOff (k0_off163 k 320#32 0#32) := ⟨![1024 * k.val + 320], k0_off163_cf0 k⟩
theorem k0_off163_cf1 : ∀ k : Fin k0_t6_loop.trips, k0_off163 k 320#32 16#32 = ![1024 * k.val + 336] := by decide +kernel
instance closedOff_k0_off163_1 (k : Fin k0_t6_loop.trips) : ClosedOff (k0_off163 k 320#32 16#32) := ⟨![1024 * k.val + 336], k0_off163_cf1 k⟩
theorem k0_off163_cf2 : ∀ k : Fin k0_t6_loop.trips, k0_off163 k 320#32 32#32 = ![1024 * k.val + 352] := by decide +kernel
instance closedOff_k0_off163_2 (k : Fin k0_t6_loop.trips) : ClosedOff (k0_off163 k 320#32 32#32) := ⟨![1024 * k.val + 352], k0_off163_cf2 k⟩
theorem k0_off163_cf3 : ∀ k : Fin k0_t6_loop.trips, k0_off163 k 320#32 48#32 = ![1024 * k.val + 368] := by decide +kernel
instance closedOff_k0_off163_3 (k : Fin k0_t6_loop.trips) : ClosedOff (k0_off163 k 320#32 48#32) := ⟨![1024 * k.val + 368], k0_off163_cf3 k⟩
theorem k0_off163_cf4 : ∀ k : Fin k0_t6_loop.trips, k0_off163 k 384#32 0#32 = ![1024 * k.val + 384] := by decide +kernel
instance closedOff_k0_off163_4 (k : Fin k0_t6_loop.trips) : ClosedOff (k0_off163 k 384#32 0#32) := ⟨![1024 * k.val + 384], k0_off163_cf4 k⟩
theorem k0_off165_cf0 : ∀ k : Fin k0_t6_loop.trips, k0_off165 k 384#32 0#32 = ![1024 * k.val + 384] := by decide +kernel
instance closedOff_k0_off165_0 (k : Fin k0_t6_loop.trips) : ClosedOff (k0_off165 k 384#32 0#32) := ⟨![1024 * k.val + 384], k0_off165_cf0 k⟩
theorem k0_off165_cf1 : ∀ k : Fin k0_t6_loop.trips, k0_off165 k 384#32 16#32 = ![1024 * k.val + 400] := by decide +kernel
instance closedOff_k0_off165_1 (k : Fin k0_t6_loop.trips) : ClosedOff (k0_off165 k 384#32 16#32) := ⟨![1024 * k.val + 400], k0_off165_cf1 k⟩
theorem k0_off165_cf2 : ∀ k : Fin k0_t6_loop.trips, k0_off165 k 384#32 32#32 = ![1024 * k.val + 416] := by decide +kernel
instance closedOff_k0_off165_2 (k : Fin k0_t6_loop.trips) : ClosedOff (k0_off165 k 384#32 32#32) := ⟨![1024 * k.val + 416], k0_off165_cf2 k⟩
theorem k0_off165_cf3 : ∀ k : Fin k0_t6_loop.trips, k0_off165 k 384#32 48#32 = ![1024 * k.val + 432] := by decide +kernel
instance closedOff_k0_off165_3 (k : Fin k0_t6_loop.trips) : ClosedOff (k0_off165 k 384#32 48#32) := ⟨![1024 * k.val + 432], k0_off165_cf3 k⟩
theorem k0_off165_cf4 : ∀ k : Fin k0_t6_loop.trips, k0_off165 k 448#32 0#32 = ![1024 * k.val + 448] := by decide +kernel
instance closedOff_k0_off165_4 (k : Fin k0_t6_loop.trips) : ClosedOff (k0_off165 k 448#32 0#32) := ⟨![1024 * k.val + 448], k0_off165_cf4 k⟩
theorem k0_off167_cf0 : ∀ k : Fin k0_t6_loop.trips, k0_off167 k 448#32 0#32 = ![1024 * k.val + 448] := by decide +kernel
instance closedOff_k0_off167_0 (k : Fin k0_t6_loop.trips) : ClosedOff (k0_off167 k 448#32 0#32) := ⟨![1024 * k.val + 448], k0_off167_cf0 k⟩
theorem k0_off167_cf1 : ∀ k : Fin k0_t6_loop.trips, k0_off167 k 448#32 16#32 = ![1024 * k.val + 464] := by decide +kernel
instance closedOff_k0_off167_1 (k : Fin k0_t6_loop.trips) : ClosedOff (k0_off167 k 448#32 16#32) := ⟨![1024 * k.val + 464], k0_off167_cf1 k⟩
theorem k0_off167_cf2 : ∀ k : Fin k0_t6_loop.trips, k0_off167 k 448#32 32#32 = ![1024 * k.val + 480] := by decide +kernel
instance closedOff_k0_off167_2 (k : Fin k0_t6_loop.trips) : ClosedOff (k0_off167 k 448#32 32#32) := ⟨![1024 * k.val + 480], k0_off167_cf2 k⟩
theorem k0_off167_cf3 : ∀ k : Fin k0_t6_loop.trips, k0_off167 k 448#32 48#32 = ![1024 * k.val + 496] := by decide +kernel
instance closedOff_k0_off167_3 (k : Fin k0_t6_loop.trips) : ClosedOff (k0_off167 k 448#32 48#32) := ⟨![1024 * k.val + 496], k0_off167_cf3 k⟩
theorem k0_off167_cf4 : ∀ k : Fin k0_t6_loop.trips, k0_off167 k 512#32 0#32 = ![1024 * k.val + 512] := by decide +kernel
instance closedOff_k0_off167_4 (k : Fin k0_t6_loop.trips) : ClosedOff (k0_off167 k 512#32 0#32) := ⟨![1024 * k.val + 512], k0_off167_cf4 k⟩
theorem k0_off169_cf0 : ∀ k : Fin k0_t6_loop.trips, k0_off169 k 512#32 0#32 = ![1024 * k.val + 512] := by decide +kernel
instance closedOff_k0_off169_0 (k : Fin k0_t6_loop.trips) : ClosedOff (k0_off169 k 512#32 0#32) := ⟨![1024 * k.val + 512], k0_off169_cf0 k⟩
theorem k0_off169_cf1 : ∀ k : Fin k0_t6_loop.trips, k0_off169 k 512#32 16#32 = ![1024 * k.val + 528] := by decide +kernel
instance closedOff_k0_off169_1 (k : Fin k0_t6_loop.trips) : ClosedOff (k0_off169 k 512#32 16#32) := ⟨![1024 * k.val + 528], k0_off169_cf1 k⟩
theorem k0_off169_cf2 : ∀ k : Fin k0_t6_loop.trips, k0_off169 k 512#32 32#32 = ![1024 * k.val + 544] := by decide +kernel
instance closedOff_k0_off169_2 (k : Fin k0_t6_loop.trips) : ClosedOff (k0_off169 k 512#32 32#32) := ⟨![1024 * k.val + 544], k0_off169_cf2 k⟩
theorem k0_off169_cf3 : ∀ k : Fin k0_t6_loop.trips, k0_off169 k 512#32 48#32 = ![1024 * k.val + 560] := by decide +kernel
instance closedOff_k0_off169_3 (k : Fin k0_t6_loop.trips) : ClosedOff (k0_off169 k 512#32 48#32) := ⟨![1024 * k.val + 560], k0_off169_cf3 k⟩
theorem k0_off169_cf4 : ∀ k : Fin k0_t6_loop.trips, k0_off169 k 576#32 0#32 = ![1024 * k.val + 576] := by decide +kernel
instance closedOff_k0_off169_4 (k : Fin k0_t6_loop.trips) : ClosedOff (k0_off169 k 576#32 0#32) := ⟨![1024 * k.val + 576], k0_off169_cf4 k⟩
theorem k0_off171_cf0 : ∀ k : Fin k0_t6_loop.trips, k0_off171 k 576#32 0#32 = ![1024 * k.val + 576] := by decide +kernel
instance closedOff_k0_off171_0 (k : Fin k0_t6_loop.trips) : ClosedOff (k0_off171 k 576#32 0#32) := ⟨![1024 * k.val + 576], k0_off171_cf0 k⟩
theorem k0_off171_cf1 : ∀ k : Fin k0_t6_loop.trips, k0_off171 k 576#32 16#32 = ![1024 * k.val + 592] := by decide +kernel
instance closedOff_k0_off171_1 (k : Fin k0_t6_loop.trips) : ClosedOff (k0_off171 k 576#32 16#32) := ⟨![1024 * k.val + 592], k0_off171_cf1 k⟩
theorem k0_off171_cf2 : ∀ k : Fin k0_t6_loop.trips, k0_off171 k 576#32 32#32 = ![1024 * k.val + 608] := by decide +kernel
instance closedOff_k0_off171_2 (k : Fin k0_t6_loop.trips) : ClosedOff (k0_off171 k 576#32 32#32) := ⟨![1024 * k.val + 608], k0_off171_cf2 k⟩
theorem k0_off171_cf3 : ∀ k : Fin k0_t6_loop.trips, k0_off171 k 576#32 48#32 = ![1024 * k.val + 624] := by decide +kernel
instance closedOff_k0_off171_3 (k : Fin k0_t6_loop.trips) : ClosedOff (k0_off171 k 576#32 48#32) := ⟨![1024 * k.val + 624], k0_off171_cf3 k⟩
theorem k0_off171_cf4 : ∀ k : Fin k0_t6_loop.trips, k0_off171 k 640#32 0#32 = ![1024 * k.val + 640] := by decide +kernel
instance closedOff_k0_off171_4 (k : Fin k0_t6_loop.trips) : ClosedOff (k0_off171 k 640#32 0#32) := ⟨![1024 * k.val + 640], k0_off171_cf4 k⟩
theorem k0_off173_cf0 : ∀ k : Fin k0_t6_loop.trips, k0_off173 k 640#32 0#32 = ![1024 * k.val + 640] := by decide +kernel
instance closedOff_k0_off173_0 (k : Fin k0_t6_loop.trips) : ClosedOff (k0_off173 k 640#32 0#32) := ⟨![1024 * k.val + 640], k0_off173_cf0 k⟩
theorem k0_off173_cf1 : ∀ k : Fin k0_t6_loop.trips, k0_off173 k 640#32 16#32 = ![1024 * k.val + 656] := by decide +kernel
instance closedOff_k0_off173_1 (k : Fin k0_t6_loop.trips) : ClosedOff (k0_off173 k 640#32 16#32) := ⟨![1024 * k.val + 656], k0_off173_cf1 k⟩
theorem k0_off173_cf2 : ∀ k : Fin k0_t6_loop.trips, k0_off173 k 640#32 32#32 = ![1024 * k.val + 672] := by decide +kernel
instance closedOff_k0_off173_2 (k : Fin k0_t6_loop.trips) : ClosedOff (k0_off173 k 640#32 32#32) := ⟨![1024 * k.val + 672], k0_off173_cf2 k⟩
theorem k0_off173_cf3 : ∀ k : Fin k0_t6_loop.trips, k0_off173 k 640#32 48#32 = ![1024 * k.val + 688] := by decide +kernel
instance closedOff_k0_off173_3 (k : Fin k0_t6_loop.trips) : ClosedOff (k0_off173 k 640#32 48#32) := ⟨![1024 * k.val + 688], k0_off173_cf3 k⟩
theorem k0_off173_cf4 : ∀ k : Fin k0_t6_loop.trips, k0_off173 k 704#32 0#32 = ![1024 * k.val + 704] := by decide +kernel
instance closedOff_k0_off173_4 (k : Fin k0_t6_loop.trips) : ClosedOff (k0_off173 k 704#32 0#32) := ⟨![1024 * k.val + 704], k0_off173_cf4 k⟩
theorem k0_off175_cf0 : ∀ k : Fin k0_t6_loop.trips, k0_off175 k 704#32 0#32 = ![1024 * k.val + 704] := by decide +kernel
instance closedOff_k0_off175_0 (k : Fin k0_t6_loop.trips) : ClosedOff (k0_off175 k 704#32 0#32) := ⟨![1024 * k.val + 704], k0_off175_cf0 k⟩
theorem k0_off175_cf1 : ∀ k : Fin k0_t6_loop.trips, k0_off175 k 704#32 16#32 = ![1024 * k.val + 720] := by decide +kernel
instance closedOff_k0_off175_1 (k : Fin k0_t6_loop.trips) : ClosedOff (k0_off175 k 704#32 16#32) := ⟨![1024 * k.val + 720], k0_off175_cf1 k⟩
theorem k0_off175_cf2 : ∀ k : Fin k0_t6_loop.trips, k0_off175 k 704#32 32#32 = ![1024 * k.val + 736] := by decide +kernel
instance closedOff_k0_off175_2 (k : Fin k0_t6_loop.trips) : ClosedOff (k0_off175 k 704#32 32#32) := ⟨![1024 * k.val + 736], k0_off175_cf2 k⟩
theorem k0_off175_cf3 : ∀ k : Fin k0_t6_loop.trips, k0_off175 k 704#32 48#32 = ![1024 * k.val + 752] := by decide +kernel
instance closedOff_k0_off175_3 (k : Fin k0_t6_loop.trips) : ClosedOff (k0_off175 k 704#32 48#32) := ⟨![1024 * k.val + 752], k0_off175_cf3 k⟩
theorem k0_off175_cf4 : ∀ k : Fin k0_t6_loop.trips, k0_off175 k 768#32 0#32 = ![1024 * k.val + 768] := by decide +kernel
instance closedOff_k0_off175_4 (k : Fin k0_t6_loop.trips) : ClosedOff (k0_off175 k 768#32 0#32) := ⟨![1024 * k.val + 768], k0_off175_cf4 k⟩
theorem k0_off177_cf0 : ∀ k : Fin k0_t6_loop.trips, k0_off177 k 768#32 0#32 = ![1024 * k.val + 768] := by decide +kernel
instance closedOff_k0_off177_0 (k : Fin k0_t6_loop.trips) : ClosedOff (k0_off177 k 768#32 0#32) := ⟨![1024 * k.val + 768], k0_off177_cf0 k⟩
theorem k0_off177_cf1 : ∀ k : Fin k0_t6_loop.trips, k0_off177 k 768#32 16#32 = ![1024 * k.val + 784] := by decide +kernel
instance closedOff_k0_off177_1 (k : Fin k0_t6_loop.trips) : ClosedOff (k0_off177 k 768#32 16#32) := ⟨![1024 * k.val + 784], k0_off177_cf1 k⟩
theorem k0_off177_cf2 : ∀ k : Fin k0_t6_loop.trips, k0_off177 k 768#32 32#32 = ![1024 * k.val + 800] := by decide +kernel
instance closedOff_k0_off177_2 (k : Fin k0_t6_loop.trips) : ClosedOff (k0_off177 k 768#32 32#32) := ⟨![1024 * k.val + 800], k0_off177_cf2 k⟩
theorem k0_off177_cf3 : ∀ k : Fin k0_t6_loop.trips, k0_off177 k 768#32 48#32 = ![1024 * k.val + 816] := by decide +kernel
instance closedOff_k0_off177_3 (k : Fin k0_t6_loop.trips) : ClosedOff (k0_off177 k 768#32 48#32) := ⟨![1024 * k.val + 816], k0_off177_cf3 k⟩
theorem k0_off177_cf4 : ∀ k : Fin k0_t6_loop.trips, k0_off177 k 832#32 0#32 = ![1024 * k.val + 832] := by decide +kernel
instance closedOff_k0_off177_4 (k : Fin k0_t6_loop.trips) : ClosedOff (k0_off177 k 832#32 0#32) := ⟨![1024 * k.val + 832], k0_off177_cf4 k⟩
theorem k0_off179_cf0 : ∀ k : Fin k0_t6_loop.trips, k0_off179 k 832#32 0#32 = ![1024 * k.val + 832] := by decide +kernel
instance closedOff_k0_off179_0 (k : Fin k0_t6_loop.trips) : ClosedOff (k0_off179 k 832#32 0#32) := ⟨![1024 * k.val + 832], k0_off179_cf0 k⟩
theorem k0_off179_cf1 : ∀ k : Fin k0_t6_loop.trips, k0_off179 k 832#32 16#32 = ![1024 * k.val + 848] := by decide +kernel
instance closedOff_k0_off179_1 (k : Fin k0_t6_loop.trips) : ClosedOff (k0_off179 k 832#32 16#32) := ⟨![1024 * k.val + 848], k0_off179_cf1 k⟩
theorem k0_off179_cf2 : ∀ k : Fin k0_t6_loop.trips, k0_off179 k 832#32 32#32 = ![1024 * k.val + 864] := by decide +kernel
instance closedOff_k0_off179_2 (k : Fin k0_t6_loop.trips) : ClosedOff (k0_off179 k 832#32 32#32) := ⟨![1024 * k.val + 864], k0_off179_cf2 k⟩
theorem k0_off179_cf3 : ∀ k : Fin k0_t6_loop.trips, k0_off179 k 832#32 48#32 = ![1024 * k.val + 880] := by decide +kernel
instance closedOff_k0_off179_3 (k : Fin k0_t6_loop.trips) : ClosedOff (k0_off179 k 832#32 48#32) := ⟨![1024 * k.val + 880], k0_off179_cf3 k⟩
theorem k0_off179_cf4 : ∀ k : Fin k0_t6_loop.trips, k0_off179 k 896#32 0#32 = ![1024 * k.val + 896] := by decide +kernel
instance closedOff_k0_off179_4 (k : Fin k0_t6_loop.trips) : ClosedOff (k0_off179 k 896#32 0#32) := ⟨![1024 * k.val + 896], k0_off179_cf4 k⟩
theorem k0_off181_cf0 : ∀ k : Fin k0_t6_loop.trips, k0_off181 k 896#32 0#32 = ![1024 * k.val + 896] := by decide +kernel
instance closedOff_k0_off181_0 (k : Fin k0_t6_loop.trips) : ClosedOff (k0_off181 k 896#32 0#32) := ⟨![1024 * k.val + 896], k0_off181_cf0 k⟩
theorem k0_off181_cf1 : ∀ k : Fin k0_t6_loop.trips, k0_off181 k 896#32 16#32 = ![1024 * k.val + 912] := by decide +kernel
instance closedOff_k0_off181_1 (k : Fin k0_t6_loop.trips) : ClosedOff (k0_off181 k 896#32 16#32) := ⟨![1024 * k.val + 912], k0_off181_cf1 k⟩
theorem k0_off181_cf2 : ∀ k : Fin k0_t6_loop.trips, k0_off181 k 896#32 32#32 = ![1024 * k.val + 928] := by decide +kernel
instance closedOff_k0_off181_2 (k : Fin k0_t6_loop.trips) : ClosedOff (k0_off181 k 896#32 32#32) := ⟨![1024 * k.val + 928], k0_off181_cf2 k⟩
theorem k0_off181_cf3 : ∀ k : Fin k0_t6_loop.trips, k0_off181 k 896#32 48#32 = ![1024 * k.val + 944] := by decide +kernel
instance closedOff_k0_off181_3 (k : Fin k0_t6_loop.trips) : ClosedOff (k0_off181 k 896#32 48#32) := ⟨![1024 * k.val + 944], k0_off181_cf3 k⟩
theorem k0_off181_cf4 : ∀ k : Fin k0_t6_loop.trips, k0_off181 k 960#32 0#32 = ![1024 * k.val + 960] := by decide +kernel
instance closedOff_k0_off181_4 (k : Fin k0_t6_loop.trips) : ClosedOff (k0_off181 k 960#32 0#32) := ⟨![1024 * k.val + 960], k0_off181_cf4 k⟩
theorem k0_off190_cf0 : ∀ k : Fin k0_t7_loop.trips, k0_off190 k 0#32 0#32 = ![1024 * k.val + 0] := by decide +kernel
instance closedOff_k0_off190_0 (k : Fin k0_t7_loop.trips) : ClosedOff (k0_off190 k 0#32 0#32) := ⟨![1024 * k.val + 0], k0_off190_cf0 k⟩
theorem k0_off190_cf1 : ∀ k : Fin k0_t7_loop.trips, k0_off190 k 0#32 16#32 = ![1024 * k.val + 16] := by decide +kernel
instance closedOff_k0_off190_1 (k : Fin k0_t7_loop.trips) : ClosedOff (k0_off190 k 0#32 16#32) := ⟨![1024 * k.val + 16], k0_off190_cf1 k⟩
theorem k0_off190_cf2 : ∀ k : Fin k0_t7_loop.trips, k0_off190 k 0#32 32#32 = ![1024 * k.val + 32] := by decide +kernel
instance closedOff_k0_off190_2 (k : Fin k0_t7_loop.trips) : ClosedOff (k0_off190 k 0#32 32#32) := ⟨![1024 * k.val + 32], k0_off190_cf2 k⟩
theorem k0_off190_cf3 : ∀ k : Fin k0_t7_loop.trips, k0_off190 k 0#32 48#32 = ![1024 * k.val + 48] := by decide +kernel
instance closedOff_k0_off190_3 (k : Fin k0_t7_loop.trips) : ClosedOff (k0_off190 k 0#32 48#32) := ⟨![1024 * k.val + 48], k0_off190_cf3 k⟩
theorem k0_off190_cf4 : ∀ k : Fin k0_t7_loop.trips, k0_off190 k 64#32 0#32 = ![1024 * k.val + 64] := by decide +kernel
instance closedOff_k0_off190_4 (k : Fin k0_t7_loop.trips) : ClosedOff (k0_off190 k 64#32 0#32) := ⟨![1024 * k.val + 64], k0_off190_cf4 k⟩
theorem k0_off192_cf0 : ∀ k : Fin k0_t7_loop.trips, k0_off192 k 64#32 0#32 = ![1024 * k.val + 64] := by decide +kernel
instance closedOff_k0_off192_0 (k : Fin k0_t7_loop.trips) : ClosedOff (k0_off192 k 64#32 0#32) := ⟨![1024 * k.val + 64], k0_off192_cf0 k⟩
theorem k0_off192_cf1 : ∀ k : Fin k0_t7_loop.trips, k0_off192 k 64#32 16#32 = ![1024 * k.val + 80] := by decide +kernel
instance closedOff_k0_off192_1 (k : Fin k0_t7_loop.trips) : ClosedOff (k0_off192 k 64#32 16#32) := ⟨![1024 * k.val + 80], k0_off192_cf1 k⟩
theorem k0_off192_cf2 : ∀ k : Fin k0_t7_loop.trips, k0_off192 k 64#32 32#32 = ![1024 * k.val + 96] := by decide +kernel
instance closedOff_k0_off192_2 (k : Fin k0_t7_loop.trips) : ClosedOff (k0_off192 k 64#32 32#32) := ⟨![1024 * k.val + 96], k0_off192_cf2 k⟩
theorem k0_off192_cf3 : ∀ k : Fin k0_t7_loop.trips, k0_off192 k 64#32 48#32 = ![1024 * k.val + 112] := by decide +kernel
instance closedOff_k0_off192_3 (k : Fin k0_t7_loop.trips) : ClosedOff (k0_off192 k 64#32 48#32) := ⟨![1024 * k.val + 112], k0_off192_cf3 k⟩
theorem k0_off192_cf4 : ∀ k : Fin k0_t7_loop.trips, k0_off192 k 128#32 0#32 = ![1024 * k.val + 128] := by decide +kernel
instance closedOff_k0_off192_4 (k : Fin k0_t7_loop.trips) : ClosedOff (k0_off192 k 128#32 0#32) := ⟨![1024 * k.val + 128], k0_off192_cf4 k⟩
theorem k0_off194_cf0 : ∀ k : Fin k0_t7_loop.trips, k0_off194 k 128#32 0#32 = ![1024 * k.val + 128] := by decide +kernel
instance closedOff_k0_off194_0 (k : Fin k0_t7_loop.trips) : ClosedOff (k0_off194 k 128#32 0#32) := ⟨![1024 * k.val + 128], k0_off194_cf0 k⟩
theorem k0_off194_cf1 : ∀ k : Fin k0_t7_loop.trips, k0_off194 k 128#32 16#32 = ![1024 * k.val + 144] := by decide +kernel
instance closedOff_k0_off194_1 (k : Fin k0_t7_loop.trips) : ClosedOff (k0_off194 k 128#32 16#32) := ⟨![1024 * k.val + 144], k0_off194_cf1 k⟩
theorem k0_off194_cf2 : ∀ k : Fin k0_t7_loop.trips, k0_off194 k 128#32 32#32 = ![1024 * k.val + 160] := by decide +kernel
instance closedOff_k0_off194_2 (k : Fin k0_t7_loop.trips) : ClosedOff (k0_off194 k 128#32 32#32) := ⟨![1024 * k.val + 160], k0_off194_cf2 k⟩
theorem k0_off194_cf3 : ∀ k : Fin k0_t7_loop.trips, k0_off194 k 128#32 48#32 = ![1024 * k.val + 176] := by decide +kernel
instance closedOff_k0_off194_3 (k : Fin k0_t7_loop.trips) : ClosedOff (k0_off194 k 128#32 48#32) := ⟨![1024 * k.val + 176], k0_off194_cf3 k⟩
theorem k0_off194_cf4 : ∀ k : Fin k0_t7_loop.trips, k0_off194 k 192#32 0#32 = ![1024 * k.val + 192] := by decide +kernel
instance closedOff_k0_off194_4 (k : Fin k0_t7_loop.trips) : ClosedOff (k0_off194 k 192#32 0#32) := ⟨![1024 * k.val + 192], k0_off194_cf4 k⟩
theorem k0_off196_cf0 : ∀ k : Fin k0_t7_loop.trips, k0_off196 k 192#32 0#32 = ![1024 * k.val + 192] := by decide +kernel
instance closedOff_k0_off196_0 (k : Fin k0_t7_loop.trips) : ClosedOff (k0_off196 k 192#32 0#32) := ⟨![1024 * k.val + 192], k0_off196_cf0 k⟩
theorem k0_off196_cf1 : ∀ k : Fin k0_t7_loop.trips, k0_off196 k 192#32 16#32 = ![1024 * k.val + 208] := by decide +kernel
instance closedOff_k0_off196_1 (k : Fin k0_t7_loop.trips) : ClosedOff (k0_off196 k 192#32 16#32) := ⟨![1024 * k.val + 208], k0_off196_cf1 k⟩
theorem k0_off196_cf2 : ∀ k : Fin k0_t7_loop.trips, k0_off196 k 192#32 32#32 = ![1024 * k.val + 224] := by decide +kernel
instance closedOff_k0_off196_2 (k : Fin k0_t7_loop.trips) : ClosedOff (k0_off196 k 192#32 32#32) := ⟨![1024 * k.val + 224], k0_off196_cf2 k⟩
theorem k0_off196_cf3 : ∀ k : Fin k0_t7_loop.trips, k0_off196 k 192#32 48#32 = ![1024 * k.val + 240] := by decide +kernel
instance closedOff_k0_off196_3 (k : Fin k0_t7_loop.trips) : ClosedOff (k0_off196 k 192#32 48#32) := ⟨![1024 * k.val + 240], k0_off196_cf3 k⟩
theorem k0_off196_cf4 : ∀ k : Fin k0_t7_loop.trips, k0_off196 k 256#32 0#32 = ![1024 * k.val + 256] := by decide +kernel
instance closedOff_k0_off196_4 (k : Fin k0_t7_loop.trips) : ClosedOff (k0_off196 k 256#32 0#32) := ⟨![1024 * k.val + 256], k0_off196_cf4 k⟩
theorem k0_off198_cf0 : ∀ k : Fin k0_t7_loop.trips, k0_off198 k 256#32 0#32 = ![1024 * k.val + 256] := by decide +kernel
instance closedOff_k0_off198_0 (k : Fin k0_t7_loop.trips) : ClosedOff (k0_off198 k 256#32 0#32) := ⟨![1024 * k.val + 256], k0_off198_cf0 k⟩
theorem k0_off198_cf1 : ∀ k : Fin k0_t7_loop.trips, k0_off198 k 256#32 16#32 = ![1024 * k.val + 272] := by decide +kernel
instance closedOff_k0_off198_1 (k : Fin k0_t7_loop.trips) : ClosedOff (k0_off198 k 256#32 16#32) := ⟨![1024 * k.val + 272], k0_off198_cf1 k⟩
theorem k0_off198_cf2 : ∀ k : Fin k0_t7_loop.trips, k0_off198 k 256#32 32#32 = ![1024 * k.val + 288] := by decide +kernel
instance closedOff_k0_off198_2 (k : Fin k0_t7_loop.trips) : ClosedOff (k0_off198 k 256#32 32#32) := ⟨![1024 * k.val + 288], k0_off198_cf2 k⟩
theorem k0_off198_cf3 : ∀ k : Fin k0_t7_loop.trips, k0_off198 k 256#32 48#32 = ![1024 * k.val + 304] := by decide +kernel
instance closedOff_k0_off198_3 (k : Fin k0_t7_loop.trips) : ClosedOff (k0_off198 k 256#32 48#32) := ⟨![1024 * k.val + 304], k0_off198_cf3 k⟩
theorem k0_off198_cf4 : ∀ k : Fin k0_t7_loop.trips, k0_off198 k 320#32 0#32 = ![1024 * k.val + 320] := by decide +kernel
instance closedOff_k0_off198_4 (k : Fin k0_t7_loop.trips) : ClosedOff (k0_off198 k 320#32 0#32) := ⟨![1024 * k.val + 320], k0_off198_cf4 k⟩
theorem k0_off200_cf0 : ∀ k : Fin k0_t7_loop.trips, k0_off200 k 320#32 0#32 = ![1024 * k.val + 320] := by decide +kernel
instance closedOff_k0_off200_0 (k : Fin k0_t7_loop.trips) : ClosedOff (k0_off200 k 320#32 0#32) := ⟨![1024 * k.val + 320], k0_off200_cf0 k⟩
theorem k0_off200_cf1 : ∀ k : Fin k0_t7_loop.trips, k0_off200 k 320#32 16#32 = ![1024 * k.val + 336] := by decide +kernel
instance closedOff_k0_off200_1 (k : Fin k0_t7_loop.trips) : ClosedOff (k0_off200 k 320#32 16#32) := ⟨![1024 * k.val + 336], k0_off200_cf1 k⟩
theorem k0_off200_cf2 : ∀ k : Fin k0_t7_loop.trips, k0_off200 k 320#32 32#32 = ![1024 * k.val + 352] := by decide +kernel
instance closedOff_k0_off200_2 (k : Fin k0_t7_loop.trips) : ClosedOff (k0_off200 k 320#32 32#32) := ⟨![1024 * k.val + 352], k0_off200_cf2 k⟩
theorem k0_off200_cf3 : ∀ k : Fin k0_t7_loop.trips, k0_off200 k 320#32 48#32 = ![1024 * k.val + 368] := by decide +kernel
instance closedOff_k0_off200_3 (k : Fin k0_t7_loop.trips) : ClosedOff (k0_off200 k 320#32 48#32) := ⟨![1024 * k.val + 368], k0_off200_cf3 k⟩
theorem k0_off200_cf4 : ∀ k : Fin k0_t7_loop.trips, k0_off200 k 384#32 0#32 = ![1024 * k.val + 384] := by decide +kernel
instance closedOff_k0_off200_4 (k : Fin k0_t7_loop.trips) : ClosedOff (k0_off200 k 384#32 0#32) := ⟨![1024 * k.val + 384], k0_off200_cf4 k⟩
theorem k0_off202_cf0 : ∀ k : Fin k0_t7_loop.trips, k0_off202 k 384#32 0#32 = ![1024 * k.val + 384] := by decide +kernel
instance closedOff_k0_off202_0 (k : Fin k0_t7_loop.trips) : ClosedOff (k0_off202 k 384#32 0#32) := ⟨![1024 * k.val + 384], k0_off202_cf0 k⟩
theorem k0_off202_cf1 : ∀ k : Fin k0_t7_loop.trips, k0_off202 k 384#32 16#32 = ![1024 * k.val + 400] := by decide +kernel
instance closedOff_k0_off202_1 (k : Fin k0_t7_loop.trips) : ClosedOff (k0_off202 k 384#32 16#32) := ⟨![1024 * k.val + 400], k0_off202_cf1 k⟩
theorem k0_off202_cf2 : ∀ k : Fin k0_t7_loop.trips, k0_off202 k 384#32 32#32 = ![1024 * k.val + 416] := by decide +kernel
instance closedOff_k0_off202_2 (k : Fin k0_t7_loop.trips) : ClosedOff (k0_off202 k 384#32 32#32) := ⟨![1024 * k.val + 416], k0_off202_cf2 k⟩
theorem k0_off202_cf3 : ∀ k : Fin k0_t7_loop.trips, k0_off202 k 384#32 48#32 = ![1024 * k.val + 432] := by decide +kernel
instance closedOff_k0_off202_3 (k : Fin k0_t7_loop.trips) : ClosedOff (k0_off202 k 384#32 48#32) := ⟨![1024 * k.val + 432], k0_off202_cf3 k⟩
theorem k0_off202_cf4 : ∀ k : Fin k0_t7_loop.trips, k0_off202 k 448#32 0#32 = ![1024 * k.val + 448] := by decide +kernel
instance closedOff_k0_off202_4 (k : Fin k0_t7_loop.trips) : ClosedOff (k0_off202 k 448#32 0#32) := ⟨![1024 * k.val + 448], k0_off202_cf4 k⟩
theorem k0_off204_cf0 : ∀ k : Fin k0_t7_loop.trips, k0_off204 k 448#32 0#32 = ![1024 * k.val + 448] := by decide +kernel
instance closedOff_k0_off204_0 (k : Fin k0_t7_loop.trips) : ClosedOff (k0_off204 k 448#32 0#32) := ⟨![1024 * k.val + 448], k0_off204_cf0 k⟩
theorem k0_off204_cf1 : ∀ k : Fin k0_t7_loop.trips, k0_off204 k 448#32 16#32 = ![1024 * k.val + 464] := by decide +kernel
instance closedOff_k0_off204_1 (k : Fin k0_t7_loop.trips) : ClosedOff (k0_off204 k 448#32 16#32) := ⟨![1024 * k.val + 464], k0_off204_cf1 k⟩
theorem k0_off204_cf2 : ∀ k : Fin k0_t7_loop.trips, k0_off204 k 448#32 32#32 = ![1024 * k.val + 480] := by decide +kernel
instance closedOff_k0_off204_2 (k : Fin k0_t7_loop.trips) : ClosedOff (k0_off204 k 448#32 32#32) := ⟨![1024 * k.val + 480], k0_off204_cf2 k⟩
theorem k0_off204_cf3 : ∀ k : Fin k0_t7_loop.trips, k0_off204 k 448#32 48#32 = ![1024 * k.val + 496] := by decide +kernel
instance closedOff_k0_off204_3 (k : Fin k0_t7_loop.trips) : ClosedOff (k0_off204 k 448#32 48#32) := ⟨![1024 * k.val + 496], k0_off204_cf3 k⟩
theorem k0_off204_cf4 : ∀ k : Fin k0_t7_loop.trips, k0_off204 k 512#32 0#32 = ![1024 * k.val + 512] := by decide +kernel
instance closedOff_k0_off204_4 (k : Fin k0_t7_loop.trips) : ClosedOff (k0_off204 k 512#32 0#32) := ⟨![1024 * k.val + 512], k0_off204_cf4 k⟩
theorem k0_off206_cf0 : ∀ k : Fin k0_t7_loop.trips, k0_off206 k 512#32 0#32 = ![1024 * k.val + 512] := by decide +kernel
instance closedOff_k0_off206_0 (k : Fin k0_t7_loop.trips) : ClosedOff (k0_off206 k 512#32 0#32) := ⟨![1024 * k.val + 512], k0_off206_cf0 k⟩
theorem k0_off206_cf1 : ∀ k : Fin k0_t7_loop.trips, k0_off206 k 512#32 16#32 = ![1024 * k.val + 528] := by decide +kernel
instance closedOff_k0_off206_1 (k : Fin k0_t7_loop.trips) : ClosedOff (k0_off206 k 512#32 16#32) := ⟨![1024 * k.val + 528], k0_off206_cf1 k⟩
theorem k0_off206_cf2 : ∀ k : Fin k0_t7_loop.trips, k0_off206 k 512#32 32#32 = ![1024 * k.val + 544] := by decide +kernel
instance closedOff_k0_off206_2 (k : Fin k0_t7_loop.trips) : ClosedOff (k0_off206 k 512#32 32#32) := ⟨![1024 * k.val + 544], k0_off206_cf2 k⟩
theorem k0_off206_cf3 : ∀ k : Fin k0_t7_loop.trips, k0_off206 k 512#32 48#32 = ![1024 * k.val + 560] := by decide +kernel
instance closedOff_k0_off206_3 (k : Fin k0_t7_loop.trips) : ClosedOff (k0_off206 k 512#32 48#32) := ⟨![1024 * k.val + 560], k0_off206_cf3 k⟩
theorem k0_off206_cf4 : ∀ k : Fin k0_t7_loop.trips, k0_off206 k 576#32 0#32 = ![1024 * k.val + 576] := by decide +kernel
instance closedOff_k0_off206_4 (k : Fin k0_t7_loop.trips) : ClosedOff (k0_off206 k 576#32 0#32) := ⟨![1024 * k.val + 576], k0_off206_cf4 k⟩
theorem k0_off208_cf0 : ∀ k : Fin k0_t7_loop.trips, k0_off208 k 576#32 0#32 = ![1024 * k.val + 576] := by decide +kernel
instance closedOff_k0_off208_0 (k : Fin k0_t7_loop.trips) : ClosedOff (k0_off208 k 576#32 0#32) := ⟨![1024 * k.val + 576], k0_off208_cf0 k⟩
theorem k0_off208_cf1 : ∀ k : Fin k0_t7_loop.trips, k0_off208 k 576#32 16#32 = ![1024 * k.val + 592] := by decide +kernel
instance closedOff_k0_off208_1 (k : Fin k0_t7_loop.trips) : ClosedOff (k0_off208 k 576#32 16#32) := ⟨![1024 * k.val + 592], k0_off208_cf1 k⟩
theorem k0_off208_cf2 : ∀ k : Fin k0_t7_loop.trips, k0_off208 k 576#32 32#32 = ![1024 * k.val + 608] := by decide +kernel
instance closedOff_k0_off208_2 (k : Fin k0_t7_loop.trips) : ClosedOff (k0_off208 k 576#32 32#32) := ⟨![1024 * k.val + 608], k0_off208_cf2 k⟩
theorem k0_off208_cf3 : ∀ k : Fin k0_t7_loop.trips, k0_off208 k 576#32 48#32 = ![1024 * k.val + 624] := by decide +kernel
instance closedOff_k0_off208_3 (k : Fin k0_t7_loop.trips) : ClosedOff (k0_off208 k 576#32 48#32) := ⟨![1024 * k.val + 624], k0_off208_cf3 k⟩
theorem k0_off208_cf4 : ∀ k : Fin k0_t7_loop.trips, k0_off208 k 640#32 0#32 = ![1024 * k.val + 640] := by decide +kernel
instance closedOff_k0_off208_4 (k : Fin k0_t7_loop.trips) : ClosedOff (k0_off208 k 640#32 0#32) := ⟨![1024 * k.val + 640], k0_off208_cf4 k⟩
theorem k0_off210_cf0 : ∀ k : Fin k0_t7_loop.trips, k0_off210 k 640#32 0#32 = ![1024 * k.val + 640] := by decide +kernel
instance closedOff_k0_off210_0 (k : Fin k0_t7_loop.trips) : ClosedOff (k0_off210 k 640#32 0#32) := ⟨![1024 * k.val + 640], k0_off210_cf0 k⟩
theorem k0_off210_cf1 : ∀ k : Fin k0_t7_loop.trips, k0_off210 k 640#32 16#32 = ![1024 * k.val + 656] := by decide +kernel
instance closedOff_k0_off210_1 (k : Fin k0_t7_loop.trips) : ClosedOff (k0_off210 k 640#32 16#32) := ⟨![1024 * k.val + 656], k0_off210_cf1 k⟩
theorem k0_off210_cf2 : ∀ k : Fin k0_t7_loop.trips, k0_off210 k 640#32 32#32 = ![1024 * k.val + 672] := by decide +kernel
instance closedOff_k0_off210_2 (k : Fin k0_t7_loop.trips) : ClosedOff (k0_off210 k 640#32 32#32) := ⟨![1024 * k.val + 672], k0_off210_cf2 k⟩
theorem k0_off210_cf3 : ∀ k : Fin k0_t7_loop.trips, k0_off210 k 640#32 48#32 = ![1024 * k.val + 688] := by decide +kernel
instance closedOff_k0_off210_3 (k : Fin k0_t7_loop.trips) : ClosedOff (k0_off210 k 640#32 48#32) := ⟨![1024 * k.val + 688], k0_off210_cf3 k⟩
theorem k0_off210_cf4 : ∀ k : Fin k0_t7_loop.trips, k0_off210 k 704#32 0#32 = ![1024 * k.val + 704] := by decide +kernel
instance closedOff_k0_off210_4 (k : Fin k0_t7_loop.trips) : ClosedOff (k0_off210 k 704#32 0#32) := ⟨![1024 * k.val + 704], k0_off210_cf4 k⟩
theorem k0_off212_cf0 : ∀ k : Fin k0_t7_loop.trips, k0_off212 k 704#32 0#32 = ![1024 * k.val + 704] := by decide +kernel
instance closedOff_k0_off212_0 (k : Fin k0_t7_loop.trips) : ClosedOff (k0_off212 k 704#32 0#32) := ⟨![1024 * k.val + 704], k0_off212_cf0 k⟩
theorem k0_off212_cf1 : ∀ k : Fin k0_t7_loop.trips, k0_off212 k 704#32 16#32 = ![1024 * k.val + 720] := by decide +kernel
instance closedOff_k0_off212_1 (k : Fin k0_t7_loop.trips) : ClosedOff (k0_off212 k 704#32 16#32) := ⟨![1024 * k.val + 720], k0_off212_cf1 k⟩
theorem k0_off212_cf2 : ∀ k : Fin k0_t7_loop.trips, k0_off212 k 704#32 32#32 = ![1024 * k.val + 736] := by decide +kernel
instance closedOff_k0_off212_2 (k : Fin k0_t7_loop.trips) : ClosedOff (k0_off212 k 704#32 32#32) := ⟨![1024 * k.val + 736], k0_off212_cf2 k⟩
theorem k0_off212_cf3 : ∀ k : Fin k0_t7_loop.trips, k0_off212 k 704#32 48#32 = ![1024 * k.val + 752] := by decide +kernel
instance closedOff_k0_off212_3 (k : Fin k0_t7_loop.trips) : ClosedOff (k0_off212 k 704#32 48#32) := ⟨![1024 * k.val + 752], k0_off212_cf3 k⟩
theorem k0_off212_cf4 : ∀ k : Fin k0_t7_loop.trips, k0_off212 k 768#32 0#32 = ![1024 * k.val + 768] := by decide +kernel
instance closedOff_k0_off212_4 (k : Fin k0_t7_loop.trips) : ClosedOff (k0_off212 k 768#32 0#32) := ⟨![1024 * k.val + 768], k0_off212_cf4 k⟩
theorem k0_off214_cf0 : ∀ k : Fin k0_t7_loop.trips, k0_off214 k 768#32 0#32 = ![1024 * k.val + 768] := by decide +kernel
instance closedOff_k0_off214_0 (k : Fin k0_t7_loop.trips) : ClosedOff (k0_off214 k 768#32 0#32) := ⟨![1024 * k.val + 768], k0_off214_cf0 k⟩
theorem k0_off214_cf1 : ∀ k : Fin k0_t7_loop.trips, k0_off214 k 768#32 16#32 = ![1024 * k.val + 784] := by decide +kernel
instance closedOff_k0_off214_1 (k : Fin k0_t7_loop.trips) : ClosedOff (k0_off214 k 768#32 16#32) := ⟨![1024 * k.val + 784], k0_off214_cf1 k⟩
theorem k0_off214_cf2 : ∀ k : Fin k0_t7_loop.trips, k0_off214 k 768#32 32#32 = ![1024 * k.val + 800] := by decide +kernel
instance closedOff_k0_off214_2 (k : Fin k0_t7_loop.trips) : ClosedOff (k0_off214 k 768#32 32#32) := ⟨![1024 * k.val + 800], k0_off214_cf2 k⟩
theorem k0_off214_cf3 : ∀ k : Fin k0_t7_loop.trips, k0_off214 k 768#32 48#32 = ![1024 * k.val + 816] := by decide +kernel
instance closedOff_k0_off214_3 (k : Fin k0_t7_loop.trips) : ClosedOff (k0_off214 k 768#32 48#32) := ⟨![1024 * k.val + 816], k0_off214_cf3 k⟩
theorem k0_off214_cf4 : ∀ k : Fin k0_t7_loop.trips, k0_off214 k 832#32 0#32 = ![1024 * k.val + 832] := by decide +kernel
instance closedOff_k0_off214_4 (k : Fin k0_t7_loop.trips) : ClosedOff (k0_off214 k 832#32 0#32) := ⟨![1024 * k.val + 832], k0_off214_cf4 k⟩
theorem k0_off216_cf0 : ∀ k : Fin k0_t7_loop.trips, k0_off216 k 832#32 0#32 = ![1024 * k.val + 832] := by decide +kernel
instance closedOff_k0_off216_0 (k : Fin k0_t7_loop.trips) : ClosedOff (k0_off216 k 832#32 0#32) := ⟨![1024 * k.val + 832], k0_off216_cf0 k⟩
theorem k0_off216_cf1 : ∀ k : Fin k0_t7_loop.trips, k0_off216 k 832#32 16#32 = ![1024 * k.val + 848] := by decide +kernel
instance closedOff_k0_off216_1 (k : Fin k0_t7_loop.trips) : ClosedOff (k0_off216 k 832#32 16#32) := ⟨![1024 * k.val + 848], k0_off216_cf1 k⟩
theorem k0_off216_cf2 : ∀ k : Fin k0_t7_loop.trips, k0_off216 k 832#32 32#32 = ![1024 * k.val + 864] := by decide +kernel
instance closedOff_k0_off216_2 (k : Fin k0_t7_loop.trips) : ClosedOff (k0_off216 k 832#32 32#32) := ⟨![1024 * k.val + 864], k0_off216_cf2 k⟩
theorem k0_off216_cf3 : ∀ k : Fin k0_t7_loop.trips, k0_off216 k 832#32 48#32 = ![1024 * k.val + 880] := by decide +kernel
instance closedOff_k0_off216_3 (k : Fin k0_t7_loop.trips) : ClosedOff (k0_off216 k 832#32 48#32) := ⟨![1024 * k.val + 880], k0_off216_cf3 k⟩
theorem k0_off216_cf4 : ∀ k : Fin k0_t7_loop.trips, k0_off216 k 896#32 0#32 = ![1024 * k.val + 896] := by decide +kernel
instance closedOff_k0_off216_4 (k : Fin k0_t7_loop.trips) : ClosedOff (k0_off216 k 896#32 0#32) := ⟨![1024 * k.val + 896], k0_off216_cf4 k⟩
theorem k0_off218_cf0 : ∀ k : Fin k0_t7_loop.trips, k0_off218 k 896#32 0#32 = ![1024 * k.val + 896] := by decide +kernel
instance closedOff_k0_off218_0 (k : Fin k0_t7_loop.trips) : ClosedOff (k0_off218 k 896#32 0#32) := ⟨![1024 * k.val + 896], k0_off218_cf0 k⟩
theorem k0_off218_cf1 : ∀ k : Fin k0_t7_loop.trips, k0_off218 k 896#32 16#32 = ![1024 * k.val + 912] := by decide +kernel
instance closedOff_k0_off218_1 (k : Fin k0_t7_loop.trips) : ClosedOff (k0_off218 k 896#32 16#32) := ⟨![1024 * k.val + 912], k0_off218_cf1 k⟩
theorem k0_off218_cf2 : ∀ k : Fin k0_t7_loop.trips, k0_off218 k 896#32 32#32 = ![1024 * k.val + 928] := by decide +kernel
instance closedOff_k0_off218_2 (k : Fin k0_t7_loop.trips) : ClosedOff (k0_off218 k 896#32 32#32) := ⟨![1024 * k.val + 928], k0_off218_cf2 k⟩
theorem k0_off218_cf3 : ∀ k : Fin k0_t7_loop.trips, k0_off218 k 896#32 48#32 = ![1024 * k.val + 944] := by decide +kernel
instance closedOff_k0_off218_3 (k : Fin k0_t7_loop.trips) : ClosedOff (k0_off218 k 896#32 48#32) := ⟨![1024 * k.val + 944], k0_off218_cf3 k⟩
theorem k0_off218_cf4 : ∀ k : Fin k0_t7_loop.trips, k0_off218 k 960#32 0#32 = ![1024 * k.val + 960] := by decide +kernel
instance closedOff_k0_off218_4 (k : Fin k0_t7_loop.trips) : ClosedOff (k0_off218 k 960#32 0#32) := ⟨![1024 * k.val + 960], k0_off218_cf4 k⟩

end Cert.Kernel.Hand
-- ==== Proof.KVal.lean ====
/-
  The value a compute loop leaves in a row buffer. A row buffer holds 400 rows of 64 lanes; trip k of the loop
  adds, to each of rows 16k … 16k+15, the table row that row's index names, sixteen lanes at a time. `stage n` is
  the buffer once its first n rows are done. One trip is 64 stores of sixteen lanes each; if the j-th of them lands
  at position 1024k + 16j and carries the next stage's values there, the trip takes stage 16k to stage 16(k+1).
-/
import proofs.«216121_g54726473285929_cont_9to1_m_355_3_alg».proof.Proof.KCommon
import proofs.«216121_g54726473285929_cont_9to1_m_355_3_alg».proof.Proof.Spec
import Idealize.ShloMosaic.Lib.Writes
import Idealize.ShloMosaic.Lib.Pipeline.Value
import Idealize.ShloMosaic.Lib.Exec

noncomputable section

namespace Cert.Kernel.Hand

open Cert.Kernel Cert.Kernel.Gen
open Idealize.ShloMosaic Idealize.ShloMosaic.ValueIdx
open Cert.Spec (rowOf)

variable {F : FTy → Type} [FloatOps F]

theorem tab_lt (w : BitVec 32) (c : Nat) : (rowOf w).val * 64 + c % 64 < 1024 := by
  have := (rowOf w).isLt
  omega

theorem p_lt (p : S25600.Idx) : (p 0).val < 25600 := (p 0).isLt

/-- The row buffer once its first `n` rows are done: lane c of a done row r holds the original entry plus the
    table's entry (index of row r, lane c). -/
def stage (B : S25600.Idx → Elt F .f32) (TT : S1024.Idx → Elt F .f32) (X : S400.Idx → BitVec 32) (n : Nat) :
    S25600.Idx → Elt F .f32 :=
  fun p => if (p 0).val < 64 * n then
      FloatOps.addf (B p) (TT (ix1 ⟨(rowOf (X (ix1 ⟨(p 0).val / 64, by have := p_lt p; omega⟩))).val * 64 + (p 0).val % 64, tab_lt _ _⟩))
    else B p

/-- What a piece of a trip's store list must satisfy: it is the block of sixteen lanes at 1024 k + 16 j, and its
    payload is `G` there. -/
def Good (G : S25600.Idx → Elt F .f32) (k : Nat) (p : View.Piece (Elt F) S25600 .f32) (j : Nat) : Prop :=
  p.1.off 0 = 1024 * k + 16 * j ∧ p.1.size 0 = 16 ∧ p.1.stride 0 = 1 ∧ ∀ x, p.2 x = G (p.1.emb x)

theorem mem_set_good {G : S25600.Idx → Elt F .f32} {k j : Nat} {p : View.Piece (Elt F) S25600 .f32} (h : Good G k p j) (y : S25600.Idx) :
    y ∈ p.1.set ↔ 1024 * k + 16 * j ≤ (y 0).val ∧ (y 0).val < 1024 * k + 16 * j + 16 := by
  obtain ⟨ho, hs, ht, -⟩ := h
  rw [LoadRect.mem_set]
  constructor
  · intro h
    obtain ⟨i, hi, e⟩ := h 0
    rw [ho, ht] at e; rw [hs] at hi
    omega
  · rintro ⟨h1, h2⟩ a
    obtain rfl : a = 0 := Subsingleton.elim _ _
    refine ⟨(y 0).val - (1024 * k + 16 * j), by rw [hs]; omega, ?_⟩
    rw [ho, ht]; omega

/-- One trip: 64 stores, the one at list position i (the last store first) being the block 63 - i of rows
    16k … 16k+15, take stage 16k to stage 16(k+1) — stated of what is read back through the view. -/
theorem trip_reads {κ : Kind} {sp : Space} (v : View sig κ sp S25600 .f32) (f : v.ty.Contents (Elt F))
    (B : S25600.Idx → Elt F .f32) (TT : S1024.Idx → Elt F .f32) (X : S400.Idx → BitVec 32) (k : Nat)
    (L : List (View.Piece (Elt F) S25600 .f32)) (hL : L.length = 64)
    (hf : ∀ y, v.read (Elt F) f y = stage B TT X (16 * k) y)
    (hgood : ∀ i : Fin 64, Good (stage B TT X (16 * (k + 1))) k (L.get (i.cast hL.symm)) (63 - i.val)) :
    ∀ y, v.read (Elt F) (v.writes (Elt F) f L) y = stage B TT X (16 * (k + 1)) y := by
  intro y
  by_cases hy : 1024 * k ≤ (y 0).val ∧ (y 0).val < 1024 * k + 1024
  · refine View.read_writes_apply_of_pieces v f _ L ?_ y ?_
    · intro p hp x
      obtain ⟨i, rfl⟩ := List.mem_iff_get.mp hp
      exact (hgood (i.cast hL)).2.2.2 x
    · have hj : ((y 0).val - 1024 * k) / 16 < 64 := by omega
      refine ⟨L.get ((⟨63 - ((y 0).val - 1024 * k) / 16, by omega⟩ : Fin 64).cast hL.symm), List.get_mem _ _, ?_⟩
      rw [mem_set_good (hgood _) y]
      show 1024 * k + 16 * (63 - (63 - ((y 0).val - 1024 * k) / 16)) ≤ _ ∧ _ < 1024 * k + 16 * (63 - (63 - ((y 0).val - 1024 * k) / 16)) + 16
      omega
  · rw [View.read_writes_apply_of_forall_not_mem v f y L ?_, hf]
    · unfold stage
      by_cases h1 : (y 0).val < 1024 * k
      · rw [if_pos (by omega), if_pos (by omega)]
      · rw [if_neg (by omega), if_neg (by omega)]
    · intro p hp hmem
      obtain ⟨i, rfl⟩ := List.mem_iff_get.mp hp
      have := (mem_set_good (hgood (i.cast hL)) y).mp hmem
      have hi : (i.cast hL).val < 64 := (i.cast hL).isLt
      omega

/-- Every piece of a store list is good for its place: the head (the last store) for as many blocks as follow it. -/
def AllGood (G : S25600.Idx → Elt F .f32) (k : Nat) : List (View.Piece (Elt F) S25600 .f32) → Prop
  | [] => True
  | p :: L => Good G k p L.length ∧ AllGood G k L

theorem allGood_get {G : S25600.Idx → Elt F .f32} {k : Nat} :
    ∀ (L : List (View.Piece (Elt F) S25600 .f32)), AllGood G k L → ∀ (i : Nat) (h : i < L.length), Good G k (L.get ⟨i, h⟩) (L.length - 1 - i)
  | [], _, i, h => absurd h (Nat.not_lt_zero _)
  | p :: L, hg, 0, _ => by
      have := hg.1
      simpa using this
  | p :: L, hg, i + 1, h => by
      have h' : i < L.length := Nat.lt_of_succ_lt_succ h
      have := allGood_get L hg.2 i h'
      have e : (p :: L).length - 1 - (i + 1) = L.length - 1 - i := by simp only [List.length_cons]; omega
      rw [e]
      exact this

/-- `trip_reads` from a list whose pieces are all good. -/
theorem trip_reads' {κ : Kind} {sp : Space} (v : View sig κ sp S25600 .f32) (f : v.ty.Contents (Elt F))
    (B : S25600.Idx → Elt F .f32) (TT : S1024.Idx → Elt F .f32) (X : S400.Idx → BitVec 32) (k : Nat)
    (L : List (View.Piece (Elt F) S25600 .f32)) (hL : L.length = 64)
    (hf : ∀ y, v.read (Elt F) f y = stage B TT X (16 * k) y)
    (hall : AllGood (stage B TT X (16 * (k + 1))) k L) :
    ∀ y, v.read (Elt F) (v.writes (Elt F) f L) y = stage B TT X (16 * (k + 1)) y := by
  refine trip_reads v f B TT X k L hL hf (fun i => ?_)
  have h := allGood_get L hall i.val (by rw [hL]; exact i.isLt)
  have e : L.length - 1 - i.val = 63 - i.val := by rw [hL]
  rw [e] at h
  exact h

/-- The table block's offset chain: 64 times the index word, plus the lane group's constant. -/
def tOff (w c : BitVec 32) : Fin 1 → Nat := ![BitVec.toNat (Scalar.indexCast (Scalar.addi (Scalar.muli w 64#32) c))]

theorem tOff_val (w c : BitVec 32) (h : w.toNat < 16) (q : Nat) (hq : q < 4) (hc : c.toNat = 16 * q) :
    tOff w c 0 = w.toNat * 64 + 16 * q := by
  show (Scalar.indexCast (Scalar.addi (Scalar.muli w 64#32) c)).toNat = _
  simp only [Scalar.indexCast, Scalar.addi, Scalar.muli, IntOp.addi, IntOp.muli, BitVec.toNat_add, BitVec.toNat_mul, BitVec.toNat_ofNat]
  omega

/-- The arithmetic of one store: sixteen lanes of row 16k + r, lane group q. Reading the buffer (still at stage 16k
    there) and the table at the row the index word `w` names, and adding, gives the next stage's values on the
    block written. The three buffers are read through arbitrary views of the right shapes; the load and the store
    may spell the block's start by different chains of the same value. -/
theorem piece_agree {κb κt κx : Kind} {spb spt spx : Space}
    (vb : View sig κb spb S25600 .f32) (vt : View sig κt spt S1024 .f32) (vx : View sig κx spx S400 .i32)
    (f : vb.ty.Contents (Elt F)) (TT : vt.ty.Contents (Elt F)) (X : vx.ty.Contents (Elt F))
    (B : S25600.Idx → Elt F .f32) (k r q : Nat) (hk : k < 25) (hr : r < 16) (hq : q < 4)
    (hf : ∀ y, vb.read (Elt F) f y = stage B (vt.read (Elt F) TT) (vx.read (Elt F) X) (16 * k) y)
    (hX : ∀ j, BitVec.toNat (vx.read (Elt F) X j) < 16)
    (off offL offX : Fin 1 → Nat) (inb : ∀ a, off a + S16.size a ≤ S25600.size a) (inbL : ∀ a, offL a + S16.size a ≤ S25600.size a)
    (inbX : ∀ a, offX a + S16.size a ≤ S400.size a)
    (ho : off 0 = 1024 * k + 64 * r + 16 * q) (hoL : offL 0 = 1024 * k + 64 * r + 16 * q) (hoX : offX 0 = 16 * k)
    (w c : BitVec 32) (hc : c.toNat = 16 * q) (inbT : ∀ a, tOff w c a + S16.size a ≤ S1024.size a)
    (jr : S16.Idx) (hjr : (jr 0).val = r) (hw : w = vx.readAt (Elt F) (Rect.unit (s := S400) offX S16.size inbX).toLoadRect X jr)
    (x : S16.Idx) :
    FloatOps.addf (vb.readAt (Elt F) (Rect.unit (s := S25600) offL S16.size inbL).toLoadRect f x)
        (vt.readAt (Elt F) (Rect.unit (s := S1024) (tOff w c) S16.size inbT).toLoadRect TT x)
      = stage B (vt.read (Elt F) TT) (vx.read (Elt F) X) (16 * (k + 1)) ((Rect.unit (s := S25600) off S16.size inb).emb x) := by
  have hx : (x 0).val < 16 := (x 0).isLt
  have hwlt : w.toNat < 16 := by rw [hw, View.readAt_apply]; exact hX _
  have hrow : rowOf w = ⟨w.toNat, hwlt⟩ := Fin.ext (Cert.Spec.rowOf_val hwlt)
  have hoT : tOff w c 0 = w.toNat * 64 + 16 * q := tOff_val w c hwlt q hq hc
  rw [View.readAt_apply, View.readAt_apply]
  have e1 : (Rect.unit (s := S25600) offL S16.size inbL).toLoadRect.idx x = (Rect.unit (s := S25600) off S16.size inb).emb x := by
    funext a
    obtain rfl : a = 0 := Subsingleton.elim _ _
    apply Fin.ext
    show offL 0 + 1 * (x 0).val = off 0 + 1 * (x 0).val
    omega
  have hy0 : (((Rect.unit (s := S25600) off S16.size inb).emb x) 0).val = 1024 * k + 64 * r + 16 * q + (x 0).val := by
    show off 0 + 1 * (x 0).val = _
    omega
  rw [e1, hf]
  unfold stage
  rw [if_neg (by rw [hy0]; omega), if_pos (by rw [hy0]; omega)]
  congr 2
  funext a
  obtain rfl : a = 0 := Subsingleton.elim _ _
  apply Fin.ext
  show tOff w c 0 + 1 * (x 0).val = (rowOf (vx.read (Elt F) X (ix1 ⟨(((Rect.unit (s := S25600) off S16.size inb).emb x) 0).val / 64, _⟩))).val * 64 + (((Rect.unit (s := S25600) off S16.size inb).emb x) 0).val % 64
  have hdiv : (((Rect.unit (s := S25600) off S16.size inb).emb x) 0).val / 64 = 16 * k + r := by rw [hy0]; omega
  have hmod : (((Rect.unit (s := S25600) off S16.size inb).emb x) 0).val % 64 = 16 * q + (x 0).val := by rw [hy0]; omega
  have hwx : vx.read (Elt F) X (ix1 ⟨(((Rect.unit (s := S25600) off S16.size inb).emb x) 0).val / 64, by rw [hdiv]; omega⟩) = w := by
    refine Eq.trans ?_ hw.symm
    rw [View.readAt_apply]
    congr 1
    funext a
    obtain rfl : a = 0 := Subsingleton.elim _ _
    apply Fin.ext
    show (((Rect.unit (s := S25600) off S16.size inb).emb x) 0).val / 64 = offX 0 + 1 * (jr 0).val
    rw [hdiv, hjr]; omega
  rw [hwx, hrow, hmod, hoT]
  show w.toNat * 64 + 16 * q + 1 * (x 0).val = w.toNat * 64 + (16 * q + (x 0).val)
  omega

/-- A table block named by an index below sixteen lies inside the table. -/
theorem off_gen (v : BitVec 32) (h : v.toNat < 16) (r : Fin 4) (a : Fin 1) :
    (![BitVec.toNat (Scalar.indexCast (Scalar.addi (Scalar.muli v 64#32) (BitVec.ofNat 32 (16 * r.val))))] : Fin 1 → ℕ) a + S16.size a ≤ S1024.size a := by
  have hr : r.val < 4 := r.isLt
  have e : (Scalar.indexCast (Scalar.addi (Scalar.muli v 64#32) (BitVec.ofNat 32 (16 * r.val)))).toNat = v.toNat * 64 + 16 * r.val := by
    simp only [Scalar.indexCast, Scalar.addi, Scalar.muli, IntOp.addi, IntOp.muli, BitVec.toNat_add, BitVec.toNat_mul, BitVec.toNat_ofNat]
    omega
  obtain rfl : a = 0 := Subsingleton.elim _ _
  show (Scalar.indexCast (Scalar.addi (Scalar.muli v 64#32) (BitVec.ofNat 32 (16 * r.val)))).toNat + 16 ≤ 1024
  omega

/-- A chain with a registered closed form, read at its one coordinate. -/
theorem cf0 (off : Fin 1 → Nat) [c : ClosedOff off] : off 0 = c.form 0 := congrFun c.eq 0

open Lean Elab Tactic Meta in
/-- Unfold the generated payload definitions in the goal. -/
elab "unfold_pays" : tactic => do
  let g ← getMainGoal
  let tgt ← instantiateMVars (← g.getType)
  let tgt' ← Meta.deltaExpand tgt (fun n => n.isStr && n.getString!.startsWith "k0_pay")
  replaceMainGoal [← g.replaceTargetDefEq tgt']

end Cert.Kernel.Hand

end
-- ==== Proof.KSep.lean ====
/-
  Bookkeeping for a tile's pieces of the result, indexed by its turn t below 81. P t is piece t untouched and D t is
  piece t done; phi P D n is done below n and untouched from n on. At the head of the trip that starts at turn j every
  piece is held except j - 2 and j - 1; the trip takes j, j + 1, j + 2 out and puts j - 2, j - 1, j back done. The
  equations below move single pieces in and out of an iterated separating conjunction over such index sets.
-/
import Idealize.ShloMosaic.Rules.PointsTo
import Idealize.ShloMosaic.Lib.Transfers
import Idealize.SL.BI.BigOp
import Idealize.ShloMosaic.Lib.SparseCore.Launch

noncomputable section

namespace Cert.Kernel.Hand

open Idealize.ShloMosaic
open Idealize.SL
open Idealize.SL.RA Idealize.SL.Sem
open Idealize.SL.BI (sProp bigSep bigSep_congr)
open scoped Idealize.SL.BI
open Idealize.SL.BI.BIBase Idealize.SL.BI.Laws

section Sep

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- Done below `n`, untouched from `n` on. -/
def phi (P D : ℕ → sProp 𝕄) (n t : ℕ) : sProp 𝕄 := if t < n then D t else P t

theorem phi_lt (P D : ℕ → sProp 𝕄) {n t : ℕ} (h : t < n) : phi P D n t = D t := if_pos h
theorem phi_ge (P D : ℕ → sProp 𝕄) {n t : ℕ} (h : n ≤ t) : phi P D n t = P t := if_neg (Nat.not_lt.mpr h)

/-- One piece joins a family over a set that lacks it. -/
theorem join1 (T S : Finset ℕ) (a : ℕ) (Ψ Ψ' : ℕ → sProp 𝕄) (A : sProp 𝕄)
    (hT : T = insert a S) (ha : a ∉ S) (hA : Ψ' a = A) (hS : ∀ t ∈ S, Ψ t = Ψ' t) :
    (iprop(A ∗ bigSep S Ψ) : sProp 𝕄) = bigSep T Ψ' := by
  subst hT
  rw [SparseCore.bigSep_insert' ha, hA, bigSep_congr hS]

/-- Two pieces join. -/
theorem join2 (T S : Finset ℕ) (a b : ℕ) (Ψ Ψ' : ℕ → sProp 𝕄) (A B : sProp 𝕄)
    (hT : T = insert a (insert b S)) (ha : a ∉ insert b S) (hb : b ∉ S)
    (hA : Ψ' a = A) (hB : Ψ' b = B) (hS : ∀ t ∈ S, Ψ t = Ψ' t) :
    (iprop(A ∗ B ∗ bigSep S Ψ) : sProp 𝕄) = bigSep T Ψ' := by
  subst hT
  rw [SparseCore.bigSep_insert' ha, SparseCore.bigSep_insert' hb, hA, hB, bigSep_congr hS]

/-- Three pieces join. -/
theorem join3 (T S : Finset ℕ) (a b c : ℕ) (Ψ Ψ' : ℕ → sProp 𝕄) (A B C : sProp 𝕄)
    (hT : T = insert a (insert b (insert c S))) (ha : a ∉ insert b (insert c S)) (hb : b ∉ insert c S) (hc : c ∉ S)
    (hA : Ψ' a = A) (hB : Ψ' b = B) (hC : Ψ' c = C) (hS : ∀ t ∈ S, Ψ t = Ψ' t) :
    (iprop(A ∗ B ∗ C ∗ bigSep S Ψ) : sProp 𝕄) = bigSep T Ψ' := by
  subst hT
  rw [SparseCore.bigSep_insert' ha, SparseCore.bigSep_insert' hb, SparseCore.bigSep_insert' hc, hA, hB, hC, bigSep_congr hS]

/-- Membership in the index sets below, as arithmetic. -/
local macro "fs_mem" : tactic =>
  `(tactic| (simp only [Finset.mem_insert, Finset.mem_sdiff, Finset.mem_range, Finset.mem_singleton, Finset.mem_erase, not_or, ne_eq, not_true_eq_false, not_false_eq_true, true_and, and_true, false_and, and_false, true_or, or_true, false_or, or_false] <;> omega))
local macro "fs_memh" h:ident : tactic =>
  `(tactic| (simp only [Finset.mem_insert, Finset.mem_sdiff, Finset.mem_range, Finset.mem_singleton, Finset.mem_erase, not_or, ne_eq, not_true_eq_false, not_false_eq_true, true_and, and_true, false_and, and_false, true_or, or_true, false_or, or_false] at $h:ident; omega))
local macro "fs_eq" : tactic =>
  `(tactic| (ext x; simp only [Finset.mem_insert, Finset.mem_sdiff, Finset.mem_range, Finset.mem_singleton, Finset.mem_erase, not_or, ne_eq, not_true_eq_false, not_false_eq_true, true_and, and_true, false_and, and_false, true_or, or_true, false_or, or_false]; omega))

/-- The turns as numbers. -/
theorem fin_range (Φ : ℕ → sProp 𝕄) :
    bigSep (Finset.univ : Finset (Fin 81)) (fun t => Φ t.val) = bigSep (Finset.range 81) Φ := by
  rw [← Nat.Iio_eq_range, ← Fin.map_valEmbedding_univ, BI.bigSep_map]; rfl

/-- Before the first trip: turns 0, 1, 2 taken out. -/
theorem init_split (P : ℕ → sProp 𝕄) :
    bigSep (Finset.range 81) P = iprop(P 0 ∗ P 1 ∗ P 2 ∗ bigSep (Finset.range 81 \ {0, 1, 2}) P) :=
  (join3 (Finset.range 81) (Finset.range 81 \ {0, 1, 2}) 0 1 2 P P _ _ _ (by fs_eq) (by fs_mem) (by fs_mem) (by fs_mem)
    rfl rfl rfl fun _ _ => rfl).symm

/-- Turn 0 done and back, turns 1 and 2 in flight: the head of the trip that starts at turn 3. -/
theorem init_join (P D : ℕ → sProp 𝕄) :
    (iprop(D 0 ∗ bigSep (Finset.range 81 \ {0, 1, 2}) P) : sProp 𝕄) = bigSep (((Finset.range 81).erase 1).erase 2) (phi P D 3) :=
  join1 _ _ 0 P (phi P D 3) _ (by fs_eq) (by fs_mem) (phi_lt P D (by omega))
    fun t ht => (phi_ge P D (by fs_memh ht)).symm

/-- At the head of the trip that starts at turn `j`: turns j, j + 1, j + 2 taken out, untouched. -/
theorem head_split (P D : ℕ → sProp 𝕄) (j : ℕ) (h2 : 2 ≤ j) (hj : j + 2 < 81) :
    bigSep (((Finset.range 81).erase (j - 2)).erase (j - 1)) (phi P D j)
      = iprop(P j ∗ P (j + 1) ∗ P (j + 2) ∗ bigSep (Finset.range 81 \ {j - 2, j - 1, j, j + 1, j + 2}) (phi P D j)) :=
  (join3 _ _ j (j + 1) (j + 2) (phi P D j) (phi P D j) _ _ _ (by fs_eq) (by fs_mem) (by fs_mem) (by fs_mem)
    (phi_ge P D (le_refl j)) (phi_ge P D (by omega)) (phi_ge P D (by omega)) fun _ _ => rfl).symm

/-- At the end of that trip: turns j - 2, j - 1, j back, done; the head of the trip that starts at turn j + 3. -/
theorem tail_join (P D : ℕ → sProp 𝕄) (j : ℕ) (h2 : 2 ≤ j) (hj : j + 2 < 81) :
    (iprop(D (j - 2) ∗ D (j - 1) ∗ D j ∗ bigSep (Finset.range 81 \ {j - 2, j - 1, j, j + 1, j + 2}) (phi P D j)) : sProp 𝕄)
      = bigSep (((Finset.range 81).erase (j + 1)).erase (j + 2)) (phi P D (j + 3)) :=
  join3 _ _ (j - 2) (j - 1) j (phi P D j) (phi P D (j + 3)) _ _ _ (by fs_eq) (by fs_mem) (by fs_mem) (by fs_mem)
    (phi_lt P D (by omega)) (phi_lt P D (by omega)) (phi_lt P D (by omega)) fun t ht => by
      by_cases h : t < j
      · rw [phi_lt P D h, phi_lt P D (by omega)]
      · rw [phi_ge P D (Nat.not_lt.mp h), phi_ge P D (by fs_memh ht)]

/-- The last trip when only turn `j` is real (n = j + 1): turns j - 2, j - 1, j stay in flight, everything else is done
    (pieces from `n` on are the same untouched and done). -/
theorem fin_a (P D : ℕ → sProp 𝕄) (j n : ℕ) (h2 : 2 ≤ j) (hj : j + 2 < 81) (hn : n = j + 1) (hPD : ∀ t, n ≤ t → P t = D t) :
    (iprop(P (j + 1) ∗ P (j + 2) ∗ bigSep (Finset.range 81 \ {j - 2, j - 1, j, j + 1, j + 2}) (phi P D j)) : sProp 𝕄)
      = bigSep (Finset.range 81 \ {j - 2, j - 1, j}) D :=
  join2 _ _ (j + 1) (j + 2) (phi P D j) D _ _ (by fs_eq) (by fs_mem) (by fs_mem)
    (hPD _ (by omega)).symm (hPD _ (by omega)).symm fun t ht => by
      by_cases h : t < j
      · exact phi_lt P D h
      · rw [phi_ge P D (Nat.not_lt.mp h)]; exact hPD t (by fs_memh ht)

/-- The last trip when turns j, j + 1, j + 2 are real (n = j + 3): they stay in flight, j - 2 and j - 1 came back. -/
theorem fin_b (P D : ℕ → sProp 𝕄) (j n : ℕ) (h2 : 2 ≤ j) (hj : j + 2 < 81) (hn : n = j + 3) (hPD : ∀ t, n ≤ t → P t = D t) :
    (iprop(D (j - 2) ∗ D (j - 1) ∗ bigSep (Finset.range 81 \ {j - 2, j - 1, j, j + 1, j + 2}) (phi P D j)) : sProp 𝕄)
      = bigSep (Finset.range 81 \ {j, j + 1, j + 2}) D :=
  join2 _ _ (j - 2) (j - 1) (phi P D j) D _ _ (by fs_eq) (by fs_mem) (by fs_mem) rfl rfl fun t ht => by
    by_cases h : t < j
    · exact phi_lt P D h
    · rw [phi_ge P D (Nat.not_lt.mp h)]; exact hPD t (by fs_memh ht)

/-- Three done pieces and all the others done: every piece done. -/
theorem all_done (D : ℕ → sProp 𝕄) (a b c : ℕ) (ha : a < 81) (hb : b < 81) (hc : c < 81) (hab : a ≠ b) (hac : a ≠ c) (hbc : b ≠ c) :
    (iprop(D a ∗ D b ∗ D c ∗ bigSep (Finset.range 81 \ {a, b, c}) D) : sProp 𝕄) = bigSep (Finset.range 81) D :=
  join3 _ _ a b c D D _ _ _ (by fs_eq) (by fs_mem) (by fs_mem) (by fs_mem) rfl rfl rfl fun _ _ => rfl

end Sep

end Cert.Kernel.Hand

end
-- ==== Proof.KGeom.lean ====
/-
  Geometry and values of a tile's chunks. Worker 2 i + c (core c of two, tile i of sixteen) owns the chunks numbered
  2 i + c + 32 t of the flat result: chunk g is the 25600 positions from 25600 g. The positions a turn names are the
  elements of the unit-stride slice of the result array at that offset; after a whole row buffer has been copied
  into the slice, the slice holds any array that agrees with the row buffer entry by entry; and a row buffer whose
  400 rows are all done, started from the chunk of the features, holds the chunk of the flat specification.
-/
import proofs.«216121_g54726473285929_cont_9to1_m_355_3_alg».proof.Proof.KOwn
import proofs.«216121_g54726473285929_cont_9to1_m_355_3_alg».proof.Proof.KVal
import proofs.«216121_g54726473285929_cont_9to1_m_355_3_alg».proof.Proof.FlatSpec
import proofs.«216121_g54726473285929_cont_9to1_m_355_3_alg».proof.Proof.Deal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (rowOf)
open Idealize.ShloMosaic.ValueIdx

variable {F : FTy → Type} [FloatOps F]

local notation "𝕄" => MT nD τ sig (HIx 1) (Elt F) ℕ UU ℕ

/-- The tile at grid coordinates `L`: its core and its subcore as numbers, and its worker number. -/
abbrev cL (L : grid0.Coords) : Fin 2 := Fin.cast (by decide) (L 0)
abbrev iL (L : grid0.Coords) : Fin 16 := Fin.cast (by decide) (L 1)
def wid (L : grid0.Coords) : Nat := 2 * (L 1).val + (L 0).val

theorem wid_lt (L : grid0.Coords) : wid L < 32 := by
  have h0 : (L 0).val < 2 := (cL L).isLt
  have h1 : (L 1).val < 16 := (iL L).isLt
  unfold wid
  omega

/-- The chunk that turn t of the tile names, as the elements of the slice of the result array at its offset. -/
theorem out_set (L : grid0.Coords) (t : Fin 81) (off : Fin 1 → Nat)
    (inb : ∀ a, off a + S25600.size a ≤ S64000000.size a) (hoff : off 0 = 25600 * (wid L + 32 * t.val))
    (hlt : wid L + 32 * t.val < 2500) :
    (outV.slice (Rect.unit (s := S64000000) off S25600.size inb) (fun _ => rfl)).view.set
      = Cert.Proof.Deal.tset (cL L, iL L, t) := by
  have hg : 2 * (iL L).val + (cL L).val + 32 * t.val < 2500 := hlt
  have hoff' : off = ![25600 * (2 * (iL L).val + (cL L).val + 32 * t.val)] := by
    funext a
    obtain rfl : a = 0 := Subsingleton.elim _ _
    exact hoff
  have inb' : ∀ a, (![25600 * (2 * (iL L).val + (cL L).val + 32 * t.val)] : Fin 1 → Nat) a + S25600.size a ≤ S64000000.size a :=
    hoff' ▸ inb
  rw [Cert.Proof.Deal.tset_chunk (cL L, iL L, t) hg, Cert.Proof.Deal.chunk_eq_unit ⟨_, hg⟩ inb']
  exact (View.set_slice_whole main_v2_scv (Rect.unit (s := S64000000) off S25600.size inb)).trans
    (congrArg (fun r : Rect S64000000 => r.set) (Rect.unit_congr hoff' inb inb'))

/-- The positions turn t of the tile names, held at contents f, are the slice of the result array at the turn's
    offset held at f. -/
theorem out_piece (d : Dev nD) (L : grid0.Coords) (t : Fin 81) (off : Fin 1 → Nat)
    (inb : ∀ a, off a + S25600.size a ≤ S64000000.size a) (hoff : off 0 = 25600 * (wid L + 32 * t.val))
    (hlt : wid L + 32 * t.val < 2500) (f : Buf (Elt F) (oLoc d)) :
    (oLoc d ↦[Cert.Proof.Deal.tset (cL L, iL L, t)]{fullShare} f : sProp 𝕄)
      = ((outV.slice (Rect.unit (s := S64000000) off S25600.size inb) (fun _ => rfl)).view.loc (thrV d L)
          ↦[(outV.slice (Rect.unit (s := S64000000) off S25600.size inb) (fun _ => rfl)).view.set]{fullShare} f) :=
  congrArg (fun S : Finset (Idx (oLoc d)) => (oLoc d ↦[S]{fullShare} f : sProp 𝕄)) (out_set L t off inb hoff hlt).symm

/-- After a whole row buffer has landed in the slice of the result array at turn t's offset, the slice holds any
    array G that agrees with the row buffer entry by entry: the positions the turn names, held at G. -/
theorem out_done (d : Dev nD) (L : grid0.Coords) (t : Fin 81) (off : Fin 1 → Nat)
    (inb : ∀ a, off a + S25600.size a ≤ S64000000.size a) (hoff : off 0 = 25600 * (wid L + 32 * t.val))
    (hlt : wid L + 32 * t.val < 2500) (fo : Buf (Elt F) (oLoc d)) (pay : S25600.Idx → Elt F .f32) (G : Buf (Elt F) (oLoc d))
    (hpay : ∀ y : S25600.Idx, pay y = G (ix1 ⟨25600 * (wid L + 32 * t.val) + (y 0).val, by have := p_lt y; omega⟩)) :
    ((outV.slice (Rect.unit (s := S64000000) off S25600.size inb) (fun _ => rfl)).view.loc (thrV d L)
        ↦[(outV.slice (Rect.unit (s := S64000000) off S25600.size inb) (fun _ => rfl)).view.set]{fullShare}
          ((outV.slice (Rect.unit (s := S64000000) off S25600.size inb) (fun _ => rfl)).view.writes (Elt F) fo
            [⟨Rect.whole (Rect.unit (s := S64000000) off S25600.size inb).shape, pay⟩]) : sProp 𝕄)
      = (oLoc d ↦[Cert.Proof.Deal.tset (cL L, iL L, t)]{fullShare} G) := by
  refine Eq.trans (pointsTo_congr fun i hi => ?_) (out_piece d L t off inb hoff hlt G).symm
  obtain ⟨x, -, rfl⟩ := Finset.mem_map.mp hi
  have hx : (x 0).val < 25600 := (x 0).isLt
  have e : ((outV.slice (Rect.unit (s := S64000000) off S25600.size inb) (fun _ => rfl)).view.slice
        (Rect.whole (Rect.unit (s := S64000000) off S25600.size inb).shape)).emb x
      = (outV.slice (Rect.unit (s := S64000000) off S25600.size inb) (fun _ => rfl)).view.emb x := by
    rw [View.emb_slice]
    show (outV.slice (Rect.unit (s := S64000000) off S25600.size inb) (fun _ => rfl)).view.emb
      ((Rect.whole (Rect.unit (s := S64000000) off S25600.size inb).shape).emb x) = _
    rw [Rect.emb_whole_apply]
  have hi0 : (outV.slice (Rect.unit (s := S64000000) off S25600.size inb) (fun _ => rfl)).view.emb x
      = (ix1 ⟨25600 * (wid L + 32 * t.val) + (x 0).val, by omega⟩ : S64000000.Idx) := by
    refine funext fun a : Fin 1 => ?_
    obtain rfl : a = 0 := Subsingleton.elim _ _
    refine Fin.ext ?_
    show off 0 + 1 * (x 0).val = 25600 * (wid L + 32 * t.val) + (x 0).val
    rw [hoff]; omega
  rw [View.writes_singleton, ← e, View.write_emb_of_mem _ _ (Finset.mem_univ _), e, hi0]
  exact hpay x

/-- A row buffer whose 400 rows are all done, started from chunk g of the features with the table and chunk g of
    the indices, holds chunk g of the flat specification. -/
theorem chunk_val (B : S25600.Idx → Elt F .f32) (TT : S1024.Idx → Elt F .f32) (X : S400.Idx → BitVec 32)
    (ff : Cert.Proof.FlatSpec.SF.Idx → Elt F .f32) (gf : Cert.Proof.FlatSpec.ST.Idx → Elt F .f32)
    (ix : Cert.Spec.SN.Idx → BitVec 32) (g : Nat) (hg : g < 2500)
    (hB : ∀ y : S25600.Idx, B y = ff (ix1 ⟨25600 * g + (y 0).val, by have := p_lt y; omega⟩))
    (hTT : ∀ z, TT z = gf z)
    (hX : ∀ r : S400.Idx, X r = ix (ix1 ⟨400 * g + (r 0).val, by have h : (r 0).val < 400 := (r 0).isLt; omega⟩))
    (y : S25600.Idx) :
    stage B TT X 400 y
      = Cert.Proof.FlatSpec.Gflat ff gf ix (ix1 ⟨25600 * g + (y 0).val, by have := p_lt y; omega⟩) := by
  have hy : (y 0).val < 25600 := p_lt y
  have hr : (y 0).val / 64 < 400 := by omega
  have hX' : X (ix1 ⟨(y 0).val / 64, hr⟩) = ix (ix1 ⟨400 * g + (y 0).val / 64, by omega⟩) := hX (ix1 ⟨(y 0).val / 64, hr⟩)
  have hk : (rowOf (X (ix1 ⟨(y 0).val / 64, hr⟩))).val * 64 + (y 0).val % 64
      = (rowOf (ix (ix1 ⟨400 * g + (y 0).val / 64, by omega⟩))).val * 64 + (y 0).val % 64 := by rw [hX']
  unfold stage
  rw [if_pos (by omega), hB y, hTT,
    Cert.Proof.FlatSpec.Gflat_at_rc ff gf ix (25600 * g + (y 0).val) (by omega)
      ⟨400 * g + (y 0).val / 64, by omega⟩ ⟨(y 0).val % 64, Nat.mod_lt _ (by omega)⟩
      (by show (25600 * g + (y 0).val) / 64 = 400 * g + (y 0).val / 64; omega)
      (by show (25600 * g + (y 0).val) % 64 = (y 0).val % 64; omega)]
  exact congrArg (fun k : Fin 1024 => FloatOps.addf (ff (ix1 ⟨25600 * g + (y 0).val, by omega⟩)) (gf (ix1 k))) (Fin.ext hk)

end Cert.Kernel.Hand

end
-- ==== Proof.KMain.lean ====
/-
  The main loop's vocabulary. A tile's turn t is chunk wid + 32 t; turn t's pieces of the three flat arrays start at
  25600 (wid + 32 t) (rows of 64 lanes) and 400 (wid + 32 t) (indices). The three kinds of copy in flight, as the
  loop carries them from trip to trip; the tile's output pieces, untouched or done; what it means for a row buffer
  to hold a chunk's final values; the invariant at the head of a trip and after the last one; and the small
  equations by which an offset chain of known value, a slice read, and a returned piece are put in those terms.
-/
import proofs.«216121_g54726473285929_cont_9to1_m_355_3_alg».proof.Proof.KOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KOff
import proofs.«216121_g54726473285929_cont_9to1_m_355_3_alg».proof.Proof.KVal
import proofs.«216121_g54726473285929_cont_9to1_m_355_3_alg».proof.Proof.KSep
import proofs.«216121_g54726473285929_cont_9to1_m_355_3_alg».proof.Proof.KGeom

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- The worker number of the tile at `L`, and the number of chunks it takes. -/
def nkL (L : grid0.Coords) : Nat := (2531 - wid L) / 32

/-- Chunk number of the tile's turn t (capped at the last chunk, so that it always names one), and where the
    chunk starts in the flat arrays of 64-lane rows and in the index array. -/
def gOf (L : grid0.Coords) (t : Nat) : Nat := min (wid L + 32 * t) 2499
def cOff (L : grid0.Coords) (t : Nat) : Fin 1 → Nat := ![25600 * gOf L t]
def iOff (L : grid0.Coords) (t : Nat) : Fin 1 → Nat := ![400 * gOf L t]
theorem cOff_inb (L : grid0.Coords) (t : Nat) : ∀ a, cOff L t a + S25600.size a ≤ S64000000.size a := by
  intro a; obtain rfl : a = 0 := Subsingleton.elim _ _
  show 25600 * min (wid L + 32 * t) 2499 + 25600 ≤ 64000000
  omega
theorem iOff_inb (L : grid0.Coords) (t : Nat) : ∀ a, iOff L t a + S400.size a ≤ S1000000.size a := by
  intro a; obtain rfl : a = 0 := Subsingleton.elim _ _
  show 400 * min (wid L + 32 * t) 2499 + 400 ≤ 1000000
  omega

abbrev oSl (off : Fin 1 → Nat) (inb : ∀ a, off a + S25600.size a ≤ S64000000.size a) : Memref sig .scVector .hbm S25600 .f32 :=
  outV.slice (Rect.unit (s := S64000000) off S25600.size inb) (fun _ => rfl)
abbrev fSl (off : Fin 1 → Nat) (inb : ∀ a, off a + S25600.size a ≤ S64000000.size a) : Memref sig .scVector .hbm S25600 .f32 :=
  featV.slice (Rect.unit (s := S64000000) off S25600.size inb) (fun _ => rfl)
abbrev iSl (off : Fin 1 → Nat) (inb : ∀ a, off a + S400.size a ≤ S1000000.size a) : Memref sig .scVector .hbm S400 .i32 :=
  idxV.slice (Rect.unit (s := S1000000) off S400.size inb) (fun _ => rfl)

section Generic
variable (d : Dev nD) (L : grid0.Coords)

/-- A buffer overwritten whole by a payload, and the part of a buffer outside a set: stated once for every shape, so
    that every use agrees on the full index set. -/
abbrev landed {sp : Space} {s : Shape} {e : EltTy} (m : Memref sig .scVector sp s e) (base : Buf (Elt F) (m.view.loc (thrV d L)))
    (pay : s.Idx → Elt F e) : Buf (Elt F) (m.view.loc (thrV d L)) :=
  View.write (Elt F) m.view base pay Finset.univ
abbrev outside {sp : Space} {s : Shape} {e : EltTy} (m : Memref sig .scVector sp s e) (S' : Finset (Idx (m.view.loc (thrV d L)))) :
    Finset (Idx (m.view.loc (thrV d L))) :=
  Finset.univ \ S'

/-- The part of a buffer outside one of its slices. -/
abbrev outsideSl {sp : Space} {s : Shape} {e : EltTy} (m : Memref sig .scVector sp s e) (r : Rect s) (hr : ∀ a, r.stride a = 1) :
    Finset (Idx (m.view.loc (thrV d L))) :=
  Finset.univ \ (m.slice r hr).view.set

end Generic

section Flights
variable (d : Dev nD) (L : grid0.Coords)

/-- A row buffer's copy into the output slice at `off`, in flight on DMA semaphore `cell`. -/
abbrev outFl (cell : DmaSem sig) (bufS : Memref sig .scVector .vmem S25600 .f32) (off : Fin 1 → Nat)
    (inb : ∀ a, off a + S25600.size a ≤ S64000000.size a) (base : Buf (Elt F) (oLoc d))
    (g : Buf (Elt F) (bufS.view.loc (thrV d L))) : sProp 𝕄 :=
  Transfers.Flight countersEmb (thrV d L) (SemLoc.dma cell) default 819200
    iprop(((oSl off inb).view.loc (thrV d L) ↦[(oSl off inb).view.set]{fullShare}
          (oSl off inb).view.writes (Elt F) base
            [⟨Rect.whole S25600, ReadAs.same.apply (bufS.view.read (Elt F) g)⟩])
      ∗ (bufS.view.loc (thrV d L) ↦[bufS.view.set]{fullShare} g))

/-- The feature slice at `off` on its way into a row buffer, on DMA semaphore `cell`, lent from the share `q`. -/
abbrev inFlF (cell : DmaSem sig) (bufS : Memref sig .scVector .vmem S25600 .f32) (q : PosShare TreeShare) (ff : Buf (Elt F) (fLoc d))
    (off : Fin 1 → Nat) (inb : ∀ a, off a + S25600.size a ≤ S64000000.size a) (base : Buf (Elt F) (bufS.view.loc (thrV d L))) : sProp 𝕄 :=
  Transfers.Flight countersEmb (thrV d L) (SemLoc.dma cell) default 819200
    iprop((bufS.view.loc (thrV d L) ↦{fullShare}
          landed d L bufS base (ReadAs.same.apply ((fSl off inb).view.read (Elt F) ff)))
      ∗ (featV.view.loc (thrV d L) ↦[(fSl off inb).view.set]{q} ff))

/-- The index slice at `off` on its way into an index buffer. -/
abbrev inFlI (cell : DmaSem sig) (ixS : Memref sig .scVector .vmem S400 .i32) (q : PosShare TreeShare) (ix : Buf (Elt F) (iLoc d))
    (off : Fin 1 → Nat) (inb : ∀ a, off a + S400.size a ≤ S1000000.size a) (base : Buf (Elt F) (ixS.view.loc (thrV d L))) : sProp 𝕄 :=
  Transfers.Flight countersEmb (thrV d L) (SemLoc.dma cell) default 12800
    iprop((ixS.view.loc (thrV d L) ↦{fullShare}
          landed d L ixS base (ReadAs.same.apply ((iSl off inb).view.read (Elt F) ix)))
      ∗ (idxV.view.loc (thrV d L) ↦[(iSl off inb).view.set]{q} ix))

omit [FloatOps F] in
theorem outFl_congr (cell : DmaSem sig) (bufS : Memref sig .scVector .vmem S25600 .f32) {off off' : Fin 1 → Nat} (h : off = off')
    (inb inb') (base : Buf (Elt F) (oLoc d)) (g : Buf (Elt F) (bufS.view.loc (thrV d L))) :
    outFl d L cell bufS off inb base g = outFl d L cell bufS off' inb' base g := by subst h; rfl
omit [FloatOps F] in
theorem inFlF_congr (cell : DmaSem sig) (bufS : Memref sig .scVector .vmem S25600 .f32) (q : PosShare TreeShare) (ff : Buf (Elt F) (fLoc d))
    {off off' : Fin 1 → Nat} (h : off = off') (inb inb') (base : Buf (Elt F) (bufS.view.loc (thrV d L))) :
    inFlF d L cell bufS q ff off inb base = inFlF d L cell bufS q ff off' inb' base := by subst h; rfl
omit [FloatOps F] in
theorem inFlI_congr (cell : DmaSem sig) (ixS : Memref sig .scVector .vmem S400 .i32) (q : PosShare TreeShare) (ix : Buf (Elt F) (iLoc d))
    {off off' : Fin 1 → Nat} (h : off = off') (inb inb') (base : Buf (Elt F) (ixS.view.loc (thrV d L))) :
    inFlI d L cell ixS q ix off inb base = inFlI d L cell ixS q ix off' inb' base := by subst h; rfl

end Flights

/-- The trip count of the main loop, and what its five conditions say, in terms of the number of chunks. -/
theorem trips_eq : ∀ L : grid0.Coords, (k0_t4_loop L).trips = (nkL L + 2) / 3 - 1 := by decide +kernel
theorem cond_facts : ∀ (L : grid0.Coords) (k : Fin (k0_t4_loop L).trips),
    (k0_cond4 L k = 1#1 ↔ 3 * k.val + 4 < nkL L) ∧ (k0_cond5 L k = 1#1 ↔ 3 * k.val + 4 < nkL L)
    ∧ (k0_cond6 L k = 1#1 ↔ 3 * k.val + 5 < nkL L) ∧ (k0_cond7 L k = 1#1 ↔ 3 * k.val + 5 < nkL L)
    ∧ (k0_cond8 L k = 1#1 ↔ 3 * k.val + 6 < nkL L) := by decide +kernel
theorem nk_cases : ∀ L : grid0.Coords, wid L < 32 ∧ (nkL L = 78 ∨ nkL L = 79) ∧ (∀ t, t < nkL L ↔ wid L + 32 * t < 2500) := by
  intro L
  have h : wid L < 32 := wid_lt L
  refine ⟨h, ?_, ?_⟩ <;> unfold nkL <;> omega

section Main
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

/-- The specification's flat values, as contents of the output array. -/
def Gf : Buf (Elt F) (oLoc d) := Cert.Proof.FlatSpec.Gflat ff gf ix

/-- The set of the tile's piece at turn t (empty past the last turn). -/
def tsetN (t : Nat) : Finset (Idx (oLoc d)) := if h : t < 81 then Cert.Proof.Deal.tset (cL L, iL L, ⟨t, h⟩) else ∅
/-- Piece t untouched, and piece t done. -/
def Pp (t : Nat) : sProp 𝕄 := oLoc d ↦[tsetN d L t]{fullShare} fo
def Dp (t : Nat) : sProp 𝕄 := oLoc d ↦[tsetN d L t]{fullShare} Gf d ff gf ix

theorem cIdx_lt (t : Nat) (y : S25600.Idx) : 25600 * gOf L t + (y 0).val < 64000000 := by
  have := p_lt y; unfold gOf; omega
/-- A row buffer holds the final values of the chunk of turn t. -/
def IsChunk (bufS : Memref sig .scVector .vmem S25600 .f32) (g : Buf (Elt F) (bufS.view.loc (thrV d L))) (t : Nat) : Prop :=
  ∀ y : S25600.Idx, ReadAs.same.apply (bufS.view.read (Elt F) g) y = Gf d ff gf ix (ix1 ⟨25600 * gOf L t + (y 0).val, cIdx_lt L t y⟩)

/-- At the head of trip k (turn j = 3k+3): turns 3k+1, 3k+2 on their way out of row buffers 1 and 2, turn 3k+3
    on its way into row buffer 0 and index buffer 0, everything below done, everything above untouched. -/
def invA (k : Nat) : sProp 𝕄 :=
  iprop(∃ (g1 : Buf (Elt F) ((bufS1).view.loc (thrV d L))) (g2 : Buf (Elt F) ((bufS2).view.loc (thrV d L)))
      (b0 : Buf (Elt F) ((bufS0).view.loc (thrV d L))) (x0 : Buf (Elt F) ((ixS0).view.loc (thrV d L)))
      (x1 : Buf (Elt F) ((ixS1).view.loc (thrV d L))) (x2 : Buf (Elt F) ((ixS2).view.loc (thrV d L))) (W' : Waits sig (HIx 1)),
    ⌜(∀ p ∈ W', p ∈ W ∨ p.2 = none) ∧ IsChunk d L ff gf ix bufS1 g1 (3 * k + 1) ∧ IsChunk d L ff gf ix bufS2 g2 (3 * k + 2)⌝
    ∗ Transfers.MayWaits (thrV d L) (none : HIx 1) O
    ∗ owes (thrV d L) O W'
    ∗ ((tabS).view.loc (thrV d L) ↦{fullShare} TTc)
    ∗ bigSep (((Finset.range 81).erase (3 * k + 1)).erase (3 * k + 2)) (phi (Pp d L fo) (Dp d L ff gf ix) (3 * k + 3))
    ∗ outFl d L (⟨7, by decide⟩ : DmaSem sig) bufS1 (cOff L (3 * k + 1)) (cOff_inb L _) fo g1
    ∗ ((bufS1).view.loc (thrV d L) ↦[outside d L bufS1 (bufS1).view.set]{fullShare} g1)
    ∗ outFl d L (⟨8, by decide⟩ : DmaSem sig) bufS2 (cOff L (3 * k + 2)) (cOff_inb L _) fo g2
    ∗ ((bufS2).view.loc (thrV d L) ↦[outside d L bufS2 (bufS2).view.set]{fullShare} g2)
    ∗ inFlF d L (⟨0, by decide⟩ : DmaSem sig) bufS0 (Transfers.shareTokN qf 0) ff (cOff L (3 * k + 3)) (cOff_inb L _) b0
    ∗ ((featV).view.loc (thrV d L) ↦[outsideSl d L featV (Rect.unit (s := S64000000) (cOff L (3 * k + 3)) S25600.size (cOff_inb L _)) (fun _ => rfl)]{Transfers.shareTokN qf 0} ff)
    ∗ inFlI d L (⟨3, by decide⟩ : DmaSem sig) ixS0 (Transfers.shareTokN qi 3) ix (iOff L (3 * k + 3)) (iOff_inb L _) x0
    ∗ ((idxV).view.loc (thrV d L) ↦[outsideSl d L idxV (Rect.unit (s := S1000000) (iOff L (3 * k + 3)) S400.size (iOff_inb L _)) (fun _ => rfl)]{Transfers.shareTokN qi 3} ix)
    ∗ ((featV).view.loc (thrV d L) ↦{Transfers.shareTokN qf 1} ff) ∗ ((featV).view.loc (thrV d L) ↦{Transfers.shareTokN qf 2} ff)
    ∗ ((idxV).view.loc (thrV d L) ↦{Transfers.shareTokN qi 4} ix) ∗ ((idxV).view.loc (thrV d L) ↦{Transfers.shareTokN qi 5} ix)
    ∗ ((ixS1).view.loc (thrV d L) ↦{fullShare} x1) ∗ ((ixS2).view.loc (thrV d L) ↦{fullShare} x2)
    ∗ semVal (thrV d L, SemLoc.dma (⟨1, by decide⟩ : DmaSem sig)) 0 ∗ semVal (thrV d L, SemLoc.dma (⟨2, by decide⟩ : DmaSem sig)) 0
    ∗ semVal (thrV d L, SemLoc.dma (⟨4, by decide⟩ : DmaSem sig)) 0 ∗ semVal (thrV d L, SemLoc.dma (⟨5, by decide⟩ : DmaSem sig)) 0
    ∗ semVal (thrV d L, SemLoc.dma (⟨6, by decide⟩ : DmaSem sig)) 0)

/-- After the last trip: the last three turns on their way out, every other turn done, nothing coming in. -/
def invB : sProp 𝕄 :=
  iprop(∃ (t0 t1 t2 : Nat) (g0 : Buf (Elt F) ((bufS0).view.loc (thrV d L))) (g1 : Buf (Elt F) ((bufS1).view.loc (thrV d L)))
      (g2 : Buf (Elt F) ((bufS2).view.loc (thrV d L))) (x0 : Buf (Elt F) ((ixS0).view.loc (thrV d L)))
      (x1 : Buf (Elt F) ((ixS1).view.loc (thrV d L))) (x2 : Buf (Elt F) ((ixS2).view.loc (thrV d L))) (W' : Waits sig (HIx 1)),
    ⌜(∀ p ∈ W', p ∈ W ∨ p.2 = none) ∧ t0 < nkL L ∧ t1 < nkL L ∧ t2 < nkL L ∧ t0 ≠ t1 ∧ t0 ≠ t2 ∧ t1 ≠ t2
        ∧ IsChunk d L ff gf ix bufS0 g0 t0 ∧ IsChunk d L ff gf ix bufS1 g1 t1 ∧ IsChunk d L ff gf ix bufS2 g2 t2⌝
    ∗ Transfers.MayWaits (thrV d L) (none : HIx 1) O
    ∗ owes (thrV d L) O W'
    ∗ ((tabS).view.loc (thrV d L) ↦{fullShare} TTc)
    ∗ bigSep (Finset.range 81 \ {t0, t1, t2}) (Dp d L ff gf ix)
    ∗ outFl d L (⟨6, by decide⟩ : DmaSem sig) bufS0 (cOff L t0) (cOff_inb L _) fo g0
    ∗ ((bufS0).view.loc (thrV d L) ↦[outside d L bufS0 (bufS0).view.set]{fullShare} g0)
    ∗ outFl d L (⟨7, by decide⟩ : DmaSem sig) bufS1 (cOff L t1) (cOff_inb L _) fo g1
    ∗ ((bufS1).view.loc (thrV d L) ↦[outside d L bufS1 (bufS1).view.set]{fullShare} g1)
    ∗ outFl d L (⟨8, by decide⟩ : DmaSem sig) bufS2 (cOff L t2) (cOff_inb L _) fo g2
    ∗ ((bufS2).view.loc (thrV d L) ↦[outside d L bufS2 (bufS2).view.set]{fullShare} g2)
    ∗ ((featV).view.loc (thrV d L) ↦{Transfers.shareTokN qf 0} ff) ∗ ((featV).view.loc (thrV d L) ↦{Transfers.shareTokN qf 1} ff)
    ∗ ((featV).view.loc (thrV d L) ↦{Transfers.shareTokN qf 2} ff)
    ∗ ((idxV).view.loc (thrV d L) ↦{Transfers.shareTokN qi 3} ix) ∗ ((idxV).view.loc (thrV d L) ↦{Transfers.shareTokN qi 4} ix)
    ∗ ((idxV).view.loc (thrV d L) ↦{Transfers.shareTokN qi 5} ix)
    ∗ ((ixS0).view.loc (thrV d L) ↦{fullShare} x0) ∗ ((ixS1).view.loc (thrV d L) ↦{fullShare} x1) ∗ ((ixS2).view.loc (thrV d L) ↦{fullShare} x2)
    ∗ semVal (thrV d L, SemLoc.dma (⟨0, by decide⟩ : DmaSem sig)) 0 ∗ semVal (thrV d L, SemLoc.dma (⟨1, by decide⟩ : DmaSem sig)) 0
    ∗ semVal (thrV d L, SemLoc.dma (⟨2, by decide⟩ : DmaSem sig)) 0 ∗ semVal (thrV d L, SemLoc.dma (⟨3, by decide⟩ : DmaSem sig)) 0
    ∗ semVal (thrV d L, SemLoc.dma (⟨4, by decide⟩ : DmaSem sig)) 0 ∗ semVal (thrV d L, SemLoc.dma (⟨5, by decide⟩ : DmaSem sig)) 0)

/-- The main loop's invariant. -/
def invM (k : Nat) (_ : BitVec 32) : sProp 𝕄 :=
  if k < (k0_t4_loop L).trips then invA d L O W ff gf ix fo TTc qf qi k else invB d L O W ff gf ix fo TTc qf qi

end Main

section Slices
variable (d : Dev nD) (L : grid0.Coords) (ff : Buf (Elt F) (fLoc d)) (gf : Buf (Elt F) (gLoc d)) (ix : Buf (Elt F) (iLoc d)) (fo : Buf (Elt F) (oLoc d))

/-- An untouched piece, spelt as the program's slice of the output at the chunk's start. -/
theorem Pp_slice (t : Nat) (ht : t < 81) (off : Fin 1 → Nat) (inb : ∀ a, off a + S25600.size a ≤ S64000000.size a)
    (hoff : off 0 = 25600 * (wid L + 32 * t)) (hlt : wid L + 32 * t < 2500) :
    Pp d L fo t = ((oSl off inb).view.loc (thrV d L) ↦[(oSl off inb).view.set]{fullShare} fo) := by
  unfold Pp tsetN
  rw [dif_pos ht]
  exact out_piece d L ⟨t, ht⟩ off inb hoff hlt fo

/-- A piece come back from its copy out of a row buffer that held the chunk's final values is done. -/
theorem Dp_slice (t : Nat) (ht : t < 81) (off : Fin 1 → Nat) (inb : ∀ a, off a + S25600.size a ≤ S64000000.size a)
    (hoff : off 0 = 25600 * (wid L + 32 * t)) (hlt : wid L + 32 * t < 2500) (base : Buf (Elt F) (oLoc d))
    (bufS : Memref sig .scVector .vmem S25600 .f32) (g : Buf (Elt F) (bufS.view.loc (thrV d L))) (hc : IsChunk d L ff gf ix bufS g t) :
    ((oSl off inb).view.loc (thrV d L) ↦[(oSl off inb).view.set]{fullShare}
        (oSl off inb).view.writes (Elt F) base
          [⟨Rect.whole (Rect.unit (s := S64000000) off S25600.size inb).shape, ReadAs.same.apply (bufS.view.read (Elt F) g)⟩] : sProp 𝕄)
      = Dp d L ff gf ix t := by
  unfold Dp tsetN
  rw [dif_pos ht]
  refine out_done d L ⟨t, ht⟩ off inb hoff hlt base _ (Gf d ff gf ix) (fun y => ?_)
  have e : gOf L t = wid L + 32 * t := by unfold gOf; omega
  refine (hc y).trans ?_
  congr 2
  apply Fin.ext
  show 25600 * gOf L t + (y 0).val = 25600 * (wid L + 32 * t) + (y 0).val
  rw [e]

end Slices

section Conv
variable (d : Dev nD) (L : grid0.Coords) (ff : Buf (Elt F) (fLoc d)) (gf : Buf (Elt F) (gLoc d)) (ix : Buf (Elt F) (iLoc d)) (fo : Buf (Elt F) (oLoc d))
  (TTc : Buf (Elt F) ((tabS).view.loc (thrV d L)))

omit [FloatOps F] in
theorem gOf_eq {t : Nat} (h : wid L + 32 * t < 2500) : gOf L t = wid L + 32 * t := by unfold gOf; omega

omit [FloatOps F] in
/-- A chain that starts where the chunk of turn t starts is that chunk's canonical offset. -/
theorem cOff_eq {t : Nat} (h : wid L + 32 * t < 2500) (off : Fin 1 → Nat) (ho : off 0 = 25600 * (wid L + 32 * t)) : off = cOff L t := by
  funext a
  obtain rfl : a = 0 := Subsingleton.elim _ _
  rw [ho]
  show _ = 25600 * gOf L t
  rw [gOf_eq L h]
omit [FloatOps F] in
theorem iOff_eq {t : Nat} (h : wid L + 32 * t < 2500) (off : Fin 1 → Nat) (ho : off 0 = 400 * (wid L + 32 * t)) : off = iOff L t := by
  funext a
  obtain rfl : a = 0 := Subsingleton.elim _ _
  rw [ho]
  show _ = 400 * gOf L t
  rw [gOf_eq L h]

omit [FloatOps F] in
/-- What is left of a feature token after the slice at `off` is lent, respelt at an equal offset. -/
theorem remF_congr (q : PosShare TreeShare) {off off' : Fin 1 → Nat} (h : off = off') (inb inb') :
    ((featV).view.loc (thrV d L) ↦[outsideSl d L featV (Rect.unit (s := S64000000) off S25600.size inb) (fun _ => rfl)]{q} ff : sProp 𝕄)
      = ((featV).view.loc (thrV d L) ↦[outsideSl d L featV (Rect.unit (s := S64000000) off' S25600.size inb') (fun _ => rfl)]{q} ff) := by
  subst h; rfl
omit [FloatOps F] in
theorem remI_congr (q : PosShare TreeShare) {off off' : Fin 1 → Nat} (h : off = off') (inb inb') :
    ((idxV).view.loc (thrV d L) ↦[outsideSl d L idxV (Rect.unit (s := S1000000) off S400.size inb) (fun _ => rfl)]{q} ix : sProp 𝕄)
      = ((idxV).view.loc (thrV d L) ↦[outsideSl d L idxV (Rect.unit (s := S1000000) off' S400.size inb') (fun _ => rfl)]{q} ix) := by
  subst h; rfl

omit [FloatOps F] in
/-- Reading the feature slice at `off`: the array at the slice's start plus the lane. -/
theorem fSl_read (off : Fin 1 → Nat) (inb : ∀ a, off a + S25600.size a ≤ S64000000.size a) (y : S25600.Idx) :
    ReadAs.same.apply ((fSl off inb).view.read (Elt F) ff) y = ff (ix1 ⟨off 0 + (y 0).val, by have := inb 0; have := p_lt y; show off 0 + (y 0).val < 64000000; (have h : S25600.size 0 = 25600 := rfl); (have h' : S64000000.size 0 = 64000000 := rfl); omega⟩) := by
  show ff _ = ff _
  congr 1
  refine funext fun (a : Fin 1) => ?_
  obtain rfl : a = 0 := Subsingleton.elim _ _
  apply Fin.ext
  show off 0 + 1 * (y 0).val = off 0 + (y 0).val
  omega
omit [FloatOps F] in
theorem iSl_read (off : Fin 1 → Nat) (inb : ∀ a, off a + S400.size a ≤ S1000000.size a) (r : S400.Idx) :
    ReadAs.same.apply ((iSl off inb).view.read (Elt F) ix) r = ix (ix1 ⟨off 0 + (r 0).val, by have := inb 0; have hr : (r 0).val < 400 := (r 0).isLt; show off 0 + (r 0).val < 1000000; (have h : S400.size 0 = 400 := rfl); (have h' : S1000000.size 0 = 1000000 := rfl); omega⟩) := by
  show ix _ = ix _
  congr 1
  refine funext fun (a : Fin 1) => ?_
  obtain rfl : a = 0 := Subsingleton.elim _ _
  apply Fin.ext
  show off 0 + 1 * (r 0).val = off 0 + (r 0).val
  omega

/-- A compute loop's result, on a row buffer that held the chunk's features and an index buffer that held the
    chunk's indices, is the chunk's final values. -/
theorem isChunk_of_stage (bufS : Memref sig .scVector .vmem S25600 .f32) (ixS : Memref sig .scVector .vmem S400 .i32)
    (g B : Buf (Elt F) (bufS.view.loc (thrV d L))) (X : Buf (Elt F) (ixS.view.loc (thrV d L))) (t : Nat) (ht : wid L + 32 * t < 2500)
    (hTT : ∀ z, (tabS).view.read (Elt F) TTc z = gf z)
    (hg : ∀ y, bufS.view.read (Elt F) g y
        = stage (bufS.view.read (Elt F) B) ((tabS).view.read (Elt F) TTc) (ixS.view.read (Elt F) X) 400 y)
    (hB : ∀ y : S25600.Idx, bufS.view.read (Elt F) B y = ff (ix1 ⟨25600 * gOf L t + (y 0).val, cIdx_lt L t y⟩))
    (hXv : ∀ r : S400.Idx, ixS.view.read (Elt F) X r = ix (ix1 ⟨400 * gOf L t + (r 0).val, by have hr : (r 0).val < 400 := (r 0).isLt; unfold gOf; omega⟩)) :
    IsChunk d L ff gf ix bufS g t := by
  intro y
  show bufS.view.read (Elt F) g y = _
  rw [hg]
  exact chunk_val _ _ _ ff gf ix (gOf L t) (by unfold gOf; omega) hB hTT hXv y

end Conv

omit [FloatOps F] in
/-- Recording one more wait with no handshake index keeps the list of waits admissible. -/
theorem ins_ok (W : Waits sig (HIx 1)) {A : Waits sig (HIx 1)} (hW : ∀ p ∈ A, p ∈ W ∨ p.2 = none) (s : SemLoc sig) :
    ∀ p ∈ insert (s, (default : HIx 1)) A, p ∈ W ∨ p.2 = none :=
  fun p hp => (Finset.mem_insert.mp hp).elim (fun e => .inr (e ▸ rfl)) (hW p)

section Agree
variable (d : Dev nD) (L : grid0.Coords) (ff : Buf (Elt F) (fLoc d)) (gf : Buf (Elt F) (gLoc d)) (ix : Buf (Elt F) (iLoc d))

/-- A piece whose contents, at the places of the program's slice, are the chunk's final values, is done —
    whatever term the contents are. -/
theorem Dp_agree (t : Nat) (ht : t < 81) (off : Fin 1 → Nat) (inb : ∀ a, off a + S25600.size a ≤ S64000000.size a)
    (hoff : off 0 = 25600 * (wid L + 32 * t)) (hlt : wid L + 32 * t < 2500) (h : Buf (Elt F) (oLoc d))
    (hag : ∀ y : S25600.Idx, h ((oSl off inb).view.emb y)
        = Gf d ff gf ix (ix1 ⟨25600 * gOf L t + (y 0).val, cIdx_lt L t y⟩)) :
    ((oSl off inb).view.loc (thrV d L) ↦[(oSl off inb).view.set]{fullShare} h : sProp 𝕄) = Dp d L ff gf ix t := by
  unfold Dp tsetN
  rw [dif_pos ht]
  refine Eq.trans (pointsTo_congr fun i hi => ?_) (out_piece d L ⟨t, ht⟩ off inb hoff hlt (Gf d ff gf ix)).symm
  obtain ⟨x, -, rfl⟩ := Finset.mem_map.mp hi
  rw [hag x]
  congr 1
  refine funext fun a : Fin 1 => ?_
  obtain rfl : a = 0 := Subsingleton.elim _ _
  refine Fin.ext ?_
  show 25600 * gOf L t + (x 0).val = off 0 + 1 * (x 0).val
  rw [hoff, gOf_eq L hlt]; omega

omit [FloatOps F] in
/-- What one write of a whole row buffer through the slice leaves at the slice's places. -/
theorem writes_whole_emb (off : Fin 1 → Nat) (inb : ∀ a, off a + S25600.size a ≤ S64000000.size a) (base : Buf (Elt F) (oLoc d))
    (pay : S25600.Idx → Elt F .f32) (y : S25600.Idx) :
    ((oSl off inb).view.writes (Elt F) base [⟨Rect.whole S25600, pay⟩]) ((oSl off inb).view.emb y) = pay y := by
  have e : ((oSl off inb).view.slice (Rect.whole S25600)).emb y = (oSl off inb).view.emb y := by
    rw [View.emb_slice]
    show (oSl off inb).view.emb ((Rect.whole S25600).emb y) = _
    rw [Rect.emb_whole_apply]
  rw [View.writes_singleton, ← e, View.write_emb_of_mem _ _ (Finset.mem_univ _)]
  rfl

end Agree

section LandVals
variable (d : Dev nD) (L : grid0.Coords) (ff : Buf (Elt F) (fLoc d)) (ix : Buf (Elt F) (iLoc d))

omit [FloatOps F] in
/-- A row buffer on which the feature slice of turn t has landed reads as the chunk's features. -/
theorem landF (bufS : Memref sig .scVector .vmem S25600 .f32) (base : Buf (Elt F) (bufS.view.loc (thrV d L)))
    (off : Fin 1 → Nat) (inb : ∀ a, off a + S25600.size a ≤ S64000000.size a) (t : Nat) (ht : wid L + 32 * t < 2500)
    (ho : off 0 = 25600 * (wid L + 32 * t)) (y : S25600.Idx) :
    bufS.view.read (Elt F) (View.write (Elt F) bufS.view base (ReadAs.same.apply ((fSl off inb).view.read (Elt F) ff)) Finset.univ) y
      = ff (ix1 ⟨25600 * gOf L t + (y 0).val, cIdx_lt L t y⟩) := by
  rw [View.read_write_univ, fSl_read]
  congr 2
  apply Fin.ext
  show off 0 + (y 0).val = 25600 * gOf L t + (y 0).val
  rw [ho, gOf_eq L ht]

omit [FloatOps F] in
/-- An index buffer on which the index slice of turn t has landed reads as the chunk's indices. -/
theorem landI (ixS : Memref sig .scVector .vmem S400 .i32) (base : Buf (Elt F) (ixS.view.loc (thrV d L)))
    (off : Fin 1 → Nat) (inb : ∀ a, off a + S400.size a ≤ S1000000.size a) (t : Nat) (ht : wid L + 32 * t < 2500)
    (ho : off 0 = 400 * (wid L + 32 * t)) (r : S400.Idx) :
    ixS.view.read (Elt F) (View.write (Elt F) ixS.view base (ReadAs.same.apply ((iSl off inb).view.read (Elt F) ix)) Finset.univ) r
      = ix (ix1 ⟨400 * gOf L t + (r 0).val, by have hr : (r 0).val < 400 := (r 0).isLt; unfold gOf; omega⟩) := by
  rw [View.read_write_univ, iSl_read]
  congr 2
  apply Fin.ext
  show off 0 + (r 0).val = 400 * gOf L t + (r 0).val
  rw [ho, gOf_eq L ht]

omit [FloatOps F] in
theorem landI_lt (hix : ∀ j, BitVec.toNat (ix j) < 16) (ixS : Memref sig .scVector .vmem S400 .i32) (base : Buf (Elt F) (ixS.view.loc (thrV d L)))
    (off : Fin 1 → Nat) (inb : ∀ a, off a + S400.size a ≤ S1000000.size a) (r : S400.Idx) :
    BitVec.toNat (ixS.view.read (Elt F) (View.write (Elt F) ixS.view base (ReadAs.same.apply ((iSl off inb).view.read (Elt F) ix)) Finset.univ) r) < 16 := by
  rw [View.read_write_univ, iSl_read]
  exact hix _

end LandVals

end Cert.Kernel.Hand

end
-- ==== Proof.KLoop5.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS0).view.loc (thrV d L)))
  (B : Buf (Elt F) ((bufS0).view.loc (thrV d L)))

/-- Before trip k: the table and the indices as they were, the row buffer at stage 16 k. -/
def inv5 (k : Nat) (_ : BitVec 32) : sProp 𝕄 :=
  iprop(((tabS).view.loc (thrV d L) ↦{fullShare} TT) ∗ ((ixS0).view.loc (thrV d L) ↦{fullShare} X)
    ∗ ∃ f, ((bufS0).view.loc (thrV d L) ↦{fullShare} f)
        ∗ ⌜∀ y, (bufS0).view.read (Elt F) f y
            = stage ((bufS0).view.read (Elt F) B) ((tabS).view.read (Elt F) TT) ((ixS0).view.read (Elt F) X) (16 * k) y⌝)

set_option maxHeartbeats 16000000 in
/-- One trip keeps the invariant. -/
theorem step5 (hX : ∀ j, BitVec.toNat ((ixS0).view.read (Elt F) X j) < 16) (v1 v21 v90 c3_i32_55 v91 v93 c0_i32_57 : BitVec 32)
    (k : Fin (Scf.trips k0_t5_loop.lb k0_t5_loop.ub k0_t5_loop.st)) (acc : BitVec 32) :
    inv5 d L TT X B k acc
      ⊢ wp frame (wpE (defs₀ (F := F)) 𝒱₀ (thrV d L) none) Set.univ
          (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc) (inv5 d L TT X B (k.val + 1)) := by
  have hk : k.val < 25 := Nat.lt_of_lt_of_le k.isLt k0_t5_abs.2.1
  unfold inv5 k0_t5_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS0).view f _ _ _ k.val _ rfl hf ?_
  exact ⟨
    ⟨(cf0 (k0_off146 k 48#32)).trans (by show 1024 * k.val + 16 * 3 + 960 = 1024 * k.val + 16 * 63; omega), rfl, rfl, fun x =>
      piece_agree (bufS0).view (tabS).view (ixS0).view f TT X _ k.val 15 3 hk (by omega) (by omega) hf hX (k0_off146 k 48#32) (k0_off146 k 48#32) (k0_off113 k)
        (k0_off146_inb k 3) (k0_off146_inb k 3) (k0_off113_inb k)
        ((cf0 (k0_off146 k 48#32)).trans (by show 1024 * k.val + 16 * 3 + 960 = _; omega)) ((cf0 (k0_off146 k 48#32)).trans (by show 1024 * k.val + 16 * 3 + 960 = _; omega)) ((cf0 (k0_off113 k)).trans (by show 16 * k.val = _; omega))
        _ 48#32 (by decide) _ _ (by first | rfl | rw [Shape.reshapeEquiv_self]) rfl x⟩,
    ⟨(cf0 (k0_off146 k 32#32)).trans (by show 1024 * k.val + 16 * 2 + 960 = 1024 * k.val + 16 * 62; omega), rfl, rfl, fun x =>
      piece_agree (bufS0).view (tabS).view (ixS0).view f TT X _ k.val 15 2 hk (by omega) (by omega) hf hX (k0_off146 k 32#32) (k0_off146 k 32#32) (k0_off113 k)
        (k0_off146_inb k 2) (k0_off146_inb k 2) (k0_off113_inb k)
        ((cf0 (k0_off146 k 32#32)).trans (by show 1024 * k.val + 16 * 2 + 960 = _; omega)) ((cf0 (k0_off146 k 32#32)).trans (by show 1024 * k.val + 16 * 2 + 960 = _; omega)) ((cf0 (k0_off113 k)).trans (by show 16 * k.val = _; omega))
        _ 32#32 (by decide) _ _ (by first | rfl | rw [Shape.reshapeEquiv_self]) rfl x⟩,
    ⟨(cf0 (k0_off146 k 16#32)).trans (by show 1024 * k.val + 16 * 1 + 960 = 1024 * k.val + 16 * 61; omega), rfl, rfl, fun x =>
      piece_agree (bufS0).view (tabS).view (ixS0).view f TT X _ k.val 15 1 hk (by omega) (by omega) hf hX (k0_off146 k 16#32) (k0_off146 k 16#32) (k0_off113 k)
        (k0_off146_inb k 1) (k0_off146_inb k 1) (k0_off113_inb k)
        ((cf0 (k0_off146 k 16#32)).trans (by show 1024 * k.val + 16 * 1 + 960 = _; omega)) ((cf0 (k0_off146 k 16#32)).trans (by show 1024 * k.val + 16 * 1 + 960 = _; omega)) ((cf0 (k0_off113 k)).trans (by show 16 * k.val = _; omega))
        _ 16#32 (by decide) _ _ (by first | rfl | rw [Shape.reshapeEquiv_self]) rfl x⟩,
    ⟨(cf0 (k0_off146 k 0#32)).trans (by show 1024 * k.val + 16 * 0 + 960 = 1024 * k.val + 16 * 60; omega), rfl, rfl, fun x =>
      piece_agree (bufS0).view (tabS).view (ixS0).view f TT X _ k.val 15 0 hk (by omega) (by omega) hf hX (k0_off146 k 0#32) (k0_off144 k 960#32 0#32) (k0_off113 k)
        (k0_off146_inb k 0) (k0_off144_inb k 4) (k0_off113_inb k)
        ((cf0 (k0_off146 k 0#32)).trans (by show 1024 * k.val + 16 * 0 + 960 = _; omega)) ((cf0 (k0_off144 k 960#32 0#32)).trans (by show 1024 * k.val + 960 = _; omega)) ((cf0 (k0_off113 k)).trans (by show 16 * k.val = _; omega))
        _ 0#32 (by decide) _ _ (by first | rfl | rw [Shape.reshapeEquiv_self]) rfl x⟩,
    ⟨(cf0 (k0_off144 k 896#32 48#32)).trans (by show 1024 * k.val + 944 = 1024 * k.val + 16 * 59; omega), rfl, rfl, fun x =>
      piece_agree (bufS0).view (tabS).view (ixS0).view f TT X _ k.val 14 3 hk (by omega) (by omega) hf hX (k0_off144 k 896#32 48#32) (k0_off144 k 896#32 48#32) (k0_off113 k)
        (k0_off144_inb k 3) (k0_off144_inb k 3) (k0_off113_inb k)
        ((cf0 (k0_off144 k 896#32 48#32)).trans (by show 1024 * k.val + 944 = _; omega)) ((cf0 (k0_off144 k 896#32 48#32)).trans (by show 1024 * k.val + 944 = _; omega)) ((cf0 (k0_off113 k)).trans (by show 16 * k.val = _; omega))
        _ 48#32 (by decide) _ _ (by first | rfl | rw [Shape.reshapeEquiv_self]) rfl x⟩,
    ⟨(cf0 (k0_off144 k 896#32 32#32)).trans (by show 1024 * k.val + 928 = 1024 * k.val + 16 * 58; omega), rfl, rfl, fun x =>
      piece_agree (bufS0).view (tabS).view (ixS0).view f TT X _ k.val 14 2 hk (by omega) (by omega) hf hX (k0_off144 k 896#32 32#32) (k0_off144 k 896#32 32#32) (k0_off113 k)
        (k0_off144_inb k 2) (k0_off144_inb k 2) (k0_off113_inb k)
        ((cf0 (k0_off144 k 896#32 32#32)).trans (by show 1024 * k.val + 928 = _; omega)) ((cf0 (k0_off144 k 896#32 32#32)).trans (by show 1024 * k.val + 928 = _; omega)) ((cf0 (k0_off113 k)).trans (by show 16 * k.val = _; omega))
        _ 32#32 (by decide) _ _ (by first | rfl | rw [Shape.reshapeEquiv_self]) rfl x⟩,
    ⟨(cf0 (k0_off144 k 896#32 16#32)).trans (by show 1024 * k.val + 912 = 1024 * k.val + 16 * 57; omega), rfl, rfl, fun x =>
      piece_agree (bufS0).view (tabS).view (ixS0).view f TT X _ k.val 14 1 hk (by omega) (by omega) hf hX (k0_off144 k 896#32 16#32) (k0_off144 k 896#32 16#32) (k0_off113 k)
        (k0_off144_inb k 1) (k0_off144_inb k 1) (k0_off113_inb k)
        ((cf0 (k0_off144 k 896#32 16#32)).trans (by show 1024 * k.val + 912 = _; omega)) ((cf0 (k0_off144 k 896#32 16#32)).trans (by show 1024 * k.val + 912 = _; omega)) ((cf0 (k0_off113 k)).trans (by show 16 * k.val = _; omega))
        _ 16#32 (by decide) _ _ (by first | rfl | rw [Shape.reshapeEquiv_self]) rfl x⟩,
    ⟨(cf0 (k0_off144 k 896#32 0#32)).trans (by show 1024 * k.val + 896 = 1024 * k.val + 16 * 56; omega), rfl, rfl, fun x =>
      piece_agree (bufS0).view (tabS).view (ixS0).view f TT X _ k.val 14 0 hk (by omega) (by omega) hf hX (k0_off144 k 896#32 0#32) (k0_off142 k 896#32 0#32) (k0_off113 k)
        (k0_off144_inb k 0) (k0_off142_inb k 4) (k0_off113_inb k)
        ((cf0 (k0_off144 k 896#32 0#32)).trans (by show 1024 * k.val + 896 = _; omega)) ((cf0 (k0_off142 k 896#32 0#32)).trans (by show 1024 * k.val + 896 = _; omega)) ((cf0 (k0_off113 k)).trans (by show 16 * k.val = _; omega))
        _ 0#32 (by decide) _ _ (by first | rfl | rw [Shape.reshapeEquiv_self]) rfl x⟩,
    ⟨(cf0 (k0_off142 k 832#32 48#32)).trans (by show 1024 * k.val + 880 = 1024 * k.val + 16 * 55; omega), rfl, rfl, fun x =>
      piece_agree (bufS0).view (tabS).view (ixS0).view f TT X _ k.val 13 3 hk (by omega) (by omega) hf hX (k0_off142 k 832#32 48#32) (k0_off142 k 832#32 48#32) (k0_off113 k)
        (k0_off142_inb k 3) (k0_off142_inb k 3) (k0_off113_inb k)
        ((cf0 (k0_off142 k 832#32 48#32)).trans (by show 1024 * k.val + 880 = _; omega)) ((cf0 (k0_off142 k 832#32 48#32)).trans (by show 1024 * k.val + 880 = _; omega)) ((cf0 (k0_off113 k)).trans (by show 16 * k.val = _; omega))
        _ 48#32 (by decide) _ _ (by first | rfl | rw [Shape.reshapeEquiv_self]) rfl x⟩,
    ⟨(cf0 (k0_off142 k 832#32 32#32)).trans (by show 1024 * k.val + 864 = 1024 * k.val + 16 * 54; omega), rfl, rfl, fun x =>
      piece_agree (bufS0).view (tabS).view (ixS0).view f TT X _ k.val 13 2 hk (by omega) (by omega) hf hX (k0_off142 k 832#32 32#32) (k0_off142 k 832#32 32#32) (k0_off113 k)
        (k0_off142_inb k 2) (k0_off142_inb k 2) (k0_off113_inb k)
        ((cf0 (k0_off142 k 832#32 32#32)).trans (by show 1024 * k.val + 864 = _; omega)) ((cf0 (k0_off142 k 832#32 32#32)).trans (by show 1024 * k.val + 864 = _; omega)) ((cf0 (k0_off113 k)).trans (by show 16 * k.val = _; omega))
        _ 32#32 (by decide) _ _ (by first | rfl | rw [Shape.reshapeEquiv_self]) rfl x⟩,
    ⟨(cf0 (k0_off142 k 832#32 16#32)).trans (by show 1024 * k.val + 848 = 1024 * k.val + 16 * 53; omega), rfl, rfl, fun x =>
      piece_agree (bufS0).view (tabS).view (ixS0).view f TT X _ k.val 13 1 hk (by omega) (by omega) hf hX (k0_off142 k 832#32 16#32) (k0_off142 k 832#32 16#32) (k0_off113 k)
        (k0_off142_inb k 1) (k0_off142_inb k 1) (k0_off113_inb k)
        ((cf0 (k0_off142 k 832#32 16#32)).trans (by show 1024 * k.val + 848 = _; omega)) ((cf0 (k0_off142 k 832#32 16#32)).trans (by show 1024 * k.val + 848 = _; omega)) ((cf0 (k0_off113 k)).trans (by show 16 * k.val = _; omega))
        _ 16#32 (by decide) _ _ (by first | rfl | rw [Shape.reshapeEquiv_self]) rfl x⟩,
    ⟨(cf0 (k0_off142 k 832#32 0#32)).trans (by show 1024 * k.val + 832 = 1024 * k.val + 16 * 52; omega), rfl, rfl, fun x =>
      piece_agree (bufS0).view (tabS).view (ixS0).view f TT X _ k.val 13 0 hk (by omega) (by omega) hf hX (k0_off142 k 832#32 0#32) (k0_off140 k 832#32 0#32) (k0_off113 k)
        (k0_off142_inb k 0) (k0_off140_inb k 4) (k0_off113_inb k)
        ((cf0 (k0_off142 k 832#32 0#32)).trans (by show 1024 * k.val + 832 = _; omega)) ((cf0 (k0_off140 k 832#32 0#32)).trans (by show 1024 * k.val + 832 = _; omega)) ((cf0 (k0_off113 k)).trans (by show 16 * k.val = _; omega))
        _ 0#32 (by decide) _ _ (by first | rfl | rw [Shape.reshapeEquiv_self]) rfl x⟩,
    ⟨(cf0 (k0_off140 k 768#32 48#32)).trans (by show 1024 * k.val + 816 = 1024 * k.val + 16 * 51; omega), rfl, rfl, fun x =>
      piece_agree (bufS0).view (tabS).view (ixS0).view f TT X _ k.val 12 3 hk (by omega) (by omega) hf hX (k0_off140 k 768#32 48#32) (k0_off140 k 768#32 48#32) (k0_off113 k)
        (k0_off140_inb k 3) (k0_off140_inb k 3) (k0_off113_inb k)
        ((cf0 (k0_off140 k 768#32 48#32)).trans (by show 1024 * k.val + 816 = _; omega)) ((cf0 (k0_off140 k 768#32 48#32)).trans (by show 1024 * k.val + 816 = _; omega)) ((cf0 (k0_off113 k)).trans (by show 16 * k.val = _; omega))
        _ 48#32 (by decide) _ _ (by first | rfl | rw [Shape.reshapeEquiv_self]) rfl x⟩,
    ⟨(cf0 (k0_off140 k 768#32 32#32)).trans (by show 1024 * k.val + 800 = 1024 * k.val + 16 * 50; omega), rfl, rfl, fun x =>
      piece_agree (bufS0).view (tabS).view (ixS0).view f TT X _ k.val 12 2 hk (by omega) (by omega) hf hX (k0_off140 k 768#32 32#32) (k0_off140 k 768#32 32#32) (k0_off113 k)
        (k0_off140_inb k 2) (k0_off140_inb k 2) (k0_off113_inb k)
        ((cf0 (k0_off140 k 768#32 32#32)).trans (by show 1024 * k.val + 800 = _; omega)) ((cf0 (k0_off140 k 768#32 32#32)).trans (by show 1024 * k.val + 800 = _; omega)) ((cf0 (k0_off113 k)).trans (by show 16 * k.val = _; omega))
        _ 32#32 (by decide) _ _ (by first | rfl | rw [Shape.reshapeEquiv_self]) rfl x⟩,
    ⟨(cf0 (k0_off140 k 768#32 16#32)).trans (by show 1024 * k.val + 784 = 1024 * k.val + 16 * 49; omega), rfl, rfl, fun x =>
      piece_agree (bufS0).view (tabS).view (ixS0).view f TT X _ k.val 12 1 hk (by omega) (by omega) hf hX (k0_off140 k 768#32 16#32) (k0_off140 k 768#32 16#32) (k0_off113 k)
        (k0_off140_inb k 1) (k0_off140_inb k 1) (k0_off113_inb k)
        ((cf0 (k0_off140 k 768#32 16#32)).trans (by show 1024 * k.val + 784 = _; omega)) ((cf0 (k0_off140 k 768#32 16#32)).trans (by show 1024 * k.val + 784 = _; omega)) ((cf0 (k0_off113 k)).trans (by show 16 * k.val = _; omega))
        _ 16#32 (by decide) _ _ (by first | rfl | rw [Shape.reshapeEquiv_self]) rfl x⟩,
    ⟨(cf0 (k0_off140 k 768#32 0#32)).trans (by show 1024 * k.val + 768 = 1024 * k.val + 16 * 48; omega), rfl, rfl, fun x =>
      piece_agree (bufS0).view (tabS).view (ixS0).view f TT X _ k.val 12 0 hk (by omega) (by omega) hf hX (k0_off140 k 768#32 0#32) (k0_off138 k 768#32 0#32) (k0_off113 k)
        (k0_off140_inb k 0) (k0_off138_inb k 4) (k0_off113_inb k)
        ((cf0 (k0_off140 k 768#32 0#32)).trans (by show 1024 * k.val + 768 = _; omega)) ((cf0 (k0_off138 k 768#32 0#32)).trans (by show 1024 * k.val + 768 = _; omega)) ((cf0 (k0_off113 k)).trans (by show 16 * k.val = _; omega))
        _ 0#32 (by decide) _ _ (by first | rfl | rw [Shape.reshapeEquiv_self]) rfl x⟩,
    ⟨(cf0 (k0_off138 k 704#32 48#32)).trans (by show 1024 * k.val + 752 = 1024 * k.val + 16 * 47; omega), rfl, rfl, fun x =>
      piece_agree (bufS0).view (tabS).view (ixS0).view f TT X _ k.val 11 3 hk (by omega) (by omega) hf hX (k0_off138 k 704#32 48#32) (k0_off138 k 704#32 48#32) (k0_off113 k)
        (k0_off138_inb k 3) (k0_off138_inb k 3) (k0_off113_inb k)
        ((cf0 (k0_off138 k 704#32 48#32)).trans (by show 1024 * k.val + 752 = _; omega)) ((cf0 (k0_off138 k 704#32 48#32)).trans (by show 1024 * k.val + 752 = _; omega)) ((cf0 (k0_off113 k)).trans (by show 16 * k.val = _; omega))
        _ 48#32 (by decide) _ _ (by first | rfl | rw [Shape.reshapeEquiv_self]) rfl x⟩,
    ⟨(cf0 (k0_off138 k 704#32 32#32)).trans (by show 1024 * k.val + 736 = 1024 * k.val + 16 * 46; omega), rfl, rfl, fun x =>
      piece_agree (bufS0).view (tabS).view (ixS0).view f TT X _ k.val 11 2 hk (by omega) (by omega) hf hX (k0_off138 k 704#32 32#32) (k0_off138 k 704#32 32#32) (k0_off113 k)
        (k0_off138_inb k 2) (k0_off138_inb k 2) (k0_off113_inb k)
        ((cf0 (k0_off138 k 704#32 32#32)).trans (by show 1024 * k.val + 736 = _; omega)) ((cf0 (k0_off138 k 704#32 32#32)).trans (by show 1024 * k.val + 736 = _; omega)) ((cf0 (k0_off113 k)).trans (by show 16 * k.val = _; omega))
        _ 32#32 (by decide) _ _ (by first | rfl | rw [Shape.reshapeEquiv_self]) rfl x⟩,
    ⟨(cf0 (k0_off138 k 704#32 16#32)).trans (by show 1024 * k.val + 720 = 1024 * k.val + 16 * 45; omega), rfl, rfl, fun x =>
      piece_agree (bufS0).view (tabS).view (ixS0).view f TT X _ k.val 11 1 hk (by omega) (by omega) hf hX (k0_off138 k 704#32 16#32) (k0_off138 k 704#32 16#32) (k0_off113 k)
        (k0_off138_inb k 1) (k0_off138_inb k 1) (k0_off113_inb k)
        ((cf0 (k0_off138 k 704#32 16#32)).trans (by show 1024 * k.val + 720 = _; omega)) ((cf0 (k0_off138 k 704#32 16#32)).trans (by show 1024 * k.val + 720 = _; omega)) ((cf0 (k0_off113 k)).trans (by show 16 * k.val = _; omega))
        _ 16#32 (by decide) _ _ (by first | rfl | rw [Shape.reshapeEquiv_self]) rfl x⟩,
    ⟨(cf0 (k0_off138 k 704#32 0#32)).trans (by show 1024 * k.val + 704 = 1024 * k.val + 16 * 44; omega), rfl, rfl, fun x =>
      piece_agree (bufS0).view (tabS).view (ixS0).view f TT X _ k.val 11 0 hk (by omega) (by omega) hf hX (k0_off138 k 704#32 0#32) (k0_off136 k 704#32 0#32) (k0_off113 k)
        (k0_off138_inb k 0) (k0_off136_inb k 4) (k0_off113_inb k)
        ((cf0 (k0_off138 k 704#32 0#32)).trans (by show 1024 * k.val + 704 = _; omega)) ((cf0 (k0_off136 k 704#32 0#32)).trans (by show 1024 * k.val + 704 = _; omega)) ((cf0 (k0_off113 k)).trans (by show 16 * k.val = _; omega))
        _ 0#32 (by decide) _ _ (by first | rfl | rw [Shape.reshapeEquiv_self]) rfl x⟩,
    ⟨(cf0 (k0_off136 k 640#32 48#32)).trans (by show 1024 * k.val + 688 = 1024 * k.val + 16 * 43; omega), rfl, rfl, fun x =>
      piece_agree (bufS0).view (tabS).view (ixS0).view f TT X _ k.val 10 3 hk (by omega) (by omega) hf hX (k0_off136 k 640#32 48#32) (k0_off136 k 640#32 48#32) (k0_off113 k)
        (k0_off136_inb k 3) (k0_off136_inb k 3) (k0_off113_inb k)
        ((cf0 (k0_off136 k 640#32 48#32)).trans (by show 1024 * k.val + 688 = _; omega)) ((cf0 (k0_off136 k 640#32 48#32)).trans (by show 1024 * k.val + 688 = _; omega)) ((cf0 (k0_off113 k)).trans (by show 16 * k.val = _; omega))
        _ 48#32 (by decide) _ _ (by first | rfl | rw [Shape.reshapeEquiv_self]) rfl x⟩,
    ⟨(cf0 (k0_off136 k 640#32 32#32)).trans (by show 1024 * k.val + 672 = 1024 * k.val + 16 * 42; omega), rfl, rfl, fun x =>
      piece_agree (bufS0).view (tabS).view (ixS0).view f TT X _ k.val 10 2 hk (by omega) (by omega) hf hX (k0_off136 k 640#32 32#32) (k0_off136 k 640#32 32#32) (k0_off113 k)
        (k0_off136_inb k 2) (k0_off136_inb k 2) (k0_off113_inb k)
        ((cf0 (k0_off136 k 640#32 32#32)).trans (by show 1024 * k.val + 672 = _; omega)) ((cf0 (k0_off136 k 640#32 32#32)).trans (by show 1024 * k.val + 672 = _; omega)) ((cf0 (k0_off113 k)).trans (by show 16 * k.val = _; omega))
        _ 32#32 (by decide) _ _ (by first | rfl | rw [Shape.reshapeEquiv_self]) rfl x⟩,
    ⟨(cf0 (k0_off136 k 640#32 16#32)).trans (by show 1024 * k.val + 656 = 1024 * k.val + 16 * 41; omega), rfl, rfl, fun x =>
      piece_agree (bufS0).view (tabS).view (ixS0).view f TT X _ k.val 10 1 hk (by omega) (by omega) hf hX (k0_off136 k 640#32 16#32) (k0_off136 k 640#32 16#32) (k0_off113 k)
        (k0_off136_inb k 1) (k0_off136_inb k 1) (k0_off113_inb k)
        ((cf0 (k0_off136 k 640#32 16#32)).trans (by show 1024 * k.val + 656 = _; omega)) ((cf0 (k0_off136 k 640#32 16#32)).trans (by show 1024 * k.val + 656 = _; omega)) ((cf0 (k0_off113 k)).trans (by show 16 * k.val = _; omega))
        _ 16#32 (by decide) _ _ (by first | rfl | rw [Shape.reshapeEquiv_self]) rfl x⟩,
    ⟨(cf0 (k0_off136 k 640#32 0#32)).trans (by show 1024 * k.val + 640 = 1024 * k.val + 16 * 40; omega), rfl, rfl, fun x =>
      piece_agree (bufS0).view (tabS).view (ixS0).view f TT X _ k.val 10 0 hk (by omega) (by omega) hf hX (k0_off136 k 640#32 0#32) (k0_off134 k 640#32 0#32) (k0_off113 k)
        (k0_off136_inb k 0) (k0_off134_inb k 4) (k0_off113_inb k)
        ((cf0 (k0_off136 k 640#32 0#32)).trans (by show 1024 * k.val + 640 = _; omega)) ((cf0 (k0_off134 k 640#32 0#32)).trans (by show 1024 * k.val + 640 = _; omega)) ((cf0 (k0_off113 k)).trans (by show 16 * k.val = _; omega))
        _ 0#32 (by decide) _ _ (by first | rfl | rw [Shape.reshapeEquiv_self]) rfl x⟩,
    ⟨(cf0 (k0_off134 k 576#32 48#32)).trans (by show 1024 * k.val + 624 = 1024 * k.val + 16 * 39; omega), rfl, rfl, fun x =>
      piece_agree (bufS0).view (tabS).view (ixS0).view f TT X _ k.val 9 3 hk (by omega) (by omega) hf hX (k0_off134 k 576#32 48#32) (k0_off134 k 576#32 48#32) (k0_off113 k)
        (k0_off134_inb k 3) (k0_off134_inb k 3) (k0_off113_inb k)
        ((cf0 (k0_off134 k 576#32 48#32)).trans (by show 1024 * k.val + 624 = _; omega)) ((cf0 (k0_off134 k 576#32 48#32)).trans (by show 1024 * k.val + 624 = _; omega)) ((cf0 (k0_off113 k)).trans (by show 16 * k.val = _; omega))
        _ 48#32 (by decide) _ _ (by first | rfl | rw [Shape.reshapeEquiv_self]) rfl x⟩,
    ⟨(cf0 (k0_off134 k 576#32 32#32)).trans (by show 1024 * k.val + 608 = 1024 * k.val + 16 * 38; omega), rfl, rfl, fun x =>
      piece_agree (bufS0).view (tabS).view (ixS0).view f TT X _ k.val 9 2 hk (by omega) (by omega) hf hX (k0_off134 k 576#32 32#32) (k0_off134 k 576#32 32#32) (k0_off113 k)
        (k0_off134_inb k 2) (k0_off134_inb k 2) (k0_off113_inb k)
        ((cf0 (k0_off134 k 576#32 32#32)).trans (by show 1024 * k.val + 608 = _; omega)) ((cf0 (k0_off134 k 576#32 32#32)).trans (by show 1024 * k.val + 608 = _; omega)) ((cf0 (k0_off113 k)).trans (by show 16 * k.val = _; omega))
        _ 32#32 (by decide) _ _ (by first | rfl | rw [Shape.reshapeEquiv_self]) rfl x⟩,
    ⟨(cf0 (k0_off134 k 576#32 16#32)).trans (by show 1024 * k.val + 592 = 1024 * k.val + 16 * 37; omega), rfl, rfl, fun x =>
      piece_agree (bufS0).view (tabS).view (ixS0).view f TT X _ k.val 9 1 hk (by omega) (by omega) hf hX (k0_off134 k 576#32 16#32) (k0_off134 k 576#32 16#32) (k0_off113 k)
        (k0_off134_inb k 1) (k0_off134_inb k 1) (k0_off113_inb k)
        ((cf0 (k0_off134 k 576#32 16#32)).trans (by show 1024 * k.val + 592 = _; omega)) ((cf0 (k0_off134 k 576#32 16#32)).trans (by show 1024 * k.val + 592 = _; omega)) ((cf0 (k0_off113 k)).trans (by show 16 * k.val = _; omega))
        _ 16#32 (by decide) _ _ (by first | rfl | rw [Shape.reshapeEquiv_self]) rfl x⟩,
    ⟨(cf0 (k0_off134 k 576#32 0#32)).trans (by show 1024 * k.val + 576 = 1024 * k.val + 16 * 36; omega), rfl, rfl, fun x =>
      piece_agree (bufS0).view (tabS).view (ixS0).view f TT X _ k.val 9 0 hk (by omega) (by omega) hf hX (k0_off134 k 576#32 0#32) (k0_off132 k 576#32 0#32) (k0_off113 k)
        (k0_off134_inb k 0) (k0_off132_inb k 4) (k0_off113_inb k)
        ((cf0 (k0_off134 k 576#32 0#32)).trans (by show 1024 * k.val + 576 = _; omega)) ((cf0 (k0_off132 k 576#32 0#32)).trans (by show 1024 * k.val + 576 = _; omega)) ((cf0 (k0_off113 k)).trans (by show 16 * k.val = _; omega))
        _ 0#32 (by decide) _ _ (by first | rfl | rw [Shape.reshapeEquiv_self]) rfl x⟩,
    ⟨(cf0 (k0_off132 k 512#32 48#32)).trans (by show 1024 * k.val + 560 = 1024 * k.val + 16 * 35; omega), rfl, rfl, fun x =>
      piece_agree (bufS0).view (tabS).view (ixS0).view f TT X _ k.val 8 3 hk (by omega) (by omega) hf hX (k0_off132 k 512#32 48#32) (k0_off132 k 512#32 48#32) (k0_off113 k)
        (k0_off132_inb k 3) (k0_off132_inb k 3) (k0_off113_inb k)
        ((cf0 (k0_off132 k 512#32 48#32)).trans (by show 1024 * k.val + 560 = _; omega)) ((cf0 (k0_off132 k 512#32 48#32)).trans (by show 1024 * k.val + 560 = _; omega)) ((cf0 (k0_off113 k)).trans (by show 16 * k.val = _; omega))
        _ 48#32 (by decide) _ _ (by first | rfl | rw [Shape.reshapeEquiv_self]) rfl x⟩,
    ⟨(cf0 (k0_off132 k 512#32 32#32)).trans (by show 1024 * k.val + 544 = 1024 * k.val + 16 * 34; omega), rfl, rfl, fun x =>
      piece_agree (bufS0).view (tabS).view (ixS0).view f TT X _ k.val 8 2 hk (by omega) (by omega) hf hX (k0_off132 k 512#32 32#32) (k0_off132 k 512#32 32#32) (k0_off113 k)
        (k0_off132_inb k 2) (k0_off132_inb k 2) (k0_off113_inb k)
        ((cf0 (k0_off132 k 512#32 32#32)).trans (by show 1024 * k.val + 544 = _; omega)) ((cf0 (k0_off132 k 512#32 32#32)).trans (by show 1024 * k.val + 544 = _; omega)) ((cf0 (k0_off113 k)).trans (by show 16 * k.val = _; omega))
        _ 32#32 (by decide) _ _ (by first | rfl | rw [Shape.reshapeEquiv_self]) rfl x⟩,
    ⟨(cf0 (k0_off132 k 512#32 16#32)).trans (by show 1024 * k.val + 528 = 1024 * k.val + 16 * 33; omega), rfl, rfl, fun x =>
      piece_agree (bufS0).view (tabS).view (ixS0).view f TT X _ k.val 8 1 hk (by omega) (by omega) hf hX (k0_off132 k 512#32 16#32) (k0_off132 k 512#32 16#32) (k0_off113 k)
        (k0_off132_inb k 1) (k0_off132_inb k 1) (k0_off113_inb k)
        ((cf0 (k0_off132 k 512#32 16#32)).trans (by show 1024 * k.val + 528 = _; omega)) ((cf0 (k0_off132 k 512#32 16#32)).trans (by show 1024 * k.val + 528 = _; omega)) ((cf0 (k0_off113 k)).trans (by show 16 * k.val = _; omega))
        _ 16#32 (by decide) _ _ (by first | rfl | rw [Shape.reshapeEquiv_self]) rfl x⟩,
    ⟨(cf0 (k0_off132 k 512#32 0#32)).trans (by show 1024 * k.val + 512 = 1024 * k.val + 16 * 32; omega), rfl, rfl, fun x =>
      piece_agree (bufS0).view (tabS).view (ixS0).view f TT X _ k.val 8 0 hk (by omega) (by omega) hf hX (k0_off132 k 512#32 0#32) (k0_off130 k 512#32 0#32) (k0_off113 k)
        (k0_off132_inb k 0) (k0_off130_inb k 4) (k0_off113_inb k)
        ((cf0 (k0_off132 k 512#32 0#32)).trans (by show 1024 * k.val + 512 = _; omega)) ((cf0 (k0_off130 k 512#32 0#32)).trans (by show 1024 * k.val + 512 = _; omega)) ((cf0 (k0_off113 k)).trans (by show 16 * k.val = _; omega))
        _ 0#32 (by decide) _ _ (by first | rfl | rw [Shape.reshapeEquiv_self]) rfl x⟩,
    ⟨(cf0 (k0_off130 k 448#32 48#32)).trans (by show 1024 * k.val + 496 = 1024 * k.val + 16 * 31; omega), rfl, rfl, fun x =>
      piece_agree (bufS0).view (tabS).view (ixS0).view f TT X _ k.val 7 3 hk (by omega) (by omega) hf hX (k0_off130 k 448#32 48#32) (k0_off130 k 448#32 48#32) (k0_off113 k)
        (k0_off130_inb k 3) (k0_off130_inb k 3) (k0_off113_inb k)
        ((cf0 (k0_off130 k 448#32 48#32)).trans (by show 1024 * k.val + 496 = _; omega)) ((cf0 (k0_off130 k 448#32 48#32)).trans (by show 1024 * k.val + 496 = _; omega)) ((cf0 (k0_off113 k)).trans (by show 16 * k.val = _; omega))
        _ 48#32 (by decide) _ _ (by first | rfl | rw [Shape.reshapeEquiv_self]) rfl x⟩,
    ⟨(cf0 (k0_off130 k 448#32 32#32)).trans (by show 1024 * k.val + 480 = 1024 * k.val + 16 * 30; omega), rfl, rfl, fun x =>
      piece_agree (bufS0).view (tabS).view (ixS0).view f TT X _ k.val 7 2 hk (by omega) (by omega) hf hX (k0_off130 k 448#32 32#32) (k0_off130 k 448#32 32#32) (k0_off113 k)
        (k0_off130_inb k 2) (k0_off130_inb k 2) (k0_off113_inb k)
        ((cf0 (k0_off130 k 448#32 32#32)).trans (by show 1024 * k.val + 480 = _; omega)) ((cf0 (k0_off130 k 448#32 32#32)).trans (by show 1024 * k.val + 480 = _; omega)) ((cf0 (k0_off113 k)).trans (by show 16 * k.val = _; omega))
        _ 32#32 (by decide) _ _ (by first | rfl | rw [Shape.reshapeEquiv_self]) rfl x⟩,
    ⟨(cf0 (k0_off130 k 448#32 16#32)).trans (by show 1024 * k.val + 464 = 1024 * k.val + 16 * 29; omega), rfl, rfl, fun x =>
      piece_agree (bufS0).view (tabS).view (ixS0).view f TT X _ k.val 7 1 hk (by omega) (by omega) hf hX (k0_off130 k 448#32 16#32) (k0_off130 k 448#32 16#32) (k0_off113 k)
        (k0_off130_inb k 1) (k0_off130_inb k 1) (k0_off113_inb k)
        ((cf0 (k0_off130 k 448#32 16#32)).trans (by show 1024 * k.val + 464 = _; omega)) ((cf0 (k0_off130 k 448#32 16#32)).trans (by show 1024 * k.val + 464 = _; omega)) ((cf0 (k0_off113 k)).trans (by show 16 * k.val = _; omega))
        _ 16#32 (by decide) _ _ (by first | rfl | rw [Shape.reshapeEquiv_self]) rfl x⟩,
    ⟨(cf0 (k0_off130 k 448#32 0#32)).trans (by show 1024 * k.val + 448 = 1024 * k.val + 16 * 28; omega), rfl, rfl, fun x =>
      piece_agree (bufS0).view (tabS).view (ixS0).view f TT X _ k.val 7 0 hk (by omega) (by omega) hf hX (k0_off130 k 448#32 0#32) (k0_off128 k 448#32 0#32) (k0_off113 k)
        (k0_off130_inb k 0) (k0_off128_inb k 4) (k0_off113_inb k)
        ((cf0 (k0_off130 k 448#32 0#32)).trans (by show 1024 * k.val + 448 = _; omega)) ((cf0 (k0_off128 k 448#32 0#32)).trans (by show 1024 * k.val + 448 = _; omega)) ((cf0 (k0_off113 k)).trans (by show 16 * k.val = _; omega))
        _ 0#32 (by decide) _ _ (by first | rfl | rw [Shape.reshapeEquiv_self]) rfl x⟩,
    ⟨(cf0 (k0_off128 k 384#32 48#32)).trans (by show 1024 * k.val + 432 = 1024 * k.val + 16 * 27; omega), rfl, rfl, fun x =>
      piece_agree (bufS0).view (tabS).view (ixS0).view f TT X _ k.val 6 3 hk (by omega) (by omega) hf hX (k0_off128 k 384#32 48#32) (k0_off128 k 384#32 48#32) (k0_off113 k)
        (k0_off128_inb k 3) (k0_off128_inb k 3) (k0_off113_inb k)
        ((cf0 (k0_off128 k 384#32 48#32)).trans (by show 1024 * k.val + 432 = _; omega)) ((cf0 (k0_off128 k 384#32 48#32)).trans (by show 1024 * k.val + 432 = _; omega)) ((cf0 (k0_off113 k)).trans (by show 16 * k.val = _; omega))
        _ 48#32 (by decide) _ _ (by first | rfl | rw [Shape.reshapeEquiv_self]) rfl x⟩,
    ⟨(cf0 (k0_off128 k 384#32 32#32)).trans (by show 1024 * k.val + 416 = 1024 * k.val + 16 * 26; omega), rfl, rfl, fun x =>
      piece_agree (bufS0).view (tabS).view (ixS0).view f TT X _ k.val 6 2 hk (by omega) (by omega) hf hX (k0_off128 k 384#32 32#32) (k0_off128 k 384#32 32#32) (k0_off113 k)
        (k0_off128_inb k 2) (k0_off128_inb k 2) (k0_off113_inb k)
        ((cf0 (k0_off128 k 384#32 32#32)).trans (by show 1024 * k.val + 416 = _; omega)) ((cf0 (k0_off128 k 384#32 32#32)).trans (by show 1024 * k.val + 416 = _; omega)) ((cf0 (k0_off113 k)).trans (by show 16 * k.val = _; omega))
        _ 32#32 (by decide) _ _ (by first | rfl | rw [Shape.reshapeEquiv_self]) rfl x⟩,
    ⟨(cf0 (k0_off128 k 384#32 16#32)).trans (by show 1024 * k.val + 400 = 1024 * k.val + 16 * 25; omega), rfl, rfl, fun x =>
      piece_agree (bufS0).view (tabS).view (ixS0).view f TT X _ k.val 6 1 hk (by omega) (by omega) hf hX (k0_off128 k 384#32 16#32) (k0_off128 k 384#32 16#32) (k0_off113 k)
        (k0_off128_inb k 1) (k0_off128_inb k 1) (k0_off113_inb k)
        ((cf0 (k0_off128 k 384#32 16#32)).trans (by show 1024 * k.val + 400 = _; omega)) ((cf0 (k0_off128 k 384#32 16#32)).trans (by show 1024 * k.val + 400 = _; omega)) ((cf0 (k0_off113 k)).trans (by show 16 * k.val = _; omega))
        _ 16#32 (by decide) _ _ (by first | rfl | rw [Shape.reshapeEquiv_self]) rfl x⟩,
    ⟨(cf0 (k0_off128 k 384#32 0#32)).trans (by show 1024 * k.val + 384 = 1024 * k.val + 16 * 24; omega), rfl, rfl, fun x =>
      piece_agree (bufS0).view (tabS).view (ixS0).view f TT X _ k.val 6 0 hk (by omega) (by omega) hf hX (k0_off128 k 384#32 0#32) (k0_off126 k 384#32 0#32) (k0_off113 k)
        (k0_off128_inb k 0) (k0_off126_inb k 4) (k0_off113_inb k)
        ((cf0 (k0_off128 k 384#32 0#32)).trans (by show 1024 * k.val + 384 = _; omega)) ((cf0 (k0_off126 k 384#32 0#32)).trans (by show 1024 * k.val + 384 = _; omega)) ((cf0 (k0_off113 k)).trans (by show 16 * k.val = _; omega))
        _ 0#32 (by decide) _ _ (by first | rfl | rw [Shape.reshapeEquiv_self]) rfl x⟩,
    ⟨(cf0 (k0_off126 k 320#32 48#32)).trans (by show 1024 * k.val + 368 = 1024 * k.val + 16 * 23; omega), rfl, rfl, fun x =>
      piece_agree (bufS0).view (tabS).view (ixS0).view f TT X _ k.val 5 3 hk (by omega) (by omega) hf hX (k0_off126 k 320#32 48#32) (k0_off126 k 320#32 48#32) (k0_off113 k)
        (k0_off126_inb k 3) (k0_off126_inb k 3) (k0_off113_inb k)
        ((cf0 (k0_off126 k 320#32 48#32)).trans (by show 1024 * k.val + 368 = _; omega)) ((cf0 (k0_off126 k 320#32 48#32)).trans (by show 1024 * k.val + 368 = _; omega)) ((cf0 (k0_off113 k)).trans (by show 16 * k.val = _; omega))
        _ 48#32 (by decide) _ _ (by first | rfl | rw [Shape.reshapeEquiv_self]) rfl x⟩,
    ⟨(cf0 (k0_off126 k 320#32 32#32)).trans (by show 1024 * k.val + 352 = 1024 * k.val + 16 * 22; omega), rfl, rfl, fun x =>
      piece_agree (bufS0).view (tabS).view (ixS0).view f TT X _ k.val 5 2 hk (by omega) (by omega) hf hX (k0_off126 k 320#32 32#32) (k0_off126 k 320#32 32#32) (k0_off113 k)
        (k0_off126_inb k 2) (k0_off126_inb k 2) (k0_off113_inb k)
        ((cf0 (k0_off126 k 320#32 32#32)).trans (by show 1024 * k.val + 352 = _; omega)) ((cf0 (k0_off126 k 320#32 32#32)).trans (by show 1024 * k.val + 352 = _; omega)) ((cf0 (k0_off113 k)).trans (by show 16 * k.val = _; omega))
        _ 32#32 (by decide) _ _ (by first | rfl | rw [Shape.reshapeEquiv_self]) rfl x⟩,
    ⟨(cf0 (k0_off126 k 320#32 16#32)).trans (by show 1024 * k.val + 336 = 1024 * k.val + 16 * 21; omega), rfl, rfl, fun x =>
      piece_agree (bufS0).view (tabS).view (ixS0).view f TT X _ k.val 5 1 hk (by omega) (by omega) hf hX (k0_off126 k 320#32 16#32) (k0_off126 k 320#32 16#32) (k0_off113 k)
        (k0_off126_inb k 1) (k0_off126_inb k 1) (k0_off113_inb k)
        ((cf0 (k0_off126 k 320#32 16#32)).trans (by show 1024 * k.val + 336 = _; omega)) ((cf0 (k0_off126 k 320#32 16#32)).trans (by show 1024 * k.val + 336 = _; omega)) ((cf0 (k0_off113 k)).trans (by show 16 * k.val = _; omega))
        _ 16#32 (by decide) _ _ (by first | rfl | rw [Shape.reshapeEquiv_self]) rfl x⟩,
    ⟨(cf0 (k0_off126 k 320#32 0#32)).trans (by show 1024 * k.val + 320 = 1024 * k.val + 16 * 20; omega), rfl, rfl, fun x =>
      piece_agree (bufS0).view (tabS).view (ixS0).view f TT X _ k.val 5 0 hk (by omega) (by omega) hf hX (k0_off126 k 320#32 0#32) (k0_off124 k 320#32 0#32) (k0_off113 k)
        (k0_off126_inb k 0) (k0_off124_inb k 4) (k0_off113_inb k)
        ((cf0 (k0_off126 k 320#32 0#32)).trans (by show 1024 * k.val + 320 = _; omega)) ((cf0 (k0_off124 k 320#32 0#32)).trans (by show 1024 * k.val + 320 = _; omega)) ((cf0 (k0_off113 k)).trans (by show 16 * k.val = _; omega))
        _ 0#32 (by decide) _ _ (by first | rfl | rw [Shape.reshapeEquiv_self]) rfl x⟩,
    ⟨(cf0 (k0_off124 k 256#32 48#32)).trans (by show 1024 * k.val + 304 = 1024 * k.val + 16 * 19; omega), rfl, rfl, fun x =>
      piece_agree (bufS0).view (tabS).view (ixS0).view f TT X _ k.val 4 3 hk (by omega) (by omega) hf hX (k0_off124 k 256#32 48#32) (k0_off124 k 256#32 48#32) (k0_off113 k)
        (k0_off124_inb k 3) (k0_off124_inb k 3) (k0_off113_inb k)
        ((cf0 (k0_off124 k 256#32 48#32)).trans (by show 1024 * k.val + 304 = _; omega)) ((cf0 (k0_off124 k 256#32 48#32)).trans (by show 1024 * k.val + 304 = _; omega)) ((cf0 (k0_off113 k)).trans (by show 16 * k.val = _; omega))
        _ 48#32 (by decide) _ _ (by first | rfl | rw [Shape.reshapeEquiv_self]) rfl x⟩,
    ⟨(cf0 (k0_off124 k 256#32 32#32)).trans (by show 1024 * k.val + 288 = 1024 * k.val + 16 * 18; omega), rfl, rfl, fun x =>
      piece_agree (bufS0).view (tabS).view (ixS0).view f TT X _ k.val 4 2 hk (by omega) (by omega) hf hX (k0_off124 k 256#32 32#32) (k0_off124 k 256#32 32#32) (k0_off113 k)
        (k0_off124_inb k 2) (k0_off124_inb k 2) (k0_off113_inb k)
        ((cf0 (k0_off124 k 256#32 32#32)).trans (by show 1024 * k.val + 288 = _; omega)) ((cf0 (k0_off124 k 256#32 32#32)).trans (by show 1024 * k.val + 288 = _; omega)) ((cf0 (k0_off113 k)).trans (by show 16 * k.val = _; omega))
        _ 32#32 (by decide) _ _ (by first | rfl | rw [Shape.reshapeEquiv_self]) rfl x⟩,
    ⟨(cf0 (k0_off124 k 256#32 16#32)).trans (by show 1024 * k.val + 272 = 1024 * k.val + 16 * 17; omega), rfl, rfl, fun x =>
      piece_agree (bufS0).view (tabS).view (ixS0).view f TT X _ k.val 4 1 hk (by omega) (by omega) hf hX (k0_off124 k 256#32 16#32) (k0_off124 k 256#32 16#32) (k0_off113 k)
        (k0_off124_inb k 1) (k0_off124_inb k 1) (k0_off113_inb k)
        ((cf0 (k0_off124 k 256#32 16#32)).trans (by show 1024 * k.val + 272 = _; omega)) ((cf0 (k0_off124 k 256#32 16#32)).trans (by show 1024 * k.val + 272 = _; omega)) ((cf0 (k0_off113 k)).trans (by show 16 * k.val = _; omega))
        _ 16#32 (by decide) _ _ (by first | rfl | rw [Shape.reshapeEquiv_self]) rfl x⟩,
    ⟨(cf0 (k0_off124 k 256#32 0#32)).trans (by show 1024 * k.val + 256 = 1024 * k.val + 16 * 16; omega), rfl, rfl, fun x =>
      piece_agree (bufS0).view (tabS).view (ixS0).view f TT X _ k.val 4 0 hk (by omega) (by omega) hf hX (k0_off124 k 256#32 0#32) (k0_off122 k 256#32 0#32) (k0_off113 k)
        (k0_off124_inb k 0) (k0_off122_inb k 4) (k0_off113_inb k)
        ((cf0 (k0_off124 k 256#32 0#32)).trans (by show 1024 * k.val + 256 = _; omega)) ((cf0 (k0_off122 k 256#32 0#32)).trans (by show 1024 * k.val + 256 = _; omega)) ((cf0 (k0_off113 k)).trans (by show 16 * k.val = _; omega))
        _ 0#32 (by decide) _ _ (by first | rfl | rw [Shape.reshapeEquiv_self]) rfl x⟩,
    ⟨(cf0 (k0_off122 k 192#32 48#32)).trans (by show 1024 * k.val + 240 = 1024 * k.val + 16 * 15; omega), rfl, rfl, fun x =>
      piece_agree (bufS0).view (tabS).view (ixS0).view f TT X _ k.val 3 3 hk (by omega) (by omega) hf hX (k0_off122 k 192#32 48#32) (k0_off122 k 192#32 48#32) (k0_off113 k)
        (k0_off122_inb k 3) (k0_off122_inb k 3) (k0_off113_inb k)
        ((cf0 (k0_off122 k 192#32 48#32)).trans (by show 1024 * k.val + 240 = _; omega)) ((cf0 (k0_off122 k 192#32 48#32)).trans (by show 1024 * k.val + 240 = _; omega)) ((cf0 (k0_off113 k)).trans (by show 16 * k.val = _; omega))
        _ 48#32 (by decide) _ _ (by first | rfl | rw [Shape.reshapeEquiv_self]) rfl x⟩,
    ⟨(cf0 (k0_off122 k 192#32 32#32)).trans (by show 1024 * k.val + 224 = 1024 * k.val + 16 * 14; omega), rfl, rfl, fun x =>
      piece_agree (bufS0).view (tabS).view (ixS0).view f TT X _ k.val 3 2 hk (by omega) (by omega) hf hX (k0_off122 k 192#32 32#32) (k0_off122 k 192#32 32#32) (k0_off113 k)
        (k0_off122_inb k 2) (k0_off122_inb k 2) (k0_off113_inb k)
        ((cf0 (k0_off122 k 192#32 32#32)).trans (by show 1024 * k.val + 224 = _; omega)) ((cf0 (k0_off122 k 192#32 32#32)).trans (by show 1024 * k.val + 224 = _; omega)) ((cf0 (k0_off113 k)).trans (by show 16 * k.val = _; omega))
        _ 32#32 (by decide) _ _ (by first | rfl | rw [Shape.reshapeEquiv_self]) rfl x⟩,
    ⟨(cf0 (k0_off122 k 192#32 16#32)).trans (by show 1024 * k.val + 208 = 1024 * k.val + 16 * 13; omega), rfl, rfl, fun x =>
      piece_agree (bufS0).view (tabS).view (ixS0).view f TT X _ k.val 3 1 hk (by omega) (by omega) hf hX (k0_off122 k 192#32 16#32) (k0_off122 k 192#32 16#32) (k0_off113 k)
        (k0_off122_inb k 1) (k0_off122_inb k 1) (k0_off113_inb k)
        ((cf0 (k0_off122 k 192#32 16#32)).trans (by show 1024 * k.val + 208 = _; omega)) ((cf0 (k0_off122 k 192#32 16#32)).trans (by show 1024 * k.val + 208 = _; omega)) ((cf0 (k0_off113 k)).trans (by show 16 * k.val = _; omega))
        _ 16#32 (by decide) _ _ (by first | rfl | rw [Shape.reshapeEquiv_self]) rfl x⟩,
    ⟨(cf0 (k0_off122 k 192#32 0#32)).trans (by show 1024 * k.val + 192 = 1024 * k.val + 16 * 12; omega), rfl, rfl, fun x =>
      piece_agree (bufS0).view (tabS).view (ixS0).view f TT X _ k.val 3 0 hk (by omega) (by omega) hf hX (k0_off122 k 192#32 0#32) (k0_off120 k 192#32 0#32) (k0_off113 k)
        (k0_off122_inb k 0) (k0_off120_inb k 4) (k0_off113_inb k)
        ((cf0 (k0_off122 k 192#32 0#32)).trans (by show 1024 * k.val + 192 = _; omega)) ((cf0 (k0_off120 k 192#32 0#32)).trans (by show 1024 * k.val + 192 = _; omega)) ((cf0 (k0_off113 k)).trans (by show 16 * k.val = _; omega))
        _ 0#32 (by decide) _ _ (by first | rfl | rw [Shape.reshapeEquiv_self]) rfl x⟩,
    ⟨(cf0 (k0_off120 k 128#32 48#32)).trans (by show 1024 * k.val + 176 = 1024 * k.val + 16 * 11; omega), rfl, rfl, fun x =>
      piece_agree (bufS0).view (tabS).view (ixS0).view f TT X _ k.val 2 3 hk (by omega) (by omega) hf hX (k0_off120 k 128#32 48#32) (k0_off120 k 128#32 48#32) (k0_off113 k)
        (k0_off120_inb k 3) (k0_off120_inb k 3) (k0_off113_inb k)
        ((cf0 (k0_off120 k 128#32 48#32)).trans (by show 1024 * k.val + 176 = _; omega)) ((cf0 (k0_off120 k 128#32 48#32)).trans (by show 1024 * k.val + 176 = _; omega)) ((cf0 (k0_off113 k)).trans (by show 16 * k.val = _; omega))
        _ 48#32 (by decide) _ _ (by first | rfl | rw [Shape.reshapeEquiv_self]) rfl x⟩,
    ⟨(cf0 (k0_off120 k 128#32 32#32)).trans (by show 1024 * k.val + 160 = 1024 * k.val + 16 * 10; omega), rfl, rfl, fun x =>
      piece_agree (bufS0).view (tabS).view (ixS0).view f TT X _ k.val 2 2 hk (by omega) (by omega) hf hX (k0_off120 k 128#32 32#32) (k0_off120 k 128#32 32#32) (k0_off113 k)
        (k0_off120_inb k 2) (k0_off120_inb k 2) (k0_off113_inb k)
        ((cf0 (k0_off120 k 128#32 32#32)).trans (by show 1024 * k.val + 160 = _; omega)) ((cf0 (k0_off120 k 128#32 32#32)).trans (by show 1024 * k.val + 160 = _; omega)) ((cf0 (k0_off113 k)).trans (by show 16 * k.val = _; omega))
        _ 32#32 (by decide) _ _ (by first | rfl | rw [Shape.reshapeEquiv_self]) rfl x⟩,
    ⟨(cf0 (k0_off120 k 128#32 16#32)).trans (by show 1024 * k.val + 144 = 1024 * k.val + 16 * 9; omega), rfl, rfl, fun x =>
      piece_agree (bufS0).view (tabS).view (ixS0).view f TT X _ k.val 2 1 hk (by omega) (by omega) hf hX (k0_off120 k 128#32 16#32) (k0_off120 k 128#32 16#32) (k0_off113 k)
        (k0_off120_inb k 1) (k0_off120_inb k 1) (k0_off113_inb k)
        ((cf0 (k0_off120 k 128#32 16#32)).trans (by show 1024 * k.val + 144 = _; omega)) ((cf0 (k0_off120 k 128#32 16#32)).trans (by show 1024 * k.val + 144 = _; omega)) ((cf0 (k0_off113 k)).trans (by show 16 * k.val = _; omega))
        _ 16#32 (by decide) _ _ (by first | rfl | rw [Shape.reshapeEquiv_self]) rfl x⟩,
    ⟨(cf0 (k0_off120 k 128#32 0#32)).trans (by show 1024 * k.val + 128 = 1024 * k.val + 16 * 8; omega), rfl, rfl, fun x =>
      piece_agree (bufS0).view (tabS).view (ixS0).view f TT X _ k.val 2 0 hk (by omega) (by omega) hf hX (k0_off120 k 128#32 0#32) (k0_off118 k 128#32 0#32) (k0_off113 k)
        (k0_off120_inb k 0) (k0_off118_inb k 4) (k0_off113_inb k)
        ((cf0 (k0_off120 k 128#32 0#32)).trans (by show 1024 * k.val + 128 = _; omega)) ((cf0 (k0_off118 k 128#32 0#32)).trans (by show 1024 * k.val + 128 = _; omega)) ((cf0 (k0_off113 k)).trans (by show 16 * k.val = _; omega))
        _ 0#32 (by decide) _ _ (by first | rfl | rw [Shape.reshapeEquiv_self]) rfl x⟩,
    ⟨(cf0 (k0_off118 k 64#32 48#32)).trans (by show 1024 * k.val + 112 = 1024 * k.val + 16 * 7; omega), rfl, rfl, fun x =>
      piece_agree (bufS0).view (tabS).view (ixS0).view f TT X _ k.val 1 3 hk (by omega) (by omega) hf hX (k0_off118 k 64#32 48#32) (k0_off118 k 64#32 48#32) (k0_off113 k)
        (k0_off118_inb k 3) (k0_off118_inb k 3) (k0_off113_inb k)
        ((cf0 (k0_off118 k 64#32 48#32)).trans (by show 1024 * k.val + 112 = _; omega)) ((cf0 (k0_off118 k 64#32 48#32)).trans (by show 1024 * k.val + 112 = _; omega)) ((cf0 (k0_off113 k)).trans (by show 16 * k.val = _; omega))
        _ 48#32 (by decide) _ _ (by first | rfl | rw [Shape.reshapeEquiv_self]) rfl x⟩,
    ⟨(cf0 (k0_off118 k 64#32 32#32)).trans (by show 1024 * k.val + 96 = 1024 * k.val + 16 * 6; omega), rfl, rfl, fun x =>
      piece_agree (bufS0).view (tabS).view (ixS0).view f TT X _ k.val 1 2 hk (by omega) (by omega) hf hX (k0_off118 k 64#32 32#32) (k0_off118 k 64#32 32#32) (k0_off113 k)
        (k0_off118_inb k 2) (k0_off118_inb k 2) (k0_off113_inb k)
        ((cf0 (k0_off118 k 64#32 32#32)).trans (by show 1024 * k.val + 96 = _; omega)) ((cf0 (k0_off118 k 64#32 32#32)).trans (by show 1024 * k.val + 96 = _; omega)) ((cf0 (k0_off113 k)).trans (by show 16 * k.val = _; omega))
        _ 32#32 (by decide) _ _ (by first | rfl | rw [Shape.reshapeEquiv_self]) rfl x⟩,
    ⟨(cf0 (k0_off118 k 64#32 16#32)).trans (by show 1024 * k.val + 80 = 1024 * k.val + 16 * 5; omega), rfl, rfl, fun x =>
      piece_agree (bufS0).view (tabS).view (ixS0).view f TT X _ k.val 1 1 hk (by omega) (by omega) hf hX (k0_off118 k 64#32 16#32) (k0_off118 k 64#32 16#32) (k0_off113 k)
        (k0_off118_inb k 1) (k0_off118_inb k 1) (k0_off113_inb k)
        ((cf0 (k0_off118 k 64#32 16#32)).trans (by show 1024 * k.val + 80 = _; omega)) ((cf0 (k0_off118 k 64#32 16#32)).trans (by show 1024 * k.val + 80 = _; omega)) ((cf0 (k0_off113 k)).trans (by show 16 * k.val = _; omega))
        _ 16#32 (by decide) _ _ (by first | rfl | rw [Shape.reshapeEquiv_self]) rfl x⟩,
    ⟨(cf0 (k0_off118 k 64#32 0#32)).trans (by show 1024 * k.val + 64 = 1024 * k.val + 16 * 4; omega), rfl, rfl, fun x =>
      piece_agree (bufS0).view (tabS).view (ixS0).view f TT X _ k.val 1 0 hk (by omega) (by omega) hf hX (k0_off118 k 64#32 0#32) (k0_off116 k 64#32 0#32) (k0_off113 k)
        (k0_off118_inb k 0) (k0_off116_inb k 4) (k0_off113_inb k)
        ((cf0 (k0_off118 k 64#32 0#32)).trans (by show 1024 * k.val + 64 = _; omega)) ((cf0 (k0_off116 k 64#32 0#32)).trans (by show 1024 * k.val + 64 = _; omega)) ((cf0 (k0_off113 k)).trans (by show 16 * k.val = _; omega))
        _ 0#32 (by decide) _ _ (by first | rfl | rw [Shape.reshapeEquiv_self]) rfl x⟩,
    ⟨(cf0 (k0_off116 k 0#32 48#32)).trans (by show 1024 * k.val + 48 = 1024 * k.val + 16 * 3; omega), rfl, rfl, fun x =>
      piece_agree (bufS0).view (tabS).view (ixS0).view f TT X _ k.val 0 3 hk (by omega) (by omega) hf hX (k0_off116 k 0#32 48#32) (k0_off116 k 0#32 48#32) (k0_off113 k)
        (k0_off116_inb k 3) (k0_off116_inb k 3) (k0_off113_inb k)
        ((cf0 (k0_off116 k 0#32 48#32)).trans (by show 1024 * k.val + 48 = _; omega)) ((cf0 (k0_off116 k 0#32 48#32)).trans (by show 1024 * k.val + 48 = _; omega)) ((cf0 (k0_off113 k)).trans (by show 16 * k.val = _; omega))
        _ 48#32 (by decide) _ _ (by first | rfl | rw [Shape.reshapeEquiv_self]) rfl x⟩,
    ⟨(cf0 (k0_off116 k 0#32 32#32)).trans (by show 1024 * k.val + 32 = 1024 * k.val + 16 * 2; omega), rfl, rfl, fun x =>
      piece_agree (bufS0).view (tabS).view (ixS0).view f TT X _ k.val 0 2 hk (by omega) (by omega) hf hX (k0_off116 k 0#32 32#32) (k0_off116 k 0#32 32#32) (k0_off113 k)
        (k0_off116_inb k 2) (k0_off116_inb k 2) (k0_off113_inb k)
        ((cf0 (k0_off116 k 0#32 32#32)).trans (by show 1024 * k.val + 32 = _; omega)) ((cf0 (k0_off116 k 0#32 32#32)).trans (by show 1024 * k.val + 32 = _; omega)) ((cf0 (k0_off113 k)).trans (by show 16 * k.val = _; omega))
        _ 32#32 (by decide) _ _ (by first | rfl | rw [Shape.reshapeEquiv_self]) rfl x⟩,
    ⟨(cf0 (k0_off116 k 0#32 16#32)).trans (by show 1024 * k.val + 16 = 1024 * k.val + 16 * 1; omega), rfl, rfl, fun x =>
      piece_agree (bufS0).view (tabS).view (ixS0).view f TT X _ k.val 0 1 hk (by omega) (by omega) hf hX (k0_off116 k 0#32 16#32) (k0_off116 k 0#32 16#32) (k0_off113 k)
        (k0_off116_inb k 1) (k0_off116_inb k 1) (k0_off113_inb k)
        ((cf0 (k0_off116 k 0#32 16#32)).trans (by show 1024 * k.val + 16 = _; omega)) ((cf0 (k0_off116 k 0#32 16#32)).trans (by show 1024 * k.val + 16 = _; omega)) ((cf0 (k0_off113 k)).trans (by show 16 * k.val = _; omega))
        _ 16#32 (by decide) _ _ (by first | rfl | rw [Shape.reshapeEquiv_self]) rfl x⟩,
    ⟨(cf0 (k0_off116 k 0#32 0#32)).trans (by show 1024 * k.val + 0 = 1024 * k.val + 16 * 0; omega), rfl, rfl, fun x =>
      piece_agree (bufS0).view (tabS).view (ixS0).view f TT X _ k.val 0 0 hk (by omega) (by omega) hf hX (k0_off116 k 0#32 0#32) (k0_off114 k) (k0_off113 k)
        (k0_off116_inb k 0) (k0_off114_inb k) (k0_off113_inb k)
        ((cf0 (k0_off116 k 0#32 0#32)).trans (by show 1024 * k.val + 0 = _; omega)) ((cf0 (k0_off114 k)).trans (by show 1024 * k.val = _; omega)) ((cf0 (k0_off113 k)).trans (by show 16 * k.val = _; omega))
        _ 0#32 (by decide) _ _ (by first | rfl | rw [Shape.reshapeEquiv_self]) rfl x⟩,
    trivial⟩

/-- The whole loop, in continuation form: from the three buffers, the program goes on with every row done. -/
theorem loop5_spec (hX : ∀ j, BitVec.toNat ((ixS0).view.read (Elt F) X j) < 16) (v1 v21 v90 c3_i32_55 v91 v93 c0_i32_57 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS0).view.loc (thrV d L) ↦{fullShare} X)
        ∗ ((bufS0).view.loc (thrV d L) ↦{fullShare} B)
        ∗ (∀ acc f, (⌜∀ y, (bufS0).view.read (Elt F) f y
              = stage ((bufS0).view.read (Elt F) B) ((tabS).view.read (Elt F) TT) ((ixS0).view.read (Elt F) X) 400 y⌝
              ∗ ((tabS).view.loc (thrV d L) ↦{fullShare} TT) ∗ ((ixS0).view.loc (thrV d L) ↦{fullShare} X)
              ∗ ((bufS0).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t5_loop k0_t5_ok init (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57) >>= kk) Q := by
  iintro ⟨Ht, Hx, Hb, Hk⟩
  iapply (Scf.wp_for_bind frame (wpE (defs₀ (F := F)) 𝒱₀ (thrV d L) none) Set.univ k0_t5_loop.lb k0_t5_loop.ub k0_t5_loop.st k0_t5_ok init
    (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57) (inv5 d L TT X B) (step5 d L TT X B hX v1 v21 v90 c3_i32_55 v91 v93 c0_i32_57)) $$ [Ht Hx Hb]
  · unfold inv5
    isplitl [Ht]; · iexact Ht
    isplitl [Hx]; · iexact Hx
    iexists B; isplitl [Hb]; · iexact Hb
    ipureintro
    intro y
    unfold stage
    rw [if_neg (by omega)]
  iintro %acc HI
  unfold inv5
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KLoop6.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS1).view.loc (thrV d L)))
  (B : Buf (Elt F) ((bufS1).view.loc (thrV d L)))

/-- Before trip k: the table and the indices as they were, the row buffer at stage 16 k. -/
def inv6 (k : Nat) (_ : BitVec 32) : sProp 𝕄 :=
  iprop(((tabS).view.loc (thrV d L) ↦{fullShare} TT) ∗ ((ixS1).view.loc (thrV d L) ↦{fullShare} X)
    ∗ ∃ f, ((bufS1).view.loc (thrV d L) ↦{fullShare} f)
        ∗ ⌜∀ y, (bufS1).view.read (Elt F) f y
            = stage ((bufS1).view.read (Elt F) B) ((tabS).view.read (Elt F) TT) ((ixS1).view.read (Elt F) X) (16 * k) y⌝)

set_option maxHeartbeats 16000000 in
/-- One trip keeps the invariant. -/
theorem step6 (hX : ∀ j, BitVec.toNat ((ixS1).view.read (Elt F) X j) < 16) (v1 v21 v90 c3_i32_55 v91 v93 c0_i32_57 : BitVec 32) (k0_t4 : Fin (k0_t4_loop L).trips) (k0_h5 : k0_cond5 L k0_t4 = 1#1)
    (k : Fin (Scf.trips k0_t6_loop.lb k0_t6_loop.ub k0_t6_loop.st)) (acc : BitVec 32) :
    inv6 d L TT X B k acc
      ⊢ wp frame (wpE (defs₀ (F := F)) 𝒱₀ (thrV d L) none) Set.univ
          (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5 k acc) (inv6 d L TT X B (k.val + 1)) := by
  have hk : k.val < 25 := Nat.lt_of_lt_of_le k.isLt k0_t6_abs.2.1
  unfold inv6 k0_t6_body
  iintro ⟨Ht, Hx, %f, Hb, %hf⟩
  sl_exec_parts (disch := first | exact fun r a => off_gen _ (hX _) r a | exact fun _ r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS1).view f _ _ _ k.val _ rfl hf ?_
  exact ⟨
    ⟨(cf0 (k0_off183 k 48#32)).trans (by show 1024 * k.val + 16 * 3 + 960 = 1024 * k.val + 16 * 63; omega), rfl, rfl, fun x =>
      piece_agree (bufS1).view (tabS).view (ixS1).view f TT X _ k.val 15 3 hk (by omega) (by omega) hf hX (k0_off183 k 48#32) (k0_off183 k 48#32) (k0_off150 k)
        (k0_off183_inb L k0_t4 k k0_h5 3) (k0_off183_inb L k0_t4 k k0_h5 3) (k0_off150_inb L k0_t4 k k0_h5)
        ((cf0 (k0_off183 k 48#32)).trans (by show 1024 * k.val + 16 * 3 + 960 = _; omega)) ((cf0 (k0_off183 k 48#32)).trans (by show 1024 * k.val + 16 * 3 + 960 = _; omega)) ((cf0 (k0_off150 k)).trans (by show 16 * k.val = _; omega))
        _ 48#32 (by decide) _ _ (by first | rfl | rw [Shape.reshapeEquiv_self]) rfl x⟩,
    ⟨(cf0 (k0_off183 k 32#32)).trans (by show 1024 * k.val + 16 * 2 + 960 = 1024 * k.val + 16 * 62; omega), rfl, rfl, fun x =>
      piece_agree (bufS1).view (tabS).view (ixS1).view f TT X _ k.val 15 2 hk (by omega) (by omega) hf hX (k0_off183 k 32#32) (k0_off183 k 32#32) (k0_off150 k)
        (k0_off183_inb L k0_t4 k k0_h5 2) (k0_off183_inb L k0_t4 k k0_h5 2) (k0_off150_inb L k0_t4 k k0_h5)
        ((cf0 (k0_off183 k 32#32)).trans (by show 1024 * k.val + 16 * 2 + 960 = _; omega)) ((cf0 (k0_off183 k 32#32)).trans (by show 1024 * k.val + 16 * 2 + 960 = _; omega)) ((cf0 (k0_off150 k)).trans (by show 16 * k.val = _; omega))
        _ 32#32 (by decide) _ _ (by first | rfl | rw [Shape.reshapeEquiv_self]) rfl x⟩,
    ⟨(cf0 (k0_off183 k 16#32)).trans (by show 1024 * k.val + 16 * 1 + 960 = 1024 * k.val + 16 * 61; omega), rfl, rfl, fun x =>
      piece_agree (bufS1).view (tabS).view (ixS1).view f TT X _ k.val 15 1 hk (by omega) (by omega) hf hX (k0_off183 k 16#32) (k0_off183 k 16#32) (k0_off150 k)
        (k0_off183_inb L k0_t4 k k0_h5 1) (k0_off183_inb L k0_t4 k k0_h5 1) (k0_off150_inb L k0_t4 k k0_h5)
        ((cf0 (k0_off183 k 16#32)).trans (by show 1024 * k.val + 16 * 1 + 960 = _; omega)) ((cf0 (k0_off183 k 16#32)).trans (by show 1024 * k.val + 16 * 1 + 960 = _; omega)) ((cf0 (k0_off150 k)).trans (by show 16 * k.val = _; omega))
        _ 16#32 (by decide) _ _ (by first | rfl | rw [Shape.reshapeEquiv_self]) rfl x⟩,
    ⟨(cf0 (k0_off183 k 0#32)).trans (by show 1024 * k.val + 16 * 0 + 960 = 1024 * k.val + 16 * 60; omega), rfl, rfl, fun x =>
      piece_agree (bufS1).view (tabS).view (ixS1).view f TT X _ k.val 15 0 hk (by omega) (by omega) hf hX (k0_off183 k 0#32) (k0_off181 k 960#32 0#32) (k0_off150 k)
        (k0_off183_inb L k0_t4 k k0_h5 0) (k0_off181_inb L k0_t4 k k0_h5 4) (k0_off150_inb L k0_t4 k k0_h5)
        ((cf0 (k0_off183 k 0#32)).trans (by show 1024 * k.val + 16 * 0 + 960 = _; omega)) ((cf0 (k0_off181 k 960#32 0#32)).trans (by show 1024 * k.val + 960 = _; omega)) ((cf0 (k0_off150 k)).trans (by show 16 * k.val = _; omega))
        _ 0#32 (by decide) _ _ (by first | rfl | rw [Shape.reshapeEquiv_self]) rfl x⟩,
    ⟨(cf0 (k0_off181 k 896#32 48#32)).trans (by show 1024 * k.val + 944 = 1024 * k.val + 16 * 59; omega), rfl, rfl, fun x =>
      piece_agree (bufS1).view (tabS).view (ixS1).view f TT X _ k.val 14 3 hk (by omega) (by omega) hf hX (k0_off181 k 896#32 48#32) (k0_off181 k 896#32 48#32) (k0_off150 k)
        (k0_off181_inb L k0_t4 k k0_h5 3) (k0_off181_inb L k0_t4 k k0_h5 3) (k0_off150_inb L k0_t4 k k0_h5)
        ((cf0 (k0_off181 k 896#32 48#32)).trans (by show 1024 * k.val + 944 = _; omega)) ((cf0 (k0_off181 k 896#32 48#32)).trans (by show 1024 * k.val + 944 = _; omega)) ((cf0 (k0_off150 k)).trans (by show 16 * k.val = _; omega))
        _ 48#32 (by decide) _ _ (by first | rfl | rw [Shape.reshapeEquiv_self]) rfl x⟩,
    ⟨(cf0 (k0_off181 k 896#32 32#32)).trans (by show 1024 * k.val + 928 = 1024 * k.val + 16 * 58; omega), rfl, rfl, fun x =>
      piece_agree (bufS1).view (tabS).view (ixS1).view f TT X _ k.val 14 2 hk (by omega) (by omega) hf hX (k0_off181 k 896#32 32#32) (k0_off181 k 896#32 32#32) (k0_off150 k)
        (k0_off181_inb L k0_t4 k k0_h5 2) (k0_off181_inb L k0_t4 k k0_h5 2) (k0_off150_inb L k0_t4 k k0_h5)
        ((cf0 (k0_off181 k 896#32 32#32)).trans (by show 1024 * k.val + 928 = _; omega)) ((cf0 (k0_off181 k 896#32 32#32)).trans (by show 1024 * k.val + 928 = _; omega)) ((cf0 (k0_off150 k)).trans (by show 16 * k.val = _; omega))
        _ 32#32 (by decide) _ _ (by first | rfl | rw [Shape.reshapeEquiv_self]) rfl x⟩,
    ⟨(cf0 (k0_off181 k 896#32 16#32)).trans (by show 1024 * k.val + 912 = 1024 * k.val + 16 * 57; omega), rfl, rfl, fun x =>
      piece_agree (bufS1).view (tabS).view (ixS1).view f TT X _ k.val 14 1 hk (by omega) (by omega) hf hX (k0_off181 k 896#32 16#32) (k0_off181 k 896#32 16#32) (k0_off150 k)
        (k0_off181_inb L k0_t4 k k0_h5 1) (k0_off181_inb L k0_t4 k k0_h5 1) (k0_off150_inb L k0_t4 k k0_h5)
        ((cf0 (k0_off181 k 896#32 16#32)).trans (by show 1024 * k.val + 912 = _; omega)) ((cf0 (k0_off181 k 896#32 16#32)).trans (by show 1024 * k.val + 912 = _; omega)) ((cf0 (k0_off150 k)).trans (by show 16 * k.val = _; omega))
        _ 16#32 (by decide) _ _ (by first | rfl | rw [Shape.reshapeEquiv_self]) rfl x⟩,
    ⟨(cf0 (k0_off181 k 896#32 0#32)).trans (by show 1024 * k.val + 896 = 1024 * k.val + 16 * 56; omega), rfl, rfl, fun x =>
      piece_agree (bufS1).view (tabS).view (ixS1).view f TT X _ k.val 14 0 hk (by omega) (by omega) hf hX (k0_off181 k 896#32 0#32) (k0_off179 k 896#32 0#32) (k0_off150 k)
        (k0_off181_inb L k0_t4 k k0_h5 0) (k0_off179_inb L k0_t4 k k0_h5 4) (k0_off150_inb L k0_t4 k k0_h5)
        ((cf0 (k0_off181 k 896#32 0#32)).trans (by show 1024 * k.val + 896 = _; omega)) ((cf0 (k0_off179 k 896#32 0#32)).trans (by show 1024 * k.val + 896 = _; omega)) ((cf0 (k0_off150 k)).trans (by show 16 * k.val = _; omega))
        _ 0#32 (by decide) _ _ (by first | rfl | rw [Shape.reshapeEquiv_self]) rfl x⟩,
    ⟨(cf0 (k0_off179 k 832#32 48#32)).trans (by show 1024 * k.val + 880 = 1024 * k.val + 16 * 55; omega), rfl, rfl, fun x =>
      piece_agree (bufS1).view (tabS).view (ixS1).view f TT X _ k.val 13 3 hk (by omega) (by omega) hf hX (k0_off179 k 832#32 48#32) (k0_off179 k 832#32 48#32) (k0_off150 k)
        (k0_off179_inb L k0_t4 k k0_h5 3) (k0_off179_inb L k0_t4 k k0_h5 3) (k0_off150_inb L k0_t4 k k0_h5)
        ((cf0 (k0_off179 k 832#32 48#32)).trans (by show 1024 * k.val + 880 = _; omega)) ((cf0 (k0_off179 k 832#32 48#32)).trans (by show 1024 * k.val + 880 = _; omega)) ((cf0 (k0_off150 k)).trans (by show 16 * k.val = _; omega))
        _ 48#32 (by decide) _ _ (by first | rfl | rw [Shape.reshapeEquiv_self]) rfl x⟩,
    ⟨(cf0 (k0_off179 k 832#32 32#32)).trans (by show 1024 * k.val + 864 = 1024 * k.val + 16 * 54; omega), rfl, rfl, fun x =>
      piece_agree (bufS1).view (tabS).view (ixS1).view f TT X _ k.val 13 2 hk (by omega) (by omega) hf hX (k0_off179 k 832#32 32#32) (k0_off179 k 832#32 32#32) (k0_off150 k)
        (k0_off179_inb L k0_t4 k k0_h5 2) (k0_off179_inb L k0_t4 k k0_h5 2) (k0_off150_inb L k0_t4 k k0_h5)
        ((cf0 (k0_off179 k 832#32 32#32)).trans (by show 1024 * k.val + 864 = _; omega)) ((cf0 (k0_off179 k 832#32 32#32)).trans (by show 1024 * k.val + 864 = _; omega)) ((cf0 (k0_off150 k)).trans (by show 16 * k.val = _; omega))
        _ 32#32 (by decide) _ _ (by first | rfl | rw [Shape.reshapeEquiv_self]) rfl x⟩,
    ⟨(cf0 (k0_off179 k 832#32 16#32)).trans (by show 1024 * k.val + 848 = 1024 * k.val + 16 * 53; omega), rfl, rfl, fun x =>
      piece_agree (bufS1).view (tabS).view (ixS1).view f TT X _ k.val 13 1 hk (by omega) (by omega) hf hX (k0_off179 k 832#32 16#32) (k0_off179 k 832#32 16#32) (k0_off150 k)
        (k0_off179_inb L k0_t4 k k0_h5 1) (k0_off179_inb L k0_t4 k k0_h5 1) (k0_off150_inb L k0_t4 k k0_h5)
        ((cf0 (k0_off179 k 832#32 16#32)).trans (by show 1024 * k.val + 848 = _; omega)) ((cf0 (k0_off179 k 832#32 16#32)).trans (by show 1024 * k.val + 848 = _; omega)) ((cf0 (k0_off150 k)).trans (by show 16 * k.val = _; omega))
        _ 16#32 (by decide) _ _ (by first | rfl | rw [Shape.reshapeEquiv_self]) rfl x⟩,
    ⟨(cf0 (k0_off179 k 832#32 0#32)).trans (by show 1024 * k.val + 832 = 1024 * k.val + 16 * 52; omega), rfl, rfl, fun x =>
      piece_agree (bufS1).view (tabS).view (ixS1).view f TT X _ k.val 13 0 hk (by omega) (by omega) hf hX (k0_off179 k 832#32 0#32) (k0_off177 k 832#32 0#32) (k0_off150 k)
        (k0_off179_inb L k0_t4 k k0_h5 0) (k0_off177_inb L k0_t4 k k0_h5 4) (k0_off150_inb L k0_t4 k k0_h5)
        ((cf0 (k0_off179 k 832#32 0#32)).trans (by show 1024 * k.val + 832 = _; omega)) ((cf0 (k0_off177 k 832#32 0#32)).trans (by show 1024 * k.val + 832 = _; omega)) ((cf0 (k0_off150 k)).trans (by show 16 * k.val = _; omega))
        _ 0#32 (by decide) _ _ (by first | rfl | rw [Shape.reshapeEquiv_self]) rfl x⟩,
    ⟨(cf0 (k0_off177 k 768#32 48#32)).trans (by show 1024 * k.val + 816 = 1024 * k.val + 16 * 51; omega), rfl, rfl, fun x =>
      piece_agree (bufS1).view (tabS).view (ixS1).view f TT X _ k.val 12 3 hk (by omega) (by omega) hf hX (k0_off177 k 768#32 48#32) (k0_off177 k 768#32 48#32) (k0_off150 k)
        (k0_off177_inb L k0_t4 k k0_h5 3) (k0_off177_inb L k0_t4 k k0_h5 3) (k0_off150_inb L k0_t4 k k0_h5)
        ((cf0 (k0_off177 k 768#32 48#32)).trans (by show 1024 * k.val + 816 = _; omega)) ((cf0 (k0_off177 k 768#32 48#32)).trans (by show 1024 * k.val + 816 = _; omega)) ((cf0 (k0_off150 k)).trans (by show 16 * k.val = _; omega))
        _ 48#32 (by decide) _ _ (by first | rfl | rw [Shape.reshapeEquiv_self]) rfl x⟩,
    ⟨(cf0 (k0_off177 k 768#32 32#32)).trans (by show 1024 * k.val + 800 = 1024 * k.val + 16 * 50; omega), rfl, rfl, fun x =>
      piece_agree (bufS1).view (tabS).view (ixS1).view f TT X _ k.val 12 2 hk (by omega) (by omega) hf hX (k0_off177 k 768#32 32#32) (k0_off177 k 768#32 32#32) (k0_off150 k)
        (k0_off177_inb L k0_t4 k k0_h5 2) (k0_off177_inb L k0_t4 k k0_h5 2) (k0_off150_inb L k0_t4 k k0_h5)
        ((cf0 (k0_off177 k 768#32 32#32)).trans (by show 1024 * k.val + 800 = _; omega)) ((cf0 (k0_off177 k 768#32 32#32)).trans (by show 1024 * k.val + 800 = _; omega)) ((cf0 (k0_off150 k)).trans (by show 16 * k.val = _; omega))
        _ 32#32 (by decide) _ _ (by first | rfl | rw [Shape.reshapeEquiv_self]) rfl x⟩,
    ⟨(cf0 (k0_off177 k 768#32 16#32)).trans (by show 1024 * k.val + 784 = 1024 * k.val + 16 * 49; omega), rfl, rfl, fun x =>
      piece_agree (bufS1).view (tabS).view (ixS1).view f TT X _ k.val 12 1 hk (by omega) (by omega) hf hX (k0_off177 k 768#32 16#32) (k0_off177 k 768#32 16#32) (k0_off150 k)
        (k0_off177_inb L k0_t4 k k0_h5 1) (k0_off177_inb L k0_t4 k k0_h5 1) (k0_off150_inb L k0_t4 k k0_h5)
        ((cf0 (k0_off177 k 768#32 16#32)).trans (by show 1024 * k.val + 784 = _; omega)) ((cf0 (k0_off177 k 768#32 16#32)).trans (by show 1024 * k.val + 784 = _; omega)) ((cf0 (k0_off150 k)).trans (by show 16 * k.val = _; omega))
        _ 16#32 (by decide) _ _ (by first | rfl | rw [Shape.reshapeEquiv_self]) rfl x⟩,
    ⟨(cf0 (k0_off177 k 768#32 0#32)).trans (by show 1024 * k.val + 768 = 1024 * k.val + 16 * 48; omega), rfl, rfl, fun x =>
      piece_agree (bufS1).view (tabS).view (ixS1).view f TT X _ k.val 12 0 hk (by omega) (by omega) hf hX (k0_off177 k 768#32 0#32) (k0_off175 k 768#32 0#32) (k0_off150 k)
        (k0_off177_inb L k0_t4 k k0_h5 0) (k0_off175_inb L k0_t4 k k0_h5 4) (k0_off150_inb L k0_t4 k k0_h5)
        ((cf0 (k0_off177 k 768#32 0#32)).trans (by show 1024 * k.val + 768 = _; omega)) ((cf0 (k0_off175 k 768#32 0#32)).trans (by show 1024 * k.val + 768 = _; omega)) ((cf0 (k0_off150 k)).trans (by show 16 * k.val = _; omega))
        _ 0#32 (by decide) _ _ (by first | rfl | rw [Shape.reshapeEquiv_self]) rfl x⟩,
    ⟨(cf0 (k0_off175 k 704#32 48#32)).trans (by show 1024 * k.val + 752 = 1024 * k.val + 16 * 47; omega), rfl, rfl, fun x =>
      piece_agree (bufS1).view (tabS).view (ixS1).view f TT X _ k.val 11 3 hk (by omega) (by omega) hf hX (k0_off175 k 704#32 48#32) (k0_off175 k 704#32 48#32) (k0_off150 k)
        (k0_off175_inb L k0_t4 k k0_h5 3) (k0_off175_inb L k0_t4 k k0_h5 3) (k0_off150_inb L k0_t4 k k0_h5)
        ((cf0 (k0_off175 k 704#32 48#32)).trans (by show 1024 * k.val + 752 = _; omega)) ((cf0 (k0_off175 k 704#32 48#32)).trans (by show 1024 * k.val + 752 = _; omega)) ((cf0 (k0_off150 k)).trans (by show 16 * k.val = _; omega))
        _ 48#32 (by decide) _ _ (by first | rfl | rw [Shape.reshapeEquiv_self]) rfl x⟩,
    ⟨(cf0 (k0_off175 k 704#32 32#32)).trans (by show 1024 * k.val + 736 = 1024 * k.val + 16 * 46; omega), rfl, rfl, fun x =>
      piece_agree (bufS1).view (tabS).view (ixS1).view f TT X _ k.val 11 2 hk (by omega) (by omega) hf hX (k0_off175 k 704#32 32#32) (k0_off175 k 704#32 32#32) (k0_off150 k)
        (k0_off175_inb L k0_t4 k k0_h5 2) (k0_off175_inb L k0_t4 k k0_h5 2) (k0_off150_inb L k0_t4 k k0_h5)
        ((cf0 (k0_off175 k 704#32 32#32)).trans (by show 1024 * k.val + 736 = _; omega)) ((cf0 (k0_off175 k 704#32 32#32)).trans (by show 1024 * k.val + 736 = _; omega)) ((cf0 (k0_off150 k)).trans (by show 16 * k.val = _; omega))
        _ 32#32 (by decide) _ _ (by first | rfl | rw [Shape.reshapeEquiv_self]) rfl x⟩,
    ⟨(cf0 (k0_off175 k 704#32 16#32)).trans (by show 1024 * k.val + 720 = 1024 * k.val + 16 * 45; omega), rfl, rfl, fun x =>
      piece_agree (bufS1).view (tabS).view (ixS1).view f TT X _ k.val 11 1 hk (by omega) (by omega) hf hX (k0_off175 k 704#32 16#32) (k0_off175 k 704#32 16#32) (k0_off150 k)
        (k0_off175_inb L k0_t4 k k0_h5 1) (k0_off175_inb L k0_t4 k k0_h5 1) (k0_off150_inb L k0_t4 k k0_h5)
        ((cf0 (k0_off175 k 704#32 16#32)).trans (by show 1024 * k.val + 720 = _; omega)) ((cf0 (k0_off175 k 704#32 16#32)).trans (by show 1024 * k.val + 720 = _; omega)) ((cf0 (k0_off150 k)).trans (by show 16 * k.val = _; omega))
        _ 16#32 (by decide) _ _ (by first | rfl | rw [Shape.reshapeEquiv_self]) rfl x⟩,
    ⟨(cf0 (k0_off175 k 704#32 0#32)).trans (by show 1024 * k.val + 704 = 1024 * k.val + 16 * 44; omega), rfl, rfl, fun x =>
      piece_agree (bufS1).view (tabS).view (ixS1).view f TT X _ k.val 11 0 hk (by omega) (by omega) hf hX (k0_off175 k 704#32 0#32) (k0_off173 k 704#32 0#32) (k0_off150 k)
        (k0_off175_inb L k0_t4 k k0_h5 0) (k0_off173_inb L k0_t4 k k0_h5 4) (k0_off150_inb L k0_t4 k k0_h5)
        ((cf0 (k0_off175 k 704#32 0#32)).trans (by show 1024 * k.val + 704 = _; omega)) ((cf0 (k0_off173 k 704#32 0#32)).trans (by show 1024 * k.val + 704 = _; omega)) ((cf0 (k0_off150 k)).trans (by show 16 * k.val = _; omega))
        _ 0#32 (by decide) _ _ (by first | rfl | rw [Shape.reshapeEquiv_self]) rfl x⟩,
    ⟨(cf0 (k0_off173 k 640#32 48#32)).trans (by show 1024 * k.val + 688 = 1024 * k.val + 16 * 43; omega), rfl, rfl, fun x =>
      piece_agree (bufS1).view (tabS).view (ixS1).view f TT X _ k.val 10 3 hk (by omega) (by omega) hf hX (k0_off173 k 640#32 48#32) (k0_off173 k 640#32 48#32) (k0_off150 k)
        (k0_off173_inb L k0_t4 k k0_h5 3) (k0_off173_inb L k0_t4 k k0_h5 3) (k0_off150_inb L k0_t4 k k0_h5)
        ((cf0 (k0_off173 k 640#32 48#32)).trans (by show 1024 * k.val + 688 = _; omega)) ((cf0 (k0_off173 k 640#32 48#32)).trans (by show 1024 * k.val + 688 = _; omega)) ((cf0 (k0_off150 k)).trans (by show 16 * k.val = _; omega))
        _ 48#32 (by decide) _ _ (by first | rfl | rw [Shape.reshapeEquiv_self]) rfl x⟩,
    ⟨(cf0 (k0_off173 k 640#32 32#32)).trans (by show 1024 * k.val + 672 = 1024 * k.val + 16 * 42; omega), rfl, rfl, fun x =>
      piece_agree (bufS1).view (tabS).view (ixS1).view f TT X _ k.val 10 2 hk (by omega) (by omega) hf hX (k0_off173 k 640#32 32#32) (k0_off173 k 640#32 32#32) (k0_off150 k)
        (k0_off173_inb L k0_t4 k k0_h5 2) (k0_off173_inb L k0_t4 k k0_h5 2) (k0_off150_inb L k0_t4 k k0_h5)
        ((cf0 (k0_off173 k 640#32 32#32)).trans (by show 1024 * k.val + 672 = _; omega)) ((cf0 (k0_off173 k 640#32 32#32)).trans (by show 1024 * k.val + 672 = _; omega)) ((cf0 (k0_off150 k)).trans (by show 16 * k.val = _; omega))
        _ 32#32 (by decide) _ _ (by first | rfl | rw [Shape.reshapeEquiv_self]) rfl x⟩,
    ⟨(cf0 (k0_off173 k 640#32 16#32)).trans (by show 1024 * k.val + 656 = 1024 * k.val + 16 * 41; omega), rfl, rfl, fun x =>
      piece_agree (bufS1).view (tabS).view (ixS1).view f TT X _ k.val 10 1 hk (by omega) (by omega) hf hX (k0_off173 k 640#32 16#32) (k0_off173 k 640#32 16#32) (k0_off150 k)
        (k0_off173_inb L k0_t4 k k0_h5 1) (k0_off173_inb L k0_t4 k k0_h5 1) (k0_off150_inb L k0_t4 k k0_h5)
        ((cf0 (k0_off173 k 640#32 16#32)).trans (by show 1024 * k.val + 656 = _; omega)) ((cf0 (k0_off173 k 640#32 16#32)).trans (by show 1024 * k.val + 656 = _; omega)) ((cf0 (k0_off150 k)).trans (by show 16 * k.val = _; omega))
        _ 16#32 (by decide) _ _ (by first | rfl | rw [Shape.reshapeEquiv_self]) rfl x⟩,
    ⟨(cf0 (k0_off173 k 640#32 0#32)).trans (by show 1024 * k.val + 640 = 1024 * k.val + 16 * 40; omega), rfl, rfl, fun x =>
      piece_agree (bufS1).view (tabS).view (ixS1).view f TT X _ k.val 10 0 hk (by omega) (by omega) hf hX (k0_off173 k 640#32 0#32) (k0_off171 k 640#32 0#32) (k0_off150 k)
        (k0_off173_inb L k0_t4 k k0_h5 0) (k0_off171_inb L k0_t4 k k0_h5 4) (k0_off150_inb L k0_t4 k k0_h5)
        ((cf0 (k0_off173 k 640#32 0#32)).trans (by show 1024 * k.val + 640 = _; omega)) ((cf0 (k0_off171 k 640#32 0#32)).trans (by show 1024 * k.val + 640 = _; omega)) ((cf0 (k0_off150 k)).trans (by show 16 * k.val = _; omega))
        _ 0#32 (by decide) _ _ (by first | rfl | rw [Shape.reshapeEquiv_self]) rfl x⟩,
    ⟨(cf0 (k0_off171 k 576#32 48#32)).trans (by show 1024 * k.val + 624 = 1024 * k.val + 16 * 39; omega), rfl, rfl, fun x =>
      piece_agree (bufS1).view (tabS).view (ixS1).view f TT X _ k.val 9 3 hk (by omega) (by omega) hf hX (k0_off171 k 576#32 48#32) (k0_off171 k 576#32 48#32) (k0_off150 k)
        (k0_off171_inb L k0_t4 k k0_h5 3) (k0_off171_inb L k0_t4 k k0_h5 3) (k0_off150_inb L k0_t4 k k0_h5)
        ((cf0 (k0_off171 k 576#32 48#32)).trans (by show 1024 * k.val + 624 = _; omega)) ((cf0 (k0_off171 k 576#32 48#32)).trans (by show 1024 * k.val + 624 = _; omega)) ((cf0 (k0_off150 k)).trans (by show 16 * k.val = _; omega))
        _ 48#32 (by decide) _ _ (by first | rfl | rw [Shape.reshapeEquiv_self]) rfl x⟩,
    ⟨(cf0 (k0_off171 k 576#32 32#32)).trans (by show 1024 * k.val + 608 = 1024 * k.val + 16 * 38; omega), rfl, rfl, fun x =>
      piece_agree (bufS1).view (tabS).view (ixS1).view f TT X _ k.val 9 2 hk (by omega) (by omega) hf hX (k0_off171 k 576#32 32#32) (k0_off171 k 576#32 32#32) (k0_off150 k)
        (k0_off171_inb L k0_t4 k k0_h5 2) (k0_off171_inb L k0_t4 k k0_h5 2) (k0_off150_inb L k0_t4 k k0_h5)
        ((cf0 (k0_off171 k 576#32 32#32)).trans (by show 1024 * k.val + 608 = _; omega)) ((cf0 (k0_off171 k 576#32 32#32)).trans (by show 1024 * k.val + 608 = _; omega)) ((cf0 (k0_off150 k)).trans (by show 16 * k.val = _; omega))
        _ 32#32 (by decide) _ _ (by first | rfl | rw [Shape.reshapeEquiv_self]) rfl x⟩,
    ⟨(cf0 (k0_off171 k 576#32 16#32)).trans (by show 1024 * k.val + 592 = 1024 * k.val + 16 * 37; omega), rfl, rfl, fun x =>
      piece_agree (bufS1).view (tabS).view (ixS1).view f TT X _ k.val 9 1 hk (by omega) (by omega) hf hX (k0_off171 k 576#32 16#32) (k0_off171 k 576#32 16#32) (k0_off150 k)
        (k0_off171_inb L k0_t4 k k0_h5 1) (k0_off171_inb L k0_t4 k k0_h5 1) (k0_off150_inb L k0_t4 k k0_h5)
        ((cf0 (k0_off171 k 576#32 16#32)).trans (by show 1024 * k.val + 592 = _; omega)) ((cf0 (k0_off171 k 576#32 16#32)).trans (by show 1024 * k.val + 592 = _; omega)) ((cf0 (k0_off150 k)).trans (by show 16 * k.val = _; omega))
        _ 16#32 (by decide) _ _ (by first | rfl | rw [Shape.reshapeEquiv_self]) rfl x⟩,
    ⟨(cf0 (k0_off171 k 576#32 0#32)).trans (by show 1024 * k.val + 576 = 1024 * k.val + 16 * 36; omega), rfl, rfl, fun x =>
      piece_agree (bufS1).view (tabS).view (ixS1).view f TT X _ k.val 9 0 hk (by omega) (by omega) hf hX (k0_off171 k 576#32 0#32) (k0_off169 k 576#32 0#32) (k0_off150 k)
        (k0_off171_inb L k0_t4 k k0_h5 0) (k0_off169_inb L k0_t4 k k0_h5 4) (k0_off150_inb L k0_t4 k k0_h5)
        ((cf0 (k0_off171 k 576#32 0#32)).trans (by show 1024 * k.val + 576 = _; omega)) ((cf0 (k0_off169 k 576#32 0#32)).trans (by show 1024 * k.val + 576 = _; omega)) ((cf0 (k0_off150 k)).trans (by show 16 * k.val = _; omega))
        _ 0#32 (by decide) _ _ (by first | rfl | rw [Shape.reshapeEquiv_self]) rfl x⟩,
    ⟨(cf0 (k0_off169 k 512#32 48#32)).trans (by show 1024 * k.val + 560 = 1024 * k.val + 16 * 35; omega), rfl, rfl, fun x =>
      piece_agree (bufS1).view (tabS).view (ixS1).view f TT X _ k.val 8 3 hk (by omega) (by omega) hf hX (k0_off169 k 512#32 48#32) (k0_off169 k 512#32 48#32) (k0_off150 k)
        (k0_off169_inb L k0_t4 k k0_h5 3) (k0_off169_inb L k0_t4 k k0_h5 3) (k0_off150_inb L k0_t4 k k0_h5)
        ((cf0 (k0_off169 k 512#32 48#32)).trans (by show 1024 * k.val + 560 = _; omega)) ((cf0 (k0_off169 k 512#32 48#32)).trans (by show 1024 * k.val + 560 = _; omega)) ((cf0 (k0_off150 k)).trans (by show 16 * k.val = _; omega))
        _ 48#32 (by decide) _ _ (by first | rfl | rw [Shape.reshapeEquiv_self]) rfl x⟩,
    ⟨(cf0 (k0_off169 k 512#32 32#32)).trans (by show 1024 * k.val + 544 = 1024 * k.val + 16 * 34; omega), rfl, rfl, fun x =>
      piece_agree (bufS1).view (tabS).view (ixS1).view f TT X _ k.val 8 2 hk (by omega) (by omega) hf hX (k0_off169 k 512#32 32#32) (k0_off169 k 512#32 32#32) (k0_off150 k)
        (k0_off169_inb L k0_t4 k k0_h5 2) (k0_off169_inb L k0_t4 k k0_h5 2) (k0_off150_inb L k0_t4 k k0_h5)
        ((cf0 (k0_off169 k 512#32 32#32)).trans (by show 1024 * k.val + 544 = _; omega)) ((cf0 (k0_off169 k 512#32 32#32)).trans (by show 1024 * k.val + 544 = _; omega)) ((cf0 (k0_off150 k)).trans (by show 16 * k.val = _; omega))
        _ 32#32 (by decide) _ _ (by first | rfl | rw [Shape.reshapeEquiv_self]) rfl x⟩,
    ⟨(cf0 (k0_off169 k 512#32 16#32)).trans (by show 1024 * k.val + 528 = 1024 * k.val + 16 * 33; omega), rfl, rfl, fun x =>
      piece_agree (bufS1).view (tabS).view (ixS1).view f TT X _ k.val 8 1 hk (by omega) (by omega) hf hX (k0_off169 k 512#32 16#32) (k0_off169 k 512#32 16#32) (k0_off150 k)
        (k0_off169_inb L k0_t4 k k0_h5 1) (k0_off169_inb L k0_t4 k k0_h5 1) (k0_off150_inb L k0_t4 k k0_h5)
        ((cf0 (k0_off169 k 512#32 16#32)).trans (by show 1024 * k.val + 528 = _; omega)) ((cf0 (k0_off169 k 512#32 16#32)).trans (by show 1024 * k.val + 528 = _; omega)) ((cf0 (k0_off150 k)).trans (by show 16 * k.val = _; omega))
        _ 16#32 (by decide) _ _ (by first | rfl | rw [Shape.reshapeEquiv_self]) rfl x⟩,
    ⟨(cf0 (k0_off169 k 512#32 0#32)).trans (by show 1024 * k.val + 512 = 1024 * k.val + 16 * 32; omega), rfl, rfl, fun x =>
      piece_agree (bufS1).view (tabS).view (ixS1).view f TT X _ k.val 8 0 hk (by omega) (by omega) hf hX (k0_off169 k 512#32 0#32) (k0_off167 k 512#32 0#32) (k0_off150 k)
        (k0_off169_inb L k0_t4 k k0_h5 0) (k0_off167_inb L k0_t4 k k0_h5 4) (k0_off150_inb L k0_t4 k k0_h5)
        ((cf0 (k0_off169 k 512#32 0#32)).trans (by show 1024 * k.val + 512 = _; omega)) ((cf0 (k0_off167 k 512#32 0#32)).trans (by show 1024 * k.val + 512 = _; omega)) ((cf0 (k0_off150 k)).trans (by show 16 * k.val = _; omega))
        _ 0#32 (by decide) _ _ (by first | rfl | rw [Shape.reshapeEquiv_self]) rfl x⟩,
    ⟨(cf0 (k0_off167 k 448#32 48#32)).trans (by show 1024 * k.val + 496 = 1024 * k.val + 16 * 31; omega), rfl, rfl, fun x =>
      piece_agree (bufS1).view (tabS).view (ixS1).view f TT X _ k.val 7 3 hk (by omega) (by omega) hf hX (k0_off167 k 448#32 48#32) (k0_off167 k 448#32 48#32) (k0_off150 k)
        (k0_off167_inb L k0_t4 k k0_h5 3) (k0_off167_inb L k0_t4 k k0_h5 3) (k0_off150_inb L k0_t4 k k0_h5)
        ((cf0 (k0_off167 k 448#32 48#32)).trans (by show 1024 * k.val + 496 = _; omega)) ((cf0 (k0_off167 k 448#32 48#32)).trans (by show 1024 * k.val + 496 = _; omega)) ((cf0 (k0_off150 k)).trans (by show 16 * k.val = _; omega))
        _ 48#32 (by decide) _ _ (by first | rfl | rw [Shape.reshapeEquiv_self]) rfl x⟩,
    ⟨(cf0 (k0_off167 k 448#32 32#32)).trans (by show 1024 * k.val + 480 = 1024 * k.val + 16 * 30; omega), rfl, rfl, fun x =>
      piece_agree (bufS1).view (tabS).view (ixS1).view f TT X _ k.val 7 2 hk (by omega) (by omega) hf hX (k0_off167 k 448#32 32#32) (k0_off167 k 448#32 32#32) (k0_off150 k)
        (k0_off167_inb L k0_t4 k k0_h5 2) (k0_off167_inb L k0_t4 k k0_h5 2) (k0_off150_inb L k0_t4 k k0_h5)
        ((cf0 (k0_off167 k 448#32 32#32)).trans (by show 1024 * k.val + 480 = _; omega)) ((cf0 (k0_off167 k 448#32 32#32)).trans (by show 1024 * k.val + 480 = _; omega)) ((cf0 (k0_off150 k)).trans (by show 16 * k.val = _; omega))
        _ 32#32 (by decide) _ _ (by first | rfl | rw [Shape.reshapeEquiv_self]) rfl x⟩,
    ⟨(cf0 (k0_off167 k 448#32 16#32)).trans (by show 1024 * k.val + 464 = 1024 * k.val + 16 * 29; omega), rfl, rfl, fun x =>
      piece_agree (bufS1).view (tabS).view (ixS1).view f TT X _ k.val 7 1 hk (by omega) (by omega) hf hX (k0_off167 k 448#32 16#32) (k0_off167 k 448#32 16#32) (k0_off150 k)
        (k0_off167_inb L k0_t4 k k0_h5 1) (k0_off167_inb L k0_t4 k k0_h5 1) (k0_off150_inb L k0_t4 k k0_h5)
        ((cf0 (k0_off167 k 448#32 16#32)).trans (by show 1024 * k.val + 464 = _; omega)) ((cf0 (k0_off167 k 448#32 16#32)).trans (by show 1024 * k.val + 464 = _; omega)) ((cf0 (k0_off150 k)).trans (by show 16 * k.val = _; omega))
        _ 16#32 (by decide) _ _ (by first | rfl | rw [Shape.reshapeEquiv_self]) rfl x⟩,
    ⟨(cf0 (k0_off167 k 448#32 0#32)).trans (by show 1024 * k.val + 448 = 1024 * k.val + 16 * 28; omega), rfl, rfl, fun x =>
      piece_agree (bufS1).view (tabS).view (ixS1).view f TT X _ k.val 7 0 hk (by omega) (by omega) hf hX (k0_off167 k 448#32 0#32) (k0_off165 k 448#32 0#32) (k0_off150 k)
        (k0_off167_inb L k0_t4 k k0_h5 0) (k0_off165_inb L k0_t4 k k0_h5 4) (k0_off150_inb L k0_t4 k k0_h5)
        ((cf0 (k0_off167 k 448#32 0#32)).trans (by show 1024 * k.val + 448 = _; omega)) ((cf0 (k0_off165 k 448#32 0#32)).trans (by show 1024 * k.val + 448 = _; omega)) ((cf0 (k0_off150 k)).trans (by show 16 * k.val = _; omega))
        _ 0#32 (by decide) _ _ (by first | rfl | rw [Shape.reshapeEquiv_self]) rfl x⟩,
    ⟨(cf0 (k0_off165 k 384#32 48#32)).trans (by show 1024 * k.val + 432 = 1024 * k.val + 16 * 27; omega), rfl, rfl, fun x =>
      piece_agree (bufS1).view (tabS).view (ixS1).view f TT X _ k.val 6 3 hk (by omega) (by omega) hf hX (k0_off165 k 384#32 48#32) (k0_off165 k 384#32 48#32) (k0_off150 k)
        (k0_off165_inb L k0_t4 k k0_h5 3) (k0_off165_inb L k0_t4 k k0_h5 3) (k0_off150_inb L k0_t4 k k0_h5)
        ((cf0 (k0_off165 k 384#32 48#32)).trans (by show 1024 * k.val + 432 = _; omega)) ((cf0 (k0_off165 k 384#32 48#32)).trans (by show 1024 * k.val + 432 = _; omega)) ((cf0 (k0_off150 k)).trans (by show 16 * k.val = _; omega))
        _ 48#32 (by decide) _ _ (by first | rfl | rw [Shape.reshapeEquiv_self]) rfl x⟩,
    ⟨(cf0 (k0_off165 k 384#32 32#32)).trans (by show 1024 * k.val + 416 = 1024 * k.val + 16 * 26; omega), rfl, rfl, fun x =>
      piece_agree (bufS1).view (tabS).view (ixS1).view f TT X _ k.val 6 2 hk (by omega) (by omega) hf hX (k0_off165 k 384#32 32#32) (k0_off165 k 384#32 32#32) (k0_off150 k)
        (k0_off165_inb L k0_t4 k k0_h5 2) (k0_off165_inb L k0_t4 k k0_h5 2) (k0_off150_inb L k0_t4 k k0_h5)
        ((cf0 (k0_off165 k 384#32 32#32)).trans (by show 1024 * k.val + 416 = _; omega)) ((cf0 (k0_off165 k 384#32 32#32)).trans (by show 1024 * k.val + 416 = _; omega)) ((cf0 (k0_off150 k)).trans (by show 16 * k.val = _; omega))
        _ 32#32 (by decide) _ _ (by first | rfl | rw [Shape.reshapeEquiv_self]) rfl x⟩,
    ⟨(cf0 (k0_off165 k 384#32 16#32)).trans (by show 1024 * k.val + 400 = 1024 * k.val + 16 * 25; omega), rfl, rfl, fun x =>
      piece_agree (bufS1).view (tabS).view (ixS1).view f TT X _ k.val 6 1 hk (by omega) (by omega) hf hX (k0_off165 k 384#32 16#32) (k0_off165 k 384#32 16#32) (k0_off150 k)
        (k0_off165_inb L k0_t4 k k0_h5 1) (k0_off165_inb L k0_t4 k k0_h5 1) (k0_off150_inb L k0_t4 k k0_h5)
        ((cf0 (k0_off165 k 384#32 16#32)).trans (by show 1024 * k.val + 400 = _; omega)) ((cf0 (k0_off165 k 384#32 16#32)).trans (by show 1024 * k.val + 400 = _; omega)) ((cf0 (k0_off150 k)).trans (by show 16 * k.val = _; omega))
        _ 16#32 (by decide) _ _ (by first | rfl | rw [Shape.reshapeEquiv_self]) rfl x⟩,
    ⟨(cf0 (k0_off165 k 384#32 0#32)).trans (by show 1024 * k.val + 384 = 1024 * k.val + 16 * 24; omega), rfl, rfl, fun x =>
      piece_agree (bufS1).view (tabS).view (ixS1).view f TT X _ k.val 6 0 hk (by omega) (by omega) hf hX (k0_off165 k 384#32 0#32) (k0_off163 k 384#32 0#32) (k0_off150 k)
        (k0_off165_inb L k0_t4 k k0_h5 0) (k0_off163_inb L k0_t4 k k0_h5 4) (k0_off150_inb L k0_t4 k k0_h5)
        ((cf0 (k0_off165 k 384#32 0#32)).trans (by show 1024 * k.val + 384 = _; omega)) ((cf0 (k0_off163 k 384#32 0#32)).trans (by show 1024 * k.val + 384 = _; omega)) ((cf0 (k0_off150 k)).trans (by show 16 * k.val = _; omega))
        _ 0#32 (by decide) _ _ (by first | rfl | rw [Shape.reshapeEquiv_self]) rfl x⟩,
    ⟨(cf0 (k0_off163 k 320#32 48#32)).trans (by show 1024 * k.val + 368 = 1024 * k.val + 16 * 23; omega), rfl, rfl, fun x =>
      piece_agree (bufS1).view (tabS).view (ixS1).view f TT X _ k.val 5 3 hk (by omega) (by omega) hf hX (k0_off163 k 320#32 48#32) (k0_off163 k 320#32 48#32) (k0_off150 k)
        (k0_off163_inb L k0_t4 k k0_h5 3) (k0_off163_inb L k0_t4 k k0_h5 3) (k0_off150_inb L k0_t4 k k0_h5)
        ((cf0 (k0_off163 k 320#32 48#32)).trans (by show 1024 * k.val + 368 = _; omega)) ((cf0 (k0_off163 k 320#32 48#32)).trans (by show 1024 * k.val + 368 = _; omega)) ((cf0 (k0_off150 k)).trans (by show 16 * k.val = _; omega))
        _ 48#32 (by decide) _ _ (by first | rfl | rw [Shape.reshapeEquiv_self]) rfl x⟩,
    ⟨(cf0 (k0_off163 k 320#32 32#32)).trans (by show 1024 * k.val + 352 = 1024 * k.val + 16 * 22; omega), rfl, rfl, fun x =>
      piece_agree (bufS1).view (tabS).view (ixS1).view f TT X _ k.val 5 2 hk (by omega) (by omega) hf hX (k0_off163 k 320#32 32#32) (k0_off163 k 320#32 32#32) (k0_off150 k)
        (k0_off163_inb L k0_t4 k k0_h5 2) (k0_off163_inb L k0_t4 k k0_h5 2) (k0_off150_inb L k0_t4 k k0_h5)
        ((cf0 (k0_off163 k 320#32 32#32)).trans (by show 1024 * k.val + 352 = _; omega)) ((cf0 (k0_off163 k 320#32 32#32)).trans (by show 1024 * k.val + 352 = _; omega)) ((cf0 (k0_off150 k)).trans (by show 16 * k.val = _; omega))
        _ 32#32 (by decide) _ _ (by first | rfl | rw [Shape.reshapeEquiv_self]) rfl x⟩,
    ⟨(cf0 (k0_off163 k 320#32 16#32)).trans (by show 1024 * k.val + 336 = 1024 * k.val + 16 * 21; omega), rfl, rfl, fun x =>
      piece_agree (bufS1).view (tabS).view (ixS1).view f TT X _ k.val 5 1 hk (by omega) (by omega) hf hX (k0_off163 k 320#32 16#32) (k0_off163 k 320#32 16#32) (k0_off150 k)
        (k0_off163_inb L k0_t4 k k0_h5 1) (k0_off163_inb L k0_t4 k k0_h5 1) (k0_off150_inb L k0_t4 k k0_h5)
        ((cf0 (k0_off163 k 320#32 16#32)).trans (by show 1024 * k.val + 336 = _; omega)) ((cf0 (k0_off163 k 320#32 16#32)).trans (by show 1024 * k.val + 336 = _; omega)) ((cf0 (k0_off150 k)).trans (by show 16 * k.val = _; omega))
        _ 16#32 (by decide) _ _ (by first | rfl | rw [Shape.reshapeEquiv_self]) rfl x⟩,
    ⟨(cf0 (k0_off163 k 320#32 0#32)).trans (by show 1024 * k.val + 320 = 1024 * k.val + 16 * 20; omega), rfl, rfl, fun x =>
      piece_agree (bufS1).view (tabS).view (ixS1).view f TT X _ k.val 5 0 hk (by omega) (by omega) hf hX (k0_off163 k 320#32 0#32) (k0_off161 k 320#32 0#32) (k0_off150 k)
        (k0_off163_inb L k0_t4 k k0_h5 0) (k0_off161_inb L k0_t4 k k0_h5 4) (k0_off150_inb L k0_t4 k k0_h5)
        ((cf0 (k0_off163 k 320#32 0#32)).trans (by show 1024 * k.val + 320 = _; omega)) ((cf0 (k0_off161 k 320#32 0#32)).trans (by show 1024 * k.val + 320 = _; omega)) ((cf0 (k0_off150 k)).trans (by show 16 * k.val = _; omega))
        _ 0#32 (by decide) _ _ (by first | rfl | rw [Shape.reshapeEquiv_self]) rfl x⟩,
    ⟨(cf0 (k0_off161 k 256#32 48#32)).trans (by show 1024 * k.val + 304 = 1024 * k.val + 16 * 19; omega), rfl, rfl, fun x =>
      piece_agree (bufS1).view (tabS).view (ixS1).view f TT X _ k.val 4 3 hk (by omega) (by omega) hf hX (k0_off161 k 256#32 48#32) (k0_off161 k 256#32 48#32) (k0_off150 k)
        (k0_off161_inb L k0_t4 k k0_h5 3) (k0_off161_inb L k0_t4 k k0_h5 3) (k0_off150_inb L k0_t4 k k0_h5)
        ((cf0 (k0_off161 k 256#32 48#32)).trans (by show 1024 * k.val + 304 = _; omega)) ((cf0 (k0_off161 k 256#32 48#32)).trans (by show 1024 * k.val + 304 = _; omega)) ((cf0 (k0_off150 k)).trans (by show 16 * k.val = _; omega))
        _ 48#32 (by decide) _ _ (by first | rfl | rw [Shape.reshapeEquiv_self]) rfl x⟩,
    ⟨(cf0 (k0_off161 k 256#32 32#32)).trans (by show 1024 * k.val + 288 = 1024 * k.val + 16 * 18; omega), rfl, rfl, fun x =>
      piece_agree (bufS1).view (tabS).view (ixS1).view f TT X _ k.val 4 2 hk (by omega) (by omega) hf hX (k0_off161 k 256#32 32#32) (k0_off161 k 256#32 32#32) (k0_off150 k)
        (k0_off161_inb L k0_t4 k k0_h5 2) (k0_off161_inb L k0_t4 k k0_h5 2) (k0_off150_inb L k0_t4 k k0_h5)
        ((cf0 (k0_off161 k 256#32 32#32)).trans (by show 1024 * k.val + 288 = _; omega)) ((cf0 (k0_off161 k 256#32 32#32)).trans (by show 1024 * k.val + 288 = _; omega)) ((cf0 (k0_off150 k)).trans (by show 16 * k.val = _; omega))
        _ 32#32 (by decide) _ _ (by first | rfl | rw [Shape.reshapeEquiv_self]) rfl x⟩,
    ⟨(cf0 (k0_off161 k 256#32 16#32)).trans (by show 1024 * k.val + 272 = 1024 * k.val + 16 * 17; omega), rfl, rfl, fun x =>
      piece_agree (bufS1).view (tabS).view (ixS1).view f TT X _ k.val 4 1 hk (by omega) (by omega) hf hX (k0_off161 k 256#32 16#32) (k0_off161 k 256#32 16#32) (k0_off150 k)
        (k0_off161_inb L k0_t4 k k0_h5 1) (k0_off161_inb L k0_t4 k k0_h5 1) (k0_off150_inb L k0_t4 k k0_h5)
        ((cf0 (k0_off161 k 256#32 16#32)).trans (by show 1024 * k.val + 272 = _; omega)) ((cf0 (k0_off161 k 256#32 16#32)).trans (by show 1024 * k.val + 272 = _; omega)) ((cf0 (k0_off150 k)).trans (by show 16 * k.val = _; omega))
        _ 16#32 (by decide) _ _ (by first | rfl | rw [Shape.reshapeEquiv_self]) rfl x⟩,
    ⟨(cf0 (k0_off161 k 256#32 0#32)).trans (by show 1024 * k.val + 256 = 1024 * k.val + 16 * 16; omega), rfl, rfl, fun x =>
      piece_agree (bufS1).view (tabS).view (ixS1).view f TT X _ k.val 4 0 hk (by omega) (by omega) hf hX (k0_off161 k 256#32 0#32) (k0_off159 k 256#32 0#32) (k0_off150 k)
        (k0_off161_inb L k0_t4 k k0_h5 0) (k0_off159_inb L k0_t4 k k0_h5 4) (k0_off150_inb L k0_t4 k k0_h5)
        ((cf0 (k0_off161 k 256#32 0#32)).trans (by show 1024 * k.val + 256 = _; omega)) ((cf0 (k0_off159 k 256#32 0#32)).trans (by show 1024 * k.val + 256 = _; omega)) ((cf0 (k0_off150 k)).trans (by show 16 * k.val = _; omega))
        _ 0#32 (by decide) _ _ (by first | rfl | rw [Shape.reshapeEquiv_self]) rfl x⟩,
    ⟨(cf0 (k0_off159 k 192#32 48#32)).trans (by show 1024 * k.val + 240 = 1024 * k.val + 16 * 15; omega), rfl, rfl, fun x =>
      piece_agree (bufS1).view (tabS).view (ixS1).view f TT X _ k.val 3 3 hk (by omega) (by omega) hf hX (k0_off159 k 192#32 48#32) (k0_off159 k 192#32 48#32) (k0_off150 k)
        (k0_off159_inb L k0_t4 k k0_h5 3) (k0_off159_inb L k0_t4 k k0_h5 3) (k0_off150_inb L k0_t4 k k0_h5)
        ((cf0 (k0_off159 k 192#32 48#32)).trans (by show 1024 * k.val + 240 = _; omega)) ((cf0 (k0_off159 k 192#32 48#32)).trans (by show 1024 * k.val + 240 = _; omega)) ((cf0 (k0_off150 k)).trans (by show 16 * k.val = _; omega))
        _ 48#32 (by decide) _ _ (by first | rfl | rw [Shape.reshapeEquiv_self]) rfl x⟩,
    ⟨(cf0 (k0_off159 k 192#32 32#32)).trans (by show 1024 * k.val + 224 = 1024 * k.val + 16 * 14; omega), rfl, rfl, fun x =>
      piece_agree (bufS1).view (tabS).view (ixS1).view f TT X _ k.val 3 2 hk (by omega) (by omega) hf hX (k0_off159 k 192#32 32#32) (k0_off159 k 192#32 32#32) (k0_off150 k)
        (k0_off159_inb L k0_t4 k k0_h5 2) (k0_off159_inb L k0_t4 k k0_h5 2) (k0_off150_inb L k0_t4 k k0_h5)
        ((cf0 (k0_off159 k 192#32 32#32)).trans (by show 1024 * k.val + 224 = _; omega)) ((cf0 (k0_off159 k 192#32 32#32)).trans (by show 1024 * k.val + 224 = _; omega)) ((cf0 (k0_off150 k)).trans (by show 16 * k.val = _; omega))
        _ 32#32 (by decide) _ _ (by first | rfl | rw [Shape.reshapeEquiv_self]) rfl x⟩,
    ⟨(cf0 (k0_off159 k 192#32 16#32)).trans (by show 1024 * k.val + 208 = 1024 * k.val + 16 * 13; omega), rfl, rfl, fun x =>
      piece_agree (bufS1).view (tabS).view (ixS1).view f TT X _ k.val 3 1 hk (by omega) (by omega) hf hX (k0_off159 k 192#32 16#32) (k0_off159 k 192#32 16#32) (k0_off150 k)
        (k0_off159_inb L k0_t4 k k0_h5 1) (k0_off159_inb L k0_t4 k k0_h5 1) (k0_off150_inb L k0_t4 k k0_h5)
        ((cf0 (k0_off159 k 192#32 16#32)).trans (by show 1024 * k.val + 208 = _; omega)) ((cf0 (k0_off159 k 192#32 16#32)).trans (by show 1024 * k.val + 208 = _; omega)) ((cf0 (k0_off150 k)).trans (by show 16 * k.val = _; omega))
        _ 16#32 (by decide) _ _ (by first | rfl | rw [Shape.reshapeEquiv_self]) rfl x⟩,
    ⟨(cf0 (k0_off159 k 192#32 0#32)).trans (by show 1024 * k.val + 192 = 1024 * k.val + 16 * 12; omega), rfl, rfl, fun x =>
      piece_agree (bufS1).view (tabS).view (ixS1).view f TT X _ k.val 3 0 hk (by omega) (by omega) hf hX (k0_off159 k 192#32 0#32) (k0_off157 k 192#32 0#32) (k0_off150 k)
        (k0_off159_inb L k0_t4 k k0_h5 0) (k0_off157_inb L k0_t4 k k0_h5 4) (k0_off150_inb L k0_t4 k k0_h5)
        ((cf0 (k0_off159 k 192#32 0#32)).trans (by show 1024 * k.val + 192 = _; omega)) ((cf0 (k0_off157 k 192#32 0#32)).trans (by show 1024 * k.val + 192 = _; omega)) ((cf0 (k0_off150 k)).trans (by show 16 * k.val = _; omega))
        _ 0#32 (by decide) _ _ (by first | rfl | rw [Shape.reshapeEquiv_self]) rfl x⟩,
    ⟨(cf0 (k0_off157 k 128#32 48#32)).trans (by show 1024 * k.val + 176 = 1024 * k.val + 16 * 11; omega), rfl, rfl, fun x =>
      piece_agree (bufS1).view (tabS).view (ixS1).view f TT X _ k.val 2 3 hk (by omega) (by omega) hf hX (k0_off157 k 128#32 48#32) (k0_off157 k 128#32 48#32) (k0_off150 k)
        (k0_off157_inb L k0_t4 k k0_h5 3) (k0_off157_inb L k0_t4 k k0_h5 3) (k0_off150_inb L k0_t4 k k0_h5)
        ((cf0 (k0_off157 k 128#32 48#32)).trans (by show 1024 * k.val + 176 = _; omega)) ((cf0 (k0_off157 k 128#32 48#32)).trans (by show 1024 * k.val + 176 = _; omega)) ((cf0 (k0_off150 k)).trans (by show 16 * k.val = _; omega))
        _ 48#32 (by decide) _ _ (by first | rfl | rw [Shape.reshapeEquiv_self]) rfl x⟩,
    ⟨(cf0 (k0_off157 k 128#32 32#32)).trans (by show 1024 * k.val + 160 = 1024 * k.val + 16 * 10; omega), rfl, rfl, fun x =>
      piece_agree (bufS1).view (tabS).view (ixS1).view f TT X _ k.val 2 2 hk (by omega) (by omega) hf hX (k0_off157 k 128#32 32#32) (k0_off157 k 128#32 32#32) (k0_off150 k)
        (k0_off157_inb L k0_t4 k k0_h5 2) (k0_off157_inb L k0_t4 k k0_h5 2) (k0_off150_inb L k0_t4 k k0_h5)
        ((cf0 (k0_off157 k 128#32 32#32)).trans (by show 1024 * k.val + 160 = _; omega)) ((cf0 (k0_off157 k 128#32 32#32)).trans (by show 1024 * k.val + 160 = _; omega)) ((cf0 (k0_off150 k)).trans (by show 16 * k.val = _; omega))
        _ 32#32 (by decide) _ _ (by first | rfl | rw [Shape.reshapeEquiv_self]) rfl x⟩,
    ⟨(cf0 (k0_off157 k 128#32 16#32)).trans (by show 1024 * k.val + 144 = 1024 * k.val + 16 * 9; omega), rfl, rfl, fun x =>
      piece_agree (bufS1).view (tabS).view (ixS1).view f TT X _ k.val 2 1 hk (by omega) (by omega) hf hX (k0_off157 k 128#32 16#32) (k0_off157 k 128#32 16#32) (k0_off150 k)
        (k0_off157_inb L k0_t4 k k0_h5 1) (k0_off157_inb L k0_t4 k k0_h5 1) (k0_off150_inb L k0_t4 k k0_h5)
        ((cf0 (k0_off157 k 128#32 16#32)).trans (by show 1024 * k.val + 144 = _; omega)) ((cf0 (k0_off157 k 128#32 16#32)).trans (by show 1024 * k.val + 144 = _; omega)) ((cf0 (k0_off150 k)).trans (by show 16 * k.val = _; omega))
        _ 16#32 (by decide) _ _ (by first | rfl | rw [Shape.reshapeEquiv_self]) rfl x⟩,
    ⟨(cf0 (k0_off157 k 128#32 0#32)).trans (by show 1024 * k.val + 128 = 1024 * k.val + 16 * 8; omega), rfl, rfl, fun x =>
      piece_agree (bufS1).view (tabS).view (ixS1).view f TT X _ k.val 2 0 hk (by omega) (by omega) hf hX (k0_off157 k 128#32 0#32) (k0_off155 k 128#32 0#32) (k0_off150 k)
        (k0_off157_inb L k0_t4 k k0_h5 0) (k0_off155_inb L k0_t4 k k0_h5 4) (k0_off150_inb L k0_t4 k k0_h5)
        ((cf0 (k0_off157 k 128#32 0#32)).trans (by show 1024 * k.val + 128 = _; omega)) ((cf0 (k0_off155 k 128#32 0#32)).trans (by show 1024 * k.val + 128 = _; omega)) ((cf0 (k0_off150 k)).trans (by show 16 * k.val = _; omega))
        _ 0#32 (by decide) _ _ (by first | rfl | rw [Shape.reshapeEquiv_self]) rfl x⟩,
    ⟨(cf0 (k0_off155 k 64#32 48#32)).trans (by show 1024 * k.val + 112 = 1024 * k.val + 16 * 7; omega), rfl, rfl, fun x =>
      piece_agree (bufS1).view (tabS).view (ixS1).view f TT X _ k.val 1 3 hk (by omega) (by omega) hf hX (k0_off155 k 64#32 48#32) (k0_off155 k 64#32 48#32) (k0_off150 k)
        (k0_off155_inb L k0_t4 k k0_h5 3) (k0_off155_inb L k0_t4 k k0_h5 3) (k0_off150_inb L k0_t4 k k0_h5)
        ((cf0 (k0_off155 k 64#32 48#32)).trans (by show 1024 * k.val + 112 = _; omega)) ((cf0 (k0_off155 k 64#32 48#32)).trans (by show 1024 * k.val + 112 = _; omega)) ((cf0 (k0_off150 k)).trans (by show 16 * k.val = _; omega))
        _ 48#32 (by decide) _ _ (by first | rfl | rw [Shape.reshapeEquiv_self]) rfl x⟩,
    ⟨(cf0 (k0_off155 k 64#32 32#32)).trans (by show 1024 * k.val + 96 = 1024 * k.val + 16 * 6; omega), rfl, rfl, fun x =>
      piece_agree (bufS1).view (tabS).view (ixS1).view f TT X _ k.val 1 2 hk (by omega) (by omega) hf hX (k0_off155 k 64#32 32#32) (k0_off155 k 64#32 32#32) (k0_off150 k)
        (k0_off155_inb L k0_t4 k k0_h5 2) (k0_off155_inb L k0_t4 k k0_h5 2) (k0_off150_inb L k0_t4 k k0_h5)
        ((cf0 (k0_off155 k 64#32 32#32)).trans (by show 1024 * k.val + 96 = _; omega)) ((cf0 (k0_off155 k 64#32 32#32)).trans (by show 1024 * k.val + 96 = _; omega)) ((cf0 (k0_off150 k)).trans (by show 16 * k.val = _; omega))
        _ 32#32 (by decide) _ _ (by first | rfl | rw [Shape.reshapeEquiv_self]) rfl x⟩,
    ⟨(cf0 (k0_off155 k 64#32 16#32)).trans (by show 1024 * k.val + 80 = 1024 * k.val + 16 * 5; omega), rfl, rfl, fun x =>
      piece_agree (bufS1).view (tabS).view (ixS1).view f TT X _ k.val 1 1 hk (by omega) (by omega) hf hX (k0_off155 k 64#32 16#32) (k0_off155 k 64#32 16#32) (k0_off150 k)
        (k0_off155_inb L k0_t4 k k0_h5 1) (k0_off155_inb L k0_t4 k k0_h5 1) (k0_off150_inb L k0_t4 k k0_h5)
        ((cf0 (k0_off155 k 64#32 16#32)).trans (by show 1024 * k.val + 80 = _; omega)) ((cf0 (k0_off155 k 64#32 16#32)).trans (by show 1024 * k.val + 80 = _; omega)) ((cf0 (k0_off150 k)).trans (by show 16 * k.val = _; omega))
        _ 16#32 (by decide) _ _ (by first | rfl | rw [Shape.reshapeEquiv_self]) rfl x⟩,
    ⟨(cf0 (k0_off155 k 64#32 0#32)).trans (by show 1024 * k.val + 64 = 1024 * k.val + 16 * 4; omega), rfl, rfl, fun x =>
      piece_agree (bufS1).view (tabS).view (ixS1).view f TT X _ k.val 1 0 hk (by omega) (by omega) hf hX (k0_off155 k 64#32 0#32) (k0_off153 k 64#32 0#32) (k0_off150 k)
        (k0_off155_inb L k0_t4 k k0_h5 0) (k0_off153_inb L k0_t4 k k0_h5 4) (k0_off150_inb L k0_t4 k k0_h5)
        ((cf0 (k0_off155 k 64#32 0#32)).trans (by show 1024 * k.val + 64 = _; omega)) ((cf0 (k0_off153 k 64#32 0#32)).trans (by show 1024 * k.val + 64 = _; omega)) ((cf0 (k0_off150 k)).trans (by show 16 * k.val = _; omega))
        _ 0#32 (by decide) _ _ (by first | rfl | rw [Shape.reshapeEquiv_self]) rfl x⟩,
    ⟨(cf0 (k0_off153 k 0#32 48#32)).trans (by show 1024 * k.val + 48 = 1024 * k.val + 16 * 3; omega), rfl, rfl, fun x =>
      piece_agree (bufS1).view (tabS).view (ixS1).view f TT X _ k.val 0 3 hk (by omega) (by omega) hf hX (k0_off153 k 0#32 48#32) (k0_off153 k 0#32 48#32) (k0_off150 k)
        (k0_off153_inb L k0_t4 k k0_h5 3) (k0_off153_inb L k0_t4 k k0_h5 3) (k0_off150_inb L k0_t4 k k0_h5)
        ((cf0 (k0_off153 k 0#32 48#32)).trans (by show 1024 * k.val + 48 = _; omega)) ((cf0 (k0_off153 k 0#32 48#32)).trans (by show 1024 * k.val + 48 = _; omega)) ((cf0 (k0_off150 k)).trans (by show 16 * k.val = _; omega))
        _ 48#32 (by decide) _ _ (by first | rfl | rw [Shape.reshapeEquiv_self]) rfl x⟩,
    ⟨(cf0 (k0_off153 k 0#32 32#32)).trans (by show 1024 * k.val + 32 = 1024 * k.val + 16 * 2; omega), rfl, rfl, fun x =>
      piece_agree (bufS1).view (tabS).view (ixS1).view f TT X _ k.val 0 2 hk (by omega) (by omega) hf hX (k0_off153 k 0#32 32#32) (k0_off153 k 0#32 32#32) (k0_off150 k)
        (k0_off153_inb L k0_t4 k k0_h5 2) (k0_off153_inb L k0_t4 k k0_h5 2) (k0_off150_inb L k0_t4 k k0_h5)
        ((cf0 (k0_off153 k 0#32 32#32)).trans (by show 1024 * k.val + 32 = _; omega)) ((cf0 (k0_off153 k 0#32 32#32)).trans (by show 1024 * k.val + 32 = _; omega)) ((cf0 (k0_off150 k)).trans (by show 16 * k.val = _; omega))
        _ 32#32 (by decide) _ _ (by first | rfl | rw [Shape.reshapeEquiv_self]) rfl x⟩,
    ⟨(cf0 (k0_off153 k 0#32 16#32)).trans (by show 1024 * k.val + 16 = 1024 * k.val + 16 * 1; omega), rfl, rfl, fun x =>
      piece_agree (bufS1).view (tabS).view (ixS1).view f TT X _ k.val 0 1 hk (by omega) (by omega) hf hX (k0_off153 k 0#32 16#32) (k0_off153 k 0#32 16#32) (k0_off150 k)
        (k0_off153_inb L k0_t4 k k0_h5 1) (k0_off153_inb L k0_t4 k k0_h5 1) (k0_off150_inb L k0_t4 k k0_h5)
        ((cf0 (k0_off153 k 0#32 16#32)).trans (by show 1024 * k.val + 16 = _; omega)) ((cf0 (k0_off153 k 0#32 16#32)).trans (by show 1024 * k.val + 16 = _; omega)) ((cf0 (k0_off150 k)).trans (by show 16 * k.val = _; omega))
        _ 16#32 (by decide) _ _ (by first | rfl | rw [Shape.reshapeEquiv_self]) rfl x⟩,
    ⟨(cf0 (k0_off153 k 0#32 0#32)).trans (by show 1024 * k.val + 0 = 1024 * k.val + 16 * 0; omega), rfl, rfl, fun x =>
      piece_agree (bufS1).view (tabS).view (ixS1).view f TT X _ k.val 0 0 hk (by omega) (by omega) hf hX (k0_off153 k 0#32 0#32) (k0_off151 k) (k0_off150 k)
        (k0_off153_inb L k0_t4 k k0_h5 0) (k0_off151_inb L k0_t4 k k0_h5) (k0_off150_inb L k0_t4 k k0_h5)
        ((cf0 (k0_off153 k 0#32 0#32)).trans (by show 1024 * k.val + 0 = _; omega)) ((cf0 (k0_off151 k)).trans (by show 1024 * k.val = _; omega)) ((cf0 (k0_off150 k)).trans (by show 16 * k.val = _; omega))
        _ 0#32 (by decide) _ _ (by first | rfl | rw [Shape.reshapeEquiv_self]) rfl x⟩,
    trivial⟩

/-- The whole loop, in continuation form: from the three buffers, the program goes on with every row done. -/
theorem loop6_spec (hX : ∀ j, BitVec.toNat ((ixS1).view.read (Elt F) X j) < 16) (v1 v21 v90 c3_i32_55 v91 v93 c0_i32_57 : BitVec 32) (k0_t4 : Fin (k0_t4_loop L).trips) (k0_h5 : k0_cond5 L k0_t4 = 1#1) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS1).view.loc (thrV d L) ↦{fullShare} X)
        ∗ ((bufS1).view.loc (thrV d L) ↦{fullShare} B)
        ∗ (∀ acc f, (⌜∀ y, (bufS1).view.read (Elt F) f y
              = stage ((bufS1).view.read (Elt F) B) ((tabS).view.read (Elt F) TT) ((ixS1).view.read (Elt F) X) 400 y⌝
              ∗ ((tabS).view.loc (thrV d L) ↦{fullShare} TT) ∗ ((ixS1).view.loc (thrV d L) ↦{fullShare} X)
              ∗ ((bufS1).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t6_loop (k0_t6_ok L k0_t4 k0_h5) init (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5) >>= kk) Q := by
  iintro ⟨Ht, Hx, Hb, Hk⟩
  iapply (Scf.wp_for_bind frame (wpE (defs₀ (F := F)) 𝒱₀ (thrV d L) none) Set.univ k0_t6_loop.lb k0_t6_loop.ub k0_t6_loop.st (k0_t6_ok L k0_t4 k0_h5) init
    (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5) (inv6 d L TT X B) (step6 d L TT X B hX v1 v21 v90 c3_i32_55 v91 v93 c0_i32_57 k0_t4 k0_h5)) $$ [Ht Hx Hb]
  · unfold inv6
    isplitl [Ht]; · iexact Ht
    isplitl [Hx]; · iexact Hx
    iexists B; isplitl [Hb]; · iexact Hb
    ipureintro
    intro y
    unfold stage
    rw [if_neg (by omega)]
  iintro %acc HI
  unfold inv6
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KLoop7.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS2).view.loc (thrV d L)))
  (B : Buf (Elt F) ((bufS2).view.loc (thrV d L)))

/-- Before trip k: the table and the indices as they were, the row buffer at stage 16 k. -/
def inv7 (k : Nat) (_ : BitVec 32) : sProp 𝕄 :=
  iprop(((tabS).view.loc (thrV d L) ↦{fullShare} TT) ∗ ((ixS2).view.loc (thrV d L) ↦{fullShare} X)
    ∗ ∃ f, ((bufS2).view.loc (thrV d L) ↦{fullShare} f)
        ∗ ⌜∀ y, (bufS2).view.read (Elt F) f y
            = stage ((bufS2).view.read (Elt F) B) ((tabS).view.read (Elt F) TT) ((ixS2).view.read (Elt F) X) (16 * k) y⌝)

set_option maxHeartbeats 16000000 in
/-- One trip keeps the invariant. -/
theorem step7 (hX : ∀ j, BitVec.toNat ((ixS2).view.read (Elt F) X j) < 16) (v1 v21 v90 c3_i32_55 v91 v93 c0_i32_57 : BitVec 32) (k0_t4 : Fin (k0_t4_loop L).trips) (k0_h7 : k0_cond7 L k0_t4 = 1#1)
    (k : Fin (Scf.trips k0_t7_loop.lb k0_t7_loop.ub k0_t7_loop.st)) (acc : BitVec 32) :
    inv7 d L TT X B k acc
      ⊢ wp frame (wpE (defs₀ (F := F)) 𝒱₀ (thrV d L) none) Set.univ
          (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7 k acc) (inv7 d L TT X B (k.val + 1)) := by
  have hk : k.val < 25 := Nat.lt_of_lt_of_le k.isLt k0_t7_abs.2.1
  unfold inv7 k0_t7_body
  iintro ⟨Ht, Hx, %f, Hb, %hf⟩
  sl_exec_parts (disch := first | exact fun r a => off_gen _ (hX _) r a | exact fun _ r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS2).view f _ _ _ k.val _ rfl hf ?_
  exact ⟨
    ⟨(cf0 (k0_off220 k 48#32)).trans (by show 1024 * k.val + 16 * 3 + 960 = 1024 * k.val + 16 * 63; omega), rfl, rfl, fun x =>
      piece_agree (bufS2).view (tabS).view (ixS2).view f TT X _ k.val 15 3 hk (by omega) (by omega) hf hX (k0_off220 k 48#32) (k0_off220 k 48#32) (k0_off187 k)
        (k0_off220_inb L k0_t4 k k0_h7 3) (k0_off220_inb L k0_t4 k k0_h7 3) (k0_off187_inb L k0_t4 k k0_h7)
        ((cf0 (k0_off220 k 48#32)).trans (by show 1024 * k.val + 16 * 3 + 960 = _; omega)) ((cf0 (k0_off220 k 48#32)).trans (by show 1024 * k.val + 16 * 3 + 960 = _; omega)) ((cf0 (k0_off187 k)).trans (by show 16 * k.val = _; omega))
        _ 48#32 (by decide) _ _ (by first | rfl | rw [Shape.reshapeEquiv_self]) rfl x⟩,
    ⟨(cf0 (k0_off220 k 32#32)).trans (by show 1024 * k.val + 16 * 2 + 960 = 1024 * k.val + 16 * 62; omega), rfl, rfl, fun x =>
      piece_agree (bufS2).view (tabS).view (ixS2).view f TT X _ k.val 15 2 hk (by omega) (by omega) hf hX (k0_off220 k 32#32) (k0_off220 k 32#32) (k0_off187 k)
        (k0_off220_inb L k0_t4 k k0_h7 2) (k0_off220_inb L k0_t4 k k0_h7 2) (k0_off187_inb L k0_t4 k k0_h7)
        ((cf0 (k0_off220 k 32#32)).trans (by show 1024 * k.val + 16 * 2 + 960 = _; omega)) ((cf0 (k0_off220 k 32#32)).trans (by show 1024 * k.val + 16 * 2 + 960 = _; omega)) ((cf0 (k0_off187 k)).trans (by show 16 * k.val = _; omega))
        _ 32#32 (by decide) _ _ (by first | rfl | rw [Shape.reshapeEquiv_self]) rfl x⟩,
    ⟨(cf0 (k0_off220 k 16#32)).trans (by show 1024 * k.val + 16 * 1 + 960 = 1024 * k.val + 16 * 61; omega), rfl, rfl, fun x =>
      piece_agree (bufS2).view (tabS).view (ixS2).view f TT X _ k.val 15 1 hk (by omega) (by omega) hf hX (k0_off220 k 16#32) (k0_off220 k 16#32) (k0_off187 k)
        (k0_off220_inb L k0_t4 k k0_h7 1) (k0_off220_inb L k0_t4 k k0_h7 1) (k0_off187_inb L k0_t4 k k0_h7)
        ((cf0 (k0_off220 k 16#32)).trans (by show 1024 * k.val + 16 * 1 + 960 = _; omega)) ((cf0 (k0_off220 k 16#32)).trans (by show 1024 * k.val + 16 * 1 + 960 = _; omega)) ((cf0 (k0_off187 k)).trans (by show 16 * k.val = _; omega))
        _ 16#32 (by decide) _ _ (by first | rfl | rw [Shape.reshapeEquiv_self]) rfl x⟩,
    ⟨(cf0 (k0_off220 k 0#32)).trans (by show 1024 * k.val + 16 * 0 + 960 = 1024 * k.val + 16 * 60; omega), rfl, rfl, fun x =>
      piece_agree (bufS2).view (tabS).view (ixS2).view f TT X _ k.val 15 0 hk (by omega) (by omega) hf hX (k0_off220 k 0#32) (k0_off218 k 960#32 0#32) (k0_off187 k)
        (k0_off220_inb L k0_t4 k k0_h7 0) (k0_off218_inb L k0_t4 k k0_h7 4) (k0_off187_inb L k0_t4 k k0_h7)
        ((cf0 (k0_off220 k 0#32)).trans (by show 1024 * k.val + 16 * 0 + 960 = _; omega)) ((cf0 (k0_off218 k 960#32 0#32)).trans (by show 1024 * k.val + 960 = _; omega)) ((cf0 (k0_off187 k)).trans (by show 16 * k.val = _; omega))
        _ 0#32 (by decide) _ _ (by first | rfl | rw [Shape.reshapeEquiv_self]) rfl x⟩,
    ⟨(cf0 (k0_off218 k 896#32 48#32)).trans (by show 1024 * k.val + 944 = 1024 * k.val + 16 * 59; omega), rfl, rfl, fun x =>
      piece_agree (bufS2).view (tabS).view (ixS2).view f TT X _ k.val 14 3 hk (by omega) (by omega) hf hX (k0_off218 k 896#32 48#32) (k0_off218 k 896#32 48#32) (k0_off187 k)
        (k0_off218_inb L k0_t4 k k0_h7 3) (k0_off218_inb L k0_t4 k k0_h7 3) (k0_off187_inb L k0_t4 k k0_h7)
        ((cf0 (k0_off218 k 896#32 48#32)).trans (by show 1024 * k.val + 944 = _; omega)) ((cf0 (k0_off218 k 896#32 48#32)).trans (by show 1024 * k.val + 944 = _; omega)) ((cf0 (k0_off187 k)).trans (by show 16 * k.val = _; omega))
        _ 48#32 (by decide) _ _ (by first | rfl | rw [Shape.reshapeEquiv_self]) rfl x⟩,
    ⟨(cf0 (k0_off218 k 896#32 32#32)).trans (by show 1024 * k.val + 928 = 1024 * k.val + 16 * 58; omega), rfl, rfl, fun x =>
      piece_agree (bufS2).view (tabS).view (ixS2).view f TT X _ k.val 14 2 hk (by omega) (by omega) hf hX (k0_off218 k 896#32 32#32) (k0_off218 k 896#32 32#32) (k0_off187 k)
        (k0_off218_inb L k0_t4 k k0_h7 2) (k0_off218_inb L k0_t4 k k0_h7 2) (k0_off187_inb L k0_t4 k k0_h7)
        ((cf0 (k0_off218 k 896#32 32#32)).trans (by show 1024 * k.val + 928 = _; omega)) ((cf0 (k0_off218 k 896#32 32#32)).trans (by show 1024 * k.val + 928 = _; omega)) ((cf0 (k0_off187 k)).trans (by show 16 * k.val = _; omega))
        _ 32#32 (by decide) _ _ (by first | rfl | rw [Shape.reshapeEquiv_self]) rfl x⟩,
    ⟨(cf0 (k0_off218 k 896#32 16#32)).trans (by show 1024 * k.val + 912 = 1024 * k.val + 16 * 57; omega), rfl, rfl, fun x =>
      piece_agree (bufS2).view (tabS).view (ixS2).view f TT X _ k.val 14 1 hk (by omega) (by omega) hf hX (k0_off218 k 896#32 16#32) (k0_off218 k 896#32 16#32) (k0_off187 k)
        (k0_off218_inb L k0_t4 k k0_h7 1) (k0_off218_inb L k0_t4 k k0_h7 1) (k0_off187_inb L k0_t4 k k0_h7)
        ((cf0 (k0_off218 k 896#32 16#32)).trans (by show 1024 * k.val + 912 = _; omega)) ((cf0 (k0_off218 k 896#32 16#32)).trans (by show 1024 * k.val + 912 = _; omega)) ((cf0 (k0_off187 k)).trans (by show 16 * k.val = _; omega))
        _ 16#32 (by decide) _ _ (by first | rfl | rw [Shape.reshapeEquiv_self]) rfl x⟩,
    ⟨(cf0 (k0_off218 k 896#32 0#32)).trans (by show 1024 * k.val + 896 = 1024 * k.val + 16 * 56; omega), rfl, rfl, fun x =>
      piece_agree (bufS2).view (tabS).view (ixS2).view f TT X _ k.val 14 0 hk (by omega) (by omega) hf hX (k0_off218 k 896#32 0#32) (k0_off216 k 896#32 0#32) (k0_off187 k)
        (k0_off218_inb L k0_t4 k k0_h7 0) (k0_off216_inb L k0_t4 k k0_h7 4) (k0_off187_inb L k0_t4 k k0_h7)
        ((cf0 (k0_off218 k 896#32 0#32)).trans (by show 1024 * k.val + 896 = _; omega)) ((cf0 (k0_off216 k 896#32 0#32)).trans (by show 1024 * k.val + 896 = _; omega)) ((cf0 (k0_off187 k)).trans (by show 16 * k.val = _; omega))
        _ 0#32 (by decide) _ _ (by first | rfl | rw [Shape.reshapeEquiv_self]) rfl x⟩,
    ⟨(cf0 (k0_off216 k 832#32 48#32)).trans (by show 1024 * k.val + 880 = 1024 * k.val + 16 * 55; omega), rfl, rfl, fun x =>
      piece_agree (bufS2).view (tabS).view (ixS2).view f TT X _ k.val 13 3 hk (by omega) (by omega) hf hX (k0_off216 k 832#32 48#32) (k0_off216 k 832#32 48#32) (k0_off187 k)
        (k0_off216_inb L k0_t4 k k0_h7 3) (k0_off216_inb L k0_t4 k k0_h7 3) (k0_off187_inb L k0_t4 k k0_h7)
        ((cf0 (k0_off216 k 832#32 48#32)).trans (by show 1024 * k.val + 880 = _; omega)) ((cf0 (k0_off216 k 832#32 48#32)).trans (by show 1024 * k.val + 880 = _; omega)) ((cf0 (k0_off187 k)).trans (by show 16 * k.val = _; omega))
        _ 48#32 (by decide) _ _ (by first | rfl | rw [Shape.reshapeEquiv_self]) rfl x⟩,
    ⟨(cf0 (k0_off216 k 832#32 32#32)).trans (by show 1024 * k.val + 864 = 1024 * k.val + 16 * 54; omega), rfl, rfl, fun x =>
      piece_agree (bufS2).view (tabS).view (ixS2).view f TT X _ k.val 13 2 hk (by omega) (by omega) hf hX (k0_off216 k 832#32 32#32) (k0_off216 k 832#32 32#32) (k0_off187 k)
        (k0_off216_inb L k0_t4 k k0_h7 2) (k0_off216_inb L k0_t4 k k0_h7 2) (k0_off187_inb L k0_t4 k k0_h7)
        ((cf0 (k0_off216 k 832#32 32#32)).trans (by show 1024 * k.val + 864 = _; omega)) ((cf0 (k0_off216 k 832#32 32#32)).trans (by show 1024 * k.val + 864 = _; omega)) ((cf0 (k0_off187 k)).trans (by show 16 * k.val = _; omega))
        _ 32#32 (by decide) _ _ (by first | rfl | rw [Shape.reshapeEquiv_self]) rfl x⟩,
    ⟨(cf0 (k0_off216 k 832#32 16#32)).trans (by show 1024 * k.val + 848 = 1024 * k.val + 16 * 53; omega), rfl, rfl, fun x =>
      piece_agree (bufS2).view (tabS).view (ixS2).view f TT X _ k.val 13 1 hk (by omega) (by omega) hf hX (k0_off216 k 832#32 16#32) (k0_off216 k 832#32 16#32) (k0_off187 k)
        (k0_off216_inb L k0_t4 k k0_h7 1) (k0_off216_inb L k0_t4 k k0_h7 1) (k0_off187_inb L k0_t4 k k0_h7)
        ((cf0 (k0_off216 k 832#32 16#32)).trans (by show 1024 * k.val + 848 = _; omega)) ((cf0 (k0_off216 k 832#32 16#32)).trans (by show 1024 * k.val + 848 = _; omega)) ((cf0 (k0_off187 k)).trans (by show 16 * k.val = _; omega))
        _ 16#32 (by decide) _ _ (by first | rfl | rw [Shape.reshapeEquiv_self]) rfl x⟩,
    ⟨(cf0 (k0_off216 k 832#32 0#32)).trans (by show 1024 * k.val + 832 = 1024 * k.val + 16 * 52; omega), rfl, rfl, fun x =>
      piece_agree (bufS2).view (tabS).view (ixS2).view f TT X _ k.val 13 0 hk (by omega) (by omega) hf hX (k0_off216 k 832#32 0#32) (k0_off214 k 832#32 0#32) (k0_off187 k)
        (k0_off216_inb L k0_t4 k k0_h7 0) (k0_off214_inb L k0_t4 k k0_h7 4) (k0_off187_inb L k0_t4 k k0_h7)
        ((cf0 (k0_off216 k 832#32 0#32)).trans (by show 1024 * k.val + 832 = _; omega)) ((cf0 (k0_off214 k 832#32 0#32)).trans (by show 1024 * k.val + 832 = _; omega)) ((cf0 (k0_off187 k)).trans (by show 16 * k.val = _; omega))
        _ 0#32 (by decide) _ _ (by first | rfl | rw [Shape.reshapeEquiv_self]) rfl x⟩,
    ⟨(cf0 (k0_off214 k 768#32 48#32)).trans (by show 1024 * k.val + 816 = 1024 * k.val + 16 * 51; omega), rfl, rfl, fun x =>
      piece_agree (bufS2).view (tabS).view (ixS2).view f TT X _ k.val 12 3 hk (by omega) (by omega) hf hX (k0_off214 k 768#32 48#32) (k0_off214 k 768#32 48#32) (k0_off187 k)
        (k0_off214_inb L k0_t4 k k0_h7 3) (k0_off214_inb L k0_t4 k k0_h7 3) (k0_off187_inb L k0_t4 k k0_h7)
        ((cf0 (k0_off214 k 768#32 48#32)).trans (by show 1024 * k.val + 816 = _; omega)) ((cf0 (k0_off214 k 768#32 48#32)).trans (by show 1024 * k.val + 816 = _; omega)) ((cf0 (k0_off187 k)).trans (by show 16 * k.val = _; omega))
        _ 48#32 (by decide) _ _ (by first | rfl | rw [Shape.reshapeEquiv_self]) rfl x⟩,
    ⟨(cf0 (k0_off214 k 768#32 32#32)).trans (by show 1024 * k.val + 800 = 1024 * k.val + 16 * 50; omega), rfl, rfl, fun x =>
      piece_agree (bufS2).view (tabS).view (ixS2).view f TT X _ k.val 12 2 hk (by omega) (by omega) hf hX (k0_off214 k 768#32 32#32) (k0_off214 k 768#32 32#32) (k0_off187 k)
        (k0_off214_inb L k0_t4 k k0_h7 2) (k0_off214_inb L k0_t4 k k0_h7 2) (k0_off187_inb L k0_t4 k k0_h7)
        ((cf0 (k0_off214 k 768#32 32#32)).trans (by show 1024 * k.val + 800 = _; omega)) ((cf0 (k0_off214 k 768#32 32#32)).trans (by show 1024 * k.val + 800 = _; omega)) ((cf0 (k0_off187 k)).trans (by show 16 * k.val = _; omega))
        _ 32#32 (by decide) _ _ (by first | rfl | rw [Shape.reshapeEquiv_self]) rfl x⟩,
    ⟨(cf0 (k0_off214 k 768#32 16#32)).trans (by show 1024 * k.val + 784 = 1024 * k.val + 16 * 49; omega), rfl, rfl, fun x =>
      piece_agree (bufS2).view (tabS).view (ixS2).view f TT X _ k.val 12 1 hk (by omega) (by omega) hf hX (k0_off214 k 768#32 16#32) (k0_off214 k 768#32 16#32) (k0_off187 k)
        (k0_off214_inb L k0_t4 k k0_h7 1) (k0_off214_inb L k0_t4 k k0_h7 1) (k0_off187_inb L k0_t4 k k0_h7)
        ((cf0 (k0_off214 k 768#32 16#32)).trans (by show 1024 * k.val + 784 = _; omega)) ((cf0 (k0_off214 k 768#32 16#32)).trans (by show 1024 * k.val + 784 = _; omega)) ((cf0 (k0_off187 k)).trans (by show 16 * k.val = _; omega))
        _ 16#32 (by decide) _ _ (by first | rfl | rw [Shape.reshapeEquiv_self]) rfl x⟩,
    ⟨(cf0 (k0_off214 k 768#32 0#32)).trans (by show 1024 * k.val + 768 = 1024 * k.val + 16 * 48; omega), rfl, rfl, fun x =>
      piece_agree (bufS2).view (tabS).view (ixS2).view f TT X _ k.val 12 0 hk (by omega) (by omega) hf hX (k0_off214 k 768#32 0#32) (k0_off212 k 768#32 0#32) (k0_off187 k)
        (k0_off214_inb L k0_t4 k k0_h7 0) (k0_off212_inb L k0_t4 k k0_h7 4) (k0_off187_inb L k0_t4 k k0_h7)
        ((cf0 (k0_off214 k 768#32 0#32)).trans (by show 1024 * k.val + 768 = _; omega)) ((cf0 (k0_off212 k 768#32 0#32)).trans (by show 1024 * k.val + 768 = _; omega)) ((cf0 (k0_off187 k)).trans (by show 16 * k.val = _; omega))
        _ 0#32 (by decide) _ _ (by first | rfl | rw [Shape.reshapeEquiv_self]) rfl x⟩,
    ⟨(cf0 (k0_off212 k 704#32 48#32)).trans (by show 1024 * k.val + 752 = 1024 * k.val + 16 * 47; omega), rfl, rfl, fun x =>
      piece_agree (bufS2).view (tabS).view (ixS2).view f TT X _ k.val 11 3 hk (by omega) (by omega) hf hX (k0_off212 k 704#32 48#32) (k0_off212 k 704#32 48#32) (k0_off187 k)
        (k0_off212_inb L k0_t4 k k0_h7 3) (k0_off212_inb L k0_t4 k k0_h7 3) (k0_off187_inb L k0_t4 k k0_h7)
        ((cf0 (k0_off212 k 704#32 48#32)).trans (by show 1024 * k.val + 752 = _; omega)) ((cf0 (k0_off212 k 704#32 48#32)).trans (by show 1024 * k.val + 752 = _; omega)) ((cf0 (k0_off187 k)).trans (by show 16 * k.val = _; omega))
        _ 48#32 (by decide) _ _ (by first | rfl | rw [Shape.reshapeEquiv_self]) rfl x⟩,
    ⟨(cf0 (k0_off212 k 704#32 32#32)).trans (by show 1024 * k.val + 736 = 1024 * k.val + 16 * 46; omega), rfl, rfl, fun x =>
      piece_agree (bufS2).view (tabS).view (ixS2).view f TT X _ k.val 11 2 hk (by omega) (by omega) hf hX (k0_off212 k 704#32 32#32) (k0_off212 k 704#32 32#32) (k0_off187 k)
        (k0_off212_inb L k0_t4 k k0_h7 2) (k0_off212_inb L k0_t4 k k0_h7 2) (k0_off187_inb L k0_t4 k k0_h7)
        ((cf0 (k0_off212 k 704#32 32#32)).trans (by show 1024 * k.val + 736 = _; omega)) ((cf0 (k0_off212 k 704#32 32#32)).trans (by show 1024 * k.val + 736 = _; omega)) ((cf0 (k0_off187 k)).trans (by show 16 * k.val = _; omega))
        _ 32#32 (by decide) _ _ (by first | rfl | rw [Shape.reshapeEquiv_self]) rfl x⟩,
    ⟨(cf0 (k0_off212 k 704#32 16#32)).trans (by show 1024 * k.val + 720 = 1024 * k.val + 16 * 45; omega), rfl, rfl, fun x =>
      piece_agree (bufS2).view (tabS).view (ixS2).view f TT X _ k.val 11 1 hk (by omega) (by omega) hf hX (k0_off212 k 704#32 16#32) (k0_off212 k 704#32 16#32) (k0_off187 k)
        (k0_off212_inb L k0_t4 k k0_h7 1) (k0_off212_inb L k0_t4 k k0_h7 1) (k0_off187_inb L k0_t4 k k0_h7)
        ((cf0 (k0_off212 k 704#32 16#32)).trans (by show 1024 * k.val + 720 = _; omega)) ((cf0 (k0_off212 k 704#32 16#32)).trans (by show 1024 * k.val + 720 = _; omega)) ((cf0 (k0_off187 k)).trans (by show 16 * k.val = _; omega))
        _ 16#32 (by decide) _ _ (by first | rfl | rw [Shape.reshapeEquiv_self]) rfl x⟩,
    ⟨(cf0 (k0_off212 k 704#32 0#32)).trans (by show 1024 * k.val + 704 = 1024 * k.val + 16 * 44; omega), rfl, rfl, fun x =>
      piece_agree (bufS2).view (tabS).view (ixS2).view f TT X _ k.val 11 0 hk (by omega) (by omega) hf hX (k0_off212 k 704#32 0#32) (k0_off210 k 704#32 0#32) (k0_off187 k)
        (k0_off212_inb L k0_t4 k k0_h7 0) (k0_off210_inb L k0_t4 k k0_h7 4) (k0_off187_inb L k0_t4 k k0_h7)
        ((cf0 (k0_off212 k 704#32 0#32)).trans (by show 1024 * k.val + 704 = _; omega)) ((cf0 (k0_off210 k 704#32 0#32)).trans (by show 1024 * k.val + 704 = _; omega)) ((cf0 (k0_off187 k)).trans (by show 16 * k.val = _; omega))
        _ 0#32 (by decide) _ _ (by first | rfl | rw [Shape.reshapeEquiv_self]) rfl x⟩,
    ⟨(cf0 (k0_off210 k 640#32 48#32)).trans (by show 1024 * k.val + 688 = 1024 * k.val + 16 * 43; omega), rfl, rfl, fun x =>
      piece_agree (bufS2).view (tabS).view (ixS2).view f TT X _ k.val 10 3 hk (by omega) (by omega) hf hX (k0_off210 k 640#32 48#32) (k0_off210 k 640#32 48#32) (k0_off187 k)
        (k0_off210_inb L k0_t4 k k0_h7 3) (k0_off210_inb L k0_t4 k k0_h7 3) (k0_off187_inb L k0_t4 k k0_h7)
        ((cf0 (k0_off210 k 640#32 48#32)).trans (by show 1024 * k.val + 688 = _; omega)) ((cf0 (k0_off210 k 640#32 48#32)).trans (by show 1024 * k.val + 688 = _; omega)) ((cf0 (k0_off187 k)).trans (by show 16 * k.val = _; omega))
        _ 48#32 (by decide) _ _ (by first | rfl | rw [Shape.reshapeEquiv_self]) rfl x⟩,
    ⟨(cf0 (k0_off210 k 640#32 32#32)).trans (by show 1024 * k.val + 672 = 1024 * k.val + 16 * 42; omega), rfl, rfl, fun x =>
      piece_agree (bufS2).view (tabS).view (ixS2).view f TT X _ k.val 10 2 hk (by omega) (by omega) hf hX (k0_off210 k 640#32 32#32) (k0_off210 k 640#32 32#32) (k0_off187 k)
        (k0_off210_inb L k0_t4 k k0_h7 2) (k0_off210_inb L k0_t4 k k0_h7 2) (k0_off187_inb L k0_t4 k k0_h7)
        ((cf0 (k0_off210 k 640#32 32#32)).trans (by show 1024 * k.val + 672 = _; omega)) ((cf0 (k0_off210 k 640#32 32#32)).trans (by show 1024 * k.val + 672 = _; omega)) ((cf0 (k0_off187 k)).trans (by show 16 * k.val = _; omega))
        _ 32#32 (by decide) _ _ (by first | rfl | rw [Shape.reshapeEquiv_self]) rfl x⟩,
    ⟨(cf0 (k0_off210 k 640#32 16#32)).trans (by show 1024 * k.val + 656 = 1024 * k.val + 16 * 41; omega), rfl, rfl, fun x =>
      piece_agree (bufS2).view (tabS).view (ixS2).view f TT X _ k.val 10 1 hk (by omega) (by omega) hf hX (k0_off210 k 640#32 16#32) (k0_off210 k 640#32 16#32) (k0_off187 k)
        (k0_off210_inb L k0_t4 k k0_h7 1) (k0_off210_inb L k0_t4 k k0_h7 1) (k0_off187_inb L k0_t4 k k0_h7)
        ((cf0 (k0_off210 k 640#32 16#32)).trans (by show 1024 * k.val + 656 = _; omega)) ((cf0 (k0_off210 k 640#32 16#32)).trans (by show 1024 * k.val + 656 = _; omega)) ((cf0 (k0_off187 k)).trans (by show 16 * k.val = _; omega))
        _ 16#32 (by decide) _ _ (by first | rfl | rw [Shape.reshapeEquiv_self]) rfl x⟩,
    ⟨(cf0 (k0_off210 k 640#32 0#32)).trans (by show 1024 * k.val + 640 = 1024 * k.val + 16 * 40; omega), rfl, rfl, fun x =>
      piece_agree (bufS2).view (tabS).view (ixS2).view f TT X _ k.val 10 0 hk (by omega) (by omega) hf hX (k0_off210 k 640#32 0#32) (k0_off208 k 640#32 0#32) (k0_off187 k)
        (k0_off210_inb L k0_t4 k k0_h7 0) (k0_off208_inb L k0_t4 k k0_h7 4) (k0_off187_inb L k0_t4 k k0_h7)
        ((cf0 (k0_off210 k 640#32 0#32)).trans (by show 1024 * k.val + 640 = _; omega)) ((cf0 (k0_off208 k 640#32 0#32)).trans (by show 1024 * k.val + 640 = _; omega)) ((cf0 (k0_off187 k)).trans (by show 16 * k.val = _; omega))
        _ 0#32 (by decide) _ _ (by first | rfl | rw [Shape.reshapeEquiv_self]) rfl x⟩,
    ⟨(cf0 (k0_off208 k 576#32 48#32)).trans (by show 1024 * k.val + 624 = 1024 * k.val + 16 * 39; omega), rfl, rfl, fun x =>
      piece_agree (bufS2).view (tabS).view (ixS2).view f TT X _ k.val 9 3 hk (by omega) (by omega) hf hX (k0_off208 k 576#32 48#32) (k0_off208 k 576#32 48#32) (k0_off187 k)
        (k0_off208_inb L k0_t4 k k0_h7 3) (k0_off208_inb L k0_t4 k k0_h7 3) (k0_off187_inb L k0_t4 k k0_h7)
        ((cf0 (k0_off208 k 576#32 48#32)).trans (by show 1024 * k.val + 624 = _; omega)) ((cf0 (k0_off208 k 576#32 48#32)).trans (by show 1024 * k.val + 624 = _; omega)) ((cf0 (k0_off187 k)).trans (by show 16 * k.val = _; omega))
        _ 48#32 (by decide) _ _ (by first | rfl | rw [Shape.reshapeEquiv_self]) rfl x⟩,
    ⟨(cf0 (k0_off208 k 576#32 32#32)).trans (by show 1024 * k.val + 608 = 1024 * k.val + 16 * 38; omega), rfl, rfl, fun x =>
      piece_agree (bufS2).view (tabS).view (ixS2).view f TT X _ k.val 9 2 hk (by omega) (by omega) hf hX (k0_off208 k 576#32 32#32) (k0_off208 k 576#32 32#32) (k0_off187 k)
        (k0_off208_inb L k0_t4 k k0_h7 2) (k0_off208_inb L k0_t4 k k0_h7 2) (k0_off187_inb L k0_t4 k k0_h7)
        ((cf0 (k0_off208 k 576#32 32#32)).trans (by show 1024 * k.val + 608 = _; omega)) ((cf0 (k0_off208 k 576#32 32#32)).trans (by show 1024 * k.val + 608 = _; omega)) ((cf0 (k0_off187 k)).trans (by show 16 * k.val = _; omega))
        _ 32#32 (by decide) _ _ (by first | rfl | rw [Shape.reshapeEquiv_self]) rfl x⟩,
    ⟨(cf0 (k0_off208 k 576#32 16#32)).trans (by show 1024 * k.val + 592 = 1024 * k.val + 16 * 37; omega), rfl, rfl, fun x =>
      piece_agree (bufS2).view (tabS).view (ixS2).view f TT X _ k.val 9 1 hk (by omega) (by omega) hf hX (k0_off208 k 576#32 16#32) (k0_off208 k 576#32 16#32) (k0_off187 k)
        (k0_off208_inb L k0_t4 k k0_h7 1) (k0_off208_inb L k0_t4 k k0_h7 1) (k0_off187_inb L k0_t4 k k0_h7)
        ((cf0 (k0_off208 k 576#32 16#32)).trans (by show 1024 * k.val + 592 = _; omega)) ((cf0 (k0_off208 k 576#32 16#32)).trans (by show 1024 * k.val + 592 = _; omega)) ((cf0 (k0_off187 k)).trans (by show 16 * k.val = _; omega))
        _ 16#32 (by decide) _ _ (by first | rfl | rw [Shape.reshapeEquiv_self]) rfl x⟩,
    ⟨(cf0 (k0_off208 k 576#32 0#32)).trans (by show 1024 * k.val + 576 = 1024 * k.val + 16 * 36; omega), rfl, rfl, fun x =>
      piece_agree (bufS2).view (tabS).view (ixS2).view f TT X _ k.val 9 0 hk (by omega) (by omega) hf hX (k0_off208 k 576#32 0#32) (k0_off206 k 576#32 0#32) (k0_off187 k)
        (k0_off208_inb L k0_t4 k k0_h7 0) (k0_off206_inb L k0_t4 k k0_h7 4) (k0_off187_inb L k0_t4 k k0_h7)
        ((cf0 (k0_off208 k 576#32 0#32)).trans (by show 1024 * k.val + 576 = _; omega)) ((cf0 (k0_off206 k 576#32 0#32)).trans (by show 1024 * k.val + 576 = _; omega)) ((cf0 (k0_off187 k)).trans (by show 16 * k.val = _; omega))
        _ 0#32 (by decide) _ _ (by first | rfl | rw [Shape.reshapeEquiv_self]) rfl x⟩,
    ⟨(cf0 (k0_off206 k 512#32 48#32)).trans (by show 1024 * k.val + 560 = 1024 * k.val + 16 * 35; omega), rfl, rfl, fun x =>
      piece_agree (bufS2).view (tabS).view (ixS2).view f TT X _ k.val 8 3 hk (by omega) (by omega) hf hX (k0_off206 k 512#32 48#32) (k0_off206 k 512#32 48#32) (k0_off187 k)
        (k0_off206_inb L k0_t4 k k0_h7 3) (k0_off206_inb L k0_t4 k k0_h7 3) (k0_off187_inb L k0_t4 k k0_h7)
        ((cf0 (k0_off206 k 512#32 48#32)).trans (by show 1024 * k.val + 560 = _; omega)) ((cf0 (k0_off206 k 512#32 48#32)).trans (by show 1024 * k.val + 560 = _; omega)) ((cf0 (k0_off187 k)).trans (by show 16 * k.val = _; omega))
        _ 48#32 (by decide) _ _ (by first | rfl | rw [Shape.reshapeEquiv_self]) rfl x⟩,
    ⟨(cf0 (k0_off206 k 512#32 32#32)).trans (by show 1024 * k.val + 544 = 1024 * k.val + 16 * 34; omega), rfl, rfl, fun x =>
      piece_agree (bufS2).view (tabS).view (ixS2).view f TT X _ k.val 8 2 hk (by omega) (by omega) hf hX (k0_off206 k 512#32 32#32) (k0_off206 k 512#32 32#32) (k0_off187 k)
        (k0_off206_inb L k0_t4 k k0_h7 2) (k0_off206_inb L k0_t4 k k0_h7 2) (k0_off187_inb L k0_t4 k k0_h7)
        ((cf0 (k0_off206 k 512#32 32#32)).trans (by show 1024 * k.val + 544 = _; omega)) ((cf0 (k0_off206 k 512#32 32#32)).trans (by show 1024 * k.val + 544 = _; omega)) ((cf0 (k0_off187 k)).trans (by show 16 * k.val = _; omega))
        _ 32#32 (by decide) _ _ (by first | rfl | rw [Shape.reshapeEquiv_self]) rfl x⟩,
    ⟨(cf0 (k0_off206 k 512#32 16#32)).trans (by show 1024 * k.val + 528 = 1024 * k.val + 16 * 33; omega), rfl, rfl, fun x =>
      piece_agree (bufS2).view (tabS).view (ixS2).view f TT X _ k.val 8 1 hk (by omega) (by omega) hf hX (k0_off206 k 512#32 16#32) (k0_off206 k 512#32 16#32) (k0_off187 k)
        (k0_off206_inb L k0_t4 k k0_h7 1) (k0_off206_inb L k0_t4 k k0_h7 1) (k0_off187_inb L k0_t4 k k0_h7)
        ((cf0 (k0_off206 k 512#32 16#32)).trans (by show 1024 * k.val + 528 = _; omega)) ((cf0 (k0_off206 k 512#32 16#32)).trans (by show 1024 * k.val + 528 = _; omega)) ((cf0 (k0_off187 k)).trans (by show 16 * k.val = _; omega))
        _ 16#32 (by decide) _ _ (by first | rfl | rw [Shape.reshapeEquiv_self]) rfl x⟩,
    ⟨(cf0 (k0_off206 k 512#32 0#32)).trans (by show 1024 * k.val + 512 = 1024 * k.val + 16 * 32; omega), rfl, rfl, fun x =>
      piece_agree (bufS2).view (tabS).view (ixS2).view f TT X _ k.val 8 0 hk (by omega) (by omega) hf hX (k0_off206 k 512#32 0#32) (k0_off204 k 512#32 0#32) (k0_off187 k)
        (k0_off206_inb L k0_t4 k k0_h7 0) (k0_off204_inb L k0_t4 k k0_h7 4) (k0_off187_inb L k0_t4 k k0_h7)
        ((cf0 (k0_off206 k 512#32 0#32)).trans (by show 1024 * k.val + 512 = _; omega)) ((cf0 (k0_off204 k 512#32 0#32)).trans (by show 1024 * k.val + 512 = _; omega)) ((cf0 (k0_off187 k)).trans (by show 16 * k.val = _; omega))
        _ 0#32 (by decide) _ _ (by first | rfl | rw [Shape.reshapeEquiv_self]) rfl x⟩,
    ⟨(cf0 (k0_off204 k 448#32 48#32)).trans (by show 1024 * k.val + 496 = 1024 * k.val + 16 * 31; omega), rfl, rfl, fun x =>
      piece_agree (bufS2).view (tabS).view (ixS2).view f TT X _ k.val 7 3 hk (by omega) (by omega) hf hX (k0_off204 k 448#32 48#32) (k0_off204 k 448#32 48#32) (k0_off187 k)
        (k0_off204_inb L k0_t4 k k0_h7 3) (k0_off204_inb L k0_t4 k k0_h7 3) (k0_off187_inb L k0_t4 k k0_h7)
        ((cf0 (k0_off204 k 448#32 48#32)).trans (by show 1024 * k.val + 496 = _; omega)) ((cf0 (k0_off204 k 448#32 48#32)).trans (by show 1024 * k.val + 496 = _; omega)) ((cf0 (k0_off187 k)).trans (by show 16 * k.val = _; omega))
        _ 48#32 (by decide) _ _ (by first | rfl | rw [Shape.reshapeEquiv_self]) rfl x⟩,
    ⟨(cf0 (k0_off204 k 448#32 32#32)).trans (by show 1024 * k.val + 480 = 1024 * k.val + 16 * 30; omega), rfl, rfl, fun x =>
      piece_agree (bufS2).view (tabS).view (ixS2).view f TT X _ k.val 7 2 hk (by omega) (by omega) hf hX (k0_off204 k 448#32 32#32) (k0_off204 k 448#32 32#32) (k0_off187 k)
        (k0_off204_inb L k0_t4 k k0_h7 2) (k0_off204_inb L k0_t4 k k0_h7 2) (k0_off187_inb L k0_t4 k k0_h7)
        ((cf0 (k0_off204 k 448#32 32#32)).trans (by show 1024 * k.val + 480 = _; omega)) ((cf0 (k0_off204 k 448#32 32#32)).trans (by show 1024 * k.val + 480 = _; omega)) ((cf0 (k0_off187 k)).trans (by show 16 * k.val = _; omega))
        _ 32#32 (by decide) _ _ (by first | rfl | rw [Shape.reshapeEquiv_self]) rfl x⟩,
    ⟨(cf0 (k0_off204 k 448#32 16#32)).trans (by show 1024 * k.val + 464 = 1024 * k.val + 16 * 29; omega), rfl, rfl, fun x =>
      piece_agree (bufS2).view (tabS).view (ixS2).view f TT X _ k.val 7 1 hk (by omega) (by omega) hf hX (k0_off204 k 448#32 16#32) (k0_off204 k 448#32 16#32) (k0_off187 k)
        (k0_off204_inb L k0_t4 k k0_h7 1) (k0_off204_inb L k0_t4 k k0_h7 1) (k0_off187_inb L k0_t4 k k0_h7)
        ((cf0 (k0_off204 k 448#32 16#32)).trans (by show 1024 * k.val + 464 = _; omega)) ((cf0 (k0_off204 k 448#32 16#32)).trans (by show 1024 * k.val + 464 = _; omega)) ((cf0 (k0_off187 k)).trans (by show 16 * k.val = _; omega))
        _ 16#32 (by decide) _ _ (by first | rfl | rw [Shape.reshapeEquiv_self]) rfl x⟩,
    ⟨(cf0 (k0_off204 k 448#32 0#32)).trans (by show 1024 * k.val + 448 = 1024 * k.val + 16 * 28; omega), rfl, rfl, fun x =>
      piece_agree (bufS2).view (tabS).view (ixS2).view f TT X _ k.val 7 0 hk (by omega) (by omega) hf hX (k0_off204 k 448#32 0#32) (k0_off202 k 448#32 0#32) (k0_off187 k)
        (k0_off204_inb L k0_t4 k k0_h7 0) (k0_off202_inb L k0_t4 k k0_h7 4) (k0_off187_inb L k0_t4 k k0_h7)
        ((cf0 (k0_off204 k 448#32 0#32)).trans (by show 1024 * k.val + 448 = _; omega)) ((cf0 (k0_off202 k 448#32 0#32)).trans (by show 1024 * k.val + 448 = _; omega)) ((cf0 (k0_off187 k)).trans (by show 16 * k.val = _; omega))
        _ 0#32 (by decide) _ _ (by first | rfl | rw [Shape.reshapeEquiv_self]) rfl x⟩,
    ⟨(cf0 (k0_off202 k 384#32 48#32)).trans (by show 1024 * k.val + 432 = 1024 * k.val + 16 * 27; omega), rfl, rfl, fun x =>
      piece_agree (bufS2).view (tabS).view (ixS2).view f TT X _ k.val 6 3 hk (by omega) (by omega) hf hX (k0_off202 k 384#32 48#32) (k0_off202 k 384#32 48#32) (k0_off187 k)
        (k0_off202_inb L k0_t4 k k0_h7 3) (k0_off202_inb L k0_t4 k k0_h7 3) (k0_off187_inb L k0_t4 k k0_h7)
        ((cf0 (k0_off202 k 384#32 48#32)).trans (by show 1024 * k.val + 432 = _; omega)) ((cf0 (k0_off202 k 384#32 48#32)).trans (by show 1024 * k.val + 432 = _; omega)) ((cf0 (k0_off187 k)).trans (by show 16 * k.val = _; omega))
        _ 48#32 (by decide) _ _ (by first | rfl | rw [Shape.reshapeEquiv_self]) rfl x⟩,
    ⟨(cf0 (k0_off202 k 384#32 32#32)).trans (by show 1024 * k.val + 416 = 1024 * k.val + 16 * 26; omega), rfl, rfl, fun x =>
      piece_agree (bufS2).view (tabS).view (ixS2).view f TT X _ k.val 6 2 hk (by omega) (by omega) hf hX (k0_off202 k 384#32 32#32) (k0_off202 k 384#32 32#32) (k0_off187 k)
        (k0_off202_inb L k0_t4 k k0_h7 2) (k0_off202_inb L k0_t4 k k0_h7 2) (k0_off187_inb L k0_t4 k k0_h7)
        ((cf0 (k0_off202 k 384#32 32#32)).trans (by show 1024 * k.val + 416 = _; omega)) ((cf0 (k0_off202 k 384#32 32#32)).trans (by show 1024 * k.val + 416 = _; omega)) ((cf0 (k0_off187 k)).trans (by show 16 * k.val = _; omega))
        _ 32#32 (by decide) _ _ (by first | rfl | rw [Shape.reshapeEquiv_self]) rfl x⟩,
    ⟨(cf0 (k0_off202 k 384#32 16#32)).trans (by show 1024 * k.val + 400 = 1024 * k.val + 16 * 25; omega), rfl, rfl, fun x =>
      piece_agree (bufS2).view (tabS).view (ixS2).view f TT X _ k.val 6 1 hk (by omega) (by omega) hf hX (k0_off202 k 384#32 16#32) (k0_off202 k 384#32 16#32) (k0_off187 k)
        (k0_off202_inb L k0_t4 k k0_h7 1) (k0_off202_inb L k0_t4 k k0_h7 1) (k0_off187_inb L k0_t4 k k0_h7)
        ((cf0 (k0_off202 k 384#32 16#32)).trans (by show 1024 * k.val + 400 = _; omega)) ((cf0 (k0_off202 k 384#32 16#32)).trans (by show 1024 * k.val + 400 = _; omega)) ((cf0 (k0_off187 k)).trans (by show 16 * k.val = _; omega))
        _ 16#32 (by decide) _ _ (by first | rfl | rw [Shape.reshapeEquiv_self]) rfl x⟩,
    ⟨(cf0 (k0_off202 k 384#32 0#32)).trans (by show 1024 * k.val + 384 = 1024 * k.val + 16 * 24; omega), rfl, rfl, fun x =>
      piece_agree (bufS2).view (tabS).view (ixS2).view f TT X _ k.val 6 0 hk (by omega) (by omega) hf hX (k0_off202 k 384#32 0#32) (k0_off200 k 384#32 0#32) (k0_off187 k)
        (k0_off202_inb L k0_t4 k k0_h7 0) (k0_off200_inb L k0_t4 k k0_h7 4) (k0_off187_inb L k0_t4 k k0_h7)
        ((cf0 (k0_off202 k 384#32 0#32)).trans (by show 1024 * k.val + 384 = _; omega)) ((cf0 (k0_off200 k 384#32 0#32)).trans (by show 1024 * k.val + 384 = _; omega)) ((cf0 (k0_off187 k)).trans (by show 16 * k.val = _; omega))
        _ 0#32 (by decide) _ _ (by first | rfl | rw [Shape.reshapeEquiv_self]) rfl x⟩,
    ⟨(cf0 (k0_off200 k 320#32 48#32)).trans (by show 1024 * k.val + 368 = 1024 * k.val + 16 * 23; omega), rfl, rfl, fun x =>
      piece_agree (bufS2).view (tabS).view (ixS2).view f TT X _ k.val 5 3 hk (by omega) (by omega) hf hX (k0_off200 k 320#32 48#32) (k0_off200 k 320#32 48#32) (k0_off187 k)
        (k0_off200_inb L k0_t4 k k0_h7 3) (k0_off200_inb L k0_t4 k k0_h7 3) (k0_off187_inb L k0_t4 k k0_h7)
        ((cf0 (k0_off200 k 320#32 48#32)).trans (by show 1024 * k.val + 368 = _; omega)) ((cf0 (k0_off200 k 320#32 48#32)).trans (by show 1024 * k.val + 368 = _; omega)) ((cf0 (k0_off187 k)).trans (by show 16 * k.val = _; omega))
        _ 48#32 (by decide) _ _ (by first | rfl | rw [Shape.reshapeEquiv_self]) rfl x⟩,
    ⟨(cf0 (k0_off200 k 320#32 32#32)).trans (by show 1024 * k.val + 352 = 1024 * k.val + 16 * 22; omega), rfl, rfl, fun x =>
      piece_agree (bufS2).view (tabS).view (ixS2).view f TT X _ k.val 5 2 hk (by omega) (by omega) hf hX (k0_off200 k 320#32 32#32) (k0_off200 k 320#32 32#32) (k0_off187 k)
        (k0_off200_inb L k0_t4 k k0_h7 2) (k0_off200_inb L k0_t4 k k0_h7 2) (k0_off187_inb L k0_t4 k k0_h7)
        ((cf0 (k0_off200 k 320#32 32#32)).trans (by show 1024 * k.val + 352 = _; omega)) ((cf0 (k0_off200 k 320#32 32#32)).trans (by show 1024 * k.val + 352 = _; omega)) ((cf0 (k0_off187 k)).trans (by show 16 * k.val = _; omega))
        _ 32#32 (by decide) _ _ (by first | rfl | rw [Shape.reshapeEquiv_self]) rfl x⟩,
    ⟨(cf0 (k0_off200 k 320#32 16#32)).trans (by show 1024 * k.val + 336 = 1024 * k.val + 16 * 21; omega), rfl, rfl, fun x =>
      piece_agree (bufS2).view (tabS).view (ixS2).view f TT X _ k.val 5 1 hk (by omega) (by omega) hf hX (k0_off200 k 320#32 16#32) (k0_off200 k 320#32 16#32) (k0_off187 k)
        (k0_off200_inb L k0_t4 k k0_h7 1) (k0_off200_inb L k0_t4 k k0_h7 1) (k0_off187_inb L k0_t4 k k0_h7)
        ((cf0 (k0_off200 k 320#32 16#32)).trans (by show 1024 * k.val + 336 = _; omega)) ((cf0 (k0_off200 k 320#32 16#32)).trans (by show 1024 * k.val + 336 = _; omega)) ((cf0 (k0_off187 k)).trans (by show 16 * k.val = _; omega))
        _ 16#32 (by decide) _ _ (by first | rfl | rw [Shape.reshapeEquiv_self]) rfl x⟩,
    ⟨(cf0 (k0_off200 k 320#32 0#32)).trans (by show 1024 * k.val + 320 = 1024 * k.val + 16 * 20; omega), rfl, rfl, fun x =>
      piece_agree (bufS2).view (tabS).view (ixS2).view f TT X _ k.val 5 0 hk (by omega) (by omega) hf hX (k0_off200 k 320#32 0#32) (k0_off198 k 320#32 0#32) (k0_off187 k)
        (k0_off200_inb L k0_t4 k k0_h7 0) (k0_off198_inb L k0_t4 k k0_h7 4) (k0_off187_inb L k0_t4 k k0_h7)
        ((cf0 (k0_off200 k 320#32 0#32)).trans (by show 1024 * k.val + 320 = _; omega)) ((cf0 (k0_off198 k 320#32 0#32)).trans (by show 1024 * k.val + 320 = _; omega)) ((cf0 (k0_off187 k)).trans (by show 16 * k.val = _; omega))
        _ 0#32 (by decide) _ _ (by first | rfl | rw [Shape.reshapeEquiv_self]) rfl x⟩,
    ⟨(cf0 (k0_off198 k 256#32 48#32)).trans (by show 1024 * k.val + 304 = 1024 * k.val + 16 * 19; omega), rfl, rfl, fun x =>
      piece_agree (bufS2).view (tabS).view (ixS2).view f TT X _ k.val 4 3 hk (by omega) (by omega) hf hX (k0_off198 k 256#32 48#32) (k0_off198 k 256#32 48#32) (k0_off187 k)
        (k0_off198_inb L k0_t4 k k0_h7 3) (k0_off198_inb L k0_t4 k k0_h7 3) (k0_off187_inb L k0_t4 k k0_h7)
        ((cf0 (k0_off198 k 256#32 48#32)).trans (by show 1024 * k.val + 304 = _; omega)) ((cf0 (k0_off198 k 256#32 48#32)).trans (by show 1024 * k.val + 304 = _; omega)) ((cf0 (k0_off187 k)).trans (by show 16 * k.val = _; omega))
        _ 48#32 (by decide) _ _ (by first | rfl | rw [Shape.reshapeEquiv_self]) rfl x⟩,
    ⟨(cf0 (k0_off198 k 256#32 32#32)).trans (by show 1024 * k.val + 288 = 1024 * k.val + 16 * 18; omega), rfl, rfl, fun x =>
      piece_agree (bufS2).view (tabS).view (ixS2).view f TT X _ k.val 4 2 hk (by omega) (by omega) hf hX (k0_off198 k 256#32 32#32) (k0_off198 k 256#32 32#32) (k0_off187 k)
        (k0_off198_inb L k0_t4 k k0_h7 2) (k0_off198_inb L k0_t4 k k0_h7 2) (k0_off187_inb L k0_t4 k k0_h7)
        ((cf0 (k0_off198 k 256#32 32#32)).trans (by show 1024 * k.val + 288 = _; omega)) ((cf0 (k0_off198 k 256#32 32#32)).trans (by show 1024 * k.val + 288 = _; omega)) ((cf0 (k0_off187 k)).trans (by show 16 * k.val = _; omega))
        _ 32#32 (by decide) _ _ (by first | rfl | rw [Shape.reshapeEquiv_self]) rfl x⟩,
    ⟨(cf0 (k0_off198 k 256#32 16#32)).trans (by show 1024 * k.val + 272 = 1024 * k.val + 16 * 17; omega), rfl, rfl, fun x =>
      piece_agree (bufS2).view (tabS).view (ixS2).view f TT X _ k.val 4 1 hk (by omega) (by omega) hf hX (k0_off198 k 256#32 16#32) (k0_off198 k 256#32 16#32) (k0_off187 k)
        (k0_off198_inb L k0_t4 k k0_h7 1) (k0_off198_inb L k0_t4 k k0_h7 1) (k0_off187_inb L k0_t4 k k0_h7)
        ((cf0 (k0_off198 k 256#32 16#32)).trans (by show 1024 * k.val + 272 = _; omega)) ((cf0 (k0_off198 k 256#32 16#32)).trans (by show 1024 * k.val + 272 = _; omega)) ((cf0 (k0_off187 k)).trans (by show 16 * k.val = _; omega))
        _ 16#32 (by decide) _ _ (by first | rfl | rw [Shape.reshapeEquiv_self]) rfl x⟩,
    ⟨(cf0 (k0_off198 k 256#32 0#32)).trans (by show 1024 * k.val + 256 = 1024 * k.val + 16 * 16; omega), rfl, rfl, fun x =>
      piece_agree (bufS2).view (tabS).view (ixS2).view f TT X _ k.val 4 0 hk (by omega) (by omega) hf hX (k0_off198 k 256#32 0#32) (k0_off196 k 256#32 0#32) (k0_off187 k)
        (k0_off198_inb L k0_t4 k k0_h7 0) (k0_off196_inb L k0_t4 k k0_h7 4) (k0_off187_inb L k0_t4 k k0_h7)
        ((cf0 (k0_off198 k 256#32 0#32)).trans (by show 1024 * k.val + 256 = _; omega)) ((cf0 (k0_off196 k 256#32 0#32)).trans (by show 1024 * k.val + 256 = _; omega)) ((cf0 (k0_off187 k)).trans (by show 16 * k.val = _; omega))
        _ 0#32 (by decide) _ _ (by first | rfl | rw [Shape.reshapeEquiv_self]) rfl x⟩,
    ⟨(cf0 (k0_off196 k 192#32 48#32)).trans (by show 1024 * k.val + 240 = 1024 * k.val + 16 * 15; omega), rfl, rfl, fun x =>
      piece_agree (bufS2).view (tabS).view (ixS2).view f TT X _ k.val 3 3 hk (by omega) (by omega) hf hX (k0_off196 k 192#32 48#32) (k0_off196 k 192#32 48#32) (k0_off187 k)
        (k0_off196_inb L k0_t4 k k0_h7 3) (k0_off196_inb L k0_t4 k k0_h7 3) (k0_off187_inb L k0_t4 k k0_h7)
        ((cf0 (k0_off196 k 192#32 48#32)).trans (by show 1024 * k.val + 240 = _; omega)) ((cf0 (k0_off196 k 192#32 48#32)).trans (by show 1024 * k.val + 240 = _; omega)) ((cf0 (k0_off187 k)).trans (by show 16 * k.val = _; omega))
        _ 48#32 (by decide) _ _ (by first | rfl | rw [Shape.reshapeEquiv_self]) rfl x⟩,
    ⟨(cf0 (k0_off196 k 192#32 32#32)).trans (by show 1024 * k.val + 224 = 1024 * k.val + 16 * 14; omega), rfl, rfl, fun x =>
      piece_agree (bufS2).view (tabS).view (ixS2).view f TT X _ k.val 3 2 hk (by omega) (by omega) hf hX (k0_off196 k 192#32 32#32) (k0_off196 k 192#32 32#32) (k0_off187 k)
        (k0_off196_inb L k0_t4 k k0_h7 2) (k0_off196_inb L k0_t4 k k0_h7 2) (k0_off187_inb L k0_t4 k k0_h7)
        ((cf0 (k0_off196 k 192#32 32#32)).trans (by show 1024 * k.val + 224 = _; omega)) ((cf0 (k0_off196 k 192#32 32#32)).trans (by show 1024 * k.val + 224 = _; omega)) ((cf0 (k0_off187 k)).trans (by show 16 * k.val = _; omega))
        _ 32#32 (by decide) _ _ (by first | rfl | rw [Shape.reshapeEquiv_self]) rfl x⟩,
    ⟨(cf0 (k0_off196 k 192#32 16#32)).trans (by show 1024 * k.val + 208 = 1024 * k.val + 16 * 13; omega), rfl, rfl, fun x =>
      piece_agree (bufS2).view (tabS).view (ixS2).view f TT X _ k.val 3 1 hk (by omega) (by omega) hf hX (k0_off196 k 192#32 16#32) (k0_off196 k 192#32 16#32) (k0_off187 k)
        (k0_off196_inb L k0_t4 k k0_h7 1) (k0_off196_inb L k0_t4 k k0_h7 1) (k0_off187_inb L k0_t4 k k0_h7)
        ((cf0 (k0_off196 k 192#32 16#32)).trans (by show 1024 * k.val + 208 = _; omega)) ((cf0 (k0_off196 k 192#32 16#32)).trans (by show 1024 * k.val + 208 = _; omega)) ((cf0 (k0_off187 k)).trans (by show 16 * k.val = _; omega))
        _ 16#32 (by decide) _ _ (by first | rfl | rw [Shape.reshapeEquiv_self]) rfl x⟩,
    ⟨(cf0 (k0_off196 k 192#32 0#32)).trans (by show 1024 * k.val + 192 = 1024 * k.val + 16 * 12; omega), rfl, rfl, fun x =>
      piece_agree (bufS2).view (tabS).view (ixS2).view f TT X _ k.val 3 0 hk (by omega) (by omega) hf hX (k0_off196 k 192#32 0#32) (k0_off194 k 192#32 0#32) (k0_off187 k)
        (k0_off196_inb L k0_t4 k k0_h7 0) (k0_off194_inb L k0_t4 k k0_h7 4) (k0_off187_inb L k0_t4 k k0_h7)
        ((cf0 (k0_off196 k 192#32 0#32)).trans (by show 1024 * k.val + 192 = _; omega)) ((cf0 (k0_off194 k 192#32 0#32)).trans (by show 1024 * k.val + 192 = _; omega)) ((cf0 (k0_off187 k)).trans (by show 16 * k.val = _; omega))
        _ 0#32 (by decide) _ _ (by first | rfl | rw [Shape.reshapeEquiv_self]) rfl x⟩,
    ⟨(cf0 (k0_off194 k 128#32 48#32)).trans (by show 1024 * k.val + 176 = 1024 * k.val + 16 * 11; omega), rfl, rfl, fun x =>
      piece_agree (bufS2).view (tabS).view (ixS2).view f TT X _ k.val 2 3 hk (by omega) (by omega) hf hX (k0_off194 k 128#32 48#32) (k0_off194 k 128#32 48#32) (k0_off187 k)
        (k0_off194_inb L k0_t4 k k0_h7 3) (k0_off194_inb L k0_t4 k k0_h7 3) (k0_off187_inb L k0_t4 k k0_h7)
        ((cf0 (k0_off194 k 128#32 48#32)).trans (by show 1024 * k.val + 176 = _; omega)) ((cf0 (k0_off194 k 128#32 48#32)).trans (by show 1024 * k.val + 176 = _; omega)) ((cf0 (k0_off187 k)).trans (by show 16 * k.val = _; omega))
        _ 48#32 (by decide) _ _ (by first | rfl | rw [Shape.reshapeEquiv_self]) rfl x⟩,
    ⟨(cf0 (k0_off194 k 128#32 32#32)).trans (by show 1024 * k.val + 160 = 1024 * k.val + 16 * 10; omega), rfl, rfl, fun x =>
      piece_agree (bufS2).view (tabS).view (ixS2).view f TT X _ k.val 2 2 hk (by omega) (by omega) hf hX (k0_off194 k 128#32 32#32) (k0_off194 k 128#32 32#32) (k0_off187 k)
        (k0_off194_inb L k0_t4 k k0_h7 2) (k0_off194_inb L k0_t4 k k0_h7 2) (k0_off187_inb L k0_t4 k k0_h7)
        ((cf0 (k0_off194 k 128#32 32#32)).trans (by show 1024 * k.val + 160 = _; omega)) ((cf0 (k0_off194 k 128#32 32#32)).trans (by show 1024 * k.val + 160 = _; omega)) ((cf0 (k0_off187 k)).trans (by show 16 * k.val = _; omega))
        _ 32#32 (by decide) _ _ (by first | rfl | rw [Shape.reshapeEquiv_self]) rfl x⟩,
    ⟨(cf0 (k0_off194 k 128#32 16#32)).trans (by show 1024 * k.val + 144 = 1024 * k.val + 16 * 9; omega), rfl, rfl, fun x =>
      piece_agree (bufS2).view (tabS).view (ixS2).view f TT X _ k.val 2 1 hk (by omega) (by omega) hf hX (k0_off194 k 128#32 16#32) (k0_off194 k 128#32 16#32) (k0_off187 k)
        (k0_off194_inb L k0_t4 k k0_h7 1) (k0_off194_inb L k0_t4 k k0_h7 1) (k0_off187_inb L k0_t4 k k0_h7)
        ((cf0 (k0_off194 k 128#32 16#32)).trans (by show 1024 * k.val + 144 = _; omega)) ((cf0 (k0_off194 k 128#32 16#32)).trans (by show 1024 * k.val + 144 = _; omega)) ((cf0 (k0_off187 k)).trans (by show 16 * k.val = _; omega))
        _ 16#32 (by decide) _ _ (by first | rfl | rw [Shape.reshapeEquiv_self]) rfl x⟩,
    ⟨(cf0 (k0_off194 k 128#32 0#32)).trans (by show 1024 * k.val + 128 = 1024 * k.val + 16 * 8; omega), rfl, rfl, fun x =>
      piece_agree (bufS2).view (tabS).view (ixS2).view f TT X _ k.val 2 0 hk (by omega) (by omega) hf hX (k0_off194 k 128#32 0#32) (k0_off192 k 128#32 0#32) (k0_off187 k)
        (k0_off194_inb L k0_t4 k k0_h7 0) (k0_off192_inb L k0_t4 k k0_h7 4) (k0_off187_inb L k0_t4 k k0_h7)
        ((cf0 (k0_off194 k 128#32 0#32)).trans (by show 1024 * k.val + 128 = _; omega)) ((cf0 (k0_off192 k 128#32 0#32)).trans (by show 1024 * k.val + 128 = _; omega)) ((cf0 (k0_off187 k)).trans (by show 16 * k.val = _; omega))
        _ 0#32 (by decide) _ _ (by first | rfl | rw [Shape.reshapeEquiv_self]) rfl x⟩,
    ⟨(cf0 (k0_off192 k 64#32 48#32)).trans (by show 1024 * k.val + 112 = 1024 * k.val + 16 * 7; omega), rfl, rfl, fun x =>
      piece_agree (bufS2).view (tabS).view (ixS2).view f TT X _ k.val 1 3 hk (by omega) (by omega) hf hX (k0_off192 k 64#32 48#32) (k0_off192 k 64#32 48#32) (k0_off187 k)
        (k0_off192_inb L k0_t4 k k0_h7 3) (k0_off192_inb L k0_t4 k k0_h7 3) (k0_off187_inb L k0_t4 k k0_h7)
        ((cf0 (k0_off192 k 64#32 48#32)).trans (by show 1024 * k.val + 112 = _; omega)) ((cf0 (k0_off192 k 64#32 48#32)).trans (by show 1024 * k.val + 112 = _; omega)) ((cf0 (k0_off187 k)).trans (by show 16 * k.val = _; omega))
        _ 48#32 (by decide) _ _ (by first | rfl | rw [Shape.reshapeEquiv_self]) rfl x⟩,
    ⟨(cf0 (k0_off192 k 64#32 32#32)).trans (by show 1024 * k.val + 96 = 1024 * k.val + 16 * 6; omega), rfl, rfl, fun x =>
      piece_agree (bufS2).view (tabS).view (ixS2).view f TT X _ k.val 1 2 hk (by omega) (by omega) hf hX (k0_off192 k 64#32 32#32) (k0_off192 k 64#32 32#32) (k0_off187 k)
        (k0_off192_inb L k0_t4 k k0_h7 2) (k0_off192_inb L k0_t4 k k0_h7 2) (k0_off187_inb L k0_t4 k k0_h7)
        ((cf0 (k0_off192 k 64#32 32#32)).trans (by show 1024 * k.val + 96 = _; omega)) ((cf0 (k0_off192 k 64#32 32#32)).trans (by show 1024 * k.val + 96 = _; omega)) ((cf0 (k0_off187 k)).trans (by show 16 * k.val = _; omega))
        _ 32#32 (by decide) _ _ (by first | rfl | rw [Shape.reshapeEquiv_self]) rfl x⟩,
    ⟨(cf0 (k0_off192 k 64#32 16#32)).trans (by show 1024 * k.val + 80 = 1024 * k.val + 16 * 5; omega), rfl, rfl, fun x =>
      piece_agree (bufS2).view (tabS).view (ixS2).view f TT X _ k.val 1 1 hk (by omega) (by omega) hf hX (k0_off192 k 64#32 16#32) (k0_off192 k 64#32 16#32) (k0_off187 k)
        (k0_off192_inb L k0_t4 k k0_h7 1) (k0_off192_inb L k0_t4 k k0_h7 1) (k0_off187_inb L k0_t4 k k0_h7)
        ((cf0 (k0_off192 k 64#32 16#32)).trans (by show 1024 * k.val + 80 = _; omega)) ((cf0 (k0_off192 k 64#32 16#32)).trans (by show 1024 * k.val + 80 = _; omega)) ((cf0 (k0_off187 k)).trans (by show 16 * k.val = _; omega))
        _ 16#32 (by decide) _ _ (by first | rfl | rw [Shape.reshapeEquiv_self]) rfl x⟩,
    ⟨(cf0 (k0_off192 k 64#32 0#32)).trans (by show 1024 * k.val + 64 = 1024 * k.val + 16 * 4; omega), rfl, rfl, fun x =>
      piece_agree (bufS2).view (tabS).view (ixS2).view f TT X _ k.val 1 0 hk (by omega) (by omega) hf hX (k0_off192 k 64#32 0#32) (k0_off190 k 64#32 0#32) (k0_off187 k)
        (k0_off192_inb L k0_t4 k k0_h7 0) (k0_off190_inb L k0_t4 k k0_h7 4) (k0_off187_inb L k0_t4 k k0_h7)
        ((cf0 (k0_off192 k 64#32 0#32)).trans (by show 1024 * k.val + 64 = _; omega)) ((cf0 (k0_off190 k 64#32 0#32)).trans (by show 1024 * k.val + 64 = _; omega)) ((cf0 (k0_off187 k)).trans (by show 16 * k.val = _; omega))
        _ 0#32 (by decide) _ _ (by first | rfl | rw [Shape.reshapeEquiv_self]) rfl x⟩,
    ⟨(cf0 (k0_off190 k 0#32 48#32)).trans (by show 1024 * k.val + 48 = 1024 * k.val + 16 * 3; omega), rfl, rfl, fun x =>
      piece_agree (bufS2).view (tabS).view (ixS2).view f TT X _ k.val 0 3 hk (by omega) (by omega) hf hX (k0_off190 k 0#32 48#32) (k0_off190 k 0#32 48#32) (k0_off187 k)
        (k0_off190_inb L k0_t4 k k0_h7 3) (k0_off190_inb L k0_t4 k k0_h7 3) (k0_off187_inb L k0_t4 k k0_h7)
        ((cf0 (k0_off190 k 0#32 48#32)).trans (by show 1024 * k.val + 48 = _; omega)) ((cf0 (k0_off190 k 0#32 48#32)).trans (by show 1024 * k.val + 48 = _; omega)) ((cf0 (k0_off187 k)).trans (by show 16 * k.val = _; omega))
        _ 48#32 (by decide) _ _ (by first | rfl | rw [Shape.reshapeEquiv_self]) rfl x⟩,
    ⟨(cf0 (k0_off190 k 0#32 32#32)).trans (by show 1024 * k.val + 32 = 1024 * k.val + 16 * 2; omega), rfl, rfl, fun x =>
      piece_agree (bufS2).view (tabS).view (ixS2).view f TT X _ k.val 0 2 hk (by omega) (by omega) hf hX (k0_off190 k 0#32 32#32) (k0_off190 k 0#32 32#32) (k0_off187 k)
        (k0_off190_inb L k0_t4 k k0_h7 2) (k0_off190_inb L k0_t4 k k0_h7 2) (k0_off187_inb L k0_t4 k k0_h7)
        ((cf0 (k0_off190 k 0#32 32#32)).trans (by show 1024 * k.val + 32 = _; omega)) ((cf0 (k0_off190 k 0#32 32#32)).trans (by show 1024 * k.val + 32 = _; omega)) ((cf0 (k0_off187 k)).trans (by show 16 * k.val = _; omega))
        _ 32#32 (by decide) _ _ (by first | rfl | rw [Shape.reshapeEquiv_self]) rfl x⟩,
    ⟨(cf0 (k0_off190 k 0#32 16#32)).trans (by show 1024 * k.val + 16 = 1024 * k.val + 16 * 1; omega), rfl, rfl, fun x =>
      piece_agree (bufS2).view (tabS).view (ixS2).view f TT X _ k.val 0 1 hk (by omega) (by omega) hf hX (k0_off190 k 0#32 16#32) (k0_off190 k 0#32 16#32) (k0_off187 k)
        (k0_off190_inb L k0_t4 k k0_h7 1) (k0_off190_inb L k0_t4 k k0_h7 1) (k0_off187_inb L k0_t4 k k0_h7)
        ((cf0 (k0_off190 k 0#32 16#32)).trans (by show 1024 * k.val + 16 = _; omega)) ((cf0 (k0_off190 k 0#32 16#32)).trans (by show 1024 * k.val + 16 = _; omega)) ((cf0 (k0_off187 k)).trans (by show 16 * k.val = _; omega))
        _ 16#32 (by decide) _ _ (by first | rfl | rw [Shape.reshapeEquiv_self]) rfl x⟩,
    ⟨(cf0 (k0_off190 k 0#32 0#32)).trans (by show 1024 * k.val + 0 = 1024 * k.val + 16 * 0; omega), rfl, rfl, fun x =>
      piece_agree (bufS2).view (tabS).view (ixS2).view f TT X _ k.val 0 0 hk (by omega) (by omega) hf hX (k0_off190 k 0#32 0#32) (k0_off188 k) (k0_off187 k)
        (k0_off190_inb L k0_t4 k k0_h7 0) (k0_off188_inb L k0_t4 k k0_h7) (k0_off187_inb L k0_t4 k k0_h7)
        ((cf0 (k0_off190 k 0#32 0#32)).trans (by show 1024 * k.val + 0 = _; omega)) ((cf0 (k0_off188 k)).trans (by show 1024 * k.val = _; omega)) ((cf0 (k0_off187 k)).trans (by show 16 * k.val = _; omega))
        _ 0#32 (by decide) _ _ (by first | rfl | rw [Shape.reshapeEquiv_self]) rfl x⟩,
    trivial⟩

/-- The whole loop, in continuation form: from the three buffers, the program goes on with every row done. -/
theorem loop7_spec (hX : ∀ j, BitVec.toNat ((ixS2).view.read (Elt F) X j) < 16) (v1 v21 v90 c3_i32_55 v91 v93 c0_i32_57 : BitVec 32) (k0_t4 : Fin (k0_t4_loop L).trips) (k0_h7 : k0_cond7 L k0_t4 = 1#1) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS2).view.loc (thrV d L) ↦{fullShare} X)
        ∗ ((bufS2).view.loc (thrV d L) ↦{fullShare} B)
        ∗ (∀ acc f, (⌜∀ y, (bufS2).view.read (Elt F) f y
              = stage ((bufS2).view.read (Elt F) B) ((tabS).view.read (Elt F) TT) ((ixS2).view.read (Elt F) X) 400 y⌝
              ∗ ((tabS).view.loc (thrV d L) ↦{fullShare} TT) ∗ ((ixS2).view.loc (thrV d L) ↦{fullShare} X)
              ∗ ((bufS2).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t7_loop (k0_t7_ok L k0_t4 k0_h7) init (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7) >>= kk) Q := by
  iintro ⟨Ht, Hx, Hb, Hk⟩
  iapply (Scf.wp_for_bind frame (wpE (defs₀ (F := F)) 𝒱₀ (thrV d L) none) Set.univ k0_t7_loop.lb k0_t7_loop.ub k0_t7_loop.st (k0_t7_ok L k0_t4 k0_h7) init
    (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7) (inv7 d L TT X B) (step7 d L TT X B hX v1 v21 v90 c3_i32_55 v91 v93 c0_i32_57 k0_t4 k0_h7)) $$ [Ht Hx Hb]
  · unfold inv7
    isplitl [Ht]; · iexact Ht
    isplitl [Hx]; · iexact Hx
    iexists B; isplitl [Hb]; · iexact Hb
    ipureintro
    intro y
    unfold stage
    rw [if_neg (by omega)]
  iintro %acc HI
  unfold inv7
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KStepA.lean ====
/-
  One trip of the main loop, when it is not the last: all three slots take their turn and the next fetch into slot 0
  is issued. The two pieces in flight at the head come back done, turn j's piece goes out and comes back done, turns
  j+1 and j+2 go out, turn j+3 is fetched; the invariant holds at the next trip.
-/
import proofs.«216121_g54726473285929_cont_9to1_m_355_3_alg».proof.Proof.KOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KOff
import proofs.«216121_g54726473285929_cont_9to1_m_355_3_alg».proof.Proof.KVal
import proofs.«216121_g54726473285929_cont_9to1_m_355_3_alg».proof.Proof.KSep
import proofs.«216121_g54726473285929_cont_9to1_m_355_3_alg».proof.Proof.KGeom
import proofs.«216121_g54726473285929_cont_9to1_m_355_3_alg».proof.Proof.KMain
import proofs.«216121_g54726473285929_cont_9to1_m_355_3_alg».proof.Proof.KLoop5
import proofs.«216121_g54726473285929_cont_9to1_m_355_3_alg».proof.Proof.KLoop6
import proofs.«216121_g54726473285929_cont_9to1_m_355_3_alg».proof.Proof.KLoop7

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_mid (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : k.val + 1 < (k0_t4_loop L).trips) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · have hpost : ∀ a, invM d L O W ff gf ix fo TTc qf qi (k.val + 1) a = invA d L O W ff gf ix fo TTc qf qi (k.val + 1) := by
      intro a; unfold invM; rw [if_pos hmid]
    have hn : 3 * k.val + 7 ≤ nkL L := by omega
    have k0_h4 : k0_cond4 L k = 1#1 := c4.mpr (by omega)
    have k0_h5 : k0_cond5 L k = 1#1 := c5.mpr (by omega)
    have k0_h6 : k0_cond6 L k = 1#1 := c6.mpr (by omega)
    have k0_h7 : k0_cond7 L k = 1#1 := c7.mpr (by omega)
    have k0_h8 : k0_cond8 L k = 1#1 := c8.mpr (by omega)
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
        rw [k0_off147_eq L k, Matrix.cons_val_zero]; unfold wid; omega
    have o184 : k0_off184 L k 0 = 25600 * (wid L + 32 * (3 * k.val + 4)) := by
        rw [k0_off184_eq L k, Matrix.cons_val_zero]; unfold wid; omega
    have o221 : k0_off221 L k 0 = 25600 * (wid L + 32 * (3 * k.val + 5)) := by
        rw [k0_off221_eq L k, Matrix.cons_val_zero]; unfold wid; omega
    unfold invA k0_t4_body
    iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
    unfold outFl inFlF inFlI landed outside outsideSl
    ihave Hp := (Entails.of_eq hs) $$ Hpc
    icases Hp with ⟨Hpj, Hpj1, Hpj2, Hrest⟩
    ihave Hpj := (Entails.of_eq (Pp_slice (F := F) d L fo (3 * k.val + 3) (by omega) (k0_off147 L k) (k0_off147_inb L k) o147 (by have := (hnkt (3 * k.val + 3)).mp (by omega); omega))) $$ Hpj
    ihave Hpj1 := (Entails.of_eq (Pp_slice (F := F) d L fo (3 * k.val + 3 + 1) (by omega) (k0_off184 L k) (k0_off184_inb L k k0_h5) o184 (by have := (hnkt (3 * k.val + 4)).mp (by omega); omega))) $$ Hpj1
    ihave Hpj2 := (Entails.of_eq (Pp_slice (F := F) d L fo (3 * k.val + 3 + 2) (by omega) (k0_off221 L k) (k0_off221_inb L k k0_h7) o221 (by have := (hnkt (3 * k.val + 5)).mp (by omega); omega))) $$ Hpj2
    sl_exec_parts
    iapply (loop5_spec (F := F) d L _ _ _ ?hX5 _ _ _ _ _ _ _ _ _ _)
    rotate_left
    isplitl [Ht]; · iexact Ht
    isplitl [Hs3_dst]; · iexact Hs3_dst
    isplitl [Hs0_dst]; · iexact Hs0_dst
    iintro %acc5 %n0 ⟨%hn0, Ht, Hx0, Hb0⟩
    sl_exec_parts
    iapply (loop6_spec (F := F) d L _ _ _ ?hX6 _ _ _ _ _ _ _ k k0_h5 _ _ _)
    rotate_left
    isplitl [Ht]; · iexact Ht
    isplitl [Hx1]; · iexact Hx1
    isplitl [Hb1]; · iexact Hb1
    iintro %acc6 %n1 ⟨%hn1, Ht, Hx1, Hb1⟩
    sl_exec_parts
    iapply (loop7_spec (F := F) d L _ _ _ ?hX7 _ _ _ _ _ _ _ k k0_h7 _ _ _)
    rotate_left
    isplitl [Ht]; · iexact Ht
    isplitl [Hx2]; · iexact Hx2
    isplitl [Hb2]; · iexact Hb2
    iintro %acc7 %n2 ⟨%hn2, Ht, Hx2, Hb2⟩
    sl_exec_parts
    sl_step
    rw [hpost]
    sl_unfold_run_names
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hj4 : wid L + 32 * (3 * (k.val + 1) + 1) < 2500 := (hnkt _).mp (by omega)
    have hj5 : wid L + 32 * (3 * (k.val + 1) + 2) < 2500 := (hnkt _).mp (by omega)
    have hj6 : wid L + 32 * (3 * (k.val + 1) + 3) < 2500 := (hnkt _).mp (by omega)
    have o184' : k0_off184 L k 0 = 25600 * (wid L + 32 * (3 * (k.val + 1) + 1)) := o184.trans (by omega)
    have o221' : k0_off221 L k 0 = 25600 * (wid L + 32 * (3 * (k.val + 1) + 2)) := o221.trans (by omega)
    have o185 : k0_off185 L k 0 = 25600 * (wid L + 32 * (3 * (k.val + 1) + 3)) := by
        rw [k0_off185_eq L k, Matrix.cons_val_zero]; unfold wid; omega
    have o186 : k0_off186 L k 0 = 400 * (wid L + 32 * (3 * (k.val + 1) + 3)) := by
        rw [k0_off186_eq L k, Matrix.cons_val_zero]; unfold wid; omega
    have o111 : k0_off111 L k 0 = 25600 * (wid L + 32 * (3 * (k.val + 1) + 1)) := by
        rw [k0_off111_eq L k, Matrix.cons_val_zero]; unfold wid; omega
    have o112 : k0_off112 L k 0 = 400 * (wid L + 32 * (3 * (k.val + 1) + 1)) := by
        rw [k0_off112_eq L k, Matrix.cons_val_zero]; unfold wid; omega
    have o148 : k0_off148 L k 0 = 25600 * (wid L + 32 * (3 * (k.val + 1) + 2)) := by
        rw [k0_off148_eq L k, Matrix.cons_val_zero]; unfold wid; omega
    have o149 : k0_off149 L k 0 = 400 * (wid L + 32 * (3 * (k.val + 1) + 2)) := by
        rw [k0_off149_eq L k, Matrix.cons_val_zero]; unfold wid; omega
    have hc0 : IsChunk d L ff gf ix bufS0 n0 (3 * k.val + 3) :=
      isChunk_of_stage d L ff gf ix TTc bufS0 ixS0 n0 _ _ (3 * k.val + 3) hj3 hTT hn0
        (fun y => by exact landF (F := F) d L ff bufS0 _ (cOff L (3 * k.val + 3)) (cOff_inb L _) (3 * k.val + 3) hj3 (by show 25600 * gOf L _ = _; rw [gOf_eq L hj3]) y)
        (fun r => by exact landI (F := F) d L ix ixS0 _ (iOff L (3 * k.val + 3)) (iOff_inb L _) (3 * k.val + 3) hj3 (by show 400 * gOf L _ = _; rw [gOf_eq L hj3]) r)
    have hc1' : IsChunk d L ff gf ix bufS1 n1 (3 * (k.val + 1) + 1) :=
      isChunk_of_stage d L ff gf ix TTc bufS1 ixS1 n1 _ _ (3 * (k.val + 1) + 1) hj4 hTT hn1
        (fun y => by sl_unfold_run_names; exact landF (F := F) d L ff bufS1 _ (k0_off111 L k) (k0_off111_inb L k k0_h4) (3 * (k.val + 1) + 1) hj4 o111 y)
        (fun r => by sl_unfold_run_names; exact landI (F := F) d L ix ixS1 _ (k0_off112 L k) (k0_off112_inb L k k0_h4) (3 * (k.val + 1) + 1) hj4 o112 r)
    have hc2' : IsChunk d L ff gf ix bufS2 n2 (3 * (k.val + 1) + 2) :=
      isChunk_of_stage d L ff gf ix TTc bufS2 ixS2 n2 _ _ (3 * (k.val + 1) + 2) hj5 hTT hn2
        (fun y => by sl_unfold_run_names; exact landF (F := F) d L ff bufS2 _ (k0_off148 L k) (k0_off148_inb L k k0_h5 k0_h6) (3 * (k.val + 1) + 2) hj5 o148 y)
        (fun r => by sl_unfold_run_names; exact landI (F := F) d L ix ixS2 _ (k0_off149 L k) (k0_off149_inb L k k0_h5 k0_h6) (3 * (k.val + 1) + 2) hj5 o149 r)
    ihave Hd1 := (Entails.of_eq (Dp_agree (F := F) d L ff gf ix (3 * k.val + 1) (by omega) (cOff L (3 * k.val + 1)) (cOff_inb L _)
        (by show 25600 * gOf L _ = _; rw [gOf_eq L hj1]) hj1 _ ?hag1)) $$ Hs7_dst
    case hag1 => intro y; exact (writes_whole_emb (F := F) d _ _ _ _ y).trans (hc1 y)
    ihave Hd2 := (Entails.of_eq (Dp_agree (F := F) d L ff gf ix (3 * k.val + 2) (by omega) (cOff L (3 * k.val + 2)) (cOff_inb L _)
        (by show 25600 * gOf L _ = _; rw [gOf_eq L hj2]) hj2 _ ?hag2)) $$ Hs8_dst
    case hag2 => intro y; exact (writes_whole_emb (F := F) d _ _ _ _ y).trans (hc2 y)
    ihave Hd3 := (Entails.of_eq (Dp_agree (F := F) d L ff gf ix (3 * k.val + 3) (by omega) (k0_off147 L k) (k0_off147_inb L k) o147 hj3 _ ?hag3)) $$ Hpj
    case hag3 => intro y; exact (writes_whole_emb (F := F) d _ _ _ _ y).trans (hc0 y)
    have f1 : 3 * (k.val + 1) + 1 = 3 * k.val + 3 + 1 := by omega
    have f2 : 3 * (k.val + 1) + 2 = 3 * k.val + 3 + 2 := by omega
    have f3 : 3 * (k.val + 1) + 3 = 3 * k.val + 3 + 3 := by omega
    have ht := tail_join (Pp d L fo) (Dp d L ff gf ix) (3 * k.val + 3) (by omega) (by omega)
    rw [e1, e2, ← f1, ← f2, ← f3] at ht
    ihave Hpc := (Entails.of_eq ht) $$ [Hd1 Hd2 Hd3 Hrest]
    · isplitl [Hd1]; · iexact Hd1
      isplitl [Hd2]; · iexact Hd2
      isplitl [Hd3]; · iexact Hd3
      iexact Hrest
    ihave Hs7 := (Entails.of_eq (outFl_congr (F := F) d L _ bufS1 (cOff_eq L hj4 _ o184') (k0_off184_inb L k k0_h5) (cOff_inb L _) fo n1)) $$ Hs7
    ihave Hs8 := (Entails.of_eq (outFl_congr (F := F) d L _ bufS2 (cOff_eq L hj5 _ o221') (k0_off221_inb L k k0_h7) (cOff_inb L _) fo n2)) $$ Hs8
    ihave Hs0 := (Entails.of_eq (inFlF_congr (F := F) d L _ bufS0 (Transfers.shareTokN qf 0) ff (cOff_eq L hj6 _ o185) (k0_off185_inb L k k0_h7 k0_h8) (cOff_inb L _) n0)) $$ Hs0
    ihave Hf0 := (Entails.of_eq (remF_congr (F := F) d L ff (Transfers.shareTokN qf 0) (cOff_eq L hj6 _ o185) (k0_off185_inb L k k0_h7 k0_h8) (cOff_inb L _))) $$ Hf0
    ihave Hs3 := (Entails.of_eq (inFlI_congr (F := F) d L _ ixS0 (Transfers.shareTokN qi 3) ix (iOff_eq L hj6 _ o186) (k0_off186_inb L k k0_h7 k0_h8) (iOff_inb L _) _)) $$ Hs3
    ihave Hi3 := (Entails.of_eq (remI_congr (F := F) d L ix (Transfers.shareTokN qi 3) (iOff_eq L hj6 _ o186) (k0_off186_inb L k k0_h7 k0_h8) (iOff_inb L _))) $$ Hi3
    unfold invA outFl inFlF inFlI landed outside outsideSl
    iexists n1, n2, n0, _, _, _, _
    isplitr
    swap
    · isplitl [Hmw]; · iexact Hmw
      isplitl [HO]; · iexact HO
      isplitl [Ht]; · iexact Ht
      isplitl [Hpc]; · iexact Hpc
      isplitl [Hs7]; · iexact Hs7
      isplitl [Hb1]; · iexact Hb1
      isplitl [Hs8]; · iexact Hs8
      isplitl [Hb2]; · iexact Hb2
      isplitl [Hs0]; · iexact Hs0
      isplitl [Hf0]; · iexact Hf0
      isplitl [Hs3]; · iexact Hs3
      isplitl [Hi3]; · iexact Hi3
      isplitl [Hf1]; · iexact Hf1
      isplitl [Hf2]; · iexact Hf2
      isplitl [Hi4]; · iexact Hi4
      isplitl [Hi5]; · iexact Hi5
      isplitl [Hx1]; · iexact Hx1
      isplitl [Hx2]; · iexact Hx2
      isplitl [Hs1]; · iexact Hs1
      isplitl [Hs2]; · iexact Hs2
      isplitl [Hs4]; · iexact Hs4
      isplitl [Hs5]; · iexact Hs5
      iexact Hs6
    · ipureintro
      refine ⟨fun p hp => ?_, hc1', hc2'⟩
      simp only [Finset.mem_insert] at hp
      rcases hp with rfl | rfl | rfl | rfl | rfl | rfl | rfl | rfl | rfl | hp
      all_goals first | exact .inr rfl | exact hW' p hp
    · intro j; exact landI_lt (F := F) d L ix hix ixS0 _ _ _ j
    · intro j; sl_unfold_run_names; exact landI_lt (F := F) d L ix hix ixS1 _ _ _ j
    · intro j; sl_unfold_run_names; exact landI_lt (F := F) d L ix hix ixS2 _ _ _ j

end Step

end Cert.Kernel.Hand

end
-- ==== Proof.KStepB.lean ====
/-
  The last trip of the main loop on a tile with 78 chunks: all three slots take their turn, nothing more is fetched;
  afterwards the last three turns are on their way out and every other turn is done.
-/
import proofs.«216121_g54726473285929_cont_9to1_m_355_3_alg».proof.Proof.KOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KOff
import proofs.«216121_g54726473285929_cont_9to1_m_355_3_alg».proof.Proof.KVal
import proofs.«216121_g54726473285929_cont_9to1_m_355_3_alg».proof.Proof.KSep
import proofs.«216121_g54726473285929_cont_9to1_m_355_3_alg».proof.Proof.KGeom
import proofs.«216121_g54726473285929_cont_9to1_m_355_3_alg».proof.Proof.KMain
import proofs.«216121_g54726473285929_cont_9to1_m_355_3_alg».proof.Proof.KLoop5
import proofs.«216121_g54726473285929_cont_9to1_m_355_3_alg».proof.Proof.KLoop6
import proofs.«216121_g54726473285929_cont_9to1_m_355_3_alg».proof.Proof.KLoop7

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_78 (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : ¬ k.val + 1 < (k0_t4_loop L).trips) (hnk : nkL L = 78) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · -- the last trip
    have hend : k.val + 1 = (k0_t4_loop L).trips := by omega
    have hpost : ∀ a, invM d L O W ff gf ix fo TTc qf qi (k.val + 1) a = invB d L O W ff gf ix fo TTc qf qi := by
      intro a; unfold invM; rw [if_neg hmid]
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
        rw [k0_off147_eq L k, Matrix.cons_val_zero]; unfold wid; omega
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hPD : ∀ t, nkL L ≤ t → Pp d L fo t = Dp d L ff gf ix t := by
      intro t ht
      unfold Pp Dp tsetN
      by_cases h81 : t < 81
      · rw [dif_pos h81, Cert.Proof.Deal.tset_empty _ (by show 2500 ≤ 2 * (iL L).val + (cL L).val + 32 * t; have := (hnkt t).not.mp (by omega); unfold wid at this; show 2500 ≤ 2 * (L 1).val + (L 0).val + 32 * t; omega)]
        exact pointsTo_congr (fun i hi => absurd hi (Finset.notMem_empty i))
      · rw [dif_neg h81]
        exact pointsTo_congr (fun i hi => absurd hi (Finset.notMem_empty i))
    · -- 78 chunks: turns j, j+1, j+2 all run; only the next fetch into slot 0 is skipped
      have hk24 : 3 * k.val + 6 = nkL L := by omega
      have k0_h4 : k0_cond4 L k = 1#1 := c4.mpr (by omega)
      have k0_h5 : k0_cond5 L k = 1#1 := c5.mpr (by omega)
      have k0_h6 : k0_cond6 L k = 1#1 := c6.mpr (by omega)
      have k0_h7 : k0_cond7 L k = 1#1 := c7.mpr (by omega)
      have k0_n8 : ¬ k0_cond8 L k = 1#1 := fun h => by have := c8.mp h; omega
      have o184 : k0_off184 L k 0 = 25600 * (wid L + 32 * (3 * k.val + 3 + 1)) := by
        rw [k0_off184_eq L k, Matrix.cons_val_zero]; unfold wid; omega
      have o221 : k0_off221 L k 0 = 25600 * (wid L + 32 * (3 * k.val + 3 + 2)) := by
        rw [k0_off221_eq L k, Matrix.cons_val_zero]; unfold wid; omega
      have hj4 : wid L + 32 * (3 * k.val + 3 + 1) < 2500 := (hnkt _).mp (by omega)
      have hj5 : wid L + 32 * (3 * k.val + 3 + 2) < 2500 := (hnkt _).mp (by omega)
      have o111 : k0_off111 L k 0 = 25600 * (wid L + 32 * (3 * k.val + 3 + 1)) := by
        rw [k0_off111_eq L k, Matrix.cons_val_zero]; unfold wid; omega
      have o112 : k0_off112 L k 0 = 400 * (wid L + 32 * (3 * k.val + 3 + 1)) := by
        rw [k0_off112_eq L k, Matrix.cons_val_zero]; unfold wid; omega
      have o148 : k0_off148 L k 0 = 25600 * (wid L + 32 * (3 * k.val + 3 + 2)) := by
        rw [k0_off148_eq L k, Matrix.cons_val_zero]; unfold wid; omega
      have o149 : k0_off149 L k 0 = 400 * (wid L + 32 * (3 * k.val + 3 + 2)) := by
        rw [k0_off149_eq L k, Matrix.cons_val_zero]; unfold wid; omega
      unfold invA k0_t4_body
      iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
      unfold outFl inFlF inFlI landed outside outsideSl
      ihave Hp := (Entails.of_eq hs) $$ Hpc
      icases Hp with ⟨Hpj, Hpj1, Hpj2, Hrest⟩
      ihave Hpj := (Entails.of_eq (Pp_slice (F := F) d L fo (3 * k.val + 3) (by omega) (k0_off147 L k) (k0_off147_inb L k) o147 hj3)) $$ Hpj
      ihave Hpj1 := (Entails.of_eq (Pp_slice (F := F) d L fo (3 * k.val + 3 + 1) (by omega) (k0_off184 L k) (k0_off184_inb L k k0_h5) o184 hj4)) $$ Hpj1
      ihave Hpj2 := (Entails.of_eq (Pp_slice (F := F) d L fo (3 * k.val + 3 + 2) (by omega) (k0_off221 L k) (k0_off221_inb L k k0_h7) o221 hj5)) $$ Hpj2
      sl_exec_parts
      iapply (loop5_spec (F := F) d L _ _ _ ?hX5 _ _ _ _ _ _ _ _ _ _)
      rotate_left
      isplitl [Ht]; · iexact Ht
      isplitl [Hs3_dst]; · iexact Hs3_dst
      isplitl [Hs0_dst]; · iexact Hs0_dst
      iintro %acc5 %n0 ⟨%hn0, Ht, Hx0, Hb0⟩
      sl_exec_parts
      iapply (loop6_spec (F := F) d L _ _ _ ?hX6 _ _ _ _ _ _ _ k k0_h5 _ _ _)
      rotate_left
      isplitl [Ht]; · iexact Ht
      isplitl [Hx1]; · iexact Hx1
      isplitl [Hb1]; · iexact Hb1
      iintro %acc6 %n1 ⟨%hn1, Ht, Hx1, Hb1⟩
      sl_exec_parts
      iapply (loop7_spec (F := F) d L _ _ _ ?hX7 _ _ _ _ _ _ _ k k0_h7 _ _ _)
      rotate_left
      isplitl [Ht]; · iexact Ht
      isplitl [Hx2]; · iexact Hx2
      isplitl [Hb2]; · iexact Hb2
      iintro %acc7 %n2 ⟨%hn2, Ht, Hx2, Hb2⟩
      sl_exec_parts
      sl_step
      rw [hpost]
      sl_unfold_run_names
      have hc0 : IsChunk d L ff gf ix bufS0 n0 (3 * k.val + 3) :=
        isChunk_of_stage d L ff gf ix TTc bufS0 ixS0 n0 _ _ (3 * k.val + 3) hj3 hTT hn0
          (fun y => by exact landF (F := F) d L ff bufS0 _ (cOff L (3 * k.val + 3)) (cOff_inb L _) (3 * k.val + 3) hj3 (by show 25600 * gOf L _ = _; rw [gOf_eq L hj3]) y)
          (fun r => by exact landI (F := F) d L ix ixS0 _ (iOff L (3 * k.val + 3)) (iOff_inb L _) (3 * k.val + 3) hj3 (by show 400 * gOf L _ = _; rw [gOf_eq L hj3]) r)
      have hc1' : IsChunk d L ff gf ix bufS1 n1 (3 * k.val + 3 + 1) :=
        isChunk_of_stage d L ff gf ix TTc bufS1 ixS1 n1 _ _ (3 * k.val + 3 + 1) hj4 hTT hn1
          (fun y => by sl_unfold_run_names; exact landF (F := F) d L ff bufS1 _ (k0_off111 L k) (k0_off111_inb L k k0_h4) (3 * k.val + 3 + 1) hj4 o111 y)
          (fun r => by sl_unfold_run_names; exact landI (F := F) d L ix ixS1 _ (k0_off112 L k) (k0_off112_inb L k k0_h4) (3 * k.val + 3 + 1) hj4 o112 r)
      have hc2' : IsChunk d L ff gf ix bufS2 n2 (3 * k.val + 3 + 2) :=
        isChunk_of_stage d L ff gf ix TTc bufS2 ixS2 n2 _ _ (3 * k.val + 3 + 2) hj5 hTT hn2
          (fun y => by sl_unfold_run_names; exact landF (F := F) d L ff bufS2 _ (k0_off148 L k) (k0_off148_inb L k k0_h5 k0_h6) (3 * k.val + 3 + 2) hj5 o148 y)
          (fun r => by sl_unfold_run_names; exact landI (F := F) d L ix ixS2 _ (k0_off149 L k) (k0_off149_inb L k k0_h5 k0_h6) (3 * k.val + 3 + 2) hj5 o149 r)
      ihave Hd1 := (Entails.of_eq (Dp_agree (F := F) d L ff gf ix (3 * k.val + 1) (by omega) (cOff L (3 * k.val + 1)) (cOff_inb L _)
          (by show 25600 * gOf L _ = _; rw [gOf_eq L hj1]) hj1 _ ?hag1)) $$ Hs7_dst
      case hag1 => intro y; exact (writes_whole_emb (F := F) d _ _ _ _ y).trans (hc1 y)
      ihave Hd2 := (Entails.of_eq (Dp_agree (F := F) d L ff gf ix (3 * k.val + 2) (by omega) (cOff L (3 * k.val + 2)) (cOff_inb L _)
          (by show 25600 * gOf L _ = _; rw [gOf_eq L hj2]) hj2 _ ?hag2)) $$ Hs8_dst
      case hag2 => intro y; exact (writes_whole_emb (F := F) d _ _ _ _ y).trans (hc2 y)
      have hf := fin_b (Pp d L fo) (Dp d L ff gf ix) (3 * k.val + 3) (nkL L) (by omega) (by omega) (by omega) hPD
      rw [e1, e2] at hf
      ihave Hpc := (Entails.of_eq hf) $$ [Hd1 Hd2 Hrest]
      · isplitl [Hd1]; · iexact Hd1
        isplitl [Hd2]; · iexact Hd2
        iexact Hrest
      ihave Hs6 := (Entails.of_eq (outFl_congr (F := F) d L _ bufS0 (cOff_eq L hj3 _ o147) (k0_off147_inb L k) (cOff_inb L _) fo n0)) $$ Hs6
      ihave Hs7 := (Entails.of_eq (outFl_congr (F := F) d L _ bufS1 (cOff_eq L hj4 _ o184) (k0_off184_inb L k k0_h5) (cOff_inb L _) fo n1)) $$ Hs7
      ihave Hs8 := (Entails.of_eq (outFl_congr (F := F) d L _ bufS2 (cOff_eq L hj5 _ o221) (k0_off221_inb L k k0_h7) (cOff_inb L _) fo n2)) $$ Hs8
      unfold invB outFl outside
      iexists (3 * k.val + 3), (3 * k.val + 3 + 1), (3 * k.val + 3 + 2), n0, n1, n2, _, _, _, _
      isplitr
      swap
      ·
        isplitl [Hmw]; · iexact Hmw
        isplitl [HO]; · iexact HO
        isplitl [Ht]; · iexact Ht
        isplitl [Hpc]; · iexact Hpc
        isplitl [Hs6]; · iexact Hs6
        isplitl [Hb0]; · iexact Hb0
        isplitl [Hs7]; · iexact Hs7
        isplitl [Hb1]; · iexact Hb1
        isplitl [Hs8]; · iexact Hs8
        isplitl [Hb2]; · iexact Hb2
        isplitl [Hf0]; · iexact Hf0
        isplitl [Hf1]; · iexact Hf1
        isplitl [Hf2]; · iexact Hf2
        isplitl [Hi3]; · iexact Hi3
        isplitl [Hi4]; · iexact Hi4
        isplitl [Hi5]; · iexact Hi5
        isplitl [Hx0]; · iexact Hx0
        isplitl [Hx1]; · iexact Hx1
        isplitl [Hx2]; · iexact Hx2
        isplitl [Hs0]; · iexact Hs0
        isplitl [Hs1]; · iexact Hs1
        isplitl [Hs2]; · iexact Hs2
        isplitl [Hs3]; · iexact Hs3
        isplitl [Hs4]; · iexact Hs4
        iexact Hs5
      · ipureintro
        refine ⟨?_, by omega, by omega, by omega, by omega, by omega, by omega, hc0, hc1', hc2'⟩
        first | exact hW' | exact ins_ok W (ins_ok W (ins_ok W hW' _) _) _ | exact ins_ok W (ins_ok W (ins_ok W (ins_ok W (ins_ok W (ins_ok W (ins_ok W (ins_ok W hW' _) _) _) _) _) _) _) _ | exact ins_ok W (ins_ok W (ins_ok W (ins_ok W (ins_ok W (ins_ok W (ins_ok W (ins_ok W (ins_ok W hW' _) _) _) _) _) _) _) _) _ | exact ins_ok W (ins_ok W (ins_ok W (ins_ok W (ins_ok W (ins_ok W (ins_ok W hW' _) _) _) _) _) _) _ | exact ins_ok W (ins_ok W (ins_ok W (ins_ok W (ins_ok W (ins_ok W hW' _) _) _) _) _) _ | exact ins_ok W (ins_ok W (ins_ok W (ins_ok W (ins_ok W hW' _) _) _) _) _ | exact ins_ok W (ins_ok W (ins_ok W (ins_ok W hW' _) _) _) _ | exact ins_ok W (ins_ok W hW' _) _ | exact ins_ok W hW' _
      · intro j; exact landI_lt (F := F) d L ix hix ixS0 _ _ _ j
      · intro j; sl_unfold_run_names; exact landI_lt (F := F) d L ix hix ixS1 _ _ _ j
      · intro j; sl_unfold_run_names; exact landI_lt (F := F) d L ix hix ixS2 _ _ _ j

end Step

end Cert.Kernel.Hand

end
-- ==== Proof.KStepC.lean ====
/-
  The last trip of the main loop on a tile with 79 chunks: only slot 0 takes its turn; afterwards the last three
  turns are on their way out (two of them since the previous trip) and every other turn is done.
-/
import proofs.«216121_g54726473285929_cont_9to1_m_355_3_alg».proof.Proof.KOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KOff
import proofs.«216121_g54726473285929_cont_9to1_m_355_3_alg».proof.Proof.KVal
import proofs.«216121_g54726473285929_cont_9to1_m_355_3_alg».proof.Proof.KSep
import proofs.«216121_g54726473285929_cont_9to1_m_355_3_alg».proof.Proof.KGeom
import proofs.«216121_g54726473285929_cont_9to1_m_355_3_alg».proof.Proof.KMain
import proofs.«216121_g54726473285929_cont_9to1_m_355_3_alg».proof.Proof.KLoop5
import proofs.«216121_g54726473285929_cont_9to1_m_355_3_alg».proof.Proof.KLoop6
import proofs.«216121_g54726473285929_cont_9to1_m_355_3_alg».proof.Proof.KLoop7

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_79 (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : ¬ k.val + 1 < (k0_t4_loop L).trips) (hnk : nkL L = 79) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · -- the last trip
    have hend : k.val + 1 = (k0_t4_loop L).trips := by omega
    have hpost : ∀ a, invM d L O W ff gf ix fo TTc qf qi (k.val + 1) a = invB d L O W ff gf ix fo TTc qf qi := by
      intro a; unfold invM; rw [if_neg hmid]
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
      rw [k0_off147_eq L k, Matrix.cons_val_zero]
      unfold wid; omega
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hPD : ∀ t, nkL L ≤ t → Pp d L fo t = Dp d L ff gf ix t := by
      intro t ht
      unfold Pp Dp tsetN
      by_cases h81 : t < 81
      · rw [dif_pos h81, Cert.Proof.Deal.tset_empty _ (by show 2500 ≤ 2 * (iL L).val + (cL L).val + 32 * t; have := (hnkt t).not.mp (by omega); unfold wid at this; show 2500 ≤ 2 * (L 1).val + (L 0).val + 32 * t; omega)]
        exact pointsTo_congr (fun i hi => absurd hi (Finset.notMem_empty i))
      · rw [dif_neg h81]
        exact pointsTo_congr (fun i hi => absurd hi (Finset.notMem_empty i))
    · -- 79 chunks: only turn j runs
      have hk25 : 3 * k.val + 4 = nkL L := by omega
      have k0_n4 : ¬ k0_cond4 L k = 1#1 := fun h => by have := c4.mp h; omega
      have k0_n5 : ¬ k0_cond5 L k = 1#1 := fun h => by have := c5.mp h; omega
      have k0_n7 : ¬ k0_cond7 L k = 1#1 := fun h => by have := c7.mp h; omega
      unfold invA k0_t4_body
      iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
      ihave Hp := (Entails.of_eq hs) $$ Hpc
      icases Hp with ⟨Hpj, Hpj1, Hpj2, Hrest⟩
      ihave Hpj := (Entails.of_eq (Pp_slice (F := F) d L fo (3 * k.val + 3) (by omega) (k0_off147 L k) (k0_off147_inb L k) o147 hj3)) $$ Hpj
      sl_exec_parts
      iapply (loop5_spec (F := F) d L _ _ _ ?hX5 _ _ _ _ _ _ _ _ _ _)
      rotate_left
      isplitl [Ht]; · iexact Ht
      isplitl [Hs3_dst]; · iexact Hs3_dst
      isplitl [Hs0_dst]; · iexact Hs0_dst
      iintro %acc5 %n0 ⟨%hn0, Ht, Hx0, Hb0⟩
      sl_exec_parts
      sl_step
      rw [hpost]
      sl_unfold_run_names
      have hc0 : IsChunk d L ff gf ix bufS0 n0 (3 * k.val + 3) :=
        isChunk_of_stage d L ff gf ix TTc bufS0 ixS0 n0 _ _ (3 * k.val + 3) hj3 hTT hn0
          (fun y => landF d L ff bufS0 b0 (cOff L (3 * k.val + 3)) (cOff_inb L _) (3 * k.val + 3) hj3
            ((congrFun (cOff_eq L hj3 (k0_off147 L k) o147) 0).symm.trans o147) y)
          (fun r => landI d L ix ixS0 x0 (iOff L (3 * k.val + 3)) (iOff_inb L _) (3 * k.val + 3) hj3
            (by show 400 * gOf L (3 * k.val + 3) = _; rw [gOf_eq L hj3]) r)
      have hf := fin_a (Pp d L fo) (Dp d L ff gf ix) (3 * k.val + 3) (nkL L) (by omega) (by omega) (by omega) hPD
      rw [e1, e2] at hf
      ihave Hpc := (Entails.of_eq hf) $$ [Hpj1 Hpj2 Hrest]
      · isplitl [Hpj1]; · iexact Hpj1
        isplitl [Hpj2]; · iexact Hpj2
        iexact Hrest
      have hset : (Finset.range 81 \ {3 * k.val + 1, 3 * k.val + 2, 3 * k.val + 3} : Finset ℕ)
          = Finset.range 81 \ {3 * k.val + 3, 3 * k.val + 1, 3 * k.val + 2} := by
        ext t
        simp only [Finset.mem_sdiff, Finset.mem_range, Finset.mem_insert, Finset.mem_singleton]
        constructor <;> rintro ⟨h1, h2⟩ <;> exact ⟨h1, by omega⟩
      ihave Hpc := (Entails.of_eq (congrArg (fun S => bigSep S (Dp d L ff gf ix)) hset)) $$ Hpc
      ihave Hs6 := (Entails.of_eq (outFl_congr (F := F) d L _ bufS0 (cOff_eq L hj3 _ o147) (k0_off147_inb L k) (cOff_inb L _) fo n0)) $$ Hs6
      ihave Hf0 := ((pointsTo_split_subset (ℓ := (featV).view.loc (thrV d L)) (q := Transfers.shareTokN qf 0) (f := ff)
          (Finset.subset_univ (fSl (cOff L (3 * k.val + 3)) (cOff_inb L _)).view.set)).2) $$ [Hs0_src Hf0]
      · isplitl [Hs0_src]; · iexact Hs0_src
        iexact Hf0
      ihave Hi3 := ((pointsTo_split_subset (ℓ := (idxV).view.loc (thrV d L)) (q := Transfers.shareTokN qi 3) (f := ix)
          (Finset.subset_univ (iSl (iOff L (3 * k.val + 3)) (iOff_inb L _)).view.set)).2) $$ [Hs3_src Hi3]
      · isplitl [Hs3_src]; · iexact Hs3_src
        iexact Hi3
      unfold invB
      iexists (3 * k.val + 3), (3 * k.val + 1), (3 * k.val + 2), n0, g1, g2, _, _, _, _
      isplitr
      swap
      ·
        isplitl [Hmw]; · iexact Hmw
        isplitl [HO]; · iexact HO
        isplitl [Ht]; · iexact Ht
        isplitl [Hpc]; · iexact Hpc
        isplitl [Hs6]; · iexact Hs6
        isplitl [Hb0]; · iexact Hb0
        isplitl [Hs7]; · iexact Hs7
        isplitl [Hb1]; · iexact Hb1
        isplitl [Hs8]; · iexact Hs8
        isplitl [Hb2]; · iexact Hb2
        isplitl [Hf0]; · iexact Hf0
        isplitl [Hf1]; · iexact Hf1
        isplitl [Hf2]; · iexact Hf2
        isplitl [Hi3]; · iexact Hi3
        isplitl [Hi4]; · iexact Hi4
        isplitl [Hi5]; · iexact Hi5
        isplitl [Hx0]; · iexact Hx0
        isplitl [Hx1]; · iexact Hx1
        isplitl [Hx2]; · iexact Hx2
        isplitl [Hs0]; · iexact Hs0
        isplitl [Hs1]; · iexact Hs1
        isplitl [Hs2]; · iexact Hs2
        isplitl [Hs3]; · iexact Hs3
        isplitl [Hs4]; · iexact Hs4
        iexact Hs5
      · ipureintro
        refine ⟨?_, by omega, by omega, by omega, by omega, by omega, by omega, hc0, hc1, hc2⟩
        exact ins_ok W (ins_ok W hW' _) _
      · intro j; exact landI_lt (F := F) d L ix hix ixS0 _ _ _ j

end Step

end Cert.Kernel.Hand

end
-- ==== Proof.KStep.lean ====
/-
  One trip of the main loop keeps its invariant: by cases on whether the trip is the last, and on the tile's number
  of chunks.
-/
import proofs.«216121_g54726473285929_cont_9to1_m_355_3_alg».proof.Proof.KOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KOff
import proofs.«216121_g54726473285929_cont_9to1_m_355_3_alg».proof.Proof.KVal
import proofs.«216121_g54726473285929_cont_9to1_m_355_3_alg».proof.Proof.KSep
import proofs.«216121_g54726473285929_cont_9to1_m_355_3_alg».proof.Proof.KGeom
import proofs.«216121_g54726473285929_cont_9to1_m_355_3_alg».proof.Proof.KMain
import proofs.«216121_g54726473285929_cont_9to1_m_355_3_alg».proof.Proof.KStepA
import proofs.«216121_g54726473285929_cont_9to1_m_355_3_alg».proof.Proof.KStepB
import proofs.«216121_g54726473285929_cont_9to1_m_355_3_alg».proof.Proof.KStepC

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

/-- One trip of the main loop keeps its invariant. -/
theorem main_step (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) :
    invM d L O W ff gf ix fo TTc qf qi k acc
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  have hk : k.val < (k0_t4_loop L).trips := k.isLt
  have hpre : invM d L O W ff gf ix fo TTc qf qi k acc = invA d L O W ff gf ix fo TTc qf qi k := by
    unfold invM; rw [if_pos hk]
  rw [hpre]
  by_cases hmid : k.val + 1 < (k0_t4_loop L).trips
  · exact main_step_mid d L O W ff gf ix fo TTc qf qi hix hTT v1 v21 v90 c3_i32_55 v91 v93 c0_i32_57 k acc hmid
  · rcases (nk_cases L).2.1 with h | h
    · exact main_step_78 d L O W ff gf ix fo TTc qf qi hix hTT v1 v21 v90 c3_i32_55 v91 v93 c0_i32_57 k acc hmid h
    · exact main_step_79 d L O W ff gf ix fo TTc qf qi hix hTT v1 v21 v90 c3_i32_55 v91 v93 c0_i32_57 k acc hmid h

end Step

end Cert.Kernel.Hand

end
-- ==== Proof.KLoop1.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS0).view.loc (thrV d L)))
  (B : Buf (Elt F) ((bufS0).view.loc (thrV d L)))

/-- Before trip k: the table and the indices as they were, the row buffer at stage 16 k. -/
def inv1 (k : Nat) (_ : BitVec 32) : sProp 𝕄 :=
  iprop(((tabS).view.loc (thrV d L) ↦{fullShare} TT) ∗ ((ixS0).view.loc (thrV d L) ↦{fullShare} X)
    ∗ ∃ f, ((bufS0).view.loc (thrV d L) ↦{fullShare} f)
        ∗ ⌜∀ y, (bufS0).view.read (Elt F) f y
            = stage ((bufS0).view.read (Elt F) B) ((tabS).view.read (Elt F) TT) ((ixS0).view.read (Elt F) X) (16 * k) y⌝)

set_option maxHeartbeats 16000000 in
/-- One trip keeps the invariant. -/
theorem step1 (hX : ∀ j, BitVec.toNat ((ixS0).view.read (Elt F) X j) < 16) (v1 v21 : BitVec 32)
    (k : Fin (Scf.trips k0_t1_loop.lb k0_t1_loop.ub k0_t1_loop.st)) (acc : BitVec 32) :
    inv1 d L TT X B k acc
      ⊢ wp frame (wpE (defs₀ (F := F)) 𝒱₀ (thrV d L) none) Set.univ
          (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 k acc) (inv1 d L TT X B (k.val + 1)) := by
  have hk : k.val < 25 := Nat.lt_of_lt_of_le k.isLt k0_t1_abs.2.1
  unfold inv1 k0_t1_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS0).view f _ _ _ k.val _ rfl hf ?_
  exact ⟨
    ⟨(cf0 (k0_off38 k 48#32)).trans (by show 1024 * k.val + 16 * 3 + 960 = 1024 * k.val + 16 * 63; omega), rfl, rfl, fun x =>
      piece_agree (bufS0).view (tabS).view (ixS0).view f TT X _ k.val 15 3 hk (by omega) (by omega) hf hX (k0_off38 k 48#32) (k0_off38 k 48#32) (k0_off5 k)
        (k0_off38_inb k 3) (k0_off38_inb k 3) (k0_off5_inb k)
        ((cf0 (k0_off38 k 48#32)).trans (by show 1024 * k.val + 16 * 3 + 960 = _; omega)) ((cf0 (k0_off38 k 48#32)).trans (by show 1024 * k.val + 16 * 3 + 960 = _; omega)) ((cf0 (k0_off5 k)).trans (by show 16 * k.val = _; omega))
        _ 48#32 (by decide) _ _ (by first | rfl | rw [Shape.reshapeEquiv_self]) rfl x⟩,
    ⟨(cf0 (k0_off38 k 32#32)).trans (by show 1024 * k.val + 16 * 2 + 960 = 1024 * k.val + 16 * 62; omega), rfl, rfl, fun x =>
      piece_agree (bufS0).view (tabS).view (ixS0).view f TT X _ k.val 15 2 hk (by omega) (by omega) hf hX (k0_off38 k 32#32) (k0_off38 k 32#32) (k0_off5 k)
        (k0_off38_inb k 2) (k0_off38_inb k 2) (k0_off5_inb k)
        ((cf0 (k0_off38 k 32#32)).trans (by show 1024 * k.val + 16 * 2 + 960 = _; omega)) ((cf0 (k0_off38 k 32#32)).trans (by show 1024 * k.val + 16 * 2 + 960 = _; omega)) ((cf0 (k0_off5 k)).trans (by show 16 * k.val = _; omega))
        _ 32#32 (by decide) _ _ (by first | rfl | rw [Shape.reshapeEquiv_self]) rfl x⟩,
    ⟨(cf0 (k0_off38 k 16#32)).trans (by show 1024 * k.val + 16 * 1 + 960 = 1024 * k.val + 16 * 61; omega), rfl, rfl, fun x =>
      piece_agree (bufS0).view (tabS).view (ixS0).view f TT X _ k.val 15 1 hk (by omega) (by omega) hf hX (k0_off38 k 16#32) (k0_off38 k 16#32) (k0_off5 k)
        (k0_off38_inb k 1) (k0_off38_inb k 1) (k0_off5_inb k)
        ((cf0 (k0_off38 k 16#32)).trans (by show 1024 * k.val + 16 * 1 + 960 = _; omega)) ((cf0 (k0_off38 k 16#32)).trans (by show 1024 * k.val + 16 * 1 + 960 = _; omega)) ((cf0 (k0_off5 k)).trans (by show 16 * k.val = _; omega))
        _ 16#32 (by decide) _ _ (by first | rfl | rw [Shape.reshapeEquiv_self]) rfl x⟩,
    ⟨(cf0 (k0_off38 k 0#32)).trans (by show 1024 * k.val + 16 * 0 + 960 = 1024 * k.val + 16 * 60; omega), rfl, rfl, fun x =>
      piece_agree (bufS0).view (tabS).view (ixS0).view f TT X _ k.val 15 0 hk (by omega) (by omega) hf hX (k0_off38 k 0#32) (k0_off36 k 960#32 0#32) (k0_off5 k)
        (k0_off38_inb k 0) (k0_off36_inb k 4) (k0_off5_inb k)
        ((cf0 (k0_off38 k 0#32)).trans (by show 1024 * k.val + 16 * 0 + 960 = _; omega)) ((cf0 (k0_off36 k 960#32 0#32)).trans (by show 1024 * k.val + 960 = _; omega)) ((cf0 (k0_off5 k)).trans (by show 16 * k.val = _; omega))
        _ 0#32 (by decide) _ _ (by first | rfl | rw [Shape.reshapeEquiv_self]) rfl x⟩,
    ⟨(cf0 (k0_off36 k 896#32 48#32)).trans (by show 1024 * k.val + 944 = 1024 * k.val + 16 * 59; omega), rfl, rfl, fun x =>
      piece_agree (bufS0).view (tabS).view (ixS0).view f TT X _ k.val 14 3 hk (by omega) (by omega) hf hX (k0_off36 k 896#32 48#32) (k0_off36 k 896#32 48#32) (k0_off5 k)
        (k0_off36_inb k 3) (k0_off36_inb k 3) (k0_off5_inb k)
        ((cf0 (k0_off36 k 896#32 48#32)).trans (by show 1024 * k.val + 944 = _; omega)) ((cf0 (k0_off36 k 896#32 48#32)).trans (by show 1024 * k.val + 944 = _; omega)) ((cf0 (k0_off5 k)).trans (by show 16 * k.val = _; omega))
        _ 48#32 (by decide) _ _ (by first | rfl | rw [Shape.reshapeEquiv_self]) rfl x⟩,
    ⟨(cf0 (k0_off36 k 896#32 32#32)).trans (by show 1024 * k.val + 928 = 1024 * k.val + 16 * 58; omega), rfl, rfl, fun x =>
      piece_agree (bufS0).view (tabS).view (ixS0).view f TT X _ k.val 14 2 hk (by omega) (by omega) hf hX (k0_off36 k 896#32 32#32) (k0_off36 k 896#32 32#32) (k0_off5 k)
        (k0_off36_inb k 2) (k0_off36_inb k 2) (k0_off5_inb k)
        ((cf0 (k0_off36 k 896#32 32#32)).trans (by show 1024 * k.val + 928 = _; omega)) ((cf0 (k0_off36 k 896#32 32#32)).trans (by show 1024 * k.val + 928 = _; omega)) ((cf0 (k0_off5 k)).trans (by show 16 * k.val = _; omega))
        _ 32#32 (by decide) _ _ (by first | rfl | rw [Shape.reshapeEquiv_self]) rfl x⟩,
    ⟨(cf0 (k0_off36 k 896#32 16#32)).trans (by show 1024 * k.val + 912 = 1024 * k.val + 16 * 57; omega), rfl, rfl, fun x =>
      piece_agree (bufS0).view (tabS).view (ixS0).view f TT X _ k.val 14 1 hk (by omega) (by omega) hf hX (k0_off36 k 896#32 16#32) (k0_off36 k 896#32 16#32) (k0_off5 k)
        (k0_off36_inb k 1) (k0_off36_inb k 1) (k0_off5_inb k)
        ((cf0 (k0_off36 k 896#32 16#32)).trans (by show 1024 * k.val + 912 = _; omega)) ((cf0 (k0_off36 k 896#32 16#32)).trans (by show 1024 * k.val + 912 = _; omega)) ((cf0 (k0_off5 k)).trans (by show 16 * k.val = _; omega))
        _ 16#32 (by decide) _ _ (by first | rfl | rw [Shape.reshapeEquiv_self]) rfl x⟩,
    ⟨(cf0 (k0_off36 k 896#32 0#32)).trans (by show 1024 * k.val + 896 = 1024 * k.val + 16 * 56; omega), rfl, rfl, fun x =>
      piece_agree (bufS0).view (tabS).view (ixS0).view f TT X _ k.val 14 0 hk (by omega) (by omega) hf hX (k0_off36 k 896#32 0#32) (k0_off34 k 896#32 0#32) (k0_off5 k)
        (k0_off36_inb k 0) (k0_off34_inb k 4) (k0_off5_inb k)
        ((cf0 (k0_off36 k 896#32 0#32)).trans (by show 1024 * k.val + 896 = _; omega)) ((cf0 (k0_off34 k 896#32 0#32)).trans (by show 1024 * k.val + 896 = _; omega)) ((cf0 (k0_off5 k)).trans (by show 16 * k.val = _; omega))
        _ 0#32 (by decide) _ _ (by first | rfl | rw [Shape.reshapeEquiv_self]) rfl x⟩,
    ⟨(cf0 (k0_off34 k 832#32 48#32)).trans (by show 1024 * k.val + 880 = 1024 * k.val + 16 * 55; omega), rfl, rfl, fun x =>
      piece_agree (bufS0).view (tabS).view (ixS0).view f TT X _ k.val 13 3 hk (by omega) (by omega) hf hX (k0_off34 k 832#32 48#32) (k0_off34 k 832#32 48#32) (k0_off5 k)
        (k0_off34_inb k 3) (k0_off34_inb k 3) (k0_off5_inb k)
        ((cf0 (k0_off34 k 832#32 48#32)).trans (by show 1024 * k.val + 880 = _; omega)) ((cf0 (k0_off34 k 832#32 48#32)).trans (by show 1024 * k.val + 880 = _; omega)) ((cf0 (k0_off5 k)).trans (by show 16 * k.val = _; omega))
        _ 48#32 (by decide) _ _ (by first | rfl | rw [Shape.reshapeEquiv_self]) rfl x⟩,
    ⟨(cf0 (k0_off34 k 832#32 32#32)).trans (by show 1024 * k.val + 864 = 1024 * k.val + 16 * 54; omega), rfl, rfl, fun x =>
      piece_agree (bufS0).view (tabS).view (ixS0).view f TT X _ k.val 13 2 hk (by omega) (by omega) hf hX (k0_off34 k 832#32 32#32) (k0_off34 k 832#32 32#32) (k0_off5 k)
        (k0_off34_inb k 2) (k0_off34_inb k 2) (k0_off5_inb k)
        ((cf0 (k0_off34 k 832#32 32#32)).trans (by show 1024 * k.val + 864 = _; omega)) ((cf0 (k0_off34 k 832#32 32#32)).trans (by show 1024 * k.val + 864 = _; omega)) ((cf0 (k0_off5 k)).trans (by show 16 * k.val = _; omega))
        _ 32#32 (by decide) _ _ (by first | rfl | rw [Shape.reshapeEquiv_self]) rfl x⟩,
    ⟨(cf0 (k0_off34 k 832#32 16#32)).trans (by show 1024 * k.val + 848 = 1024 * k.val + 16 * 53; omega), rfl, rfl, fun x =>
      piece_agree (bufS0).view (tabS).view (ixS0).view f TT X _ k.val 13 1 hk (by omega) (by omega) hf hX (k0_off34 k 832#32 16#32) (k0_off34 k 832#32 16#32) (k0_off5 k)
        (k0_off34_inb k 1) (k0_off34_inb k 1) (k0_off5_inb k)
        ((cf0 (k0_off34 k 832#32 16#32)).trans (by show 1024 * k.val + 848 = _; omega)) ((cf0 (k0_off34 k 832#32 16#32)).trans (by show 1024 * k.val + 848 = _; omega)) ((cf0 (k0_off5 k)).trans (by show 16 * k.val = _; omega))
        _ 16#32 (by decide) _ _ (by first | rfl | rw [Shape.reshapeEquiv_self]) rfl x⟩,
    ⟨(cf0 (k0_off34 k 832#32 0#32)).trans (by show 1024 * k.val + 832 = 1024 * k.val + 16 * 52; omega), rfl, rfl, fun x =>
      piece_agree (bufS0).view (tabS).view (ixS0).view f TT X _ k.val 13 0 hk (by omega) (by omega) hf hX (k0_off34 k 832#32 0#32) (k0_off32 k 832#32 0#32) (k0_off5 k)
        (k0_off34_inb k 0) (k0_off32_inb k 4) (k0_off5_inb k)
        ((cf0 (k0_off34 k 832#32 0#32)).trans (by show 1024 * k.val + 832 = _; omega)) ((cf0 (k0_off32 k 832#32 0#32)).trans (by show 1024 * k.val + 832 = _; omega)) ((cf0 (k0_off5 k)).trans (by show 16 * k.val = _; omega))
        _ 0#32 (by decide) _ _ (by first | rfl | rw [Shape.reshapeEquiv_self]) rfl x⟩,
    ⟨(cf0 (k0_off32 k 768#32 48#32)).trans (by show 1024 * k.val + 816 = 1024 * k.val + 16 * 51; omega), rfl, rfl, fun x =>
      piece_agree (bufS0).view (tabS).view (ixS0).view f TT X _ k.val 12 3 hk (by omega) (by omega) hf hX (k0_off32 k 768#32 48#32) (k0_off32 k 768#32 48#32) (k0_off5 k)
        (k0_off32_inb k 3) (k0_off32_inb k 3) (k0_off5_inb k)
        ((cf0 (k0_off32 k 768#32 48#32)).trans (by show 1024 * k.val + 816 = _; omega)) ((cf0 (k0_off32 k 768#32 48#32)).trans (by show 1024 * k.val + 816 = _; omega)) ((cf0 (k0_off5 k)).trans (by show 16 * k.val = _; omega))
        _ 48#32 (by decide) _ _ (by first | rfl | rw [Shape.reshapeEquiv_self]) rfl x⟩,
    ⟨(cf0 (k0_off32 k 768#32 32#32)).trans (by show 1024 * k.val + 800 = 1024 * k.val + 16 * 50; omega), rfl, rfl, fun x =>
      piece_agree (bufS0).view (tabS).view (ixS0).view f TT X _ k.val 12 2 hk (by omega) (by omega) hf hX (k0_off32 k 768#32 32#32) (k0_off32 k 768#32 32#32) (k0_off5 k)
        (k0_off32_inb k 2) (k0_off32_inb k 2) (k0_off5_inb k)
        ((cf0 (k0_off32 k 768#32 32#32)).trans (by show 1024 * k.val + 800 = _; omega)) ((cf0 (k0_off32 k 768#32 32#32)).trans (by show 1024 * k.val + 800 = _; omega)) ((cf0 (k0_off5 k)).trans (by show 16 * k.val = _; omega))
        _ 32#32 (by decide) _ _ (by first | rfl | rw [Shape.reshapeEquiv_self]) rfl x⟩,
    ⟨(cf0 (k0_off32 k 768#32 16#32)).trans (by show 1024 * k.val + 784 = 1024 * k.val + 16 * 49; omega), rfl, rfl, fun x =>
      piece_agree (bufS0).view (tabS).view (ixS0).view f TT X _ k.val 12 1 hk (by omega) (by omega) hf hX (k0_off32 k 768#32 16#32) (k0_off32 k 768#32 16#32) (k0_off5 k)
        (k0_off32_inb k 1) (k0_off32_inb k 1) (k0_off5_inb k)
        ((cf0 (k0_off32 k 768#32 16#32)).trans (by show 1024 * k.val + 784 = _; omega)) ((cf0 (k0_off32 k 768#32 16#32)).trans (by show 1024 * k.val + 784 = _; omega)) ((cf0 (k0_off5 k)).trans (by show 16 * k.val = _; omega))
        _ 16#32 (by decide) _ _ (by first | rfl | rw [Shape.reshapeEquiv_self]) rfl x⟩,
    ⟨(cf0 (k0_off32 k 768#32 0#32)).trans (by show 1024 * k.val + 768 = 1024 * k.val + 16 * 48; omega), rfl, rfl, fun x =>
      piece_agree (bufS0).view (tabS).view (ixS0).view f TT X _ k.val 12 0 hk (by omega) (by omega) hf hX (k0_off32 k 768#32 0#32) (k0_off30 k 768#32 0#32) (k0_off5 k)
        (k0_off32_inb k 0) (k0_off30_inb k 4) (k0_off5_inb k)
        ((cf0 (k0_off32 k 768#32 0#32)).trans (by show 1024 * k.val + 768 = _; omega)) ((cf0 (k0_off30 k 768#32 0#32)).trans (by show 1024 * k.val + 768 = _; omega)) ((cf0 (k0_off5 k)).trans (by show 16 * k.val = _; omega))
        _ 0#32 (by decide) _ _ (by first | rfl | rw [Shape.reshapeEquiv_self]) rfl x⟩,
    ⟨(cf0 (k0_off30 k 704#32 48#32)).trans (by show 1024 * k.val + 752 = 1024 * k.val + 16 * 47; omega), rfl, rfl, fun x =>
      piece_agree (bufS0).view (tabS).view (ixS0).view f TT X _ k.val 11 3 hk (by omega) (by omega) hf hX (k0_off30 k 704#32 48#32) (k0_off30 k 704#32 48#32) (k0_off5 k)
        (k0_off30_inb k 3) (k0_off30_inb k 3) (k0_off5_inb k)
        ((cf0 (k0_off30 k 704#32 48#32)).trans (by show 1024 * k.val + 752 = _; omega)) ((cf0 (k0_off30 k 704#32 48#32)).trans (by show 1024 * k.val + 752 = _; omega)) ((cf0 (k0_off5 k)).trans (by show 16 * k.val = _; omega))
        _ 48#32 (by decide) _ _ (by first | rfl | rw [Shape.reshapeEquiv_self]) rfl x⟩,
    ⟨(cf0 (k0_off30 k 704#32 32#32)).trans (by show 1024 * k.val + 736 = 1024 * k.val + 16 * 46; omega), rfl, rfl, fun x =>
      piece_agree (bufS0).view (tabS).view (ixS0).view f TT X _ k.val 11 2 hk (by omega) (by omega) hf hX (k0_off30 k 704#32 32#32) (k0_off30 k 704#32 32#32) (k0_off5 k)
        (k0_off30_inb k 2) (k0_off30_inb k 2) (k0_off5_inb k)
        ((cf0 (k0_off30 k 704#32 32#32)).trans (by show 1024 * k.val + 736 = _; omega)) ((cf0 (k0_off30 k 704#32 32#32)).trans (by show 1024 * k.val + 736 = _; omega)) ((cf0 (k0_off5 k)).trans (by show 16 * k.val = _; omega))
        _ 32#32 (by decide) _ _ (by first | rfl | rw [Shape.reshapeEquiv_self]) rfl x⟩,
    ⟨(cf0 (k0_off30 k 704#32 16#32)).trans (by show 1024 * k.val + 720 = 1024 * k.val + 16 * 45; omega), rfl, rfl, fun x =>
      piece_agree (bufS0).view (tabS).view (ixS0).view f TT X _ k.val 11 1 hk (by omega) (by omega) hf hX (k0_off30 k 704#32 16#32) (k0_off30 k 704#32 16#32) (k0_off5 k)
        (k0_off30_inb k 1) (k0_off30_inb k 1) (k0_off5_inb k)
        ((cf0 (k0_off30 k 704#32 16#32)).trans (by show 1024 * k.val + 720 = _; omega)) ((cf0 (k0_off30 k 704#32 16#32)).trans (by show 1024 * k.val + 720 = _; omega)) ((cf0 (k0_off5 k)).trans (by show 16 * k.val = _; omega))
        _ 16#32 (by decide) _ _ (by first | rfl | rw [Shape.reshapeEquiv_self]) rfl x⟩,
    ⟨(cf0 (k0_off30 k 704#32 0#32)).trans (by show 1024 * k.val + 704 = 1024 * k.val + 16 * 44; omega), rfl, rfl, fun x =>
      piece_agree (bufS0).view (tabS).view (ixS0).view f TT X _ k.val 11 0 hk (by omega) (by omega) hf hX (k0_off30 k 704#32 0#32) (k0_off28 k 704#32 0#32) (k0_off5 k)
        (k0_off30_inb k 0) (k0_off28_inb k 4) (k0_off5_inb k)
        ((cf0 (k0_off30 k 704#32 0#32)).trans (by show 1024 * k.val + 704 = _; omega)) ((cf0 (k0_off28 k 704#32 0#32)).trans (by show 1024 * k.val + 704 = _; omega)) ((cf0 (k0_off5 k)).trans (by show 16 * k.val = _; omega))
        _ 0#32 (by decide) _ _ (by first | rfl | rw [Shape.reshapeEquiv_self]) rfl x⟩,
    ⟨(cf0 (k0_off28 k 640#32 48#32)).trans (by show 1024 * k.val + 688 = 1024 * k.val + 16 * 43; omega), rfl, rfl, fun x =>
      piece_agree (bufS0).view (tabS).view (ixS0).view f TT X _ k.val 10 3 hk (by omega) (by omega) hf hX (k0_off28 k 640#32 48#32) (k0_off28 k 640#32 48#32) (k0_off5 k)
        (k0_off28_inb k 3) (k0_off28_inb k 3) (k0_off5_inb k)
        ((cf0 (k0_off28 k 640#32 48#32)).trans (by show 1024 * k.val + 688 = _; omega)) ((cf0 (k0_off28 k 640#32 48#32)).trans (by show 1024 * k.val + 688 = _; omega)) ((cf0 (k0_off5 k)).trans (by show 16 * k.val = _; omega))
        _ 48#32 (by decide) _ _ (by first | rfl | rw [Shape.reshapeEquiv_self]) rfl x⟩,
    ⟨(cf0 (k0_off28 k 640#32 32#32)).trans (by show 1024 * k.val + 672 = 1024 * k.val + 16 * 42; omega), rfl, rfl, fun x =>
      piece_agree (bufS0).view (tabS).view (ixS0).view f TT X _ k.val 10 2 hk (by omega) (by omega) hf hX (k0_off28 k 640#32 32#32) (k0_off28 k 640#32 32#32) (k0_off5 k)
        (k0_off28_inb k 2) (k0_off28_inb k 2) (k0_off5_inb k)
        ((cf0 (k0_off28 k 640#32 32#32)).trans (by show 1024 * k.val + 672 = _; omega)) ((cf0 (k0_off28 k 640#32 32#32)).trans (by show 1024 * k.val + 672 = _; omega)) ((cf0 (k0_off5 k)).trans (by show 16 * k.val = _; omega))
        _ 32#32 (by decide) _ _ (by first | rfl | rw [Shape.reshapeEquiv_self]) rfl x⟩,
    ⟨(cf0 (k0_off28 k 640#32 16#32)).trans (by show 1024 * k.val + 656 = 1024 * k.val + 16 * 41; omega), rfl, rfl, fun x =>
      piece_agree (bufS0).view (tabS).view (ixS0).view f TT X _ k.val 10 1 hk (by omega) (by omega) hf hX (k0_off28 k 640#32 16#32) (k0_off28 k 640#32 16#32) (k0_off5 k)
        (k0_off28_inb k 1) (k0_off28_inb k 1) (k0_off5_inb k)
        ((cf0 (k0_off28 k 640#32 16#32)).trans (by show 1024 * k.val + 656 = _; omega)) ((cf0 (k0_off28 k 640#32 16#32)).trans (by show 1024 * k.val + 656 = _; omega)) ((cf0 (k0_off5 k)).trans (by show 16 * k.val = _; omega))
        _ 16#32 (by decide) _ _ (by first | rfl | rw [Shape.reshapeEquiv_self]) rfl x⟩,
    ⟨(cf0 (k0_off28 k 640#32 0#32)).trans (by show 1024 * k.val + 640 = 1024 * k.val + 16 * 40; omega), rfl, rfl, fun x =>
      piece_agree (bufS0).view (tabS).view (ixS0).view f TT X _ k.val 10 0 hk (by omega) (by omega) hf hX (k0_off28 k 640#32 0#32) (k0_off26 k 640#32 0#32) (k0_off5 k)
        (k0_off28_inb k 0) (k0_off26_inb k 4) (k0_off5_inb k)
        ((cf0 (k0_off28 k 640#32 0#32)).trans (by show 1024 * k.val + 640 = _; omega)) ((cf0 (k0_off26 k 640#32 0#32)).trans (by show 1024 * k.val + 640 = _; omega)) ((cf0 (k0_off5 k)).trans (by show 16 * k.val = _; omega))
        _ 0#32 (by decide) _ _ (by first | rfl | rw [Shape.reshapeEquiv_self]) rfl x⟩,
    ⟨(cf0 (k0_off26 k 576#32 48#32)).trans (by show 1024 * k.val + 624 = 1024 * k.val + 16 * 39; omega), rfl, rfl, fun x =>
      piece_agree (bufS0).view (tabS).view (ixS0).view f TT X _ k.val 9 3 hk (by omega) (by omega) hf hX (k0_off26 k 576#32 48#32) (k0_off26 k 576#32 48#32) (k0_off5 k)
        (k0_off26_inb k 3) (k0_off26_inb k 3) (k0_off5_inb k)
        ((cf0 (k0_off26 k 576#32 48#32)).trans (by show 1024 * k.val + 624 = _; omega)) ((cf0 (k0_off26 k 576#32 48#32)).trans (by show 1024 * k.val + 624 = _; omega)) ((cf0 (k0_off5 k)).trans (by show 16 * k.val = _; omega))
        _ 48#32 (by decide) _ _ (by first | rfl | rw [Shape.reshapeEquiv_self]) rfl x⟩,
    ⟨(cf0 (k0_off26 k 576#32 32#32)).trans (by show 1024 * k.val + 608 = 1024 * k.val + 16 * 38; omega), rfl, rfl, fun x =>
      piece_agree (bufS0).view (tabS).view (ixS0).view f TT X _ k.val 9 2 hk (by omega) (by omega) hf hX (k0_off26 k 576#32 32#32) (k0_off26 k 576#32 32#32) (k0_off5 k)
        (k0_off26_inb k 2) (k0_off26_inb k 2) (k0_off5_inb k)
        ((cf0 (k0_off26 k 576#32 32#32)).trans (by show 1024 * k.val + 608 = _; omega)) ((cf0 (k0_off26 k 576#32 32#32)).trans (by show 1024 * k.val + 608 = _; omega)) ((cf0 (k0_off5 k)).trans (by show 16 * k.val = _; omega))
        _ 32#32 (by decide) _ _ (by first | rfl | rw [Shape.reshapeEquiv_self]) rfl x⟩,
    ⟨(cf0 (k0_off26 k 576#32 16#32)).trans (by show 1024 * k.val + 592 = 1024 * k.val + 16 * 37; omega), rfl, rfl, fun x =>
      piece_agree (bufS0).view (tabS).view (ixS0).view f TT X _ k.val 9 1 hk (by omega) (by omega) hf hX (k0_off26 k 576#32 16#32) (k0_off26 k 576#32 16#32) (k0_off5 k)
        (k0_off26_inb k 1) (k0_off26_inb k 1) (k0_off5_inb k)
        ((cf0 (k0_off26 k 576#32 16#32)).trans (by show 1024 * k.val + 592 = _; omega)) ((cf0 (k0_off26 k 576#32 16#32)).trans (by show 1024 * k.val + 592 = _; omega)) ((cf0 (k0_off5 k)).trans (by show 16 * k.val = _; omega))
        _ 16#32 (by decide) _ _ (by first | rfl | rw [Shape.reshapeEquiv_self]) rfl x⟩,
    ⟨(cf0 (k0_off26 k 576#32 0#32)).trans (by show 1024 * k.val + 576 = 1024 * k.val + 16 * 36; omega), rfl, rfl, fun x =>
      piece_agree (bufS0).view (tabS).view (ixS0).view f TT X _ k.val 9 0 hk (by omega) (by omega) hf hX (k0_off26 k 576#32 0#32) (k0_off24 k 576#32 0#32) (k0_off5 k)
        (k0_off26_inb k 0) (k0_off24_inb k 4) (k0_off5_inb k)
        ((cf0 (k0_off26 k 576#32 0#32)).trans (by show 1024 * k.val + 576 = _; omega)) ((cf0 (k0_off24 k 576#32 0#32)).trans (by show 1024 * k.val + 576 = _; omega)) ((cf0 (k0_off5 k)).trans (by show 16 * k.val = _; omega))
        _ 0#32 (by decide) _ _ (by first | rfl | rw [Shape.reshapeEquiv_self]) rfl x⟩,
    ⟨(cf0 (k0_off24 k 512#32 48#32)).trans (by show 1024 * k.val + 560 = 1024 * k.val + 16 * 35; omega), rfl, rfl, fun x =>
      piece_agree (bufS0).view (tabS).view (ixS0).view f TT X _ k.val 8 3 hk (by omega) (by omega) hf hX (k0_off24 k 512#32 48#32) (k0_off24 k 512#32 48#32) (k0_off5 k)
        (k0_off24_inb k 3) (k0_off24_inb k 3) (k0_off5_inb k)
        ((cf0 (k0_off24 k 512#32 48#32)).trans (by show 1024 * k.val + 560 = _; omega)) ((cf0 (k0_off24 k 512#32 48#32)).trans (by show 1024 * k.val + 560 = _; omega)) ((cf0 (k0_off5 k)).trans (by show 16 * k.val = _; omega))
        _ 48#32 (by decide) _ _ (by first | rfl | rw [Shape.reshapeEquiv_self]) rfl x⟩,
    ⟨(cf0 (k0_off24 k 512#32 32#32)).trans (by show 1024 * k.val + 544 = 1024 * k.val + 16 * 34; omega), rfl, rfl, fun x =>
      piece_agree (bufS0).view (tabS).view (ixS0).view f TT X _ k.val 8 2 hk (by omega) (by omega) hf hX (k0_off24 k 512#32 32#32) (k0_off24 k 512#32 32#32) (k0_off5 k)
        (k0_off24_inb k 2) (k0_off24_inb k 2) (k0_off5_inb k)
        ((cf0 (k0_off24 k 512#32 32#32)).trans (by show 1024 * k.val + 544 = _; omega)) ((cf0 (k0_off24 k 512#32 32#32)).trans (by show 1024 * k.val + 544 = _; omega)) ((cf0 (k0_off5 k)).trans (by show 16 * k.val = _; omega))
        _ 32#32 (by decide) _ _ (by first | rfl | rw [Shape.reshapeEquiv_self]) rfl x⟩,
    ⟨(cf0 (k0_off24 k 512#32 16#32)).trans (by show 1024 * k.val + 528 = 1024 * k.val + 16 * 33; omega), rfl, rfl, fun x =>
      piece_agree (bufS0).view (tabS).view (ixS0).view f TT X _ k.val 8 1 hk (by omega) (by omega) hf hX (k0_off24 k 512#32 16#32) (k0_off24 k 512#32 16#32) (k0_off5 k)
        (k0_off24_inb k 1) (k0_off24_inb k 1) (k0_off5_inb k)
        ((cf0 (k0_off24 k 512#32 16#32)).trans (by show 1024 * k.val + 528 = _; omega)) ((cf0 (k0_off24 k 512#32 16#32)).trans (by show 1024 * k.val + 528 = _; omega)) ((cf0 (k0_off5 k)).trans (by show 16 * k.val = _; omega))
        _ 16#32 (by decide) _ _ (by first | rfl | rw [Shape.reshapeEquiv_self]) rfl x⟩,
    ⟨(cf0 (k0_off24 k 512#32 0#32)).trans (by show 1024 * k.val + 512 = 1024 * k.val + 16 * 32; omega), rfl, rfl, fun x =>
      piece_agree (bufS0).view (tabS).view (ixS0).view f TT X _ k.val 8 0 hk (by omega) (by omega) hf hX (k0_off24 k 512#32 0#32) (k0_off22 k 512#32 0#32) (k0_off5 k)
        (k0_off24_inb k 0) (k0_off22_inb k 4) (k0_off5_inb k)
        ((cf0 (k0_off24 k 512#32 0#32)).trans (by show 1024 * k.val + 512 = _; omega)) ((cf0 (k0_off22 k 512#32 0#32)).trans (by show 1024 * k.val + 512 = _; omega)) ((cf0 (k0_off5 k)).trans (by show 16 * k.val = _; omega))
        _ 0#32 (by decide) _ _ (by first | rfl | rw [Shape.reshapeEquiv_self]) rfl x⟩,
    ⟨(cf0 (k0_off22 k 448#32 48#32)).trans (by show 1024 * k.val + 496 = 1024 * k.val + 16 * 31; omega), rfl, rfl, fun x =>
      piece_agree (bufS0).view (tabS).view (ixS0).view f TT X _ k.val 7 3 hk (by omega) (by omega) hf hX (k0_off22 k 448#32 48#32) (k0_off22 k 448#32 48#32) (k0_off5 k)
        (k0_off22_inb k 3) (k0_off22_inb k 3) (k0_off5_inb k)
        ((cf0 (k0_off22 k 448#32 48#32)).trans (by show 1024 * k.val + 496 = _; omega)) ((cf0 (k0_off22 k 448#32 48#32)).trans (by show 1024 * k.val + 496 = _; omega)) ((cf0 (k0_off5 k)).trans (by show 16 * k.val = _; omega))
        _ 48#32 (by decide) _ _ (by first | rfl | rw [Shape.reshapeEquiv_self]) rfl x⟩,
    ⟨(cf0 (k0_off22 k 448#32 32#32)).trans (by show 1024 * k.val + 480 = 1024 * k.val + 16 * 30; omega), rfl, rfl, fun x =>
      piece_agree (bufS0).view (tabS).view (ixS0).view f TT X _ k.val 7 2 hk (by omega) (by omega) hf hX (k0_off22 k 448#32 32#32) (k0_off22 k 448#32 32#32) (k0_off5 k)
        (k0_off22_inb k 2) (k0_off22_inb k 2) (k0_off5_inb k)
        ((cf0 (k0_off22 k 448#32 32#32)).trans (by show 1024 * k.val + 480 = _; omega)) ((cf0 (k0_off22 k 448#32 32#32)).trans (by show 1024 * k.val + 480 = _; omega)) ((cf0 (k0_off5 k)).trans (by show 16 * k.val = _; omega))
        _ 32#32 (by decide) _ _ (by first | rfl | rw [Shape.reshapeEquiv_self]) rfl x⟩,
    ⟨(cf0 (k0_off22 k 448#32 16#32)).trans (by show 1024 * k.val + 464 = 1024 * k.val + 16 * 29; omega), rfl, rfl, fun x =>
      piece_agree (bufS0).view (tabS).view (ixS0).view f TT X _ k.val 7 1 hk (by omega) (by omega) hf hX (k0_off22 k 448#32 16#32) (k0_off22 k 448#32 16#32) (k0_off5 k)
        (k0_off22_inb k 1) (k0_off22_inb k 1) (k0_off5_inb k)
        ((cf0 (k0_off22 k 448#32 16#32)).trans (by show 1024 * k.val + 464 = _; omega)) ((cf0 (k0_off22 k 448#32 16#32)).trans (by show 1024 * k.val + 464 = _; omega)) ((cf0 (k0_off5 k)).trans (by show 16 * k.val = _; omega))
        _ 16#32 (by decide) _ _ (by first | rfl | rw [Shape.reshapeEquiv_self]) rfl x⟩,
    ⟨(cf0 (k0_off22 k 448#32 0#32)).trans (by show 1024 * k.val + 448 = 1024 * k.val + 16 * 28; omega), rfl, rfl, fun x =>
      piece_agree (bufS0).view (tabS).view (ixS0).view f TT X _ k.val 7 0 hk (by omega) (by omega) hf hX (k0_off22 k 448#32 0#32) (k0_off20 k 448#32 0#32) (k0_off5 k)
        (k0_off22_inb k 0) (k0_off20_inb k 4) (k0_off5_inb k)
        ((cf0 (k0_off22 k 448#32 0#32)).trans (by show 1024 * k.val + 448 = _; omega)) ((cf0 (k0_off20 k 448#32 0#32)).trans (by show 1024 * k.val + 448 = _; omega)) ((cf0 (k0_off5 k)).trans (by show 16 * k.val = _; omega))
        _ 0#32 (by decide) _ _ (by first | rfl | rw [Shape.reshapeEquiv_self]) rfl x⟩,
    ⟨(cf0 (k0_off20 k 384#32 48#32)).trans (by show 1024 * k.val + 432 = 1024 * k.val + 16 * 27; omega), rfl, rfl, fun x =>
      piece_agree (bufS0).view (tabS).view (ixS0).view f TT X _ k.val 6 3 hk (by omega) (by omega) hf hX (k0_off20 k 384#32 48#32) (k0_off20 k 384#32 48#32) (k0_off5 k)
        (k0_off20_inb k 3) (k0_off20_inb k 3) (k0_off5_inb k)
        ((cf0 (k0_off20 k 384#32 48#32)).trans (by show 1024 * k.val + 432 = _; omega)) ((cf0 (k0_off20 k 384#32 48#32)).trans (by show 1024 * k.val + 432 = _; omega)) ((cf0 (k0_off5 k)).trans (by show 16 * k.val = _; omega))
        _ 48#32 (by decide) _ _ (by first | rfl | rw [Shape.reshapeEquiv_self]) rfl x⟩,
    ⟨(cf0 (k0_off20 k 384#32 32#32)).trans (by show 1024 * k.val + 416 = 1024 * k.val + 16 * 26; omega), rfl, rfl, fun x =>
      piece_agree (bufS0).view (tabS).view (ixS0).view f TT X _ k.val 6 2 hk (by omega) (by omega) hf hX (k0_off20 k 384#32 32#32) (k0_off20 k 384#32 32#32) (k0_off5 k)
        (k0_off20_inb k 2) (k0_off20_inb k 2) (k0_off5_inb k)
        ((cf0 (k0_off20 k 384#32 32#32)).trans (by show 1024 * k.val + 416 = _; omega)) ((cf0 (k0_off20 k 384#32 32#32)).trans (by show 1024 * k.val + 416 = _; omega)) ((cf0 (k0_off5 k)).trans (by show 16 * k.val = _; omega))
        _ 32#32 (by decide) _ _ (by first | rfl | rw [Shape.reshapeEquiv_self]) rfl x⟩,
    ⟨(cf0 (k0_off20 k 384#32 16#32)).trans (by show 1024 * k.val + 400 = 1024 * k.val + 16 * 25; omega), rfl, rfl, fun x =>
      piece_agree (bufS0).view (tabS).view (ixS0).view f TT X _ k.val 6 1 hk (by omega) (by omega) hf hX (k0_off20 k 384#32 16#32) (k0_off20 k 384#32 16#32) (k0_off5 k)
        (k0_off20_inb k 1) (k0_off20_inb k 1) (k0_off5_inb k)
        ((cf0 (k0_off20 k 384#32 16#32)).trans (by show 1024 * k.val + 400 = _; omega)) ((cf0 (k0_off20 k 384#32 16#32)).trans (by show 1024 * k.val + 400 = _; omega)) ((cf0 (k0_off5 k)).trans (by show 16 * k.val = _; omega))
        _ 16#32 (by decide) _ _ (by first | rfl | rw [Shape.reshapeEquiv_self]) rfl x⟩,
    ⟨(cf0 (k0_off20 k 384#32 0#32)).trans (by show 1024 * k.val + 384 = 1024 * k.val + 16 * 24; omega), rfl, rfl, fun x =>
      piece_agree (bufS0).view (tabS).view (ixS0).view f TT X _ k.val 6 0 hk (by omega) (by omega) hf hX (k0_off20 k 384#32 0#32) (k0_off18 k 384#32 0#32) (k0_off5 k)
        (k0_off20_inb k 0) (k0_off18_inb k 4) (k0_off5_inb k)
        ((cf0 (k0_off20 k 384#32 0#32)).trans (by show 1024 * k.val + 384 = _; omega)) ((cf0 (k0_off18 k 384#32 0#32)).trans (by show 1024 * k.val + 384 = _; omega)) ((cf0 (k0_off5 k)).trans (by show 16 * k.val = _; omega))
        _ 0#32 (by decide) _ _ (by first | rfl | rw [Shape.reshapeEquiv_self]) rfl x⟩,
    ⟨(cf0 (k0_off18 k 320#32 48#32)).trans (by show 1024 * k.val + 368 = 1024 * k.val + 16 * 23; omega), rfl, rfl, fun x =>
      piece_agree (bufS0).view (tabS).view (ixS0).view f TT X _ k.val 5 3 hk (by omega) (by omega) hf hX (k0_off18 k 320#32 48#32) (k0_off18 k 320#32 48#32) (k0_off5 k)
        (k0_off18_inb k 3) (k0_off18_inb k 3) (k0_off5_inb k)
        ((cf0 (k0_off18 k 320#32 48#32)).trans (by show 1024 * k.val + 368 = _; omega)) ((cf0 (k0_off18 k 320#32 48#32)).trans (by show 1024 * k.val + 368 = _; omega)) ((cf0 (k0_off5 k)).trans (by show 16 * k.val = _; omega))
        _ 48#32 (by decide) _ _ (by first | rfl | rw [Shape.reshapeEquiv_self]) rfl x⟩,
    ⟨(cf0 (k0_off18 k 320#32 32#32)).trans (by show 1024 * k.val + 352 = 1024 * k.val + 16 * 22; omega), rfl, rfl, fun x =>
      piece_agree (bufS0).view (tabS).view (ixS0).view f TT X _ k.val 5 2 hk (by omega) (by omega) hf hX (k0_off18 k 320#32 32#32) (k0_off18 k 320#32 32#32) (k0_off5 k)
        (k0_off18_inb k 2) (k0_off18_inb k 2) (k0_off5_inb k)
        ((cf0 (k0_off18 k 320#32 32#32)).trans (by show 1024 * k.val + 352 = _; omega)) ((cf0 (k0_off18 k 320#32 32#32)).trans (by show 1024 * k.val + 352 = _; omega)) ((cf0 (k0_off5 k)).trans (by show 16 * k.val = _; omega))
        _ 32#32 (by decide) _ _ (by first | rfl | rw [Shape.reshapeEquiv_self]) rfl x⟩,
    ⟨(cf0 (k0_off18 k 320#32 16#32)).trans (by show 1024 * k.val + 336 = 1024 * k.val + 16 * 21; omega), rfl, rfl, fun x =>
      piece_agree (bufS0).view (tabS).view (ixS0).view f TT X _ k.val 5 1 hk (by omega) (by omega) hf hX (k0_off18 k 320#32 16#32) (k0_off18 k 320#32 16#32) (k0_off5 k)
        (k0_off18_inb k 1) (k0_off18_inb k 1) (k0_off5_inb k)
        ((cf0 (k0_off18 k 320#32 16#32)).trans (by show 1024 * k.val + 336 = _; omega)) ((cf0 (k0_off18 k 320#32 16#32)).trans (by show 1024 * k.val + 336 = _; omega)) ((cf0 (k0_off5 k)).trans (by show 16 * k.val = _; omega))
        _ 16#32 (by decide) _ _ (by first | rfl | rw [Shape.reshapeEquiv_self]) rfl x⟩,
    ⟨(cf0 (k0_off18 k 320#32 0#32)).trans (by show 1024 * k.val + 320 = 1024 * k.val + 16 * 20; omega), rfl, rfl, fun x =>
      piece_agree (bufS0).view (tabS).view (ixS0).view f TT X _ k.val 5 0 hk (by omega) (by omega) hf hX (k0_off18 k 320#32 0#32) (k0_off16 k 320#32 0#32) (k0_off5 k)
        (k0_off18_inb k 0) (k0_off16_inb k 4) (k0_off5_inb k)
        ((cf0 (k0_off18 k 320#32 0#32)).trans (by show 1024 * k.val + 320 = _; omega)) ((cf0 (k0_off16 k 320#32 0#32)).trans (by show 1024 * k.val + 320 = _; omega)) ((cf0 (k0_off5 k)).trans (by show 16 * k.val = _; omega))
        _ 0#32 (by decide) _ _ (by first | rfl | rw [Shape.reshapeEquiv_self]) rfl x⟩,
    ⟨(cf0 (k0_off16 k 256#32 48#32)).trans (by show 1024 * k.val + 304 = 1024 * k.val + 16 * 19; omega), rfl, rfl, fun x =>
      piece_agree (bufS0).view (tabS).view (ixS0).view f TT X _ k.val 4 3 hk (by omega) (by omega) hf hX (k0_off16 k 256#32 48#32) (k0_off16 k 256#32 48#32) (k0_off5 k)
        (k0_off16_inb k 3) (k0_off16_inb k 3) (k0_off5_inb k)
        ((cf0 (k0_off16 k 256#32 48#32)).trans (by show 1024 * k.val + 304 = _; omega)) ((cf0 (k0_off16 k 256#32 48#32)).trans (by show 1024 * k.val + 304 = _; omega)) ((cf0 (k0_off5 k)).trans (by show 16 * k.val = _; omega))
        _ 48#32 (by decide) _ _ (by first | rfl | rw [Shape.reshapeEquiv_self]) rfl x⟩,
    ⟨(cf0 (k0_off16 k 256#32 32#32)).trans (by show 1024 * k.val + 288 = 1024 * k.val + 16 * 18; omega), rfl, rfl, fun x =>
      piece_agree (bufS0).view (tabS).view (ixS0).view f TT X _ k.val 4 2 hk (by omega) (by omega) hf hX (k0_off16 k 256#32 32#32) (k0_off16 k 256#32 32#32) (k0_off5 k)
        (k0_off16_inb k 2) (k0_off16_inb k 2) (k0_off5_inb k)
        ((cf0 (k0_off16 k 256#32 32#32)).trans (by show 1024 * k.val + 288 = _; omega)) ((cf0 (k0_off16 k 256#32 32#32)).trans (by show 1024 * k.val + 288 = _; omega)) ((cf0 (k0_off5 k)).trans (by show 16 * k.val = _; omega))
        _ 32#32 (by decide) _ _ (by first | rfl | rw [Shape.reshapeEquiv_self]) rfl x⟩,
    ⟨(cf0 (k0_off16 k 256#32 16#32)).trans (by show 1024 * k.val + 272 = 1024 * k.val + 16 * 17; omega), rfl, rfl, fun x =>
      piece_agree (bufS0).view (tabS).view (ixS0).view f TT X _ k.val 4 1 hk (by omega) (by omega) hf hX (k0_off16 k 256#32 16#32) (k0_off16 k 256#32 16#32) (k0_off5 k)
        (k0_off16_inb k 1) (k0_off16_inb k 1) (k0_off5_inb k)
        ((cf0 (k0_off16 k 256#32 16#32)).trans (by show 1024 * k.val + 272 = _; omega)) ((cf0 (k0_off16 k 256#32 16#32)).trans (by show 1024 * k.val + 272 = _; omega)) ((cf0 (k0_off5 k)).trans (by show 16 * k.val = _; omega))
        _ 16#32 (by decide) _ _ (by first | rfl | rw [Shape.reshapeEquiv_self]) rfl x⟩,
    ⟨(cf0 (k0_off16 k 256#32 0#32)).trans (by show 1024 * k.val + 256 = 1024 * k.val + 16 * 16; omega), rfl, rfl, fun x =>
      piece_agree (bufS0).view (tabS).view (ixS0).view f TT X _ k.val 4 0 hk (by omega) (by omega) hf hX (k0_off16 k 256#32 0#32) (k0_off14 k 256#32 0#32) (k0_off5 k)
        (k0_off16_inb k 0) (k0_off14_inb k 4) (k0_off5_inb k)
        ((cf0 (k0_off16 k 256#32 0#32)).trans (by show 1024 * k.val + 256 = _; omega)) ((cf0 (k0_off14 k 256#32 0#32)).trans (by show 1024 * k.val + 256 = _; omega)) ((cf0 (k0_off5 k)).trans (by show 16 * k.val = _; omega))
        _ 0#32 (by decide) _ _ (by first | rfl | rw [Shape.reshapeEquiv_self]) rfl x⟩,
    ⟨(cf0 (k0_off14 k 192#32 48#32)).trans (by show 1024 * k.val + 240 = 1024 * k.val + 16 * 15; omega), rfl, rfl, fun x =>
      piece_agree (bufS0).view (tabS).view (ixS0).view f TT X _ k.val 3 3 hk (by omega) (by omega) hf hX (k0_off14 k 192#32 48#32) (k0_off14 k 192#32 48#32) (k0_off5 k)
        (k0_off14_inb k 3) (k0_off14_inb k 3) (k0_off5_inb k)
        ((cf0 (k0_off14 k 192#32 48#32)).trans (by show 1024 * k.val + 240 = _; omega)) ((cf0 (k0_off14 k 192#32 48#32)).trans (by show 1024 * k.val + 240 = _; omega)) ((cf0 (k0_off5 k)).trans (by show 16 * k.val = _; omega))
        _ 48#32 (by decide) _ _ (by first | rfl | rw [Shape.reshapeEquiv_self]) rfl x⟩,
    ⟨(cf0 (k0_off14 k 192#32 32#32)).trans (by show 1024 * k.val + 224 = 1024 * k.val + 16 * 14; omega), rfl, rfl, fun x =>
      piece_agree (bufS0).view (tabS).view (ixS0).view f TT X _ k.val 3 2 hk (by omega) (by omega) hf hX (k0_off14 k 192#32 32#32) (k0_off14 k 192#32 32#32) (k0_off5 k)
        (k0_off14_inb k 2) (k0_off14_inb k 2) (k0_off5_inb k)
        ((cf0 (k0_off14 k 192#32 32#32)).trans (by show 1024 * k.val + 224 = _; omega)) ((cf0 (k0_off14 k 192#32 32#32)).trans (by show 1024 * k.val + 224 = _; omega)) ((cf0 (k0_off5 k)).trans (by show 16 * k.val = _; omega))
        _ 32#32 (by decide) _ _ (by first | rfl | rw [Shape.reshapeEquiv_self]) rfl x⟩,
    ⟨(cf0 (k0_off14 k 192#32 16#32)).trans (by show 1024 * k.val + 208 = 1024 * k.val + 16 * 13; omega), rfl, rfl, fun x =>
      piece_agree (bufS0).view (tabS).view (ixS0).view f TT X _ k.val 3 1 hk (by omega) (by omega) hf hX (k0_off14 k 192#32 16#32) (k0_off14 k 192#32 16#32) (k0_off5 k)
        (k0_off14_inb k 1) (k0_off14_inb k 1) (k0_off5_inb k)
        ((cf0 (k0_off14 k 192#32 16#32)).trans (by show 1024 * k.val + 208 = _; omega)) ((cf0 (k0_off14 k 192#32 16#32)).trans (by show 1024 * k.val + 208 = _; omega)) ((cf0 (k0_off5 k)).trans (by show 16 * k.val = _; omega))
        _ 16#32 (by decide) _ _ (by first | rfl | rw [Shape.reshapeEquiv_self]) rfl x⟩,
    ⟨(cf0 (k0_off14 k 192#32 0#32)).trans (by show 1024 * k.val + 192 = 1024 * k.val + 16 * 12; omega), rfl, rfl, fun x =>
      piece_agree (bufS0).view (tabS).view (ixS0).view f TT X _ k.val 3 0 hk (by omega) (by omega) hf hX (k0_off14 k 192#32 0#32) (k0_off12 k 192#32 0#32) (k0_off5 k)
        (k0_off14_inb k 0) (k0_off12_inb k 4) (k0_off5_inb k)
        ((cf0 (k0_off14 k 192#32 0#32)).trans (by show 1024 * k.val + 192 = _; omega)) ((cf0 (k0_off12 k 192#32 0#32)).trans (by show 1024 * k.val + 192 = _; omega)) ((cf0 (k0_off5 k)).trans (by show 16 * k.val = _; omega))
        _ 0#32 (by decide) _ _ (by first | rfl | rw [Shape.reshapeEquiv_self]) rfl x⟩,
    ⟨(cf0 (k0_off12 k 128#32 48#32)).trans (by show 1024 * k.val + 176 = 1024 * k.val + 16 * 11; omega), rfl, rfl, fun x =>
      piece_agree (bufS0).view (tabS).view (ixS0).view f TT X _ k.val 2 3 hk (by omega) (by omega) hf hX (k0_off12 k 128#32 48#32) (k0_off12 k 128#32 48#32) (k0_off5 k)
        (k0_off12_inb k 3) (k0_off12_inb k 3) (k0_off5_inb k)
        ((cf0 (k0_off12 k 128#32 48#32)).trans (by show 1024 * k.val + 176 = _; omega)) ((cf0 (k0_off12 k 128#32 48#32)).trans (by show 1024 * k.val + 176 = _; omega)) ((cf0 (k0_off5 k)).trans (by show 16 * k.val = _; omega))
        _ 48#32 (by decide) _ _ (by first | rfl | rw [Shape.reshapeEquiv_self]) rfl x⟩,
    ⟨(cf0 (k0_off12 k 128#32 32#32)).trans (by show 1024 * k.val + 160 = 1024 * k.val + 16 * 10; omega), rfl, rfl, fun x =>
      piece_agree (bufS0).view (tabS).view (ixS0).view f TT X _ k.val 2 2 hk (by omega) (by omega) hf hX (k0_off12 k 128#32 32#32) (k0_off12 k 128#32 32#32) (k0_off5 k)
        (k0_off12_inb k 2) (k0_off12_inb k 2) (k0_off5_inb k)
        ((cf0 (k0_off12 k 128#32 32#32)).trans (by show 1024 * k.val + 160 = _; omega)) ((cf0 (k0_off12 k 128#32 32#32)).trans (by show 1024 * k.val + 160 = _; omega)) ((cf0 (k0_off5 k)).trans (by show 16 * k.val = _; omega))
        _ 32#32 (by decide) _ _ (by first | rfl | rw [Shape.reshapeEquiv_self]) rfl x⟩,
    ⟨(cf0 (k0_off12 k 128#32 16#32)).trans (by show 1024 * k.val + 144 = 1024 * k.val + 16 * 9; omega), rfl, rfl, fun x =>
      piece_agree (bufS0).view (tabS).view (ixS0).view f TT X _ k.val 2 1 hk (by omega) (by omega) hf hX (k0_off12 k 128#32 16#32) (k0_off12 k 128#32 16#32) (k0_off5 k)
        (k0_off12_inb k 1) (k0_off12_inb k 1) (k0_off5_inb k)
        ((cf0 (k0_off12 k 128#32 16#32)).trans (by show 1024 * k.val + 144 = _; omega)) ((cf0 (k0_off12 k 128#32 16#32)).trans (by show 1024 * k.val + 144 = _; omega)) ((cf0 (k0_off5 k)).trans (by show 16 * k.val = _; omega))
        _ 16#32 (by decide) _ _ (by first | rfl | rw [Shape.reshapeEquiv_self]) rfl x⟩,
    ⟨(cf0 (k0_off12 k 128#32 0#32)).trans (by show 1024 * k.val + 128 = 1024 * k.val + 16 * 8; omega), rfl, rfl, fun x =>
      piece_agree (bufS0).view (tabS).view (ixS0).view f TT X _ k.val 2 0 hk (by omega) (by omega) hf hX (k0_off12 k 128#32 0#32) (k0_off10 k 128#32 0#32) (k0_off5 k)
        (k0_off12_inb k 0) (k0_off10_inb k 4) (k0_off5_inb k)
        ((cf0 (k0_off12 k 128#32 0#32)).trans (by show 1024 * k.val + 128 = _; omega)) ((cf0 (k0_off10 k 128#32 0#32)).trans (by show 1024 * k.val + 128 = _; omega)) ((cf0 (k0_off5 k)).trans (by show 16 * k.val = _; omega))
        _ 0#32 (by decide) _ _ (by first | rfl | rw [Shape.reshapeEquiv_self]) rfl x⟩,
    ⟨(cf0 (k0_off10 k 64#32 48#32)).trans (by show 1024 * k.val + 112 = 1024 * k.val + 16 * 7; omega), rfl, rfl, fun x =>
      piece_agree (bufS0).view (tabS).view (ixS0).view f TT X _ k.val 1 3 hk (by omega) (by omega) hf hX (k0_off10 k 64#32 48#32) (k0_off10 k 64#32 48#32) (k0_off5 k)
        (k0_off10_inb k 3) (k0_off10_inb k 3) (k0_off5_inb k)
        ((cf0 (k0_off10 k 64#32 48#32)).trans (by show 1024 * k.val + 112 = _; omega)) ((cf0 (k0_off10 k 64#32 48#32)).trans (by show 1024 * k.val + 112 = _; omega)) ((cf0 (k0_off5 k)).trans (by show 16 * k.val = _; omega))
        _ 48#32 (by decide) _ _ (by first | rfl | rw [Shape.reshapeEquiv_self]) rfl x⟩,
    ⟨(cf0 (k0_off10 k 64#32 32#32)).trans (by show 1024 * k.val + 96 = 1024 * k.val + 16 * 6; omega), rfl, rfl, fun x =>
      piece_agree (bufS0).view (tabS).view (ixS0).view f TT X _ k.val 1 2 hk (by omega) (by omega) hf hX (k0_off10 k 64#32 32#32) (k0_off10 k 64#32 32#32) (k0_off5 k)
        (k0_off10_inb k 2) (k0_off10_inb k 2) (k0_off5_inb k)
        ((cf0 (k0_off10 k 64#32 32#32)).trans (by show 1024 * k.val + 96 = _; omega)) ((cf0 (k0_off10 k 64#32 32#32)).trans (by show 1024 * k.val + 96 = _; omega)) ((cf0 (k0_off5 k)).trans (by show 16 * k.val = _; omega))
        _ 32#32 (by decide) _ _ (by first | rfl | rw [Shape.reshapeEquiv_self]) rfl x⟩,
    ⟨(cf0 (k0_off10 k 64#32 16#32)).trans (by show 1024 * k.val + 80 = 1024 * k.val + 16 * 5; omega), rfl, rfl, fun x =>
      piece_agree (bufS0).view (tabS).view (ixS0).view f TT X _ k.val 1 1 hk (by omega) (by omega) hf hX (k0_off10 k 64#32 16#32) (k0_off10 k 64#32 16#32) (k0_off5 k)
        (k0_off10_inb k 1) (k0_off10_inb k 1) (k0_off5_inb k)
        ((cf0 (k0_off10 k 64#32 16#32)).trans (by show 1024 * k.val + 80 = _; omega)) ((cf0 (k0_off10 k 64#32 16#32)).trans (by show 1024 * k.val + 80 = _; omega)) ((cf0 (k0_off5 k)).trans (by show 16 * k.val = _; omega))
        _ 16#32 (by decide) _ _ (by first | rfl | rw [Shape.reshapeEquiv_self]) rfl x⟩,
    ⟨(cf0 (k0_off10 k 64#32 0#32)).trans (by show 1024 * k.val + 64 = 1024 * k.val + 16 * 4; omega), rfl, rfl, fun x =>
      piece_agree (bufS0).view (tabS).view (ixS0).view f TT X _ k.val 1 0 hk (by omega) (by omega) hf hX (k0_off10 k 64#32 0#32) (k0_off8 k 64#32 0#32) (k0_off5 k)
        (k0_off10_inb k 0) (k0_off8_inb k 4) (k0_off5_inb k)
        ((cf0 (k0_off10 k 64#32 0#32)).trans (by show 1024 * k.val + 64 = _; omega)) ((cf0 (k0_off8 k 64#32 0#32)).trans (by show 1024 * k.val + 64 = _; omega)) ((cf0 (k0_off5 k)).trans (by show 16 * k.val = _; omega))
        _ 0#32 (by decide) _ _ (by first | rfl | rw [Shape.reshapeEquiv_self]) rfl x⟩,
    ⟨(cf0 (k0_off8 k 0#32 48#32)).trans (by show 1024 * k.val + 48 = 1024 * k.val + 16 * 3; omega), rfl, rfl, fun x =>
      piece_agree (bufS0).view (tabS).view (ixS0).view f TT X _ k.val 0 3 hk (by omega) (by omega) hf hX (k0_off8 k 0#32 48#32) (k0_off8 k 0#32 48#32) (k0_off5 k)
        (k0_off8_inb k 3) (k0_off8_inb k 3) (k0_off5_inb k)
        ((cf0 (k0_off8 k 0#32 48#32)).trans (by show 1024 * k.val + 48 = _; omega)) ((cf0 (k0_off8 k 0#32 48#32)).trans (by show 1024 * k.val + 48 = _; omega)) ((cf0 (k0_off5 k)).trans (by show 16 * k.val = _; omega))
        _ 48#32 (by decide) _ _ (by first | rfl | rw [Shape.reshapeEquiv_self]) rfl x⟩,
    ⟨(cf0 (k0_off8 k 0#32 32#32)).trans (by show 1024 * k.val + 32 = 1024 * k.val + 16 * 2; omega), rfl, rfl, fun x =>
      piece_agree (bufS0).view (tabS).view (ixS0).view f TT X _ k.val 0 2 hk (by omega) (by omega) hf hX (k0_off8 k 0#32 32#32) (k0_off8 k 0#32 32#32) (k0_off5 k)
        (k0_off8_inb k 2) (k0_off8_inb k 2) (k0_off5_inb k)
        ((cf0 (k0_off8 k 0#32 32#32)).trans (by show 1024 * k.val + 32 = _; omega)) ((cf0 (k0_off8 k 0#32 32#32)).trans (by show 1024 * k.val + 32 = _; omega)) ((cf0 (k0_off5 k)).trans (by show 16 * k.val = _; omega))
        _ 32#32 (by decide) _ _ (by first | rfl | rw [Shape.reshapeEquiv_self]) rfl x⟩,
    ⟨(cf0 (k0_off8 k 0#32 16#32)).trans (by show 1024 * k.val + 16 = 1024 * k.val + 16 * 1; omega), rfl, rfl, fun x =>
      piece_agree (bufS0).view (tabS).view (ixS0).view f TT X _ k.val 0 1 hk (by omega) (by omega) hf hX (k0_off8 k 0#32 16#32) (k0_off8 k 0#32 16#32) (k0_off5 k)
        (k0_off8_inb k 1) (k0_off8_inb k 1) (k0_off5_inb k)
        ((cf0 (k0_off8 k 0#32 16#32)).trans (by show 1024 * k.val + 16 = _; omega)) ((cf0 (k0_off8 k 0#32 16#32)).trans (by show 1024 * k.val + 16 = _; omega)) ((cf0 (k0_off5 k)).trans (by show 16 * k.val = _; omega))
        _ 16#32 (by decide) _ _ (by first | rfl | rw [Shape.reshapeEquiv_self]) rfl x⟩,
    ⟨(cf0 (k0_off8 k 0#32 0#32)).trans (by show 1024 * k.val + 0 = 1024 * k.val + 16 * 0; omega), rfl, rfl, fun x =>
      piece_agree (bufS0).view (tabS).view (ixS0).view f TT X _ k.val 0 0 hk (by omega) (by omega) hf hX (k0_off8 k 0#32 0#32) (k0_off6 k) (k0_off5 k)
        (k0_off8_inb k 0) (k0_off6_inb k) (k0_off5_inb k)
        ((cf0 (k0_off8 k 0#32 0#32)).trans (by show 1024 * k.val + 0 = _; omega)) ((cf0 (k0_off6 k)).trans (by show 1024 * k.val = _; omega)) ((cf0 (k0_off5 k)).trans (by show 16 * k.val = _; omega))
        _ 0#32 (by decide) _ _ (by first | rfl | rw [Shape.reshapeEquiv_self]) rfl x⟩,
    trivial⟩

/-- The whole loop, in continuation form: from the three buffers, the program goes on with every row done. -/
theorem loop1_spec (hX : ∀ j, BitVec.toNat ((ixS0).view.read (Elt F) X j) < 16) (v1 v21 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS0).view.loc (thrV d L) ↦{fullShare} X)
        ∗ ((bufS0).view.loc (thrV d L) ↦{fullShare} B)
        ∗ (∀ acc f, (⌜∀ y, (bufS0).view.read (Elt F) f y
              = stage ((bufS0).view.read (Elt F) B) ((tabS).view.read (Elt F) TT) ((ixS0).view.read (Elt F) X) 400 y⌝
              ∗ ((tabS).view.loc (thrV d L) ↦{fullShare} TT) ∗ ((ixS0).view.loc (thrV d L) ↦{fullShare} X)
              ∗ ((bufS0).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t1_loop k0_t1_ok init (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21) >>= kk) Q := by
  iintro ⟨Ht, Hx, Hb, Hk⟩
  iapply (Scf.wp_for_bind frame (wpE (defs₀ (F := F)) 𝒱₀ (thrV d L) none) Set.univ k0_t1_loop.lb k0_t1_loop.ub k0_t1_loop.st k0_t1_ok init
    (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21) (inv1 d L TT X B) (step1 d L TT X B hX v1 v21)) $$ [Ht Hx Hb]
  · unfold inv1
    isplitl [Ht]; · iexact Ht
    isplitl [Hx]; · iexact Hx
    iexists B; isplitl [Hb]; · iexact Hb
    ipureintro
    intro y
    unfold stage
    rw [if_neg (by omega)]
  iintro %acc HI
  unfold inv1
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KLoop2.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS1).view.loc (thrV d L)))
  (B : Buf (Elt F) ((bufS1).view.loc (thrV d L)))

/-- Before trip k: the table and the indices as they were, the row buffer at stage 16 k. -/
def inv2 (k : Nat) (_ : BitVec 32) : sProp 𝕄 :=
  iprop(((tabS).view.loc (thrV d L) ↦{fullShare} TT) ∗ ((ixS1).view.loc (thrV d L) ↦{fullShare} X)
    ∗ ∃ f, ((bufS1).view.loc (thrV d L) ↦{fullShare} f)
        ∗ ⌜∀ y, (bufS1).view.read (Elt F) f y
            = stage ((bufS1).view.read (Elt F) B) ((tabS).view.read (Elt F) TT) ((ixS1).view.read (Elt F) X) (16 * k) y⌝)

set_option maxHeartbeats 16000000 in
/-- One trip keeps the invariant. -/
theorem step2 (hX : ∀ j, BitVec.toNat ((ixS1).view.read (Elt F) X j) < 16) (v1 v21 c0_i32_32 c0_i32_33 : BitVec 32)
    (k : Fin (Scf.trips k0_t2_loop.lb k0_t2_loop.ub k0_t2_loop.st)) (acc : BitVec 32) :
    inv2 d L TT X B k acc
      ⊢ wp frame (wpE (defs₀ (F := F)) 𝒱₀ (thrV d L) none) Set.univ
          (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33 k acc) (inv2 d L TT X B (k.val + 1)) := by
  have hk : k.val < 25 := Nat.lt_of_lt_of_le k.isLt k0_t2_abs.2.1
  unfold inv2 k0_t2_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS1).view f _ _ _ k.val _ rfl hf ?_
  exact ⟨
    ⟨(cf0 (k0_off74 k 48#32)).trans (by show 1024 * k.val + 16 * 3 + 960 = 1024 * k.val + 16 * 63; omega), rfl, rfl, fun x =>
      piece_agree (bufS1).view (tabS).view (ixS1).view f TT X _ k.val 15 3 hk (by omega) (by omega) hf hX (k0_off74 k 48#32) (k0_off74 k 48#32) (k0_off41 k)
        (k0_off74_inb k 3) (k0_off74_inb k 3) (k0_off41_inb k)
        ((cf0 (k0_off74 k 48#32)).trans (by show 1024 * k.val + 16 * 3 + 960 = _; omega)) ((cf0 (k0_off74 k 48#32)).trans (by show 1024 * k.val + 16 * 3 + 960 = _; omega)) ((cf0 (k0_off41 k)).trans (by show 16 * k.val = _; omega))
        _ 48#32 (by decide) _ _ (by first | rfl | rw [Shape.reshapeEquiv_self]) rfl x⟩,
    ⟨(cf0 (k0_off74 k 32#32)).trans (by show 1024 * k.val + 16 * 2 + 960 = 1024 * k.val + 16 * 62; omega), rfl, rfl, fun x =>
      piece_agree (bufS1).view (tabS).view (ixS1).view f TT X _ k.val 15 2 hk (by omega) (by omega) hf hX (k0_off74 k 32#32) (k0_off74 k 32#32) (k0_off41 k)
        (k0_off74_inb k 2) (k0_off74_inb k 2) (k0_off41_inb k)
        ((cf0 (k0_off74 k 32#32)).trans (by show 1024 * k.val + 16 * 2 + 960 = _; omega)) ((cf0 (k0_off74 k 32#32)).trans (by show 1024 * k.val + 16 * 2 + 960 = _; omega)) ((cf0 (k0_off41 k)).trans (by show 16 * k.val = _; omega))
        _ 32#32 (by decide) _ _ (by first | rfl | rw [Shape.reshapeEquiv_self]) rfl x⟩,
    ⟨(cf0 (k0_off74 k 16#32)).trans (by show 1024 * k.val + 16 * 1 + 960 = 1024 * k.val + 16 * 61; omega), rfl, rfl, fun x =>
      piece_agree (bufS1).view (tabS).view (ixS1).view f TT X _ k.val 15 1 hk (by omega) (by omega) hf hX (k0_off74 k 16#32) (k0_off74 k 16#32) (k0_off41 k)
        (k0_off74_inb k 1) (k0_off74_inb k 1) (k0_off41_inb k)
        ((cf0 (k0_off74 k 16#32)).trans (by show 1024 * k.val + 16 * 1 + 960 = _; omega)) ((cf0 (k0_off74 k 16#32)).trans (by show 1024 * k.val + 16 * 1 + 960 = _; omega)) ((cf0 (k0_off41 k)).trans (by show 16 * k.val = _; omega))
        _ 16#32 (by decide) _ _ (by first | rfl | rw [Shape.reshapeEquiv_self]) rfl x⟩,
    ⟨(cf0 (k0_off74 k 0#32)).trans (by show 1024 * k.val + 16 * 0 + 960 = 1024 * k.val + 16 * 60; omega), rfl, rfl, fun x =>
      piece_agree (bufS1).view (tabS).view (ixS1).view f TT X _ k.val 15 0 hk (by omega) (by omega) hf hX (k0_off74 k 0#32) (k0_off72 k 960#32 0#32) (k0_off41 k)
        (k0_off74_inb k 0) (k0_off72_inb k 4) (k0_off41_inb k)
        ((cf0 (k0_off74 k 0#32)).trans (by show 1024 * k.val + 16 * 0 + 960 = _; omega)) ((cf0 (k0_off72 k 960#32 0#32)).trans (by show 1024 * k.val + 960 = _; omega)) ((cf0 (k0_off41 k)).trans (by show 16 * k.val = _; omega))
        _ 0#32 (by decide) _ _ (by first | rfl | rw [Shape.reshapeEquiv_self]) rfl x⟩,
    ⟨(cf0 (k0_off72 k 896#32 48#32)).trans (by show 1024 * k.val + 944 = 1024 * k.val + 16 * 59; omega), rfl, rfl, fun x =>
      piece_agree (bufS1).view (tabS).view (ixS1).view f TT X _ k.val 14 3 hk (by omega) (by omega) hf hX (k0_off72 k 896#32 48#32) (k0_off72 k 896#32 48#32) (k0_off41 k)
        (k0_off72_inb k 3) (k0_off72_inb k 3) (k0_off41_inb k)
        ((cf0 (k0_off72 k 896#32 48#32)).trans (by show 1024 * k.val + 944 = _; omega)) ((cf0 (k0_off72 k 896#32 48#32)).trans (by show 1024 * k.val + 944 = _; omega)) ((cf0 (k0_off41 k)).trans (by show 16 * k.val = _; omega))
        _ 48#32 (by decide) _ _ (by first | rfl | rw [Shape.reshapeEquiv_self]) rfl x⟩,
    ⟨(cf0 (k0_off72 k 896#32 32#32)).trans (by show 1024 * k.val + 928 = 1024 * k.val + 16 * 58; omega), rfl, rfl, fun x =>
      piece_agree (bufS1).view (tabS).view (ixS1).view f TT X _ k.val 14 2 hk (by omega) (by omega) hf hX (k0_off72 k 896#32 32#32) (k0_off72 k 896#32 32#32) (k0_off41 k)
        (k0_off72_inb k 2) (k0_off72_inb k 2) (k0_off41_inb k)
        ((cf0 (k0_off72 k 896#32 32#32)).trans (by show 1024 * k.val + 928 = _; omega)) ((cf0 (k0_off72 k 896#32 32#32)).trans (by show 1024 * k.val + 928 = _; omega)) ((cf0 (k0_off41 k)).trans (by show 16 * k.val = _; omega))
        _ 32#32 (by decide) _ _ (by first | rfl | rw [Shape.reshapeEquiv_self]) rfl x⟩,
    ⟨(cf0 (k0_off72 k 896#32 16#32)).trans (by show 1024 * k.val + 912 = 1024 * k.val + 16 * 57; omega), rfl, rfl, fun x =>
      piece_agree (bufS1).view (tabS).view (ixS1).view f TT X _ k.val 14 1 hk (by omega) (by omega) hf hX (k0_off72 k 896#32 16#32) (k0_off72 k 896#32 16#32) (k0_off41 k)
        (k0_off72_inb k 1) (k0_off72_inb k 1) (k0_off41_inb k)
        ((cf0 (k0_off72 k 896#32 16#32)).trans (by show 1024 * k.val + 912 = _; omega)) ((cf0 (k0_off72 k 896#32 16#32)).trans (by show 1024 * k.val + 912 = _; omega)) ((cf0 (k0_off41 k)).trans (by show 16 * k.val = _; omega))
        _ 16#32 (by decide) _ _ (by first | rfl | rw [Shape.reshapeEquiv_self]) rfl x⟩,
    ⟨(cf0 (k0_off72 k 896#32 0#32)).trans (by show 1024 * k.val + 896 = 1024 * k.val + 16 * 56; omega), rfl, rfl, fun x =>
      piece_agree (bufS1).view (tabS).view (ixS1).view f TT X _ k.val 14 0 hk (by omega) (by omega) hf hX (k0_off72 k 896#32 0#32) (k0_off70 k 896#32 0#32) (k0_off41 k)
        (k0_off72_inb k 0) (k0_off70_inb k 4) (k0_off41_inb k)
        ((cf0 (k0_off72 k 896#32 0#32)).trans (by show 1024 * k.val + 896 = _; omega)) ((cf0 (k0_off70 k 896#32 0#32)).trans (by show 1024 * k.val + 896 = _; omega)) ((cf0 (k0_off41 k)).trans (by show 16 * k.val = _; omega))
        _ 0#32 (by decide) _ _ (by first | rfl | rw [Shape.reshapeEquiv_self]) rfl x⟩,
    ⟨(cf0 (k0_off70 k 832#32 48#32)).trans (by show 1024 * k.val + 880 = 1024 * k.val + 16 * 55; omega), rfl, rfl, fun x =>
      piece_agree (bufS1).view (tabS).view (ixS1).view f TT X _ k.val 13 3 hk (by omega) (by omega) hf hX (k0_off70 k 832#32 48#32) (k0_off70 k 832#32 48#32) (k0_off41 k)
        (k0_off70_inb k 3) (k0_off70_inb k 3) (k0_off41_inb k)
        ((cf0 (k0_off70 k 832#32 48#32)).trans (by show 1024 * k.val + 880 = _; omega)) ((cf0 (k0_off70 k 832#32 48#32)).trans (by show 1024 * k.val + 880 = _; omega)) ((cf0 (k0_off41 k)).trans (by show 16 * k.val = _; omega))
        _ 48#32 (by decide) _ _ (by first | rfl | rw [Shape.reshapeEquiv_self]) rfl x⟩,
    ⟨(cf0 (k0_off70 k 832#32 32#32)).trans (by show 1024 * k.val + 864 = 1024 * k.val + 16 * 54; omega), rfl, rfl, fun x =>
      piece_agree (bufS1).view (tabS).view (ixS1).view f TT X _ k.val 13 2 hk (by omega) (by omega) hf hX (k0_off70 k 832#32 32#32) (k0_off70 k 832#32 32#32) (k0_off41 k)
        (k0_off70_inb k 2) (k0_off70_inb k 2) (k0_off41_inb k)
        ((cf0 (k0_off70 k 832#32 32#32)).trans (by show 1024 * k.val + 864 = _; omega)) ((cf0 (k0_off70 k 832#32 32#32)).trans (by show 1024 * k.val + 864 = _; omega)) ((cf0 (k0_off41 k)).trans (by show 16 * k.val = _; omega))
        _ 32#32 (by decide) _ _ (by first | rfl | rw [Shape.reshapeEquiv_self]) rfl x⟩,
    ⟨(cf0 (k0_off70 k 832#32 16#32)).trans (by show 1024 * k.val + 848 = 1024 * k.val + 16 * 53; omega), rfl, rfl, fun x =>
      piece_agree (bufS1).view (tabS).view (ixS1).view f TT X _ k.val 13 1 hk (by omega) (by omega) hf hX (k0_off70 k 832#32 16#32) (k0_off70 k 832#32 16#32) (k0_off41 k)
        (k0_off70_inb k 1) (k0_off70_inb k 1) (k0_off41_inb k)
        ((cf0 (k0_off70 k 832#32 16#32)).trans (by show 1024 * k.val + 848 = _; omega)) ((cf0 (k0_off70 k 832#32 16#32)).trans (by show 1024 * k.val + 848 = _; omega)) ((cf0 (k0_off41 k)).trans (by show 16 * k.val = _; omega))
        _ 16#32 (by decide) _ _ (by first | rfl | rw [Shape.reshapeEquiv_self]) rfl x⟩,
    ⟨(cf0 (k0_off70 k 832#32 0#32)).trans (by show 1024 * k.val + 832 = 1024 * k.val + 16 * 52; omega), rfl, rfl, fun x =>
      piece_agree (bufS1).view (tabS).view (ixS1).view f TT X _ k.val 13 0 hk (by omega) (by omega) hf hX (k0_off70 k 832#32 0#32) (k0_off68 k 832#32 0#32) (k0_off41 k)
        (k0_off70_inb k 0) (k0_off68_inb k 4) (k0_off41_inb k)
        ((cf0 (k0_off70 k 832#32 0#32)).trans (by show 1024 * k.val + 832 = _; omega)) ((cf0 (k0_off68 k 832#32 0#32)).trans (by show 1024 * k.val + 832 = _; omega)) ((cf0 (k0_off41 k)).trans (by show 16 * k.val = _; omega))
        _ 0#32 (by decide) _ _ (by first | rfl | rw [Shape.reshapeEquiv_self]) rfl x⟩,
    ⟨(cf0 (k0_off68 k 768#32 48#32)).trans (by show 1024 * k.val + 816 = 1024 * k.val + 16 * 51; omega), rfl, rfl, fun x =>
      piece_agree (bufS1).view (tabS).view (ixS1).view f TT X _ k.val 12 3 hk (by omega) (by omega) hf hX (k0_off68 k 768#32 48#32) (k0_off68 k 768#32 48#32) (k0_off41 k)
        (k0_off68_inb k 3) (k0_off68_inb k 3) (k0_off41_inb k)
        ((cf0 (k0_off68 k 768#32 48#32)).trans (by show 1024 * k.val + 816 = _; omega)) ((cf0 (k0_off68 k 768#32 48#32)).trans (by show 1024 * k.val + 816 = _; omega)) ((cf0 (k0_off41 k)).trans (by show 16 * k.val = _; omega))
        _ 48#32 (by decide) _ _ (by first | rfl | rw [Shape.reshapeEquiv_self]) rfl x⟩,
    ⟨(cf0 (k0_off68 k 768#32 32#32)).trans (by show 1024 * k.val + 800 = 1024 * k.val + 16 * 50; omega), rfl, rfl, fun x =>
      piece_agree (bufS1).view (tabS).view (ixS1).view f TT X _ k.val 12 2 hk (by omega) (by omega) hf hX (k0_off68 k 768#32 32#32) (k0_off68 k 768#32 32#32) (k0_off41 k)
        (k0_off68_inb k 2) (k0_off68_inb k 2) (k0_off41_inb k)
        ((cf0 (k0_off68 k 768#32 32#32)).trans (by show 1024 * k.val + 800 = _; omega)) ((cf0 (k0_off68 k 768#32 32#32)).trans (by show 1024 * k.val + 800 = _; omega)) ((cf0 (k0_off41 k)).trans (by show 16 * k.val = _; omega))
        _ 32#32 (by decide) _ _ (by first | rfl | rw [Shape.reshapeEquiv_self]) rfl x⟩,
    ⟨(cf0 (k0_off68 k 768#32 16#32)).trans (by show 1024 * k.val + 784 = 1024 * k.val + 16 * 49; omega), rfl, rfl, fun x =>
      piece_agree (bufS1).view (tabS).view (ixS1).view f TT X _ k.val 12 1 hk (by omega) (by omega) hf hX (k0_off68 k 768#32 16#32) (k0_off68 k 768#32 16#32) (k0_off41 k)
        (k0_off68_inb k 1) (k0_off68_inb k 1) (k0_off41_inb k)
        ((cf0 (k0_off68 k 768#32 16#32)).trans (by show 1024 * k.val + 784 = _; omega)) ((cf0 (k0_off68 k 768#32 16#32)).trans (by show 1024 * k.val + 784 = _; omega)) ((cf0 (k0_off41 k)).trans (by show 16 * k.val = _; omega))
        _ 16#32 (by decide) _ _ (by first | rfl | rw [Shape.reshapeEquiv_self]) rfl x⟩,
    ⟨(cf0 (k0_off68 k 768#32 0#32)).trans (by show 1024 * k.val + 768 = 1024 * k.val + 16 * 48; omega), rfl, rfl, fun x =>
      piece_agree (bufS1).view (tabS).view (ixS1).view f TT X _ k.val 12 0 hk (by omega) (by omega) hf hX (k0_off68 k 768#32 0#32) (k0_off66 k 768#32 0#32) (k0_off41 k)
        (k0_off68_inb k 0) (k0_off66_inb k 4) (k0_off41_inb k)
        ((cf0 (k0_off68 k 768#32 0#32)).trans (by show 1024 * k.val + 768 = _; omega)) ((cf0 (k0_off66 k 768#32 0#32)).trans (by show 1024 * k.val + 768 = _; omega)) ((cf0 (k0_off41 k)).trans (by show 16 * k.val = _; omega))
        _ 0#32 (by decide) _ _ (by first | rfl | rw [Shape.reshapeEquiv_self]) rfl x⟩,
    ⟨(cf0 (k0_off66 k 704#32 48#32)).trans (by show 1024 * k.val + 752 = 1024 * k.val + 16 * 47; omega), rfl, rfl, fun x =>
      piece_agree (bufS1).view (tabS).view (ixS1).view f TT X _ k.val 11 3 hk (by omega) (by omega) hf hX (k0_off66 k 704#32 48#32) (k0_off66 k 704#32 48#32) (k0_off41 k)
        (k0_off66_inb k 3) (k0_off66_inb k 3) (k0_off41_inb k)
        ((cf0 (k0_off66 k 704#32 48#32)).trans (by show 1024 * k.val + 752 = _; omega)) ((cf0 (k0_off66 k 704#32 48#32)).trans (by show 1024 * k.val + 752 = _; omega)) ((cf0 (k0_off41 k)).trans (by show 16 * k.val = _; omega))
        _ 48#32 (by decide) _ _ (by first | rfl | rw [Shape.reshapeEquiv_self]) rfl x⟩,
    ⟨(cf0 (k0_off66 k 704#32 32#32)).trans (by show 1024 * k.val + 736 = 1024 * k.val + 16 * 46; omega), rfl, rfl, fun x =>
      piece_agree (bufS1).view (tabS).view (ixS1).view f TT X _ k.val 11 2 hk (by omega) (by omega) hf hX (k0_off66 k 704#32 32#32) (k0_off66 k 704#32 32#32) (k0_off41 k)
        (k0_off66_inb k 2) (k0_off66_inb k 2) (k0_off41_inb k)
        ((cf0 (k0_off66 k 704#32 32#32)).trans (by show 1024 * k.val + 736 = _; omega)) ((cf0 (k0_off66 k 704#32 32#32)).trans (by show 1024 * k.val + 736 = _; omega)) ((cf0 (k0_off41 k)).trans (by show 16 * k.val = _; omega))
        _ 32#32 (by decide) _ _ (by first | rfl | rw [Shape.reshapeEquiv_self]) rfl x⟩,
    ⟨(cf0 (k0_off66 k 704#32 16#32)).trans (by show 1024 * k.val + 720 = 1024 * k.val + 16 * 45; omega), rfl, rfl, fun x =>
      piece_agree (bufS1).view (tabS).view (ixS1).view f TT X _ k.val 11 1 hk (by omega) (by omega) hf hX (k0_off66 k 704#32 16#32) (k0_off66 k 704#32 16#32) (k0_off41 k)
        (k0_off66_inb k 1) (k0_off66_inb k 1) (k0_off41_inb k)
        ((cf0 (k0_off66 k 704#32 16#32)).trans (by show 1024 * k.val + 720 = _; omega)) ((cf0 (k0_off66 k 704#32 16#32)).trans (by show 1024 * k.val + 720 = _; omega)) ((cf0 (k0_off41 k)).trans (by show 16 * k.val = _; omega))
        _ 16#32 (by decide) _ _ (by first | rfl | rw [Shape.reshapeEquiv_self]) rfl x⟩,
    ⟨(cf0 (k0_off66 k 704#32 0#32)).trans (by show 1024 * k.val + 704 = 1024 * k.val + 16 * 44; omega), rfl, rfl, fun x =>
      piece_agree (bufS1).view (tabS).view (ixS1).view f TT X _ k.val 11 0 hk (by omega) (by omega) hf hX (k0_off66 k 704#32 0#32) (k0_off64 k 704#32 0#32) (k0_off41 k)
        (k0_off66_inb k 0) (k0_off64_inb k 4) (k0_off41_inb k)
        ((cf0 (k0_off66 k 704#32 0#32)).trans (by show 1024 * k.val + 704 = _; omega)) ((cf0 (k0_off64 k 704#32 0#32)).trans (by show 1024 * k.val + 704 = _; omega)) ((cf0 (k0_off41 k)).trans (by show 16 * k.val = _; omega))
        _ 0#32 (by decide) _ _ (by first | rfl | rw [Shape.reshapeEquiv_self]) rfl x⟩,
    ⟨(cf0 (k0_off64 k 640#32 48#32)).trans (by show 1024 * k.val + 688 = 1024 * k.val + 16 * 43; omega), rfl, rfl, fun x =>
      piece_agree (bufS1).view (tabS).view (ixS1).view f TT X _ k.val 10 3 hk (by omega) (by omega) hf hX (k0_off64 k 640#32 48#32) (k0_off64 k 640#32 48#32) (k0_off41 k)
        (k0_off64_inb k 3) (k0_off64_inb k 3) (k0_off41_inb k)
        ((cf0 (k0_off64 k 640#32 48#32)).trans (by show 1024 * k.val + 688 = _; omega)) ((cf0 (k0_off64 k 640#32 48#32)).trans (by show 1024 * k.val + 688 = _; omega)) ((cf0 (k0_off41 k)).trans (by show 16 * k.val = _; omega))
        _ 48#32 (by decide) _ _ (by first | rfl | rw [Shape.reshapeEquiv_self]) rfl x⟩,
    ⟨(cf0 (k0_off64 k 640#32 32#32)).trans (by show 1024 * k.val + 672 = 1024 * k.val + 16 * 42; omega), rfl, rfl, fun x =>
      piece_agree (bufS1).view (tabS).view (ixS1).view f TT X _ k.val 10 2 hk (by omega) (by omega) hf hX (k0_off64 k 640#32 32#32) (k0_off64 k 640#32 32#32) (k0_off41 k)
        (k0_off64_inb k 2) (k0_off64_inb k 2) (k0_off41_inb k)
        ((cf0 (k0_off64 k 640#32 32#32)).trans (by show 1024 * k.val + 672 = _; omega)) ((cf0 (k0_off64 k 640#32 32#32)).trans (by show 1024 * k.val + 672 = _; omega)) ((cf0 (k0_off41 k)).trans (by show 16 * k.val = _; omega))
        _ 32#32 (by decide) _ _ (by first | rfl | rw [Shape.reshapeEquiv_self]) rfl x⟩,
    ⟨(cf0 (k0_off64 k 640#32 16#32)).trans (by show 1024 * k.val + 656 = 1024 * k.val + 16 * 41; omega), rfl, rfl, fun x =>
      piece_agree (bufS1).view (tabS).view (ixS1).view f TT X _ k.val 10 1 hk (by omega) (by omega) hf hX (k0_off64 k 640#32 16#32) (k0_off64 k 640#32 16#32) (k0_off41 k)
        (k0_off64_inb k 1) (k0_off64_inb k 1) (k0_off41_inb k)
        ((cf0 (k0_off64 k 640#32 16#32)).trans (by show 1024 * k.val + 656 = _; omega)) ((cf0 (k0_off64 k 640#32 16#32)).trans (by show 1024 * k.val + 656 = _; omega)) ((cf0 (k0_off41 k)).trans (by show 16 * k.val = _; omega))
        _ 16#32 (by decide) _ _ (by first | rfl | rw [Shape.reshapeEquiv_self]) rfl x⟩,
    ⟨(cf0 (k0_off64 k 640#32 0#32)).trans (by show 1024 * k.val + 640 = 1024 * k.val + 16 * 40; omega), rfl, rfl, fun x =>
      piece_agree (bufS1).view (tabS).view (ixS1).view f TT X _ k.val 10 0 hk (by omega) (by omega) hf hX (k0_off64 k 640#32 0#32) (k0_off62 k 640#32 0#32) (k0_off41 k)
        (k0_off64_inb k 0) (k0_off62_inb k 4) (k0_off41_inb k)
        ((cf0 (k0_off64 k 640#32 0#32)).trans (by show 1024 * k.val + 640 = _; omega)) ((cf0 (k0_off62 k 640#32 0#32)).trans (by show 1024 * k.val + 640 = _; omega)) ((cf0 (k0_off41 k)).trans (by show 16 * k.val = _; omega))
        _ 0#32 (by decide) _ _ (by first | rfl | rw [Shape.reshapeEquiv_self]) rfl x⟩,
    ⟨(cf0 (k0_off62 k 576#32 48#32)).trans (by show 1024 * k.val + 624 = 1024 * k.val + 16 * 39; omega), rfl, rfl, fun x =>
      piece_agree (bufS1).view (tabS).view (ixS1).view f TT X _ k.val 9 3 hk (by omega) (by omega) hf hX (k0_off62 k 576#32 48#32) (k0_off62 k 576#32 48#32) (k0_off41 k)
        (k0_off62_inb k 3) (k0_off62_inb k 3) (k0_off41_inb k)
        ((cf0 (k0_off62 k 576#32 48#32)).trans (by show 1024 * k.val + 624 = _; omega)) ((cf0 (k0_off62 k 576#32 48#32)).trans (by show 1024 * k.val + 624 = _; omega)) ((cf0 (k0_off41 k)).trans (by show 16 * k.val = _; omega))
        _ 48#32 (by decide) _ _ (by first | rfl | rw [Shape.reshapeEquiv_self]) rfl x⟩,
    ⟨(cf0 (k0_off62 k 576#32 32#32)).trans (by show 1024 * k.val + 608 = 1024 * k.val + 16 * 38; omega), rfl, rfl, fun x =>
      piece_agree (bufS1).view (tabS).view (ixS1).view f TT X _ k.val 9 2 hk (by omega) (by omega) hf hX (k0_off62 k 576#32 32#32) (k0_off62 k 576#32 32#32) (k0_off41 k)
        (k0_off62_inb k 2) (k0_off62_inb k 2) (k0_off41_inb k)
        ((cf0 (k0_off62 k 576#32 32#32)).trans (by show 1024 * k.val + 608 = _; omega)) ((cf0 (k0_off62 k 576#32 32#32)).trans (by show 1024 * k.val + 608 = _; omega)) ((cf0 (k0_off41 k)).trans (by show 16 * k.val = _; omega))
        _ 32#32 (by decide) _ _ (by first | rfl | rw [Shape.reshapeEquiv_self]) rfl x⟩,
    ⟨(cf0 (k0_off62 k 576#32 16#32)).trans (by show 1024 * k.val + 592 = 1024 * k.val + 16 * 37; omega), rfl, rfl, fun x =>
      piece_agree (bufS1).view (tabS).view (ixS1).view f TT X _ k.val 9 1 hk (by omega) (by omega) hf hX (k0_off62 k 576#32 16#32) (k0_off62 k 576#32 16#32) (k0_off41 k)
        (k0_off62_inb k 1) (k0_off62_inb k 1) (k0_off41_inb k)
        ((cf0 (k0_off62 k 576#32 16#32)).trans (by show 1024 * k.val + 592 = _; omega)) ((cf0 (k0_off62 k 576#32 16#32)).trans (by show 1024 * k.val + 592 = _; omega)) ((cf0 (k0_off41 k)).trans (by show 16 * k.val = _; omega))
        _ 16#32 (by decide) _ _ (by first | rfl | rw [Shape.reshapeEquiv_self]) rfl x⟩,
    ⟨(cf0 (k0_off62 k 576#32 0#32)).trans (by show 1024 * k.val + 576 = 1024 * k.val + 16 * 36; omega), rfl, rfl, fun x =>
      piece_agree (bufS1).view (tabS).view (ixS1).view f TT X _ k.val 9 0 hk (by omega) (by omega) hf hX (k0_off62 k 576#32 0#32) (k0_off60 k 576#32 0#32) (k0_off41 k)
        (k0_off62_inb k 0) (k0_off60_inb k 4) (k0_off41_inb k)
        ((cf0 (k0_off62 k 576#32 0#32)).trans (by show 1024 * k.val + 576 = _; omega)) ((cf0 (k0_off60 k 576#32 0#32)).trans (by show 1024 * k.val + 576 = _; omega)) ((cf0 (k0_off41 k)).trans (by show 16 * k.val = _; omega))
        _ 0#32 (by decide) _ _ (by first | rfl | rw [Shape.reshapeEquiv_self]) rfl x⟩,
    ⟨(cf0 (k0_off60 k 512#32 48#32)).trans (by show 1024 * k.val + 560 = 1024 * k.val + 16 * 35; omega), rfl, rfl, fun x =>
      piece_agree (bufS1).view (tabS).view (ixS1).view f TT X _ k.val 8 3 hk (by omega) (by omega) hf hX (k0_off60 k 512#32 48#32) (k0_off60 k 512#32 48#32) (k0_off41 k)
        (k0_off60_inb k 3) (k0_off60_inb k 3) (k0_off41_inb k)
        ((cf0 (k0_off60 k 512#32 48#32)).trans (by show 1024 * k.val + 560 = _; omega)) ((cf0 (k0_off60 k 512#32 48#32)).trans (by show 1024 * k.val + 560 = _; omega)) ((cf0 (k0_off41 k)).trans (by show 16 * k.val = _; omega))
        _ 48#32 (by decide) _ _ (by first | rfl | rw [Shape.reshapeEquiv_self]) rfl x⟩,
    ⟨(cf0 (k0_off60 k 512#32 32#32)).trans (by show 1024 * k.val + 544 = 1024 * k.val + 16 * 34; omega), rfl, rfl, fun x =>
      piece_agree (bufS1).view (tabS).view (ixS1).view f TT X _ k.val 8 2 hk (by omega) (by omega) hf hX (k0_off60 k 512#32 32#32) (k0_off60 k 512#32 32#32) (k0_off41 k)
        (k0_off60_inb k 2) (k0_off60_inb k 2) (k0_off41_inb k)
        ((cf0 (k0_off60 k 512#32 32#32)).trans (by show 1024 * k.val + 544 = _; omega)) ((cf0 (k0_off60 k 512#32 32#32)).trans (by show 1024 * k.val + 544 = _; omega)) ((cf0 (k0_off41 k)).trans (by show 16 * k.val = _; omega))
        _ 32#32 (by decide) _ _ (by first | rfl | rw [Shape.reshapeEquiv_self]) rfl x⟩,
    ⟨(cf0 (k0_off60 k 512#32 16#32)).trans (by show 1024 * k.val + 528 = 1024 * k.val + 16 * 33; omega), rfl, rfl, fun x =>
      piece_agree (bufS1).view (tabS).view (ixS1).view f TT X _ k.val 8 1 hk (by omega) (by omega) hf hX (k0_off60 k 512#32 16#32) (k0_off60 k 512#32 16#32) (k0_off41 k)
        (k0_off60_inb k 1) (k0_off60_inb k 1) (k0_off41_inb k)
        ((cf0 (k0_off60 k 512#32 16#32)).trans (by show 1024 * k.val + 528 = _; omega)) ((cf0 (k0_off60 k 512#32 16#32)).trans (by show 1024 * k.val + 528 = _; omega)) ((cf0 (k0_off41 k)).trans (by show 16 * k.val = _; omega))
        _ 16#32 (by decide) _ _ (by first | rfl | rw [Shape.reshapeEquiv_self]) rfl x⟩,
    ⟨(cf0 (k0_off60 k 512#32 0#32)).trans (by show 1024 * k.val + 512 = 1024 * k.val + 16 * 32; omega), rfl, rfl, fun x =>
      piece_agree (bufS1).view (tabS).view (ixS1).view f TT X _ k.val 8 0 hk (by omega) (by omega) hf hX (k0_off60 k 512#32 0#32) (k0_off58 k 512#32 0#32) (k0_off41 k)
        (k0_off60_inb k 0) (k0_off58_inb k 4) (k0_off41_inb k)
        ((cf0 (k0_off60 k 512#32 0#32)).trans (by show 1024 * k.val + 512 = _; omega)) ((cf0 (k0_off58 k 512#32 0#32)).trans (by show 1024 * k.val + 512 = _; omega)) ((cf0 (k0_off41 k)).trans (by show 16 * k.val = _; omega))
        _ 0#32 (by decide) _ _ (by first | rfl | rw [Shape.reshapeEquiv_self]) rfl x⟩,
    ⟨(cf0 (k0_off58 k 448#32 48#32)).trans (by show 1024 * k.val + 496 = 1024 * k.val + 16 * 31; omega), rfl, rfl, fun x =>
      piece_agree (bufS1).view (tabS).view (ixS1).view f TT X _ k.val 7 3 hk (by omega) (by omega) hf hX (k0_off58 k 448#32 48#32) (k0_off58 k 448#32 48#32) (k0_off41 k)
        (k0_off58_inb k 3) (k0_off58_inb k 3) (k0_off41_inb k)
        ((cf0 (k0_off58 k 448#32 48#32)).trans (by show 1024 * k.val + 496 = _; omega)) ((cf0 (k0_off58 k 448#32 48#32)).trans (by show 1024 * k.val + 496 = _; omega)) ((cf0 (k0_off41 k)).trans (by show 16 * k.val = _; omega))
        _ 48#32 (by decide) _ _ (by first | rfl | rw [Shape.reshapeEquiv_self]) rfl x⟩,
    ⟨(cf0 (k0_off58 k 448#32 32#32)).trans (by show 1024 * k.val + 480 = 1024 * k.val + 16 * 30; omega), rfl, rfl, fun x =>
      piece_agree (bufS1).view (tabS).view (ixS1).view f TT X _ k.val 7 2 hk (by omega) (by omega) hf hX (k0_off58 k 448#32 32#32) (k0_off58 k 448#32 32#32) (k0_off41 k)
        (k0_off58_inb k 2) (k0_off58_inb k 2) (k0_off41_inb k)
        ((cf0 (k0_off58 k 448#32 32#32)).trans (by show 1024 * k.val + 480 = _; omega)) ((cf0 (k0_off58 k 448#32 32#32)).trans (by show 1024 * k.val + 480 = _; omega)) ((cf0 (k0_off41 k)).trans (by show 16 * k.val = _; omega))
        _ 32#32 (by decide) _ _ (by first | rfl | rw [Shape.reshapeEquiv_self]) rfl x⟩,
    ⟨(cf0 (k0_off58 k 448#32 16#32)).trans (by show 1024 * k.val + 464 = 1024 * k.val + 16 * 29; omega), rfl, rfl, fun x =>
      piece_agree (bufS1).view (tabS).view (ixS1).view f TT X _ k.val 7 1 hk (by omega) (by omega) hf hX (k0_off58 k 448#32 16#32) (k0_off58 k 448#32 16#32) (k0_off41 k)
        (k0_off58_inb k 1) (k0_off58_inb k 1) (k0_off41_inb k)
        ((cf0 (k0_off58 k 448#32 16#32)).trans (by show 1024 * k.val + 464 = _; omega)) ((cf0 (k0_off58 k 448#32 16#32)).trans (by show 1024 * k.val + 464 = _; omega)) ((cf0 (k0_off41 k)).trans (by show 16 * k.val = _; omega))
        _ 16#32 (by decide) _ _ (by first | rfl | rw [Shape.reshapeEquiv_self]) rfl x⟩,
    ⟨(cf0 (k0_off58 k 448#32 0#32)).trans (by show 1024 * k.val + 448 = 1024 * k.val + 16 * 28; omega), rfl, rfl, fun x =>
      piece_agree (bufS1).view (tabS).view (ixS1).view f TT X _ k.val 7 0 hk (by omega) (by omega) hf hX (k0_off58 k 448#32 0#32) (k0_off56 k 448#32 0#32) (k0_off41 k)
        (k0_off58_inb k 0) (k0_off56_inb k 4) (k0_off41_inb k)
        ((cf0 (k0_off58 k 448#32 0#32)).trans (by show 1024 * k.val + 448 = _; omega)) ((cf0 (k0_off56 k 448#32 0#32)).trans (by show 1024 * k.val + 448 = _; omega)) ((cf0 (k0_off41 k)).trans (by show 16 * k.val = _; omega))
        _ 0#32 (by decide) _ _ (by first | rfl | rw [Shape.reshapeEquiv_self]) rfl x⟩,
    ⟨(cf0 (k0_off56 k 384#32 48#32)).trans (by show 1024 * k.val + 432 = 1024 * k.val + 16 * 27; omega), rfl, rfl, fun x =>
      piece_agree (bufS1).view (tabS).view (ixS1).view f TT X _ k.val 6 3 hk (by omega) (by omega) hf hX (k0_off56 k 384#32 48#32) (k0_off56 k 384#32 48#32) (k0_off41 k)
        (k0_off56_inb k 3) (k0_off56_inb k 3) (k0_off41_inb k)
        ((cf0 (k0_off56 k 384#32 48#32)).trans (by show 1024 * k.val + 432 = _; omega)) ((cf0 (k0_off56 k 384#32 48#32)).trans (by show 1024 * k.val + 432 = _; omega)) ((cf0 (k0_off41 k)).trans (by show 16 * k.val = _; omega))
        _ 48#32 (by decide) _ _ (by first | rfl | rw [Shape.reshapeEquiv_self]) rfl x⟩,
    ⟨(cf0 (k0_off56 k 384#32 32#32)).trans (by show 1024 * k.val + 416 = 1024 * k.val + 16 * 26; omega), rfl, rfl, fun x =>
      piece_agree (bufS1).view (tabS).view (ixS1).view f TT X _ k.val 6 2 hk (by omega) (by omega) hf hX (k0_off56 k 384#32 32#32) (k0_off56 k 384#32 32#32) (k0_off41 k)
        (k0_off56_inb k 2) (k0_off56_inb k 2) (k0_off41_inb k)
        ((cf0 (k0_off56 k 384#32 32#32)).trans (by show 1024 * k.val + 416 = _; omega)) ((cf0 (k0_off56 k 384#32 32#32)).trans (by show 1024 * k.val + 416 = _; omega)) ((cf0 (k0_off41 k)).trans (by show 16 * k.val = _; omega))
        _ 32#32 (by decide) _ _ (by first | rfl | rw [Shape.reshapeEquiv_self]) rfl x⟩,
    ⟨(cf0 (k0_off56 k 384#32 16#32)).trans (by show 1024 * k.val + 400 = 1024 * k.val + 16 * 25; omega), rfl, rfl, fun x =>
      piece_agree (bufS1).view (tabS).view (ixS1).view f TT X _ k.val 6 1 hk (by omega) (by omega) hf hX (k0_off56 k 384#32 16#32) (k0_off56 k 384#32 16#32) (k0_off41 k)
        (k0_off56_inb k 1) (k0_off56_inb k 1) (k0_off41_inb k)
        ((cf0 (k0_off56 k 384#32 16#32)).trans (by show 1024 * k.val + 400 = _; omega)) ((cf0 (k0_off56 k 384#32 16#32)).trans (by show 1024 * k.val + 400 = _; omega)) ((cf0 (k0_off41 k)).trans (by show 16 * k.val = _; omega))
        _ 16#32 (by decide) _ _ (by first | rfl | rw [Shape.reshapeEquiv_self]) rfl x⟩,
    ⟨(cf0 (k0_off56 k 384#32 0#32)).trans (by show 1024 * k.val + 384 = 1024 * k.val + 16 * 24; omega), rfl, rfl, fun x =>
      piece_agree (bufS1).view (tabS).view (ixS1).view f TT X _ k.val 6 0 hk (by omega) (by omega) hf hX (k0_off56 k 384#32 0#32) (k0_off54 k 384#32 0#32) (k0_off41 k)
        (k0_off56_inb k 0) (k0_off54_inb k 4) (k0_off41_inb k)
        ((cf0 (k0_off56 k 384#32 0#32)).trans (by show 1024 * k.val + 384 = _; omega)) ((cf0 (k0_off54 k 384#32 0#32)).trans (by show 1024 * k.val + 384 = _; omega)) ((cf0 (k0_off41 k)).trans (by show 16 * k.val = _; omega))
        _ 0#32 (by decide) _ _ (by first | rfl | rw [Shape.reshapeEquiv_self]) rfl x⟩,
    ⟨(cf0 (k0_off54 k 320#32 48#32)).trans (by show 1024 * k.val + 368 = 1024 * k.val + 16 * 23; omega), rfl, rfl, fun x =>
      piece_agree (bufS1).view (tabS).view (ixS1).view f TT X _ k.val 5 3 hk (by omega) (by omega) hf hX (k0_off54 k 320#32 48#32) (k0_off54 k 320#32 48#32) (k0_off41 k)
        (k0_off54_inb k 3) (k0_off54_inb k 3) (k0_off41_inb k)
        ((cf0 (k0_off54 k 320#32 48#32)).trans (by show 1024 * k.val + 368 = _; omega)) ((cf0 (k0_off54 k 320#32 48#32)).trans (by show 1024 * k.val + 368 = _; omega)) ((cf0 (k0_off41 k)).trans (by show 16 * k.val = _; omega))
        _ 48#32 (by decide) _ _ (by first | rfl | rw [Shape.reshapeEquiv_self]) rfl x⟩,
    ⟨(cf0 (k0_off54 k 320#32 32#32)).trans (by show 1024 * k.val + 352 = 1024 * k.val + 16 * 22; omega), rfl, rfl, fun x =>
      piece_agree (bufS1).view (tabS).view (ixS1).view f TT X _ k.val 5 2 hk (by omega) (by omega) hf hX (k0_off54 k 320#32 32#32) (k0_off54 k 320#32 32#32) (k0_off41 k)
        (k0_off54_inb k 2) (k0_off54_inb k 2) (k0_off41_inb k)
        ((cf0 (k0_off54 k 320#32 32#32)).trans (by show 1024 * k.val + 352 = _; omega)) ((cf0 (k0_off54 k 320#32 32#32)).trans (by show 1024 * k.val + 352 = _; omega)) ((cf0 (k0_off41 k)).trans (by show 16 * k.val = _; omega))
        _ 32#32 (by decide) _ _ (by first | rfl | rw [Shape.reshapeEquiv_self]) rfl x⟩,
    ⟨(cf0 (k0_off54 k 320#32 16#32)).trans (by show 1024 * k.val + 336 = 1024 * k.val + 16 * 21; omega), rfl, rfl, fun x =>
      piece_agree (bufS1).view (tabS).view (ixS1).view f TT X _ k.val 5 1 hk (by omega) (by omega) hf hX (k0_off54 k 320#32 16#32) (k0_off54 k 320#32 16#32) (k0_off41 k)
        (k0_off54_inb k 1) (k0_off54_inb k 1) (k0_off41_inb k)
        ((cf0 (k0_off54 k 320#32 16#32)).trans (by show 1024 * k.val + 336 = _; omega)) ((cf0 (k0_off54 k 320#32 16#32)).trans (by show 1024 * k.val + 336 = _; omega)) ((cf0 (k0_off41 k)).trans (by show 16 * k.val = _; omega))
        _ 16#32 (by decide) _ _ (by first | rfl | rw [Shape.reshapeEquiv_self]) rfl x⟩,
    ⟨(cf0 (k0_off54 k 320#32 0#32)).trans (by show 1024 * k.val + 320 = 1024 * k.val + 16 * 20; omega), rfl, rfl, fun x =>
      piece_agree (bufS1).view (tabS).view (ixS1).view f TT X _ k.val 5 0 hk (by omega) (by omega) hf hX (k0_off54 k 320#32 0#32) (k0_off52 k 320#32 0#32) (k0_off41 k)
        (k0_off54_inb k 0) (k0_off52_inb k 4) (k0_off41_inb k)
        ((cf0 (k0_off54 k 320#32 0#32)).trans (by show 1024 * k.val + 320 = _; omega)) ((cf0 (k0_off52 k 320#32 0#32)).trans (by show 1024 * k.val + 320 = _; omega)) ((cf0 (k0_off41 k)).trans (by show 16 * k.val = _; omega))
        _ 0#32 (by decide) _ _ (by first | rfl | rw [Shape.reshapeEquiv_self]) rfl x⟩,
    ⟨(cf0 (k0_off52 k 256#32 48#32)).trans (by show 1024 * k.val + 304 = 1024 * k.val + 16 * 19; omega), rfl, rfl, fun x =>
      piece_agree (bufS1).view (tabS).view (ixS1).view f TT X _ k.val 4 3 hk (by omega) (by omega) hf hX (k0_off52 k 256#32 48#32) (k0_off52 k 256#32 48#32) (k0_off41 k)
        (k0_off52_inb k 3) (k0_off52_inb k 3) (k0_off41_inb k)
        ((cf0 (k0_off52 k 256#32 48#32)).trans (by show 1024 * k.val + 304 = _; omega)) ((cf0 (k0_off52 k 256#32 48#32)).trans (by show 1024 * k.val + 304 = _; omega)) ((cf0 (k0_off41 k)).trans (by show 16 * k.val = _; omega))
        _ 48#32 (by decide) _ _ (by first | rfl | rw [Shape.reshapeEquiv_self]) rfl x⟩,
    ⟨(cf0 (k0_off52 k 256#32 32#32)).trans (by show 1024 * k.val + 288 = 1024 * k.val + 16 * 18; omega), rfl, rfl, fun x =>
      piece_agree (bufS1).view (tabS).view (ixS1).view f TT X _ k.val 4 2 hk (by omega) (by omega) hf hX (k0_off52 k 256#32 32#32) (k0_off52 k 256#32 32#32) (k0_off41 k)
        (k0_off52_inb k 2) (k0_off52_inb k 2) (k0_off41_inb k)
        ((cf0 (k0_off52 k 256#32 32#32)).trans (by show 1024 * k.val + 288 = _; omega)) ((cf0 (k0_off52 k 256#32 32#32)).trans (by show 1024 * k.val + 288 = _; omega)) ((cf0 (k0_off41 k)).trans (by show 16 * k.val = _; omega))
        _ 32#32 (by decide) _ _ (by first | rfl | rw [Shape.reshapeEquiv_self]) rfl x⟩,
    ⟨(cf0 (k0_off52 k 256#32 16#32)).trans (by show 1024 * k.val + 272 = 1024 * k.val + 16 * 17; omega), rfl, rfl, fun x =>
      piece_agree (bufS1).view (tabS).view (ixS1).view f TT X _ k.val 4 1 hk (by omega) (by omega) hf hX (k0_off52 k 256#32 16#32) (k0_off52 k 256#32 16#32) (k0_off41 k)
        (k0_off52_inb k 1) (k0_off52_inb k 1) (k0_off41_inb k)
        ((cf0 (k0_off52 k 256#32 16#32)).trans (by show 1024 * k.val + 272 = _; omega)) ((cf0 (k0_off52 k 256#32 16#32)).trans (by show 1024 * k.val + 272 = _; omega)) ((cf0 (k0_off41 k)).trans (by show 16 * k.val = _; omega))
        _ 16#32 (by decide) _ _ (by first | rfl | rw [Shape.reshapeEquiv_self]) rfl x⟩,
    ⟨(cf0 (k0_off52 k 256#32 0#32)).trans (by show 1024 * k.val + 256 = 1024 * k.val + 16 * 16; omega), rfl, rfl, fun x =>
      piece_agree (bufS1).view (tabS).view (ixS1).view f TT X _ k.val 4 0 hk (by omega) (by omega) hf hX (k0_off52 k 256#32 0#32) (k0_off50 k 256#32 0#32) (k0_off41 k)
        (k0_off52_inb k 0) (k0_off50_inb k 4) (k0_off41_inb k)
        ((cf0 (k0_off52 k 256#32 0#32)).trans (by show 1024 * k.val + 256 = _; omega)) ((cf0 (k0_off50 k 256#32 0#32)).trans (by show 1024 * k.val + 256 = _; omega)) ((cf0 (k0_off41 k)).trans (by show 16 * k.val = _; omega))
        _ 0#32 (by decide) _ _ (by first | rfl | rw [Shape.reshapeEquiv_self]) rfl x⟩,
    ⟨(cf0 (k0_off50 k 192#32 48#32)).trans (by show 1024 * k.val + 240 = 1024 * k.val + 16 * 15; omega), rfl, rfl, fun x =>
      piece_agree (bufS1).view (tabS).view (ixS1).view f TT X _ k.val 3 3 hk (by omega) (by omega) hf hX (k0_off50 k 192#32 48#32) (k0_off50 k 192#32 48#32) (k0_off41 k)
        (k0_off50_inb k 3) (k0_off50_inb k 3) (k0_off41_inb k)
        ((cf0 (k0_off50 k 192#32 48#32)).trans (by show 1024 * k.val + 240 = _; omega)) ((cf0 (k0_off50 k 192#32 48#32)).trans (by show 1024 * k.val + 240 = _; omega)) ((cf0 (k0_off41 k)).trans (by show 16 * k.val = _; omega))
        _ 48#32 (by decide) _ _ (by first | rfl | rw [Shape.reshapeEquiv_self]) rfl x⟩,
    ⟨(cf0 (k0_off50 k 192#32 32#32)).trans (by show 1024 * k.val + 224 = 1024 * k.val + 16 * 14; omega), rfl, rfl, fun x =>
      piece_agree (bufS1).view (tabS).view (ixS1).view f TT X _ k.val 3 2 hk (by omega) (by omega) hf hX (k0_off50 k 192#32 32#32) (k0_off50 k 192#32 32#32) (k0_off41 k)
        (k0_off50_inb k 2) (k0_off50_inb k 2) (k0_off41_inb k)
        ((cf0 (k0_off50 k 192#32 32#32)).trans (by show 1024 * k.val + 224 = _; omega)) ((cf0 (k0_off50 k 192#32 32#32)).trans (by show 1024 * k.val + 224 = _; omega)) ((cf0 (k0_off41 k)).trans (by show 16 * k.val = _; omega))
        _ 32#32 (by decide) _ _ (by first | rfl | rw [Shape.reshapeEquiv_self]) rfl x⟩,
    ⟨(cf0 (k0_off50 k 192#32 16#32)).trans (by show 1024 * k.val + 208 = 1024 * k.val + 16 * 13; omega), rfl, rfl, fun x =>
      piece_agree (bufS1).view (tabS).view (ixS1).view f TT X _ k.val 3 1 hk (by omega) (by omega) hf hX (k0_off50 k 192#32 16#32) (k0_off50 k 192#32 16#32) (k0_off41 k)
        (k0_off50_inb k 1) (k0_off50_inb k 1) (k0_off41_inb k)
        ((cf0 (k0_off50 k 192#32 16#32)).trans (by show 1024 * k.val + 208 = _; omega)) ((cf0 (k0_off50 k 192#32 16#32)).trans (by show 1024 * k.val + 208 = _; omega)) ((cf0 (k0_off41 k)).trans (by show 16 * k.val = _; omega))
        _ 16#32 (by decide) _ _ (by first | rfl | rw [Shape.reshapeEquiv_self]) rfl x⟩,
    ⟨(cf0 (k0_off50 k 192#32 0#32)).trans (by show 1024 * k.val + 192 = 1024 * k.val + 16 * 12; omega), rfl, rfl, fun x =>
      piece_agree (bufS1).view (tabS).view (ixS1).view f TT X _ k.val 3 0 hk (by omega) (by omega) hf hX (k0_off50 k 192#32 0#32) (k0_off48 k 192#32 0#32) (k0_off41 k)
        (k0_off50_inb k 0) (k0_off48_inb k 4) (k0_off41_inb k)
        ((cf0 (k0_off50 k 192#32 0#32)).trans (by show 1024 * k.val + 192 = _; omega)) ((cf0 (k0_off48 k 192#32 0#32)).trans (by show 1024 * k.val + 192 = _; omega)) ((cf0 (k0_off41 k)).trans (by show 16 * k.val = _; omega))
        _ 0#32 (by decide) _ _ (by first | rfl | rw [Shape.reshapeEquiv_self]) rfl x⟩,
    ⟨(cf0 (k0_off48 k 128#32 48#32)).trans (by show 1024 * k.val + 176 = 1024 * k.val + 16 * 11; omega), rfl, rfl, fun x =>
      piece_agree (bufS1).view (tabS).view (ixS1).view f TT X _ k.val 2 3 hk (by omega) (by omega) hf hX (k0_off48 k 128#32 48#32) (k0_off48 k 128#32 48#32) (k0_off41 k)
        (k0_off48_inb k 3) (k0_off48_inb k 3) (k0_off41_inb k)
        ((cf0 (k0_off48 k 128#32 48#32)).trans (by show 1024 * k.val + 176 = _; omega)) ((cf0 (k0_off48 k 128#32 48#32)).trans (by show 1024 * k.val + 176 = _; omega)) ((cf0 (k0_off41 k)).trans (by show 16 * k.val = _; omega))
        _ 48#32 (by decide) _ _ (by first | rfl | rw [Shape.reshapeEquiv_self]) rfl x⟩,
    ⟨(cf0 (k0_off48 k 128#32 32#32)).trans (by show 1024 * k.val + 160 = 1024 * k.val + 16 * 10; omega), rfl, rfl, fun x =>
      piece_agree (bufS1).view (tabS).view (ixS1).view f TT X _ k.val 2 2 hk (by omega) (by omega) hf hX (k0_off48 k 128#32 32#32) (k0_off48 k 128#32 32#32) (k0_off41 k)
        (k0_off48_inb k 2) (k0_off48_inb k 2) (k0_off41_inb k)
        ((cf0 (k0_off48 k 128#32 32#32)).trans (by show 1024 * k.val + 160 = _; omega)) ((cf0 (k0_off48 k 128#32 32#32)).trans (by show 1024 * k.val + 160 = _; omega)) ((cf0 (k0_off41 k)).trans (by show 16 * k.val = _; omega))
        _ 32#32 (by decide) _ _ (by first | rfl | rw [Shape.reshapeEquiv_self]) rfl x⟩,
    ⟨(cf0 (k0_off48 k 128#32 16#32)).trans (by show 1024 * k.val + 144 = 1024 * k.val + 16 * 9; omega), rfl, rfl, fun x =>
      piece_agree (bufS1).view (tabS).view (ixS1).view f TT X _ k.val 2 1 hk (by omega) (by omega) hf hX (k0_off48 k 128#32 16#32) (k0_off48 k 128#32 16#32) (k0_off41 k)
        (k0_off48_inb k 1) (k0_off48_inb k 1) (k0_off41_inb k)
        ((cf0 (k0_off48 k 128#32 16#32)).trans (by show 1024 * k.val + 144 = _; omega)) ((cf0 (k0_off48 k 128#32 16#32)).trans (by show 1024 * k.val + 144 = _; omega)) ((cf0 (k0_off41 k)).trans (by show 16 * k.val = _; omega))
        _ 16#32 (by decide) _ _ (by first | rfl | rw [Shape.reshapeEquiv_self]) rfl x⟩,
    ⟨(cf0 (k0_off48 k 128#32 0#32)).trans (by show 1024 * k.val + 128 = 1024 * k.val + 16 * 8; omega), rfl, rfl, fun x =>
      piece_agree (bufS1).view (tabS).view (ixS1).view f TT X _ k.val 2 0 hk (by omega) (by omega) hf hX (k0_off48 k 128#32 0#32) (k0_off46 k 128#32 0#32) (k0_off41 k)
        (k0_off48_inb k 0) (k0_off46_inb k 4) (k0_off41_inb k)
        ((cf0 (k0_off48 k 128#32 0#32)).trans (by show 1024 * k.val + 128 = _; omega)) ((cf0 (k0_off46 k 128#32 0#32)).trans (by show 1024 * k.val + 128 = _; omega)) ((cf0 (k0_off41 k)).trans (by show 16 * k.val = _; omega))
        _ 0#32 (by decide) _ _ (by first | rfl | rw [Shape.reshapeEquiv_self]) rfl x⟩,
    ⟨(cf0 (k0_off46 k 64#32 48#32)).trans (by show 1024 * k.val + 112 = 1024 * k.val + 16 * 7; omega), rfl, rfl, fun x =>
      piece_agree (bufS1).view (tabS).view (ixS1).view f TT X _ k.val 1 3 hk (by omega) (by omega) hf hX (k0_off46 k 64#32 48#32) (k0_off46 k 64#32 48#32) (k0_off41 k)
        (k0_off46_inb k 3) (k0_off46_inb k 3) (k0_off41_inb k)
        ((cf0 (k0_off46 k 64#32 48#32)).trans (by show 1024 * k.val + 112 = _; omega)) ((cf0 (k0_off46 k 64#32 48#32)).trans (by show 1024 * k.val + 112 = _; omega)) ((cf0 (k0_off41 k)).trans (by show 16 * k.val = _; omega))
        _ 48#32 (by decide) _ _ (by first | rfl | rw [Shape.reshapeEquiv_self]) rfl x⟩,
    ⟨(cf0 (k0_off46 k 64#32 32#32)).trans (by show 1024 * k.val + 96 = 1024 * k.val + 16 * 6; omega), rfl, rfl, fun x =>
      piece_agree (bufS1).view (tabS).view (ixS1).view f TT X _ k.val 1 2 hk (by omega) (by omega) hf hX (k0_off46 k 64#32 32#32) (k0_off46 k 64#32 32#32) (k0_off41 k)
        (k0_off46_inb k 2) (k0_off46_inb k 2) (k0_off41_inb k)
        ((cf0 (k0_off46 k 64#32 32#32)).trans (by show 1024 * k.val + 96 = _; omega)) ((cf0 (k0_off46 k 64#32 32#32)).trans (by show 1024 * k.val + 96 = _; omega)) ((cf0 (k0_off41 k)).trans (by show 16 * k.val = _; omega))
        _ 32#32 (by decide) _ _ (by first | rfl | rw [Shape.reshapeEquiv_self]) rfl x⟩,
    ⟨(cf0 (k0_off46 k 64#32 16#32)).trans (by show 1024 * k.val + 80 = 1024 * k.val + 16 * 5; omega), rfl, rfl, fun x =>
      piece_agree (bufS1).view (tabS).view (ixS1).view f TT X _ k.val 1 1 hk (by omega) (by omega) hf hX (k0_off46 k 64#32 16#32) (k0_off46 k 64#32 16#32) (k0_off41 k)
        (k0_off46_inb k 1) (k0_off46_inb k 1) (k0_off41_inb k)
        ((cf0 (k0_off46 k 64#32 16#32)).trans (by show 1024 * k.val + 80 = _; omega)) ((cf0 (k0_off46 k 64#32 16#32)).trans (by show 1024 * k.val + 80 = _; omega)) ((cf0 (k0_off41 k)).trans (by show 16 * k.val = _; omega))
        _ 16#32 (by decide) _ _ (by first | rfl | rw [Shape.reshapeEquiv_self]) rfl x⟩,
    ⟨(cf0 (k0_off46 k 64#32 0#32)).trans (by show 1024 * k.val + 64 = 1024 * k.val + 16 * 4; omega), rfl, rfl, fun x =>
      piece_agree (bufS1).view (tabS).view (ixS1).view f TT X _ k.val 1 0 hk (by omega) (by omega) hf hX (k0_off46 k 64#32 0#32) (k0_off44 k 64#32 0#32) (k0_off41 k)
        (k0_off46_inb k 0) (k0_off44_inb k 4) (k0_off41_inb k)
        ((cf0 (k0_off46 k 64#32 0#32)).trans (by show 1024 * k.val + 64 = _; omega)) ((cf0 (k0_off44 k 64#32 0#32)).trans (by show 1024 * k.val + 64 = _; omega)) ((cf0 (k0_off41 k)).trans (by show 16 * k.val = _; omega))
        _ 0#32 (by decide) _ _ (by first | rfl | rw [Shape.reshapeEquiv_self]) rfl x⟩,
    ⟨(cf0 (k0_off44 k 0#32 48#32)).trans (by show 1024 * k.val + 48 = 1024 * k.val + 16 * 3; omega), rfl, rfl, fun x =>
      piece_agree (bufS1).view (tabS).view (ixS1).view f TT X _ k.val 0 3 hk (by omega) (by omega) hf hX (k0_off44 k 0#32 48#32) (k0_off44 k 0#32 48#32) (k0_off41 k)
        (k0_off44_inb k 3) (k0_off44_inb k 3) (k0_off41_inb k)
        ((cf0 (k0_off44 k 0#32 48#32)).trans (by show 1024 * k.val + 48 = _; omega)) ((cf0 (k0_off44 k 0#32 48#32)).trans (by show 1024 * k.val + 48 = _; omega)) ((cf0 (k0_off41 k)).trans (by show 16 * k.val = _; omega))
        _ 48#32 (by decide) _ _ (by first | rfl | rw [Shape.reshapeEquiv_self]) rfl x⟩,
    ⟨(cf0 (k0_off44 k 0#32 32#32)).trans (by show 1024 * k.val + 32 = 1024 * k.val + 16 * 2; omega), rfl, rfl, fun x =>
      piece_agree (bufS1).view (tabS).view (ixS1).view f TT X _ k.val 0 2 hk (by omega) (by omega) hf hX (k0_off44 k 0#32 32#32) (k0_off44 k 0#32 32#32) (k0_off41 k)
        (k0_off44_inb k 2) (k0_off44_inb k 2) (k0_off41_inb k)
        ((cf0 (k0_off44 k 0#32 32#32)).trans (by show 1024 * k.val + 32 = _; omega)) ((cf0 (k0_off44 k 0#32 32#32)).trans (by show 1024 * k.val + 32 = _; omega)) ((cf0 (k0_off41 k)).trans (by show 16 * k.val = _; omega))
        _ 32#32 (by decide) _ _ (by first | rfl | rw [Shape.reshapeEquiv_self]) rfl x⟩,
    ⟨(cf0 (k0_off44 k 0#32 16#32)).trans (by show 1024 * k.val + 16 = 1024 * k.val + 16 * 1; omega), rfl, rfl, fun x =>
      piece_agree (bufS1).view (tabS).view (ixS1).view f TT X _ k.val 0 1 hk (by omega) (by omega) hf hX (k0_off44 k 0#32 16#32) (k0_off44 k 0#32 16#32) (k0_off41 k)
        (k0_off44_inb k 1) (k0_off44_inb k 1) (k0_off41_inb k)
        ((cf0 (k0_off44 k 0#32 16#32)).trans (by show 1024 * k.val + 16 = _; omega)) ((cf0 (k0_off44 k 0#32 16#32)).trans (by show 1024 * k.val + 16 = _; omega)) ((cf0 (k0_off41 k)).trans (by show 16 * k.val = _; omega))
        _ 16#32 (by decide) _ _ (by first | rfl | rw [Shape.reshapeEquiv_self]) rfl x⟩,
    ⟨(cf0 (k0_off44 k 0#32 0#32)).trans (by show 1024 * k.val + 0 = 1024 * k.val + 16 * 0; omega), rfl, rfl, fun x =>
      piece_agree (bufS1).view (tabS).view (ixS1).view f TT X _ k.val 0 0 hk (by omega) (by omega) hf hX (k0_off44 k 0#32 0#32) (k0_off42 k) (k0_off41 k)
        (k0_off44_inb k 0) (k0_off42_inb k) (k0_off41_inb k)
        ((cf0 (k0_off44 k 0#32 0#32)).trans (by show 1024 * k.val + 0 = _; omega)) ((cf0 (k0_off42 k)).trans (by show 1024 * k.val = _; omega)) ((cf0 (k0_off41 k)).trans (by show 16 * k.val = _; omega))
        _ 0#32 (by decide) _ _ (by first | rfl | rw [Shape.reshapeEquiv_self]) rfl x⟩,
    trivial⟩

/-- The whole loop, in continuation form: from the three buffers, the program goes on with every row done. -/
theorem loop2_spec (hX : ∀ j, BitVec.toNat ((ixS1).view.read (Elt F) X j) < 16) (v1 v21 c0_i32_32 c0_i32_33 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS1).view.loc (thrV d L) ↦{fullShare} X)
        ∗ ((bufS1).view.loc (thrV d L) ↦{fullShare} B)
        ∗ (∀ acc f, (⌜∀ y, (bufS1).view.read (Elt F) f y
              = stage ((bufS1).view.read (Elt F) B) ((tabS).view.read (Elt F) TT) ((ixS1).view.read (Elt F) X) 400 y⌝
              ∗ ((tabS).view.loc (thrV d L) ↦{fullShare} TT) ∗ ((ixS1).view.loc (thrV d L) ↦{fullShare} X)
              ∗ ((bufS1).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t2_loop k0_t2_ok init (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) >>= kk) Q := by
  iintro ⟨Ht, Hx, Hb, Hk⟩
  iapply (Scf.wp_for_bind frame (wpE (defs₀ (F := F)) 𝒱₀ (thrV d L) none) Set.univ k0_t2_loop.lb k0_t2_loop.ub k0_t2_loop.st k0_t2_ok init
    (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) (inv2 d L TT X B) (step2 d L TT X B hX v1 v21 c0_i32_32 c0_i32_33)) $$ [Ht Hx Hb]
  · unfold inv2
    isplitl [Ht]; · iexact Ht
    isplitl [Hx]; · iexact Hx
    iexists B; isplitl [Hb]; · iexact Hb
    ipureintro
    intro y
    unfold stage
    rw [if_neg (by omega)]
  iintro %acc HI
  unfold inv2
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KLoop3.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KOwn
import proofs.«216121_g54726473285929_cont_9to1_m_355_3_alg».proof.Proof.KOff
import proofs.«216121_g54726473285929_cont_9to1_m_355_3_alg».proof.Proof.KVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS2).view.loc (thrV d L)))
  (B : Buf (Elt F) ((bufS2).view.loc (thrV d L)))

/-- Before trip k: the table and the indices as they were, the row buffer at stage 16 k. -/
def inv3 (k : Nat) (_ : BitVec 32) : sProp 𝕄 :=
  iprop(((tabS).view.loc (thrV d L) ↦{fullShare} TT) ∗ ((ixS2).view.loc (thrV d L) ↦{fullShare} X)
    ∗ ∃ f, ((bufS2).view.loc (thrV d L) ↦{fullShare} f)
        ∗ ⌜∀ y, (bufS2).view.read (Elt F) f y
            = stage ((bufS2).view.read (Elt F) B) ((tabS).view.read (Elt F) TT) ((ixS2).view.read (Elt F) X) (16 * k) y⌝)

set_option maxHeartbeats 16000000 in
/-- One trip keeps the invariant. -/
theorem step3 (hX : ∀ j, BitVec.toNat ((ixS2).view.read (Elt F) X j) < 16) (v1 v21 c0_i32_32 c0_i32_33 : BitVec 32)
    (k : Fin (Scf.trips k0_t3_loop.lb k0_t3_loop.ub k0_t3_loop.st)) (acc : BitVec 32) :
    inv3 d L TT X B k acc
      ⊢ wp frame (wpE (defs₀ (F := F)) 𝒱₀ (thrV d L) none) Set.univ
          (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33 k acc) (inv3 d L TT X B (k.val + 1)) := by
  have hk : k.val < 25 := Nat.lt_of_lt_of_le k.isLt k0_t3_abs.2.1
  unfold inv3 k0_t3_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS2).view f _ _ _ k.val _ rfl hf ?_
  exact ⟨
    ⟨(cf0 (k0_off110 k 48#32)).trans (by show 1024 * k.val + 16 * 3 + 960 = 1024 * k.val + 16 * 63; omega), rfl, rfl, fun x =>
      piece_agree (bufS2).view (tabS).view (ixS2).view f TT X _ k.val 15 3 hk (by omega) (by omega) hf hX (k0_off110 k 48#32) (k0_off110 k 48#32) (k0_off77 k)
        (k0_off110_inb k 3) (k0_off110_inb k 3) (k0_off77_inb k)
        ((cf0 (k0_off110 k 48#32)).trans (by show 1024 * k.val + 16 * 3 + 960 = _; omega)) ((cf0 (k0_off110 k 48#32)).trans (by show 1024 * k.val + 16 * 3 + 960 = _; omega)) ((cf0 (k0_off77 k)).trans (by show 16 * k.val = _; omega))
        _ 48#32 (by decide) _ _ (by first | rfl | rw [Shape.reshapeEquiv_self]) rfl x⟩,
    ⟨(cf0 (k0_off110 k 32#32)).trans (by show 1024 * k.val + 16 * 2 + 960 = 1024 * k.val + 16 * 62; omega), rfl, rfl, fun x =>
      piece_agree (bufS2).view (tabS).view (ixS2).view f TT X _ k.val 15 2 hk (by omega) (by omega) hf hX (k0_off110 k 32#32) (k0_off110 k 32#32) (k0_off77 k)
        (k0_off110_inb k 2) (k0_off110_inb k 2) (k0_off77_inb k)
        ((cf0 (k0_off110 k 32#32)).trans (by show 1024 * k.val + 16 * 2 + 960 = _; omega)) ((cf0 (k0_off110 k 32#32)).trans (by show 1024 * k.val + 16 * 2 + 960 = _; omega)) ((cf0 (k0_off77 k)).trans (by show 16 * k.val = _; omega))
        _ 32#32 (by decide) _ _ (by first | rfl | rw [Shape.reshapeEquiv_self]) rfl x⟩,
    ⟨(cf0 (k0_off110 k 16#32)).trans (by show 1024 * k.val + 16 * 1 + 960 = 1024 * k.val + 16 * 61; omega), rfl, rfl, fun x =>
      piece_agree (bufS2).view (tabS).view (ixS2).view f TT X _ k.val 15 1 hk (by omega) (by omega) hf hX (k0_off110 k 16#32) (k0_off110 k 16#32) (k0_off77 k)
        (k0_off110_inb k 1) (k0_off110_inb k 1) (k0_off77_inb k)
        ((cf0 (k0_off110 k 16#32)).trans (by show 1024 * k.val + 16 * 1 + 960 = _; omega)) ((cf0 (k0_off110 k 16#32)).trans (by show 1024 * k.val + 16 * 1 + 960 = _; omega)) ((cf0 (k0_off77 k)).trans (by show 16 * k.val = _; omega))
        _ 16#32 (by decide) _ _ (by first | rfl | rw [Shape.reshapeEquiv_self]) rfl x⟩,
    ⟨(cf0 (k0_off110 k 0#32)).trans (by show 1024 * k.val + 16 * 0 + 960 = 1024 * k.val + 16 * 60; omega), rfl, rfl, fun x =>
      piece_agree (bufS2).view (tabS).view (ixS2).view f TT X _ k.val 15 0 hk (by omega) (by omega) hf hX (k0_off110 k 0#32) (k0_off108 k 960#32 0#32) (k0_off77 k)
        (k0_off110_inb k 0) (k0_off108_inb k 4) (k0_off77_inb k)
        ((cf0 (k0_off110 k 0#32)).trans (by show 1024 * k.val + 16 * 0 + 960 = _; omega)) ((cf0 (k0_off108 k 960#32 0#32)).trans (by show 1024 * k.val + 960 = _; omega)) ((cf0 (k0_off77 k)).trans (by show 16 * k.val = _; omega))
        _ 0#32 (by decide) _ _ (by first | rfl | rw [Shape.reshapeEquiv_self]) rfl x⟩,
    ⟨(cf0 (k0_off108 k 896#32 48#32)).trans (by show 1024 * k.val + 944 = 1024 * k.val + 16 * 59; omega), rfl, rfl, fun x =>
      piece_agree (bufS2).view (tabS).view (ixS2).view f TT X _ k.val 14 3 hk (by omega) (by omega) hf hX (k0_off108 k 896#32 48#32) (k0_off108 k 896#32 48#32) (k0_off77 k)
        (k0_off108_inb k 3) (k0_off108_inb k 3) (k0_off77_inb k)
        ((cf0 (k0_off108 k 896#32 48#32)).trans (by show 1024 * k.val + 944 = _; omega)) ((cf0 (k0_off108 k 896#32 48#32)).trans (by show 1024 * k.val + 944 = _; omega)) ((cf0 (k0_off77 k)).trans (by show 16 * k.val = _; omega))
        _ 48#32 (by decide) _ _ (by first | rfl | rw [Shape.reshapeEquiv_self]) rfl x⟩,
    ⟨(cf0 (k0_off108 k 896#32 32#32)).trans (by show 1024 * k.val + 928 = 1024 * k.val + 16 * 58; omega), rfl, rfl, fun x =>
      piece_agree (bufS2).view (tabS).view (ixS2).view f TT X _ k.val 14 2 hk (by omega) (by omega) hf hX (k0_off108 k 896#32 32#32) (k0_off108 k 896#32 32#32) (k0_off77 k)
        (k0_off108_inb k 2) (k0_off108_inb k 2) (k0_off77_inb k)
        ((cf0 (k0_off108 k 896#32 32#32)).trans (by show 1024 * k.val + 928 = _; omega)) ((cf0 (k0_off108 k 896#32 32#32)).trans (by show 1024 * k.val + 928 = _; omega)) ((cf0 (k0_off77 k)).trans (by show 16 * k.val = _; omega))
        _ 32#32 (by decide) _ _ (by first | rfl | rw [Shape.reshapeEquiv_self]) rfl x⟩,
    ⟨(cf0 (k0_off108 k 896#32 16#32)).trans (by show 1024 * k.val + 912 = 1024 * k.val + 16 * 57; omega), rfl, rfl, fun x =>
      piece_agree (bufS2).view (tabS).view (ixS2).view f TT X _ k.val 14 1 hk (by omega) (by omega) hf hX (k0_off108 k 896#32 16#32) (k0_off108 k 896#32 16#32) (k0_off77 k)
        (k0_off108_inb k 1) (k0_off108_inb k 1) (k0_off77_inb k)
        ((cf0 (k0_off108 k 896#32 16#32)).trans (by show 1024 * k.val + 912 = _; omega)) ((cf0 (k0_off108 k 896#32 16#32)).trans (by show 1024 * k.val + 912 = _; omega)) ((cf0 (k0_off77 k)).trans (by show 16 * k.val = _; omega))
        _ 16#32 (by decide) _ _ (by first | rfl | rw [Shape.reshapeEquiv_self]) rfl x⟩,
    ⟨(cf0 (k0_off108 k 896#32 0#32)).trans (by show 1024 * k.val + 896 = 1024 * k.val + 16 * 56; omega), rfl, rfl, fun x =>
      piece_agree (bufS2).view (tabS).view (ixS2).view f TT X _ k.val 14 0 hk (by omega) (by omega) hf hX (k0_off108 k 896#32 0#32) (k0_off106 k 896#32 0#32) (k0_off77 k)
        (k0_off108_inb k 0) (k0_off106_inb k 4) (k0_off77_inb k)
        ((cf0 (k0_off108 k 896#32 0#32)).trans (by show 1024 * k.val + 896 = _; omega)) ((cf0 (k0_off106 k 896#32 0#32)).trans (by show 1024 * k.val + 896 = _; omega)) ((cf0 (k0_off77 k)).trans (by show 16 * k.val = _; omega))
        _ 0#32 (by decide) _ _ (by first | rfl | rw [Shape.reshapeEquiv_self]) rfl x⟩,
    ⟨(cf0 (k0_off106 k 832#32 48#32)).trans (by show 1024 * k.val + 880 = 1024 * k.val + 16 * 55; omega), rfl, rfl, fun x =>
      piece_agree (bufS2).view (tabS).view (ixS2).view f TT X _ k.val 13 3 hk (by omega) (by omega) hf hX (k0_off106 k 832#32 48#32) (k0_off106 k 832#32 48#32) (k0_off77 k)
        (k0_off106_inb k 3) (k0_off106_inb k 3) (k0_off77_inb k)
        ((cf0 (k0_off106 k 832#32 48#32)).trans (by show 1024 * k.val + 880 = _; omega)) ((cf0 (k0_off106 k 832#32 48#32)).trans (by show 1024 * k.val + 880 = _; omega)) ((cf0 (k0_off77 k)).trans (by show 16 * k.val = _; omega))
        _ 48#32 (by decide) _ _ (by first | rfl | rw [Shape.reshapeEquiv_self]) rfl x⟩,
    ⟨(cf0 (k0_off106 k 832#32 32#32)).trans (by show 1024 * k.val + 864 = 1024 * k.val + 16 * 54; omega), rfl, rfl, fun x =>
      piece_agree (bufS2).view (tabS).view (ixS2).view f TT X _ k.val 13 2 hk (by omega) (by omega) hf hX (k0_off106 k 832#32 32#32) (k0_off106 k 832#32 32#32) (k0_off77 k)
        (k0_off106_inb k 2) (k0_off106_inb k 2) (k0_off77_inb k)
        ((cf0 (k0_off106 k 832#32 32#32)).trans (by show 1024 * k.val + 864 = _; omega)) ((cf0 (k0_off106 k 832#32 32#32)).trans (by show 1024 * k.val + 864 = _; omega)) ((cf0 (k0_off77 k)).trans (by show 16 * k.val = _; omega))
        _ 32#32 (by decide) _ _ (by first | rfl | rw [Shape.reshapeEquiv_self]) rfl x⟩,
    ⟨(cf0 (k0_off106 k 832#32 16#32)).trans (by show 1024 * k.val + 848 = 1024 * k.val + 16 * 53; omega), rfl, rfl, fun x =>
      piece_agree (bufS2).view (tabS).view (ixS2).view f TT X _ k.val 13 1 hk (by omega) (by omega) hf hX (k0_off106 k 832#32 16#32) (k0_off106 k 832#32 16#32) (k0_off77 k)
        (k0_off106_inb k 1) (k0_off106_inb k 1) (k0_off77_inb k)
        ((cf0 (k0_off106 k 832#32 16#32)).trans (by show 1024 * k.val + 848 = _; omega)) ((cf0 (k0_off106 k 832#32 16#32)).trans (by show 1024 * k.val + 848 = _; omega)) ((cf0 (k0_off77 k)).trans (by show 16 * k.val = _; omega))
        _ 16#32 (by decide) _ _ (by first | rfl | rw [Shape.reshapeEquiv_self]) rfl x⟩,
    ⟨(cf0 (k0_off106 k 832#32 0#32)).trans (by show 1024 * k.val + 832 = 1024 * k.val + 16 * 52; omega), rfl, rfl, fun x =>
      piece_agree (bufS2).view (tabS).view (ixS2).view f TT X _ k.val 13 0 hk (by omega) (by omega) hf hX (k0_off106 k 832#32 0#32) (k0_off104 k 832#32 0#32) (k0_off77 k)
        (k0_off106_inb k 0) (k0_off104_inb k 4) (k0_off77_inb k)
        ((cf0 (k0_off106 k 832#32 0#32)).trans (by show 1024 * k.val + 832 = _; omega)) ((cf0 (k0_off104 k 832#32 0#32)).trans (by show 1024 * k.val + 832 = _; omega)) ((cf0 (k0_off77 k)).trans (by show 16 * k.val = _; omega))
        _ 0#32 (by decide) _ _ (by first | rfl | rw [Shape.reshapeEquiv_self]) rfl x⟩,
    ⟨(cf0 (k0_off104 k 768#32 48#32)).trans (by show 1024 * k.val + 816 = 1024 * k.val + 16 * 51; omega), rfl, rfl, fun x =>
      piece_agree (bufS2).view (tabS).view (ixS2).view f TT X _ k.val 12 3 hk (by omega) (by omega) hf hX (k0_off104 k 768#32 48#32) (k0_off104 k 768#32 48#32) (k0_off77 k)
        (k0_off104_inb k 3) (k0_off104_inb k 3) (k0_off77_inb k)
        ((cf0 (k0_off104 k 768#32 48#32)).trans (by show 1024 * k.val + 816 = _; omega)) ((cf0 (k0_off104 k 768#32 48#32)).trans (by show 1024 * k.val + 816 = _; omega)) ((cf0 (k0_off77 k)).trans (by show 16 * k.val = _; omega))
        _ 48#32 (by decide) _ _ (by first | rfl | rw [Shape.reshapeEquiv_self]) rfl x⟩,
    ⟨(cf0 (k0_off104 k 768#32 32#32)).trans (by show 1024 * k.val + 800 = 1024 * k.val + 16 * 50; omega), rfl, rfl, fun x =>
      piece_agree (bufS2).view (tabS).view (ixS2).view f TT X _ k.val 12 2 hk (by omega) (by omega) hf hX (k0_off104 k 768#32 32#32) (k0_off104 k 768#32 32#32) (k0_off77 k)
        (k0_off104_inb k 2) (k0_off104_inb k 2) (k0_off77_inb k)
        ((cf0 (k0_off104 k 768#32 32#32)).trans (by show 1024 * k.val + 800 = _; omega)) ((cf0 (k0_off104 k 768#32 32#32)).trans (by show 1024 * k.val + 800 = _; omega)) ((cf0 (k0_off77 k)).trans (by show 16 * k.val = _; omega))
        _ 32#32 (by decide) _ _ (by first | rfl | rw [Shape.reshapeEquiv_self]) rfl x⟩,
    ⟨(cf0 (k0_off104 k 768#32 16#32)).trans (by show 1024 * k.val + 784 = 1024 * k.val + 16 * 49; omega), rfl, rfl, fun x =>
      piece_agree (bufS2).view (tabS).view (ixS2).view f TT X _ k.val 12 1 hk (by omega) (by omega) hf hX (k0_off104 k 768#32 16#32) (k0_off104 k 768#32 16#32) (k0_off77 k)
        (k0_off104_inb k 1) (k0_off104_inb k 1) (k0_off77_inb k)
        ((cf0 (k0_off104 k 768#32 16#32)).trans (by show 1024 * k.val + 784 = _; omega)) ((cf0 (k0_off104 k 768#32 16#32)).trans (by show 1024 * k.val + 784 = _; omega)) ((cf0 (k0_off77 k)).trans (by show 16 * k.val = _; omega))
        _ 16#32 (by decide) _ _ (by first | rfl | rw [Shape.reshapeEquiv_self]) rfl x⟩,
    ⟨(cf0 (k0_off104 k 768#32 0#32)).trans (by show 1024 * k.val + 768 = 1024 * k.val + 16 * 48; omega), rfl, rfl, fun x =>
      piece_agree (bufS2).view (tabS).view (ixS2).view f TT X _ k.val 12 0 hk (by omega) (by omega) hf hX (k0_off104 k 768#32 0#32) (k0_off102 k 768#32 0#32) (k0_off77 k)
        (k0_off104_inb k 0) (k0_off102_inb k 4) (k0_off77_inb k)
        ((cf0 (k0_off104 k 768#32 0#32)).trans (by show 1024 * k.val + 768 = _; omega)) ((cf0 (k0_off102 k 768#32 0#32)).trans (by show 1024 * k.val + 768 = _; omega)) ((cf0 (k0_off77 k)).trans (by show 16 * k.val = _; omega))
        _ 0#32 (by decide) _ _ (by first | rfl | rw [Shape.reshapeEquiv_self]) rfl x⟩,
    ⟨(cf0 (k0_off102 k 704#32 48#32)).trans (by show 1024 * k.val + 752 = 1024 * k.val + 16 * 47; omega), rfl, rfl, fun x =>
      piece_agree (bufS2).view (tabS).view (ixS2).view f TT X _ k.val 11 3 hk (by omega) (by omega) hf hX (k0_off102 k 704#32 48#32) (k0_off102 k 704#32 48#32) (k0_off77 k)
        (k0_off102_inb k 3) (k0_off102_inb k 3) (k0_off77_inb k)
        ((cf0 (k0_off102 k 704#32 48#32)).trans (by show 1024 * k.val + 752 = _; omega)) ((cf0 (k0_off102 k 704#32 48#32)).trans (by show 1024 * k.val + 752 = _; omega)) ((cf0 (k0_off77 k)).trans (by show 16 * k.val = _; omega))
        _ 48#32 (by decide) _ _ (by first | rfl | rw [Shape.reshapeEquiv_self]) rfl x⟩,
    ⟨(cf0 (k0_off102 k 704#32 32#32)).trans (by show 1024 * k.val + 736 = 1024 * k.val + 16 * 46; omega), rfl, rfl, fun x =>
      piece_agree (bufS2).view (tabS).view (ixS2).view f TT X _ k.val 11 2 hk (by omega) (by omega) hf hX (k0_off102 k 704#32 32#32) (k0_off102 k 704#32 32#32) (k0_off77 k)
        (k0_off102_inb k 2) (k0_off102_inb k 2) (k0_off77_inb k)
        ((cf0 (k0_off102 k 704#32 32#32)).trans (by show 1024 * k.val + 736 = _; omega)) ((cf0 (k0_off102 k 704#32 32#32)).trans (by show 1024 * k.val + 736 = _; omega)) ((cf0 (k0_off77 k)).trans (by show 16 * k.val = _; omega))
        _ 32#32 (by decide) _ _ (by first | rfl | rw [Shape.reshapeEquiv_self]) rfl x⟩,
    ⟨(cf0 (k0_off102 k 704#32 16#32)).trans (by show 1024 * k.val + 720 = 1024 * k.val + 16 * 45; omega), rfl, rfl, fun x =>
      piece_agree (bufS2).view (tabS).view (ixS2).view f TT X _ k.val 11 1 hk (by omega) (by omega) hf hX (k0_off102 k 704#32 16#32) (k0_off102 k 704#32 16#32) (k0_off77 k)
        (k0_off102_inb k 1) (k0_off102_inb k 1) (k0_off77_inb k)
        ((cf0 (k0_off102 k 704#32 16#32)).trans (by show 1024 * k.val + 720 = _; omega)) ((cf0 (k0_off102 k 704#32 16#32)).trans (by show 1024 * k.val + 720 = _; omega)) ((cf0 (k0_off77 k)).trans (by show 16 * k.val = _; omega))
        _ 16#32 (by decide) _ _ (by first | rfl | rw [Shape.reshapeEquiv_self]) rfl x⟩,
    ⟨(cf0 (k0_off102 k 704#32 0#32)).trans (by show 1024 * k.val + 704 = 1024 * k.val + 16 * 44; omega), rfl, rfl, fun x =>
      piece_agree (bufS2).view (tabS).view (ixS2).view f TT X _ k.val 11 0 hk (by omega) (by omega) hf hX (k0_off102 k 704#32 0#32) (k0_off100 k 704#32 0#32) (k0_off77 k)
        (k0_off102_inb k 0) (k0_off100_inb k 4) (k0_off77_inb k)
        ((cf0 (k0_off102 k 704#32 0#32)).trans (by show 1024 * k.val + 704 = _; omega)) ((cf0 (k0_off100 k 704#32 0#32)).trans (by show 1024 * k.val + 704 = _; omega)) ((cf0 (k0_off77 k)).trans (by show 16 * k.val = _; omega))
        _ 0#32 (by decide) _ _ (by first | rfl | rw [Shape.reshapeEquiv_self]) rfl x⟩,
    ⟨(cf0 (k0_off100 k 640#32 48#32)).trans (by show 1024 * k.val + 688 = 1024 * k.val + 16 * 43; omega), rfl, rfl, fun x =>
      piece_agree (bufS2).view (tabS).view (ixS2).view f TT X _ k.val 10 3 hk (by omega) (by omega) hf hX (k0_off100 k 640#32 48#32) (k0_off100 k 640#32 48#32) (k0_off77 k)
        (k0_off100_inb k 3) (k0_off100_inb k 3) (k0_off77_inb k)
        ((cf0 (k0_off100 k 640#32 48#32)).trans (by show 1024 * k.val + 688 = _; omega)) ((cf0 (k0_off100 k 640#32 48#32)).trans (by show 1024 * k.val + 688 = _; omega)) ((cf0 (k0_off77 k)).trans (by show 16 * k.val = _; omega))
        _ 48#32 (by decide) _ _ (by first | rfl | rw [Shape.reshapeEquiv_self]) rfl x⟩,
    ⟨(cf0 (k0_off100 k 640#32 32#32)).trans (by show 1024 * k.val + 672 = 1024 * k.val + 16 * 42; omega), rfl, rfl, fun x =>
      piece_agree (bufS2).view (tabS).view (ixS2).view f TT X _ k.val 10 2 hk (by omega) (by omega) hf hX (k0_off100 k 640#32 32#32) (k0_off100 k 640#32 32#32) (k0_off77 k)
        (k0_off100_inb k 2) (k0_off100_inb k 2) (k0_off77_inb k)
        ((cf0 (k0_off100 k 640#32 32#32)).trans (by show 1024 * k.val + 672 = _; omega)) ((cf0 (k0_off100 k 640#32 32#32)).trans (by show 1024 * k.val + 672 = _; omega)) ((cf0 (k0_off77 k)).trans (by show 16 * k.val = _; omega))
        _ 32#32 (by decide) _ _ (by first | rfl | rw [Shape.reshapeEquiv_self]) rfl x⟩,
    ⟨(cf0 (k0_off100 k 640#32 16#32)).trans (by show 1024 * k.val + 656 = 1024 * k.val + 16 * 41; omega), rfl, rfl, fun x =>
      piece_agree (bufS2).view (tabS).view (ixS2).view f TT X _ k.val 10 1 hk (by omega) (by omega) hf hX (k0_off100 k 640#32 16#32) (k0_off100 k 640#32 16#32) (k0_off77 k)
        (k0_off100_inb k 1) (k0_off100_inb k 1) (k0_off77_inb k)
        ((cf0 (k0_off100 k 640#32 16#32)).trans (by show 1024 * k.val + 656 = _; omega)) ((cf0 (k0_off100 k 640#32 16#32)).trans (by show 1024 * k.val + 656 = _; omega)) ((cf0 (k0_off77 k)).trans (by show 16 * k.val = _; omega))
        _ 16#32 (by decide) _ _ (by first | rfl | rw [Shape.reshapeEquiv_self]) rfl x⟩,
    ⟨(cf0 (k0_off100 k 640#32 0#32)).trans (by show 1024 * k.val + 640 = 1024 * k.val + 16 * 40; omega), rfl, rfl, fun x =>
      piece_agree (bufS2).view (tabS).view (ixS2).view f TT X _ k.val 10 0 hk (by omega) (by omega) hf hX (k0_off100 k 640#32 0#32) (k0_off98 k 640#32 0#32) (k0_off77 k)
        (k0_off100_inb k 0) (k0_off98_inb k 4) (k0_off77_inb k)
        ((cf0 (k0_off100 k 640#32 0#32)).trans (by show 1024 * k.val + 640 = _; omega)) ((cf0 (k0_off98 k 640#32 0#32)).trans (by show 1024 * k.val + 640 = _; omega)) ((cf0 (k0_off77 k)).trans (by show 16 * k.val = _; omega))
        _ 0#32 (by decide) _ _ (by first | rfl | rw [Shape.reshapeEquiv_self]) rfl x⟩,
    ⟨(cf0 (k0_off98 k 576#32 48#32)).trans (by show 1024 * k.val + 624 = 1024 * k.val + 16 * 39; omega), rfl, rfl, fun x =>
      piece_agree (bufS2).view (tabS).view (ixS2).view f TT X _ k.val 9 3 hk (by omega) (by omega) hf hX (k0_off98 k 576#32 48#32) (k0_off98 k 576#32 48#32) (k0_off77 k)
        (k0_off98_inb k 3) (k0_off98_inb k 3) (k0_off77_inb k)
        ((cf0 (k0_off98 k 576#32 48#32)).trans (by show 1024 * k.val + 624 = _; omega)) ((cf0 (k0_off98 k 576#32 48#32)).trans (by show 1024 * k.val + 624 = _; omega)) ((cf0 (k0_off77 k)).trans (by show 16 * k.val = _; omega))
        _ 48#32 (by decide) _ _ (by first | rfl | rw [Shape.reshapeEquiv_self]) rfl x⟩,
    ⟨(cf0 (k0_off98 k 576#32 32#32)).trans (by show 1024 * k.val + 608 = 1024 * k.val + 16 * 38; omega), rfl, rfl, fun x =>
      piece_agree (bufS2).view (tabS).view (ixS2).view f TT X _ k.val 9 2 hk (by omega) (by omega) hf hX (k0_off98 k 576#32 32#32) (k0_off98 k 576#32 32#32) (k0_off77 k)
        (k0_off98_inb k 2) (k0_off98_inb k 2) (k0_off77_inb k)
        ((cf0 (k0_off98 k 576#32 32#32)).trans (by show 1024 * k.val + 608 = _; omega)) ((cf0 (k0_off98 k 576#32 32#32)).trans (by show 1024 * k.val + 608 = _; omega)) ((cf0 (k0_off77 k)).trans (by show 16 * k.val = _; omega))
        _ 32#32 (by decide) _ _ (by first | rfl | rw [Shape.reshapeEquiv_self]) rfl x⟩,
    ⟨(cf0 (k0_off98 k 576#32 16#32)).trans (by show 1024 * k.val + 592 = 1024 * k.val + 16 * 37; omega), rfl, rfl, fun x =>
      piece_agree (bufS2).view (tabS).view (ixS2).view f TT X _ k.val 9 1 hk (by omega) (by omega) hf hX (k0_off98 k 576#32 16#32) (k0_off98 k 576#32 16#32) (k0_off77 k)
        (k0_off98_inb k 1) (k0_off98_inb k 1) (k0_off77_inb k)
        ((cf0 (k0_off98 k 576#32 16#32)).trans (by show 1024 * k.val + 592 = _; omega)) ((cf0 (k0_off98 k 576#32 16#32)).trans (by show 1024 * k.val + 592 = _; omega)) ((cf0 (k0_off77 k)).trans (by show 16 * k.val = _; omega))
        _ 16#32 (by decide) _ _ (by first | rfl | rw [Shape.reshapeEquiv_self]) rfl x⟩,
    ⟨(cf0 (k0_off98 k 576#32 0#32)).trans (by show 1024 * k.val + 576 = 1024 * k.val + 16 * 36; omega), rfl, rfl, fun x =>
      piece_agree (bufS2).view (tabS).view (ixS2).view f TT X _ k.val 9 0 hk (by omega) (by omega) hf hX (k0_off98 k 576#32 0#32) (k0_off96 k 576#32 0#32) (k0_off77 k)
        (k0_off98_inb k 0) (k0_off96_inb k 4) (k0_off77_inb k)
        ((cf0 (k0_off98 k 576#32 0#32)).trans (by show 1024 * k.val + 576 = _; omega)) ((cf0 (k0_off96 k 576#32 0#32)).trans (by show 1024 * k.val + 576 = _; omega)) ((cf0 (k0_off77 k)).trans (by show 16 * k.val = _; omega))
        _ 0#32 (by decide) _ _ (by first | rfl | rw [Shape.reshapeEquiv_self]) rfl x⟩,
    ⟨(cf0 (k0_off96 k 512#32 48#32)).trans (by show 1024 * k.val + 560 = 1024 * k.val + 16 * 35; omega), rfl, rfl, fun x =>
      piece_agree (bufS2).view (tabS).view (ixS2).view f TT X _ k.val 8 3 hk (by omega) (by omega) hf hX (k0_off96 k 512#32 48#32) (k0_off96 k 512#32 48#32) (k0_off77 k)
        (k0_off96_inb k 3) (k0_off96_inb k 3) (k0_off77_inb k)
        ((cf0 (k0_off96 k 512#32 48#32)).trans (by show 1024 * k.val + 560 = _; omega)) ((cf0 (k0_off96 k 512#32 48#32)).trans (by show 1024 * k.val + 560 = _; omega)) ((cf0 (k0_off77 k)).trans (by show 16 * k.val = _; omega))
        _ 48#32 (by decide) _ _ (by first | rfl | rw [Shape.reshapeEquiv_self]) rfl x⟩,
    ⟨(cf0 (k0_off96 k 512#32 32#32)).trans (by show 1024 * k.val + 544 = 1024 * k.val + 16 * 34; omega), rfl, rfl, fun x =>
      piece_agree (bufS2).view (tabS).view (ixS2).view f TT X _ k.val 8 2 hk (by omega) (by omega) hf hX (k0_off96 k 512#32 32#32) (k0_off96 k 512#32 32#32) (k0_off77 k)
        (k0_off96_inb k 2) (k0_off96_inb k 2) (k0_off77_inb k)
        ((cf0 (k0_off96 k 512#32 32#32)).trans (by show 1024 * k.val + 544 = _; omega)) ((cf0 (k0_off96 k 512#32 32#32)).trans (by show 1024 * k.val + 544 = _; omega)) ((cf0 (k0_off77 k)).trans (by show 16 * k.val = _; omega))
        _ 32#32 (by decide) _ _ (by first | rfl | rw [Shape.reshapeEquiv_self]) rfl x⟩,
    ⟨(cf0 (k0_off96 k 512#32 16#32)).trans (by show 1024 * k.val + 528 = 1024 * k.val + 16 * 33; omega), rfl, rfl, fun x =>
      piece_agree (bufS2).view (tabS).view (ixS2).view f TT X _ k.val 8 1 hk (by omega) (by omega) hf hX (k0_off96 k 512#32 16#32) (k0_off96 k 512#32 16#32) (k0_off77 k)
        (k0_off96_inb k 1) (k0_off96_inb k 1) (k0_off77_inb k)
        ((cf0 (k0_off96 k 512#32 16#32)).trans (by show 1024 * k.val + 528 = _; omega)) ((cf0 (k0_off96 k 512#32 16#32)).trans (by show 1024 * k.val + 528 = _; omega)) ((cf0 (k0_off77 k)).trans (by show 16 * k.val = _; omega))
        _ 16#32 (by decide) _ _ (by first | rfl | rw [Shape.reshapeEquiv_self]) rfl x⟩,
    ⟨(cf0 (k0_off96 k 512#32 0#32)).trans (by show 1024 * k.val + 512 = 1024 * k.val + 16 * 32; omega), rfl, rfl, fun x =>
      piece_agree (bufS2).view (tabS).view (ixS2).view f TT X _ k.val 8 0 hk (by omega) (by omega) hf hX (k0_off96 k 512#32 0#32) (k0_off94 k 512#32 0#32) (k0_off77 k)
        (k0_off96_inb k 0) (k0_off94_inb k 4) (k0_off77_inb k)
        ((cf0 (k0_off96 k 512#32 0#32)).trans (by show 1024 * k.val + 512 = _; omega)) ((cf0 (k0_off94 k 512#32 0#32)).trans (by show 1024 * k.val + 512 = _; omega)) ((cf0 (k0_off77 k)).trans (by show 16 * k.val = _; omega))
        _ 0#32 (by decide) _ _ (by first | rfl | rw [Shape.reshapeEquiv_self]) rfl x⟩,
    ⟨(cf0 (k0_off94 k 448#32 48#32)).trans (by show 1024 * k.val + 496 = 1024 * k.val + 16 * 31; omega), rfl, rfl, fun x =>
      piece_agree (bufS2).view (tabS).view (ixS2).view f TT X _ k.val 7 3 hk (by omega) (by omega) hf hX (k0_off94 k 448#32 48#32) (k0_off94 k 448#32 48#32) (k0_off77 k)
        (k0_off94_inb k 3) (k0_off94_inb k 3) (k0_off77_inb k)
        ((cf0 (k0_off94 k 448#32 48#32)).trans (by show 1024 * k.val + 496 = _; omega)) ((cf0 (k0_off94 k 448#32 48#32)).trans (by show 1024 * k.val + 496 = _; omega)) ((cf0 (k0_off77 k)).trans (by show 16 * k.val = _; omega))
        _ 48#32 (by decide) _ _ (by first | rfl | rw [Shape.reshapeEquiv_self]) rfl x⟩,
    ⟨(cf0 (k0_off94 k 448#32 32#32)).trans (by show 1024 * k.val + 480 = 1024 * k.val + 16 * 30; omega), rfl, rfl, fun x =>
      piece_agree (bufS2).view (tabS).view (ixS2).view f TT X _ k.val 7 2 hk (by omega) (by omega) hf hX (k0_off94 k 448#32 32#32) (k0_off94 k 448#32 32#32) (k0_off77 k)
        (k0_off94_inb k 2) (k0_off94_inb k 2) (k0_off77_inb k)
        ((cf0 (k0_off94 k 448#32 32#32)).trans (by show 1024 * k.val + 480 = _; omega)) ((cf0 (k0_off94 k 448#32 32#32)).trans (by show 1024 * k.val + 480 = _; omega)) ((cf0 (k0_off77 k)).trans (by show 16 * k.val = _; omega))
        _ 32#32 (by decide) _ _ (by first | rfl | rw [Shape.reshapeEquiv_self]) rfl x⟩,
    ⟨(cf0 (k0_off94 k 448#32 16#32)).trans (by show 1024 * k.val + 464 = 1024 * k.val + 16 * 29; omega), rfl, rfl, fun x =>
      piece_agree (bufS2).view (tabS).view (ixS2).view f TT X _ k.val 7 1 hk (by omega) (by omega) hf hX (k0_off94 k 448#32 16#32) (k0_off94 k 448#32 16#32) (k0_off77 k)
        (k0_off94_inb k 1) (k0_off94_inb k 1) (k0_off77_inb k)
        ((cf0 (k0_off94 k 448#32 16#32)).trans (by show 1024 * k.val + 464 = _; omega)) ((cf0 (k0_off94 k 448#32 16#32)).trans (by show 1024 * k.val + 464 = _; omega)) ((cf0 (k0_off77 k)).trans (by show 16 * k.val = _; omega))
        _ 16#32 (by decide) _ _ (by first | rfl | rw [Shape.reshapeEquiv_self]) rfl x⟩,
    ⟨(cf0 (k0_off94 k 448#32 0#32)).trans (by show 1024 * k.val + 448 = 1024 * k.val + 16 * 28; omega), rfl, rfl, fun x =>
      piece_agree (bufS2).view (tabS).view (ixS2).view f TT X _ k.val 7 0 hk (by omega) (by omega) hf hX (k0_off94 k 448#32 0#32) (k0_off92 k 448#32 0#32) (k0_off77 k)
        (k0_off94_inb k 0) (k0_off92_inb k 4) (k0_off77_inb k)
        ((cf0 (k0_off94 k 448#32 0#32)).trans (by show 1024 * k.val + 448 = _; omega)) ((cf0 (k0_off92 k 448#32 0#32)).trans (by show 1024 * k.val + 448 = _; omega)) ((cf0 (k0_off77 k)).trans (by show 16 * k.val = _; omega))
        _ 0#32 (by decide) _ _ (by first | rfl | rw [Shape.reshapeEquiv_self]) rfl x⟩,
    ⟨(cf0 (k0_off92 k 384#32 48#32)).trans (by show 1024 * k.val + 432 = 1024 * k.val + 16 * 27; omega), rfl, rfl, fun x =>
      piece_agree (bufS2).view (tabS).view (ixS2).view f TT X _ k.val 6 3 hk (by omega) (by omega) hf hX (k0_off92 k 384#32 48#32) (k0_off92 k 384#32 48#32) (k0_off77 k)
        (k0_off92_inb k 3) (k0_off92_inb k 3) (k0_off77_inb k)
        ((cf0 (k0_off92 k 384#32 48#32)).trans (by show 1024 * k.val + 432 = _; omega)) ((cf0 (k0_off92 k 384#32 48#32)).trans (by show 1024 * k.val + 432 = _; omega)) ((cf0 (k0_off77 k)).trans (by show 16 * k.val = _; omega))
        _ 48#32 (by decide) _ _ (by first | rfl | rw [Shape.reshapeEquiv_self]) rfl x⟩,
    ⟨(cf0 (k0_off92 k 384#32 32#32)).trans (by show 1024 * k.val + 416 = 1024 * k.val + 16 * 26; omega), rfl, rfl, fun x =>
      piece_agree (bufS2).view (tabS).view (ixS2).view f TT X _ k.val 6 2 hk (by omega) (by omega) hf hX (k0_off92 k 384#32 32#32) (k0_off92 k 384#32 32#32) (k0_off77 k)
        (k0_off92_inb k 2) (k0_off92_inb k 2) (k0_off77_inb k)
        ((cf0 (k0_off92 k 384#32 32#32)).trans (by show 1024 * k.val + 416 = _; omega)) ((cf0 (k0_off92 k 384#32 32#32)).trans (by show 1024 * k.val + 416 = _; omega)) ((cf0 (k0_off77 k)).trans (by show 16 * k.val = _; omega))
        _ 32#32 (by decide) _ _ (by first | rfl | rw [Shape.reshapeEquiv_self]) rfl x⟩,
    ⟨(cf0 (k0_off92 k 384#32 16#32)).trans (by show 1024 * k.val + 400 = 1024 * k.val + 16 * 25; omega), rfl, rfl, fun x =>
      piece_agree (bufS2).view (tabS).view (ixS2).view f TT X _ k.val 6 1 hk (by omega) (by omega) hf hX (k0_off92 k 384#32 16#32) (k0_off92 k 384#32 16#32) (k0_off77 k)
        (k0_off92_inb k 1) (k0_off92_inb k 1) (k0_off77_inb k)
        ((cf0 (k0_off92 k 384#32 16#32)).trans (by show 1024 * k.val + 400 = _; omega)) ((cf0 (k0_off92 k 384#32 16#32)).trans (by show 1024 * k.val + 400 = _; omega)) ((cf0 (k0_off77 k)).trans (by show 16 * k.val = _; omega))
        _ 16#32 (by decide) _ _ (by first | rfl | rw [Shape.reshapeEquiv_self]) rfl x⟩,
    ⟨(cf0 (k0_off92 k 384#32 0#32)).trans (by show 1024 * k.val + 384 = 1024 * k.val + 16 * 24; omega), rfl, rfl, fun x =>
      piece_agree (bufS2).view (tabS).view (ixS2).view f TT X _ k.val 6 0 hk (by omega) (by omega) hf hX (k0_off92 k 384#32 0#32) (k0_off90 k 384#32 0#32) (k0_off77 k)
        (k0_off92_inb k 0) (k0_off90_inb k 4) (k0_off77_inb k)
        ((cf0 (k0_off92 k 384#32 0#32)).trans (by show 1024 * k.val + 384 = _; omega)) ((cf0 (k0_off90 k 384#32 0#32)).trans (by show 1024 * k.val + 384 = _; omega)) ((cf0 (k0_off77 k)).trans (by show 16 * k.val = _; omega))
        _ 0#32 (by decide) _ _ (by first | rfl | rw [Shape.reshapeEquiv_self]) rfl x⟩,
    ⟨(cf0 (k0_off90 k 320#32 48#32)).trans (by show 1024 * k.val + 368 = 1024 * k.val + 16 * 23; omega), rfl, rfl, fun x =>
      piece_agree (bufS2).view (tabS).view (ixS2).view f TT X _ k.val 5 3 hk (by omega) (by omega) hf hX (k0_off90 k 320#32 48#32) (k0_off90 k 320#32 48#32) (k0_off77 k)
        (k0_off90_inb k 3) (k0_off90_inb k 3) (k0_off77_inb k)
        ((cf0 (k0_off90 k 320#32 48#32)).trans (by show 1024 * k.val + 368 = _; omega)) ((cf0 (k0_off90 k 320#32 48#32)).trans (by show 1024 * k.val + 368 = _; omega)) ((cf0 (k0_off77 k)).trans (by show 16 * k.val = _; omega))
        _ 48#32 (by decide) _ _ (by first | rfl | rw [Shape.reshapeEquiv_self]) rfl x⟩,
    ⟨(cf0 (k0_off90 k 320#32 32#32)).trans (by show 1024 * k.val + 352 = 1024 * k.val + 16 * 22; omega), rfl, rfl, fun x =>
      piece_agree (bufS2).view (tabS).view (ixS2).view f TT X _ k.val 5 2 hk (by omega) (by omega) hf hX (k0_off90 k 320#32 32#32) (k0_off90 k 320#32 32#32) (k0_off77 k)
        (k0_off90_inb k 2) (k0_off90_inb k 2) (k0_off77_inb k)
        ((cf0 (k0_off90 k 320#32 32#32)).trans (by show 1024 * k.val + 352 = _; omega)) ((cf0 (k0_off90 k 320#32 32#32)).trans (by show 1024 * k.val + 352 = _; omega)) ((cf0 (k0_off77 k)).trans (by show 16 * k.val = _; omega))
        _ 32#32 (by decide) _ _ (by first | rfl | rw [Shape.reshapeEquiv_self]) rfl x⟩,
    ⟨(cf0 (k0_off90 k 320#32 16#32)).trans (by show 1024 * k.val + 336 = 1024 * k.val + 16 * 21; omega), rfl, rfl, fun x =>
      piece_agree (bufS2).view (tabS).view (ixS2).view f TT X _ k.val 5 1 hk (by omega) (by omega) hf hX (k0_off90 k 320#32 16#32) (k0_off90 k 320#32 16#32) (k0_off77 k)
        (k0_off90_inb k 1) (k0_off90_inb k 1) (k0_off77_inb k)
        ((cf0 (k0_off90 k 320#32 16#32)).trans (by show 1024 * k.val + 336 = _; omega)) ((cf0 (k0_off90 k 320#32 16#32)).trans (by show 1024 * k.val + 336 = _; omega)) ((cf0 (k0_off77 k)).trans (by show 16 * k.val = _; omega))
        _ 16#32 (by decide) _ _ (by first | rfl | rw [Shape.reshapeEquiv_self]) rfl x⟩,
    ⟨(cf0 (k0_off90 k 320#32 0#32)).trans (by show 1024 * k.val + 320 = 1024 * k.val + 16 * 20; omega), rfl, rfl, fun x =>
      piece_agree (bufS2).view (tabS).view (ixS2).view f TT X _ k.val 5 0 hk (by omega) (by omega) hf hX (k0_off90 k 320#32 0#32) (k0_off88 k 320#32 0#32) (k0_off77 k)
        (k0_off90_inb k 0) (k0_off88_inb k 4) (k0_off77_inb k)
        ((cf0 (k0_off90 k 320#32 0#32)).trans (by show 1024 * k.val + 320 = _; omega)) ((cf0 (k0_off88 k 320#32 0#32)).trans (by show 1024 * k.val + 320 = _; omega)) ((cf0 (k0_off77 k)).trans (by show 16 * k.val = _; omega))
        _ 0#32 (by decide) _ _ (by first | rfl | rw [Shape.reshapeEquiv_self]) rfl x⟩,
    ⟨(cf0 (k0_off88 k 256#32 48#32)).trans (by show 1024 * k.val + 304 = 1024 * k.val + 16 * 19; omega), rfl, rfl, fun x =>
      piece_agree (bufS2).view (tabS).view (ixS2).view f TT X _ k.val 4 3 hk (by omega) (by omega) hf hX (k0_off88 k 256#32 48#32) (k0_off88 k 256#32 48#32) (k0_off77 k)
        (k0_off88_inb k 3) (k0_off88_inb k 3) (k0_off77_inb k)
        ((cf0 (k0_off88 k 256#32 48#32)).trans (by show 1024 * k.val + 304 = _; omega)) ((cf0 (k0_off88 k 256#32 48#32)).trans (by show 1024 * k.val + 304 = _; omega)) ((cf0 (k0_off77 k)).trans (by show 16 * k.val = _; omega))
        _ 48#32 (by decide) _ _ (by first | rfl | rw [Shape.reshapeEquiv_self]) rfl x⟩,
    ⟨(cf0 (k0_off88 k 256#32 32#32)).trans (by show 1024 * k.val + 288 = 1024 * k.val + 16 * 18; omega), rfl, rfl, fun x =>
      piece_agree (bufS2).view (tabS).view (ixS2).view f TT X _ k.val 4 2 hk (by omega) (by omega) hf hX (k0_off88 k 256#32 32#32) (k0_off88 k 256#32 32#32) (k0_off77 k)
        (k0_off88_inb k 2) (k0_off88_inb k 2) (k0_off77_inb k)
        ((cf0 (k0_off88 k 256#32 32#32)).trans (by show 1024 * k.val + 288 = _; omega)) ((cf0 (k0_off88 k 256#32 32#32)).trans (by show 1024 * k.val + 288 = _; omega)) ((cf0 (k0_off77 k)).trans (by show 16 * k.val = _; omega))
        _ 32#32 (by decide) _ _ (by first | rfl | rw [Shape.reshapeEquiv_self]) rfl x⟩,
    ⟨(cf0 (k0_off88 k 256#32 16#32)).trans (by show 1024 * k.val + 272 = 1024 * k.val + 16 * 17; omega), rfl, rfl, fun x =>
      piece_agree (bufS2).view (tabS).view (ixS2).view f TT X _ k.val 4 1 hk (by omega) (by omega) hf hX (k0_off88 k 256#32 16#32) (k0_off88 k 256#32 16#32) (k0_off77 k)
        (k0_off88_inb k 1) (k0_off88_inb k 1) (k0_off77_inb k)
        ((cf0 (k0_off88 k 256#32 16#32)).trans (by show 1024 * k.val + 272 = _; omega)) ((cf0 (k0_off88 k 256#32 16#32)).trans (by show 1024 * k.val + 272 = _; omega)) ((cf0 (k0_off77 k)).trans (by show 16 * k.val = _; omega))
        _ 16#32 (by decide) _ _ (by first | rfl | rw [Shape.reshapeEquiv_self]) rfl x⟩,
    ⟨(cf0 (k0_off88 k 256#32 0#32)).trans (by show 1024 * k.val + 256 = 1024 * k.val + 16 * 16; omega), rfl, rfl, fun x =>
      piece_agree (bufS2).view (tabS).view (ixS2).view f TT X _ k.val 4 0 hk (by omega) (by omega) hf hX (k0_off88 k 256#32 0#32) (k0_off86 k 256#32 0#32) (k0_off77 k)
        (k0_off88_inb k 0) (k0_off86_inb k 4) (k0_off77_inb k)
        ((cf0 (k0_off88 k 256#32 0#32)).trans (by show 1024 * k.val + 256 = _; omega)) ((cf0 (k0_off86 k 256#32 0#32)).trans (by show 1024 * k.val + 256 = _; omega)) ((cf0 (k0_off77 k)).trans (by show 16 * k.val = _; omega))
        _ 0#32 (by decide) _ _ (by first | rfl | rw [Shape.reshapeEquiv_self]) rfl x⟩,
    ⟨(cf0 (k0_off86 k 192#32 48#32)).trans (by show 1024 * k.val + 240 = 1024 * k.val + 16 * 15; omega), rfl, rfl, fun x =>
      piece_agree (bufS2).view (tabS).view (ixS2).view f TT X _ k.val 3 3 hk (by omega) (by omega) hf hX (k0_off86 k 192#32 48#32) (k0_off86 k 192#32 48#32) (k0_off77 k)
        (k0_off86_inb k 3) (k0_off86_inb k 3) (k0_off77_inb k)
        ((cf0 (k0_off86 k 192#32 48#32)).trans (by show 1024 * k.val + 240 = _; omega)) ((cf0 (k0_off86 k 192#32 48#32)).trans (by show 1024 * k.val + 240 = _; omega)) ((cf0 (k0_off77 k)).trans (by show 16 * k.val = _; omega))
        _ 48#32 (by decide) _ _ (by first | rfl | rw [Shape.reshapeEquiv_self]) rfl x⟩,
    ⟨(cf0 (k0_off86 k 192#32 32#32)).trans (by show 1024 * k.val + 224 = 1024 * k.val + 16 * 14; omega), rfl, rfl, fun x =>
      piece_agree (bufS2).view (tabS).view (ixS2).view f TT X _ k.val 3 2 hk (by omega) (by omega) hf hX (k0_off86 k 192#32 32#32) (k0_off86 k 192#32 32#32) (k0_off77 k)
        (k0_off86_inb k 2) (k0_off86_inb k 2) (k0_off77_inb k)
        ((cf0 (k0_off86 k 192#32 32#32)).trans (by show 1024 * k.val + 224 = _; omega)) ((cf0 (k0_off86 k 192#32 32#32)).trans (by show 1024 * k.val + 224 = _; omega)) ((cf0 (k0_off77 k)).trans (by show 16 * k.val = _; omega))
        _ 32#32 (by decide) _ _ (by first | rfl | rw [Shape.reshapeEquiv_self]) rfl x⟩,
    ⟨(cf0 (k0_off86 k 192#32 16#32)).trans (by show 1024 * k.val + 208 = 1024 * k.val + 16 * 13; omega), rfl, rfl, fun x =>
      piece_agree (bufS2).view (tabS).view (ixS2).view f TT X _ k.val 3 1 hk (by omega) (by omega) hf hX (k0_off86 k 192#32 16#32) (k0_off86 k 192#32 16#32) (k0_off77 k)
        (k0_off86_inb k 1) (k0_off86_inb k 1) (k0_off77_inb k)
        ((cf0 (k0_off86 k 192#32 16#32)).trans (by show 1024 * k.val + 208 = _; omega)) ((cf0 (k0_off86 k 192#32 16#32)).trans (by show 1024 * k.val + 208 = _; omega)) ((cf0 (k0_off77 k)).trans (by show 16 * k.val = _; omega))
        _ 16#32 (by decide) _ _ (by first | rfl | rw [Shape.reshapeEquiv_self]) rfl x⟩,
    ⟨(cf0 (k0_off86 k 192#32 0#32)).trans (by show 1024 * k.val + 192 = 1024 * k.val + 16 * 12; omega), rfl, rfl, fun x =>
      piece_agree (bufS2).view (tabS).view (ixS2).view f TT X _ k.val 3 0 hk (by omega) (by omega) hf hX (k0_off86 k 192#32 0#32) (k0_off84 k 192#32 0#32) (k0_off77 k)
        (k0_off86_inb k 0) (k0_off84_inb k 4) (k0_off77_inb k)
        ((cf0 (k0_off86 k 192#32 0#32)).trans (by show 1024 * k.val + 192 = _; omega)) ((cf0 (k0_off84 k 192#32 0#32)).trans (by show 1024 * k.val + 192 = _; omega)) ((cf0 (k0_off77 k)).trans (by show 16 * k.val = _; omega))
        _ 0#32 (by decide) _ _ (by first | rfl | rw [Shape.reshapeEquiv_self]) rfl x⟩,
    ⟨(cf0 (k0_off84 k 128#32 48#32)).trans (by show 1024 * k.val + 176 = 1024 * k.val + 16 * 11; omega), rfl, rfl, fun x =>
      piece_agree (bufS2).view (tabS).view (ixS2).view f TT X _ k.val 2 3 hk (by omega) (by omega) hf hX (k0_off84 k 128#32 48#32) (k0_off84 k 128#32 48#32) (k0_off77 k)
        (k0_off84_inb k 3) (k0_off84_inb k 3) (k0_off77_inb k)
        ((cf0 (k0_off84 k 128#32 48#32)).trans (by show 1024 * k.val + 176 = _; omega)) ((cf0 (k0_off84 k 128#32 48#32)).trans (by show 1024 * k.val + 176 = _; omega)) ((cf0 (k0_off77 k)).trans (by show 16 * k.val = _; omega))
        _ 48#32 (by decide) _ _ (by first | rfl | rw [Shape.reshapeEquiv_self]) rfl x⟩,
    ⟨(cf0 (k0_off84 k 128#32 32#32)).trans (by show 1024 * k.val + 160 = 1024 * k.val + 16 * 10; omega), rfl, rfl, fun x =>
      piece_agree (bufS2).view (tabS).view (ixS2).view f TT X _ k.val 2 2 hk (by omega) (by omega) hf hX (k0_off84 k 128#32 32#32) (k0_off84 k 128#32 32#32) (k0_off77 k)
        (k0_off84_inb k 2) (k0_off84_inb k 2) (k0_off77_inb k)
        ((cf0 (k0_off84 k 128#32 32#32)).trans (by show 1024 * k.val + 160 = _; omega)) ((cf0 (k0_off84 k 128#32 32#32)).trans (by show 1024 * k.val + 160 = _; omega)) ((cf0 (k0_off77 k)).trans (by show 16 * k.val = _; omega))
        _ 32#32 (by decide) _ _ (by first | rfl | rw [Shape.reshapeEquiv_self]) rfl x⟩,
    ⟨(cf0 (k0_off84 k 128#32 16#32)).trans (by show 1024 * k.val + 144 = 1024 * k.val + 16 * 9; omega), rfl, rfl, fun x =>
      piece_agree (bufS2).view (tabS).view (ixS2).view f TT X _ k.val 2 1 hk (by omega) (by omega) hf hX (k0_off84 k 128#32 16#32) (k0_off84 k 128#32 16#32) (k0_off77 k)
        (k0_off84_inb k 1) (k0_off84_inb k 1) (k0_off77_inb k)
        ((cf0 (k0_off84 k 128#32 16#32)).trans (by show 1024 * k.val + 144 = _; omega)) ((cf0 (k0_off84 k 128#32 16#32)).trans (by show 1024 * k.val + 144 = _; omega)) ((cf0 (k0_off77 k)).trans (by show 16 * k.val = _; omega))
        _ 16#32 (by decide) _ _ (by first | rfl | rw [Shape.reshapeEquiv_self]) rfl x⟩,
    ⟨(cf0 (k0_off84 k 128#32 0#32)).trans (by show 1024 * k.val + 128 = 1024 * k.val + 16 * 8; omega), rfl, rfl, fun x =>
      piece_agree (bufS2).view (tabS).view (ixS2).view f TT X _ k.val 2 0 hk (by omega) (by omega) hf hX (k0_off84 k 128#32 0#32) (k0_off82 k 128#32 0#32) (k0_off77 k)
        (k0_off84_inb k 0) (k0_off82_inb k 4) (k0_off77_inb k)
        ((cf0 (k0_off84 k 128#32 0#32)).trans (by show 1024 * k.val + 128 = _; omega)) ((cf0 (k0_off82 k 128#32 0#32)).trans (by show 1024 * k.val + 128 = _; omega)) ((cf0 (k0_off77 k)).trans (by show 16 * k.val = _; omega))
        _ 0#32 (by decide) _ _ (by first | rfl | rw [Shape.reshapeEquiv_self]) rfl x⟩,
    ⟨(cf0 (k0_off82 k 64#32 48#32)).trans (by show 1024 * k.val + 112 = 1024 * k.val + 16 * 7; omega), rfl, rfl, fun x =>
      piece_agree (bufS2).view (tabS).view (ixS2).view f TT X _ k.val 1 3 hk (by omega) (by omega) hf hX (k0_off82 k 64#32 48#32) (k0_off82 k 64#32 48#32) (k0_off77 k)
        (k0_off82_inb k 3) (k0_off82_inb k 3) (k0_off77_inb k)
        ((cf0 (k0_off82 k 64#32 48#32)).trans (by show 1024 * k.val + 112 = _; omega)) ((cf0 (k0_off82 k 64#32 48#32)).trans (by show 1024 * k.val + 112 = _; omega)) ((cf0 (k0_off77 k)).trans (by show 16 * k.val = _; omega))
        _ 48#32 (by decide) _ _ (by first | rfl | rw [Shape.reshapeEquiv_self]) rfl x⟩,
    ⟨(cf0 (k0_off82 k 64#32 32#32)).trans (by show 1024 * k.val + 96 = 1024 * k.val + 16 * 6; omega), rfl, rfl, fun x =>
      piece_agree (bufS2).view (tabS).view (ixS2).view f TT X _ k.val 1 2 hk (by omega) (by omega) hf hX (k0_off82 k 64#32 32#32) (k0_off82 k 64#32 32#32) (k0_off77 k)
        (k0_off82_inb k 2) (k0_off82_inb k 2) (k0_off77_inb k)
        ((cf0 (k0_off82 k 64#32 32#32)).trans (by show 1024 * k.val + 96 = _; omega)) ((cf0 (k0_off82 k 64#32 32#32)).trans (by show 1024 * k.val + 96 = _; omega)) ((cf0 (k0_off77 k)).trans (by show 16 * k.val = _; omega))
        _ 32#32 (by decide) _ _ (by first | rfl | rw [Shape.reshapeEquiv_self]) rfl x⟩,
    ⟨(cf0 (k0_off82 k 64#32 16#32)).trans (by show 1024 * k.val + 80 = 1024 * k.val + 16 * 5; omega), rfl, rfl, fun x =>
      piece_agree (bufS2).view (tabS).view (ixS2).view f TT X _ k.val 1 1 hk (by omega) (by omega) hf hX (k0_off82 k 64#32 16#32) (k0_off82 k 64#32 16#32) (k0_off77 k)
        (k0_off82_inb k 1) (k0_off82_inb k 1) (k0_off77_inb k)
        ((cf0 (k0_off82 k 64#32 16#32)).trans (by show 1024 * k.val + 80 = _; omega)) ((cf0 (k0_off82 k 64#32 16#32)).trans (by show 1024 * k.val + 80 = _; omega)) ((cf0 (k0_off77 k)).trans (by show 16 * k.val = _; omega))
        _ 16#32 (by decide) _ _ (by first | rfl | rw [Shape.reshapeEquiv_self]) rfl x⟩,
    ⟨(cf0 (k0_off82 k 64#32 0#32)).trans (by show 1024 * k.val + 64 = 1024 * k.val + 16 * 4; omega), rfl, rfl, fun x =>
      piece_agree (bufS2).view (tabS).view (ixS2).view f TT X _ k.val 1 0 hk (by omega) (by omega) hf hX (k0_off82 k 64#32 0#32) (k0_off80 k 64#32 0#32) (k0_off77 k)
        (k0_off82_inb k 0) (k0_off80_inb k 4) (k0_off77_inb k)
        ((cf0 (k0_off82 k 64#32 0#32)).trans (by show 1024 * k.val + 64 = _; omega)) ((cf0 (k0_off80 k 64#32 0#32)).trans (by show 1024 * k.val + 64 = _; omega)) ((cf0 (k0_off77 k)).trans (by show 16 * k.val = _; omega))
        _ 0#32 (by decide) _ _ (by first | rfl | rw [Shape.reshapeEquiv_self]) rfl x⟩,
    ⟨(cf0 (k0_off80 k 0#32 48#32)).trans (by show 1024 * k.val + 48 = 1024 * k.val + 16 * 3; omega), rfl, rfl, fun x =>
      piece_agree (bufS2).view (tabS).view (ixS2).view f TT X _ k.val 0 3 hk (by omega) (by omega) hf hX (k0_off80 k 0#32 48#32) (k0_off80 k 0#32 48#32) (k0_off77 k)
        (k0_off80_inb k 3) (k0_off80_inb k 3) (k0_off77_inb k)
        ((cf0 (k0_off80 k 0#32 48#32)).trans (by show 1024 * k.val + 48 = _; omega)) ((cf0 (k0_off80 k 0#32 48#32)).trans (by show 1024 * k.val + 48 = _; omega)) ((cf0 (k0_off77 k)).trans (by show 16 * k.val = _; omega))
        _ 48#32 (by decide) _ _ (by first | rfl | rw [Shape.reshapeEquiv_self]) rfl x⟩,
    ⟨(cf0 (k0_off80 k 0#32 32#32)).trans (by show 1024 * k.val + 32 = 1024 * k.val + 16 * 2; omega), rfl, rfl, fun x =>
      piece_agree (bufS2).view (tabS).view (ixS2).view f TT X _ k.val 0 2 hk (by omega) (by omega) hf hX (k0_off80 k 0#32 32#32) (k0_off80 k 0#32 32#32) (k0_off77 k)
        (k0_off80_inb k 2) (k0_off80_inb k 2) (k0_off77_inb k)
        ((cf0 (k0_off80 k 0#32 32#32)).trans (by show 1024 * k.val + 32 = _; omega)) ((cf0 (k0_off80 k 0#32 32#32)).trans (by show 1024 * k.val + 32 = _; omega)) ((cf0 (k0_off77 k)).trans (by show 16 * k.val = _; omega))
        _ 32#32 (by decide) _ _ (by first | rfl | rw [Shape.reshapeEquiv_self]) rfl x⟩,
    ⟨(cf0 (k0_off80 k 0#32 16#32)).trans (by show 1024 * k.val + 16 = 1024 * k.val + 16 * 1; omega), rfl, rfl, fun x =>
      piece_agree (bufS2).view (tabS).view (ixS2).view f TT X _ k.val 0 1 hk (by omega) (by omega) hf hX (k0_off80 k 0#32 16#32) (k0_off80 k 0#32 16#32) (k0_off77 k)
        (k0_off80_inb k 1) (k0_off80_inb k 1) (k0_off77_inb k)
        ((cf0 (k0_off80 k 0#32 16#32)).trans (by show 1024 * k.val + 16 = _; omega)) ((cf0 (k0_off80 k 0#32 16#32)).trans (by show 1024 * k.val + 16 = _; omega)) ((cf0 (k0_off77 k)).trans (by show 16 * k.val = _; omega))
        _ 16#32 (by decide) _ _ (by first | rfl | rw [Shape.reshapeEquiv_self]) rfl x⟩,
    ⟨(cf0 (k0_off80 k 0#32 0#32)).trans (by show 1024 * k.val + 0 = 1024 * k.val + 16 * 0; omega), rfl, rfl, fun x =>
      piece_agree (bufS2).view (tabS).view (ixS2).view f TT X _ k.val 0 0 hk (by omega) (by omega) hf hX (k0_off80 k 0#32 0#32) (k0_off78 k) (k0_off77 k)
        (k0_off80_inb k 0) (k0_off78_inb k) (k0_off77_inb k)
        ((cf0 (k0_off80 k 0#32 0#32)).trans (by show 1024 * k.val + 0 = _; omega)) ((cf0 (k0_off78 k)).trans (by show 1024 * k.val = _; omega)) ((cf0 (k0_off77 k)).trans (by show 16 * k.val = _; omega))
        _ 0#32 (by decide) _ _ (by first | rfl | rw [Shape.reshapeEquiv_self]) rfl x⟩,
    trivial⟩

/-- The whole loop, in continuation form: from the three buffers, the program goes on with every row done. -/
theorem loop3_spec (hX : ∀ j, BitVec.toNat ((ixS2).view.read (Elt F) X j) < 16) (v1 v21 c0_i32_32 c0_i32_33 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS2).view.loc (thrV d L) ↦{fullShare} X)
        ∗ ((bufS2).view.loc (thrV d L) ↦{fullShare} B)
        ∗ (∀ acc f, (⌜∀ y, (bufS2).view.read (Elt F) f y
              = stage ((bufS2).view.read (Elt F) B) ((tabS).view.read (Elt F) TT) ((ixS2).view.read (Elt F) X) 400 y⌝
              ∗ ((tabS).view.loc (thrV d L) ↦{fullShare} TT) ∗ ((ixS2).view.loc (thrV d L) ↦{fullShare} X)
              ∗ ((bufS2).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t3_loop k0_t3_ok init (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) >>= kk) Q := by
  iintro ⟨Ht, Hx, Hb, Hk⟩
  iapply (Scf.wp_for_bind frame (wpE (defs₀ (F := F)) 𝒱₀ (thrV d L) none) Set.univ k0_t3_loop.lb k0_t3_loop.ub k0_t3_loop.st k0_t3_ok init
    (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) (inv3 d L TT X B) (step3 d L TT X B hX v1 v21 c0_i32_32 c0_i32_33)) $$ [Ht Hx Hb]
  · unfold inv3
    isplitl [Ht]; · iexact Ht
    isplitl [Hx]; · iexact Hx
    iexists B; isplitl [Hb]; · iexact Hb
    ipureintro
    intro y
    unfold stage
    rw [if_neg (by omega)]
  iintro %acc HI
  unfold inv3
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.Kernel.Hand

end
-- ==== Proof.KBody.lean ====
/-
  The kernel's body on one tile. The tile takes its own resources apart; the first three turns are fetched, staged
  through the three compute loops and sent out, and the fourth turn's fetch is started; from there the main loop runs
  by its invariant: two turns on their way out, one on its way in, every earlier piece done and every later piece
  untouched. After the last trip the last three turns are on their way out; the three final waits bring them back, all
  eighty-one pieces are done, the read shares are rejoined and the tile's buffers and semaphores are as they were.
-/
import proofs.«216121_g54726473285929_cont_9to1_m_355_3_alg».proof.Proof.KStep
import proofs.«216121_g54726473285929_cont_9to1_m_355_3_alg».proof.Proof.KLoop1
import proofs.«216121_g54726473285929_cont_9to1_m_355_3_alg».proof.Proof.KLoop2
import proofs.«216121_g54726473285929_cont_9to1_m_355_3_alg».proof.Proof.KLoop3

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

omit [FloatOps F] in
/-- A share split into three read tokens and the remainder. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f)
      ∗ (ℓ ↦[S]{Transfers.shareTokN q 1} f) ∗ (ℓ ↦[S]{Transfers.shareTokN q 2} f)) := by
  have h : (ℓ ↦[S]{q} f : sProp 𝕄) ⊣⊢ _ := Transfers.pointsTo_toks_range q 3
  rw [show Finset.range 3 = {0, 1, 2} by decide, SparseCore.bigSep_insert' (by decide), SparseCore.bigSep_insert' (by decide), bigSep_singleton] at h
  exact h

omit [FloatOps F] in
/-- A share split into six read tokens and the remainder. -/
theorem toks6 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 6} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f) ∗ (ℓ ↦[S]{Transfers.shareTokN q 5} f)) := by
  have h : (ℓ ↦[S]{q} f : sProp 𝕄) ⊣⊢ _ := Transfers.pointsTo_toks_range q 6
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton] at h
  exact h

/-- The tile's pieces, indexed by the turn as a number. -/
theorem pieces_P (d : Dev nD) (L : grid0.Coords) (fo : Buf (Elt F) (oLoc d)) :
    (bigSep Finset.univ fun t : Fin 81 => (oLoc d ↦[Cert.Proof.Deal.tset (cL L, iL L, t)]{fullShare} fo : sProp 𝕄))
      = bigSep (Finset.range 81) (Pp d L fo) := by
  rw [← fin_range]
  exact bigSep_congr fun t _ => by unfold Pp tsetN; rw [dif_pos t.isLt]
theorem pieces_D (d : Dev nD) (L : grid0.Coords) (ff : Buf (Elt F) (fLoc d)) (gf : Buf (Elt F) (gLoc d)) (ix : Buf (Elt F) (iLoc d)) :
    (bigSep Finset.univ fun t : Fin 81 => (oLoc d ↦[Cert.Proof.Deal.tset (cL L, iL L, t)]{fullShare} Cert.Proof.FlatSpec.Gflat ff gf ix : sProp 𝕄))
      = bigSep (Finset.range 81) (Dp d L ff gf ix) := by
  rw [← fin_range]
  exact bigSep_congr fun t _ => by unfold Dp tsetN Gf; rw [dif_pos t.isLt]

omit [FloatOps F] in
theorem hoffK (L : grid0.Coords) (t : Nat) (ht : t < 79) (off : Fin 1 → Nat) (h : off 0 = 51200 * (L 1).val + 25600 * (L 0).val + 819200 * t) :
    off 0 = 25600 * (wid L + 32 * t) := by rw [h]; unfold wid; omega

section Vals
variable (d : Dev nD) (L : grid0.Coords) (ff : Buf (Elt F) (fLoc d)) (ix : Buf (Elt F) (iLoc d))

omit [FloatOps F] in
/-- A row buffer on which the feature slice of turn t has landed holds the chunk's features. -/
theorem landedF_val (bufS : Memref sig .scVector .vmem S25600 .f32) (base : Buf (Elt F) (bufS.view.loc (thrV d L)))
    (off : Fin 1 → Nat) (inb : ∀ a, off a + S25600.size a ≤ S64000000.size a) (t : Nat) (ht : wid L + 32 * t < 2500)
    (ho : off 0 = 25600 * (wid L + 32 * t)) (y : S25600.Idx) :
    bufS.view.read (Elt F) (View.write (Elt F) bufS.view base (ReadAs.same.apply ((fSl off inb).view.read (Elt F) ff)) Finset.univ) y
      = ff (ix1 ⟨25600 * gOf L t + (y 0).val, cIdx_lt L t y⟩) := by
  rw [View.read_write_univ, fSl_read]
  congr 2
  apply Fin.ext
  show off 0 + (y 0).val = 25600 * gOf L t + (y 0).val
  rw [ho, gOf_eq L ht]

omit [FloatOps F] in
/-- An index buffer on which the index slice of turn t has landed holds the chunk's indices. -/
theorem landedI_val (ixS : Memref sig .scVector .vmem S400 .i32) (base : Buf (Elt F) (ixS.view.loc (thrV d L)))
    (off : Fin 1 → Nat) (inb : ∀ a, off a + S400.size a ≤ S1000000.size a) (t : Nat) (ht : wid L + 32 * t < 2500)
    (ho : off 0 = 400 * (wid L + 32 * t)) (r : S400.Idx) :
    ixS.view.read (Elt F) (View.write (Elt F) ixS.view base (ReadAs.same.apply ((iSl off inb).view.read (Elt F) ix)) Finset.univ) r
      = ix (ix1 ⟨400 * gOf L t + (r 0).val, by have hr : (r 0).val < 400 := (r 0).isLt; unfold gOf; omega⟩) := by
  rw [View.read_write_univ, iSl_read]
  congr 2
  apply Fin.ext
  show off 0 + (r 0).val = 400 * gOf L t + (r 0).val
  rw [ho, gOf_eq L ht]

end Vals

omit [FloatOps F] in
theorem hoffI (L : grid0.Coords) (t : Nat) (off : Fin 1 → Nat) (h : off 0 = 800 * (L 1).val + 400 * (L 0).val + 12800 * t) :
    off 0 = 400 * (wid L + 32 * t) := by rw [h]; unfold wid; omega

/-- The number of the tile's chunks, as the program computes it, and the three conditions of the final waits. -/
abbrev nkW (L : grid0.Coords) : BitVec 32 :=
  let v4 : BitVec 32 := Scalar.subi (Scalar.addi (Scalar.subi 2500#32 (Scalar.addi (Scalar.muli (BitVec.ofNat 32 (L 1).val) 2#32) (BitVec.ofNat 32 (L 0).val))) 32#32) 1#32
  Scalar.select (Scalar.andi (Scalar.cmpi .ne (Scalar.subi (Scalar.extui (Scalar.cmpi .sgt v4 0#32)) (Scalar.extui (Scalar.cmpi .slt v4 0#32))) 1#32)
      (Scalar.cmpi .ne (Scalar.remsi v4 32#32) 0#32))
    (Scalar.subi (Scalar.divsi v4 32#32) 1#32) (Scalar.divsi v4 32#32)

theorem fin_conds : ∀ L : grid0.Coords,
    Scalar.cmpi .ne (Scalar.extui (Scalar.cmpi .sge (Scalar.addi (Scalar.subi (nkW L) 3#32) 0#32) 0#32)) 0#32 = 1#1
    ∧ Scalar.cmpi .ne (Scalar.extui (Scalar.cmpi .sge (Scalar.addi (Scalar.subi (nkW L) 3#32) 1#32) 0#32)) 0#32 = 1#1
    ∧ Scalar.cmpi .ne (Scalar.extui (Scalar.cmpi .sge (Scalar.addi (Scalar.subi (nkW L) 3#32) 2#32) 0#32)) 0#32 = 1#1 := by decide +kernel

section Tile
variable (d : Dev nD) (L : grid0.Coords)

set_option maxHeartbeats 4000000 in
theorem tile_body (hF : (K (F := F)).Facts) (O : CellTallies nD τ sig (HIx 1)) (W : Waits sig (HIx 1)) (hO : ∀ g, O g none = 0)
    (ff : Buf (Elt F) (fLoc d)) (gf : Buf (Elt F) (gLoc d)) (ix : Buf (Elt F) (iLoc d)) (fo : Buf (Elt F) (oLoc d))
    (hix : ∀ j, (ix j).toNat < 16) (qf qg qi : PosShare TreeShare) :
    iprop(levAts (K (F := F)).L (K (F := F)).lev ∗ emp
        ∗ ((fLoc d ↦{qf} ff) ∗ (gLoc d ↦{qg} gf) ∗ (iLoc d ↦{qi} ix)
            ∗ bigSep Finset.univ fun t : Fin 81 => (oLoc d ↦[Cert.Proof.Deal.tset (cL L, iL L, t)]{fullShare} fo : sProp 𝕄))
        ∗ scopedBufs (thrV d L) ∗ scopedSems0 (thrV d L) ∗ owes (thrV d L) O W)
      ⊢ wp frame (wpE (defs₀ (F := F)) 𝒱₀ (thrV d L) none) Set.univ
          (cc0__body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0)
          fun _ => iprop(((fLoc d ↦{qf} ff) ∗ (gLoc d ↦{qg} gf) ∗ (iLoc d ↦{qi} ix)
              ∗ bigSep Finset.univ fun t : Fin 81 => (oLoc d ↦[Cert.Proof.Deal.tset (cL L, iL L, t)]{fullShare} (Cert.Proof.FlatSpec.Gflat ff gf ix) : sProp 𝕄))
            ∗ scopedBufs (thrV d L) ∗ scopedSems0 (thrV d L)
            ∗ ∃ W', ⌜∀ p ∈ W', p ∈ W ∨ p.2 = none⌝ ∗ owes (thrV d L) O W') := by
  have k0_h1 : k0_cond1 L = 1#1 := (by decide +kernel : ∀ L : grid0.Coords, k0_cond1 L = 1#1) L
  have k0_h2 : k0_cond2 L = 1#1 := (by decide +kernel : ∀ L : grid0.Coords, k0_cond2 L = 1#1) L
  have k0_h3 : k0_cond3 L = 1#1 := (by decide +kernel : ∀ L : grid0.Coords, k0_cond3 L = 1#1) L
  have hw : wid L < 32 := wid_lt L
  obtain ⟨-, hnk, hnkt⟩ := nk_cases L
  simp only [cc0__body_eq_skeleton]; unfold cc0__body_skel
  rw [(K (F := F)).scopedBufs_V hF d (cV L) (jV L), SparseCore.Cfg.scopedSems0_V (Val := Elt F) d (cV L) (jV L), ownSems0_V, ownBufs_V,
    pieces_P, init_split (Pp d L fo),
    Pp_slice d L fo 0 (by omega) (k0_off1 L 0#32) (k0_off1_inb L 0) (hoffK L 0 (by omega) _ (congrFun (k0_off1_eq L 0) 0)) (by omega),
    Pp_slice d L fo 1 (by omega) (k0_off1 L 32#32) (k0_off1_inb L 1) (hoffK L 1 (by omega) _ (congrFun (k0_off1_eq L 1) 0)) (by omega),
    Pp_slice d L fo 2 (by omega) (k0_off1 L 64#32) (k0_off1_inb L 2) (hoffK L 2 (by omega) _ (congrFun (k0_off1_eq L 2) 0)) (by omega)]
  iintro ⟨#Hlv, -, ⟨Hf, Hg, Hi, Ho0, Ho1, Ho2, Hor⟩, ⟨⟨⟨%ft, Ht⟩, ⟨%fb0, Hb0⟩, ⟨%fb1, Hb1⟩, ⟨%fb2, Hb2⟩, ⟨%fx0, Hx0⟩, ⟨%fx1, Hx1⟩, ⟨%fx2, Hx2⟩⟩, Hbufs⟩,
    ⟨⟨Hs0, Hs1, Hs2, Hs3, Hs4, Hs5, Hs6, Hs7, Hs8, Hs9⟩, Hsems⟩, HO⟩
  ihave Hmw := ((K (F := F)).mayWaits_none (thr := thrV d L) hO) $$ Hlv
  ihave Hg := (Entails.of_eq (show (gLoc d ↦{qg} gf : sProp 𝕄) = ((globV).view.loc (thrV d L) ↦{qg} gf) from rfl)) $$ Hg
  ihave Ht := (Entails.of_eq (show ((thrV d L).loc cc0_scratch0 ↦{fullShare} ft : sProp 𝕄) = ((tabS).view.loc (thrV d L) ↦{fullShare} ft) from rfl)) $$ Ht
  ihave Hb0 := (Entails.of_eq (show ((thrV d L).loc cc0_scratch1 ↦{fullShare} fb0 : sProp 𝕄) = ((bufS0).view.loc (thrV d L) ↦{fullShare} fb0) from rfl)) $$ Hb0
  ihave Hb1 := (Entails.of_eq (show ((thrV d L).loc cc0_scratch2 ↦{fullShare} fb1 : sProp 𝕄) = ((bufS1).view.loc (thrV d L) ↦{fullShare} fb1) from rfl)) $$ Hb1
  ihave Hb2 := (Entails.of_eq (show ((thrV d L).loc cc0_scratch3 ↦{fullShare} fb2 : sProp 𝕄) = ((bufS2).view.loc (thrV d L) ↦{fullShare} fb2) from rfl)) $$ Hb2
  ihave Hx0 := (Entails.of_eq (show ((thrV d L).loc cc0_scratch4 ↦{fullShare} fx0 : sProp 𝕄) = ((ixS0).view.loc (thrV d L) ↦{fullShare} fx0) from rfl)) $$ Hx0
  ihave Hx1 := (Entails.of_eq (show ((thrV d L).loc cc0_scratch5 ↦{fullShare} fx1 : sProp 𝕄) = ((ixS1).view.loc (thrV d L) ↦{fullShare} fx1) from rfl)) $$ Hx1
  ihave Hx2 := (Entails.of_eq (show ((thrV d L).loc cc0_scratch6 ↦{fullShare} fx2 : sProp 𝕄) = ((ixS2).view.loc (thrV d L) ↦{fullShare} fx2) from rfl)) $$ Hx2
  ihave Hf := (toks3 (F := F) qf).1 $$ Hf
  icases Hf with ⟨Hfd, Hf0, Hf1, Hf2⟩
  ihave Hi := (toks6 (F := F) qi).1 $$ Hi
  icases Hi with ⟨Hid, Hia, Hib, Hic, Hi3, Hi4, Hi5⟩
  ihave Hf0 := (Entails.of_eq (show (fLoc d ↦{Transfers.shareTokN qf 0} ff : sProp 𝕄) = ((featV).view.loc (thrV d L) ↦{Transfers.shareTokN qf 0} ff) from rfl)) $$ Hf0
  ihave Hf1 := (Entails.of_eq (show (fLoc d ↦{Transfers.shareTokN qf 1} ff : sProp 𝕄) = ((featV).view.loc (thrV d L) ↦{Transfers.shareTokN qf 1} ff) from rfl)) $$ Hf1
  ihave Hf2 := (Entails.of_eq (show (fLoc d ↦{Transfers.shareTokN qf 2} ff : sProp 𝕄) = ((featV).view.loc (thrV d L) ↦{Transfers.shareTokN qf 2} ff) from rfl)) $$ Hf2
  ihave Hi3 := (Entails.of_eq (show (iLoc d ↦{Transfers.shareTokN qi 3} ix : sProp 𝕄) = ((idxV).view.loc (thrV d L) ↦{Transfers.shareTokN qi 3} ix) from rfl)) $$ Hi3
  ihave Hi4 := (Entails.of_eq (show (iLoc d ↦{Transfers.shareTokN qi 4} ix : sProp 𝕄) = ((idxV).view.loc (thrV d L) ↦{Transfers.shareTokN qi 4} ix) from rfl)) $$ Hi4
  ihave Hi5 := (Entails.of_eq (show (iLoc d ↦{Transfers.shareTokN qi 5} ix : sProp 𝕄) = ((idxV).view.loc (thrV d L) ↦{Transfers.shareTokN qi 5} ix) from rfl)) $$ Hi5
  sl_exec_parts
  iapply (loop1_spec (F := F) d L _ _ _ ?hX1 _ _ _ _ _)
  rotate_left
  isplitl [Ht]; · iexact Ht
  isplitl [Hx0]; · iexact Hx0
  isplitl [Hb0]; · iexact Hb0
  iintro %acc1 %g0 ⟨%hg0, Ht, Hx0, Hb0⟩
  case hX1 =>
    intro j
    sl_unfold_run_names
    rw [View.read_write_univ]
    exact hix _
  sl_exec_parts
  iapply (loop2_spec (F := F) d L _ _ _ ?hX2 _ _ _ _ _ _ _)
  rotate_left
  isplitl [Ht]; · iexact Ht
  isplitl [Hx1]; · iexact Hx1
  isplitl [Hb1]; · iexact Hb1
  iintro %acc2 %g1 ⟨%hg1, Ht, Hx1, Hb1⟩
  case hX2 =>
    intro j
    sl_unfold_run_names
    rw [View.read_write_univ]
    exact hix _
  sl_exec_parts
  iapply (loop3_spec (F := F) d L _ _ _ ?hX3 _ _ _ _ _ _ _)
  rotate_left
  isplitl [Ht]; · iexact Ht
  isplitl [Hx2]; · iexact Hx2
  isplitl [Hb2]; · iexact Hb2
  iintro %acc3 %g2 ⟨%hg2, Ht, Hx2, Hb2⟩
  case hX3 =>
    intro j
    sl_unfold_run_names
    rw [View.read_write_univ]
    exact hix _
  sl_exec_parts
  sl_unfold_run_names
  -- facts about the first three turns
  have htr : 0 < (k0_t4_loop L).trips := by rw [trips_eq L]; omega
  have hTT : ∀ z, (tabS).view.read (Elt F) (View.write (Elt F) tabS.view ft (ReadAs.same.apply (View.read (Elt F) globV.view gf)) Finset.univ) z = gf z :=
    fun z => by rw [View.read_write_univ]; rfl
  have hc0 : IsChunk d L ff gf ix bufS0 g0 0 := isChunk_of_stage d L ff gf ix _ bufS0 ixS0 g0 _ _ 0 (by omega) hTT hg0
    (fun y => landedF_val d L ff bufS0 _ _ _ 0 (by omega) (hoffK L 0 (by omega) _ (congrFun (k0_off1_eq L 0) 0)) y)
    (fun r => landedI_val d L ix ixS0 _ _ _ 0 (by omega) (hoffI L 0 _ (congrFun (k0_off2_eq L) 0)) r)
  have hc1 : IsChunk d L ff gf ix bufS1 g1 1 := isChunk_of_stage d L ff gf ix _ bufS1 ixS1 g1 _ _ 1 (by omega) hTT hg1
    (fun y => landedF_val d L ff bufS1 _ _ _ 1 (by omega) (hoffK L 1 (by omega) _ (congrFun (k0_off3_eq L) 0)) y)
    (fun r => landedI_val d L ix ixS1 _ _ _ 1 (by omega) (hoffI L 1 _ (congrFun (k0_off4_eq L) 0)) r)
  have hc2 : IsChunk d L ff gf ix bufS2 g2 2 := isChunk_of_stage d L ff gf ix _ bufS2 ixS2 g2 _ _ 2 (by omega) hTT hg2
    (fun y => landedF_val d L ff bufS2 _ _ _ 2 (by omega) (hoffK L 2 (by omega) _ (congrFun (k0_off39_eq L) 0)) y)
    (fun r => landedI_val d L ix ixS2 _ _ _ 2 (by omega) (hoffI L 2 _ (congrFun (k0_off40_eq L) 0)) r)
  -- the flights and the lent tokens' remainders, at the turns' canonical offsets
  have e1 : k0_off1 L 32#32 = cOff L 1 := cOff_eq L (by omega) _ (hoffK L 1 (by omega) _ (congrFun (k0_off1_eq L 1) 0))
  have e2 : k0_off1 L 64#32 = cOff L 2 := cOff_eq L (by omega) _ (hoffK L 2 (by omega) _ (congrFun (k0_off1_eq L 2) 0))
  have e3 : k0_off75 L = cOff L 3 := cOff_eq L (by omega) _ (hoffK L 3 (by omega) _ (congrFun (k0_off75_eq L) 0))
  have e3i : k0_off76 L = iOff L 3 := iOff_eq L (by omega) _ (hoffI L 3 _ (congrFun (k0_off76_eq L) 0))
  ihave Hs7 := (Entails.of_eq (outFl_congr d L _ bufS1 e1 (k0_off1_inb L 1) (cOff_inb L 1) fo g1)) $$ Hs7
  ihave Hs8 := (Entails.of_eq (outFl_congr d L _ bufS2 e2 (k0_off1_inb L 2) (cOff_inb L 2) fo g2)) $$ Hs8
  ihave Hs0 := (Entails.of_eq (inFlF_congr d L _ bufS0 (Transfers.shareTokN qf 0) ff e3 (k0_off75_inb L k0_h3) (cOff_inb L 3) g0)) $$ Hs0
  ihave Hf0 := (Entails.of_eq (remF_congr d L ff (Transfers.shareTokN qf 0) e3 (k0_off75_inb L k0_h3) (cOff_inb L 3))) $$ Hf0
  ihave Hs3 := (Entails.of_eq (inFlI_congr d L _ ixS0 (Transfers.shareTokN qi 3) ix e3i (k0_off76_inb L k0_h3) (iOff_inb L 3) _)) $$ Hs3
  ihave Hi3 := (Entails.of_eq (remI_congr d L ix (Transfers.shareTokN qi 3) e3i (k0_off76_inb L k0_h3) (iOff_inb L 3))) $$ Hi3
  -- the main loop, by its invariant
  iapply (Scf.wp_for_bind frame (wpE (defs₀ (F := F)) 𝒱₀ (thrV d L) none) Set.univ (k0_t4_loop L).lb (k0_t4_loop L).ub (k0_t4_loop L).st (k0_t4_ok L) 0#32
    (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 _ _ _ _ _ _ _)
    (invM d L O W ff gf ix fo (View.write (Elt F) tabS.view ft (ReadAs.same.apply (View.read (Elt F) globV.view gf)) Finset.univ) qf qi)
    (main_step d L O W ff gf ix fo (View.write (Elt F) tabS.view ft (ReadAs.same.apply (View.read (Elt F) globV.view gf)) Finset.univ) qf qi hix hTT _ _ _ _ _ _ _)) $$ [HO Ht Ho0 Hor Hs7 Hb1 Hs8 Hb2 Hs0 Hf0 Hs3 Hi3 Hf1 Hf2 Hi4 Hi5 Hx1 Hx2 Hs1 Hs2 Hs4 Hs5 Hs6]
  · unfold invM
    rw [if_pos htr]
    unfold invA
    iexists g1, g2, g0, _, _, _, _
    isplitr
    rotate_left
    · isplitr; · iexact Hmw
      isplitl [HO]; · iexact HO
      isplitl [Ht]; · iexact Ht
      isplitl [Ho0 Hor]
      · iapply (Entails.of_eq (init_join (Pp d L fo) (Dp d L ff gf ix)))
        isplitl [Ho0]
        · iapply (Entails.of_eq (Dp_agree d L ff gf ix 0 (by omega) (k0_off1 L 0#32) (k0_off1_inb L 0)
            (hoffK L 0 (by omega) _ (congrFun (k0_off1_eq L 0) 0)) (by omega) _ (fun y => (writes_whole_emb d _ _ _ _ y).trans (hc0 y))))
          iexact Ho0
        · iexact Hor
      isplitl [Hs7]; · iexact Hs7
      isplitl [Hb1]; · iexact Hb1
      isplitl [Hs8]; · iexact Hs8
      isplitl [Hb2]; · iexact Hb2
      isplitl [Hs0]; · iexact Hs0
      isplitl [Hf0]; · iexact Hf0
      isplitl [Hs3]; · iexact Hs3
      isplitl [Hi3]; · iexact Hi3
      isplitl [Hf1]; · iexact Hf1
      isplitl [Hf2]; · iexact Hf2
      isplitl [Hi4]; · iexact Hi4
      isplitl [Hi5]; · iexact Hi5
      isplitl [Hx1]; · iexact Hx1
      isplitl [Hx2]; · iexact Hx2
      isplitl [Hs1]; · iexact Hs1
      isplitl [Hs2]; · iexact Hs2
      isplitl [Hs4]; · iexact Hs4
      isplitl [Hs5]; · iexact Hs5
      iexact Hs6
    · ipureintro
      refine ⟨?_, hc1, hc2⟩
      intro p hp
      simp only [Finset.mem_insert] at hp
      rcases hp with rfl | rfl | rfl | rfl | rfl | rfl | rfl | rfl | hp
      all_goals first | exact Or.inl hp | exact Or.inr rfl
  iintro %accM HI
  ihave HI := (Entails.of_eq ((show invM d L O W ff gf ix fo (View.write (Elt F) tabS.view ft (ReadAs.same.apply (View.read (Elt F) globV.view gf)) Finset.univ) qf qi (Scf.trips (k0_t4_loop L).lb (k0_t4_loop L).ub (k0_t4_loop L).st) accM
      = invB d L O W ff gf ix fo (View.write (Elt F) tabS.view ft (ReadAs.same.apply (View.read (Elt F) globV.view gf)) Finset.univ) qf qi from by unfold invM; exact if_neg (Nat.lt_irrefl _)).trans
    (invB.eq_1 d L O W ff gf ix fo (View.write (Elt F) tabS.view ft (ReadAs.same.apply (View.read (Elt F) globV.view gf)) Finset.univ) qf qi))) $$ HI
  icases HI with ⟨%t0, %t1, %t2, %h0, %h1, %h2, %y0, %y1, %y2, %W', %hP, -, HO, Ht, Hdone, Hfl6, Hb0o, Hfl7, Hb1o, Hfl8, Hb2o, Hf0, Hf1, Hf2, Hi3, Hi4, Hi5, Hx0, Hx1, Hx2, Hs0, Hs1, Hs2, Hs3, Hs4, Hs5⟩
  obtain ⟨hW', ht0, ht1, ht2, h01, h02, h12, hk0, hk1, hk2⟩ := hP
  -- the second loop makes no trip
  iapply (Scf.wp_for_bind frame (wpE (defs₀ (F := F)) 𝒱₀ (thrV d L) none) Set.univ (k0_t8_loop L).lb (k0_t8_loop L).ub (k0_t8_loop L).st (k0_t8_ok L) accM
    (k0_t8_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 _ _ _ _ _ _ _) (fun _ _ => iprop(emp))
    (fun k => absurd k.isLt (Nat.not_lt.2 (Nat.le_trans (k0_t8_abs L).2.1 (Nat.zero_le _))))) $$ []
  · iempintro
  iintro %acc8 -
  dsimp only
  rw [dif_pos (fin_conds L).1, dif_pos (fin_conds L).2.1, dif_pos (fin_conds L).2.2]
  sl_exec
  rw [wp_ret]; imodintro
  -- the three returned pieces are done
  have hl0 : wid L + 32 * t0 < 2500 := (hnkt t0).1 ht0
  have hl1 : wid L + 32 * t1 < 2500 := (hnkt t1).1 ht1
  have hl2 : wid L + 32 * t2 < 2500 := (hnkt t2).1 ht2
  have hT0 : t0 < 81 := by omega
  have hT1 : t1 < 81 := by omega
  have hT2 : t2 < 81 := by omega
  ihave Hd0 := (Entails.of_eq (Dp_agree d L ff gf ix t0 hT0 (cOff L t0) (cOff_inb L t0)
    (show cOff L t0 0 = 25600 * (wid L + 32 * t0) from by show 25600 * gOf L t0 = _; rw [gOf_eq L hl0]) hl0 _
    (fun y => (writes_whole_emb d _ _ _ _ y).trans (hk0 y)))) $$ Hfl6_dst
  ihave Hd1 := (Entails.of_eq (Dp_agree d L ff gf ix t1 hT1 (cOff L t1) (cOff_inb L t1)
    (show cOff L t1 0 = 25600 * (wid L + 32 * t1) from by show 25600 * gOf L t1 = _; rw [gOf_eq L hl1]) hl1 _
    (fun y => (writes_whole_emb d _ _ _ _ y).trans (hk1 y)))) $$ Hfl7_dst
  ihave Hd2 := (Entails.of_eq (Dp_agree d L ff gf ix t2 hT2 (cOff L t2) (cOff_inb L t2)
    (show cOff L t2 0 = 25600 * (wid L + 32 * t2) from by show 25600 * gOf L t2 = _; rw [gOf_eq L hl2]) hl2 _
    (fun y => (writes_whole_emb d _ _ _ _ y).trans (hk2 y)))) $$ Hfl8_dst
  isplitl [Hfd Hf0 Hf1 Hf2 Hg Hid Hia Hib Hic Hi3 Hi4 Hi5 Hd0 Hd1 Hd2 Hdone]
  · isplitl [Hfd Hf0 Hf1 Hf2]
    · iapply (toks3 (F := F) qf).2
      isplitl [Hfd]; · iexact Hfd
      isplitl [Hf0]; · iexact Hf0
      isplitl [Hf1]; · iexact Hf1
      iexact Hf2
    isplitl [Hg]; · iexact Hg
    isplitl [Hid Hia Hib Hic Hi3 Hi4 Hi5]
    · iapply (toks6 (F := F) qi).2
      isplitl [Hid]; · iexact Hid
      isplitl [Hia]; · iexact Hia
      isplitl [Hib]; · iexact Hib
      isplitl [Hic]; · iexact Hic
      isplitl [Hi3]; · iexact Hi3
      isplitl [Hi4]; · iexact Hi4
      iexact Hi5
    · rw [pieces_D]
      iapply (Entails.of_eq (all_done (Dp d L ff gf ix) t0 t1 t2 hT0 hT1 hT2 h01 h02 h12))
      isplitl [Hd0]; · iexact Hd0
      isplitl [Hd1]; · iexact Hd1
      isplitl [Hd2]; · iexact Hd2
      iexact Hdone
  isplitl [Ht Hfl6_src Hb0o Hfl7_src Hb1o Hfl8_src Hb2o Hx0 Hx1 Hx2 Hbufs]
  · isplitr [Hbufs]
    · isplitl [Ht]; · iexists _; iexact Ht
      isplitl [Hfl6_src Hb0o]
      · iexists h0
        iapply (pointsTo_split_subset (Finset.subset_univ (bufS0).view.set)).2
        isplitl [Hfl6_src]; · iexact Hfl6_src
        iexact Hb0o
      isplitl [Hfl7_src Hb1o]
      · iexists h1
        iapply (pointsTo_split_subset (Finset.subset_univ (bufS1).view.set)).2
        isplitl [Hfl7_src]; · iexact Hfl7_src
        iexact Hb1o
      isplitl [Hfl8_src Hb2o]
      · iexists h2
        iapply (pointsTo_split_subset (Finset.subset_univ (bufS2).view.set)).2
        isplitl [Hfl8_src]; · iexact Hfl8_src
        iexact Hb2o
      isplitl [Hx0]; · iexists _; iexact Hx0
      isplitl [Hx1]; · iexists _; iexact Hx1
      iexists _; iexact Hx2
    · iexact Hbufs
  isplitl [Hs0 Hs1 Hs2 Hs3 Hs4 Hs5 Hfl6 Hfl7 Hfl8 Hs9 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hfl6]; · iexact Hfl6
      isplitl [Hfl7]; · iexact Hfl7
      isplitl [Hfl8]; · iexact Hfl8
      iexact Hs9
    · iexact Hsems
  iexists _
  isplitr
  rotate_left
  · iexact HO
  · ipureintro
    intro p hp
    simp only [Finset.mem_insert] at hp
    rcases hp with rfl | rfl | rfl | hp
    exacts [Or.inr rfl, Or.inr rfl, Or.inr rfl, hW' p hp]

end Tile

end Cert.Kernel.Hand

end
-- ==== Proof.KLaunch.lean ====
/-
  The launch of the kernel program. @main reshapes the feature array and the table flat, calls the kernel on the two
  SparseCores' thirty-two tiles, and reshapes the flat result back to rows. At the call the four flat arrays are dealt
  out: worker 2 * i + c (core c, tile i) takes one of thirty-two read shares of each input and, of the flat result, the
  chunks 2 * i + c + 32 * t; each tile's body leaves its chunks at the specification's flat values; the pieces are taken
  back whole and the last reshape gives the specification of the three arguments, which end unchanged.
-/
import proofs.«216121_g54726473285929_cont_9to1_m_355_3_alg».proof.Proof.KBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The arrays at the call -/

/-- The two-dimensional feature array, the table and the two-dimensional result, as locations of device `d`. -/
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The flat feature array and the flat table as the two reshapes before the call leave them. -/
def ffl (d : Dev nD) : Buf (Elt F) (fLoc d) := shapeCast S64000000 (m (aLoc d)) Facts₀.shapeCasts_S1000000x64_S64000000
def gfl (d : Dev nD) : Buf (Elt F) (gLoc d) := shapeCast S1024 (m (bLoc d)) Facts₀.shapeCasts_S16x64_S1024
/-- The flat result the tiles leave: the specification on flat arrays. -/
def resl (d : Dev nD) : Buf (Elt F) (oLoc d) := Cert.Proof.FlatSpec.Gflat (ffl m d) (gfl m d) (m (iLoc d))

/-! ## What the handshakes carry -/

/-- Worker (core `c`, tile `i`)'s read share of an input. -/
abbrev tok (c : Fin 2) (i : Fin 16) : PosShare TreeShare := Transfers.shareTok fullShare 32 ⟨2 * i.val + c.val, by omega⟩

/-- What worker (core `c`, tile `i`) holds: a read share of each input and its chunks of the flat result at `fo`. -/
def hold (d : Dev nD) (fo : Buf (Elt F) (oLoc d)) (c : Fin 2) (i : Fin 16) : sProp 𝕄 :=
  iprop((fLoc d ↦{tok c i} ffl m d) ∗ (gLoc d ↦{tok c i} gfl m d) ∗ (iLoc d ↦{tok c i} m (iLoc d))
    ∗ bigSep Finset.univ fun t : Fin 81 => (oLoc d ↦[Cert.Proof.Deal.tset (c, i, t)]{fullShare} fo : sProp 𝕄))

/-- A SparseCore's sixteen tiles' holdings. -/
@[irreducible] def holds (d : Dev nD) (fo : Buf (Elt F) (oLoc d)) (c : Fin 2) : sProp 𝕄 :=
  bigSep Finset.univ fun i : Fin 16 => hold m d fo c i

/-- The call takes, per SparseCore, its sixteen tiles' holdings with the result's chunks at the launch contents, and
    brings them back with the chunks at the specification's flat values. -/
def P : (K (F := F)).Pay (nD := nD) (Val := Elt F) (Name := ℕ) (U := UU) where
  st := fun q d c => match q with
    | 0 => holds m d (m (oLoc d)) (Fin.cast nCore_zero c)
  dn := fun q d c => match q with
    | 0 => holds m d (resl m d) (Fin.cast nCore_zero c)
  go := fun q d c i => match q with
    | 0 => hold m d (m (oLoc d)) (Fin.cast nCore_zero c) (Fin.cast nSub_zero i)
  td := fun q d c i => match q with
    | 0 => hold m d (resl m d) (Fin.cast nCore_zero c) (Fin.cast nSub_zero i)
  x := fun _ _ => iprop(emp)

theorem P_st (d : Dev nD) (c : Fin ((K (F := F)).nCore 0)) :
    (P m).st 0 d c = holds m d (m (oLoc d)) (Fin.cast nCore_zero c) := rfl
theorem P_dn (d : Dev nD) (c : Fin ((K (F := F)).nCore 0)) :
    (P m).dn 0 d c = holds m d (resl m d) (Fin.cast nCore_zero c) := rfl
theorem P_go (d : Dev nD) (c : Fin ((K (F := F)).nCore 0)) (i : Fin ((K (F := F)).nSub 0)) :
    (P m).go 0 d c i = hold m d (m (oLoc d)) (Fin.cast nCore_zero c) (Fin.cast nSub_zero i) := rfl
theorem P_td (d : Dev nD) (c : Fin ((K (F := F)).nCore 0)) (i : Fin ((K (F := F)).nSub 0)) :
    (P m).td 0 d c i = hold m d (resl m d) (Fin.cast nCore_zero c) (Fin.cast nSub_zero i) := rfl
theorem P_x (q : Fin 1) (thr : Thread nD τ) : (P m).x q thr = iprop(emp) := rfl

instance hold_storable (d : Dev nD) (fo : Buf (Elt F) (oLoc d)) (c : Fin 2) (i : Fin 16) :
    BI.Storable (upEmb : UEmb _ 𝕄) (hold m d fo c i) := by
  unfold hold; infer_instance

instance holds_storable (d : Dev nD) (fo : Buf (Elt F) (oLoc d)) (c : Fin 2) :
    BI.Storable (upEmb : UEmb _ 𝕄) (holds m d fo c) := by
  unfold holds; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          featV (Memref.isWhole_whole _) globV (Memref.isWhole_whole _) idxV (Memref.isWhole_whole _) outV (Memref.isWhole_whole _)
          tabS (Memref.isWhole_whole _) bufS0 (Memref.isWhole_whole _) bufS1 (Memref.isWhole_whole _) bufS2 (Memref.isWhole_whole _)
          ixS0 (Memref.isWhole_whole _) ixS1 (Memref.isWhole_whole _) ixS2 (Memref.isWhole_whole _)
          cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : ∀ d j, (m (iLoc d) j).toNat < 16) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold hold
  exact (tile_body d (coordsV ⟨_, hc.1⟩ ⟨_, hc.2⟩) hF O W hO (ffl m d) (gfl m d) (m (iLoc d)) (m (oLoc d)) (hix d) _ _ _).trans
    (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem Px_all : (bigSep Finset.univ fun thr : Thread nD τ => bigSep Finset.univ fun q : Fin 1 => (P m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [Px_all]
  iintro Hu
  ihave H := (ownU_pair _ _) $$ Hu
  icases H with ⟨HH, -⟩
  imodintro
  isplitl [HH]; · iexact HH
  isplitr; · rw [bigSep_emp']; iempintro
  iempintro

/-! ## Dealing the arrays to the thirty-two workers and back -/

/-- The three inputs' remainders after the thirty-two read shares. -/
def rest (d : Dev nD) : sProp 𝕄 :=
  iprop((fLoc d ↦{Transfers.shareDrop fullShare 32} ffl m d) ∗ (gLoc d ↦{Transfers.shareDrop fullShare 32} gfl m d)
    ∗ (iLoc d ↦{Transfers.shareDrop fullShare 32} m (iLoc d)))

/-- The two SparseCores' holdings, array by array. -/
theorem holds_split (d : Dev nD) (fo : Buf (Elt F) (oLoc d)) :
    (bigSep Finset.univ fun c : Fin 2 => holds m d fo c)
      = (iprop((bigSep Finset.univ fun c : Fin 2 => bigSep Finset.univ fun i : Fin 16 => fLoc d ↦{tok c i} ffl m d)
          ∗ (bigSep Finset.univ fun c : Fin 2 => bigSep Finset.univ fun i : Fin 16 => gLoc d ↦{tok c i} gfl m d)
          ∗ (bigSep Finset.univ fun c : Fin 2 => bigSep Finset.univ fun i : Fin 16 => iLoc d ↦{tok c i} m (iLoc d))
          ∗ (bigSep Finset.univ fun c : Fin 2 => bigSep Finset.univ fun i : Fin 16 => bigSep Finset.univ fun t : Fin 81 =>
              oLoc d ↦[Cert.Proof.Deal.tset (c, i, t)]{fullShare} fo)) : sProp 𝕄) := by
  unfold holds hold
  simp only [bigSep_sep']

omit [FloatOps F] in
theorem regroup (Fd FT Gd GT Id IT OT : sProp 𝕄) :
    (iprop((Fd ∗ FT) ∗ (Gd ∗ GT) ∗ (Id ∗ IT) ∗ OT) : sProp 𝕄) = iprop((Fd ∗ Gd ∗ Id) ∗ (FT ∗ GT ∗ IT ∗ OT)) := by
  have h1 : (iprop((Fd ∗ FT) ∗ (Gd ∗ GT) ∗ (Id ∗ IT) ∗ OT) : sProp 𝕄) ⊢ iprop((Fd ∗ Gd ∗ Id) ∗ (FT ∗ GT ∗ IT ∗ OT)) := by
    iintro ⟨⟨H1, H2⟩, ⟨H3, H4⟩, ⟨H5, H6⟩, H7⟩
    isplitl [H1 H3 H5]
    · isplitl [H1]; · iexact H1
      isplitl [H3]; · iexact H3
      iexact H5
    · isplitl [H2]; · iexact H2
      isplitl [H4]; · iexact H4
      isplitl [H6]; · iexact H6
      iexact H7
  have h2 : (iprop((Fd ∗ Gd ∗ Id) ∗ (FT ∗ GT ∗ IT ∗ OT)) : sProp 𝕄) ⊢ iprop((Fd ∗ FT) ∗ (Gd ∗ GT) ∗ (Id ∗ IT) ∗ OT) := by
    iintro ⟨⟨H1, H3, H5⟩, H2, H4, H6, H7⟩
    isplitl [H1 H2]
    · isplitl [H1]; · iexact H1
      iexact H2
    isplitl [H3 H4]
    · isplitl [H3]; · iexact H3
      iexact H4
    isplitl [H5 H6]
    · isplitl [H5]; · iexact H5
      iexact H6
    iexact H7
  exact BI.equiv_iff.mp ⟨h1, h2⟩

/-- The four flat arrays whole are the inputs' remainders and the two SparseCores' holdings. -/
theorem deal (d : Dev nD) (fo : Buf (Elt F) (oLoc d)) :
    (iprop((fLoc d ↦{fullShare} ffl m d) ∗ (gLoc d ↦{fullShare} gfl m d) ∗ (iLoc d ↦{fullShare} m (iLoc d)) ∗ (oLoc d ↦{fullShare} fo)) : sProp 𝕄)
      = iprop(rest m d ∗ bigSep Finset.univ fun c : Fin 2 => holds m d fo c) := by
  have hf := Cert.Proof.Deal.deal_toks (Ix := HIx 1) (Name := ℕ) (U := UU) (Lvl := ℕ) (ℓ := fLoc d) (f := ffl m d) Finset.univ fullShare
  have hg := Cert.Proof.Deal.deal_toks (Ix := HIx 1) (Name := ℕ) (U := UU) (Lvl := ℕ) (ℓ := gLoc d) (f := gfl m d) Finset.univ fullShare
  have hi := Cert.Proof.Deal.deal_toks (Ix := HIx 1) (Name := ℕ) (U := UU) (Lvl := ℕ) (ℓ := iLoc d) (f := m (iLoc d)) Finset.univ fullShare
  rw [holds_split, BI.equiv_iff.mp ⟨hf.1, hf.2⟩, BI.equiv_iff.mp ⟨hg.1, hg.2⟩, BI.equiv_iff.mp ⟨hi.1, hi.2⟩,
    Cert.Proof.Deal.deal_out (ℓ := oLoc d) (f := fo) (q := fullShare) Cert.Proof.Deal.tset Cert.Proof.Deal.tset_disjoint Cert.Proof.Deal.tset_cover]
  unfold rest
  exact regroup _ _ _ _ _ _ _

theorem st0_eq (d : Dev nD) :
    (bigSep Finset.univ fun c : Fin ((K (F := F)).nCore 0) => (P m).st 0 d c) = bigSep Finset.univ fun c : Fin 2 => holds m d (m (oLoc d)) c :=
  bigSep_congr fun c _ => (P_st m d c).trans (congrArg (holds m d (m (oLoc d))) (Fin.ext rfl))
theorem dn0_eq (d : Dev nD) :
    (bigSep Finset.univ fun c : Fin ((K (F := F)).nCore 0) => (P m).dn 0 d c) = bigSep Finset.univ fun c : Fin 2 => holds m d (resl m d) c :=
  bigSep_congr fun c _ => (P_dn m d c).trans (congrArg (holds m d (resl m d)) (Fin.ext rfl))

theorem go0_eq (d : Dev nD) (c : Fin ((K (F := F)).nCore 0)) :
    (bigSep Finset.univ fun i : Fin ((K (F := F)).nSub 0) => (P m).go 0 d c i) = holds m d (m (oLoc d)) (Fin.cast nCore_zero c) := by
  unfold holds
  exact bigSep_congr fun i _ => (P_go m d c i).trans (congrArg (hold m d (m (oLoc d)) (Fin.cast nCore_zero c)) (Fin.ext rfl))
theorem td0_eq (d : Dev nD) (c : Fin ((K (F := F)).nCore 0)) :
    (bigSep Finset.univ fun i : Fin ((K (F := F)).nSub 0) => (P m).td 0 d c i) = holds m d (resl m d) (Fin.cast nCore_zero c) := by
  unfold holds
  exact bigSep_congr fun i _ => (P_td m d c i).trans (congrArg (hold m d (resl m d) (Fin.cast nCore_zero c)) (Fin.ext rfl))

/-- A SparseCore's operands are its tiles' holdings as they stand, and so are its results. -/
theorem vecSplit : (K (F := F)).VecSplit' (P m) 0 := by
  intro d c
  rw [P_st, P_dn, go0_eq, td0_eq]
  iintro H; imodintro
  isplitl [H]; · iexact H
  iintro H; iexact H

/-! ## @main on the TensorCore -/

abbrev a' : DevRef τ sig := Proc.devRef .tc (main_arg0 : Ref sig .tc)
abbrev b' : DevRef τ sig := Proc.devRef .tc (main_arg1 : Ref sig .tc)
abbrev f' : DevRef τ sig := Proc.devRef .tc (main_v0 : Ref sig .tc)
abbrev g' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three host reshapes of @main. -/
abbrev op1 : HloOp τ sig (Elt F) := StableHlo.reshape main_arg0 main_v0 rfl Facts₀.shapeCasts_S1000000x64_S64000000
abbrev op2 : HloOp τ sig (Elt F) := StableHlo.reshape main_arg1 main_v1 rfl Facts₀.shapeCasts_S16x64_S1024
abbrev op3 : HloOp τ sig (Elt F) := StableHlo.reshape main_v2 main_v3 rfl Facts₀.shapeCasts_S64000000_S1000000x64

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_arg2)
      ∗ (fLoc d ↦{fullShare} W main_v0) ∗ (gLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one before the last reshape: the flat result at the specification's values. -/
def V0 (d : Dev nD) : Valuation τ sig (Elt F) := fun b => m (d, b)
def V3 (d : Dev nD) : Valuation τ sig (Elt F) := Function.update (V0 m d) o' (resl m d)

theorem V3_o (d : Dev nD) : V3 m d o' = resl m d := Function.update_self _ _ _
theorem V3_r (d : Dev nD) : V3 m d r' = m (rLoc d) := Function.update_of_ne (show r' ≠ o' by decide) _ _

omit [FloatOps F] in
theorem held1 (d : Dev nD) (W : Valuation τ sig (Elt F)) :
    (held (T d) (op1 (F := F)).bufs W : sProp 𝕄) = iprop((aLoc d ↦{fullShare} W a') ∗ (fLoc d ↦{fullShare} W f')) := by
  unfold held
  rw [show (op1 (F := F)).bufs = {a', f'} from rfl, SparseCore.bigSep_insert' (by decide), bigSep_singleton]
omit [FloatOps F] in
theorem held2 (d : Dev nD) (W : Valuation τ sig (Elt F)) :
    (held (T d) (op2 (F := F)).bufs W : sProp 𝕄) = iprop((bLoc d ↦{fullShare} W b') ∗ (gLoc d ↦{fullShare} W g')) := by
  unfold held
  rw [show (op2 (F := F)).bufs = {b', g'} from rfl, SparseCore.bigSep_insert' (by decide), bigSep_singleton]
omit [FloatOps F] in
theorem held3 (d : Dev nD) (W : Valuation τ sig (Elt F)) :
    (held (T d) (op3 (F := F)).bufs W : sProp 𝕄) = iprop((oLoc d ↦{fullShare} W o') ∗ (rLoc d ↦{fullShare} W r')) := by
  unfold held
  rw [show (op3 (F := F)).bufs = {o', r'} from rfl, SparseCore.bigSep_insert' (by decide), bigSep_singleton]

omit [FloatOps F] in
theorem res1_a (W : Valuation τ sig (Elt F)) : (op1 (F := F)).result W a' = W a' :=
  (op1 (F := F)).result_of_not_mem W (show a' ∉ ({f'} : Finset (DevRef τ sig)) by decide)
omit [FloatOps F] in
theorem res2_b (W : Valuation τ sig (Elt F)) : (op2 (F := F)).result W b' = W b' :=
  (op2 (F := F)).result_of_not_mem W (show b' ∉ ({g'} : Finset (DevRef τ sig)) by decide)
omit [FloatOps F] in
theorem res3_o (W : Valuation τ sig (Elt F)) : (op3 (F := F)).result W o' = W o' :=
  (op3 (F := F)).result_of_not_mem W (show o' ∉ ({r'} : Finset (DevRef τ sig)) by decide)

theorem res1_f (d : Dev nD) : (op1 (F := F)).result (V0 m d) f' = ffl m d :=
  (StableHlo.reshape_result main_arg0 main_v0 rfl _ _ _ (V0 m d)).trans rfl
theorem res2_g (d : Dev nD) : (op2 (F := F)).result (V0 m d) g' = gfl m d :=
  (StableHlo.reshape_result main_arg1 main_v1 rfl _ _ _ (V0 m d)).trans rfl

/-- The two-dimensional result: the flat result reshaped back. -/
def out2 (d : Dev nD) : Buf (Elt F) (rLoc d) := shapeCast S1000000x64 (resl m d) Facts₀.shapeCasts_S64000000_S1000000x64

theorem res3_r (d : Dev nD) : (op3 (F := F)).result (V3 m d) r' = out2 m d := by
  rw [show (op3 (F := F)).result (V3 m d) r' = _ from StableHlo.reshape_result main_v2 main_v3 rfl _ _ _ (V3 m d)]
  unfold out2
  rw [← V3_o m d]
  rfl

/-- What each reshape leaves in its two buffers. -/
theorem held1_res (d : Dev nD) :
    (held (T d) (op1 (F := F)).bufs ((op1 (F := F)).result (V0 m d)) : sProp 𝕄) = iprop((aLoc d ↦{fullShare} m (aLoc d)) ∗ (fLoc d ↦{fullShare} ffl m d)) := by
  rw [held1, res1_a, res1_f]; rfl
theorem held2_res (d : Dev nD) :
    (held (T d) (op2 (F := F)).bufs ((op2 (F := F)).result (V0 m d)) : sProp 𝕄) = iprop((bLoc d ↦{fullShare} m (bLoc d)) ∗ (gLoc d ↦{fullShare} gfl m d)) := by
  rw [held2, res2_b, res2_g]; rfl
theorem held3_pre (d : Dev nD) :
    (held (T d) (op3 (F := F)).bufs (V3 m d) : sProp 𝕄) = iprop((oLoc d ↦{fullShare} resl m d) ∗ (rLoc d ↦{fullShare} m (rLoc d))) := by
  rw [held3, V3_o, V3_r]
theorem held3_res (d : Dev nD) :
    (held (T d) (op3 (F := F)).bufs ((op3 (F := F)).result (V3 m d)) : sProp 𝕄) = iprop((oLoc d ↦{fullShare} resl m d) ∗ (rLoc d ↦{fullShare} out2 m d)) := by
  rw [held3, res3_o, V3_o, res3_r]

/-- What @main leaves the claim: the three arguments at their launch contents and the result reshaped from the
    specification's flat values. -/
abbrev FIN (d : Dev nD) : sProp 𝕄 :=
  iprop((aLoc d ↦{fullShare} m (aLoc d)) ∗ (bLoc d ↦{fullShare} m (bLoc d)) ∗ (iLoc d ↦{fullShare} m (iLoc d)) ∗ (rLoc d ↦{fullShare} out2 m d))

/-- @main on device `d`'s TensorCore: the two reshapes, the call (the four flat arrays dealt to the thirty-two workers and
    taken back), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hbb, Hi, Hf, Hg, Ho, Hr⟩, -, -⟩, -⟩
  -- the first reshape: the feature array flat
  iapply (wp_hlo_within 𝒱 (SparseCore.T d) none Set.univ (op := op1) (S := (op1 (F := F)).bufs) (Finset.Subset.refl _) (V := V0 m d)) $$ [Hb Ha Hf]
  · isplitl [Hb]; · iexact Hb
    rw [held1]
    isplitl [Ha]; · iexact Ha
    iexact Hf
  iintro ⟨Hb, Hh⟩
  ihave Hh' := (Entails.of_eq (held1_res m d)) $$ Hh
  icases Hh' with ⟨Ha, Hf⟩
  rw [wp_ret]; imodintro
  -- the second reshape: the table flat
  iapply (wp_hlo_within 𝒱 (SparseCore.T d) none Set.univ (op := op2) (S := (op2 (F := F)).bufs) (Finset.Subset.refl _) (V := V0 m d)) $$ [Hb Hbb Hg]
  · isplitl [Hb]; · iexact Hb
    rw [held2]
    isplitl [Hbb]; · iexact Hbb
    iexact Hg
  iintro ⟨Hb, Hh⟩
  ihave Hh' := (Entails.of_eq (held2_res m d)) $$ Hh
  icases Hh' with ⟨Hbb, Hg⟩
  rw [wp_ret]; imodintro
  -- the four flat arrays dealt out
  ihave Hd := (Entails.of_eq (deal m d (m (oLoc d)))) $$ [Hf Hg Hi Ho]
  · isplitl [Hf]; · iexact Hf
    isplitl [Hg]; · iexact Hg
    isplitl [Hi]; · iexact Hi
    iexact Ho
  icases Hd with ⟨Hrest, Hholds⟩
  -- the call
  iapply ((K (F := F)).wp_run (D (F := F)) 𝒱 (EH := EH) (P := P m) κ d 0) $$ [Hst Hholds Hrest Hb Ha Hbb Hr]
  isplitr; · iexact Hctx
  isplitl [Hst]; · iexact Hst
  isplitl [Hholds]
  · rw [st0_eq]; iexact Hholds
  iintro ⟨Hst, Hdn⟩
  -- and taken back, the flat result at the specification's values
  ihave Hd := (Entails.of_eq (deal m d (resl m d)).symm) $$ [Hrest Hdn]
  · isplitl [Hrest]; · iexact Hrest
    rw [← dn0_eq]; iexact Hdn
  icases Hd with ⟨Hf, Hg, Hi, Ho⟩
  -- the last reshape: the result in rows
  iapply (wp_hlo_within 𝒱 (SparseCore.T d) none Set.univ (op := op3) (S := (op3 (F := F)).bufs) (Finset.Subset.refl _) (V := V3 m d)) $$ [Hb Ho Hr]
  · isplitl [Hb]; · iexact Hb
    rw [held3_pre]
    isplitl [Ho]; · iexact Ho
    iexact Hr
  iintro ⟨Hb, Hh⟩
  ihave Hh' := (Entails.of_eq (held3_res m d)) $$ Hh
  icases Hh' with ⟨Ho, Hr⟩
  rw [wp_ret]; imodintro; imodintro
  isplitl [Hst]; · iexact Hst
  isplitl [Ha]; · iexact Ha
  isplitl [Hbb]; · iexact Hbb
  isplitl [Hi]; · iexact Hi
  iexact Hr

/-! ## The final memory and the claim -/

def fq (d : Dev nD) (s' : Phys nD τ sig (Elt F)) : Prop :=
  s'.mem.mem (rLoc d) = out2 m d ∧ s'.mem.mem (aLoc d) = m (aLoc d) ∧ s'.mem.mem (bLoc d) = m (bLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hb, Hi, Hr⟩, HSI⟩
  icombine HSI Ha gives %h1
  icombine HSI Hb gives %h2
  icombine HSI Hi gives %h3
  icombine HSI Hr gives %h4
  ipureintro
  exact ⟨funext fun i => h4 i (Finset.mem_univ i), funext fun i => h1 i (Finset.mem_univ i),
    funext fun i => h2 i (Finset.mem_univ i), funext fun i => h3 i (Finset.mem_univ i)⟩

/-- The result in rows is the specification of the three arguments. -/
theorem out2_eq (d : Dev nD) : out2 m d = Cert.Spec.G (m (aLoc d)) (m (bLoc d)) (m (iLoc d)) := by
  unfold out2 resl ffl gfl
  exact Cert.Proof.FlatSpec.unflatten (m (aLoc d)) (m (bLoc d)) (m (iLoc d)) _ _ _

/-- The program's run: on every device the result is the specification of the arguments, which end unchanged. -/
theorem run_main [∀ e, Nonempty (Elt F e)] (hix : ∀ c : Dev nD, Cert.Spec.IdxOK (m ((c.tc : Thread nD τ).loc main_arg2))) :
    θ_run (Cert.Kernel.defs (F := F)) (Cert.Kernel.threads (F := F)) ⟨m, fun _ => 0, ρ⟩ (fun r => ∀ c : Dev nD,
      r.2.mem ((c.tc : Thread nD τ).loc main_v3)
          = Cert.Spec.G (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  SparseCore.Cfg.θ_run_sc (K := K (F := F)) (D := D (F := F)) (𝒱 := 𝒱) (EH := EH) (P := P m) facts v₀
    (fun q hq => match q with | 0 => nomatch hq)
    (fun q _ => match q with | 0 => tileObl m facts fun d j => hix d j)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (out2_eq m c), (h c).2.1, (h c).2.2.1, (h c).2.2.2⟩)

end Cert.Kernel.Hand

end
-- ==== Proof.KICommon.lean ====
/-
  The vocabulary shared by the kernel's proof modules: the program as the launch theorem reads it, the resource
  algebra (the handshakes' rounds beside the transfers' counters), a tile's thread, the four arrays in device
  memory as the tiles address them, a tile's seven scratch buffers and ten DMA semaphores, and how a tile's own
  buffers and semaphores are singled out of what it owns.
-/
import proofs.«216121_g54726473285929_cont_9to1_m_355_3_alg».proof.KernelIdeal
import proofs.«216121_g54726473285929_cont_9to1_m_355_3_alg».proof.Proof.Gen.KernelIdeal
import proofs.«216121_g54726473285929_cont_9to1_m_355_3_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## Locations and memrefs -/

/-- The flat feature array, the flat table, the batch indices and the flat result, as locations of device `d`. -/
abbrev fLoc (d : Dev nD) : Loc nD τ sig := (SparseCore.T d).loc main_v0
abbrev gLoc (d : Dev nD) : Loc nD τ sig := (SparseCore.T d).loc main_v1
abbrev iLoc (d : Dev nD) : Loc nD τ sig := (SparseCore.T d).loc main_arg2
abbrev oLoc (d : Dev nD) : Loc nD τ sig := (SparseCore.T d).loc main_v2

abbrev featV : Memref sig .scVector .hbm S64000000 .f32 := Memref.whole main_v0_scv
abbrev globV : Memref sig .scVector .hbm S1024 .f32 := Memref.whole main_v1_scv
abbrev idxV : Memref sig .scVector .hbm S1000000 .i32 := Memref.whole main_arg2_scv
abbrev outV : Memref sig .scVector .hbm S64000000 .f32 := Memref.whole main_v2_scv
/-- A tile's scratch: its copy of the table, three row buffers, three index buffers. -/
abbrev tabS : Memref sig .scVector .vmem S1024 .f32 := Memref.whole cc0_scratch0
abbrev bufS0 : Memref sig .scVector .vmem S25600 .f32 := Memref.whole cc0_scratch1
abbrev bufS1 : Memref sig .scVector .vmem S25600 .f32 := Memref.whole cc0_scratch2
abbrev bufS2 : Memref sig .scVector .vmem S25600 .f32 := Memref.whole cc0_scratch3
abbrev ixS0 : Memref sig .scVector .vmem S400 .i32 := Memref.whole cc0_scratch4
abbrev ixS1 : Memref sig .scVector .vmem S400 .i32 := Memref.whole cc0_scratch5
abbrev ixS2 : Memref sig .scVector .vmem S400 .i32 := Memref.whole cc0_scratch6

/-- The tile at grid coordinates `L`: its SparseCore, its subcore, its thread. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The tile's `k`-th DMA semaphore: 0–2 complete the row fetches, 3–5 the index fetches, 6–8 the write-backs,
    9 the table's copy. -/
abbrev cell (d : Dev nD) (L : grid0.Coords) (k : Fin 10) : GSem nD τ sig := (thrV d L, .dma (Fin.cast (by decide) k))

end Cert.KernelIdeal.Hand

end
-- ==== Proof.KIOwn.lean ====
/-
  A tile's own semaphores and buffers, singled out: of the cells a tile owns, its ten DMA semaphores at zero and the
  rest; of the buffers it owns, its seven scratch buffers (each at some contents) and the rest.
-/
import proofs.«216121_g54726473285929_cont_9to1_m_355_3_alg».proof.Proof.KICommon

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile's DMA semaphore number `k`. -/
abbrev dcell (d : Dev nD) (L : grid0.Coords) (k : DmaSem sig) : GSem nD τ sig := (thrV d L, .dma k)

def dcells (d : Dev nD) (L : grid0.Coords) : Finset (GSem nD τ sig) := Finset.univ.image (dcell d L)

theorem dcells_sub (d : Dev nD) (L : grid0.Coords) : dcells d L ⊆ ownCells (thrV d L) := by
  intro g hg
  obtain ⟨k, -, rfl⟩ := Finset.mem_image.mp hg
  refine mem_ownCells.mpr ⟨rfl, ?_⟩
  exact (by decide : ∀ k : DmaSem sig, (SemLoc.dma k : SemLoc sig).isScoped .scVector = true) k

theorem dcell_inj (d : Dev nD) (L : grid0.Coords) : Set.InjOn (dcell d L) ((Finset.univ : Finset (DmaSem sig)) : Set _) := by
  intro a _ b _ e
  exact SemLoc.dma.inj (Prod.mk.inj e).2

/-- The tile's ten DMA semaphores at zero, and its other cells at zero. -/
theorem ownSems0_V (d : Dev nD) (L : grid0.Coords) :
    (ownSems0 (thrV d L) : sProp 𝕄)
      = iprop((semVal (dcell d L ⟨0, by decide⟩) 0 ∗ semVal (dcell d L ⟨1, by decide⟩) 0 ∗ semVal (dcell d L ⟨2, by decide⟩) 0
          ∗ semVal (dcell d L ⟨3, by decide⟩) 0 ∗ semVal (dcell d L ⟨4, by decide⟩) 0 ∗ semVal (dcell d L ⟨5, by decide⟩) 0
          ∗ semVal (dcell d L ⟨6, by decide⟩) 0 ∗ semVal (dcell d L ⟨7, by decide⟩) 0 ∗ semVal (dcell d L ⟨8, by decide⟩) 0
          ∗ semVal (dcell d L ⟨9, by decide⟩) 0)
          ∗ bigSep (ownCells (thrV d L) \ dcells d L) fun g => semVal g 0) := by
  unfold SparseCore.Cfg.ownSems0
  rw [SparseCore.bigSep_sdiff_split' (dcells_sub d L)]
  unfold dcells
  rw [SparseCore.bigSep_image_of_injOn (dcell_inj d L) (fun g => (semVal g 0 : sProp 𝕄)),
    show (Finset.univ : Finset (DmaSem sig)) = {⟨0, by decide⟩, ⟨1, by decide⟩, ⟨2, by decide⟩, ⟨3, by decide⟩, ⟨4, by decide⟩,
      ⟨5, by decide⟩, ⟨6, by decide⟩, ⟨7, by decide⟩, ⟨8, by decide⟩, ⟨9, by decide⟩} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tile's scratch buffer behind a scratch reference. -/
abbrev sref (L : grid0.Coords) (r : Ref sig .scVector) : DevRef τ sig := (Proc.scVector (cV L) (jV L)).devRef r

def srefs (L : grid0.Coords) : Finset (DevRef τ sig) :=
  ({cc0_scratch0, cc0_scratch1, cc0_scratch2, cc0_scratch3, cc0_scratch4, cc0_scratch5, cc0_scratch6} : Finset (Ref sig .scVector)).image (sref L)

theorem srefs_sub (L : grid0.Coords) : srefs L ⊆ ownRefs (τ := τ) (.scVector (cV L) (jV L)) := by
  intro b hb
  obtain ⟨r, hr, rfl⟩ := Finset.mem_image.mp hb
  simp only [Finset.mem_insert, Finset.mem_singleton] at hr
  rcases hr with rfl | rfl | rfl | rfl | rfl | rfl | rfl <;>
    exact SparseCore.Cfg.mem_ownRefs_of_owner (p := Proc.scVector (cV L) (jV L)) rfl

theorem sref_inj (L : grid0.Coords) (s : Finset (Ref sig .scVector)) : Set.InjOn (sref L) (s : Set _) :=
  fun _ _ _ _ e => Proc.devRef_injective _ e

/-- The tile's seven scratch buffers, each whole at some contents, and its other buffers. -/
theorem ownBufs_V (d : Dev nD) (L : grid0.Coords) :
    (ownBufs (thrV d L) : sProp 𝕄)
      = iprop(((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ (∃ f, (thrV d L).loc cc0_scratch6 ↦{fullShare} f))
          ∗ bigSep (ownRefs (τ := τ) (.scVector (cV L) (jV L)) \ srefs L) fun b => iprop(∃ f, ((d, b) : Loc nD τ sig) ↦{fullShare} f)) := by
  unfold SparseCore.Cfg.ownBufs
  rw [show (thrV d L).2 = Proc.scVector (cV L) (jV L) from rfl, SparseCore.bigSep_sdiff_split' (srefs_sub L)]
  unfold srefs
  rw [SparseCore.bigSep_image_of_injOn (sref_inj L _) (fun b => (iprop(∃ f, ((d, b) : Loc nD τ sig) ↦{fullShare} f) : sProp 𝕄)),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cert.KernelIdeal.Hand

end
-- ==== Proof.KIOff.lean ====
/-
  Closed forms of the row buffers' offset chains: within trip k of a compute loop, the block of sixteen lanes at
  row r, lane group q, starts at 1024 k + 64 r + 16 q. One equation per chain and pair of constants it is served
  at, decided over the loop's trips, and registered as instances so that two blocks' positions are compared by value.
-/
import proofs.«216121_g54726473285929_cont_9to1_m_355_3_alg».proof.KernelIdeal
import proofs.«216121_g54726473285929_cont_9to1_m_355_3_alg».proof.Proof.Gen.KernelIdeal
import Idealize.ShloMosaic.Lib.Decide
import Idealize.ShloMosaic.Lib.Exec

set_option Elab.async false

namespace Cert.KernelIdeal.Hand

open Cert.KernelIdeal Cert.KernelIdeal.Gen

open Idealize.ShloMosaic

theorem k0_off8_cf0 : ∀ k : Fin k0_t1_loop.trips, k0_off8 k 0#32 0#32 = ![1024 * k.val + 0] := by decide +kernel
instance closedOff_k0_off8_0 (k : Fin k0_t1_loop.trips) : ClosedOff (k0_off8 k 0#32 0#32) := ⟨![1024 * k.val + 0], k0_off8_cf0 k⟩
theorem k0_off8_cf1 : ∀ k : Fin k0_t1_loop.trips, k0_off8 k 0#32 16#32 = ![1024 * k.val + 16] := by decide +kernel
instance closedOff_k0_off8_1 (k : Fin k0_t1_loop.trips) : ClosedOff (k0_off8 k 0#32 16#32) := ⟨![1024 * k.val + 16], k0_off8_cf1 k⟩
theorem k0_off8_cf2 : ∀ k : Fin k0_t1_loop.trips, k0_off8 k 0#32 32#32 = ![1024 * k.val + 32] := by decide +kernel
instance closedOff_k0_off8_2 (k : Fin k0_t1_loop.trips) : ClosedOff (k0_off8 k 0#32 32#32) := ⟨![1024 * k.val + 32], k0_off8_cf2 k⟩
theorem k0_off8_cf3 : ∀ k : Fin k0_t1_loop.trips, k0_off8 k 0#32 48#32 = ![1024 * k.val + 48] := by decide +kernel
instance closedOff_k0_off8_3 (k : Fin k0_t1_loop.trips) : ClosedOff (k0_off8 k 0#32 48#32) := ⟨![1024 * k.val + 48], k0_off8_cf3 k⟩
theorem k0_off8_cf4 : ∀ k : Fin k0_t1_loop.trips, k0_off8 k 64#32 0#32 = ![1024 * k.val + 64] := by decide +kernel
instance closedOff_k0_off8_4 (k : Fin k0_t1_loop.trips) : ClosedOff (k0_off8 k 64#32 0#32) := ⟨![1024 * k.val + 64], k0_off8_cf4 k⟩
theorem k0_off10_cf0 : ∀ k : Fin k0_t1_loop.trips, k0_off10 k 64#32 0#32 = ![1024 * k.val + 64] := by decide +kernel
instance closedOff_k0_off10_0 (k : Fin k0_t1_loop.trips) : ClosedOff (k0_off10 k 64#32 0#32) := ⟨![1024 * k.val + 64], k0_off10_cf0 k⟩
theorem k0_off10_cf1 : ∀ k : Fin k0_t1_loop.trips, k0_off10 k 64#32 16#32 = ![1024 * k.val + 80] := by decide +kernel
instance closedOff_k0_off10_1 (k : Fin k0_t1_loop.trips) : ClosedOff (k0_off10 k 64#32 16#32) := ⟨![1024 * k.val + 80], k0_off10_cf1 k⟩
theorem k0_off10_cf2 : ∀ k : Fin k0_t1_loop.trips, k0_off10 k 64#32 32#32 = ![1024 * k.val + 96] := by decide +kernel
instance closedOff_k0_off10_2 (k : Fin k0_t1_loop.trips) : ClosedOff (k0_off10 k 64#32 32#32) := ⟨![1024 * k.val + 96], k0_off10_cf2 k⟩
theorem k0_off10_cf3 : ∀ k : Fin k0_t1_loop.trips, k0_off10 k 64#32 48#32 = ![1024 * k.val + 112] := by decide +kernel
instance closedOff_k0_off10_3 (k : Fin k0_t1_loop.trips) : ClosedOff (k0_off10 k 64#32 48#32) := ⟨![1024 * k.val + 112], k0_off10_cf3 k⟩
theorem k0_off10_cf4 : ∀ k : Fin k0_t1_loop.trips, k0_off10 k 128#32 0#32 = ![1024 * k.val + 128] := by decide +kernel
instance closedOff_k0_off10_4 (k : Fin k0_t1_loop.trips) : ClosedOff (k0_off10 k 128#32 0#32) := ⟨![1024 * k.val + 128], k0_off10_cf4 k⟩
theorem k0_off12_cf0 : ∀ k : Fin k0_t1_loop.trips, k0_off12 k 128#32 0#32 = ![1024 * k.val + 128] := by decide +kernel
instance closedOff_k0_off12_0 (k : Fin k0_t1_loop.trips) : ClosedOff (k0_off12 k 128#32 0#32) := ⟨![1024 * k.val + 128], k0_off12_cf0 k⟩
theorem k0_off12_cf1 : ∀ k : Fin k0_t1_loop.trips, k0_off12 k 128#32 16#32 = ![1024 * k.val + 144] := by decide +kernel
instance closedOff_k0_off12_1 (k : Fin k0_t1_loop.trips) : ClosedOff (k0_off12 k 128#32 16#32) := ⟨![1024 * k.val + 144], k0_off12_cf1 k⟩
theorem k0_off12_cf2 : ∀ k : Fin k0_t1_loop.trips, k0_off12 k 128#32 32#32 = ![1024 * k.val + 160] := by decide +kernel
instance closedOff_k0_off12_2 (k : Fin k0_t1_loop.trips) : ClosedOff (k0_off12 k 128#32 32#32) := ⟨![1024 * k.val + 160], k0_off12_cf2 k⟩
theorem k0_off12_cf3 : ∀ k : Fin k0_t1_loop.trips, k0_off12 k 128#32 48#32 = ![1024 * k.val + 176] := by decide +kernel
instance closedOff_k0_off12_3 (k : Fin k0_t1_loop.trips) : ClosedOff (k0_off12 k 128#32 48#32) := ⟨![1024 * k.val + 176], k0_off12_cf3 k⟩
theorem k0_off12_cf4 : ∀ k : Fin k0_t1_loop.trips, k0_off12 k 192#32 0#32 = ![1024 * k.val + 192] := by decide +kernel
instance closedOff_k0_off12_4 (k : Fin k0_t1_loop.trips) : ClosedOff (k0_off12 k 192#32 0#32) := ⟨![1024 * k.val + 192], k0_off12_cf4 k⟩
theorem k0_off14_cf0 : ∀ k : Fin k0_t1_loop.trips, k0_off14 k 192#32 0#32 = ![1024 * k.val + 192] := by decide +kernel
instance closedOff_k0_off14_0 (k : Fin k0_t1_loop.trips) : ClosedOff (k0_off14 k 192#32 0#32) := ⟨![1024 * k.val + 192], k0_off14_cf0 k⟩
theorem k0_off14_cf1 : ∀ k : Fin k0_t1_loop.trips, k0_off14 k 192#32 16#32 = ![1024 * k.val + 208] := by decide +kernel
instance closedOff_k0_off14_1 (k : Fin k0_t1_loop.trips) : ClosedOff (k0_off14 k 192#32 16#32) := ⟨![1024 * k.val + 208], k0_off14_cf1 k⟩
theorem k0_off14_cf2 : ∀ k : Fin k0_t1_loop.trips, k0_off14 k 192#32 32#32 = ![1024 * k.val + 224] := by decide +kernel
instance closedOff_k0_off14_2 (k : Fin k0_t1_loop.trips) : ClosedOff (k0_off14 k 192#32 32#32) := ⟨![1024 * k.val + 224], k0_off14_cf2 k⟩
theorem k0_off14_cf3 : ∀ k : Fin k0_t1_loop.trips, k0_off14 k 192#32 48#32 = ![1024 * k.val + 240] := by decide +kernel
instance closedOff_k0_off14_3 (k : Fin k0_t1_loop.trips) : ClosedOff (k0_off14 k 192#32 48#32) := ⟨![1024 * k.val + 240], k0_off14_cf3 k⟩
theorem k0_off14_cf4 : ∀ k : Fin k0_t1_loop.trips, k0_off14 k 256#32 0#32 = ![1024 * k.val + 256] := by decide +kernel
instance closedOff_k0_off14_4 (k : Fin k0_t1_loop.trips) : ClosedOff (k0_off14 k 256#32 0#32) := ⟨![1024 * k.val + 256], k0_off14_cf4 k⟩
theorem k0_off16_cf0 : ∀ k : Fin k0_t1_loop.trips, k0_off16 k 256#32 0#32 = ![1024 * k.val + 256] := by decide +kernel
instance closedOff_k0_off16_0 (k : Fin k0_t1_loop.trips) : ClosedOff (k0_off16 k 256#32 0#32) := ⟨![1024 * k.val + 256], k0_off16_cf0 k⟩
theorem k0_off16_cf1 : ∀ k : Fin k0_t1_loop.trips, k0_off16 k 256#32 16#32 = ![1024 * k.val + 272] := by decide +kernel
instance closedOff_k0_off16_1 (k : Fin k0_t1_loop.trips) : ClosedOff (k0_off16 k 256#32 16#32) := ⟨![1024 * k.val + 272], k0_off16_cf1 k⟩
theorem k0_off16_cf2 : ∀ k : Fin k0_t1_loop.trips, k0_off16 k 256#32 32#32 = ![1024 * k.val + 288] := by decide +kernel
instance closedOff_k0_off16_2 (k : Fin k0_t1_loop.trips) : ClosedOff (k0_off16 k 256#32 32#32) := ⟨![1024 * k.val + 288], k0_off16_cf2 k⟩
theorem k0_off16_cf3 : ∀ k : Fin k0_t1_loop.trips, k0_off16 k 256#32 48#32 = ![1024 * k.val + 304] := by decide +kernel
instance closedOff_k0_off16_3 (k : Fin k0_t1_loop.trips) : ClosedOff (k0_off16 k 256#32 48#32) := ⟨![1024 * k.val + 304], k0_off16_cf3 k⟩
theorem k0_off16_cf4 : ∀ k : Fin k0_t1_loop.trips, k0_off16 k 320#32 0#32 = ![1024 * k.val + 320] := by decide +kernel
instance closedOff_k0_off16_4 (k : Fin k0_t1_loop.trips) : ClosedOff (k0_off16 k 320#32 0#32) := ⟨![1024 * k.val + 320], k0_off16_cf4 k⟩
theorem k0_off18_cf0 : ∀ k : Fin k0_t1_loop.trips, k0_off18 k 320#32 0#32 = ![1024 * k.val + 320] := by decide +kernel
instance closedOff_k0_off18_0 (k : Fin k0_t1_loop.trips) : ClosedOff (k0_off18 k 320#32 0#32) := ⟨![1024 * k.val + 320], k0_off18_cf0 k⟩
theorem k0_off18_cf1 : ∀ k : Fin k0_t1_loop.trips, k0_off18 k 320#32 16#32 = ![1024 * k.val + 336] := by decide +kernel
instance closedOff_k0_off18_1 (k : Fin k0_t1_loop.trips) : ClosedOff (k0_off18 k 320#32 16#32) := ⟨![1024 * k.val + 336], k0_off18_cf1 k⟩
theorem k0_off18_cf2 : ∀ k : Fin k0_t1_loop.trips, k0_off18 k 320#32 32#32 = ![1024 * k.val + 352] := by decide +kernel
instance closedOff_k0_off18_2 (k : Fin k0_t1_loop.trips) : ClosedOff (k0_off18 k 320#32 32#32) := ⟨![1024 * k.val + 352], k0_off18_cf2 k⟩
theorem k0_off18_cf3 : ∀ k : Fin k0_t1_loop.trips, k0_off18 k 320#32 48#32 = ![1024 * k.val + 368] := by decide +kernel
instance closedOff_k0_off18_3 (k : Fin k0_t1_loop.trips) : ClosedOff (k0_off18 k 320#32 48#32) := ⟨![1024 * k.val + 368], k0_off18_cf3 k⟩
theorem k0_off18_cf4 : ∀ k : Fin k0_t1_loop.trips, k0_off18 k 384#32 0#32 = ![1024 * k.val + 384] := by decide +kernel
instance closedOff_k0_off18_4 (k : Fin k0_t1_loop.trips) : ClosedOff (k0_off18 k 384#32 0#32) := ⟨![1024 * k.val + 384], k0_off18_cf4 k⟩
theorem k0_off20_cf0 : ∀ k : Fin k0_t1_loop.trips, k0_off20 k 384#32 0#32 = ![1024 * k.val + 384] := by decide +kernel
instance closedOff_k0_off20_0 (k : Fin k0_t1_loop.trips) : ClosedOff (k0_off20 k 384#32 0#32) := ⟨![1024 * k.val + 384], k0_off20_cf0 k⟩
theorem k0_off20_cf1 : ∀ k : Fin k0_t1_loop.trips, k0_off20 k 384#32 16#32 = ![1024 * k.val + 400] := by decide +kernel
instance closedOff_k0_off20_1 (k : Fin k0_t1_loop.trips) : ClosedOff (k0_off20 k 384#32 16#32) := ⟨![1024 * k.val + 400], k0_off20_cf1 k⟩
theorem k0_off20_cf2 : ∀ k : Fin k0_t1_loop.trips, k0_off20 k 384#32 32#32 = ![1024 * k.val + 416] := by decide +kernel
instance closedOff_k0_off20_2 (k : Fin k0_t1_loop.trips) : ClosedOff (k0_off20 k 384#32 32#32) := ⟨![1024 * k.val + 416], k0_off20_cf2 k⟩
theorem k0_off20_cf3 : ∀ k : Fin k0_t1_loop.trips, k0_off20 k 384#32 48#32 = ![1024 * k.val + 432] := by decide +kernel
instance closedOff_k0_off20_3 (k : Fin k0_t1_loop.trips) : ClosedOff (k0_off20 k 384#32 48#32) := ⟨![1024 * k.val + 432], k0_off20_cf3 k⟩
theorem k0_off20_cf4 : ∀ k : Fin k0_t1_loop.trips, k0_off20 k 448#32 0#32 = ![1024 * k.val + 448] := by decide +kernel
instance closedOff_k0_off20_4 (k : Fin k0_t1_loop.trips) : ClosedOff (k0_off20 k 448#32 0#32) := ⟨![1024 * k.val + 448], k0_off20_cf4 k⟩
theorem k0_off22_cf0 : ∀ k : Fin k0_t1_loop.trips, k0_off22 k 448#32 0#32 = ![1024 * k.val + 448] := by decide +kernel
instance closedOff_k0_off22_0 (k : Fin k0_t1_loop.trips) : ClosedOff (k0_off22 k 448#32 0#32) := ⟨![1024 * k.val + 448], k0_off22_cf0 k⟩
theorem k0_off22_cf1 : ∀ k : Fin k0_t1_loop.trips, k0_off22 k 448#32 16#32 = ![1024 * k.val + 464] := by decide +kernel
instance closedOff_k0_off22_1 (k : Fin k0_t1_loop.trips) : ClosedOff (k0_off22 k 448#32 16#32) := ⟨![1024 * k.val + 464], k0_off22_cf1 k⟩
theorem k0_off22_cf2 : ∀ k : Fin k0_t1_loop.trips, k0_off22 k 448#32 32#32 = ![1024 * k.val + 480] := by decide +kernel
instance closedOff_k0_off22_2 (k : Fin k0_t1_loop.trips) : ClosedOff (k0_off22 k 448#32 32#32) := ⟨![1024 * k.val + 480], k0_off22_cf2 k⟩
theorem k0_off22_cf3 : ∀ k : Fin k0_t1_loop.trips, k0_off22 k 448#32 48#32 = ![1024 * k.val + 496] := by decide +kernel
instance closedOff_k0_off22_3 (k : Fin k0_t1_loop.trips) : ClosedOff (k0_off22 k 448#32 48#32) := ⟨![1024 * k.val + 496], k0_off22_cf3 k⟩
theorem k0_off22_cf4 : ∀ k : Fin k0_t1_loop.trips, k0_off22 k 512#32 0#32 = ![1024 * k.val + 512] := by decide +kernel
instance closedOff_k0_off22_4 (k : Fin k0_t1_loop.trips) : ClosedOff (k0_off22 k 512#32 0#32) := ⟨![1024 * k.val + 512], k0_off22_cf4 k⟩
theorem k0_off24_cf0 : ∀ k : Fin k0_t1_loop.trips, k0_off24 k 512#32 0#32 = ![1024 * k.val + 512] := by decide +kernel
instance closedOff_k0_off24_0 (k : Fin k0_t1_loop.trips) : ClosedOff (k0_off24 k 512#32 0#32) := ⟨![1024 * k.val + 512], k0_off24_cf0 k⟩
theorem k0_off24_cf1 : ∀ k : Fin k0_t1_loop.trips, k0_off24 k 512#32 16#32 = ![1024 * k.val + 528] := by decide +kernel
instance closedOff_k0_off24_1 (k : Fin k0_t1_loop.trips) : ClosedOff (k0_off24 k 512#32 16#32) := ⟨![1024 * k.val + 528], k0_off24_cf1 k⟩
theorem k0_off24_cf2 : ∀ k : Fin k0_t1_loop.trips, k0_off24 k 512#32 32#32 = ![1024 * k.val + 544] := by decide +kernel
instance closedOff_k0_off24_2 (k : Fin k0_t1_loop.trips) : ClosedOff (k0_off24 k 512#32 32#32) := ⟨![1024 * k.val + 544], k0_off24_cf2 k⟩
theorem k0_off24_cf3 : ∀ k : Fin k0_t1_loop.trips, k0_off24 k 512#32 48#32 = ![1024 * k.val + 560] := by decide +kernel
instance closedOff_k0_off24_3 (k : Fin k0_t1_loop.trips) : ClosedOff (k0_off24 k 512#32 48#32) := ⟨![1024 * k.val + 560], k0_off24_cf3 k⟩
theorem k0_off24_cf4 : ∀ k : Fin k0_t1_loop.trips, k0_off24 k 576#32 0#32 = ![1024 * k.val + 576] := by decide +kernel
instance closedOff_k0_off24_4 (k : Fin k0_t1_loop.trips) : ClosedOff (k0_off24 k 576#32 0#32) := ⟨![1024 * k.val + 576], k0_off24_cf4 k⟩
theorem k0_off26_cf0 : ∀ k : Fin k0_t1_loop.trips, k0_off26 k 576#32 0#32 = ![1024 * k.val + 576] := by decide +kernel
instance closedOff_k0_off26_0 (k : Fin k0_t1_loop.trips) : ClosedOff (k0_off26 k 576#32 0#32) := ⟨![1024 * k.val + 576], k0_off26_cf0 k⟩
theorem k0_off26_cf1 : ∀ k : Fin k0_t1_loop.trips, k0_off26 k 576#32 16#32 = ![1024 * k.val + 592] := by decide +kernel
instance closedOff_k0_off26_1 (k : Fin k0_t1_loop.trips) : ClosedOff (k0_off26 k 576#32 16#32) := ⟨![1024 * k.val + 592], k0_off26_cf1 k⟩
theorem k0_off26_cf2 : ∀ k : Fin k0_t1_loop.trips, k0_off26 k 576#32 32#32 = ![1024 * k.val + 608] := by decide +kernel
instance closedOff_k0_off26_2 (k : Fin k0_t1_loop.trips) : ClosedOff (k0_off26 k 576#32 32#32) := ⟨![1024 * k.val + 608], k0_off26_cf2 k⟩
theorem k0_off26_cf3 : ∀ k : Fin k0_t1_loop.trips, k0_off26 k 576#32 48#32 = ![1024 * k.val + 624] := by decide +kernel
instance closedOff_k0_off26_3 (k : Fin k0_t1_loop.trips) : ClosedOff (k0_off26 k 576#32 48#32) := ⟨![1024 * k.val + 624], k0_off26_cf3 k⟩
theorem k0_off26_cf4 : ∀ k : Fin k0_t1_loop.trips, k0_off26 k 640#32 0#32 = ![1024 * k.val + 640] := by decide +kernel
instance closedOff_k0_off26_4 (k : Fin k0_t1_loop.trips) : ClosedOff (k0_off26 k 640#32 0#32) := ⟨![1024 * k.val + 640], k0_off26_cf4 k⟩
theorem k0_off28_cf0 : ∀ k : Fin k0_t1_loop.trips, k0_off28 k 640#32 0#32 = ![1024 * k.val + 640] := by decide +kernel
instance closedOff_k0_off28_0 (k : Fin k0_t1_loop.trips) : ClosedOff (k0_off28 k 640#32 0#32) := ⟨![1024 * k.val + 640], k0_off28_cf0 k⟩
theorem k0_off28_cf1 : ∀ k : Fin k0_t1_loop.trips, k0_off28 k 640#32 16#32 = ![1024 * k.val + 656] := by decide +kernel
instance closedOff_k0_off28_1 (k : Fin k0_t1_loop.trips) : ClosedOff (k0_off28 k 640#32 16#32) := ⟨![1024 * k.val + 656], k0_off28_cf1 k⟩
theorem k0_off28_cf2 : ∀ k : Fin k0_t1_loop.trips, k0_off28 k 640#32 32#32 = ![1024 * k.val + 672] := by decide +kernel
instance closedOff_k0_off28_2 (k : Fin k0_t1_loop.trips) : ClosedOff (k0_off28 k 640#32 32#32) := ⟨![1024 * k.val + 672], k0_off28_cf2 k⟩
theorem k0_off28_cf3 : ∀ k : Fin k0_t1_loop.trips, k0_off28 k 640#32 48#32 = ![1024 * k.val + 688] := by decide +kernel
instance closedOff_k0_off28_3 (k : Fin k0_t1_loop.trips) : ClosedOff (k0_off28 k 640#32 48#32) := ⟨![1024 * k.val + 688], k0_off28_cf3 k⟩
theorem k0_off28_cf4 : ∀ k : Fin k0_t1_loop.trips, k0_off28 k 704#32 0#32 = ![1024 * k.val + 704] := by decide +kernel
instance closedOff_k0_off28_4 (k : Fin k0_t1_loop.trips) : ClosedOff (k0_off28 k 704#32 0#32) := ⟨![1024 * k.val + 704], k0_off28_cf4 k⟩
theorem k0_off30_cf0 : ∀ k : Fin k0_t1_loop.trips, k0_off30 k 704#32 0#32 = ![1024 * k.val + 704] := by decide +kernel
instance closedOff_k0_off30_0 (k : Fin k0_t1_loop.trips) : ClosedOff (k0_off30 k 704#32 0#32) := ⟨![1024 * k.val + 704], k0_off30_cf0 k⟩
theorem k0_off30_cf1 : ∀ k : Fin k0_t1_loop.trips, k0_off30 k 704#32 16#32 = ![1024 * k.val + 720] := by decide +kernel
instance closedOff_k0_off30_1 (k : Fin k0_t1_loop.trips) : ClosedOff (k0_off30 k 704#32 16#32) := ⟨![1024 * k.val + 720], k0_off30_cf1 k⟩
theorem k0_off30_cf2 : ∀ k : Fin k0_t1_loop.trips, k0_off30 k 704#32 32#32 = ![1024 * k.val + 736] := by decide +kernel
instance closedOff_k0_off30_2 (k : Fin k0_t1_loop.trips) : ClosedOff (k0_off30 k 704#32 32#32) := ⟨![1024 * k.val + 736], k0_off30_cf2 k⟩
theorem k0_off30_cf3 : ∀ k : Fin k0_t1_loop.trips, k0_off30 k 704#32 48#32 = ![1024 * k.val + 752] := by decide +kernel
instance closedOff_k0_off30_3 (k : Fin k0_t1_loop.trips) : ClosedOff (k0_off30 k 704#32 48#32) := ⟨![1024 * k.val + 752], k0_off30_cf3 k⟩
theorem k0_off30_cf4 : ∀ k : Fin k0_t1_loop.trips, k0_off30 k 768#32 0#32 = ![1024 * k.val + 768] := by decide +kernel
instance closedOff_k0_off30_4 (k : Fin k0_t1_loop.trips) : ClosedOff (k0_off30 k 768#32 0#32) := ⟨![1024 * k.val + 768], k0_off30_cf4 k⟩
theorem k0_off32_cf0 : ∀ k : Fin k0_t1_loop.trips, k0_off32 k 768#32 0#32 = ![1024 * k.val + 768] := by decide +kernel
instance closedOff_k0_off32_0 (k : Fin k0_t1_loop.trips) : ClosedOff (k0_off32 k 768#32 0#32) := ⟨![1024 * k.val + 768], k0_off32_cf0 k⟩
theorem k0_off32_cf1 : ∀ k : Fin k0_t1_loop.trips, k0_off32 k 768#32 16#32 = ![1024 * k.val + 784] := by decide +kernel
instance closedOff_k0_off32_1 (k : Fin k0_t1_loop.trips) : ClosedOff (k0_off32 k 768#32 16#32) := ⟨![1024 * k.val + 784], k0_off32_cf1 k⟩
theorem k0_off32_cf2 : ∀ k : Fin k0_t1_loop.trips, k0_off32 k 768#32 32#32 = ![1024 * k.val + 800] := by decide +kernel
instance closedOff_k0_off32_2 (k : Fin k0_t1_loop.trips) : ClosedOff (k0_off32 k 768#32 32#32) := ⟨![1024 * k.val + 800], k0_off32_cf2 k⟩
theorem k0_off32_cf3 : ∀ k : Fin k0_t1_loop.trips, k0_off32 k 768#32 48#32 = ![1024 * k.val + 816] := by decide +kernel
instance closedOff_k0_off32_3 (k : Fin k0_t1_loop.trips) : ClosedOff (k0_off32 k 768#32 48#32) := ⟨![1024 * k.val + 816], k0_off32_cf3 k⟩
theorem k0_off32_cf4 : ∀ k : Fin k0_t1_loop.trips, k0_off32 k 832#32 0#32 = ![1024 * k.val + 832] := by decide +kernel
instance closedOff_k0_off32_4 (k : Fin k0_t1_loop.trips) : ClosedOff (k0_off32 k 832#32 0#32) := ⟨![1024 * k.val + 832], k0_off32_cf4 k⟩
theorem k0_off34_cf0 : ∀ k : Fin k0_t1_loop.trips, k0_off34 k 832#32 0#32 = ![1024 * k.val + 832] := by decide +kernel
instance closedOff_k0_off34_0 (k : Fin k0_t1_loop.trips) : ClosedOff (k0_off34 k 832#32 0#32) := ⟨![1024 * k.val + 832], k0_off34_cf0 k⟩
theorem k0_off34_cf1 : ∀ k : Fin k0_t1_loop.trips, k0_off34 k 832#32 16#32 = ![1024 * k.val + 848] := by decide +kernel
instance closedOff_k0_off34_1 (k : Fin k0_t1_loop.trips) : ClosedOff (k0_off34 k 832#32 16#32) := ⟨![1024 * k.val + 848], k0_off34_cf1 k⟩
theorem k0_off34_cf2 : ∀ k : Fin k0_t1_loop.trips, k0_off34 k 832#32 32#32 = ![1024 * k.val + 864] := by decide +kernel
instance closedOff_k0_off34_2 (k : Fin k0_t1_loop.trips) : ClosedOff (k0_off34 k 832#32 32#32) := ⟨![1024 * k.val + 864], k0_off34_cf2 k⟩
theorem k0_off34_cf3 : ∀ k : Fin k0_t1_loop.trips, k0_off34 k 832#32 48#32 = ![1024 * k.val + 880] := by decide +kernel
instance closedOff_k0_off34_3 (k : Fin k0_t1_loop.trips) : ClosedOff (k0_off34 k 832#32 48#32) := ⟨![1024 * k.val + 880], k0_off34_cf3 k⟩
theorem k0_off34_cf4 : ∀ k : Fin k0_t1_loop.trips, k0_off34 k 896#32 0#32 = ![1024 * k.val + 896] := by decide +kernel
instance closedOff_k0_off34_4 (k : Fin k0_t1_loop.trips) : ClosedOff (k0_off34 k 896#32 0#32) := ⟨![1024 * k.val + 896], k0_off34_cf4 k⟩
theorem k0_off36_cf0 : ∀ k : Fin k0_t1_loop.trips, k0_off36 k 896#32 0#32 = ![1024 * k.val + 896] := by decide +kernel
instance closedOff_k0_off36_0 (k : Fin k0_t1_loop.trips) : ClosedOff (k0_off36 k 896#32 0#32) := ⟨![1024 * k.val + 896], k0_off36_cf0 k⟩
theorem k0_off36_cf1 : ∀ k : Fin k0_t1_loop.trips, k0_off36 k 896#32 16#32 = ![1024 * k.val + 912] := by decide +kernel
instance closedOff_k0_off36_1 (k : Fin k0_t1_loop.trips) : ClosedOff (k0_off36 k 896#32 16#32) := ⟨![1024 * k.val + 912], k0_off36_cf1 k⟩
theorem k0_off36_cf2 : ∀ k : Fin k0_t1_loop.trips, k0_off36 k 896#32 32#32 = ![1024 * k.val + 928] := by decide +kernel
instance closedOff_k0_off36_2 (k : Fin k0_t1_loop.trips) : ClosedOff (k0_off36 k 896#32 32#32) := ⟨![1024 * k.val + 928], k0_off36_cf2 k⟩
theorem k0_off36_cf3 : ∀ k : Fin k0_t1_loop.trips, k0_off36 k 896#32 48#32 = ![1024 * k.val + 944] := by decide +kernel
instance closedOff_k0_off36_3 (k : Fin k0_t1_loop.trips) : ClosedOff (k0_off36 k 896#32 48#32) := ⟨![1024 * k.val + 944], k0_off36_cf3 k⟩
theorem k0_off36_cf4 : ∀ k : Fin k0_t1_loop.trips, k0_off36 k 960#32 0#32 = ![1024 * k.val + 960] := by decide +kernel
instance closedOff_k0_off36_4 (k : Fin k0_t1_loop.trips) : ClosedOff (k0_off36 k 960#32 0#32) := ⟨![1024 * k.val + 960], k0_off36_cf4 k⟩
theorem k0_off44_cf0 : ∀ k : Fin k0_t2_loop.trips, k0_off44 k 0#32 0#32 = ![1024 * k.val + 0] := by decide +kernel
instance closedOff_k0_off44_0 (k : Fin k0_t2_loop.trips) : ClosedOff (k0_off44 k 0#32 0#32) := ⟨![1024 * k.val + 0], k0_off44_cf0 k⟩
theorem k0_off44_cf1 : ∀ k : Fin k0_t2_loop.trips, k0_off44 k 0#32 16#32 = ![1024 * k.val + 16] := by decide +kernel
instance closedOff_k0_off44_1 (k : Fin k0_t2_loop.trips) : ClosedOff (k0_off44 k 0#32 16#32) := ⟨![1024 * k.val + 16], k0_off44_cf1 k⟩
theorem k0_off44_cf2 : ∀ k : Fin k0_t2_loop.trips, k0_off44 k 0#32 32#32 = ![1024 * k.val + 32] := by decide +kernel
instance closedOff_k0_off44_2 (k : Fin k0_t2_loop.trips) : ClosedOff (k0_off44 k 0#32 32#32) := ⟨![1024 * k.val + 32], k0_off44_cf2 k⟩
theorem k0_off44_cf3 : ∀ k : Fin k0_t2_loop.trips, k0_off44 k 0#32 48#32 = ![1024 * k.val + 48] := by decide +kernel
instance closedOff_k0_off44_3 (k : Fin k0_t2_loop.trips) : ClosedOff (k0_off44 k 0#32 48#32) := ⟨![1024 * k.val + 48], k0_off44_cf3 k⟩
theorem k0_off44_cf4 : ∀ k : Fin k0_t2_loop.trips, k0_off44 k 64#32 0#32 = ![1024 * k.val + 64] := by decide +kernel
instance closedOff_k0_off44_4 (k : Fin k0_t2_loop.trips) : ClosedOff (k0_off44 k 64#32 0#32) := ⟨![1024 * k.val + 64], k0_off44_cf4 k⟩
theorem k0_off46_cf0 : ∀ k : Fin k0_t2_loop.trips, k0_off46 k 64#32 0#32 = ![1024 * k.val + 64] := by decide +kernel
instance closedOff_k0_off46_0 (k : Fin k0_t2_loop.trips) : ClosedOff (k0_off46 k 64#32 0#32) := ⟨![1024 * k.val + 64], k0_off46_cf0 k⟩
theorem k0_off46_cf1 : ∀ k : Fin k0_t2_loop.trips, k0_off46 k 64#32 16#32 = ![1024 * k.val + 80] := by decide +kernel
instance closedOff_k0_off46_1 (k : Fin k0_t2_loop.trips) : ClosedOff (k0_off46 k 64#32 16#32) := ⟨![1024 * k.val + 80], k0_off46_cf1 k⟩
theorem k0_off46_cf2 : ∀ k : Fin k0_t2_loop.trips, k0_off46 k 64#32 32#32 = ![1024 * k.val + 96] := by decide +kernel
instance closedOff_k0_off46_2 (k : Fin k0_t2_loop.trips) : ClosedOff (k0_off46 k 64#32 32#32) := ⟨![1024 * k.val + 96], k0_off46_cf2 k⟩
theorem k0_off46_cf3 : ∀ k : Fin k0_t2_loop.trips, k0_off46 k 64#32 48#32 = ![1024 * k.val + 112] := by decide +kernel
instance closedOff_k0_off46_3 (k : Fin k0_t2_loop.trips) : ClosedOff (k0_off46 k 64#32 48#32) := ⟨![1024 * k.val + 112], k0_off46_cf3 k⟩
theorem k0_off46_cf4 : ∀ k : Fin k0_t2_loop.trips, k0_off46 k 128#32 0#32 = ![1024 * k.val + 128] := by decide +kernel
instance closedOff_k0_off46_4 (k : Fin k0_t2_loop.trips) : ClosedOff (k0_off46 k 128#32 0#32) := ⟨![1024 * k.val + 128], k0_off46_cf4 k⟩
theorem k0_off48_cf0 : ∀ k : Fin k0_t2_loop.trips, k0_off48 k 128#32 0#32 = ![1024 * k.val + 128] := by decide +kernel
instance closedOff_k0_off48_0 (k : Fin k0_t2_loop.trips) : ClosedOff (k0_off48 k 128#32 0#32) := ⟨![1024 * k.val + 128], k0_off48_cf0 k⟩
theorem k0_off48_cf1 : ∀ k : Fin k0_t2_loop.trips, k0_off48 k 128#32 16#32 = ![1024 * k.val + 144] := by decide +kernel
instance closedOff_k0_off48_1 (k : Fin k0_t2_loop.trips) : ClosedOff (k0_off48 k 128#32 16#32) := ⟨![1024 * k.val + 144], k0_off48_cf1 k⟩
theorem k0_off48_cf2 : ∀ k : Fin k0_t2_loop.trips, k0_off48 k 128#32 32#32 = ![1024 * k.val + 160] := by decide +kernel
instance closedOff_k0_off48_2 (k : Fin k0_t2_loop.trips) : ClosedOff (k0_off48 k 128#32 32#32) := ⟨![1024 * k.val + 160], k0_off48_cf2 k⟩
theorem k0_off48_cf3 : ∀ k : Fin k0_t2_loop.trips, k0_off48 k 128#32 48#32 = ![1024 * k.val + 176] := by decide +kernel
instance closedOff_k0_off48_3 (k : Fin k0_t2_loop.trips) : ClosedOff (k0_off48 k 128#32 48#32) := ⟨![1024 * k.val + 176], k0_off48_cf3 k⟩
theorem k0_off48_cf4 : ∀ k : Fin k0_t2_loop.trips, k0_off48 k 192#32 0#32 = ![1024 * k.val + 192] := by decide +kernel
instance closedOff_k0_off48_4 (k : Fin k0_t2_loop.trips) : ClosedOff (k0_off48 k 192#32 0#32) := ⟨![1024 * k.val + 192], k0_off48_cf4 k⟩
theorem k0_off50_cf0 : ∀ k : Fin k0_t2_loop.trips, k0_off50 k 192#32 0#32 = ![1024 * k.val + 192] := by decide +kernel
instance closedOff_k0_off50_0 (k : Fin k0_t2_loop.trips) : ClosedOff (k0_off50 k 192#32 0#32) := ⟨![1024 * k.val + 192], k0_off50_cf0 k⟩
theorem k0_off50_cf1 : ∀ k : Fin k0_t2_loop.trips, k0_off50 k 192#32 16#32 = ![1024 * k.val + 208] := by decide +kernel
instance closedOff_k0_off50_1 (k : Fin k0_t2_loop.trips) : ClosedOff (k0_off50 k 192#32 16#32) := ⟨![1024 * k.val + 208], k0_off50_cf1 k⟩
theorem k0_off50_cf2 : ∀ k : Fin k0_t2_loop.trips, k0_off50 k 192#32 32#32 = ![1024 * k.val + 224] := by decide +kernel
instance closedOff_k0_off50_2 (k : Fin k0_t2_loop.trips) : ClosedOff (k0_off50 k 192#32 32#32) := ⟨![1024 * k.val + 224], k0_off50_cf2 k⟩
theorem k0_off50_cf3 : ∀ k : Fin k0_t2_loop.trips, k0_off50 k 192#32 48#32 = ![1024 * k.val + 240] := by decide +kernel
instance closedOff_k0_off50_3 (k : Fin k0_t2_loop.trips) : ClosedOff (k0_off50 k 192#32 48#32) := ⟨![1024 * k.val + 240], k0_off50_cf3 k⟩
theorem k0_off50_cf4 : ∀ k : Fin k0_t2_loop.trips, k0_off50 k 256#32 0#32 = ![1024 * k.val + 256] := by decide +kernel
instance closedOff_k0_off50_4 (k : Fin k0_t2_loop.trips) : ClosedOff (k0_off50 k 256#32 0#32) := ⟨![1024 * k.val + 256], k0_off50_cf4 k⟩
theorem k0_off52_cf0 : ∀ k : Fin k0_t2_loop.trips, k0_off52 k 256#32 0#32 = ![1024 * k.val + 256] := by decide +kernel
instance closedOff_k0_off52_0 (k : Fin k0_t2_loop.trips) : ClosedOff (k0_off52 k 256#32 0#32) := ⟨![1024 * k.val + 256], k0_off52_cf0 k⟩
theorem k0_off52_cf1 : ∀ k : Fin k0_t2_loop.trips, k0_off52 k 256#32 16#32 = ![1024 * k.val + 272] := by decide +kernel
instance closedOff_k0_off52_1 (k : Fin k0_t2_loop.trips) : ClosedOff (k0_off52 k 256#32 16#32) := ⟨![1024 * k.val + 272], k0_off52_cf1 k⟩
theorem k0_off52_cf2 : ∀ k : Fin k0_t2_loop.trips, k0_off52 k 256#32 32#32 = ![1024 * k.val + 288] := by decide +kernel
instance closedOff_k0_off52_2 (k : Fin k0_t2_loop.trips) : ClosedOff (k0_off52 k 256#32 32#32) := ⟨![1024 * k.val + 288], k0_off52_cf2 k⟩
theorem k0_off52_cf3 : ∀ k : Fin k0_t2_loop.trips, k0_off52 k 256#32 48#32 = ![1024 * k.val + 304] := by decide +kernel
instance closedOff_k0_off52_3 (k : Fin k0_t2_loop.trips) : ClosedOff (k0_off52 k 256#32 48#32) := ⟨![1024 * k.val + 304], k0_off52_cf3 k⟩
theorem k0_off52_cf4 : ∀ k : Fin k0_t2_loop.trips, k0_off52 k 320#32 0#32 = ![1024 * k.val + 320] := by decide +kernel
instance closedOff_k0_off52_4 (k : Fin k0_t2_loop.trips) : ClosedOff (k0_off52 k 320#32 0#32) := ⟨![1024 * k.val + 320], k0_off52_cf4 k⟩
theorem k0_off54_cf0 : ∀ k : Fin k0_t2_loop.trips, k0_off54 k 320#32 0#32 = ![1024 * k.val + 320] := by decide +kernel
instance closedOff_k0_off54_0 (k : Fin k0_t2_loop.trips) : ClosedOff (k0_off54 k 320#32 0#32) := ⟨![1024 * k.val + 320], k0_off54_cf0 k⟩
theorem k0_off54_cf1 : ∀ k : Fin k0_t2_loop.trips, k0_off54 k 320#32 16#32 = ![1024 * k.val + 336] := by decide +kernel
instance closedOff_k0_off54_1 (k : Fin k0_t2_loop.trips) : ClosedOff (k0_off54 k 320#32 16#32) := ⟨![1024 * k.val + 336], k0_off54_cf1 k⟩
theorem k0_off54_cf2 : ∀ k : Fin k0_t2_loop.trips, k0_off54 k 320#32 32#32 = ![1024 * k.val + 352] := by decide +kernel
instance closedOff_k0_off54_2 (k : Fin k0_t2_loop.trips) : ClosedOff (k0_off54 k 320#32 32#32) := ⟨![1024 * k.val + 352], k0_off54_cf2 k⟩
theorem k0_off54_cf3 : ∀ k : Fin k0_t2_loop.trips, k0_off54 k 320#32 48#32 = ![1024 * k.val + 368] := by decide +kernel
instance closedOff_k0_off54_3 (k : Fin k0_t2_loop.trips) : ClosedOff (k0_off54 k 320#32 48#32) := ⟨![1024 * k.val + 368], k0_off54_cf3 k⟩
theorem k0_off54_cf4 : ∀ k : Fin k0_t2_loop.trips, k0_off54 k 384#32 0#32 = ![1024 * k.val + 384] := by decide +kernel
instance closedOff_k0_off54_4 (k : Fin k0_t2_loop.trips) : ClosedOff (k0_off54 k 384#32 0#32) := ⟨![1024 * k.val + 384], k0_off54_cf4 k⟩
theorem k0_off56_cf0 : ∀ k : Fin k0_t2_loop.trips, k0_off56 k 384#32 0#32 = ![1024 * k.val + 384] := by decide +kernel
instance closedOff_k0_off56_0 (k : Fin k0_t2_loop.trips) : ClosedOff (k0_off56 k 384#32 0#32) := ⟨![1024 * k.val + 384], k0_off56_cf0 k⟩
theorem k0_off56_cf1 : ∀ k : Fin k0_t2_loop.trips, k0_off56 k 384#32 16#32 = ![1024 * k.val + 400] := by decide +kernel
instance closedOff_k0_off56_1 (k : Fin k0_t2_loop.trips) : ClosedOff (k0_off56 k 384#32 16#32) := ⟨![1024 * k.val + 400], k0_off56_cf1 k⟩
theorem k0_off56_cf2 : ∀ k : Fin k0_t2_loop.trips, k0_off56 k 384#32 32#32 = ![1024 * k.val + 416] := by decide +kernel
instance closedOff_k0_off56_2 (k : Fin k0_t2_loop.trips) : ClosedOff (k0_off56 k 384#32 32#32) := ⟨![1024 * k.val + 416], k0_off56_cf2 k⟩
theorem k0_off56_cf3 : ∀ k : Fin k0_t2_loop.trips, k0_off56 k 384#32 48#32 = ![1024 * k.val + 432] := by decide +kernel
instance closedOff_k0_off56_3 (k : Fin k0_t2_loop.trips) : ClosedOff (k0_off56 k 384#32 48#32) := ⟨![1024 * k.val + 432], k0_off56_cf3 k⟩
theorem k0_off56_cf4 : ∀ k : Fin k0_t2_loop.trips, k0_off56 k 448#32 0#32 = ![1024 * k.val + 448] := by decide +kernel
instance closedOff_k0_off56_4 (k : Fin k0_t2_loop.trips) : ClosedOff (k0_off56 k 448#32 0#32) := ⟨![1024 * k.val + 448], k0_off56_cf4 k⟩
theorem k0_off58_cf0 : ∀ k : Fin k0_t2_loop.trips, k0_off58 k 448#32 0#32 = ![1024 * k.val + 448] := by decide +kernel
instance closedOff_k0_off58_0 (k : Fin k0_t2_loop.trips) : ClosedOff (k0_off58 k 448#32 0#32) := ⟨![1024 * k.val + 448], k0_off58_cf0 k⟩
theorem k0_off58_cf1 : ∀ k : Fin k0_t2_loop.trips, k0_off58 k 448#32 16#32 = ![1024 * k.val + 464] := by decide +kernel
instance closedOff_k0_off58_1 (k : Fin k0_t2_loop.trips) : ClosedOff (k0_off58 k 448#32 16#32) := ⟨![1024 * k.val + 464], k0_off58_cf1 k⟩
theorem k0_off58_cf2 : ∀ k : Fin k0_t2_loop.trips, k0_off58 k 448#32 32#32 = ![1024 * k.val + 480] := by decide +kernel
instance closedOff_k0_off58_2 (k : Fin k0_t2_loop.trips) : ClosedOff (k0_off58 k 448#32 32#32) := ⟨![1024 * k.val + 480], k0_off58_cf2 k⟩
theorem k0_off58_cf3 : ∀ k : Fin k0_t2_loop.trips, k0_off58 k 448#32 48#32 = ![1024 * k.val + 496] := by decide +kernel
instance closedOff_k0_off58_3 (k : Fin k0_t2_loop.trips) : ClosedOff (k0_off58 k 448#32 48#32) := ⟨![1024 * k.val + 496], k0_off58_cf3 k⟩
theorem k0_off58_cf4 : ∀ k : Fin k0_t2_loop.trips, k0_off58 k 512#32 0#32 = ![1024 * k.val + 512] := by decide +kernel
instance closedOff_k0_off58_4 (k : Fin k0_t2_loop.trips) : ClosedOff (k0_off58 k 512#32 0#32) := ⟨![1024 * k.val + 512], k0_off58_cf4 k⟩
theorem k0_off60_cf0 : ∀ k : Fin k0_t2_loop.trips, k0_off60 k 512#32 0#32 = ![1024 * k.val + 512] := by decide +kernel
instance closedOff_k0_off60_0 (k : Fin k0_t2_loop.trips) : ClosedOff (k0_off60 k 512#32 0#32) := ⟨![1024 * k.val + 512], k0_off60_cf0 k⟩
theorem k0_off60_cf1 : ∀ k : Fin k0_t2_loop.trips, k0_off60 k 512#32 16#32 = ![1024 * k.val + 528] := by decide +kernel
instance closedOff_k0_off60_1 (k : Fin k0_t2_loop.trips) : ClosedOff (k0_off60 k 512#32 16#32) := ⟨![1024 * k.val + 528], k0_off60_cf1 k⟩
theorem k0_off60_cf2 : ∀ k : Fin k0_t2_loop.trips, k0_off60 k 512#32 32#32 = ![1024 * k.val + 544] := by decide +kernel
instance closedOff_k0_off60_2 (k : Fin k0_t2_loop.trips) : ClosedOff (k0_off60 k 512#32 32#32) := ⟨![1024 * k.val + 544], k0_off60_cf2 k⟩
theorem k0_off60_cf3 : ∀ k : Fin k0_t2_loop.trips, k0_off60 k 512#32 48#32 = ![1024 * k.val + 560] := by decide +kernel
instance closedOff_k0_off60_3 (k : Fin k0_t2_loop.trips) : ClosedOff (k0_off60 k 512#32 48#32) := ⟨![1024 * k.val + 560], k0_off60_cf3 k⟩
theorem k0_off60_cf4 : ∀ k : Fin k0_t2_loop.trips, k0_off60 k 576#32 0#32 = ![1024 * k.val + 576] := by decide +kernel
instance closedOff_k0_off60_4 (k : Fin k0_t2_loop.trips) : ClosedOff (k0_off60 k 576#32 0#32) := ⟨![1024 * k.val + 576], k0_off60_cf4 k⟩
theorem k0_off62_cf0 : ∀ k : Fin k0_t2_loop.trips, k0_off62 k 576#32 0#32 = ![1024 * k.val + 576] := by decide +kernel
instance closedOff_k0_off62_0 (k : Fin k0_t2_loop.trips) : ClosedOff (k0_off62 k 576#32 0#32) := ⟨![1024 * k.val + 576], k0_off62_cf0 k⟩
theorem k0_off62_cf1 : ∀ k : Fin k0_t2_loop.trips, k0_off62 k 576#32 16#32 = ![1024 * k.val + 592] := by decide +kernel
instance closedOff_k0_off62_1 (k : Fin k0_t2_loop.trips) : ClosedOff (k0_off62 k 576#32 16#32) := ⟨![1024 * k.val + 592], k0_off62_cf1 k⟩
theorem k0_off62_cf2 : ∀ k : Fin k0_t2_loop.trips, k0_off62 k 576#32 32#32 = ![1024 * k.val + 608] := by decide +kernel
instance closedOff_k0_off62_2 (k : Fin k0_t2_loop.trips) : ClosedOff (k0_off62 k 576#32 32#32) := ⟨![1024 * k.val + 608], k0_off62_cf2 k⟩
theorem k0_off62_cf3 : ∀ k : Fin k0_t2_loop.trips, k0_off62 k 576#32 48#32 = ![1024 * k.val + 624] := by decide +kernel
instance closedOff_k0_off62_3 (k : Fin k0_t2_loop.trips) : ClosedOff (k0_off62 k 576#32 48#32) := ⟨![1024 * k.val + 624], k0_off62_cf3 k⟩
theorem k0_off62_cf4 : ∀ k : Fin k0_t2_loop.trips, k0_off62 k 640#32 0#32 = ![1024 * k.val + 640] := by decide +kernel
instance closedOff_k0_off62_4 (k : Fin k0_t2_loop.trips) : ClosedOff (k0_off62 k 640#32 0#32) := ⟨![1024 * k.val + 640], k0_off62_cf4 k⟩
theorem k0_off64_cf0 : ∀ k : Fin k0_t2_loop.trips, k0_off64 k 640#32 0#32 = ![1024 * k.val + 640] := by decide +kernel
instance closedOff_k0_off64_0 (k : Fin k0_t2_loop.trips) : ClosedOff (k0_off64 k 640#32 0#32) := ⟨![1024 * k.val + 640], k0_off64_cf0 k⟩
theorem k0_off64_cf1 : ∀ k : Fin k0_t2_loop.trips, k0_off64 k 640#32 16#32 = ![1024 * k.val + 656] := by decide +kernel
instance closedOff_k0_off64_1 (k : Fin k0_t2_loop.trips) : ClosedOff (k0_off64 k 640#32 16#32) := ⟨![1024 * k.val + 656], k0_off64_cf1 k⟩
theorem k0_off64_cf2 : ∀ k : Fin k0_t2_loop.trips, k0_off64 k 640#32 32#32 = ![1024 * k.val + 672] := by decide +kernel
instance closedOff_k0_off64_2 (k : Fin k0_t2_loop.trips) : ClosedOff (k0_off64 k 640#32 32#32) := ⟨![1024 * k.val + 672], k0_off64_cf2 k⟩
theorem k0_off64_cf3 : ∀ k : Fin k0_t2_loop.trips, k0_off64 k 640#32 48#32 = ![1024 * k.val + 688] := by decide +kernel
instance closedOff_k0_off64_3 (k : Fin k0_t2_loop.trips) : ClosedOff (k0_off64 k 640#32 48#32) := ⟨![1024 * k.val + 688], k0_off64_cf3 k⟩
theorem k0_off64_cf4 : ∀ k : Fin k0_t2_loop.trips, k0_off64 k 704#32 0#32 = ![1024 * k.val + 704] := by decide +kernel
instance closedOff_k0_off64_4 (k : Fin k0_t2_loop.trips) : ClosedOff (k0_off64 k 704#32 0#32) := ⟨![1024 * k.val + 704], k0_off64_cf4 k⟩
theorem k0_off66_cf0 : ∀ k : Fin k0_t2_loop.trips, k0_off66 k 704#32 0#32 = ![1024 * k.val + 704] := by decide +kernel
instance closedOff_k0_off66_0 (k : Fin k0_t2_loop.trips) : ClosedOff (k0_off66 k 704#32 0#32) := ⟨![1024 * k.val + 704], k0_off66_cf0 k⟩
theorem k0_off66_cf1 : ∀ k : Fin k0_t2_loop.trips, k0_off66 k 704#32 16#32 = ![1024 * k.val + 720] := by decide +kernel
instance closedOff_k0_off66_1 (k : Fin k0_t2_loop.trips) : ClosedOff (k0_off66 k 704#32 16#32) := ⟨![1024 * k.val + 720], k0_off66_cf1 k⟩
theorem k0_off66_cf2 : ∀ k : Fin k0_t2_loop.trips, k0_off66 k 704#32 32#32 = ![1024 * k.val + 736] := by decide +kernel
instance closedOff_k0_off66_2 (k : Fin k0_t2_loop.trips) : ClosedOff (k0_off66 k 704#32 32#32) := ⟨![1024 * k.val + 736], k0_off66_cf2 k⟩
theorem k0_off66_cf3 : ∀ k : Fin k0_t2_loop.trips, k0_off66 k 704#32 48#32 = ![1024 * k.val + 752] := by decide +kernel
instance closedOff_k0_off66_3 (k : Fin k0_t2_loop.trips) : ClosedOff (k0_off66 k 704#32 48#32) := ⟨![1024 * k.val + 752], k0_off66_cf3 k⟩
theorem k0_off66_cf4 : ∀ k : Fin k0_t2_loop.trips, k0_off66 k 768#32 0#32 = ![1024 * k.val + 768] := by decide +kernel
instance closedOff_k0_off66_4 (k : Fin k0_t2_loop.trips) : ClosedOff (k0_off66 k 768#32 0#32) := ⟨![1024 * k.val + 768], k0_off66_cf4 k⟩
theorem k0_off68_cf0 : ∀ k : Fin k0_t2_loop.trips, k0_off68 k 768#32 0#32 = ![1024 * k.val + 768] := by decide +kernel
instance closedOff_k0_off68_0 (k : Fin k0_t2_loop.trips) : ClosedOff (k0_off68 k 768#32 0#32) := ⟨![1024 * k.val + 768], k0_off68_cf0 k⟩
theorem k0_off68_cf1 : ∀ k : Fin k0_t2_loop.trips, k0_off68 k 768#32 16#32 = ![1024 * k.val + 784] := by decide +kernel
instance closedOff_k0_off68_1 (k : Fin k0_t2_loop.trips) : ClosedOff (k0_off68 k 768#32 16#32) := ⟨![1024 * k.val + 784], k0_off68_cf1 k⟩
theorem k0_off68_cf2 : ∀ k : Fin k0_t2_loop.trips, k0_off68 k 768#32 32#32 = ![1024 * k.val + 800] := by decide +kernel
instance closedOff_k0_off68_2 (k : Fin k0_t2_loop.trips) : ClosedOff (k0_off68 k 768#32 32#32) := ⟨![1024 * k.val + 800], k0_off68_cf2 k⟩
theorem k0_off68_cf3 : ∀ k : Fin k0_t2_loop.trips, k0_off68 k 768#32 48#32 = ![1024 * k.val + 816] := by decide +kernel
instance closedOff_k0_off68_3 (k : Fin k0_t2_loop.trips) : ClosedOff (k0_off68 k 768#32 48#32) := ⟨![1024 * k.val + 816], k0_off68_cf3 k⟩
theorem k0_off68_cf4 : ∀ k : Fin k0_t2_loop.trips, k0_off68 k 832#32 0#32 = ![1024 * k.val + 832] := by decide +kernel
instance closedOff_k0_off68_4 (k : Fin k0_t2_loop.trips) : ClosedOff (k0_off68 k 832#32 0#32) := ⟨![1024 * k.val + 832], k0_off68_cf4 k⟩
theorem k0_off70_cf0 : ∀ k : Fin k0_t2_loop.trips, k0_off70 k 832#32 0#32 = ![1024 * k.val + 832] := by decide +kernel
instance closedOff_k0_off70_0 (k : Fin k0_t2_loop.trips) : ClosedOff (k0_off70 k 832#32 0#32) := ⟨![1024 * k.val + 832], k0_off70_cf0 k⟩
theorem k0_off70_cf1 : ∀ k : Fin k0_t2_loop.trips, k0_off70 k 832#32 16#32 = ![1024 * k.val + 848] := by decide +kernel
instance closedOff_k0_off70_1 (k : Fin k0_t2_loop.trips) : ClosedOff (k0_off70 k 832#32 16#32) := ⟨![1024 * k.val + 848], k0_off70_cf1 k⟩
theorem k0_off70_cf2 : ∀ k : Fin k0_t2_loop.trips, k0_off70 k 832#32 32#32 = ![1024 * k.val + 864] := by decide +kernel
instance closedOff_k0_off70_2 (k : Fin k0_t2_loop.trips) : ClosedOff (k0_off70 k 832#32 32#32) := ⟨![1024 * k.val + 864], k0_off70_cf2 k⟩
theorem k0_off70_cf3 : ∀ k : Fin k0_t2_loop.trips, k0_off70 k 832#32 48#32 = ![1024 * k.val + 880] := by decide +kernel
instance closedOff_k0_off70_3 (k : Fin k0_t2_loop.trips) : ClosedOff (k0_off70 k 832#32 48#32) := ⟨![1024 * k.val + 880], k0_off70_cf3 k⟩
theorem k0_off70_cf4 : ∀ k : Fin k0_t2_loop.trips, k0_off70 k 896#32 0#32 = ![1024 * k.val + 896] := by decide +kernel
instance closedOff_k0_off70_4 (k : Fin k0_t2_loop.trips) : ClosedOff (k0_off70 k 896#32 0#32) := ⟨![1024 * k.val + 896], k0_off70_cf4 k⟩
theorem k0_off72_cf0 : ∀ k : Fin k0_t2_loop.trips, k0_off72 k 896#32 0#32 = ![1024 * k.val + 896] := by decide +kernel
instance closedOff_k0_off72_0 (k : Fin k0_t2_loop.trips) : ClosedOff (k0_off72 k 896#32 0#32) := ⟨![1024 * k.val + 896], k0_off72_cf0 k⟩
theorem k0_off72_cf1 : ∀ k : Fin k0_t2_loop.trips, k0_off72 k 896#32 16#32 = ![1024 * k.val + 912] := by decide +kernel
instance closedOff_k0_off72_1 (k : Fin k0_t2_loop.trips) : ClosedOff (k0_off72 k 896#32 16#32) := ⟨![1024 * k.val + 912], k0_off72_cf1 k⟩
theorem k0_off72_cf2 : ∀ k : Fin k0_t2_loop.trips, k0_off72 k 896#32 32#32 = ![1024 * k.val + 928] := by decide +kernel
instance closedOff_k0_off72_2 (k : Fin k0_t2_loop.trips) : ClosedOff (k0_off72 k 896#32 32#32) := ⟨![1024 * k.val + 928], k0_off72_cf2 k⟩
theorem k0_off72_cf3 : ∀ k : Fin k0_t2_loop.trips, k0_off72 k 896#32 48#32 = ![1024 * k.val + 944] := by decide +kernel
instance closedOff_k0_off72_3 (k : Fin k0_t2_loop.trips) : ClosedOff (k0_off72 k 896#32 48#32) := ⟨![1024 * k.val + 944], k0_off72_cf3 k⟩
theorem k0_off72_cf4 : ∀ k : Fin k0_t2_loop.trips, k0_off72 k 960#32 0#32 = ![1024 * k.val + 960] := by decide +kernel
instance closedOff_k0_off72_4 (k : Fin k0_t2_loop.trips) : ClosedOff (k0_off72 k 960#32 0#32) := ⟨![1024 * k.val + 960], k0_off72_cf4 k⟩
theorem k0_off80_cf0 : ∀ k : Fin k0_t3_loop.trips, k0_off80 k 0#32 0#32 = ![1024 * k.val + 0] := by decide +kernel
instance closedOff_k0_off80_0 (k : Fin k0_t3_loop.trips) : ClosedOff (k0_off80 k 0#32 0#32) := ⟨![1024 * k.val + 0], k0_off80_cf0 k⟩
theorem k0_off80_cf1 : ∀ k : Fin k0_t3_loop.trips, k0_off80 k 0#32 16#32 = ![1024 * k.val + 16] := by decide +kernel
instance closedOff_k0_off80_1 (k : Fin k0_t3_loop.trips) : ClosedOff (k0_off80 k 0#32 16#32) := ⟨![1024 * k.val + 16], k0_off80_cf1 k⟩
theorem k0_off80_cf2 : ∀ k : Fin k0_t3_loop.trips, k0_off80 k 0#32 32#32 = ![1024 * k.val + 32] := by decide +kernel
instance closedOff_k0_off80_2 (k : Fin k0_t3_loop.trips) : ClosedOff (k0_off80 k 0#32 32#32) := ⟨![1024 * k.val + 32], k0_off80_cf2 k⟩
theorem k0_off80_cf3 : ∀ k : Fin k0_t3_loop.trips, k0_off80 k 0#32 48#32 = ![1024 * k.val + 48] := by decide +kernel
instance closedOff_k0_off80_3 (k : Fin k0_t3_loop.trips) : ClosedOff (k0_off80 k 0#32 48#32) := ⟨![1024 * k.val + 48], k0_off80_cf3 k⟩
theorem k0_off80_cf4 : ∀ k : Fin k0_t3_loop.trips, k0_off80 k 64#32 0#32 = ![1024 * k.val + 64] := by decide +kernel
instance closedOff_k0_off80_4 (k : Fin k0_t3_loop.trips) : ClosedOff (k0_off80 k 64#32 0#32) := ⟨![1024 * k.val + 64], k0_off80_cf4 k⟩
theorem k0_off82_cf0 : ∀ k : Fin k0_t3_loop.trips, k0_off82 k 64#32 0#32 = ![1024 * k.val + 64] := by decide +kernel
instance closedOff_k0_off82_0 (k : Fin k0_t3_loop.trips) : ClosedOff (k0_off82 k 64#32 0#32) := ⟨![1024 * k.val + 64], k0_off82_cf0 k⟩
theorem k0_off82_cf1 : ∀ k : Fin k0_t3_loop.trips, k0_off82 k 64#32 16#32 = ![1024 * k.val + 80] := by decide +kernel
instance closedOff_k0_off82_1 (k : Fin k0_t3_loop.trips) : ClosedOff (k0_off82 k 64#32 16#32) := ⟨![1024 * k.val + 80], k0_off82_cf1 k⟩
theorem k0_off82_cf2 : ∀ k : Fin k0_t3_loop.trips, k0_off82 k 64#32 32#32 = ![1024 * k.val + 96] := by decide +kernel
instance closedOff_k0_off82_2 (k : Fin k0_t3_loop.trips) : ClosedOff (k0_off82 k 64#32 32#32) := ⟨![1024 * k.val + 96], k0_off82_cf2 k⟩
theorem k0_off82_cf3 : ∀ k : Fin k0_t3_loop.trips, k0_off82 k 64#32 48#32 = ![1024 * k.val + 112] := by decide +kernel
instance closedOff_k0_off82_3 (k : Fin k0_t3_loop.trips) : ClosedOff (k0_off82 k 64#32 48#32) := ⟨![1024 * k.val + 112], k0_off82_cf3 k⟩
theorem k0_off82_cf4 : ∀ k : Fin k0_t3_loop.trips, k0_off82 k 128#32 0#32 = ![1024 * k.val + 128] := by decide +kernel
instance closedOff_k0_off82_4 (k : Fin k0_t3_loop.trips) : ClosedOff (k0_off82 k 128#32 0#32) := ⟨![1024 * k.val + 128], k0_off82_cf4 k⟩
theorem k0_off84_cf0 : ∀ k : Fin k0_t3_loop.trips, k0_off84 k 128#32 0#32 = ![1024 * k.val + 128] := by decide +kernel
instance closedOff_k0_off84_0 (k : Fin k0_t3_loop.trips) : ClosedOff (k0_off84 k 128#32 0#32) := ⟨![1024 * k.val + 128], k0_off84_cf0 k⟩
theorem k0_off84_cf1 : ∀ k : Fin k0_t3_loop.trips, k0_off84 k 128#32 16#32 = ![1024 * k.val + 144] := by decide +kernel
instance closedOff_k0_off84_1 (k : Fin k0_t3_loop.trips) : ClosedOff (k0_off84 k 128#32 16#32) := ⟨![1024 * k.val + 144], k0_off84_cf1 k⟩
theorem k0_off84_cf2 : ∀ k : Fin k0_t3_loop.trips, k0_off84 k 128#32 32#32 = ![1024 * k.val + 160] := by decide +kernel
instance closedOff_k0_off84_2 (k : Fin k0_t3_loop.trips) : ClosedOff (k0_off84 k 128#32 32#32) := ⟨![1024 * k.val + 160], k0_off84_cf2 k⟩
theorem k0_off84_cf3 : ∀ k : Fin k0_t3_loop.trips, k0_off84 k 128#32 48#32 = ![1024 * k.val + 176] := by decide +kernel
instance closedOff_k0_off84_3 (k : Fin k0_t3_loop.trips) : ClosedOff (k0_off84 k 128#32 48#32) := ⟨![1024 * k.val + 176], k0_off84_cf3 k⟩
theorem k0_off84_cf4 : ∀ k : Fin k0_t3_loop.trips, k0_off84 k 192#32 0#32 = ![1024 * k.val + 192] := by decide +kernel
instance closedOff_k0_off84_4 (k : Fin k0_t3_loop.trips) : ClosedOff (k0_off84 k 192#32 0#32) := ⟨![1024 * k.val + 192], k0_off84_cf4 k⟩
theorem k0_off86_cf0 : ∀ k : Fin k0_t3_loop.trips, k0_off86 k 192#32 0#32 = ![1024 * k.val + 192] := by decide +kernel
instance closedOff_k0_off86_0 (k : Fin k0_t3_loop.trips) : ClosedOff (k0_off86 k 192#32 0#32) := ⟨![1024 * k.val + 192], k0_off86_cf0 k⟩
theorem k0_off86_cf1 : ∀ k : Fin k0_t3_loop.trips, k0_off86 k 192#32 16#32 = ![1024 * k.val + 208] := by decide +kernel
instance closedOff_k0_off86_1 (k : Fin k0_t3_loop.trips) : ClosedOff (k0_off86 k 192#32 16#32) := ⟨![1024 * k.val + 208], k0_off86_cf1 k⟩
theorem k0_off86_cf2 : ∀ k : Fin k0_t3_loop.trips, k0_off86 k 192#32 32#32 = ![1024 * k.val + 224] := by decide +kernel
instance closedOff_k0_off86_2 (k : Fin k0_t3_loop.trips) : ClosedOff (k0_off86 k 192#32 32#32) := ⟨![1024 * k.val + 224], k0_off86_cf2 k⟩
theorem k0_off86_cf3 : ∀ k : Fin k0_t3_loop.trips, k0_off86 k 192#32 48#32 = ![1024 * k.val + 240] := by decide +kernel
instance closedOff_k0_off86_3 (k : Fin k0_t3_loop.trips) : ClosedOff (k0_off86 k 192#32 48#32) := ⟨![1024 * k.val + 240], k0_off86_cf3 k⟩
theorem k0_off86_cf4 : ∀ k : Fin k0_t3_loop.trips, k0_off86 k 256#32 0#32 = ![1024 * k.val + 256] := by decide +kernel
instance closedOff_k0_off86_4 (k : Fin k0_t3_loop.trips) : ClosedOff (k0_off86 k 256#32 0#32) := ⟨![1024 * k.val + 256], k0_off86_cf4 k⟩
theorem k0_off88_cf0 : ∀ k : Fin k0_t3_loop.trips, k0_off88 k 256#32 0#32 = ![1024 * k.val + 256] := by decide +kernel
instance closedOff_k0_off88_0 (k : Fin k0_t3_loop.trips) : ClosedOff (k0_off88 k 256#32 0#32) := ⟨![1024 * k.val + 256], k0_off88_cf0 k⟩
theorem k0_off88_cf1 : ∀ k : Fin k0_t3_loop.trips, k0_off88 k 256#32 16#32 = ![1024 * k.val + 272] := by decide +kernel
instance closedOff_k0_off88_1 (k : Fin k0_t3_loop.trips) : ClosedOff (k0_off88 k 256#32 16#32) := ⟨![1024 * k.val + 272], k0_off88_cf1 k⟩
theorem k0_off88_cf2 : ∀ k : Fin k0_t3_loop.trips, k0_off88 k 256#32 32#32 = ![1024 * k.val + 288] := by decide +kernel
instance closedOff_k0_off88_2 (k : Fin k0_t3_loop.trips) : ClosedOff (k0_off88 k 256#32 32#32) := ⟨![1024 * k.val + 288], k0_off88_cf2 k⟩
theorem k0_off88_cf3 : ∀ k : Fin k0_t3_loop.trips, k0_off88 k 256#32 48#32 = ![1024 * k.val + 304] := by decide +kernel
instance closedOff_k0_off88_3 (k : Fin k0_t3_loop.trips) : ClosedOff (k0_off88 k 256#32 48#32) := ⟨![1024 * k.val + 304], k0_off88_cf3 k⟩
theorem k0_off88_cf4 : ∀ k : Fin k0_t3_loop.trips, k0_off88 k 320#32 0#32 = ![1024 * k.val + 320] := by decide +kernel
instance closedOff_k0_off88_4 (k : Fin k0_t3_loop.trips) : ClosedOff (k0_off88 k 320#32 0#32) := ⟨![1024 * k.val + 320], k0_off88_cf4 k⟩
theorem k0_off90_cf0 : ∀ k : Fin k0_t3_loop.trips, k0_off90 k 320#32 0#32 = ![1024 * k.val + 320] := by decide +kernel
instance closedOff_k0_off90_0 (k : Fin k0_t3_loop.trips) : ClosedOff (k0_off90 k 320#32 0#32) := ⟨![1024 * k.val + 320], k0_off90_cf0 k⟩
theorem k0_off90_cf1 : ∀ k : Fin k0_t3_loop.trips, k0_off90 k 320#32 16#32 = ![1024 * k.val + 336] := by decide +kernel
instance closedOff_k0_off90_1 (k : Fin k0_t3_loop.trips) : ClosedOff (k0_off90 k 320#32 16#32) := ⟨![1024 * k.val + 336], k0_off90_cf1 k⟩
theorem k0_off90_cf2 : ∀ k : Fin k0_t3_loop.trips, k0_off90 k 320#32 32#32 = ![1024 * k.val + 352] := by decide +kernel
instance closedOff_k0_off90_2 (k : Fin k0_t3_loop.trips) : ClosedOff (k0_off90 k 320#32 32#32) := ⟨![1024 * k.val + 352], k0_off90_cf2 k⟩
theorem k0_off90_cf3 : ∀ k : Fin k0_t3_loop.trips, k0_off90 k 320#32 48#32 = ![1024 * k.val + 368] := by decide +kernel
instance closedOff_k0_off90_3 (k : Fin k0_t3_loop.trips) : ClosedOff (k0_off90 k 320#32 48#32) := ⟨![1024 * k.val + 368], k0_off90_cf3 k⟩
theorem k0_off90_cf4 : ∀ k : Fin k0_t3_loop.trips, k0_off90 k 384#32 0#32 = ![1024 * k.val + 384] := by decide +kernel
instance closedOff_k0_off90_4 (k : Fin k0_t3_loop.trips) : ClosedOff (k0_off90 k 384#32 0#32) := ⟨![1024 * k.val + 384], k0_off90_cf4 k⟩
theorem k0_off92_cf0 : ∀ k : Fin k0_t3_loop.trips, k0_off92 k 384#32 0#32 = ![1024 * k.val + 384] := by decide +kernel
instance closedOff_k0_off92_0 (k : Fin k0_t3_loop.trips) : ClosedOff (k0_off92 k 384#32 0#32) := ⟨![1024 * k.val + 384], k0_off92_cf0 k⟩
theorem k0_off92_cf1 : ∀ k : Fin k0_t3_loop.trips, k0_off92 k 384#32 16#32 = ![1024 * k.val + 400] := by decide +kernel
instance closedOff_k0_off92_1 (k : Fin k0_t3_loop.trips) : ClosedOff (k0_off92 k 384#32 16#32) := ⟨![1024 * k.val + 400], k0_off92_cf1 k⟩
theorem k0_off92_cf2 : ∀ k : Fin k0_t3_loop.trips, k0_off92 k 384#32 32#32 = ![1024 * k.val + 416] := by decide +kernel
instance closedOff_k0_off92_2 (k : Fin k0_t3_loop.trips) : ClosedOff (k0_off92 k 384#32 32#32) := ⟨![1024 * k.val + 416], k0_off92_cf2 k⟩
theorem k0_off92_cf3 : ∀ k : Fin k0_t3_loop.trips, k0_off92 k 384#32 48#32 = ![1024 * k.val + 432] := by decide +kernel
instance closedOff_k0_off92_3 (k : Fin k0_t3_loop.trips) : ClosedOff (k0_off92 k 384#32 48#32) := ⟨![1024 * k.val + 432], k0_off92_cf3 k⟩
theorem k0_off92_cf4 : ∀ k : Fin k0_t3_loop.trips, k0_off92 k 448#32 0#32 = ![1024 * k.val + 448] := by decide +kernel
instance closedOff_k0_off92_4 (k : Fin k0_t3_loop.trips) : ClosedOff (k0_off92 k 448#32 0#32) := ⟨![1024 * k.val + 448], k0_off92_cf4 k⟩
theorem k0_off94_cf0 : ∀ k : Fin k0_t3_loop.trips, k0_off94 k 448#32 0#32 = ![1024 * k.val + 448] := by decide +kernel
instance closedOff_k0_off94_0 (k : Fin k0_t3_loop.trips) : ClosedOff (k0_off94 k 448#32 0#32) := ⟨![1024 * k.val + 448], k0_off94_cf0 k⟩
theorem k0_off94_cf1 : ∀ k : Fin k0_t3_loop.trips, k0_off94 k 448#32 16#32 = ![1024 * k.val + 464] := by decide +kernel
instance closedOff_k0_off94_1 (k : Fin k0_t3_loop.trips) : ClosedOff (k0_off94 k 448#32 16#32) := ⟨![1024 * k.val + 464], k0_off94_cf1 k⟩
theorem k0_off94_cf2 : ∀ k : Fin k0_t3_loop.trips, k0_off94 k 448#32 32#32 = ![1024 * k.val + 480] := by decide +kernel
instance closedOff_k0_off94_2 (k : Fin k0_t3_loop.trips) : ClosedOff (k0_off94 k 448#32 32#32) := ⟨![1024 * k.val + 480], k0_off94_cf2 k⟩
theorem k0_off94_cf3 : ∀ k : Fin k0_t3_loop.trips, k0_off94 k 448#32 48#32 = ![1024 * k.val + 496] := by decide +kernel
instance closedOff_k0_off94_3 (k : Fin k0_t3_loop.trips) : ClosedOff (k0_off94 k 448#32 48#32) := ⟨![1024 * k.val + 496], k0_off94_cf3 k⟩
theorem k0_off94_cf4 : ∀ k : Fin k0_t3_loop.trips, k0_off94 k 512#32 0#32 = ![1024 * k.val + 512] := by decide +kernel
instance closedOff_k0_off94_4 (k : Fin k0_t3_loop.trips) : ClosedOff (k0_off94 k 512#32 0#32) := ⟨![1024 * k.val + 512], k0_off94_cf4 k⟩
theorem k0_off96_cf0 : ∀ k : Fin k0_t3_loop.trips, k0_off96 k 512#32 0#32 = ![1024 * k.val + 512] := by decide +kernel
instance closedOff_k0_off96_0 (k : Fin k0_t3_loop.trips) : ClosedOff (k0_off96 k 512#32 0#32) := ⟨![1024 * k.val + 512], k0_off96_cf0 k⟩
theorem k0_off96_cf1 : ∀ k : Fin k0_t3_loop.trips, k0_off96 k 512#32 16#32 = ![1024 * k.val + 528] := by decide +kernel
instance closedOff_k0_off96_1 (k : Fin k0_t3_loop.trips) : ClosedOff (k0_off96 k 512#32 16#32) := ⟨![1024 * k.val + 528], k0_off96_cf1 k⟩
theorem k0_off96_cf2 : ∀ k : Fin k0_t3_loop.trips, k0_off96 k 512#32 32#32 = ![1024 * k.val + 544] := by decide +kernel
instance closedOff_k0_off96_2 (k : Fin k0_t3_loop.trips) : ClosedOff (k0_off96 k 512#32 32#32) := ⟨![1024 * k.val + 544], k0_off96_cf2 k⟩
theorem k0_off96_cf3 : ∀ k : Fin k0_t3_loop.trips, k0_off96 k 512#32 48#32 = ![1024 * k.val + 560] := by decide +kernel
instance closedOff_k0_off96_3 (k : Fin k0_t3_loop.trips) : ClosedOff (k0_off96 k 512#32 48#32) := ⟨![1024 * k.val + 560], k0_off96_cf3 k⟩
theorem k0_off96_cf4 : ∀ k : Fin k0_t3_loop.trips, k0_off96 k 576#32 0#32 = ![1024 * k.val + 576] := by decide +kernel
instance closedOff_k0_off96_4 (k : Fin k0_t3_loop.trips) : ClosedOff (k0_off96 k 576#32 0#32) := ⟨![1024 * k.val + 576], k0_off96_cf4 k⟩
theorem k0_off98_cf0 : ∀ k : Fin k0_t3_loop.trips, k0_off98 k 576#32 0#32 = ![1024 * k.val + 576] := by decide +kernel
instance closedOff_k0_off98_0 (k : Fin k0_t3_loop.trips) : ClosedOff (k0_off98 k 576#32 0#32) := ⟨![1024 * k.val + 576], k0_off98_cf0 k⟩
theorem k0_off98_cf1 : ∀ k : Fin k0_t3_loop.trips, k0_off98 k 576#32 16#32 = ![1024 * k.val + 592] := by decide +kernel
instance closedOff_k0_off98_1 (k : Fin k0_t3_loop.trips) : ClosedOff (k0_off98 k 576#32 16#32) := ⟨![1024 * k.val + 592], k0_off98_cf1 k⟩
theorem k0_off98_cf2 : ∀ k : Fin k0_t3_loop.trips, k0_off98 k 576#32 32#32 = ![1024 * k.val + 608] := by decide +kernel
instance closedOff_k0_off98_2 (k : Fin k0_t3_loop.trips) : ClosedOff (k0_off98 k 576#32 32#32) := ⟨![1024 * k.val + 608], k0_off98_cf2 k⟩
theorem k0_off98_cf3 : ∀ k : Fin k0_t3_loop.trips, k0_off98 k 576#32 48#32 = ![1024 * k.val + 624] := by decide +kernel
instance closedOff_k0_off98_3 (k : Fin k0_t3_loop.trips) : ClosedOff (k0_off98 k 576#32 48#32) := ⟨![1024 * k.val + 624], k0_off98_cf3 k⟩
theorem k0_off98_cf4 : ∀ k : Fin k0_t3_loop.trips, k0_off98 k 640#32 0#32 = ![1024 * k.val + 640] := by decide +kernel
instance closedOff_k0_off98_4 (k : Fin k0_t3_loop.trips) : ClosedOff (k0_off98 k 640#32 0#32) := ⟨![1024 * k.val + 640], k0_off98_cf4 k⟩
theorem k0_off100_cf0 : ∀ k : Fin k0_t3_loop.trips, k0_off100 k 640#32 0#32 = ![1024 * k.val + 640] := by decide +kernel
instance closedOff_k0_off100_0 (k : Fin k0_t3_loop.trips) : ClosedOff (k0_off100 k 640#32 0#32) := ⟨![1024 * k.val + 640], k0_off100_cf0 k⟩
theorem k0_off100_cf1 : ∀ k : Fin k0_t3_loop.trips, k0_off100 k 640#32 16#32 = ![1024 * k.val + 656] := by decide +kernel
instance closedOff_k0_off100_1 (k : Fin k0_t3_loop.trips) : ClosedOff (k0_off100 k 640#32 16#32) := ⟨![1024 * k.val + 656], k0_off100_cf1 k⟩
theorem k0_off100_cf2 : ∀ k : Fin k0_t3_loop.trips, k0_off100 k 640#32 32#32 = ![1024 * k.val + 672] := by decide +kernel
instance closedOff_k0_off100_2 (k : Fin k0_t3_loop.trips) : ClosedOff (k0_off100 k 640#32 32#32) := ⟨![1024 * k.val + 672], k0_off100_cf2 k⟩
theorem k0_off100_cf3 : ∀ k : Fin k0_t3_loop.trips, k0_off100 k 640#32 48#32 = ![1024 * k.val + 688] := by decide +kernel
instance closedOff_k0_off100_3 (k : Fin k0_t3_loop.trips) : ClosedOff (k0_off100 k 640#32 48#32) := ⟨![1024 * k.val + 688], k0_off100_cf3 k⟩
theorem k0_off100_cf4 : ∀ k : Fin k0_t3_loop.trips, k0_off100 k 704#32 0#32 = ![1024 * k.val + 704] := by decide +kernel
instance closedOff_k0_off100_4 (k : Fin k0_t3_loop.trips) : ClosedOff (k0_off100 k 704#32 0#32) := ⟨![1024 * k.val + 704], k0_off100_cf4 k⟩
theorem k0_off102_cf0 : ∀ k : Fin k0_t3_loop.trips, k0_off102 k 704#32 0#32 = ![1024 * k.val + 704] := by decide +kernel
instance closedOff_k0_off102_0 (k : Fin k0_t3_loop.trips) : ClosedOff (k0_off102 k 704#32 0#32) := ⟨![1024 * k.val + 704], k0_off102_cf0 k⟩
theorem k0_off102_cf1 : ∀ k : Fin k0_t3_loop.trips, k0_off102 k 704#32 16#32 = ![1024 * k.val + 720] := by decide +kernel
instance closedOff_k0_off102_1 (k : Fin k0_t3_loop.trips) : ClosedOff (k0_off102 k 704#32 16#32) := ⟨![1024 * k.val + 720], k0_off102_cf1 k⟩
theorem k0_off102_cf2 : ∀ k : Fin k0_t3_loop.trips, k0_off102 k 704#32 32#32 = ![1024 * k.val + 736] := by decide +kernel
instance closedOff_k0_off102_2 (k : Fin k0_t3_loop.trips) : ClosedOff (k0_off102 k 704#32 32#32) := ⟨![1024 * k.val + 736], k0_off102_cf2 k⟩
theorem k0_off102_cf3 : ∀ k : Fin k0_t3_loop.trips, k0_off102 k 704#32 48#32 = ![1024 * k.val + 752] := by decide +kernel
instance closedOff_k0_off102_3 (k : Fin k0_t3_loop.trips) : ClosedOff (k0_off102 k 704#32 48#32) := ⟨![1024 * k.val + 752], k0_off102_cf3 k⟩
theorem k0_off102_cf4 : ∀ k : Fin k0_t3_loop.trips, k0_off102 k 768#32 0#32 = ![1024 * k.val + 768] := by decide +kernel
instance closedOff_k0_off102_4 (k : Fin k0_t3_loop.trips) : ClosedOff (k0_off102 k 768#32 0#32) := ⟨![1024 * k.val + 768], k0_off102_cf4 k⟩
theorem k0_off104_cf0 : ∀ k : Fin k0_t3_loop.trips, k0_off104 k 768#32 0#32 = ![1024 * k.val + 768] := by decide +kernel
instance closedOff_k0_off104_0 (k : Fin k0_t3_loop.trips) : ClosedOff (k0_off104 k 768#32 0#32) := ⟨![1024 * k.val + 768], k0_off104_cf0 k⟩
theorem k0_off104_cf1 : ∀ k : Fin k0_t3_loop.trips, k0_off104 k 768#32 16#32 = ![1024 * k.val + 784] := by decide +kernel
instance closedOff_k0_off104_1 (k : Fin k0_t3_loop.trips) : ClosedOff (k0_off104 k 768#32 16#32) := ⟨![1024 * k.val + 784], k0_off104_cf1 k⟩
theorem k0_off104_cf2 : ∀ k : Fin k0_t3_loop.trips, k0_off104 k 768#32 32#32 = ![1024 * k.val + 800] := by decide +kernel
instance closedOff_k0_off104_2 (k : Fin k0_t3_loop.trips) : ClosedOff (k0_off104 k 768#32 32#32) := ⟨![1024 * k.val + 800], k0_off104_cf2 k⟩
theorem k0_off104_cf3 : ∀ k : Fin k0_t3_loop.trips, k0_off104 k 768#32 48#32 = ![1024 * k.val + 816] := by decide +kernel
instance closedOff_k0_off104_3 (k : Fin k0_t3_loop.trips) : ClosedOff (k0_off104 k 768#32 48#32) := ⟨![1024 * k.val + 816], k0_off104_cf3 k⟩
theorem k0_off104_cf4 : ∀ k : Fin k0_t3_loop.trips, k0_off104 k 832#32 0#32 = ![1024 * k.val + 832] := by decide +kernel
instance closedOff_k0_off104_4 (k : Fin k0_t3_loop.trips) : ClosedOff (k0_off104 k 832#32 0#32) := ⟨![1024 * k.val + 832], k0_off104_cf4 k⟩
theorem k0_off106_cf0 : ∀ k : Fin k0_t3_loop.trips, k0_off106 k 832#32 0#32 = ![1024 * k.val + 832] := by decide +kernel
instance closedOff_k0_off106_0 (k : Fin k0_t3_loop.trips) : ClosedOff (k0_off106 k 832#32 0#32) := ⟨![1024 * k.val + 832], k0_off106_cf0 k⟩
theorem k0_off106_cf1 : ∀ k : Fin k0_t3_loop.trips, k0_off106 k 832#32 16#32 = ![1024 * k.val + 848] := by decide +kernel
instance closedOff_k0_off106_1 (k : Fin k0_t3_loop.trips) : ClosedOff (k0_off106 k 832#32 16#32) := ⟨![1024 * k.val + 848], k0_off106_cf1 k⟩
theorem k0_off106_cf2 : ∀ k : Fin k0_t3_loop.trips, k0_off106 k 832#32 32#32 = ![1024 * k.val + 864] := by decide +kernel
instance closedOff_k0_off106_2 (k : Fin k0_t3_loop.trips) : ClosedOff (k0_off106 k 832#32 32#32) := ⟨![1024 * k.val + 864], k0_off106_cf2 k⟩
theorem k0_off106_cf3 : ∀ k : Fin k0_t3_loop.trips, k0_off106 k 832#32 48#32 = ![1024 * k.val + 880] := by decide +kernel
instance closedOff_k0_off106_3 (k : Fin k0_t3_loop.trips) : ClosedOff (k0_off106 k 832#32 48#32) := ⟨![1024 * k.val + 880], k0_off106_cf3 k⟩
theorem k0_off106_cf4 : ∀ k : Fin k0_t3_loop.trips, k0_off106 k 896#32 0#32 = ![1024 * k.val + 896] := by decide +kernel
instance closedOff_k0_off106_4 (k : Fin k0_t3_loop.trips) : ClosedOff (k0_off106 k 896#32 0#32) := ⟨![1024 * k.val + 896], k0_off106_cf4 k⟩
theorem k0_off108_cf0 : ∀ k : Fin k0_t3_loop.trips, k0_off108 k 896#32 0#32 = ![1024 * k.val + 896] := by decide +kernel
instance closedOff_k0_off108_0 (k : Fin k0_t3_loop.trips) : ClosedOff (k0_off108 k 896#32 0#32) := ⟨![1024 * k.val + 896], k0_off108_cf0 k⟩
theorem k0_off108_cf1 : ∀ k : Fin k0_t3_loop.trips, k0_off108 k 896#32 16#32 = ![1024 * k.val + 912] := by decide +kernel
instance closedOff_k0_off108_1 (k : Fin k0_t3_loop.trips) : ClosedOff (k0_off108 k 896#32 16#32) := ⟨![1024 * k.val + 912], k0_off108_cf1 k⟩
theorem k0_off108_cf2 : ∀ k : Fin k0_t3_loop.trips, k0_off108 k 896#32 32#32 = ![1024 * k.val + 928] := by decide +kernel
instance closedOff_k0_off108_2 (k : Fin k0_t3_loop.trips) : ClosedOff (k0_off108 k 896#32 32#32) := ⟨![1024 * k.val + 928], k0_off108_cf2 k⟩
theorem k0_off108_cf3 : ∀ k : Fin k0_t3_loop.trips, k0_off108 k 896#32 48#32 = ![1024 * k.val + 944] := by decide +kernel
instance closedOff_k0_off108_3 (k : Fin k0_t3_loop.trips) : ClosedOff (k0_off108 k 896#32 48#32) := ⟨![1024 * k.val + 944], k0_off108_cf3 k⟩
theorem k0_off108_cf4 : ∀ k : Fin k0_t3_loop.trips, k0_off108 k 960#32 0#32 = ![1024 * k.val + 960] := by decide +kernel
instance closedOff_k0_off108_4 (k : Fin k0_t3_loop.trips) : ClosedOff (k0_off108 k 960#32 0#32) := ⟨![1024 * k.val + 960], k0_off108_cf4 k⟩
theorem k0_off116_cf0 : ∀ k : Fin k0_t5_loop.trips, k0_off116 k 0#32 0#32 = ![1024 * k.val + 0] := by decide +kernel
instance closedOff_k0_off116_0 (k : Fin k0_t5_loop.trips) : ClosedOff (k0_off116 k 0#32 0#32) := ⟨![1024 * k.val + 0], k0_off116_cf0 k⟩
theorem k0_off116_cf1 : ∀ k : Fin k0_t5_loop.trips, k0_off116 k 0#32 16#32 = ![1024 * k.val + 16] := by decide +kernel
instance closedOff_k0_off116_1 (k : Fin k0_t5_loop.trips) : ClosedOff (k0_off116 k 0#32 16#32) := ⟨![1024 * k.val + 16], k0_off116_cf1 k⟩
theorem k0_off116_cf2 : ∀ k : Fin k0_t5_loop.trips, k0_off116 k 0#32 32#32 = ![1024 * k.val + 32] := by decide +kernel
instance closedOff_k0_off116_2 (k : Fin k0_t5_loop.trips) : ClosedOff (k0_off116 k 0#32 32#32) := ⟨![1024 * k.val + 32], k0_off116_cf2 k⟩
theorem k0_off116_cf3 : ∀ k : Fin k0_t5_loop.trips, k0_off116 k 0#32 48#32 = ![1024 * k.val + 48] := by decide +kernel
instance closedOff_k0_off116_3 (k : Fin k0_t5_loop.trips) : ClosedOff (k0_off116 k 0#32 48#32) := ⟨![1024 * k.val + 48], k0_off116_cf3 k⟩
theorem k0_off116_cf4 : ∀ k : Fin k0_t5_loop.trips, k0_off116 k 64#32 0#32 = ![1024 * k.val + 64] := by decide +kernel
instance closedOff_k0_off116_4 (k : Fin k0_t5_loop.trips) : ClosedOff (k0_off116 k 64#32 0#32) := ⟨![1024 * k.val + 64], k0_off116_cf4 k⟩
theorem k0_off118_cf0 : ∀ k : Fin k0_t5_loop.trips, k0_off118 k 64#32 0#32 = ![1024 * k.val + 64] := by decide +kernel
instance closedOff_k0_off118_0 (k : Fin k0_t5_loop.trips) : ClosedOff (k0_off118 k 64#32 0#32) := ⟨![1024 * k.val + 64], k0_off118_cf0 k⟩
theorem k0_off118_cf1 : ∀ k : Fin k0_t5_loop.trips, k0_off118 k 64#32 16#32 = ![1024 * k.val + 80] := by decide +kernel
instance closedOff_k0_off118_1 (k : Fin k0_t5_loop.trips) : ClosedOff (k0_off118 k 64#32 16#32) := ⟨![1024 * k.val + 80], k0_off118_cf1 k⟩
theorem k0_off118_cf2 : ∀ k : Fin k0_t5_loop.trips, k0_off118 k 64#32 32#32 = ![1024 * k.val + 96] := by decide +kernel
instance closedOff_k0_off118_2 (k : Fin k0_t5_loop.trips) : ClosedOff (k0_off118 k 64#32 32#32) := ⟨![1024 * k.val + 96], k0_off118_cf2 k⟩
theorem k0_off118_cf3 : ∀ k : Fin k0_t5_loop.trips, k0_off118 k 64#32 48#32 = ![1024 * k.val + 112] := by decide +kernel
instance closedOff_k0_off118_3 (k : Fin k0_t5_loop.trips) : ClosedOff (k0_off118 k 64#32 48#32) := ⟨![1024 * k.val + 112], k0_off118_cf3 k⟩
theorem k0_off118_cf4 : ∀ k : Fin k0_t5_loop.trips, k0_off118 k 128#32 0#32 = ![1024 * k.val + 128] := by decide +kernel
instance closedOff_k0_off118_4 (k : Fin k0_t5_loop.trips) : ClosedOff (k0_off118 k 128#32 0#32) := ⟨![1024 * k.val + 128], k0_off118_cf4 k⟩
theorem k0_off120_cf0 : ∀ k : Fin k0_t5_loop.trips, k0_off120 k 128#32 0#32 = ![1024 * k.val + 128] := by decide +kernel
instance closedOff_k0_off120_0 (k : Fin k0_t5_loop.trips) : ClosedOff (k0_off120 k 128#32 0#32) := ⟨![1024 * k.val + 128], k0_off120_cf0 k⟩
theorem k0_off120_cf1 : ∀ k : Fin k0_t5_loop.trips, k0_off120 k 128#32 16#32 = ![1024 * k.val + 144] := by decide +kernel
instance closedOff_k0_off120_1 (k : Fin k0_t5_loop.trips) : ClosedOff (k0_off120 k 128#32 16#32) := ⟨![1024 * k.val + 144], k0_off120_cf1 k⟩
theorem k0_off120_cf2 : ∀ k : Fin k0_t5_loop.trips, k0_off120 k 128#32 32#32 = ![1024 * k.val + 160] := by decide +kernel
instance closedOff_k0_off120_2 (k : Fin k0_t5_loop.trips) : ClosedOff (k0_off120 k 128#32 32#32) := ⟨![1024 * k.val + 160], k0_off120_cf2 k⟩
theorem k0_off120_cf3 : ∀ k : Fin k0_t5_loop.trips, k0_off120 k 128#32 48#32 = ![1024 * k.val + 176] := by decide +kernel
instance closedOff_k0_off120_3 (k : Fin k0_t5_loop.trips) : ClosedOff (k0_off120 k 128#32 48#32) := ⟨![1024 * k.val + 176], k0_off120_cf3 k⟩
theorem k0_off120_cf4 : ∀ k : Fin k0_t5_loop.trips, k0_off120 k 192#32 0#32 = ![1024 * k.val + 192] := by decide +kernel
instance closedOff_k0_off120_4 (k : Fin k0_t5_loop.trips) : ClosedOff (k0_off120 k 192#32 0#32) := ⟨![1024 * k.val + 192], k0_off120_cf4 k⟩
theorem k0_off122_cf0 : ∀ k : Fin k0_t5_loop.trips, k0_off122 k 192#32 0#32 = ![1024 * k.val + 192] := by decide +kernel
instance closedOff_k0_off122_0 (k : Fin k0_t5_loop.trips) : ClosedOff (k0_off122 k 192#32 0#32) := ⟨![1024 * k.val + 192], k0_off122_cf0 k⟩
theorem k0_off122_cf1 : ∀ k : Fin k0_t5_loop.trips, k0_off122 k 192#32 16#32 = ![1024 * k.val + 208] := by decide +kernel
instance closedOff_k0_off122_1 (k : Fin k0_t5_loop.trips) : ClosedOff (k0_off122 k 192#32 16#32) := ⟨![1024 * k.val + 208], k0_off122_cf1 k⟩
theorem k0_off122_cf2 : ∀ k : Fin k0_t5_loop.trips, k0_off122 k 192#32 32#32 = ![1024 * k.val + 224] := by decide +kernel
instance closedOff_k0_off122_2 (k : Fin k0_t5_loop.trips) : ClosedOff (k0_off122 k 192#32 32#32) := ⟨![1024 * k.val + 224], k0_off122_cf2 k⟩
theorem k0_off122_cf3 : ∀ k : Fin k0_t5_loop.trips, k0_off122 k 192#32 48#32 = ![1024 * k.val + 240] := by decide +kernel
instance closedOff_k0_off122_3 (k : Fin k0_t5_loop.trips) : ClosedOff (k0_off122 k 192#32 48#32) := ⟨![1024 * k.val + 240], k0_off122_cf3 k⟩
theorem k0_off122_cf4 : ∀ k : Fin k0_t5_loop.trips, k0_off122 k 256#32 0#32 = ![1024 * k.val + 256] := by decide +kernel
instance closedOff_k0_off122_4 (k : Fin k0_t5_loop.trips) : ClosedOff (k0_off122 k 256#32 0#32) := ⟨![1024 * k.val + 256], k0_off122_cf4 k⟩
theorem k0_off124_cf0 : ∀ k : Fin k0_t5_loop.trips, k0_off124 k 256#32 0#32 = ![1024 * k.val + 256] := by decide +kernel
instance closedOff_k0_off124_0 (k : Fin k0_t5_loop.trips) : ClosedOff (k0_off124 k 256#32 0#32) := ⟨![1024 * k.val + 256], k0_off124_cf0 k⟩
theorem k0_off124_cf1 : ∀ k : Fin k0_t5_loop.trips, k0_off124 k 256#32 16#32 = ![1024 * k.val + 272] := by decide +kernel
instance closedOff_k0_off124_1 (k : Fin k0_t5_loop.trips) : ClosedOff (k0_off124 k 256#32 16#32) := ⟨![1024 * k.val + 272], k0_off124_cf1 k⟩
theorem k0_off124_cf2 : ∀ k : Fin k0_t5_loop.trips, k0_off124 k 256#32 32#32 = ![1024 * k.val + 288] := by decide +kernel
instance closedOff_k0_off124_2 (k : Fin k0_t5_loop.trips) : ClosedOff (k0_off124 k 256#32 32#32) := ⟨![1024 * k.val + 288], k0_off124_cf2 k⟩
theorem k0_off124_cf3 : ∀ k : Fin k0_t5_loop.trips, k0_off124 k 256#32 48#32 = ![1024 * k.val + 304] := by decide +kernel
instance closedOff_k0_off124_3 (k : Fin k0_t5_loop.trips) : ClosedOff (k0_off124 k 256#32 48#32) := ⟨![1024 * k.val + 304], k0_off124_cf3 k⟩
theorem k0_off124_cf4 : ∀ k : Fin k0_t5_loop.trips, k0_off124 k 320#32 0#32 = ![1024 * k.val + 320] := by decide +kernel
instance closedOff_k0_off124_4 (k : Fin k0_t5_loop.trips) : ClosedOff (k0_off124 k 320#32 0#32) := ⟨![1024 * k.val + 320], k0_off124_cf4 k⟩
theorem k0_off126_cf0 : ∀ k : Fin k0_t5_loop.trips, k0_off126 k 320#32 0#32 = ![1024 * k.val + 320] := by decide +kernel
instance closedOff_k0_off126_0 (k : Fin k0_t5_loop.trips) : ClosedOff (k0_off126 k 320#32 0#32) := ⟨![1024 * k.val + 320], k0_off126_cf0 k⟩
theorem k0_off126_cf1 : ∀ k : Fin k0_t5_loop.trips, k0_off126 k 320#32 16#32 = ![1024 * k.val + 336] := by decide +kernel
instance closedOff_k0_off126_1 (k : Fin k0_t5_loop.trips) : ClosedOff (k0_off126 k 320#32 16#32) := ⟨![1024 * k.val + 336], k0_off126_cf1 k⟩
theorem k0_off126_cf2 : ∀ k : Fin k0_t5_loop.trips, k0_off126 k 320#32 32#32 = ![1024 * k.val + 352] := by decide +kernel
instance closedOff_k0_off126_2 (k : Fin k0_t5_loop.trips) : ClosedOff (k0_off126 k 320#32 32#32) := ⟨![1024 * k.val + 352], k0_off126_cf2 k⟩
theorem k0_off126_cf3 : ∀ k : Fin k0_t5_loop.trips, k0_off126 k 320#32 48#32 = ![1024 * k.val + 368] := by decide +kernel
instance closedOff_k0_off126_3 (k : Fin k0_t5_loop.trips) : ClosedOff (k0_off126 k 320#32 48#32) := ⟨![1024 * k.val + 368], k0_off126_cf3 k⟩
theorem k0_off126_cf4 : ∀ k : Fin k0_t5_loop.trips, k0_off126 k 384#32 0#32 = ![1024 * k.val + 384] := by decide +kernel
instance closedOff_k0_off126_4 (k : Fin k0_t5_loop.trips) : ClosedOff (k0_off126 k 384#32 0#32) := ⟨![1024 * k.val + 384], k0_off126_cf4 k⟩
theorem k0_off128_cf0 : ∀ k : Fin k0_t5_loop.trips, k0_off128 k 384#32 0#32 = ![1024 * k.val + 384] := by decide +kernel
instance closedOff_k0_off128_0 (k : Fin k0_t5_loop.trips) : ClosedOff (k0_off128 k 384#32 0#32) := ⟨![1024 * k.val + 384], k0_off128_cf0 k⟩
theorem k0_off128_cf1 : ∀ k : Fin k0_t5_loop.trips, k0_off128 k 384#32 16#32 = ![1024 * k.val + 400] := by decide +kernel
instance closedOff_k0_off128_1 (k : Fin k0_t5_loop.trips) : ClosedOff (k0_off128 k 384#32 16#32) := ⟨![1024 * k.val + 400], k0_off128_cf1 k⟩
theorem k0_off128_cf2 : ∀ k : Fin k0_t5_loop.trips, k0_off128 k 384#32 32#32 = ![1024 * k.val + 416] := by decide +kernel
instance closedOff_k0_off128_2 (k : Fin k0_t5_loop.trips) : ClosedOff (k0_off128 k 384#32 32#32) := ⟨![1024 * k.val + 416], k0_off128_cf2 k⟩
theorem k0_off128_cf3 : ∀ k : Fin k0_t5_loop.trips, k0_off128 k 384#32 48#32 = ![1024 * k.val + 432] := by decide +kernel
instance closedOff_k0_off128_3 (k : Fin k0_t5_loop.trips) : ClosedOff (k0_off128 k 384#32 48#32) := ⟨![1024 * k.val + 432], k0_off128_cf3 k⟩
theorem k0_off128_cf4 : ∀ k : Fin k0_t5_loop.trips, k0_off128 k 448#32 0#32 = ![1024 * k.val + 448] := by decide +kernel
instance closedOff_k0_off128_4 (k : Fin k0_t5_loop.trips) : ClosedOff (k0_off128 k 448#32 0#32) := ⟨![1024 * k.val + 448], k0_off128_cf4 k⟩
theorem k0_off130_cf0 : ∀ k : Fin k0_t5_loop.trips, k0_off130 k 448#32 0#32 = ![1024 * k.val + 448] := by decide +kernel
instance closedOff_k0_off130_0 (k : Fin k0_t5_loop.trips) : ClosedOff (k0_off130 k 448#32 0#32) := ⟨![1024 * k.val + 448], k0_off130_cf0 k⟩
theorem k0_off130_cf1 : ∀ k : Fin k0_t5_loop.trips, k0_off130 k 448#32 16#32 = ![1024 * k.val + 464] := by decide +kernel
instance closedOff_k0_off130_1 (k : Fin k0_t5_loop.trips) : ClosedOff (k0_off130 k 448#32 16#32) := ⟨![1024 * k.val + 464], k0_off130_cf1 k⟩
theorem k0_off130_cf2 : ∀ k : Fin k0_t5_loop.trips, k0_off130 k 448#32 32#32 = ![1024 * k.val + 480] := by decide +kernel
instance closedOff_k0_off130_2 (k : Fin k0_t5_loop.trips) : ClosedOff (k0_off130 k 448#32 32#32) := ⟨![1024 * k.val + 480], k0_off130_cf2 k⟩
theorem k0_off130_cf3 : ∀ k : Fin k0_t5_loop.trips, k0_off130 k 448#32 48#32 = ![1024 * k.val + 496] := by decide +kernel
instance closedOff_k0_off130_3 (k : Fin k0_t5_loop.trips) : ClosedOff (k0_off130 k 448#32 48#32) := ⟨![1024 * k.val + 496], k0_off130_cf3 k⟩
theorem k0_off130_cf4 : ∀ k : Fin k0_t5_loop.trips, k0_off130 k 512#32 0#32 = ![1024 * k.val + 512] := by decide +kernel
instance closedOff_k0_off130_4 (k : Fin k0_t5_loop.trips) : ClosedOff (k0_off130 k 512#32 0#32) := ⟨![1024 * k.val + 512], k0_off130_cf4 k⟩
theorem k0_off132_cf0 : ∀ k : Fin k0_t5_loop.trips, k0_off132 k 512#32 0#32 = ![1024 * k.val + 512] := by decide +kernel
instance closedOff_k0_off132_0 (k : Fin k0_t5_loop.trips) : ClosedOff (k0_off132 k 512#32 0#32) := ⟨![1024 * k.val + 512], k0_off132_cf0 k⟩
theorem k0_off132_cf1 : ∀ k : Fin k0_t5_loop.trips, k0_off132 k 512#32 16#32 = ![1024 * k.val + 528] := by decide +kernel
instance closedOff_k0_off132_1 (k : Fin k0_t5_loop.trips) : ClosedOff (k0_off132 k 512#32 16#32) := ⟨![1024 * k.val + 528], k0_off132_cf1 k⟩
theorem k0_off132_cf2 : ∀ k : Fin k0_t5_loop.trips, k0_off132 k 512#32 32#32 = ![1024 * k.val + 544] := by decide +kernel
instance closedOff_k0_off132_2 (k : Fin k0_t5_loop.trips) : ClosedOff (k0_off132 k 512#32 32#32) := ⟨![1024 * k.val + 544], k0_off132_cf2 k⟩
theorem k0_off132_cf3 : ∀ k : Fin k0_t5_loop.trips, k0_off132 k 512#32 48#32 = ![1024 * k.val + 560] := by decide +kernel
instance closedOff_k0_off132_3 (k : Fin k0_t5_loop.trips) : ClosedOff (k0_off132 k 512#32 48#32) := ⟨![1024 * k.val + 560], k0_off132_cf3 k⟩
theorem k0_off132_cf4 : ∀ k : Fin k0_t5_loop.trips, k0_off132 k 576#32 0#32 = ![1024 * k.val + 576] := by decide +kernel
instance closedOff_k0_off132_4 (k : Fin k0_t5_loop.trips) : ClosedOff (k0_off132 k 576#32 0#32) := ⟨![1024 * k.val + 576], k0_off132_cf4 k⟩
theorem k0_off134_cf0 : ∀ k : Fin k0_t5_loop.trips, k0_off134 k 576#32 0#32 = ![1024 * k.val + 576] := by decide +kernel
instance closedOff_k0_off134_0 (k : Fin k0_t5_loop.trips) : ClosedOff (k0_off134 k 576#32 0#32) := ⟨![1024 * k.val + 576], k0_off134_cf0 k⟩
theorem k0_off134_cf1 : ∀ k : Fin k0_t5_loop.trips, k0_off134 k 576#32 16#32 = ![1024 * k.val + 592] := by decide +kernel
instance closedOff_k0_off134_1 (k : Fin k0_t5_loop.trips) : ClosedOff (k0_off134 k 576#32 16#32) := ⟨![1024 * k.val + 592], k0_off134_cf1 k⟩
theorem k0_off134_cf2 : ∀ k : Fin k0_t5_loop.trips, k0_off134 k 576#32 32#32 = ![1024 * k.val + 608] := by decide +kernel
instance closedOff_k0_off134_2 (k : Fin k0_t5_loop.trips) : ClosedOff (k0_off134 k 576#32 32#32) := ⟨![1024 * k.val + 608], k0_off134_cf2 k⟩
theorem k0_off134_cf3 : ∀ k : Fin k0_t5_loop.trips, k0_off134 k 576#32 48#32 = ![1024 * k.val + 624] := by decide +kernel
instance closedOff_k0_off134_3 (k : Fin k0_t5_loop.trips) : ClosedOff (k0_off134 k 576#32 48#32) := ⟨![1024 * k.val + 624], k0_off134_cf3 k⟩
theorem k0_off134_cf4 : ∀ k : Fin k0_t5_loop.trips, k0_off134 k 640#32 0#32 = ![1024 * k.val + 640] := by decide +kernel
instance closedOff_k0_off134_4 (k : Fin k0_t5_loop.trips) : ClosedOff (k0_off134 k 640#32 0#32) := ⟨![1024 * k.val + 640], k0_off134_cf4 k⟩
theorem k0_off136_cf0 : ∀ k : Fin k0_t5_loop.trips, k0_off136 k 640#32 0#32 = ![1024 * k.val + 640] := by decide +kernel
instance closedOff_k0_off136_0 (k : Fin k0_t5_loop.trips) : ClosedOff (k0_off136 k 640#32 0#32) := ⟨![1024 * k.val + 640], k0_off136_cf0 k⟩
theorem k0_off136_cf1 : ∀ k : Fin k0_t5_loop.trips, k0_off136 k 640#32 16#32 = ![1024 * k.val + 656] := by decide +kernel
instance closedOff_k0_off136_1 (k : Fin k0_t5_loop.trips) : ClosedOff (k0_off136 k 640#32 16#32) := ⟨![1024 * k.val + 656], k0_off136_cf1 k⟩
theorem k0_off136_cf2 : ∀ k : Fin k0_t5_loop.trips, k0_off136 k 640#32 32#32 = ![1024 * k.val + 672] := by decide +kernel
instance closedOff_k0_off136_2 (k : Fin k0_t5_loop.trips) : ClosedOff (k0_off136 k 640#32 32#32) := ⟨![1024 * k.val + 672], k0_off136_cf2 k⟩
theorem k0_off136_cf3 : ∀ k : Fin k0_t5_loop.trips, k0_off136 k 640#32 48#32 = ![1024 * k.val + 688] := by decide +kernel
instance closedOff_k0_off136_3 (k : Fin k0_t5_loop.trips) : ClosedOff (k0_off136 k 640#32 48#32) := ⟨![1024 * k.val + 688], k0_off136_cf3 k⟩
theorem k0_off136_cf4 : ∀ k : Fin k0_t5_loop.trips, k0_off136 k 704#32 0#32 = ![1024 * k.val + 704] := by decide +kernel
instance closedOff_k0_off136_4 (k : Fin k0_t5_loop.trips) : ClosedOff (k0_off136 k 704#32 0#32) := ⟨![1024 * k.val + 704], k0_off136_cf4 k⟩
theorem k0_off138_cf0 : ∀ k : Fin k0_t5_loop.trips, k0_off138 k 704#32 0#32 = ![1024 * k.val + 704] := by decide +kernel
instance closedOff_k0_off138_0 (k : Fin k0_t5_loop.trips) : ClosedOff (k0_off138 k 704#32 0#32) := ⟨![1024 * k.val + 704], k0_off138_cf0 k⟩
theorem k0_off138_cf1 : ∀ k : Fin k0_t5_loop.trips, k0_off138 k 704#32 16#32 = ![1024 * k.val + 720] := by decide +kernel
instance closedOff_k0_off138_1 (k : Fin k0_t5_loop.trips) : ClosedOff (k0_off138 k 704#32 16#32) := ⟨![1024 * k.val + 720], k0_off138_cf1 k⟩
theorem k0_off138_cf2 : ∀ k : Fin k0_t5_loop.trips, k0_off138 k 704#32 32#32 = ![1024 * k.val + 736] := by decide +kernel
instance closedOff_k0_off138_2 (k : Fin k0_t5_loop.trips) : ClosedOff (k0_off138 k 704#32 32#32) := ⟨![1024 * k.val + 736], k0_off138_cf2 k⟩
theorem k0_off138_cf3 : ∀ k : Fin k0_t5_loop.trips, k0_off138 k 704#32 48#32 = ![1024 * k.val + 752] := by decide +kernel
instance closedOff_k0_off138_3 (k : Fin k0_t5_loop.trips) : ClosedOff (k0_off138 k 704#32 48#32) := ⟨![1024 * k.val + 752], k0_off138_cf3 k⟩
theorem k0_off138_cf4 : ∀ k : Fin k0_t5_loop.trips, k0_off138 k 768#32 0#32 = ![1024 * k.val + 768] := by decide +kernel
instance closedOff_k0_off138_4 (k : Fin k0_t5_loop.trips) : ClosedOff (k0_off138 k 768#32 0#32) := ⟨![1024 * k.val + 768], k0_off138_cf4 k⟩
theorem k0_off140_cf0 : ∀ k : Fin k0_t5_loop.trips, k0_off140 k 768#32 0#32 = ![1024 * k.val + 768] := by decide +kernel
instance closedOff_k0_off140_0 (k : Fin k0_t5_loop.trips) : ClosedOff (k0_off140 k 768#32 0#32) := ⟨![1024 * k.val + 768], k0_off140_cf0 k⟩
theorem k0_off140_cf1 : ∀ k : Fin k0_t5_loop.trips, k0_off140 k 768#32 16#32 = ![1024 * k.val + 784] := by decide +kernel
instance closedOff_k0_off140_1 (k : Fin k0_t5_loop.trips) : ClosedOff (k0_off140 k 768#32 16#32) := ⟨![1024 * k.val + 784], k0_off140_cf1 k⟩
theorem k0_off140_cf2 : ∀ k : Fin k0_t5_loop.trips, k0_off140 k 768#32 32#32 = ![1024 * k.val + 800] := by decide +kernel
instance closedOff_k0_off140_2 (k : Fin k0_t5_loop.trips) : ClosedOff (k0_off140 k 768#32 32#32) := ⟨![1024 * k.val + 800], k0_off140_cf2 k⟩
theorem k0_off140_cf3 : ∀ k : Fin k0_t5_loop.trips, k0_off140 k 768#32 48#32 = ![1024 * k.val + 816] := by decide +kernel
instance closedOff_k0_off140_3 (k : Fin k0_t5_loop.trips) : ClosedOff (k0_off140 k 768#32 48#32) := ⟨![1024 * k.val + 816], k0_off140_cf3 k⟩
theorem k0_off140_cf4 : ∀ k : Fin k0_t5_loop.trips, k0_off140 k 832#32 0#32 = ![1024 * k.val + 832] := by decide +kernel
instance closedOff_k0_off140_4 (k : Fin k0_t5_loop.trips) : ClosedOff (k0_off140 k 832#32 0#32) := ⟨![1024 * k.val + 832], k0_off140_cf4 k⟩
theorem k0_off142_cf0 : ∀ k : Fin k0_t5_loop.trips, k0_off142 k 832#32 0#32 = ![1024 * k.val + 832] := by decide +kernel
instance closedOff_k0_off142_0 (k : Fin k0_t5_loop.trips) : ClosedOff (k0_off142 k 832#32 0#32) := ⟨![1024 * k.val + 832], k0_off142_cf0 k⟩
theorem k0_off142_cf1 : ∀ k : Fin k0_t5_loop.trips, k0_off142 k 832#32 16#32 = ![1024 * k.val + 848] := by decide +kernel
instance closedOff_k0_off142_1 (k : Fin k0_t5_loop.trips) : ClosedOff (k0_off142 k 832#32 16#32) := ⟨![1024 * k.val + 848], k0_off142_cf1 k⟩
theorem k0_off142_cf2 : ∀ k : Fin k0_t5_loop.trips, k0_off142 k 832#32 32#32 = ![1024 * k.val + 864] := by decide +kernel
instance closedOff_k0_off142_2 (k : Fin k0_t5_loop.trips) : ClosedOff (k0_off142 k 832#32 32#32) := ⟨![1024 * k.val + 864], k0_off142_cf2 k⟩
theorem k0_off142_cf3 : ∀ k : Fin k0_t5_loop.trips, k0_off142 k 832#32 48#32 = ![1024 * k.val + 880] := by decide +kernel
instance closedOff_k0_off142_3 (k : Fin k0_t5_loop.trips) : ClosedOff (k0_off142 k 832#32 48#32) := ⟨![1024 * k.val + 880], k0_off142_cf3 k⟩
theorem k0_off142_cf4 : ∀ k : Fin k0_t5_loop.trips, k0_off142 k 896#32 0#32 = ![1024 * k.val + 896] := by decide +kernel
instance closedOff_k0_off142_4 (k : Fin k0_t5_loop.trips) : ClosedOff (k0_off142 k 896#32 0#32) := ⟨![1024 * k.val + 896], k0_off142_cf4 k⟩
theorem k0_off144_cf0 : ∀ k : Fin k0_t5_loop.trips, k0_off144 k 896#32 0#32 = ![1024 * k.val + 896] := by decide +kernel
instance closedOff_k0_off144_0 (k : Fin k0_t5_loop.trips) : ClosedOff (k0_off144 k 896#32 0#32) := ⟨![1024 * k.val + 896], k0_off144_cf0 k⟩
theorem k0_off144_cf1 : ∀ k : Fin k0_t5_loop.trips, k0_off144 k 896#32 16#32 = ![1024 * k.val + 912] := by decide +kernel
instance closedOff_k0_off144_1 (k : Fin k0_t5_loop.trips) : ClosedOff (k0_off144 k 896#32 16#32) := ⟨![1024 * k.val + 912], k0_off144_cf1 k⟩
theorem k0_off144_cf2 : ∀ k : Fin k0_t5_loop.trips, k0_off144 k 896#32 32#32 = ![1024 * k.val + 928] := by decide +kernel
instance closedOff_k0_off144_2 (k : Fin k0_t5_loop.trips) : ClosedOff (k0_off144 k 896#32 32#32) := ⟨![1024 * k.val + 928], k0_off144_cf2 k⟩
theorem k0_off144_cf3 : ∀ k : Fin k0_t5_loop.trips, k0_off144 k 896#32 48#32 = ![1024 * k.val + 944] := by decide +kernel
instance closedOff_k0_off144_3 (k : Fin k0_t5_loop.trips) : ClosedOff (k0_off144 k 896#32 48#32) := ⟨![1024 * k.val + 944], k0_off144_cf3 k⟩
theorem k0_off144_cf4 : ∀ k : Fin k0_t5_loop.trips, k0_off144 k 960#32 0#32 = ![1024 * k.val + 960] := by decide +kernel
instance closedOff_k0_off144_4 (k : Fin k0_t5_loop.trips) : ClosedOff (k0_off144 k 960#32 0#32) := ⟨![1024 * k.val + 960], k0_off144_cf4 k⟩
theorem k0_off153_cf0 : ∀ k : Fin k0_t6_loop.trips, k0_off153 k 0#32 0#32 = ![1024 * k.val + 0] := by decide +kernel
instance closedOff_k0_off153_0 (k : Fin k0_t6_loop.trips) : ClosedOff (k0_off153 k 0#32 0#32) := ⟨![1024 * k.val + 0], k0_off153_cf0 k⟩
theorem k0_off153_cf1 : ∀ k : Fin k0_t6_loop.trips, k0_off153 k 0#32 16#32 = ![1024 * k.val + 16] := by decide +kernel
instance closedOff_k0_off153_1 (k : Fin k0_t6_loop.trips) : ClosedOff (k0_off153 k 0#32 16#32) := ⟨![1024 * k.val + 16], k0_off153_cf1 k⟩
theorem k0_off153_cf2 : ∀ k : Fin k0_t6_loop.trips, k0_off153 k 0#32 32#32 = ![1024 * k.val + 32] := by decide +kernel
instance closedOff_k0_off153_2 (k : Fin k0_t6_loop.trips) : ClosedOff (k0_off153 k 0#32 32#32) := ⟨![1024 * k.val + 32], k0_off153_cf2 k⟩
theorem k0_off153_cf3 : ∀ k : Fin k0_t6_loop.trips, k0_off153 k 0#32 48#32 = ![1024 * k.val + 48] := by decide +kernel
instance closedOff_k0_off153_3 (k : Fin k0_t6_loop.trips) : ClosedOff (k0_off153 k 0#32 48#32) := ⟨![1024 * k.val + 48], k0_off153_cf3 k⟩
theorem k0_off153_cf4 : ∀ k : Fin k0_t6_loop.trips, k0_off153 k 64#32 0#32 = ![1024 * k.val + 64] := by decide +kernel
instance closedOff_k0_off153_4 (k : Fin k0_t6_loop.trips) : ClosedOff (k0_off153 k 64#32 0#32) := ⟨![1024 * k.val + 64], k0_off153_cf4 k⟩
theorem k0_off155_cf0 : ∀ k : Fin k0_t6_loop.trips, k0_off155 k 64#32 0#32 = ![1024 * k.val + 64] := by decide +kernel
instance closedOff_k0_off155_0 (k : Fin k0_t6_loop.trips) : ClosedOff (k0_off155 k 64#32 0#32) := ⟨![1024 * k.val + 64], k0_off155_cf0 k⟩
theorem k0_off155_cf1 : ∀ k : Fin k0_t6_loop.trips, k0_off155 k 64#32 16#32 = ![1024 * k.val + 80] := by decide +kernel
instance closedOff_k0_off155_1 (k : Fin k0_t6_loop.trips) : ClosedOff (k0_off155 k 64#32 16#32) := ⟨![1024 * k.val + 80], k0_off155_cf1 k⟩
theorem k0_off155_cf2 : ∀ k : Fin k0_t6_loop.trips, k0_off155 k 64#32 32#32 = ![1024 * k.val + 96] := by decide +kernel
instance closedOff_k0_off155_2 (k : Fin k0_t6_loop.trips) : ClosedOff (k0_off155 k 64#32 32#32) := ⟨![1024 * k.val + 96], k0_off155_cf2 k⟩
theorem k0_off155_cf3 : ∀ k : Fin k0_t6_loop.trips, k0_off155 k 64#32 48#32 = ![1024 * k.val + 112] := by decide +kernel
instance closedOff_k0_off155_3 (k : Fin k0_t6_loop.trips) : ClosedOff (k0_off155 k 64#32 48#32) := ⟨![1024 * k.val + 112], k0_off155_cf3 k⟩
theorem k0_off155_cf4 : ∀ k : Fin k0_t6_loop.trips, k0_off155 k 128#32 0#32 = ![1024 * k.val + 128] := by decide +kernel
instance closedOff_k0_off155_4 (k : Fin k0_t6_loop.trips) : ClosedOff (k0_off155 k 128#32 0#32) := ⟨![1024 * k.val + 128], k0_off155_cf4 k⟩
theorem k0_off157_cf0 : ∀ k : Fin k0_t6_loop.trips, k0_off157 k 128#32 0#32 = ![1024 * k.val + 128] := by decide +kernel
instance closedOff_k0_off157_0 (k : Fin k0_t6_loop.trips) : ClosedOff (k0_off157 k 128#32 0#32) := ⟨![1024 * k.val + 128], k0_off157_cf0 k⟩
theorem k0_off157_cf1 : ∀ k : Fin k0_t6_loop.trips, k0_off157 k 128#32 16#32 = ![1024 * k.val + 144] := by decide +kernel
instance closedOff_k0_off157_1 (k : Fin k0_t6_loop.trips) : ClosedOff (k0_off157 k 128#32 16#32) := ⟨![1024 * k.val + 144], k0_off157_cf1 k⟩
theorem k0_off157_cf2 : ∀ k : Fin k0_t6_loop.trips, k0_off157 k 128#32 32#32 = ![1024 * k.val + 160] := by decide +kernel
instance closedOff_k0_off157_2 (k : Fin k0_t6_loop.trips) : ClosedOff (k0_off157 k 128#32 32#32) := ⟨![1024 * k.val + 160], k0_off157_cf2 k⟩
theorem k0_off157_cf3 : ∀ k : Fin k0_t6_loop.trips, k0_off157 k 128#32 48#32 = ![1024 * k.val + 176] := by decide +kernel
instance closedOff_k0_off157_3 (k : Fin k0_t6_loop.trips) : ClosedOff (k0_off157 k 128#32 48#32) := ⟨![1024 * k.val + 176], k0_off157_cf3 k⟩
theorem k0_off157_cf4 : ∀ k : Fin k0_t6_loop.trips, k0_off157 k 192#32 0#32 = ![1024 * k.val + 192] := by decide +kernel
instance closedOff_k0_off157_4 (k : Fin k0_t6_loop.trips) : ClosedOff (k0_off157 k 192#32 0#32) := ⟨![1024 * k.val + 192], k0_off157_cf4 k⟩
theorem k0_off159_cf0 : ∀ k : Fin k0_t6_loop.trips, k0_off159 k 192#32 0#32 = ![1024 * k.val + 192] := by decide +kernel
instance closedOff_k0_off159_0 (k : Fin k0_t6_loop.trips) : ClosedOff (k0_off159 k 192#32 0#32) := ⟨![1024 * k.val + 192], k0_off159_cf0 k⟩
theorem k0_off159_cf1 : ∀ k : Fin k0_t6_loop.trips, k0_off159 k 192#32 16#32 = ![1024 * k.val + 208] := by decide +kernel
instance closedOff_k0_off159_1 (k : Fin k0_t6_loop.trips) : ClosedOff (k0_off159 k 192#32 16#32) := ⟨![1024 * k.val + 208], k0_off159_cf1 k⟩
theorem k0_off159_cf2 : ∀ k : Fin k0_t6_loop.trips, k0_off159 k 192#32 32#32 = ![1024 * k.val + 224] := by decide +kernel
instance closedOff_k0_off159_2 (k : Fin k0_t6_loop.trips) : ClosedOff (k0_off159 k 192#32 32#32) := ⟨![1024 * k.val + 224], k0_off159_cf2 k⟩
theorem k0_off159_cf3 : ∀ k : Fin k0_t6_loop.trips, k0_off159 k 192#32 48#32 = ![1024 * k.val + 240] := by decide +kernel
instance closedOff_k0_off159_3 (k : Fin k0_t6_loop.trips) : ClosedOff (k0_off159 k 192#32 48#32) := ⟨![1024 * k.val + 240], k0_off159_cf3 k⟩
theorem k0_off159_cf4 : ∀ k : Fin k0_t6_loop.trips, k0_off159 k 256#32 0#32 = ![1024 * k.val + 256] := by decide +kernel
instance closedOff_k0_off159_4 (k : Fin k0_t6_loop.trips) : ClosedOff (k0_off159 k 256#32 0#32) := ⟨![1024 * k.val + 256], k0_off159_cf4 k⟩
theorem k0_off161_cf0 : ∀ k : Fin k0_t6_loop.trips, k0_off161 k 256#32 0#32 = ![1024 * k.val + 256] := by decide +kernel
instance closedOff_k0_off161_0 (k : Fin k0_t6_loop.trips) : ClosedOff (k0_off161 k 256#32 0#32) := ⟨![1024 * k.val + 256], k0_off161_cf0 k⟩
theorem k0_off161_cf1 : ∀ k : Fin k0_t6_loop.trips, k0_off161 k 256#32 16#32 = ![1024 * k.val + 272] := by decide +kernel
instance closedOff_k0_off161_1 (k : Fin k0_t6_loop.trips) : ClosedOff (k0_off161 k 256#32 16#32) := ⟨![1024 * k.val + 272], k0_off161_cf1 k⟩
theorem k0_off161_cf2 : ∀ k : Fin k0_t6_loop.trips, k0_off161 k 256#32 32#32 = ![1024 * k.val + 288] := by decide +kernel
instance closedOff_k0_off161_2 (k : Fin k0_t6_loop.trips) : ClosedOff (k0_off161 k 256#32 32#32) := ⟨![1024 * k.val + 288], k0_off161_cf2 k⟩
theorem k0_off161_cf3 : ∀ k : Fin k0_t6_loop.trips, k0_off161 k 256#32 48#32 = ![1024 * k.val + 304] := by decide +kernel
instance closedOff_k0_off161_3 (k : Fin k0_t6_loop.trips) : ClosedOff (k0_off161 k 256#32 48#32) := ⟨![1024 * k.val + 304], k0_off161_cf3 k⟩
theorem k0_off161_cf4 : ∀ k : Fin k0_t6_loop.trips, k0_off161 k 320#32 0#32 = ![1024 * k.val + 320] := by decide +kernel
instance closedOff_k0_off161_4 (k : Fin k0_t6_loop.trips) : ClosedOff (k0_off161 k 320#32 0#32) := ⟨![1024 * k.val + 320], k0_off161_cf4 k⟩
theorem k0_off163_cf0 : ∀ k : Fin k0_t6_loop.trips, k0_off163 k 320#32 0#32 = ![1024 * k.val + 320] := by decide +kernel
instance closedOff_k0_off163_0 (k : Fin k0_t6_loop.trips) : ClosedOff (k0_off163 k 320#32 0#32) := ⟨![1024 * k.val + 320], k0_off163_cf0 k⟩
theorem k0_off163_cf1 : ∀ k : Fin k0_t6_loop.trips, k0_off163 k 320#32 16#32 = ![1024 * k.val + 336] := by decide +kernel
instance closedOff_k0_off163_1 (k : Fin k0_t6_loop.trips) : ClosedOff (k0_off163 k 320#32 16#32) := ⟨![1024 * k.val + 336], k0_off163_cf1 k⟩
theorem k0_off163_cf2 : ∀ k : Fin k0_t6_loop.trips, k0_off163 k 320#32 32#32 = ![1024 * k.val + 352] := by decide +kernel
instance closedOff_k0_off163_2 (k : Fin k0_t6_loop.trips) : ClosedOff (k0_off163 k 320#32 32#32) := ⟨![1024 * k.val + 352], k0_off163_cf2 k⟩
theorem k0_off163_cf3 : ∀ k : Fin k0_t6_loop.trips, k0_off163 k 320#32 48#32 = ![1024 * k.val + 368] := by decide +kernel
instance closedOff_k0_off163_3 (k : Fin k0_t6_loop.trips) : ClosedOff (k0_off163 k 320#32 48#32) := ⟨![1024 * k.val + 368], k0_off163_cf3 k⟩
theorem k0_off163_cf4 : ∀ k : Fin k0_t6_loop.trips, k0_off163 k 384#32 0#32 = ![1024 * k.val + 384] := by decide +kernel
instance closedOff_k0_off163_4 (k : Fin k0_t6_loop.trips) : ClosedOff (k0_off163 k 384#32 0#32) := ⟨![1024 * k.val + 384], k0_off163_cf4 k⟩
theorem k0_off165_cf0 : ∀ k : Fin k0_t6_loop.trips, k0_off165 k 384#32 0#32 = ![1024 * k.val + 384] := by decide +kernel
instance closedOff_k0_off165_0 (k : Fin k0_t6_loop.trips) : ClosedOff (k0_off165 k 384#32 0#32) := ⟨![1024 * k.val + 384], k0_off165_cf0 k⟩
theorem k0_off165_cf1 : ∀ k : Fin k0_t6_loop.trips, k0_off165 k 384#32 16#32 = ![1024 * k.val + 400] := by decide +kernel
instance closedOff_k0_off165_1 (k : Fin k0_t6_loop.trips) : ClosedOff (k0_off165 k 384#32 16#32) := ⟨![1024 * k.val + 400], k0_off165_cf1 k⟩
theorem k0_off165_cf2 : ∀ k : Fin k0_t6_loop.trips, k0_off165 k 384#32 32#32 = ![1024 * k.val + 416] := by decide +kernel
instance closedOff_k0_off165_2 (k : Fin k0_t6_loop.trips) : ClosedOff (k0_off165 k 384#32 32#32) := ⟨![1024 * k.val + 416], k0_off165_cf2 k⟩
theorem k0_off165_cf3 : ∀ k : Fin k0_t6_loop.trips, k0_off165 k 384#32 48#32 = ![1024 * k.val + 432] := by decide +kernel
instance closedOff_k0_off165_3 (k : Fin k0_t6_loop.trips) : ClosedOff (k0_off165 k 384#32 48#32) := ⟨![1024 * k.val + 432], k0_off165_cf3 k⟩
theorem k0_off165_cf4 : ∀ k : Fin k0_t6_loop.trips, k0_off165 k 448#32 0#32 = ![1024 * k.val + 448] := by decide +kernel
instance closedOff_k0_off165_4 (k : Fin k0_t6_loop.trips) : ClosedOff (k0_off165 k 448#32 0#32) := ⟨![1024 * k.val + 448], k0_off165_cf4 k⟩
theorem k0_off167_cf0 : ∀ k : Fin k0_t6_loop.trips, k0_off167 k 448#32 0#32 = ![1024 * k.val + 448] := by decide +kernel
instance closedOff_k0_off167_0 (k : Fin k0_t6_loop.trips) : ClosedOff (k0_off167 k 448#32 0#32) := ⟨![1024 * k.val + 448], k0_off167_cf0 k⟩
theorem k0_off167_cf1 : ∀ k : Fin k0_t6_loop.trips, k0_off167 k 448#32 16#32 = ![1024 * k.val + 464] := by decide +kernel
instance closedOff_k0_off167_1 (k : Fin k0_t6_loop.trips) : ClosedOff (k0_off167 k 448#32 16#32) := ⟨![1024 * k.val + 464], k0_off167_cf1 k⟩
theorem k0_off167_cf2 : ∀ k : Fin k0_t6_loop.trips, k0_off167 k 448#32 32#32 = ![1024 * k.val + 480] := by decide +kernel
instance closedOff_k0_off167_2 (k : Fin k0_t6_loop.trips) : ClosedOff (k0_off167 k 448#32 32#32) := ⟨![1024 * k.val + 480], k0_off167_cf2 k⟩
theorem k0_off167_cf3 : ∀ k : Fin k0_t6_loop.trips, k0_off167 k 448#32 48#32 = ![1024 * k.val + 496] := by decide +kernel
instance closedOff_k0_off167_3 (k : Fin k0_t6_loop.trips) : ClosedOff (k0_off167 k 448#32 48#32) := ⟨![1024 * k.val + 496], k0_off167_cf3 k⟩
theorem k0_off167_cf4 : ∀ k : Fin k0_t6_loop.trips, k0_off167 k 512#32 0#32 = ![1024 * k.val + 512] := by decide +kernel
instance closedOff_k0_off167_4 (k : Fin k0_t6_loop.trips) : ClosedOff (k0_off167 k 512#32 0#32) := ⟨![1024 * k.val + 512], k0_off167_cf4 k⟩
theorem k0_off169_cf0 : ∀ k : Fin k0_t6_loop.trips, k0_off169 k 512#32 0#32 = ![1024 * k.val + 512] := by decide +kernel
instance closedOff_k0_off169_0 (k : Fin k0_t6_loop.trips) : ClosedOff (k0_off169 k 512#32 0#32) := ⟨![1024 * k.val + 512], k0_off169_cf0 k⟩
theorem k0_off169_cf1 : ∀ k : Fin k0_t6_loop.trips, k0_off169 k 512#32 16#32 = ![1024 * k.val + 528] := by decide +kernel
instance closedOff_k0_off169_1 (k : Fin k0_t6_loop.trips) : ClosedOff (k0_off169 k 512#32 16#32) := ⟨![1024 * k.val + 528], k0_off169_cf1 k⟩
theorem k0_off169_cf2 : ∀ k : Fin k0_t6_loop.trips, k0_off169 k 512#32 32#32 = ![1024 * k.val + 544] := by decide +kernel
instance closedOff_k0_off169_2 (k : Fin k0_t6_loop.trips) : ClosedOff (k0_off169 k 512#32 32#32) := ⟨![1024 * k.val + 544], k0_off169_cf2 k⟩
theorem k0_off169_cf3 : ∀ k : Fin k0_t6_loop.trips, k0_off169 k 512#32 48#32 = ![1024 * k.val + 560] := by decide +kernel
instance closedOff_k0_off169_3 (k : Fin k0_t6_loop.trips) : ClosedOff (k0_off169 k 512#32 48#32) := ⟨![1024 * k.val + 560], k0_off169_cf3 k⟩
theorem k0_off169_cf4 : ∀ k : Fin k0_t6_loop.trips, k0_off169 k 576#32 0#32 = ![1024 * k.val + 576] := by decide +kernel
instance closedOff_k0_off169_4 (k : Fin k0_t6_loop.trips) : ClosedOff (k0_off169 k 576#32 0#32) := ⟨![1024 * k.val + 576], k0_off169_cf4 k⟩
theorem k0_off171_cf0 : ∀ k : Fin k0_t6_loop.trips, k0_off171 k 576#32 0#32 = ![1024 * k.val + 576] := by decide +kernel
instance closedOff_k0_off171_0 (k : Fin k0_t6_loop.trips) : ClosedOff (k0_off171 k 576#32 0#32) := ⟨![1024 * k.val + 576], k0_off171_cf0 k⟩
theorem k0_off171_cf1 : ∀ k : Fin k0_t6_loop.trips, k0_off171 k 576#32 16#32 = ![1024 * k.val + 592] := by decide +kernel
instance closedOff_k0_off171_1 (k : Fin k0_t6_loop.trips) : ClosedOff (k0_off171 k 576#32 16#32) := ⟨![1024 * k.val + 592], k0_off171_cf1 k⟩
theorem k0_off171_cf2 : ∀ k : Fin k0_t6_loop.trips, k0_off171 k 576#32 32#32 = ![1024 * k.val + 608] := by decide +kernel
instance closedOff_k0_off171_2 (k : Fin k0_t6_loop.trips) : ClosedOff (k0_off171 k 576#32 32#32) := ⟨![1024 * k.val + 608], k0_off171_cf2 k⟩
theorem k0_off171_cf3 : ∀ k : Fin k0_t6_loop.trips, k0_off171 k 576#32 48#32 = ![1024 * k.val + 624] := by decide +kernel
instance closedOff_k0_off171_3 (k : Fin k0_t6_loop.trips) : ClosedOff (k0_off171 k 576#32 48#32) := ⟨![1024 * k.val + 624], k0_off171_cf3 k⟩
theorem k0_off171_cf4 : ∀ k : Fin k0_t6_loop.trips, k0_off171 k 640#32 0#32 = ![1024 * k.val + 640] := by decide +kernel
instance closedOff_k0_off171_4 (k : Fin k0_t6_loop.trips) : ClosedOff (k0_off171 k 640#32 0#32) := ⟨![1024 * k.val + 640], k0_off171_cf4 k⟩
theorem k0_off173_cf0 : ∀ k : Fin k0_t6_loop.trips, k0_off173 k 640#32 0#32 = ![1024 * k.val + 640] := by decide +kernel
instance closedOff_k0_off173_0 (k : Fin k0_t6_loop.trips) : ClosedOff (k0_off173 k 640#32 0#32) := ⟨![1024 * k.val + 640], k0_off173_cf0 k⟩
theorem k0_off173_cf1 : ∀ k : Fin k0_t6_loop.trips, k0_off173 k 640#32 16#32 = ![1024 * k.val + 656] := by decide +kernel
instance closedOff_k0_off173_1 (k : Fin k0_t6_loop.trips) : ClosedOff (k0_off173 k 640#32 16#32) := ⟨![1024 * k.val + 656], k0_off173_cf1 k⟩
theorem k0_off173_cf2 : ∀ k : Fin k0_t6_loop.trips, k0_off173 k 640#32 32#32 = ![1024 * k.val + 672] := by decide +kernel
instance closedOff_k0_off173_2 (k : Fin k0_t6_loop.trips) : ClosedOff (k0_off173 k 640#32 32#32) := ⟨![1024 * k.val + 672], k0_off173_cf2 k⟩
theorem k0_off173_cf3 : ∀ k : Fin k0_t6_loop.trips, k0_off173 k 640#32 48#32 = ![1024 * k.val + 688] := by decide +kernel
instance closedOff_k0_off173_3 (k : Fin k0_t6_loop.trips) : ClosedOff (k0_off173 k 640#32 48#32) := ⟨![1024 * k.val + 688], k0_off173_cf3 k⟩
theorem k0_off173_cf4 : ∀ k : Fin k0_t6_loop.trips, k0_off173 k 704#32 0#32 = ![1024 * k.val + 704] := by decide +kernel
instance closedOff_k0_off173_4 (k : Fin k0_t6_loop.trips) : ClosedOff (k0_off173 k 704#32 0#32) := ⟨![1024 * k.val + 704], k0_off173_cf4 k⟩
theorem k0_off175_cf0 : ∀ k : Fin k0_t6_loop.trips, k0_off175 k 704#32 0#32 = ![1024 * k.val + 704] := by decide +kernel
instance closedOff_k0_off175_0 (k : Fin k0_t6_loop.trips) : ClosedOff (k0_off175 k 704#32 0#32) := ⟨![1024 * k.val + 704], k0_off175_cf0 k⟩
theorem k0_off175_cf1 : ∀ k : Fin k0_t6_loop.trips, k0_off175 k 704#32 16#32 = ![1024 * k.val + 720] := by decide +kernel
instance closedOff_k0_off175_1 (k : Fin k0_t6_loop.trips) : ClosedOff (k0_off175 k 704#32 16#32) := ⟨![1024 * k.val + 720], k0_off175_cf1 k⟩
theorem k0_off175_cf2 : ∀ k : Fin k0_t6_loop.trips, k0_off175 k 704#32 32#32 = ![1024 * k.val + 736] := by decide +kernel
instance closedOff_k0_off175_2 (k : Fin k0_t6_loop.trips) : ClosedOff (k0_off175 k 704#32 32#32) := ⟨![1024 * k.val + 736], k0_off175_cf2 k⟩
theorem k0_off175_cf3 : ∀ k : Fin k0_t6_loop.trips, k0_off175 k 704#32 48#32 = ![1024 * k.val + 752] := by decide +kernel
instance closedOff_k0_off175_3 (k : Fin k0_t6_loop.trips) : ClosedOff (k0_off175 k 704#32 48#32) := ⟨![1024 * k.val + 752], k0_off175_cf3 k⟩
theorem k0_off175_cf4 : ∀ k : Fin k0_t6_loop.trips, k0_off175 k 768#32 0#32 = ![1024 * k.val + 768] := by decide +kernel
instance closedOff_k0_off175_4 (k : Fin k0_t6_loop.trips) : ClosedOff (k0_off175 k 768#32 0#32) := ⟨![1024 * k.val + 768], k0_off175_cf4 k⟩
theorem k0_off177_cf0 : ∀ k : Fin k0_t6_loop.trips, k0_off177 k 768#32 0#32 = ![1024 * k.val + 768] := by decide +kernel
instance closedOff_k0_off177_0 (k : Fin k0_t6_loop.trips) : ClosedOff (k0_off177 k 768#32 0#32) := ⟨![1024 * k.val + 768], k0_off177_cf0 k⟩
theorem k0_off177_cf1 : ∀ k : Fin k0_t6_loop.trips, k0_off177 k 768#32 16#32 = ![1024 * k.val + 784] := by decide +kernel
instance closedOff_k0_off177_1 (k : Fin k0_t6_loop.trips) : ClosedOff (k0_off177 k 768#32 16#32) := ⟨![1024 * k.val + 784], k0_off177_cf1 k⟩
theorem k0_off177_cf2 : ∀ k : Fin k0_t6_loop.trips, k0_off177 k 768#32 32#32 = ![1024 * k.val + 800] := by decide +kernel
instance closedOff_k0_off177_2 (k : Fin k0_t6_loop.trips) : ClosedOff (k0_off177 k 768#32 32#32) := ⟨![1024 * k.val + 800], k0_off177_cf2 k⟩
theorem k0_off177_cf3 : ∀ k : Fin k0_t6_loop.trips, k0_off177 k 768#32 48#32 = ![1024 * k.val + 816] := by decide +kernel
instance closedOff_k0_off177_3 (k : Fin k0_t6_loop.trips) : ClosedOff (k0_off177 k 768#32 48#32) := ⟨![1024 * k.val + 816], k0_off177_cf3 k⟩
theorem k0_off177_cf4 : ∀ k : Fin k0_t6_loop.trips, k0_off177 k 832#32 0#32 = ![1024 * k.val + 832] := by decide +kernel
instance closedOff_k0_off177_4 (k : Fin k0_t6_loop.trips) : ClosedOff (k0_off177 k 832#32 0#32) := ⟨![1024 * k.val + 832], k0_off177_cf4 k⟩
theorem k0_off179_cf0 : ∀ k : Fin k0_t6_loop.trips, k0_off179 k 832#32 0#32 = ![1024 * k.val + 832] := by decide +kernel
instance closedOff_k0_off179_0 (k : Fin k0_t6_loop.trips) : ClosedOff (k0_off179 k 832#32 0#32) := ⟨![1024 * k.val + 832], k0_off179_cf0 k⟩
theorem k0_off179_cf1 : ∀ k : Fin k0_t6_loop.trips, k0_off179 k 832#32 16#32 = ![1024 * k.val + 848] := by decide +kernel
instance closedOff_k0_off179_1 (k : Fin k0_t6_loop.trips) : ClosedOff (k0_off179 k 832#32 16#32) := ⟨![1024 * k.val + 848], k0_off179_cf1 k⟩
theorem k0_off179_cf2 : ∀ k : Fin k0_t6_loop.trips, k0_off179 k 832#32 32#32 = ![1024 * k.val + 864] := by decide +kernel
instance closedOff_k0_off179_2 (k : Fin k0_t6_loop.trips) : ClosedOff (k0_off179 k 832#32 32#32) := ⟨![1024 * k.val + 864], k0_off179_cf2 k⟩
theorem k0_off179_cf3 : ∀ k : Fin k0_t6_loop.trips, k0_off179 k 832#32 48#32 = ![1024 * k.val + 880] := by decide +kernel
instance closedOff_k0_off179_3 (k : Fin k0_t6_loop.trips) : ClosedOff (k0_off179 k 832#32 48#32) := ⟨![1024 * k.val + 880], k0_off179_cf3 k⟩
theorem k0_off179_cf4 : ∀ k : Fin k0_t6_loop.trips, k0_off179 k 896#32 0#32 = ![1024 * k.val + 896] := by decide +kernel
instance closedOff_k0_off179_4 (k : Fin k0_t6_loop.trips) : ClosedOff (k0_off179 k 896#32 0#32) := ⟨![1024 * k.val + 896], k0_off179_cf4 k⟩
theorem k0_off181_cf0 : ∀ k : Fin k0_t6_loop.trips, k0_off181 k 896#32 0#32 = ![1024 * k.val + 896] := by decide +kernel
instance closedOff_k0_off181_0 (k : Fin k0_t6_loop.trips) : ClosedOff (k0_off181 k 896#32 0#32) := ⟨![1024 * k.val + 896], k0_off181_cf0 k⟩
theorem k0_off181_cf1 : ∀ k : Fin k0_t6_loop.trips, k0_off181 k 896#32 16#32 = ![1024 * k.val + 912] := by decide +kernel
instance closedOff_k0_off181_1 (k : Fin k0_t6_loop.trips) : ClosedOff (k0_off181 k 896#32 16#32) := ⟨![1024 * k.val + 912], k0_off181_cf1 k⟩
theorem k0_off181_cf2 : ∀ k : Fin k0_t6_loop.trips, k0_off181 k 896#32 32#32 = ![1024 * k.val + 928] := by decide +kernel
instance closedOff_k0_off181_2 (k : Fin k0_t6_loop.trips) : ClosedOff (k0_off181 k 896#32 32#32) := ⟨![1024 * k.val + 928], k0_off181_cf2 k⟩
theorem k0_off181_cf3 : ∀ k : Fin k0_t6_loop.trips, k0_off181 k 896#32 48#32 = ![1024 * k.val + 944] := by decide +kernel
instance closedOff_k0_off181_3 (k : Fin k0_t6_loop.trips) : ClosedOff (k0_off181 k 896#32 48#32) := ⟨![1024 * k.val + 944], k0_off181_cf3 k⟩
theorem k0_off181_cf4 : ∀ k : Fin k0_t6_loop.trips, k0_off181 k 960#32 0#32 = ![1024 * k.val + 960] := by decide +kernel
instance closedOff_k0_off181_4 (k : Fin k0_t6_loop.trips) : ClosedOff (k0_off181 k 960#32 0#32) := ⟨![1024 * k.val + 960], k0_off181_cf4 k⟩
theorem k0_off190_cf0 : ∀ k : Fin k0_t7_loop.trips, k0_off190 k 0#32 0#32 = ![1024 * k.val + 0] := by decide +kernel
instance closedOff_k0_off190_0 (k : Fin k0_t7_loop.trips) : ClosedOff (k0_off190 k 0#32 0#32) := ⟨![1024 * k.val + 0], k0_off190_cf0 k⟩
theorem k0_off190_cf1 : ∀ k : Fin k0_t7_loop.trips, k0_off190 k 0#32 16#32 = ![1024 * k.val + 16] := by decide +kernel
instance closedOff_k0_off190_1 (k : Fin k0_t7_loop.trips) : ClosedOff (k0_off190 k 0#32 16#32) := ⟨![1024 * k.val + 16], k0_off190_cf1 k⟩
theorem k0_off190_cf2 : ∀ k : Fin k0_t7_loop.trips, k0_off190 k 0#32 32#32 = ![1024 * k.val + 32] := by decide +kernel
instance closedOff_k0_off190_2 (k : Fin k0_t7_loop.trips) : ClosedOff (k0_off190 k 0#32 32#32) := ⟨![1024 * k.val + 32], k0_off190_cf2 k⟩
theorem k0_off190_cf3 : ∀ k : Fin k0_t7_loop.trips, k0_off190 k 0#32 48#32 = ![1024 * k.val + 48] := by decide +kernel
instance closedOff_k0_off190_3 (k : Fin k0_t7_loop.trips) : ClosedOff (k0_off190 k 0#32 48#32) := ⟨![1024 * k.val + 48], k0_off190_cf3 k⟩
theorem k0_off190_cf4 : ∀ k : Fin k0_t7_loop.trips, k0_off190 k 64#32 0#32 = ![1024 * k.val + 64] := by decide +kernel
instance closedOff_k0_off190_4 (k : Fin k0_t7_loop.trips) : ClosedOff (k0_off190 k 64#32 0#32) := ⟨![1024 * k.val + 64], k0_off190_cf4 k⟩
theorem k0_off192_cf0 : ∀ k : Fin k0_t7_loop.trips, k0_off192 k 64#32 0#32 = ![1024 * k.val + 64] := by decide +kernel
instance closedOff_k0_off192_0 (k : Fin k0_t7_loop.trips) : ClosedOff (k0_off192 k 64#32 0#32) := ⟨![1024 * k.val + 64], k0_off192_cf0 k⟩
theorem k0_off192_cf1 : ∀ k : Fin k0_t7_loop.trips, k0_off192 k 64#32 16#32 = ![1024 * k.val + 80] := by decide +kernel
instance closedOff_k0_off192_1 (k : Fin k0_t7_loop.trips) : ClosedOff (k0_off192 k 64#32 16#32) := ⟨![1024 * k.val + 80], k0_off192_cf1 k⟩
theorem k0_off192_cf2 : ∀ k : Fin k0_t7_loop.trips, k0_off192 k 64#32 32#32 = ![1024 * k.val + 96] := by decide +kernel
instance closedOff_k0_off192_2 (k : Fin k0_t7_loop.trips) : ClosedOff (k0_off192 k 64#32 32#32) := ⟨![1024 * k.val + 96], k0_off192_cf2 k⟩
theorem k0_off192_cf3 : ∀ k : Fin k0_t7_loop.trips, k0_off192 k 64#32 48#32 = ![1024 * k.val + 112] := by decide +kernel
instance closedOff_k0_off192_3 (k : Fin k0_t7_loop.trips) : ClosedOff (k0_off192 k 64#32 48#32) := ⟨![1024 * k.val + 112], k0_off192_cf3 k⟩
theorem k0_off192_cf4 : ∀ k : Fin k0_t7_loop.trips, k0_off192 k 128#32 0#32 = ![1024 * k.val + 128] := by decide +kernel
instance closedOff_k0_off192_4 (k : Fin k0_t7_loop.trips) : ClosedOff (k0_off192 k 128#32 0#32) := ⟨![1024 * k.val + 128], k0_off192_cf4 k⟩
theorem k0_off194_cf0 : ∀ k : Fin k0_t7_loop.trips, k0_off194 k 128#32 0#32 = ![1024 * k.val + 128] := by decide +kernel
instance closedOff_k0_off194_0 (k : Fin k0_t7_loop.trips) : ClosedOff (k0_off194 k 128#32 0#32) := ⟨![1024 * k.val + 128], k0_off194_cf0 k⟩
theorem k0_off194_cf1 : ∀ k : Fin k0_t7_loop.trips, k0_off194 k 128#32 16#32 = ![1024 * k.val + 144] := by decide +kernel
instance closedOff_k0_off194_1 (k : Fin k0_t7_loop.trips) : ClosedOff (k0_off194 k 128#32 16#32) := ⟨![1024 * k.val + 144], k0_off194_cf1 k⟩
theorem k0_off194_cf2 : ∀ k : Fin k0_t7_loop.trips, k0_off194 k 128#32 32#32 = ![1024 * k.val + 160] := by decide +kernel
instance closedOff_k0_off194_2 (k : Fin k0_t7_loop.trips) : ClosedOff (k0_off194 k 128#32 32#32) := ⟨![1024 * k.val + 160], k0_off194_cf2 k⟩
theorem k0_off194_cf3 : ∀ k : Fin k0_t7_loop.trips, k0_off194 k 128#32 48#32 = ![1024 * k.val + 176] := by decide +kernel
instance closedOff_k0_off194_3 (k : Fin k0_t7_loop.trips) : ClosedOff (k0_off194 k 128#32 48#32) := ⟨![1024 * k.val + 176], k0_off194_cf3 k⟩
theorem k0_off194_cf4 : ∀ k : Fin k0_t7_loop.trips, k0_off194 k 192#32 0#32 = ![1024 * k.val + 192] := by decide +kernel
instance closedOff_k0_off194_4 (k : Fin k0_t7_loop.trips) : ClosedOff (k0_off194 k 192#32 0#32) := ⟨![1024 * k.val + 192], k0_off194_cf4 k⟩
theorem k0_off196_cf0 : ∀ k : Fin k0_t7_loop.trips, k0_off196 k 192#32 0#32 = ![1024 * k.val + 192] := by decide +kernel
instance closedOff_k0_off196_0 (k : Fin k0_t7_loop.trips) : ClosedOff (k0_off196 k 192#32 0#32) := ⟨![1024 * k.val + 192], k0_off196_cf0 k⟩
theorem k0_off196_cf1 : ∀ k : Fin k0_t7_loop.trips, k0_off196 k 192#32 16#32 = ![1024 * k.val + 208] := by decide +kernel
instance closedOff_k0_off196_1 (k : Fin k0_t7_loop.trips) : ClosedOff (k0_off196 k 192#32 16#32) := ⟨![1024 * k.val + 208], k0_off196_cf1 k⟩
theorem k0_off196_cf2 : ∀ k : Fin k0_t7_loop.trips, k0_off196 k 192#32 32#32 = ![1024 * k.val + 224] := by decide +kernel
instance closedOff_k0_off196_2 (k : Fin k0_t7_loop.trips) : ClosedOff (k0_off196 k 192#32 32#32) := ⟨![1024 * k.val + 224], k0_off196_cf2 k⟩
theorem k0_off196_cf3 : ∀ k : Fin k0_t7_loop.trips, k0_off196 k 192#32 48#32 = ![1024 * k.val + 240] := by decide +kernel
instance closedOff_k0_off196_3 (k : Fin k0_t7_loop.trips) : ClosedOff (k0_off196 k 192#32 48#32) := ⟨![1024 * k.val + 240], k0_off196_cf3 k⟩
theorem k0_off196_cf4 : ∀ k : Fin k0_t7_loop.trips, k0_off196 k 256#32 0#32 = ![1024 * k.val + 256] := by decide +kernel
instance closedOff_k0_off196_4 (k : Fin k0_t7_loop.trips) : ClosedOff (k0_off196 k 256#32 0#32) := ⟨![1024 * k.val + 256], k0_off196_cf4 k⟩
theorem k0_off198_cf0 : ∀ k : Fin k0_t7_loop.trips, k0_off198 k 256#32 0#32 = ![1024 * k.val + 256] := by decide +kernel
instance closedOff_k0_off198_0 (k : Fin k0_t7_loop.trips) : ClosedOff (k0_off198 k 256#32 0#32) := ⟨![1024 * k.val + 256], k0_off198_cf0 k⟩
theorem k0_off198_cf1 : ∀ k : Fin k0_t7_loop.trips, k0_off198 k 256#32 16#32 = ![1024 * k.val + 272] := by decide +kernel
instance closedOff_k0_off198_1 (k : Fin k0_t7_loop.trips) : ClosedOff (k0_off198 k 256#32 16#32) := ⟨![1024 * k.val + 272], k0_off198_cf1 k⟩
theorem k0_off198_cf2 : ∀ k : Fin k0_t7_loop.trips, k0_off198 k 256#32 32#32 = ![1024 * k.val + 288] := by decide +kernel
instance closedOff_k0_off198_2 (k : Fin k0_t7_loop.trips) : ClosedOff (k0_off198 k 256#32 32#32) := ⟨![1024 * k.val + 288], k0_off198_cf2 k⟩
theorem k0_off198_cf3 : ∀ k : Fin k0_t7_loop.trips, k0_off198 k 256#32 48#32 = ![1024 * k.val + 304] := by decide +kernel
instance closedOff_k0_off198_3 (k : Fin k0_t7_loop.trips) : ClosedOff (k0_off198 k 256#32 48#32) := ⟨![1024 * k.val + 304], k0_off198_cf3 k⟩
theorem k0_off198_cf4 : ∀ k : Fin k0_t7_loop.trips, k0_off198 k 320#32 0#32 = ![1024 * k.val + 320] := by decide +kernel
instance closedOff_k0_off198_4 (k : Fin k0_t7_loop.trips) : ClosedOff (k0_off198 k 320#32 0#32) := ⟨![1024 * k.val + 320], k0_off198_cf4 k⟩
theorem k0_off200_cf0 : ∀ k : Fin k0_t7_loop.trips, k0_off200 k 320#32 0#32 = ![1024 * k.val + 320] := by decide +kernel
instance closedOff_k0_off200_0 (k : Fin k0_t7_loop.trips) : ClosedOff (k0_off200 k 320#32 0#32) := ⟨![1024 * k.val + 320], k0_off200_cf0 k⟩
theorem k0_off200_cf1 : ∀ k : Fin k0_t7_loop.trips, k0_off200 k 320#32 16#32 = ![1024 * k.val + 336] := by decide +kernel
instance closedOff_k0_off200_1 (k : Fin k0_t7_loop.trips) : ClosedOff (k0_off200 k 320#32 16#32) := ⟨![1024 * k.val + 336], k0_off200_cf1 k⟩
theorem k0_off200_cf2 : ∀ k : Fin k0_t7_loop.trips, k0_off200 k 320#32 32#32 = ![1024 * k.val + 352] := by decide +kernel
instance closedOff_k0_off200_2 (k : Fin k0_t7_loop.trips) : ClosedOff (k0_off200 k 320#32 32#32) := ⟨![1024 * k.val + 352], k0_off200_cf2 k⟩
theorem k0_off200_cf3 : ∀ k : Fin k0_t7_loop.trips, k0_off200 k 320#32 48#32 = ![1024 * k.val + 368] := by decide +kernel
instance closedOff_k0_off200_3 (k : Fin k0_t7_loop.trips) : ClosedOff (k0_off200 k 320#32 48#32) := ⟨![1024 * k.val + 368], k0_off200_cf3 k⟩
theorem k0_off200_cf4 : ∀ k : Fin k0_t7_loop.trips, k0_off200 k 384#32 0#32 = ![1024 * k.val + 384] := by decide +kernel
instance closedOff_k0_off200_4 (k : Fin k0_t7_loop.trips) : ClosedOff (k0_off200 k 384#32 0#32) := ⟨![1024 * k.val + 384], k0_off200_cf4 k⟩
theorem k0_off202_cf0 : ∀ k : Fin k0_t7_loop.trips, k0_off202 k 384#32 0#32 = ![1024 * k.val + 384] := by decide +kernel
instance closedOff_k0_off202_0 (k : Fin k0_t7_loop.trips) : ClosedOff (k0_off202 k 384#32 0#32) := ⟨![1024 * k.val + 384], k0_off202_cf0 k⟩
theorem k0_off202_cf1 : ∀ k : Fin k0_t7_loop.trips, k0_off202 k 384#32 16#32 = ![1024 * k.val + 400] := by decide +kernel
instance closedOff_k0_off202_1 (k : Fin k0_t7_loop.trips) : ClosedOff (k0_off202 k 384#32 16#32) := ⟨![1024 * k.val + 400], k0_off202_cf1 k⟩
theorem k0_off202_cf2 : ∀ k : Fin k0_t7_loop.trips, k0_off202 k 384#32 32#32 = ![1024 * k.val + 416] := by decide +kernel
instance closedOff_k0_off202_2 (k : Fin k0_t7_loop.trips) : ClosedOff (k0_off202 k 384#32 32#32) := ⟨![1024 * k.val + 416], k0_off202_cf2 k⟩
theorem k0_off202_cf3 : ∀ k : Fin k0_t7_loop.trips, k0_off202 k 384#32 48#32 = ![1024 * k.val + 432] := by decide +kernel
instance closedOff_k0_off202_3 (k : Fin k0_t7_loop.trips) : ClosedOff (k0_off202 k 384#32 48#32) := ⟨![1024 * k.val + 432], k0_off202_cf3 k⟩
theorem k0_off202_cf4 : ∀ k : Fin k0_t7_loop.trips, k0_off202 k 448#32 0#32 = ![1024 * k.val + 448] := by decide +kernel
instance closedOff_k0_off202_4 (k : Fin k0_t7_loop.trips) : ClosedOff (k0_off202 k 448#32 0#32) := ⟨![1024 * k.val + 448], k0_off202_cf4 k⟩
theorem k0_off204_cf0 : ∀ k : Fin k0_t7_loop.trips, k0_off204 k 448#32 0#32 = ![1024 * k.val + 448] := by decide +kernel
instance closedOff_k0_off204_0 (k : Fin k0_t7_loop.trips) : ClosedOff (k0_off204 k 448#32 0#32) := ⟨![1024 * k.val + 448], k0_off204_cf0 k⟩
theorem k0_off204_cf1 : ∀ k : Fin k0_t7_loop.trips, k0_off204 k 448#32 16#32 = ![1024 * k.val + 464] := by decide +kernel
instance closedOff_k0_off204_1 (k : Fin k0_t7_loop.trips) : ClosedOff (k0_off204 k 448#32 16#32) := ⟨![1024 * k.val + 464], k0_off204_cf1 k⟩
theorem k0_off204_cf2 : ∀ k : Fin k0_t7_loop.trips, k0_off204 k 448#32 32#32 = ![1024 * k.val + 480] := by decide +kernel
instance closedOff_k0_off204_2 (k : Fin k0_t7_loop.trips) : ClosedOff (k0_off204 k 448#32 32#32) := ⟨![1024 * k.val + 480], k0_off204_cf2 k⟩
theorem k0_off204_cf3 : ∀ k : Fin k0_t7_loop.trips, k0_off204 k 448#32 48#32 = ![1024 * k.val + 496] := by decide +kernel
instance closedOff_k0_off204_3 (k : Fin k0_t7_loop.trips) : ClosedOff (k0_off204 k 448#32 48#32) := ⟨![1024 * k.val + 496], k0_off204_cf3 k⟩
theorem k0_off204_cf4 : ∀ k : Fin k0_t7_loop.trips, k0_off204 k 512#32 0#32 = ![1024 * k.val + 512] := by decide +kernel
instance closedOff_k0_off204_4 (k : Fin k0_t7_loop.trips) : ClosedOff (k0_off204 k 512#32 0#32) := ⟨![1024 * k.val + 512], k0_off204_cf4 k⟩
theorem k0_off206_cf0 : ∀ k : Fin k0_t7_loop.trips, k0_off206 k 512#32 0#32 = ![1024 * k.val + 512] := by decide +kernel
instance closedOff_k0_off206_0 (k : Fin k0_t7_loop.trips) : ClosedOff (k0_off206 k 512#32 0#32) := ⟨![1024 * k.val + 512], k0_off206_cf0 k⟩
theorem k0_off206_cf1 : ∀ k : Fin k0_t7_loop.trips, k0_off206 k 512#32 16#32 = ![1024 * k.val + 528] := by decide +kernel
instance closedOff_k0_off206_1 (k : Fin k0_t7_loop.trips) : ClosedOff (k0_off206 k 512#32 16#32) := ⟨![1024 * k.val + 528], k0_off206_cf1 k⟩
theorem k0_off206_cf2 : ∀ k : Fin k0_t7_loop.trips, k0_off206 k 512#32 32#32 = ![1024 * k.val + 544] := by decide +kernel
instance closedOff_k0_off206_2 (k : Fin k0_t7_loop.trips) : ClosedOff (k0_off206 k 512#32 32#32) := ⟨![1024 * k.val + 544], k0_off206_cf2 k⟩
theorem k0_off206_cf3 : ∀ k : Fin k0_t7_loop.trips, k0_off206 k 512#32 48#32 = ![1024 * k.val + 560] := by decide +kernel
instance closedOff_k0_off206_3 (k : Fin k0_t7_loop.trips) : ClosedOff (k0_off206 k 512#32 48#32) := ⟨![1024 * k.val + 560], k0_off206_cf3 k⟩
theorem k0_off206_cf4 : ∀ k : Fin k0_t7_loop.trips, k0_off206 k 576#32 0#32 = ![1024 * k.val + 576] := by decide +kernel
instance closedOff_k0_off206_4 (k : Fin k0_t7_loop.trips) : ClosedOff (k0_off206 k 576#32 0#32) := ⟨![1024 * k.val + 576], k0_off206_cf4 k⟩
theorem k0_off208_cf0 : ∀ k : Fin k0_t7_loop.trips, k0_off208 k 576#32 0#32 = ![1024 * k.val + 576] := by decide +kernel
instance closedOff_k0_off208_0 (k : Fin k0_t7_loop.trips) : ClosedOff (k0_off208 k 576#32 0#32) := ⟨![1024 * k.val + 576], k0_off208_cf0 k⟩
theorem k0_off208_cf1 : ∀ k : Fin k0_t7_loop.trips, k0_off208 k 576#32 16#32 = ![1024 * k.val + 592] := by decide +kernel
instance closedOff_k0_off208_1 (k : Fin k0_t7_loop.trips) : ClosedOff (k0_off208 k 576#32 16#32) := ⟨![1024 * k.val + 592], k0_off208_cf1 k⟩
theorem k0_off208_cf2 : ∀ k : Fin k0_t7_loop.trips, k0_off208 k 576#32 32#32 = ![1024 * k.val + 608] := by decide +kernel
instance closedOff_k0_off208_2 (k : Fin k0_t7_loop.trips) : ClosedOff (k0_off208 k 576#32 32#32) := ⟨![1024 * k.val + 608], k0_off208_cf2 k⟩
theorem k0_off208_cf3 : ∀ k : Fin k0_t7_loop.trips, k0_off208 k 576#32 48#32 = ![1024 * k.val + 624] := by decide +kernel
instance closedOff_k0_off208_3 (k : Fin k0_t7_loop.trips) : ClosedOff (k0_off208 k 576#32 48#32) := ⟨![1024 * k.val + 624], k0_off208_cf3 k⟩
theorem k0_off208_cf4 : ∀ k : Fin k0_t7_loop.trips, k0_off208 k 640#32 0#32 = ![1024 * k.val + 640] := by decide +kernel
instance closedOff_k0_off208_4 (k : Fin k0_t7_loop.trips) : ClosedOff (k0_off208 k 640#32 0#32) := ⟨![1024 * k.val + 640], k0_off208_cf4 k⟩
theorem k0_off210_cf0 : ∀ k : Fin k0_t7_loop.trips, k0_off210 k 640#32 0#32 = ![1024 * k.val + 640] := by decide +kernel
instance closedOff_k0_off210_0 (k : Fin k0_t7_loop.trips) : ClosedOff (k0_off210 k 640#32 0#32) := ⟨![1024 * k.val + 640], k0_off210_cf0 k⟩
theorem k0_off210_cf1 : ∀ k : Fin k0_t7_loop.trips, k0_off210 k 640#32 16#32 = ![1024 * k.val + 656] := by decide +kernel
instance closedOff_k0_off210_1 (k : Fin k0_t7_loop.trips) : ClosedOff (k0_off210 k 640#32 16#32) := ⟨![1024 * k.val + 656], k0_off210_cf1 k⟩
theorem k0_off210_cf2 : ∀ k : Fin k0_t7_loop.trips, k0_off210 k 640#32 32#32 = ![1024 * k.val + 672] := by decide +kernel
instance closedOff_k0_off210_2 (k : Fin k0_t7_loop.trips) : ClosedOff (k0_off210 k 640#32 32#32) := ⟨![1024 * k.val + 672], k0_off210_cf2 k⟩
theorem k0_off210_cf3 : ∀ k : Fin k0_t7_loop.trips, k0_off210 k 640#32 48#32 = ![1024 * k.val + 688] := by decide +kernel
instance closedOff_k0_off210_3 (k : Fin k0_t7_loop.trips) : ClosedOff (k0_off210 k 640#32 48#32) := ⟨![1024 * k.val + 688], k0_off210_cf3 k⟩
theorem k0_off210_cf4 : ∀ k : Fin k0_t7_loop.trips, k0_off210 k 704#32 0#32 = ![1024 * k.val + 704] := by decide +kernel
instance closedOff_k0_off210_4 (k : Fin k0_t7_loop.trips) : ClosedOff (k0_off210 k 704#32 0#32) := ⟨![1024 * k.val + 704], k0_off210_cf4 k⟩
theorem k0_off212_cf0 : ∀ k : Fin k0_t7_loop.trips, k0_off212 k 704#32 0#32 = ![1024 * k.val + 704] := by decide +kernel
instance closedOff_k0_off212_0 (k : Fin k0_t7_loop.trips) : ClosedOff (k0_off212 k 704#32 0#32) := ⟨![1024 * k.val + 704], k0_off212_cf0 k⟩
theorem k0_off212_cf1 : ∀ k : Fin k0_t7_loop.trips, k0_off212 k 704#32 16#32 = ![1024 * k.val + 720] := by decide +kernel
instance closedOff_k0_off212_1 (k : Fin k0_t7_loop.trips) : ClosedOff (k0_off212 k 704#32 16#32) := ⟨![1024 * k.val + 720], k0_off212_cf1 k⟩
theorem k0_off212_cf2 : ∀ k : Fin k0_t7_loop.trips, k0_off212 k 704#32 32#32 = ![1024 * k.val + 736] := by decide +kernel
instance closedOff_k0_off212_2 (k : Fin k0_t7_loop.trips) : ClosedOff (k0_off212 k 704#32 32#32) := ⟨![1024 * k.val + 736], k0_off212_cf2 k⟩
theorem k0_off212_cf3 : ∀ k : Fin k0_t7_loop.trips, k0_off212 k 704#32 48#32 = ![1024 * k.val + 752] := by decide +kernel
instance closedOff_k0_off212_3 (k : Fin k0_t7_loop.trips) : ClosedOff (k0_off212 k 704#32 48#32) := ⟨![1024 * k.val + 752], k0_off212_cf3 k⟩
theorem k0_off212_cf4 : ∀ k : Fin k0_t7_loop.trips, k0_off212 k 768#32 0#32 = ![1024 * k.val + 768] := by decide +kernel
instance closedOff_k0_off212_4 (k : Fin k0_t7_loop.trips) : ClosedOff (k0_off212 k 768#32 0#32) := ⟨![1024 * k.val + 768], k0_off212_cf4 k⟩
theorem k0_off214_cf0 : ∀ k : Fin k0_t7_loop.trips, k0_off214 k 768#32 0#32 = ![1024 * k.val + 768] := by decide +kernel
instance closedOff_k0_off214_0 (k : Fin k0_t7_loop.trips) : ClosedOff (k0_off214 k 768#32 0#32) := ⟨![1024 * k.val + 768], k0_off214_cf0 k⟩
theorem k0_off214_cf1 : ∀ k : Fin k0_t7_loop.trips, k0_off214 k 768#32 16#32 = ![1024 * k.val + 784] := by decide +kernel
instance closedOff_k0_off214_1 (k : Fin k0_t7_loop.trips) : ClosedOff (k0_off214 k 768#32 16#32) := ⟨![1024 * k.val + 784], k0_off214_cf1 k⟩
theorem k0_off214_cf2 : ∀ k : Fin k0_t7_loop.trips, k0_off214 k 768#32 32#32 = ![1024 * k.val + 800] := by decide +kernel
instance closedOff_k0_off214_2 (k : Fin k0_t7_loop.trips) : ClosedOff (k0_off214 k 768#32 32#32) := ⟨![1024 * k.val + 800], k0_off214_cf2 k⟩
theorem k0_off214_cf3 : ∀ k : Fin k0_t7_loop.trips, k0_off214 k 768#32 48#32 = ![1024 * k.val + 816] := by decide +kernel
instance closedOff_k0_off214_3 (k : Fin k0_t7_loop.trips) : ClosedOff (k0_off214 k 768#32 48#32) := ⟨![1024 * k.val + 816], k0_off214_cf3 k⟩
theorem k0_off214_cf4 : ∀ k : Fin k0_t7_loop.trips, k0_off214 k 832#32 0#32 = ![1024 * k.val + 832] := by decide +kernel
instance closedOff_k0_off214_4 (k : Fin k0_t7_loop.trips) : ClosedOff (k0_off214 k 832#32 0#32) := ⟨![1024 * k.val + 832], k0_off214_cf4 k⟩
theorem k0_off216_cf0 : ∀ k : Fin k0_t7_loop.trips, k0_off216 k 832#32 0#32 = ![1024 * k.val + 832] := by decide +kernel
instance closedOff_k0_off216_0 (k : Fin k0_t7_loop.trips) : ClosedOff (k0_off216 k 832#32 0#32) := ⟨![1024 * k.val + 832], k0_off216_cf0 k⟩
theorem k0_off216_cf1 : ∀ k : Fin k0_t7_loop.trips, k0_off216 k 832#32 16#32 = ![1024 * k.val + 848] := by decide +kernel
instance closedOff_k0_off216_1 (k : Fin k0_t7_loop.trips) : ClosedOff (k0_off216 k 832#32 16#32) := ⟨![1024 * k.val + 848], k0_off216_cf1 k⟩
theorem k0_off216_cf2 : ∀ k : Fin k0_t7_loop.trips, k0_off216 k 832#32 32#32 = ![1024 * k.val + 864] := by decide +kernel
instance closedOff_k0_off216_2 (k : Fin k0_t7_loop.trips) : ClosedOff (k0_off216 k 832#32 32#32) := ⟨![1024 * k.val + 864], k0_off216_cf2 k⟩
theorem k0_off216_cf3 : ∀ k : Fin k0_t7_loop.trips, k0_off216 k 832#32 48#32 = ![1024 * k.val + 880] := by decide +kernel
instance closedOff_k0_off216_3 (k : Fin k0_t7_loop.trips) : ClosedOff (k0_off216 k 832#32 48#32) := ⟨![1024 * k.val + 880], k0_off216_cf3 k⟩
theorem k0_off216_cf4 : ∀ k : Fin k0_t7_loop.trips, k0_off216 k 896#32 0#32 = ![1024 * k.val + 896] := by decide +kernel
instance closedOff_k0_off216_4 (k : Fin k0_t7_loop.trips) : ClosedOff (k0_off216 k 896#32 0#32) := ⟨![1024 * k.val + 896], k0_off216_cf4 k⟩
theorem k0_off218_cf0 : ∀ k : Fin k0_t7_loop.trips, k0_off218 k 896#32 0#32 = ![1024 * k.val + 896] := by decide +kernel
instance closedOff_k0_off218_0 (k : Fin k0_t7_loop.trips) : ClosedOff (k0_off218 k 896#32 0#32) := ⟨![1024 * k.val + 896], k0_off218_cf0 k⟩
theorem k0_off218_cf1 : ∀ k : Fin k0_t7_loop.trips, k0_off218 k 896#32 16#32 = ![1024 * k.val + 912] := by decide +kernel
instance closedOff_k0_off218_1 (k : Fin k0_t7_loop.trips) : ClosedOff (k0_off218 k 896#32 16#32) := ⟨![1024 * k.val + 912], k0_off218_cf1 k⟩
theorem k0_off218_cf2 : ∀ k : Fin k0_t7_loop.trips, k0_off218 k 896#32 32#32 = ![1024 * k.val + 928] := by decide +kernel
instance closedOff_k0_off218_2 (k : Fin k0_t7_loop.trips) : ClosedOff (k0_off218 k 896#32 32#32) := ⟨![1024 * k.val + 928], k0_off218_cf2 k⟩
theorem k0_off218_cf3 : ∀ k : Fin k0_t7_loop.trips, k0_off218 k 896#32 48#32 = ![1024 * k.val + 944] := by decide +kernel
instance closedOff_k0_off218_3 (k : Fin k0_t7_loop.trips) : ClosedOff (k0_off218 k 896#32 48#32) := ⟨![1024 * k.val + 944], k0_off218_cf3 k⟩
theorem k0_off218_cf4 : ∀ k : Fin k0_t7_loop.trips, k0_off218 k 960#32 0#32 = ![1024 * k.val + 960] := by decide +kernel
instance closedOff_k0_off218_4 (k : Fin k0_t7_loop.trips) : ClosedOff (k0_off218 k 960#32 0#32) := ⟨![1024 * k.val + 960], k0_off218_cf4 k⟩

end Cert.KernelIdeal.Hand
-- ==== Proof.KIVal.lean ====
/-
  The value a compute loop leaves in a row buffer. A row buffer holds 400 rows of 64 lanes; trip k of the loop
  adds, to each of rows 16k … 16k+15, the table row that row's index names, sixteen lanes at a time. `stage n` is
  the buffer once its first n rows are done. One trip is 64 stores of sixteen lanes each; if the j-th of them lands
  at position 1024k + 16j and carries the next stage's values there, the trip takes stage 16k to stage 16(k+1).
-/
import proofs.«216121_g54726473285929_cont_9to1_m_355_3_alg».proof.Proof.KICommon
import proofs.«216121_g54726473285929_cont_9to1_m_355_3_alg».proof.Proof.Spec
import Idealize.ShloMosaic.Lib.Writes
import Idealize.ShloMosaic.Lib.Pipeline.Value
import Idealize.ShloMosaic.Lib.Exec

noncomputable section

namespace Cert.KernelIdeal.Hand

open Cert.KernelIdeal Cert.KernelIdeal.Gen
open Idealize.ShloMosaic Idealize.ShloMosaic.ValueIdx
open Cert.Spec (rowOf)

variable {F : FTy → Type} [FloatOps F]

theorem tab_lt (w : BitVec 32) (c : Nat) : (rowOf w).val * 64 + c % 64 < 1024 := by
  have := (rowOf w).isLt
  omega

theorem p_lt (p : S25600.Idx) : (p 0).val < 25600 := (p 0).isLt

/-- The row buffer once its first `n` rows are done: lane c of a done row r holds the original entry plus the
    table's entry (index of row r, lane c). -/
def stage (B : S25600.Idx → Elt F .f32) (TT : S1024.Idx → Elt F .f32) (X : S400.Idx → BitVec 32) (n : Nat) :
    S25600.Idx → Elt F .f32 :=
  fun p => if (p 0).val < 64 * n then
      FloatOps.addf (B p) (TT (ix1 ⟨(rowOf (X (ix1 ⟨(p 0).val / 64, by have := p_lt p; omega⟩))).val * 64 + (p 0).val % 64, tab_lt _ _⟩))
    else B p

/-- What a piece of a trip's store list must satisfy: it is the block of sixteen lanes at 1024 k + 16 j, and its
    payload is `G` there. -/
def Good (G : S25600.Idx → Elt F .f32) (k : Nat) (p : View.Piece (Elt F) S25600 .f32) (j : Nat) : Prop :=
  p.1.off 0 = 1024 * k + 16 * j ∧ p.1.size 0 = 16 ∧ p.1.stride 0 = 1 ∧ ∀ x, p.2 x = G (p.1.emb x)

theorem mem_set_good {G : S25600.Idx → Elt F .f32} {k j : Nat} {p : View.Piece (Elt F) S25600 .f32} (h : Good G k p j) (y : S25600.Idx) :
    y ∈ p.1.set ↔ 1024 * k + 16 * j ≤ (y 0).val ∧ (y 0).val < 1024 * k + 16 * j + 16 := by
  obtain ⟨ho, hs, ht, -⟩ := h
  rw [LoadRect.mem_set]
  constructor
  · intro h
    obtain ⟨i, hi, e⟩ := h 0
    rw [ho, ht] at e; rw [hs] at hi
    omega
  · rintro ⟨h1, h2⟩ a
    obtain rfl : a = 0 := Subsingleton.elim _ _
    refine ⟨(y 0).val - (1024 * k + 16 * j), by rw [hs]; omega, ?_⟩
    rw [ho, ht]; omega

/-- One trip: 64 stores, the one at list position i (the last store first) being the block 63 - i of rows
    16k … 16k+15, take stage 16k to stage 16(k+1) — stated of what is read back through the view. -/
theorem trip_reads {κ : Kind} {sp : Space} (v : View sig κ sp S25600 .f32) (f : v.ty.Contents (Elt F))
    (B : S25600.Idx → Elt F .f32) (TT : S1024.Idx → Elt F .f32) (X : S400.Idx → BitVec 32) (k : Nat)
    (L : List (View.Piece (Elt F) S25600 .f32)) (hL : L.length = 64)
    (hf : ∀ y, v.read (Elt F) f y = stage B TT X (16 * k) y)
    (hgood : ∀ i : Fin 64, Good (stage B TT X (16 * (k + 1))) k (L.get (i.cast hL.symm)) (63 - i.val)) :
    ∀ y, v.read (Elt F) (v.writes (Elt F) f L) y = stage B TT X (16 * (k + 1)) y := by
  intro y
  by_cases hy : 1024 * k ≤ (y 0).val ∧ (y 0).val < 1024 * k + 1024
  · refine View.read_writes_apply_of_pieces v f _ L ?_ y ?_
    · intro p hp x
      obtain ⟨i, rfl⟩ := List.mem_iff_get.mp hp
      exact (hgood (i.cast hL)).2.2.2 x
    · have hj : ((y 0).val - 1024 * k) / 16 < 64 := by omega
      refine ⟨L.get ((⟨63 - ((y 0).val - 1024 * k) / 16, by omega⟩ : Fin 64).cast hL.symm), List.get_mem _ _, ?_⟩
      rw [mem_set_good (hgood _) y]
      show 1024 * k + 16 * (63 - (63 - ((y 0).val - 1024 * k) / 16)) ≤ _ ∧ _ < 1024 * k + 16 * (63 - (63 - ((y 0).val - 1024 * k) / 16)) + 16
      omega
  · rw [View.read_writes_apply_of_forall_not_mem v f y L ?_, hf]
    · unfold stage
      by_cases h1 : (y 0).val < 1024 * k
      · rw [if_pos (by omega), if_pos (by omega)]
      · rw [if_neg (by omega), if_neg (by omega)]
    · intro p hp hmem
      obtain ⟨i, rfl⟩ := List.mem_iff_get.mp hp
      have := (mem_set_good (hgood (i.cast hL)) y).mp hmem
      have hi : (i.cast hL).val < 64 := (i.cast hL).isLt
      omega

/-- Every piece of a store list is good for its place: the head (the last store) for as many blocks as follow it. -/
def AllGood (G : S25600.Idx → Elt F .f32) (k : Nat) : List (View.Piece (Elt F) S25600 .f32) → Prop
  | [] => True
  | p :: L => Good G k p L.length ∧ AllGood G k L

theorem allGood_get {G : S25600.Idx → Elt F .f32} {k : Nat} :
    ∀ (L : List (View.Piece (Elt F) S25600 .f32)), AllGood G k L → ∀ (i : Nat) (h : i < L.length), Good G k (L.get ⟨i, h⟩) (L.length - 1 - i)
  | [], _, i, h => absurd h (Nat.not_lt_zero _)
  | p :: L, hg, 0, _ => by
      have := hg.1
      simpa using this
  | p :: L, hg, i + 1, h => by
      have h' : i < L.length := Nat.lt_of_succ_lt_succ h
      have := allGood_get L hg.2 i h'
      have e : (p :: L).length - 1 - (i + 1) = L.length - 1 - i := by simp only [List.length_cons]; omega
      rw [e]
      exact this

/-- `trip_reads` from a list whose pieces are all good. -/
theorem trip_reads' {κ : Kind} {sp : Space} (v : View sig κ sp S25600 .f32) (f : v.ty.Contents (Elt F))
    (B : S25600.Idx → Elt F .f32) (TT : S1024.Idx → Elt F .f32) (X : S400.Idx → BitVec 32) (k : Nat)
    (L : List (View.Piece (Elt F) S25600 .f32)) (hL : L.length = 64)
    (hf : ∀ y, v.read (Elt F) f y = stage B TT X (16 * k) y)
    (hall : AllGood (stage B TT X (16 * (k + 1))) k L) :
    ∀ y, v.read (Elt F) (v.writes (Elt F) f L) y = stage B TT X (16 * (k + 1)) y := by
  refine trip_reads v f B TT X k L hL hf (fun i => ?_)
  have h := allGood_get L hall i.val (by rw [hL]; exact i.isLt)
  have e : L.length - 1 - i.val = 63 - i.val := by rw [hL]
  rw [e] at h
  exact h

/-- The table block's offset chain: 64 times the index word, plus the lane group's constant. -/
def tOff (w c : BitVec 32) : Fin 1 → Nat := ![BitVec.toNat (Scalar.indexCast (Scalar.addi (Scalar.muli w 64#32) c))]

theorem tOff_val (w c : BitVec 32) (h : w.toNat < 16) (q : Nat) (hq : q < 4) (hc : c.toNat = 16 * q) :
    tOff w c 0 = w.toNat * 64 + 16 * q := by
  show (Scalar.indexCast (Scalar.addi (Scalar.muli w 64#32) c)).toNat = _
  simp only [Scalar.indexCast, Scalar.addi, Scalar.muli, IntOp.addi, IntOp.muli, BitVec.toNat_add, BitVec.toNat_mul, BitVec.toNat_ofNat]
  omega

/-- The arithmetic of one store: sixteen lanes of row 16k + r, lane group q. Reading the buffer (still at stage 16k
    there) and the table at the row the index word `w` names, and adding, gives the next stage's values on the
    block written. The three buffers are read through arbitrary views of the right shapes; the load and the store
    may spell the block's start by different chains of the same value. -/
theorem piece_agree {κb κt κx : Kind} {spb spt spx : Space}
    (vb : View sig κb spb S25600 .f32) (vt : View sig κt spt S1024 .f32) (vx : View sig κx spx S400 .i32)
    (f : vb.ty.Contents (Elt F)) (TT : vt.ty.Contents (Elt F)) (X : vx.ty.Contents (Elt F))
    (B : S25600.Idx → Elt F .f32) (k r q : Nat) (hk : k < 25) (hr : r < 16) (hq : q < 4)
    (hf : ∀ y, vb.read (Elt F) f y = stage B (vt.read (Elt F) TT) (vx.read (Elt F) X) (16 * k) y)
    (hX : ∀ j, BitVec.toNat (vx.read (Elt F) X j) < 16)
    (off offL offX : Fin 1 → Nat) (inb : ∀ a, off a + S16.size a ≤ S25600.size a) (inbL : ∀ a, offL a + S16.size a ≤ S25600.size a)
    (inbX : ∀ a, offX a + S16.size a ≤ S400.size a)
    (ho : off 0 = 1024 * k + 64 * r + 16 * q) (hoL : offL 0 = 1024 * k + 64 * r + 16 * q) (hoX : offX 0 = 16 * k)
    (w c : BitVec 32) (hc : c.toNat = 16 * q) (inbT : ∀ a, tOff w c a + S16.size a ≤ S1024.size a)
    (jr : S16.Idx) (hjr : (jr 0).val = r) (hw : w = vx.readAt (Elt F) (Rect.unit (s := S400) offX S16.size inbX).toLoadRect X jr)
    (x : S16.Idx) :
    FloatOps.addf (vb.readAt (Elt F) (Rect.unit (s := S25600) offL S16.size inbL).toLoadRect f x)
        (vt.readAt (Elt F) (Rect.unit (s := S1024) (tOff w c) S16.size inbT).toLoadRect TT x)
      = stage B (vt.read (Elt F) TT) (vx.read (Elt F) X) (16 * (k + 1)) ((Rect.unit (s := S25600) off S16.size inb).emb x) := by
  have hx : (x 0).val < 16 := (x 0).isLt
  have hwlt : w.toNat < 16 := by rw [hw, View.readAt_apply]; exact hX _
  have hrow : rowOf w = ⟨w.toNat, hwlt⟩ := Fin.ext (Cert.Spec.rowOf_val hwlt)
  have hoT : tOff w c 0 = w.toNat * 64 + 16 * q := tOff_val w c hwlt q hq hc
  rw [View.readAt_apply, View.readAt_apply]
  have e1 : (Rect.unit (s := S25600) offL S16.size inbL).toLoadRect.idx x = (Rect.unit (s := S25600) off S16.size inb).emb x := by
    funext a
    obtain rfl : a = 0 := Subsingleton.elim _ _
    apply Fin.ext
    show offL 0 + 1 * (x 0).val = off 0 + 1 * (x 0).val
    omega
  have hy0 : (((Rect.unit (s := S25600) off S16.size inb).emb x) 0).val = 1024 * k + 64 * r + 16 * q + (x 0).val := by
    show off 0 + 1 * (x 0).val = _
    omega
  rw [e1, hf]
  unfold stage
  rw [if_neg (by rw [hy0]; omega), if_pos (by rw [hy0]; omega)]
  congr 2
  funext a
  obtain rfl : a = 0 := Subsingleton.elim _ _
  apply Fin.ext
  show tOff w c 0 + 1 * (x 0).val = (rowOf (vx.read (Elt F) X (ix1 ⟨(((Rect.unit (s := S25600) off S16.size inb).emb x) 0).val / 64, _⟩))).val * 64 + (((Rect.unit (s := S25600) off S16.size inb).emb x) 0).val % 64
  have hdiv : (((Rect.unit (s := S25600) off S16.size inb).emb x) 0).val / 64 = 16 * k + r := by rw [hy0]; omega
  have hmod : (((Rect.unit (s := S25600) off S16.size inb).emb x) 0).val % 64 = 16 * q + (x 0).val := by rw [hy0]; omega
  have hwx : vx.read (Elt F) X (ix1 ⟨(((Rect.unit (s := S25600) off S16.size inb).emb x) 0).val / 64, by rw [hdiv]; omega⟩) = w := by
    refine Eq.trans ?_ hw.symm
    rw [View.readAt_apply]
    congr 1
    funext a
    obtain rfl : a = 0 := Subsingleton.elim _ _
    apply Fin.ext
    show (((Rect.unit (s := S25600) off S16.size inb).emb x) 0).val / 64 = offX 0 + 1 * (jr 0).val
    rw [hdiv, hjr]; omega
  rw [hwx, hrow, hmod, hoT]
  show w.toNat * 64 + 16 * q + 1 * (x 0).val = w.toNat * 64 + (16 * q + (x 0).val)
  omega

/-- A table block named by an index below sixteen lies inside the table. -/
theorem off_gen (v : BitVec 32) (h : v.toNat < 16) (r : Fin 4) (a : Fin 1) :
    (![BitVec.toNat (Scalar.indexCast (Scalar.addi (Scalar.muli v 64#32) (BitVec.ofNat 32 (16 * r.val))))] : Fin 1 → ℕ) a + S16.size a ≤ S1024.size a := by
  have hr : r.val < 4 := r.isLt
  have e : (Scalar.indexCast (Scalar.addi (Scalar.muli v 64#32) (BitVec.ofNat 32 (16 * r.val)))).toNat = v.toNat * 64 + 16 * r.val := by
    simp only [Scalar.indexCast, Scalar.addi, Scalar.muli, IntOp.addi, IntOp.muli, BitVec.toNat_add, BitVec.toNat_mul, BitVec.toNat_ofNat]
    omega
  obtain rfl : a = 0 := Subsingleton.elim _ _
  show (Scalar.indexCast (Scalar.addi (Scalar.muli v 64#32) (BitVec.ofNat 32 (16 * r.val)))).toNat + 16 ≤ 1024
  omega

/-- A chain with a registered closed form, read at its one coordinate. -/
theorem cf0 (off : Fin 1 → Nat) [c : ClosedOff off] : off 0 = c.form 0 := congrFun c.eq 0

open Lean Elab Tactic Meta in
/-- Unfold the generated payload definitions in the goal. -/
elab "unfold_pays" : tactic => do
  let g ← getMainGoal
  let tgt ← instantiateMVars (← g.getType)
  let tgt' ← Meta.deltaExpand tgt (fun n => n.isStr && n.getString!.startsWith "k0_pay")
  replaceMainGoal [← g.replaceTargetDefEq tgt']

end Cert.KernelIdeal.Hand

end
-- ==== Proof.KISep.lean ====
/-
  Bookkeeping for a tile's pieces of the result, indexed by its turn t below 81. P t is piece t untouched and D t is
  piece t done; phi P D n is done below n and untouched from n on. At the head of the trip that starts at turn j every
  piece is held except j - 2 and j - 1; the trip takes j, j + 1, j + 2 out and puts j - 2, j - 1, j back done. The
  equations below move single pieces in and out of an iterated separating conjunction over such index sets.
-/
import Idealize.ShloMosaic.Rules.PointsTo
import Idealize.ShloMosaic.Lib.Transfers
import Idealize.SL.BI.BigOp
import Idealize.ShloMosaic.Lib.SparseCore.Launch

noncomputable section

namespace Cert.KernelIdeal.Hand

open Idealize.ShloMosaic
open Idealize.SL
open Idealize.SL.RA Idealize.SL.Sem
open Idealize.SL.BI (sProp bigSep bigSep_congr)
open scoped Idealize.SL.BI
open Idealize.SL.BI.BIBase Idealize.SL.BI.Laws

section Sep

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- Done below `n`, untouched from `n` on. -/
def phi (P D : ℕ → sProp 𝕄) (n t : ℕ) : sProp 𝕄 := if t < n then D t else P t

theorem phi_lt (P D : ℕ → sProp 𝕄) {n t : ℕ} (h : t < n) : phi P D n t = D t := if_pos h
theorem phi_ge (P D : ℕ → sProp 𝕄) {n t : ℕ} (h : n ≤ t) : phi P D n t = P t := if_neg (Nat.not_lt.mpr h)

/-- One piece joins a family over a set that lacks it. -/
theorem join1 (T S : Finset ℕ) (a : ℕ) (Ψ Ψ' : ℕ → sProp 𝕄) (A : sProp 𝕄)
    (hT : T = insert a S) (ha : a ∉ S) (hA : Ψ' a = A) (hS : ∀ t ∈ S, Ψ t = Ψ' t) :
    (iprop(A ∗ bigSep S Ψ) : sProp 𝕄) = bigSep T Ψ' := by
  subst hT
  rw [SparseCore.bigSep_insert' ha, hA, bigSep_congr hS]

/-- Two pieces join. -/
theorem join2 (T S : Finset ℕ) (a b : ℕ) (Ψ Ψ' : ℕ → sProp 𝕄) (A B : sProp 𝕄)
    (hT : T = insert a (insert b S)) (ha : a ∉ insert b S) (hb : b ∉ S)
    (hA : Ψ' a = A) (hB : Ψ' b = B) (hS : ∀ t ∈ S, Ψ t = Ψ' t) :
    (iprop(A ∗ B ∗ bigSep S Ψ) : sProp 𝕄) = bigSep T Ψ' := by
  subst hT
  rw [SparseCore.bigSep_insert' ha, SparseCore.bigSep_insert' hb, hA, hB, bigSep_congr hS]

/-- Three pieces join. -/
theorem join3 (T S : Finset ℕ) (a b c : ℕ) (Ψ Ψ' : ℕ → sProp 𝕄) (A B C : sProp 𝕄)
    (hT : T = insert a (insert b (insert c S))) (ha : a ∉ insert b (insert c S)) (hb : b ∉ insert c S) (hc : c ∉ S)
    (hA : Ψ' a = A) (hB : Ψ' b = B) (hC : Ψ' c = C) (hS : ∀ t ∈ S, Ψ t = Ψ' t) :
    (iprop(A ∗ B ∗ C ∗ bigSep S Ψ) : sProp 𝕄) = bigSep T Ψ' := by
  subst hT
  rw [SparseCore.bigSep_insert' ha, SparseCore.bigSep_insert' hb, SparseCore.bigSep_insert' hc, hA, hB, hC, bigSep_congr hS]

/-- Membership in the index sets below, as arithmetic. -/
local macro "fs_mem" : tactic =>
  `(tactic| (simp only [Finset.mem_insert, Finset.mem_sdiff, Finset.mem_range, Finset.mem_singleton, Finset.mem_erase, not_or, ne_eq, not_true_eq_false, not_false_eq_true, true_and, and_true, false_and, and_false, true_or, or_true, false_or, or_false] <;> omega))
local macro "fs_memh" h:ident : tactic =>
  `(tactic| (simp only [Finset.mem_insert, Finset.mem_sdiff, Finset.mem_range, Finset.mem_singleton, Finset.mem_erase, not_or, ne_eq, not_true_eq_false, not_false_eq_true, true_and, and_true, false_and, and_false, true_or, or_true, false_or, or_false] at $h:ident; omega))
local macro "fs_eq" : tactic =>
  `(tactic| (ext x; simp only [Finset.mem_insert, Finset.mem_sdiff, Finset.mem_range, Finset.mem_singleton, Finset.mem_erase, not_or, ne_eq, not_true_eq_false, not_false_eq_true, true_and, and_true, false_and, and_false, true_or, or_true, false_or, or_false]; omega))

/-- The turns as numbers. -/
theorem fin_range (Φ : ℕ → sProp 𝕄) :
    bigSep (Finset.univ : Finset (Fin 81)) (fun t => Φ t.val) = bigSep (Finset.range 81) Φ := by
  rw [← Nat.Iio_eq_range, ← Fin.map_valEmbedding_univ, BI.bigSep_map]; rfl

/-- Before the first trip: turns 0, 1, 2 taken out. -/
theorem init_split (P : ℕ → sProp 𝕄) :
    bigSep (Finset.range 81) P = iprop(P 0 ∗ P 1 ∗ P 2 ∗ bigSep (Finset.range 81 \ {0, 1, 2}) P) :=
  (join3 (Finset.range 81) (Finset.range 81 \ {0, 1, 2}) 0 1 2 P P _ _ _ (by fs_eq) (by fs_mem) (by fs_mem) (by fs_mem)
    rfl rfl rfl fun _ _ => rfl).symm

/-- Turn 0 done and back, turns 1 and 2 in flight: the head of the trip that starts at turn 3. -/
theorem init_join (P D : ℕ → sProp 𝕄) :
    (iprop(D 0 ∗ bigSep (Finset.range 81 \ {0, 1, 2}) P) : sProp 𝕄) = bigSep (((Finset.range 81).erase 1).erase 2) (phi P D 3) :=
  join1 _ _ 0 P (phi P D 3) _ (by fs_eq) (by fs_mem) (phi_lt P D (by omega))
    fun t ht => (phi_ge P D (by fs_memh ht)).symm

/-- At the head of the trip that starts at turn `j`: turns j, j + 1, j + 2 taken out, untouched. -/
theorem head_split (P D : ℕ → sProp 𝕄) (j : ℕ) (h2 : 2 ≤ j) (hj : j + 2 < 81) :
    bigSep (((Finset.range 81).erase (j - 2)).erase (j - 1)) (phi P D j)
      = iprop(P j ∗ P (j + 1) ∗ P (j + 2) ∗ bigSep (Finset.range 81 \ {j - 2, j - 1, j, j + 1, j + 2}) (phi P D j)) :=
  (join3 _ _ j (j + 1) (j + 2) (phi P D j) (phi P D j) _ _ _ (by fs_eq) (by fs_mem) (by fs_mem) (by fs_mem)
    (phi_ge P D (le_refl j)) (phi_ge P D (by omega)) (phi_ge P D (by omega)) fun _ _ => rfl).symm

/-- At the end of that trip: turns j - 2, j - 1, j back, done; the head of the trip that starts at turn j + 3. -/
theorem tail_join (P D : ℕ → sProp 𝕄) (j : ℕ) (h2 : 2 ≤ j) (hj : j + 2 < 81) :
    (iprop(D (j - 2) ∗ D (j - 1) ∗ D j ∗ bigSep (Finset.range 81 \ {j - 2, j - 1, j, j + 1, j + 2}) (phi P D j)) : sProp 𝕄)
      = bigSep (((Finset.range 81).erase (j + 1)).erase (j + 2)) (phi P D (j + 3)) :=
  join3 _ _ (j - 2) (j - 1) j (phi P D j) (phi P D (j + 3)) _ _ _ (by fs_eq) (by fs_mem) (by fs_mem) (by fs_mem)
    (phi_lt P D (by omega)) (phi_lt P D (by omega)) (phi_lt P D (by omega)) fun t ht => by
      by_cases h : t < j
      · rw [phi_lt P D h, phi_lt P D (by omega)]
      · rw [phi_ge P D (Nat.not_lt.mp h), phi_ge P D (by fs_memh ht)]

/-- The last trip when only turn `j` is real (n = j + 1): turns j - 2, j - 1, j stay in flight, everything else is done
    (pieces from `n` on are the same untouched and done). -/
theorem fin_a (P D : ℕ → sProp 𝕄) (j n : ℕ) (h2 : 2 ≤ j) (hj : j + 2 < 81) (hn : n = j + 1) (hPD : ∀ t, n ≤ t → P t = D t) :
    (iprop(P (j + 1) ∗ P (j + 2) ∗ bigSep (Finset.range 81 \ {j - 2, j - 1, j, j + 1, j + 2}) (phi P D j)) : sProp 𝕄)
      = bigSep (Finset.range 81 \ {j - 2, j - 1, j}) D :=
  join2 _ _ (j + 1) (j + 2) (phi P D j) D _ _ (by fs_eq) (by fs_mem) (by fs_mem)
    (hPD _ (by omega)).symm (hPD _ (by omega)).symm fun t ht => by
      by_cases h : t < j
      · exact phi_lt P D h
      · rw [phi_ge P D (Nat.not_lt.mp h)]; exact hPD t (by fs_memh ht)

/-- The last trip when turns j, j + 1, j + 2 are real (n = j + 3): they stay in flight, j - 2 and j - 1 came back. -/
theorem fin_b (P D : ℕ → sProp 𝕄) (j n : ℕ) (h2 : 2 ≤ j) (hj : j + 2 < 81) (hn : n = j + 3) (hPD : ∀ t, n ≤ t → P t = D t) :
    (iprop(D (j - 2) ∗ D (j - 1) ∗ bigSep (Finset.range 81 \ {j - 2, j - 1, j, j + 1, j + 2}) (phi P D j)) : sProp 𝕄)
      = bigSep (Finset.range 81 \ {j, j + 1, j + 2}) D :=
  join2 _ _ (j - 2) (j - 1) (phi P D j) D _ _ (by fs_eq) (by fs_mem) (by fs_mem) rfl rfl fun t ht => by
    by_cases h : t < j
    · exact phi_lt P D h
    · rw [phi_ge P D (Nat.not_lt.mp h)]; exact hPD t (by fs_memh ht)

/-- Three done pieces and all the others done: every piece done. -/
theorem all_done (D : ℕ → sProp 𝕄) (a b c : ℕ) (ha : a < 81) (hb : b < 81) (hc : c < 81) (hab : a ≠ b) (hac : a ≠ c) (hbc : b ≠ c) :
    (iprop(D a ∗ D b ∗ D c ∗ bigSep (Finset.range 81 \ {a, b, c}) D) : sProp 𝕄) = bigSep (Finset.range 81) D :=
  join3 _ _ a b c D D _ _ _ (by fs_eq) (by fs_mem) (by fs_mem) (by fs_mem) rfl rfl rfl fun _ _ => rfl

end Sep

end Cert.KernelIdeal.Hand

end
-- ==== Proof.KIGeom.lean ====
/-
  Geometry and values of a tile's chunks. Worker 2 i + c (core c of two, tile i of sixteen) owns the chunks numbered
  2 i + c + 32 t of the flat result: chunk g is the 25600 positions from 25600 g. The positions a turn names are the
  elements of the unit-stride slice of the result array at that offset; after a whole row buffer has been copied
  into the slice, the slice holds any array that agrees with the row buffer entry by entry; and a row buffer whose
  400 rows are all done, started from the chunk of the features, holds the chunk of the flat specification.
-/
import proofs.«216121_g54726473285929_cont_9to1_m_355_3_alg».proof.Proof.KIOwn
import proofs.«216121_g54726473285929_cont_9to1_m_355_3_alg».proof.Proof.KIVal
import proofs.«216121_g54726473285929_cont_9to1_m_355_3_alg».proof.Proof.FlatSpec
import proofs.«216121_g54726473285929_cont_9to1_m_355_3_alg».proof.Proof.Deal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec (rowOf)
open Idealize.ShloMosaic.ValueIdx

variable {F : FTy → Type} [FloatOps F]

local notation "𝕄" => MT nD τ sig (HIx 1) (Elt F) ℕ UU ℕ

/-- The tile at grid coordinates `L`: its core and its subcore as numbers, and its worker number. -/
abbrev cL (L : grid0.Coords) : Fin 2 := Fin.cast (by decide) (L 0)
abbrev iL (L : grid0.Coords) : Fin 16 := Fin.cast (by decide) (L 1)
def wid (L : grid0.Coords) : Nat := 2 * (L 1).val + (L 0).val

theorem wid_lt (L : grid0.Coords) : wid L < 32 := by
  have h0 : (L 0).val < 2 := (cL L).isLt
  have h1 : (L 1).val < 16 := (iL L).isLt
  unfold wid
  omega

/-- The chunk that turn t of the tile names, as the elements of the slice of the result array at its offset. -/
theorem out_set (L : grid0.Coords) (t : Fin 81) (off : Fin 1 → Nat)
    (inb : ∀ a, off a + S25600.size a ≤ S64000000.size a) (hoff : off 0 = 25600 * (wid L + 32 * t.val))
    (hlt : wid L + 32 * t.val < 2500) :
    (outV.slice (Rect.unit (s := S64000000) off S25600.size inb) (fun _ => rfl)).view.set
      = Cert.Proof.Deal.tset (cL L, iL L, t) := by
  have hg : 2 * (iL L).val + (cL L).val + 32 * t.val < 2500 := hlt
  have hoff' : off = ![25600 * (2 * (iL L).val + (cL L).val + 32 * t.val)] := by
    funext a
    obtain rfl : a = 0 := Subsingleton.elim _ _
    exact hoff
  have inb' : ∀ a, (![25600 * (2 * (iL L).val + (cL L).val + 32 * t.val)] : Fin 1 → Nat) a + S25600.size a ≤ S64000000.size a :=
    hoff' ▸ inb
  rw [Cert.Proof.Deal.tset_chunk (cL L, iL L, t) hg, Cert.Proof.Deal.chunk_eq_unit ⟨_, hg⟩ inb']
  exact (View.set_slice_whole main_v2_scv (Rect.unit (s := S64000000) off S25600.size inb)).trans
    (congrArg (fun r : Rect S64000000 => r.set) (Rect.unit_congr hoff' inb inb'))

/-- The positions turn t of the tile names, held at contents f, are the slice of the result array at the turn's
    offset held at f. -/
theorem out_piece (d : Dev nD) (L : grid0.Coords) (t : Fin 81) (off : Fin 1 → Nat)
    (inb : ∀ a, off a + S25600.size a ≤ S64000000.size a) (hoff : off 0 = 25600 * (wid L + 32 * t.val))
    (hlt : wid L + 32 * t.val < 2500) (f : Buf (Elt F) (oLoc d)) :
    (oLoc d ↦[Cert.Proof.Deal.tset (cL L, iL L, t)]{fullShare} f : sProp 𝕄)
      = ((outV.slice (Rect.unit (s := S64000000) off S25600.size inb) (fun _ => rfl)).view.loc (thrV d L)
          ↦[(outV.slice (Rect.unit (s := S64000000) off S25600.size inb) (fun _ => rfl)).view.set]{fullShare} f) :=
  congrArg (fun S : Finset (Idx (oLoc d)) => (oLoc d ↦[S]{fullShare} f : sProp 𝕄)) (out_set L t off inb hoff hlt).symm

/-- After a whole row buffer has landed in the slice of the result array at turn t's offset, the slice holds any
    array G that agrees with the row buffer entry by entry: the positions the turn names, held at G. -/
theorem out_done (d : Dev nD) (L : grid0.Coords) (t : Fin 81) (off : Fin 1 → Nat)
    (inb : ∀ a, off a + S25600.size a ≤ S64000000.size a) (hoff : off 0 = 25600 * (wid L + 32 * t.val))
    (hlt : wid L + 32 * t.val < 2500) (fo : Buf (Elt F) (oLoc d)) (pay : S25600.Idx → Elt F .f32) (G : Buf (Elt F) (oLoc d))
    (hpay : ∀ y : S25600.Idx, pay y = G (ix1 ⟨25600 * (wid L + 32 * t.val) + (y 0).val, by have := p_lt y; omega⟩)) :
    ((outV.slice (Rect.unit (s := S64000000) off S25600.size inb) (fun _ => rfl)).view.loc (thrV d L)
        ↦[(outV.slice (Rect.unit (s := S64000000) off S25600.size inb) (fun _ => rfl)).view.set]{fullShare}
          ((outV.slice (Rect.unit (s := S64000000) off S25600.size inb) (fun _ => rfl)).view.writes (Elt F) fo
            [⟨Rect.whole (Rect.unit (s := S64000000) off S25600.size inb).shape, pay⟩]) : sProp 𝕄)
      = (oLoc d ↦[Cert.Proof.Deal.tset (cL L, iL L, t)]{fullShare} G) := by
  refine Eq.trans (pointsTo_congr fun i hi => ?_) (out_piece d L t off inb hoff hlt G).symm
  obtain ⟨x, -, rfl⟩ := Finset.mem_map.mp hi
  have hx : (x 0).val < 25600 := (x 0).isLt
  have e : ((outV.slice (Rect.unit (s := S64000000) off S25600.size inb) (fun _ => rfl)).view.slice
        (Rect.whole (Rect.unit (s := S64000000) off S25600.size inb).shape)).emb x
      = (outV.slice (Rect.unit (s := S64000000) off S25600.size inb) (fun _ => rfl)).view.emb x := by
    rw [View.emb_slice]
    show (outV.slice (Rect.unit (s := S64000000) off S25600.size inb) (fun _ => rfl)).view.emb
      ((Rect.whole (Rect.unit (s := S64000000) off S25600.size inb).shape).emb x) = _
    rw [Rect.emb_whole_apply]
  have hi0 : (outV.slice (Rect.unit (s := S64000000) off S25600.size inb) (fun _ => rfl)).view.emb x
      = (ix1 ⟨25600 * (wid L + 32 * t.val) + (x 0).val, by omega⟩ : S64000000.Idx) := by
    refine funext fun a : Fin 1 => ?_
    obtain rfl : a = 0 := Subsingleton.elim _ _
    refine Fin.ext ?_
    show off 0 + 1 * (x 0).val = 25600 * (wid L + 32 * t.val) + (x 0).val
    rw [hoff]; omega
  rw [View.writes_singleton, ← e, View.write_emb_of_mem _ _ (Finset.mem_univ _), e, hi0]
  exact hpay x

/-- A row buffer whose 400 rows are all done, started from chunk g of the features with the table and chunk g of
    the indices, holds chunk g of the flat specification. -/
theorem chunk_val (B : S25600.Idx → Elt F .f32) (TT : S1024.Idx → Elt F .f32) (X : S400.Idx → BitVec 32)
    (ff : Cert.Proof.FlatSpec.SF.Idx → Elt F .f32) (gf : Cert.Proof.FlatSpec.ST.Idx → Elt F .f32)
    (ix : Cert.Spec.SN.Idx → BitVec 32) (g : Nat) (hg : g < 2500)
    (hB : ∀ y : S25600.Idx, B y = ff (ix1 ⟨25600 * g + (y 0).val, by have := p_lt y; omega⟩))
    (hTT : ∀ z, TT z = gf z)
    (hX : ∀ r : S400.Idx, X r = ix (ix1 ⟨400 * g + (r 0).val, by have h : (r 0).val < 400 := (r 0).isLt; omega⟩))
    (y : S25600.Idx) :
    stage B TT X 400 y
      = Cert.Proof.FlatSpec.Gflat ff gf ix (ix1 ⟨25600 * g + (y 0).val, by have := p_lt y; omega⟩) := by
  have hy : (y 0).val < 25600 := p_lt y
  have hr : (y 0).val / 64 < 400 := by omega
  have hX' : X (ix1 ⟨(y 0).val / 64, hr⟩) = ix (ix1 ⟨400 * g + (y 0).val / 64, by omega⟩) := hX (ix1 ⟨(y 0).val / 64, hr⟩)
  have hk : (rowOf (X (ix1 ⟨(y 0).val / 64, hr⟩))).val * 64 + (y 0).val % 64
      = (rowOf (ix (ix1 ⟨400 * g + (y 0).val / 64, by omega⟩))).val * 64 + (y 0).val % 64 := by rw [hX']
  unfold stage
  rw [if_pos (by omega), hB y, hTT,
    Cert.Proof.FlatSpec.Gflat_at_rc ff gf ix (25600 * g + (y 0).val) (by omega)
      ⟨400 * g + (y 0).val / 64, by omega⟩ ⟨(y 0).val % 64, Nat.mod_lt _ (by omega)⟩
      (by show (25600 * g + (y 0).val) / 64 = 400 * g + (y 0).val / 64; omega)
      (by show (25600 * g + (y 0).val) % 64 = (y 0).val % 64; omega)]
  exact congrArg (fun k : Fin 1024 => FloatOps.addf (ff (ix1 ⟨25600 * g + (y 0).val, by omega⟩)) (gf (ix1 k))) (Fin.ext hk)

end Cert.KernelIdeal.Hand

end
-- ==== Proof.KIMain.lean ====
/-
  The main loop's vocabulary. A tile's turn t is chunk wid + 32 t; turn t's pieces of the three flat arrays start at
  25600 (wid + 32 t) (rows of 64 lanes) and 400 (wid + 32 t) (indices). The three kinds of copy in flight, as the
  loop carries them from trip to trip; the tile's output pieces, untouched or done; what it means for a row buffer
  to hold a chunk's final values; the invariant at the head of a trip and after the last one; and the small
  equations by which an offset chain of known value, a slice read, and a returned piece are put in those terms.
-/
import proofs.«216121_g54726473285929_cont_9to1_m_355_3_alg».proof.Proof.KIOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KIOff
import proofs.«216121_g54726473285929_cont_9to1_m_355_3_alg».proof.Proof.KIVal
import proofs.«216121_g54726473285929_cont_9to1_m_355_3_alg».proof.Proof.KISep
import proofs.«216121_g54726473285929_cont_9to1_m_355_3_alg».proof.Proof.KIGeom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- The worker number of the tile at `L`, and the number of chunks it takes. -/
def nkL (L : grid0.Coords) : Nat := (2531 - wid L) / 32

/-- Chunk number of the tile's turn t (capped at the last chunk, so that it always names one), and where the
    chunk starts in the flat arrays of 64-lane rows and in the index array. -/
def gOf (L : grid0.Coords) (t : Nat) : Nat := min (wid L + 32 * t) 2499
def cOff (L : grid0.Coords) (t : Nat) : Fin 1 → Nat := ![25600 * gOf L t]
def iOff (L : grid0.Coords) (t : Nat) : Fin 1 → Nat := ![400 * gOf L t]
theorem cOff_inb (L : grid0.Coords) (t : Nat) : ∀ a, cOff L t a + S25600.size a ≤ S64000000.size a := by
  intro a; obtain rfl : a = 0 := Subsingleton.elim _ _
  show 25600 * min (wid L + 32 * t) 2499 + 25600 ≤ 64000000
  omega
theorem iOff_inb (L : grid0.Coords) (t : Nat) : ∀ a, iOff L t a + S400.size a ≤ S1000000.size a := by
  intro a; obtain rfl : a = 0 := Subsingleton.elim _ _
  show 400 * min (wid L + 32 * t) 2499 + 400 ≤ 1000000
  omega

abbrev oSl (off : Fin 1 → Nat) (inb : ∀ a, off a + S25600.size a ≤ S64000000.size a) : Memref sig .scVector .hbm S25600 .f32 :=
  outV.slice (Rect.unit (s := S64000000) off S25600.size inb) (fun _ => rfl)
abbrev fSl (off : Fin 1 → Nat) (inb : ∀ a, off a + S25600.size a ≤ S64000000.size a) : Memref sig .scVector .hbm S25600 .f32 :=
  featV.slice (Rect.unit (s := S64000000) off S25600.size inb) (fun _ => rfl)
abbrev iSl (off : Fin 1 → Nat) (inb : ∀ a, off a + S400.size a ≤ S1000000.size a) : Memref sig .scVector .hbm S400 .i32 :=
  idxV.slice (Rect.unit (s := S1000000) off S400.size inb) (fun _ => rfl)

section Generic
variable (d : Dev nD) (L : grid0.Coords)

/-- A buffer overwritten whole by a payload, and the part of a buffer outside a set: stated once for every shape, so
    that every use agrees on the full index set. -/
abbrev landed {sp : Space} {s : Shape} {e : EltTy} (m : Memref sig .scVector sp s e) (base : Buf (Elt F) (m.view.loc (thrV d L)))
    (pay : s.Idx → Elt F e) : Buf (Elt F) (m.view.loc (thrV d L)) :=
  View.write (Elt F) m.view base pay Finset.univ
abbrev outside {sp : Space} {s : Shape} {e : EltTy} (m : Memref sig .scVector sp s e) (S' : Finset (Idx (m.view.loc (thrV d L)))) :
    Finset (Idx (m.view.loc (thrV d L))) :=
  Finset.univ \ S'

/-- The part of a buffer outside one of its slices. -/
abbrev outsideSl {sp : Space} {s : Shape} {e : EltTy} (m : Memref sig .scVector sp s e) (r : Rect s) (hr : ∀ a, r.stride a = 1) :
    Finset (Idx (m.view.loc (thrV d L))) :=
  Finset.univ \ (m.slice r hr).view.set

end Generic

section Flights
variable (d : Dev nD) (L : grid0.Coords)

/-- A row buffer's copy into the output slice at `off`, in flight on DMA semaphore `cell`. -/
abbrev outFl (cell : DmaSem sig) (bufS : Memref sig .scVector .vmem S25600 .f32) (off : Fin 1 → Nat)
    (inb : ∀ a, off a + S25600.size a ≤ S64000000.size a) (base : Buf (Elt F) (oLoc d))
    (g : Buf (Elt F) (bufS.view.loc (thrV d L))) : sProp 𝕄 :=
  Transfers.Flight countersEmb (thrV d L) (SemLoc.dma cell) default 819200
    iprop(((oSl off inb).view.loc (thrV d L) ↦[(oSl off inb).view.set]{fullShare}
          (oSl off inb).view.writes (Elt F) base
            [⟨Rect.whole S25600, ReadAs.same.apply (bufS.view.read (Elt F) g)⟩])
      ∗ (bufS.view.loc (thrV d L) ↦[bufS.view.set]{fullShare} g))

/-- The feature slice at `off` on its way into a row buffer, on DMA semaphore `cell`, lent from the share `q`. -/
abbrev inFlF (cell : DmaSem sig) (bufS : Memref sig .scVector .vmem S25600 .f32) (q : PosShare TreeShare) (ff : Buf (Elt F) (fLoc d))
    (off : Fin 1 → Nat) (inb : ∀ a, off a + S25600.size a ≤ S64000000.size a) (base : Buf (Elt F) (bufS.view.loc (thrV d L))) : sProp 𝕄 :=
  Transfers.Flight countersEmb (thrV d L) (SemLoc.dma cell) default 819200
    iprop((bufS.view.loc (thrV d L) ↦{fullShare}
          landed d L bufS base (ReadAs.same.apply ((fSl off inb).view.read (Elt F) ff)))
      ∗ (featV.view.loc (thrV d L) ↦[(fSl off inb).view.set]{q} ff))

/-- The index slice at `off` on its way into an index buffer. -/
abbrev inFlI (cell : DmaSem sig) (ixS : Memref sig .scVector .vmem S400 .i32) (q : PosShare TreeShare) (ix : Buf (Elt F) (iLoc d))
    (off : Fin 1 → Nat) (inb : ∀ a, off a + S400.size a ≤ S1000000.size a) (base : Buf (Elt F) (ixS.view.loc (thrV d L))) : sProp 𝕄 :=
  Transfers.Flight countersEmb (thrV d L) (SemLoc.dma cell) default 12800
    iprop((ixS.view.loc (thrV d L) ↦{fullShare}
          landed d L ixS base (ReadAs.same.apply ((iSl off inb).view.read (Elt F) ix)))
      ∗ (idxV.view.loc (thrV d L) ↦[(iSl off inb).view.set]{q} ix))

omit [FloatOps F] in
theorem outFl_congr (cell : DmaSem sig) (bufS : Memref sig .scVector .vmem S25600 .f32) {off off' : Fin 1 → Nat} (h : off = off')
    (inb inb') (base : Buf (Elt F) (oLoc d)) (g : Buf (Elt F) (bufS.view.loc (thrV d L))) :
    outFl d L cell bufS off inb base g = outFl d L cell bufS off' inb' base g := by subst h; rfl
omit [FloatOps F] in
theorem inFlF_congr (cell : DmaSem sig) (bufS : Memref sig .scVector .vmem S25600 .f32) (q : PosShare TreeShare) (ff : Buf (Elt F) (fLoc d))
    {off off' : Fin 1 → Nat} (h : off = off') (inb inb') (base : Buf (Elt F) (bufS.view.loc (thrV d L))) :
    inFlF d L cell bufS q ff off inb base = inFlF d L cell bufS q ff off' inb' base := by subst h; rfl
omit [FloatOps F] in
theorem inFlI_congr (cell : DmaSem sig) (ixS : Memref sig .scVector .vmem S400 .i32) (q : PosShare TreeShare) (ix : Buf (Elt F) (iLoc d))
    {off off' : Fin 1 → Nat} (h : off = off') (inb inb') (base : Buf (Elt F) (ixS.view.loc (thrV d L))) :
    inFlI d L cell ixS q ix off inb base = inFlI d L cell ixS q ix off' inb' base := by subst h; rfl

end Flights

/-- The trip count of the main loop, and what its five conditions say, in terms of the number of chunks. -/
theorem trips_eq : ∀ L : grid0.Coords, (k0_t4_loop L).trips = (nkL L + 2) / 3 - 1 := by decide +kernel
theorem cond_facts : ∀ (L : grid0.Coords) (k : Fin (k0_t4_loop L).trips),
    (k0_cond4 L k = 1#1 ↔ 3 * k.val + 4 < nkL L) ∧ (k0_cond5 L k = 1#1 ↔ 3 * k.val + 4 < nkL L)
    ∧ (k0_cond6 L k = 1#1 ↔ 3 * k.val + 5 < nkL L) ∧ (k0_cond7 L k = 1#1 ↔ 3 * k.val + 5 < nkL L)
    ∧ (k0_cond8 L k = 1#1 ↔ 3 * k.val + 6 < nkL L) := by decide +kernel
theorem nk_cases : ∀ L : grid0.Coords, wid L < 32 ∧ (nkL L = 78 ∨ nkL L = 79) ∧ (∀ t, t < nkL L ↔ wid L + 32 * t < 2500) := by
  intro L
  have h : wid L < 32 := wid_lt L
  refine ⟨h, ?_, ?_⟩ <;> unfold nkL <;> omega

section Main
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

/-- The specification's flat values, as contents of the output array. -/
def Gf : Buf (Elt F) (oLoc d) := Cert.Proof.FlatSpec.Gflat ff gf ix

/-- The set of the tile's piece at turn t (empty past the last turn). -/
def tsetN (t : Nat) : Finset (Idx (oLoc d)) := if h : t < 81 then Cert.Proof.Deal.tset (cL L, iL L, ⟨t, h⟩) else ∅
/-- Piece t untouched, and piece t done. -/
def Pp (t : Nat) : sProp 𝕄 := oLoc d ↦[tsetN d L t]{fullShare} fo
def Dp (t : Nat) : sProp 𝕄 := oLoc d ↦[tsetN d L t]{fullShare} Gf d ff gf ix

theorem cIdx_lt (t : Nat) (y : S25600.Idx) : 25600 * gOf L t + (y 0).val < 64000000 := by
  have := p_lt y; unfold gOf; omega
/-- A row buffer holds the final values of the chunk of turn t. -/
def IsChunk (bufS : Memref sig .scVector .vmem S25600 .f32) (g : Buf (Elt F) (bufS.view.loc (thrV d L))) (t : Nat) : Prop :=
  ∀ y : S25600.Idx, ReadAs.same.apply (bufS.view.read (Elt F) g) y = Gf d ff gf ix (ix1 ⟨25600 * gOf L t + (y 0).val, cIdx_lt L t y⟩)

/-- At the head of trip k (turn j = 3k+3): turns 3k+1, 3k+2 on their way out of row buffers 1 and 2, turn 3k+3
    on its way into row buffer 0 and index buffer 0, everything below done, everything above untouched. -/
def invA (k : Nat) : sProp 𝕄 :=
  iprop(∃ (g1 : Buf (Elt F) ((bufS1).view.loc (thrV d L))) (g2 : Buf (Elt F) ((bufS2).view.loc (thrV d L)))
      (b0 : Buf (Elt F) ((bufS0).view.loc (thrV d L))) (x0 : Buf (Elt F) ((ixS0).view.loc (thrV d L)))
      (x1 : Buf (Elt F) ((ixS1).view.loc (thrV d L))) (x2 : Buf (Elt F) ((ixS2).view.loc (thrV d L))) (W' : Waits sig (HIx 1)),
    ⌜(∀ p ∈ W', p ∈ W ∨ p.2 = none) ∧ IsChunk d L ff gf ix bufS1 g1 (3 * k + 1) ∧ IsChunk d L ff gf ix bufS2 g2 (3 * k + 2)⌝
    ∗ Transfers.MayWaits (thrV d L) (none : HIx 1) O
    ∗ owes (thrV d L) O W'
    ∗ ((tabS).view.loc (thrV d L) ↦{fullShare} TTc)
    ∗ bigSep (((Finset.range 81).erase (3 * k + 1)).erase (3 * k + 2)) (phi (Pp d L fo) (Dp d L ff gf ix) (3 * k + 3))
    ∗ outFl d L (⟨7, by decide⟩ : DmaSem sig) bufS1 (cOff L (3 * k + 1)) (cOff_inb L _) fo g1
    ∗ ((bufS1).view.loc (thrV d L) ↦[outside d L bufS1 (bufS1).view.set]{fullShare} g1)
    ∗ outFl d L (⟨8, by decide⟩ : DmaSem sig) bufS2 (cOff L (3 * k + 2)) (cOff_inb L _) fo g2
    ∗ ((bufS2).view.loc (thrV d L) ↦[outside d L bufS2 (bufS2).view.set]{fullShare} g2)
    ∗ inFlF d L (⟨0, by decide⟩ : DmaSem sig) bufS0 (Transfers.shareTokN qf 0) ff (cOff L (3 * k + 3)) (cOff_inb L _) b0
    ∗ ((featV).view.loc (thrV d L) ↦[outsideSl d L featV (Rect.unit (s := S64000000) (cOff L (3 * k + 3)) S25600.size (cOff_inb L _)) (fun _ => rfl)]{Transfers.shareTokN qf 0} ff)
    ∗ inFlI d L (⟨3, by decide⟩ : DmaSem sig) ixS0 (Transfers.shareTokN qi 3) ix (iOff L (3 * k + 3)) (iOff_inb L _) x0
    ∗ ((idxV).view.loc (thrV d L) ↦[outsideSl d L idxV (Rect.unit (s := S1000000) (iOff L (3 * k + 3)) S400.size (iOff_inb L _)) (fun _ => rfl)]{Transfers.shareTokN qi 3} ix)
    ∗ ((featV).view.loc (thrV d L) ↦{Transfers.shareTokN qf 1} ff) ∗ ((featV).view.loc (thrV d L) ↦{Transfers.shareTokN qf 2} ff)
    ∗ ((idxV).view.loc (thrV d L) ↦{Transfers.shareTokN qi 4} ix) ∗ ((idxV).view.loc (thrV d L) ↦{Transfers.shareTokN qi 5} ix)
    ∗ ((ixS1).view.loc (thrV d L) ↦{fullShare} x1) ∗ ((ixS2).view.loc (thrV d L) ↦{fullShare} x2)
    ∗ semVal (thrV d L, SemLoc.dma (⟨1, by decide⟩ : DmaSem sig)) 0 ∗ semVal (thrV d L, SemLoc.dma (⟨2, by decide⟩ : DmaSem sig)) 0
    ∗ semVal (thrV d L, SemLoc.dma (⟨4, by decide⟩ : DmaSem sig)) 0 ∗ semVal (thrV d L, SemLoc.dma (⟨5, by decide⟩ : DmaSem sig)) 0
    ∗ semVal (thrV d L, SemLoc.dma (⟨6, by decide⟩ : DmaSem sig)) 0)

/-- After the last trip: the last three turns on their way out, every other turn done, nothing coming in. -/
def invB : sProp 𝕄 :=
  iprop(∃ (t0 t1 t2 : Nat) (g0 : Buf (Elt F) ((bufS0).view.loc (thrV d L))) (g1 : Buf (Elt F) ((bufS1).view.loc (thrV d L)))
      (g2 : Buf (Elt F) ((bufS2).view.loc (thrV d L))) (x0 : Buf (Elt F) ((ixS0).view.loc (thrV d L)))
      (x1 : Buf (Elt F) ((ixS1).view.loc (thrV d L))) (x2 : Buf (Elt F) ((ixS2).view.loc (thrV d L))) (W' : Waits sig (HIx 1)),
    ⌜(∀ p ∈ W', p ∈ W ∨ p.2 = none) ∧ t0 < nkL L ∧ t1 < nkL L ∧ t2 < nkL L ∧ t0 ≠ t1 ∧ t0 ≠ t2 ∧ t1 ≠ t2
        ∧ IsChunk d L ff gf ix bufS0 g0 t0 ∧ IsChunk d L ff gf ix bufS1 g1 t1 ∧ IsChunk d L ff gf ix bufS2 g2 t2⌝
    ∗ Transfers.MayWaits (thrV d L) (none : HIx 1) O
    ∗ owes (thrV d L) O W'
    ∗ ((tabS).view.loc (thrV d L) ↦{fullShare} TTc)
    ∗ bigSep (Finset.range 81 \ {t0, t1, t2}) (Dp d L ff gf ix)
    ∗ outFl d L (⟨6, by decide⟩ : DmaSem sig) bufS0 (cOff L t0) (cOff_inb L _) fo g0
    ∗ ((bufS0).view.loc (thrV d L) ↦[outside d L bufS0 (bufS0).view.set]{fullShare} g0)
    ∗ outFl d L (⟨7, by decide⟩ : DmaSem sig) bufS1 (cOff L t1) (cOff_inb L _) fo g1
    ∗ ((bufS1).view.loc (thrV d L) ↦[outside d L bufS1 (bufS1).view.set]{fullShare} g1)
    ∗ outFl d L (⟨8, by decide⟩ : DmaSem sig) bufS2 (cOff L t2) (cOff_inb L _) fo g2
    ∗ ((bufS2).view.loc (thrV d L) ↦[outside d L bufS2 (bufS2).view.set]{fullShare} g2)
    ∗ ((featV).view.loc (thrV d L) ↦{Transfers.shareTokN qf 0} ff) ∗ ((featV).view.loc (thrV d L) ↦{Transfers.shareTokN qf 1} ff)
    ∗ ((featV).view.loc (thrV d L) ↦{Transfers.shareTokN qf 2} ff)
    ∗ ((idxV).view.loc (thrV d L) ↦{Transfers.shareTokN qi 3} ix) ∗ ((idxV).view.loc (thrV d L) ↦{Transfers.shareTokN qi 4} ix)
    ∗ ((idxV).view.loc (thrV d L) ↦{Transfers.shareTokN qi 5} ix)
    ∗ ((ixS0).view.loc (thrV d L) ↦{fullShare} x0) ∗ ((ixS1).view.loc (thrV d L) ↦{fullShare} x1) ∗ ((ixS2).view.loc (thrV d L) ↦{fullShare} x2)
    ∗ semVal (thrV d L, SemLoc.dma (⟨0, by decide⟩ : DmaSem sig)) 0 ∗ semVal (thrV d L, SemLoc.dma (⟨1, by decide⟩ : DmaSem sig)) 0
    ∗ semVal (thrV d L, SemLoc.dma (⟨2, by decide⟩ : DmaSem sig)) 0 ∗ semVal (thrV d L, SemLoc.dma (⟨3, by decide⟩ : DmaSem sig)) 0
    ∗ semVal (thrV d L, SemLoc.dma (⟨4, by decide⟩ : DmaSem sig)) 0 ∗ semVal (thrV d L, SemLoc.dma (⟨5, by decide⟩ : DmaSem sig)) 0)

/-- The main loop's invariant. -/
def invM (k : Nat) (_ : BitVec 32) : sProp 𝕄 :=
  if k < (k0_t4_loop L).trips then invA d L O W ff gf ix fo TTc qf qi k else invB d L O W ff gf ix fo TTc qf qi

end Main

section Slices
variable (d : Dev nD) (L : grid0.Coords) (ff : Buf (Elt F) (fLoc d)) (gf : Buf (Elt F) (gLoc d)) (ix : Buf (Elt F) (iLoc d)) (fo : Buf (Elt F) (oLoc d))

/-- An untouched piece, spelt as the program's slice of the output at the chunk's start. -/
theorem Pp_slice (t : Nat) (ht : t < 81) (off : Fin 1 → Nat) (inb : ∀ a, off a + S25600.size a ≤ S64000000.size a)
    (hoff : off 0 = 25600 * (wid L + 32 * t)) (hlt : wid L + 32 * t < 2500) :
    Pp d L fo t = ((oSl off inb).view.loc (thrV d L) ↦[(oSl off inb).view.set]{fullShare} fo) := by
  unfold Pp tsetN
  rw [dif_pos ht]
  exact out_piece d L ⟨t, ht⟩ off inb hoff hlt fo

/-- A piece come back from its copy out of a row buffer that held the chunk's final values is done. -/
theorem Dp_slice (t : Nat) (ht : t < 81) (off : Fin 1 → Nat) (inb : ∀ a, off a + S25600.size a ≤ S64000000.size a)
    (hoff : off 0 = 25600 * (wid L + 32 * t)) (hlt : wid L + 32 * t < 2500) (base : Buf (Elt F) (oLoc d))
    (bufS : Memref sig .scVector .vmem S25600 .f32) (g : Buf (Elt F) (bufS.view.loc (thrV d L))) (hc : IsChunk d L ff gf ix bufS g t) :
    ((oSl off inb).view.loc (thrV d L) ↦[(oSl off inb).view.set]{fullShare}
        (oSl off inb).view.writes (Elt F) base
          [⟨Rect.whole (Rect.unit (s := S64000000) off S25600.size inb).shape, ReadAs.same.apply (bufS.view.read (Elt F) g)⟩] : sProp 𝕄)
      = Dp d L ff gf ix t := by
  unfold Dp tsetN
  rw [dif_pos ht]
  refine out_done d L ⟨t, ht⟩ off inb hoff hlt base _ (Gf d ff gf ix) (fun y => ?_)
  have e : gOf L t = wid L + 32 * t := by unfold gOf; omega
  refine (hc y).trans ?_
  congr 2
  apply Fin.ext
  show 25600 * gOf L t + (y 0).val = 25600 * (wid L + 32 * t) + (y 0).val
  rw [e]

end Slices

section Conv
variable (d : Dev nD) (L : grid0.Coords) (ff : Buf (Elt F) (fLoc d)) (gf : Buf (Elt F) (gLoc d)) (ix : Buf (Elt F) (iLoc d)) (fo : Buf (Elt F) (oLoc d))
  (TTc : Buf (Elt F) ((tabS).view.loc (thrV d L)))

omit [FloatOps F] in
theorem gOf_eq {t : Nat} (h : wid L + 32 * t < 2500) : gOf L t = wid L + 32 * t := by unfold gOf; omega

omit [FloatOps F] in
/-- A chain that starts where the chunk of turn t starts is that chunk's canonical offset. -/
theorem cOff_eq {t : Nat} (h : wid L + 32 * t < 2500) (off : Fin 1 → Nat) (ho : off 0 = 25600 * (wid L + 32 * t)) : off = cOff L t := by
  funext a
  obtain rfl : a = 0 := Subsingleton.elim _ _
  rw [ho]
  show _ = 25600 * gOf L t
  rw [gOf_eq L h]
omit [FloatOps F] in
theorem iOff_eq {t : Nat} (h : wid L + 32 * t < 2500) (off : Fin 1 → Nat) (ho : off 0 = 400 * (wid L + 32 * t)) : off = iOff L t := by
  funext a
  obtain rfl : a = 0 := Subsingleton.elim _ _
  rw [ho]
  show _ = 400 * gOf L t
  rw [gOf_eq L h]

omit [FloatOps F] in
/-- What is left of a feature token after the slice at `off` is lent, respelt at an equal offset. -/
theorem remF_congr (q : PosShare TreeShare) {off off' : Fin 1 → Nat} (h : off = off') (inb inb') :
    ((featV).view.loc (thrV d L) ↦[outsideSl d L featV (Rect.unit (s := S64000000) off S25600.size inb) (fun _ => rfl)]{q} ff : sProp 𝕄)
      = ((featV).view.loc (thrV d L) ↦[outsideSl d L featV (Rect.unit (s := S64000000) off' S25600.size inb') (fun _ => rfl)]{q} ff) := by
  subst h; rfl
omit [FloatOps F] in
theorem remI_congr (q : PosShare TreeShare) {off off' : Fin 1 → Nat} (h : off = off') (inb inb') :
    ((idxV).view.loc (thrV d L) ↦[outsideSl d L idxV (Rect.unit (s := S1000000) off S400.size inb) (fun _ => rfl)]{q} ix : sProp 𝕄)
      = ((idxV).view.loc (thrV d L) ↦[outsideSl d L idxV (Rect.unit (s := S1000000) off' S400.size inb') (fun _ => rfl)]{q} ix) := by
  subst h; rfl

omit [FloatOps F] in
/-- Reading the feature slice at `off`: the array at the slice's start plus the lane. -/
theorem fSl_read (off : Fin 1 → Nat) (inb : ∀ a, off a + S25600.size a ≤ S64000000.size a) (y : S25600.Idx) :
    ReadAs.same.apply ((fSl off inb).view.read (Elt F) ff) y = ff (ix1 ⟨off 0 + (y 0).val, by have := inb 0; have := p_lt y; show off 0 + (y 0).val < 64000000; (have h : S25600.size 0 = 25600 := rfl); (have h' : S64000000.size 0 = 64000000 := rfl); omega⟩) := by
  show ff _ = ff _
  congr 1
  refine funext fun (a : Fin 1) => ?_
  obtain rfl : a = 0 := Subsingleton.elim _ _
  apply Fin.ext
  show off 0 + 1 * (y 0).val = off 0 + (y 0).val
  omega
omit [FloatOps F] in
theorem iSl_read (off : Fin 1 → Nat) (inb : ∀ a, off a + S400.size a ≤ S1000000.size a) (r : S400.Idx) :
    ReadAs.same.apply ((iSl off inb).view.read (Elt F) ix) r = ix (ix1 ⟨off 0 + (r 0).val, by have := inb 0; have hr : (r 0).val < 400 := (r 0).isLt; show off 0 + (r 0).val < 1000000; (have h : S400.size 0 = 400 := rfl); (have h' : S1000000.size 0 = 1000000 := rfl); omega⟩) := by
  show ix _ = ix _
  congr 1
  refine funext fun (a : Fin 1) => ?_
  obtain rfl : a = 0 := Subsingleton.elim _ _
  apply Fin.ext
  show off 0 + 1 * (r 0).val = off 0 + (r 0).val
  omega

/-- A compute loop's result, on a row buffer that held the chunk's features and an index buffer that held the
    chunk's indices, is the chunk's final values. -/
theorem isChunk_of_stage (bufS : Memref sig .scVector .vmem S25600 .f32) (ixS : Memref sig .scVector .vmem S400 .i32)
    (g B : Buf (Elt F) (bufS.view.loc (thrV d L))) (X : Buf (Elt F) (ixS.view.loc (thrV d L))) (t : Nat) (ht : wid L + 32 * t < 2500)
    (hTT : ∀ z, (tabS).view.read (Elt F) TTc z = gf z)
    (hg : ∀ y, bufS.view.read (Elt F) g y
        = stage (bufS.view.read (Elt F) B) ((tabS).view.read (Elt F) TTc) (ixS.view.read (Elt F) X) 400 y)
    (hB : ∀ y : S25600.Idx, bufS.view.read (Elt F) B y = ff (ix1 ⟨25600 * gOf L t + (y 0).val, cIdx_lt L t y⟩))
    (hXv : ∀ r : S400.Idx, ixS.view.read (Elt F) X r = ix (ix1 ⟨400 * gOf L t + (r 0).val, by have hr : (r 0).val < 400 := (r 0).isLt; unfold gOf; omega⟩)) :
    IsChunk d L ff gf ix bufS g t := by
  intro y
  show bufS.view.read (Elt F) g y = _
  rw [hg]
  exact chunk_val _ _ _ ff gf ix (gOf L t) (by unfold gOf; omega) hB hTT hXv y

end Conv

omit [FloatOps F] in
/-- Recording one more wait with no handshake index keeps the list of waits admissible. -/
theorem ins_ok (W : Waits sig (HIx 1)) {A : Waits sig (HIx 1)} (hW : ∀ p ∈ A, p ∈ W ∨ p.2 = none) (s : SemLoc sig) :
    ∀ p ∈ insert (s, (default : HIx 1)) A, p ∈ W ∨ p.2 = none :=
  fun p hp => (Finset.mem_insert.mp hp).elim (fun e => .inr (e ▸ rfl)) (hW p)

section Agree
variable (d : Dev nD) (L : grid0.Coords) (ff : Buf (Elt F) (fLoc d)) (gf : Buf (Elt F) (gLoc d)) (ix : Buf (Elt F) (iLoc d))

/-- A piece whose contents, at the places of the program's slice, are the chunk's final values, is done —
    whatever term the contents are. -/
theorem Dp_agree (t : Nat) (ht : t < 81) (off : Fin 1 → Nat) (inb : ∀ a, off a + S25600.size a ≤ S64000000.size a)
    (hoff : off 0 = 25600 * (wid L + 32 * t)) (hlt : wid L + 32 * t < 2500) (h : Buf (Elt F) (oLoc d))
    (hag : ∀ y : S25600.Idx, h ((oSl off inb).view.emb y)
        = Gf d ff gf ix (ix1 ⟨25600 * gOf L t + (y 0).val, cIdx_lt L t y⟩)) :
    ((oSl off inb).view.loc (thrV d L) ↦[(oSl off inb).view.set]{fullShare} h : sProp 𝕄) = Dp d L ff gf ix t := by
  unfold Dp tsetN
  rw [dif_pos ht]
  refine Eq.trans (pointsTo_congr fun i hi => ?_) (out_piece d L ⟨t, ht⟩ off inb hoff hlt (Gf d ff gf ix)).symm
  obtain ⟨x, -, rfl⟩ := Finset.mem_map.mp hi
  rw [hag x]
  congr 1
  refine funext fun a : Fin 1 => ?_
  obtain rfl : a = 0 := Subsingleton.elim _ _
  refine Fin.ext ?_
  show 25600 * gOf L t + (x 0).val = off 0 + 1 * (x 0).val
  rw [hoff, gOf_eq L hlt]; omega

omit [FloatOps F] in
/-- What one write of a whole row buffer through the slice leaves at the slice's places. -/
theorem writes_whole_emb (off : Fin 1 → Nat) (inb : ∀ a, off a + S25600.size a ≤ S64000000.size a) (base : Buf (Elt F) (oLoc d))
    (pay : S25600.Idx → Elt F .f32) (y : S25600.Idx) :
    ((oSl off inb).view.writes (Elt F) base [⟨Rect.whole S25600, pay⟩]) ((oSl off inb).view.emb y) = pay y := by
  have e : ((oSl off inb).view.slice (Rect.whole S25600)).emb y = (oSl off inb).view.emb y := by
    rw [View.emb_slice]
    show (oSl off inb).view.emb ((Rect.whole S25600).emb y) = _
    rw [Rect.emb_whole_apply]
  rw [View.writes_singleton, ← e, View.write_emb_of_mem _ _ (Finset.mem_univ _)]
  rfl

end Agree

section LandVals
variable (d : Dev nD) (L : grid0.Coords) (ff : Buf (Elt F) (fLoc d)) (ix : Buf (Elt F) (iLoc d))

omit [FloatOps F] in
/-- A row buffer on which the feature slice of turn t has landed reads as the chunk's features. -/
theorem landF (bufS : Memref sig .scVector .vmem S25600 .f32) (base : Buf (Elt F) (bufS.view.loc (thrV d L)))
    (off : Fin 1 → Nat) (inb : ∀ a, off a + S25600.size a ≤ S64000000.size a) (t : Nat) (ht : wid L + 32 * t < 2500)
    (ho : off 0 = 25600 * (wid L + 32 * t)) (y : S25600.Idx) :
    bufS.view.read (Elt F) (View.write (Elt F) bufS.view base (ReadAs.same.apply ((fSl off inb).view.read (Elt F) ff)) Finset.univ) y
      = ff (ix1 ⟨25600 * gOf L t + (y 0).val, cIdx_lt L t y⟩) := by
  rw [View.read_write_univ, fSl_read]
  congr 2
  apply Fin.ext
  show off 0 + (y 0).val = 25600 * gOf L t + (y 0).val
  rw [ho, gOf_eq L ht]

omit [FloatOps F] in
/-- An index buffer on which the index slice of turn t has landed reads as the chunk's indices. -/
theorem landI (ixS : Memref sig .scVector .vmem S400 .i32) (base : Buf (Elt F) (ixS.view.loc (thrV d L)))
    (off : Fin 1 → Nat) (inb : ∀ a, off a + S400.size a ≤ S1000000.size a) (t : Nat) (ht : wid L + 32 * t < 2500)
    (ho : off 0 = 400 * (wid L + 32 * t)) (r : S400.Idx) :
    ixS.view.read (Elt F) (View.write (Elt F) ixS.view base (ReadAs.same.apply ((iSl off inb).view.read (Elt F) ix)) Finset.univ) r
      = ix (ix1 ⟨400 * gOf L t + (r 0).val, by have hr : (r 0).val < 400 := (r 0).isLt; unfold gOf; omega⟩) := by
  rw [View.read_write_univ, iSl_read]
  congr 2
  apply Fin.ext
  show off 0 + (r 0).val = 400 * gOf L t + (r 0).val
  rw [ho, gOf_eq L ht]

omit [FloatOps F] in
theorem landI_lt (hix : ∀ j, BitVec.toNat (ix j) < 16) (ixS : Memref sig .scVector .vmem S400 .i32) (base : Buf (Elt F) (ixS.view.loc (thrV d L)))
    (off : Fin 1 → Nat) (inb : ∀ a, off a + S400.size a ≤ S1000000.size a) (r : S400.Idx) :
    BitVec.toNat (ixS.view.read (Elt F) (View.write (Elt F) ixS.view base (ReadAs.same.apply ((iSl off inb).view.read (Elt F) ix)) Finset.univ) r) < 16 := by
  rw [View.read_write_univ, iSl_read]
  exact hix _

end LandVals

end Cert.KernelIdeal.Hand

end
-- ==== Proof.KILoop5.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS0).view.loc (thrV d L)))
  (B : Buf (Elt F) ((bufS0).view.loc (thrV d L)))

/-- Before trip k: the table and the indices as they were, the row buffer at stage 16 k. -/
def inv5 (k : Nat) (_ : BitVec 32) : sProp 𝕄 :=
  iprop(((tabS).view.loc (thrV d L) ↦{fullShare} TT) ∗ ((ixS0).view.loc (thrV d L) ↦{fullShare} X)
    ∗ ∃ f, ((bufS0).view.loc (thrV d L) ↦{fullShare} f)
        ∗ ⌜∀ y, (bufS0).view.read (Elt F) f y
            = stage ((bufS0).view.read (Elt F) B) ((tabS).view.read (Elt F) TT) ((ixS0).view.read (Elt F) X) (16 * k) y⌝)

set_option maxHeartbeats 16000000 in
/-- One trip keeps the invariant. -/
theorem step5 (hX : ∀ j, BitVec.toNat ((ixS0).view.read (Elt F) X j) < 16) (v1 v21 v90 c3_i32_55 v91 v93 c0_i32_57 : BitVec 32)
    (k : Fin (Scf.trips k0_t5_loop.lb k0_t5_loop.ub k0_t5_loop.st)) (acc : BitVec 32) :
    inv5 d L TT X B k acc
      ⊢ wp frame (wpE (defs₀ (F := F)) 𝒱₀ (thrV d L) none) Set.univ
          (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc) (inv5 d L TT X B (k.val + 1)) := by
  have hk : k.val < 25 := Nat.lt_of_lt_of_le k.isLt k0_t5_abs.2.1
  unfold inv5 k0_t5_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS0).view f _ _ _ k.val _ rfl hf ?_
  exact ⟨
    ⟨(cf0 (k0_off146 k 48#32)).trans (by show 1024 * k.val + 16 * 3 + 960 = 1024 * k.val + 16 * 63; omega), rfl, rfl, fun x =>
      piece_agree (bufS0).view (tabS).view (ixS0).view f TT X _ k.val 15 3 hk (by omega) (by omega) hf hX (k0_off146 k 48#32) (k0_off146 k 48#32) (k0_off113 k)
        (k0_off146_inb k 3) (k0_off146_inb k 3) (k0_off113_inb k)
        ((cf0 (k0_off146 k 48#32)).trans (by show 1024 * k.val + 16 * 3 + 960 = _; omega)) ((cf0 (k0_off146 k 48#32)).trans (by show 1024 * k.val + 16 * 3 + 960 = _; omega)) ((cf0 (k0_off113 k)).trans (by show 16 * k.val = _; omega))
        _ 48#32 (by decide) _ _ (by first | rfl | rw [Shape.reshapeEquiv_self]) rfl x⟩,
    ⟨(cf0 (k0_off146 k 32#32)).trans (by show 1024 * k.val + 16 * 2 + 960 = 1024 * k.val + 16 * 62; omega), rfl, rfl, fun x =>
      piece_agree (bufS0).view (tabS).view (ixS0).view f TT X _ k.val 15 2 hk (by omega) (by omega) hf hX (k0_off146 k 32#32) (k0_off146 k 32#32) (k0_off113 k)
        (k0_off146_inb k 2) (k0_off146_inb k 2) (k0_off113_inb k)
        ((cf0 (k0_off146 k 32#32)).trans (by show 1024 * k.val + 16 * 2 + 960 = _; omega)) ((cf0 (k0_off146 k 32#32)).trans (by show 1024 * k.val + 16 * 2 + 960 = _; omega)) ((cf0 (k0_off113 k)).trans (by show 16 * k.val = _; omega))
        _ 32#32 (by decide) _ _ (by first | rfl | rw [Shape.reshapeEquiv_self]) rfl x⟩,
    ⟨(cf0 (k0_off146 k 16#32)).trans (by show 1024 * k.val + 16 * 1 + 960 = 1024 * k.val + 16 * 61; omega), rfl, rfl, fun x =>
      piece_agree (bufS0).view (tabS).view (ixS0).view f TT X _ k.val 15 1 hk (by omega) (by omega) hf hX (k0_off146 k 16#32) (k0_off146 k 16#32) (k0_off113 k)
        (k0_off146_inb k 1) (k0_off146_inb k 1) (k0_off113_inb k)
        ((cf0 (k0_off146 k 16#32)).trans (by show 1024 * k.val + 16 * 1 + 960 = _; omega)) ((cf0 (k0_off146 k 16#32)).trans (by show 1024 * k.val + 16 * 1 + 960 = _; omega)) ((cf0 (k0_off113 k)).trans (by show 16 * k.val = _; omega))
        _ 16#32 (by decide) _ _ (by first | rfl | rw [Shape.reshapeEquiv_self]) rfl x⟩,
    ⟨(cf0 (k0_off146 k 0#32)).trans (by show 1024 * k.val + 16 * 0 + 960 = 1024 * k.val + 16 * 60; omega), rfl, rfl, fun x =>
      piece_agree (bufS0).view (tabS).view (ixS0).view f TT X _ k.val 15 0 hk (by omega) (by omega) hf hX (k0_off146 k 0#32) (k0_off144 k 960#32 0#32) (k0_off113 k)
        (k0_off146_inb k 0) (k0_off144_inb k 4) (k0_off113_inb k)
        ((cf0 (k0_off146 k 0#32)).trans (by show 1024 * k.val + 16 * 0 + 960 = _; omega)) ((cf0 (k0_off144 k 960#32 0#32)).trans (by show 1024 * k.val + 960 = _; omega)) ((cf0 (k0_off113 k)).trans (by show 16 * k.val = _; omega))
        _ 0#32 (by decide) _ _ (by first | rfl | rw [Shape.reshapeEquiv_self]) rfl x⟩,
    ⟨(cf0 (k0_off144 k 896#32 48#32)).trans (by show 1024 * k.val + 944 = 1024 * k.val + 16 * 59; omega), rfl, rfl, fun x =>
      piece_agree (bufS0).view (tabS).view (ixS0).view f TT X _ k.val 14 3 hk (by omega) (by omega) hf hX (k0_off144 k 896#32 48#32) (k0_off144 k 896#32 48#32) (k0_off113 k)
        (k0_off144_inb k 3) (k0_off144_inb k 3) (k0_off113_inb k)
        ((cf0 (k0_off144 k 896#32 48#32)).trans (by show 1024 * k.val + 944 = _; omega)) ((cf0 (k0_off144 k 896#32 48#32)).trans (by show 1024 * k.val + 944 = _; omega)) ((cf0 (k0_off113 k)).trans (by show 16 * k.val = _; omega))
        _ 48#32 (by decide) _ _ (by first | rfl | rw [Shape.reshapeEquiv_self]) rfl x⟩,
    ⟨(cf0 (k0_off144 k 896#32 32#32)).trans (by show 1024 * k.val + 928 = 1024 * k.val + 16 * 58; omega), rfl, rfl, fun x =>
      piece_agree (bufS0).view (tabS).view (ixS0).view f TT X _ k.val 14 2 hk (by omega) (by omega) hf hX (k0_off144 k 896#32 32#32) (k0_off144 k 896#32 32#32) (k0_off113 k)
        (k0_off144_inb k 2) (k0_off144_inb k 2) (k0_off113_inb k)
        ((cf0 (k0_off144 k 896#32 32#32)).trans (by show 1024 * k.val + 928 = _; omega)) ((cf0 (k0_off144 k 896#32 32#32)).trans (by show 1024 * k.val + 928 = _; omega)) ((cf0 (k0_off113 k)).trans (by show 16 * k.val = _; omega))
        _ 32#32 (by decide) _ _ (by first | rfl | rw [Shape.reshapeEquiv_self]) rfl x⟩,
    ⟨(cf0 (k0_off144 k 896#32 16#32)).trans (by show 1024 * k.val + 912 = 1024 * k.val + 16 * 57; omega), rfl, rfl, fun x =>
      piece_agree (bufS0).view (tabS).view (ixS0).view f TT X _ k.val 14 1 hk (by omega) (by omega) hf hX (k0_off144 k 896#32 16#32) (k0_off144 k 896#32 16#32) (k0_off113 k)
        (k0_off144_inb k 1) (k0_off144_inb k 1) (k0_off113_inb k)
        ((cf0 (k0_off144 k 896#32 16#32)).trans (by show 1024 * k.val + 912 = _; omega)) ((cf0 (k0_off144 k 896#32 16#32)).trans (by show 1024 * k.val + 912 = _; omega)) ((cf0 (k0_off113 k)).trans (by show 16 * k.val = _; omega))
        _ 16#32 (by decide) _ _ (by first | rfl | rw [Shape.reshapeEquiv_self]) rfl x⟩,
    ⟨(cf0 (k0_off144 k 896#32 0#32)).trans (by show 1024 * k.val + 896 = 1024 * k.val + 16 * 56; omega), rfl, rfl, fun x =>
      piece_agree (bufS0).view (tabS).view (ixS0).view f TT X _ k.val 14 0 hk (by omega) (by omega) hf hX (k0_off144 k 896#32 0#32) (k0_off142 k 896#32 0#32) (k0_off113 k)
        (k0_off144_inb k 0) (k0_off142_inb k 4) (k0_off113_inb k)
        ((cf0 (k0_off144 k 896#32 0#32)).trans (by show 1024 * k.val + 896 = _; omega)) ((cf0 (k0_off142 k 896#32 0#32)).trans (by show 1024 * k.val + 896 = _; omega)) ((cf0 (k0_off113 k)).trans (by show 16 * k.val = _; omega))
        _ 0#32 (by decide) _ _ (by first | rfl | rw [Shape.reshapeEquiv_self]) rfl x⟩,
    ⟨(cf0 (k0_off142 k 832#32 48#32)).trans (by show 1024 * k.val + 880 = 1024 * k.val + 16 * 55; omega), rfl, rfl, fun x =>
      piece_agree (bufS0).view (tabS).view (ixS0).view f TT X _ k.val 13 3 hk (by omega) (by omega) hf hX (k0_off142 k 832#32 48#32) (k0_off142 k 832#32 48#32) (k0_off113 k)
        (k0_off142_inb k 3) (k0_off142_inb k 3) (k0_off113_inb k)
        ((cf0 (k0_off142 k 832#32 48#32)).trans (by show 1024 * k.val + 880 = _; omega)) ((cf0 (k0_off142 k 832#32 48#32)).trans (by show 1024 * k.val + 880 = _; omega)) ((cf0 (k0_off113 k)).trans (by show 16 * k.val = _; omega))
        _ 48#32 (by decide) _ _ (by first | rfl | rw [Shape.reshapeEquiv_self]) rfl x⟩,
    ⟨(cf0 (k0_off142 k 832#32 32#32)).trans (by show 1024 * k.val + 864 = 1024 * k.val + 16 * 54; omega), rfl, rfl, fun x =>
      piece_agree (bufS0).view (tabS).view (ixS0).view f TT X _ k.val 13 2 hk (by omega) (by omega) hf hX (k0_off142 k 832#32 32#32) (k0_off142 k 832#32 32#32) (k0_off113 k)
        (k0_off142_inb k 2) (k0_off142_inb k 2) (k0_off113_inb k)
        ((cf0 (k0_off142 k 832#32 32#32)).trans (by show 1024 * k.val + 864 = _; omega)) ((cf0 (k0_off142 k 832#32 32#32)).trans (by show 1024 * k.val + 864 = _; omega)) ((cf0 (k0_off113 k)).trans (by show 16 * k.val = _; omega))
        _ 32#32 (by decide) _ _ (by first | rfl | rw [Shape.reshapeEquiv_self]) rfl x⟩,
    ⟨(cf0 (k0_off142 k 832#32 16#32)).trans (by show 1024 * k.val + 848 = 1024 * k.val + 16 * 53; omega), rfl, rfl, fun x =>
      piece_agree (bufS0).view (tabS).view (ixS0).view f TT X _ k.val 13 1 hk (by omega) (by omega) hf hX (k0_off142 k 832#32 16#32) (k0_off142 k 832#32 16#32) (k0_off113 k)
        (k0_off142_inb k 1) (k0_off142_inb k 1) (k0_off113_inb k)
        ((cf0 (k0_off142 k 832#32 16#32)).trans (by show 1024 * k.val + 848 = _; omega)) ((cf0 (k0_off142 k 832#32 16#32)).trans (by show 1024 * k.val + 848 = _; omega)) ((cf0 (k0_off113 k)).trans (by show 16 * k.val = _; omega))
        _ 16#32 (by decide) _ _ (by first | rfl | rw [Shape.reshapeEquiv_self]) rfl x⟩,
    ⟨(cf0 (k0_off142 k 832#32 0#32)).trans (by show 1024 * k.val + 832 = 1024 * k.val + 16 * 52; omega), rfl, rfl, fun x =>
      piece_agree (bufS0).view (tabS).view (ixS0).view f TT X _ k.val 13 0 hk (by omega) (by omega) hf hX (k0_off142 k 832#32 0#32) (k0_off140 k 832#32 0#32) (k0_off113 k)
        (k0_off142_inb k 0) (k0_off140_inb k 4) (k0_off113_inb k)
        ((cf0 (k0_off142 k 832#32 0#32)).trans (by show 1024 * k.val + 832 = _; omega)) ((cf0 (k0_off140 k 832#32 0#32)).trans (by show 1024 * k.val + 832 = _; omega)) ((cf0 (k0_off113 k)).trans (by show 16 * k.val = _; omega))
        _ 0#32 (by decide) _ _ (by first | rfl | rw [Shape.reshapeEquiv_self]) rfl x⟩,
    ⟨(cf0 (k0_off140 k 768#32 48#32)).trans (by show 1024 * k.val + 816 = 1024 * k.val + 16 * 51; omega), rfl, rfl, fun x =>
      piece_agree (bufS0).view (tabS).view (ixS0).view f TT X _ k.val 12 3 hk (by omega) (by omega) hf hX (k0_off140 k 768#32 48#32) (k0_off140 k 768#32 48#32) (k0_off113 k)
        (k0_off140_inb k 3) (k0_off140_inb k 3) (k0_off113_inb k)
        ((cf0 (k0_off140 k 768#32 48#32)).trans (by show 1024 * k.val + 816 = _; omega)) ((cf0 (k0_off140 k 768#32 48#32)).trans (by show 1024 * k.val + 816 = _; omega)) ((cf0 (k0_off113 k)).trans (by show 16 * k.val = _; omega))
        _ 48#32 (by decide) _ _ (by first | rfl | rw [Shape.reshapeEquiv_self]) rfl x⟩,
    ⟨(cf0 (k0_off140 k 768#32 32#32)).trans (by show 1024 * k.val + 800 = 1024 * k.val + 16 * 50; omega), rfl, rfl, fun x =>
      piece_agree (bufS0).view (tabS).view (ixS0).view f TT X _ k.val 12 2 hk (by omega) (by omega) hf hX (k0_off140 k 768#32 32#32) (k0_off140 k 768#32 32#32) (k0_off113 k)
        (k0_off140_inb k 2) (k0_off140_inb k 2) (k0_off113_inb k)
        ((cf0 (k0_off140 k 768#32 32#32)).trans (by show 1024 * k.val + 800 = _; omega)) ((cf0 (k0_off140 k 768#32 32#32)).trans (by show 1024 * k.val + 800 = _; omega)) ((cf0 (k0_off113 k)).trans (by show 16 * k.val = _; omega))
        _ 32#32 (by decide) _ _ (by first | rfl | rw [Shape.reshapeEquiv_self]) rfl x⟩,
    ⟨(cf0 (k0_off140 k 768#32 16#32)).trans (by show 1024 * k.val + 784 = 1024 * k.val + 16 * 49; omega), rfl, rfl, fun x =>
      piece_agree (bufS0).view (tabS).view (ixS0).view f TT X _ k.val 12 1 hk (by omega) (by omega) hf hX (k0_off140 k 768#32 16#32) (k0_off140 k 768#32 16#32) (k0_off113 k)
        (k0_off140_inb k 1) (k0_off140_inb k 1) (k0_off113_inb k)
        ((cf0 (k0_off140 k 768#32 16#32)).trans (by show 1024 * k.val + 784 = _; omega)) ((cf0 (k0_off140 k 768#32 16#32)).trans (by show 1024 * k.val + 784 = _; omega)) ((cf0 (k0_off113 k)).trans (by show 16 * k.val = _; omega))
        _ 16#32 (by decide) _ _ (by first | rfl | rw [Shape.reshapeEquiv_self]) rfl x⟩,
    ⟨(cf0 (k0_off140 k 768#32 0#32)).trans (by show 1024 * k.val + 768 = 1024 * k.val + 16 * 48; omega), rfl, rfl, fun x =>
      piece_agree (bufS0).view (tabS).view (ixS0).view f TT X _ k.val 12 0 hk (by omega) (by omega) hf hX (k0_off140 k 768#32 0#32) (k0_off138 k 768#32 0#32) (k0_off113 k)
        (k0_off140_inb k 0) (k0_off138_inb k 4) (k0_off113_inb k)
        ((cf0 (k0_off140 k 768#32 0#32)).trans (by show 1024 * k.val + 768 = _; omega)) ((cf0 (k0_off138 k 768#32 0#32)).trans (by show 1024 * k.val + 768 = _; omega)) ((cf0 (k0_off113 k)).trans (by show 16 * k.val = _; omega))
        _ 0#32 (by decide) _ _ (by first | rfl | rw [Shape.reshapeEquiv_self]) rfl x⟩,
    ⟨(cf0 (k0_off138 k 704#32 48#32)).trans (by show 1024 * k.val + 752 = 1024 * k.val + 16 * 47; omega), rfl, rfl, fun x =>
      piece_agree (bufS0).view (tabS).view (ixS0).view f TT X _ k.val 11 3 hk (by omega) (by omega) hf hX (k0_off138 k 704#32 48#32) (k0_off138 k 704#32 48#32) (k0_off113 k)
        (k0_off138_inb k 3) (k0_off138_inb k 3) (k0_off113_inb k)
        ((cf0 (k0_off138 k 704#32 48#32)).trans (by show 1024 * k.val + 752 = _; omega)) ((cf0 (k0_off138 k 704#32 48#32)).trans (by show 1024 * k.val + 752 = _; omega)) ((cf0 (k0_off113 k)).trans (by show 16 * k.val = _; omega))
        _ 48#32 (by decide) _ _ (by first | rfl | rw [Shape.reshapeEquiv_self]) rfl x⟩,
    ⟨(cf0 (k0_off138 k 704#32 32#32)).trans (by show 1024 * k.val + 736 = 1024 * k.val + 16 * 46; omega), rfl, rfl, fun x =>
      piece_agree (bufS0).view (tabS).view (ixS0).view f TT X _ k.val 11 2 hk (by omega) (by omega) hf hX (k0_off138 k 704#32 32#32) (k0_off138 k 704#32 32#32) (k0_off113 k)
        (k0_off138_inb k 2) (k0_off138_inb k 2) (k0_off113_inb k)
        ((cf0 (k0_off138 k 704#32 32#32)).trans (by show 1024 * k.val + 736 = _; omega)) ((cf0 (k0_off138 k 704#32 32#32)).trans (by show 1024 * k.val + 736 = _; omega)) ((cf0 (k0_off113 k)).trans (by show 16 * k.val = _; omega))
        _ 32#32 (by decide) _ _ (by first | rfl | rw [Shape.reshapeEquiv_self]) rfl x⟩,
    ⟨(cf0 (k0_off138 k 704#32 16#32)).trans (by show 1024 * k.val + 720 = 1024 * k.val + 16 * 45; omega), rfl, rfl, fun x =>
      piece_agree (bufS0).view (tabS).view (ixS0).view f TT X _ k.val 11 1 hk (by omega) (by omega) hf hX (k0_off138 k 704#32 16#32) (k0_off138 k 704#32 16#32) (k0_off113 k)
        (k0_off138_inb k 1) (k0_off138_inb k 1) (k0_off113_inb k)
        ((cf0 (k0_off138 k 704#32 16#32)).trans (by show 1024 * k.val + 720 = _; omega)) ((cf0 (k0_off138 k 704#32 16#32)).trans (by show 1024 * k.val + 720 = _; omega)) ((cf0 (k0_off113 k)).trans (by show 16 * k.val = _; omega))
        _ 16#32 (by decide) _ _ (by first | rfl | rw [Shape.reshapeEquiv_self]) rfl x⟩,
    ⟨(cf0 (k0_off138 k 704#32 0#32)).trans (by show 1024 * k.val + 704 = 1024 * k.val + 16 * 44; omega), rfl, rfl, fun x =>
      piece_agree (bufS0).view (tabS).view (ixS0).view f TT X _ k.val 11 0 hk (by omega) (by omega) hf hX (k0_off138 k 704#32 0#32) (k0_off136 k 704#32 0#32) (k0_off113 k)
        (k0_off138_inb k 0) (k0_off136_inb k 4) (k0_off113_inb k)
        ((cf0 (k0_off138 k 704#32 0#32)).trans (by show 1024 * k.val + 704 = _; omega)) ((cf0 (k0_off136 k 704#32 0#32)).trans (by show 1024 * k.val + 704 = _; omega)) ((cf0 (k0_off113 k)).trans (by show 16 * k.val = _; omega))
        _ 0#32 (by decide) _ _ (by first | rfl | rw [Shape.reshapeEquiv_self]) rfl x⟩,
    ⟨(cf0 (k0_off136 k 640#32 48#32)).trans (by show 1024 * k.val + 688 = 1024 * k.val + 16 * 43; omega), rfl, rfl, fun x =>
      piece_agree (bufS0).view (tabS).view (ixS0).view f TT X _ k.val 10 3 hk (by omega) (by omega) hf hX (k0_off136 k 640#32 48#32) (k0_off136 k 640#32 48#32) (k0_off113 k)
        (k0_off136_inb k 3) (k0_off136_inb k 3) (k0_off113_inb k)
        ((cf0 (k0_off136 k 640#32 48#32)).trans (by show 1024 * k.val + 688 = _; omega)) ((cf0 (k0_off136 k 640#32 48#32)).trans (by show 1024 * k.val + 688 = _; omega)) ((cf0 (k0_off113 k)).trans (by show 16 * k.val = _; omega))
        _ 48#32 (by decide) _ _ (by first | rfl | rw [Shape.reshapeEquiv_self]) rfl x⟩,
    ⟨(cf0 (k0_off136 k 640#32 32#32)).trans (by show 1024 * k.val + 672 = 1024 * k.val + 16 * 42; omega), rfl, rfl, fun x =>
      piece_agree (bufS0).view (tabS).view (ixS0).view f TT X _ k.val 10 2 hk (by omega) (by omega) hf hX (k0_off136 k 640#32 32#32) (k0_off136 k 640#32 32#32) (k0_off113 k)
        (k0_off136_inb k 2) (k0_off136_inb k 2) (k0_off113_inb k)
        ((cf0 (k0_off136 k 640#32 32#32)).trans (by show 1024 * k.val + 672 = _; omega)) ((cf0 (k0_off136 k 640#32 32#32)).trans (by show 1024 * k.val + 672 = _; omega)) ((cf0 (k0_off113 k)).trans (by show 16 * k.val = _; omega))
        _ 32#32 (by decide) _ _ (by first | rfl | rw [Shape.reshapeEquiv_self]) rfl x⟩,
    ⟨(cf0 (k0_off136 k 640#32 16#32)).trans (by show 1024 * k.val + 656 = 1024 * k.val + 16 * 41; omega), rfl, rfl, fun x =>
      piece_agree (bufS0).view (tabS).view (ixS0).view f TT X _ k.val 10 1 hk (by omega) (by omega) hf hX (k0_off136 k 640#32 16#32) (k0_off136 k 640#32 16#32) (k0_off113 k)
        (k0_off136_inb k 1) (k0_off136_inb k 1) (k0_off113_inb k)
        ((cf0 (k0_off136 k 640#32 16#32)).trans (by show 1024 * k.val + 656 = _; omega)) ((cf0 (k0_off136 k 640#32 16#32)).trans (by show 1024 * k.val + 656 = _; omega)) ((cf0 (k0_off113 k)).trans (by show 16 * k.val = _; omega))
        _ 16#32 (by decide) _ _ (by first | rfl | rw [Shape.reshapeEquiv_self]) rfl x⟩,
    ⟨(cf0 (k0_off136 k 640#32 0#32)).trans (by show 1024 * k.val + 640 = 1024 * k.val + 16 * 40; omega), rfl, rfl, fun x =>
      piece_agree (bufS0).view (tabS).view (ixS0).view f TT X _ k.val 10 0 hk (by omega) (by omega) hf hX (k0_off136 k 640#32 0#32) (k0_off134 k 640#32 0#32) (k0_off113 k)
        (k0_off136_inb k 0) (k0_off134_inb k 4) (k0_off113_inb k)
        ((cf0 (k0_off136 k 640#32 0#32)).trans (by show 1024 * k.val + 640 = _; omega)) ((cf0 (k0_off134 k 640#32 0#32)).trans (by show 1024 * k.val + 640 = _; omega)) ((cf0 (k0_off113 k)).trans (by show 16 * k.val = _; omega))
        _ 0#32 (by decide) _ _ (by first | rfl | rw [Shape.reshapeEquiv_self]) rfl x⟩,
    ⟨(cf0 (k0_off134 k 576#32 48#32)).trans (by show 1024 * k.val + 624 = 1024 * k.val + 16 * 39; omega), rfl, rfl, fun x =>
      piece_agree (bufS0).view (tabS).view (ixS0).view f TT X _ k.val 9 3 hk (by omega) (by omega) hf hX (k0_off134 k 576#32 48#32) (k0_off134 k 576#32 48#32) (k0_off113 k)
        (k0_off134_inb k 3) (k0_off134_inb k 3) (k0_off113_inb k)
        ((cf0 (k0_off134 k 576#32 48#32)).trans (by show 1024 * k.val + 624 = _; omega)) ((cf0 (k0_off134 k 576#32 48#32)).trans (by show 1024 * k.val + 624 = _; omega)) ((cf0 (k0_off113 k)).trans (by show 16 * k.val = _; omega))
        _ 48#32 (by decide) _ _ (by first | rfl | rw [Shape.reshapeEquiv_self]) rfl x⟩,
    ⟨(cf0 (k0_off134 k 576#32 32#32)).trans (by show 1024 * k.val + 608 = 1024 * k.val + 16 * 38; omega), rfl, rfl, fun x =>
      piece_agree (bufS0).view (tabS).view (ixS0).view f TT X _ k.val 9 2 hk (by omega) (by omega) hf hX (k0_off134 k 576#32 32#32) (k0_off134 k 576#32 32#32) (k0_off113 k)
        (k0_off134_inb k 2) (k0_off134_inb k 2) (k0_off113_inb k)
        ((cf0 (k0_off134 k 576#32 32#32)).trans (by show 1024 * k.val + 608 = _; omega)) ((cf0 (k0_off134 k 576#32 32#32)).trans (by show 1024 * k.val + 608 = _; omega)) ((cf0 (k0_off113 k)).trans (by show 16 * k.val = _; omega))
        _ 32#32 (by decide) _ _ (by first | rfl | rw [Shape.reshapeEquiv_self]) rfl x⟩,
    ⟨(cf0 (k0_off134 k 576#32 16#32)).trans (by show 1024 * k.val + 592 = 1024 * k.val + 16 * 37; omega), rfl, rfl, fun x =>
      piece_agree (bufS0).view (tabS).view (ixS0).view f TT X _ k.val 9 1 hk (by omega) (by omega) hf hX (k0_off134 k 576#32 16#32) (k0_off134 k 576#32 16#32) (k0_off113 k)
        (k0_off134_inb k 1) (k0_off134_inb k 1) (k0_off113_inb k)
        ((cf0 (k0_off134 k 576#32 16#32)).trans (by show 1024 * k.val + 592 = _; omega)) ((cf0 (k0_off134 k 576#32 16#32)).trans (by show 1024 * k.val + 592 = _; omega)) ((cf0 (k0_off113 k)).trans (by show 16 * k.val = _; omega))
        _ 16#32 (by decide) _ _ (by first | rfl | rw [Shape.reshapeEquiv_self]) rfl x⟩,
    ⟨(cf0 (k0_off134 k 576#32 0#32)).trans (by show 1024 * k.val + 576 = 1024 * k.val + 16 * 36; omega), rfl, rfl, fun x =>
      piece_agree (bufS0).view (tabS).view (ixS0).view f TT X _ k.val 9 0 hk (by omega) (by omega) hf hX (k0_off134 k 576#32 0#32) (k0_off132 k 576#32 0#32) (k0_off113 k)
        (k0_off134_inb k 0) (k0_off132_inb k 4) (k0_off113_inb k)
        ((cf0 (k0_off134 k 576#32 0#32)).trans (by show 1024 * k.val + 576 = _; omega)) ((cf0 (k0_off132 k 576#32 0#32)).trans (by show 1024 * k.val + 576 = _; omega)) ((cf0 (k0_off113 k)).trans (by show 16 * k.val = _; omega))
        _ 0#32 (by decide) _ _ (by first | rfl | rw [Shape.reshapeEquiv_self]) rfl x⟩,
    ⟨(cf0 (k0_off132 k 512#32 48#32)).trans (by show 1024 * k.val + 560 = 1024 * k.val + 16 * 35; omega), rfl, rfl, fun x =>
      piece_agree (bufS0).view (tabS).view (ixS0).view f TT X _ k.val 8 3 hk (by omega) (by omega) hf hX (k0_off132 k 512#32 48#32) (k0_off132 k 512#32 48#32) (k0_off113 k)
        (k0_off132_inb k 3) (k0_off132_inb k 3) (k0_off113_inb k)
        ((cf0 (k0_off132 k 512#32 48#32)).trans (by show 1024 * k.val + 560 = _; omega)) ((cf0 (k0_off132 k 512#32 48#32)).trans (by show 1024 * k.val + 560 = _; omega)) ((cf0 (k0_off113 k)).trans (by show 16 * k.val = _; omega))
        _ 48#32 (by decide) _ _ (by first | rfl | rw [Shape.reshapeEquiv_self]) rfl x⟩,
    ⟨(cf0 (k0_off132 k 512#32 32#32)).trans (by show 1024 * k.val + 544 = 1024 * k.val + 16 * 34; omega), rfl, rfl, fun x =>
      piece_agree (bufS0).view (tabS).view (ixS0).view f TT X _ k.val 8 2 hk (by omega) (by omega) hf hX (k0_off132 k 512#32 32#32) (k0_off132 k 512#32 32#32) (k0_off113 k)
        (k0_off132_inb k 2) (k0_off132_inb k 2) (k0_off113_inb k)
        ((cf0 (k0_off132 k 512#32 32#32)).trans (by show 1024 * k.val + 544 = _; omega)) ((cf0 (k0_off132 k 512#32 32#32)).trans (by show 1024 * k.val + 544 = _; omega)) ((cf0 (k0_off113 k)).trans (by show 16 * k.val = _; omega))
        _ 32#32 (by decide) _ _ (by first | rfl | rw [Shape.reshapeEquiv_self]) rfl x⟩,
    ⟨(cf0 (k0_off132 k 512#32 16#32)).trans (by show 1024 * k.val + 528 = 1024 * k.val + 16 * 33; omega), rfl, rfl, fun x =>
      piece_agree (bufS0).view (tabS).view (ixS0).view f TT X _ k.val 8 1 hk (by omega) (by omega) hf hX (k0_off132 k 512#32 16#32) (k0_off132 k 512#32 16#32) (k0_off113 k)
        (k0_off132_inb k 1) (k0_off132_inb k 1) (k0_off113_inb k)
        ((cf0 (k0_off132 k 512#32 16#32)).trans (by show 1024 * k.val + 528 = _; omega)) ((cf0 (k0_off132 k 512#32 16#32)).trans (by show 1024 * k.val + 528 = _; omega)) ((cf0 (k0_off113 k)).trans (by show 16 * k.val = _; omega))
        _ 16#32 (by decide) _ _ (by first | rfl | rw [Shape.reshapeEquiv_self]) rfl x⟩,
    ⟨(cf0 (k0_off132 k 512#32 0#32)).trans (by show 1024 * k.val + 512 = 1024 * k.val + 16 * 32; omega), rfl, rfl, fun x =>
      piece_agree (bufS0).view (tabS).view (ixS0).view f TT X _ k.val 8 0 hk (by omega) (by omega) hf hX (k0_off132 k 512#32 0#32) (k0_off130 k 512#32 0#32) (k0_off113 k)
        (k0_off132_inb k 0) (k0_off130_inb k 4) (k0_off113_inb k)
        ((cf0 (k0_off132 k 512#32 0#32)).trans (by show 1024 * k.val + 512 = _; omega)) ((cf0 (k0_off130 k 512#32 0#32)).trans (by show 1024 * k.val + 512 = _; omega)) ((cf0 (k0_off113 k)).trans (by show 16 * k.val = _; omega))
        _ 0#32 (by decide) _ _ (by first | rfl | rw [Shape.reshapeEquiv_self]) rfl x⟩,
    ⟨(cf0 (k0_off130 k 448#32 48#32)).trans (by show 1024 * k.val + 496 = 1024 * k.val + 16 * 31; omega), rfl, rfl, fun x =>
      piece_agree (bufS0).view (tabS).view (ixS0).view f TT X _ k.val 7 3 hk (by omega) (by omega) hf hX (k0_off130 k 448#32 48#32) (k0_off130 k 448#32 48#32) (k0_off113 k)
        (k0_off130_inb k 3) (k0_off130_inb k 3) (k0_off113_inb k)
        ((cf0 (k0_off130 k 448#32 48#32)).trans (by show 1024 * k.val + 496 = _; omega)) ((cf0 (k0_off130 k 448#32 48#32)).trans (by show 1024 * k.val + 496 = _; omega)) ((cf0 (k0_off113 k)).trans (by show 16 * k.val = _; omega))
        _ 48#32 (by decide) _ _ (by first | rfl | rw [Shape.reshapeEquiv_self]) rfl x⟩,
    ⟨(cf0 (k0_off130 k 448#32 32#32)).trans (by show 1024 * k.val + 480 = 1024 * k.val + 16 * 30; omega), rfl, rfl, fun x =>
      piece_agree (bufS0).view (tabS).view (ixS0).view f TT X _ k.val 7 2 hk (by omega) (by omega) hf hX (k0_off130 k 448#32 32#32) (k0_off130 k 448#32 32#32) (k0_off113 k)
        (k0_off130_inb k 2) (k0_off130_inb k 2) (k0_off113_inb k)
        ((cf0 (k0_off130 k 448#32 32#32)).trans (by show 1024 * k.val + 480 = _; omega)) ((cf0 (k0_off130 k 448#32 32#32)).trans (by show 1024 * k.val + 480 = _; omega)) ((cf0 (k0_off113 k)).trans (by show 16 * k.val = _; omega))
        _ 32#32 (by decide) _ _ (by first | rfl | rw [Shape.reshapeEquiv_self]) rfl x⟩,
    ⟨(cf0 (k0_off130 k 448#32 16#32)).trans (by show 1024 * k.val + 464 = 1024 * k.val + 16 * 29; omega), rfl, rfl, fun x =>
      piece_agree (bufS0).view (tabS).view (ixS0).view f TT X _ k.val 7 1 hk (by omega) (by omega) hf hX (k0_off130 k 448#32 16#32) (k0_off130 k 448#32 16#32) (k0_off113 k)
        (k0_off130_inb k 1) (k0_off130_inb k 1) (k0_off113_inb k)
        ((cf0 (k0_off130 k 448#32 16#32)).trans (by show 1024 * k.val + 464 = _; omega)) ((cf0 (k0_off130 k 448#32 16#32)).trans (by show 1024 * k.val + 464 = _; omega)) ((cf0 (k0_off113 k)).trans (by show 16 * k.val = _; omega))
        _ 16#32 (by decide) _ _ (by first | rfl | rw [Shape.reshapeEquiv_self]) rfl x⟩,
    ⟨(cf0 (k0_off130 k 448#32 0#32)).trans (by show 1024 * k.val + 448 = 1024 * k.val + 16 * 28; omega), rfl, rfl, fun x =>
      piece_agree (bufS0).view (tabS).view (ixS0).view f TT X _ k.val 7 0 hk (by omega) (by omega) hf hX (k0_off130 k 448#32 0#32) (k0_off128 k 448#32 0#32) (k0_off113 k)
        (k0_off130_inb k 0) (k0_off128_inb k 4) (k0_off113_inb k)
        ((cf0 (k0_off130 k 448#32 0#32)).trans (by show 1024 * k.val + 448 = _; omega)) ((cf0 (k0_off128 k 448#32 0#32)).trans (by show 1024 * k.val + 448 = _; omega)) ((cf0 (k0_off113 k)).trans (by show 16 * k.val = _; omega))
        _ 0#32 (by decide) _ _ (by first | rfl | rw [Shape.reshapeEquiv_self]) rfl x⟩,
    ⟨(cf0 (k0_off128 k 384#32 48#32)).trans (by show 1024 * k.val + 432 = 1024 * k.val + 16 * 27; omega), rfl, rfl, fun x =>
      piece_agree (bufS0).view (tabS).view (ixS0).view f TT X _ k.val 6 3 hk (by omega) (by omega) hf hX (k0_off128 k 384#32 48#32) (k0_off128 k 384#32 48#32) (k0_off113 k)
        (k0_off128_inb k 3) (k0_off128_inb k 3) (k0_off113_inb k)
        ((cf0 (k0_off128 k 384#32 48#32)).trans (by show 1024 * k.val + 432 = _; omega)) ((cf0 (k0_off128 k 384#32 48#32)).trans (by show 1024 * k.val + 432 = _; omega)) ((cf0 (k0_off113 k)).trans (by show 16 * k.val = _; omega))
        _ 48#32 (by decide) _ _ (by first | rfl | rw [Shape.reshapeEquiv_self]) rfl x⟩,
    ⟨(cf0 (k0_off128 k 384#32 32#32)).trans (by show 1024 * k.val + 416 = 1024 * k.val + 16 * 26; omega), rfl, rfl, fun x =>
      piece_agree (bufS0).view (tabS).view (ixS0).view f TT X _ k.val 6 2 hk (by omega) (by omega) hf hX (k0_off128 k 384#32 32#32) (k0_off128 k 384#32 32#32) (k0_off113 k)
        (k0_off128_inb k 2) (k0_off128_inb k 2) (k0_off113_inb k)
        ((cf0 (k0_off128 k 384#32 32#32)).trans (by show 1024 * k.val + 416 = _; omega)) ((cf0 (k0_off128 k 384#32 32#32)).trans (by show 1024 * k.val + 416 = _; omega)) ((cf0 (k0_off113 k)).trans (by show 16 * k.val = _; omega))
        _ 32#32 (by decide) _ _ (by first | rfl | rw [Shape.reshapeEquiv_self]) rfl x⟩,
    ⟨(cf0 (k0_off128 k 384#32 16#32)).trans (by show 1024 * k.val + 400 = 1024 * k.val + 16 * 25; omega), rfl, rfl, fun x =>
      piece_agree (bufS0).view (tabS).view (ixS0).view f TT X _ k.val 6 1 hk (by omega) (by omega) hf hX (k0_off128 k 384#32 16#32) (k0_off128 k 384#32 16#32) (k0_off113 k)
        (k0_off128_inb k 1) (k0_off128_inb k 1) (k0_off113_inb k)
        ((cf0 (k0_off128 k 384#32 16#32)).trans (by show 1024 * k.val + 400 = _; omega)) ((cf0 (k0_off128 k 384#32 16#32)).trans (by show 1024 * k.val + 400 = _; omega)) ((cf0 (k0_off113 k)).trans (by show 16 * k.val = _; omega))
        _ 16#32 (by decide) _ _ (by first | rfl | rw [Shape.reshapeEquiv_self]) rfl x⟩,
    ⟨(cf0 (k0_off128 k 384#32 0#32)).trans (by show 1024 * k.val + 384 = 1024 * k.val + 16 * 24; omega), rfl, rfl, fun x =>
      piece_agree (bufS0).view (tabS).view (ixS0).view f TT X _ k.val 6 0 hk (by omega) (by omega) hf hX (k0_off128 k 384#32 0#32) (k0_off126 k 384#32 0#32) (k0_off113 k)
        (k0_off128_inb k 0) (k0_off126_inb k 4) (k0_off113_inb k)
        ((cf0 (k0_off128 k 384#32 0#32)).trans (by show 1024 * k.val + 384 = _; omega)) ((cf0 (k0_off126 k 384#32 0#32)).trans (by show 1024 * k.val + 384 = _; omega)) ((cf0 (k0_off113 k)).trans (by show 16 * k.val = _; omega))
        _ 0#32 (by decide) _ _ (by first | rfl | rw [Shape.reshapeEquiv_self]) rfl x⟩,
    ⟨(cf0 (k0_off126 k 320#32 48#32)).trans (by show 1024 * k.val + 368 = 1024 * k.val + 16 * 23; omega), rfl, rfl, fun x =>
      piece_agree (bufS0).view (tabS).view (ixS0).view f TT X _ k.val 5 3 hk (by omega) (by omega) hf hX (k0_off126 k 320#32 48#32) (k0_off126 k 320#32 48#32) (k0_off113 k)
        (k0_off126_inb k 3) (k0_off126_inb k 3) (k0_off113_inb k)
        ((cf0 (k0_off126 k 320#32 48#32)).trans (by show 1024 * k.val + 368 = _; omega)) ((cf0 (k0_off126 k 320#32 48#32)).trans (by show 1024 * k.val + 368 = _; omega)) ((cf0 (k0_off113 k)).trans (by show 16 * k.val = _; omega))
        _ 48#32 (by decide) _ _ (by first | rfl | rw [Shape.reshapeEquiv_self]) rfl x⟩,
    ⟨(cf0 (k0_off126 k 320#32 32#32)).trans (by show 1024 * k.val + 352 = 1024 * k.val + 16 * 22; omega), rfl, rfl, fun x =>
      piece_agree (bufS0).view (tabS).view (ixS0).view f TT X _ k.val 5 2 hk (by omega) (by omega) hf hX (k0_off126 k 320#32 32#32) (k0_off126 k 320#32 32#32) (k0_off113 k)
        (k0_off126_inb k 2) (k0_off126_inb k 2) (k0_off113_inb k)
        ((cf0 (k0_off126 k 320#32 32#32)).trans (by show 1024 * k.val + 352 = _; omega)) ((cf0 (k0_off126 k 320#32 32#32)).trans (by show 1024 * k.val + 352 = _; omega)) ((cf0 (k0_off113 k)).trans (by show 16 * k.val = _; omega))
        _ 32#32 (by decide) _ _ (by first | rfl | rw [Shape.reshapeEquiv_self]) rfl x⟩,
    ⟨(cf0 (k0_off126 k 320#32 16#32)).trans (by show 1024 * k.val + 336 = 1024 * k.val + 16 * 21; omega), rfl, rfl, fun x =>
      piece_agree (bufS0).view (tabS).view (ixS0).view f TT X _ k.val 5 1 hk (by omega) (by omega) hf hX (k0_off126 k 320#32 16#32) (k0_off126 k 320#32 16#32) (k0_off113 k)
        (k0_off126_inb k 1) (k0_off126_inb k 1) (k0_off113_inb k)
        ((cf0 (k0_off126 k 320#32 16#32)).trans (by show 1024 * k.val + 336 = _; omega)) ((cf0 (k0_off126 k 320#32 16#32)).trans (by show 1024 * k.val + 336 = _; omega)) ((cf0 (k0_off113 k)).trans (by show 16 * k.val = _; omega))
        _ 16#32 (by decide) _ _ (by first | rfl | rw [Shape.reshapeEquiv_self]) rfl x⟩,
    ⟨(cf0 (k0_off126 k 320#32 0#32)).trans (by show 1024 * k.val + 320 = 1024 * k.val + 16 * 20; omega), rfl, rfl, fun x =>
      piece_agree (bufS0).view (tabS).view (ixS0).view f TT X _ k.val 5 0 hk (by omega) (by omega) hf hX (k0_off126 k 320#32 0#32) (k0_off124 k 320#32 0#32) (k0_off113 k)
        (k0_off126_inb k 0) (k0_off124_inb k 4) (k0_off113_inb k)
        ((cf0 (k0_off126 k 320#32 0#32)).trans (by show 1024 * k.val + 320 = _; omega)) ((cf0 (k0_off124 k 320#32 0#32)).trans (by show 1024 * k.val + 320 = _; omega)) ((cf0 (k0_off113 k)).trans (by show 16 * k.val = _; omega))
        _ 0#32 (by decide) _ _ (by first | rfl | rw [Shape.reshapeEquiv_self]) rfl x⟩,
    ⟨(cf0 (k0_off124 k 256#32 48#32)).trans (by show 1024 * k.val + 304 = 1024 * k.val + 16 * 19; omega), rfl, rfl, fun x =>
      piece_agree (bufS0).view (tabS).view (ixS0).view f TT X _ k.val 4 3 hk (by omega) (by omega) hf hX (k0_off124 k 256#32 48#32) (k0_off124 k 256#32 48#32) (k0_off113 k)
        (k0_off124_inb k 3) (k0_off124_inb k 3) (k0_off113_inb k)
        ((cf0 (k0_off124 k 256#32 48#32)).trans (by show 1024 * k.val + 304 = _; omega)) ((cf0 (k0_off124 k 256#32 48#32)).trans (by show 1024 * k.val + 304 = _; omega)) ((cf0 (k0_off113 k)).trans (by show 16 * k.val = _; omega))
        _ 48#32 (by decide) _ _ (by first | rfl | rw [Shape.reshapeEquiv_self]) rfl x⟩,
    ⟨(cf0 (k0_off124 k 256#32 32#32)).trans (by show 1024 * k.val + 288 = 1024 * k.val + 16 * 18; omega), rfl, rfl, fun x =>
      piece_agree (bufS0).view (tabS).view (ixS0).view f TT X _ k.val 4 2 hk (by omega) (by omega) hf hX (k0_off124 k 256#32 32#32) (k0_off124 k 256#32 32#32) (k0_off113 k)
        (k0_off124_inb k 2) (k0_off124_inb k 2) (k0_off113_inb k)
        ((cf0 (k0_off124 k 256#32 32#32)).trans (by show 1024 * k.val + 288 = _; omega)) ((cf0 (k0_off124 k 256#32 32#32)).trans (by show 1024 * k.val + 288 = _; omega)) ((cf0 (k0_off113 k)).trans (by show 16 * k.val = _; omega))
        _ 32#32 (by decide) _ _ (by first | rfl | rw [Shape.reshapeEquiv_self]) rfl x⟩,
    ⟨(cf0 (k0_off124 k 256#32 16#32)).trans (by show 1024 * k.val + 272 = 1024 * k.val + 16 * 17; omega), rfl, rfl, fun x =>
      piece_agree (bufS0).view (tabS).view (ixS0).view f TT X _ k.val 4 1 hk (by omega) (by omega) hf hX (k0_off124 k 256#32 16#32) (k0_off124 k 256#32 16#32) (k0_off113 k)
        (k0_off124_inb k 1) (k0_off124_inb k 1) (k0_off113_inb k)
        ((cf0 (k0_off124 k 256#32 16#32)).trans (by show 1024 * k.val + 272 = _; omega)) ((cf0 (k0_off124 k 256#32 16#32)).trans (by show 1024 * k.val + 272 = _; omega)) ((cf0 (k0_off113 k)).trans (by show 16 * k.val = _; omega))
        _ 16#32 (by decide) _ _ (by first | rfl | rw [Shape.reshapeEquiv_self]) rfl x⟩,
    ⟨(cf0 (k0_off124 k 256#32 0#32)).trans (by show 1024 * k.val + 256 = 1024 * k.val + 16 * 16; omega), rfl, rfl, fun x =>
      piece_agree (bufS0).view (tabS).view (ixS0).view f TT X _ k.val 4 0 hk (by omega) (by omega) hf hX (k0_off124 k 256#32 0#32) (k0_off122 k 256#32 0#32) (k0_off113 k)
        (k0_off124_inb k 0) (k0_off122_inb k 4) (k0_off113_inb k)
        ((cf0 (k0_off124 k 256#32 0#32)).trans (by show 1024 * k.val + 256 = _; omega)) ((cf0 (k0_off122 k 256#32 0#32)).trans (by show 1024 * k.val + 256 = _; omega)) ((cf0 (k0_off113 k)).trans (by show 16 * k.val = _; omega))
        _ 0#32 (by decide) _ _ (by first | rfl | rw [Shape.reshapeEquiv_self]) rfl x⟩,
    ⟨(cf0 (k0_off122 k 192#32 48#32)).trans (by show 1024 * k.val + 240 = 1024 * k.val + 16 * 15; omega), rfl, rfl, fun x =>
      piece_agree (bufS0).view (tabS).view (ixS0).view f TT X _ k.val 3 3 hk (by omega) (by omega) hf hX (k0_off122 k 192#32 48#32) (k0_off122 k 192#32 48#32) (k0_off113 k)
        (k0_off122_inb k 3) (k0_off122_inb k 3) (k0_off113_inb k)
        ((cf0 (k0_off122 k 192#32 48#32)).trans (by show 1024 * k.val + 240 = _; omega)) ((cf0 (k0_off122 k 192#32 48#32)).trans (by show 1024 * k.val + 240 = _; omega)) ((cf0 (k0_off113 k)).trans (by show 16 * k.val = _; omega))
        _ 48#32 (by decide) _ _ (by first | rfl | rw [Shape.reshapeEquiv_self]) rfl x⟩,
    ⟨(cf0 (k0_off122 k 192#32 32#32)).trans (by show 1024 * k.val + 224 = 1024 * k.val + 16 * 14; omega), rfl, rfl, fun x =>
      piece_agree (bufS0).view (tabS).view (ixS0).view f TT X _ k.val 3 2 hk (by omega) (by omega) hf hX (k0_off122 k 192#32 32#32) (k0_off122 k 192#32 32#32) (k0_off113 k)
        (k0_off122_inb k 2) (k0_off122_inb k 2) (k0_off113_inb k)
        ((cf0 (k0_off122 k 192#32 32#32)).trans (by show 1024 * k.val + 224 = _; omega)) ((cf0 (k0_off122 k 192#32 32#32)).trans (by show 1024 * k.val + 224 = _; omega)) ((cf0 (k0_off113 k)).trans (by show 16 * k.val = _; omega))
        _ 32#32 (by decide) _ _ (by first | rfl | rw [Shape.reshapeEquiv_self]) rfl x⟩,
    ⟨(cf0 (k0_off122 k 192#32 16#32)).trans (by show 1024 * k.val + 208 = 1024 * k.val + 16 * 13; omega), rfl, rfl, fun x =>
      piece_agree (bufS0).view (tabS).view (ixS0).view f TT X _ k.val 3 1 hk (by omega) (by omega) hf hX (k0_off122 k 192#32 16#32) (k0_off122 k 192#32 16#32) (k0_off113 k)
        (k0_off122_inb k 1) (k0_off122_inb k 1) (k0_off113_inb k)
        ((cf0 (k0_off122 k 192#32 16#32)).trans (by show 1024 * k.val + 208 = _; omega)) ((cf0 (k0_off122 k 192#32 16#32)).trans (by show 1024 * k.val + 208 = _; omega)) ((cf0 (k0_off113 k)).trans (by show 16 * k.val = _; omega))
        _ 16#32 (by decide) _ _ (by first | rfl | rw [Shape.reshapeEquiv_self]) rfl x⟩,
    ⟨(cf0 (k0_off122 k 192#32 0#32)).trans (by show 1024 * k.val + 192 = 1024 * k.val + 16 * 12; omega), rfl, rfl, fun x =>
      piece_agree (bufS0).view (tabS).view (ixS0).view f TT X _ k.val 3 0 hk (by omega) (by omega) hf hX (k0_off122 k 192#32 0#32) (k0_off120 k 192#32 0#32) (k0_off113 k)
        (k0_off122_inb k 0) (k0_off120_inb k 4) (k0_off113_inb k)
        ((cf0 (k0_off122 k 192#32 0#32)).trans (by show 1024 * k.val + 192 = _; omega)) ((cf0 (k0_off120 k 192#32 0#32)).trans (by show 1024 * k.val + 192 = _; omega)) ((cf0 (k0_off113 k)).trans (by show 16 * k.val = _; omega))
        _ 0#32 (by decide) _ _ (by first | rfl | rw [Shape.reshapeEquiv_self]) rfl x⟩,
    ⟨(cf0 (k0_off120 k 128#32 48#32)).trans (by show 1024 * k.val + 176 = 1024 * k.val + 16 * 11; omega), rfl, rfl, fun x =>
      piece_agree (bufS0).view (tabS).view (ixS0).view f TT X _ k.val 2 3 hk (by omega) (by omega) hf hX (k0_off120 k 128#32 48#32) (k0_off120 k 128#32 48#32) (k0_off113 k)
        (k0_off120_inb k 3) (k0_off120_inb k 3) (k0_off113_inb k)
        ((cf0 (k0_off120 k 128#32 48#32)).trans (by show 1024 * k.val + 176 = _; omega)) ((cf0 (k0_off120 k 128#32 48#32)).trans (by show 1024 * k.val + 176 = _; omega)) ((cf0 (k0_off113 k)).trans (by show 16 * k.val = _; omega))
        _ 48#32 (by decide) _ _ (by first | rfl | rw [Shape.reshapeEquiv_self]) rfl x⟩,
    ⟨(cf0 (k0_off120 k 128#32 32#32)).trans (by show 1024 * k.val + 160 = 1024 * k.val + 16 * 10; omega), rfl, rfl, fun x =>
      piece_agree (bufS0).view (tabS).view (ixS0).view f TT X _ k.val 2 2 hk (by omega) (by omega) hf hX (k0_off120 k 128#32 32#32) (k0_off120 k 128#32 32#32) (k0_off113 k)
        (k0_off120_inb k 2) (k0_off120_inb k 2) (k0_off113_inb k)
        ((cf0 (k0_off120 k 128#32 32#32)).trans (by show 1024 * k.val + 160 = _; omega)) ((cf0 (k0_off120 k 128#32 32#32)).trans (by show 1024 * k.val + 160 = _; omega)) ((cf0 (k0_off113 k)).trans (by show 16 * k.val = _; omega))
        _ 32#32 (by decide) _ _ (by first | rfl | rw [Shape.reshapeEquiv_self]) rfl x⟩,
    ⟨(cf0 (k0_off120 k 128#32 16#32)).trans (by show 1024 * k.val + 144 = 1024 * k.val + 16 * 9; omega), rfl, rfl, fun x =>
      piece_agree (bufS0).view (tabS).view (ixS0).view f TT X _ k.val 2 1 hk (by omega) (by omega) hf hX (k0_off120 k 128#32 16#32) (k0_off120 k 128#32 16#32) (k0_off113 k)
        (k0_off120_inb k 1) (k0_off120_inb k 1) (k0_off113_inb k)
        ((cf0 (k0_off120 k 128#32 16#32)).trans (by show 1024 * k.val + 144 = _; omega)) ((cf0 (k0_off120 k 128#32 16#32)).trans (by show 1024 * k.val + 144 = _; omega)) ((cf0 (k0_off113 k)).trans (by show 16 * k.val = _; omega))
        _ 16#32 (by decide) _ _ (by first | rfl | rw [Shape.reshapeEquiv_self]) rfl x⟩,
    ⟨(cf0 (k0_off120 k 128#32 0#32)).trans (by show 1024 * k.val + 128 = 1024 * k.val + 16 * 8; omega), rfl, rfl, fun x =>
      piece_agree (bufS0).view (tabS).view (ixS0).view f TT X _ k.val 2 0 hk (by omega) (by omega) hf hX (k0_off120 k 128#32 0#32) (k0_off118 k 128#32 0#32) (k0_off113 k)
        (k0_off120_inb k 0) (k0_off118_inb k 4) (k0_off113_inb k)
        ((cf0 (k0_off120 k 128#32 0#32)).trans (by show 1024 * k.val + 128 = _; omega)) ((cf0 (k0_off118 k 128#32 0#32)).trans (by show 1024 * k.val + 128 = _; omega)) ((cf0 (k0_off113 k)).trans (by show 16 * k.val = _; omega))
        _ 0#32 (by decide) _ _ (by first | rfl | rw [Shape.reshapeEquiv_self]) rfl x⟩,
    ⟨(cf0 (k0_off118 k 64#32 48#32)).trans (by show 1024 * k.val + 112 = 1024 * k.val + 16 * 7; omega), rfl, rfl, fun x =>
      piece_agree (bufS0).view (tabS).view (ixS0).view f TT X _ k.val 1 3 hk (by omega) (by omega) hf hX (k0_off118 k 64#32 48#32) (k0_off118 k 64#32 48#32) (k0_off113 k)
        (k0_off118_inb k 3) (k0_off118_inb k 3) (k0_off113_inb k)
        ((cf0 (k0_off118 k 64#32 48#32)).trans (by show 1024 * k.val + 112 = _; omega)) ((cf0 (k0_off118 k 64#32 48#32)).trans (by show 1024 * k.val + 112 = _; omega)) ((cf0 (k0_off113 k)).trans (by show 16 * k.val = _; omega))
        _ 48#32 (by decide) _ _ (by first | rfl | rw [Shape.reshapeEquiv_self]) rfl x⟩,
    ⟨(cf0 (k0_off118 k 64#32 32#32)).trans (by show 1024 * k.val + 96 = 1024 * k.val + 16 * 6; omega), rfl, rfl, fun x =>
      piece_agree (bufS0).view (tabS).view (ixS0).view f TT X _ k.val 1 2 hk (by omega) (by omega) hf hX (k0_off118 k 64#32 32#32) (k0_off118 k 64#32 32#32) (k0_off113 k)
        (k0_off118_inb k 2) (k0_off118_inb k 2) (k0_off113_inb k)
        ((cf0 (k0_off118 k 64#32 32#32)).trans (by show 1024 * k.val + 96 = _; omega)) ((cf0 (k0_off118 k 64#32 32#32)).trans (by show 1024 * k.val + 96 = _; omega)) ((cf0 (k0_off113 k)).trans (by show 16 * k.val = _; omega))
        _ 32#32 (by decide) _ _ (by first | rfl | rw [Shape.reshapeEquiv_self]) rfl x⟩,
    ⟨(cf0 (k0_off118 k 64#32 16#32)).trans (by show 1024 * k.val + 80 = 1024 * k.val + 16 * 5; omega), rfl, rfl, fun x =>
      piece_agree (bufS0).view (tabS).view (ixS0).view f TT X _ k.val 1 1 hk (by omega) (by omega) hf hX (k0_off118 k 64#32 16#32) (k0_off118 k 64#32 16#32) (k0_off113 k)
        (k0_off118_inb k 1) (k0_off118_inb k 1) (k0_off113_inb k)
        ((cf0 (k0_off118 k 64#32 16#32)).trans (by show 1024 * k.val + 80 = _; omega)) ((cf0 (k0_off118 k 64#32 16#32)).trans (by show 1024 * k.val + 80 = _; omega)) ((cf0 (k0_off113 k)).trans (by show 16 * k.val = _; omega))
        _ 16#32 (by decide) _ _ (by first | rfl | rw [Shape.reshapeEquiv_self]) rfl x⟩,
    ⟨(cf0 (k0_off118 k 64#32 0#32)).trans (by show 1024 * k.val + 64 = 1024 * k.val + 16 * 4; omega), rfl, rfl, fun x =>
      piece_agree (bufS0).view (tabS).view (ixS0).view f TT X _ k.val 1 0 hk (by omega) (by omega) hf hX (k0_off118 k 64#32 0#32) (k0_off116 k 64#32 0#32) (k0_off113 k)
        (k0_off118_inb k 0) (k0_off116_inb k 4) (k0_off113_inb k)
        ((cf0 (k0_off118 k 64#32 0#32)).trans (by show 1024 * k.val + 64 = _; omega)) ((cf0 (k0_off116 k 64#32 0#32)).trans (by show 1024 * k.val + 64 = _; omega)) ((cf0 (k0_off113 k)).trans (by show 16 * k.val = _; omega))
        _ 0#32 (by decide) _ _ (by first | rfl | rw [Shape.reshapeEquiv_self]) rfl x⟩,
    ⟨(cf0 (k0_off116 k 0#32 48#32)).trans (by show 1024 * k.val + 48 = 1024 * k.val + 16 * 3; omega), rfl, rfl, fun x =>
      piece_agree (bufS0).view (tabS).view (ixS0).view f TT X _ k.val 0 3 hk (by omega) (by omega) hf hX (k0_off116 k 0#32 48#32) (k0_off116 k 0#32 48#32) (k0_off113 k)
        (k0_off116_inb k 3) (k0_off116_inb k 3) (k0_off113_inb k)
        ((cf0 (k0_off116 k 0#32 48#32)).trans (by show 1024 * k.val + 48 = _; omega)) ((cf0 (k0_off116 k 0#32 48#32)).trans (by show 1024 * k.val + 48 = _; omega)) ((cf0 (k0_off113 k)).trans (by show 16 * k.val = _; omega))
        _ 48#32 (by decide) _ _ (by first | rfl | rw [Shape.reshapeEquiv_self]) rfl x⟩,
    ⟨(cf0 (k0_off116 k 0#32 32#32)).trans (by show 1024 * k.val + 32 = 1024 * k.val + 16 * 2; omega), rfl, rfl, fun x =>
      piece_agree (bufS0).view (tabS).view (ixS0).view f TT X _ k.val 0 2 hk (by omega) (by omega) hf hX (k0_off116 k 0#32 32#32) (k0_off116 k 0#32 32#32) (k0_off113 k)
        (k0_off116_inb k 2) (k0_off116_inb k 2) (k0_off113_inb k)
        ((cf0 (k0_off116 k 0#32 32#32)).trans (by show 1024 * k.val + 32 = _; omega)) ((cf0 (k0_off116 k 0#32 32#32)).trans (by show 1024 * k.val + 32 = _; omega)) ((cf0 (k0_off113 k)).trans (by show 16 * k.val = _; omega))
        _ 32#32 (by decide) _ _ (by first | rfl | rw [Shape.reshapeEquiv_self]) rfl x⟩,
    ⟨(cf0 (k0_off116 k 0#32 16#32)).trans (by show 1024 * k.val + 16 = 1024 * k.val + 16 * 1; omega), rfl, rfl, fun x =>
      piece_agree (bufS0).view (tabS).view (ixS0).view f TT X _ k.val 0 1 hk (by omega) (by omega) hf hX (k0_off116 k 0#32 16#32) (k0_off116 k 0#32 16#32) (k0_off113 k)
        (k0_off116_inb k 1) (k0_off116_inb k 1) (k0_off113_inb k)
        ((cf0 (k0_off116 k 0#32 16#32)).trans (by show 1024 * k.val + 16 = _; omega)) ((cf0 (k0_off116 k 0#32 16#32)).trans (by show 1024 * k.val + 16 = _; omega)) ((cf0 (k0_off113 k)).trans (by show 16 * k.val = _; omega))
        _ 16#32 (by decide) _ _ (by first | rfl | rw [Shape.reshapeEquiv_self]) rfl x⟩,
    ⟨(cf0 (k0_off116 k 0#32 0#32)).trans (by show 1024 * k.val + 0 = 1024 * k.val + 16 * 0; omega), rfl, rfl, fun x =>
      piece_agree (bufS0).view (tabS).view (ixS0).view f TT X _ k.val 0 0 hk (by omega) (by omega) hf hX (k0_off116 k 0#32 0#32) (k0_off114 k) (k0_off113 k)
        (k0_off116_inb k 0) (k0_off114_inb k) (k0_off113_inb k)
        ((cf0 (k0_off116 k 0#32 0#32)).trans (by show 1024 * k.val + 0 = _; omega)) ((cf0 (k0_off114 k)).trans (by show 1024 * k.val = _; omega)) ((cf0 (k0_off113 k)).trans (by show 16 * k.val = _; omega))
        _ 0#32 (by decide) _ _ (by first | rfl | rw [Shape.reshapeEquiv_self]) rfl x⟩,
    trivial⟩

/-- The whole loop, in continuation form: from the three buffers, the program goes on with every row done. -/
theorem loop5_spec (hX : ∀ j, BitVec.toNat ((ixS0).view.read (Elt F) X j) < 16) (v1 v21 v90 c3_i32_55 v91 v93 c0_i32_57 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS0).view.loc (thrV d L) ↦{fullShare} X)
        ∗ ((bufS0).view.loc (thrV d L) ↦{fullShare} B)
        ∗ (∀ acc f, (⌜∀ y, (bufS0).view.read (Elt F) f y
              = stage ((bufS0).view.read (Elt F) B) ((tabS).view.read (Elt F) TT) ((ixS0).view.read (Elt F) X) 400 y⌝
              ∗ ((tabS).view.loc (thrV d L) ↦{fullShare} TT) ∗ ((ixS0).view.loc (thrV d L) ↦{fullShare} X)
              ∗ ((bufS0).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t5_loop k0_t5_ok init (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57) >>= kk) Q := by
  iintro ⟨Ht, Hx, Hb, Hk⟩
  iapply (Scf.wp_for_bind frame (wpE (defs₀ (F := F)) 𝒱₀ (thrV d L) none) Set.univ k0_t5_loop.lb k0_t5_loop.ub k0_t5_loop.st k0_t5_ok init
    (k0_t5_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57) (inv5 d L TT X B) (step5 d L TT X B hX v1 v21 v90 c3_i32_55 v91 v93 c0_i32_57)) $$ [Ht Hx Hb]
  · unfold inv5
    isplitl [Ht]; · iexact Ht
    isplitl [Hx]; · iexact Hx
    iexists B; isplitl [Hb]; · iexact Hb
    ipureintro
    intro y
    unfold stage
    rw [if_neg (by omega)]
  iintro %acc HI
  unfold inv5
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KILoop6.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS1).view.loc (thrV d L)))
  (B : Buf (Elt F) ((bufS1).view.loc (thrV d L)))

/-- Before trip k: the table and the indices as they were, the row buffer at stage 16 k. -/
def inv6 (k : Nat) (_ : BitVec 32) : sProp 𝕄 :=
  iprop(((tabS).view.loc (thrV d L) ↦{fullShare} TT) ∗ ((ixS1).view.loc (thrV d L) ↦{fullShare} X)
    ∗ ∃ f, ((bufS1).view.loc (thrV d L) ↦{fullShare} f)
        ∗ ⌜∀ y, (bufS1).view.read (Elt F) f y
            = stage ((bufS1).view.read (Elt F) B) ((tabS).view.read (Elt F) TT) ((ixS1).view.read (Elt F) X) (16 * k) y⌝)

set_option maxHeartbeats 16000000 in
/-- One trip keeps the invariant. -/
theorem step6 (hX : ∀ j, BitVec.toNat ((ixS1).view.read (Elt F) X j) < 16) (v1 v21 v90 c3_i32_55 v91 v93 c0_i32_57 : BitVec 32) (k0_t4 : Fin (k0_t4_loop L).trips) (k0_h5 : k0_cond5 L k0_t4 = 1#1)
    (k : Fin (Scf.trips k0_t6_loop.lb k0_t6_loop.ub k0_t6_loop.st)) (acc : BitVec 32) :
    inv6 d L TT X B k acc
      ⊢ wp frame (wpE (defs₀ (F := F)) 𝒱₀ (thrV d L) none) Set.univ
          (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5 k acc) (inv6 d L TT X B (k.val + 1)) := by
  have hk : k.val < 25 := Nat.lt_of_lt_of_le k.isLt k0_t6_abs.2.1
  unfold inv6 k0_t6_body
  iintro ⟨Ht, Hx, %f, Hb, %hf⟩
  sl_exec_parts (disch := first | exact fun r a => off_gen _ (hX _) r a | exact fun _ r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS1).view f _ _ _ k.val _ rfl hf ?_
  exact ⟨
    ⟨(cf0 (k0_off183 k 48#32)).trans (by show 1024 * k.val + 16 * 3 + 960 = 1024 * k.val + 16 * 63; omega), rfl, rfl, fun x =>
      piece_agree (bufS1).view (tabS).view (ixS1).view f TT X _ k.val 15 3 hk (by omega) (by omega) hf hX (k0_off183 k 48#32) (k0_off183 k 48#32) (k0_off150 k)
        (k0_off183_inb L k0_t4 k k0_h5 3) (k0_off183_inb L k0_t4 k k0_h5 3) (k0_off150_inb L k0_t4 k k0_h5)
        ((cf0 (k0_off183 k 48#32)).trans (by show 1024 * k.val + 16 * 3 + 960 = _; omega)) ((cf0 (k0_off183 k 48#32)).trans (by show 1024 * k.val + 16 * 3 + 960 = _; omega)) ((cf0 (k0_off150 k)).trans (by show 16 * k.val = _; omega))
        _ 48#32 (by decide) _ _ (by first | rfl | rw [Shape.reshapeEquiv_self]) rfl x⟩,
    ⟨(cf0 (k0_off183 k 32#32)).trans (by show 1024 * k.val + 16 * 2 + 960 = 1024 * k.val + 16 * 62; omega), rfl, rfl, fun x =>
      piece_agree (bufS1).view (tabS).view (ixS1).view f TT X _ k.val 15 2 hk (by omega) (by omega) hf hX (k0_off183 k 32#32) (k0_off183 k 32#32) (k0_off150 k)
        (k0_off183_inb L k0_t4 k k0_h5 2) (k0_off183_inb L k0_t4 k k0_h5 2) (k0_off150_inb L k0_t4 k k0_h5)
        ((cf0 (k0_off183 k 32#32)).trans (by show 1024 * k.val + 16 * 2 + 960 = _; omega)) ((cf0 (k0_off183 k 32#32)).trans (by show 1024 * k.val + 16 * 2 + 960 = _; omega)) ((cf0 (k0_off150 k)).trans (by show 16 * k.val = _; omega))
        _ 32#32 (by decide) _ _ (by first | rfl | rw [Shape.reshapeEquiv_self]) rfl x⟩,
    ⟨(cf0 (k0_off183 k 16#32)).trans (by show 1024 * k.val + 16 * 1 + 960 = 1024 * k.val + 16 * 61; omega), rfl, rfl, fun x =>
      piece_agree (bufS1).view (tabS).view (ixS1).view f TT X _ k.val 15 1 hk (by omega) (by omega) hf hX (k0_off183 k 16#32) (k0_off183 k 16#32) (k0_off150 k)
        (k0_off183_inb L k0_t4 k k0_h5 1) (k0_off183_inb L k0_t4 k k0_h5 1) (k0_off150_inb L k0_t4 k k0_h5)
        ((cf0 (k0_off183 k 16#32)).trans (by show 1024 * k.val + 16 * 1 + 960 = _; omega)) ((cf0 (k0_off183 k 16#32)).trans (by show 1024 * k.val + 16 * 1 + 960 = _; omega)) ((cf0 (k0_off150 k)).trans (by show 16 * k.val = _; omega))
        _ 16#32 (by decide) _ _ (by first | rfl | rw [Shape.reshapeEquiv_self]) rfl x⟩,
    ⟨(cf0 (k0_off183 k 0#32)).trans (by show 1024 * k.val + 16 * 0 + 960 = 1024 * k.val + 16 * 60; omega), rfl, rfl, fun x =>
      piece_agree (bufS1).view (tabS).view (ixS1).view f TT X _ k.val 15 0 hk (by omega) (by omega) hf hX (k0_off183 k 0#32) (k0_off181 k 960#32 0#32) (k0_off150 k)
        (k0_off183_inb L k0_t4 k k0_h5 0) (k0_off181_inb L k0_t4 k k0_h5 4) (k0_off150_inb L k0_t4 k k0_h5)
        ((cf0 (k0_off183 k 0#32)).trans (by show 1024 * k.val + 16 * 0 + 960 = _; omega)) ((cf0 (k0_off181 k 960#32 0#32)).trans (by show 1024 * k.val + 960 = _; omega)) ((cf0 (k0_off150 k)).trans (by show 16 * k.val = _; omega))
        _ 0#32 (by decide) _ _ (by first | rfl | rw [Shape.reshapeEquiv_self]) rfl x⟩,
    ⟨(cf0 (k0_off181 k 896#32 48#32)).trans (by show 1024 * k.val + 944 = 1024 * k.val + 16 * 59; omega), rfl, rfl, fun x =>
      piece_agree (bufS1).view (tabS).view (ixS1).view f TT X _ k.val 14 3 hk (by omega) (by omega) hf hX (k0_off181 k 896#32 48#32) (k0_off181 k 896#32 48#32) (k0_off150 k)
        (k0_off181_inb L k0_t4 k k0_h5 3) (k0_off181_inb L k0_t4 k k0_h5 3) (k0_off150_inb L k0_t4 k k0_h5)
        ((cf0 (k0_off181 k 896#32 48#32)).trans (by show 1024 * k.val + 944 = _; omega)) ((cf0 (k0_off181 k 896#32 48#32)).trans (by show 1024 * k.val + 944 = _; omega)) ((cf0 (k0_off150 k)).trans (by show 16 * k.val = _; omega))
        _ 48#32 (by decide) _ _ (by first | rfl | rw [Shape.reshapeEquiv_self]) rfl x⟩,
    ⟨(cf0 (k0_off181 k 896#32 32#32)).trans (by show 1024 * k.val + 928 = 1024 * k.val + 16 * 58; omega), rfl, rfl, fun x =>
      piece_agree (bufS1).view (tabS).view (ixS1).view f TT X _ k.val 14 2 hk (by omega) (by omega) hf hX (k0_off181 k 896#32 32#32) (k0_off181 k 896#32 32#32) (k0_off150 k)
        (k0_off181_inb L k0_t4 k k0_h5 2) (k0_off181_inb L k0_t4 k k0_h5 2) (k0_off150_inb L k0_t4 k k0_h5)
        ((cf0 (k0_off181 k 896#32 32#32)).trans (by show 1024 * k.val + 928 = _; omega)) ((cf0 (k0_off181 k 896#32 32#32)).trans (by show 1024 * k.val + 928 = _; omega)) ((cf0 (k0_off150 k)).trans (by show 16 * k.val = _; omega))
        _ 32#32 (by decide) _ _ (by first | rfl | rw [Shape.reshapeEquiv_self]) rfl x⟩,
    ⟨(cf0 (k0_off181 k 896#32 16#32)).trans (by show 1024 * k.val + 912 = 1024 * k.val + 16 * 57; omega), rfl, rfl, fun x =>
      piece_agree (bufS1).view (tabS).view (ixS1).view f TT X _ k.val 14 1 hk (by omega) (by omega) hf hX (k0_off181 k 896#32 16#32) (k0_off181 k 896#32 16#32) (k0_off150 k)
        (k0_off181_inb L k0_t4 k k0_h5 1) (k0_off181_inb L k0_t4 k k0_h5 1) (k0_off150_inb L k0_t4 k k0_h5)
        ((cf0 (k0_off181 k 896#32 16#32)).trans (by show 1024 * k.val + 912 = _; omega)) ((cf0 (k0_off181 k 896#32 16#32)).trans (by show 1024 * k.val + 912 = _; omega)) ((cf0 (k0_off150 k)).trans (by show 16 * k.val = _; omega))
        _ 16#32 (by decide) _ _ (by first | rfl | rw [Shape.reshapeEquiv_self]) rfl x⟩,
    ⟨(cf0 (k0_off181 k 896#32 0#32)).trans (by show 1024 * k.val + 896 = 1024 * k.val + 16 * 56; omega), rfl, rfl, fun x =>
      piece_agree (bufS1).view (tabS).view (ixS1).view f TT X _ k.val 14 0 hk (by omega) (by omega) hf hX (k0_off181 k 896#32 0#32) (k0_off179 k 896#32 0#32) (k0_off150 k)
        (k0_off181_inb L k0_t4 k k0_h5 0) (k0_off179_inb L k0_t4 k k0_h5 4) (k0_off150_inb L k0_t4 k k0_h5)
        ((cf0 (k0_off181 k 896#32 0#32)).trans (by show 1024 * k.val + 896 = _; omega)) ((cf0 (k0_off179 k 896#32 0#32)).trans (by show 1024 * k.val + 896 = _; omega)) ((cf0 (k0_off150 k)).trans (by show 16 * k.val = _; omega))
        _ 0#32 (by decide) _ _ (by first | rfl | rw [Shape.reshapeEquiv_self]) rfl x⟩,
    ⟨(cf0 (k0_off179 k 832#32 48#32)).trans (by show 1024 * k.val + 880 = 1024 * k.val + 16 * 55; omega), rfl, rfl, fun x =>
      piece_agree (bufS1).view (tabS).view (ixS1).view f TT X _ k.val 13 3 hk (by omega) (by omega) hf hX (k0_off179 k 832#32 48#32) (k0_off179 k 832#32 48#32) (k0_off150 k)
        (k0_off179_inb L k0_t4 k k0_h5 3) (k0_off179_inb L k0_t4 k k0_h5 3) (k0_off150_inb L k0_t4 k k0_h5)
        ((cf0 (k0_off179 k 832#32 48#32)).trans (by show 1024 * k.val + 880 = _; omega)) ((cf0 (k0_off179 k 832#32 48#32)).trans (by show 1024 * k.val + 880 = _; omega)) ((cf0 (k0_off150 k)).trans (by show 16 * k.val = _; omega))
        _ 48#32 (by decide) _ _ (by first | rfl | rw [Shape.reshapeEquiv_self]) rfl x⟩,
    ⟨(cf0 (k0_off179 k 832#32 32#32)).trans (by show 1024 * k.val + 864 = 1024 * k.val + 16 * 54; omega), rfl, rfl, fun x =>
      piece_agree (bufS1).view (tabS).view (ixS1).view f TT X _ k.val 13 2 hk (by omega) (by omega) hf hX (k0_off179 k 832#32 32#32) (k0_off179 k 832#32 32#32) (k0_off150 k)
        (k0_off179_inb L k0_t4 k k0_h5 2) (k0_off179_inb L k0_t4 k k0_h5 2) (k0_off150_inb L k0_t4 k k0_h5)
        ((cf0 (k0_off179 k 832#32 32#32)).trans (by show 1024 * k.val + 864 = _; omega)) ((cf0 (k0_off179 k 832#32 32#32)).trans (by show 1024 * k.val + 864 = _; omega)) ((cf0 (k0_off150 k)).trans (by show 16 * k.val = _; omega))
        _ 32#32 (by decide) _ _ (by first | rfl | rw [Shape.reshapeEquiv_self]) rfl x⟩,
    ⟨(cf0 (k0_off179 k 832#32 16#32)).trans (by show 1024 * k.val + 848 = 1024 * k.val + 16 * 53; omega), rfl, rfl, fun x =>
      piece_agree (bufS1).view (tabS).view (ixS1).view f TT X _ k.val 13 1 hk (by omega) (by omega) hf hX (k0_off179 k 832#32 16#32) (k0_off179 k 832#32 16#32) (k0_off150 k)
        (k0_off179_inb L k0_t4 k k0_h5 1) (k0_off179_inb L k0_t4 k k0_h5 1) (k0_off150_inb L k0_t4 k k0_h5)
        ((cf0 (k0_off179 k 832#32 16#32)).trans (by show 1024 * k.val + 848 = _; omega)) ((cf0 (k0_off179 k 832#32 16#32)).trans (by show 1024 * k.val + 848 = _; omega)) ((cf0 (k0_off150 k)).trans (by show 16 * k.val = _; omega))
        _ 16#32 (by decide) _ _ (by first | rfl | rw [Shape.reshapeEquiv_self]) rfl x⟩,
    ⟨(cf0 (k0_off179 k 832#32 0#32)).trans (by show 1024 * k.val + 832 = 1024 * k.val + 16 * 52; omega), rfl, rfl, fun x =>
      piece_agree (bufS1).view (tabS).view (ixS1).view f TT X _ k.val 13 0 hk (by omega) (by omega) hf hX (k0_off179 k 832#32 0#32) (k0_off177 k 832#32 0#32) (k0_off150 k)
        (k0_off179_inb L k0_t4 k k0_h5 0) (k0_off177_inb L k0_t4 k k0_h5 4) (k0_off150_inb L k0_t4 k k0_h5)
        ((cf0 (k0_off179 k 832#32 0#32)).trans (by show 1024 * k.val + 832 = _; omega)) ((cf0 (k0_off177 k 832#32 0#32)).trans (by show 1024 * k.val + 832 = _; omega)) ((cf0 (k0_off150 k)).trans (by show 16 * k.val = _; omega))
        _ 0#32 (by decide) _ _ (by first | rfl | rw [Shape.reshapeEquiv_self]) rfl x⟩,
    ⟨(cf0 (k0_off177 k 768#32 48#32)).trans (by show 1024 * k.val + 816 = 1024 * k.val + 16 * 51; omega), rfl, rfl, fun x =>
      piece_agree (bufS1).view (tabS).view (ixS1).view f TT X _ k.val 12 3 hk (by omega) (by omega) hf hX (k0_off177 k 768#32 48#32) (k0_off177 k 768#32 48#32) (k0_off150 k)
        (k0_off177_inb L k0_t4 k k0_h5 3) (k0_off177_inb L k0_t4 k k0_h5 3) (k0_off150_inb L k0_t4 k k0_h5)
        ((cf0 (k0_off177 k 768#32 48#32)).trans (by show 1024 * k.val + 816 = _; omega)) ((cf0 (k0_off177 k 768#32 48#32)).trans (by show 1024 * k.val + 816 = _; omega)) ((cf0 (k0_off150 k)).trans (by show 16 * k.val = _; omega))
        _ 48#32 (by decide) _ _ (by first | rfl | rw [Shape.reshapeEquiv_self]) rfl x⟩,
    ⟨(cf0 (k0_off177 k 768#32 32#32)).trans (by show 1024 * k.val + 800 = 1024 * k.val + 16 * 50; omega), rfl, rfl, fun x =>
      piece_agree (bufS1).view (tabS).view (ixS1).view f TT X _ k.val 12 2 hk (by omega) (by omega) hf hX (k0_off177 k 768#32 32#32) (k0_off177 k 768#32 32#32) (k0_off150 k)
        (k0_off177_inb L k0_t4 k k0_h5 2) (k0_off177_inb L k0_t4 k k0_h5 2) (k0_off150_inb L k0_t4 k k0_h5)
        ((cf0 (k0_off177 k 768#32 32#32)).trans (by show 1024 * k.val + 800 = _; omega)) ((cf0 (k0_off177 k 768#32 32#32)).trans (by show 1024 * k.val + 800 = _; omega)) ((cf0 (k0_off150 k)).trans (by show 16 * k.val = _; omega))
        _ 32#32 (by decide) _ _ (by first | rfl | rw [Shape.reshapeEquiv_self]) rfl x⟩,
    ⟨(cf0 (k0_off177 k 768#32 16#32)).trans (by show 1024 * k.val + 784 = 1024 * k.val + 16 * 49; omega), rfl, rfl, fun x =>
      piece_agree (bufS1).view (tabS).view (ixS1).view f TT X _ k.val 12 1 hk (by omega) (by omega) hf hX (k0_off177 k 768#32 16#32) (k0_off177 k 768#32 16#32) (k0_off150 k)
        (k0_off177_inb L k0_t4 k k0_h5 1) (k0_off177_inb L k0_t4 k k0_h5 1) (k0_off150_inb L k0_t4 k k0_h5)
        ((cf0 (k0_off177 k 768#32 16#32)).trans (by show 1024 * k.val + 784 = _; omega)) ((cf0 (k0_off177 k 768#32 16#32)).trans (by show 1024 * k.val + 784 = _; omega)) ((cf0 (k0_off150 k)).trans (by show 16 * k.val = _; omega))
        _ 16#32 (by decide) _ _ (by first | rfl | rw [Shape.reshapeEquiv_self]) rfl x⟩,
    ⟨(cf0 (k0_off177 k 768#32 0#32)).trans (by show 1024 * k.val + 768 = 1024 * k.val + 16 * 48; omega), rfl, rfl, fun x =>
      piece_agree (bufS1).view (tabS).view (ixS1).view f TT X _ k.val 12 0 hk (by omega) (by omega) hf hX (k0_off177 k 768#32 0#32) (k0_off175 k 768#32 0#32) (k0_off150 k)
        (k0_off177_inb L k0_t4 k k0_h5 0) (k0_off175_inb L k0_t4 k k0_h5 4) (k0_off150_inb L k0_t4 k k0_h5)
        ((cf0 (k0_off177 k 768#32 0#32)).trans (by show 1024 * k.val + 768 = _; omega)) ((cf0 (k0_off175 k 768#32 0#32)).trans (by show 1024 * k.val + 768 = _; omega)) ((cf0 (k0_off150 k)).trans (by show 16 * k.val = _; omega))
        _ 0#32 (by decide) _ _ (by first | rfl | rw [Shape.reshapeEquiv_self]) rfl x⟩,
    ⟨(cf0 (k0_off175 k 704#32 48#32)).trans (by show 1024 * k.val + 752 = 1024 * k.val + 16 * 47; omega), rfl, rfl, fun x =>
      piece_agree (bufS1).view (tabS).view (ixS1).view f TT X _ k.val 11 3 hk (by omega) (by omega) hf hX (k0_off175 k 704#32 48#32) (k0_off175 k 704#32 48#32) (k0_off150 k)
        (k0_off175_inb L k0_t4 k k0_h5 3) (k0_off175_inb L k0_t4 k k0_h5 3) (k0_off150_inb L k0_t4 k k0_h5)
        ((cf0 (k0_off175 k 704#32 48#32)).trans (by show 1024 * k.val + 752 = _; omega)) ((cf0 (k0_off175 k 704#32 48#32)).trans (by show 1024 * k.val + 752 = _; omega)) ((cf0 (k0_off150 k)).trans (by show 16 * k.val = _; omega))
        _ 48#32 (by decide) _ _ (by first | rfl | rw [Shape.reshapeEquiv_self]) rfl x⟩,
    ⟨(cf0 (k0_off175 k 704#32 32#32)).trans (by show 1024 * k.val + 736 = 1024 * k.val + 16 * 46; omega), rfl, rfl, fun x =>
      piece_agree (bufS1).view (tabS).view (ixS1).view f TT X _ k.val 11 2 hk (by omega) (by omega) hf hX (k0_off175 k 704#32 32#32) (k0_off175 k 704#32 32#32) (k0_off150 k)
        (k0_off175_inb L k0_t4 k k0_h5 2) (k0_off175_inb L k0_t4 k k0_h5 2) (k0_off150_inb L k0_t4 k k0_h5)
        ((cf0 (k0_off175 k 704#32 32#32)).trans (by show 1024 * k.val + 736 = _; omega)) ((cf0 (k0_off175 k 704#32 32#32)).trans (by show 1024 * k.val + 736 = _; omega)) ((cf0 (k0_off150 k)).trans (by show 16 * k.val = _; omega))
        _ 32#32 (by decide) _ _ (by first | rfl | rw [Shape.reshapeEquiv_self]) rfl x⟩,
    ⟨(cf0 (k0_off175 k 704#32 16#32)).trans (by show 1024 * k.val + 720 = 1024 * k.val + 16 * 45; omega), rfl, rfl, fun x =>
      piece_agree (bufS1).view (tabS).view (ixS1).view f TT X _ k.val 11 1 hk (by omega) (by omega) hf hX (k0_off175 k 704#32 16#32) (k0_off175 k 704#32 16#32) (k0_off150 k)
        (k0_off175_inb L k0_t4 k k0_h5 1) (k0_off175_inb L k0_t4 k k0_h5 1) (k0_off150_inb L k0_t4 k k0_h5)
        ((cf0 (k0_off175 k 704#32 16#32)).trans (by show 1024 * k.val + 720 = _; omega)) ((cf0 (k0_off175 k 704#32 16#32)).trans (by show 1024 * k.val + 720 = _; omega)) ((cf0 (k0_off150 k)).trans (by show 16 * k.val = _; omega))
        _ 16#32 (by decide) _ _ (by first | rfl | rw [Shape.reshapeEquiv_self]) rfl x⟩,
    ⟨(cf0 (k0_off175 k 704#32 0#32)).trans (by show 1024 * k.val + 704 = 1024 * k.val + 16 * 44; omega), rfl, rfl, fun x =>
      piece_agree (bufS1).view (tabS).view (ixS1).view f TT X _ k.val 11 0 hk (by omega) (by omega) hf hX (k0_off175 k 704#32 0#32) (k0_off173 k 704#32 0#32) (k0_off150 k)
        (k0_off175_inb L k0_t4 k k0_h5 0) (k0_off173_inb L k0_t4 k k0_h5 4) (k0_off150_inb L k0_t4 k k0_h5)
        ((cf0 (k0_off175 k 704#32 0#32)).trans (by show 1024 * k.val + 704 = _; omega)) ((cf0 (k0_off173 k 704#32 0#32)).trans (by show 1024 * k.val + 704 = _; omega)) ((cf0 (k0_off150 k)).trans (by show 16 * k.val = _; omega))
        _ 0#32 (by decide) _ _ (by first | rfl | rw [Shape.reshapeEquiv_self]) rfl x⟩,
    ⟨(cf0 (k0_off173 k 640#32 48#32)).trans (by show 1024 * k.val + 688 = 1024 * k.val + 16 * 43; omega), rfl, rfl, fun x =>
      piece_agree (bufS1).view (tabS).view (ixS1).view f TT X _ k.val 10 3 hk (by omega) (by omega) hf hX (k0_off173 k 640#32 48#32) (k0_off173 k 640#32 48#32) (k0_off150 k)
        (k0_off173_inb L k0_t4 k k0_h5 3) (k0_off173_inb L k0_t4 k k0_h5 3) (k0_off150_inb L k0_t4 k k0_h5)
        ((cf0 (k0_off173 k 640#32 48#32)).trans (by show 1024 * k.val + 688 = _; omega)) ((cf0 (k0_off173 k 640#32 48#32)).trans (by show 1024 * k.val + 688 = _; omega)) ((cf0 (k0_off150 k)).trans (by show 16 * k.val = _; omega))
        _ 48#32 (by decide) _ _ (by first | rfl | rw [Shape.reshapeEquiv_self]) rfl x⟩,
    ⟨(cf0 (k0_off173 k 640#32 32#32)).trans (by show 1024 * k.val + 672 = 1024 * k.val + 16 * 42; omega), rfl, rfl, fun x =>
      piece_agree (bufS1).view (tabS).view (ixS1).view f TT X _ k.val 10 2 hk (by omega) (by omega) hf hX (k0_off173 k 640#32 32#32) (k0_off173 k 640#32 32#32) (k0_off150 k)
        (k0_off173_inb L k0_t4 k k0_h5 2) (k0_off173_inb L k0_t4 k k0_h5 2) (k0_off150_inb L k0_t4 k k0_h5)
        ((cf0 (k0_off173 k 640#32 32#32)).trans (by show 1024 * k.val + 672 = _; omega)) ((cf0 (k0_off173 k 640#32 32#32)).trans (by show 1024 * k.val + 672 = _; omega)) ((cf0 (k0_off150 k)).trans (by show 16 * k.val = _; omega))
        _ 32#32 (by decide) _ _ (by first | rfl | rw [Shape.reshapeEquiv_self]) rfl x⟩,
    ⟨(cf0 (k0_off173 k 640#32 16#32)).trans (by show 1024 * k.val + 656 = 1024 * k.val + 16 * 41; omega), rfl, rfl, fun x =>
      piece_agree (bufS1).view (tabS).view (ixS1).view f TT X _ k.val 10 1 hk (by omega) (by omega) hf hX (k0_off173 k 640#32 16#32) (k0_off173 k 640#32 16#32) (k0_off150 k)
        (k0_off173_inb L k0_t4 k k0_h5 1) (k0_off173_inb L k0_t4 k k0_h5 1) (k0_off150_inb L k0_t4 k k0_h5)
        ((cf0 (k0_off173 k 640#32 16#32)).trans (by show 1024 * k.val + 656 = _; omega)) ((cf0 (k0_off173 k 640#32 16#32)).trans (by show 1024 * k.val + 656 = _; omega)) ((cf0 (k0_off150 k)).trans (by show 16 * k.val = _; omega))
        _ 16#32 (by decide) _ _ (by first | rfl | rw [Shape.reshapeEquiv_self]) rfl x⟩,
    ⟨(cf0 (k0_off173 k 640#32 0#32)).trans (by show 1024 * k.val + 640 = 1024 * k.val + 16 * 40; omega), rfl, rfl, fun x =>
      piece_agree (bufS1).view (tabS).view (ixS1).view f TT X _ k.val 10 0 hk (by omega) (by omega) hf hX (k0_off173 k 640#32 0#32) (k0_off171 k 640#32 0#32) (k0_off150 k)
        (k0_off173_inb L k0_t4 k k0_h5 0) (k0_off171_inb L k0_t4 k k0_h5 4) (k0_off150_inb L k0_t4 k k0_h5)
        ((cf0 (k0_off173 k 640#32 0#32)).trans (by show 1024 * k.val + 640 = _; omega)) ((cf0 (k0_off171 k 640#32 0#32)).trans (by show 1024 * k.val + 640 = _; omega)) ((cf0 (k0_off150 k)).trans (by show 16 * k.val = _; omega))
        _ 0#32 (by decide) _ _ (by first | rfl | rw [Shape.reshapeEquiv_self]) rfl x⟩,
    ⟨(cf0 (k0_off171 k 576#32 48#32)).trans (by show 1024 * k.val + 624 = 1024 * k.val + 16 * 39; omega), rfl, rfl, fun x =>
      piece_agree (bufS1).view (tabS).view (ixS1).view f TT X _ k.val 9 3 hk (by omega) (by omega) hf hX (k0_off171 k 576#32 48#32) (k0_off171 k 576#32 48#32) (k0_off150 k)
        (k0_off171_inb L k0_t4 k k0_h5 3) (k0_off171_inb L k0_t4 k k0_h5 3) (k0_off150_inb L k0_t4 k k0_h5)
        ((cf0 (k0_off171 k 576#32 48#32)).trans (by show 1024 * k.val + 624 = _; omega)) ((cf0 (k0_off171 k 576#32 48#32)).trans (by show 1024 * k.val + 624 = _; omega)) ((cf0 (k0_off150 k)).trans (by show 16 * k.val = _; omega))
        _ 48#32 (by decide) _ _ (by first | rfl | rw [Shape.reshapeEquiv_self]) rfl x⟩,
    ⟨(cf0 (k0_off171 k 576#32 32#32)).trans (by show 1024 * k.val + 608 = 1024 * k.val + 16 * 38; omega), rfl, rfl, fun x =>
      piece_agree (bufS1).view (tabS).view (ixS1).view f TT X _ k.val 9 2 hk (by omega) (by omega) hf hX (k0_off171 k 576#32 32#32) (k0_off171 k 576#32 32#32) (k0_off150 k)
        (k0_off171_inb L k0_t4 k k0_h5 2) (k0_off171_inb L k0_t4 k k0_h5 2) (k0_off150_inb L k0_t4 k k0_h5)
        ((cf0 (k0_off171 k 576#32 32#32)).trans (by show 1024 * k.val + 608 = _; omega)) ((cf0 (k0_off171 k 576#32 32#32)).trans (by show 1024 * k.val + 608 = _; omega)) ((cf0 (k0_off150 k)).trans (by show 16 * k.val = _; omega))
        _ 32#32 (by decide) _ _ (by first | rfl | rw [Shape.reshapeEquiv_self]) rfl x⟩,
    ⟨(cf0 (k0_off171 k 576#32 16#32)).trans (by show 1024 * k.val + 592 = 1024 * k.val + 16 * 37; omega), rfl, rfl, fun x =>
      piece_agree (bufS1).view (tabS).view (ixS1).view f TT X _ k.val 9 1 hk (by omega) (by omega) hf hX (k0_off171 k 576#32 16#32) (k0_off171 k 576#32 16#32) (k0_off150 k)
        (k0_off171_inb L k0_t4 k k0_h5 1) (k0_off171_inb L k0_t4 k k0_h5 1) (k0_off150_inb L k0_t4 k k0_h5)
        ((cf0 (k0_off171 k 576#32 16#32)).trans (by show 1024 * k.val + 592 = _; omega)) ((cf0 (k0_off171 k 576#32 16#32)).trans (by show 1024 * k.val + 592 = _; omega)) ((cf0 (k0_off150 k)).trans (by show 16 * k.val = _; omega))
        _ 16#32 (by decide) _ _ (by first | rfl | rw [Shape.reshapeEquiv_self]) rfl x⟩,
    ⟨(cf0 (k0_off171 k 576#32 0#32)).trans (by show 1024 * k.val + 576 = 1024 * k.val + 16 * 36; omega), rfl, rfl, fun x =>
      piece_agree (bufS1).view (tabS).view (ixS1).view f TT X _ k.val 9 0 hk (by omega) (by omega) hf hX (k0_off171 k 576#32 0#32) (k0_off169 k 576#32 0#32) (k0_off150 k)
        (k0_off171_inb L k0_t4 k k0_h5 0) (k0_off169_inb L k0_t4 k k0_h5 4) (k0_off150_inb L k0_t4 k k0_h5)
        ((cf0 (k0_off171 k 576#32 0#32)).trans (by show 1024 * k.val + 576 = _; omega)) ((cf0 (k0_off169 k 576#32 0#32)).trans (by show 1024 * k.val + 576 = _; omega)) ((cf0 (k0_off150 k)).trans (by show 16 * k.val = _; omega))
        _ 0#32 (by decide) _ _ (by first | rfl | rw [Shape.reshapeEquiv_self]) rfl x⟩,
    ⟨(cf0 (k0_off169 k 512#32 48#32)).trans (by show 1024 * k.val + 560 = 1024 * k.val + 16 * 35; omega), rfl, rfl, fun x =>
      piece_agree (bufS1).view (tabS).view (ixS1).view f TT X _ k.val 8 3 hk (by omega) (by omega) hf hX (k0_off169 k 512#32 48#32) (k0_off169 k 512#32 48#32) (k0_off150 k)
        (k0_off169_inb L k0_t4 k k0_h5 3) (k0_off169_inb L k0_t4 k k0_h5 3) (k0_off150_inb L k0_t4 k k0_h5)
        ((cf0 (k0_off169 k 512#32 48#32)).trans (by show 1024 * k.val + 560 = _; omega)) ((cf0 (k0_off169 k 512#32 48#32)).trans (by show 1024 * k.val + 560 = _; omega)) ((cf0 (k0_off150 k)).trans (by show 16 * k.val = _; omega))
        _ 48#32 (by decide) _ _ (by first | rfl | rw [Shape.reshapeEquiv_self]) rfl x⟩,
    ⟨(cf0 (k0_off169 k 512#32 32#32)).trans (by show 1024 * k.val + 544 = 1024 * k.val + 16 * 34; omega), rfl, rfl, fun x =>
      piece_agree (bufS1).view (tabS).view (ixS1).view f TT X _ k.val 8 2 hk (by omega) (by omega) hf hX (k0_off169 k 512#32 32#32) (k0_off169 k 512#32 32#32) (k0_off150 k)
        (k0_off169_inb L k0_t4 k k0_h5 2) (k0_off169_inb L k0_t4 k k0_h5 2) (k0_off150_inb L k0_t4 k k0_h5)
        ((cf0 (k0_off169 k 512#32 32#32)).trans (by show 1024 * k.val + 544 = _; omega)) ((cf0 (k0_off169 k 512#32 32#32)).trans (by show 1024 * k.val + 544 = _; omega)) ((cf0 (k0_off150 k)).trans (by show 16 * k.val = _; omega))
        _ 32#32 (by decide) _ _ (by first | rfl | rw [Shape.reshapeEquiv_self]) rfl x⟩,
    ⟨(cf0 (k0_off169 k 512#32 16#32)).trans (by show 1024 * k.val + 528 = 1024 * k.val + 16 * 33; omega), rfl, rfl, fun x =>
      piece_agree (bufS1).view (tabS).view (ixS1).view f TT X _ k.val 8 1 hk (by omega) (by omega) hf hX (k0_off169 k 512#32 16#32) (k0_off169 k 512#32 16#32) (k0_off150 k)
        (k0_off169_inb L k0_t4 k k0_h5 1) (k0_off169_inb L k0_t4 k k0_h5 1) (k0_off150_inb L k0_t4 k k0_h5)
        ((cf0 (k0_off169 k 512#32 16#32)).trans (by show 1024 * k.val + 528 = _; omega)) ((cf0 (k0_off169 k 512#32 16#32)).trans (by show 1024 * k.val + 528 = _; omega)) ((cf0 (k0_off150 k)).trans (by show 16 * k.val = _; omega))
        _ 16#32 (by decide) _ _ (by first | rfl | rw [Shape.reshapeEquiv_self]) rfl x⟩,
    ⟨(cf0 (k0_off169 k 512#32 0#32)).trans (by show 1024 * k.val + 512 = 1024 * k.val + 16 * 32; omega), rfl, rfl, fun x =>
      piece_agree (bufS1).view (tabS).view (ixS1).view f TT X _ k.val 8 0 hk (by omega) (by omega) hf hX (k0_off169 k 512#32 0#32) (k0_off167 k 512#32 0#32) (k0_off150 k)
        (k0_off169_inb L k0_t4 k k0_h5 0) (k0_off167_inb L k0_t4 k k0_h5 4) (k0_off150_inb L k0_t4 k k0_h5)
        ((cf0 (k0_off169 k 512#32 0#32)).trans (by show 1024 * k.val + 512 = _; omega)) ((cf0 (k0_off167 k 512#32 0#32)).trans (by show 1024 * k.val + 512 = _; omega)) ((cf0 (k0_off150 k)).trans (by show 16 * k.val = _; omega))
        _ 0#32 (by decide) _ _ (by first | rfl | rw [Shape.reshapeEquiv_self]) rfl x⟩,
    ⟨(cf0 (k0_off167 k 448#32 48#32)).trans (by show 1024 * k.val + 496 = 1024 * k.val + 16 * 31; omega), rfl, rfl, fun x =>
      piece_agree (bufS1).view (tabS).view (ixS1).view f TT X _ k.val 7 3 hk (by omega) (by omega) hf hX (k0_off167 k 448#32 48#32) (k0_off167 k 448#32 48#32) (k0_off150 k)
        (k0_off167_inb L k0_t4 k k0_h5 3) (k0_off167_inb L k0_t4 k k0_h5 3) (k0_off150_inb L k0_t4 k k0_h5)
        ((cf0 (k0_off167 k 448#32 48#32)).trans (by show 1024 * k.val + 496 = _; omega)) ((cf0 (k0_off167 k 448#32 48#32)).trans (by show 1024 * k.val + 496 = _; omega)) ((cf0 (k0_off150 k)).trans (by show 16 * k.val = _; omega))
        _ 48#32 (by decide) _ _ (by first | rfl | rw [Shape.reshapeEquiv_self]) rfl x⟩,
    ⟨(cf0 (k0_off167 k 448#32 32#32)).trans (by show 1024 * k.val + 480 = 1024 * k.val + 16 * 30; omega), rfl, rfl, fun x =>
      piece_agree (bufS1).view (tabS).view (ixS1).view f TT X _ k.val 7 2 hk (by omega) (by omega) hf hX (k0_off167 k 448#32 32#32) (k0_off167 k 448#32 32#32) (k0_off150 k)
        (k0_off167_inb L k0_t4 k k0_h5 2) (k0_off167_inb L k0_t4 k k0_h5 2) (k0_off150_inb L k0_t4 k k0_h5)
        ((cf0 (k0_off167 k 448#32 32#32)).trans (by show 1024 * k.val + 480 = _; omega)) ((cf0 (k0_off167 k 448#32 32#32)).trans (by show 1024 * k.val + 480 = _; omega)) ((cf0 (k0_off150 k)).trans (by show 16 * k.val = _; omega))
        _ 32#32 (by decide) _ _ (by first | rfl | rw [Shape.reshapeEquiv_self]) rfl x⟩,
    ⟨(cf0 (k0_off167 k 448#32 16#32)).trans (by show 1024 * k.val + 464 = 1024 * k.val + 16 * 29; omega), rfl, rfl, fun x =>
      piece_agree (bufS1).view (tabS).view (ixS1).view f TT X _ k.val 7 1 hk (by omega) (by omega) hf hX (k0_off167 k 448#32 16#32) (k0_off167 k 448#32 16#32) (k0_off150 k)
        (k0_off167_inb L k0_t4 k k0_h5 1) (k0_off167_inb L k0_t4 k k0_h5 1) (k0_off150_inb L k0_t4 k k0_h5)
        ((cf0 (k0_off167 k 448#32 16#32)).trans (by show 1024 * k.val + 464 = _; omega)) ((cf0 (k0_off167 k 448#32 16#32)).trans (by show 1024 * k.val + 464 = _; omega)) ((cf0 (k0_off150 k)).trans (by show 16 * k.val = _; omega))
        _ 16#32 (by decide) _ _ (by first | rfl | rw [Shape.reshapeEquiv_self]) rfl x⟩,
    ⟨(cf0 (k0_off167 k 448#32 0#32)).trans (by show 1024 * k.val + 448 = 1024 * k.val + 16 * 28; omega), rfl, rfl, fun x =>
      piece_agree (bufS1).view (tabS).view (ixS1).view f TT X _ k.val 7 0 hk (by omega) (by omega) hf hX (k0_off167 k 448#32 0#32) (k0_off165 k 448#32 0#32) (k0_off150 k)
        (k0_off167_inb L k0_t4 k k0_h5 0) (k0_off165_inb L k0_t4 k k0_h5 4) (k0_off150_inb L k0_t4 k k0_h5)
        ((cf0 (k0_off167 k 448#32 0#32)).trans (by show 1024 * k.val + 448 = _; omega)) ((cf0 (k0_off165 k 448#32 0#32)).trans (by show 1024 * k.val + 448 = _; omega)) ((cf0 (k0_off150 k)).trans (by show 16 * k.val = _; omega))
        _ 0#32 (by decide) _ _ (by first | rfl | rw [Shape.reshapeEquiv_self]) rfl x⟩,
    ⟨(cf0 (k0_off165 k 384#32 48#32)).trans (by show 1024 * k.val + 432 = 1024 * k.val + 16 * 27; omega), rfl, rfl, fun x =>
      piece_agree (bufS1).view (tabS).view (ixS1).view f TT X _ k.val 6 3 hk (by omega) (by omega) hf hX (k0_off165 k 384#32 48#32) (k0_off165 k 384#32 48#32) (k0_off150 k)
        (k0_off165_inb L k0_t4 k k0_h5 3) (k0_off165_inb L k0_t4 k k0_h5 3) (k0_off150_inb L k0_t4 k k0_h5)
        ((cf0 (k0_off165 k 384#32 48#32)).trans (by show 1024 * k.val + 432 = _; omega)) ((cf0 (k0_off165 k 384#32 48#32)).trans (by show 1024 * k.val + 432 = _; omega)) ((cf0 (k0_off150 k)).trans (by show 16 * k.val = _; omega))
        _ 48#32 (by decide) _ _ (by first | rfl | rw [Shape.reshapeEquiv_self]) rfl x⟩,
    ⟨(cf0 (k0_off165 k 384#32 32#32)).trans (by show 1024 * k.val + 416 = 1024 * k.val + 16 * 26; omega), rfl, rfl, fun x =>
      piece_agree (bufS1).view (tabS).view (ixS1).view f TT X _ k.val 6 2 hk (by omega) (by omega) hf hX (k0_off165 k 384#32 32#32) (k0_off165 k 384#32 32#32) (k0_off150 k)
        (k0_off165_inb L k0_t4 k k0_h5 2) (k0_off165_inb L k0_t4 k k0_h5 2) (k0_off150_inb L k0_t4 k k0_h5)
        ((cf0 (k0_off165 k 384#32 32#32)).trans (by show 1024 * k.val + 416 = _; omega)) ((cf0 (k0_off165 k 384#32 32#32)).trans (by show 1024 * k.val + 416 = _; omega)) ((cf0 (k0_off150 k)).trans (by show 16 * k.val = _; omega))
        _ 32#32 (by decide) _ _ (by first | rfl | rw [Shape.reshapeEquiv_self]) rfl x⟩,
    ⟨(cf0 (k0_off165 k 384#32 16#32)).trans (by show 1024 * k.val + 400 = 1024 * k.val + 16 * 25; omega), rfl, rfl, fun x =>
      piece_agree (bufS1).view (tabS).view (ixS1).view f TT X _ k.val 6 1 hk (by omega) (by omega) hf hX (k0_off165 k 384#32 16#32) (k0_off165 k 384#32 16#32) (k0_off150 k)
        (k0_off165_inb L k0_t4 k k0_h5 1) (k0_off165_inb L k0_t4 k k0_h5 1) (k0_off150_inb L k0_t4 k k0_h5)
        ((cf0 (k0_off165 k 384#32 16#32)).trans (by show 1024 * k.val + 400 = _; omega)) ((cf0 (k0_off165 k 384#32 16#32)).trans (by show 1024 * k.val + 400 = _; omega)) ((cf0 (k0_off150 k)).trans (by show 16 * k.val = _; omega))
        _ 16#32 (by decide) _ _ (by first | rfl | rw [Shape.reshapeEquiv_self]) rfl x⟩,
    ⟨(cf0 (k0_off165 k 384#32 0#32)).trans (by show 1024 * k.val + 384 = 1024 * k.val + 16 * 24; omega), rfl, rfl, fun x =>
      piece_agree (bufS1).view (tabS).view (ixS1).view f TT X _ k.val 6 0 hk (by omega) (by omega) hf hX (k0_off165 k 384#32 0#32) (k0_off163 k 384#32 0#32) (k0_off150 k)
        (k0_off165_inb L k0_t4 k k0_h5 0) (k0_off163_inb L k0_t4 k k0_h5 4) (k0_off150_inb L k0_t4 k k0_h5)
        ((cf0 (k0_off165 k 384#32 0#32)).trans (by show 1024 * k.val + 384 = _; omega)) ((cf0 (k0_off163 k 384#32 0#32)).trans (by show 1024 * k.val + 384 = _; omega)) ((cf0 (k0_off150 k)).trans (by show 16 * k.val = _; omega))
        _ 0#32 (by decide) _ _ (by first | rfl | rw [Shape.reshapeEquiv_self]) rfl x⟩,
    ⟨(cf0 (k0_off163 k 320#32 48#32)).trans (by show 1024 * k.val + 368 = 1024 * k.val + 16 * 23; omega), rfl, rfl, fun x =>
      piece_agree (bufS1).view (tabS).view (ixS1).view f TT X _ k.val 5 3 hk (by omega) (by omega) hf hX (k0_off163 k 320#32 48#32) (k0_off163 k 320#32 48#32) (k0_off150 k)
        (k0_off163_inb L k0_t4 k k0_h5 3) (k0_off163_inb L k0_t4 k k0_h5 3) (k0_off150_inb L k0_t4 k k0_h5)
        ((cf0 (k0_off163 k 320#32 48#32)).trans (by show 1024 * k.val + 368 = _; omega)) ((cf0 (k0_off163 k 320#32 48#32)).trans (by show 1024 * k.val + 368 = _; omega)) ((cf0 (k0_off150 k)).trans (by show 16 * k.val = _; omega))
        _ 48#32 (by decide) _ _ (by first | rfl | rw [Shape.reshapeEquiv_self]) rfl x⟩,
    ⟨(cf0 (k0_off163 k 320#32 32#32)).trans (by show 1024 * k.val + 352 = 1024 * k.val + 16 * 22; omega), rfl, rfl, fun x =>
      piece_agree (bufS1).view (tabS).view (ixS1).view f TT X _ k.val 5 2 hk (by omega) (by omega) hf hX (k0_off163 k 320#32 32#32) (k0_off163 k 320#32 32#32) (k0_off150 k)
        (k0_off163_inb L k0_t4 k k0_h5 2) (k0_off163_inb L k0_t4 k k0_h5 2) (k0_off150_inb L k0_t4 k k0_h5)
        ((cf0 (k0_off163 k 320#32 32#32)).trans (by show 1024 * k.val + 352 = _; omega)) ((cf0 (k0_off163 k 320#32 32#32)).trans (by show 1024 * k.val + 352 = _; omega)) ((cf0 (k0_off150 k)).trans (by show 16 * k.val = _; omega))
        _ 32#32 (by decide) _ _ (by first | rfl | rw [Shape.reshapeEquiv_self]) rfl x⟩,
    ⟨(cf0 (k0_off163 k 320#32 16#32)).trans (by show 1024 * k.val + 336 = 1024 * k.val + 16 * 21; omega), rfl, rfl, fun x =>
      piece_agree (bufS1).view (tabS).view (ixS1).view f TT X _ k.val 5 1 hk (by omega) (by omega) hf hX (k0_off163 k 320#32 16#32) (k0_off163 k 320#32 16#32) (k0_off150 k)
        (k0_off163_inb L k0_t4 k k0_h5 1) (k0_off163_inb L k0_t4 k k0_h5 1) (k0_off150_inb L k0_t4 k k0_h5)
        ((cf0 (k0_off163 k 320#32 16#32)).trans (by show 1024 * k.val + 336 = _; omega)) ((cf0 (k0_off163 k 320#32 16#32)).trans (by show 1024 * k.val + 336 = _; omega)) ((cf0 (k0_off150 k)).trans (by show 16 * k.val = _; omega))
        _ 16#32 (by decide) _ _ (by first | rfl | rw [Shape.reshapeEquiv_self]) rfl x⟩,
    ⟨(cf0 (k0_off163 k 320#32 0#32)).trans (by show 1024 * k.val + 320 = 1024 * k.val + 16 * 20; omega), rfl, rfl, fun x =>
      piece_agree (bufS1).view (tabS).view (ixS1).view f TT X _ k.val 5 0 hk (by omega) (by omega) hf hX (k0_off163 k 320#32 0#32) (k0_off161 k 320#32 0#32) (k0_off150 k)
        (k0_off163_inb L k0_t4 k k0_h5 0) (k0_off161_inb L k0_t4 k k0_h5 4) (k0_off150_inb L k0_t4 k k0_h5)
        ((cf0 (k0_off163 k 320#32 0#32)).trans (by show 1024 * k.val + 320 = _; omega)) ((cf0 (k0_off161 k 320#32 0#32)).trans (by show 1024 * k.val + 320 = _; omega)) ((cf0 (k0_off150 k)).trans (by show 16 * k.val = _; omega))
        _ 0#32 (by decide) _ _ (by first | rfl | rw [Shape.reshapeEquiv_self]) rfl x⟩,
    ⟨(cf0 (k0_off161 k 256#32 48#32)).trans (by show 1024 * k.val + 304 = 1024 * k.val + 16 * 19; omega), rfl, rfl, fun x =>
      piece_agree (bufS1).view (tabS).view (ixS1).view f TT X _ k.val 4 3 hk (by omega) (by omega) hf hX (k0_off161 k 256#32 48#32) (k0_off161 k 256#32 48#32) (k0_off150 k)
        (k0_off161_inb L k0_t4 k k0_h5 3) (k0_off161_inb L k0_t4 k k0_h5 3) (k0_off150_inb L k0_t4 k k0_h5)
        ((cf0 (k0_off161 k 256#32 48#32)).trans (by show 1024 * k.val + 304 = _; omega)) ((cf0 (k0_off161 k 256#32 48#32)).trans (by show 1024 * k.val + 304 = _; omega)) ((cf0 (k0_off150 k)).trans (by show 16 * k.val = _; omega))
        _ 48#32 (by decide) _ _ (by first | rfl | rw [Shape.reshapeEquiv_self]) rfl x⟩,
    ⟨(cf0 (k0_off161 k 256#32 32#32)).trans (by show 1024 * k.val + 288 = 1024 * k.val + 16 * 18; omega), rfl, rfl, fun x =>
      piece_agree (bufS1).view (tabS).view (ixS1).view f TT X _ k.val 4 2 hk (by omega) (by omega) hf hX (k0_off161 k 256#32 32#32) (k0_off161 k 256#32 32#32) (k0_off150 k)
        (k0_off161_inb L k0_t4 k k0_h5 2) (k0_off161_inb L k0_t4 k k0_h5 2) (k0_off150_inb L k0_t4 k k0_h5)
        ((cf0 (k0_off161 k 256#32 32#32)).trans (by show 1024 * k.val + 288 = _; omega)) ((cf0 (k0_off161 k 256#32 32#32)).trans (by show 1024 * k.val + 288 = _; omega)) ((cf0 (k0_off150 k)).trans (by show 16 * k.val = _; omega))
        _ 32#32 (by decide) _ _ (by first | rfl | rw [Shape.reshapeEquiv_self]) rfl x⟩,
    ⟨(cf0 (k0_off161 k 256#32 16#32)).trans (by show 1024 * k.val + 272 = 1024 * k.val + 16 * 17; omega), rfl, rfl, fun x =>
      piece_agree (bufS1).view (tabS).view (ixS1).view f TT X _ k.val 4 1 hk (by omega) (by omega) hf hX (k0_off161 k 256#32 16#32) (k0_off161 k 256#32 16#32) (k0_off150 k)
        (k0_off161_inb L k0_t4 k k0_h5 1) (k0_off161_inb L k0_t4 k k0_h5 1) (k0_off150_inb L k0_t4 k k0_h5)
        ((cf0 (k0_off161 k 256#32 16#32)).trans (by show 1024 * k.val + 272 = _; omega)) ((cf0 (k0_off161 k 256#32 16#32)).trans (by show 1024 * k.val + 272 = _; omega)) ((cf0 (k0_off150 k)).trans (by show 16 * k.val = _; omega))
        _ 16#32 (by decide) _ _ (by first | rfl | rw [Shape.reshapeEquiv_self]) rfl x⟩,
    ⟨(cf0 (k0_off161 k 256#32 0#32)).trans (by show 1024 * k.val + 256 = 1024 * k.val + 16 * 16; omega), rfl, rfl, fun x =>
      piece_agree (bufS1).view (tabS).view (ixS1).view f TT X _ k.val 4 0 hk (by omega) (by omega) hf hX (k0_off161 k 256#32 0#32) (k0_off159 k 256#32 0#32) (k0_off150 k)
        (k0_off161_inb L k0_t4 k k0_h5 0) (k0_off159_inb L k0_t4 k k0_h5 4) (k0_off150_inb L k0_t4 k k0_h5)
        ((cf0 (k0_off161 k 256#32 0#32)).trans (by show 1024 * k.val + 256 = _; omega)) ((cf0 (k0_off159 k 256#32 0#32)).trans (by show 1024 * k.val + 256 = _; omega)) ((cf0 (k0_off150 k)).trans (by show 16 * k.val = _; omega))
        _ 0#32 (by decide) _ _ (by first | rfl | rw [Shape.reshapeEquiv_self]) rfl x⟩,
    ⟨(cf0 (k0_off159 k 192#32 48#32)).trans (by show 1024 * k.val + 240 = 1024 * k.val + 16 * 15; omega), rfl, rfl, fun x =>
      piece_agree (bufS1).view (tabS).view (ixS1).view f TT X _ k.val 3 3 hk (by omega) (by omega) hf hX (k0_off159 k 192#32 48#32) (k0_off159 k 192#32 48#32) (k0_off150 k)
        (k0_off159_inb L k0_t4 k k0_h5 3) (k0_off159_inb L k0_t4 k k0_h5 3) (k0_off150_inb L k0_t4 k k0_h5)
        ((cf0 (k0_off159 k 192#32 48#32)).trans (by show 1024 * k.val + 240 = _; omega)) ((cf0 (k0_off159 k 192#32 48#32)).trans (by show 1024 * k.val + 240 = _; omega)) ((cf0 (k0_off150 k)).trans (by show 16 * k.val = _; omega))
        _ 48#32 (by decide) _ _ (by first | rfl | rw [Shape.reshapeEquiv_self]) rfl x⟩,
    ⟨(cf0 (k0_off159 k 192#32 32#32)).trans (by show 1024 * k.val + 224 = 1024 * k.val + 16 * 14; omega), rfl, rfl, fun x =>
      piece_agree (bufS1).view (tabS).view (ixS1).view f TT X _ k.val 3 2 hk (by omega) (by omega) hf hX (k0_off159 k 192#32 32#32) (k0_off159 k 192#32 32#32) (k0_off150 k)
        (k0_off159_inb L k0_t4 k k0_h5 2) (k0_off159_inb L k0_t4 k k0_h5 2) (k0_off150_inb L k0_t4 k k0_h5)
        ((cf0 (k0_off159 k 192#32 32#32)).trans (by show 1024 * k.val + 224 = _; omega)) ((cf0 (k0_off159 k 192#32 32#32)).trans (by show 1024 * k.val + 224 = _; omega)) ((cf0 (k0_off150 k)).trans (by show 16 * k.val = _; omega))
        _ 32#32 (by decide) _ _ (by first | rfl | rw [Shape.reshapeEquiv_self]) rfl x⟩,
    ⟨(cf0 (k0_off159 k 192#32 16#32)).trans (by show 1024 * k.val + 208 = 1024 * k.val + 16 * 13; omega), rfl, rfl, fun x =>
      piece_agree (bufS1).view (tabS).view (ixS1).view f TT X _ k.val 3 1 hk (by omega) (by omega) hf hX (k0_off159 k 192#32 16#32) (k0_off159 k 192#32 16#32) (k0_off150 k)
        (k0_off159_inb L k0_t4 k k0_h5 1) (k0_off159_inb L k0_t4 k k0_h5 1) (k0_off150_inb L k0_t4 k k0_h5)
        ((cf0 (k0_off159 k 192#32 16#32)).trans (by show 1024 * k.val + 208 = _; omega)) ((cf0 (k0_off159 k 192#32 16#32)).trans (by show 1024 * k.val + 208 = _; omega)) ((cf0 (k0_off150 k)).trans (by show 16 * k.val = _; omega))
        _ 16#32 (by decide) _ _ (by first | rfl | rw [Shape.reshapeEquiv_self]) rfl x⟩,
    ⟨(cf0 (k0_off159 k 192#32 0#32)).trans (by show 1024 * k.val + 192 = 1024 * k.val + 16 * 12; omega), rfl, rfl, fun x =>
      piece_agree (bufS1).view (tabS).view (ixS1).view f TT X _ k.val 3 0 hk (by omega) (by omega) hf hX (k0_off159 k 192#32 0#32) (k0_off157 k 192#32 0#32) (k0_off150 k)
        (k0_off159_inb L k0_t4 k k0_h5 0) (k0_off157_inb L k0_t4 k k0_h5 4) (k0_off150_inb L k0_t4 k k0_h5)
        ((cf0 (k0_off159 k 192#32 0#32)).trans (by show 1024 * k.val + 192 = _; omega)) ((cf0 (k0_off157 k 192#32 0#32)).trans (by show 1024 * k.val + 192 = _; omega)) ((cf0 (k0_off150 k)).trans (by show 16 * k.val = _; omega))
        _ 0#32 (by decide) _ _ (by first | rfl | rw [Shape.reshapeEquiv_self]) rfl x⟩,
    ⟨(cf0 (k0_off157 k 128#32 48#32)).trans (by show 1024 * k.val + 176 = 1024 * k.val + 16 * 11; omega), rfl, rfl, fun x =>
      piece_agree (bufS1).view (tabS).view (ixS1).view f TT X _ k.val 2 3 hk (by omega) (by omega) hf hX (k0_off157 k 128#32 48#32) (k0_off157 k 128#32 48#32) (k0_off150 k)
        (k0_off157_inb L k0_t4 k k0_h5 3) (k0_off157_inb L k0_t4 k k0_h5 3) (k0_off150_inb L k0_t4 k k0_h5)
        ((cf0 (k0_off157 k 128#32 48#32)).trans (by show 1024 * k.val + 176 = _; omega)) ((cf0 (k0_off157 k 128#32 48#32)).trans (by show 1024 * k.val + 176 = _; omega)) ((cf0 (k0_off150 k)).trans (by show 16 * k.val = _; omega))
        _ 48#32 (by decide) _ _ (by first | rfl | rw [Shape.reshapeEquiv_self]) rfl x⟩,
    ⟨(cf0 (k0_off157 k 128#32 32#32)).trans (by show 1024 * k.val + 160 = 1024 * k.val + 16 * 10; omega), rfl, rfl, fun x =>
      piece_agree (bufS1).view (tabS).view (ixS1).view f TT X _ k.val 2 2 hk (by omega) (by omega) hf hX (k0_off157 k 128#32 32#32) (k0_off157 k 128#32 32#32) (k0_off150 k)
        (k0_off157_inb L k0_t4 k k0_h5 2) (k0_off157_inb L k0_t4 k k0_h5 2) (k0_off150_inb L k0_t4 k k0_h5)
        ((cf0 (k0_off157 k 128#32 32#32)).trans (by show 1024 * k.val + 160 = _; omega)) ((cf0 (k0_off157 k 128#32 32#32)).trans (by show 1024 * k.val + 160 = _; omega)) ((cf0 (k0_off150 k)).trans (by show 16 * k.val = _; omega))
        _ 32#32 (by decide) _ _ (by first | rfl | rw [Shape.reshapeEquiv_self]) rfl x⟩,
    ⟨(cf0 (k0_off157 k 128#32 16#32)).trans (by show 1024 * k.val + 144 = 1024 * k.val + 16 * 9; omega), rfl, rfl, fun x =>
      piece_agree (bufS1).view (tabS).view (ixS1).view f TT X _ k.val 2 1 hk (by omega) (by omega) hf hX (k0_off157 k 128#32 16#32) (k0_off157 k 128#32 16#32) (k0_off150 k)
        (k0_off157_inb L k0_t4 k k0_h5 1) (k0_off157_inb L k0_t4 k k0_h5 1) (k0_off150_inb L k0_t4 k k0_h5)
        ((cf0 (k0_off157 k 128#32 16#32)).trans (by show 1024 * k.val + 144 = _; omega)) ((cf0 (k0_off157 k 128#32 16#32)).trans (by show 1024 * k.val + 144 = _; omega)) ((cf0 (k0_off150 k)).trans (by show 16 * k.val = _; omega))
        _ 16#32 (by decide) _ _ (by first | rfl | rw [Shape.reshapeEquiv_self]) rfl x⟩,
    ⟨(cf0 (k0_off157 k 128#32 0#32)).trans (by show 1024 * k.val + 128 = 1024 * k.val + 16 * 8; omega), rfl, rfl, fun x =>
      piece_agree (bufS1).view (tabS).view (ixS1).view f TT X _ k.val 2 0 hk (by omega) (by omega) hf hX (k0_off157 k 128#32 0#32) (k0_off155 k 128#32 0#32) (k0_off150 k)
        (k0_off157_inb L k0_t4 k k0_h5 0) (k0_off155_inb L k0_t4 k k0_h5 4) (k0_off150_inb L k0_t4 k k0_h5)
        ((cf0 (k0_off157 k 128#32 0#32)).trans (by show 1024 * k.val + 128 = _; omega)) ((cf0 (k0_off155 k 128#32 0#32)).trans (by show 1024 * k.val + 128 = _; omega)) ((cf0 (k0_off150 k)).trans (by show 16 * k.val = _; omega))
        _ 0#32 (by decide) _ _ (by first | rfl | rw [Shape.reshapeEquiv_self]) rfl x⟩,
    ⟨(cf0 (k0_off155 k 64#32 48#32)).trans (by show 1024 * k.val + 112 = 1024 * k.val + 16 * 7; omega), rfl, rfl, fun x =>
      piece_agree (bufS1).view (tabS).view (ixS1).view f TT X _ k.val 1 3 hk (by omega) (by omega) hf hX (k0_off155 k 64#32 48#32) (k0_off155 k 64#32 48#32) (k0_off150 k)
        (k0_off155_inb L k0_t4 k k0_h5 3) (k0_off155_inb L k0_t4 k k0_h5 3) (k0_off150_inb L k0_t4 k k0_h5)
        ((cf0 (k0_off155 k 64#32 48#32)).trans (by show 1024 * k.val + 112 = _; omega)) ((cf0 (k0_off155 k 64#32 48#32)).trans (by show 1024 * k.val + 112 = _; omega)) ((cf0 (k0_off150 k)).trans (by show 16 * k.val = _; omega))
        _ 48#32 (by decide) _ _ (by first | rfl | rw [Shape.reshapeEquiv_self]) rfl x⟩,
    ⟨(cf0 (k0_off155 k 64#32 32#32)).trans (by show 1024 * k.val + 96 = 1024 * k.val + 16 * 6; omega), rfl, rfl, fun x =>
      piece_agree (bufS1).view (tabS).view (ixS1).view f TT X _ k.val 1 2 hk (by omega) (by omega) hf hX (k0_off155 k 64#32 32#32) (k0_off155 k 64#32 32#32) (k0_off150 k)
        (k0_off155_inb L k0_t4 k k0_h5 2) (k0_off155_inb L k0_t4 k k0_h5 2) (k0_off150_inb L k0_t4 k k0_h5)
        ((cf0 (k0_off155 k 64#32 32#32)).trans (by show 1024 * k.val + 96 = _; omega)) ((cf0 (k0_off155 k 64#32 32#32)).trans (by show 1024 * k.val + 96 = _; omega)) ((cf0 (k0_off150 k)).trans (by show 16 * k.val = _; omega))
        _ 32#32 (by decide) _ _ (by first | rfl | rw [Shape.reshapeEquiv_self]) rfl x⟩,
    ⟨(cf0 (k0_off155 k 64#32 16#32)).trans (by show 1024 * k.val + 80 = 1024 * k.val + 16 * 5; omega), rfl, rfl, fun x =>
      piece_agree (bufS1).view (tabS).view (ixS1).view f TT X _ k.val 1 1 hk (by omega) (by omega) hf hX (k0_off155 k 64#32 16#32) (k0_off155 k 64#32 16#32) (k0_off150 k)
        (k0_off155_inb L k0_t4 k k0_h5 1) (k0_off155_inb L k0_t4 k k0_h5 1) (k0_off150_inb L k0_t4 k k0_h5)
        ((cf0 (k0_off155 k 64#32 16#32)).trans (by show 1024 * k.val + 80 = _; omega)) ((cf0 (k0_off155 k 64#32 16#32)).trans (by show 1024 * k.val + 80 = _; omega)) ((cf0 (k0_off150 k)).trans (by show 16 * k.val = _; omega))
        _ 16#32 (by decide) _ _ (by first | rfl | rw [Shape.reshapeEquiv_self]) rfl x⟩,
    ⟨(cf0 (k0_off155 k 64#32 0#32)).trans (by show 1024 * k.val + 64 = 1024 * k.val + 16 * 4; omega), rfl, rfl, fun x =>
      piece_agree (bufS1).view (tabS).view (ixS1).view f TT X _ k.val 1 0 hk (by omega) (by omega) hf hX (k0_off155 k 64#32 0#32) (k0_off153 k 64#32 0#32) (k0_off150 k)
        (k0_off155_inb L k0_t4 k k0_h5 0) (k0_off153_inb L k0_t4 k k0_h5 4) (k0_off150_inb L k0_t4 k k0_h5)
        ((cf0 (k0_off155 k 64#32 0#32)).trans (by show 1024 * k.val + 64 = _; omega)) ((cf0 (k0_off153 k 64#32 0#32)).trans (by show 1024 * k.val + 64 = _; omega)) ((cf0 (k0_off150 k)).trans (by show 16 * k.val = _; omega))
        _ 0#32 (by decide) _ _ (by first | rfl | rw [Shape.reshapeEquiv_self]) rfl x⟩,
    ⟨(cf0 (k0_off153 k 0#32 48#32)).trans (by show 1024 * k.val + 48 = 1024 * k.val + 16 * 3; omega), rfl, rfl, fun x =>
      piece_agree (bufS1).view (tabS).view (ixS1).view f TT X _ k.val 0 3 hk (by omega) (by omega) hf hX (k0_off153 k 0#32 48#32) (k0_off153 k 0#32 48#32) (k0_off150 k)
        (k0_off153_inb L k0_t4 k k0_h5 3) (k0_off153_inb L k0_t4 k k0_h5 3) (k0_off150_inb L k0_t4 k k0_h5)
        ((cf0 (k0_off153 k 0#32 48#32)).trans (by show 1024 * k.val + 48 = _; omega)) ((cf0 (k0_off153 k 0#32 48#32)).trans (by show 1024 * k.val + 48 = _; omega)) ((cf0 (k0_off150 k)).trans (by show 16 * k.val = _; omega))
        _ 48#32 (by decide) _ _ (by first | rfl | rw [Shape.reshapeEquiv_self]) rfl x⟩,
    ⟨(cf0 (k0_off153 k 0#32 32#32)).trans (by show 1024 * k.val + 32 = 1024 * k.val + 16 * 2; omega), rfl, rfl, fun x =>
      piece_agree (bufS1).view (tabS).view (ixS1).view f TT X _ k.val 0 2 hk (by omega) (by omega) hf hX (k0_off153 k 0#32 32#32) (k0_off153 k 0#32 32#32) (k0_off150 k)
        (k0_off153_inb L k0_t4 k k0_h5 2) (k0_off153_inb L k0_t4 k k0_h5 2) (k0_off150_inb L k0_t4 k k0_h5)
        ((cf0 (k0_off153 k 0#32 32#32)).trans (by show 1024 * k.val + 32 = _; omega)) ((cf0 (k0_off153 k 0#32 32#32)).trans (by show 1024 * k.val + 32 = _; omega)) ((cf0 (k0_off150 k)).trans (by show 16 * k.val = _; omega))
        _ 32#32 (by decide) _ _ (by first | rfl | rw [Shape.reshapeEquiv_self]) rfl x⟩,
    ⟨(cf0 (k0_off153 k 0#32 16#32)).trans (by show 1024 * k.val + 16 = 1024 * k.val + 16 * 1; omega), rfl, rfl, fun x =>
      piece_agree (bufS1).view (tabS).view (ixS1).view f TT X _ k.val 0 1 hk (by omega) (by omega) hf hX (k0_off153 k 0#32 16#32) (k0_off153 k 0#32 16#32) (k0_off150 k)
        (k0_off153_inb L k0_t4 k k0_h5 1) (k0_off153_inb L k0_t4 k k0_h5 1) (k0_off150_inb L k0_t4 k k0_h5)
        ((cf0 (k0_off153 k 0#32 16#32)).trans (by show 1024 * k.val + 16 = _; omega)) ((cf0 (k0_off153 k 0#32 16#32)).trans (by show 1024 * k.val + 16 = _; omega)) ((cf0 (k0_off150 k)).trans (by show 16 * k.val = _; omega))
        _ 16#32 (by decide) _ _ (by first | rfl | rw [Shape.reshapeEquiv_self]) rfl x⟩,
    ⟨(cf0 (k0_off153 k 0#32 0#32)).trans (by show 1024 * k.val + 0 = 1024 * k.val + 16 * 0; omega), rfl, rfl, fun x =>
      piece_agree (bufS1).view (tabS).view (ixS1).view f TT X _ k.val 0 0 hk (by omega) (by omega) hf hX (k0_off153 k 0#32 0#32) (k0_off151 k) (k0_off150 k)
        (k0_off153_inb L k0_t4 k k0_h5 0) (k0_off151_inb L k0_t4 k k0_h5) (k0_off150_inb L k0_t4 k k0_h5)
        ((cf0 (k0_off153 k 0#32 0#32)).trans (by show 1024 * k.val + 0 = _; omega)) ((cf0 (k0_off151 k)).trans (by show 1024 * k.val = _; omega)) ((cf0 (k0_off150 k)).trans (by show 16 * k.val = _; omega))
        _ 0#32 (by decide) _ _ (by first | rfl | rw [Shape.reshapeEquiv_self]) rfl x⟩,
    trivial⟩

/-- The whole loop, in continuation form: from the three buffers, the program goes on with every row done. -/
theorem loop6_spec (hX : ∀ j, BitVec.toNat ((ixS1).view.read (Elt F) X j) < 16) (v1 v21 v90 c3_i32_55 v91 v93 c0_i32_57 : BitVec 32) (k0_t4 : Fin (k0_t4_loop L).trips) (k0_h5 : k0_cond5 L k0_t4 = 1#1) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS1).view.loc (thrV d L) ↦{fullShare} X)
        ∗ ((bufS1).view.loc (thrV d L) ↦{fullShare} B)
        ∗ (∀ acc f, (⌜∀ y, (bufS1).view.read (Elt F) f y
              = stage ((bufS1).view.read (Elt F) B) ((tabS).view.read (Elt F) TT) ((ixS1).view.read (Elt F) X) 400 y⌝
              ∗ ((tabS).view.loc (thrV d L) ↦{fullShare} TT) ∗ ((ixS1).view.loc (thrV d L) ↦{fullShare} X)
              ∗ ((bufS1).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t6_loop (k0_t6_ok L k0_t4 k0_h5) init (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5) >>= kk) Q := by
  iintro ⟨Ht, Hx, Hb, Hk⟩
  iapply (Scf.wp_for_bind frame (wpE (defs₀ (F := F)) 𝒱₀ (thrV d L) none) Set.univ k0_t6_loop.lb k0_t6_loop.ub k0_t6_loop.st (k0_t6_ok L k0_t4 k0_h5) init
    (k0_t6_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h5) (inv6 d L TT X B) (step6 d L TT X B hX v1 v21 v90 c3_i32_55 v91 v93 c0_i32_57 k0_t4 k0_h5)) $$ [Ht Hx Hb]
  · unfold inv6
    isplitl [Ht]; · iexact Ht
    isplitl [Hx]; · iexact Hx
    iexists B; isplitl [Hb]; · iexact Hb
    ipureintro
    intro y
    unfold stage
    rw [if_neg (by omega)]
  iintro %acc HI
  unfold inv6
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KILoop7.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS2).view.loc (thrV d L)))
  (B : Buf (Elt F) ((bufS2).view.loc (thrV d L)))

/-- Before trip k: the table and the indices as they were, the row buffer at stage 16 k. -/
def inv7 (k : Nat) (_ : BitVec 32) : sProp 𝕄 :=
  iprop(((tabS).view.loc (thrV d L) ↦{fullShare} TT) ∗ ((ixS2).view.loc (thrV d L) ↦{fullShare} X)
    ∗ ∃ f, ((bufS2).view.loc (thrV d L) ↦{fullShare} f)
        ∗ ⌜∀ y, (bufS2).view.read (Elt F) f y
            = stage ((bufS2).view.read (Elt F) B) ((tabS).view.read (Elt F) TT) ((ixS2).view.read (Elt F) X) (16 * k) y⌝)

set_option maxHeartbeats 16000000 in
/-- One trip keeps the invariant. -/
theorem step7 (hX : ∀ j, BitVec.toNat ((ixS2).view.read (Elt F) X j) < 16) (v1 v21 v90 c3_i32_55 v91 v93 c0_i32_57 : BitVec 32) (k0_t4 : Fin (k0_t4_loop L).trips) (k0_h7 : k0_cond7 L k0_t4 = 1#1)
    (k : Fin (Scf.trips k0_t7_loop.lb k0_t7_loop.ub k0_t7_loop.st)) (acc : BitVec 32) :
    inv7 d L TT X B k acc
      ⊢ wp frame (wpE (defs₀ (F := F)) 𝒱₀ (thrV d L) none) Set.univ
          (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7 k acc) (inv7 d L TT X B (k.val + 1)) := by
  have hk : k.val < 25 := Nat.lt_of_lt_of_le k.isLt k0_t7_abs.2.1
  unfold inv7 k0_t7_body
  iintro ⟨Ht, Hx, %f, Hb, %hf⟩
  sl_exec_parts (disch := first | exact fun r a => off_gen _ (hX _) r a | exact fun _ r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS2).view f _ _ _ k.val _ rfl hf ?_
  exact ⟨
    ⟨(cf0 (k0_off220 k 48#32)).trans (by show 1024 * k.val + 16 * 3 + 960 = 1024 * k.val + 16 * 63; omega), rfl, rfl, fun x =>
      piece_agree (bufS2).view (tabS).view (ixS2).view f TT X _ k.val 15 3 hk (by omega) (by omega) hf hX (k0_off220 k 48#32) (k0_off220 k 48#32) (k0_off187 k)
        (k0_off220_inb L k0_t4 k k0_h7 3) (k0_off220_inb L k0_t4 k k0_h7 3) (k0_off187_inb L k0_t4 k k0_h7)
        ((cf0 (k0_off220 k 48#32)).trans (by show 1024 * k.val + 16 * 3 + 960 = _; omega)) ((cf0 (k0_off220 k 48#32)).trans (by show 1024 * k.val + 16 * 3 + 960 = _; omega)) ((cf0 (k0_off187 k)).trans (by show 16 * k.val = _; omega))
        _ 48#32 (by decide) _ _ (by first | rfl | rw [Shape.reshapeEquiv_self]) rfl x⟩,
    ⟨(cf0 (k0_off220 k 32#32)).trans (by show 1024 * k.val + 16 * 2 + 960 = 1024 * k.val + 16 * 62; omega), rfl, rfl, fun x =>
      piece_agree (bufS2).view (tabS).view (ixS2).view f TT X _ k.val 15 2 hk (by omega) (by omega) hf hX (k0_off220 k 32#32) (k0_off220 k 32#32) (k0_off187 k)
        (k0_off220_inb L k0_t4 k k0_h7 2) (k0_off220_inb L k0_t4 k k0_h7 2) (k0_off187_inb L k0_t4 k k0_h7)
        ((cf0 (k0_off220 k 32#32)).trans (by show 1024 * k.val + 16 * 2 + 960 = _; omega)) ((cf0 (k0_off220 k 32#32)).trans (by show 1024 * k.val + 16 * 2 + 960 = _; omega)) ((cf0 (k0_off187 k)).trans (by show 16 * k.val = _; omega))
        _ 32#32 (by decide) _ _ (by first | rfl | rw [Shape.reshapeEquiv_self]) rfl x⟩,
    ⟨(cf0 (k0_off220 k 16#32)).trans (by show 1024 * k.val + 16 * 1 + 960 = 1024 * k.val + 16 * 61; omega), rfl, rfl, fun x =>
      piece_agree (bufS2).view (tabS).view (ixS2).view f TT X _ k.val 15 1 hk (by omega) (by omega) hf hX (k0_off220 k 16#32) (k0_off220 k 16#32) (k0_off187 k)
        (k0_off220_inb L k0_t4 k k0_h7 1) (k0_off220_inb L k0_t4 k k0_h7 1) (k0_off187_inb L k0_t4 k k0_h7)
        ((cf0 (k0_off220 k 16#32)).trans (by show 1024 * k.val + 16 * 1 + 960 = _; omega)) ((cf0 (k0_off220 k 16#32)).trans (by show 1024 * k.val + 16 * 1 + 960 = _; omega)) ((cf0 (k0_off187 k)).trans (by show 16 * k.val = _; omega))
        _ 16#32 (by decide) _ _ (by first | rfl | rw [Shape.reshapeEquiv_self]) rfl x⟩,
    ⟨(cf0 (k0_off220 k 0#32)).trans (by show 1024 * k.val + 16 * 0 + 960 = 1024 * k.val + 16 * 60; omega), rfl, rfl, fun x =>
      piece_agree (bufS2).view (tabS).view (ixS2).view f TT X _ k.val 15 0 hk (by omega) (by omega) hf hX (k0_off220 k 0#32) (k0_off218 k 960#32 0#32) (k0_off187 k)
        (k0_off220_inb L k0_t4 k k0_h7 0) (k0_off218_inb L k0_t4 k k0_h7 4) (k0_off187_inb L k0_t4 k k0_h7)
        ((cf0 (k0_off220 k 0#32)).trans (by show 1024 * k.val + 16 * 0 + 960 = _; omega)) ((cf0 (k0_off218 k 960#32 0#32)).trans (by show 1024 * k.val + 960 = _; omega)) ((cf0 (k0_off187 k)).trans (by show 16 * k.val = _; omega))
        _ 0#32 (by decide) _ _ (by first | rfl | rw [Shape.reshapeEquiv_self]) rfl x⟩,
    ⟨(cf0 (k0_off218 k 896#32 48#32)).trans (by show 1024 * k.val + 944 = 1024 * k.val + 16 * 59; omega), rfl, rfl, fun x =>
      piece_agree (bufS2).view (tabS).view (ixS2).view f TT X _ k.val 14 3 hk (by omega) (by omega) hf hX (k0_off218 k 896#32 48#32) (k0_off218 k 896#32 48#32) (k0_off187 k)
        (k0_off218_inb L k0_t4 k k0_h7 3) (k0_off218_inb L k0_t4 k k0_h7 3) (k0_off187_inb L k0_t4 k k0_h7)
        ((cf0 (k0_off218 k 896#32 48#32)).trans (by show 1024 * k.val + 944 = _; omega)) ((cf0 (k0_off218 k 896#32 48#32)).trans (by show 1024 * k.val + 944 = _; omega)) ((cf0 (k0_off187 k)).trans (by show 16 * k.val = _; omega))
        _ 48#32 (by decide) _ _ (by first | rfl | rw [Shape.reshapeEquiv_self]) rfl x⟩,
    ⟨(cf0 (k0_off218 k 896#32 32#32)).trans (by show 1024 * k.val + 928 = 1024 * k.val + 16 * 58; omega), rfl, rfl, fun x =>
      piece_agree (bufS2).view (tabS).view (ixS2).view f TT X _ k.val 14 2 hk (by omega) (by omega) hf hX (k0_off218 k 896#32 32#32) (k0_off218 k 896#32 32#32) (k0_off187 k)
        (k0_off218_inb L k0_t4 k k0_h7 2) (k0_off218_inb L k0_t4 k k0_h7 2) (k0_off187_inb L k0_t4 k k0_h7)
        ((cf0 (k0_off218 k 896#32 32#32)).trans (by show 1024 * k.val + 928 = _; omega)) ((cf0 (k0_off218 k 896#32 32#32)).trans (by show 1024 * k.val + 928 = _; omega)) ((cf0 (k0_off187 k)).trans (by show 16 * k.val = _; omega))
        _ 32#32 (by decide) _ _ (by first | rfl | rw [Shape.reshapeEquiv_self]) rfl x⟩,
    ⟨(cf0 (k0_off218 k 896#32 16#32)).trans (by show 1024 * k.val + 912 = 1024 * k.val + 16 * 57; omega), rfl, rfl, fun x =>
      piece_agree (bufS2).view (tabS).view (ixS2).view f TT X _ k.val 14 1 hk (by omega) (by omega) hf hX (k0_off218 k 896#32 16#32) (k0_off218 k 896#32 16#32) (k0_off187 k)
        (k0_off218_inb L k0_t4 k k0_h7 1) (k0_off218_inb L k0_t4 k k0_h7 1) (k0_off187_inb L k0_t4 k k0_h7)
        ((cf0 (k0_off218 k 896#32 16#32)).trans (by show 1024 * k.val + 912 = _; omega)) ((cf0 (k0_off218 k 896#32 16#32)).trans (by show 1024 * k.val + 912 = _; omega)) ((cf0 (k0_off187 k)).trans (by show 16 * k.val = _; omega))
        _ 16#32 (by decide) _ _ (by first | rfl | rw [Shape.reshapeEquiv_self]) rfl x⟩,
    ⟨(cf0 (k0_off218 k 896#32 0#32)).trans (by show 1024 * k.val + 896 = 1024 * k.val + 16 * 56; omega), rfl, rfl, fun x =>
      piece_agree (bufS2).view (tabS).view (ixS2).view f TT X _ k.val 14 0 hk (by omega) (by omega) hf hX (k0_off218 k 896#32 0#32) (k0_off216 k 896#32 0#32) (k0_off187 k)
        (k0_off218_inb L k0_t4 k k0_h7 0) (k0_off216_inb L k0_t4 k k0_h7 4) (k0_off187_inb L k0_t4 k k0_h7)
        ((cf0 (k0_off218 k 896#32 0#32)).trans (by show 1024 * k.val + 896 = _; omega)) ((cf0 (k0_off216 k 896#32 0#32)).trans (by show 1024 * k.val + 896 = _; omega)) ((cf0 (k0_off187 k)).trans (by show 16 * k.val = _; omega))
        _ 0#32 (by decide) _ _ (by first | rfl | rw [Shape.reshapeEquiv_self]) rfl x⟩,
    ⟨(cf0 (k0_off216 k 832#32 48#32)).trans (by show 1024 * k.val + 880 = 1024 * k.val + 16 * 55; omega), rfl, rfl, fun x =>
      piece_agree (bufS2).view (tabS).view (ixS2).view f TT X _ k.val 13 3 hk (by omega) (by omega) hf hX (k0_off216 k 832#32 48#32) (k0_off216 k 832#32 48#32) (k0_off187 k)
        (k0_off216_inb L k0_t4 k k0_h7 3) (k0_off216_inb L k0_t4 k k0_h7 3) (k0_off187_inb L k0_t4 k k0_h7)
        ((cf0 (k0_off216 k 832#32 48#32)).trans (by show 1024 * k.val + 880 = _; omega)) ((cf0 (k0_off216 k 832#32 48#32)).trans (by show 1024 * k.val + 880 = _; omega)) ((cf0 (k0_off187 k)).trans (by show 16 * k.val = _; omega))
        _ 48#32 (by decide) _ _ (by first | rfl | rw [Shape.reshapeEquiv_self]) rfl x⟩,
    ⟨(cf0 (k0_off216 k 832#32 32#32)).trans (by show 1024 * k.val + 864 = 1024 * k.val + 16 * 54; omega), rfl, rfl, fun x =>
      piece_agree (bufS2).view (tabS).view (ixS2).view f TT X _ k.val 13 2 hk (by omega) (by omega) hf hX (k0_off216 k 832#32 32#32) (k0_off216 k 832#32 32#32) (k0_off187 k)
        (k0_off216_inb L k0_t4 k k0_h7 2) (k0_off216_inb L k0_t4 k k0_h7 2) (k0_off187_inb L k0_t4 k k0_h7)
        ((cf0 (k0_off216 k 832#32 32#32)).trans (by show 1024 * k.val + 864 = _; omega)) ((cf0 (k0_off216 k 832#32 32#32)).trans (by show 1024 * k.val + 864 = _; omega)) ((cf0 (k0_off187 k)).trans (by show 16 * k.val = _; omega))
        _ 32#32 (by decide) _ _ (by first | rfl | rw [Shape.reshapeEquiv_self]) rfl x⟩,
    ⟨(cf0 (k0_off216 k 832#32 16#32)).trans (by show 1024 * k.val + 848 = 1024 * k.val + 16 * 53; omega), rfl, rfl, fun x =>
      piece_agree (bufS2).view (tabS).view (ixS2).view f TT X _ k.val 13 1 hk (by omega) (by omega) hf hX (k0_off216 k 832#32 16#32) (k0_off216 k 832#32 16#32) (k0_off187 k)
        (k0_off216_inb L k0_t4 k k0_h7 1) (k0_off216_inb L k0_t4 k k0_h7 1) (k0_off187_inb L k0_t4 k k0_h7)
        ((cf0 (k0_off216 k 832#32 16#32)).trans (by show 1024 * k.val + 848 = _; omega)) ((cf0 (k0_off216 k 832#32 16#32)).trans (by show 1024 * k.val + 848 = _; omega)) ((cf0 (k0_off187 k)).trans (by show 16 * k.val = _; omega))
        _ 16#32 (by decide) _ _ (by first | rfl | rw [Shape.reshapeEquiv_self]) rfl x⟩,
    ⟨(cf0 (k0_off216 k 832#32 0#32)).trans (by show 1024 * k.val + 832 = 1024 * k.val + 16 * 52; omega), rfl, rfl, fun x =>
      piece_agree (bufS2).view (tabS).view (ixS2).view f TT X _ k.val 13 0 hk (by omega) (by omega) hf hX (k0_off216 k 832#32 0#32) (k0_off214 k 832#32 0#32) (k0_off187 k)
        (k0_off216_inb L k0_t4 k k0_h7 0) (k0_off214_inb L k0_t4 k k0_h7 4) (k0_off187_inb L k0_t4 k k0_h7)
        ((cf0 (k0_off216 k 832#32 0#32)).trans (by show 1024 * k.val + 832 = _; omega)) ((cf0 (k0_off214 k 832#32 0#32)).trans (by show 1024 * k.val + 832 = _; omega)) ((cf0 (k0_off187 k)).trans (by show 16 * k.val = _; omega))
        _ 0#32 (by decide) _ _ (by first | rfl | rw [Shape.reshapeEquiv_self]) rfl x⟩,
    ⟨(cf0 (k0_off214 k 768#32 48#32)).trans (by show 1024 * k.val + 816 = 1024 * k.val + 16 * 51; omega), rfl, rfl, fun x =>
      piece_agree (bufS2).view (tabS).view (ixS2).view f TT X _ k.val 12 3 hk (by omega) (by omega) hf hX (k0_off214 k 768#32 48#32) (k0_off214 k 768#32 48#32) (k0_off187 k)
        (k0_off214_inb L k0_t4 k k0_h7 3) (k0_off214_inb L k0_t4 k k0_h7 3) (k0_off187_inb L k0_t4 k k0_h7)
        ((cf0 (k0_off214 k 768#32 48#32)).trans (by show 1024 * k.val + 816 = _; omega)) ((cf0 (k0_off214 k 768#32 48#32)).trans (by show 1024 * k.val + 816 = _; omega)) ((cf0 (k0_off187 k)).trans (by show 16 * k.val = _; omega))
        _ 48#32 (by decide) _ _ (by first | rfl | rw [Shape.reshapeEquiv_self]) rfl x⟩,
    ⟨(cf0 (k0_off214 k 768#32 32#32)).trans (by show 1024 * k.val + 800 = 1024 * k.val + 16 * 50; omega), rfl, rfl, fun x =>
      piece_agree (bufS2).view (tabS).view (ixS2).view f TT X _ k.val 12 2 hk (by omega) (by omega) hf hX (k0_off214 k 768#32 32#32) (k0_off214 k 768#32 32#32) (k0_off187 k)
        (k0_off214_inb L k0_t4 k k0_h7 2) (k0_off214_inb L k0_t4 k k0_h7 2) (k0_off187_inb L k0_t4 k k0_h7)
        ((cf0 (k0_off214 k 768#32 32#32)).trans (by show 1024 * k.val + 800 = _; omega)) ((cf0 (k0_off214 k 768#32 32#32)).trans (by show 1024 * k.val + 800 = _; omega)) ((cf0 (k0_off187 k)).trans (by show 16 * k.val = _; omega))
        _ 32#32 (by decide) _ _ (by first | rfl | rw [Shape.reshapeEquiv_self]) rfl x⟩,
    ⟨(cf0 (k0_off214 k 768#32 16#32)).trans (by show 1024 * k.val + 784 = 1024 * k.val + 16 * 49; omega), rfl, rfl, fun x =>
      piece_agree (bufS2).view (tabS).view (ixS2).view f TT X _ k.val 12 1 hk (by omega) (by omega) hf hX (k0_off214 k 768#32 16#32) (k0_off214 k 768#32 16#32) (k0_off187 k)
        (k0_off214_inb L k0_t4 k k0_h7 1) (k0_off214_inb L k0_t4 k k0_h7 1) (k0_off187_inb L k0_t4 k k0_h7)
        ((cf0 (k0_off214 k 768#32 16#32)).trans (by show 1024 * k.val + 784 = _; omega)) ((cf0 (k0_off214 k 768#32 16#32)).trans (by show 1024 * k.val + 784 = _; omega)) ((cf0 (k0_off187 k)).trans (by show 16 * k.val = _; omega))
        _ 16#32 (by decide) _ _ (by first | rfl | rw [Shape.reshapeEquiv_self]) rfl x⟩,
    ⟨(cf0 (k0_off214 k 768#32 0#32)).trans (by show 1024 * k.val + 768 = 1024 * k.val + 16 * 48; omega), rfl, rfl, fun x =>
      piece_agree (bufS2).view (tabS).view (ixS2).view f TT X _ k.val 12 0 hk (by omega) (by omega) hf hX (k0_off214 k 768#32 0#32) (k0_off212 k 768#32 0#32) (k0_off187 k)
        (k0_off214_inb L k0_t4 k k0_h7 0) (k0_off212_inb L k0_t4 k k0_h7 4) (k0_off187_inb L k0_t4 k k0_h7)
        ((cf0 (k0_off214 k 768#32 0#32)).trans (by show 1024 * k.val + 768 = _; omega)) ((cf0 (k0_off212 k 768#32 0#32)).trans (by show 1024 * k.val + 768 = _; omega)) ((cf0 (k0_off187 k)).trans (by show 16 * k.val = _; omega))
        _ 0#32 (by decide) _ _ (by first | rfl | rw [Shape.reshapeEquiv_self]) rfl x⟩,
    ⟨(cf0 (k0_off212 k 704#32 48#32)).trans (by show 1024 * k.val + 752 = 1024 * k.val + 16 * 47; omega), rfl, rfl, fun x =>
      piece_agree (bufS2).view (tabS).view (ixS2).view f TT X _ k.val 11 3 hk (by omega) (by omega) hf hX (k0_off212 k 704#32 48#32) (k0_off212 k 704#32 48#32) (k0_off187 k)
        (k0_off212_inb L k0_t4 k k0_h7 3) (k0_off212_inb L k0_t4 k k0_h7 3) (k0_off187_inb L k0_t4 k k0_h7)
        ((cf0 (k0_off212 k 704#32 48#32)).trans (by show 1024 * k.val + 752 = _; omega)) ((cf0 (k0_off212 k 704#32 48#32)).trans (by show 1024 * k.val + 752 = _; omega)) ((cf0 (k0_off187 k)).trans (by show 16 * k.val = _; omega))
        _ 48#32 (by decide) _ _ (by first | rfl | rw [Shape.reshapeEquiv_self]) rfl x⟩,
    ⟨(cf0 (k0_off212 k 704#32 32#32)).trans (by show 1024 * k.val + 736 = 1024 * k.val + 16 * 46; omega), rfl, rfl, fun x =>
      piece_agree (bufS2).view (tabS).view (ixS2).view f TT X _ k.val 11 2 hk (by omega) (by omega) hf hX (k0_off212 k 704#32 32#32) (k0_off212 k 704#32 32#32) (k0_off187 k)
        (k0_off212_inb L k0_t4 k k0_h7 2) (k0_off212_inb L k0_t4 k k0_h7 2) (k0_off187_inb L k0_t4 k k0_h7)
        ((cf0 (k0_off212 k 704#32 32#32)).trans (by show 1024 * k.val + 736 = _; omega)) ((cf0 (k0_off212 k 704#32 32#32)).trans (by show 1024 * k.val + 736 = _; omega)) ((cf0 (k0_off187 k)).trans (by show 16 * k.val = _; omega))
        _ 32#32 (by decide) _ _ (by first | rfl | rw [Shape.reshapeEquiv_self]) rfl x⟩,
    ⟨(cf0 (k0_off212 k 704#32 16#32)).trans (by show 1024 * k.val + 720 = 1024 * k.val + 16 * 45; omega), rfl, rfl, fun x =>
      piece_agree (bufS2).view (tabS).view (ixS2).view f TT X _ k.val 11 1 hk (by omega) (by omega) hf hX (k0_off212 k 704#32 16#32) (k0_off212 k 704#32 16#32) (k0_off187 k)
        (k0_off212_inb L k0_t4 k k0_h7 1) (k0_off212_inb L k0_t4 k k0_h7 1) (k0_off187_inb L k0_t4 k k0_h7)
        ((cf0 (k0_off212 k 704#32 16#32)).trans (by show 1024 * k.val + 720 = _; omega)) ((cf0 (k0_off212 k 704#32 16#32)).trans (by show 1024 * k.val + 720 = _; omega)) ((cf0 (k0_off187 k)).trans (by show 16 * k.val = _; omega))
        _ 16#32 (by decide) _ _ (by first | rfl | rw [Shape.reshapeEquiv_self]) rfl x⟩,
    ⟨(cf0 (k0_off212 k 704#32 0#32)).trans (by show 1024 * k.val + 704 = 1024 * k.val + 16 * 44; omega), rfl, rfl, fun x =>
      piece_agree (bufS2).view (tabS).view (ixS2).view f TT X _ k.val 11 0 hk (by omega) (by omega) hf hX (k0_off212 k 704#32 0#32) (k0_off210 k 704#32 0#32) (k0_off187 k)
        (k0_off212_inb L k0_t4 k k0_h7 0) (k0_off210_inb L k0_t4 k k0_h7 4) (k0_off187_inb L k0_t4 k k0_h7)
        ((cf0 (k0_off212 k 704#32 0#32)).trans (by show 1024 * k.val + 704 = _; omega)) ((cf0 (k0_off210 k 704#32 0#32)).trans (by show 1024 * k.val + 704 = _; omega)) ((cf0 (k0_off187 k)).trans (by show 16 * k.val = _; omega))
        _ 0#32 (by decide) _ _ (by first | rfl | rw [Shape.reshapeEquiv_self]) rfl x⟩,
    ⟨(cf0 (k0_off210 k 640#32 48#32)).trans (by show 1024 * k.val + 688 = 1024 * k.val + 16 * 43; omega), rfl, rfl, fun x =>
      piece_agree (bufS2).view (tabS).view (ixS2).view f TT X _ k.val 10 3 hk (by omega) (by omega) hf hX (k0_off210 k 640#32 48#32) (k0_off210 k 640#32 48#32) (k0_off187 k)
        (k0_off210_inb L k0_t4 k k0_h7 3) (k0_off210_inb L k0_t4 k k0_h7 3) (k0_off187_inb L k0_t4 k k0_h7)
        ((cf0 (k0_off210 k 640#32 48#32)).trans (by show 1024 * k.val + 688 = _; omega)) ((cf0 (k0_off210 k 640#32 48#32)).trans (by show 1024 * k.val + 688 = _; omega)) ((cf0 (k0_off187 k)).trans (by show 16 * k.val = _; omega))
        _ 48#32 (by decide) _ _ (by first | rfl | rw [Shape.reshapeEquiv_self]) rfl x⟩,
    ⟨(cf0 (k0_off210 k 640#32 32#32)).trans (by show 1024 * k.val + 672 = 1024 * k.val + 16 * 42; omega), rfl, rfl, fun x =>
      piece_agree (bufS2).view (tabS).view (ixS2).view f TT X _ k.val 10 2 hk (by omega) (by omega) hf hX (k0_off210 k 640#32 32#32) (k0_off210 k 640#32 32#32) (k0_off187 k)
        (k0_off210_inb L k0_t4 k k0_h7 2) (k0_off210_inb L k0_t4 k k0_h7 2) (k0_off187_inb L k0_t4 k k0_h7)
        ((cf0 (k0_off210 k 640#32 32#32)).trans (by show 1024 * k.val + 672 = _; omega)) ((cf0 (k0_off210 k 640#32 32#32)).trans (by show 1024 * k.val + 672 = _; omega)) ((cf0 (k0_off187 k)).trans (by show 16 * k.val = _; omega))
        _ 32#32 (by decide) _ _ (by first | rfl | rw [Shape.reshapeEquiv_self]) rfl x⟩,
    ⟨(cf0 (k0_off210 k 640#32 16#32)).trans (by show 1024 * k.val + 656 = 1024 * k.val + 16 * 41; omega), rfl, rfl, fun x =>
      piece_agree (bufS2).view (tabS).view (ixS2).view f TT X _ k.val 10 1 hk (by omega) (by omega) hf hX (k0_off210 k 640#32 16#32) (k0_off210 k 640#32 16#32) (k0_off187 k)
        (k0_off210_inb L k0_t4 k k0_h7 1) (k0_off210_inb L k0_t4 k k0_h7 1) (k0_off187_inb L k0_t4 k k0_h7)
        ((cf0 (k0_off210 k 640#32 16#32)).trans (by show 1024 * k.val + 656 = _; omega)) ((cf0 (k0_off210 k 640#32 16#32)).trans (by show 1024 * k.val + 656 = _; omega)) ((cf0 (k0_off187 k)).trans (by show 16 * k.val = _; omega))
        _ 16#32 (by decide) _ _ (by first | rfl | rw [Shape.reshapeEquiv_self]) rfl x⟩,
    ⟨(cf0 (k0_off210 k 640#32 0#32)).trans (by show 1024 * k.val + 640 = 1024 * k.val + 16 * 40; omega), rfl, rfl, fun x =>
      piece_agree (bufS2).view (tabS).view (ixS2).view f TT X _ k.val 10 0 hk (by omega) (by omega) hf hX (k0_off210 k 640#32 0#32) (k0_off208 k 640#32 0#32) (k0_off187 k)
        (k0_off210_inb L k0_t4 k k0_h7 0) (k0_off208_inb L k0_t4 k k0_h7 4) (k0_off187_inb L k0_t4 k k0_h7)
        ((cf0 (k0_off210 k 640#32 0#32)).trans (by show 1024 * k.val + 640 = _; omega)) ((cf0 (k0_off208 k 640#32 0#32)).trans (by show 1024 * k.val + 640 = _; omega)) ((cf0 (k0_off187 k)).trans (by show 16 * k.val = _; omega))
        _ 0#32 (by decide) _ _ (by first | rfl | rw [Shape.reshapeEquiv_self]) rfl x⟩,
    ⟨(cf0 (k0_off208 k 576#32 48#32)).trans (by show 1024 * k.val + 624 = 1024 * k.val + 16 * 39; omega), rfl, rfl, fun x =>
      piece_agree (bufS2).view (tabS).view (ixS2).view f TT X _ k.val 9 3 hk (by omega) (by omega) hf hX (k0_off208 k 576#32 48#32) (k0_off208 k 576#32 48#32) (k0_off187 k)
        (k0_off208_inb L k0_t4 k k0_h7 3) (k0_off208_inb L k0_t4 k k0_h7 3) (k0_off187_inb L k0_t4 k k0_h7)
        ((cf0 (k0_off208 k 576#32 48#32)).trans (by show 1024 * k.val + 624 = _; omega)) ((cf0 (k0_off208 k 576#32 48#32)).trans (by show 1024 * k.val + 624 = _; omega)) ((cf0 (k0_off187 k)).trans (by show 16 * k.val = _; omega))
        _ 48#32 (by decide) _ _ (by first | rfl | rw [Shape.reshapeEquiv_self]) rfl x⟩,
    ⟨(cf0 (k0_off208 k 576#32 32#32)).trans (by show 1024 * k.val + 608 = 1024 * k.val + 16 * 38; omega), rfl, rfl, fun x =>
      piece_agree (bufS2).view (tabS).view (ixS2).view f TT X _ k.val 9 2 hk (by omega) (by omega) hf hX (k0_off208 k 576#32 32#32) (k0_off208 k 576#32 32#32) (k0_off187 k)
        (k0_off208_inb L k0_t4 k k0_h7 2) (k0_off208_inb L k0_t4 k k0_h7 2) (k0_off187_inb L k0_t4 k k0_h7)
        ((cf0 (k0_off208 k 576#32 32#32)).trans (by show 1024 * k.val + 608 = _; omega)) ((cf0 (k0_off208 k 576#32 32#32)).trans (by show 1024 * k.val + 608 = _; omega)) ((cf0 (k0_off187 k)).trans (by show 16 * k.val = _; omega))
        _ 32#32 (by decide) _ _ (by first | rfl | rw [Shape.reshapeEquiv_self]) rfl x⟩,
    ⟨(cf0 (k0_off208 k 576#32 16#32)).trans (by show 1024 * k.val + 592 = 1024 * k.val + 16 * 37; omega), rfl, rfl, fun x =>
      piece_agree (bufS2).view (tabS).view (ixS2).view f TT X _ k.val 9 1 hk (by omega) (by omega) hf hX (k0_off208 k 576#32 16#32) (k0_off208 k 576#32 16#32) (k0_off187 k)
        (k0_off208_inb L k0_t4 k k0_h7 1) (k0_off208_inb L k0_t4 k k0_h7 1) (k0_off187_inb L k0_t4 k k0_h7)
        ((cf0 (k0_off208 k 576#32 16#32)).trans (by show 1024 * k.val + 592 = _; omega)) ((cf0 (k0_off208 k 576#32 16#32)).trans (by show 1024 * k.val + 592 = _; omega)) ((cf0 (k0_off187 k)).trans (by show 16 * k.val = _; omega))
        _ 16#32 (by decide) _ _ (by first | rfl | rw [Shape.reshapeEquiv_self]) rfl x⟩,
    ⟨(cf0 (k0_off208 k 576#32 0#32)).trans (by show 1024 * k.val + 576 = 1024 * k.val + 16 * 36; omega), rfl, rfl, fun x =>
      piece_agree (bufS2).view (tabS).view (ixS2).view f TT X _ k.val 9 0 hk (by omega) (by omega) hf hX (k0_off208 k 576#32 0#32) (k0_off206 k 576#32 0#32) (k0_off187 k)
        (k0_off208_inb L k0_t4 k k0_h7 0) (k0_off206_inb L k0_t4 k k0_h7 4) (k0_off187_inb L k0_t4 k k0_h7)
        ((cf0 (k0_off208 k 576#32 0#32)).trans (by show 1024 * k.val + 576 = _; omega)) ((cf0 (k0_off206 k 576#32 0#32)).trans (by show 1024 * k.val + 576 = _; omega)) ((cf0 (k0_off187 k)).trans (by show 16 * k.val = _; omega))
        _ 0#32 (by decide) _ _ (by first | rfl | rw [Shape.reshapeEquiv_self]) rfl x⟩,
    ⟨(cf0 (k0_off206 k 512#32 48#32)).trans (by show 1024 * k.val + 560 = 1024 * k.val + 16 * 35; omega), rfl, rfl, fun x =>
      piece_agree (bufS2).view (tabS).view (ixS2).view f TT X _ k.val 8 3 hk (by omega) (by omega) hf hX (k0_off206 k 512#32 48#32) (k0_off206 k 512#32 48#32) (k0_off187 k)
        (k0_off206_inb L k0_t4 k k0_h7 3) (k0_off206_inb L k0_t4 k k0_h7 3) (k0_off187_inb L k0_t4 k k0_h7)
        ((cf0 (k0_off206 k 512#32 48#32)).trans (by show 1024 * k.val + 560 = _; omega)) ((cf0 (k0_off206 k 512#32 48#32)).trans (by show 1024 * k.val + 560 = _; omega)) ((cf0 (k0_off187 k)).trans (by show 16 * k.val = _; omega))
        _ 48#32 (by decide) _ _ (by first | rfl | rw [Shape.reshapeEquiv_self]) rfl x⟩,
    ⟨(cf0 (k0_off206 k 512#32 32#32)).trans (by show 1024 * k.val + 544 = 1024 * k.val + 16 * 34; omega), rfl, rfl, fun x =>
      piece_agree (bufS2).view (tabS).view (ixS2).view f TT X _ k.val 8 2 hk (by omega) (by omega) hf hX (k0_off206 k 512#32 32#32) (k0_off206 k 512#32 32#32) (k0_off187 k)
        (k0_off206_inb L k0_t4 k k0_h7 2) (k0_off206_inb L k0_t4 k k0_h7 2) (k0_off187_inb L k0_t4 k k0_h7)
        ((cf0 (k0_off206 k 512#32 32#32)).trans (by show 1024 * k.val + 544 = _; omega)) ((cf0 (k0_off206 k 512#32 32#32)).trans (by show 1024 * k.val + 544 = _; omega)) ((cf0 (k0_off187 k)).trans (by show 16 * k.val = _; omega))
        _ 32#32 (by decide) _ _ (by first | rfl | rw [Shape.reshapeEquiv_self]) rfl x⟩,
    ⟨(cf0 (k0_off206 k 512#32 16#32)).trans (by show 1024 * k.val + 528 = 1024 * k.val + 16 * 33; omega), rfl, rfl, fun x =>
      piece_agree (bufS2).view (tabS).view (ixS2).view f TT X _ k.val 8 1 hk (by omega) (by omega) hf hX (k0_off206 k 512#32 16#32) (k0_off206 k 512#32 16#32) (k0_off187 k)
        (k0_off206_inb L k0_t4 k k0_h7 1) (k0_off206_inb L k0_t4 k k0_h7 1) (k0_off187_inb L k0_t4 k k0_h7)
        ((cf0 (k0_off206 k 512#32 16#32)).trans (by show 1024 * k.val + 528 = _; omega)) ((cf0 (k0_off206 k 512#32 16#32)).trans (by show 1024 * k.val + 528 = _; omega)) ((cf0 (k0_off187 k)).trans (by show 16 * k.val = _; omega))
        _ 16#32 (by decide) _ _ (by first | rfl | rw [Shape.reshapeEquiv_self]) rfl x⟩,
    ⟨(cf0 (k0_off206 k 512#32 0#32)).trans (by show 1024 * k.val + 512 = 1024 * k.val + 16 * 32; omega), rfl, rfl, fun x =>
      piece_agree (bufS2).view (tabS).view (ixS2).view f TT X _ k.val 8 0 hk (by omega) (by omega) hf hX (k0_off206 k 512#32 0#32) (k0_off204 k 512#32 0#32) (k0_off187 k)
        (k0_off206_inb L k0_t4 k k0_h7 0) (k0_off204_inb L k0_t4 k k0_h7 4) (k0_off187_inb L k0_t4 k k0_h7)
        ((cf0 (k0_off206 k 512#32 0#32)).trans (by show 1024 * k.val + 512 = _; omega)) ((cf0 (k0_off204 k 512#32 0#32)).trans (by show 1024 * k.val + 512 = _; omega)) ((cf0 (k0_off187 k)).trans (by show 16 * k.val = _; omega))
        _ 0#32 (by decide) _ _ (by first | rfl | rw [Shape.reshapeEquiv_self]) rfl x⟩,
    ⟨(cf0 (k0_off204 k 448#32 48#32)).trans (by show 1024 * k.val + 496 = 1024 * k.val + 16 * 31; omega), rfl, rfl, fun x =>
      piece_agree (bufS2).view (tabS).view (ixS2).view f TT X _ k.val 7 3 hk (by omega) (by omega) hf hX (k0_off204 k 448#32 48#32) (k0_off204 k 448#32 48#32) (k0_off187 k)
        (k0_off204_inb L k0_t4 k k0_h7 3) (k0_off204_inb L k0_t4 k k0_h7 3) (k0_off187_inb L k0_t4 k k0_h7)
        ((cf0 (k0_off204 k 448#32 48#32)).trans (by show 1024 * k.val + 496 = _; omega)) ((cf0 (k0_off204 k 448#32 48#32)).trans (by show 1024 * k.val + 496 = _; omega)) ((cf0 (k0_off187 k)).trans (by show 16 * k.val = _; omega))
        _ 48#32 (by decide) _ _ (by first | rfl | rw [Shape.reshapeEquiv_self]) rfl x⟩,
    ⟨(cf0 (k0_off204 k 448#32 32#32)).trans (by show 1024 * k.val + 480 = 1024 * k.val + 16 * 30; omega), rfl, rfl, fun x =>
      piece_agree (bufS2).view (tabS).view (ixS2).view f TT X _ k.val 7 2 hk (by omega) (by omega) hf hX (k0_off204 k 448#32 32#32) (k0_off204 k 448#32 32#32) (k0_off187 k)
        (k0_off204_inb L k0_t4 k k0_h7 2) (k0_off204_inb L k0_t4 k k0_h7 2) (k0_off187_inb L k0_t4 k k0_h7)
        ((cf0 (k0_off204 k 448#32 32#32)).trans (by show 1024 * k.val + 480 = _; omega)) ((cf0 (k0_off204 k 448#32 32#32)).trans (by show 1024 * k.val + 480 = _; omega)) ((cf0 (k0_off187 k)).trans (by show 16 * k.val = _; omega))
        _ 32#32 (by decide) _ _ (by first | rfl | rw [Shape.reshapeEquiv_self]) rfl x⟩,
    ⟨(cf0 (k0_off204 k 448#32 16#32)).trans (by show 1024 * k.val + 464 = 1024 * k.val + 16 * 29; omega), rfl, rfl, fun x =>
      piece_agree (bufS2).view (tabS).view (ixS2).view f TT X _ k.val 7 1 hk (by omega) (by omega) hf hX (k0_off204 k 448#32 16#32) (k0_off204 k 448#32 16#32) (k0_off187 k)
        (k0_off204_inb L k0_t4 k k0_h7 1) (k0_off204_inb L k0_t4 k k0_h7 1) (k0_off187_inb L k0_t4 k k0_h7)
        ((cf0 (k0_off204 k 448#32 16#32)).trans (by show 1024 * k.val + 464 = _; omega)) ((cf0 (k0_off204 k 448#32 16#32)).trans (by show 1024 * k.val + 464 = _; omega)) ((cf0 (k0_off187 k)).trans (by show 16 * k.val = _; omega))
        _ 16#32 (by decide) _ _ (by first | rfl | rw [Shape.reshapeEquiv_self]) rfl x⟩,
    ⟨(cf0 (k0_off204 k 448#32 0#32)).trans (by show 1024 * k.val + 448 = 1024 * k.val + 16 * 28; omega), rfl, rfl, fun x =>
      piece_agree (bufS2).view (tabS).view (ixS2).view f TT X _ k.val 7 0 hk (by omega) (by omega) hf hX (k0_off204 k 448#32 0#32) (k0_off202 k 448#32 0#32) (k0_off187 k)
        (k0_off204_inb L k0_t4 k k0_h7 0) (k0_off202_inb L k0_t4 k k0_h7 4) (k0_off187_inb L k0_t4 k k0_h7)
        ((cf0 (k0_off204 k 448#32 0#32)).trans (by show 1024 * k.val + 448 = _; omega)) ((cf0 (k0_off202 k 448#32 0#32)).trans (by show 1024 * k.val + 448 = _; omega)) ((cf0 (k0_off187 k)).trans (by show 16 * k.val = _; omega))
        _ 0#32 (by decide) _ _ (by first | rfl | rw [Shape.reshapeEquiv_self]) rfl x⟩,
    ⟨(cf0 (k0_off202 k 384#32 48#32)).trans (by show 1024 * k.val + 432 = 1024 * k.val + 16 * 27; omega), rfl, rfl, fun x =>
      piece_agree (bufS2).view (tabS).view (ixS2).view f TT X _ k.val 6 3 hk (by omega) (by omega) hf hX (k0_off202 k 384#32 48#32) (k0_off202 k 384#32 48#32) (k0_off187 k)
        (k0_off202_inb L k0_t4 k k0_h7 3) (k0_off202_inb L k0_t4 k k0_h7 3) (k0_off187_inb L k0_t4 k k0_h7)
        ((cf0 (k0_off202 k 384#32 48#32)).trans (by show 1024 * k.val + 432 = _; omega)) ((cf0 (k0_off202 k 384#32 48#32)).trans (by show 1024 * k.val + 432 = _; omega)) ((cf0 (k0_off187 k)).trans (by show 16 * k.val = _; omega))
        _ 48#32 (by decide) _ _ (by first | rfl | rw [Shape.reshapeEquiv_self]) rfl x⟩,
    ⟨(cf0 (k0_off202 k 384#32 32#32)).trans (by show 1024 * k.val + 416 = 1024 * k.val + 16 * 26; omega), rfl, rfl, fun x =>
      piece_agree (bufS2).view (tabS).view (ixS2).view f TT X _ k.val 6 2 hk (by omega) (by omega) hf hX (k0_off202 k 384#32 32#32) (k0_off202 k 384#32 32#32) (k0_off187 k)
        (k0_off202_inb L k0_t4 k k0_h7 2) (k0_off202_inb L k0_t4 k k0_h7 2) (k0_off187_inb L k0_t4 k k0_h7)
        ((cf0 (k0_off202 k 384#32 32#32)).trans (by show 1024 * k.val + 416 = _; omega)) ((cf0 (k0_off202 k 384#32 32#32)).trans (by show 1024 * k.val + 416 = _; omega)) ((cf0 (k0_off187 k)).trans (by show 16 * k.val = _; omega))
        _ 32#32 (by decide) _ _ (by first | rfl | rw [Shape.reshapeEquiv_self]) rfl x⟩,
    ⟨(cf0 (k0_off202 k 384#32 16#32)).trans (by show 1024 * k.val + 400 = 1024 * k.val + 16 * 25; omega), rfl, rfl, fun x =>
      piece_agree (bufS2).view (tabS).view (ixS2).view f TT X _ k.val 6 1 hk (by omega) (by omega) hf hX (k0_off202 k 384#32 16#32) (k0_off202 k 384#32 16#32) (k0_off187 k)
        (k0_off202_inb L k0_t4 k k0_h7 1) (k0_off202_inb L k0_t4 k k0_h7 1) (k0_off187_inb L k0_t4 k k0_h7)
        ((cf0 (k0_off202 k 384#32 16#32)).trans (by show 1024 * k.val + 400 = _; omega)) ((cf0 (k0_off202 k 384#32 16#32)).trans (by show 1024 * k.val + 400 = _; omega)) ((cf0 (k0_off187 k)).trans (by show 16 * k.val = _; omega))
        _ 16#32 (by decide) _ _ (by first | rfl | rw [Shape.reshapeEquiv_self]) rfl x⟩,
    ⟨(cf0 (k0_off202 k 384#32 0#32)).trans (by show 1024 * k.val + 384 = 1024 * k.val + 16 * 24; omega), rfl, rfl, fun x =>
      piece_agree (bufS2).view (tabS).view (ixS2).view f TT X _ k.val 6 0 hk (by omega) (by omega) hf hX (k0_off202 k 384#32 0#32) (k0_off200 k 384#32 0#32) (k0_off187 k)
        (k0_off202_inb L k0_t4 k k0_h7 0) (k0_off200_inb L k0_t4 k k0_h7 4) (k0_off187_inb L k0_t4 k k0_h7)
        ((cf0 (k0_off202 k 384#32 0#32)).trans (by show 1024 * k.val + 384 = _; omega)) ((cf0 (k0_off200 k 384#32 0#32)).trans (by show 1024 * k.val + 384 = _; omega)) ((cf0 (k0_off187 k)).trans (by show 16 * k.val = _; omega))
        _ 0#32 (by decide) _ _ (by first | rfl | rw [Shape.reshapeEquiv_self]) rfl x⟩,
    ⟨(cf0 (k0_off200 k 320#32 48#32)).trans (by show 1024 * k.val + 368 = 1024 * k.val + 16 * 23; omega), rfl, rfl, fun x =>
      piece_agree (bufS2).view (tabS).view (ixS2).view f TT X _ k.val 5 3 hk (by omega) (by omega) hf hX (k0_off200 k 320#32 48#32) (k0_off200 k 320#32 48#32) (k0_off187 k)
        (k0_off200_inb L k0_t4 k k0_h7 3) (k0_off200_inb L k0_t4 k k0_h7 3) (k0_off187_inb L k0_t4 k k0_h7)
        ((cf0 (k0_off200 k 320#32 48#32)).trans (by show 1024 * k.val + 368 = _; omega)) ((cf0 (k0_off200 k 320#32 48#32)).trans (by show 1024 * k.val + 368 = _; omega)) ((cf0 (k0_off187 k)).trans (by show 16 * k.val = _; omega))
        _ 48#32 (by decide) _ _ (by first | rfl | rw [Shape.reshapeEquiv_self]) rfl x⟩,
    ⟨(cf0 (k0_off200 k 320#32 32#32)).trans (by show 1024 * k.val + 352 = 1024 * k.val + 16 * 22; omega), rfl, rfl, fun x =>
      piece_agree (bufS2).view (tabS).view (ixS2).view f TT X _ k.val 5 2 hk (by omega) (by omega) hf hX (k0_off200 k 320#32 32#32) (k0_off200 k 320#32 32#32) (k0_off187 k)
        (k0_off200_inb L k0_t4 k k0_h7 2) (k0_off200_inb L k0_t4 k k0_h7 2) (k0_off187_inb L k0_t4 k k0_h7)
        ((cf0 (k0_off200 k 320#32 32#32)).trans (by show 1024 * k.val + 352 = _; omega)) ((cf0 (k0_off200 k 320#32 32#32)).trans (by show 1024 * k.val + 352 = _; omega)) ((cf0 (k0_off187 k)).trans (by show 16 * k.val = _; omega))
        _ 32#32 (by decide) _ _ (by first | rfl | rw [Shape.reshapeEquiv_self]) rfl x⟩,
    ⟨(cf0 (k0_off200 k 320#32 16#32)).trans (by show 1024 * k.val + 336 = 1024 * k.val + 16 * 21; omega), rfl, rfl, fun x =>
      piece_agree (bufS2).view (tabS).view (ixS2).view f TT X _ k.val 5 1 hk (by omega) (by omega) hf hX (k0_off200 k 320#32 16#32) (k0_off200 k 320#32 16#32) (k0_off187 k)
        (k0_off200_inb L k0_t4 k k0_h7 1) (k0_off200_inb L k0_t4 k k0_h7 1) (k0_off187_inb L k0_t4 k k0_h7)
        ((cf0 (k0_off200 k 320#32 16#32)).trans (by show 1024 * k.val + 336 = _; omega)) ((cf0 (k0_off200 k 320#32 16#32)).trans (by show 1024 * k.val + 336 = _; omega)) ((cf0 (k0_off187 k)).trans (by show 16 * k.val = _; omega))
        _ 16#32 (by decide) _ _ (by first | rfl | rw [Shape.reshapeEquiv_self]) rfl x⟩,
    ⟨(cf0 (k0_off200 k 320#32 0#32)).trans (by show 1024 * k.val + 320 = 1024 * k.val + 16 * 20; omega), rfl, rfl, fun x =>
      piece_agree (bufS2).view (tabS).view (ixS2).view f TT X _ k.val 5 0 hk (by omega) (by omega) hf hX (k0_off200 k 320#32 0#32) (k0_off198 k 320#32 0#32) (k0_off187 k)
        (k0_off200_inb L k0_t4 k k0_h7 0) (k0_off198_inb L k0_t4 k k0_h7 4) (k0_off187_inb L k0_t4 k k0_h7)
        ((cf0 (k0_off200 k 320#32 0#32)).trans (by show 1024 * k.val + 320 = _; omega)) ((cf0 (k0_off198 k 320#32 0#32)).trans (by show 1024 * k.val + 320 = _; omega)) ((cf0 (k0_off187 k)).trans (by show 16 * k.val = _; omega))
        _ 0#32 (by decide) _ _ (by first | rfl | rw [Shape.reshapeEquiv_self]) rfl x⟩,
    ⟨(cf0 (k0_off198 k 256#32 48#32)).trans (by show 1024 * k.val + 304 = 1024 * k.val + 16 * 19; omega), rfl, rfl, fun x =>
      piece_agree (bufS2).view (tabS).view (ixS2).view f TT X _ k.val 4 3 hk (by omega) (by omega) hf hX (k0_off198 k 256#32 48#32) (k0_off198 k 256#32 48#32) (k0_off187 k)
        (k0_off198_inb L k0_t4 k k0_h7 3) (k0_off198_inb L k0_t4 k k0_h7 3) (k0_off187_inb L k0_t4 k k0_h7)
        ((cf0 (k0_off198 k 256#32 48#32)).trans (by show 1024 * k.val + 304 = _; omega)) ((cf0 (k0_off198 k 256#32 48#32)).trans (by show 1024 * k.val + 304 = _; omega)) ((cf0 (k0_off187 k)).trans (by show 16 * k.val = _; omega))
        _ 48#32 (by decide) _ _ (by first | rfl | rw [Shape.reshapeEquiv_self]) rfl x⟩,
    ⟨(cf0 (k0_off198 k 256#32 32#32)).trans (by show 1024 * k.val + 288 = 1024 * k.val + 16 * 18; omega), rfl, rfl, fun x =>
      piece_agree (bufS2).view (tabS).view (ixS2).view f TT X _ k.val 4 2 hk (by omega) (by omega) hf hX (k0_off198 k 256#32 32#32) (k0_off198 k 256#32 32#32) (k0_off187 k)
        (k0_off198_inb L k0_t4 k k0_h7 2) (k0_off198_inb L k0_t4 k k0_h7 2) (k0_off187_inb L k0_t4 k k0_h7)
        ((cf0 (k0_off198 k 256#32 32#32)).trans (by show 1024 * k.val + 288 = _; omega)) ((cf0 (k0_off198 k 256#32 32#32)).trans (by show 1024 * k.val + 288 = _; omega)) ((cf0 (k0_off187 k)).trans (by show 16 * k.val = _; omega))
        _ 32#32 (by decide) _ _ (by first | rfl | rw [Shape.reshapeEquiv_self]) rfl x⟩,
    ⟨(cf0 (k0_off198 k 256#32 16#32)).trans (by show 1024 * k.val + 272 = 1024 * k.val + 16 * 17; omega), rfl, rfl, fun x =>
      piece_agree (bufS2).view (tabS).view (ixS2).view f TT X _ k.val 4 1 hk (by omega) (by omega) hf hX (k0_off198 k 256#32 16#32) (k0_off198 k 256#32 16#32) (k0_off187 k)
        (k0_off198_inb L k0_t4 k k0_h7 1) (k0_off198_inb L k0_t4 k k0_h7 1) (k0_off187_inb L k0_t4 k k0_h7)
        ((cf0 (k0_off198 k 256#32 16#32)).trans (by show 1024 * k.val + 272 = _; omega)) ((cf0 (k0_off198 k 256#32 16#32)).trans (by show 1024 * k.val + 272 = _; omega)) ((cf0 (k0_off187 k)).trans (by show 16 * k.val = _; omega))
        _ 16#32 (by decide) _ _ (by first | rfl | rw [Shape.reshapeEquiv_self]) rfl x⟩,
    ⟨(cf0 (k0_off198 k 256#32 0#32)).trans (by show 1024 * k.val + 256 = 1024 * k.val + 16 * 16; omega), rfl, rfl, fun x =>
      piece_agree (bufS2).view (tabS).view (ixS2).view f TT X _ k.val 4 0 hk (by omega) (by omega) hf hX (k0_off198 k 256#32 0#32) (k0_off196 k 256#32 0#32) (k0_off187 k)
        (k0_off198_inb L k0_t4 k k0_h7 0) (k0_off196_inb L k0_t4 k k0_h7 4) (k0_off187_inb L k0_t4 k k0_h7)
        ((cf0 (k0_off198 k 256#32 0#32)).trans (by show 1024 * k.val + 256 = _; omega)) ((cf0 (k0_off196 k 256#32 0#32)).trans (by show 1024 * k.val + 256 = _; omega)) ((cf0 (k0_off187 k)).trans (by show 16 * k.val = _; omega))
        _ 0#32 (by decide) _ _ (by first | rfl | rw [Shape.reshapeEquiv_self]) rfl x⟩,
    ⟨(cf0 (k0_off196 k 192#32 48#32)).trans (by show 1024 * k.val + 240 = 1024 * k.val + 16 * 15; omega), rfl, rfl, fun x =>
      piece_agree (bufS2).view (tabS).view (ixS2).view f TT X _ k.val 3 3 hk (by omega) (by omega) hf hX (k0_off196 k 192#32 48#32) (k0_off196 k 192#32 48#32) (k0_off187 k)
        (k0_off196_inb L k0_t4 k k0_h7 3) (k0_off196_inb L k0_t4 k k0_h7 3) (k0_off187_inb L k0_t4 k k0_h7)
        ((cf0 (k0_off196 k 192#32 48#32)).trans (by show 1024 * k.val + 240 = _; omega)) ((cf0 (k0_off196 k 192#32 48#32)).trans (by show 1024 * k.val + 240 = _; omega)) ((cf0 (k0_off187 k)).trans (by show 16 * k.val = _; omega))
        _ 48#32 (by decide) _ _ (by first | rfl | rw [Shape.reshapeEquiv_self]) rfl x⟩,
    ⟨(cf0 (k0_off196 k 192#32 32#32)).trans (by show 1024 * k.val + 224 = 1024 * k.val + 16 * 14; omega), rfl, rfl, fun x =>
      piece_agree (bufS2).view (tabS).view (ixS2).view f TT X _ k.val 3 2 hk (by omega) (by omega) hf hX (k0_off196 k 192#32 32#32) (k0_off196 k 192#32 32#32) (k0_off187 k)
        (k0_off196_inb L k0_t4 k k0_h7 2) (k0_off196_inb L k0_t4 k k0_h7 2) (k0_off187_inb L k0_t4 k k0_h7)
        ((cf0 (k0_off196 k 192#32 32#32)).trans (by show 1024 * k.val + 224 = _; omega)) ((cf0 (k0_off196 k 192#32 32#32)).trans (by show 1024 * k.val + 224 = _; omega)) ((cf0 (k0_off187 k)).trans (by show 16 * k.val = _; omega))
        _ 32#32 (by decide) _ _ (by first | rfl | rw [Shape.reshapeEquiv_self]) rfl x⟩,
    ⟨(cf0 (k0_off196 k 192#32 16#32)).trans (by show 1024 * k.val + 208 = 1024 * k.val + 16 * 13; omega), rfl, rfl, fun x =>
      piece_agree (bufS2).view (tabS).view (ixS2).view f TT X _ k.val 3 1 hk (by omega) (by omega) hf hX (k0_off196 k 192#32 16#32) (k0_off196 k 192#32 16#32) (k0_off187 k)
        (k0_off196_inb L k0_t4 k k0_h7 1) (k0_off196_inb L k0_t4 k k0_h7 1) (k0_off187_inb L k0_t4 k k0_h7)
        ((cf0 (k0_off196 k 192#32 16#32)).trans (by show 1024 * k.val + 208 = _; omega)) ((cf0 (k0_off196 k 192#32 16#32)).trans (by show 1024 * k.val + 208 = _; omega)) ((cf0 (k0_off187 k)).trans (by show 16 * k.val = _; omega))
        _ 16#32 (by decide) _ _ (by first | rfl | rw [Shape.reshapeEquiv_self]) rfl x⟩,
    ⟨(cf0 (k0_off196 k 192#32 0#32)).trans (by show 1024 * k.val + 192 = 1024 * k.val + 16 * 12; omega), rfl, rfl, fun x =>
      piece_agree (bufS2).view (tabS).view (ixS2).view f TT X _ k.val 3 0 hk (by omega) (by omega) hf hX (k0_off196 k 192#32 0#32) (k0_off194 k 192#32 0#32) (k0_off187 k)
        (k0_off196_inb L k0_t4 k k0_h7 0) (k0_off194_inb L k0_t4 k k0_h7 4) (k0_off187_inb L k0_t4 k k0_h7)
        ((cf0 (k0_off196 k 192#32 0#32)).trans (by show 1024 * k.val + 192 = _; omega)) ((cf0 (k0_off194 k 192#32 0#32)).trans (by show 1024 * k.val + 192 = _; omega)) ((cf0 (k0_off187 k)).trans (by show 16 * k.val = _; omega))
        _ 0#32 (by decide) _ _ (by first | rfl | rw [Shape.reshapeEquiv_self]) rfl x⟩,
    ⟨(cf0 (k0_off194 k 128#32 48#32)).trans (by show 1024 * k.val + 176 = 1024 * k.val + 16 * 11; omega), rfl, rfl, fun x =>
      piece_agree (bufS2).view (tabS).view (ixS2).view f TT X _ k.val 2 3 hk (by omega) (by omega) hf hX (k0_off194 k 128#32 48#32) (k0_off194 k 128#32 48#32) (k0_off187 k)
        (k0_off194_inb L k0_t4 k k0_h7 3) (k0_off194_inb L k0_t4 k k0_h7 3) (k0_off187_inb L k0_t4 k k0_h7)
        ((cf0 (k0_off194 k 128#32 48#32)).trans (by show 1024 * k.val + 176 = _; omega)) ((cf0 (k0_off194 k 128#32 48#32)).trans (by show 1024 * k.val + 176 = _; omega)) ((cf0 (k0_off187 k)).trans (by show 16 * k.val = _; omega))
        _ 48#32 (by decide) _ _ (by first | rfl | rw [Shape.reshapeEquiv_self]) rfl x⟩,
    ⟨(cf0 (k0_off194 k 128#32 32#32)).trans (by show 1024 * k.val + 160 = 1024 * k.val + 16 * 10; omega), rfl, rfl, fun x =>
      piece_agree (bufS2).view (tabS).view (ixS2).view f TT X _ k.val 2 2 hk (by omega) (by omega) hf hX (k0_off194 k 128#32 32#32) (k0_off194 k 128#32 32#32) (k0_off187 k)
        (k0_off194_inb L k0_t4 k k0_h7 2) (k0_off194_inb L k0_t4 k k0_h7 2) (k0_off187_inb L k0_t4 k k0_h7)
        ((cf0 (k0_off194 k 128#32 32#32)).trans (by show 1024 * k.val + 160 = _; omega)) ((cf0 (k0_off194 k 128#32 32#32)).trans (by show 1024 * k.val + 160 = _; omega)) ((cf0 (k0_off187 k)).trans (by show 16 * k.val = _; omega))
        _ 32#32 (by decide) _ _ (by first | rfl | rw [Shape.reshapeEquiv_self]) rfl x⟩,
    ⟨(cf0 (k0_off194 k 128#32 16#32)).trans (by show 1024 * k.val + 144 = 1024 * k.val + 16 * 9; omega), rfl, rfl, fun x =>
      piece_agree (bufS2).view (tabS).view (ixS2).view f TT X _ k.val 2 1 hk (by omega) (by omega) hf hX (k0_off194 k 128#32 16#32) (k0_off194 k 128#32 16#32) (k0_off187 k)
        (k0_off194_inb L k0_t4 k k0_h7 1) (k0_off194_inb L k0_t4 k k0_h7 1) (k0_off187_inb L k0_t4 k k0_h7)
        ((cf0 (k0_off194 k 128#32 16#32)).trans (by show 1024 * k.val + 144 = _; omega)) ((cf0 (k0_off194 k 128#32 16#32)).trans (by show 1024 * k.val + 144 = _; omega)) ((cf0 (k0_off187 k)).trans (by show 16 * k.val = _; omega))
        _ 16#32 (by decide) _ _ (by first | rfl | rw [Shape.reshapeEquiv_self]) rfl x⟩,
    ⟨(cf0 (k0_off194 k 128#32 0#32)).trans (by show 1024 * k.val + 128 = 1024 * k.val + 16 * 8; omega), rfl, rfl, fun x =>
      piece_agree (bufS2).view (tabS).view (ixS2).view f TT X _ k.val 2 0 hk (by omega) (by omega) hf hX (k0_off194 k 128#32 0#32) (k0_off192 k 128#32 0#32) (k0_off187 k)
        (k0_off194_inb L k0_t4 k k0_h7 0) (k0_off192_inb L k0_t4 k k0_h7 4) (k0_off187_inb L k0_t4 k k0_h7)
        ((cf0 (k0_off194 k 128#32 0#32)).trans (by show 1024 * k.val + 128 = _; omega)) ((cf0 (k0_off192 k 128#32 0#32)).trans (by show 1024 * k.val + 128 = _; omega)) ((cf0 (k0_off187 k)).trans (by show 16 * k.val = _; omega))
        _ 0#32 (by decide) _ _ (by first | rfl | rw [Shape.reshapeEquiv_self]) rfl x⟩,
    ⟨(cf0 (k0_off192 k 64#32 48#32)).trans (by show 1024 * k.val + 112 = 1024 * k.val + 16 * 7; omega), rfl, rfl, fun x =>
      piece_agree (bufS2).view (tabS).view (ixS2).view f TT X _ k.val 1 3 hk (by omega) (by omega) hf hX (k0_off192 k 64#32 48#32) (k0_off192 k 64#32 48#32) (k0_off187 k)
        (k0_off192_inb L k0_t4 k k0_h7 3) (k0_off192_inb L k0_t4 k k0_h7 3) (k0_off187_inb L k0_t4 k k0_h7)
        ((cf0 (k0_off192 k 64#32 48#32)).trans (by show 1024 * k.val + 112 = _; omega)) ((cf0 (k0_off192 k 64#32 48#32)).trans (by show 1024 * k.val + 112 = _; omega)) ((cf0 (k0_off187 k)).trans (by show 16 * k.val = _; omega))
        _ 48#32 (by decide) _ _ (by first | rfl | rw [Shape.reshapeEquiv_self]) rfl x⟩,
    ⟨(cf0 (k0_off192 k 64#32 32#32)).trans (by show 1024 * k.val + 96 = 1024 * k.val + 16 * 6; omega), rfl, rfl, fun x =>
      piece_agree (bufS2).view (tabS).view (ixS2).view f TT X _ k.val 1 2 hk (by omega) (by omega) hf hX (k0_off192 k 64#32 32#32) (k0_off192 k 64#32 32#32) (k0_off187 k)
        (k0_off192_inb L k0_t4 k k0_h7 2) (k0_off192_inb L k0_t4 k k0_h7 2) (k0_off187_inb L k0_t4 k k0_h7)
        ((cf0 (k0_off192 k 64#32 32#32)).trans (by show 1024 * k.val + 96 = _; omega)) ((cf0 (k0_off192 k 64#32 32#32)).trans (by show 1024 * k.val + 96 = _; omega)) ((cf0 (k0_off187 k)).trans (by show 16 * k.val = _; omega))
        _ 32#32 (by decide) _ _ (by first | rfl | rw [Shape.reshapeEquiv_self]) rfl x⟩,
    ⟨(cf0 (k0_off192 k 64#32 16#32)).trans (by show 1024 * k.val + 80 = 1024 * k.val + 16 * 5; omega), rfl, rfl, fun x =>
      piece_agree (bufS2).view (tabS).view (ixS2).view f TT X _ k.val 1 1 hk (by omega) (by omega) hf hX (k0_off192 k 64#32 16#32) (k0_off192 k 64#32 16#32) (k0_off187 k)
        (k0_off192_inb L k0_t4 k k0_h7 1) (k0_off192_inb L k0_t4 k k0_h7 1) (k0_off187_inb L k0_t4 k k0_h7)
        ((cf0 (k0_off192 k 64#32 16#32)).trans (by show 1024 * k.val + 80 = _; omega)) ((cf0 (k0_off192 k 64#32 16#32)).trans (by show 1024 * k.val + 80 = _; omega)) ((cf0 (k0_off187 k)).trans (by show 16 * k.val = _; omega))
        _ 16#32 (by decide) _ _ (by first | rfl | rw [Shape.reshapeEquiv_self]) rfl x⟩,
    ⟨(cf0 (k0_off192 k 64#32 0#32)).trans (by show 1024 * k.val + 64 = 1024 * k.val + 16 * 4; omega), rfl, rfl, fun x =>
      piece_agree (bufS2).view (tabS).view (ixS2).view f TT X _ k.val 1 0 hk (by omega) (by omega) hf hX (k0_off192 k 64#32 0#32) (k0_off190 k 64#32 0#32) (k0_off187 k)
        (k0_off192_inb L k0_t4 k k0_h7 0) (k0_off190_inb L k0_t4 k k0_h7 4) (k0_off187_inb L k0_t4 k k0_h7)
        ((cf0 (k0_off192 k 64#32 0#32)).trans (by show 1024 * k.val + 64 = _; omega)) ((cf0 (k0_off190 k 64#32 0#32)).trans (by show 1024 * k.val + 64 = _; omega)) ((cf0 (k0_off187 k)).trans (by show 16 * k.val = _; omega))
        _ 0#32 (by decide) _ _ (by first | rfl | rw [Shape.reshapeEquiv_self]) rfl x⟩,
    ⟨(cf0 (k0_off190 k 0#32 48#32)).trans (by show 1024 * k.val + 48 = 1024 * k.val + 16 * 3; omega), rfl, rfl, fun x =>
      piece_agree (bufS2).view (tabS).view (ixS2).view f TT X _ k.val 0 3 hk (by omega) (by omega) hf hX (k0_off190 k 0#32 48#32) (k0_off190 k 0#32 48#32) (k0_off187 k)
        (k0_off190_inb L k0_t4 k k0_h7 3) (k0_off190_inb L k0_t4 k k0_h7 3) (k0_off187_inb L k0_t4 k k0_h7)
        ((cf0 (k0_off190 k 0#32 48#32)).trans (by show 1024 * k.val + 48 = _; omega)) ((cf0 (k0_off190 k 0#32 48#32)).trans (by show 1024 * k.val + 48 = _; omega)) ((cf0 (k0_off187 k)).trans (by show 16 * k.val = _; omega))
        _ 48#32 (by decide) _ _ (by first | rfl | rw [Shape.reshapeEquiv_self]) rfl x⟩,
    ⟨(cf0 (k0_off190 k 0#32 32#32)).trans (by show 1024 * k.val + 32 = 1024 * k.val + 16 * 2; omega), rfl, rfl, fun x =>
      piece_agree (bufS2).view (tabS).view (ixS2).view f TT X _ k.val 0 2 hk (by omega) (by omega) hf hX (k0_off190 k 0#32 32#32) (k0_off190 k 0#32 32#32) (k0_off187 k)
        (k0_off190_inb L k0_t4 k k0_h7 2) (k0_off190_inb L k0_t4 k k0_h7 2) (k0_off187_inb L k0_t4 k k0_h7)
        ((cf0 (k0_off190 k 0#32 32#32)).trans (by show 1024 * k.val + 32 = _; omega)) ((cf0 (k0_off190 k 0#32 32#32)).trans (by show 1024 * k.val + 32 = _; omega)) ((cf0 (k0_off187 k)).trans (by show 16 * k.val = _; omega))
        _ 32#32 (by decide) _ _ (by first | rfl | rw [Shape.reshapeEquiv_self]) rfl x⟩,
    ⟨(cf0 (k0_off190 k 0#32 16#32)).trans (by show 1024 * k.val + 16 = 1024 * k.val + 16 * 1; omega), rfl, rfl, fun x =>
      piece_agree (bufS2).view (tabS).view (ixS2).view f TT X _ k.val 0 1 hk (by omega) (by omega) hf hX (k0_off190 k 0#32 16#32) (k0_off190 k 0#32 16#32) (k0_off187 k)
        (k0_off190_inb L k0_t4 k k0_h7 1) (k0_off190_inb L k0_t4 k k0_h7 1) (k0_off187_inb L k0_t4 k k0_h7)
        ((cf0 (k0_off190 k 0#32 16#32)).trans (by show 1024 * k.val + 16 = _; omega)) ((cf0 (k0_off190 k 0#32 16#32)).trans (by show 1024 * k.val + 16 = _; omega)) ((cf0 (k0_off187 k)).trans (by show 16 * k.val = _; omega))
        _ 16#32 (by decide) _ _ (by first | rfl | rw [Shape.reshapeEquiv_self]) rfl x⟩,
    ⟨(cf0 (k0_off190 k 0#32 0#32)).trans (by show 1024 * k.val + 0 = 1024 * k.val + 16 * 0; omega), rfl, rfl, fun x =>
      piece_agree (bufS2).view (tabS).view (ixS2).view f TT X _ k.val 0 0 hk (by omega) (by omega) hf hX (k0_off190 k 0#32 0#32) (k0_off188 k) (k0_off187 k)
        (k0_off190_inb L k0_t4 k k0_h7 0) (k0_off188_inb L k0_t4 k k0_h7) (k0_off187_inb L k0_t4 k k0_h7)
        ((cf0 (k0_off190 k 0#32 0#32)).trans (by show 1024 * k.val + 0 = _; omega)) ((cf0 (k0_off188 k)).trans (by show 1024 * k.val = _; omega)) ((cf0 (k0_off187 k)).trans (by show 16 * k.val = _; omega))
        _ 0#32 (by decide) _ _ (by first | rfl | rw [Shape.reshapeEquiv_self]) rfl x⟩,
    trivial⟩

/-- The whole loop, in continuation form: from the three buffers, the program goes on with every row done. -/
theorem loop7_spec (hX : ∀ j, BitVec.toNat ((ixS2).view.read (Elt F) X j) < 16) (v1 v21 v90 c3_i32_55 v91 v93 c0_i32_57 : BitVec 32) (k0_t4 : Fin (k0_t4_loop L).trips) (k0_h7 : k0_cond7 L k0_t4 = 1#1) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS2).view.loc (thrV d L) ↦{fullShare} X)
        ∗ ((bufS2).view.loc (thrV d L) ↦{fullShare} B)
        ∗ (∀ acc f, (⌜∀ y, (bufS2).view.read (Elt F) f y
              = stage ((bufS2).view.read (Elt F) B) ((tabS).view.read (Elt F) TT) ((ixS2).view.read (Elt F) X) 400 y⌝
              ∗ ((tabS).view.loc (thrV d L) ↦{fullShare} TT) ∗ ((ixS2).view.loc (thrV d L) ↦{fullShare} X)
              ∗ ((bufS2).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t7_loop (k0_t7_ok L k0_t4 k0_h7) init (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7) >>= kk) Q := by
  iintro ⟨Ht, Hx, Hb, Hk⟩
  iapply (Scf.wp_for_bind frame (wpE (defs₀ (F := F)) 𝒱₀ (thrV d L) none) Set.univ k0_t7_loop.lb k0_t7_loop.ub k0_t7_loop.st (k0_t7_ok L k0_t4 k0_h7) init
    (k0_t7_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k0_t4 k0_h7) (inv7 d L TT X B) (step7 d L TT X B hX v1 v21 v90 c3_i32_55 v91 v93 c0_i32_57 k0_t4 k0_h7)) $$ [Ht Hx Hb]
  · unfold inv7
    isplitl [Ht]; · iexact Ht
    isplitl [Hx]; · iexact Hx
    iexists B; isplitl [Hb]; · iexact Hb
    ipureintro
    intro y
    unfold stage
    rw [if_neg (by omega)]
  iintro %acc HI
  unfold inv7
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KIStepA.lean ====
/-
  One trip of the main loop, when it is not the last: all three slots take their turn and the next fetch into slot 0
  is issued. The two pieces in flight at the head come back done, turn j's piece goes out and comes back done, turns
  j+1 and j+2 go out, turn j+3 is fetched; the invariant holds at the next trip.
-/
import proofs.«216121_g54726473285929_cont_9to1_m_355_3_alg».proof.Proof.KIOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KIOff
import proofs.«216121_g54726473285929_cont_9to1_m_355_3_alg».proof.Proof.KIVal
import proofs.«216121_g54726473285929_cont_9to1_m_355_3_alg».proof.Proof.KISep
import proofs.«216121_g54726473285929_cont_9to1_m_355_3_alg».proof.Proof.KIGeom
import proofs.«216121_g54726473285929_cont_9to1_m_355_3_alg».proof.Proof.KIMain
import proofs.«216121_g54726473285929_cont_9to1_m_355_3_alg».proof.Proof.KILoop5
import proofs.«216121_g54726473285929_cont_9to1_m_355_3_alg».proof.Proof.KILoop6
import proofs.«216121_g54726473285929_cont_9to1_m_355_3_alg».proof.Proof.KILoop7

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_mid (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : k.val + 1 < (k0_t4_loop L).trips) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · have hpost : ∀ a, invM d L O W ff gf ix fo TTc qf qi (k.val + 1) a = invA d L O W ff gf ix fo TTc qf qi (k.val + 1) := by
      intro a; unfold invM; rw [if_pos hmid]
    have hn : 3 * k.val + 7 ≤ nkL L := by omega
    have k0_h4 : k0_cond4 L k = 1#1 := c4.mpr (by omega)
    have k0_h5 : k0_cond5 L k = 1#1 := c5.mpr (by omega)
    have k0_h6 : k0_cond6 L k = 1#1 := c6.mpr (by omega)
    have k0_h7 : k0_cond7 L k = 1#1 := c7.mpr (by omega)
    have k0_h8 : k0_cond8 L k = 1#1 := c8.mpr (by omega)
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
        rw [k0_off147_eq L k, Matrix.cons_val_zero]; unfold wid; omega
    have o184 : k0_off184 L k 0 = 25600 * (wid L + 32 * (3 * k.val + 4)) := by
        rw [k0_off184_eq L k, Matrix.cons_val_zero]; unfold wid; omega
    have o221 : k0_off221 L k 0 = 25600 * (wid L + 32 * (3 * k.val + 5)) := by
        rw [k0_off221_eq L k, Matrix.cons_val_zero]; unfold wid; omega
    unfold invA k0_t4_body
    iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
    unfold outFl inFlF inFlI landed outside outsideSl
    ihave Hp := (Entails.of_eq hs) $$ Hpc
    icases Hp with ⟨Hpj, Hpj1, Hpj2, Hrest⟩
    ihave Hpj := (Entails.of_eq (Pp_slice (F := F) d L fo (3 * k.val + 3) (by omega) (k0_off147 L k) (k0_off147_inb L k) o147 (by have := (hnkt (3 * k.val + 3)).mp (by omega); omega))) $$ Hpj
    ihave Hpj1 := (Entails.of_eq (Pp_slice (F := F) d L fo (3 * k.val + 3 + 1) (by omega) (k0_off184 L k) (k0_off184_inb L k k0_h5) o184 (by have := (hnkt (3 * k.val + 4)).mp (by omega); omega))) $$ Hpj1
    ihave Hpj2 := (Entails.of_eq (Pp_slice (F := F) d L fo (3 * k.val + 3 + 2) (by omega) (k0_off221 L k) (k0_off221_inb L k k0_h7) o221 (by have := (hnkt (3 * k.val + 5)).mp (by omega); omega))) $$ Hpj2
    sl_exec_parts
    iapply (loop5_spec (F := F) d L _ _ _ ?hX5 _ _ _ _ _ _ _ _ _ _)
    rotate_left
    isplitl [Ht]; · iexact Ht
    isplitl [Hs3_dst]; · iexact Hs3_dst
    isplitl [Hs0_dst]; · iexact Hs0_dst
    iintro %acc5 %n0 ⟨%hn0, Ht, Hx0, Hb0⟩
    sl_exec_parts
    iapply (loop6_spec (F := F) d L _ _ _ ?hX6 _ _ _ _ _ _ _ k k0_h5 _ _ _)
    rotate_left
    isplitl [Ht]; · iexact Ht
    isplitl [Hx1]; · iexact Hx1
    isplitl [Hb1]; · iexact Hb1
    iintro %acc6 %n1 ⟨%hn1, Ht, Hx1, Hb1⟩
    sl_exec_parts
    iapply (loop7_spec (F := F) d L _ _ _ ?hX7 _ _ _ _ _ _ _ k k0_h7 _ _ _)
    rotate_left
    isplitl [Ht]; · iexact Ht
    isplitl [Hx2]; · iexact Hx2
    isplitl [Hb2]; · iexact Hb2
    iintro %acc7 %n2 ⟨%hn2, Ht, Hx2, Hb2⟩
    sl_exec_parts
    sl_step
    rw [hpost]
    sl_unfold_run_names
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hj4 : wid L + 32 * (3 * (k.val + 1) + 1) < 2500 := (hnkt _).mp (by omega)
    have hj5 : wid L + 32 * (3 * (k.val + 1) + 2) < 2500 := (hnkt _).mp (by omega)
    have hj6 : wid L + 32 * (3 * (k.val + 1) + 3) < 2500 := (hnkt _).mp (by omega)
    have o184' : k0_off184 L k 0 = 25600 * (wid L + 32 * (3 * (k.val + 1) + 1)) := o184.trans (by omega)
    have o221' : k0_off221 L k 0 = 25600 * (wid L + 32 * (3 * (k.val + 1) + 2)) := o221.trans (by omega)
    have o185 : k0_off185 L k 0 = 25600 * (wid L + 32 * (3 * (k.val + 1) + 3)) := by
        rw [k0_off185_eq L k, Matrix.cons_val_zero]; unfold wid; omega
    have o186 : k0_off186 L k 0 = 400 * (wid L + 32 * (3 * (k.val + 1) + 3)) := by
        rw [k0_off186_eq L k, Matrix.cons_val_zero]; unfold wid; omega
    have o111 : k0_off111 L k 0 = 25600 * (wid L + 32 * (3 * (k.val + 1) + 1)) := by
        rw [k0_off111_eq L k, Matrix.cons_val_zero]; unfold wid; omega
    have o112 : k0_off112 L k 0 = 400 * (wid L + 32 * (3 * (k.val + 1) + 1)) := by
        rw [k0_off112_eq L k, Matrix.cons_val_zero]; unfold wid; omega
    have o148 : k0_off148 L k 0 = 25600 * (wid L + 32 * (3 * (k.val + 1) + 2)) := by
        rw [k0_off148_eq L k, Matrix.cons_val_zero]; unfold wid; omega
    have o149 : k0_off149 L k 0 = 400 * (wid L + 32 * (3 * (k.val + 1) + 2)) := by
        rw [k0_off149_eq L k, Matrix.cons_val_zero]; unfold wid; omega
    have hc0 : IsChunk d L ff gf ix bufS0 n0 (3 * k.val + 3) :=
      isChunk_of_stage d L ff gf ix TTc bufS0 ixS0 n0 _ _ (3 * k.val + 3) hj3 hTT hn0
        (fun y => by exact landF (F := F) d L ff bufS0 _ (cOff L (3 * k.val + 3)) (cOff_inb L _) (3 * k.val + 3) hj3 (by show 25600 * gOf L _ = _; rw [gOf_eq L hj3]) y)
        (fun r => by exact landI (F := F) d L ix ixS0 _ (iOff L (3 * k.val + 3)) (iOff_inb L _) (3 * k.val + 3) hj3 (by show 400 * gOf L _ = _; rw [gOf_eq L hj3]) r)
    have hc1' : IsChunk d L ff gf ix bufS1 n1 (3 * (k.val + 1) + 1) :=
      isChunk_of_stage d L ff gf ix TTc bufS1 ixS1 n1 _ _ (3 * (k.val + 1) + 1) hj4 hTT hn1
        (fun y => by sl_unfold_run_names; exact landF (F := F) d L ff bufS1 _ (k0_off111 L k) (k0_off111_inb L k k0_h4) (3 * (k.val + 1) + 1) hj4 o111 y)
        (fun r => by sl_unfold_run_names; exact landI (F := F) d L ix ixS1 _ (k0_off112 L k) (k0_off112_inb L k k0_h4) (3 * (k.val + 1) + 1) hj4 o112 r)
    have hc2' : IsChunk d L ff gf ix bufS2 n2 (3 * (k.val + 1) + 2) :=
      isChunk_of_stage d L ff gf ix TTc bufS2 ixS2 n2 _ _ (3 * (k.val + 1) + 2) hj5 hTT hn2
        (fun y => by sl_unfold_run_names; exact landF (F := F) d L ff bufS2 _ (k0_off148 L k) (k0_off148_inb L k k0_h5 k0_h6) (3 * (k.val + 1) + 2) hj5 o148 y)
        (fun r => by sl_unfold_run_names; exact landI (F := F) d L ix ixS2 _ (k0_off149 L k) (k0_off149_inb L k k0_h5 k0_h6) (3 * (k.val + 1) + 2) hj5 o149 r)
    ihave Hd1 := (Entails.of_eq (Dp_agree (F := F) d L ff gf ix (3 * k.val + 1) (by omega) (cOff L (3 * k.val + 1)) (cOff_inb L _)
        (by show 25600 * gOf L _ = _; rw [gOf_eq L hj1]) hj1 _ ?hag1)) $$ Hs7_dst
    case hag1 => intro y; exact (writes_whole_emb (F := F) d _ _ _ _ y).trans (hc1 y)
    ihave Hd2 := (Entails.of_eq (Dp_agree (F := F) d L ff gf ix (3 * k.val + 2) (by omega) (cOff L (3 * k.val + 2)) (cOff_inb L _)
        (by show 25600 * gOf L _ = _; rw [gOf_eq L hj2]) hj2 _ ?hag2)) $$ Hs8_dst
    case hag2 => intro y; exact (writes_whole_emb (F := F) d _ _ _ _ y).trans (hc2 y)
    ihave Hd3 := (Entails.of_eq (Dp_agree (F := F) d L ff gf ix (3 * k.val + 3) (by omega) (k0_off147 L k) (k0_off147_inb L k) o147 hj3 _ ?hag3)) $$ Hpj
    case hag3 => intro y; exact (writes_whole_emb (F := F) d _ _ _ _ y).trans (hc0 y)
    have f1 : 3 * (k.val + 1) + 1 = 3 * k.val + 3 + 1 := by omega
    have f2 : 3 * (k.val + 1) + 2 = 3 * k.val + 3 + 2 := by omega
    have f3 : 3 * (k.val + 1) + 3 = 3 * k.val + 3 + 3 := by omega
    have ht := tail_join (Pp d L fo) (Dp d L ff gf ix) (3 * k.val + 3) (by omega) (by omega)
    rw [e1, e2, ← f1, ← f2, ← f3] at ht
    ihave Hpc := (Entails.of_eq ht) $$ [Hd1 Hd2 Hd3 Hrest]
    · isplitl [Hd1]; · iexact Hd1
      isplitl [Hd2]; · iexact Hd2
      isplitl [Hd3]; · iexact Hd3
      iexact Hrest
    ihave Hs7 := (Entails.of_eq (outFl_congr (F := F) d L _ bufS1 (cOff_eq L hj4 _ o184') (k0_off184_inb L k k0_h5) (cOff_inb L _) fo n1)) $$ Hs7
    ihave Hs8 := (Entails.of_eq (outFl_congr (F := F) d L _ bufS2 (cOff_eq L hj5 _ o221') (k0_off221_inb L k k0_h7) (cOff_inb L _) fo n2)) $$ Hs8
    ihave Hs0 := (Entails.of_eq (inFlF_congr (F := F) d L _ bufS0 (Transfers.shareTokN qf 0) ff (cOff_eq L hj6 _ o185) (k0_off185_inb L k k0_h7 k0_h8) (cOff_inb L _) n0)) $$ Hs0
    ihave Hf0 := (Entails.of_eq (remF_congr (F := F) d L ff (Transfers.shareTokN qf 0) (cOff_eq L hj6 _ o185) (k0_off185_inb L k k0_h7 k0_h8) (cOff_inb L _))) $$ Hf0
    ihave Hs3 := (Entails.of_eq (inFlI_congr (F := F) d L _ ixS0 (Transfers.shareTokN qi 3) ix (iOff_eq L hj6 _ o186) (k0_off186_inb L k k0_h7 k0_h8) (iOff_inb L _) _)) $$ Hs3
    ihave Hi3 := (Entails.of_eq (remI_congr (F := F) d L ix (Transfers.shareTokN qi 3) (iOff_eq L hj6 _ o186) (k0_off186_inb L k k0_h7 k0_h8) (iOff_inb L _))) $$ Hi3
    unfold invA outFl inFlF inFlI landed outside outsideSl
    iexists n1, n2, n0, _, _, _, _
    isplitr
    swap
    · isplitl [Hmw]; · iexact Hmw
      isplitl [HO]; · iexact HO
      isplitl [Ht]; · iexact Ht
      isplitl [Hpc]; · iexact Hpc
      isplitl [Hs7]; · iexact Hs7
      isplitl [Hb1]; · iexact Hb1
      isplitl [Hs8]; · iexact Hs8
      isplitl [Hb2]; · iexact Hb2
      isplitl [Hs0]; · iexact Hs0
      isplitl [Hf0]; · iexact Hf0
      isplitl [Hs3]; · iexact Hs3
      isplitl [Hi3]; · iexact Hi3
      isplitl [Hf1]; · iexact Hf1
      isplitl [Hf2]; · iexact Hf2
      isplitl [Hi4]; · iexact Hi4
      isplitl [Hi5]; · iexact Hi5
      isplitl [Hx1]; · iexact Hx1
      isplitl [Hx2]; · iexact Hx2
      isplitl [Hs1]; · iexact Hs1
      isplitl [Hs2]; · iexact Hs2
      isplitl [Hs4]; · iexact Hs4
      isplitl [Hs5]; · iexact Hs5
      iexact Hs6
    · ipureintro
      refine ⟨fun p hp => ?_, hc1', hc2'⟩
      simp only [Finset.mem_insert] at hp
      rcases hp with rfl | rfl | rfl | rfl | rfl | rfl | rfl | rfl | rfl | hp
      all_goals first | exact .inr rfl | exact hW' p hp
    · intro j; exact landI_lt (F := F) d L ix hix ixS0 _ _ _ j
    · intro j; sl_unfold_run_names; exact landI_lt (F := F) d L ix hix ixS1 _ _ _ j
    · intro j; sl_unfold_run_names; exact landI_lt (F := F) d L ix hix ixS2 _ _ _ j

end Step

end Cert.KernelIdeal.Hand

end
-- ==== Proof.KIStepB.lean ====
/-
  The last trip of the main loop on a tile with 78 chunks: all three slots take their turn, nothing more is fetched;
  afterwards the last three turns are on their way out and every other turn is done.
-/
import proofs.«216121_g54726473285929_cont_9to1_m_355_3_alg».proof.Proof.KIOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KIOff
import proofs.«216121_g54726473285929_cont_9to1_m_355_3_alg».proof.Proof.KIVal
import proofs.«216121_g54726473285929_cont_9to1_m_355_3_alg».proof.Proof.KISep
import proofs.«216121_g54726473285929_cont_9to1_m_355_3_alg».proof.Proof.KIGeom
import proofs.«216121_g54726473285929_cont_9to1_m_355_3_alg».proof.Proof.KIMain
import proofs.«216121_g54726473285929_cont_9to1_m_355_3_alg».proof.Proof.KILoop5
import proofs.«216121_g54726473285929_cont_9to1_m_355_3_alg».proof.Proof.KILoop6
import proofs.«216121_g54726473285929_cont_9to1_m_355_3_alg».proof.Proof.KILoop7

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_78 (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : ¬ k.val + 1 < (k0_t4_loop L).trips) (hnk : nkL L = 78) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · -- the last trip
    have hend : k.val + 1 = (k0_t4_loop L).trips := by omega
    have hpost : ∀ a, invM d L O W ff gf ix fo TTc qf qi (k.val + 1) a = invB d L O W ff gf ix fo TTc qf qi := by
      intro a; unfold invM; rw [if_neg hmid]
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
        rw [k0_off147_eq L k, Matrix.cons_val_zero]; unfold wid; omega
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hPD : ∀ t, nkL L ≤ t → Pp d L fo t = Dp d L ff gf ix t := by
      intro t ht
      unfold Pp Dp tsetN
      by_cases h81 : t < 81
      · rw [dif_pos h81, Cert.Proof.Deal.tset_empty _ (by show 2500 ≤ 2 * (iL L).val + (cL L).val + 32 * t; have := (hnkt t).not.mp (by omega); unfold wid at this; show 2500 ≤ 2 * (L 1).val + (L 0).val + 32 * t; omega)]
        exact pointsTo_congr (fun i hi => absurd hi (Finset.notMem_empty i))
      · rw [dif_neg h81]
        exact pointsTo_congr (fun i hi => absurd hi (Finset.notMem_empty i))
    · -- 78 chunks: turns j, j+1, j+2 all run; only the next fetch into slot 0 is skipped
      have hk24 : 3 * k.val + 6 = nkL L := by omega
      have k0_h4 : k0_cond4 L k = 1#1 := c4.mpr (by omega)
      have k0_h5 : k0_cond5 L k = 1#1 := c5.mpr (by omega)
      have k0_h6 : k0_cond6 L k = 1#1 := c6.mpr (by omega)
      have k0_h7 : k0_cond7 L k = 1#1 := c7.mpr (by omega)
      have k0_n8 : ¬ k0_cond8 L k = 1#1 := fun h => by have := c8.mp h; omega
      have o184 : k0_off184 L k 0 = 25600 * (wid L + 32 * (3 * k.val + 3 + 1)) := by
        rw [k0_off184_eq L k, Matrix.cons_val_zero]; unfold wid; omega
      have o221 : k0_off221 L k 0 = 25600 * (wid L + 32 * (3 * k.val + 3 + 2)) := by
        rw [k0_off221_eq L k, Matrix.cons_val_zero]; unfold wid; omega
      have hj4 : wid L + 32 * (3 * k.val + 3 + 1) < 2500 := (hnkt _).mp (by omega)
      have hj5 : wid L + 32 * (3 * k.val + 3 + 2) < 2500 := (hnkt _).mp (by omega)
      have o111 : k0_off111 L k 0 = 25600 * (wid L + 32 * (3 * k.val + 3 + 1)) := by
        rw [k0_off111_eq L k, Matrix.cons_val_zero]; unfold wid; omega
      have o112 : k0_off112 L k 0 = 400 * (wid L + 32 * (3 * k.val + 3 + 1)) := by
        rw [k0_off112_eq L k, Matrix.cons_val_zero]; unfold wid; omega
      have o148 : k0_off148 L k 0 = 25600 * (wid L + 32 * (3 * k.val + 3 + 2)) := by
        rw [k0_off148_eq L k, Matrix.cons_val_zero]; unfold wid; omega
      have o149 : k0_off149 L k 0 = 400 * (wid L + 32 * (3 * k.val + 3 + 2)) := by
        rw [k0_off149_eq L k, Matrix.cons_val_zero]; unfold wid; omega
      unfold invA k0_t4_body
      iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
      unfold outFl inFlF inFlI landed outside outsideSl
      ihave Hp := (Entails.of_eq hs) $$ Hpc
      icases Hp with ⟨Hpj, Hpj1, Hpj2, Hrest⟩
      ihave Hpj := (Entails.of_eq (Pp_slice (F := F) d L fo (3 * k.val + 3) (by omega) (k0_off147 L k) (k0_off147_inb L k) o147 hj3)) $$ Hpj
      ihave Hpj1 := (Entails.of_eq (Pp_slice (F := F) d L fo (3 * k.val + 3 + 1) (by omega) (k0_off184 L k) (k0_off184_inb L k k0_h5) o184 hj4)) $$ Hpj1
      ihave Hpj2 := (Entails.of_eq (Pp_slice (F := F) d L fo (3 * k.val + 3 + 2) (by omega) (k0_off221 L k) (k0_off221_inb L k k0_h7) o221 hj5)) $$ Hpj2
      sl_exec_parts
      iapply (loop5_spec (F := F) d L _ _ _ ?hX5 _ _ _ _ _ _ _ _ _ _)
      rotate_left
      isplitl [Ht]; · iexact Ht
      isplitl [Hs3_dst]; · iexact Hs3_dst
      isplitl [Hs0_dst]; · iexact Hs0_dst
      iintro %acc5 %n0 ⟨%hn0, Ht, Hx0, Hb0⟩
      sl_exec_parts
      iapply (loop6_spec (F := F) d L _ _ _ ?hX6 _ _ _ _ _ _ _ k k0_h5 _ _ _)
      rotate_left
      isplitl [Ht]; · iexact Ht
      isplitl [Hx1]; · iexact Hx1
      isplitl [Hb1]; · iexact Hb1
      iintro %acc6 %n1 ⟨%hn1, Ht, Hx1, Hb1⟩
      sl_exec_parts
      iapply (loop7_spec (F := F) d L _ _ _ ?hX7 _ _ _ _ _ _ _ k k0_h7 _ _ _)
      rotate_left
      isplitl [Ht]; · iexact Ht
      isplitl [Hx2]; · iexact Hx2
      isplitl [Hb2]; · iexact Hb2
      iintro %acc7 %n2 ⟨%hn2, Ht, Hx2, Hb2⟩
      sl_exec_parts
      sl_step
      rw [hpost]
      sl_unfold_run_names
      have hc0 : IsChunk d L ff gf ix bufS0 n0 (3 * k.val + 3) :=
        isChunk_of_stage d L ff gf ix TTc bufS0 ixS0 n0 _ _ (3 * k.val + 3) hj3 hTT hn0
          (fun y => by exact landF (F := F) d L ff bufS0 _ (cOff L (3 * k.val + 3)) (cOff_inb L _) (3 * k.val + 3) hj3 (by show 25600 * gOf L _ = _; rw [gOf_eq L hj3]) y)
          (fun r => by exact landI (F := F) d L ix ixS0 _ (iOff L (3 * k.val + 3)) (iOff_inb L _) (3 * k.val + 3) hj3 (by show 400 * gOf L _ = _; rw [gOf_eq L hj3]) r)
      have hc1' : IsChunk d L ff gf ix bufS1 n1 (3 * k.val + 3 + 1) :=
        isChunk_of_stage d L ff gf ix TTc bufS1 ixS1 n1 _ _ (3 * k.val + 3 + 1) hj4 hTT hn1
          (fun y => by sl_unfold_run_names; exact landF (F := F) d L ff bufS1 _ (k0_off111 L k) (k0_off111_inb L k k0_h4) (3 * k.val + 3 + 1) hj4 o111 y)
          (fun r => by sl_unfold_run_names; exact landI (F := F) d L ix ixS1 _ (k0_off112 L k) (k0_off112_inb L k k0_h4) (3 * k.val + 3 + 1) hj4 o112 r)
      have hc2' : IsChunk d L ff gf ix bufS2 n2 (3 * k.val + 3 + 2) :=
        isChunk_of_stage d L ff gf ix TTc bufS2 ixS2 n2 _ _ (3 * k.val + 3 + 2) hj5 hTT hn2
          (fun y => by sl_unfold_run_names; exact landF (F := F) d L ff bufS2 _ (k0_off148 L k) (k0_off148_inb L k k0_h5 k0_h6) (3 * k.val + 3 + 2) hj5 o148 y)
          (fun r => by sl_unfold_run_names; exact landI (F := F) d L ix ixS2 _ (k0_off149 L k) (k0_off149_inb L k k0_h5 k0_h6) (3 * k.val + 3 + 2) hj5 o149 r)
      ihave Hd1 := (Entails.of_eq (Dp_agree (F := F) d L ff gf ix (3 * k.val + 1) (by omega) (cOff L (3 * k.val + 1)) (cOff_inb L _)
          (by show 25600 * gOf L _ = _; rw [gOf_eq L hj1]) hj1 _ ?hag1)) $$ Hs7_dst
      case hag1 => intro y; exact (writes_whole_emb (F := F) d _ _ _ _ y).trans (hc1 y)
      ihave Hd2 := (Entails.of_eq (Dp_agree (F := F) d L ff gf ix (3 * k.val + 2) (by omega) (cOff L (3 * k.val + 2)) (cOff_inb L _)
          (by show 25600 * gOf L _ = _; rw [gOf_eq L hj2]) hj2 _ ?hag2)) $$ Hs8_dst
      case hag2 => intro y; exact (writes_whole_emb (F := F) d _ _ _ _ y).trans (hc2 y)
      have hf := fin_b (Pp d L fo) (Dp d L ff gf ix) (3 * k.val + 3) (nkL L) (by omega) (by omega) (by omega) hPD
      rw [e1, e2] at hf
      ihave Hpc := (Entails.of_eq hf) $$ [Hd1 Hd2 Hrest]
      · isplitl [Hd1]; · iexact Hd1
        isplitl [Hd2]; · iexact Hd2
        iexact Hrest
      ihave Hs6 := (Entails.of_eq (outFl_congr (F := F) d L _ bufS0 (cOff_eq L hj3 _ o147) (k0_off147_inb L k) (cOff_inb L _) fo n0)) $$ Hs6
      ihave Hs7 := (Entails.of_eq (outFl_congr (F := F) d L _ bufS1 (cOff_eq L hj4 _ o184) (k0_off184_inb L k k0_h5) (cOff_inb L _) fo n1)) $$ Hs7
      ihave Hs8 := (Entails.of_eq (outFl_congr (F := F) d L _ bufS2 (cOff_eq L hj5 _ o221) (k0_off221_inb L k k0_h7) (cOff_inb L _) fo n2)) $$ Hs8
      unfold invB outFl outside
      iexists (3 * k.val + 3), (3 * k.val + 3 + 1), (3 * k.val + 3 + 2), n0, n1, n2, _, _, _, _
      isplitr
      swap
      ·
        isplitl [Hmw]; · iexact Hmw
        isplitl [HO]; · iexact HO
        isplitl [Ht]; · iexact Ht
        isplitl [Hpc]; · iexact Hpc
        isplitl [Hs6]; · iexact Hs6
        isplitl [Hb0]; · iexact Hb0
        isplitl [Hs7]; · iexact Hs7
        isplitl [Hb1]; · iexact Hb1
        isplitl [Hs8]; · iexact Hs8
        isplitl [Hb2]; · iexact Hb2
        isplitl [Hf0]; · iexact Hf0
        isplitl [Hf1]; · iexact Hf1
        isplitl [Hf2]; · iexact Hf2
        isplitl [Hi3]; · iexact Hi3
        isplitl [Hi4]; · iexact Hi4
        isplitl [Hi5]; · iexact Hi5
        isplitl [Hx0]; · iexact Hx0
        isplitl [Hx1]; · iexact Hx1
        isplitl [Hx2]; · iexact Hx2
        isplitl [Hs0]; · iexact Hs0
        isplitl [Hs1]; · iexact Hs1
        isplitl [Hs2]; · iexact Hs2
        isplitl [Hs3]; · iexact Hs3
        isplitl [Hs4]; · iexact Hs4
        iexact Hs5
      · ipureintro
        refine ⟨?_, by omega, by omega, by omega, by omega, by omega, by omega, hc0, hc1', hc2'⟩
        first | exact hW' | exact ins_ok W (ins_ok W (ins_ok W hW' _) _) _ | exact ins_ok W (ins_ok W (ins_ok W (ins_ok W (ins_ok W (ins_ok W (ins_ok W (ins_ok W hW' _) _) _) _) _) _) _) _ | exact ins_ok W (ins_ok W (ins_ok W (ins_ok W (ins_ok W (ins_ok W (ins_ok W (ins_ok W (ins_ok W hW' _) _) _) _) _) _) _) _) _ | exact ins_ok W (ins_ok W (ins_ok W (ins_ok W (ins_ok W (ins_ok W (ins_ok W hW' _) _) _) _) _) _) _ | exact ins_ok W (ins_ok W (ins_ok W (ins_ok W (ins_ok W (ins_ok W hW' _) _) _) _) _) _ | exact ins_ok W (ins_ok W (ins_ok W (ins_ok W (ins_ok W hW' _) _) _) _) _ | exact ins_ok W (ins_ok W (ins_ok W (ins_ok W hW' _) _) _) _ | exact ins_ok W (ins_ok W hW' _) _ | exact ins_ok W hW' _
      · intro j; exact landI_lt (F := F) d L ix hix ixS0 _ _ _ j
      · intro j; sl_unfold_run_names; exact landI_lt (F := F) d L ix hix ixS1 _ _ _ j
      · intro j; sl_unfold_run_names; exact landI_lt (F := F) d L ix hix ixS2 _ _ _ j

end Step

end Cert.KernelIdeal.Hand

end
-- ==== Proof.KIStepC.lean ====
/-
  The last trip of the main loop on a tile with 79 chunks: only slot 0 takes its turn; afterwards the last three
  turns are on their way out (two of them since the previous trip) and every other turn is done.
-/
import proofs.«216121_g54726473285929_cont_9to1_m_355_3_alg».proof.Proof.KIOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KIOff
import proofs.«216121_g54726473285929_cont_9to1_m_355_3_alg».proof.Proof.KIVal
import proofs.«216121_g54726473285929_cont_9to1_m_355_3_alg».proof.Proof.KISep
import proofs.«216121_g54726473285929_cont_9to1_m_355_3_alg».proof.Proof.KIGeom
import proofs.«216121_g54726473285929_cont_9to1_m_355_3_alg».proof.Proof.KIMain
import proofs.«216121_g54726473285929_cont_9to1_m_355_3_alg».proof.Proof.KILoop5
import proofs.«216121_g54726473285929_cont_9to1_m_355_3_alg».proof.Proof.KILoop6
import proofs.«216121_g54726473285929_cont_9to1_m_355_3_alg».proof.Proof.KILoop7

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

set_option maxHeartbeats 16000000 in
set_option maxRecDepth 200000 in
theorem main_step_79 (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) (hmid : ¬ k.val + 1 < (k0_t4_loop L).trips) (hnk : nkL L = 79) :
    invA d L O W ff gf ix fo TTc qf qi k
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  obtain ⟨hwid, hnk', hnkt⟩ := nk_cases L
  have htr := trips_eq L
  have hk : k.val < (k0_t4_loop L).trips := k.isLt
  obtain ⟨c4, c5, c6, c7, c8⟩ := cond_facts L k
  · -- the last trip
    have hend : k.val + 1 = (k0_t4_loop L).trips := by omega
    have hpost : ∀ a, invM d L O W ff gf ix fo TTc qf qi (k.val + 1) a = invB d L O W ff gf ix fo TTc qf qi := by
      intro a; unfold invM; rw [if_neg hmid]
    have e1 : 3 * k.val + 3 - 2 = 3 * k.val + 1 := by omega
    have e2 : 3 * k.val + 3 - 1 = 3 * k.val + 2 := by omega
    have hs := head_split (Pp d L fo) (Dp d L ff gf ix) (3 * k.val + 3) (by omega) (by omega)
    rw [e1, e2] at hs
    have o147 : k0_off147 L k 0 = 25600 * (wid L + 32 * (3 * k.val + 3)) := by
      rw [k0_off147_eq L k, Matrix.cons_val_zero]
      unfold wid; omega
    have hj1 : wid L + 32 * (3 * k.val + 1) < 2500 := (hnkt _).mp (by omega)
    have hj2 : wid L + 32 * (3 * k.val + 2) < 2500 := (hnkt _).mp (by omega)
    have hj3 : wid L + 32 * (3 * k.val + 3) < 2500 := (hnkt _).mp (by omega)
    have hPD : ∀ t, nkL L ≤ t → Pp d L fo t = Dp d L ff gf ix t := by
      intro t ht
      unfold Pp Dp tsetN
      by_cases h81 : t < 81
      · rw [dif_pos h81, Cert.Proof.Deal.tset_empty _ (by show 2500 ≤ 2 * (iL L).val + (cL L).val + 32 * t; have := (hnkt t).not.mp (by omega); unfold wid at this; show 2500 ≤ 2 * (L 1).val + (L 0).val + 32 * t; omega)]
        exact pointsTo_congr (fun i hi => absurd hi (Finset.notMem_empty i))
      · rw [dif_neg h81]
        exact pointsTo_congr (fun i hi => absurd hi (Finset.notMem_empty i))
    · -- 79 chunks: only turn j runs
      have hk25 : 3 * k.val + 4 = nkL L := by omega
      have k0_n4 : ¬ k0_cond4 L k = 1#1 := fun h => by have := c4.mp h; omega
      have k0_n5 : ¬ k0_cond5 L k = 1#1 := fun h => by have := c5.mp h; omega
      have k0_n7 : ¬ k0_cond7 L k = 1#1 := fun h => by have := c7.mp h; omega
      unfold invA k0_t4_body
      iintro ⟨%g1, %g2, %b0, %x0, %x1, %x2, %W', ⟨%hW', %hc1, %hc2⟩, Hmw, HO, Ht, Hpc, Hs7, Hb1, Hs8, Hb2, Hs0, Hf0, Hs3, Hi3, Hf1, Hf2, Hi4, Hi5, Hx1, Hx2, Hs1, Hs2, Hs4, Hs5, Hs6⟩
      ihave Hp := (Entails.of_eq hs) $$ Hpc
      icases Hp with ⟨Hpj, Hpj1, Hpj2, Hrest⟩
      ihave Hpj := (Entails.of_eq (Pp_slice (F := F) d L fo (3 * k.val + 3) (by omega) (k0_off147 L k) (k0_off147_inb L k) o147 hj3)) $$ Hpj
      sl_exec_parts
      iapply (loop5_spec (F := F) d L _ _ _ ?hX5 _ _ _ _ _ _ _ _ _ _)
      rotate_left
      isplitl [Ht]; · iexact Ht
      isplitl [Hs3_dst]; · iexact Hs3_dst
      isplitl [Hs0_dst]; · iexact Hs0_dst
      iintro %acc5 %n0 ⟨%hn0, Ht, Hx0, Hb0⟩
      sl_exec_parts
      sl_step
      rw [hpost]
      sl_unfold_run_names
      have hc0 : IsChunk d L ff gf ix bufS0 n0 (3 * k.val + 3) :=
        isChunk_of_stage d L ff gf ix TTc bufS0 ixS0 n0 _ _ (3 * k.val + 3) hj3 hTT hn0
          (fun y => landF d L ff bufS0 b0 (cOff L (3 * k.val + 3)) (cOff_inb L _) (3 * k.val + 3) hj3
            ((congrFun (cOff_eq L hj3 (k0_off147 L k) o147) 0).symm.trans o147) y)
          (fun r => landI d L ix ixS0 x0 (iOff L (3 * k.val + 3)) (iOff_inb L _) (3 * k.val + 3) hj3
            (by show 400 * gOf L (3 * k.val + 3) = _; rw [gOf_eq L hj3]) r)
      have hf := fin_a (Pp d L fo) (Dp d L ff gf ix) (3 * k.val + 3) (nkL L) (by omega) (by omega) (by omega) hPD
      rw [e1, e2] at hf
      ihave Hpc := (Entails.of_eq hf) $$ [Hpj1 Hpj2 Hrest]
      · isplitl [Hpj1]; · iexact Hpj1
        isplitl [Hpj2]; · iexact Hpj2
        iexact Hrest
      have hset : (Finset.range 81 \ {3 * k.val + 1, 3 * k.val + 2, 3 * k.val + 3} : Finset ℕ)
          = Finset.range 81 \ {3 * k.val + 3, 3 * k.val + 1, 3 * k.val + 2} := by
        ext t
        simp only [Finset.mem_sdiff, Finset.mem_range, Finset.mem_insert, Finset.mem_singleton]
        constructor <;> rintro ⟨h1, h2⟩ <;> exact ⟨h1, by omega⟩
      ihave Hpc := (Entails.of_eq (congrArg (fun S => bigSep S (Dp d L ff gf ix)) hset)) $$ Hpc
      ihave Hs6 := (Entails.of_eq (outFl_congr (F := F) d L _ bufS0 (cOff_eq L hj3 _ o147) (k0_off147_inb L k) (cOff_inb L _) fo n0)) $$ Hs6
      ihave Hf0 := ((pointsTo_split_subset (ℓ := (featV).view.loc (thrV d L)) (q := Transfers.shareTokN qf 0) (f := ff)
          (Finset.subset_univ (fSl (cOff L (3 * k.val + 3)) (cOff_inb L _)).view.set)).2) $$ [Hs0_src Hf0]
      · isplitl [Hs0_src]; · iexact Hs0_src
        iexact Hf0
      ihave Hi3 := ((pointsTo_split_subset (ℓ := (idxV).view.loc (thrV d L)) (q := Transfers.shareTokN qi 3) (f := ix)
          (Finset.subset_univ (iSl (iOff L (3 * k.val + 3)) (iOff_inb L _)).view.set)).2) $$ [Hs3_src Hi3]
      · isplitl [Hs3_src]; · iexact Hs3_src
        iexact Hi3
      unfold invB
      iexists (3 * k.val + 3), (3 * k.val + 1), (3 * k.val + 2), n0, g1, g2, _, _, _, _
      isplitr
      swap
      ·
        isplitl [Hmw]; · iexact Hmw
        isplitl [HO]; · iexact HO
        isplitl [Ht]; · iexact Ht
        isplitl [Hpc]; · iexact Hpc
        isplitl [Hs6]; · iexact Hs6
        isplitl [Hb0]; · iexact Hb0
        isplitl [Hs7]; · iexact Hs7
        isplitl [Hb1]; · iexact Hb1
        isplitl [Hs8]; · iexact Hs8
        isplitl [Hb2]; · iexact Hb2
        isplitl [Hf0]; · iexact Hf0
        isplitl [Hf1]; · iexact Hf1
        isplitl [Hf2]; · iexact Hf2
        isplitl [Hi3]; · iexact Hi3
        isplitl [Hi4]; · iexact Hi4
        isplitl [Hi5]; · iexact Hi5
        isplitl [Hx0]; · iexact Hx0
        isplitl [Hx1]; · iexact Hx1
        isplitl [Hx2]; · iexact Hx2
        isplitl [Hs0]; · iexact Hs0
        isplitl [Hs1]; · iexact Hs1
        isplitl [Hs2]; · iexact Hs2
        isplitl [Hs3]; · iexact Hs3
        isplitl [Hs4]; · iexact Hs4
        iexact Hs5
      · ipureintro
        refine ⟨?_, by omega, by omega, by omega, by omega, by omega, by omega, hc0, hc1, hc2⟩
        exact ins_ok W (ins_ok W hW' _) _
      · intro j; exact landI_lt (F := F) d L ix hix ixS0 _ _ _ j

end Step

end Cert.KernelIdeal.Hand

end
-- ==== Proof.KIStep.lean ====
/-
  One trip of the main loop keeps its invariant: by cases on whether the trip is the last, and on the tile's number
  of chunks.
-/
import proofs.«216121_g54726473285929_cont_9to1_m_355_3_alg».proof.Proof.KIOwn
import proofs.«216121_g54726473285929_cont_9to1_m_355_3_alg».proof.Proof.FlatSpec
import proofs.«216121_g54726473285929_cont_9to1_m_355_3_alg».proof.Proof.Deal
import proofs.«216121_g54726473285929_cont_9to1_m_355_3_alg».proof.Proof.KIOff
import proofs.«216121_g54726473285929_cont_9to1_m_355_3_alg».proof.Proof.KIVal
import proofs.«216121_g54726473285929_cont_9to1_m_355_3_alg».proof.Proof.KISep
import proofs.«216121_g54726473285929_cont_9to1_m_355_3_alg».proof.Proof.KIGeom
import proofs.«216121_g54726473285929_cont_9to1_m_355_3_alg».proof.Proof.KIMain
import proofs.«216121_g54726473285929_cont_9to1_m_355_3_alg».proof.Proof.KIStepA
import proofs.«216121_g54726473285929_cont_9to1_m_355_3_alg».proof.Proof.KIStepB
import proofs.«216121_g54726473285929_cont_9to1_m_355_3_alg».proof.Proof.KIStepC

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Step
variable (d : Dev nD) (L : grid0.Coords) (O : CellTallies nD τ sig (HIx 1)) (W : Waits sig (HIx 1))
  (ff : Buf (Elt F) (fLoc d)) (gf : Buf (Elt F) (gLoc d)) (ix : Buf (Elt F) (iLoc d)) (fo : Buf (Elt F) (oLoc d))
  (TTc : Buf (Elt F) ((tabS).view.loc (thrV d L))) (qf qi : PosShare TreeShare)

/-- One trip of the main loop keeps its invariant. -/
theorem main_step (hix : ∀ j, BitVec.toNat (ix j) < 16) (hTT : ∀ z, (tabS).view.read (Elt F) TTc z = gf z)
    (v1 v21 v90 c3_i32_55 v91 v93 c0_i32_57 : BitVec 32)
    (k : Fin (Scf.trips (k0_t4_loop L).lb (k0_t4_loop L).ub (k0_t4_loop L).st)) (acc : BitVec 32) :
    invM d L O W ff gf ix fo TTc qf qi k acc
      ⊢ wp frame (wpE (defs₀ (F := F)) 𝒱₀ (thrV d L) none) Set.univ
          (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 v90 c3_i32_55 v91 v93 c0_i32_57 k acc)
          (invM d L O W ff gf ix fo TTc qf qi (k.val + 1)) := by
  have hk : k.val < (k0_t4_loop L).trips := k.isLt
  have hpre : invM d L O W ff gf ix fo TTc qf qi k acc = invA d L O W ff gf ix fo TTc qf qi k := by
    unfold invM; rw [if_pos hk]
  rw [hpre]
  by_cases hmid : k.val + 1 < (k0_t4_loop L).trips
  · exact main_step_mid d L O W ff gf ix fo TTc qf qi hix hTT v1 v21 v90 c3_i32_55 v91 v93 c0_i32_57 k acc hmid
  · rcases (nk_cases L).2.1 with h | h
    · exact main_step_78 d L O W ff gf ix fo TTc qf qi hix hTT v1 v21 v90 c3_i32_55 v91 v93 c0_i32_57 k acc hmid h
    · exact main_step_79 d L O W ff gf ix fo TTc qf qi hix hTT v1 v21 v90 c3_i32_55 v91 v93 c0_i32_57 k acc hmid h

end Step

end Cert.KernelIdeal.Hand

end
-- ==== Proof.KILoop1.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS0).view.loc (thrV d L)))
  (B : Buf (Elt F) ((bufS0).view.loc (thrV d L)))

/-- Before trip k: the table and the indices as they were, the row buffer at stage 16 k. -/
def inv1 (k : Nat) (_ : BitVec 32) : sProp 𝕄 :=
  iprop(((tabS).view.loc (thrV d L) ↦{fullShare} TT) ∗ ((ixS0).view.loc (thrV d L) ↦{fullShare} X)
    ∗ ∃ f, ((bufS0).view.loc (thrV d L) ↦{fullShare} f)
        ∗ ⌜∀ y, (bufS0).view.read (Elt F) f y
            = stage ((bufS0).view.read (Elt F) B) ((tabS).view.read (Elt F) TT) ((ixS0).view.read (Elt F) X) (16 * k) y⌝)

set_option maxHeartbeats 16000000 in
/-- One trip keeps the invariant. -/
theorem step1 (hX : ∀ j, BitVec.toNat ((ixS0).view.read (Elt F) X j) < 16) (v1 v21 : BitVec 32)
    (k : Fin (Scf.trips k0_t1_loop.lb k0_t1_loop.ub k0_t1_loop.st)) (acc : BitVec 32) :
    inv1 d L TT X B k acc
      ⊢ wp frame (wpE (defs₀ (F := F)) 𝒱₀ (thrV d L) none) Set.univ
          (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 k acc) (inv1 d L TT X B (k.val + 1)) := by
  have hk : k.val < 25 := Nat.lt_of_lt_of_le k.isLt k0_t1_abs.2.1
  unfold inv1 k0_t1_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS0).view f _ _ _ k.val _ rfl hf ?_
  exact ⟨
    ⟨(cf0 (k0_off38 k 48#32)).trans (by show 1024 * k.val + 16 * 3 + 960 = 1024 * k.val + 16 * 63; omega), rfl, rfl, fun x =>
      piece_agree (bufS0).view (tabS).view (ixS0).view f TT X _ k.val 15 3 hk (by omega) (by omega) hf hX (k0_off38 k 48#32) (k0_off38 k 48#32) (k0_off5 k)
        (k0_off38_inb k 3) (k0_off38_inb k 3) (k0_off5_inb k)
        ((cf0 (k0_off38 k 48#32)).trans (by show 1024 * k.val + 16 * 3 + 960 = _; omega)) ((cf0 (k0_off38 k 48#32)).trans (by show 1024 * k.val + 16 * 3 + 960 = _; omega)) ((cf0 (k0_off5 k)).trans (by show 16 * k.val = _; omega))
        _ 48#32 (by decide) _ _ (by first | rfl | rw [Shape.reshapeEquiv_self]) rfl x⟩,
    ⟨(cf0 (k0_off38 k 32#32)).trans (by show 1024 * k.val + 16 * 2 + 960 = 1024 * k.val + 16 * 62; omega), rfl, rfl, fun x =>
      piece_agree (bufS0).view (tabS).view (ixS0).view f TT X _ k.val 15 2 hk (by omega) (by omega) hf hX (k0_off38 k 32#32) (k0_off38 k 32#32) (k0_off5 k)
        (k0_off38_inb k 2) (k0_off38_inb k 2) (k0_off5_inb k)
        ((cf0 (k0_off38 k 32#32)).trans (by show 1024 * k.val + 16 * 2 + 960 = _; omega)) ((cf0 (k0_off38 k 32#32)).trans (by show 1024 * k.val + 16 * 2 + 960 = _; omega)) ((cf0 (k0_off5 k)).trans (by show 16 * k.val = _; omega))
        _ 32#32 (by decide) _ _ (by first | rfl | rw [Shape.reshapeEquiv_self]) rfl x⟩,
    ⟨(cf0 (k0_off38 k 16#32)).trans (by show 1024 * k.val + 16 * 1 + 960 = 1024 * k.val + 16 * 61; omega), rfl, rfl, fun x =>
      piece_agree (bufS0).view (tabS).view (ixS0).view f TT X _ k.val 15 1 hk (by omega) (by omega) hf hX (k0_off38 k 16#32) (k0_off38 k 16#32) (k0_off5 k)
        (k0_off38_inb k 1) (k0_off38_inb k 1) (k0_off5_inb k)
        ((cf0 (k0_off38 k 16#32)).trans (by show 1024 * k.val + 16 * 1 + 960 = _; omega)) ((cf0 (k0_off38 k 16#32)).trans (by show 1024 * k.val + 16 * 1 + 960 = _; omega)) ((cf0 (k0_off5 k)).trans (by show 16 * k.val = _; omega))
        _ 16#32 (by decide) _ _ (by first | rfl | rw [Shape.reshapeEquiv_self]) rfl x⟩,
    ⟨(cf0 (k0_off38 k 0#32)).trans (by show 1024 * k.val + 16 * 0 + 960 = 1024 * k.val + 16 * 60; omega), rfl, rfl, fun x =>
      piece_agree (bufS0).view (tabS).view (ixS0).view f TT X _ k.val 15 0 hk (by omega) (by omega) hf hX (k0_off38 k 0#32) (k0_off36 k 960#32 0#32) (k0_off5 k)
        (k0_off38_inb k 0) (k0_off36_inb k 4) (k0_off5_inb k)
        ((cf0 (k0_off38 k 0#32)).trans (by show 1024 * k.val + 16 * 0 + 960 = _; omega)) ((cf0 (k0_off36 k 960#32 0#32)).trans (by show 1024 * k.val + 960 = _; omega)) ((cf0 (k0_off5 k)).trans (by show 16 * k.val = _; omega))
        _ 0#32 (by decide) _ _ (by first | rfl | rw [Shape.reshapeEquiv_self]) rfl x⟩,
    ⟨(cf0 (k0_off36 k 896#32 48#32)).trans (by show 1024 * k.val + 944 = 1024 * k.val + 16 * 59; omega), rfl, rfl, fun x =>
      piece_agree (bufS0).view (tabS).view (ixS0).view f TT X _ k.val 14 3 hk (by omega) (by omega) hf hX (k0_off36 k 896#32 48#32) (k0_off36 k 896#32 48#32) (k0_off5 k)
        (k0_off36_inb k 3) (k0_off36_inb k 3) (k0_off5_inb k)
        ((cf0 (k0_off36 k 896#32 48#32)).trans (by show 1024 * k.val + 944 = _; omega)) ((cf0 (k0_off36 k 896#32 48#32)).trans (by show 1024 * k.val + 944 = _; omega)) ((cf0 (k0_off5 k)).trans (by show 16 * k.val = _; omega))
        _ 48#32 (by decide) _ _ (by first | rfl | rw [Shape.reshapeEquiv_self]) rfl x⟩,
    ⟨(cf0 (k0_off36 k 896#32 32#32)).trans (by show 1024 * k.val + 928 = 1024 * k.val + 16 * 58; omega), rfl, rfl, fun x =>
      piece_agree (bufS0).view (tabS).view (ixS0).view f TT X _ k.val 14 2 hk (by omega) (by omega) hf hX (k0_off36 k 896#32 32#32) (k0_off36 k 896#32 32#32) (k0_off5 k)
        (k0_off36_inb k 2) (k0_off36_inb k 2) (k0_off5_inb k)
        ((cf0 (k0_off36 k 896#32 32#32)).trans (by show 1024 * k.val + 928 = _; omega)) ((cf0 (k0_off36 k 896#32 32#32)).trans (by show 1024 * k.val + 928 = _; omega)) ((cf0 (k0_off5 k)).trans (by show 16 * k.val = _; omega))
        _ 32#32 (by decide) _ _ (by first | rfl | rw [Shape.reshapeEquiv_self]) rfl x⟩,
    ⟨(cf0 (k0_off36 k 896#32 16#32)).trans (by show 1024 * k.val + 912 = 1024 * k.val + 16 * 57; omega), rfl, rfl, fun x =>
      piece_agree (bufS0).view (tabS).view (ixS0).view f TT X _ k.val 14 1 hk (by omega) (by omega) hf hX (k0_off36 k 896#32 16#32) (k0_off36 k 896#32 16#32) (k0_off5 k)
        (k0_off36_inb k 1) (k0_off36_inb k 1) (k0_off5_inb k)
        ((cf0 (k0_off36 k 896#32 16#32)).trans (by show 1024 * k.val + 912 = _; omega)) ((cf0 (k0_off36 k 896#32 16#32)).trans (by show 1024 * k.val + 912 = _; omega)) ((cf0 (k0_off5 k)).trans (by show 16 * k.val = _; omega))
        _ 16#32 (by decide) _ _ (by first | rfl | rw [Shape.reshapeEquiv_self]) rfl x⟩,
    ⟨(cf0 (k0_off36 k 896#32 0#32)).trans (by show 1024 * k.val + 896 = 1024 * k.val + 16 * 56; omega), rfl, rfl, fun x =>
      piece_agree (bufS0).view (tabS).view (ixS0).view f TT X _ k.val 14 0 hk (by omega) (by omega) hf hX (k0_off36 k 896#32 0#32) (k0_off34 k 896#32 0#32) (k0_off5 k)
        (k0_off36_inb k 0) (k0_off34_inb k 4) (k0_off5_inb k)
        ((cf0 (k0_off36 k 896#32 0#32)).trans (by show 1024 * k.val + 896 = _; omega)) ((cf0 (k0_off34 k 896#32 0#32)).trans (by show 1024 * k.val + 896 = _; omega)) ((cf0 (k0_off5 k)).trans (by show 16 * k.val = _; omega))
        _ 0#32 (by decide) _ _ (by first | rfl | rw [Shape.reshapeEquiv_self]) rfl x⟩,
    ⟨(cf0 (k0_off34 k 832#32 48#32)).trans (by show 1024 * k.val + 880 = 1024 * k.val + 16 * 55; omega), rfl, rfl, fun x =>
      piece_agree (bufS0).view (tabS).view (ixS0).view f TT X _ k.val 13 3 hk (by omega) (by omega) hf hX (k0_off34 k 832#32 48#32) (k0_off34 k 832#32 48#32) (k0_off5 k)
        (k0_off34_inb k 3) (k0_off34_inb k 3) (k0_off5_inb k)
        ((cf0 (k0_off34 k 832#32 48#32)).trans (by show 1024 * k.val + 880 = _; omega)) ((cf0 (k0_off34 k 832#32 48#32)).trans (by show 1024 * k.val + 880 = _; omega)) ((cf0 (k0_off5 k)).trans (by show 16 * k.val = _; omega))
        _ 48#32 (by decide) _ _ (by first | rfl | rw [Shape.reshapeEquiv_self]) rfl x⟩,
    ⟨(cf0 (k0_off34 k 832#32 32#32)).trans (by show 1024 * k.val + 864 = 1024 * k.val + 16 * 54; omega), rfl, rfl, fun x =>
      piece_agree (bufS0).view (tabS).view (ixS0).view f TT X _ k.val 13 2 hk (by omega) (by omega) hf hX (k0_off34 k 832#32 32#32) (k0_off34 k 832#32 32#32) (k0_off5 k)
        (k0_off34_inb k 2) (k0_off34_inb k 2) (k0_off5_inb k)
        ((cf0 (k0_off34 k 832#32 32#32)).trans (by show 1024 * k.val + 864 = _; omega)) ((cf0 (k0_off34 k 832#32 32#32)).trans (by show 1024 * k.val + 864 = _; omega)) ((cf0 (k0_off5 k)).trans (by show 16 * k.val = _; omega))
        _ 32#32 (by decide) _ _ (by first | rfl | rw [Shape.reshapeEquiv_self]) rfl x⟩,
    ⟨(cf0 (k0_off34 k 832#32 16#32)).trans (by show 1024 * k.val + 848 = 1024 * k.val + 16 * 53; omega), rfl, rfl, fun x =>
      piece_agree (bufS0).view (tabS).view (ixS0).view f TT X _ k.val 13 1 hk (by omega) (by omega) hf hX (k0_off34 k 832#32 16#32) (k0_off34 k 832#32 16#32) (k0_off5 k)
        (k0_off34_inb k 1) (k0_off34_inb k 1) (k0_off5_inb k)
        ((cf0 (k0_off34 k 832#32 16#32)).trans (by show 1024 * k.val + 848 = _; omega)) ((cf0 (k0_off34 k 832#32 16#32)).trans (by show 1024 * k.val + 848 = _; omega)) ((cf0 (k0_off5 k)).trans (by show 16 * k.val = _; omega))
        _ 16#32 (by decide) _ _ (by first | rfl | rw [Shape.reshapeEquiv_self]) rfl x⟩,
    ⟨(cf0 (k0_off34 k 832#32 0#32)).trans (by show 1024 * k.val + 832 = 1024 * k.val + 16 * 52; omega), rfl, rfl, fun x =>
      piece_agree (bufS0).view (tabS).view (ixS0).view f TT X _ k.val 13 0 hk (by omega) (by omega) hf hX (k0_off34 k 832#32 0#32) (k0_off32 k 832#32 0#32) (k0_off5 k)
        (k0_off34_inb k 0) (k0_off32_inb k 4) (k0_off5_inb k)
        ((cf0 (k0_off34 k 832#32 0#32)).trans (by show 1024 * k.val + 832 = _; omega)) ((cf0 (k0_off32 k 832#32 0#32)).trans (by show 1024 * k.val + 832 = _; omega)) ((cf0 (k0_off5 k)).trans (by show 16 * k.val = _; omega))
        _ 0#32 (by decide) _ _ (by first | rfl | rw [Shape.reshapeEquiv_self]) rfl x⟩,
    ⟨(cf0 (k0_off32 k 768#32 48#32)).trans (by show 1024 * k.val + 816 = 1024 * k.val + 16 * 51; omega), rfl, rfl, fun x =>
      piece_agree (bufS0).view (tabS).view (ixS0).view f TT X _ k.val 12 3 hk (by omega) (by omega) hf hX (k0_off32 k 768#32 48#32) (k0_off32 k 768#32 48#32) (k0_off5 k)
        (k0_off32_inb k 3) (k0_off32_inb k 3) (k0_off5_inb k)
        ((cf0 (k0_off32 k 768#32 48#32)).trans (by show 1024 * k.val + 816 = _; omega)) ((cf0 (k0_off32 k 768#32 48#32)).trans (by show 1024 * k.val + 816 = _; omega)) ((cf0 (k0_off5 k)).trans (by show 16 * k.val = _; omega))
        _ 48#32 (by decide) _ _ (by first | rfl | rw [Shape.reshapeEquiv_self]) rfl x⟩,
    ⟨(cf0 (k0_off32 k 768#32 32#32)).trans (by show 1024 * k.val + 800 = 1024 * k.val + 16 * 50; omega), rfl, rfl, fun x =>
      piece_agree (bufS0).view (tabS).view (ixS0).view f TT X _ k.val 12 2 hk (by omega) (by omega) hf hX (k0_off32 k 768#32 32#32) (k0_off32 k 768#32 32#32) (k0_off5 k)
        (k0_off32_inb k 2) (k0_off32_inb k 2) (k0_off5_inb k)
        ((cf0 (k0_off32 k 768#32 32#32)).trans (by show 1024 * k.val + 800 = _; omega)) ((cf0 (k0_off32 k 768#32 32#32)).trans (by show 1024 * k.val + 800 = _; omega)) ((cf0 (k0_off5 k)).trans (by show 16 * k.val = _; omega))
        _ 32#32 (by decide) _ _ (by first | rfl | rw [Shape.reshapeEquiv_self]) rfl x⟩,
    ⟨(cf0 (k0_off32 k 768#32 16#32)).trans (by show 1024 * k.val + 784 = 1024 * k.val + 16 * 49; omega), rfl, rfl, fun x =>
      piece_agree (bufS0).view (tabS).view (ixS0).view f TT X _ k.val 12 1 hk (by omega) (by omega) hf hX (k0_off32 k 768#32 16#32) (k0_off32 k 768#32 16#32) (k0_off5 k)
        (k0_off32_inb k 1) (k0_off32_inb k 1) (k0_off5_inb k)
        ((cf0 (k0_off32 k 768#32 16#32)).trans (by show 1024 * k.val + 784 = _; omega)) ((cf0 (k0_off32 k 768#32 16#32)).trans (by show 1024 * k.val + 784 = _; omega)) ((cf0 (k0_off5 k)).trans (by show 16 * k.val = _; omega))
        _ 16#32 (by decide) _ _ (by first | rfl | rw [Shape.reshapeEquiv_self]) rfl x⟩,
    ⟨(cf0 (k0_off32 k 768#32 0#32)).trans (by show 1024 * k.val + 768 = 1024 * k.val + 16 * 48; omega), rfl, rfl, fun x =>
      piece_agree (bufS0).view (tabS).view (ixS0).view f TT X _ k.val 12 0 hk (by omega) (by omega) hf hX (k0_off32 k 768#32 0#32) (k0_off30 k 768#32 0#32) (k0_off5 k)
        (k0_off32_inb k 0) (k0_off30_inb k 4) (k0_off5_inb k)
        ((cf0 (k0_off32 k 768#32 0#32)).trans (by show 1024 * k.val + 768 = _; omega)) ((cf0 (k0_off30 k 768#32 0#32)).trans (by show 1024 * k.val + 768 = _; omega)) ((cf0 (k0_off5 k)).trans (by show 16 * k.val = _; omega))
        _ 0#32 (by decide) _ _ (by first | rfl | rw [Shape.reshapeEquiv_self]) rfl x⟩,
    ⟨(cf0 (k0_off30 k 704#32 48#32)).trans (by show 1024 * k.val + 752 = 1024 * k.val + 16 * 47; omega), rfl, rfl, fun x =>
      piece_agree (bufS0).view (tabS).view (ixS0).view f TT X _ k.val 11 3 hk (by omega) (by omega) hf hX (k0_off30 k 704#32 48#32) (k0_off30 k 704#32 48#32) (k0_off5 k)
        (k0_off30_inb k 3) (k0_off30_inb k 3) (k0_off5_inb k)
        ((cf0 (k0_off30 k 704#32 48#32)).trans (by show 1024 * k.val + 752 = _; omega)) ((cf0 (k0_off30 k 704#32 48#32)).trans (by show 1024 * k.val + 752 = _; omega)) ((cf0 (k0_off5 k)).trans (by show 16 * k.val = _; omega))
        _ 48#32 (by decide) _ _ (by first | rfl | rw [Shape.reshapeEquiv_self]) rfl x⟩,
    ⟨(cf0 (k0_off30 k 704#32 32#32)).trans (by show 1024 * k.val + 736 = 1024 * k.val + 16 * 46; omega), rfl, rfl, fun x =>
      piece_agree (bufS0).view (tabS).view (ixS0).view f TT X _ k.val 11 2 hk (by omega) (by omega) hf hX (k0_off30 k 704#32 32#32) (k0_off30 k 704#32 32#32) (k0_off5 k)
        (k0_off30_inb k 2) (k0_off30_inb k 2) (k0_off5_inb k)
        ((cf0 (k0_off30 k 704#32 32#32)).trans (by show 1024 * k.val + 736 = _; omega)) ((cf0 (k0_off30 k 704#32 32#32)).trans (by show 1024 * k.val + 736 = _; omega)) ((cf0 (k0_off5 k)).trans (by show 16 * k.val = _; omega))
        _ 32#32 (by decide) _ _ (by first | rfl | rw [Shape.reshapeEquiv_self]) rfl x⟩,
    ⟨(cf0 (k0_off30 k 704#32 16#32)).trans (by show 1024 * k.val + 720 = 1024 * k.val + 16 * 45; omega), rfl, rfl, fun x =>
      piece_agree (bufS0).view (tabS).view (ixS0).view f TT X _ k.val 11 1 hk (by omega) (by omega) hf hX (k0_off30 k 704#32 16#32) (k0_off30 k 704#32 16#32) (k0_off5 k)
        (k0_off30_inb k 1) (k0_off30_inb k 1) (k0_off5_inb k)
        ((cf0 (k0_off30 k 704#32 16#32)).trans (by show 1024 * k.val + 720 = _; omega)) ((cf0 (k0_off30 k 704#32 16#32)).trans (by show 1024 * k.val + 720 = _; omega)) ((cf0 (k0_off5 k)).trans (by show 16 * k.val = _; omega))
        _ 16#32 (by decide) _ _ (by first | rfl | rw [Shape.reshapeEquiv_self]) rfl x⟩,
    ⟨(cf0 (k0_off30 k 704#32 0#32)).trans (by show 1024 * k.val + 704 = 1024 * k.val + 16 * 44; omega), rfl, rfl, fun x =>
      piece_agree (bufS0).view (tabS).view (ixS0).view f TT X _ k.val 11 0 hk (by omega) (by omega) hf hX (k0_off30 k 704#32 0#32) (k0_off28 k 704#32 0#32) (k0_off5 k)
        (k0_off30_inb k 0) (k0_off28_inb k 4) (k0_off5_inb k)
        ((cf0 (k0_off30 k 704#32 0#32)).trans (by show 1024 * k.val + 704 = _; omega)) ((cf0 (k0_off28 k 704#32 0#32)).trans (by show 1024 * k.val + 704 = _; omega)) ((cf0 (k0_off5 k)).trans (by show 16 * k.val = _; omega))
        _ 0#32 (by decide) _ _ (by first | rfl | rw [Shape.reshapeEquiv_self]) rfl x⟩,
    ⟨(cf0 (k0_off28 k 640#32 48#32)).trans (by show 1024 * k.val + 688 = 1024 * k.val + 16 * 43; omega), rfl, rfl, fun x =>
      piece_agree (bufS0).view (tabS).view (ixS0).view f TT X _ k.val 10 3 hk (by omega) (by omega) hf hX (k0_off28 k 640#32 48#32) (k0_off28 k 640#32 48#32) (k0_off5 k)
        (k0_off28_inb k 3) (k0_off28_inb k 3) (k0_off5_inb k)
        ((cf0 (k0_off28 k 640#32 48#32)).trans (by show 1024 * k.val + 688 = _; omega)) ((cf0 (k0_off28 k 640#32 48#32)).trans (by show 1024 * k.val + 688 = _; omega)) ((cf0 (k0_off5 k)).trans (by show 16 * k.val = _; omega))
        _ 48#32 (by decide) _ _ (by first | rfl | rw [Shape.reshapeEquiv_self]) rfl x⟩,
    ⟨(cf0 (k0_off28 k 640#32 32#32)).trans (by show 1024 * k.val + 672 = 1024 * k.val + 16 * 42; omega), rfl, rfl, fun x =>
      piece_agree (bufS0).view (tabS).view (ixS0).view f TT X _ k.val 10 2 hk (by omega) (by omega) hf hX (k0_off28 k 640#32 32#32) (k0_off28 k 640#32 32#32) (k0_off5 k)
        (k0_off28_inb k 2) (k0_off28_inb k 2) (k0_off5_inb k)
        ((cf0 (k0_off28 k 640#32 32#32)).trans (by show 1024 * k.val + 672 = _; omega)) ((cf0 (k0_off28 k 640#32 32#32)).trans (by show 1024 * k.val + 672 = _; omega)) ((cf0 (k0_off5 k)).trans (by show 16 * k.val = _; omega))
        _ 32#32 (by decide) _ _ (by first | rfl | rw [Shape.reshapeEquiv_self]) rfl x⟩,
    ⟨(cf0 (k0_off28 k 640#32 16#32)).trans (by show 1024 * k.val + 656 = 1024 * k.val + 16 * 41; omega), rfl, rfl, fun x =>
      piece_agree (bufS0).view (tabS).view (ixS0).view f TT X _ k.val 10 1 hk (by omega) (by omega) hf hX (k0_off28 k 640#32 16#32) (k0_off28 k 640#32 16#32) (k0_off5 k)
        (k0_off28_inb k 1) (k0_off28_inb k 1) (k0_off5_inb k)
        ((cf0 (k0_off28 k 640#32 16#32)).trans (by show 1024 * k.val + 656 = _; omega)) ((cf0 (k0_off28 k 640#32 16#32)).trans (by show 1024 * k.val + 656 = _; omega)) ((cf0 (k0_off5 k)).trans (by show 16 * k.val = _; omega))
        _ 16#32 (by decide) _ _ (by first | rfl | rw [Shape.reshapeEquiv_self]) rfl x⟩,
    ⟨(cf0 (k0_off28 k 640#32 0#32)).trans (by show 1024 * k.val + 640 = 1024 * k.val + 16 * 40; omega), rfl, rfl, fun x =>
      piece_agree (bufS0).view (tabS).view (ixS0).view f TT X _ k.val 10 0 hk (by omega) (by omega) hf hX (k0_off28 k 640#32 0#32) (k0_off26 k 640#32 0#32) (k0_off5 k)
        (k0_off28_inb k 0) (k0_off26_inb k 4) (k0_off5_inb k)
        ((cf0 (k0_off28 k 640#32 0#32)).trans (by show 1024 * k.val + 640 = _; omega)) ((cf0 (k0_off26 k 640#32 0#32)).trans (by show 1024 * k.val + 640 = _; omega)) ((cf0 (k0_off5 k)).trans (by show 16 * k.val = _; omega))
        _ 0#32 (by decide) _ _ (by first | rfl | rw [Shape.reshapeEquiv_self]) rfl x⟩,
    ⟨(cf0 (k0_off26 k 576#32 48#32)).trans (by show 1024 * k.val + 624 = 1024 * k.val + 16 * 39; omega), rfl, rfl, fun x =>
      piece_agree (bufS0).view (tabS).view (ixS0).view f TT X _ k.val 9 3 hk (by omega) (by omega) hf hX (k0_off26 k 576#32 48#32) (k0_off26 k 576#32 48#32) (k0_off5 k)
        (k0_off26_inb k 3) (k0_off26_inb k 3) (k0_off5_inb k)
        ((cf0 (k0_off26 k 576#32 48#32)).trans (by show 1024 * k.val + 624 = _; omega)) ((cf0 (k0_off26 k 576#32 48#32)).trans (by show 1024 * k.val + 624 = _; omega)) ((cf0 (k0_off5 k)).trans (by show 16 * k.val = _; omega))
        _ 48#32 (by decide) _ _ (by first | rfl | rw [Shape.reshapeEquiv_self]) rfl x⟩,
    ⟨(cf0 (k0_off26 k 576#32 32#32)).trans (by show 1024 * k.val + 608 = 1024 * k.val + 16 * 38; omega), rfl, rfl, fun x =>
      piece_agree (bufS0).view (tabS).view (ixS0).view f TT X _ k.val 9 2 hk (by omega) (by omega) hf hX (k0_off26 k 576#32 32#32) (k0_off26 k 576#32 32#32) (k0_off5 k)
        (k0_off26_inb k 2) (k0_off26_inb k 2) (k0_off5_inb k)
        ((cf0 (k0_off26 k 576#32 32#32)).trans (by show 1024 * k.val + 608 = _; omega)) ((cf0 (k0_off26 k 576#32 32#32)).trans (by show 1024 * k.val + 608 = _; omega)) ((cf0 (k0_off5 k)).trans (by show 16 * k.val = _; omega))
        _ 32#32 (by decide) _ _ (by first | rfl | rw [Shape.reshapeEquiv_self]) rfl x⟩,
    ⟨(cf0 (k0_off26 k 576#32 16#32)).trans (by show 1024 * k.val + 592 = 1024 * k.val + 16 * 37; omega), rfl, rfl, fun x =>
      piece_agree (bufS0).view (tabS).view (ixS0).view f TT X _ k.val 9 1 hk (by omega) (by omega) hf hX (k0_off26 k 576#32 16#32) (k0_off26 k 576#32 16#32) (k0_off5 k)
        (k0_off26_inb k 1) (k0_off26_inb k 1) (k0_off5_inb k)
        ((cf0 (k0_off26 k 576#32 16#32)).trans (by show 1024 * k.val + 592 = _; omega)) ((cf0 (k0_off26 k 576#32 16#32)).trans (by show 1024 * k.val + 592 = _; omega)) ((cf0 (k0_off5 k)).trans (by show 16 * k.val = _; omega))
        _ 16#32 (by decide) _ _ (by first | rfl | rw [Shape.reshapeEquiv_self]) rfl x⟩,
    ⟨(cf0 (k0_off26 k 576#32 0#32)).trans (by show 1024 * k.val + 576 = 1024 * k.val + 16 * 36; omega), rfl, rfl, fun x =>
      piece_agree (bufS0).view (tabS).view (ixS0).view f TT X _ k.val 9 0 hk (by omega) (by omega) hf hX (k0_off26 k 576#32 0#32) (k0_off24 k 576#32 0#32) (k0_off5 k)
        (k0_off26_inb k 0) (k0_off24_inb k 4) (k0_off5_inb k)
        ((cf0 (k0_off26 k 576#32 0#32)).trans (by show 1024 * k.val + 576 = _; omega)) ((cf0 (k0_off24 k 576#32 0#32)).trans (by show 1024 * k.val + 576 = _; omega)) ((cf0 (k0_off5 k)).trans (by show 16 * k.val = _; omega))
        _ 0#32 (by decide) _ _ (by first | rfl | rw [Shape.reshapeEquiv_self]) rfl x⟩,
    ⟨(cf0 (k0_off24 k 512#32 48#32)).trans (by show 1024 * k.val + 560 = 1024 * k.val + 16 * 35; omega), rfl, rfl, fun x =>
      piece_agree (bufS0).view (tabS).view (ixS0).view f TT X _ k.val 8 3 hk (by omega) (by omega) hf hX (k0_off24 k 512#32 48#32) (k0_off24 k 512#32 48#32) (k0_off5 k)
        (k0_off24_inb k 3) (k0_off24_inb k 3) (k0_off5_inb k)
        ((cf0 (k0_off24 k 512#32 48#32)).trans (by show 1024 * k.val + 560 = _; omega)) ((cf0 (k0_off24 k 512#32 48#32)).trans (by show 1024 * k.val + 560 = _; omega)) ((cf0 (k0_off5 k)).trans (by show 16 * k.val = _; omega))
        _ 48#32 (by decide) _ _ (by first | rfl | rw [Shape.reshapeEquiv_self]) rfl x⟩,
    ⟨(cf0 (k0_off24 k 512#32 32#32)).trans (by show 1024 * k.val + 544 = 1024 * k.val + 16 * 34; omega), rfl, rfl, fun x =>
      piece_agree (bufS0).view (tabS).view (ixS0).view f TT X _ k.val 8 2 hk (by omega) (by omega) hf hX (k0_off24 k 512#32 32#32) (k0_off24 k 512#32 32#32) (k0_off5 k)
        (k0_off24_inb k 2) (k0_off24_inb k 2) (k0_off5_inb k)
        ((cf0 (k0_off24 k 512#32 32#32)).trans (by show 1024 * k.val + 544 = _; omega)) ((cf0 (k0_off24 k 512#32 32#32)).trans (by show 1024 * k.val + 544 = _; omega)) ((cf0 (k0_off5 k)).trans (by show 16 * k.val = _; omega))
        _ 32#32 (by decide) _ _ (by first | rfl | rw [Shape.reshapeEquiv_self]) rfl x⟩,
    ⟨(cf0 (k0_off24 k 512#32 16#32)).trans (by show 1024 * k.val + 528 = 1024 * k.val + 16 * 33; omega), rfl, rfl, fun x =>
      piece_agree (bufS0).view (tabS).view (ixS0).view f TT X _ k.val 8 1 hk (by omega) (by omega) hf hX (k0_off24 k 512#32 16#32) (k0_off24 k 512#32 16#32) (k0_off5 k)
        (k0_off24_inb k 1) (k0_off24_inb k 1) (k0_off5_inb k)
        ((cf0 (k0_off24 k 512#32 16#32)).trans (by show 1024 * k.val + 528 = _; omega)) ((cf0 (k0_off24 k 512#32 16#32)).trans (by show 1024 * k.val + 528 = _; omega)) ((cf0 (k0_off5 k)).trans (by show 16 * k.val = _; omega))
        _ 16#32 (by decide) _ _ (by first | rfl | rw [Shape.reshapeEquiv_self]) rfl x⟩,
    ⟨(cf0 (k0_off24 k 512#32 0#32)).trans (by show 1024 * k.val + 512 = 1024 * k.val + 16 * 32; omega), rfl, rfl, fun x =>
      piece_agree (bufS0).view (tabS).view (ixS0).view f TT X _ k.val 8 0 hk (by omega) (by omega) hf hX (k0_off24 k 512#32 0#32) (k0_off22 k 512#32 0#32) (k0_off5 k)
        (k0_off24_inb k 0) (k0_off22_inb k 4) (k0_off5_inb k)
        ((cf0 (k0_off24 k 512#32 0#32)).trans (by show 1024 * k.val + 512 = _; omega)) ((cf0 (k0_off22 k 512#32 0#32)).trans (by show 1024 * k.val + 512 = _; omega)) ((cf0 (k0_off5 k)).trans (by show 16 * k.val = _; omega))
        _ 0#32 (by decide) _ _ (by first | rfl | rw [Shape.reshapeEquiv_self]) rfl x⟩,
    ⟨(cf0 (k0_off22 k 448#32 48#32)).trans (by show 1024 * k.val + 496 = 1024 * k.val + 16 * 31; omega), rfl, rfl, fun x =>
      piece_agree (bufS0).view (tabS).view (ixS0).view f TT X _ k.val 7 3 hk (by omega) (by omega) hf hX (k0_off22 k 448#32 48#32) (k0_off22 k 448#32 48#32) (k0_off5 k)
        (k0_off22_inb k 3) (k0_off22_inb k 3) (k0_off5_inb k)
        ((cf0 (k0_off22 k 448#32 48#32)).trans (by show 1024 * k.val + 496 = _; omega)) ((cf0 (k0_off22 k 448#32 48#32)).trans (by show 1024 * k.val + 496 = _; omega)) ((cf0 (k0_off5 k)).trans (by show 16 * k.val = _; omega))
        _ 48#32 (by decide) _ _ (by first | rfl | rw [Shape.reshapeEquiv_self]) rfl x⟩,
    ⟨(cf0 (k0_off22 k 448#32 32#32)).trans (by show 1024 * k.val + 480 = 1024 * k.val + 16 * 30; omega), rfl, rfl, fun x =>
      piece_agree (bufS0).view (tabS).view (ixS0).view f TT X _ k.val 7 2 hk (by omega) (by omega) hf hX (k0_off22 k 448#32 32#32) (k0_off22 k 448#32 32#32) (k0_off5 k)
        (k0_off22_inb k 2) (k0_off22_inb k 2) (k0_off5_inb k)
        ((cf0 (k0_off22 k 448#32 32#32)).trans (by show 1024 * k.val + 480 = _; omega)) ((cf0 (k0_off22 k 448#32 32#32)).trans (by show 1024 * k.val + 480 = _; omega)) ((cf0 (k0_off5 k)).trans (by show 16 * k.val = _; omega))
        _ 32#32 (by decide) _ _ (by first | rfl | rw [Shape.reshapeEquiv_self]) rfl x⟩,
    ⟨(cf0 (k0_off22 k 448#32 16#32)).trans (by show 1024 * k.val + 464 = 1024 * k.val + 16 * 29; omega), rfl, rfl, fun x =>
      piece_agree (bufS0).view (tabS).view (ixS0).view f TT X _ k.val 7 1 hk (by omega) (by omega) hf hX (k0_off22 k 448#32 16#32) (k0_off22 k 448#32 16#32) (k0_off5 k)
        (k0_off22_inb k 1) (k0_off22_inb k 1) (k0_off5_inb k)
        ((cf0 (k0_off22 k 448#32 16#32)).trans (by show 1024 * k.val + 464 = _; omega)) ((cf0 (k0_off22 k 448#32 16#32)).trans (by show 1024 * k.val + 464 = _; omega)) ((cf0 (k0_off5 k)).trans (by show 16 * k.val = _; omega))
        _ 16#32 (by decide) _ _ (by first | rfl | rw [Shape.reshapeEquiv_self]) rfl x⟩,
    ⟨(cf0 (k0_off22 k 448#32 0#32)).trans (by show 1024 * k.val + 448 = 1024 * k.val + 16 * 28; omega), rfl, rfl, fun x =>
      piece_agree (bufS0).view (tabS).view (ixS0).view f TT X _ k.val 7 0 hk (by omega) (by omega) hf hX (k0_off22 k 448#32 0#32) (k0_off20 k 448#32 0#32) (k0_off5 k)
        (k0_off22_inb k 0) (k0_off20_inb k 4) (k0_off5_inb k)
        ((cf0 (k0_off22 k 448#32 0#32)).trans (by show 1024 * k.val + 448 = _; omega)) ((cf0 (k0_off20 k 448#32 0#32)).trans (by show 1024 * k.val + 448 = _; omega)) ((cf0 (k0_off5 k)).trans (by show 16 * k.val = _; omega))
        _ 0#32 (by decide) _ _ (by first | rfl | rw [Shape.reshapeEquiv_self]) rfl x⟩,
    ⟨(cf0 (k0_off20 k 384#32 48#32)).trans (by show 1024 * k.val + 432 = 1024 * k.val + 16 * 27; omega), rfl, rfl, fun x =>
      piece_agree (bufS0).view (tabS).view (ixS0).view f TT X _ k.val 6 3 hk (by omega) (by omega) hf hX (k0_off20 k 384#32 48#32) (k0_off20 k 384#32 48#32) (k0_off5 k)
        (k0_off20_inb k 3) (k0_off20_inb k 3) (k0_off5_inb k)
        ((cf0 (k0_off20 k 384#32 48#32)).trans (by show 1024 * k.val + 432 = _; omega)) ((cf0 (k0_off20 k 384#32 48#32)).trans (by show 1024 * k.val + 432 = _; omega)) ((cf0 (k0_off5 k)).trans (by show 16 * k.val = _; omega))
        _ 48#32 (by decide) _ _ (by first | rfl | rw [Shape.reshapeEquiv_self]) rfl x⟩,
    ⟨(cf0 (k0_off20 k 384#32 32#32)).trans (by show 1024 * k.val + 416 = 1024 * k.val + 16 * 26; omega), rfl, rfl, fun x =>
      piece_agree (bufS0).view (tabS).view (ixS0).view f TT X _ k.val 6 2 hk (by omega) (by omega) hf hX (k0_off20 k 384#32 32#32) (k0_off20 k 384#32 32#32) (k0_off5 k)
        (k0_off20_inb k 2) (k0_off20_inb k 2) (k0_off5_inb k)
        ((cf0 (k0_off20 k 384#32 32#32)).trans (by show 1024 * k.val + 416 = _; omega)) ((cf0 (k0_off20 k 384#32 32#32)).trans (by show 1024 * k.val + 416 = _; omega)) ((cf0 (k0_off5 k)).trans (by show 16 * k.val = _; omega))
        _ 32#32 (by decide) _ _ (by first | rfl | rw [Shape.reshapeEquiv_self]) rfl x⟩,
    ⟨(cf0 (k0_off20 k 384#32 16#32)).trans (by show 1024 * k.val + 400 = 1024 * k.val + 16 * 25; omega), rfl, rfl, fun x =>
      piece_agree (bufS0).view (tabS).view (ixS0).view f TT X _ k.val 6 1 hk (by omega) (by omega) hf hX (k0_off20 k 384#32 16#32) (k0_off20 k 384#32 16#32) (k0_off5 k)
        (k0_off20_inb k 1) (k0_off20_inb k 1) (k0_off5_inb k)
        ((cf0 (k0_off20 k 384#32 16#32)).trans (by show 1024 * k.val + 400 = _; omega)) ((cf0 (k0_off20 k 384#32 16#32)).trans (by show 1024 * k.val + 400 = _; omega)) ((cf0 (k0_off5 k)).trans (by show 16 * k.val = _; omega))
        _ 16#32 (by decide) _ _ (by first | rfl | rw [Shape.reshapeEquiv_self]) rfl x⟩,
    ⟨(cf0 (k0_off20 k 384#32 0#32)).trans (by show 1024 * k.val + 384 = 1024 * k.val + 16 * 24; omega), rfl, rfl, fun x =>
      piece_agree (bufS0).view (tabS).view (ixS0).view f TT X _ k.val 6 0 hk (by omega) (by omega) hf hX (k0_off20 k 384#32 0#32) (k0_off18 k 384#32 0#32) (k0_off5 k)
        (k0_off20_inb k 0) (k0_off18_inb k 4) (k0_off5_inb k)
        ((cf0 (k0_off20 k 384#32 0#32)).trans (by show 1024 * k.val + 384 = _; omega)) ((cf0 (k0_off18 k 384#32 0#32)).trans (by show 1024 * k.val + 384 = _; omega)) ((cf0 (k0_off5 k)).trans (by show 16 * k.val = _; omega))
        _ 0#32 (by decide) _ _ (by first | rfl | rw [Shape.reshapeEquiv_self]) rfl x⟩,
    ⟨(cf0 (k0_off18 k 320#32 48#32)).trans (by show 1024 * k.val + 368 = 1024 * k.val + 16 * 23; omega), rfl, rfl, fun x =>
      piece_agree (bufS0).view (tabS).view (ixS0).view f TT X _ k.val 5 3 hk (by omega) (by omega) hf hX (k0_off18 k 320#32 48#32) (k0_off18 k 320#32 48#32) (k0_off5 k)
        (k0_off18_inb k 3) (k0_off18_inb k 3) (k0_off5_inb k)
        ((cf0 (k0_off18 k 320#32 48#32)).trans (by show 1024 * k.val + 368 = _; omega)) ((cf0 (k0_off18 k 320#32 48#32)).trans (by show 1024 * k.val + 368 = _; omega)) ((cf0 (k0_off5 k)).trans (by show 16 * k.val = _; omega))
        _ 48#32 (by decide) _ _ (by first | rfl | rw [Shape.reshapeEquiv_self]) rfl x⟩,
    ⟨(cf0 (k0_off18 k 320#32 32#32)).trans (by show 1024 * k.val + 352 = 1024 * k.val + 16 * 22; omega), rfl, rfl, fun x =>
      piece_agree (bufS0).view (tabS).view (ixS0).view f TT X _ k.val 5 2 hk (by omega) (by omega) hf hX (k0_off18 k 320#32 32#32) (k0_off18 k 320#32 32#32) (k0_off5 k)
        (k0_off18_inb k 2) (k0_off18_inb k 2) (k0_off5_inb k)
        ((cf0 (k0_off18 k 320#32 32#32)).trans (by show 1024 * k.val + 352 = _; omega)) ((cf0 (k0_off18 k 320#32 32#32)).trans (by show 1024 * k.val + 352 = _; omega)) ((cf0 (k0_off5 k)).trans (by show 16 * k.val = _; omega))
        _ 32#32 (by decide) _ _ (by first | rfl | rw [Shape.reshapeEquiv_self]) rfl x⟩,
    ⟨(cf0 (k0_off18 k 320#32 16#32)).trans (by show 1024 * k.val + 336 = 1024 * k.val + 16 * 21; omega), rfl, rfl, fun x =>
      piece_agree (bufS0).view (tabS).view (ixS0).view f TT X _ k.val 5 1 hk (by omega) (by omega) hf hX (k0_off18 k 320#32 16#32) (k0_off18 k 320#32 16#32) (k0_off5 k)
        (k0_off18_inb k 1) (k0_off18_inb k 1) (k0_off5_inb k)
        ((cf0 (k0_off18 k 320#32 16#32)).trans (by show 1024 * k.val + 336 = _; omega)) ((cf0 (k0_off18 k 320#32 16#32)).trans (by show 1024 * k.val + 336 = _; omega)) ((cf0 (k0_off5 k)).trans (by show 16 * k.val = _; omega))
        _ 16#32 (by decide) _ _ (by first | rfl | rw [Shape.reshapeEquiv_self]) rfl x⟩,
    ⟨(cf0 (k0_off18 k 320#32 0#32)).trans (by show 1024 * k.val + 320 = 1024 * k.val + 16 * 20; omega), rfl, rfl, fun x =>
      piece_agree (bufS0).view (tabS).view (ixS0).view f TT X _ k.val 5 0 hk (by omega) (by omega) hf hX (k0_off18 k 320#32 0#32) (k0_off16 k 320#32 0#32) (k0_off5 k)
        (k0_off18_inb k 0) (k0_off16_inb k 4) (k0_off5_inb k)
        ((cf0 (k0_off18 k 320#32 0#32)).trans (by show 1024 * k.val + 320 = _; omega)) ((cf0 (k0_off16 k 320#32 0#32)).trans (by show 1024 * k.val + 320 = _; omega)) ((cf0 (k0_off5 k)).trans (by show 16 * k.val = _; omega))
        _ 0#32 (by decide) _ _ (by first | rfl | rw [Shape.reshapeEquiv_self]) rfl x⟩,
    ⟨(cf0 (k0_off16 k 256#32 48#32)).trans (by show 1024 * k.val + 304 = 1024 * k.val + 16 * 19; omega), rfl, rfl, fun x =>
      piece_agree (bufS0).view (tabS).view (ixS0).view f TT X _ k.val 4 3 hk (by omega) (by omega) hf hX (k0_off16 k 256#32 48#32) (k0_off16 k 256#32 48#32) (k0_off5 k)
        (k0_off16_inb k 3) (k0_off16_inb k 3) (k0_off5_inb k)
        ((cf0 (k0_off16 k 256#32 48#32)).trans (by show 1024 * k.val + 304 = _; omega)) ((cf0 (k0_off16 k 256#32 48#32)).trans (by show 1024 * k.val + 304 = _; omega)) ((cf0 (k0_off5 k)).trans (by show 16 * k.val = _; omega))
        _ 48#32 (by decide) _ _ (by first | rfl | rw [Shape.reshapeEquiv_self]) rfl x⟩,
    ⟨(cf0 (k0_off16 k 256#32 32#32)).trans (by show 1024 * k.val + 288 = 1024 * k.val + 16 * 18; omega), rfl, rfl, fun x =>
      piece_agree (bufS0).view (tabS).view (ixS0).view f TT X _ k.val 4 2 hk (by omega) (by omega) hf hX (k0_off16 k 256#32 32#32) (k0_off16 k 256#32 32#32) (k0_off5 k)
        (k0_off16_inb k 2) (k0_off16_inb k 2) (k0_off5_inb k)
        ((cf0 (k0_off16 k 256#32 32#32)).trans (by show 1024 * k.val + 288 = _; omega)) ((cf0 (k0_off16 k 256#32 32#32)).trans (by show 1024 * k.val + 288 = _; omega)) ((cf0 (k0_off5 k)).trans (by show 16 * k.val = _; omega))
        _ 32#32 (by decide) _ _ (by first | rfl | rw [Shape.reshapeEquiv_self]) rfl x⟩,
    ⟨(cf0 (k0_off16 k 256#32 16#32)).trans (by show 1024 * k.val + 272 = 1024 * k.val + 16 * 17; omega), rfl, rfl, fun x =>
      piece_agree (bufS0).view (tabS).view (ixS0).view f TT X _ k.val 4 1 hk (by omega) (by omega) hf hX (k0_off16 k 256#32 16#32) (k0_off16 k 256#32 16#32) (k0_off5 k)
        (k0_off16_inb k 1) (k0_off16_inb k 1) (k0_off5_inb k)
        ((cf0 (k0_off16 k 256#32 16#32)).trans (by show 1024 * k.val + 272 = _; omega)) ((cf0 (k0_off16 k 256#32 16#32)).trans (by show 1024 * k.val + 272 = _; omega)) ((cf0 (k0_off5 k)).trans (by show 16 * k.val = _; omega))
        _ 16#32 (by decide) _ _ (by first | rfl | rw [Shape.reshapeEquiv_self]) rfl x⟩,
    ⟨(cf0 (k0_off16 k 256#32 0#32)).trans (by show 1024 * k.val + 256 = 1024 * k.val + 16 * 16; omega), rfl, rfl, fun x =>
      piece_agree (bufS0).view (tabS).view (ixS0).view f TT X _ k.val 4 0 hk (by omega) (by omega) hf hX (k0_off16 k 256#32 0#32) (k0_off14 k 256#32 0#32) (k0_off5 k)
        (k0_off16_inb k 0) (k0_off14_inb k 4) (k0_off5_inb k)
        ((cf0 (k0_off16 k 256#32 0#32)).trans (by show 1024 * k.val + 256 = _; omega)) ((cf0 (k0_off14 k 256#32 0#32)).trans (by show 1024 * k.val + 256 = _; omega)) ((cf0 (k0_off5 k)).trans (by show 16 * k.val = _; omega))
        _ 0#32 (by decide) _ _ (by first | rfl | rw [Shape.reshapeEquiv_self]) rfl x⟩,
    ⟨(cf0 (k0_off14 k 192#32 48#32)).trans (by show 1024 * k.val + 240 = 1024 * k.val + 16 * 15; omega), rfl, rfl, fun x =>
      piece_agree (bufS0).view (tabS).view (ixS0).view f TT X _ k.val 3 3 hk (by omega) (by omega) hf hX (k0_off14 k 192#32 48#32) (k0_off14 k 192#32 48#32) (k0_off5 k)
        (k0_off14_inb k 3) (k0_off14_inb k 3) (k0_off5_inb k)
        ((cf0 (k0_off14 k 192#32 48#32)).trans (by show 1024 * k.val + 240 = _; omega)) ((cf0 (k0_off14 k 192#32 48#32)).trans (by show 1024 * k.val + 240 = _; omega)) ((cf0 (k0_off5 k)).trans (by show 16 * k.val = _; omega))
        _ 48#32 (by decide) _ _ (by first | rfl | rw [Shape.reshapeEquiv_self]) rfl x⟩,
    ⟨(cf0 (k0_off14 k 192#32 32#32)).trans (by show 1024 * k.val + 224 = 1024 * k.val + 16 * 14; omega), rfl, rfl, fun x =>
      piece_agree (bufS0).view (tabS).view (ixS0).view f TT X _ k.val 3 2 hk (by omega) (by omega) hf hX (k0_off14 k 192#32 32#32) (k0_off14 k 192#32 32#32) (k0_off5 k)
        (k0_off14_inb k 2) (k0_off14_inb k 2) (k0_off5_inb k)
        ((cf0 (k0_off14 k 192#32 32#32)).trans (by show 1024 * k.val + 224 = _; omega)) ((cf0 (k0_off14 k 192#32 32#32)).trans (by show 1024 * k.val + 224 = _; omega)) ((cf0 (k0_off5 k)).trans (by show 16 * k.val = _; omega))
        _ 32#32 (by decide) _ _ (by first | rfl | rw [Shape.reshapeEquiv_self]) rfl x⟩,
    ⟨(cf0 (k0_off14 k 192#32 16#32)).trans (by show 1024 * k.val + 208 = 1024 * k.val + 16 * 13; omega), rfl, rfl, fun x =>
      piece_agree (bufS0).view (tabS).view (ixS0).view f TT X _ k.val 3 1 hk (by omega) (by omega) hf hX (k0_off14 k 192#32 16#32) (k0_off14 k 192#32 16#32) (k0_off5 k)
        (k0_off14_inb k 1) (k0_off14_inb k 1) (k0_off5_inb k)
        ((cf0 (k0_off14 k 192#32 16#32)).trans (by show 1024 * k.val + 208 = _; omega)) ((cf0 (k0_off14 k 192#32 16#32)).trans (by show 1024 * k.val + 208 = _; omega)) ((cf0 (k0_off5 k)).trans (by show 16 * k.val = _; omega))
        _ 16#32 (by decide) _ _ (by first | rfl | rw [Shape.reshapeEquiv_self]) rfl x⟩,
    ⟨(cf0 (k0_off14 k 192#32 0#32)).trans (by show 1024 * k.val + 192 = 1024 * k.val + 16 * 12; omega), rfl, rfl, fun x =>
      piece_agree (bufS0).view (tabS).view (ixS0).view f TT X _ k.val 3 0 hk (by omega) (by omega) hf hX (k0_off14 k 192#32 0#32) (k0_off12 k 192#32 0#32) (k0_off5 k)
        (k0_off14_inb k 0) (k0_off12_inb k 4) (k0_off5_inb k)
        ((cf0 (k0_off14 k 192#32 0#32)).trans (by show 1024 * k.val + 192 = _; omega)) ((cf0 (k0_off12 k 192#32 0#32)).trans (by show 1024 * k.val + 192 = _; omega)) ((cf0 (k0_off5 k)).trans (by show 16 * k.val = _; omega))
        _ 0#32 (by decide) _ _ (by first | rfl | rw [Shape.reshapeEquiv_self]) rfl x⟩,
    ⟨(cf0 (k0_off12 k 128#32 48#32)).trans (by show 1024 * k.val + 176 = 1024 * k.val + 16 * 11; omega), rfl, rfl, fun x =>
      piece_agree (bufS0).view (tabS).view (ixS0).view f TT X _ k.val 2 3 hk (by omega) (by omega) hf hX (k0_off12 k 128#32 48#32) (k0_off12 k 128#32 48#32) (k0_off5 k)
        (k0_off12_inb k 3) (k0_off12_inb k 3) (k0_off5_inb k)
        ((cf0 (k0_off12 k 128#32 48#32)).trans (by show 1024 * k.val + 176 = _; omega)) ((cf0 (k0_off12 k 128#32 48#32)).trans (by show 1024 * k.val + 176 = _; omega)) ((cf0 (k0_off5 k)).trans (by show 16 * k.val = _; omega))
        _ 48#32 (by decide) _ _ (by first | rfl | rw [Shape.reshapeEquiv_self]) rfl x⟩,
    ⟨(cf0 (k0_off12 k 128#32 32#32)).trans (by show 1024 * k.val + 160 = 1024 * k.val + 16 * 10; omega), rfl, rfl, fun x =>
      piece_agree (bufS0).view (tabS).view (ixS0).view f TT X _ k.val 2 2 hk (by omega) (by omega) hf hX (k0_off12 k 128#32 32#32) (k0_off12 k 128#32 32#32) (k0_off5 k)
        (k0_off12_inb k 2) (k0_off12_inb k 2) (k0_off5_inb k)
        ((cf0 (k0_off12 k 128#32 32#32)).trans (by show 1024 * k.val + 160 = _; omega)) ((cf0 (k0_off12 k 128#32 32#32)).trans (by show 1024 * k.val + 160 = _; omega)) ((cf0 (k0_off5 k)).trans (by show 16 * k.val = _; omega))
        _ 32#32 (by decide) _ _ (by first | rfl | rw [Shape.reshapeEquiv_self]) rfl x⟩,
    ⟨(cf0 (k0_off12 k 128#32 16#32)).trans (by show 1024 * k.val + 144 = 1024 * k.val + 16 * 9; omega), rfl, rfl, fun x =>
      piece_agree (bufS0).view (tabS).view (ixS0).view f TT X _ k.val 2 1 hk (by omega) (by omega) hf hX (k0_off12 k 128#32 16#32) (k0_off12 k 128#32 16#32) (k0_off5 k)
        (k0_off12_inb k 1) (k0_off12_inb k 1) (k0_off5_inb k)
        ((cf0 (k0_off12 k 128#32 16#32)).trans (by show 1024 * k.val + 144 = _; omega)) ((cf0 (k0_off12 k 128#32 16#32)).trans (by show 1024 * k.val + 144 = _; omega)) ((cf0 (k0_off5 k)).trans (by show 16 * k.val = _; omega))
        _ 16#32 (by decide) _ _ (by first | rfl | rw [Shape.reshapeEquiv_self]) rfl x⟩,
    ⟨(cf0 (k0_off12 k 128#32 0#32)).trans (by show 1024 * k.val + 128 = 1024 * k.val + 16 * 8; omega), rfl, rfl, fun x =>
      piece_agree (bufS0).view (tabS).view (ixS0).view f TT X _ k.val 2 0 hk (by omega) (by omega) hf hX (k0_off12 k 128#32 0#32) (k0_off10 k 128#32 0#32) (k0_off5 k)
        (k0_off12_inb k 0) (k0_off10_inb k 4) (k0_off5_inb k)
        ((cf0 (k0_off12 k 128#32 0#32)).trans (by show 1024 * k.val + 128 = _; omega)) ((cf0 (k0_off10 k 128#32 0#32)).trans (by show 1024 * k.val + 128 = _; omega)) ((cf0 (k0_off5 k)).trans (by show 16 * k.val = _; omega))
        _ 0#32 (by decide) _ _ (by first | rfl | rw [Shape.reshapeEquiv_self]) rfl x⟩,
    ⟨(cf0 (k0_off10 k 64#32 48#32)).trans (by show 1024 * k.val + 112 = 1024 * k.val + 16 * 7; omega), rfl, rfl, fun x =>
      piece_agree (bufS0).view (tabS).view (ixS0).view f TT X _ k.val 1 3 hk (by omega) (by omega) hf hX (k0_off10 k 64#32 48#32) (k0_off10 k 64#32 48#32) (k0_off5 k)
        (k0_off10_inb k 3) (k0_off10_inb k 3) (k0_off5_inb k)
        ((cf0 (k0_off10 k 64#32 48#32)).trans (by show 1024 * k.val + 112 = _; omega)) ((cf0 (k0_off10 k 64#32 48#32)).trans (by show 1024 * k.val + 112 = _; omega)) ((cf0 (k0_off5 k)).trans (by show 16 * k.val = _; omega))
        _ 48#32 (by decide) _ _ (by first | rfl | rw [Shape.reshapeEquiv_self]) rfl x⟩,
    ⟨(cf0 (k0_off10 k 64#32 32#32)).trans (by show 1024 * k.val + 96 = 1024 * k.val + 16 * 6; omega), rfl, rfl, fun x =>
      piece_agree (bufS0).view (tabS).view (ixS0).view f TT X _ k.val 1 2 hk (by omega) (by omega) hf hX (k0_off10 k 64#32 32#32) (k0_off10 k 64#32 32#32) (k0_off5 k)
        (k0_off10_inb k 2) (k0_off10_inb k 2) (k0_off5_inb k)
        ((cf0 (k0_off10 k 64#32 32#32)).trans (by show 1024 * k.val + 96 = _; omega)) ((cf0 (k0_off10 k 64#32 32#32)).trans (by show 1024 * k.val + 96 = _; omega)) ((cf0 (k0_off5 k)).trans (by show 16 * k.val = _; omega))
        _ 32#32 (by decide) _ _ (by first | rfl | rw [Shape.reshapeEquiv_self]) rfl x⟩,
    ⟨(cf0 (k0_off10 k 64#32 16#32)).trans (by show 1024 * k.val + 80 = 1024 * k.val + 16 * 5; omega), rfl, rfl, fun x =>
      piece_agree (bufS0).view (tabS).view (ixS0).view f TT X _ k.val 1 1 hk (by omega) (by omega) hf hX (k0_off10 k 64#32 16#32) (k0_off10 k 64#32 16#32) (k0_off5 k)
        (k0_off10_inb k 1) (k0_off10_inb k 1) (k0_off5_inb k)
        ((cf0 (k0_off10 k 64#32 16#32)).trans (by show 1024 * k.val + 80 = _; omega)) ((cf0 (k0_off10 k 64#32 16#32)).trans (by show 1024 * k.val + 80 = _; omega)) ((cf0 (k0_off5 k)).trans (by show 16 * k.val = _; omega))
        _ 16#32 (by decide) _ _ (by first | rfl | rw [Shape.reshapeEquiv_self]) rfl x⟩,
    ⟨(cf0 (k0_off10 k 64#32 0#32)).trans (by show 1024 * k.val + 64 = 1024 * k.val + 16 * 4; omega), rfl, rfl, fun x =>
      piece_agree (bufS0).view (tabS).view (ixS0).view f TT X _ k.val 1 0 hk (by omega) (by omega) hf hX (k0_off10 k 64#32 0#32) (k0_off8 k 64#32 0#32) (k0_off5 k)
        (k0_off10_inb k 0) (k0_off8_inb k 4) (k0_off5_inb k)
        ((cf0 (k0_off10 k 64#32 0#32)).trans (by show 1024 * k.val + 64 = _; omega)) ((cf0 (k0_off8 k 64#32 0#32)).trans (by show 1024 * k.val + 64 = _; omega)) ((cf0 (k0_off5 k)).trans (by show 16 * k.val = _; omega))
        _ 0#32 (by decide) _ _ (by first | rfl | rw [Shape.reshapeEquiv_self]) rfl x⟩,
    ⟨(cf0 (k0_off8 k 0#32 48#32)).trans (by show 1024 * k.val + 48 = 1024 * k.val + 16 * 3; omega), rfl, rfl, fun x =>
      piece_agree (bufS0).view (tabS).view (ixS0).view f TT X _ k.val 0 3 hk (by omega) (by omega) hf hX (k0_off8 k 0#32 48#32) (k0_off8 k 0#32 48#32) (k0_off5 k)
        (k0_off8_inb k 3) (k0_off8_inb k 3) (k0_off5_inb k)
        ((cf0 (k0_off8 k 0#32 48#32)).trans (by show 1024 * k.val + 48 = _; omega)) ((cf0 (k0_off8 k 0#32 48#32)).trans (by show 1024 * k.val + 48 = _; omega)) ((cf0 (k0_off5 k)).trans (by show 16 * k.val = _; omega))
        _ 48#32 (by decide) _ _ (by first | rfl | rw [Shape.reshapeEquiv_self]) rfl x⟩,
    ⟨(cf0 (k0_off8 k 0#32 32#32)).trans (by show 1024 * k.val + 32 = 1024 * k.val + 16 * 2; omega), rfl, rfl, fun x =>
      piece_agree (bufS0).view (tabS).view (ixS0).view f TT X _ k.val 0 2 hk (by omega) (by omega) hf hX (k0_off8 k 0#32 32#32) (k0_off8 k 0#32 32#32) (k0_off5 k)
        (k0_off8_inb k 2) (k0_off8_inb k 2) (k0_off5_inb k)
        ((cf0 (k0_off8 k 0#32 32#32)).trans (by show 1024 * k.val + 32 = _; omega)) ((cf0 (k0_off8 k 0#32 32#32)).trans (by show 1024 * k.val + 32 = _; omega)) ((cf0 (k0_off5 k)).trans (by show 16 * k.val = _; omega))
        _ 32#32 (by decide) _ _ (by first | rfl | rw [Shape.reshapeEquiv_self]) rfl x⟩,
    ⟨(cf0 (k0_off8 k 0#32 16#32)).trans (by show 1024 * k.val + 16 = 1024 * k.val + 16 * 1; omega), rfl, rfl, fun x =>
      piece_agree (bufS0).view (tabS).view (ixS0).view f TT X _ k.val 0 1 hk (by omega) (by omega) hf hX (k0_off8 k 0#32 16#32) (k0_off8 k 0#32 16#32) (k0_off5 k)
        (k0_off8_inb k 1) (k0_off8_inb k 1) (k0_off5_inb k)
        ((cf0 (k0_off8 k 0#32 16#32)).trans (by show 1024 * k.val + 16 = _; omega)) ((cf0 (k0_off8 k 0#32 16#32)).trans (by show 1024 * k.val + 16 = _; omega)) ((cf0 (k0_off5 k)).trans (by show 16 * k.val = _; omega))
        _ 16#32 (by decide) _ _ (by first | rfl | rw [Shape.reshapeEquiv_self]) rfl x⟩,
    ⟨(cf0 (k0_off8 k 0#32 0#32)).trans (by show 1024 * k.val + 0 = 1024 * k.val + 16 * 0; omega), rfl, rfl, fun x =>
      piece_agree (bufS0).view (tabS).view (ixS0).view f TT X _ k.val 0 0 hk (by omega) (by omega) hf hX (k0_off8 k 0#32 0#32) (k0_off6 k) (k0_off5 k)
        (k0_off8_inb k 0) (k0_off6_inb k) (k0_off5_inb k)
        ((cf0 (k0_off8 k 0#32 0#32)).trans (by show 1024 * k.val + 0 = _; omega)) ((cf0 (k0_off6 k)).trans (by show 1024 * k.val = _; omega)) ((cf0 (k0_off5 k)).trans (by show 16 * k.val = _; omega))
        _ 0#32 (by decide) _ _ (by first | rfl | rw [Shape.reshapeEquiv_self]) rfl x⟩,
    trivial⟩

/-- The whole loop, in continuation form: from the three buffers, the program goes on with every row done. -/
theorem loop1_spec (hX : ∀ j, BitVec.toNat ((ixS0).view.read (Elt F) X j) < 16) (v1 v21 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS0).view.loc (thrV d L) ↦{fullShare} X)
        ∗ ((bufS0).view.loc (thrV d L) ↦{fullShare} B)
        ∗ (∀ acc f, (⌜∀ y, (bufS0).view.read (Elt F) f y
              = stage ((bufS0).view.read (Elt F) B) ((tabS).view.read (Elt F) TT) ((ixS0).view.read (Elt F) X) 400 y⌝
              ∗ ((tabS).view.loc (thrV d L) ↦{fullShare} TT) ∗ ((ixS0).view.loc (thrV d L) ↦{fullShare} X)
              ∗ ((bufS0).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t1_loop k0_t1_ok init (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21) >>= kk) Q := by
  iintro ⟨Ht, Hx, Hb, Hk⟩
  iapply (Scf.wp_for_bind frame (wpE (defs₀ (F := F)) 𝒱₀ (thrV d L) none) Set.univ k0_t1_loop.lb k0_t1_loop.ub k0_t1_loop.st k0_t1_ok init
    (k0_t1_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21) (inv1 d L TT X B) (step1 d L TT X B hX v1 v21)) $$ [Ht Hx Hb]
  · unfold inv1
    isplitl [Ht]; · iexact Ht
    isplitl [Hx]; · iexact Hx
    iexists B; isplitl [Hb]; · iexact Hb
    ipureintro
    intro y
    unfold stage
    rw [if_neg (by omega)]
  iintro %acc HI
  unfold inv1
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KILoop2.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS1).view.loc (thrV d L)))
  (B : Buf (Elt F) ((bufS1).view.loc (thrV d L)))

/-- Before trip k: the table and the indices as they were, the row buffer at stage 16 k. -/
def inv2 (k : Nat) (_ : BitVec 32) : sProp 𝕄 :=
  iprop(((tabS).view.loc (thrV d L) ↦{fullShare} TT) ∗ ((ixS1).view.loc (thrV d L) ↦{fullShare} X)
    ∗ ∃ f, ((bufS1).view.loc (thrV d L) ↦{fullShare} f)
        ∗ ⌜∀ y, (bufS1).view.read (Elt F) f y
            = stage ((bufS1).view.read (Elt F) B) ((tabS).view.read (Elt F) TT) ((ixS1).view.read (Elt F) X) (16 * k) y⌝)

set_option maxHeartbeats 16000000 in
/-- One trip keeps the invariant. -/
theorem step2 (hX : ∀ j, BitVec.toNat ((ixS1).view.read (Elt F) X j) < 16) (v1 v21 c0_i32_32 c0_i32_33 : BitVec 32)
    (k : Fin (Scf.trips k0_t2_loop.lb k0_t2_loop.ub k0_t2_loop.st)) (acc : BitVec 32) :
    inv2 d L TT X B k acc
      ⊢ wp frame (wpE (defs₀ (F := F)) 𝒱₀ (thrV d L) none) Set.univ
          (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33 k acc) (inv2 d L TT X B (k.val + 1)) := by
  have hk : k.val < 25 := Nat.lt_of_lt_of_le k.isLt k0_t2_abs.2.1
  unfold inv2 k0_t2_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS1).view f _ _ _ k.val _ rfl hf ?_
  exact ⟨
    ⟨(cf0 (k0_off74 k 48#32)).trans (by show 1024 * k.val + 16 * 3 + 960 = 1024 * k.val + 16 * 63; omega), rfl, rfl, fun x =>
      piece_agree (bufS1).view (tabS).view (ixS1).view f TT X _ k.val 15 3 hk (by omega) (by omega) hf hX (k0_off74 k 48#32) (k0_off74 k 48#32) (k0_off41 k)
        (k0_off74_inb k 3) (k0_off74_inb k 3) (k0_off41_inb k)
        ((cf0 (k0_off74 k 48#32)).trans (by show 1024 * k.val + 16 * 3 + 960 = _; omega)) ((cf0 (k0_off74 k 48#32)).trans (by show 1024 * k.val + 16 * 3 + 960 = _; omega)) ((cf0 (k0_off41 k)).trans (by show 16 * k.val = _; omega))
        _ 48#32 (by decide) _ _ (by first | rfl | rw [Shape.reshapeEquiv_self]) rfl x⟩,
    ⟨(cf0 (k0_off74 k 32#32)).trans (by show 1024 * k.val + 16 * 2 + 960 = 1024 * k.val + 16 * 62; omega), rfl, rfl, fun x =>
      piece_agree (bufS1).view (tabS).view (ixS1).view f TT X _ k.val 15 2 hk (by omega) (by omega) hf hX (k0_off74 k 32#32) (k0_off74 k 32#32) (k0_off41 k)
        (k0_off74_inb k 2) (k0_off74_inb k 2) (k0_off41_inb k)
        ((cf0 (k0_off74 k 32#32)).trans (by show 1024 * k.val + 16 * 2 + 960 = _; omega)) ((cf0 (k0_off74 k 32#32)).trans (by show 1024 * k.val + 16 * 2 + 960 = _; omega)) ((cf0 (k0_off41 k)).trans (by show 16 * k.val = _; omega))
        _ 32#32 (by decide) _ _ (by first | rfl | rw [Shape.reshapeEquiv_self]) rfl x⟩,
    ⟨(cf0 (k0_off74 k 16#32)).trans (by show 1024 * k.val + 16 * 1 + 960 = 1024 * k.val + 16 * 61; omega), rfl, rfl, fun x =>
      piece_agree (bufS1).view (tabS).view (ixS1).view f TT X _ k.val 15 1 hk (by omega) (by omega) hf hX (k0_off74 k 16#32) (k0_off74 k 16#32) (k0_off41 k)
        (k0_off74_inb k 1) (k0_off74_inb k 1) (k0_off41_inb k)
        ((cf0 (k0_off74 k 16#32)).trans (by show 1024 * k.val + 16 * 1 + 960 = _; omega)) ((cf0 (k0_off74 k 16#32)).trans (by show 1024 * k.val + 16 * 1 + 960 = _; omega)) ((cf0 (k0_off41 k)).trans (by show 16 * k.val = _; omega))
        _ 16#32 (by decide) _ _ (by first | rfl | rw [Shape.reshapeEquiv_self]) rfl x⟩,
    ⟨(cf0 (k0_off74 k 0#32)).trans (by show 1024 * k.val + 16 * 0 + 960 = 1024 * k.val + 16 * 60; omega), rfl, rfl, fun x =>
      piece_agree (bufS1).view (tabS).view (ixS1).view f TT X _ k.val 15 0 hk (by omega) (by omega) hf hX (k0_off74 k 0#32) (k0_off72 k 960#32 0#32) (k0_off41 k)
        (k0_off74_inb k 0) (k0_off72_inb k 4) (k0_off41_inb k)
        ((cf0 (k0_off74 k 0#32)).trans (by show 1024 * k.val + 16 * 0 + 960 = _; omega)) ((cf0 (k0_off72 k 960#32 0#32)).trans (by show 1024 * k.val + 960 = _; omega)) ((cf0 (k0_off41 k)).trans (by show 16 * k.val = _; omega))
        _ 0#32 (by decide) _ _ (by first | rfl | rw [Shape.reshapeEquiv_self]) rfl x⟩,
    ⟨(cf0 (k0_off72 k 896#32 48#32)).trans (by show 1024 * k.val + 944 = 1024 * k.val + 16 * 59; omega), rfl, rfl, fun x =>
      piece_agree (bufS1).view (tabS).view (ixS1).view f TT X _ k.val 14 3 hk (by omega) (by omega) hf hX (k0_off72 k 896#32 48#32) (k0_off72 k 896#32 48#32) (k0_off41 k)
        (k0_off72_inb k 3) (k0_off72_inb k 3) (k0_off41_inb k)
        ((cf0 (k0_off72 k 896#32 48#32)).trans (by show 1024 * k.val + 944 = _; omega)) ((cf0 (k0_off72 k 896#32 48#32)).trans (by show 1024 * k.val + 944 = _; omega)) ((cf0 (k0_off41 k)).trans (by show 16 * k.val = _; omega))
        _ 48#32 (by decide) _ _ (by first | rfl | rw [Shape.reshapeEquiv_self]) rfl x⟩,
    ⟨(cf0 (k0_off72 k 896#32 32#32)).trans (by show 1024 * k.val + 928 = 1024 * k.val + 16 * 58; omega), rfl, rfl, fun x =>
      piece_agree (bufS1).view (tabS).view (ixS1).view f TT X _ k.val 14 2 hk (by omega) (by omega) hf hX (k0_off72 k 896#32 32#32) (k0_off72 k 896#32 32#32) (k0_off41 k)
        (k0_off72_inb k 2) (k0_off72_inb k 2) (k0_off41_inb k)
        ((cf0 (k0_off72 k 896#32 32#32)).trans (by show 1024 * k.val + 928 = _; omega)) ((cf0 (k0_off72 k 896#32 32#32)).trans (by show 1024 * k.val + 928 = _; omega)) ((cf0 (k0_off41 k)).trans (by show 16 * k.val = _; omega))
        _ 32#32 (by decide) _ _ (by first | rfl | rw [Shape.reshapeEquiv_self]) rfl x⟩,
    ⟨(cf0 (k0_off72 k 896#32 16#32)).trans (by show 1024 * k.val + 912 = 1024 * k.val + 16 * 57; omega), rfl, rfl, fun x =>
      piece_agree (bufS1).view (tabS).view (ixS1).view f TT X _ k.val 14 1 hk (by omega) (by omega) hf hX (k0_off72 k 896#32 16#32) (k0_off72 k 896#32 16#32) (k0_off41 k)
        (k0_off72_inb k 1) (k0_off72_inb k 1) (k0_off41_inb k)
        ((cf0 (k0_off72 k 896#32 16#32)).trans (by show 1024 * k.val + 912 = _; omega)) ((cf0 (k0_off72 k 896#32 16#32)).trans (by show 1024 * k.val + 912 = _; omega)) ((cf0 (k0_off41 k)).trans (by show 16 * k.val = _; omega))
        _ 16#32 (by decide) _ _ (by first | rfl | rw [Shape.reshapeEquiv_self]) rfl x⟩,
    ⟨(cf0 (k0_off72 k 896#32 0#32)).trans (by show 1024 * k.val + 896 = 1024 * k.val + 16 * 56; omega), rfl, rfl, fun x =>
      piece_agree (bufS1).view (tabS).view (ixS1).view f TT X _ k.val 14 0 hk (by omega) (by omega) hf hX (k0_off72 k 896#32 0#32) (k0_off70 k 896#32 0#32) (k0_off41 k)
        (k0_off72_inb k 0) (k0_off70_inb k 4) (k0_off41_inb k)
        ((cf0 (k0_off72 k 896#32 0#32)).trans (by show 1024 * k.val + 896 = _; omega)) ((cf0 (k0_off70 k 896#32 0#32)).trans (by show 1024 * k.val + 896 = _; omega)) ((cf0 (k0_off41 k)).trans (by show 16 * k.val = _; omega))
        _ 0#32 (by decide) _ _ (by first | rfl | rw [Shape.reshapeEquiv_self]) rfl x⟩,
    ⟨(cf0 (k0_off70 k 832#32 48#32)).trans (by show 1024 * k.val + 880 = 1024 * k.val + 16 * 55; omega), rfl, rfl, fun x =>
      piece_agree (bufS1).view (tabS).view (ixS1).view f TT X _ k.val 13 3 hk (by omega) (by omega) hf hX (k0_off70 k 832#32 48#32) (k0_off70 k 832#32 48#32) (k0_off41 k)
        (k0_off70_inb k 3) (k0_off70_inb k 3) (k0_off41_inb k)
        ((cf0 (k0_off70 k 832#32 48#32)).trans (by show 1024 * k.val + 880 = _; omega)) ((cf0 (k0_off70 k 832#32 48#32)).trans (by show 1024 * k.val + 880 = _; omega)) ((cf0 (k0_off41 k)).trans (by show 16 * k.val = _; omega))
        _ 48#32 (by decide) _ _ (by first | rfl | rw [Shape.reshapeEquiv_self]) rfl x⟩,
    ⟨(cf0 (k0_off70 k 832#32 32#32)).trans (by show 1024 * k.val + 864 = 1024 * k.val + 16 * 54; omega), rfl, rfl, fun x =>
      piece_agree (bufS1).view (tabS).view (ixS1).view f TT X _ k.val 13 2 hk (by omega) (by omega) hf hX (k0_off70 k 832#32 32#32) (k0_off70 k 832#32 32#32) (k0_off41 k)
        (k0_off70_inb k 2) (k0_off70_inb k 2) (k0_off41_inb k)
        ((cf0 (k0_off70 k 832#32 32#32)).trans (by show 1024 * k.val + 864 = _; omega)) ((cf0 (k0_off70 k 832#32 32#32)).trans (by show 1024 * k.val + 864 = _; omega)) ((cf0 (k0_off41 k)).trans (by show 16 * k.val = _; omega))
        _ 32#32 (by decide) _ _ (by first | rfl | rw [Shape.reshapeEquiv_self]) rfl x⟩,
    ⟨(cf0 (k0_off70 k 832#32 16#32)).trans (by show 1024 * k.val + 848 = 1024 * k.val + 16 * 53; omega), rfl, rfl, fun x =>
      piece_agree (bufS1).view (tabS).view (ixS1).view f TT X _ k.val 13 1 hk (by omega) (by omega) hf hX (k0_off70 k 832#32 16#32) (k0_off70 k 832#32 16#32) (k0_off41 k)
        (k0_off70_inb k 1) (k0_off70_inb k 1) (k0_off41_inb k)
        ((cf0 (k0_off70 k 832#32 16#32)).trans (by show 1024 * k.val + 848 = _; omega)) ((cf0 (k0_off70 k 832#32 16#32)).trans (by show 1024 * k.val + 848 = _; omega)) ((cf0 (k0_off41 k)).trans (by show 16 * k.val = _; omega))
        _ 16#32 (by decide) _ _ (by first | rfl | rw [Shape.reshapeEquiv_self]) rfl x⟩,
    ⟨(cf0 (k0_off70 k 832#32 0#32)).trans (by show 1024 * k.val + 832 = 1024 * k.val + 16 * 52; omega), rfl, rfl, fun x =>
      piece_agree (bufS1).view (tabS).view (ixS1).view f TT X _ k.val 13 0 hk (by omega) (by omega) hf hX (k0_off70 k 832#32 0#32) (k0_off68 k 832#32 0#32) (k0_off41 k)
        (k0_off70_inb k 0) (k0_off68_inb k 4) (k0_off41_inb k)
        ((cf0 (k0_off70 k 832#32 0#32)).trans (by show 1024 * k.val + 832 = _; omega)) ((cf0 (k0_off68 k 832#32 0#32)).trans (by show 1024 * k.val + 832 = _; omega)) ((cf0 (k0_off41 k)).trans (by show 16 * k.val = _; omega))
        _ 0#32 (by decide) _ _ (by first | rfl | rw [Shape.reshapeEquiv_self]) rfl x⟩,
    ⟨(cf0 (k0_off68 k 768#32 48#32)).trans (by show 1024 * k.val + 816 = 1024 * k.val + 16 * 51; omega), rfl, rfl, fun x =>
      piece_agree (bufS1).view (tabS).view (ixS1).view f TT X _ k.val 12 3 hk (by omega) (by omega) hf hX (k0_off68 k 768#32 48#32) (k0_off68 k 768#32 48#32) (k0_off41 k)
        (k0_off68_inb k 3) (k0_off68_inb k 3) (k0_off41_inb k)
        ((cf0 (k0_off68 k 768#32 48#32)).trans (by show 1024 * k.val + 816 = _; omega)) ((cf0 (k0_off68 k 768#32 48#32)).trans (by show 1024 * k.val + 816 = _; omega)) ((cf0 (k0_off41 k)).trans (by show 16 * k.val = _; omega))
        _ 48#32 (by decide) _ _ (by first | rfl | rw [Shape.reshapeEquiv_self]) rfl x⟩,
    ⟨(cf0 (k0_off68 k 768#32 32#32)).trans (by show 1024 * k.val + 800 = 1024 * k.val + 16 * 50; omega), rfl, rfl, fun x =>
      piece_agree (bufS1).view (tabS).view (ixS1).view f TT X _ k.val 12 2 hk (by omega) (by omega) hf hX (k0_off68 k 768#32 32#32) (k0_off68 k 768#32 32#32) (k0_off41 k)
        (k0_off68_inb k 2) (k0_off68_inb k 2) (k0_off41_inb k)
        ((cf0 (k0_off68 k 768#32 32#32)).trans (by show 1024 * k.val + 800 = _; omega)) ((cf0 (k0_off68 k 768#32 32#32)).trans (by show 1024 * k.val + 800 = _; omega)) ((cf0 (k0_off41 k)).trans (by show 16 * k.val = _; omega))
        _ 32#32 (by decide) _ _ (by first | rfl | rw [Shape.reshapeEquiv_self]) rfl x⟩,
    ⟨(cf0 (k0_off68 k 768#32 16#32)).trans (by show 1024 * k.val + 784 = 1024 * k.val + 16 * 49; omega), rfl, rfl, fun x =>
      piece_agree (bufS1).view (tabS).view (ixS1).view f TT X _ k.val 12 1 hk (by omega) (by omega) hf hX (k0_off68 k 768#32 16#32) (k0_off68 k 768#32 16#32) (k0_off41 k)
        (k0_off68_inb k 1) (k0_off68_inb k 1) (k0_off41_inb k)
        ((cf0 (k0_off68 k 768#32 16#32)).trans (by show 1024 * k.val + 784 = _; omega)) ((cf0 (k0_off68 k 768#32 16#32)).trans (by show 1024 * k.val + 784 = _; omega)) ((cf0 (k0_off41 k)).trans (by show 16 * k.val = _; omega))
        _ 16#32 (by decide) _ _ (by first | rfl | rw [Shape.reshapeEquiv_self]) rfl x⟩,
    ⟨(cf0 (k0_off68 k 768#32 0#32)).trans (by show 1024 * k.val + 768 = 1024 * k.val + 16 * 48; omega), rfl, rfl, fun x =>
      piece_agree (bufS1).view (tabS).view (ixS1).view f TT X _ k.val 12 0 hk (by omega) (by omega) hf hX (k0_off68 k 768#32 0#32) (k0_off66 k 768#32 0#32) (k0_off41 k)
        (k0_off68_inb k 0) (k0_off66_inb k 4) (k0_off41_inb k)
        ((cf0 (k0_off68 k 768#32 0#32)).trans (by show 1024 * k.val + 768 = _; omega)) ((cf0 (k0_off66 k 768#32 0#32)).trans (by show 1024 * k.val + 768 = _; omega)) ((cf0 (k0_off41 k)).trans (by show 16 * k.val = _; omega))
        _ 0#32 (by decide) _ _ (by first | rfl | rw [Shape.reshapeEquiv_self]) rfl x⟩,
    ⟨(cf0 (k0_off66 k 704#32 48#32)).trans (by show 1024 * k.val + 752 = 1024 * k.val + 16 * 47; omega), rfl, rfl, fun x =>
      piece_agree (bufS1).view (tabS).view (ixS1).view f TT X _ k.val 11 3 hk (by omega) (by omega) hf hX (k0_off66 k 704#32 48#32) (k0_off66 k 704#32 48#32) (k0_off41 k)
        (k0_off66_inb k 3) (k0_off66_inb k 3) (k0_off41_inb k)
        ((cf0 (k0_off66 k 704#32 48#32)).trans (by show 1024 * k.val + 752 = _; omega)) ((cf0 (k0_off66 k 704#32 48#32)).trans (by show 1024 * k.val + 752 = _; omega)) ((cf0 (k0_off41 k)).trans (by show 16 * k.val = _; omega))
        _ 48#32 (by decide) _ _ (by first | rfl | rw [Shape.reshapeEquiv_self]) rfl x⟩,
    ⟨(cf0 (k0_off66 k 704#32 32#32)).trans (by show 1024 * k.val + 736 = 1024 * k.val + 16 * 46; omega), rfl, rfl, fun x =>
      piece_agree (bufS1).view (tabS).view (ixS1).view f TT X _ k.val 11 2 hk (by omega) (by omega) hf hX (k0_off66 k 704#32 32#32) (k0_off66 k 704#32 32#32) (k0_off41 k)
        (k0_off66_inb k 2) (k0_off66_inb k 2) (k0_off41_inb k)
        ((cf0 (k0_off66 k 704#32 32#32)).trans (by show 1024 * k.val + 736 = _; omega)) ((cf0 (k0_off66 k 704#32 32#32)).trans (by show 1024 * k.val + 736 = _; omega)) ((cf0 (k0_off41 k)).trans (by show 16 * k.val = _; omega))
        _ 32#32 (by decide) _ _ (by first | rfl | rw [Shape.reshapeEquiv_self]) rfl x⟩,
    ⟨(cf0 (k0_off66 k 704#32 16#32)).trans (by show 1024 * k.val + 720 = 1024 * k.val + 16 * 45; omega), rfl, rfl, fun x =>
      piece_agree (bufS1).view (tabS).view (ixS1).view f TT X _ k.val 11 1 hk (by omega) (by omega) hf hX (k0_off66 k 704#32 16#32) (k0_off66 k 704#32 16#32) (k0_off41 k)
        (k0_off66_inb k 1) (k0_off66_inb k 1) (k0_off41_inb k)
        ((cf0 (k0_off66 k 704#32 16#32)).trans (by show 1024 * k.val + 720 = _; omega)) ((cf0 (k0_off66 k 704#32 16#32)).trans (by show 1024 * k.val + 720 = _; omega)) ((cf0 (k0_off41 k)).trans (by show 16 * k.val = _; omega))
        _ 16#32 (by decide) _ _ (by first | rfl | rw [Shape.reshapeEquiv_self]) rfl x⟩,
    ⟨(cf0 (k0_off66 k 704#32 0#32)).trans (by show 1024 * k.val + 704 = 1024 * k.val + 16 * 44; omega), rfl, rfl, fun x =>
      piece_agree (bufS1).view (tabS).view (ixS1).view f TT X _ k.val 11 0 hk (by omega) (by omega) hf hX (k0_off66 k 704#32 0#32) (k0_off64 k 704#32 0#32) (k0_off41 k)
        (k0_off66_inb k 0) (k0_off64_inb k 4) (k0_off41_inb k)
        ((cf0 (k0_off66 k 704#32 0#32)).trans (by show 1024 * k.val + 704 = _; omega)) ((cf0 (k0_off64 k 704#32 0#32)).trans (by show 1024 * k.val + 704 = _; omega)) ((cf0 (k0_off41 k)).trans (by show 16 * k.val = _; omega))
        _ 0#32 (by decide) _ _ (by first | rfl | rw [Shape.reshapeEquiv_self]) rfl x⟩,
    ⟨(cf0 (k0_off64 k 640#32 48#32)).trans (by show 1024 * k.val + 688 = 1024 * k.val + 16 * 43; omega), rfl, rfl, fun x =>
      piece_agree (bufS1).view (tabS).view (ixS1).view f TT X _ k.val 10 3 hk (by omega) (by omega) hf hX (k0_off64 k 640#32 48#32) (k0_off64 k 640#32 48#32) (k0_off41 k)
        (k0_off64_inb k 3) (k0_off64_inb k 3) (k0_off41_inb k)
        ((cf0 (k0_off64 k 640#32 48#32)).trans (by show 1024 * k.val + 688 = _; omega)) ((cf0 (k0_off64 k 640#32 48#32)).trans (by show 1024 * k.val + 688 = _; omega)) ((cf0 (k0_off41 k)).trans (by show 16 * k.val = _; omega))
        _ 48#32 (by decide) _ _ (by first | rfl | rw [Shape.reshapeEquiv_self]) rfl x⟩,
    ⟨(cf0 (k0_off64 k 640#32 32#32)).trans (by show 1024 * k.val + 672 = 1024 * k.val + 16 * 42; omega), rfl, rfl, fun x =>
      piece_agree (bufS1).view (tabS).view (ixS1).view f TT X _ k.val 10 2 hk (by omega) (by omega) hf hX (k0_off64 k 640#32 32#32) (k0_off64 k 640#32 32#32) (k0_off41 k)
        (k0_off64_inb k 2) (k0_off64_inb k 2) (k0_off41_inb k)
        ((cf0 (k0_off64 k 640#32 32#32)).trans (by show 1024 * k.val + 672 = _; omega)) ((cf0 (k0_off64 k 640#32 32#32)).trans (by show 1024 * k.val + 672 = _; omega)) ((cf0 (k0_off41 k)).trans (by show 16 * k.val = _; omega))
        _ 32#32 (by decide) _ _ (by first | rfl | rw [Shape.reshapeEquiv_self]) rfl x⟩,
    ⟨(cf0 (k0_off64 k 640#32 16#32)).trans (by show 1024 * k.val + 656 = 1024 * k.val + 16 * 41; omega), rfl, rfl, fun x =>
      piece_agree (bufS1).view (tabS).view (ixS1).view f TT X _ k.val 10 1 hk (by omega) (by omega) hf hX (k0_off64 k 640#32 16#32) (k0_off64 k 640#32 16#32) (k0_off41 k)
        (k0_off64_inb k 1) (k0_off64_inb k 1) (k0_off41_inb k)
        ((cf0 (k0_off64 k 640#32 16#32)).trans (by show 1024 * k.val + 656 = _; omega)) ((cf0 (k0_off64 k 640#32 16#32)).trans (by show 1024 * k.val + 656 = _; omega)) ((cf0 (k0_off41 k)).trans (by show 16 * k.val = _; omega))
        _ 16#32 (by decide) _ _ (by first | rfl | rw [Shape.reshapeEquiv_self]) rfl x⟩,
    ⟨(cf0 (k0_off64 k 640#32 0#32)).trans (by show 1024 * k.val + 640 = 1024 * k.val + 16 * 40; omega), rfl, rfl, fun x =>
      piece_agree (bufS1).view (tabS).view (ixS1).view f TT X _ k.val 10 0 hk (by omega) (by omega) hf hX (k0_off64 k 640#32 0#32) (k0_off62 k 640#32 0#32) (k0_off41 k)
        (k0_off64_inb k 0) (k0_off62_inb k 4) (k0_off41_inb k)
        ((cf0 (k0_off64 k 640#32 0#32)).trans (by show 1024 * k.val + 640 = _; omega)) ((cf0 (k0_off62 k 640#32 0#32)).trans (by show 1024 * k.val + 640 = _; omega)) ((cf0 (k0_off41 k)).trans (by show 16 * k.val = _; omega))
        _ 0#32 (by decide) _ _ (by first | rfl | rw [Shape.reshapeEquiv_self]) rfl x⟩,
    ⟨(cf0 (k0_off62 k 576#32 48#32)).trans (by show 1024 * k.val + 624 = 1024 * k.val + 16 * 39; omega), rfl, rfl, fun x =>
      piece_agree (bufS1).view (tabS).view (ixS1).view f TT X _ k.val 9 3 hk (by omega) (by omega) hf hX (k0_off62 k 576#32 48#32) (k0_off62 k 576#32 48#32) (k0_off41 k)
        (k0_off62_inb k 3) (k0_off62_inb k 3) (k0_off41_inb k)
        ((cf0 (k0_off62 k 576#32 48#32)).trans (by show 1024 * k.val + 624 = _; omega)) ((cf0 (k0_off62 k 576#32 48#32)).trans (by show 1024 * k.val + 624 = _; omega)) ((cf0 (k0_off41 k)).trans (by show 16 * k.val = _; omega))
        _ 48#32 (by decide) _ _ (by first | rfl | rw [Shape.reshapeEquiv_self]) rfl x⟩,
    ⟨(cf0 (k0_off62 k 576#32 32#32)).trans (by show 1024 * k.val + 608 = 1024 * k.val + 16 * 38; omega), rfl, rfl, fun x =>
      piece_agree (bufS1).view (tabS).view (ixS1).view f TT X _ k.val 9 2 hk (by omega) (by omega) hf hX (k0_off62 k 576#32 32#32) (k0_off62 k 576#32 32#32) (k0_off41 k)
        (k0_off62_inb k 2) (k0_off62_inb k 2) (k0_off41_inb k)
        ((cf0 (k0_off62 k 576#32 32#32)).trans (by show 1024 * k.val + 608 = _; omega)) ((cf0 (k0_off62 k 576#32 32#32)).trans (by show 1024 * k.val + 608 = _; omega)) ((cf0 (k0_off41 k)).trans (by show 16 * k.val = _; omega))
        _ 32#32 (by decide) _ _ (by first | rfl | rw [Shape.reshapeEquiv_self]) rfl x⟩,
    ⟨(cf0 (k0_off62 k 576#32 16#32)).trans (by show 1024 * k.val + 592 = 1024 * k.val + 16 * 37; omega), rfl, rfl, fun x =>
      piece_agree (bufS1).view (tabS).view (ixS1).view f TT X _ k.val 9 1 hk (by omega) (by omega) hf hX (k0_off62 k 576#32 16#32) (k0_off62 k 576#32 16#32) (k0_off41 k)
        (k0_off62_inb k 1) (k0_off62_inb k 1) (k0_off41_inb k)
        ((cf0 (k0_off62 k 576#32 16#32)).trans (by show 1024 * k.val + 592 = _; omega)) ((cf0 (k0_off62 k 576#32 16#32)).trans (by show 1024 * k.val + 592 = _; omega)) ((cf0 (k0_off41 k)).trans (by show 16 * k.val = _; omega))
        _ 16#32 (by decide) _ _ (by first | rfl | rw [Shape.reshapeEquiv_self]) rfl x⟩,
    ⟨(cf0 (k0_off62 k 576#32 0#32)).trans (by show 1024 * k.val + 576 = 1024 * k.val + 16 * 36; omega), rfl, rfl, fun x =>
      piece_agree (bufS1).view (tabS).view (ixS1).view f TT X _ k.val 9 0 hk (by omega) (by omega) hf hX (k0_off62 k 576#32 0#32) (k0_off60 k 576#32 0#32) (k0_off41 k)
        (k0_off62_inb k 0) (k0_off60_inb k 4) (k0_off41_inb k)
        ((cf0 (k0_off62 k 576#32 0#32)).trans (by show 1024 * k.val + 576 = _; omega)) ((cf0 (k0_off60 k 576#32 0#32)).trans (by show 1024 * k.val + 576 = _; omega)) ((cf0 (k0_off41 k)).trans (by show 16 * k.val = _; omega))
        _ 0#32 (by decide) _ _ (by first | rfl | rw [Shape.reshapeEquiv_self]) rfl x⟩,
    ⟨(cf0 (k0_off60 k 512#32 48#32)).trans (by show 1024 * k.val + 560 = 1024 * k.val + 16 * 35; omega), rfl, rfl, fun x =>
      piece_agree (bufS1).view (tabS).view (ixS1).view f TT X _ k.val 8 3 hk (by omega) (by omega) hf hX (k0_off60 k 512#32 48#32) (k0_off60 k 512#32 48#32) (k0_off41 k)
        (k0_off60_inb k 3) (k0_off60_inb k 3) (k0_off41_inb k)
        ((cf0 (k0_off60 k 512#32 48#32)).trans (by show 1024 * k.val + 560 = _; omega)) ((cf0 (k0_off60 k 512#32 48#32)).trans (by show 1024 * k.val + 560 = _; omega)) ((cf0 (k0_off41 k)).trans (by show 16 * k.val = _; omega))
        _ 48#32 (by decide) _ _ (by first | rfl | rw [Shape.reshapeEquiv_self]) rfl x⟩,
    ⟨(cf0 (k0_off60 k 512#32 32#32)).trans (by show 1024 * k.val + 544 = 1024 * k.val + 16 * 34; omega), rfl, rfl, fun x =>
      piece_agree (bufS1).view (tabS).view (ixS1).view f TT X _ k.val 8 2 hk (by omega) (by omega) hf hX (k0_off60 k 512#32 32#32) (k0_off60 k 512#32 32#32) (k0_off41 k)
        (k0_off60_inb k 2) (k0_off60_inb k 2) (k0_off41_inb k)
        ((cf0 (k0_off60 k 512#32 32#32)).trans (by show 1024 * k.val + 544 = _; omega)) ((cf0 (k0_off60 k 512#32 32#32)).trans (by show 1024 * k.val + 544 = _; omega)) ((cf0 (k0_off41 k)).trans (by show 16 * k.val = _; omega))
        _ 32#32 (by decide) _ _ (by first | rfl | rw [Shape.reshapeEquiv_self]) rfl x⟩,
    ⟨(cf0 (k0_off60 k 512#32 16#32)).trans (by show 1024 * k.val + 528 = 1024 * k.val + 16 * 33; omega), rfl, rfl, fun x =>
      piece_agree (bufS1).view (tabS).view (ixS1).view f TT X _ k.val 8 1 hk (by omega) (by omega) hf hX (k0_off60 k 512#32 16#32) (k0_off60 k 512#32 16#32) (k0_off41 k)
        (k0_off60_inb k 1) (k0_off60_inb k 1) (k0_off41_inb k)
        ((cf0 (k0_off60 k 512#32 16#32)).trans (by show 1024 * k.val + 528 = _; omega)) ((cf0 (k0_off60 k 512#32 16#32)).trans (by show 1024 * k.val + 528 = _; omega)) ((cf0 (k0_off41 k)).trans (by show 16 * k.val = _; omega))
        _ 16#32 (by decide) _ _ (by first | rfl | rw [Shape.reshapeEquiv_self]) rfl x⟩,
    ⟨(cf0 (k0_off60 k 512#32 0#32)).trans (by show 1024 * k.val + 512 = 1024 * k.val + 16 * 32; omega), rfl, rfl, fun x =>
      piece_agree (bufS1).view (tabS).view (ixS1).view f TT X _ k.val 8 0 hk (by omega) (by omega) hf hX (k0_off60 k 512#32 0#32) (k0_off58 k 512#32 0#32) (k0_off41 k)
        (k0_off60_inb k 0) (k0_off58_inb k 4) (k0_off41_inb k)
        ((cf0 (k0_off60 k 512#32 0#32)).trans (by show 1024 * k.val + 512 = _; omega)) ((cf0 (k0_off58 k 512#32 0#32)).trans (by show 1024 * k.val + 512 = _; omega)) ((cf0 (k0_off41 k)).trans (by show 16 * k.val = _; omega))
        _ 0#32 (by decide) _ _ (by first | rfl | rw [Shape.reshapeEquiv_self]) rfl x⟩,
    ⟨(cf0 (k0_off58 k 448#32 48#32)).trans (by show 1024 * k.val + 496 = 1024 * k.val + 16 * 31; omega), rfl, rfl, fun x =>
      piece_agree (bufS1).view (tabS).view (ixS1).view f TT X _ k.val 7 3 hk (by omega) (by omega) hf hX (k0_off58 k 448#32 48#32) (k0_off58 k 448#32 48#32) (k0_off41 k)
        (k0_off58_inb k 3) (k0_off58_inb k 3) (k0_off41_inb k)
        ((cf0 (k0_off58 k 448#32 48#32)).trans (by show 1024 * k.val + 496 = _; omega)) ((cf0 (k0_off58 k 448#32 48#32)).trans (by show 1024 * k.val + 496 = _; omega)) ((cf0 (k0_off41 k)).trans (by show 16 * k.val = _; omega))
        _ 48#32 (by decide) _ _ (by first | rfl | rw [Shape.reshapeEquiv_self]) rfl x⟩,
    ⟨(cf0 (k0_off58 k 448#32 32#32)).trans (by show 1024 * k.val + 480 = 1024 * k.val + 16 * 30; omega), rfl, rfl, fun x =>
      piece_agree (bufS1).view (tabS).view (ixS1).view f TT X _ k.val 7 2 hk (by omega) (by omega) hf hX (k0_off58 k 448#32 32#32) (k0_off58 k 448#32 32#32) (k0_off41 k)
        (k0_off58_inb k 2) (k0_off58_inb k 2) (k0_off41_inb k)
        ((cf0 (k0_off58 k 448#32 32#32)).trans (by show 1024 * k.val + 480 = _; omega)) ((cf0 (k0_off58 k 448#32 32#32)).trans (by show 1024 * k.val + 480 = _; omega)) ((cf0 (k0_off41 k)).trans (by show 16 * k.val = _; omega))
        _ 32#32 (by decide) _ _ (by first | rfl | rw [Shape.reshapeEquiv_self]) rfl x⟩,
    ⟨(cf0 (k0_off58 k 448#32 16#32)).trans (by show 1024 * k.val + 464 = 1024 * k.val + 16 * 29; omega), rfl, rfl, fun x =>
      piece_agree (bufS1).view (tabS).view (ixS1).view f TT X _ k.val 7 1 hk (by omega) (by omega) hf hX (k0_off58 k 448#32 16#32) (k0_off58 k 448#32 16#32) (k0_off41 k)
        (k0_off58_inb k 1) (k0_off58_inb k 1) (k0_off41_inb k)
        ((cf0 (k0_off58 k 448#32 16#32)).trans (by show 1024 * k.val + 464 = _; omega)) ((cf0 (k0_off58 k 448#32 16#32)).trans (by show 1024 * k.val + 464 = _; omega)) ((cf0 (k0_off41 k)).trans (by show 16 * k.val = _; omega))
        _ 16#32 (by decide) _ _ (by first | rfl | rw [Shape.reshapeEquiv_self]) rfl x⟩,
    ⟨(cf0 (k0_off58 k 448#32 0#32)).trans (by show 1024 * k.val + 448 = 1024 * k.val + 16 * 28; omega), rfl, rfl, fun x =>
      piece_agree (bufS1).view (tabS).view (ixS1).view f TT X _ k.val 7 0 hk (by omega) (by omega) hf hX (k0_off58 k 448#32 0#32) (k0_off56 k 448#32 0#32) (k0_off41 k)
        (k0_off58_inb k 0) (k0_off56_inb k 4) (k0_off41_inb k)
        ((cf0 (k0_off58 k 448#32 0#32)).trans (by show 1024 * k.val + 448 = _; omega)) ((cf0 (k0_off56 k 448#32 0#32)).trans (by show 1024 * k.val + 448 = _; omega)) ((cf0 (k0_off41 k)).trans (by show 16 * k.val = _; omega))
        _ 0#32 (by decide) _ _ (by first | rfl | rw [Shape.reshapeEquiv_self]) rfl x⟩,
    ⟨(cf0 (k0_off56 k 384#32 48#32)).trans (by show 1024 * k.val + 432 = 1024 * k.val + 16 * 27; omega), rfl, rfl, fun x =>
      piece_agree (bufS1).view (tabS).view (ixS1).view f TT X _ k.val 6 3 hk (by omega) (by omega) hf hX (k0_off56 k 384#32 48#32) (k0_off56 k 384#32 48#32) (k0_off41 k)
        (k0_off56_inb k 3) (k0_off56_inb k 3) (k0_off41_inb k)
        ((cf0 (k0_off56 k 384#32 48#32)).trans (by show 1024 * k.val + 432 = _; omega)) ((cf0 (k0_off56 k 384#32 48#32)).trans (by show 1024 * k.val + 432 = _; omega)) ((cf0 (k0_off41 k)).trans (by show 16 * k.val = _; omega))
        _ 48#32 (by decide) _ _ (by first | rfl | rw [Shape.reshapeEquiv_self]) rfl x⟩,
    ⟨(cf0 (k0_off56 k 384#32 32#32)).trans (by show 1024 * k.val + 416 = 1024 * k.val + 16 * 26; omega), rfl, rfl, fun x =>
      piece_agree (bufS1).view (tabS).view (ixS1).view f TT X _ k.val 6 2 hk (by omega) (by omega) hf hX (k0_off56 k 384#32 32#32) (k0_off56 k 384#32 32#32) (k0_off41 k)
        (k0_off56_inb k 2) (k0_off56_inb k 2) (k0_off41_inb k)
        ((cf0 (k0_off56 k 384#32 32#32)).trans (by show 1024 * k.val + 416 = _; omega)) ((cf0 (k0_off56 k 384#32 32#32)).trans (by show 1024 * k.val + 416 = _; omega)) ((cf0 (k0_off41 k)).trans (by show 16 * k.val = _; omega))
        _ 32#32 (by decide) _ _ (by first | rfl | rw [Shape.reshapeEquiv_self]) rfl x⟩,
    ⟨(cf0 (k0_off56 k 384#32 16#32)).trans (by show 1024 * k.val + 400 = 1024 * k.val + 16 * 25; omega), rfl, rfl, fun x =>
      piece_agree (bufS1).view (tabS).view (ixS1).view f TT X _ k.val 6 1 hk (by omega) (by omega) hf hX (k0_off56 k 384#32 16#32) (k0_off56 k 384#32 16#32) (k0_off41 k)
        (k0_off56_inb k 1) (k0_off56_inb k 1) (k0_off41_inb k)
        ((cf0 (k0_off56 k 384#32 16#32)).trans (by show 1024 * k.val + 400 = _; omega)) ((cf0 (k0_off56 k 384#32 16#32)).trans (by show 1024 * k.val + 400 = _; omega)) ((cf0 (k0_off41 k)).trans (by show 16 * k.val = _; omega))
        _ 16#32 (by decide) _ _ (by first | rfl | rw [Shape.reshapeEquiv_self]) rfl x⟩,
    ⟨(cf0 (k0_off56 k 384#32 0#32)).trans (by show 1024 * k.val + 384 = 1024 * k.val + 16 * 24; omega), rfl, rfl, fun x =>
      piece_agree (bufS1).view (tabS).view (ixS1).view f TT X _ k.val 6 0 hk (by omega) (by omega) hf hX (k0_off56 k 384#32 0#32) (k0_off54 k 384#32 0#32) (k0_off41 k)
        (k0_off56_inb k 0) (k0_off54_inb k 4) (k0_off41_inb k)
        ((cf0 (k0_off56 k 384#32 0#32)).trans (by show 1024 * k.val + 384 = _; omega)) ((cf0 (k0_off54 k 384#32 0#32)).trans (by show 1024 * k.val + 384 = _; omega)) ((cf0 (k0_off41 k)).trans (by show 16 * k.val = _; omega))
        _ 0#32 (by decide) _ _ (by first | rfl | rw [Shape.reshapeEquiv_self]) rfl x⟩,
    ⟨(cf0 (k0_off54 k 320#32 48#32)).trans (by show 1024 * k.val + 368 = 1024 * k.val + 16 * 23; omega), rfl, rfl, fun x =>
      piece_agree (bufS1).view (tabS).view (ixS1).view f TT X _ k.val 5 3 hk (by omega) (by omega) hf hX (k0_off54 k 320#32 48#32) (k0_off54 k 320#32 48#32) (k0_off41 k)
        (k0_off54_inb k 3) (k0_off54_inb k 3) (k0_off41_inb k)
        ((cf0 (k0_off54 k 320#32 48#32)).trans (by show 1024 * k.val + 368 = _; omega)) ((cf0 (k0_off54 k 320#32 48#32)).trans (by show 1024 * k.val + 368 = _; omega)) ((cf0 (k0_off41 k)).trans (by show 16 * k.val = _; omega))
        _ 48#32 (by decide) _ _ (by first | rfl | rw [Shape.reshapeEquiv_self]) rfl x⟩,
    ⟨(cf0 (k0_off54 k 320#32 32#32)).trans (by show 1024 * k.val + 352 = 1024 * k.val + 16 * 22; omega), rfl, rfl, fun x =>
      piece_agree (bufS1).view (tabS).view (ixS1).view f TT X _ k.val 5 2 hk (by omega) (by omega) hf hX (k0_off54 k 320#32 32#32) (k0_off54 k 320#32 32#32) (k0_off41 k)
        (k0_off54_inb k 2) (k0_off54_inb k 2) (k0_off41_inb k)
        ((cf0 (k0_off54 k 320#32 32#32)).trans (by show 1024 * k.val + 352 = _; omega)) ((cf0 (k0_off54 k 320#32 32#32)).trans (by show 1024 * k.val + 352 = _; omega)) ((cf0 (k0_off41 k)).trans (by show 16 * k.val = _; omega))
        _ 32#32 (by decide) _ _ (by first | rfl | rw [Shape.reshapeEquiv_self]) rfl x⟩,
    ⟨(cf0 (k0_off54 k 320#32 16#32)).trans (by show 1024 * k.val + 336 = 1024 * k.val + 16 * 21; omega), rfl, rfl, fun x =>
      piece_agree (bufS1).view (tabS).view (ixS1).view f TT X _ k.val 5 1 hk (by omega) (by omega) hf hX (k0_off54 k 320#32 16#32) (k0_off54 k 320#32 16#32) (k0_off41 k)
        (k0_off54_inb k 1) (k0_off54_inb k 1) (k0_off41_inb k)
        ((cf0 (k0_off54 k 320#32 16#32)).trans (by show 1024 * k.val + 336 = _; omega)) ((cf0 (k0_off54 k 320#32 16#32)).trans (by show 1024 * k.val + 336 = _; omega)) ((cf0 (k0_off41 k)).trans (by show 16 * k.val = _; omega))
        _ 16#32 (by decide) _ _ (by first | rfl | rw [Shape.reshapeEquiv_self]) rfl x⟩,
    ⟨(cf0 (k0_off54 k 320#32 0#32)).trans (by show 1024 * k.val + 320 = 1024 * k.val + 16 * 20; omega), rfl, rfl, fun x =>
      piece_agree (bufS1).view (tabS).view (ixS1).view f TT X _ k.val 5 0 hk (by omega) (by omega) hf hX (k0_off54 k 320#32 0#32) (k0_off52 k 320#32 0#32) (k0_off41 k)
        (k0_off54_inb k 0) (k0_off52_inb k 4) (k0_off41_inb k)
        ((cf0 (k0_off54 k 320#32 0#32)).trans (by show 1024 * k.val + 320 = _; omega)) ((cf0 (k0_off52 k 320#32 0#32)).trans (by show 1024 * k.val + 320 = _; omega)) ((cf0 (k0_off41 k)).trans (by show 16 * k.val = _; omega))
        _ 0#32 (by decide) _ _ (by first | rfl | rw [Shape.reshapeEquiv_self]) rfl x⟩,
    ⟨(cf0 (k0_off52 k 256#32 48#32)).trans (by show 1024 * k.val + 304 = 1024 * k.val + 16 * 19; omega), rfl, rfl, fun x =>
      piece_agree (bufS1).view (tabS).view (ixS1).view f TT X _ k.val 4 3 hk (by omega) (by omega) hf hX (k0_off52 k 256#32 48#32) (k0_off52 k 256#32 48#32) (k0_off41 k)
        (k0_off52_inb k 3) (k0_off52_inb k 3) (k0_off41_inb k)
        ((cf0 (k0_off52 k 256#32 48#32)).trans (by show 1024 * k.val + 304 = _; omega)) ((cf0 (k0_off52 k 256#32 48#32)).trans (by show 1024 * k.val + 304 = _; omega)) ((cf0 (k0_off41 k)).trans (by show 16 * k.val = _; omega))
        _ 48#32 (by decide) _ _ (by first | rfl | rw [Shape.reshapeEquiv_self]) rfl x⟩,
    ⟨(cf0 (k0_off52 k 256#32 32#32)).trans (by show 1024 * k.val + 288 = 1024 * k.val + 16 * 18; omega), rfl, rfl, fun x =>
      piece_agree (bufS1).view (tabS).view (ixS1).view f TT X _ k.val 4 2 hk (by omega) (by omega) hf hX (k0_off52 k 256#32 32#32) (k0_off52 k 256#32 32#32) (k0_off41 k)
        (k0_off52_inb k 2) (k0_off52_inb k 2) (k0_off41_inb k)
        ((cf0 (k0_off52 k 256#32 32#32)).trans (by show 1024 * k.val + 288 = _; omega)) ((cf0 (k0_off52 k 256#32 32#32)).trans (by show 1024 * k.val + 288 = _; omega)) ((cf0 (k0_off41 k)).trans (by show 16 * k.val = _; omega))
        _ 32#32 (by decide) _ _ (by first | rfl | rw [Shape.reshapeEquiv_self]) rfl x⟩,
    ⟨(cf0 (k0_off52 k 256#32 16#32)).trans (by show 1024 * k.val + 272 = 1024 * k.val + 16 * 17; omega), rfl, rfl, fun x =>
      piece_agree (bufS1).view (tabS).view (ixS1).view f TT X _ k.val 4 1 hk (by omega) (by omega) hf hX (k0_off52 k 256#32 16#32) (k0_off52 k 256#32 16#32) (k0_off41 k)
        (k0_off52_inb k 1) (k0_off52_inb k 1) (k0_off41_inb k)
        ((cf0 (k0_off52 k 256#32 16#32)).trans (by show 1024 * k.val + 272 = _; omega)) ((cf0 (k0_off52 k 256#32 16#32)).trans (by show 1024 * k.val + 272 = _; omega)) ((cf0 (k0_off41 k)).trans (by show 16 * k.val = _; omega))
        _ 16#32 (by decide) _ _ (by first | rfl | rw [Shape.reshapeEquiv_self]) rfl x⟩,
    ⟨(cf0 (k0_off52 k 256#32 0#32)).trans (by show 1024 * k.val + 256 = 1024 * k.val + 16 * 16; omega), rfl, rfl, fun x =>
      piece_agree (bufS1).view (tabS).view (ixS1).view f TT X _ k.val 4 0 hk (by omega) (by omega) hf hX (k0_off52 k 256#32 0#32) (k0_off50 k 256#32 0#32) (k0_off41 k)
        (k0_off52_inb k 0) (k0_off50_inb k 4) (k0_off41_inb k)
        ((cf0 (k0_off52 k 256#32 0#32)).trans (by show 1024 * k.val + 256 = _; omega)) ((cf0 (k0_off50 k 256#32 0#32)).trans (by show 1024 * k.val + 256 = _; omega)) ((cf0 (k0_off41 k)).trans (by show 16 * k.val = _; omega))
        _ 0#32 (by decide) _ _ (by first | rfl | rw [Shape.reshapeEquiv_self]) rfl x⟩,
    ⟨(cf0 (k0_off50 k 192#32 48#32)).trans (by show 1024 * k.val + 240 = 1024 * k.val + 16 * 15; omega), rfl, rfl, fun x =>
      piece_agree (bufS1).view (tabS).view (ixS1).view f TT X _ k.val 3 3 hk (by omega) (by omega) hf hX (k0_off50 k 192#32 48#32) (k0_off50 k 192#32 48#32) (k0_off41 k)
        (k0_off50_inb k 3) (k0_off50_inb k 3) (k0_off41_inb k)
        ((cf0 (k0_off50 k 192#32 48#32)).trans (by show 1024 * k.val + 240 = _; omega)) ((cf0 (k0_off50 k 192#32 48#32)).trans (by show 1024 * k.val + 240 = _; omega)) ((cf0 (k0_off41 k)).trans (by show 16 * k.val = _; omega))
        _ 48#32 (by decide) _ _ (by first | rfl | rw [Shape.reshapeEquiv_self]) rfl x⟩,
    ⟨(cf0 (k0_off50 k 192#32 32#32)).trans (by show 1024 * k.val + 224 = 1024 * k.val + 16 * 14; omega), rfl, rfl, fun x =>
      piece_agree (bufS1).view (tabS).view (ixS1).view f TT X _ k.val 3 2 hk (by omega) (by omega) hf hX (k0_off50 k 192#32 32#32) (k0_off50 k 192#32 32#32) (k0_off41 k)
        (k0_off50_inb k 2) (k0_off50_inb k 2) (k0_off41_inb k)
        ((cf0 (k0_off50 k 192#32 32#32)).trans (by show 1024 * k.val + 224 = _; omega)) ((cf0 (k0_off50 k 192#32 32#32)).trans (by show 1024 * k.val + 224 = _; omega)) ((cf0 (k0_off41 k)).trans (by show 16 * k.val = _; omega))
        _ 32#32 (by decide) _ _ (by first | rfl | rw [Shape.reshapeEquiv_self]) rfl x⟩,
    ⟨(cf0 (k0_off50 k 192#32 16#32)).trans (by show 1024 * k.val + 208 = 1024 * k.val + 16 * 13; omega), rfl, rfl, fun x =>
      piece_agree (bufS1).view (tabS).view (ixS1).view f TT X _ k.val 3 1 hk (by omega) (by omega) hf hX (k0_off50 k 192#32 16#32) (k0_off50 k 192#32 16#32) (k0_off41 k)
        (k0_off50_inb k 1) (k0_off50_inb k 1) (k0_off41_inb k)
        ((cf0 (k0_off50 k 192#32 16#32)).trans (by show 1024 * k.val + 208 = _; omega)) ((cf0 (k0_off50 k 192#32 16#32)).trans (by show 1024 * k.val + 208 = _; omega)) ((cf0 (k0_off41 k)).trans (by show 16 * k.val = _; omega))
        _ 16#32 (by decide) _ _ (by first | rfl | rw [Shape.reshapeEquiv_self]) rfl x⟩,
    ⟨(cf0 (k0_off50 k 192#32 0#32)).trans (by show 1024 * k.val + 192 = 1024 * k.val + 16 * 12; omega), rfl, rfl, fun x =>
      piece_agree (bufS1).view (tabS).view (ixS1).view f TT X _ k.val 3 0 hk (by omega) (by omega) hf hX (k0_off50 k 192#32 0#32) (k0_off48 k 192#32 0#32) (k0_off41 k)
        (k0_off50_inb k 0) (k0_off48_inb k 4) (k0_off41_inb k)
        ((cf0 (k0_off50 k 192#32 0#32)).trans (by show 1024 * k.val + 192 = _; omega)) ((cf0 (k0_off48 k 192#32 0#32)).trans (by show 1024 * k.val + 192 = _; omega)) ((cf0 (k0_off41 k)).trans (by show 16 * k.val = _; omega))
        _ 0#32 (by decide) _ _ (by first | rfl | rw [Shape.reshapeEquiv_self]) rfl x⟩,
    ⟨(cf0 (k0_off48 k 128#32 48#32)).trans (by show 1024 * k.val + 176 = 1024 * k.val + 16 * 11; omega), rfl, rfl, fun x =>
      piece_agree (bufS1).view (tabS).view (ixS1).view f TT X _ k.val 2 3 hk (by omega) (by omega) hf hX (k0_off48 k 128#32 48#32) (k0_off48 k 128#32 48#32) (k0_off41 k)
        (k0_off48_inb k 3) (k0_off48_inb k 3) (k0_off41_inb k)
        ((cf0 (k0_off48 k 128#32 48#32)).trans (by show 1024 * k.val + 176 = _; omega)) ((cf0 (k0_off48 k 128#32 48#32)).trans (by show 1024 * k.val + 176 = _; omega)) ((cf0 (k0_off41 k)).trans (by show 16 * k.val = _; omega))
        _ 48#32 (by decide) _ _ (by first | rfl | rw [Shape.reshapeEquiv_self]) rfl x⟩,
    ⟨(cf0 (k0_off48 k 128#32 32#32)).trans (by show 1024 * k.val + 160 = 1024 * k.val + 16 * 10; omega), rfl, rfl, fun x =>
      piece_agree (bufS1).view (tabS).view (ixS1).view f TT X _ k.val 2 2 hk (by omega) (by omega) hf hX (k0_off48 k 128#32 32#32) (k0_off48 k 128#32 32#32) (k0_off41 k)
        (k0_off48_inb k 2) (k0_off48_inb k 2) (k0_off41_inb k)
        ((cf0 (k0_off48 k 128#32 32#32)).trans (by show 1024 * k.val + 160 = _; omega)) ((cf0 (k0_off48 k 128#32 32#32)).trans (by show 1024 * k.val + 160 = _; omega)) ((cf0 (k0_off41 k)).trans (by show 16 * k.val = _; omega))
        _ 32#32 (by decide) _ _ (by first | rfl | rw [Shape.reshapeEquiv_self]) rfl x⟩,
    ⟨(cf0 (k0_off48 k 128#32 16#32)).trans (by show 1024 * k.val + 144 = 1024 * k.val + 16 * 9; omega), rfl, rfl, fun x =>
      piece_agree (bufS1).view (tabS).view (ixS1).view f TT X _ k.val 2 1 hk (by omega) (by omega) hf hX (k0_off48 k 128#32 16#32) (k0_off48 k 128#32 16#32) (k0_off41 k)
        (k0_off48_inb k 1) (k0_off48_inb k 1) (k0_off41_inb k)
        ((cf0 (k0_off48 k 128#32 16#32)).trans (by show 1024 * k.val + 144 = _; omega)) ((cf0 (k0_off48 k 128#32 16#32)).trans (by show 1024 * k.val + 144 = _; omega)) ((cf0 (k0_off41 k)).trans (by show 16 * k.val = _; omega))
        _ 16#32 (by decide) _ _ (by first | rfl | rw [Shape.reshapeEquiv_self]) rfl x⟩,
    ⟨(cf0 (k0_off48 k 128#32 0#32)).trans (by show 1024 * k.val + 128 = 1024 * k.val + 16 * 8; omega), rfl, rfl, fun x =>
      piece_agree (bufS1).view (tabS).view (ixS1).view f TT X _ k.val 2 0 hk (by omega) (by omega) hf hX (k0_off48 k 128#32 0#32) (k0_off46 k 128#32 0#32) (k0_off41 k)
        (k0_off48_inb k 0) (k0_off46_inb k 4) (k0_off41_inb k)
        ((cf0 (k0_off48 k 128#32 0#32)).trans (by show 1024 * k.val + 128 = _; omega)) ((cf0 (k0_off46 k 128#32 0#32)).trans (by show 1024 * k.val + 128 = _; omega)) ((cf0 (k0_off41 k)).trans (by show 16 * k.val = _; omega))
        _ 0#32 (by decide) _ _ (by first | rfl | rw [Shape.reshapeEquiv_self]) rfl x⟩,
    ⟨(cf0 (k0_off46 k 64#32 48#32)).trans (by show 1024 * k.val + 112 = 1024 * k.val + 16 * 7; omega), rfl, rfl, fun x =>
      piece_agree (bufS1).view (tabS).view (ixS1).view f TT X _ k.val 1 3 hk (by omega) (by omega) hf hX (k0_off46 k 64#32 48#32) (k0_off46 k 64#32 48#32) (k0_off41 k)
        (k0_off46_inb k 3) (k0_off46_inb k 3) (k0_off41_inb k)
        ((cf0 (k0_off46 k 64#32 48#32)).trans (by show 1024 * k.val + 112 = _; omega)) ((cf0 (k0_off46 k 64#32 48#32)).trans (by show 1024 * k.val + 112 = _; omega)) ((cf0 (k0_off41 k)).trans (by show 16 * k.val = _; omega))
        _ 48#32 (by decide) _ _ (by first | rfl | rw [Shape.reshapeEquiv_self]) rfl x⟩,
    ⟨(cf0 (k0_off46 k 64#32 32#32)).trans (by show 1024 * k.val + 96 = 1024 * k.val + 16 * 6; omega), rfl, rfl, fun x =>
      piece_agree (bufS1).view (tabS).view (ixS1).view f TT X _ k.val 1 2 hk (by omega) (by omega) hf hX (k0_off46 k 64#32 32#32) (k0_off46 k 64#32 32#32) (k0_off41 k)
        (k0_off46_inb k 2) (k0_off46_inb k 2) (k0_off41_inb k)
        ((cf0 (k0_off46 k 64#32 32#32)).trans (by show 1024 * k.val + 96 = _; omega)) ((cf0 (k0_off46 k 64#32 32#32)).trans (by show 1024 * k.val + 96 = _; omega)) ((cf0 (k0_off41 k)).trans (by show 16 * k.val = _; omega))
        _ 32#32 (by decide) _ _ (by first | rfl | rw [Shape.reshapeEquiv_self]) rfl x⟩,
    ⟨(cf0 (k0_off46 k 64#32 16#32)).trans (by show 1024 * k.val + 80 = 1024 * k.val + 16 * 5; omega), rfl, rfl, fun x =>
      piece_agree (bufS1).view (tabS).view (ixS1).view f TT X _ k.val 1 1 hk (by omega) (by omega) hf hX (k0_off46 k 64#32 16#32) (k0_off46 k 64#32 16#32) (k0_off41 k)
        (k0_off46_inb k 1) (k0_off46_inb k 1) (k0_off41_inb k)
        ((cf0 (k0_off46 k 64#32 16#32)).trans (by show 1024 * k.val + 80 = _; omega)) ((cf0 (k0_off46 k 64#32 16#32)).trans (by show 1024 * k.val + 80 = _; omega)) ((cf0 (k0_off41 k)).trans (by show 16 * k.val = _; omega))
        _ 16#32 (by decide) _ _ (by first | rfl | rw [Shape.reshapeEquiv_self]) rfl x⟩,
    ⟨(cf0 (k0_off46 k 64#32 0#32)).trans (by show 1024 * k.val + 64 = 1024 * k.val + 16 * 4; omega), rfl, rfl, fun x =>
      piece_agree (bufS1).view (tabS).view (ixS1).view f TT X _ k.val 1 0 hk (by omega) (by omega) hf hX (k0_off46 k 64#32 0#32) (k0_off44 k 64#32 0#32) (k0_off41 k)
        (k0_off46_inb k 0) (k0_off44_inb k 4) (k0_off41_inb k)
        ((cf0 (k0_off46 k 64#32 0#32)).trans (by show 1024 * k.val + 64 = _; omega)) ((cf0 (k0_off44 k 64#32 0#32)).trans (by show 1024 * k.val + 64 = _; omega)) ((cf0 (k0_off41 k)).trans (by show 16 * k.val = _; omega))
        _ 0#32 (by decide) _ _ (by first | rfl | rw [Shape.reshapeEquiv_self]) rfl x⟩,
    ⟨(cf0 (k0_off44 k 0#32 48#32)).trans (by show 1024 * k.val + 48 = 1024 * k.val + 16 * 3; omega), rfl, rfl, fun x =>
      piece_agree (bufS1).view (tabS).view (ixS1).view f TT X _ k.val 0 3 hk (by omega) (by omega) hf hX (k0_off44 k 0#32 48#32) (k0_off44 k 0#32 48#32) (k0_off41 k)
        (k0_off44_inb k 3) (k0_off44_inb k 3) (k0_off41_inb k)
        ((cf0 (k0_off44 k 0#32 48#32)).trans (by show 1024 * k.val + 48 = _; omega)) ((cf0 (k0_off44 k 0#32 48#32)).trans (by show 1024 * k.val + 48 = _; omega)) ((cf0 (k0_off41 k)).trans (by show 16 * k.val = _; omega))
        _ 48#32 (by decide) _ _ (by first | rfl | rw [Shape.reshapeEquiv_self]) rfl x⟩,
    ⟨(cf0 (k0_off44 k 0#32 32#32)).trans (by show 1024 * k.val + 32 = 1024 * k.val + 16 * 2; omega), rfl, rfl, fun x =>
      piece_agree (bufS1).view (tabS).view (ixS1).view f TT X _ k.val 0 2 hk (by omega) (by omega) hf hX (k0_off44 k 0#32 32#32) (k0_off44 k 0#32 32#32) (k0_off41 k)
        (k0_off44_inb k 2) (k0_off44_inb k 2) (k0_off41_inb k)
        ((cf0 (k0_off44 k 0#32 32#32)).trans (by show 1024 * k.val + 32 = _; omega)) ((cf0 (k0_off44 k 0#32 32#32)).trans (by show 1024 * k.val + 32 = _; omega)) ((cf0 (k0_off41 k)).trans (by show 16 * k.val = _; omega))
        _ 32#32 (by decide) _ _ (by first | rfl | rw [Shape.reshapeEquiv_self]) rfl x⟩,
    ⟨(cf0 (k0_off44 k 0#32 16#32)).trans (by show 1024 * k.val + 16 = 1024 * k.val + 16 * 1; omega), rfl, rfl, fun x =>
      piece_agree (bufS1).view (tabS).view (ixS1).view f TT X _ k.val 0 1 hk (by omega) (by omega) hf hX (k0_off44 k 0#32 16#32) (k0_off44 k 0#32 16#32) (k0_off41 k)
        (k0_off44_inb k 1) (k0_off44_inb k 1) (k0_off41_inb k)
        ((cf0 (k0_off44 k 0#32 16#32)).trans (by show 1024 * k.val + 16 = _; omega)) ((cf0 (k0_off44 k 0#32 16#32)).trans (by show 1024 * k.val + 16 = _; omega)) ((cf0 (k0_off41 k)).trans (by show 16 * k.val = _; omega))
        _ 16#32 (by decide) _ _ (by first | rfl | rw [Shape.reshapeEquiv_self]) rfl x⟩,
    ⟨(cf0 (k0_off44 k 0#32 0#32)).trans (by show 1024 * k.val + 0 = 1024 * k.val + 16 * 0; omega), rfl, rfl, fun x =>
      piece_agree (bufS1).view (tabS).view (ixS1).view f TT X _ k.val 0 0 hk (by omega) (by omega) hf hX (k0_off44 k 0#32 0#32) (k0_off42 k) (k0_off41 k)
        (k0_off44_inb k 0) (k0_off42_inb k) (k0_off41_inb k)
        ((cf0 (k0_off44 k 0#32 0#32)).trans (by show 1024 * k.val + 0 = _; omega)) ((cf0 (k0_off42 k)).trans (by show 1024 * k.val = _; omega)) ((cf0 (k0_off41 k)).trans (by show 16 * k.val = _; omega))
        _ 0#32 (by decide) _ _ (by first | rfl | rw [Shape.reshapeEquiv_self]) rfl x⟩,
    trivial⟩

/-- The whole loop, in continuation form: from the three buffers, the program goes on with every row done. -/
theorem loop2_spec (hX : ∀ j, BitVec.toNat ((ixS1).view.read (Elt F) X j) < 16) (v1 v21 c0_i32_32 c0_i32_33 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS1).view.loc (thrV d L) ↦{fullShare} X)
        ∗ ((bufS1).view.loc (thrV d L) ↦{fullShare} B)
        ∗ (∀ acc f, (⌜∀ y, (bufS1).view.read (Elt F) f y
              = stage ((bufS1).view.read (Elt F) B) ((tabS).view.read (Elt F) TT) ((ixS1).view.read (Elt F) X) 400 y⌝
              ∗ ((tabS).view.loc (thrV d L) ↦{fullShare} TT) ∗ ((ixS1).view.loc (thrV d L) ↦{fullShare} X)
              ∗ ((bufS1).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t2_loop k0_t2_ok init (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) >>= kk) Q := by
  iintro ⟨Ht, Hx, Hb, Hk⟩
  iapply (Scf.wp_for_bind frame (wpE (defs₀ (F := F)) 𝒱₀ (thrV d L) none) Set.univ k0_t2_loop.lb k0_t2_loop.ub k0_t2_loop.st k0_t2_ok init
    (k0_t2_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) (inv2 d L TT X B) (step2 d L TT X B hX v1 v21 c0_i32_32 c0_i32_33)) $$ [Ht Hx Hb]
  · unfold inv2
    isplitl [Ht]; · iexact Ht
    isplitl [Hx]; · iexact Hx
    iexists B; isplitl [Hb]; · iexact Hb
    ipureintro
    intro y
    unfold stage
    rw [if_neg (by omega)]
  iintro %acc HI
  unfold inv2
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KILoop3.lean ====
/-
  One compute loop of the kernel: 25 trips over a row buffer of 400 rows, trip k adding to rows 16k … 16k+15 the
  table rows their indices name. The invariant holds the table and the indices as they were and the row buffer at
  stage 16k; one trip is 64 stores of sixteen lanes, each the block of its row and lane group carrying the next
  stage's values; after the last trip every row is done.
-/
import proofs.«216121_g54726473285929_cont_9to1_m_355_3_alg».proof.Proof.KIOwn
import proofs.«216121_g54726473285929_cont_9to1_m_355_3_alg».proof.Proof.KIOff
import proofs.«216121_g54726473285929_cont_9to1_m_355_3_alg».proof.Proof.KIVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Loop
variable (d : Dev nD) (L : grid0.Coords)

variable (TT : Buf (Elt F) ((tabS).view.loc (thrV d L))) (X : Buf (Elt F) ((ixS2).view.loc (thrV d L)))
  (B : Buf (Elt F) ((bufS2).view.loc (thrV d L)))

/-- Before trip k: the table and the indices as they were, the row buffer at stage 16 k. -/
def inv3 (k : Nat) (_ : BitVec 32) : sProp 𝕄 :=
  iprop(((tabS).view.loc (thrV d L) ↦{fullShare} TT) ∗ ((ixS2).view.loc (thrV d L) ↦{fullShare} X)
    ∗ ∃ f, ((bufS2).view.loc (thrV d L) ↦{fullShare} f)
        ∗ ⌜∀ y, (bufS2).view.read (Elt F) f y
            = stage ((bufS2).view.read (Elt F) B) ((tabS).view.read (Elt F) TT) ((ixS2).view.read (Elt F) X) (16 * k) y⌝)

set_option maxHeartbeats 16000000 in
/-- One trip keeps the invariant. -/
theorem step3 (hX : ∀ j, BitVec.toNat ((ixS2).view.read (Elt F) X j) < 16) (v1 v21 c0_i32_32 c0_i32_33 : BitVec 32)
    (k : Fin (Scf.trips k0_t3_loop.lb k0_t3_loop.ub k0_t3_loop.st)) (acc : BitVec 32) :
    inv3 d L TT X B k acc
      ⊢ wp frame (wpE (defs₀ (F := F)) 𝒱₀ (thrV d L) none) Set.univ
          (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33 k acc) (inv3 d L TT X B (k.val + 1)) := by
  have hk : k.val < 25 := Nat.lt_of_lt_of_le k.isLt k0_t3_abs.2.1
  unfold inv3 k0_t3_body
  iintro ⟨Ht, Hx, %f, Hb, %hf⟩
  sl_exec_parts (disch := exact fun r a => off_gen _ (hX _) r a)
  sl_step
  isplitl [Ht]; · iexact Ht
  isplitl [Hx]; · iexact Hx
  iexists _; isplitl [Hb]; · iexact Hb
  ipureintro
  sl_unfold_run_names
  unfold_pays
  simp only [shapeCast_self]
  refine trip_reads' (bufS2).view f _ _ _ k.val _ rfl hf ?_
  exact ⟨
    ⟨(cf0 (k0_off110 k 48#32)).trans (by show 1024 * k.val + 16 * 3 + 960 = 1024 * k.val + 16 * 63; omega), rfl, rfl, fun x =>
      piece_agree (bufS2).view (tabS).view (ixS2).view f TT X _ k.val 15 3 hk (by omega) (by omega) hf hX (k0_off110 k 48#32) (k0_off110 k 48#32) (k0_off77 k)
        (k0_off110_inb k 3) (k0_off110_inb k 3) (k0_off77_inb k)
        ((cf0 (k0_off110 k 48#32)).trans (by show 1024 * k.val + 16 * 3 + 960 = _; omega)) ((cf0 (k0_off110 k 48#32)).trans (by show 1024 * k.val + 16 * 3 + 960 = _; omega)) ((cf0 (k0_off77 k)).trans (by show 16 * k.val = _; omega))
        _ 48#32 (by decide) _ _ (by first | rfl | rw [Shape.reshapeEquiv_self]) rfl x⟩,
    ⟨(cf0 (k0_off110 k 32#32)).trans (by show 1024 * k.val + 16 * 2 + 960 = 1024 * k.val + 16 * 62; omega), rfl, rfl, fun x =>
      piece_agree (bufS2).view (tabS).view (ixS2).view f TT X _ k.val 15 2 hk (by omega) (by omega) hf hX (k0_off110 k 32#32) (k0_off110 k 32#32) (k0_off77 k)
        (k0_off110_inb k 2) (k0_off110_inb k 2) (k0_off77_inb k)
        ((cf0 (k0_off110 k 32#32)).trans (by show 1024 * k.val + 16 * 2 + 960 = _; omega)) ((cf0 (k0_off110 k 32#32)).trans (by show 1024 * k.val + 16 * 2 + 960 = _; omega)) ((cf0 (k0_off77 k)).trans (by show 16 * k.val = _; omega))
        _ 32#32 (by decide) _ _ (by first | rfl | rw [Shape.reshapeEquiv_self]) rfl x⟩,
    ⟨(cf0 (k0_off110 k 16#32)).trans (by show 1024 * k.val + 16 * 1 + 960 = 1024 * k.val + 16 * 61; omega), rfl, rfl, fun x =>
      piece_agree (bufS2).view (tabS).view (ixS2).view f TT X _ k.val 15 1 hk (by omega) (by omega) hf hX (k0_off110 k 16#32) (k0_off110 k 16#32) (k0_off77 k)
        (k0_off110_inb k 1) (k0_off110_inb k 1) (k0_off77_inb k)
        ((cf0 (k0_off110 k 16#32)).trans (by show 1024 * k.val + 16 * 1 + 960 = _; omega)) ((cf0 (k0_off110 k 16#32)).trans (by show 1024 * k.val + 16 * 1 + 960 = _; omega)) ((cf0 (k0_off77 k)).trans (by show 16 * k.val = _; omega))
        _ 16#32 (by decide) _ _ (by first | rfl | rw [Shape.reshapeEquiv_self]) rfl x⟩,
    ⟨(cf0 (k0_off110 k 0#32)).trans (by show 1024 * k.val + 16 * 0 + 960 = 1024 * k.val + 16 * 60; omega), rfl, rfl, fun x =>
      piece_agree (bufS2).view (tabS).view (ixS2).view f TT X _ k.val 15 0 hk (by omega) (by omega) hf hX (k0_off110 k 0#32) (k0_off108 k 960#32 0#32) (k0_off77 k)
        (k0_off110_inb k 0) (k0_off108_inb k 4) (k0_off77_inb k)
        ((cf0 (k0_off110 k 0#32)).trans (by show 1024 * k.val + 16 * 0 + 960 = _; omega)) ((cf0 (k0_off108 k 960#32 0#32)).trans (by show 1024 * k.val + 960 = _; omega)) ((cf0 (k0_off77 k)).trans (by show 16 * k.val = _; omega))
        _ 0#32 (by decide) _ _ (by first | rfl | rw [Shape.reshapeEquiv_self]) rfl x⟩,
    ⟨(cf0 (k0_off108 k 896#32 48#32)).trans (by show 1024 * k.val + 944 = 1024 * k.val + 16 * 59; omega), rfl, rfl, fun x =>
      piece_agree (bufS2).view (tabS).view (ixS2).view f TT X _ k.val 14 3 hk (by omega) (by omega) hf hX (k0_off108 k 896#32 48#32) (k0_off108 k 896#32 48#32) (k0_off77 k)
        (k0_off108_inb k 3) (k0_off108_inb k 3) (k0_off77_inb k)
        ((cf0 (k0_off108 k 896#32 48#32)).trans (by show 1024 * k.val + 944 = _; omega)) ((cf0 (k0_off108 k 896#32 48#32)).trans (by show 1024 * k.val + 944 = _; omega)) ((cf0 (k0_off77 k)).trans (by show 16 * k.val = _; omega))
        _ 48#32 (by decide) _ _ (by first | rfl | rw [Shape.reshapeEquiv_self]) rfl x⟩,
    ⟨(cf0 (k0_off108 k 896#32 32#32)).trans (by show 1024 * k.val + 928 = 1024 * k.val + 16 * 58; omega), rfl, rfl, fun x =>
      piece_agree (bufS2).view (tabS).view (ixS2).view f TT X _ k.val 14 2 hk (by omega) (by omega) hf hX (k0_off108 k 896#32 32#32) (k0_off108 k 896#32 32#32) (k0_off77 k)
        (k0_off108_inb k 2) (k0_off108_inb k 2) (k0_off77_inb k)
        ((cf0 (k0_off108 k 896#32 32#32)).trans (by show 1024 * k.val + 928 = _; omega)) ((cf0 (k0_off108 k 896#32 32#32)).trans (by show 1024 * k.val + 928 = _; omega)) ((cf0 (k0_off77 k)).trans (by show 16 * k.val = _; omega))
        _ 32#32 (by decide) _ _ (by first | rfl | rw [Shape.reshapeEquiv_self]) rfl x⟩,
    ⟨(cf0 (k0_off108 k 896#32 16#32)).trans (by show 1024 * k.val + 912 = 1024 * k.val + 16 * 57; omega), rfl, rfl, fun x =>
      piece_agree (bufS2).view (tabS).view (ixS2).view f TT X _ k.val 14 1 hk (by omega) (by omega) hf hX (k0_off108 k 896#32 16#32) (k0_off108 k 896#32 16#32) (k0_off77 k)
        (k0_off108_inb k 1) (k0_off108_inb k 1) (k0_off77_inb k)
        ((cf0 (k0_off108 k 896#32 16#32)).trans (by show 1024 * k.val + 912 = _; omega)) ((cf0 (k0_off108 k 896#32 16#32)).trans (by show 1024 * k.val + 912 = _; omega)) ((cf0 (k0_off77 k)).trans (by show 16 * k.val = _; omega))
        _ 16#32 (by decide) _ _ (by first | rfl | rw [Shape.reshapeEquiv_self]) rfl x⟩,
    ⟨(cf0 (k0_off108 k 896#32 0#32)).trans (by show 1024 * k.val + 896 = 1024 * k.val + 16 * 56; omega), rfl, rfl, fun x =>
      piece_agree (bufS2).view (tabS).view (ixS2).view f TT X _ k.val 14 0 hk (by omega) (by omega) hf hX (k0_off108 k 896#32 0#32) (k0_off106 k 896#32 0#32) (k0_off77 k)
        (k0_off108_inb k 0) (k0_off106_inb k 4) (k0_off77_inb k)
        ((cf0 (k0_off108 k 896#32 0#32)).trans (by show 1024 * k.val + 896 = _; omega)) ((cf0 (k0_off106 k 896#32 0#32)).trans (by show 1024 * k.val + 896 = _; omega)) ((cf0 (k0_off77 k)).trans (by show 16 * k.val = _; omega))
        _ 0#32 (by decide) _ _ (by first | rfl | rw [Shape.reshapeEquiv_self]) rfl x⟩,
    ⟨(cf0 (k0_off106 k 832#32 48#32)).trans (by show 1024 * k.val + 880 = 1024 * k.val + 16 * 55; omega), rfl, rfl, fun x =>
      piece_agree (bufS2).view (tabS).view (ixS2).view f TT X _ k.val 13 3 hk (by omega) (by omega) hf hX (k0_off106 k 832#32 48#32) (k0_off106 k 832#32 48#32) (k0_off77 k)
        (k0_off106_inb k 3) (k0_off106_inb k 3) (k0_off77_inb k)
        ((cf0 (k0_off106 k 832#32 48#32)).trans (by show 1024 * k.val + 880 = _; omega)) ((cf0 (k0_off106 k 832#32 48#32)).trans (by show 1024 * k.val + 880 = _; omega)) ((cf0 (k0_off77 k)).trans (by show 16 * k.val = _; omega))
        _ 48#32 (by decide) _ _ (by first | rfl | rw [Shape.reshapeEquiv_self]) rfl x⟩,
    ⟨(cf0 (k0_off106 k 832#32 32#32)).trans (by show 1024 * k.val + 864 = 1024 * k.val + 16 * 54; omega), rfl, rfl, fun x =>
      piece_agree (bufS2).view (tabS).view (ixS2).view f TT X _ k.val 13 2 hk (by omega) (by omega) hf hX (k0_off106 k 832#32 32#32) (k0_off106 k 832#32 32#32) (k0_off77 k)
        (k0_off106_inb k 2) (k0_off106_inb k 2) (k0_off77_inb k)
        ((cf0 (k0_off106 k 832#32 32#32)).trans (by show 1024 * k.val + 864 = _; omega)) ((cf0 (k0_off106 k 832#32 32#32)).trans (by show 1024 * k.val + 864 = _; omega)) ((cf0 (k0_off77 k)).trans (by show 16 * k.val = _; omega))
        _ 32#32 (by decide) _ _ (by first | rfl | rw [Shape.reshapeEquiv_self]) rfl x⟩,
    ⟨(cf0 (k0_off106 k 832#32 16#32)).trans (by show 1024 * k.val + 848 = 1024 * k.val + 16 * 53; omega), rfl, rfl, fun x =>
      piece_agree (bufS2).view (tabS).view (ixS2).view f TT X _ k.val 13 1 hk (by omega) (by omega) hf hX (k0_off106 k 832#32 16#32) (k0_off106 k 832#32 16#32) (k0_off77 k)
        (k0_off106_inb k 1) (k0_off106_inb k 1) (k0_off77_inb k)
        ((cf0 (k0_off106 k 832#32 16#32)).trans (by show 1024 * k.val + 848 = _; omega)) ((cf0 (k0_off106 k 832#32 16#32)).trans (by show 1024 * k.val + 848 = _; omega)) ((cf0 (k0_off77 k)).trans (by show 16 * k.val = _; omega))
        _ 16#32 (by decide) _ _ (by first | rfl | rw [Shape.reshapeEquiv_self]) rfl x⟩,
    ⟨(cf0 (k0_off106 k 832#32 0#32)).trans (by show 1024 * k.val + 832 = 1024 * k.val + 16 * 52; omega), rfl, rfl, fun x =>
      piece_agree (bufS2).view (tabS).view (ixS2).view f TT X _ k.val 13 0 hk (by omega) (by omega) hf hX (k0_off106 k 832#32 0#32) (k0_off104 k 832#32 0#32) (k0_off77 k)
        (k0_off106_inb k 0) (k0_off104_inb k 4) (k0_off77_inb k)
        ((cf0 (k0_off106 k 832#32 0#32)).trans (by show 1024 * k.val + 832 = _; omega)) ((cf0 (k0_off104 k 832#32 0#32)).trans (by show 1024 * k.val + 832 = _; omega)) ((cf0 (k0_off77 k)).trans (by show 16 * k.val = _; omega))
        _ 0#32 (by decide) _ _ (by first | rfl | rw [Shape.reshapeEquiv_self]) rfl x⟩,
    ⟨(cf0 (k0_off104 k 768#32 48#32)).trans (by show 1024 * k.val + 816 = 1024 * k.val + 16 * 51; omega), rfl, rfl, fun x =>
      piece_agree (bufS2).view (tabS).view (ixS2).view f TT X _ k.val 12 3 hk (by omega) (by omega) hf hX (k0_off104 k 768#32 48#32) (k0_off104 k 768#32 48#32) (k0_off77 k)
        (k0_off104_inb k 3) (k0_off104_inb k 3) (k0_off77_inb k)
        ((cf0 (k0_off104 k 768#32 48#32)).trans (by show 1024 * k.val + 816 = _; omega)) ((cf0 (k0_off104 k 768#32 48#32)).trans (by show 1024 * k.val + 816 = _; omega)) ((cf0 (k0_off77 k)).trans (by show 16 * k.val = _; omega))
        _ 48#32 (by decide) _ _ (by first | rfl | rw [Shape.reshapeEquiv_self]) rfl x⟩,
    ⟨(cf0 (k0_off104 k 768#32 32#32)).trans (by show 1024 * k.val + 800 = 1024 * k.val + 16 * 50; omega), rfl, rfl, fun x =>
      piece_agree (bufS2).view (tabS).view (ixS2).view f TT X _ k.val 12 2 hk (by omega) (by omega) hf hX (k0_off104 k 768#32 32#32) (k0_off104 k 768#32 32#32) (k0_off77 k)
        (k0_off104_inb k 2) (k0_off104_inb k 2) (k0_off77_inb k)
        ((cf0 (k0_off104 k 768#32 32#32)).trans (by show 1024 * k.val + 800 = _; omega)) ((cf0 (k0_off104 k 768#32 32#32)).trans (by show 1024 * k.val + 800 = _; omega)) ((cf0 (k0_off77 k)).trans (by show 16 * k.val = _; omega))
        _ 32#32 (by decide) _ _ (by first | rfl | rw [Shape.reshapeEquiv_self]) rfl x⟩,
    ⟨(cf0 (k0_off104 k 768#32 16#32)).trans (by show 1024 * k.val + 784 = 1024 * k.val + 16 * 49; omega), rfl, rfl, fun x =>
      piece_agree (bufS2).view (tabS).view (ixS2).view f TT X _ k.val 12 1 hk (by omega) (by omega) hf hX (k0_off104 k 768#32 16#32) (k0_off104 k 768#32 16#32) (k0_off77 k)
        (k0_off104_inb k 1) (k0_off104_inb k 1) (k0_off77_inb k)
        ((cf0 (k0_off104 k 768#32 16#32)).trans (by show 1024 * k.val + 784 = _; omega)) ((cf0 (k0_off104 k 768#32 16#32)).trans (by show 1024 * k.val + 784 = _; omega)) ((cf0 (k0_off77 k)).trans (by show 16 * k.val = _; omega))
        _ 16#32 (by decide) _ _ (by first | rfl | rw [Shape.reshapeEquiv_self]) rfl x⟩,
    ⟨(cf0 (k0_off104 k 768#32 0#32)).trans (by show 1024 * k.val + 768 = 1024 * k.val + 16 * 48; omega), rfl, rfl, fun x =>
      piece_agree (bufS2).view (tabS).view (ixS2).view f TT X _ k.val 12 0 hk (by omega) (by omega) hf hX (k0_off104 k 768#32 0#32) (k0_off102 k 768#32 0#32) (k0_off77 k)
        (k0_off104_inb k 0) (k0_off102_inb k 4) (k0_off77_inb k)
        ((cf0 (k0_off104 k 768#32 0#32)).trans (by show 1024 * k.val + 768 = _; omega)) ((cf0 (k0_off102 k 768#32 0#32)).trans (by show 1024 * k.val + 768 = _; omega)) ((cf0 (k0_off77 k)).trans (by show 16 * k.val = _; omega))
        _ 0#32 (by decide) _ _ (by first | rfl | rw [Shape.reshapeEquiv_self]) rfl x⟩,
    ⟨(cf0 (k0_off102 k 704#32 48#32)).trans (by show 1024 * k.val + 752 = 1024 * k.val + 16 * 47; omega), rfl, rfl, fun x =>
      piece_agree (bufS2).view (tabS).view (ixS2).view f TT X _ k.val 11 3 hk (by omega) (by omega) hf hX (k0_off102 k 704#32 48#32) (k0_off102 k 704#32 48#32) (k0_off77 k)
        (k0_off102_inb k 3) (k0_off102_inb k 3) (k0_off77_inb k)
        ((cf0 (k0_off102 k 704#32 48#32)).trans (by show 1024 * k.val + 752 = _; omega)) ((cf0 (k0_off102 k 704#32 48#32)).trans (by show 1024 * k.val + 752 = _; omega)) ((cf0 (k0_off77 k)).trans (by show 16 * k.val = _; omega))
        _ 48#32 (by decide) _ _ (by first | rfl | rw [Shape.reshapeEquiv_self]) rfl x⟩,
    ⟨(cf0 (k0_off102 k 704#32 32#32)).trans (by show 1024 * k.val + 736 = 1024 * k.val + 16 * 46; omega), rfl, rfl, fun x =>
      piece_agree (bufS2).view (tabS).view (ixS2).view f TT X _ k.val 11 2 hk (by omega) (by omega) hf hX (k0_off102 k 704#32 32#32) (k0_off102 k 704#32 32#32) (k0_off77 k)
        (k0_off102_inb k 2) (k0_off102_inb k 2) (k0_off77_inb k)
        ((cf0 (k0_off102 k 704#32 32#32)).trans (by show 1024 * k.val + 736 = _; omega)) ((cf0 (k0_off102 k 704#32 32#32)).trans (by show 1024 * k.val + 736 = _; omega)) ((cf0 (k0_off77 k)).trans (by show 16 * k.val = _; omega))
        _ 32#32 (by decide) _ _ (by first | rfl | rw [Shape.reshapeEquiv_self]) rfl x⟩,
    ⟨(cf0 (k0_off102 k 704#32 16#32)).trans (by show 1024 * k.val + 720 = 1024 * k.val + 16 * 45; omega), rfl, rfl, fun x =>
      piece_agree (bufS2).view (tabS).view (ixS2).view f TT X _ k.val 11 1 hk (by omega) (by omega) hf hX (k0_off102 k 704#32 16#32) (k0_off102 k 704#32 16#32) (k0_off77 k)
        (k0_off102_inb k 1) (k0_off102_inb k 1) (k0_off77_inb k)
        ((cf0 (k0_off102 k 704#32 16#32)).trans (by show 1024 * k.val + 720 = _; omega)) ((cf0 (k0_off102 k 704#32 16#32)).trans (by show 1024 * k.val + 720 = _; omega)) ((cf0 (k0_off77 k)).trans (by show 16 * k.val = _; omega))
        _ 16#32 (by decide) _ _ (by first | rfl | rw [Shape.reshapeEquiv_self]) rfl x⟩,
    ⟨(cf0 (k0_off102 k 704#32 0#32)).trans (by show 1024 * k.val + 704 = 1024 * k.val + 16 * 44; omega), rfl, rfl, fun x =>
      piece_agree (bufS2).view (tabS).view (ixS2).view f TT X _ k.val 11 0 hk (by omega) (by omega) hf hX (k0_off102 k 704#32 0#32) (k0_off100 k 704#32 0#32) (k0_off77 k)
        (k0_off102_inb k 0) (k0_off100_inb k 4) (k0_off77_inb k)
        ((cf0 (k0_off102 k 704#32 0#32)).trans (by show 1024 * k.val + 704 = _; omega)) ((cf0 (k0_off100 k 704#32 0#32)).trans (by show 1024 * k.val + 704 = _; omega)) ((cf0 (k0_off77 k)).trans (by show 16 * k.val = _; omega))
        _ 0#32 (by decide) _ _ (by first | rfl | rw [Shape.reshapeEquiv_self]) rfl x⟩,
    ⟨(cf0 (k0_off100 k 640#32 48#32)).trans (by show 1024 * k.val + 688 = 1024 * k.val + 16 * 43; omega), rfl, rfl, fun x =>
      piece_agree (bufS2).view (tabS).view (ixS2).view f TT X _ k.val 10 3 hk (by omega) (by omega) hf hX (k0_off100 k 640#32 48#32) (k0_off100 k 640#32 48#32) (k0_off77 k)
        (k0_off100_inb k 3) (k0_off100_inb k 3) (k0_off77_inb k)
        ((cf0 (k0_off100 k 640#32 48#32)).trans (by show 1024 * k.val + 688 = _; omega)) ((cf0 (k0_off100 k 640#32 48#32)).trans (by show 1024 * k.val + 688 = _; omega)) ((cf0 (k0_off77 k)).trans (by show 16 * k.val = _; omega))
        _ 48#32 (by decide) _ _ (by first | rfl | rw [Shape.reshapeEquiv_self]) rfl x⟩,
    ⟨(cf0 (k0_off100 k 640#32 32#32)).trans (by show 1024 * k.val + 672 = 1024 * k.val + 16 * 42; omega), rfl, rfl, fun x =>
      piece_agree (bufS2).view (tabS).view (ixS2).view f TT X _ k.val 10 2 hk (by omega) (by omega) hf hX (k0_off100 k 640#32 32#32) (k0_off100 k 640#32 32#32) (k0_off77 k)
        (k0_off100_inb k 2) (k0_off100_inb k 2) (k0_off77_inb k)
        ((cf0 (k0_off100 k 640#32 32#32)).trans (by show 1024 * k.val + 672 = _; omega)) ((cf0 (k0_off100 k 640#32 32#32)).trans (by show 1024 * k.val + 672 = _; omega)) ((cf0 (k0_off77 k)).trans (by show 16 * k.val = _; omega))
        _ 32#32 (by decide) _ _ (by first | rfl | rw [Shape.reshapeEquiv_self]) rfl x⟩,
    ⟨(cf0 (k0_off100 k 640#32 16#32)).trans (by show 1024 * k.val + 656 = 1024 * k.val + 16 * 41; omega), rfl, rfl, fun x =>
      piece_agree (bufS2).view (tabS).view (ixS2).view f TT X _ k.val 10 1 hk (by omega) (by omega) hf hX (k0_off100 k 640#32 16#32) (k0_off100 k 640#32 16#32) (k0_off77 k)
        (k0_off100_inb k 1) (k0_off100_inb k 1) (k0_off77_inb k)
        ((cf0 (k0_off100 k 640#32 16#32)).trans (by show 1024 * k.val + 656 = _; omega)) ((cf0 (k0_off100 k 640#32 16#32)).trans (by show 1024 * k.val + 656 = _; omega)) ((cf0 (k0_off77 k)).trans (by show 16 * k.val = _; omega))
        _ 16#32 (by decide) _ _ (by first | rfl | rw [Shape.reshapeEquiv_self]) rfl x⟩,
    ⟨(cf0 (k0_off100 k 640#32 0#32)).trans (by show 1024 * k.val + 640 = 1024 * k.val + 16 * 40; omega), rfl, rfl, fun x =>
      piece_agree (bufS2).view (tabS).view (ixS2).view f TT X _ k.val 10 0 hk (by omega) (by omega) hf hX (k0_off100 k 640#32 0#32) (k0_off98 k 640#32 0#32) (k0_off77 k)
        (k0_off100_inb k 0) (k0_off98_inb k 4) (k0_off77_inb k)
        ((cf0 (k0_off100 k 640#32 0#32)).trans (by show 1024 * k.val + 640 = _; omega)) ((cf0 (k0_off98 k 640#32 0#32)).trans (by show 1024 * k.val + 640 = _; omega)) ((cf0 (k0_off77 k)).trans (by show 16 * k.val = _; omega))
        _ 0#32 (by decide) _ _ (by first | rfl | rw [Shape.reshapeEquiv_self]) rfl x⟩,
    ⟨(cf0 (k0_off98 k 576#32 48#32)).trans (by show 1024 * k.val + 624 = 1024 * k.val + 16 * 39; omega), rfl, rfl, fun x =>
      piece_agree (bufS2).view (tabS).view (ixS2).view f TT X _ k.val 9 3 hk (by omega) (by omega) hf hX (k0_off98 k 576#32 48#32) (k0_off98 k 576#32 48#32) (k0_off77 k)
        (k0_off98_inb k 3) (k0_off98_inb k 3) (k0_off77_inb k)
        ((cf0 (k0_off98 k 576#32 48#32)).trans (by show 1024 * k.val + 624 = _; omega)) ((cf0 (k0_off98 k 576#32 48#32)).trans (by show 1024 * k.val + 624 = _; omega)) ((cf0 (k0_off77 k)).trans (by show 16 * k.val = _; omega))
        _ 48#32 (by decide) _ _ (by first | rfl | rw [Shape.reshapeEquiv_self]) rfl x⟩,
    ⟨(cf0 (k0_off98 k 576#32 32#32)).trans (by show 1024 * k.val + 608 = 1024 * k.val + 16 * 38; omega), rfl, rfl, fun x =>
      piece_agree (bufS2).view (tabS).view (ixS2).view f TT X _ k.val 9 2 hk (by omega) (by omega) hf hX (k0_off98 k 576#32 32#32) (k0_off98 k 576#32 32#32) (k0_off77 k)
        (k0_off98_inb k 2) (k0_off98_inb k 2) (k0_off77_inb k)
        ((cf0 (k0_off98 k 576#32 32#32)).trans (by show 1024 * k.val + 608 = _; omega)) ((cf0 (k0_off98 k 576#32 32#32)).trans (by show 1024 * k.val + 608 = _; omega)) ((cf0 (k0_off77 k)).trans (by show 16 * k.val = _; omega))
        _ 32#32 (by decide) _ _ (by first | rfl | rw [Shape.reshapeEquiv_self]) rfl x⟩,
    ⟨(cf0 (k0_off98 k 576#32 16#32)).trans (by show 1024 * k.val + 592 = 1024 * k.val + 16 * 37; omega), rfl, rfl, fun x =>
      piece_agree (bufS2).view (tabS).view (ixS2).view f TT X _ k.val 9 1 hk (by omega) (by omega) hf hX (k0_off98 k 576#32 16#32) (k0_off98 k 576#32 16#32) (k0_off77 k)
        (k0_off98_inb k 1) (k0_off98_inb k 1) (k0_off77_inb k)
        ((cf0 (k0_off98 k 576#32 16#32)).trans (by show 1024 * k.val + 592 = _; omega)) ((cf0 (k0_off98 k 576#32 16#32)).trans (by show 1024 * k.val + 592 = _; omega)) ((cf0 (k0_off77 k)).trans (by show 16 * k.val = _; omega))
        _ 16#32 (by decide) _ _ (by first | rfl | rw [Shape.reshapeEquiv_self]) rfl x⟩,
    ⟨(cf0 (k0_off98 k 576#32 0#32)).trans (by show 1024 * k.val + 576 = 1024 * k.val + 16 * 36; omega), rfl, rfl, fun x =>
      piece_agree (bufS2).view (tabS).view (ixS2).view f TT X _ k.val 9 0 hk (by omega) (by omega) hf hX (k0_off98 k 576#32 0#32) (k0_off96 k 576#32 0#32) (k0_off77 k)
        (k0_off98_inb k 0) (k0_off96_inb k 4) (k0_off77_inb k)
        ((cf0 (k0_off98 k 576#32 0#32)).trans (by show 1024 * k.val + 576 = _; omega)) ((cf0 (k0_off96 k 576#32 0#32)).trans (by show 1024 * k.val + 576 = _; omega)) ((cf0 (k0_off77 k)).trans (by show 16 * k.val = _; omega))
        _ 0#32 (by decide) _ _ (by first | rfl | rw [Shape.reshapeEquiv_self]) rfl x⟩,
    ⟨(cf0 (k0_off96 k 512#32 48#32)).trans (by show 1024 * k.val + 560 = 1024 * k.val + 16 * 35; omega), rfl, rfl, fun x =>
      piece_agree (bufS2).view (tabS).view (ixS2).view f TT X _ k.val 8 3 hk (by omega) (by omega) hf hX (k0_off96 k 512#32 48#32) (k0_off96 k 512#32 48#32) (k0_off77 k)
        (k0_off96_inb k 3) (k0_off96_inb k 3) (k0_off77_inb k)
        ((cf0 (k0_off96 k 512#32 48#32)).trans (by show 1024 * k.val + 560 = _; omega)) ((cf0 (k0_off96 k 512#32 48#32)).trans (by show 1024 * k.val + 560 = _; omega)) ((cf0 (k0_off77 k)).trans (by show 16 * k.val = _; omega))
        _ 48#32 (by decide) _ _ (by first | rfl | rw [Shape.reshapeEquiv_self]) rfl x⟩,
    ⟨(cf0 (k0_off96 k 512#32 32#32)).trans (by show 1024 * k.val + 544 = 1024 * k.val + 16 * 34; omega), rfl, rfl, fun x =>
      piece_agree (bufS2).view (tabS).view (ixS2).view f TT X _ k.val 8 2 hk (by omega) (by omega) hf hX (k0_off96 k 512#32 32#32) (k0_off96 k 512#32 32#32) (k0_off77 k)
        (k0_off96_inb k 2) (k0_off96_inb k 2) (k0_off77_inb k)
        ((cf0 (k0_off96 k 512#32 32#32)).trans (by show 1024 * k.val + 544 = _; omega)) ((cf0 (k0_off96 k 512#32 32#32)).trans (by show 1024 * k.val + 544 = _; omega)) ((cf0 (k0_off77 k)).trans (by show 16 * k.val = _; omega))
        _ 32#32 (by decide) _ _ (by first | rfl | rw [Shape.reshapeEquiv_self]) rfl x⟩,
    ⟨(cf0 (k0_off96 k 512#32 16#32)).trans (by show 1024 * k.val + 528 = 1024 * k.val + 16 * 33; omega), rfl, rfl, fun x =>
      piece_agree (bufS2).view (tabS).view (ixS2).view f TT X _ k.val 8 1 hk (by omega) (by omega) hf hX (k0_off96 k 512#32 16#32) (k0_off96 k 512#32 16#32) (k0_off77 k)
        (k0_off96_inb k 1) (k0_off96_inb k 1) (k0_off77_inb k)
        ((cf0 (k0_off96 k 512#32 16#32)).trans (by show 1024 * k.val + 528 = _; omega)) ((cf0 (k0_off96 k 512#32 16#32)).trans (by show 1024 * k.val + 528 = _; omega)) ((cf0 (k0_off77 k)).trans (by show 16 * k.val = _; omega))
        _ 16#32 (by decide) _ _ (by first | rfl | rw [Shape.reshapeEquiv_self]) rfl x⟩,
    ⟨(cf0 (k0_off96 k 512#32 0#32)).trans (by show 1024 * k.val + 512 = 1024 * k.val + 16 * 32; omega), rfl, rfl, fun x =>
      piece_agree (bufS2).view (tabS).view (ixS2).view f TT X _ k.val 8 0 hk (by omega) (by omega) hf hX (k0_off96 k 512#32 0#32) (k0_off94 k 512#32 0#32) (k0_off77 k)
        (k0_off96_inb k 0) (k0_off94_inb k 4) (k0_off77_inb k)
        ((cf0 (k0_off96 k 512#32 0#32)).trans (by show 1024 * k.val + 512 = _; omega)) ((cf0 (k0_off94 k 512#32 0#32)).trans (by show 1024 * k.val + 512 = _; omega)) ((cf0 (k0_off77 k)).trans (by show 16 * k.val = _; omega))
        _ 0#32 (by decide) _ _ (by first | rfl | rw [Shape.reshapeEquiv_self]) rfl x⟩,
    ⟨(cf0 (k0_off94 k 448#32 48#32)).trans (by show 1024 * k.val + 496 = 1024 * k.val + 16 * 31; omega), rfl, rfl, fun x =>
      piece_agree (bufS2).view (tabS).view (ixS2).view f TT X _ k.val 7 3 hk (by omega) (by omega) hf hX (k0_off94 k 448#32 48#32) (k0_off94 k 448#32 48#32) (k0_off77 k)
        (k0_off94_inb k 3) (k0_off94_inb k 3) (k0_off77_inb k)
        ((cf0 (k0_off94 k 448#32 48#32)).trans (by show 1024 * k.val + 496 = _; omega)) ((cf0 (k0_off94 k 448#32 48#32)).trans (by show 1024 * k.val + 496 = _; omega)) ((cf0 (k0_off77 k)).trans (by show 16 * k.val = _; omega))
        _ 48#32 (by decide) _ _ (by first | rfl | rw [Shape.reshapeEquiv_self]) rfl x⟩,
    ⟨(cf0 (k0_off94 k 448#32 32#32)).trans (by show 1024 * k.val + 480 = 1024 * k.val + 16 * 30; omega), rfl, rfl, fun x =>
      piece_agree (bufS2).view (tabS).view (ixS2).view f TT X _ k.val 7 2 hk (by omega) (by omega) hf hX (k0_off94 k 448#32 32#32) (k0_off94 k 448#32 32#32) (k0_off77 k)
        (k0_off94_inb k 2) (k0_off94_inb k 2) (k0_off77_inb k)
        ((cf0 (k0_off94 k 448#32 32#32)).trans (by show 1024 * k.val + 480 = _; omega)) ((cf0 (k0_off94 k 448#32 32#32)).trans (by show 1024 * k.val + 480 = _; omega)) ((cf0 (k0_off77 k)).trans (by show 16 * k.val = _; omega))
        _ 32#32 (by decide) _ _ (by first | rfl | rw [Shape.reshapeEquiv_self]) rfl x⟩,
    ⟨(cf0 (k0_off94 k 448#32 16#32)).trans (by show 1024 * k.val + 464 = 1024 * k.val + 16 * 29; omega), rfl, rfl, fun x =>
      piece_agree (bufS2).view (tabS).view (ixS2).view f TT X _ k.val 7 1 hk (by omega) (by omega) hf hX (k0_off94 k 448#32 16#32) (k0_off94 k 448#32 16#32) (k0_off77 k)
        (k0_off94_inb k 1) (k0_off94_inb k 1) (k0_off77_inb k)
        ((cf0 (k0_off94 k 448#32 16#32)).trans (by show 1024 * k.val + 464 = _; omega)) ((cf0 (k0_off94 k 448#32 16#32)).trans (by show 1024 * k.val + 464 = _; omega)) ((cf0 (k0_off77 k)).trans (by show 16 * k.val = _; omega))
        _ 16#32 (by decide) _ _ (by first | rfl | rw [Shape.reshapeEquiv_self]) rfl x⟩,
    ⟨(cf0 (k0_off94 k 448#32 0#32)).trans (by show 1024 * k.val + 448 = 1024 * k.val + 16 * 28; omega), rfl, rfl, fun x =>
      piece_agree (bufS2).view (tabS).view (ixS2).view f TT X _ k.val 7 0 hk (by omega) (by omega) hf hX (k0_off94 k 448#32 0#32) (k0_off92 k 448#32 0#32) (k0_off77 k)
        (k0_off94_inb k 0) (k0_off92_inb k 4) (k0_off77_inb k)
        ((cf0 (k0_off94 k 448#32 0#32)).trans (by show 1024 * k.val + 448 = _; omega)) ((cf0 (k0_off92 k 448#32 0#32)).trans (by show 1024 * k.val + 448 = _; omega)) ((cf0 (k0_off77 k)).trans (by show 16 * k.val = _; omega))
        _ 0#32 (by decide) _ _ (by first | rfl | rw [Shape.reshapeEquiv_self]) rfl x⟩,
    ⟨(cf0 (k0_off92 k 384#32 48#32)).trans (by show 1024 * k.val + 432 = 1024 * k.val + 16 * 27; omega), rfl, rfl, fun x =>
      piece_agree (bufS2).view (tabS).view (ixS2).view f TT X _ k.val 6 3 hk (by omega) (by omega) hf hX (k0_off92 k 384#32 48#32) (k0_off92 k 384#32 48#32) (k0_off77 k)
        (k0_off92_inb k 3) (k0_off92_inb k 3) (k0_off77_inb k)
        ((cf0 (k0_off92 k 384#32 48#32)).trans (by show 1024 * k.val + 432 = _; omega)) ((cf0 (k0_off92 k 384#32 48#32)).trans (by show 1024 * k.val + 432 = _; omega)) ((cf0 (k0_off77 k)).trans (by show 16 * k.val = _; omega))
        _ 48#32 (by decide) _ _ (by first | rfl | rw [Shape.reshapeEquiv_self]) rfl x⟩,
    ⟨(cf0 (k0_off92 k 384#32 32#32)).trans (by show 1024 * k.val + 416 = 1024 * k.val + 16 * 26; omega), rfl, rfl, fun x =>
      piece_agree (bufS2).view (tabS).view (ixS2).view f TT X _ k.val 6 2 hk (by omega) (by omega) hf hX (k0_off92 k 384#32 32#32) (k0_off92 k 384#32 32#32) (k0_off77 k)
        (k0_off92_inb k 2) (k0_off92_inb k 2) (k0_off77_inb k)
        ((cf0 (k0_off92 k 384#32 32#32)).trans (by show 1024 * k.val + 416 = _; omega)) ((cf0 (k0_off92 k 384#32 32#32)).trans (by show 1024 * k.val + 416 = _; omega)) ((cf0 (k0_off77 k)).trans (by show 16 * k.val = _; omega))
        _ 32#32 (by decide) _ _ (by first | rfl | rw [Shape.reshapeEquiv_self]) rfl x⟩,
    ⟨(cf0 (k0_off92 k 384#32 16#32)).trans (by show 1024 * k.val + 400 = 1024 * k.val + 16 * 25; omega), rfl, rfl, fun x =>
      piece_agree (bufS2).view (tabS).view (ixS2).view f TT X _ k.val 6 1 hk (by omega) (by omega) hf hX (k0_off92 k 384#32 16#32) (k0_off92 k 384#32 16#32) (k0_off77 k)
        (k0_off92_inb k 1) (k0_off92_inb k 1) (k0_off77_inb k)
        ((cf0 (k0_off92 k 384#32 16#32)).trans (by show 1024 * k.val + 400 = _; omega)) ((cf0 (k0_off92 k 384#32 16#32)).trans (by show 1024 * k.val + 400 = _; omega)) ((cf0 (k0_off77 k)).trans (by show 16 * k.val = _; omega))
        _ 16#32 (by decide) _ _ (by first | rfl | rw [Shape.reshapeEquiv_self]) rfl x⟩,
    ⟨(cf0 (k0_off92 k 384#32 0#32)).trans (by show 1024 * k.val + 384 = 1024 * k.val + 16 * 24; omega), rfl, rfl, fun x =>
      piece_agree (bufS2).view (tabS).view (ixS2).view f TT X _ k.val 6 0 hk (by omega) (by omega) hf hX (k0_off92 k 384#32 0#32) (k0_off90 k 384#32 0#32) (k0_off77 k)
        (k0_off92_inb k 0) (k0_off90_inb k 4) (k0_off77_inb k)
        ((cf0 (k0_off92 k 384#32 0#32)).trans (by show 1024 * k.val + 384 = _; omega)) ((cf0 (k0_off90 k 384#32 0#32)).trans (by show 1024 * k.val + 384 = _; omega)) ((cf0 (k0_off77 k)).trans (by show 16 * k.val = _; omega))
        _ 0#32 (by decide) _ _ (by first | rfl | rw [Shape.reshapeEquiv_self]) rfl x⟩,
    ⟨(cf0 (k0_off90 k 320#32 48#32)).trans (by show 1024 * k.val + 368 = 1024 * k.val + 16 * 23; omega), rfl, rfl, fun x =>
      piece_agree (bufS2).view (tabS).view (ixS2).view f TT X _ k.val 5 3 hk (by omega) (by omega) hf hX (k0_off90 k 320#32 48#32) (k0_off90 k 320#32 48#32) (k0_off77 k)
        (k0_off90_inb k 3) (k0_off90_inb k 3) (k0_off77_inb k)
        ((cf0 (k0_off90 k 320#32 48#32)).trans (by show 1024 * k.val + 368 = _; omega)) ((cf0 (k0_off90 k 320#32 48#32)).trans (by show 1024 * k.val + 368 = _; omega)) ((cf0 (k0_off77 k)).trans (by show 16 * k.val = _; omega))
        _ 48#32 (by decide) _ _ (by first | rfl | rw [Shape.reshapeEquiv_self]) rfl x⟩,
    ⟨(cf0 (k0_off90 k 320#32 32#32)).trans (by show 1024 * k.val + 352 = 1024 * k.val + 16 * 22; omega), rfl, rfl, fun x =>
      piece_agree (bufS2).view (tabS).view (ixS2).view f TT X _ k.val 5 2 hk (by omega) (by omega) hf hX (k0_off90 k 320#32 32#32) (k0_off90 k 320#32 32#32) (k0_off77 k)
        (k0_off90_inb k 2) (k0_off90_inb k 2) (k0_off77_inb k)
        ((cf0 (k0_off90 k 320#32 32#32)).trans (by show 1024 * k.val + 352 = _; omega)) ((cf0 (k0_off90 k 320#32 32#32)).trans (by show 1024 * k.val + 352 = _; omega)) ((cf0 (k0_off77 k)).trans (by show 16 * k.val = _; omega))
        _ 32#32 (by decide) _ _ (by first | rfl | rw [Shape.reshapeEquiv_self]) rfl x⟩,
    ⟨(cf0 (k0_off90 k 320#32 16#32)).trans (by show 1024 * k.val + 336 = 1024 * k.val + 16 * 21; omega), rfl, rfl, fun x =>
      piece_agree (bufS2).view (tabS).view (ixS2).view f TT X _ k.val 5 1 hk (by omega) (by omega) hf hX (k0_off90 k 320#32 16#32) (k0_off90 k 320#32 16#32) (k0_off77 k)
        (k0_off90_inb k 1) (k0_off90_inb k 1) (k0_off77_inb k)
        ((cf0 (k0_off90 k 320#32 16#32)).trans (by show 1024 * k.val + 336 = _; omega)) ((cf0 (k0_off90 k 320#32 16#32)).trans (by show 1024 * k.val + 336 = _; omega)) ((cf0 (k0_off77 k)).trans (by show 16 * k.val = _; omega))
        _ 16#32 (by decide) _ _ (by first | rfl | rw [Shape.reshapeEquiv_self]) rfl x⟩,
    ⟨(cf0 (k0_off90 k 320#32 0#32)).trans (by show 1024 * k.val + 320 = 1024 * k.val + 16 * 20; omega), rfl, rfl, fun x =>
      piece_agree (bufS2).view (tabS).view (ixS2).view f TT X _ k.val 5 0 hk (by omega) (by omega) hf hX (k0_off90 k 320#32 0#32) (k0_off88 k 320#32 0#32) (k0_off77 k)
        (k0_off90_inb k 0) (k0_off88_inb k 4) (k0_off77_inb k)
        ((cf0 (k0_off90 k 320#32 0#32)).trans (by show 1024 * k.val + 320 = _; omega)) ((cf0 (k0_off88 k 320#32 0#32)).trans (by show 1024 * k.val + 320 = _; omega)) ((cf0 (k0_off77 k)).trans (by show 16 * k.val = _; omega))
        _ 0#32 (by decide) _ _ (by first | rfl | rw [Shape.reshapeEquiv_self]) rfl x⟩,
    ⟨(cf0 (k0_off88 k 256#32 48#32)).trans (by show 1024 * k.val + 304 = 1024 * k.val + 16 * 19; omega), rfl, rfl, fun x =>
      piece_agree (bufS2).view (tabS).view (ixS2).view f TT X _ k.val 4 3 hk (by omega) (by omega) hf hX (k0_off88 k 256#32 48#32) (k0_off88 k 256#32 48#32) (k0_off77 k)
        (k0_off88_inb k 3) (k0_off88_inb k 3) (k0_off77_inb k)
        ((cf0 (k0_off88 k 256#32 48#32)).trans (by show 1024 * k.val + 304 = _; omega)) ((cf0 (k0_off88 k 256#32 48#32)).trans (by show 1024 * k.val + 304 = _; omega)) ((cf0 (k0_off77 k)).trans (by show 16 * k.val = _; omega))
        _ 48#32 (by decide) _ _ (by first | rfl | rw [Shape.reshapeEquiv_self]) rfl x⟩,
    ⟨(cf0 (k0_off88 k 256#32 32#32)).trans (by show 1024 * k.val + 288 = 1024 * k.val + 16 * 18; omega), rfl, rfl, fun x =>
      piece_agree (bufS2).view (tabS).view (ixS2).view f TT X _ k.val 4 2 hk (by omega) (by omega) hf hX (k0_off88 k 256#32 32#32) (k0_off88 k 256#32 32#32) (k0_off77 k)
        (k0_off88_inb k 2) (k0_off88_inb k 2) (k0_off77_inb k)
        ((cf0 (k0_off88 k 256#32 32#32)).trans (by show 1024 * k.val + 288 = _; omega)) ((cf0 (k0_off88 k 256#32 32#32)).trans (by show 1024 * k.val + 288 = _; omega)) ((cf0 (k0_off77 k)).trans (by show 16 * k.val = _; omega))
        _ 32#32 (by decide) _ _ (by first | rfl | rw [Shape.reshapeEquiv_self]) rfl x⟩,
    ⟨(cf0 (k0_off88 k 256#32 16#32)).trans (by show 1024 * k.val + 272 = 1024 * k.val + 16 * 17; omega), rfl, rfl, fun x =>
      piece_agree (bufS2).view (tabS).view (ixS2).view f TT X _ k.val 4 1 hk (by omega) (by omega) hf hX (k0_off88 k 256#32 16#32) (k0_off88 k 256#32 16#32) (k0_off77 k)
        (k0_off88_inb k 1) (k0_off88_inb k 1) (k0_off77_inb k)
        ((cf0 (k0_off88 k 256#32 16#32)).trans (by show 1024 * k.val + 272 = _; omega)) ((cf0 (k0_off88 k 256#32 16#32)).trans (by show 1024 * k.val + 272 = _; omega)) ((cf0 (k0_off77 k)).trans (by show 16 * k.val = _; omega))
        _ 16#32 (by decide) _ _ (by first | rfl | rw [Shape.reshapeEquiv_self]) rfl x⟩,
    ⟨(cf0 (k0_off88 k 256#32 0#32)).trans (by show 1024 * k.val + 256 = 1024 * k.val + 16 * 16; omega), rfl, rfl, fun x =>
      piece_agree (bufS2).view (tabS).view (ixS2).view f TT X _ k.val 4 0 hk (by omega) (by omega) hf hX (k0_off88 k 256#32 0#32) (k0_off86 k 256#32 0#32) (k0_off77 k)
        (k0_off88_inb k 0) (k0_off86_inb k 4) (k0_off77_inb k)
        ((cf0 (k0_off88 k 256#32 0#32)).trans (by show 1024 * k.val + 256 = _; omega)) ((cf0 (k0_off86 k 256#32 0#32)).trans (by show 1024 * k.val + 256 = _; omega)) ((cf0 (k0_off77 k)).trans (by show 16 * k.val = _; omega))
        _ 0#32 (by decide) _ _ (by first | rfl | rw [Shape.reshapeEquiv_self]) rfl x⟩,
    ⟨(cf0 (k0_off86 k 192#32 48#32)).trans (by show 1024 * k.val + 240 = 1024 * k.val + 16 * 15; omega), rfl, rfl, fun x =>
      piece_agree (bufS2).view (tabS).view (ixS2).view f TT X _ k.val 3 3 hk (by omega) (by omega) hf hX (k0_off86 k 192#32 48#32) (k0_off86 k 192#32 48#32) (k0_off77 k)
        (k0_off86_inb k 3) (k0_off86_inb k 3) (k0_off77_inb k)
        ((cf0 (k0_off86 k 192#32 48#32)).trans (by show 1024 * k.val + 240 = _; omega)) ((cf0 (k0_off86 k 192#32 48#32)).trans (by show 1024 * k.val + 240 = _; omega)) ((cf0 (k0_off77 k)).trans (by show 16 * k.val = _; omega))
        _ 48#32 (by decide) _ _ (by first | rfl | rw [Shape.reshapeEquiv_self]) rfl x⟩,
    ⟨(cf0 (k0_off86 k 192#32 32#32)).trans (by show 1024 * k.val + 224 = 1024 * k.val + 16 * 14; omega), rfl, rfl, fun x =>
      piece_agree (bufS2).view (tabS).view (ixS2).view f TT X _ k.val 3 2 hk (by omega) (by omega) hf hX (k0_off86 k 192#32 32#32) (k0_off86 k 192#32 32#32) (k0_off77 k)
        (k0_off86_inb k 2) (k0_off86_inb k 2) (k0_off77_inb k)
        ((cf0 (k0_off86 k 192#32 32#32)).trans (by show 1024 * k.val + 224 = _; omega)) ((cf0 (k0_off86 k 192#32 32#32)).trans (by show 1024 * k.val + 224 = _; omega)) ((cf0 (k0_off77 k)).trans (by show 16 * k.val = _; omega))
        _ 32#32 (by decide) _ _ (by first | rfl | rw [Shape.reshapeEquiv_self]) rfl x⟩,
    ⟨(cf0 (k0_off86 k 192#32 16#32)).trans (by show 1024 * k.val + 208 = 1024 * k.val + 16 * 13; omega), rfl, rfl, fun x =>
      piece_agree (bufS2).view (tabS).view (ixS2).view f TT X _ k.val 3 1 hk (by omega) (by omega) hf hX (k0_off86 k 192#32 16#32) (k0_off86 k 192#32 16#32) (k0_off77 k)
        (k0_off86_inb k 1) (k0_off86_inb k 1) (k0_off77_inb k)
        ((cf0 (k0_off86 k 192#32 16#32)).trans (by show 1024 * k.val + 208 = _; omega)) ((cf0 (k0_off86 k 192#32 16#32)).trans (by show 1024 * k.val + 208 = _; omega)) ((cf0 (k0_off77 k)).trans (by show 16 * k.val = _; omega))
        _ 16#32 (by decide) _ _ (by first | rfl | rw [Shape.reshapeEquiv_self]) rfl x⟩,
    ⟨(cf0 (k0_off86 k 192#32 0#32)).trans (by show 1024 * k.val + 192 = 1024 * k.val + 16 * 12; omega), rfl, rfl, fun x =>
      piece_agree (bufS2).view (tabS).view (ixS2).view f TT X _ k.val 3 0 hk (by omega) (by omega) hf hX (k0_off86 k 192#32 0#32) (k0_off84 k 192#32 0#32) (k0_off77 k)
        (k0_off86_inb k 0) (k0_off84_inb k 4) (k0_off77_inb k)
        ((cf0 (k0_off86 k 192#32 0#32)).trans (by show 1024 * k.val + 192 = _; omega)) ((cf0 (k0_off84 k 192#32 0#32)).trans (by show 1024 * k.val + 192 = _; omega)) ((cf0 (k0_off77 k)).trans (by show 16 * k.val = _; omega))
        _ 0#32 (by decide) _ _ (by first | rfl | rw [Shape.reshapeEquiv_self]) rfl x⟩,
    ⟨(cf0 (k0_off84 k 128#32 48#32)).trans (by show 1024 * k.val + 176 = 1024 * k.val + 16 * 11; omega), rfl, rfl, fun x =>
      piece_agree (bufS2).view (tabS).view (ixS2).view f TT X _ k.val 2 3 hk (by omega) (by omega) hf hX (k0_off84 k 128#32 48#32) (k0_off84 k 128#32 48#32) (k0_off77 k)
        (k0_off84_inb k 3) (k0_off84_inb k 3) (k0_off77_inb k)
        ((cf0 (k0_off84 k 128#32 48#32)).trans (by show 1024 * k.val + 176 = _; omega)) ((cf0 (k0_off84 k 128#32 48#32)).trans (by show 1024 * k.val + 176 = _; omega)) ((cf0 (k0_off77 k)).trans (by show 16 * k.val = _; omega))
        _ 48#32 (by decide) _ _ (by first | rfl | rw [Shape.reshapeEquiv_self]) rfl x⟩,
    ⟨(cf0 (k0_off84 k 128#32 32#32)).trans (by show 1024 * k.val + 160 = 1024 * k.val + 16 * 10; omega), rfl, rfl, fun x =>
      piece_agree (bufS2).view (tabS).view (ixS2).view f TT X _ k.val 2 2 hk (by omega) (by omega) hf hX (k0_off84 k 128#32 32#32) (k0_off84 k 128#32 32#32) (k0_off77 k)
        (k0_off84_inb k 2) (k0_off84_inb k 2) (k0_off77_inb k)
        ((cf0 (k0_off84 k 128#32 32#32)).trans (by show 1024 * k.val + 160 = _; omega)) ((cf0 (k0_off84 k 128#32 32#32)).trans (by show 1024 * k.val + 160 = _; omega)) ((cf0 (k0_off77 k)).trans (by show 16 * k.val = _; omega))
        _ 32#32 (by decide) _ _ (by first | rfl | rw [Shape.reshapeEquiv_self]) rfl x⟩,
    ⟨(cf0 (k0_off84 k 128#32 16#32)).trans (by show 1024 * k.val + 144 = 1024 * k.val + 16 * 9; omega), rfl, rfl, fun x =>
      piece_agree (bufS2).view (tabS).view (ixS2).view f TT X _ k.val 2 1 hk (by omega) (by omega) hf hX (k0_off84 k 128#32 16#32) (k0_off84 k 128#32 16#32) (k0_off77 k)
        (k0_off84_inb k 1) (k0_off84_inb k 1) (k0_off77_inb k)
        ((cf0 (k0_off84 k 128#32 16#32)).trans (by show 1024 * k.val + 144 = _; omega)) ((cf0 (k0_off84 k 128#32 16#32)).trans (by show 1024 * k.val + 144 = _; omega)) ((cf0 (k0_off77 k)).trans (by show 16 * k.val = _; omega))
        _ 16#32 (by decide) _ _ (by first | rfl | rw [Shape.reshapeEquiv_self]) rfl x⟩,
    ⟨(cf0 (k0_off84 k 128#32 0#32)).trans (by show 1024 * k.val + 128 = 1024 * k.val + 16 * 8; omega), rfl, rfl, fun x =>
      piece_agree (bufS2).view (tabS).view (ixS2).view f TT X _ k.val 2 0 hk (by omega) (by omega) hf hX (k0_off84 k 128#32 0#32) (k0_off82 k 128#32 0#32) (k0_off77 k)
        (k0_off84_inb k 0) (k0_off82_inb k 4) (k0_off77_inb k)
        ((cf0 (k0_off84 k 128#32 0#32)).trans (by show 1024 * k.val + 128 = _; omega)) ((cf0 (k0_off82 k 128#32 0#32)).trans (by show 1024 * k.val + 128 = _; omega)) ((cf0 (k0_off77 k)).trans (by show 16 * k.val = _; omega))
        _ 0#32 (by decide) _ _ (by first | rfl | rw [Shape.reshapeEquiv_self]) rfl x⟩,
    ⟨(cf0 (k0_off82 k 64#32 48#32)).trans (by show 1024 * k.val + 112 = 1024 * k.val + 16 * 7; omega), rfl, rfl, fun x =>
      piece_agree (bufS2).view (tabS).view (ixS2).view f TT X _ k.val 1 3 hk (by omega) (by omega) hf hX (k0_off82 k 64#32 48#32) (k0_off82 k 64#32 48#32) (k0_off77 k)
        (k0_off82_inb k 3) (k0_off82_inb k 3) (k0_off77_inb k)
        ((cf0 (k0_off82 k 64#32 48#32)).trans (by show 1024 * k.val + 112 = _; omega)) ((cf0 (k0_off82 k 64#32 48#32)).trans (by show 1024 * k.val + 112 = _; omega)) ((cf0 (k0_off77 k)).trans (by show 16 * k.val = _; omega))
        _ 48#32 (by decide) _ _ (by first | rfl | rw [Shape.reshapeEquiv_self]) rfl x⟩,
    ⟨(cf0 (k0_off82 k 64#32 32#32)).trans (by show 1024 * k.val + 96 = 1024 * k.val + 16 * 6; omega), rfl, rfl, fun x =>
      piece_agree (bufS2).view (tabS).view (ixS2).view f TT X _ k.val 1 2 hk (by omega) (by omega) hf hX (k0_off82 k 64#32 32#32) (k0_off82 k 64#32 32#32) (k0_off77 k)
        (k0_off82_inb k 2) (k0_off82_inb k 2) (k0_off77_inb k)
        ((cf0 (k0_off82 k 64#32 32#32)).trans (by show 1024 * k.val + 96 = _; omega)) ((cf0 (k0_off82 k 64#32 32#32)).trans (by show 1024 * k.val + 96 = _; omega)) ((cf0 (k0_off77 k)).trans (by show 16 * k.val = _; omega))
        _ 32#32 (by decide) _ _ (by first | rfl | rw [Shape.reshapeEquiv_self]) rfl x⟩,
    ⟨(cf0 (k0_off82 k 64#32 16#32)).trans (by show 1024 * k.val + 80 = 1024 * k.val + 16 * 5; omega), rfl, rfl, fun x =>
      piece_agree (bufS2).view (tabS).view (ixS2).view f TT X _ k.val 1 1 hk (by omega) (by omega) hf hX (k0_off82 k 64#32 16#32) (k0_off82 k 64#32 16#32) (k0_off77 k)
        (k0_off82_inb k 1) (k0_off82_inb k 1) (k0_off77_inb k)
        ((cf0 (k0_off82 k 64#32 16#32)).trans (by show 1024 * k.val + 80 = _; omega)) ((cf0 (k0_off82 k 64#32 16#32)).trans (by show 1024 * k.val + 80 = _; omega)) ((cf0 (k0_off77 k)).trans (by show 16 * k.val = _; omega))
        _ 16#32 (by decide) _ _ (by first | rfl | rw [Shape.reshapeEquiv_self]) rfl x⟩,
    ⟨(cf0 (k0_off82 k 64#32 0#32)).trans (by show 1024 * k.val + 64 = 1024 * k.val + 16 * 4; omega), rfl, rfl, fun x =>
      piece_agree (bufS2).view (tabS).view (ixS2).view f TT X _ k.val 1 0 hk (by omega) (by omega) hf hX (k0_off82 k 64#32 0#32) (k0_off80 k 64#32 0#32) (k0_off77 k)
        (k0_off82_inb k 0) (k0_off80_inb k 4) (k0_off77_inb k)
        ((cf0 (k0_off82 k 64#32 0#32)).trans (by show 1024 * k.val + 64 = _; omega)) ((cf0 (k0_off80 k 64#32 0#32)).trans (by show 1024 * k.val + 64 = _; omega)) ((cf0 (k0_off77 k)).trans (by show 16 * k.val = _; omega))
        _ 0#32 (by decide) _ _ (by first | rfl | rw [Shape.reshapeEquiv_self]) rfl x⟩,
    ⟨(cf0 (k0_off80 k 0#32 48#32)).trans (by show 1024 * k.val + 48 = 1024 * k.val + 16 * 3; omega), rfl, rfl, fun x =>
      piece_agree (bufS2).view (tabS).view (ixS2).view f TT X _ k.val 0 3 hk (by omega) (by omega) hf hX (k0_off80 k 0#32 48#32) (k0_off80 k 0#32 48#32) (k0_off77 k)
        (k0_off80_inb k 3) (k0_off80_inb k 3) (k0_off77_inb k)
        ((cf0 (k0_off80 k 0#32 48#32)).trans (by show 1024 * k.val + 48 = _; omega)) ((cf0 (k0_off80 k 0#32 48#32)).trans (by show 1024 * k.val + 48 = _; omega)) ((cf0 (k0_off77 k)).trans (by show 16 * k.val = _; omega))
        _ 48#32 (by decide) _ _ (by first | rfl | rw [Shape.reshapeEquiv_self]) rfl x⟩,
    ⟨(cf0 (k0_off80 k 0#32 32#32)).trans (by show 1024 * k.val + 32 = 1024 * k.val + 16 * 2; omega), rfl, rfl, fun x =>
      piece_agree (bufS2).view (tabS).view (ixS2).view f TT X _ k.val 0 2 hk (by omega) (by omega) hf hX (k0_off80 k 0#32 32#32) (k0_off80 k 0#32 32#32) (k0_off77 k)
        (k0_off80_inb k 2) (k0_off80_inb k 2) (k0_off77_inb k)
        ((cf0 (k0_off80 k 0#32 32#32)).trans (by show 1024 * k.val + 32 = _; omega)) ((cf0 (k0_off80 k 0#32 32#32)).trans (by show 1024 * k.val + 32 = _; omega)) ((cf0 (k0_off77 k)).trans (by show 16 * k.val = _; omega))
        _ 32#32 (by decide) _ _ (by first | rfl | rw [Shape.reshapeEquiv_self]) rfl x⟩,
    ⟨(cf0 (k0_off80 k 0#32 16#32)).trans (by show 1024 * k.val + 16 = 1024 * k.val + 16 * 1; omega), rfl, rfl, fun x =>
      piece_agree (bufS2).view (tabS).view (ixS2).view f TT X _ k.val 0 1 hk (by omega) (by omega) hf hX (k0_off80 k 0#32 16#32) (k0_off80 k 0#32 16#32) (k0_off77 k)
        (k0_off80_inb k 1) (k0_off80_inb k 1) (k0_off77_inb k)
        ((cf0 (k0_off80 k 0#32 16#32)).trans (by show 1024 * k.val + 16 = _; omega)) ((cf0 (k0_off80 k 0#32 16#32)).trans (by show 1024 * k.val + 16 = _; omega)) ((cf0 (k0_off77 k)).trans (by show 16 * k.val = _; omega))
        _ 16#32 (by decide) _ _ (by first | rfl | rw [Shape.reshapeEquiv_self]) rfl x⟩,
    ⟨(cf0 (k0_off80 k 0#32 0#32)).trans (by show 1024 * k.val + 0 = 1024 * k.val + 16 * 0; omega), rfl, rfl, fun x =>
      piece_agree (bufS2).view (tabS).view (ixS2).view f TT X _ k.val 0 0 hk (by omega) (by omega) hf hX (k0_off80 k 0#32 0#32) (k0_off78 k) (k0_off77 k)
        (k0_off80_inb k 0) (k0_off78_inb k) (k0_off77_inb k)
        ((cf0 (k0_off80 k 0#32 0#32)).trans (by show 1024 * k.val + 0 = _; omega)) ((cf0 (k0_off78 k)).trans (by show 1024 * k.val = _; omega)) ((cf0 (k0_off77 k)).trans (by show 16 * k.val = _; omega))
        _ 0#32 (by decide) _ _ (by first | rfl | rw [Shape.reshapeEquiv_self]) rfl x⟩,
    trivial⟩

/-- The whole loop, in continuation form: from the three buffers, the program goes on with every row done. -/
theorem loop3_spec (hX : ∀ j, BitVec.toNat ((ixS2).view.read (Elt F) X j) < 16) (v1 v21 c0_i32_32 c0_i32_33 : BitVec 32) (init : BitVec 32)
    {β : Type} (kk : BitVec 32 → Prog (TpuEff nD τ sig (Elt F) Λ₀ (.scVector ((L 0).castLE hcore0) ((L 1).castLE hsub0))) β) (Q : β → sProp 𝕄) :
    iprop(((tabS).view.loc (thrV d L) ↦{fullShare} TT) ∗ ((ixS2).view.loc (thrV d L) ↦{fullShare} X)
        ∗ ((bufS2).view.loc (thrV d L) ↦{fullShare} B)
        ∗ (∀ acc f, (⌜∀ y, (bufS2).view.read (Elt F) f y
              = stage ((bufS2).view.read (Elt F) B) ((tabS).view.read (Elt F) TT) ((ixS2).view.read (Elt F) X) 400 y⌝
              ∗ ((tabS).view.loc (thrV d L) ↦{fullShare} TT) ∗ ((ixS2).view.loc (thrV d L) ↦{fullShare} X)
              ∗ ((bufS2).view.loc (thrV d L) ↦{fullShare} f))
            -∗ wp frame (wpE (defs₀ (F := F)) 𝒱₀ (thrV d L) none) Set.univ (kk acc) Q))
      ⊢ wp frame (wpE (defs₀ (F := F)) 𝒱₀ (thrV d L) none) Set.univ
          (Scf.Loop.for k0_t3_loop k0_t3_ok init (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) >>= kk) Q := by
  iintro ⟨Ht, Hx, Hb, Hk⟩
  iapply (Scf.wp_for_bind frame (wpE (defs₀ (F := F)) 𝒱₀ (thrV d L) none) Set.univ k0_t3_loop.lb k0_t3_loop.ub k0_t3_loop.st k0_t3_ok init
    (k0_t3_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 v1 v21 c0_i32_32 c0_i32_33) (inv3 d L TT X B) (step3 d L TT X B hX v1 v21 c0_i32_32 c0_i32_33)) $$ [Ht Hx Hb]
  · unfold inv3
    isplitl [Ht]; · iexact Ht
    isplitl [Hx]; · iexact Hx
    iexists B; isplitl [Hb]; · iexact Hb
    ipureintro
    intro y
    unfold stage
    rw [if_neg (by omega)]
  iintro %acc HI
  unfold inv3
  icases HI with ⟨Ht, Hx, %f, Hb, %hf⟩
  ihave Hk := Hk $$ %acc
  ihave Hk := Hk $$ %f
  iapply Hk
  isplitr
  · ipureintro
    exact hf
  isplitl [Ht]; · iexact Ht
  isplitl [Hx]; · iexact Hx
  iexact Hb

end Loop

end Cert.KernelIdeal.Hand

end
-- ==== Proof.KIBody.lean ====
/-
  The kernel's body on one tile. The tile takes its own resources apart; the first three turns are fetched, staged
  through the three compute loops and sent out, and the fourth turn's fetch is started; from there the main loop runs
  by its invariant: two turns on their way out, one on its way in, every earlier piece done and every later piece
  untouched. After the last trip the last three turns are on their way out; the three final waits bring them back, all
  eighty-one pieces are done, the read shares are rejoined and the tile's buffers and semaphores are as they were.
-/
import proofs.«216121_g54726473285929_cont_9to1_m_355_3_alg».proof.Proof.KIStep
import proofs.«216121_g54726473285929_cont_9to1_m_355_3_alg».proof.Proof.KILoop1
import proofs.«216121_g54726473285929_cont_9to1_m_355_3_alg».proof.Proof.KILoop2
import proofs.«216121_g54726473285929_cont_9to1_m_355_3_alg».proof.Proof.KILoop3

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

omit [FloatOps F] in
/-- A share split into three read tokens and the remainder. -/
theorem toks3 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 3} f) ∗ (ℓ ↦[S]{Transfers.shareTokN q 0} f)
      ∗ (ℓ ↦[S]{Transfers.shareTokN q 1} f) ∗ (ℓ ↦[S]{Transfers.shareTokN q 2} f)) := by
  have h : (ℓ ↦[S]{q} f : sProp 𝕄) ⊣⊢ _ := Transfers.pointsTo_toks_range q 3
  rw [show Finset.range 3 = {0, 1, 2} by decide, SparseCore.bigSep_insert' (by decide), SparseCore.bigSep_insert' (by decide), bigSep_singleton] at h
  exact h

omit [FloatOps F] in
/-- A share split into six read tokens and the remainder. -/
theorem toks6 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 6} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f) ∗ (ℓ ↦[S]{Transfers.shareTokN q 5} f)) := by
  have h : (ℓ ↦[S]{q} f : sProp 𝕄) ⊣⊢ _ := Transfers.pointsTo_toks_range q 6
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton] at h
  exact h

/-- The tile's pieces, indexed by the turn as a number. -/
theorem pieces_P (d : Dev nD) (L : grid0.Coords) (fo : Buf (Elt F) (oLoc d)) :
    (bigSep Finset.univ fun t : Fin 81 => (oLoc d ↦[Cert.Proof.Deal.tset (cL L, iL L, t)]{fullShare} fo : sProp 𝕄))
      = bigSep (Finset.range 81) (Pp d L fo) := by
  rw [← fin_range]
  exact bigSep_congr fun t _ => by unfold Pp tsetN; rw [dif_pos t.isLt]
theorem pieces_D (d : Dev nD) (L : grid0.Coords) (ff : Buf (Elt F) (fLoc d)) (gf : Buf (Elt F) (gLoc d)) (ix : Buf (Elt F) (iLoc d)) :
    (bigSep Finset.univ fun t : Fin 81 => (oLoc d ↦[Cert.Proof.Deal.tset (cL L, iL L, t)]{fullShare} Cert.Proof.FlatSpec.Gflat ff gf ix : sProp 𝕄))
      = bigSep (Finset.range 81) (Dp d L ff gf ix) := by
  rw [← fin_range]
  exact bigSep_congr fun t _ => by unfold Dp tsetN Gf; rw [dif_pos t.isLt]

omit [FloatOps F] in
theorem hoffK (L : grid0.Coords) (t : Nat) (ht : t < 79) (off : Fin 1 → Nat) (h : off 0 = 51200 * (L 1).val + 25600 * (L 0).val + 819200 * t) :
    off 0 = 25600 * (wid L + 32 * t) := by rw [h]; unfold wid; omega

section Vals
variable (d : Dev nD) (L : grid0.Coords) (ff : Buf (Elt F) (fLoc d)) (ix : Buf (Elt F) (iLoc d))

omit [FloatOps F] in
/-- A row buffer on which the feature slice of turn t has landed holds the chunk's features. -/
theorem landedF_val (bufS : Memref sig .scVector .vmem S25600 .f32) (base : Buf (Elt F) (bufS.view.loc (thrV d L)))
    (off : Fin 1 → Nat) (inb : ∀ a, off a + S25600.size a ≤ S64000000.size a) (t : Nat) (ht : wid L + 32 * t < 2500)
    (ho : off 0 = 25600 * (wid L + 32 * t)) (y : S25600.Idx) :
    bufS.view.read (Elt F) (View.write (Elt F) bufS.view base (ReadAs.same.apply ((fSl off inb).view.read (Elt F) ff)) Finset.univ) y
      = ff (ix1 ⟨25600 * gOf L t + (y 0).val, cIdx_lt L t y⟩) := by
  rw [View.read_write_univ, fSl_read]
  congr 2
  apply Fin.ext
  show off 0 + (y 0).val = 25600 * gOf L t + (y 0).val
  rw [ho, gOf_eq L ht]

omit [FloatOps F] in
/-- An index buffer on which the index slice of turn t has landed holds the chunk's indices. -/
theorem landedI_val (ixS : Memref sig .scVector .vmem S400 .i32) (base : Buf (Elt F) (ixS.view.loc (thrV d L)))
    (off : Fin 1 → Nat) (inb : ∀ a, off a + S400.size a ≤ S1000000.size a) (t : Nat) (ht : wid L + 32 * t < 2500)
    (ho : off 0 = 400 * (wid L + 32 * t)) (r : S400.Idx) :
    ixS.view.read (Elt F) (View.write (Elt F) ixS.view base (ReadAs.same.apply ((iSl off inb).view.read (Elt F) ix)) Finset.univ) r
      = ix (ix1 ⟨400 * gOf L t + (r 0).val, by have hr : (r 0).val < 400 := (r 0).isLt; unfold gOf; omega⟩) := by
  rw [View.read_write_univ, iSl_read]
  congr 2
  apply Fin.ext
  show off 0 + (r 0).val = 400 * gOf L t + (r 0).val
  rw [ho, gOf_eq L ht]

end Vals

omit [FloatOps F] in
theorem hoffI (L : grid0.Coords) (t : Nat) (off : Fin 1 → Nat) (h : off 0 = 800 * (L 1).val + 400 * (L 0).val + 12800 * t) :
    off 0 = 400 * (wid L + 32 * t) := by rw [h]; unfold wid; omega

/-- The number of the tile's chunks, as the program computes it, and the three conditions of the final waits. -/
abbrev nkW (L : grid0.Coords) : BitVec 32 :=
  let v4 : BitVec 32 := Scalar.subi (Scalar.addi (Scalar.subi 2500#32 (Scalar.addi (Scalar.muli (BitVec.ofNat 32 (L 1).val) 2#32) (BitVec.ofNat 32 (L 0).val))) 32#32) 1#32
  Scalar.select (Scalar.andi (Scalar.cmpi .ne (Scalar.subi (Scalar.extui (Scalar.cmpi .sgt v4 0#32)) (Scalar.extui (Scalar.cmpi .slt v4 0#32))) 1#32)
      (Scalar.cmpi .ne (Scalar.remsi v4 32#32) 0#32))
    (Scalar.subi (Scalar.divsi v4 32#32) 1#32) (Scalar.divsi v4 32#32)

theorem fin_conds : ∀ L : grid0.Coords,
    Scalar.cmpi .ne (Scalar.extui (Scalar.cmpi .sge (Scalar.addi (Scalar.subi (nkW L) 3#32) 0#32) 0#32)) 0#32 = 1#1
    ∧ Scalar.cmpi .ne (Scalar.extui (Scalar.cmpi .sge (Scalar.addi (Scalar.subi (nkW L) 3#32) 1#32) 0#32)) 0#32 = 1#1
    ∧ Scalar.cmpi .ne (Scalar.extui (Scalar.cmpi .sge (Scalar.addi (Scalar.subi (nkW L) 3#32) 2#32) 0#32)) 0#32 = 1#1 := by decide +kernel

section Tile
variable (d : Dev nD) (L : grid0.Coords)

set_option maxHeartbeats 4000000 in
theorem tile_body (hF : (K (F := F)).Facts) (O : CellTallies nD τ sig (HIx 1)) (W : Waits sig (HIx 1)) (hO : ∀ g, O g none = 0)
    (ff : Buf (Elt F) (fLoc d)) (gf : Buf (Elt F) (gLoc d)) (ix : Buf (Elt F) (iLoc d)) (fo : Buf (Elt F) (oLoc d))
    (hix : ∀ j, (ix j).toNat < 16) (qf qg qi : PosShare TreeShare) :
    iprop(levAts (K (F := F)).L (K (F := F)).lev ∗ emp
        ∗ ((fLoc d ↦{qf} ff) ∗ (gLoc d ↦{qg} gf) ∗ (iLoc d ↦{qi} ix)
            ∗ bigSep Finset.univ fun t : Fin 81 => (oLoc d ↦[Cert.Proof.Deal.tset (cL L, iL L, t)]{fullShare} fo : sProp 𝕄))
        ∗ scopedBufs (thrV d L) ∗ scopedSems0 (thrV d L) ∗ owes (thrV d L) O W)
      ⊢ wp frame (wpE (defs₀ (F := F)) 𝒱₀ (thrV d L) none) Set.univ
          (cc0__body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0)
          fun _ => iprop(((fLoc d ↦{qf} ff) ∗ (gLoc d ↦{qg} gf) ∗ (iLoc d ↦{qi} ix)
              ∗ bigSep Finset.univ fun t : Fin 81 => (oLoc d ↦[Cert.Proof.Deal.tset (cL L, iL L, t)]{fullShare} (Cert.Proof.FlatSpec.Gflat ff gf ix) : sProp 𝕄))
            ∗ scopedBufs (thrV d L) ∗ scopedSems0 (thrV d L)
            ∗ ∃ W', ⌜∀ p ∈ W', p ∈ W ∨ p.2 = none⌝ ∗ owes (thrV d L) O W') := by
  have k0_h1 : k0_cond1 L = 1#1 := (by decide +kernel : ∀ L : grid0.Coords, k0_cond1 L = 1#1) L
  have k0_h2 : k0_cond2 L = 1#1 := (by decide +kernel : ∀ L : grid0.Coords, k0_cond2 L = 1#1) L
  have k0_h3 : k0_cond3 L = 1#1 := (by decide +kernel : ∀ L : grid0.Coords, k0_cond3 L = 1#1) L
  have hw : wid L < 32 := wid_lt L
  obtain ⟨-, hnk, hnkt⟩ := nk_cases L
  simp only [cc0__body_eq_skeleton]; unfold cc0__body_skel
  rw [(K (F := F)).scopedBufs_V hF d (cV L) (jV L), SparseCore.Cfg.scopedSems0_V (Val := Elt F) d (cV L) (jV L), ownSems0_V, ownBufs_V,
    pieces_P, init_split (Pp d L fo),
    Pp_slice d L fo 0 (by omega) (k0_off1 L 0#32) (k0_off1_inb L 0) (hoffK L 0 (by omega) _ (congrFun (k0_off1_eq L 0) 0)) (by omega),
    Pp_slice d L fo 1 (by omega) (k0_off1 L 32#32) (k0_off1_inb L 1) (hoffK L 1 (by omega) _ (congrFun (k0_off1_eq L 1) 0)) (by omega),
    Pp_slice d L fo 2 (by omega) (k0_off1 L 64#32) (k0_off1_inb L 2) (hoffK L 2 (by omega) _ (congrFun (k0_off1_eq L 2) 0)) (by omega)]
  iintro ⟨#Hlv, -, ⟨Hf, Hg, Hi, Ho0, Ho1, Ho2, Hor⟩, ⟨⟨⟨%ft, Ht⟩, ⟨%fb0, Hb0⟩, ⟨%fb1, Hb1⟩, ⟨%fb2, Hb2⟩, ⟨%fx0, Hx0⟩, ⟨%fx1, Hx1⟩, ⟨%fx2, Hx2⟩⟩, Hbufs⟩,
    ⟨⟨Hs0, Hs1, Hs2, Hs3, Hs4, Hs5, Hs6, Hs7, Hs8, Hs9⟩, Hsems⟩, HO⟩
  ihave Hmw := ((K (F := F)).mayWaits_none (thr := thrV d L) hO) $$ Hlv
  ihave Hg := (Entails.of_eq (show (gLoc d ↦{qg} gf : sProp 𝕄) = ((globV).view.loc (thrV d L) ↦{qg} gf) from rfl)) $$ Hg
  ihave Ht := (Entails.of_eq (show ((thrV d L).loc cc0_scratch0 ↦{fullShare} ft : sProp 𝕄) = ((tabS).view.loc (thrV d L) ↦{fullShare} ft) from rfl)) $$ Ht
  ihave Hb0 := (Entails.of_eq (show ((thrV d L).loc cc0_scratch1 ↦{fullShare} fb0 : sProp 𝕄) = ((bufS0).view.loc (thrV d L) ↦{fullShare} fb0) from rfl)) $$ Hb0
  ihave Hb1 := (Entails.of_eq (show ((thrV d L).loc cc0_scratch2 ↦{fullShare} fb1 : sProp 𝕄) = ((bufS1).view.loc (thrV d L) ↦{fullShare} fb1) from rfl)) $$ Hb1
  ihave Hb2 := (Entails.of_eq (show ((thrV d L).loc cc0_scratch3 ↦{fullShare} fb2 : sProp 𝕄) = ((bufS2).view.loc (thrV d L) ↦{fullShare} fb2) from rfl)) $$ Hb2
  ihave Hx0 := (Entails.of_eq (show ((thrV d L).loc cc0_scratch4 ↦{fullShare} fx0 : sProp 𝕄) = ((ixS0).view.loc (thrV d L) ↦{fullShare} fx0) from rfl)) $$ Hx0
  ihave Hx1 := (Entails.of_eq (show ((thrV d L).loc cc0_scratch5 ↦{fullShare} fx1 : sProp 𝕄) = ((ixS1).view.loc (thrV d L) ↦{fullShare} fx1) from rfl)) $$ Hx1
  ihave Hx2 := (Entails.of_eq (show ((thrV d L).loc cc0_scratch6 ↦{fullShare} fx2 : sProp 𝕄) = ((ixS2).view.loc (thrV d L) ↦{fullShare} fx2) from rfl)) $$ Hx2
  ihave Hf := (toks3 (F := F) qf).1 $$ Hf
  icases Hf with ⟨Hfd, Hf0, Hf1, Hf2⟩
  ihave Hi := (toks6 (F := F) qi).1 $$ Hi
  icases Hi with ⟨Hid, Hia, Hib, Hic, Hi3, Hi4, Hi5⟩
  ihave Hf0 := (Entails.of_eq (show (fLoc d ↦{Transfers.shareTokN qf 0} ff : sProp 𝕄) = ((featV).view.loc (thrV d L) ↦{Transfers.shareTokN qf 0} ff) from rfl)) $$ Hf0
  ihave Hf1 := (Entails.of_eq (show (fLoc d ↦{Transfers.shareTokN qf 1} ff : sProp 𝕄) = ((featV).view.loc (thrV d L) ↦{Transfers.shareTokN qf 1} ff) from rfl)) $$ Hf1
  ihave Hf2 := (Entails.of_eq (show (fLoc d ↦{Transfers.shareTokN qf 2} ff : sProp 𝕄) = ((featV).view.loc (thrV d L) ↦{Transfers.shareTokN qf 2} ff) from rfl)) $$ Hf2
  ihave Hi3 := (Entails.of_eq (show (iLoc d ↦{Transfers.shareTokN qi 3} ix : sProp 𝕄) = ((idxV).view.loc (thrV d L) ↦{Transfers.shareTokN qi 3} ix) from rfl)) $$ Hi3
  ihave Hi4 := (Entails.of_eq (show (iLoc d ↦{Transfers.shareTokN qi 4} ix : sProp 𝕄) = ((idxV).view.loc (thrV d L) ↦{Transfers.shareTokN qi 4} ix) from rfl)) $$ Hi4
  ihave Hi5 := (Entails.of_eq (show (iLoc d ↦{Transfers.shareTokN qi 5} ix : sProp 𝕄) = ((idxV).view.loc (thrV d L) ↦{Transfers.shareTokN qi 5} ix) from rfl)) $$ Hi5
  sl_exec_parts
  iapply (loop1_spec (F := F) d L _ _ _ ?hX1 _ _ _ _ _)
  rotate_left
  isplitl [Ht]; · iexact Ht
  isplitl [Hx0]; · iexact Hx0
  isplitl [Hb0]; · iexact Hb0
  iintro %acc1 %g0 ⟨%hg0, Ht, Hx0, Hb0⟩
  case hX1 =>
    intro j
    sl_unfold_run_names
    rw [View.read_write_univ]
    exact hix _
  sl_exec_parts
  iapply (loop2_spec (F := F) d L _ _ _ ?hX2 _ _ _ _ _ _ _)
  rotate_left
  isplitl [Ht]; · iexact Ht
  isplitl [Hx1]; · iexact Hx1
  isplitl [Hb1]; · iexact Hb1
  iintro %acc2 %g1 ⟨%hg1, Ht, Hx1, Hb1⟩
  case hX2 =>
    intro j
    sl_unfold_run_names
    rw [View.read_write_univ]
    exact hix _
  sl_exec_parts
  iapply (loop3_spec (F := F) d L _ _ _ ?hX3 _ _ _ _ _ _ _)
  rotate_left
  isplitl [Ht]; · iexact Ht
  isplitl [Hx2]; · iexact Hx2
  isplitl [Hb2]; · iexact Hb2
  iintro %acc3 %g2 ⟨%hg2, Ht, Hx2, Hb2⟩
  case hX3 =>
    intro j
    sl_unfold_run_names
    rw [View.read_write_univ]
    exact hix _
  sl_exec_parts
  sl_unfold_run_names
  -- facts about the first three turns
  have htr : 0 < (k0_t4_loop L).trips := by rw [trips_eq L]; omega
  have hTT : ∀ z, (tabS).view.read (Elt F) (View.write (Elt F) tabS.view ft (ReadAs.same.apply (View.read (Elt F) globV.view gf)) Finset.univ) z = gf z :=
    fun z => by rw [View.read_write_univ]; rfl
  have hc0 : IsChunk d L ff gf ix bufS0 g0 0 := isChunk_of_stage d L ff gf ix _ bufS0 ixS0 g0 _ _ 0 (by omega) hTT hg0
    (fun y => landedF_val d L ff bufS0 _ _ _ 0 (by omega) (hoffK L 0 (by omega) _ (congrFun (k0_off1_eq L 0) 0)) y)
    (fun r => landedI_val d L ix ixS0 _ _ _ 0 (by omega) (hoffI L 0 _ (congrFun (k0_off2_eq L) 0)) r)
  have hc1 : IsChunk d L ff gf ix bufS1 g1 1 := isChunk_of_stage d L ff gf ix _ bufS1 ixS1 g1 _ _ 1 (by omega) hTT hg1
    (fun y => landedF_val d L ff bufS1 _ _ _ 1 (by omega) (hoffK L 1 (by omega) _ (congrFun (k0_off3_eq L) 0)) y)
    (fun r => landedI_val d L ix ixS1 _ _ _ 1 (by omega) (hoffI L 1 _ (congrFun (k0_off4_eq L) 0)) r)
  have hc2 : IsChunk d L ff gf ix bufS2 g2 2 := isChunk_of_stage d L ff gf ix _ bufS2 ixS2 g2 _ _ 2 (by omega) hTT hg2
    (fun y => landedF_val d L ff bufS2 _ _ _ 2 (by omega) (hoffK L 2 (by omega) _ (congrFun (k0_off39_eq L) 0)) y)
    (fun r => landedI_val d L ix ixS2 _ _ _ 2 (by omega) (hoffI L 2 _ (congrFun (k0_off40_eq L) 0)) r)
  -- the flights and the lent tokens' remainders, at the turns' canonical offsets
  have e1 : k0_off1 L 32#32 = cOff L 1 := cOff_eq L (by omega) _ (hoffK L 1 (by omega) _ (congrFun (k0_off1_eq L 1) 0))
  have e2 : k0_off1 L 64#32 = cOff L 2 := cOff_eq L (by omega) _ (hoffK L 2 (by omega) _ (congrFun (k0_off1_eq L 2) 0))
  have e3 : k0_off75 L = cOff L 3 := cOff_eq L (by omega) _ (hoffK L 3 (by omega) _ (congrFun (k0_off75_eq L) 0))
  have e3i : k0_off76 L = iOff L 3 := iOff_eq L (by omega) _ (hoffI L 3 _ (congrFun (k0_off76_eq L) 0))
  ihave Hs7 := (Entails.of_eq (outFl_congr d L _ bufS1 e1 (k0_off1_inb L 1) (cOff_inb L 1) fo g1)) $$ Hs7
  ihave Hs8 := (Entails.of_eq (outFl_congr d L _ bufS2 e2 (k0_off1_inb L 2) (cOff_inb L 2) fo g2)) $$ Hs8
  ihave Hs0 := (Entails.of_eq (inFlF_congr d L _ bufS0 (Transfers.shareTokN qf 0) ff e3 (k0_off75_inb L k0_h3) (cOff_inb L 3) g0)) $$ Hs0
  ihave Hf0 := (Entails.of_eq (remF_congr d L ff (Transfers.shareTokN qf 0) e3 (k0_off75_inb L k0_h3) (cOff_inb L 3))) $$ Hf0
  ihave Hs3 := (Entails.of_eq (inFlI_congr d L _ ixS0 (Transfers.shareTokN qi 3) ix e3i (k0_off76_inb L k0_h3) (iOff_inb L 3) _)) $$ Hs3
  ihave Hi3 := (Entails.of_eq (remI_congr d L ix (Transfers.shareTokN qi 3) e3i (k0_off76_inb L k0_h3) (iOff_inb L 3))) $$ Hi3
  -- the main loop, by its invariant
  iapply (Scf.wp_for_bind frame (wpE (defs₀ (F := F)) 𝒱₀ (thrV d L) none) Set.univ (k0_t4_loop L).lb (k0_t4_loop L).ub (k0_t4_loop L).st (k0_t4_ok L) 0#32
    (k0_t4_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 _ _ _ _ _ _ _)
    (invM d L O W ff gf ix fo (View.write (Elt F) tabS.view ft (ReadAs.same.apply (View.read (Elt F) globV.view gf)) Finset.univ) qf qi)
    (main_step d L O W ff gf ix fo (View.write (Elt F) tabS.view ft (ReadAs.same.apply (View.read (Elt F) globV.view gf)) Finset.univ) qf qi hix hTT _ _ _ _ _ _ _)) $$ [HO Ht Ho0 Hor Hs7 Hb1 Hs8 Hb2 Hs0 Hf0 Hs3 Hi3 Hf1 Hf2 Hi4 Hi5 Hx1 Hx2 Hs1 Hs2 Hs4 Hs5 Hs6]
  · unfold invM
    rw [if_pos htr]
    unfold invA
    iexists g1, g2, g0, _, _, _, _
    isplitr
    rotate_left
    · isplitr; · iexact Hmw
      isplitl [HO]; · iexact HO
      isplitl [Ht]; · iexact Ht
      isplitl [Ho0 Hor]
      · iapply (Entails.of_eq (init_join (Pp d L fo) (Dp d L ff gf ix)))
        isplitl [Ho0]
        · iapply (Entails.of_eq (Dp_agree d L ff gf ix 0 (by omega) (k0_off1 L 0#32) (k0_off1_inb L 0)
            (hoffK L 0 (by omega) _ (congrFun (k0_off1_eq L 0) 0)) (by omega) _ (fun y => (writes_whole_emb d _ _ _ _ y).trans (hc0 y))))
          iexact Ho0
        · iexact Hor
      isplitl [Hs7]; · iexact Hs7
      isplitl [Hb1]; · iexact Hb1
      isplitl [Hs8]; · iexact Hs8
      isplitl [Hb2]; · iexact Hb2
      isplitl [Hs0]; · iexact Hs0
      isplitl [Hf0]; · iexact Hf0
      isplitl [Hs3]; · iexact Hs3
      isplitl [Hi3]; · iexact Hi3
      isplitl [Hf1]; · iexact Hf1
      isplitl [Hf2]; · iexact Hf2
      isplitl [Hi4]; · iexact Hi4
      isplitl [Hi5]; · iexact Hi5
      isplitl [Hx1]; · iexact Hx1
      isplitl [Hx2]; · iexact Hx2
      isplitl [Hs1]; · iexact Hs1
      isplitl [Hs2]; · iexact Hs2
      isplitl [Hs4]; · iexact Hs4
      isplitl [Hs5]; · iexact Hs5
      iexact Hs6
    · ipureintro
      refine ⟨?_, hc1, hc2⟩
      intro p hp
      simp only [Finset.mem_insert] at hp
      rcases hp with rfl | rfl | rfl | rfl | rfl | rfl | rfl | rfl | hp
      all_goals first | exact Or.inl hp | exact Or.inr rfl
  iintro %accM HI
  ihave HI := (Entails.of_eq ((show invM d L O W ff gf ix fo (View.write (Elt F) tabS.view ft (ReadAs.same.apply (View.read (Elt F) globV.view gf)) Finset.univ) qf qi (Scf.trips (k0_t4_loop L).lb (k0_t4_loop L).ub (k0_t4_loop L).st) accM
      = invB d L O W ff gf ix fo (View.write (Elt F) tabS.view ft (ReadAs.same.apply (View.read (Elt F) globV.view gf)) Finset.univ) qf qi from by unfold invM; exact if_neg (Nat.lt_irrefl _)).trans
    (invB.eq_1 d L O W ff gf ix fo (View.write (Elt F) tabS.view ft (ReadAs.same.apply (View.read (Elt F) globV.view gf)) Finset.univ) qf qi))) $$ HI
  icases HI with ⟨%t0, %t1, %t2, %h0, %h1, %h2, %y0, %y1, %y2, %W', %hP, -, HO, Ht, Hdone, Hfl6, Hb0o, Hfl7, Hb1o, Hfl8, Hb2o, Hf0, Hf1, Hf2, Hi3, Hi4, Hi5, Hx0, Hx1, Hx2, Hs0, Hs1, Hs2, Hs3, Hs4, Hs5⟩
  obtain ⟨hW', ht0, ht1, ht2, h01, h02, h12, hk0, hk1, hk2⟩ := hP
  -- the second loop makes no trip
  iapply (Scf.wp_for_bind frame (wpE (defs₀ (F := F)) 𝒱₀ (thrV d L) none) Set.univ (k0_t8_loop L).lb (k0_t8_loop L).ub (k0_t8_loop L).st (k0_t8_ok L) accM
    (k0_t8_body L featV (Memref.isWhole_whole _) globV (Memref.isWhole_whole _) idxV (Memref.isWhole_whole _) outV (Memref.isWhole_whole _) tabS (Memref.isWhole_whole _) bufS0 (Memref.isWhole_whole _) bufS1 (Memref.isWhole_whole _) bufS2 (Memref.isWhole_whole _) ixS0 (Memref.isWhole_whole _) ixS1 (Memref.isWhole_whole _) ixS2 (Memref.isWhole_whole _) cc0_scratch7 cc0_scratch8 cc0_scratch9 cc0_scoped0 _ _ _ _ _ _ _) (fun _ _ => iprop(emp))
    (fun k => absurd k.isLt (Nat.not_lt.2 (Nat.le_trans (k0_t8_abs L).2.1 (Nat.zero_le _))))) $$ []
  · iempintro
  iintro %acc8 -
  dsimp only
  rw [dif_pos (fin_conds L).1, dif_pos (fin_conds L).2.1, dif_pos (fin_conds L).2.2]
  sl_exec
  rw [wp_ret]; imodintro
  -- the three returned pieces are done
  have hl0 : wid L + 32 * t0 < 2500 := (hnkt t0).1 ht0
  have hl1 : wid L + 32 * t1 < 2500 := (hnkt t1).1 ht1
  have hl2 : wid L + 32 * t2 < 2500 := (hnkt t2).1 ht2
  have hT0 : t0 < 81 := by omega
  have hT1 : t1 < 81 := by omega
  have hT2 : t2 < 81 := by omega
  ihave Hd0 := (Entails.of_eq (Dp_agree d L ff gf ix t0 hT0 (cOff L t0) (cOff_inb L t0)
    (show cOff L t0 0 = 25600 * (wid L + 32 * t0) from by show 25600 * gOf L t0 = _; rw [gOf_eq L hl0]) hl0 _
    (fun y => (writes_whole_emb d _ _ _ _ y).trans (hk0 y)))) $$ Hfl6_dst
  ihave Hd1 := (Entails.of_eq (Dp_agree d L ff gf ix t1 hT1 (cOff L t1) (cOff_inb L t1)
    (show cOff L t1 0 = 25600 * (wid L + 32 * t1) from by show 25600 * gOf L t1 = _; rw [gOf_eq L hl1]) hl1 _
    (fun y => (writes_whole_emb d _ _ _ _ y).trans (hk1 y)))) $$ Hfl7_dst
  ihave Hd2 := (Entails.of_eq (Dp_agree d L ff gf ix t2 hT2 (cOff L t2) (cOff_inb L t2)
    (show cOff L t2 0 = 25600 * (wid L + 32 * t2) from by show 25600 * gOf L t2 = _; rw [gOf_eq L hl2]) hl2 _
    (fun y => (writes_whole_emb d _ _ _ _ y).trans (hk2 y)))) $$ Hfl8_dst
  isplitl [Hfd Hf0 Hf1 Hf2 Hg Hid Hia Hib Hic Hi3 Hi4 Hi5 Hd0 Hd1 Hd2 Hdone]
  · isplitl [Hfd Hf0 Hf1 Hf2]
    · iapply (toks3 (F := F) qf).2
      isplitl [Hfd]; · iexact Hfd
      isplitl [Hf0]; · iexact Hf0
      isplitl [Hf1]; · iexact Hf1
      iexact Hf2
    isplitl [Hg]; · iexact Hg
    isplitl [Hid Hia Hib Hic Hi3 Hi4 Hi5]
    · iapply (toks6 (F := F) qi).2
      isplitl [Hid]; · iexact Hid
      isplitl [Hia]; · iexact Hia
      isplitl [Hib]; · iexact Hib
      isplitl [Hic]; · iexact Hic
      isplitl [Hi3]; · iexact Hi3
      isplitl [Hi4]; · iexact Hi4
      iexact Hi5
    · rw [pieces_D]
      iapply (Entails.of_eq (all_done (Dp d L ff gf ix) t0 t1 t2 hT0 hT1 hT2 h01 h02 h12))
      isplitl [Hd0]; · iexact Hd0
      isplitl [Hd1]; · iexact Hd1
      isplitl [Hd2]; · iexact Hd2
      iexact Hdone
  isplitl [Ht Hfl6_src Hb0o Hfl7_src Hb1o Hfl8_src Hb2o Hx0 Hx1 Hx2 Hbufs]
  · isplitr [Hbufs]
    · isplitl [Ht]; · iexists _; iexact Ht
      isplitl [Hfl6_src Hb0o]
      · iexists h0
        iapply (pointsTo_split_subset (Finset.subset_univ (bufS0).view.set)).2
        isplitl [Hfl6_src]; · iexact Hfl6_src
        iexact Hb0o
      isplitl [Hfl7_src Hb1o]
      · iexists h1
        iapply (pointsTo_split_subset (Finset.subset_univ (bufS1).view.set)).2
        isplitl [Hfl7_src]; · iexact Hfl7_src
        iexact Hb1o
      isplitl [Hfl8_src Hb2o]
      · iexists h2
        iapply (pointsTo_split_subset (Finset.subset_univ (bufS2).view.set)).2
        isplitl [Hfl8_src]; · iexact Hfl8_src
        iexact Hb2o
      isplitl [Hx0]; · iexists _; iexact Hx0
      isplitl [Hx1]; · iexists _; iexact Hx1
      iexists _; iexact Hx2
    · iexact Hbufs
  isplitl [Hs0 Hs1 Hs2 Hs3 Hs4 Hs5 Hfl6 Hfl7 Hfl8 Hs9 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hfl6]; · iexact Hfl6
      isplitl [Hfl7]; · iexact Hfl7
      isplitl [Hfl8]; · iexact Hfl8
      iexact Hs9
    · iexact Hsems
  iexists _
  isplitr
  rotate_left
  · iexact HO
  · ipureintro
    intro p hp
    simp only [Finset.mem_insert] at hp
    rcases hp with rfl | rfl | rfl | hp
    exacts [Or.inr rfl, Or.inr rfl, Or.inr rfl, hW' p hp]

end Tile

end Cert.KernelIdeal.Hand

end
-- ==== Proof.KILaunch.lean ====
/-
  The launch of the kernel program. @main reshapes the feature array and the table flat, calls the kernel on the two
  SparseCores' thirty-two tiles, and reshapes the flat result back to rows. At the call the four flat arrays are dealt
  out: worker 2 * i + c (core c, tile i) takes one of thirty-two read shares of each input and, of the flat result, the
  chunks 2 * i + c + 32 * t; each tile's body leaves its chunks at the specification's flat values; the pieces are taken
  back whole and the last reshape gives the specification of the three arguments, which end unchanged.
-/
import proofs.«216121_g54726473285929_cont_9to1_m_355_3_alg».proof.Proof.KIBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The arrays at the call -/

/-- The two-dimensional feature array, the table and the two-dimensional result, as locations of device `d`. -/
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The flat feature array and the flat table as the two reshapes before the call leave them. -/
def ffl (d : Dev nD) : Buf (Elt F) (fLoc d) := shapeCast S64000000 (m (aLoc d)) Facts₀.shapeCasts_S1000000x64_S64000000
def gfl (d : Dev nD) : Buf (Elt F) (gLoc d) := shapeCast S1024 (m (bLoc d)) Facts₀.shapeCasts_S16x64_S1024
/-- The flat result the tiles leave: the specification on flat arrays. -/
def resl (d : Dev nD) : Buf (Elt F) (oLoc d) := Cert.Proof.FlatSpec.Gflat (ffl m d) (gfl m d) (m (iLoc d))

/-! ## What the handshakes carry -/

/-- Worker (core `c`, tile `i`)'s read share of an input. -/
abbrev tok (c : Fin 2) (i : Fin 16) : PosShare TreeShare := Transfers.shareTok fullShare 32 ⟨2 * i.val + c.val, by omega⟩

/-- What worker (core `c`, tile `i`) holds: a read share of each input and its chunks of the flat result at `fo`. -/
def hold (d : Dev nD) (fo : Buf (Elt F) (oLoc d)) (c : Fin 2) (i : Fin 16) : sProp 𝕄 :=
  iprop((fLoc d ↦{tok c i} ffl m d) ∗ (gLoc d ↦{tok c i} gfl m d) ∗ (iLoc d ↦{tok c i} m (iLoc d))
    ∗ bigSep Finset.univ fun t : Fin 81 => (oLoc d ↦[Cert.Proof.Deal.tset (c, i, t)]{fullShare} fo : sProp 𝕄))

/-- A SparseCore's sixteen tiles' holdings. -/
@[irreducible] def holds (d : Dev nD) (fo : Buf (Elt F) (oLoc d)) (c : Fin 2) : sProp 𝕄 :=
  bigSep Finset.univ fun i : Fin 16 => hold m d fo c i

/-- The call takes, per SparseCore, its sixteen tiles' holdings with the result's chunks at the launch contents, and
    brings them back with the chunks at the specification's flat values. -/
def P : (K (F := F)).Pay (nD := nD) (Val := Elt F) (Name := ℕ) (U := UU) where
  st := fun q d c => match q with
    | 0 => holds m d (m (oLoc d)) (Fin.cast nCore_zero c)
  dn := fun q d c => match q with
    | 0 => holds m d (resl m d) (Fin.cast nCore_zero c)
  go := fun q d c i => match q with
    | 0 => hold m d (m (oLoc d)) (Fin.cast nCore_zero c) (Fin.cast nSub_zero i)
  td := fun q d c i => match q with
    | 0 => hold m d (resl m d) (Fin.cast nCore_zero c) (Fin.cast nSub_zero i)
  x := fun _ _ => iprop(emp)

theorem P_st (d : Dev nD) (c : Fin ((K (F := F)).nCore 0)) :
    (P m).st 0 d c = holds m d (m (oLoc d)) (Fin.cast nCore_zero c) := rfl
theorem P_dn (d : Dev nD) (c : Fin ((K (F := F)).nCore 0)) :
    (P m).dn 0 d c = holds m d (resl m d) (Fin.cast nCore_zero c) := rfl
theorem P_go (d : Dev nD) (c : Fin ((K (F := F)).nCore 0)) (i : Fin ((K (F := F)).nSub 0)) :
    (P m).go 0 d c i = hold m d (m (oLoc d)) (Fin.cast nCore_zero c) (Fin.cast nSub_zero i) := rfl
theorem P_td (d : Dev nD) (c : Fin ((K (F := F)).nCore 0)) (i : Fin ((K (F := F)).nSub 0)) :
    (P m).td 0 d c i = hold m d (resl m d) (Fin.cast nCore_zero c) (Fin.cast nSub_zero i) := rfl
theorem P_x (q : Fin 1) (thr : Thread nD τ) : (P m).x q thr = iprop(emp) := rfl

instance hold_storable (d : Dev nD) (fo : Buf (Elt F) (oLoc d)) (c : Fin 2) (i : Fin 16) :
    BI.Storable (upEmb : UEmb _ 𝕄) (hold m d fo c i) := by
  unfold hold; infer_instance

instance holds_storable (d : Dev nD) (fo : Buf (Elt F) (oLoc d)) (c : Fin 2) :
    BI.Storable (upEmb : UEmb _ 𝕄) (holds m d fo c) := by
  unfold holds; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          featV (Memref.isWhole_whole _) globV (Memref.isWhole_whole _) idxV (Memref.isWhole_whole _) outV (Memref.isWhole_whole _)
          tabS (Memref.isWhole_whole _) bufS0 (Memref.isWhole_whole _) bufS1 (Memref.isWhole_whole _) bufS2 (Memref.isWhole_whole _)
          ixS0 (Memref.isWhole_whole _) ixS1 (Memref.isWhole_whole _) ixS2 (Memref.isWhole_whole _)
          cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : ∀ d j, (m (iLoc d) j).toNat < 16) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold hold
  exact (tile_body d (coordsV ⟨_, hc.1⟩ ⟨_, hc.2⟩) hF O W hO (ffl m d) (gfl m d) (m (iLoc d)) (m (oLoc d)) (hix d) _ _ _).trans
    (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem Px_all : (bigSep Finset.univ fun thr : Thread nD τ => bigSep Finset.univ fun q : Fin 1 => (P m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [Px_all]
  iintro Hu
  ihave H := (ownU_pair _ _) $$ Hu
  icases H with ⟨HH, -⟩
  imodintro
  isplitl [HH]; · iexact HH
  isplitr; · rw [bigSep_emp']; iempintro
  iempintro

/-! ## Dealing the arrays to the thirty-two workers and back -/

/-- The three inputs' remainders after the thirty-two read shares. -/
def rest (d : Dev nD) : sProp 𝕄 :=
  iprop((fLoc d ↦{Transfers.shareDrop fullShare 32} ffl m d) ∗ (gLoc d ↦{Transfers.shareDrop fullShare 32} gfl m d)
    ∗ (iLoc d ↦{Transfers.shareDrop fullShare 32} m (iLoc d)))

/-- The two SparseCores' holdings, array by array. -/
theorem holds_split (d : Dev nD) (fo : Buf (Elt F) (oLoc d)) :
    (bigSep Finset.univ fun c : Fin 2 => holds m d fo c)
      = (iprop((bigSep Finset.univ fun c : Fin 2 => bigSep Finset.univ fun i : Fin 16 => fLoc d ↦{tok c i} ffl m d)
          ∗ (bigSep Finset.univ fun c : Fin 2 => bigSep Finset.univ fun i : Fin 16 => gLoc d ↦{tok c i} gfl m d)
          ∗ (bigSep Finset.univ fun c : Fin 2 => bigSep Finset.univ fun i : Fin 16 => iLoc d ↦{tok c i} m (iLoc d))
          ∗ (bigSep Finset.univ fun c : Fin 2 => bigSep Finset.univ fun i : Fin 16 => bigSep Finset.univ fun t : Fin 81 =>
              oLoc d ↦[Cert.Proof.Deal.tset (c, i, t)]{fullShare} fo)) : sProp 𝕄) := by
  unfold holds hold
  simp only [bigSep_sep']

omit [FloatOps F] in
theorem regroup (Fd FT Gd GT Id IT OT : sProp 𝕄) :
    (iprop((Fd ∗ FT) ∗ (Gd ∗ GT) ∗ (Id ∗ IT) ∗ OT) : sProp 𝕄) = iprop((Fd ∗ Gd ∗ Id) ∗ (FT ∗ GT ∗ IT ∗ OT)) := by
  have h1 : (iprop((Fd ∗ FT) ∗ (Gd ∗ GT) ∗ (Id ∗ IT) ∗ OT) : sProp 𝕄) ⊢ iprop((Fd ∗ Gd ∗ Id) ∗ (FT ∗ GT ∗ IT ∗ OT)) := by
    iintro ⟨⟨H1, H2⟩, ⟨H3, H4⟩, ⟨H5, H6⟩, H7⟩
    isplitl [H1 H3 H5]
    · isplitl [H1]; · iexact H1
      isplitl [H3]; · iexact H3
      iexact H5
    · isplitl [H2]; · iexact H2
      isplitl [H4]; · iexact H4
      isplitl [H6]; · iexact H6
      iexact H7
  have h2 : (iprop((Fd ∗ Gd ∗ Id) ∗ (FT ∗ GT ∗ IT ∗ OT)) : sProp 𝕄) ⊢ iprop((Fd ∗ FT) ∗ (Gd ∗ GT) ∗ (Id ∗ IT) ∗ OT) := by
    iintro ⟨⟨H1, H3, H5⟩, H2, H4, H6, H7⟩
    isplitl [H1 H2]
    · isplitl [H1]; · iexact H1
      iexact H2
    isplitl [H3 H4]
    · isplitl [H3]; · iexact H3
      iexact H4
    isplitl [H5 H6]
    · isplitl [H5]; · iexact H5
      iexact H6
    iexact H7
  exact BI.equiv_iff.mp ⟨h1, h2⟩

/-- The four flat arrays whole are the inputs' remainders and the two SparseCores' holdings. -/
theorem deal (d : Dev nD) (fo : Buf (Elt F) (oLoc d)) :
    (iprop((fLoc d ↦{fullShare} ffl m d) ∗ (gLoc d ↦{fullShare} gfl m d) ∗ (iLoc d ↦{fullShare} m (iLoc d)) ∗ (oLoc d ↦{fullShare} fo)) : sProp 𝕄)
      = iprop(rest m d ∗ bigSep Finset.univ fun c : Fin 2 => holds m d fo c) := by
  have hf := Cert.Proof.Deal.deal_toks (Ix := HIx 1) (Name := ℕ) (U := UU) (Lvl := ℕ) (ℓ := fLoc d) (f := ffl m d) Finset.univ fullShare
  have hg := Cert.Proof.Deal.deal_toks (Ix := HIx 1) (Name := ℕ) (U := UU) (Lvl := ℕ) (ℓ := gLoc d) (f := gfl m d) Finset.univ fullShare
  have hi := Cert.Proof.Deal.deal_toks (Ix := HIx 1) (Name := ℕ) (U := UU) (Lvl := ℕ) (ℓ := iLoc d) (f := m (iLoc d)) Finset.univ fullShare
  rw [holds_split, BI.equiv_iff.mp ⟨hf.1, hf.2⟩, BI.equiv_iff.mp ⟨hg.1, hg.2⟩, BI.equiv_iff.mp ⟨hi.1, hi.2⟩,
    Cert.Proof.Deal.deal_out (ℓ := oLoc d) (f := fo) (q := fullShare) Cert.Proof.Deal.tset Cert.Proof.Deal.tset_disjoint Cert.Proof.Deal.tset_cover]
  unfold rest
  exact regroup _ _ _ _ _ _ _

theorem st0_eq (d : Dev nD) :
    (bigSep Finset.univ fun c : Fin ((K (F := F)).nCore 0) => (P m).st 0 d c) = bigSep Finset.univ fun c : Fin 2 => holds m d (m (oLoc d)) c :=
  bigSep_congr fun c _ => (P_st m d c).trans (congrArg (holds m d (m (oLoc d))) (Fin.ext rfl))
theorem dn0_eq (d : Dev nD) :
    (bigSep Finset.univ fun c : Fin ((K (F := F)).nCore 0) => (P m).dn 0 d c) = bigSep Finset.univ fun c : Fin 2 => holds m d (resl m d) c :=
  bigSep_congr fun c _ => (P_dn m d c).trans (congrArg (holds m d (resl m d)) (Fin.ext rfl))

theorem go0_eq (d : Dev nD) (c : Fin ((K (F := F)).nCore 0)) :
    (bigSep Finset.univ fun i : Fin ((K (F := F)).nSub 0) => (P m).go 0 d c i) = holds m d (m (oLoc d)) (Fin.cast nCore_zero c) := by
  unfold holds
  exact bigSep_congr fun i _ => (P_go m d c i).trans (congrArg (hold m d (m (oLoc d)) (Fin.cast nCore_zero c)) (Fin.ext rfl))
theorem td0_eq (d : Dev nD) (c : Fin ((K (F := F)).nCore 0)) :
    (bigSep Finset.univ fun i : Fin ((K (F := F)).nSub 0) => (P m).td 0 d c i) = holds m d (resl m d) (Fin.cast nCore_zero c) := by
  unfold holds
  exact bigSep_congr fun i _ => (P_td m d c i).trans (congrArg (hold m d (resl m d) (Fin.cast nCore_zero c)) (Fin.ext rfl))

/-- A SparseCore's operands are its tiles' holdings as they stand, and so are its results. -/
theorem vecSplit : (K (F := F)).VecSplit' (P m) 0 := by
  intro d c
  rw [P_st, P_dn, go0_eq, td0_eq]
  iintro H; imodintro
  isplitl [H]; · iexact H
  iintro H; iexact H

/-! ## @main on the TensorCore -/

abbrev a' : DevRef τ sig := Proc.devRef .tc (main_arg0 : Ref sig .tc)
abbrev b' : DevRef τ sig := Proc.devRef .tc (main_arg1 : Ref sig .tc)
abbrev f' : DevRef τ sig := Proc.devRef .tc (main_v0 : Ref sig .tc)
abbrev g' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three host reshapes of @main. -/
abbrev op1 : HloOp τ sig (Elt F) := StableHlo.reshape main_arg0 main_v0 rfl Facts₀.shapeCasts_S1000000x64_S64000000
abbrev op2 : HloOp τ sig (Elt F) := StableHlo.reshape main_arg1 main_v1 rfl Facts₀.shapeCasts_S16x64_S1024
abbrev op3 : HloOp τ sig (Elt F) := StableHlo.reshape main_v2 main_v3 rfl Facts₀.shapeCasts_S64000000_S1000000x64

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_arg2)
      ∗ (fLoc d ↦{fullShare} W main_v0) ∗ (gLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one before the last reshape: the flat result at the specification's values. -/
def V0 (d : Dev nD) : Valuation τ sig (Elt F) := fun b => m (d, b)
def V3 (d : Dev nD) : Valuation τ sig (Elt F) := Function.update (V0 m d) o' (resl m d)

theorem V3_o (d : Dev nD) : V3 m d o' = resl m d := Function.update_self _ _ _
theorem V3_r (d : Dev nD) : V3 m d r' = m (rLoc d) := Function.update_of_ne (show r' ≠ o' by decide) _ _

omit [FloatOps F] in
theorem held1 (d : Dev nD) (W : Valuation τ sig (Elt F)) :
    (held (T d) (op1 (F := F)).bufs W : sProp 𝕄) = iprop((aLoc d ↦{fullShare} W a') ∗ (fLoc d ↦{fullShare} W f')) := by
  unfold held
  rw [show (op1 (F := F)).bufs = {a', f'} from rfl, SparseCore.bigSep_insert' (by decide), bigSep_singleton]
omit [FloatOps F] in
theorem held2 (d : Dev nD) (W : Valuation τ sig (Elt F)) :
    (held (T d) (op2 (F := F)).bufs W : sProp 𝕄) = iprop((bLoc d ↦{fullShare} W b') ∗ (gLoc d ↦{fullShare} W g')) := by
  unfold held
  rw [show (op2 (F := F)).bufs = {b', g'} from rfl, SparseCore.bigSep_insert' (by decide), bigSep_singleton]
omit [FloatOps F] in
theorem held3 (d : Dev nD) (W : Valuation τ sig (Elt F)) :
    (held (T d) (op3 (F := F)).bufs W : sProp 𝕄) = iprop((oLoc d ↦{fullShare} W o') ∗ (rLoc d ↦{fullShare} W r')) := by
  unfold held
  rw [show (op3 (F := F)).bufs = {o', r'} from rfl, SparseCore.bigSep_insert' (by decide), bigSep_singleton]

omit [FloatOps F] in
theorem res1_a (W : Valuation τ sig (Elt F)) : (op1 (F := F)).result W a' = W a' :=
  (op1 (F := F)).result_of_not_mem W (show a' ∉ ({f'} : Finset (DevRef τ sig)) by decide)
omit [FloatOps F] in
theorem res2_b (W : Valuation τ sig (Elt F)) : (op2 (F := F)).result W b' = W b' :=
  (op2 (F := F)).result_of_not_mem W (show b' ∉ ({g'} : Finset (DevRef τ sig)) by decide)
omit [FloatOps F] in
theorem res3_o (W : Valuation τ sig (Elt F)) : (op3 (F := F)).result W o' = W o' :=
  (op3 (F := F)).result_of_not_mem W (show o' ∉ ({r'} : Finset (DevRef τ sig)) by decide)

theorem res1_f (d : Dev nD) : (op1 (F := F)).result (V0 m d) f' = ffl m d :=
  (StableHlo.reshape_result main_arg0 main_v0 rfl _ _ _ (V0 m d)).trans rfl
theorem res2_g (d : Dev nD) : (op2 (F := F)).result (V0 m d) g' = gfl m d :=
  (StableHlo.reshape_result main_arg1 main_v1 rfl _ _ _ (V0 m d)).trans rfl

/-- The two-dimensional result: the flat result reshaped back. -/
def out2 (d : Dev nD) : Buf (Elt F) (rLoc d) := shapeCast S1000000x64 (resl m d) Facts₀.shapeCasts_S64000000_S1000000x64

theorem res3_r (d : Dev nD) : (op3 (F := F)).result (V3 m d) r' = out2 m d := by
  rw [show (op3 (F := F)).result (V3 m d) r' = _ from StableHlo.reshape_result main_v2 main_v3 rfl _ _ _ (V3 m d)]
  unfold out2
  rw [← V3_o m d]
  rfl

/-- What each reshape leaves in its two buffers. -/
theorem held1_res (d : Dev nD) :
    (held (T d) (op1 (F := F)).bufs ((op1 (F := F)).result (V0 m d)) : sProp 𝕄) = iprop((aLoc d ↦{fullShare} m (aLoc d)) ∗ (fLoc d ↦{fullShare} ffl m d)) := by
  rw [held1, res1_a, res1_f]; rfl
theorem held2_res (d : Dev nD) :
    (held (T d) (op2 (F := F)).bufs ((op2 (F := F)).result (V0 m d)) : sProp 𝕄) = iprop((bLoc d ↦{fullShare} m (bLoc d)) ∗ (gLoc d ↦{fullShare} gfl m d)) := by
  rw [held2, res2_b, res2_g]; rfl
theorem held3_pre (d : Dev nD) :
    (held (T d) (op3 (F := F)).bufs (V3 m d) : sProp 𝕄) = iprop((oLoc d ↦{fullShare} resl m d) ∗ (rLoc d ↦{fullShare} m (rLoc d))) := by
  rw [held3, V3_o, V3_r]
theorem held3_res (d : Dev nD) :
    (held (T d) (op3 (F := F)).bufs ((op3 (F := F)).result (V3 m d)) : sProp 𝕄) = iprop((oLoc d ↦{fullShare} resl m d) ∗ (rLoc d ↦{fullShare} out2 m d)) := by
  rw [held3, res3_o, V3_o, res3_r]

/-- What @main leaves the claim: the three arguments at their launch contents and the result reshaped from the
    specification's flat values. -/
abbrev FIN (d : Dev nD) : sProp 𝕄 :=
  iprop((aLoc d ↦{fullShare} m (aLoc d)) ∗ (bLoc d ↦{fullShare} m (bLoc d)) ∗ (iLoc d ↦{fullShare} m (iLoc d)) ∗ (rLoc d ↦{fullShare} out2 m d))

/-- @main on device `d`'s TensorCore: the two reshapes, the call (the four flat arrays dealt to the thirty-two workers and
    taken back), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hbb, Hi, Hf, Hg, Ho, Hr⟩, -, -⟩, -⟩
  -- the first reshape: the feature array flat
  iapply (wp_hlo_within 𝒱 (SparseCore.T d) none Set.univ (op := op1) (S := (op1 (F := F)).bufs) (Finset.Subset.refl _) (V := V0 m d)) $$ [Hb Ha Hf]
  · isplitl [Hb]; · iexact Hb
    rw [held1]
    isplitl [Ha]; · iexact Ha
    iexact Hf
  iintro ⟨Hb, Hh⟩
  ihave Hh' := (Entails.of_eq (held1_res m d)) $$ Hh
  icases Hh' with ⟨Ha, Hf⟩
  rw [wp_ret]; imodintro
  -- the second reshape: the table flat
  iapply (wp_hlo_within 𝒱 (SparseCore.T d) none Set.univ (op := op2) (S := (op2 (F := F)).bufs) (Finset.Subset.refl _) (V := V0 m d)) $$ [Hb Hbb Hg]
  · isplitl [Hb]; · iexact Hb
    rw [held2]
    isplitl [Hbb]; · iexact Hbb
    iexact Hg
  iintro ⟨Hb, Hh⟩
  ihave Hh' := (Entails.of_eq (held2_res m d)) $$ Hh
  icases Hh' with ⟨Hbb, Hg⟩
  rw [wp_ret]; imodintro
  -- the four flat arrays dealt out
  ihave Hd := (Entails.of_eq (deal m d (m (oLoc d)))) $$ [Hf Hg Hi Ho]
  · isplitl [Hf]; · iexact Hf
    isplitl [Hg]; · iexact Hg
    isplitl [Hi]; · iexact Hi
    iexact Ho
  icases Hd with ⟨Hrest, Hholds⟩
  -- the call
  iapply ((K (F := F)).wp_run (D (F := F)) 𝒱 (EH := EH) (P := P m) κ d 0) $$ [Hst Hholds Hrest Hb Ha Hbb Hr]
  isplitr; · iexact Hctx
  isplitl [Hst]; · iexact Hst
  isplitl [Hholds]
  · rw [st0_eq]; iexact Hholds
  iintro ⟨Hst, Hdn⟩
  -- and taken back, the flat result at the specification's values
  ihave Hd := (Entails.of_eq (deal m d (resl m d)).symm) $$ [Hrest Hdn]
  · isplitl [Hrest]; · iexact Hrest
    rw [← dn0_eq]; iexact Hdn
  icases Hd with ⟨Hf, Hg, Hi, Ho⟩
  -- the last reshape: the result in rows
  iapply (wp_hlo_within 𝒱 (SparseCore.T d) none Set.univ (op := op3) (S := (op3 (F := F)).bufs) (Finset.Subset.refl _) (V := V3 m d)) $$ [Hb Ho Hr]
  · isplitl [Hb]; · iexact Hb
    rw [held3_pre]
    isplitl [Ho]; · iexact Ho
    iexact Hr
  iintro ⟨Hb, Hh⟩
  ihave Hh' := (Entails.of_eq (held3_res m d)) $$ Hh
  icases Hh' with ⟨Ho, Hr⟩
  rw [wp_ret]; imodintro; imodintro
  isplitl [Hst]; · iexact Hst
  isplitl [Ha]; · iexact Ha
  isplitl [Hbb]; · iexact Hbb
  isplitl [Hi]; · iexact Hi
  iexact Hr

/-! ## The final memory and the claim -/

def fq (d : Dev nD) (s' : Phys nD τ sig (Elt F)) : Prop :=
  s'.mem.mem (rLoc d) = out2 m d ∧ s'.mem.mem (aLoc d) = m (aLoc d) ∧ s'.mem.mem (bLoc d) = m (bLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hb, Hi, Hr⟩, HSI⟩
  icombine HSI Ha gives %h1
  icombine HSI Hb gives %h2
  icombine HSI Hi gives %h3
  icombine HSI Hr gives %h4
  ipureintro
  exact ⟨funext fun i => h4 i (Finset.mem_univ i), funext fun i => h1 i (Finset.mem_univ i),
    funext fun i => h2 i (Finset.mem_univ i), funext fun i => h3 i (Finset.mem_univ i)⟩

/-- The result in rows is the specification of the three arguments. -/
theorem out2_eq (d : Dev nD) : out2 m d = Cert.Spec.G (m (aLoc d)) (m (bLoc d)) (m (iLoc d)) := by
  unfold out2 resl ffl gfl
  exact Cert.Proof.FlatSpec.unflatten (m (aLoc d)) (m (bLoc d)) (m (iLoc d)) _ _ _

/-- The program's run: on every device the result is the specification of the arguments, which end unchanged. -/
theorem run_main [∀ e, Nonempty (Elt F e)] (hix : ∀ c : Dev nD, Cert.Spec.IdxOK (m ((c.tc : Thread nD τ).loc main_arg2))) :
    θ_run (Cert.KernelIdeal.defs (F := F)) (Cert.KernelIdeal.threads (F := F)) ⟨m, fun _ => 0, ρ⟩ (fun r => ∀ c : Dev nD,
      r.2.mem ((c.tc : Thread nD τ).loc main_v3)
          = Cert.Spec.G (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  SparseCore.Cfg.θ_run_sc (K := K (F := F)) (D := D (F := F)) (𝒱 := 𝒱) (EH := EH) (P := P m) facts v₀
    (fun q hq => match q with | 0 => nomatch hq)
    (fun q _ => match q with | 0 => tileObl m facts fun d j => hix d j)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1.trans (out2_eq m c), (h c).2.1, (h c).2.2.1, (h c).2.2.2⟩)

end Cert.KernelIdeal.Hand

end
-- ==== Proof.lean ====
/- Both programs compute, row by row, the feature row plus the row of the sixteen-row table that the row's batch
   index names. The kernel does it on flat arrays, in chunks of 400 rows dealt round-robin to 32 workers; the reference
   through a gather of table rows. Each run ends with its result at one function of the three argument arrays, the
   arguments unchanged; the index range that function asks for is read off the input-domain predicate. -/
import proofs.«216121_g54726473285929_cont_9to1_m_355_3_alg».proof.Defs
import proofs.«216121_g54726473285929_cont_9to1_m_355_3_alg».proof.Proof.Gen.Kernel
import proofs.«216121_g54726473285929_cont_9to1_m_355_3_alg».proof.Proof.Gen.Kernel.Skeleton
import proofs.«216121_g54726473285929_cont_9to1_m_355_3_alg».proof.Proof.Gen.KernelIdeal
import proofs.«216121_g54726473285929_cont_9to1_m_355_3_alg».proof.Proof.Gen.KernelIdeal.Skeleton
import proofs.«216121_g54726473285929_cont_9to1_m_355_3_alg».proof.Proof.Gen.ReferenceIdeal
import proofs.«216121_g54726473285929_cont_9to1_m_355_3_alg».proof.Proof.Gen.Pre_input_domain
import proofs.«216121_g54726473285929_cont_9to1_m_355_3_alg».proof.Proof.PreIdx
import proofs.«216121_g54726473285929_cont_9to1_m_355_3_alg».proof.Proof.RefRun
import proofs.«216121_g54726473285929_cont_9to1_m_355_3_alg».proof.Proof.KLaunch
import proofs.«216121_g54726473285929_cont_9to1_m_355_3_alg».proof.Proof.KILaunch
import Idealize.ShloMosaic.Adequacy
import Idealize.ShloMosaic.Init

noncomputable section

namespace Cert.Proof

open Idealize.ShloMosaic Idealize.SL.Sem

/-- The kernel as printed runs and leaves its arguments as they were: its run, the value dropped. The index range
    the run asks for is what the input-domain predicate says of the third argument. -/
theorem frame_k : Cert.frame_Kernel := fun m ρ hpre =>
  (θ_run Cert.Kernel.defs _ _).mono (fun _ h c => (h c).2)
    (Cert.Kernel.Hand.run_main (F := Bits) m ρ (fun c => Cert.Proof.PreIdx.idxOK_of_pre _ _ _ (hpre c)))

/-- The same for the kernel read over the extended reals. -/
theorem frame_ki : Cert.frame_KernelIdeal := fun m ρ hpre =>
  (θ_run Cert.KernelIdeal.defs _ _).mono (fun _ h c => (h c).2)
    (Cert.KernelIdeal.Hand.run_main (F := Ideal) m ρ (fun c => Cert.Proof.PreIdx.idxOK_of_pre _ _ _ (hpre c)))

/-- The reference runs and leaves its arguments as they were: its run, the value dropped. -/
theorem frame_r : Cert.frame_ReferenceIdeal := fun m ρ hpre =>
  (θ_run Cert.ReferenceIdeal.defs _ _).mono (fun _ h c => (h c).2)
    (Cert.ReferenceIdeal.RefValue.run m ρ (fun c => Cert.Proof.PreIdx.idxOK_of_pre _ _ _ (hpre c)))

/-- Over the extended reals, from memories that agree on the three arguments, the kernel and the reference both end
    with their result at the specification's function of the kernel's arguments: the kernel by its run, the reference
    by its run at its own arguments, which are the kernel's. -/
theorem algebraic : Cert.algebraic_KernelIdeal_ReferenceIdeal := by
  intro m ρ m' ρ' hpre hagree
  have hix : ∀ c : Dev Cert.KernelIdeal.nD, Cert.Spec.IdxOK
      (m ((c.tc : Thread Cert.KernelIdeal.nD Cert.KernelIdeal.τ).loc Cert.KernelIdeal.main_arg2)) :=
    fun c => Cert.Proof.PreIdx.idxOK_of_pre _ _ _ (hpre c)
  have hix' : ∀ c : Dev Cert.ReferenceIdeal.nD, Cert.Spec.IdxOK
      (m' ((c.tc : Thread Cert.ReferenceIdeal.nD Cert.ReferenceIdeal.τ).loc Cert.ReferenceIdeal.main_arg2)) := by
    intro c
    rw [(hagree c).2.2]
    exact hix c
  refine ⟨fun c => Cert.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_main (F := Ideal) m ρ hix, ?_⟩
  refine (θ_run Cert.ReferenceIdeal.defs _ _).mono (fun _ h c => ⟨(h c).1.trans ?_, (h c).2⟩)
    (Cert.ReferenceIdeal.RefValue.run m' ρ' hix')
  rw [(hagree c).1, (hagree c).2.1, (hagree c).2.2]

theorem claim : Cert.Claim := ⟨Cert.Kernel.Gen.facts, Cert.KernelIdeal.Gen.facts, Cert.ReferenceIdeal.Gen.facts, Cert.Pre_input_domain.Gen.facts,
  frame_k, frame_ki, frame_r, trivial, algebraic⟩

end Cert.Proof

end
